-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S320000x16 : Shape := ⟨2, ![320000, 16]⟩
abbrev S10000x128 : Shape := ⟨2, ![10000, 128]⟩
abbrev S2x320000 : Shape := ⟨2, ![2, 320000]⟩
abbrev S128x16 : Shape := ⟨2, ![128, 16]⟩
abbrev S128x128 : Shape := ⟨2, ![128, 128]⟩
abbrev S128 : Shape := ⟨1, ![128]⟩
abbrev S_ : Shape := ⟨0, ![]⟩

class Facts : Prop where
  bcast_S_S320000x16 : S_.BroadcastsInDim S320000x16 (![] : Fin 0 → Fin S320000x16.rank)
  reducesTo_S320000x16_S_d0_1 : S320000x16.ReducesTo [0, 1] S_
  h_S_ : 0 < S_.numel
  bcast_S_S10000x128 : S_.BroadcastsInDim S10000x128 (![] : Fin 0 → Fin S10000x128.rank)
  reducesTo_S10000x128_S_d0_1 : S10000x128.ReducesTo [0, 1] S_
  bcast_S_S128x16 : S_.BroadcastsInDim S128x16 (![] : Fin 0 → Fin S128x16.rank)
  reducesTo_S128x16_S_d0_1 : S128x16.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S2x320000 : S_.BroadcastsInDim S2x320000 (![] : Fin 0 → Fin S2x320000.rank)
  reducesTo_S2x320000_S_d0_1 : S2x320000.ReducesTo [0, 1] S_

variable [Facts]

def fn_part3 {F : FTy → Type} [FloatOps F] (main_arg3 : IVec S2x320000 32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_c_20 : IVec S_ 32 := constantI S_ 32 0#32
  let main_v54 : IVec S2x320000 32 := broadcastInDim S2x320000 ![] bcast_S_S2x320000 main_c_20
  let main_v55 : IVec S2x320000 1 := cmpi .sge main_arg3 main_v54
  let main_c_21 : IVec S_ 32 := constantI S_ 32 9999#32
  let main_v56 : IVec S2x320000 32 := broadcastInDim S2x320000 ![] bcast_S_S2x320000 main_c_21
  let main_v57 : IVec S2x320000 1 := cmpi .sle main_arg3 main_v56
  let main_v58 : IVec S2x320000 1 := andi main_v55 main_v57
  let main_c_22 : IVec S_ 1 := constantI S_ 1 1#1
  let main_v59 : IVec S_ 1 := (fun x v => Host.reduce IntOp.andi x v reducesTo_S2x320000_S_d0_1 h_S_) main_v58 main_c_22
  let main_v60 : IVec S_ 1 := andi main_v53 main_v59
  main_v60

def fn_part2 {F : FTy → Type} [FloatOps F] (main_arg3 : IVec S2x320000 32) (main_arg8 : FVec F S128x128 .f32) (main_arg9 : FVec F S128 .f32) (main_arg10 : FVec F S128 .f32) (main_arg11 : FVec F S128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg3 main_v48 main_v49 main_v50

def fn_part1 {F : FTy → Type} [FloatOps F] (main_arg3 : IVec S2x320000 32) (main_arg5 : FVec F S128x128 .f32) (main_arg6 : FVec F S128x128 .f32) (main_arg7 : FVec F S128 .f32) (main_arg8 : FVec F S128x128 .f32) (main_arg9 : FVec F S128 .f32) (main_arg10 : FVec F S128 .f32) (main_arg11 : FVec F S128 .f32) (main_v13 : IVec S_ 1) (main_v16 : IVec S128x16 1) : IVec S_ 1 :=
  let main_c_5 : IVec S_ 1 := constantI S_ 1 1#1
  let main_v17 : IVec S_ 1 := (fun x v => Host.reduce IntOp.andi x v reducesTo_S128x16_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg3 main_arg8 main_arg9 main_arg10 main_arg11 main_v33

def fn {F : FTy → Type} [FloatOps F] (main_arg0 : FVec F S320000x16 .f32) (main_arg1 : FVec F S10000x128 .f32) (main_arg2 : FVec F S10000x128 .f32) (main_arg3 : IVec S2x320000 32) (main_arg4 : FVec F S128x16 .f32) (main_arg5 : FVec F S128x128 .f32) (main_arg6 : FVec F S128x128 .f32) (main_arg7 : FVec F S128 .f32) (main_arg8 : FVec F S128x128 .f32) (main_arg9 : FVec F S128 .f32) (main_arg10 : FVec F S128 .f32) (main_arg11 : FVec F S128 .f32) : IVec S_ 1 :=
  let main_v0 : FVec F S320000x16 .f32 := Host.absf main_arg0
  let main_cst : FVec F S_ .f32 := constant S_ .f32 0x7F800000#32
  let main_v1 : FVec F S320000x16 .f32 := broadcastInDim S320000x16 ![] bcast_S_S320000x16 main_cst
  let main_v2 : IVec S320000x16 1 := cmpf .olt main_v0 main_v1
  let main_c : IVec S_ 1 := constantI S_ 1 1#1
  let main_v3 : IVec S_ 1 := (fun x v => Host.reduce IntOp.andi x v reducesTo_S320000x16_S_d0_1 h_S_) main_v2 main_c
  let main_v4 : FVec F S10000x128 .f32 := Host.absf main_arg1
  let main_cst_0 : FVec F S_ .f32 := constant S_ .f32 0x7F800000#32
  let main_v5 : FVec F S10000x128 .f32 := broadcastInDim S10000x128 ![] bcast_S_S10000x128 main_cst_0
  let main_v6 : IVec S10000x128 1 := cmpf .olt main_v4 main_v5
  let main_c_1 : IVec S_ 1 := constantI S_ 1 1#1
  let main_v7 : IVec S_ 1 := (fun x v => Host.reduce IntOp.andi x v reducesTo_S10000x128_S_d0_1 h_S_) main_v6 main_c_1
  let main_v8 : IVec S_ 1 := andi main_v3 main_v7
  let main_v9 : FVec F S10000x128 .f32 := Host.absf main_arg2
  let main_cst_2 : FVec F S_ .f32 := constant S_ .f32 0x7F800000#32
  let main_v10 : FVec F S10000x128 .f32 := broadcastInDim S10000x128 ![] bcast_S_S10000x128 main_cst_2
  let main_v11 : IVec S10000x128 1 := cmpf .olt main_v9 main_v10
  let main_c_3 : IVec S_ 1 := constantI S_ 1 1#1
  let main_v12 : IVec S_ 1 := (fun x v => Host.reduce IntOp.andi x v reducesTo_S10000x128_S_d0_1 h_S_) main_v11 main_c_3
  let main_v13 : IVec S_ 1 := andi main_v8 main_v12
  let main_v14 : FVec F S128x16 .f32 := Host.absf main_arg4
  let main_cst_4 : FVec F S_ .f32 := constant S_ .f32 0x7F800000#32
  let main_v15 : FVec F S128x16 .f32 := broadcastInDim S128x16 ![] bcast_S_S128x16 main_cst_4
  let main_v16 : IVec S128x16 1 := cmpf .olt main_v14 main_v15
  fn_part1 (F := F) main_arg3 main_arg5 main_arg6 main_arg7 main_arg8 main_arg9 main_arg10 main_arg11 main_v13 main_v16
-- ==== Kernel.lean ====
abbrev S320000x16 : Shape := ⟨2, ![320000, 16]⟩
abbrev S10000x128 : Shape := ⟨2, ![10000, 128]⟩
abbrev S2x320000 : Shape := ⟨2, ![2, 320000]⟩
abbrev S128x16 : Shape := ⟨2, ![128, 16]⟩
abbrev S128x128 : Shape := ⟨2, ![128, 128]⟩
abbrev S128 : Shape := ⟨1, ![128]⟩
abbrev S1x128x128 : Shape := ⟨3, ![1, 128, 128]⟩
abbrev S2x128x128 : Shape := ⟨3, ![2, 128, 128]⟩
abbrev S_ : Shape := ⟨0, ![]⟩
abbrev S1x128 : Shape := ⟨2, ![1, 128]⟩
abbrev S2x128 : Shape := ⟨2, ![2, 128]⟩
abbrev S2x1x128 : Shape := ⟨3, ![2, 1, 128]⟩
abbrev S2x10000x128 : Shape := ⟨3, ![2, 10000, 128]⟩
abbrev S1x1x128 : Shape := ⟨3, ![1, 1, 128]⟩
abbrev S1x10000x128 : Shape := ⟨3, ![1, 10000, 128]⟩
abbrev S20000x128 : Shape := ⟨2, ![20000, 128]⟩
abbrev S3840 : Shape := ⟨1, ![3840]⟩
abbrev S16x128 : Shape := ⟨2, ![16, 128]⟩
abbrev S1x160000 : Shape := ⟨2, ![1, 160000]⟩
abbrev S160000 : Shape := ⟨1, ![160000]⟩
abbrev S327680 : Shape := ⟨1, ![327680]⟩
abbrev S327680x128 : Shape := ⟨2, ![327680, 128]⟩
abbrev S2048 : Shape := ⟨1, ![2048]⟩
abbrev S1000x128 : Shape := ⟨2, ![1000, 128]⟩
abbrev S16 : Shape := ⟨1, ![16]⟩
abbrev S2x163840x128 : Shape := ⟨3, ![2, 163840, 128]⟩
abbrev S320000x128 : Shape := ⟨2, ![320000, 128]⟩
abbrev S8000x16 : Shape := ⟨2, ![8000, 16]⟩
abbrev S1x8000x128 : Shape := ⟨3, ![1, 8000, 128]⟩
abbrev S8000x128 : Shape := ⟨2, ![8000, 128]⟩
abbrev S8000 : Shape := ⟨1, ![8000]⟩
abbrev S8000x1 : Shape := ⟨2, ![8000, 1]⟩

abbrev nBuf : Table → Nat
  | .hbm => 59
  | .local .tc .vmem => 34
  | .shared => 2
  | .local .scVector .vmem => 6
  | _ => 0

abbrev bufTy : (tb : Table) → Fin (nBuf tb) → BufTy
  | .hbm, ⟨0, _⟩ => ⟨S320000x16, .f32⟩
  | .hbm, ⟨1, _⟩ => ⟨S10000x128, .f32⟩
  | .hbm, ⟨2, _⟩ => ⟨S10000x128, .f32⟩
  | .hbm, ⟨3, _⟩ => ⟨S2x320000, .i32⟩
  | .hbm, ⟨4, _⟩ => ⟨S128x16, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S1x128x128, .f32⟩
  | .hbm, ⟨13, _⟩ => ⟨S1x128x128, .f32⟩
  | .hbm, ⟨14, _⟩ => ⟨S2x128x128, .f32⟩
  | .hbm, ⟨15, _⟩ => ⟨S_, .f32⟩
  | .hbm, ⟨16, _⟩ => ⟨S128, .f32⟩
  | .hbm, ⟨17, _⟩ => ⟨S1x128, .f32⟩
  | .hbm, ⟨18, _⟩ => ⟨S1x128, .f32⟩
  | .hbm, ⟨19, _⟩ => ⟨S2x128, .f32⟩
  | .hbm, ⟨20, _⟩ => ⟨S2x1x128, .f32⟩
  | .hbm, ⟨21, _⟩ => ⟨S2x10000x128, .f32⟩
  | .hbm, ⟨22, _⟩ => ⟨S20000x128, .f32⟩
  | .hbm, ⟨23, _⟩ => ⟨S_, .i32⟩
  | .hbm, ⟨24, _⟩ => ⟨S3840, .i32⟩
  | .hbm, ⟨25, _⟩ => ⟨S16x128, .f32⟩
  | .hbm, ⟨26, _⟩ => ⟨S128x128, .f32⟩
  | .hbm, ⟨27, _⟩ => ⟨S128x128, .bf16⟩
  | .hbm, ⟨28, _⟩ => ⟨S1x128, .f32⟩
  | .hbm, ⟨29, _⟩ => ⟨S1x128, .f32⟩
  | .hbm, ⟨30, _⟩ => ⟨S1x128, .f32⟩
  | .hbm, ⟨31, _⟩ => ⟨S1x160000, .i32⟩
  | .hbm, ⟨32, _⟩ => ⟨S160000, .i32⟩
  | .hbm, ⟨33, _⟩ => ⟨S1x160000, .i32⟩
  | .hbm, ⟨34, _⟩ => ⟨S160000, .i32⟩
  | .hbm, ⟨35, _⟩ => ⟨S_, .i32⟩
  | .hbm, ⟨36, _⟩ => ⟨S160000, .i32⟩
  | .hbm, ⟨37, _⟩ => ⟨S160000, .i32⟩
  | .hbm, ⟨38, _⟩ => ⟨S_, .i32⟩
  | .hbm, ⟨39, _⟩ => ⟨S3840, .i32⟩
  | .hbm, ⟨40, _⟩ => ⟨S3840, .i32⟩
  | .hbm, ⟨41, _⟩ => ⟨S327680, .i32⟩
  | .hbm, ⟨42, _⟩ => ⟨S327680x128, .f32⟩
  | .hbm, ⟨43, _⟩ => ⟨S2x163840x128, .f32⟩
  | .hbm, ⟨44, _⟩ => ⟨S320000x128, .f32⟩
  | .hbm, ⟨45, _⟩ => ⟨S1x160000, .i32⟩
  | .hbm, ⟨46, _⟩ => ⟨S160000, .i32⟩
  | .hbm, ⟨47, _⟩ => ⟨S1x160000, .i32⟩
  | .hbm, ⟨48, _⟩ => ⟨S160000, .i32⟩
  | .hbm, ⟨49, _⟩ => ⟨S_, .i32⟩
  | .hbm, ⟨50, _⟩ => ⟨S160000, .i32⟩
  | .hbm, ⟨51, _⟩ => ⟨S160000, .i32⟩
  | .hbm, ⟨52, _⟩ => ⟨S_, .i32⟩
  | .hbm, ⟨53, _⟩ => ⟨S3840, .i32⟩
  | .hbm, ⟨54, _⟩ => ⟨S3840, .i32⟩
  | .hbm, ⟨55, _⟩ => ⟨S327680, .i32⟩
  | .hbm, ⟨56, _⟩ => ⟨S327680x128, .f32⟩
  | .hbm, ⟨57, _⟩ => ⟨S2x163840x128, .f32⟩
  | .hbm, ⟨58, _⟩ => ⟨S320000x128, .f32⟩
  | .local .tc .vmem, ⟨0, _⟩ => ⟨S10000x128, .f32⟩
  | .local .tc .vmem, ⟨1, _⟩ => ⟨S10000x128, .f32⟩
  | .local .tc .vmem, ⟨2, _⟩ => ⟨S1x128x128, .f32⟩
  | .local .tc .vmem, ⟨3, _⟩ => ⟨S1x128x128, .f32⟩
  | .local .tc .vmem, ⟨4, _⟩ => ⟨S1x1x128, .f32⟩
  | .local .tc .vmem, ⟨5, _⟩ => ⟨S1x1x128, .f32⟩
  | .local .tc .vmem, ⟨6, _⟩ => ⟨S1x10000x128, .f32⟩
  | .local .tc .vmem, ⟨7, _⟩ => ⟨S1x10000x128, .f32⟩
  | .local .tc .vmem, ⟨8, _⟩ => ⟨S8000x16, .f32⟩
  | .local .tc .vmem, ⟨9, _⟩ => ⟨S8000x16, .f32⟩
  | .local .tc .vmem, ⟨10, _⟩ => ⟨S1x8000x128, .f32⟩
  | .local .tc .vmem, ⟨11, _⟩ => ⟨S1x8000x128, .f32⟩
  | .local .tc .vmem, ⟨12, _⟩ => ⟨S1x8000x128, .f32⟩
  | .local .tc .vmem, ⟨13, _⟩ => ⟨S1x8000x128, .f32⟩
  | .local .tc .vmem, ⟨14, _⟩ => ⟨S16x128, .f32⟩
  | .local .tc .vmem, ⟨15, _⟩ => ⟨S128x128, .bf16⟩
  | .local .tc .vmem, ⟨16, _⟩ => ⟨S1x128, .f32⟩
  | .local .tc .vmem, ⟨17, _⟩ => ⟨S1x128, .f32⟩
  | .local .tc .vmem, ⟨18, _⟩ => ⟨S1x128, .f32⟩
  | .local .tc .vmem, ⟨19, _⟩ => ⟨S8000x128, .f32⟩
  | .local .tc .vmem, ⟨20, _⟩ => ⟨S8000x128, .f32⟩
  | .local .tc .vmem, ⟨21, _⟩ => ⟨S8000x16, .f32⟩
  | .local .tc .vmem, ⟨22, _⟩ => ⟨S8000x16, .f32⟩
  | .local .tc .vmem, ⟨23, _⟩ => ⟨S1x8000x128, .f32⟩
  | .local .tc .vmem, ⟨24, _⟩ => ⟨S1x8000x128, .f32⟩
  | .local .tc .vmem, ⟨25, _⟩ => ⟨S1x8000x128, .f32⟩
  | .local .tc .vmem, ⟨26, _⟩ => ⟨S1x8000x128, .f32⟩
  | .local .tc .vmem, ⟨27, _⟩ => ⟨S16x128, .f32⟩
  | .local .tc .vmem, ⟨28, _⟩ => ⟨S128x128, .bf16⟩
  | .local .tc .vmem, ⟨29, _⟩ => ⟨S1x128, .f32⟩
  | .local .tc .vmem, ⟨30, _⟩ => ⟨S1x128, .f32⟩
  | .local .tc .vmem, ⟨31, _⟩ => ⟨S1x128, .f32⟩
  | .local .tc .vmem, ⟨32, _⟩ => ⟨S8000x128, .f32⟩
  | .local .tc .vmem, ⟨33, _⟩ => ⟨S8000x128, .f32⟩
  | .shared, ⟨0, _⟩ => ⟨S10000x128, .f32⟩
  | .shared, ⟨1, _⟩ => ⟨S10000x128, .f32⟩
  | .local .scVector .vmem, ⟨0, _⟩ => ⟨S2048, .i32⟩
  | .local .scVector .vmem, ⟨1, _⟩ => ⟨S128x128, .f32⟩
  | .local .scVector .vmem, ⟨2, _⟩ => ⟨S128x128, .f32⟩
  | .local .scVector .vmem, ⟨3, _⟩ => ⟨S2048, .i32⟩
  | .local .scVector .vmem, ⟨4, _⟩ => ⟨S128x128, .f32⟩
  | .local .scVector .vmem, ⟨5, _⟩ => ⟨S128x128, .f32⟩
  | _, _ => ⟨S320000x16, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => false
  | ⟨9, _⟩ => false
  | ⟨10, _⟩ => false
  | ⟨11, _⟩ => false
  | ⟨12, _⟩ => false
  | ⟨13, _⟩ => false
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => false
  | ⟨28, _⟩ => false
  | ⟨29, _⟩ => false
  | ⟨30, _⟩ => false
  | ⟨31, _⟩ => false
  | ⟨32, _⟩ => false
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTables nBuf rfl bufTy 5 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_c : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_0 : Ref sig .tc := ⟨.hbm, 35, rfl⟩
abbrev main_v21 : Ref sig .tc := ⟨.hbm, 36, rfl⟩
abbrev main_v22 : Ref sig .tc := ⟨.hbm, 37, rfl⟩
abbrev main_c_1 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_2 : Ref sig .tc := ⟨.hbm, 49, rfl⟩
abbrev main_v33 : Ref sig .tc := ⟨.hbm, 50, rfl⟩
abbrev main_v34 : Ref sig .tc := ⟨.hbm, 51, rfl⟩
abbrev main_c_3 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v9_scv : Ref sig .scVector := ⟨.hbm, 22, rfl⟩
abbrev main_v25_scv : Ref sig .scVector := ⟨.hbm, 41, rfl⟩
abbrev main_v26_scv : Ref sig .scVector := ⟨.hbm, 42, rfl⟩
abbrev main_v37_scv : Ref sig .scVector := ⟨.hbm, 55, rfl⟩
abbrev main_v38_scv : Ref sig .scVector := ⟨.hbm, 56, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc2_stg2_0 : Ref sig .tc := ⟨.vmem, 12, rfl⟩
abbrev cc2_stg2_1 : Ref sig .tc := ⟨.vmem, 13, rfl⟩
abbrev cc2_stg3_0 : Ref sig .tc := ⟨.vmem, 14, rfl⟩
abbrev cc2_stg4_0 : Ref sig .tc := ⟨.vmem, 15, rfl⟩
abbrev cc2_stg5_0 : Ref sig .tc := ⟨.vmem, 16, rfl⟩
abbrev cc2_stg6_0 : Ref sig .tc := ⟨.vmem, 17, rfl⟩
abbrev cc2_stg7_0 : Ref sig .tc := ⟨.vmem, 18, rfl⟩
abbrev cc2_stg8_0 : Ref sig .tc := ⟨.vmem, 19, rfl⟩
abbrev cc2_stg8_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg1_1 : Ref sig .tc := ⟨.vmem, 24, rfl⟩
abbrev cc4_stg2_0 : Ref sig .tc := ⟨.vmem, 25, rfl⟩
abbrev cc4_stg2_1 : Ref sig .tc := ⟨.vmem, 26, rfl⟩
abbrev cc4_stg3_0 : Ref sig .tc := ⟨.vmem, 27, rfl⟩
abbrev cc4_stg4_0 : Ref sig .tc := ⟨.vmem, 28, rfl⟩
abbrev cc4_stg5_0 : Ref sig .tc := ⟨.vmem, 29, rfl⟩
abbrev cc4_stg6_0 : Ref sig .tc := ⟨.vmem, 30, rfl⟩
abbrev cc4_stg7_0 : Ref sig .tc := ⟨.vmem, 31, rfl⟩
abbrev cc4_stg8_0 : Ref sig .tc := ⟨.vmem, 32, rfl⟩
abbrev cc4_stg8_1 : Ref sig .tc := ⟨.vmem, 33, rfl⟩
abbrev cc1_scratch0 : Ref sig .scVector := ⟨.shared, 0, rfl⟩
abbrev cc3_scratch0 : Ref sig .scVector := ⟨.shared, 1, rfl⟩
abbrev cc1_scratch1 : Ref sig .scVector := ⟨.vmem, 0, rfl⟩
abbrev cc1_scratch2 : Ref sig .scVector := ⟨.vmem, 1, rfl⟩
abbrev cc1_scratch3 : Ref sig .scVector := ⟨.vmem, 2, rfl⟩
abbrev cc3_scratch1 : Ref sig .scVector := ⟨.vmem, 3, rfl⟩
abbrev cc3_scratch2 : Ref sig .scVector := ⟨.vmem, 4, rfl⟩
abbrev cc3_scratch3 : Ref sig .scVector := ⟨.vmem, 5, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc2_sem3_0 : DmaSem sig := 20
abbrev cc2_sem4_0 : DmaSem sig := 21
abbrev cc2_sem5_0 : DmaSem sig := 22
abbrev cc2_sem6_0 : DmaSem sig := 23
abbrev cc2_sem7_0 : DmaSem sig := 24
abbrev cc2_sem8_0 : DmaSem sig := 25
abbrev cc2_sem8_1 : DmaSem sig := 26
abbrev cc4_sem0_0 : DmaSem sig := 33
abbrev cc4_sem0_1 : DmaSem sig := 34
abbrev cc4_sem1_0 : DmaSem sig := 35
abbrev cc4_sem1_1 : DmaSem sig := 36
abbrev cc4_sem2_0 : DmaSem sig := 37
abbrev cc4_sem2_1 : DmaSem sig := 38
abbrev cc4_sem3_0 : DmaSem sig := 39
abbrev cc4_sem4_0 : DmaSem sig := 40
abbrev cc4_sem5_0 : DmaSem sig := 41
abbrev cc4_sem6_0 : DmaSem sig := 42
abbrev cc4_sem7_0 : DmaSem sig := 43
abbrev cc4_sem8_0 : DmaSem sig := 44
abbrev cc4_sem8_1 : DmaSem sig := 45
abbrev sc_start : Sem sig := 0
abbrev sc_done : Sem sig := 1
abbrev sc_go : Sem sig := 2
abbrev sc_taskDone : Sem sig := 3
abbrev sc_bar0 : Sem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x10000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![2, 16], ![false, false]⟩

def k1_cond1 (i : grid1.Coords) : BitVec 1 :=
  let arg1 : BitVec 32 := BitVec.ofNat 32 (i 1).val
  let c10_i32 : BitVec 32 := 10#32
  let v0 : BitVec 1 := Scalar.cmpi .slt arg1 c10_i32
  let v1 : BitVec 32 := Scalar.extui v0
  let c0_i32 : BitVec 32 := 0#32
  let v2 : BitVec 1 := Scalar.cmpi .ne v1 c0_i32
  v2

def k1_off1 (i : grid1.Coords) : Fin 2 → Nat :=
  let arg1 : BitVec 32 := BitVec.ofNat 32 (i 1).val
  let c1000_i32_7 : BitVec 32 := 1000#32
  let v15 : BitVec 32 := Scalar.muli arg1 c1000_i32_7
  let c0_i32_8_r0 : BitVec 32 := 0#32
  ![v15.toNat, 0]
def k1_off2 (i : grid1.Coords) : Fin 2 → Nat :=
  let arg0 : BitVec 32 := BitVec.ofNat 32 (i 0).val
  let c10000_i32_6 : BitVec 32 := 10000#32
  let v12 : BitVec 32 := Scalar.muli arg0 c10000_i32_6
  let arg1 : BitVec 32 := BitVec.ofNat 32 (i 1).val
  let c1000_i32 : BitVec 32 := 1000#32
  let v13 : BitVec 32 := Scalar.muli arg1 c1000_i32
  let v14 : BitVec 32 := Scalar.addi v12 v13
  let c0_i32_9_r0 : BitVec 32 := 0#32
  ![v14.toNat, 0]
@[reducible] def k1_t1_loop : Scf.Loop 32 :=
  let c0_i32_0 : BitVec 32 := 0#32
  let c5_i32 : BitVec 32 := 5#32
  let v7 : BitVec 32 := Scalar.addi c0_i32_0 c5_i32
  let c1_i32 : BitVec 32 := 1#32
  ⟨c0_i32_0, v7, c1_i32⟩
def k1_off3 (i : grid1.Coords) (k1_t1 : Fin k1_t1_loop.trips) : Fin 1 → Nat :=
  let arg0 : BitVec 32 := BitVec.ofNat 32 (i 0).val
  let c163840_i32 : BitVec 32 := 163840#32
  let v3 : BitVec 32 := Scalar.muli arg0 c163840_i32
  let arg1 : BitVec 32 := BitVec.ofNat 32 (i 1).val
  let c10240_i32 : BitVec 32 := 10240#32
  let v4 : BitVec 32 := Scalar.muli arg1 c10240_i32
  let v5 : BitVec 32 := Scalar.addi v3 v4
  let c0_i32_7 : BitVec 32 := 0#32
  let c0_i32_0 : BitVec 32 := 0#32
  let c1_i32 : BitVec 32 := 1#32
  let arg13 : BitVec 32 := Scf.iv c0_i32_0 c1_i32 k1_t1
  let c1_i32_6 : BitVec 32 := 1#32
  let v12 : BitVec 32 := Scalar.muli arg13 c1_i32_6
  let v13 : BitVec 32 := Scalar.addi c0_i32_7 v12
  let c2048_i32 : BitVec 32 := 2048#32
  let v14 : BitVec 32 := Scalar.muli v13 c2048_i32
  let v15 : BitVec 32 := Scalar.addi v5 v14
  ![v15.toNat]
@[reducible] def k1_t2_loop : Scf.Loop 32 :=
  let c0_i32_8 : BitVec 32 := 0#32
  let c128_i32 : BitVec 32 := 128#32
  let v16 : BitVec 32 := Scalar.addi c0_i32_8 c128_i32
  let c1_i32_9 : BitVec 32 := 1#32
  ⟨c0_i32_8, v16, c1_i32_9⟩
def k1_off4 (k1_t2 : Fin k1_t2_loop.trips) : Fin 1 → Nat :=
  let c0_i32_15 : BitVec 32 := 0#32
  let c0_i32_8 : BitVec 32 := 0#32
  let c1_i32_9 : BitVec 32 := 1#32
  let arg14 : BitVec 32 := Scf.iv c0_i32_8 c1_i32_9 k1_t2
  let c1_i32_14 : BitVec 32 := 1#32
  let v18 : BitVec 32 := Scalar.muli arg14 c1_i32_14
  let v19 : BitVec 32 := Scalar.addi c0_i32_15 v18
  let c16_i32 : BitVec 32 := 16#32
  let v20 : BitVec 32 := Scalar.muli v19 c16_i32
  let v21 : Index := Scalar.indexCast v20
  ![v21.toNat]
@[reducible] def k1_t3_loop : Scf.Loop 32 :=
  let c0_i32_11 : BitVec 32 := 0#32
  let c8_i32 : BitVec 32 := 8#32
  let v17 : BitVec 32 := Scalar.addi c0_i32_11 c8_i32
  let c1_i32_12 : BitVec 32 := 1#32
  ⟨c0_i32_11, v17, c1_i32_12⟩
def k1_cond2 (k1_t1 : Fin k1_t1_loop.trips) (k1_t3 : Fin k1_t3_loop.trips) : BitVec 1 :=
  let c0_i32_15 : BitVec 32 := 0#32
  let c0_i32_11 : BitVec 32 := 0#32
  let c1_i32_12 : BitVec 32 := 1#32
  let arg14 : BitVec 32 := Scf.iv c0_i32_11 c1_i32_12 k1_t3
  let c1_i32_14 : BitVec 32 := 1#32
  let v18 : BitVec 32 := Scalar.muli arg14 c1_i32_14
  let v19 : BitVec 32 := Scalar.addi c0_i32_15 v18
  let c0_i32_23 : BitVec 32 := 0#32
  let v29 : BitVec 1 := Scalar.cmpi .eq v19 c0_i32_23
  let c0_i32_7 : BitVec 32 := 0#32
  let c0_i32_0 : BitVec 32 := 0#32
  let c1_i32 : BitVec 32 := 1#32
  let arg13 : BitVec 32 := Scf.iv c0_i32_0 c1_i32 k1_t1
  let c1_i32_6 : BitVec 32 := 1#32
  let v12 : BitVec 32 := Scalar.muli arg13 c1_i32_6
  let v13 : BitVec 32 := Scalar.addi c0_i32_7 v12
  let c0_i32_24 : BitVec 32 := 0#32
  let v30 : BitVec 1 := Scalar.cmpi .eq v13 c0_i32_24
  let v31 : BitVec 1 := Scalar.andi v29 v30
  let v_true : BitVec 1 := 1#1
  let v32 : BitVec 1 := Scalar.xori v31 v_true
  let v33 : BitVec 32 := Scalar.extui v32
  let c0_i32_25 : BitVec 32 := 0#32
  let v34 : BitVec 1 := Scalar.cmpi .ne v33 c0_i32_25
  v34

def k1_off5 (i : grid1.Coords) (k1_t1 : Fin k1_t1_loop.trips) (k1_t3 : Fin k1_t3_loop.trips) : Fin 2 → Nat :=
  let arg0 : BitVec 32 := BitVec.ofNat 32 (i 0).val
  let c163840_i32 : BitVec 32 := 163840#32
  let v3 : BitVec 32 := Scalar.muli arg0 c163840_i32
  let arg1 : BitVec 32 := BitVec.ofNat 32 (i 1).val
  let c10240_i32 : BitVec 32 := 10240#32
  let v4 : BitVec 32 := Scalar.muli arg1 c10240_i32
  let v5 : BitVec 32 := Scalar.addi v3 v4
  let c0_i32_7 : BitVec 32 := 0#32
  let c0_i32_0 : BitVec 32 := 0#32
  let c1_i32 : BitVec 32 := 1#32
  let arg13 : BitVec 32 := Scf.iv c0_i32_0 c1_i32 k1_t1
  let c1_i32_6 : BitVec 32 := 1#32
  let v12 : BitVec 32 := Scalar.muli arg13 c1_i32_6
  let v13 : BitVec 32 := Scalar.addi c0_i32_7 v12
  let c2048_i32 : BitVec 32 := 2048#32
  let v14 : BitVec 32 := Scalar.muli v13 c2048_i32
  let v15 : BitVec 32 := Scalar.addi v5 v14
  let c2_i32 : BitVec 32 := 2#32
  let c0_i32_15 : BitVec 32 := 0#32
  let c0_i32_11 : BitVec 32 := 0#32
  let c1_i32_12 : BitVec 32 := 1#32
  let arg14 : BitVec 32 := Scf.iv c0_i32_11 c1_i32_12 k1_t3
  let c1_i32_14 : BitVec 32 := 1#32
  let v18 : BitVec 32 := Scalar.muli arg14 c1_i32_14
  let v19 : BitVec 32 := Scalar.addi c0_i32_15 v18
  let v20 : BitVec 32 := Scalar.muli c2_i32 v19
  let c128_i32_16 : BitVec 32 := 128#32
  let v21 : BitVec 32 := Scalar.muli v20 c128_i32_16
  let v22 : BitVec 32 := Scalar.addi v15 v21
  let c0_i32_40 : BitVec 32 := 0#32
  ![v22.toNat, 0]
def k1_off6 (k1_t3 : Fin k1_t3_loop.trips) : Fin 1 → Nat :=
  let c2_i32_18 : BitVec 32 := 2#32
  let c0_i32_15 : BitVec 32 := 0#32
  let c0_i32_11 : BitVec 32 := 0#32
  let c1_i32_12 : BitVec 32 := 1#32
  let arg14 : BitVec 32 := Scf.iv c0_i32_11 c1_i32_12 k1_t3
  let c1_i32_14 : BitVec 32 := 1#32
  let v18 : BitVec 32 := Scalar.muli arg14 c1_i32_14
  let v19 : BitVec 32 := Scalar.addi c0_i32_15 v18
  let v24 : BitVec 32 := Scalar.muli c2_i32_18 v19
  let c128_i32_19 : BitVec 32 := 128#32
  let v25 : BitVec 32 := Scalar.muli v24 c128_i32_19
  ![v25.toNat]
def k1_cond3 (k1_t1 : Fin k1_t1_loop.trips) (k1_t3 : Fin k1_t3_loop.trips) : BitVec 1 :=
  let c0_i32_15 : BitVec 32 := 0#32
  let c0_i32_11 : BitVec 32 := 0#32
  let c1_i32_12 : BitVec 32 := 1#32
  let arg14 : BitVec 32 := Scf.iv c0_i32_11 c1_i32_12 k1_t3
  let c1_i32_14 : BitVec 32 := 1#32
  let v18 : BitVec 32 := Scalar.muli arg14 c1_i32_14
  let v19 : BitVec 32 := Scalar.addi c0_i32_15 v18
  let c0_i32_23 : BitVec 32 := 0#32
  let v29 : BitVec 1 := Scalar.cmpi .eq v19 c0_i32_23
  let c0_i32_7 : BitVec 32 := 0#32
  let c0_i32_0 : BitVec 32 := 0#32
  let c1_i32 : BitVec 32 := 1#32
  let arg13 : BitVec 32 := Scf.iv c0_i32_0 c1_i32 k1_t1
  let c1_i32_6 : BitVec 32 := 1#32
  let v12 : BitVec 32 := Scalar.muli arg13 c1_i32_6
  let v13 : BitVec 32 := Scalar.addi c0_i32_7 v12
  let c0_i32_24 : BitVec 32 := 0#32
  let v30 : BitVec 1 := Scalar.cmpi .eq v13 c0_i32_24
  let v31 : BitVec 1 := Scalar.andi v29 v30
  let true_28 : BitVec 1 := 1#1
  let v37 : BitVec 1 := Scalar.xori v31 true_28
  let v38 : BitVec 32 := Scalar.extui v37
  let c0_i32_29 : BitVec 32 := 0#32
  let v39 : BitVec 1 := Scalar.cmpi .ne v38 c0_i32_29
  v39

def k1_off7 (i : grid1.Coords) (k1_t1 : Fin k1_t1_loop.trips) (k1_t3 : Fin k1_t3_loop.trips) : Fin 2 → Nat :=
  let arg0 : BitVec 32 := BitVec.ofNat 32 (i 0).val
  let c163840_i32 : BitVec 32 := 163840#32
  let v3 : BitVec 32 := Scalar.muli arg0 c163840_i32
  let arg1 : BitVec 32 := BitVec.ofNat 32 (i 1).val
  let c10240_i32 : BitVec 32 := 10240#32
  let v4 : BitVec 32 := Scalar.muli arg1 c10240_i32
  let v5 : BitVec 32 := Scalar.addi v3 v4
  let c0_i32_7 : BitVec 32 := 0#32
  let c0_i32_0 : BitVec 32 := 0#32
  let c1_i32 : BitVec 32 := 1#32
  let arg13 : BitVec 32 := Scf.iv c0_i32_0 c1_i32 k1_t1
  let c1_i32_6 : BitVec 32 := 1#32
  let v12 : BitVec 32 := Scalar.muli arg13 c1_i32_6
  let v13 : BitVec 32 := Scalar.addi c0_i32_7 v12
  let c2048_i32 : BitVec 32 := 2048#32
  let v14 : BitVec 32 := Scalar.muli v13 c2048_i32
  let v15 : BitVec 32 := Scalar.addi v5 v14
  let c2_i32 : BitVec 32 := 2#32
  let c0_i32_15 : BitVec 32 := 0#32
  let c0_i32_11 : BitVec 32 := 0#32
  let c1_i32_12 : BitVec 32 := 1#32
  let arg14 : BitVec 32 := Scf.iv c0_i32_11 c1_i32_12 k1_t3
  let c1_i32_14 : BitVec 32 := 1#32
  let v18 : BitVec 32 := Scalar.muli arg14 c1_i32_14
  let v19 : BitVec 32 := Scalar.addi c0_i32_15 v18
  let v20 : BitVec 32 := Scalar.muli c2_i32 v19
  let c128_i32_16 : BitVec 32 := 128#32
  let v21 : BitVec 32 := Scalar.muli v20 c128_i32_16
  let v22 : BitVec 32 := Scalar.addi v15 v21
  let c128_i32_17 : BitVec 32 := 128#32
  let v23 : BitVec 32 := Scalar.addi v22 c128_i32_17
  let c0_i32_40 : BitVec 32 := 0#32
  ![v23.toNat, 0]
def k1_off8 (k1_t3 : Fin k1_t3_loop.trips) : Fin 1 → Nat :=
  let c2_i32_20 : BitVec 32 := 2#32
  let c0_i32_15 : BitVec 32 := 0#32
  let c0_i32_11 : BitVec 32 := 0#32
  let c1_i32_12 : BitVec 32 := 1#32
  let arg14 : BitVec 32 := Scf.iv c0_i32_11 c1_i32_12 k1_t3
  let c1_i32_14 : BitVec 32 := 1#32
  let v18 : BitVec 32 := Scalar.muli arg14 c1_i32_14
  let v19 : BitVec 32 := Scalar.addi c0_i32_15 v18
  let v26 : BitVec 32 := Scalar.muli c2_i32_20 v19
  let c1_i32_21 : BitVec 32 := 1#32
  let v27 : BitVec 32 := Scalar.addi v26 c1_i32_21
  let c128_i32_22 : BitVec 32 := 128#32
  let v28 : BitVec 32 := Scalar.muli v27 c128_i32_22
  ![v28.toNat]
def k1_off9 (i : grid1.Coords) (k1_t1 : Fin k1_t1_loop.trips) (k1_t3 : Fin k1_t3_loop.trips) : Fin 2 → Nat :=
  let arg0 : BitVec 32 := BitVec.ofNat 32 (i 0).val
  let c163840_i32 : BitVec 32 := 163840#32
  let v3 : BitVec 32 := Scalar.muli arg0 c163840_i32
  let arg1 : BitVec 32 := BitVec.ofNat 32 (i 1).val
  let c10240_i32 : BitVec 32 := 10240#32
  let v4 : BitVec 32 := Scalar.muli arg1 c10240_i32
  let v5 : BitVec 32 := Scalar.addi v3 v4
  let c0_i32_7 : BitVec 32 := 0#32
  let c0_i32_0 : BitVec 32 := 0#32
  let c1_i32 : BitVec 32 := 1#32
  let arg13 : BitVec 32 := Scf.iv c0_i32_0 c1_i32 k1_t1
  let c1_i32_6 : BitVec 32 := 1#32
  let v12 : BitVec 32 := Scalar.muli arg13 c1_i32_6
  let v13 : BitVec 32 := Scalar.addi c0_i32_7 v12
  let c2048_i32 : BitVec 32 := 2048#32
  let v14 : BitVec 32 := Scalar.muli v13 c2048_i32
  let v15 : BitVec 32 := Scalar.addi v5 v14
  let c2_i32 : BitVec 32 := 2#32
  let c0_i32_15 : BitVec 32 := 0#32
  let c0_i32_11 : BitVec 32 := 0#32
  let c1_i32_12 : BitVec 32 := 1#32
  let arg14 : BitVec 32 := Scf.iv c0_i32_11 c1_i32_12 k1_t3
  let c1_i32_14 : BitVec 32 := 1#32
  let v18 : BitVec 32 := Scalar.muli arg14 c1_i32_14
  let v19 : BitVec 32 := Scalar.addi c0_i32_15 v18
  let v20 : BitVec 32 := Scalar.muli c2_i32 v19
  let c128_i32_16 : BitVec 32 := 128#32
  let v21 : BitVec 32 := Scalar.muli v20 c128_i32_16
  let v22 : BitVec 32 := Scalar.addi v15 v21
  let c0_i32_34 : BitVec 32 := 0#32
  ![v22.toNat, 0]
def k1_off10 (i : grid1.Coords) (k1_t1 : Fin k1_t1_loop.trips) (k1_t3 : Fin k1_t3_loop.trips) : Fin 2 → Nat :=
  let arg0 : BitVec 32 := BitVec.ofNat 32 (i 0).val
  let c163840_i32 : BitVec 32 := 163840#32
  let v3 : BitVec 32 := Scalar.muli arg0 c163840_i32
  let arg1 : BitVec 32 := BitVec.ofNat 32 (i 1).val
  let c10240_i32 : BitVec 32 := 10240#32
  let v4 : BitVec 32 := Scalar.muli arg1 c10240_i32
  let v5 : BitVec 32 := Scalar.addi v3 v4
  let c0_i32_7 : BitVec 32 := 0#32
  let c0_i32_0 : BitVec 32 := 0#32
  let c1_i32 : BitVec 32 := 1#32
  let arg13 : BitVec 32 := Scf.iv c0_i32_0 c1_i32 k1_t1
  let c1_i32_6 : BitVec 32 := 1#32
  let v12 : BitVec 32 := Scalar.muli arg13 c1_i32_6
  let v13 : BitVec 32 := Scalar.addi c0_i32_7 v12
  let c2048_i32 : BitVec 32 := 2048#32
  let v14 : BitVec 32 := Scalar.muli v13 c2048_i32
  let v15 : BitVec 32 := Scalar.addi v5 v14
  let c2_i32 : BitVec 32 := 2#32
  let c0_i32_15 : BitVec 32 := 0#32
  let c0_i32_11 : BitVec 32 := 0#32
  let c1_i32_12 : BitVec 32 := 1#32
  let arg14 : BitVec 32 := Scf.iv c0_i32_11 c1_i32_12 k1_t3
  let c1_i32_14 : BitVec 32 := 1#32
  let v18 : BitVec 32 := Scalar.muli arg14 c1_i32_14
  let v19 : BitVec 32 := Scalar.addi c0_i32_15 v18
  let v20 : BitVec 32 := Scalar.muli c2_i32 v19
  let c128_i32_16 : BitVec 32 := 128#32
  let v21 : BitVec 32 := Scalar.muli v20 c128_i32_16
  let v22 : BitVec 32 := Scalar.addi v15 v21
  let c128_i32_17 : BitVec 32 := 128#32
  let v23 : BitVec 32 := Scalar.addi v22 c128_i32_17
  let c0_i32_38 : BitVec 32 := 0#32
  ![v23.toNat, 0]
def k1_off11 (i : grid1.Coords) : Fin 2 → Nat :=
  let arg0 : BitVec 32 := BitVec.ofNat 32 (i 0).val
  let c163840_i32 : BitVec 32 := 163840#32
  let v3 : BitVec 32 := Scalar.muli arg0 c163840_i32
  let arg1 : BitVec 32 := BitVec.ofNat 32 (i 1).val
  let c10240_i32 : BitVec 32 := 10240#32
  let v4 : BitVec 32 := Scalar.muli arg1 c10240_i32
  let v5 : BitVec 32 := Scalar.addi v3 v4
  let c0_i32_2 : BitVec 32 := 0#32
  ![v5.toNat, 0]
abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_2 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage2_0 : Fin 2 → Memref sig .tc .vmem S8000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x8000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x8000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S16x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S8000x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨2, ![2, 16], ![false, false]⟩

def k3_cond1 (i : grid3.Coords) : BitVec 1 :=
  let arg1 : BitVec 32 := BitVec.ofNat 32 (i 1).val
  let c10_i32 : BitVec 32 := 10#32
  let v0 : BitVec 1 := Scalar.cmpi .slt arg1 c10_i32
  let v1 : BitVec 32 := Scalar.extui v0
  let c0_i32 : BitVec 32 := 0#32
  let v2 : BitVec 1 := Scalar.cmpi .ne v1 c0_i32
  v2

def k3_off1 (i : grid3.Coords) : Fin 2 → Nat :=
  let arg1 : BitVec 32 := BitVec.ofNat 32 (i 1).val
  let c1000_i32_7 : BitVec 32 := 1000#32
  let v15 : BitVec 32 := Scalar.muli arg1 c1000_i32_7
  let c0_i32_8_r0 : BitVec 32 := 0#32
  ![v15.toNat, 0]
def k3_off2 (i : grid3.Coords) : Fin 2 → Nat :=
  let arg0 : BitVec 32 := BitVec.ofNat 32 (i 0).val
  let c10000_i32_6 : BitVec 32 := 10000#32
  let v12 : BitVec 32 := Scalar.muli arg0 c10000_i32_6
  let arg1 : BitVec 32 := BitVec.ofNat 32 (i 1).val
  let c1000_i32 : BitVec 32 := 1000#32
  let v13 : BitVec 32 := Scalar.muli arg1 c1000_i32
  let v14 : BitVec 32 := Scalar.addi v12 v13
  let c0_i32_9_r0 : BitVec 32 := 0#32
  ![v14.toNat, 0]
@[reducible] def k3_t1_loop : Scf.Loop 32 :=
  let c0_i32_0 : BitVec 32 := 0#32
  let c5_i32 : BitVec 32 := 5#32
  let v7 : BitVec 32 := Scalar.addi c0_i32_0 c5_i32
  let c1_i32 : BitVec 32 := 1#32
  ⟨c0_i32_0, v7, c1_i32⟩
def k3_off3 (i : grid3.Coords) (k3_t1 : Fin k3_t1_loop.trips) : Fin 1 → Nat :=
  let arg0 : BitVec 32 := BitVec.ofNat 32 (i 0).val
  let c163840_i32 : BitVec 32 := 163840#32
  let v3 : BitVec 32 := Scalar.muli arg0 c163840_i32
  let arg1 : BitVec 32 := BitVec.ofNat 32 (i 1).val
  let c10240_i32 : BitVec 32 := 10240#32
  let v4 : BitVec 32 := Scalar.muli arg1 c10240_i32
  let v5 : BitVec 32 := Scalar.addi v3 v4
  let c0_i32_7 : BitVec 32 := 0#32
  let c0_i32_0 : BitVec 32 := 0#32
  let c1_i32 : BitVec 32 := 1#32
  let arg13 : BitVec 32 := Scf.iv c0_i32_0 c1_i32 k3_t1
  let c1_i32_6 : BitVec 32 := 1#32
  let v12 : BitVec 32 := Scalar.muli arg13 c1_i32_6
  let v13 : BitVec 32 := Scalar.addi c0_i32_7 v12
  let c2048_i32 : BitVec 32 := 2048#32
  let v14 : BitVec 32 := Scalar.muli v13 c2048_i32
  let v15 : BitVec 32 := Scalar.addi v5 v14
  ![v15.toNat]
@[reducible] def k3_t2_loop : Scf.Loop 32 :=
  let c0_i32_8 : BitVec 32 := 0#32
  let c128_i32 : BitVec 32 := 128#32
  let v16 : BitVec 32 := Scalar.addi c0_i32_8 c128_i32
  let c1_i32_9 : BitVec 32 := 1#32
  ⟨c0_i32_8, v16, c1_i32_9⟩
def k3_off4 (k3_t2 : Fin k3_t2_loop.trips) : Fin 1 → Nat :=
  let c0_i32_15 : BitVec 32 := 0#32
  let c0_i32_8 : BitVec 32 := 0#32
  let c1_i32_9 : BitVec 32 := 1#32
  let arg14 : BitVec 32 := Scf.iv c0_i32_8 c1_i32_9 k3_t2
  let c1_i32_14 : BitVec 32 := 1#32
  let v18 : BitVec 32 := Scalar.muli arg14 c1_i32_14
  let v19 : BitVec 32 := Scalar.addi c0_i32_15 v18
  let c16_i32 : BitVec 32 := 16#32
  let v20 : BitVec 32 := Scalar.muli v19 c16_i32
  let v21 : Index := Scalar.indexCast v20
  ![v21.toNat]
@[reducible] def k3_t3_loop : Scf.Loop 32 :=
  let c0_i32_11 : BitVec 32 := 0#32
  let c8_i32 : BitVec 32 := 8#32
  let v17 : BitVec 32 := Scalar.addi c0_i32_11 c8_i32
  let c1_i32_12 : BitVec 32 := 1#32
  ⟨c0_i32_11, v17, c1_i32_12⟩
def k3_cond2 (k3_t1 : Fin k3_t1_loop.trips) (k3_t3 : Fin k3_t3_loop.trips) : BitVec 1 :=
  let c0_i32_15 : BitVec 32 := 0#32
  let c0_i32_11 : BitVec 32 := 0#32
  let c1_i32_12 : BitVec 32 := 1#32
  let arg14 : BitVec 32 := Scf.iv c0_i32_11 c1_i32_12 k3_t3
  let c1_i32_14 : BitVec 32 := 1#32
  let v18 : BitVec 32 := Scalar.muli arg14 c1_i32_14
  let v19 : BitVec 32 := Scalar.addi c0_i32_15 v18
  let c0_i32_23 : BitVec 32 := 0#32
  let v29 : BitVec 1 := Scalar.cmpi .eq v19 c0_i32_23
  let c0_i32_7 : BitVec 32 := 0#32
  let c0_i32_0 : BitVec 32 := 0#32
  let c1_i32 : BitVec 32 := 1#32
  let arg13 : BitVec 32 := Scf.iv c0_i32_0 c1_i32 k3_t1
  let c1_i32_6 : BitVec 32 := 1#32
  let v12 : BitVec 32 := Scalar.muli arg13 c1_i32_6
  let v13 : BitVec 32 := Scalar.addi c0_i32_7 v12
  let c0_i32_24 : BitVec 32 := 0#32
  let v30 : BitVec 1 := Scalar.cmpi .eq v13 c0_i32_24
  let v31 : BitVec 1 := Scalar.andi v29 v30
  let v_true : BitVec 1 := 1#1
  let v32 : BitVec 1 := Scalar.xori v31 v_true
  let v33 : BitVec 32 := Scalar.extui v32
  let c0_i32_25 : BitVec 32 := 0#32
  let v34 : BitVec 1 := Scalar.cmpi .ne v33 c0_i32_25
  v34

def k3_off5 (i : grid3.Coords) (k3_t1 : Fin k3_t1_loop.trips) (k3_t3 : Fin k3_t3_loop.trips) : Fin 2 → Nat :=
  let arg0 : BitVec 32 := BitVec.ofNat 32 (i 0).val
  let c163840_i32 : BitVec 32 := 163840#32
  let v3 : BitVec 32 := Scalar.muli arg0 c163840_i32
  let arg1 : BitVec 32 := BitVec.ofNat 32 (i 1).val
  let c10240_i32 : BitVec 32 := 10240#32
  let v4 : BitVec 32 := Scalar.muli arg1 c10240_i32
  let v5 : BitVec 32 := Scalar.addi v3 v4
  let c0_i32_7 : BitVec 32 := 0#32
  let c0_i32_0 : BitVec 32 := 0#32
  let c1_i32 : BitVec 32 := 1#32
  let arg13 : BitVec 32 := Scf.iv c0_i32_0 c1_i32 k3_t1
  let c1_i32_6 : BitVec 32 := 1#32
  let v12 : BitVec 32 := Scalar.muli arg13 c1_i32_6
  let v13 : BitVec 32 := Scalar.addi c0_i32_7 v12
  let c2048_i32 : BitVec 32 := 2048#32
  let v14 : BitVec 32 := Scalar.muli v13 c2048_i32
  let v15 : BitVec 32 := Scalar.addi v5 v14
  let c2_i32 : BitVec 32 := 2#32
  let c0_i32_15 : BitVec 32 := 0#32
  let c0_i32_11 : BitVec 32 := 0#32
  let c1_i32_12 : BitVec 32 := 1#32
  let arg14 : BitVec 32 := Scf.iv c0_i32_11 c1_i32_12 k3_t3
  let c1_i32_14 : BitVec 32 := 1#32
  let v18 : BitVec 32 := Scalar.muli arg14 c1_i32_14
  let v19 : BitVec 32 := Scalar.addi c0_i32_15 v18
  let v20 : BitVec 32 := Scalar.muli c2_i32 v19
  let c128_i32_16 : BitVec 32 := 128#32
  let v21 : BitVec 32 := Scalar.muli v20 c128_i32_16
  let v22 : BitVec 32 := Scalar.addi v15 v21
  let c0_i32_40 : BitVec 32 := 0#32
  ![v22.toNat, 0]
def k3_off6 (k3_t3 : Fin k3_t3_loop.trips) : Fin 1 → Nat :=
  let c2_i32_18 : BitVec 32 := 2#32
  let c0_i32_15 : BitVec 32 := 0#32
  let c0_i32_11 : BitVec 32 := 0#32
  let c1_i32_12 : BitVec 32 := 1#32
  let arg14 : BitVec 32 := Scf.iv c0_i32_11 c1_i32_12 k3_t3
  let c1_i32_14 : BitVec 32 := 1#32
  let v18 : BitVec 32 := Scalar.muli arg14 c1_i32_14
  let v19 : BitVec 32 := Scalar.addi c0_i32_15 v18
  let v24 : BitVec 32 := Scalar.muli c2_i32_18 v19
  let c128_i32_19 : BitVec 32 := 128#32
  let v25 : BitVec 32 := Scalar.muli v24 c128_i32_19
  ![v25.toNat]
def k3_cond3 (k3_t1 : Fin k3_t1_loop.trips) (k3_t3 : Fin k3_t3_loop.trips) : BitVec 1 :=
  let c0_i32_15 : BitVec 32 := 0#32
  let c0_i32_11 : BitVec 32 := 0#32
  let c1_i32_12 : BitVec 32 := 1#32
  let arg14 : BitVec 32 := Scf.iv c0_i32_11 c1_i32_12 k3_t3
  let c1_i32_14 : BitVec 32 := 1#32
  let v18 : BitVec 32 := Scalar.muli arg14 c1_i32_14
  let v19 : BitVec 32 := Scalar.addi c0_i32_15 v18
  let c0_i32_23 : BitVec 32 := 0#32
  let v29 : BitVec 1 := Scalar.cmpi .eq v19 c0_i32_23
  let c0_i32_7 : BitVec 32 := 0#32
  let c0_i32_0 : BitVec 32 := 0#32
  let c1_i32 : BitVec 32 := 1#32
  let arg13 : BitVec 32 := Scf.iv c0_i32_0 c1_i32 k3_t1
  let c1_i32_6 : BitVec 32 := 1#32
  let v12 : BitVec 32 := Scalar.muli arg13 c1_i32_6
  let v13 : BitVec 32 := Scalar.addi c0_i32_7 v12
  let c0_i32_24 : BitVec 32 := 0#32
  let v30 : BitVec 1 := Scalar.cmpi .eq v13 c0_i32_24
  let v31 : BitVec 1 := Scalar.andi v29 v30
  let true_28 : BitVec 1 := 1#1
  let v37 : BitVec 1 := Scalar.xori v31 true_28
  let v38 : BitVec 32 := Scalar.extui v37
  let c0_i32_29 : BitVec 32 := 0#32
  let v39 : BitVec 1 := Scalar.cmpi .ne v38 c0_i32_29
  v39

def k3_off7 (i : grid3.Coords) (k3_t1 : Fin k3_t1_loop.trips) (k3_t3 : Fin k3_t3_loop.trips) : Fin 2 → Nat :=
  let arg0 : BitVec 32 := BitVec.ofNat 32 (i 0).val
  let c163840_i32 : BitVec 32 := 163840#32
  let v3 : BitVec 32 := Scalar.muli arg0 c163840_i32
  let arg1 : BitVec 32 := BitVec.ofNat 32 (i 1).val
  let c10240_i32 : BitVec 32 := 10240#32
  let v4 : BitVec 32 := Scalar.muli arg1 c10240_i32
  let v5 : BitVec 32 := Scalar.addi v3 v4
  let c0_i32_7 : BitVec 32 := 0#32
  let c0_i32_0 : BitVec 32 := 0#32
  let c1_i32 : BitVec 32 := 1#32
  let arg13 : BitVec 32 := Scf.iv c0_i32_0 c1_i32 k3_t1
  let c1_i32_6 : BitVec 32 := 1#32
  let v12 : BitVec 32 := Scalar.muli arg13 c1_i32_6
  let v13 : BitVec 32 := Scalar.addi c0_i32_7 v12
  let c2048_i32 : BitVec 32 := 2048#32
  let v14 : BitVec 32 := Scalar.muli v13 c2048_i32
  let v15 : BitVec 32 := Scalar.addi v5 v14
  let c2_i32 : BitVec 32 := 2#32
  let c0_i32_15 : BitVec 32 := 0#32
  let c0_i32_11 : BitVec 32 := 0#32
  let c1_i32_12 : BitVec 32 := 1#32
  let arg14 : BitVec 32 := Scf.iv c0_i32_11 c1_i32_12 k3_t3
  let c1_i32_14 : BitVec 32 := 1#32
  let v18 : BitVec 32 := Scalar.muli arg14 c1_i32_14
  let v19 : BitVec 32 := Scalar.addi c0_i32_15 v18
  let v20 : BitVec 32 := Scalar.muli c2_i32 v19
  let c128_i32_16 : BitVec 32 := 128#32
  let v21 : BitVec 32 := Scalar.muli v20 c128_i32_16
  let v22 : BitVec 32 := Scalar.addi v15 v21
  let c128_i32_17 : BitVec 32 := 128#32
  let v23 : BitVec 32 := Scalar.addi v22 c128_i32_17
  let c0_i32_40 : BitVec 32 := 0#32
  ![v23.toNat, 0]
def k3_off8 (k3_t3 : Fin k3_t3_loop.trips) : Fin 1 → Nat :=
  let c2_i32_20 : BitVec 32 := 2#32
  let c0_i32_15 : BitVec 32 := 0#32
  let c0_i32_11 : BitVec 32 := 0#32
  let c1_i32_12 : BitVec 32 := 1#32
  let arg14 : BitVec 32 := Scf.iv c0_i32_11 c1_i32_12 k3_t3
  let c1_i32_14 : BitVec 32 := 1#32
  let v18 : BitVec 32 := Scalar.muli arg14 c1_i32_14
  let v19 : BitVec 32 := Scalar.addi c0_i32_15 v18
  let v26 : BitVec 32 := Scalar.muli c2_i32_20 v19
  let c1_i32_21 : BitVec 32 := 1#32
  let v27 : BitVec 32 := Scalar.addi v26 c1_i32_21
  let c128_i32_22 : BitVec 32 := 128#32
  let v28 : BitVec 32 := Scalar.muli v27 c128_i32_22
  ![v28.toNat]
def k3_off9 (i : grid3.Coords) (k3_t1 : Fin k3_t1_loop.trips) (k3_t3 : Fin k3_t3_loop.trips) : Fin 2 → Nat :=
  let arg0 : BitVec 32 := BitVec.ofNat 32 (i 0).val
  let c163840_i32 : BitVec 32 := 163840#32
  let v3 : BitVec 32 := Scalar.muli arg0 c163840_i32
  let arg1 : BitVec 32 := BitVec.ofNat 32 (i 1).val
  let c10240_i32 : BitVec 32 := 10240#32
  let v4 : BitVec 32 := Scalar.muli arg1 c10240_i32
  let v5 : BitVec 32 := Scalar.addi v3 v4
  let c0_i32_7 : BitVec 32 := 0#32
  let c0_i32_0 : BitVec 32 := 0#32
  let c1_i32 : BitVec 32 := 1#32
  let arg13 : BitVec 32 := Scf.iv c0_i32_0 c1_i32 k3_t1
  let c1_i32_6 : BitVec 32 := 1#32
  let v12 : BitVec 32 := Scalar.muli arg13 c1_i32_6
  let v13 : BitVec 32 := Scalar.addi c0_i32_7 v12
  let c2048_i32 : BitVec 32 := 2048#32
  let v14 : BitVec 32 := Scalar.muli v13 c2048_i32
  let v15 : BitVec 32 := Scalar.addi v5 v14
  let c2_i32 : BitVec 32 := 2#32
  let c0_i32_15 : BitVec 32 := 0#32
  let c0_i32_11 : BitVec 32 := 0#32
  let c1_i32_12 : BitVec 32 := 1#32
  let arg14 : BitVec 32 := Scf.iv c0_i32_11 c1_i32_12 k3_t3
  let c1_i32_14 : BitVec 32 := 1#32
  let v18 : BitVec 32 := Scalar.muli arg14 c1_i32_14
  let v19 : BitVec 32 := Scalar.addi c0_i32_15 v18
  let v20 : BitVec 32 := Scalar.muli c2_i32 v19
  let c128_i32_16 : BitVec 32 := 128#32
  let v21 : BitVec 32 := Scalar.muli v20 c128_i32_16
  let v22 : BitVec 32 := Scalar.addi v15 v21
  let c0_i32_34 : BitVec 32 := 0#32
  ![v22.toNat, 0]
def k3_off10 (i : grid3.Coords) (k3_t1 : Fin k3_t1_loop.trips) (k3_t3 : Fin k3_t3_loop.trips) : Fin 2 → Nat :=
  let arg0 : BitVec 32 := BitVec.ofNat 32 (i 0).val
  let c163840_i32 : BitVec 32 := 163840#32
  let v3 : BitVec 32 := Scalar.muli arg0 c163840_i32
  let arg1 : BitVec 32 := BitVec.ofNat 32 (i 1).val
  let c10240_i32 : BitVec 32 := 10240#32
  let v4 : BitVec 32 := Scalar.muli arg1 c10240_i32
  let v5 : BitVec 32 := Scalar.addi v3 v4
  let c0_i32_7 : BitVec 32 := 0#32
  let c0_i32_0 : BitVec 32 := 0#32
  let c1_i32 : BitVec 32 := 1#32
  let arg13 : BitVec 32 := Scf.iv c0_i32_0 c1_i32 k3_t1
  let c1_i32_6 : BitVec 32 := 1#32
  let v12 : BitVec 32 := Scalar.muli arg13 c1_i32_6
  let v13 : BitVec 32 := Scalar.addi c0_i32_7 v12
  let c2048_i32 : BitVec 32 := 2048#32
  let v14 : BitVec 32 := Scalar.muli v13 c2048_i32
  let v15 : BitVec 32 := Scalar.addi v5 v14
  let c2_i32 : BitVec 32 := 2#32
  let c0_i32_15 : BitVec 32 := 0#32
  let c0_i32_11 : BitVec 32 := 0#32
  let c1_i32_12 : BitVec 32 := 1#32
  let arg14 : BitVec 32 := Scf.iv c0_i32_11 c1_i32_12 k3_t3
  let c1_i32_14 : BitVec 32 := 1#32
  let v18 : BitVec 32 := Scalar.muli arg14 c1_i32_14
  let v19 : BitVec 32 := Scalar.addi c0_i32_15 v18
  let v20 : BitVec 32 := Scalar.muli c2_i32 v19
  let c128_i32_16 : BitVec 32 := 128#32
  let v21 : BitVec 32 := Scalar.muli v20 c128_i32_16
  let v22 : BitVec 32 := Scalar.addi v15 v21
  let c128_i32_17 : BitVec 32 := 128#32
  let v23 : BitVec 32 := Scalar.addi v22 c128_i32_17
  let c0_i32_38 : BitVec 32 := 0#32
  ![v23.toNat, 0]
def k3_off11 (i : grid3.Coords) : Fin 2 → Nat :=
  let arg0 : BitVec 32 := BitVec.ofNat 32 (i 0).val
  let c163840_i32 : BitVec 32 := 163840#32
  let v3 : BitVec 32 := Scalar.muli arg0 c163840_i32
  let arg1 : BitVec 32 := BitVec.ofNat 32 (i 1).val
  let c10240_i32 : BitVec 32 := 10240#32
  let v4 : BitVec 32 := Scalar.muli arg1 c10240_i32
  let v5 : BitVec 32 := Scalar.addi v3 v4
  let c0_i32_2 : BitVec 32 := 0#32
  ![v5.toNat, 0]
abbrev grid4 : Pipeline.Grid := ⟨1, ![20], ![false]⟩

def cc4_transform_0 (i : grid4.Coords) : Fin 2 → Nat :=
  let arg0 : BitVec 32 := BitVec.ofNat 32 (i 0).val
  let c20_i32 : BitVec 32 := 20#32
  let v0 : BitVec 32 := Scalar.addi c20_i32 arg0
  let c0_i32 : BitVec 32 := 0#32
  let c0_i32_0 : BitVec 32 := 0#32
  ![v0.toNat, c0_i32.toNat]

def cc4_transform_1 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc4_transform_2 (i : grid4.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c20_i32 : BitVec 32 := 20#32
  let v0 : BitVec 32 := Scalar.addi c20_i32 arg0
  let c0_i32 : BitVec 32 := 0#32
  let c0_i32_0 : BitVec 32 := 0#32
  ![v0.toNat, c0_i32.toNat]

abbrev stage4_0 : Fin 2 → Memref sig .tc .vmem S8000x16 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1x8000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S1x8000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S16x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x128 .bf16 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 2 → Memref sig .tc .vmem S8000x128 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))

class Facts₀ : Prop where
  bcast_S128x128_S1x128x128_1_2 : S128x128.BroadcastsInDim S1x128x128 (![1, 2] : Fin 2 → Fin S1x128x128.rank)
  concatenates_S1x128x128_S1x128x128_S2x128x128_d0 : Shape.Concatenates [S1x128x128, S1x128x128] S2x128x128 0
  bcast_S_S128 : S_.BroadcastsInDim S128 (![] : Fin 0 → Fin S128.rank)
  bcast_S128_S1x128_1 : S128.BroadcastsInDim S1x128 (![1] : Fin 1 → Fin S1x128.rank)
  concatenates_S1x128_S1x128_S2x128_d0 : Shape.Concatenates [S1x128, S1x128] S2x128 0
  shapeCasts_S2x128_S2x1x128 : S2x128.ShapeCasts S2x1x128
  inb_S10000x128_S10000x128_0_0 : ∀ a, (![0, 0] : Fin 2 → Nat) a + S10000x128.size a ≤ S10000x128.size a
  h_S10000x128 : 0 < S10000x128.numel
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  broadcasts_S1x128_S10000x128 : S1x128.Broadcasts S10000x128
  inb_S1x10000x128_S1x10000x128_0_0_0 : ∀ a, (![0, 0, 0] : Fin 3 → Nat) a + S1x10000x128.size a ≤ S1x10000x128.size a
  h_S1x10000x128 : 0 < S1x10000x128.numel
  shapeCasts_S1x10000x128_S10000x128 : S1x10000x128.ShapeCasts S10000x128
  shapeCasts_S10000x128_S1x10000x128 : S10000x128.ShapeCasts S1x10000x128
  shapeCasts_S2x10000x128_S20000x128 : S2x10000x128.ShapeCasts S20000x128
  bcast_S_S3840 : S_.BroadcastsInDim S3840 (![] : Fin 0 → Fin S3840.rank)
  transposes_S128x16_S16x128_1_0 : S128x16.Transposes [1, 0] S16x128
  transposes_S128x128_S128x128_1_0 : S128x128.Transposes [1, 0] S128x128
  bitsLt_bf16_f32 : FTy.bits .bf16 < FTy.bits .f32
  shapeCasts_S128_S1x128 : S128.ShapeCasts S1x128
  slices_S2x320000_S1x160000_0_0 : S2x320000.Slices ![0, 0] S1x160000
  shapeCasts_S1x160000_S160000 : S1x160000.ShapeCasts S160000
  slices_S2x320000_S1x160000_1_0 : S2x320000.Slices ![1, 0] S1x160000
  bcast_S_S160000 : S_.BroadcastsInDim S160000 (![] : Fin 0 → Fin S160000.rank)
  concatenates_S160000_S3840_S160000_S3840_S327680_d0 : Shape.Concatenates [S160000, S3840, S160000, S3840] S327680 0
  h_S16 : 0 < S16.numel
  shapeCasts_S16_S16 : S16.ShapeCasts S16
  gathers_S10000x128_S128x128 : S10000x128.Gathers 0 S128x128
  shapeCasts_S327680x128_S2x163840x128 : S327680x128.ShapeCasts S2x163840x128
  inb_S8000x16_S8000x16_0_0 : ∀ a, (![0, 0] : Fin 2 → Nat) a + S8000x16.size a ≤ S8000x16.size a
  h_S8000x16 : 0 < S8000x16.numel
  inb_S16x128_S16x128_0_0 : ∀ a, (![0, 0] : Fin 2 → Nat) a + S16x128.size a ≤ S16x128.size a
  h_S16x128 : 0 < S16x128.numel
  shapeCasts_S16x128_S16x128 : S16x128.ShapeCasts S16x128
  inb_S1x8000x128_S1x8000x128_0_0_0 : ∀ a, (![0, 0, 0] : Fin 3 → Nat) a + S1x8000x128.size a ≤ S1x8000x128.size a
  h_S1x8000x128 : 0 < S1x8000x128.numel
  shapeCasts_S1x8000x128_S8000x128 : S1x8000x128.ShapeCasts S8000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  reduces_S8000x128_S8000 : S8000x128.Reduces [1] S8000
  shapeCasts_S8000_S8000x1 : S8000.ShapeCasts S8000x1
  broadcasts_S8000x1_S8000x128 : S8000x1.Broadcasts S8000x128
  inb_S8000x128_S8000x128_0_0 : ∀ a, (![0, 0] : Fin 2 → Nat) a + S8000x128.size a ≤ S8000x128.size a
  h_S8000x128 : 0 < S8000x128.numel
  slices_S2x320000_S1x160000_0_160000 : S2x320000.Slices ![0, 160000] S1x160000
  slices_S2x320000_S1x160000_1_160000 : S2x320000.Slices ![1, 160000] S1x160000
  dot_S10000x128_S128x128_S10000x128_1_1_0_0_n_n_wf : DotDims.WF S10000x128 S128x128 S10000x128 [1] [1] [0] [0] [] []
  dot_S8000x16_S16x128_S8000x128_1_0_0_1_n_n_wf : DotDims.WF S8000x16 S16x128 S8000x128 [1] [0] [0] [1] [] []
  dot_S8000x128_S128x128_S8000x128_1_0_0_1_n_n_wf : DotDims.WF S8000x128 S128x128 S8000x128 [1] [0] [0] [1] [] []
  hcc1_scratch4 : 8 + S_.numel ≤ 46
  hcc1_scratch5 : 9 + S_.numel ≤ 46
  hcc1_scratch6 : 10 + S_.numel ≤ 46
  hcc1_scratch7 : 11 + S_.numel ≤ 46
  hcc1_scoped0 : 12 + S_.numel ≤ 46
  hcc1_scoped1 : 13 + S_.numel ≤ 46
  hcc3_scratch4 : 27 + S_.numel ≤ 46
  hcc3_scratch5 : 28 + S_.numel ≤ 46
  hcc3_scratch6 : 29 + S_.numel ≤ 46
  hcc3_scratch7 : 30 + S_.numel ≤ 46
  hcc3_scoped0 : 31 + S_.numel ≤ 46
  hcc3_scoped1 : 32 + S_.numel ≤ 46
  hscKind : ∀ q, scKind q ≠ .tc
  hscCore : ∀ q, scNCore q ≤ τ.nSC
  hscSub : ∀ q, scNSub q ≤ τ.nSub
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x128.size a ≤ S2x128x128.size a
  hwx0_2 : ∀ i : grid0.Coords, EltTy.bits .f32 = 32 ∨ (Rect.block (s := S2x128x128) S1x128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x128.size a ≤ S2x1x128.size a
  hwx0_3 : ∀ i : grid0.Coords, EltTy.bits .f32 = 32 ∨ (Rect.block (s := S2x1x128) S1x1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x10000x128.size a ≤ S2x10000x128.size a
  hwx0_4 : ∀ i : grid0.Coords, EltTy.bits .f32 = 32 ∨ (Rect.block (s := S2x10000x128) S1x10000x128.size (cc0_transform_4 i) (hinb0_4 i)).WholeWords (EltTy.packing .f32)
  hcore1 : grid1.bound 0 ≤ τ.nSC
  hsub1 : grid1.bound 1 ≤ τ.nSub
  k1_off1_inb : ∀ i : grid1.Coords, ∀ (k1_h1 : k1_cond1 i = 1#1), ∀ a, (k1_off1 i) a + S1000x128.size a ≤ S10000x128.size a
  k1_off2_inb : ∀ i : grid1.Coords, ∀ (k1_h1 : k1_cond1 i = 1#1), ∀ a, (k1_off2 i) a + S1000x128.size a ≤ S20000x128.size a
  k1_t1_ok : k1_t1_loop.OK
  k1_off3_inb : ∀ (i : grid1.Coords) (k1_t1 : Fin k1_t1_loop.trips), ∀ a, (k1_off3 i k1_t1) a + S2048.size a ≤ S327680.size a
  k1_t2_ok : k1_t2_loop.OK
  k1_off4_inb : ∀ k1_t2 : Fin k1_t2_loop.trips, ∀ a, (k1_off4 k1_t2) a + S16.size a ≤ S2048.size a
  k1_t3_ok : k1_t3_loop.OK
  k1_off5_inb : ∀ (i : grid1.Coords) (k1_t1 : Fin k1_t1_loop.trips) (k1_t3 : Fin k1_t3_loop.trips), ∀ (k1_h2 : k1_cond2 k1_t1 k1_t3 = 1#1), ∀ a, (k1_off5 i k1_t1 k1_t3) a + S128x128.size a ≤ S327680x128.size a
  k1_off6_inb : ∀ k1_t3 : Fin k1_t3_loop.trips, ∀ a, (k1_off6 k1_t3) a + S128.size a ≤ S2048.size a
  k1_off7_inb : ∀ (i : grid1.Coords) (k1_t1 : Fin k1_t1_loop.trips) (k1_t3 : Fin k1_t3_loop.trips), ∀ (k1_h3 : k1_cond3 k1_t1 k1_t3 = 1#1), ∀ a, (k1_off7 i k1_t1 k1_t3) a + S128x128.size a ≤ S327680x128.size a
  k1_off8_inb : ∀ k1_t3 : Fin k1_t3_loop.trips, ∀ a, (k1_off8 k1_t3) a + S128.size a ≤ S2048.size a
  k1_off9_inb : ∀ (i : grid1.Coords) (k1_t1 : Fin k1_t1_loop.trips) (k1_t3 : Fin k1_t3_loop.trips), ∀ a, (k1_off9 i k1_t1 k1_t3) a + S128x128.size a ≤ S327680x128.size a
  k1_off10_inb : ∀ (i : grid1.Coords) (k1_t1 : Fin k1_t1_loop.trips) (k1_t3 : Fin k1_t3_loop.trips), ∀ a, (k1_off10 i k1_t1 k1_t3) a + S128x128.size a ≤ S327680x128.size a
  k1_off11_inb : ∀ i : grid1.Coords, ∀ a, (k1_off11 i) a + S128x128.size a ≤ S327680x128.size a
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x16.size a ≤ S320000x16.size a
  hwx2_0 : ∀ i : grid2.Coords, EltTy.bits .f32 = 32 ∨ (Rect.block (s := S320000x16) S8000x16.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hstart2_1 : ∀ (i : grid2.Coords) a, cc2_transform_1 i a * S1x8000x128.size a < S2x163840x128.size a
  hwx2_1 : ∀ i : grid2.Coords, EltTy.bits .f32 = 32 ∨ (Rect.unit (s := S2x163840x128) (fun a => cc2_transform_1 i a * S1x8000x128.size a) (fun a => (Pipeline.Clip.of (cc2_transform_1 i a) (S1x8000x128.size a) (S2x163840x128.size a)).extent (S1x8000x128.size a)) fun a => Pipeline.Clip.inb (Pipeline.Clip.ok_of (hstart2_1 i a))).WholeWords (EltTy.packing .f32)
  hwxs2_1 : ∀ i : grid2.Coords, EltTy.bits .f32 = 32 ∨ (Rect.unit (s := S1x8000x128) (fun _ => 0) (fun a => (Pipeline.Clip.of (cc2_transform_1 i a) (S1x8000x128.size a) (S2x163840x128.size a)).extent (S1x8000x128.size a)) fun a => (Nat.zero_add _).trans_le (Pipeline.Clip.extent_le (Pipeline.Clip.ok_of (hstart2_1 i a)))).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hstart2_2 : ∀ (i : grid2.Coords) a, cc2_transform_2 i a * S1x8000x128.size a < S2x163840x128.size a
  hwx2_2 : ∀ i : grid2.Coords, EltTy.bits .f32 = 32 ∨ (Rect.unit (s := S2x163840x128) (fun a => cc2_transform_2 i a * S1x8000x128.size a) (fun a => (Pipeline.Clip.of (cc2_transform_2 i a) (S1x8000x128.size a) (S2x163840x128.size a)).extent (S1x8000x128.size a)) fun a => Pipeline.Clip.inb (Pipeline.Clip.ok_of (hstart2_2 i a))).WholeWords (EltTy.packing .f32)
  hwxs2_2 : ∀ i : grid2.Coords, EltTy.bits .f32 = 32 ∨ (Rect.unit (s := S1x8000x128) (fun _ => 0) (fun a => (Pipeline.Clip.of (cc2_transform_2 i a) (S1x8000x128.size a) (S2x163840x128.size a)).extent (S1x8000x128.size a)) fun a => (Nat.zero_add _).trans_le (Pipeline.Clip.extent_le (Pipeline.Clip.ok_of (hstart2_2 i a)))).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S16x128.size a ≤ S16x128.size a
  hwx2_3 : ∀ i : grid2.Coords, EltTy.bits .f32 = 32 ∨ (Rect.block (s := S16x128) S16x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .bf16 = 32 ∨ (Rect.block (s := S128x128) S128x128.size (cc2_transform_4 i) (hinb2_4 i)).WholeWords (EltTy.packing .bf16)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S8000x128.size a ≤ S320000x128.size a
  hwx2_8 : ∀ i : grid2.Coords, EltTy.bits .f32 = 32 ∨ (Rect.block (s := S320000x128) S8000x128.size (cc2_transform_8 i) (hinb2_8 i)).WholeWords (EltTy.packing .f32)
  hcore3 : grid3.bound 0 ≤ τ.nSC
  hsub3 : grid3.bound 1 ≤ τ.nSub
  k3_off1_inb : ∀ i : grid3.Coords, ∀ (k3_h1 : k3_cond1 i = 1#1), ∀ a, (k3_off1 i) a + S1000x128.size a ≤ S10000x128.size a
  k3_off2_inb : ∀ i : grid3.Coords, ∀ (k3_h1 : k3_cond1 i = 1#1), ∀ a, (k3_off2 i) a + S1000x128.size a ≤ S20000x128.size a
  k3_t1_ok : k3_t1_loop.OK
  k3_off3_inb : ∀ (i : grid3.Coords) (k3_t1 : Fin k3_t1_loop.trips), ∀ a, (k3_off3 i k3_t1) a + S2048.size a ≤ S327680.size a
  k3_t2_ok : k3_t2_loop.OK
  k3_off4_inb : ∀ k3_t2 : Fin k3_t2_loop.trips, ∀ a, (k3_off4 k3_t2) a + S16.size a ≤ S2048.size a
  k3_t3_ok : k3_t3_loop.OK
  k3_off5_inb : ∀ (i : grid3.Coords) (k3_t1 : Fin k3_t1_loop.trips) (k3_t3 : Fin k3_t3_loop.trips), ∀ (k3_h2 : k3_cond2 k3_t1 k3_t3 = 1#1), ∀ a, (k3_off5 i k3_t1 k3_t3) a + S128x128.size a ≤ S327680x128.size a
  k3_off6_inb : ∀ k3_t3 : Fin k3_t3_loop.trips, ∀ a, (k3_off6 k3_t3) a + S128.size a ≤ S2048.size a
  k3_off7_inb : ∀ (i : grid3.Coords) (k3_t1 : Fin k3_t1_loop.trips) (k3_t3 : Fin k3_t3_loop.trips), ∀ (k3_h3 : k3_cond3 k3_t1 k3_t3 = 1#1), ∀ a, (k3_off7 i k3_t1 k3_t3) a + S128x128.size a ≤ S327680x128.size a
  k3_off8_inb : ∀ k3_t3 : Fin k3_t3_loop.trips, ∀ a, (k3_off8 k3_t3) a + S128.size a ≤ S2048.size a
  k3_off9_inb : ∀ (i : grid3.Coords) (k3_t1 : Fin k3_t1_loop.trips) (k3_t3 : Fin k3_t3_loop.trips), ∀ a, (k3_off9 i k3_t1 k3_t3) a + S128x128.size a ≤ S327680x128.size a
  k3_off10_inb : ∀ (i : grid3.Coords) (k3_t1 : Fin k3_t1_loop.trips) (k3_t3 : Fin k3_t3_loop.trips), ∀ a, (k3_off10 i k3_t1 k3_t3) a + S128x128.size a ≤ S327680x128.size a
  k3_off11_inb : ∀ i : grid3.Coords, ∀ a, (k3_off11 i) a + S128x128.size a ≤ S327680x128.size a
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8000x16.size a ≤ S320000x16.size a
  hwx4_0 : ∀ i : grid4.Coords, EltTy.bits .f32 = 32 ∨ (Rect.block (s := S320000x16) S8000x16.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hstart4_1 : ∀ (i : grid4.Coords) a, cc4_transform_1 i a * S1x8000x128.size a < S2x163840x128.size a
  hwx4_1 : ∀ i : grid4.Coords, EltTy.bits .f32 = 32 ∨ (Rect.unit (s := S2x163840x128) (fun a => cc4_transform_1 i a * S1x8000x128.size a) (fun a => (Pipeline.Clip.of (cc4_transform_1 i a) (S1x8000x128.size a) (S2x163840x128.size a)).extent (S1x8000x128.size a)) fun a => Pipeline.Clip.inb (Pipeline.Clip.ok_of (hstart4_1 i a))).WholeWords (EltTy.packing .f32)
  hwxs4_1 : ∀ i : grid4.Coords, EltTy.bits .f32 = 32 ∨ (Rect.unit (s := S1x8000x128) (fun _ => 0) (fun a => (Pipeline.Clip.of (cc4_transform_1 i a) (S1x8000x128.size a) (S2x163840x128.size a)).extent (S1x8000x128.size a)) fun a => (Nat.zero_add _).trans_le (Pipeline.Clip.extent_le (Pipeline.Clip.ok_of (hstart4_1 i a)))).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hstart4_2 : ∀ (i : grid4.Coords) a, cc4_transform_2 i a * S1x8000x128.size a < S2x163840x128.size a
  hwx4_2 : ∀ i : grid4.Coords, EltTy.bits .f32 = 32 ∨ (Rect.unit (s := S2x163840x128) (fun a => cc4_transform_2 i a * S1x8000x128.size a) (fun a => (Pipeline.Clip.of (cc4_transform_2 i a) (S1x8000x128.size a) (S2x163840x128.size a)).extent (S1x8000x128.size a)) fun a => Pipeline.Clip.inb (Pipeline.Clip.ok_of (hstart4_2 i a))).WholeWords (EltTy.packing .f32)
  hwxs4_2 : ∀ i : grid4.Coords, EltTy.bits .f32 = 32 ∨ (Rect.unit (s := S1x8000x128) (fun _ => 0) (fun a => (Pipeline.Clip.of (cc4_transform_2 i a) (S1x8000x128.size a) (S2x163840x128.size a)).extent (S1x8000x128.size a)) fun a => (Nat.zero_add _).trans_le (Pipeline.Clip.extent_le (Pipeline.Clip.ok_of (hstart4_2 i a)))).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S16x128.size a ≤ S16x128.size a
  hwx4_3 : ∀ i : grid4.Coords, EltTy.bits .f32 = 32 ∨ (Rect.block (s := S16x128) S16x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .bf16 = 32 ∨ (Rect.block (s := S128x128) S128x128.size (cc4_transform_4 i) (hinb4_4 i)).WholeWords (EltTy.packing .bf16)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x128.size a ≤ S1x128.size a
  hwx4_7 : ∀ i : grid4.Coords, EltTy.bits .f32 = 32 ∨ (Rect.block (s := S1x128) S1x128.size (cc4_transform_7 i) (hinb4_7 i)).WholeWords (EltTy.packing .f32)
  hstage4_8 : ∀ j, (stage4_8 j).IsWhole
  nbuf4_8 : grid4.bufCount reads4_8 false = 2
  hreads4_8 : ∀ i i' : grid4.Coords, (∀ a, reads4_8 a = true → i a = i' a) → cc4_transform_9 i = cc4_transform_9 i'
  hinb4_8 : ∀ (i : grid4.Coords) a, (cc4_transform_9 i a + 1) * S8000x128.size a ≤ S320000x128.size a
  hwx4_8 : ∀ i : grid4.Coords, EltTy.bits .f32 = 32 ∨ (Rect.block (s := S320000x128) S8000x128.size (cc4_transform_9 i) (hinb4_8 i)).WholeWords (EltTy.packing .f32)

variable [Facts₀]

abbrev cc1_scratch4 : DmaSems sig S_ := SemArray.consecutive 8 S_ hcc1_scratch4
abbrev cc1_scratch5 : DmaSems sig S_ := SemArray.consecutive 9 S_ hcc1_scratch5
abbrev cc1_scratch6 : DmaSems sig S_ := SemArray.consecutive 10 S_ hcc1_scratch6
abbrev cc1_scratch7 : DmaSems sig S_ := SemArray.consecutive 11 S_ hcc1_scratch7
abbrev cc1_scoped0 : DmaSems sig S_ := SemArray.consecutive 12 S_ hcc1_scoped0
abbrev cc1_scoped1 : DmaSems sig S_ := SemArray.consecutive 13 S_ hcc1_scoped1
abbrev cc3_scratch4 : DmaSems sig S_ := SemArray.consecutive 27 S_ hcc3_scratch4
abbrev cc3_scratch5 : DmaSems sig S_ := SemArray.consecutive 28 S_ hcc3_scratch5
abbrev cc3_scratch6 : DmaSems sig S_ := SemArray.consecutive 29 S_ hcc3_scratch6
abbrev cc3_scratch7 : DmaSems sig S_ := SemArray.consecutive 30 S_ hcc3_scratch7
abbrev cc3_scoped0 : DmaSems sig S_ := SemArray.consecutive 31 S_ hcc3_scoped0
abbrev cc3_scoped1 : DmaSems sig S_ := SemArray.consecutive 32 S_ hcc3_scoped1
def dot_S10000x128_S128x128_S10000x128_1_1_0_0_n_n : DotDims S10000x128 S128x128 S10000x128 where
  lhsContracting := [1]
  rhsContracting := [1]
  lhsNonContracting := [0]
  rhsNonContracting := [0]
  lhsBatch := []
  rhsBatch := []
  wf := dot_S10000x128_S128x128_S10000x128_1_1_0_0_n_n_wf
def dot_S8000x16_S16x128_S8000x128_1_0_0_1_n_n : DotDims S8000x16 S16x128 S8000x128 where
  lhsContracting := [1]
  rhsContracting := [0]
  lhsNonContracting := [0]
  rhsNonContracting := [1]
  lhsBatch := []
  rhsBatch := []
  wf := dot_S8000x16_S16x128_S8000x128_1_0_0_1_n_n_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf

abbrev win0_0 : Pipeline.Window sig grid0 :=
  Pipeline.Window.ofSpec (Memref.whole main_arg1) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x128x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x1x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x10000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win2_0 : Pipeline.Window sig grid2 :=
  Pipeline.Window.ofSpec (Memref.whole main_arg0) S8000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpecClip (Memref.whole main_v27) S1x8000x128.size cc2_transform_1 reads2_1 false false 2 stage2_1 sem2_1
    hrank2 hreads2_1 hstart2_1 nbuf2_1 (Memref.isWhole_whole _) hwx2_1 hwxs2_1 hstage2_1

abbrev win2_2 : Pipeline.Window sig grid2 :=
  Pipeline.Window.ofSpecClip (Memref.whole main_v27) S1x8000x128.size cc2_transform_2 reads2_2 false false 2 stage2_2 sem2_2
    hrank2 hreads2_2 hstart2_2 nbuf2_2 (Memref.isWhole_whole _) hwx2_2 hwxs2_2 hstage2_2

abbrev win2_3 : Pipeline.Window sig grid2 :=
  Pipeline.Window.ofSpec (Memref.whole main_v11) S16x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v13) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v14) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v15) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v16) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v28) S8000x128.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win4_0 : Pipeline.Window sig grid4 :=
  Pipeline.Window.ofSpec (Memref.whole main_arg0) S8000x16.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpecClip (Memref.whole main_v39) S1x8000x128.size cc4_transform_1 reads4_1 false false 2 stage4_1 sem4_1
    hrank4 hreads4_1 hstart4_1 nbuf4_1 (Memref.isWhole_whole _) hwx4_1 hwxs4_1 hstage4_1

abbrev win4_2 : Pipeline.Window sig grid4 :=
  Pipeline.Window.ofSpecClip (Memref.whole main_v39) S1x8000x128.size cc4_transform_2 reads4_2 false false 2 stage4_2 sem4_2
    hrank4 hreads4_2 hstart4_2 nbuf4_2 (Memref.isWhole_whole _) hwx4_2 hwxs4_2 hstage4_2

abbrev win4_3 : Pipeline.Window sig grid4 :=
  Pipeline.Window.ofSpec (Memref.whole main_v11) S16x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v13) S128x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v14) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v15) S1x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v16) S1x128.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v40) S8000x128.size cc4_transform_9 reads4_8 true false 2 stage4_8 sem4_8
    hrank4 hreads4_8 hinb4_8 nbuf4_8 (Memref.isWhole_whole _) hwx4_8 hstage4_8

abbrev win4 : Fin 9 → Pipeline.Window sig grid4 := fun | 0 => win4_0 | 1 => win4_1 | 2 => win4_2 | 3 => win4_3 | 4 => win4_4 | 5 => win4_5 | 6 => win4_6 | 7 => win4_7 | 8 => win4_8 | ⟨_ + 9, h⟩ => absurd h (Nat.not_lt.2 (Nat.le_add_left _ _))
abbrev spec4 : Fin 9 → Pipeline.WinSpec sig grid4.rank := fun w => (win4 w).toWinSpec

class Facts : Prop extends Facts₀ where

variable [Facts]
-- ==== ReferenceIdeal.lean ====
abbrev S320000x16 : Shape := ⟨2, ![320000, 16]⟩
abbrev S10000x128 : Shape := ⟨2, ![10000, 128]⟩
abbrev S2x320000 : Shape := ⟨2, ![2, 320000]⟩
abbrev S128x16 : Shape := ⟨2, ![128, 16]⟩
abbrev S128x128 : Shape := ⟨2, ![128, 128]⟩
abbrev S128 : Shape := ⟨1, ![128]⟩
abbrev S16x128 : Shape := ⟨2, ![16, 128]⟩
abbrev S320000x128 : Shape := ⟨2, ![320000, 128]⟩
abbrev S1x128 : Shape := ⟨2, ![1, 128]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S1 : Shape := ⟨1, ![1]⟩
abbrev S1x1 : Shape := ⟨2, ![1, 1]⟩

abbrev nBuf : Space → Nat
  | .hbm => 116
  | .vmem => 0
  | .smem => 0
  | _ => 0

abbrev bufTy : (tb : Table) → Fin (tcTables nBuf tb) → BufTy
  | .hbm, ⟨0, _⟩ => ⟨S320000x16, .f32⟩
  | .hbm, ⟨1, _⟩ => ⟨S10000x128, .f32⟩
  | .hbm, ⟨2, _⟩ => ⟨S10000x128, .f32⟩
  | .hbm, ⟨3, _⟩ => ⟨S2x320000, .i32⟩
  | .hbm, ⟨4, _⟩ => ⟨S128x16, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S16x128, .f32⟩
  | .hbm, ⟨13, _⟩ => ⟨S320000x128, .f32⟩
  | .hbm, ⟨14, _⟩ => ⟨S128x128, .f32⟩
  | .hbm, ⟨15, _⟩ => ⟨S10000x128, .f32⟩
  | .hbm, ⟨16, _⟩ => ⟨S128x128, .f32⟩
  | .hbm, ⟨17, _⟩ => ⟨S10000x128, .f32⟩
  | .hbm, ⟨18, _⟩ => ⟨S1x128, .f32⟩
  | .hbm, ⟨19, _⟩ => ⟨S10000x128, .f32⟩
  | .hbm, ⟨20, _⟩ => ⟨S10000x128, .f32⟩
  | .hbm, ⟨21, _⟩ => ⟨S1x320000, .i32⟩
  | .hbm, ⟨22, _⟩ => ⟨S320000, .i32⟩
  | .hbm, ⟨23, _⟩ => ⟨S1x320000, .i32⟩
  | .hbm, ⟨24, _⟩ => ⟨S320000, .i32⟩
  | .hbm, ⟨25, _⟩ => ⟨S_, .i32⟩
  | .hbm, ⟨26, _⟩ => ⟨S320000, .i32⟩
  | .hbm, ⟨27, _⟩ => ⟨S320000, .i1⟩
  | .hbm, ⟨28, _⟩ => ⟨S_, .i32⟩
  | .hbm, ⟨29, _⟩ => ⟨S320000, .i32⟩
  | .hbm, ⟨30, _⟩ => ⟨S320000, .i32⟩
  | .hbm, ⟨31, _⟩ => ⟨S320000, .i32⟩
  | .hbm, ⟨32, _⟩ => ⟨S320000x1, .i32⟩
  | .hbm, ⟨33, _⟩ => ⟨S1, .i32⟩
  | .hbm, ⟨34, _⟩ => ⟨S_, .i32⟩
  | .hbm, ⟨35, _⟩ => ⟨S320000x1, .i32⟩
  | .hbm, ⟨36, _⟩ => ⟨S320000x1, .i1⟩
  | .hbm, ⟨37, _⟩ => ⟨S1x1, .i32⟩
  | .hbm, ⟨38, _⟩ => ⟨S320000x1, .i32⟩
  | .hbm, ⟨39, _⟩ => ⟨S320000x1, .i1⟩
  | .hbm, ⟨40, _⟩ => ⟨S320000x1, .i1⟩
  | .hbm, ⟨41, _⟩ => ⟨S_, .i1⟩
  | .hbm, ⟨42, _⟩ => ⟨S320000, .i1⟩
  | .hbm, ⟨43, _⟩ => ⟨S320000x128, .f32⟩
  | .hbm, ⟨44, _⟩ => ⟨S320000x128, .i1⟩
  | .hbm, ⟨45, _⟩ => ⟨S_, .f32⟩
  | .hbm, ⟨46, _⟩ => ⟨S320000x128, .f32⟩
  | .hbm, ⟨47, _⟩ => ⟨S320000x128, .f32⟩
  | .hbm, ⟨48, _⟩ => ⟨S320000x128, .f32⟩
  | .hbm, ⟨49, _⟩ => ⟨S_, .i32⟩
  | .hbm, ⟨50, _⟩ => ⟨S320000, .i32⟩
  | .hbm, ⟨51, _⟩ => ⟨S320000, .i1⟩
  | .hbm, ⟨52, _⟩ => ⟨S_, .i32⟩
  | .hbm, ⟨53, _⟩ => ⟨S320000, .i32⟩
  | .hbm, ⟨54, _⟩ => ⟨S320000, .i32⟩
  | .hbm, ⟨55, _⟩ => ⟨S320000, .i32⟩
  | .hbm, ⟨56, _⟩ => ⟨S320000x1, .i32⟩
  | .hbm, ⟨57, _⟩ => ⟨S1, .i32⟩
  | .hbm, ⟨58, _⟩ => ⟨S_, .i32⟩
  | .hbm, ⟨59, _⟩ => ⟨S320000x1, .i32⟩
  | .hbm, ⟨60, _⟩ => ⟨S320000x1, .i1⟩
  | .hbm, ⟨61, _⟩ => ⟨S1x1, .i32⟩
  | .hbm, ⟨62, _⟩ => ⟨S320000x1, .i32⟩
  | .hbm, ⟨63, _⟩ => ⟨S320000x1, .i1⟩
  | .hbm, ⟨64, _⟩ => ⟨S320000x1, .i1⟩
  | .hbm, ⟨65, _⟩ => ⟨S_, .i1⟩
  | .hbm, ⟨66, _⟩ => ⟨S320000, .i1⟩
  | .hbm, ⟨67, _⟩ => ⟨S320000x128, .f32⟩
  | .hbm, ⟨68, _⟩ => ⟨S320000x128, .i1⟩
  | .hbm, ⟨69, _⟩ => ⟨S_, .f32⟩
  | .hbm, ⟨70, _⟩ => ⟨S320000x128, .f32⟩
  | .hbm, ⟨71, _⟩ => ⟨S320000x128, .f32⟩
  | .hbm, ⟨72, _⟩ => ⟨S320000x128, .f32⟩
  | .hbm, ⟨73, _⟩ => ⟨S320000x128, .f32⟩
  | .hbm, ⟨74, _⟩ => ⟨S320000x128, .f32⟩
  | .hbm, ⟨75, _⟩ => ⟨S_, .f32⟩
  | .hbm, ⟨76, _⟩ => ⟨S320000x128, .f32⟩
  | .hbm, ⟨77, _⟩ => ⟨S320000x128, .f32⟩
  | .hbm, ⟨78, _⟩ => ⟨S_, .f32⟩
  | .hbm, ⟨79, _⟩ => ⟨S320000x128, .f32⟩
  | .hbm, ⟨80, _⟩ => ⟨S320000x128, .f32⟩
  | .hbm, ⟨81, _⟩ => ⟨S320000x128, .f32⟩
  | .hbm, ⟨82, _⟩ => ⟨S128x128, .f32⟩
  | .hbm, ⟨83, _⟩ => ⟨S320000x128, .f32⟩
  | .hbm, ⟨84, _⟩ => ⟨S1x128, .f32⟩
  | .hbm, ⟨85, _⟩ => ⟨S320000x128, .f32⟩
  | .hbm, ⟨86, _⟩ => ⟨S320000x128, .f32⟩
  | .hbm, ⟨87, _⟩ => ⟨S_, .f32⟩
  | .hbm, ⟨88, _⟩ => ⟨S320000, .f32⟩
  | .hbm, ⟨89, _⟩ => ⟨S320000x1, .f32⟩
  | .hbm, ⟨90, _⟩ => ⟨S_, .f32⟩
  | .hbm, ⟨91, _⟩ => ⟨S320000x1, .f32⟩
  | .hbm, ⟨92, _⟩ => ⟨S320000x1, .f32⟩
  | .hbm, ⟨93, _⟩ => ⟨S320000x128, .f32⟩
  | .hbm, ⟨94, _⟩ => ⟨S320000x128, .f32⟩
  | .hbm, ⟨95, _⟩ => ⟨S320000x128, .f32⟩
  | .hbm, ⟨96, _⟩ => ⟨S_, .f32⟩
  | .hbm, ⟨97, _⟩ => ⟨S320000, .f32⟩
  | .hbm, ⟨98, _⟩ => ⟨S320000x1, .f32⟩
  | .hbm, ⟨99, _⟩ => ⟨S_, .f32⟩
  | .hbm, ⟨100, _⟩ => ⟨S320000x1, .f32⟩
  | .hbm, ⟨101, _⟩ => ⟨S320000x1, .f32⟩
  | .hbm, ⟨102, _⟩ => ⟨S320000x128, .f32⟩
  | .hbm, ⟨103, _⟩ => ⟨S320000x128, .f32⟩
  | .hbm, ⟨104, _⟩ => ⟨S_, .f32⟩
  | .hbm, ⟨105, _⟩ => ⟨S320000x1, .f32⟩
  | .hbm, ⟨106, _⟩ => ⟨S320000x1, .f32⟩
  | .hbm, ⟨107, _⟩ => ⟨S320000x1, .f32⟩
  | .hbm, ⟨108, _⟩ => ⟨S320000x128, .f32⟩
  | .hbm, ⟨109, _⟩ => ⟨S320000x128, .f32⟩
  | .hbm, ⟨110, _⟩ => ⟨S1x128, .f32⟩
  | .hbm, ⟨111, _⟩ => ⟨S320000x128, .f32⟩
  | .hbm, ⟨112, _⟩ => ⟨S320000x128, .f32⟩
  | .hbm, ⟨113, _⟩ => ⟨S1x128, .f32⟩
  | .hbm, ⟨114, _⟩ => ⟨S320000x128, .f32⟩
  | .hbm, ⟨115, _⟩ => ⟨S320000x128, .f32⟩
  | _, _ => ⟨S320000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_call0_c : Ref sig .tc := ⟨.hbm, 25, rfl⟩
abbrev main_call0_v0 : Ref sig .tc := ⟨.hbm, 26, rfl⟩
abbrev main_call0_v1 : Ref sig .tc := ⟨.hbm, 27, rfl⟩
abbrev main_call0_c_0 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_c_1 : Ref sig .tc := ⟨.hbm, 33, rfl⟩
abbrev main_call0_c_2 : Ref sig .tc := ⟨.hbm, 34, rfl⟩
abbrev main_call0_v6 : Ref sig .tc := ⟨.hbm, 35, rfl⟩
abbrev main_call0_v7 : Ref sig .tc := ⟨.hbm, 36, rfl⟩
abbrev main_call0_v8 : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_c_3 : Ref sig .tc := ⟨.hbm, 41, rfl⟩
abbrev main_call0_v12 : Ref sig .tc := ⟨.hbm, 42, rfl⟩
abbrev main_call0_v13 : Ref sig .tc := ⟨.hbm, 43, rfl⟩
abbrev main_call0_v14 : Ref sig .tc := ⟨.hbm, 44, rfl⟩
abbrev main_call0_cst : Ref sig .tc := ⟨.hbm, 45, rfl⟩
abbrev main_call0_v15 : Ref sig .tc := ⟨.hbm, 46, rfl⟩
abbrev main_v13 : Ref sig .tc := ⟨.hbm, 47, rfl⟩
abbrev main_v14 : Ref sig .tc := ⟨.hbm, 48, rfl⟩
abbrev main_call1_c : Ref sig .tc := ⟨.hbm, 49, rfl⟩
abbrev main_call1_v0 : Ref sig .tc := ⟨.hbm, 50, rfl⟩
abbrev main_call1_v1 : Ref sig .tc := ⟨.hbm, 51, rfl⟩
abbrev main_call1_c_0 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_call1_v5 : Ref sig .tc := ⟨.hbm, 56, rfl⟩
abbrev main_call1_c_1 : Ref sig .tc := ⟨.hbm, 57, rfl⟩
abbrev main_call1_c_2 : Ref sig .tc := ⟨.hbm, 58, rfl⟩
abbrev main_call1_v6 : Ref sig .tc := ⟨.hbm, 59, rfl⟩
abbrev main_call1_v7 : Ref sig .tc := ⟨.hbm, 60, rfl⟩
abbrev main_call1_v8 : Ref sig .tc := ⟨.hbm, 61, rfl⟩
abbrev main_call1_v9 : Ref sig .tc := ⟨.hbm, 62, rfl⟩
abbrev main_call1_v10 : Ref sig .tc := ⟨.hbm, 63, rfl⟩
abbrev main_call1_v11 : Ref sig .tc := ⟨.hbm, 64, rfl⟩
abbrev main_call1_c_3 : Ref sig .tc := ⟨.hbm, 65, rfl⟩
abbrev main_call1_v12 : Ref sig .tc := ⟨.hbm, 66, rfl⟩
abbrev main_call1_v13 : Ref sig .tc := ⟨.hbm, 67, rfl⟩
abbrev main_call1_v14 : Ref sig .tc := ⟨.hbm, 68, rfl⟩
abbrev main_call1_cst : Ref sig .tc := ⟨.hbm, 69, rfl⟩
abbrev main_call1_v15 : Ref sig .tc := ⟨.hbm, 70, rfl⟩
abbrev main_v15 : Ref sig .tc := ⟨.hbm, 71, rfl⟩
abbrev main_v16 : Ref sig .tc := ⟨.hbm, 72, rfl⟩
abbrev main_call2_v0 : Ref sig .tc := ⟨.hbm, 73, rfl⟩
abbrev main_call2_v1 : Ref sig .tc := ⟨.hbm, 74, rfl⟩
abbrev main_call2_cst : Ref sig .tc := ⟨.hbm, 75, rfl⟩
abbrev main_call2_v2 : Ref sig .tc := ⟨.hbm, 76, rfl⟩
abbrev main_call2_v3 : Ref sig .tc := ⟨.hbm, 77, rfl⟩
abbrev main_call2_cst_0 : Ref sig .tc := ⟨.hbm, 78, rfl⟩
abbrev main_call2_v4 : Ref sig .tc := ⟨.hbm, 79, rfl⟩
abbrev main_call2_v5 : Ref sig .tc := ⟨.hbm, 80, rfl⟩
abbrev main_v17 : Ref sig .tc := ⟨.hbm, 81, rfl⟩
abbrev main_v18 : Ref sig .tc := ⟨.hbm, 82, rfl⟩
abbrev main_v19 : Ref sig .tc := ⟨.hbm, 83, rfl⟩
abbrev main_v20 : Ref sig .tc := ⟨.hbm, 84, rfl⟩
abbrev main_v21 : Ref sig .tc := ⟨.hbm, 85, rfl⟩
abbrev main_v22 : Ref sig .tc := ⟨.hbm, 86, rfl⟩
abbrev main_cst : Ref sig .tc := ⟨.hbm, 87, rfl⟩
abbrev main_v23 : Ref sig .tc := ⟨.hbm, 88, rfl⟩
abbrev main_v24 : Ref sig .tc := ⟨.hbm, 89, rfl⟩
abbrev main_cst_0 : Ref sig .tc := ⟨.hbm, 90, rfl⟩
abbrev main_v25 : Ref sig .tc := ⟨.hbm, 91, rfl⟩
abbrev main_v26 : Ref sig .tc := ⟨.hbm, 92, rfl⟩
abbrev main_v27 : Ref sig .tc := ⟨.hbm, 93, rfl⟩
abbrev main_v28 : Ref sig .tc := ⟨.hbm, 94, rfl⟩
abbrev main_v29 : Ref sig .tc := ⟨.hbm, 95, rfl⟩
abbrev main_cst_1 : Ref sig .tc := ⟨.hbm, 96, rfl⟩
abbrev main_v30 : Ref sig .tc := ⟨.hbm, 97, rfl⟩
abbrev main_v31 : Ref sig .tc := ⟨.hbm, 98, rfl⟩
abbrev main_cst_2 : Ref sig .tc := ⟨.hbm, 99, rfl⟩
abbrev main_v32 : Ref sig .tc := ⟨.hbm, 100, rfl⟩
abbrev main_v33 : Ref sig .tc := ⟨.hbm, 101, rfl⟩
abbrev main_v34 : Ref sig .tc := ⟨.hbm, 102, rfl⟩
abbrev main_v35 : Ref sig .tc := ⟨.hbm, 103, rfl⟩
abbrev main_cst_3 : Ref sig .tc := ⟨.hbm, 104, rfl⟩
abbrev main_v36 : Ref sig .tc := ⟨.hbm, 105, rfl⟩
abbrev main_v37 : Ref sig .tc := ⟨.hbm, 106, rfl⟩
abbrev main_v38 : Ref sig .tc := ⟨.hbm, 107, rfl⟩
abbrev main_v39 : Ref sig .tc := ⟨.hbm, 108, rfl⟩
abbrev main_v40 : Ref sig .tc := ⟨.hbm, 109, rfl⟩
abbrev main_v41 : Ref sig .tc := ⟨.hbm, 110, rfl⟩
abbrev main_v42 : Ref sig .tc := ⟨.hbm, 111, rfl⟩
abbrev main_v43 : Ref sig .tc := ⟨.hbm, 112, rfl⟩
abbrev main_v44 : Ref sig .tc := ⟨.hbm, 113, rfl⟩
abbrev main_v45 : Ref sig .tc := ⟨.hbm, 114, rfl⟩
abbrev main_v46 : Ref sig .tc := ⟨.hbm, 115, rfl⟩

abbrev nD : Nat := 1
abbrev τ : Topo := Topo.v7x

variable {F : FTy → Type} [FloatOps F]

class Facts₀ : Prop where
  transposes_S128x16_S16x128_1_0 : S128x16.Transposes [1, 0] S16x128
  transposes_S128x128_S128x128_1_0 : S128x128.Transposes [1, 0] S128x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  bcast_S_S320000x1 : S_.BroadcastsInDim S320000x1 (![] : Fin 0 → Fin S320000x1.rank)
  bcast_S1_S1x1_1 : S1.BroadcastsInDim S1x1 (![1] : Fin 1 → Fin S1x1.rank)
  bcast_S1x1_S320000x1_0_1 : S1x1.BroadcastsInDim S320000x1 (![0, 1] : Fin 2 → Fin S320000x1.rank)
  reducesTo_S320000x1_S320000_d1 : S320000x1.ReducesTo [1] S320000
  h_S_ : 0 < S_.numel
  bcast_S320000_S320000x128_0 : S320000.BroadcastsInDim S320000x128 (![0] : Fin 1 → Fin S320000x128.rank)
  bcast_S_S320000x128 : S_.BroadcastsInDim S320000x128 (![] : Fin 0 → Fin S320000x128.rank)
  bcast_S1x128_S320000x128_0_1 : S1x128.BroadcastsInDim S320000x128 (![0, 1] : Fin 2 → Fin S320000x128.rank)
  reducesTo_S320000x128_S320000_d1 : S320000x128.ReducesTo [1] S320000
  bcast_S320000x1_S320000x128_0_1 : S320000x1.BroadcastsInDim S320000x128 (![0, 1] : Fin 2 → Fin S320000x128.rank)
  dot_S320000x16_S16x128_S320000x128_1_0_0_1_n_n_wf : DotDims.WF S320000x16 S16x128 S320000x128 [1] [0] [0] [1] [] []
  dot_S10000x128_S128x128_S10000x128_1_0_0_1_n_n_wf : DotDims.WF S10000x128 S128x128 S10000x128 [1] [0] [0] [1] [] []
  gather_S10000x128_S320000x1_S320000x128_1_0_n_n_0_1_1128_wf : GatherDims.WF S10000x128 S320000x1 S320000x128 [1] [0] [] [0] [] 1 ![1, 128]
  dot_S320000x128_S128x128_S320000x128_1_0_0_1_n_n_wf : DotDims.WF S320000x128 S128x128 S320000x128 [1] [0] [0] [1] [] []

variable [Facts₀]

def dot_S320000x16_S16x128_S320000x128_1_0_0_1_n_n : DotDims S320000x16 S16x128 S320000x128 where
  lhsContracting := [1]
  rhsContracting := [0]
  lhsNonContracting := [0]
  rhsNonContracting := [1]
  lhsBatch := []
  rhsBatch := []
  wf := dot_S320000x16_S16x128_S320000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S10000x128_S320000x1_S320000x128_1_0_n_n_0_1_1128 : GatherDims S10000x128 S320000x1 S320000x128 where
  offsetDims := [1]
  collapsedSliceDims := [0]
  operandBatchingDims := []
  startIndicesBatchingDims := []
  startIndexMap := [0]
  indexVectorDim := 1
  sliceSizes := ![1, 128]
  wf := gather_S10000x128_S320000x1_S320000x128_1_0_n_n_0_1_1128_wf
def dot_S320000x128_S128x128_S320000x128_1_0_0_1_n_n : DotDims S320000x128 S128x128 S320000x128 where
  lhsContracting := [1]
  rhsContracting := [0]
  lhsNonContracting := [0]
  rhsNonContracting := [1]
  lhsBatch := []
  rhsBatch := []
  wf := dot_S320000x128_S128x128_S320000x128_1_0_0_1_n_n_wf

class Facts : Prop extends Facts₀ where

variable [Facts]
-- ==== Proof.TcMain.lean ====
/-
  @main on the TensorCore, cut where the kernel regions and the SparseCore calls stand: five stretches of host
  operations (weights stacked and biases laid out; the node table reshaped and the first half of the edges' index
  list assembled; a reshape of the gathered rows; the second half's index list; a reshape and the copy of the first
  half's result into the output buffer) around three kernel regions and two SparseCore calls, in program order.
-/
import proofs.«217078_g14027363189340_cont_week2b_886_24_alg».proof.Proof.Gen.KernelIdeal
import Idealize.ShloMosaic.Lib.SparseCore.Launch
import Idealize.ShloMosaic.Lib.StableHlo.Run
import Idealize.ShloMosaic.Lib.Pipeline.Regions

noncomputable section

namespace Cert.Proof.Main

open Cert.KernelIdeal Cert.KernelIdeal.Gen

open Idealize.ShloMosaic Idealize.ShloMosaic.StableHlo Idealize.ShloMosaic.TcCoe
open Idealize.ShloMosaic.SparseCore (S V T)
open Idealize.SL Idealize.SL.Sem

variable {F : FTy → Type} [FloatOps F]

/-- The labels of the program's body table beneath the SparseCore calls: the kernels' and the three pipelines'. -/
abbrev ΛP : Labels := Pipeline.Sig Λ₀ (Fin 3) fun p => (pcfgs (F := F) p).Adm

/-- Before the node tables' region: the two node weight matrices stacked, the zero row and the bias row stacked. -/
abbrev opsA : List (HloOp τ sig (Elt F)) :=
  [
    StableHlo.unary main_arg5 main_v0 (broadcastInDim S1x128x128 ![1, 2] bcast_S128x128_S1x128x128_1_2 : (⟨S128x128, .f32⟩ : BufTy).Contents (Elt F) → (⟨S1x128x128, .f32⟩ : BufTy).Contents (Elt F)),
    StableHlo.unary main_arg6 main_v1 (broadcastInDim S1x128x128 ![1, 2] bcast_S128x128_S1x128x128_1_2 : (⟨S128x128, .f32⟩ : BufTy).Contents (Elt F) → (⟨S1x128x128, .f32⟩ : BufTy).Contents (Elt F)),
    StableHlo.binary main_v0 main_v1 main_v2 ((fun a b => concatenate S2x128x128 0 [⟨S1x128x128, a⟩, ⟨S1x128x128, b⟩] concatenates_S1x128x128_S1x128x128_S2x128x128_d0) : (⟨S1x128x128, .f32⟩ : BufTy).Contents (Elt F) → (⟨S1x128x128, .f32⟩ : BufTy).Contents (Elt F) → (⟨S2x128x128, .f32⟩ : BufTy).Contents (Elt F)),
    StableHlo.nullary main_cst (constant S_ .f32 0x00000000#32),
    StableHlo.unary main_cst main_v3 (broadcastInDim S128 ![] bcast_S_S128 : (⟨S_, .f32⟩ : BufTy).Contents (Elt F) → (⟨S128, .f32⟩ : BufTy).Contents (Elt F)),
    StableHlo.unary main_v3 main_v4 (broadcastInDim S1x128 ![1] bcast_S128_S1x128_1 : (⟨S128, .f32⟩ : BufTy).Contents (Elt F) → (⟨S1x128, .f32⟩ : BufTy).Contents (Elt F)),
    StableHlo.unary main_arg7 main_v5 (broadcastInDim S1x128 ![1] bcast_S128_S1x128_1 : (⟨S128, .f32⟩ : BufTy).Contents (Elt F) → (⟨S1x128, .f32⟩ : BufTy).Contents (Elt F)),
    StableHlo.binary main_v4 main_v5 main_v6 ((fun a b => concatenate S2x128 0 [⟨S1x128, a⟩, ⟨S1x128, b⟩] concatenates_S1x128_S1x128_S2x128_d0) : (⟨S1x128, .f32⟩ : BufTy).Contents (Elt F) → (⟨S1x128, .f32⟩ : BufTy).Contents (Elt F) → (⟨S2x128, .f32⟩ : BufTy).Contents (Elt F)),
    StableHlo.reshape main_v6 main_v7 rfl shapeCasts_S2x128_S2x1x128 ]

/-- Between the node tables' region and the first gather: the two tables as one array of 20000 rows, the transposed
    edge and output weights, the row parameters as 1 × 128 arrays, and the first 160000 edges' index list — source
    indices, padding zeros, destination indices moved past the source table, padding at the destination table's
    first row. -/
abbrev opsB : List (HloOp τ sig (Elt F)) :=
  [
    StableHlo.reshape main_v8 main_v9 rfl shapeCasts_S2x10000x128_S20000x128,
    StableHlo.nullary main_c (constantI S_ 32 0#32),
    StableHlo.unary main_c main_v10 (broadcastInDim S3840 ![] bcast_S_S3840 : (⟨S_, .i32⟩ : BufTy).Contents (Elt F) → (⟨S3840, .i32⟩ : BufTy).Contents (Elt F)),
    StableHlo.unary main_arg4 main_v11 ((transpose S16x128 [1, 0] · transposes_S128x16_S16x128_1_0) : (⟨S128x16, .f32⟩ : BufTy).Contents (Elt F) → (⟨S16x128, .f32⟩ : BufTy).Contents (Elt F)),
    StableHlo.unary main_arg8 main_v12 ((transpose S128x128 [1, 0] · transposes_S128x128_S128x128_1_0) : (⟨S128x128, .f32⟩ : BufTy).Contents (Elt F) → (⟨S128x128, .f32⟩ : BufTy).Contents (Elt F)),
    StableHlo.unary main_v12 main_v13 ((truncf .bf16 · bitsLt_bf16_f32) : (⟨S128x128, .f32⟩ : BufTy).Contents (Elt F) → (⟨S128x128, .bf16⟩ : BufTy).Contents (Elt F)),
    StableHlo.reshape main_arg9 main_v14 rfl shapeCasts_S128_S1x128,
    StableHlo.reshape main_arg10 main_v15 rfl shapeCasts_S128_S1x128,
    StableHlo.reshape main_arg11 main_v16 rfl shapeCasts_S128_S1x128,
    StableHlo.unary main_arg3 main_v17 ((extractStridedSlice S1x160000 ![0, 0] · slices_S2x320000_S1x160000_0_0) : (⟨S2x320000, .i32⟩ : BufTy).Contents (Elt F) → (⟨S1x160000, .i32⟩ : BufTy).Contents (Elt F)),
    StableHlo.reshape main_v17 main_v18 rfl shapeCasts_S1x160000_S160000,
    StableHlo.unary main_arg3 main_v19 ((extractStridedSlice S1x160000 ![1, 0] · slices_S2x320000_S1x160000_1_0) : (⟨S2x320000, .i32⟩ : BufTy).Contents (Elt F) → (⟨S1x160000, .i32⟩ : BufTy).Contents (Elt F)),
    StableHlo.reshape main_v19 main_v20 rfl shapeCasts_S1x160000_S160000,
    StableHlo.nullary main_c_0 (constantI S_ 32 10000#32),
    StableHlo.unary main_c_0 main_v21 (broadcastInDim S160000 ![] bcast_S_S160000 : (⟨S_, .i32⟩ : BufTy).Contents (Elt F) → (⟨S160000, .i32⟩ : BufTy).Contents (Elt F)),
    StableHlo.binary main_v20 main_v21 main_v22 (addi : (⟨S160000, .i32⟩ : BufTy).Contents (Elt F) → (⟨S160000, .i32⟩ : BufTy).Contents (Elt F) → (⟨S160000, .i32⟩ : BufTy).Contents (Elt F)),
    StableHlo.nullary main_c_1 (constantI S_ 32 10000#32),
    StableHlo.unary main_c_1 main_v23 (broadcastInDim S3840 ![] bcast_S_S3840 : (⟨S_, .i32⟩ : BufTy).Contents (Elt F) → (⟨S3840, .i32⟩ : BufTy).Contents (Elt F)),
    StableHlo.binary main_v10 main_v23 main_v24 (addi : (⟨S3840, .i32⟩ : BufTy).Contents (Elt F) → (⟨S3840, .i32⟩ : BufTy).Contents (Elt F) → (⟨S3840, .i32⟩ : BufTy).Contents (Elt F)),
    StableHlo.nary ![main_v18, main_v10, main_v22, main_v24] main_v25 (fun u => concatenate S327680 0 [⟨S160000, u 0⟩, ⟨S3840, u 1⟩, ⟨S160000, u 2⟩, ⟨S3840, u 3⟩] concatenates_S160000_S3840_S160000_S3840_S327680_d0) ]

/-- Between the first gather and the first edge region: the gathered rows as two halves. -/
abbrev opsC : List (HloOp τ sig (Elt F)) :=
  [
    StableHlo.reshape main_v26 main_v27 rfl shapeCasts_S327680x128_S2x163840x128 ]

/-- Between the first edge region and the second gather: the last 160000 edges' index list, laid out as the first. -/
abbrev opsD : List (HloOp τ sig (Elt F)) :=
  [
    StableHlo.unary main_arg3 main_v29 ((extractStridedSlice S1x160000 ![0, 160000] · slices_S2x320000_S1x160000_0_160000) : (⟨S2x320000, .i32⟩ : BufTy).Contents (Elt F) → (⟨S1x160000, .i32⟩ : BufTy).Contents (Elt F)),
    StableHlo.reshape main_v29 main_v30 rfl shapeCasts_S1x160000_S160000,
    StableHlo.unary main_arg3 main_v31 ((extractStridedSlice S1x160000 ![1, 160000] · slices_S2x320000_S1x160000_1_160000) : (⟨S2x320000, .i32⟩ : BufTy).Contents (Elt F) → (⟨S1x160000, .i32⟩ : BufTy).Contents (Elt F)),
    StableHlo.reshape main_v31 main_v32 rfl shapeCasts_S1x160000_S160000,
    StableHlo.nullary main_c_2 (constantI S_ 32 10000#32),
    StableHlo.unary main_c_2 main_v33 (broadcastInDim S160000 ![] bcast_S_S160000 : (⟨S_, .i32⟩ : BufTy).Contents (Elt F) → (⟨S160000, .i32⟩ : BufTy).Contents (Elt F)),
    StableHlo.binary main_v32 main_v33 main_v34 (addi : (⟨S160000, .i32⟩ : BufTy).Contents (Elt F) → (⟨S160000, .i32⟩ : BufTy).Contents (Elt F) → (⟨S160000, .i32⟩ : BufTy).Contents (Elt F)),
    StableHlo.nullary main_c_3 (constantI S_ 32 10000#32),
    StableHlo.unary main_c_3 main_v35 (broadcastInDim S3840 ![] bcast_S_S3840 : (⟨S_, .i32⟩ : BufTy).Contents (Elt F) → (⟨S3840, .i32⟩ : BufTy).Contents (Elt F)),
    StableHlo.binary main_v10 main_v35 main_v36 (addi : (⟨S3840, .i32⟩ : BufTy).Contents (Elt F) → (⟨S3840, .i32⟩ : BufTy).Contents (Elt F) → (⟨S3840, .i32⟩ : BufTy).Contents (Elt F)),
    StableHlo.nary ![main_v30, main_v10, main_v34, main_v36] main_v37 (fun u => concatenate S327680 0 [⟨S160000, u 0⟩, ⟨S3840, u 1⟩, ⟨S160000, u 2⟩, ⟨S3840, u 3⟩] concatenates_S160000_S3840_S160000_S3840_S327680_d0) ]

/-- Between the second gather and the second edge region: the gathered rows as two halves, and the first region's
    result copied into the buffer the second region writes its rows into. -/
abbrev opsE : List (HloOp τ sig (Elt F)) :=
  [
    StableHlo.reshape main_v38 main_v39 rfl shapeCasts_S327680x128_S2x163840x128,
    StableHlo.unary main_v28 main_v40 id ]

/-- A kernel region of @main, as the SparseCore program spells it. -/
abbrev regionCall (p : Fin 3) : Prog (TpuEff nD τ sig (Elt F) (SparseCore.Sig (ΛP (F := F)) 2) .tc) PUnit :=
  Prog.lift (.customCall (SparseCore.inner (Pipeline.entry p)) ())

/-- @main is those stretches, regions and calls in order. -/
theorem main_eq (d : Dev nD) :
    main (F := F) d = (do
      seq opsA; regionCall 0; seq opsB; (sc (F := F)).run d 0; seq opsC; regionCall 1
      seq opsD; (sc (F := F)).run d 1; seq opsE; regionCall 2; pure ⟨⟩) := rfl

end Cert.Proof.Main

end
-- ==== Proof.ScCommon.lean ====
/-
  The program as the launch theorem for SparseCore programs sees it: the configuration of its two SparseCore calls,
  the body table beneath them, the variants, the facts about the launch semaphores, and the ghost state — the
  handshakes' rounds library beside the subcore-barrier cells' rounds library and the transfers' counters.
-/
import proofs.«217078_g14027363189340_cont_week2b_886_24_alg».proof.Proof.Gen.KernelIdeal
import proofs.«217078_g14027363189340_cont_week2b_886_24_alg».proof.Proof.Gen.KernelIdeal.Skeleton
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic

noncomputable section

namespace Cert.Proof.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 3) fun p => (pcfgs (F := F) p).Adm
abbrev K : SparseCore.Cfg τ sig (ΛP (F := F)) 2 := sc (F := F)
theorem nCore_eq (q : Fin 2) : (K (F := F)).nCore q = 2 := by fin_cases q <;> rfl
theorem nSub_eq (q : Fin 2) : (K (F := F)).nSub q = 16 := by fin_cases q <;> rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the barrier cells', the TensorCore pipelines', the transfers' counters -/

abbrev UH : Type := URounds (GSem nD τ sig) ℕ
abbrev UB : Type := URounds (GSem nD τ sig) ℕ
abbrev UP : Type := URounds (GSem nD τ sig) Unit
abbrev UU : Type := UH × (UB × (UP × Counters))

local notation "𝕄" => MT nD τ sig (HIx 2) (Elt F) ℕ UU ℕ

/-- The handshakes' rounds library: the left factor. -/
abbrev EH : Emb UH (MT nD τ sig (HIx 2) (Elt F) ℕ UU ℕ) := embL
/-- The right factor, as a whole. -/
abbrev ER₁ : Emb (UB × (UP × Counters)) (MT nD τ sig (HIx 2) (Elt F) ℕ UU ℕ) :=
  (Emb.inr : Emb (UB × (UP × Counters)) UU).trans
    (uEmb (nD := nD) (sig := sig) (Ix := HIx 2) (Val := Elt F) (Name := ℕ) (U := UU) (Lvl := ℕ)).toEmb
/-- The barrier cells' rounds library: the left half of the right factor. -/
def EB : Emb UB (MT nD τ sig (HIx 2) (Elt F) ℕ UU ℕ) :=
  ((Emb.inl : Emb UB (UB × (UP × Counters))).trans (Emb.inr : Emb (UB × (UP × Counters)) UU)).trans
    (uEmb (nD := nD) (sig := sig) (Ix := HIx 2) (Val := Elt F) (Name := ℕ) (U := UU) (Lvl := ℕ)).toEmb
instance EB_landsIn : (EB : Emb UB 𝕄).LandsIn (upEmb : UEmb _ 𝕄) := by unfold EB; infer_instance
/-- The TensorCore pipelines' rounds library: the left half of the innermost pair (the counters are its right half, found
    by instance). -/
def EP : Emb UP (MT nD τ sig (HIx 2) (Elt F) ℕ UU ℕ) :=
  (((Emb.inl : Emb UP (UP × Counters)).trans (Emb.inr : Emb (UP × Counters) (UB × (UP × Counters)))).trans
      (Emb.inr : Emb (UB × (UP × Counters)) UU)).trans
    (uEmb (nD := nD) (sig := sig) (Ix := HIx 2) (Val := Elt F) (Name := ℕ) (U := UU) (Lvl := ℕ)).toEmb
instance EP_landsIn : (EP : Emb UP 𝕄).LandsIn (upEmb : UEmb _ 𝕄) := by unfold EP; infer_instance

/-- The launch element splits into its three rounds libraries' elements (the counters' unit is dropped). -/
theorem ownU_split3 (a : UH) (b : UB) (p : UP) :
    (ownU ((a, (b, (p, 1))) : UU) : sProp 𝕄) ⊢ iprop(BI.own (EH a) ∗ BI.own (EB b) ∗ BI.own (EP p)) := by
  have h1 : (ownU ((a, (b, (p, 1))) : UU) : sProp 𝕄) ⊢ iprop(BI.own (EH a) ∗ BI.own ((ER₁ (F := F)) (b, ((p, (1 : Counters)) : UP × Counters)))) :=
    BI.own_op_elim ((uEmb (nD := nD) (sig := sig) (Ix := HIx 2) (Val := Elt F) (Name := ℕ) (U := UU) (Lvl := ℕ)).toEmb.op_of_mem
      (Prod.mk_mem_op (URA.mem_op_one a) (URA.mem_one_op (b, ((p, (1 : Counters)) : UP × Counters)))))
  have h2 : (BI.own ((ER₁ (F := F)) (b, ((p, (1 : Counters)) : UP × Counters))) : sProp 𝕄) ⊢ iprop(BI.own (EB b) ∗ BI.own (EP p)) :=
    BI.own_op_elim ((ER₁ (F := F)).op_of_mem
      (Prod.mk_mem_op (URA.mem_op_one b) (URA.mem_one_op ((p, (1 : Counters)) : UP × Counters))))
  exact h1.trans (sep_mono_right h2)

end Cert.Proof.Sc
-- ==== Proof.TcCompose.lean ====
/-
  @main's proof on the TensorCore assembled from its segments' steps. The thread's state between segments is the
  region boundary, the launch theorem's handshake state before the next SparseCore call, and every unscoped buffer of
  the core held whole at one valuation. A stretch of host operations moves the valuation to the operations' composed
  result; a kernel region changes it at its output array only; a SparseCore call at the gathered rows' array only.
  None of these writes an argument array, so the last valuation agrees with the launch memory on all twelve.
-/
import proofs.«217078_g14027363189340_cont_week2b_886_24_alg».proof.Proof.TcMain
import proofs.«217078_g14027363189340_cont_week2b_886_24_alg».proof.Proof.ScCommon
import Idealize.ShloMosaic.Lib.Pipeline.Frame

noncomputable section

namespace Cert.Proof.Main

open Cert.KernelIdeal Cert.KernelIdeal.Gen Cert.Proof.Sc

open Idealize.ShloMosaic Idealize.ShloMosaic.StableHlo Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 2) (Elt F) ℕ UU ℕ

/-! ## The argument arrays, and valuations that agree on them -/

/-- @main's twelve argument arrays. -/
def argList : List (Ref sig .tc) :=
  [main_arg0, main_arg1, main_arg2, main_arg3, main_arg4, main_arg5, main_arg6, main_arg7, main_arg8, main_arg9, main_arg10, main_arg11]

/-- The second valuation holds what the first does at every argument array. -/
def Keeps (V V' : Valuation τ sig (Elt F)) : Prop := ∀ r ∈ argList, V' (Proc.devRef .tc r) = V (Proc.devRef .tc r)

theorem Keeps.rfl' (V : Valuation τ sig (Elt F)) : Keeps V V := fun _ _ => rfl
theorem Keeps.trans {V V' V'' : Valuation τ sig (Elt F)} (h : Keeps V V') (h' : Keeps V' V'') : Keeps V V'' :=
  fun r hr => (h' r hr).trans (h r hr)
/-- A valuation changed at one array that is no argument keeps the arguments. -/
theorem Keeps.of_ne {V V' : Valuation τ sig (Elt F)} {out : Ref sig .tc} (hout : out ∉ argList)
    (h : ∀ r : Ref sig .tc, r ≠ out → V' (Proc.devRef .tc r) = V (Proc.devRef .tc r)) : Keeps V V' :=
  fun r hr => h r fun e => hout (e ▸ hr)
/-- A valuation changed at a few arrays none of which is an argument keeps the arguments. -/
theorem Keeps.of_notMem {V V' : Valuation τ sig (Elt F)} {outs : List (Ref sig .tc)} (hout : ∀ r ∈ outs, r ∉ argList)
    (h : ∀ r : Ref sig .tc, r ∉ outs → V' (Proc.devRef .tc r) = V (Proc.devRef .tc r)) : Keeps V V' :=
  fun r hr => h r fun hmem => hout r hmem hr

/-! ## The host stretches: their buffers are unscoped, they allocate nothing, they write no argument -/

theorem opsA_sub : (opsA : List (HloOp τ sig (Elt F))).Forall fun op => op.bufs ⊆ tcRefs τ sig :=
  ⟨unary_bufs_sub .., unary_bufs_sub .., binary_bufs_sub .., nullary_bufs_sub .., unary_bufs_sub .., unary_bufs_sub .., unary_bufs_sub .., binary_bufs_sub .., reshape_bufs_sub ..⟩
theorem opsA_uc : ∀ op ∈ (opsA : List (HloOp τ sig (Elt F))), op.bufs ⊆ Pipeline.ucRefs τ sig :=
  fun op h => Pipeline.sub_ucRefs op (List.forall_iff_forall_mem.mp opsA_sub op h)
theorem opsA_fresh : ∀ op ∈ (opsA : List (HloOp τ sig (Elt F))), op.fresh = ∅ :=
  List.forall_iff_forall_mem.mp (show (opsA : List (HloOp τ sig (Elt F))).Forall fun op => op.fresh = ∅ from ⟨rfl, rfl, rfl, rfl, rfl, rfl, rfl, rfl, rfl⟩)
/-- No operation of this stretch writes an argument array. -/
theorem opsA_keeps (V : Valuation τ sig (Elt F)) : Keeps V (after opsA V) := by
  intro r hr
  simp only [argList, List.mem_cons, List.not_mem_nil, or_false] at hr
  rcases hr with rfl | rfl | rfl | rfl | rfl | rfl | rfl | rfl | rfl | rfl | rfl | rfl <;> after_results

theorem opsB_sub : (opsB : List (HloOp τ sig (Elt F))).Forall fun op => op.bufs ⊆ tcRefs τ sig :=
  ⟨reshape_bufs_sub .., nullary_bufs_sub .., unary_bufs_sub .., unary_bufs_sub .., unary_bufs_sub .., unary_bufs_sub .., reshape_bufs_sub .., reshape_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., nary_bufs_sub ..⟩
theorem opsB_uc : ∀ op ∈ (opsB : List (HloOp τ sig (Elt F))), op.bufs ⊆ Pipeline.ucRefs τ sig :=
  fun op h => Pipeline.sub_ucRefs op (List.forall_iff_forall_mem.mp opsB_sub op h)
theorem opsB_fresh : ∀ op ∈ (opsB : List (HloOp τ sig (Elt F))), op.fresh = ∅ :=
  List.forall_iff_forall_mem.mp (show (opsB : List (HloOp τ sig (Elt F))).Forall fun op => op.fresh = ∅ from ⟨rfl, rfl, rfl, rfl, rfl, rfl, rfl, rfl, rfl, rfl, rfl, rfl, rfl, rfl, rfl, rfl, rfl, rfl, rfl, rfl⟩)
/-- No operation of this stretch writes an argument array. -/
theorem opsB_keeps (V : Valuation τ sig (Elt F)) : Keeps V (after opsB V) := by
  intro r hr
  simp only [argList, List.mem_cons, List.not_mem_nil, or_false] at hr
  rcases hr with rfl | rfl | rfl | rfl | rfl | rfl | rfl | rfl | rfl | rfl | rfl | rfl <;> after_results

theorem opsC_sub : (opsC : List (HloOp τ sig (Elt F))).Forall fun op => op.bufs ⊆ tcRefs τ sig :=
  reshape_bufs_sub ..
theorem opsC_uc : ∀ op ∈ (opsC : List (HloOp τ sig (Elt F))), op.bufs ⊆ Pipeline.ucRefs τ sig :=
  fun op h => Pipeline.sub_ucRefs op (List.forall_iff_forall_mem.mp opsC_sub op h)
theorem opsC_fresh : ∀ op ∈ (opsC : List (HloOp τ sig (Elt F))), op.fresh = ∅ :=
  List.forall_iff_forall_mem.mp (show (opsC : List (HloOp τ sig (Elt F))).Forall fun op => op.fresh = ∅ from rfl)
/-- No operation of this stretch writes an argument array. -/
theorem opsC_keeps (V : Valuation τ sig (Elt F)) : Keeps V (after opsC V) := by
  intro r hr
  simp only [argList, List.mem_cons, List.not_mem_nil, or_false] at hr
  rcases hr with rfl | rfl | rfl | rfl | rfl | rfl | rfl | rfl | rfl | rfl | rfl | rfl <;> after_results

theorem opsD_sub : (opsD : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., nary_bufs_sub ..⟩
theorem opsD_uc : ∀ op ∈ (opsD : List (HloOp τ sig (Elt F))), op.bufs ⊆ Pipeline.ucRefs τ sig :=
  fun op h => Pipeline.sub_ucRefs op (List.forall_iff_forall_mem.mp opsD_sub op h)
theorem opsD_fresh : ∀ op ∈ (opsD : List (HloOp τ sig (Elt F))), op.fresh = ∅ :=
  List.forall_iff_forall_mem.mp (show (opsD : List (HloOp τ sig (Elt F))).Forall fun op => op.fresh = ∅ from ⟨rfl, rfl, rfl, rfl, rfl, rfl, rfl, rfl, rfl, rfl, rfl⟩)
/-- No operation of this stretch writes an argument array. -/
theorem opsD_keeps (V : Valuation τ sig (Elt F)) : Keeps V (after opsD V) := by
  intro r hr
  simp only [argList, List.mem_cons, List.not_mem_nil, or_false] at hr
  rcases hr with rfl | rfl | rfl | rfl | rfl | rfl | rfl | rfl | rfl | rfl | rfl | rfl <;> after_results

theorem opsE_sub : (opsE : List (HloOp τ sig (Elt F))).Forall fun op => op.bufs ⊆ tcRefs τ sig :=
  ⟨reshape_bufs_sub .., unary_bufs_sub ..⟩
theorem opsE_uc : ∀ op ∈ (opsE : List (HloOp τ sig (Elt F))), op.bufs ⊆ Pipeline.ucRefs τ sig :=
  fun op h => Pipeline.sub_ucRefs op (List.forall_iff_forall_mem.mp opsE_sub op h)
theorem opsE_fresh : ∀ op ∈ (opsE : List (HloOp τ sig (Elt F))), op.fresh = ∅ :=
  List.forall_iff_forall_mem.mp (show (opsE : List (HloOp τ sig (Elt F))).Forall fun op => op.fresh = ∅ from ⟨rfl, rfl⟩)
/-- No operation of this stretch writes an argument array. -/
theorem opsE_keeps (V : Valuation τ sig (Elt F)) : Keeps V (after opsE V) := by
  intro r hr
  simp only [argList, List.mem_cons, List.not_mem_nil, or_false] at hr
  rcases hr with rfl | rfl | rfl | rfl | rfl | rfl | rfl | rfl | rfl | rfl | rfl | rfl <;> after_results

/-! ## A segment's step, as @main's proof uses it -/

variable (P : (K (F := F)).Pay (nD := nD) (Val := Elt F) (Name := ℕ) (U := UU))

/-- A kernel region's step on the TensorCore before SparseCore call `n`: from the boundary, the handshake state, the
    unscoped buffers at a valuation and the region's own ghost resources `G`, the region's call runs, and the
    continuation finds the same at a valuation changed at the array `out` only. -/
def RegionStep (p : Fin 3) (n : ℕ) (out : Ref sig .tc) (G : Dev nD → sProp 𝕄) : Prop :=
  ∀ (κ : GSem nD τ sig → ℕ) (d : Dev nD) (V₁ : Valuation τ sig (Elt F))
    (k : PUnit → Prog (TpuEff nD τ sig (Elt F) (SparseCore.Sig (ΛP (F := F)) 2) .tc) PUnit) (Q : PUnit → sProp 𝕄),
    iprop((K (F := F)).ctx EH P κ ∗ boundary (SparseCore.T d) ∗ (K (F := F)).tcSt EH d n ∗ (held (SparseCore.T d) (Pipeline.ucRefs τ sig) V₁ : sProp 𝕄) ∗ G d
        ∗ (∀ V₂ : Valuation τ sig (Elt F), ⌜∀ r : Ref sig .tc, r ≠ out → V₂ (Proc.devRef .tc r) = V₁ (Proc.devRef .tc r)⌝
            -∗ iprop(boundary (SparseCore.T d) ∗ (K (F := F)).tcSt EH d n ∗ (held (SparseCore.T d) (Pipeline.ucRefs τ sig) V₂ : sProp 𝕄))
            -∗ wp frame (wpE ((K (F := F)).defs (D (F := F))) 𝒱 (SparseCore.T d) none) Set.univ (k ⟨⟩) Q))
      ⊢ wp frame (wpE ((K (F := F)).defs (D (F := F))) 𝒱 (SparseCore.T d) none) Set.univ (regionCall p >>= k) Q

/-- A SparseCore call's step: from the handshake state before call `q`, the unscoped buffers at a valuation whose
    index list is in range (`ok`), and what the previous call left for this one (`Xin`), the call runs, and the
    continuation finds the state before call `q + 1`, the buffers at a valuation changed only at the arrays listed
    (the node table and the index list handed to the SparseCores and taken back, and the gathered rows), and what this
    call leaves for the next. -/
def CallStep (q : Fin 2) (idx : Ref sig .tc) (outs : List (Ref sig .tc)) (Xin Xout : Dev nD → sProp 𝕄)
    (ok : (Proc.devRef (τ := τ) .tc idx).ty.Contents (Elt F) → Prop) : Prop :=
  ∀ (κ : GSem nD τ sig → ℕ) (d : Dev nD) (V₁ : Valuation τ sig (Elt F)), ok (V₁ (Proc.devRef .tc idx)) →
    ∀ (k : PUnit → Prog (TpuEff nD τ sig (Elt F) (SparseCore.Sig (ΛP (F := F)) 2) .tc) PUnit) (Q : PUnit → sProp 𝕄),
    iprop((K (F := F)).ctx EH P κ ∗ (K (F := F)).tcSt EH d q.val ∗ (held (SparseCore.T d) (Pipeline.ucRefs τ sig) V₁ : sProp 𝕄) ∗ Xin d
        ∗ (∀ V₂ : Valuation τ sig (Elt F), ⌜∀ r : Ref sig .tc, r ∉ outs → V₂ (Proc.devRef .tc r) = V₁ (Proc.devRef .tc r)⌝
            -∗ iprop((K (F := F)).tcSt EH d (q.val + 1) ∗ (held (SparseCore.T d) (Pipeline.ucRefs τ sig) V₂ : sProp 𝕄) ∗ Xout d)
            -∗ wp frame (wpE ((K (F := F)).defs (D (F := F))) 𝒱 (SparseCore.T d) none) Set.univ (k ⟨⟩) Q))
      ⊢ wp frame (wpE ((K (F := F)).defs (D (F := F))) 𝒱 (SparseCore.T d) none) Set.univ ((K (F := F)).run d q >>= k) Q

/-! ## @main, from its segments' steps -/

/-- The launch's unscoped buffers, held at the launch memory as a valuation. -/
theorem launch_held (m : (ℓ : Loc nD τ sig) → Buf (Elt F) ℓ) (d : Dev nD) :
    (unscopedBufs d (fun b => m ((SparseCore.T d).loc b)) : sProp 𝕄) = held (SparseCore.T d) (Pipeline.ucRefs τ sig) (fun b => m (d, b)) :=
  Pipeline.unscopedBufs_held (Ix := HIx 2) (Name := ℕ) (U := UU) (Lvl := ℕ) d (fun b => m (d, b))

/-- What the TensorCore ends with: every unscoped buffer held at a valuation that agrees with the launch memory on the
    twelve argument arrays. -/
def FIN (m : (ℓ : Loc nD τ sig) → Buf (Elt F) ℓ) (d : Dev nD) : sProp 𝕄 :=
  iprop(∃ V₁ : Valuation τ sig (Elt F), ⌜Keeps (fun b => m (d, b)) V₁⌝ ∗ (held (SparseCore.T d) (Pipeline.ucRefs τ sig) V₁ : sProp 𝕄))

theorem v8_notArg : main_v8 ∉ argList := by decide
theorem outs0_notArg : ∀ r ∈ [main_v9, main_v25, main_v26], r ∉ argList := by decide
theorem v28_notArg : main_v28 ∉ argList := by decide
theorem outs1_notArg : ∀ r ∈ [main_v9, main_v37, main_v38], r ∉ argList := by decide
theorem v40_notArg : main_v40 ∉ argList := by decide
theorem arg3_isArg : main_arg3 ∈ argList := by decide

/-- @main on device `d`'s TensorCore, from the three regions' steps and the two calls' steps: the stretches of host
    operations between them run within the unscoped buffers, each index list is in range when its call is reached
    because it is computed from the edge list, which nothing writes, and the padding zeros, which only the second stretch writes, and the argument arrays end as
    they began. -/
theorem hmain_of (m : (ℓ : Loc nD τ sig) → Buf (Elt F) ℓ) (ρ : Dev nD → PrngReg)
    (G0 G1 G2 X1 : Dev nD → sProp 𝕄)
    (ok0 : (Proc.devRef (τ := τ) .tc main_v25).ty.Contents (Elt F) → Prop)
    (ok1 : (Proc.devRef (τ := τ) .tc main_v37).ty.Contents (Elt F) → Prop)
    (hR0 : RegionStep P 0 0 main_v8 G0) (hR1 : RegionStep P 1 1 main_v28 G1) (hR2 : RegionStep P 2 2 main_v40 G2)
    (hC0 : CallStep P 0 main_v25 [main_v9, main_v25, main_v26] (fun _ => iprop(emp)) X1 ok0)
    (hC1 : CallStep P 1 main_v37 [main_v9, main_v37, main_v38] X1 (fun _ => iprop(emp)) ok1)
    (hI0 : ∀ (d : Dev nD) (V₁ : Valuation τ sig (Elt F)), V₁ (Proc.devRef .tc main_arg3) = m (d, Proc.devRef .tc main_arg3) →
      ok0 (after opsB V₁ (Proc.devRef .tc main_v25)))
    (hI1 : ∀ (d : Dev nD) (V₁ W : Valuation τ sig (Elt F)), V₁ (Proc.devRef .tc main_arg3) = m (d, Proc.devRef .tc main_arg3) →
      V₁ (Proc.devRef .tc main_v10) = after opsB W (Proc.devRef .tc main_v10) → ok1 (after opsD V₁ (Proc.devRef .tc main_v37)))
    (κ : GSem nD τ sig → ℕ) (d : Dev nD) :
    iprop((K (F := F)).ctx EH P κ ∗ (K (F := F)).tcSt EH d 0 ∗ (K (F := F)).tcRes m ρ d ∗ iprop(G0 d ∗ G1 d ∗ G2 d))
      ⊢ wp frame (wpE ((K (F := F)).defs (D (F := F))) 𝒱 (SparseCore.T d) none) Set.univ (main d)
          fun _ => iprop((K (F := F)).tcSt EH d 2 ∗ FIN m d) := by
  unfold SparseCore.Cfg.tcRes
  rw [launch_held m d, main_eq]
  iintro ⟨#Hctx, Hst, ⟨Hb, Hh, -, -⟩, HG0, HG1, HG2⟩
  -- the weights stacked, the bias rows laid out
  have kA := opsA_keeps (F := F) (fun b => m (d, b))
  iapply (wp_seq (defs := (K (F := F)).defs (D (F := F))) 𝒱 none Set.univ d (Pipeline.ucRefs τ sig) _ opsA opsA_uc opsA_fresh (fun b => m (d, b))) $$ [Hb Hh]
  · isplitl [Hb] <;> iassumption
  iintro ⟨Hb, Hh⟩
  -- the node tables
  iapply (hR0 κ d (after opsA fun b => m (d, b)) _ _)
  isplitr; · iexact Hctx
  isplitl [Hb]; · iexact Hb
  isplitl [Hst]; · iexact Hst
  isplitl [Hh]; · iexact Hh
  isplitl [HG0]; · iexact HG0
  iintro %VA %hA ⟨Hb, Hst, Hh⟩
  have kA' := kA.trans (Keeps.of_ne v8_notArg hA)
  -- the table reshaped, the first index list
  have kB := kA'.trans (opsB_keeps VA)
  iapply (wp_seq (defs := (K (F := F)).defs (D (F := F))) 𝒱 none Set.univ d (Pipeline.ucRefs τ sig) _ opsB opsB_uc opsB_fresh VA) $$ [Hb Hh]
  · isplitl [Hb] <;> iassumption
  iintro ⟨Hb, Hh⟩
  -- the first gather
  iapply (hC0 κ d (after opsB VA) (hI0 d VA (kA' main_arg3 arg3_isArg)) _ _)
  isplitr; · iexact Hctx
  isplitl [Hst]; · iexact Hst
  isplitl [Hh]; · iexact Hh
  isplitr; · iempintro
  iintro %VB %hB ⟨Hst, Hh, HX⟩
  have kB' := kB.trans (Keeps.of_notMem outs0_notArg hB)
  -- the gathered rows as two halves
  have kC := kB'.trans (opsC_keeps VB)
  iapply (wp_seq (defs := (K (F := F)).defs (D (F := F))) 𝒱 none Set.univ d (Pipeline.ucRefs τ sig) _ opsC opsC_uc opsC_fresh VB) $$ [Hb Hh]
  · isplitl [Hb] <;> iassumption
  iintro ⟨Hb, Hh⟩
  -- the first half of the edges
  iapply (hR1 κ d (after opsC VB) _ _)
  isplitr; · iexact Hctx
  isplitl [Hb]; · iexact Hb
  isplitl [Hst]; · iexact Hst
  isplitl [Hh]; · iexact Hh
  isplitl [HG1]; · iexact HG1
  iintro %VC %hC ⟨Hb, Hst, Hh⟩
  have kC' := kC.trans (Keeps.of_ne v28_notArg hC)
  -- the second index list
  have kD := kC'.trans (opsD_keeps VC)
  iapply (wp_seq (defs := (K (F := F)).defs (D (F := F))) 𝒱 none Set.univ d (Pipeline.ucRefs τ sig) _ opsD opsD_uc opsD_fresh VC) $$ [Hb Hh]
  · isplitl [Hb] <;> iassumption
  iintro ⟨Hb, Hh⟩
  -- the second gather
  have hpad : VC (Proc.devRef .tc main_v10) = after opsB VA (Proc.devRef .tc main_v10) := by
    rw [hC main_v10 (by decide), show after opsC VB (Proc.devRef .tc main_v10) = VB (Proc.devRef .tc main_v10) from by after_results,
      hB main_v10 (by decide)]
  iapply (hC1 κ d (after opsD VC) (hI1 d VC VA (kC' main_arg3 arg3_isArg) hpad) _ _)
  isplitr; · iexact Hctx
  isplitl [Hst]; · iexact Hst
  isplitl [Hh]; · iexact Hh
  isplitl [HX]; · iexact HX
  iintro %VD %hD ⟨Hst, Hh, -⟩
  have kD' := kD.trans (Keeps.of_notMem outs1_notArg hD)
  -- the gathered rows as two halves, the first half's result copied into the output buffer
  have kE := kD'.trans (opsE_keeps VD)
  iapply (wp_seq (defs := (K (F := F)).defs (D (F := F))) 𝒱 none Set.univ d (Pipeline.ucRefs τ sig) _ opsE opsE_uc opsE_fresh VD) $$ [Hb Hh]
  · isplitl [Hb] <;> iassumption
  iintro ⟨Hb, Hh⟩
  -- the second half of the edges
  iapply (hR2 κ d (after opsE VD) _ _)
  isplitr; · iexact Hctx
  isplitl [Hb]; · iexact Hb
  isplitl [Hst]; · iexact Hst
  isplitl [Hh]; · iexact Hh
  isplitl [HG2]; · iexact HG2
  iintro %VE %hE ⟨-, Hst, Hh⟩
  have kE' := kE.trans (Keeps.of_ne v40_notArg hE)
  rw [wp_pure]
  imodintro
  isplitl [Hst]; · iexact Hst
  unfold FIN
  iexists VE
  isplitr; · ipureintro; exact kE'
  iexact Hh

end Cert.Proof.Main

end
-- ==== Proof.TcFinal.lean ====
/-
  Reading the claim off the final state, and the run of the whole program from its parts. The TensorCore ends holding
  every unscoped buffer at a valuation that agrees with the launch memory on the twelve argument arrays; held beside
  the state interpretation of a final state, each such buffer pins the state's memory there. The program's run then
  follows from the launch theorem for SparseCore programs, given: one tile's obligation and the split of a
  SparseCore's operands for each of the two gathers, the launch element of the ghost state, and @main's segments'
  steps.
-/
import proofs.«217078_g14027363189340_cont_week2b_886_24_alg».proof.Proof.TcCompose

noncomputable section

namespace Cert.Proof.Main

open Cert.KernelIdeal Cert.KernelIdeal.Gen Cert.Proof.Sc

open Idealize.ShloMosaic Idealize.ShloMosaic.StableHlo Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 2) (Elt F) ℕ UU ℕ

/-- A buffer of a held set, beside the state interpretation, pins the state's memory at it. -/
theorem held_read (c : Thread nD τ) (S₁ : Finset (DevRef τ sig)) (V₁ : Valuation τ sig (Elt F)) (s' : Phys nD τ sig (Elt F))
    {b : DevRef τ sig} (hb : b ∈ S₁) :
    iprop((held c S₁ V₁ : sProp 𝕄) ∗ SI s') ⊢ (⌜s'.mem.mem (c.1, b) = V₁ b⌝ : sProp 𝕄) := by
  have he : (held c S₁ V₁ : sProp 𝕄) ⊢ ((c.1, b) ↦{fullShare} V₁ b : sProp 𝕄) := by
    unfold held
    exact bigSep_elim (Φ := fun b : DevRef τ sig => ((c.1, b) ↦{fullShare} V₁ b : sProp 𝕄)) hb
  iintro ⟨Hh, HSI⟩
  ihave Hb := he $$ Hh
  icombine HSI Hb gives %h
  ipureintro
  exact funext fun i => h i (Finset.mem_univ i)

/-- A pure fact had for each member of a list is had for all of them. -/
theorem pure_forall_mem {ι : Type} {A : sProp 𝕄} (p : ι → Prop) :
    ∀ (l : List ι), (∀ r ∈ l, A ⊢ (⌜p r⌝ : sProp 𝕄)) → A ⊢ (⌜∀ r ∈ l, p r⌝ : sProp 𝕄)
  | [], _ => by iintro -; ipureintro; exact fun _ h => absurd h List.not_mem_nil
  | a :: l, h => by
    have h1 := h a List.mem_cons_self
    have h2 := pure_forall_mem p l fun r hr => h r (List.mem_cons_of_mem _ hr)
    refine (BIClass.and_intro h1 h2).trans ?_
    iintro ⟨%ha, %hl⟩
    ipureintro
    intro r hr
    rcases List.mem_cons.mp hr with rfl | hr
    · exact ha
    · exact hl r hr

/-- Every argument array is an unscoped buffer of the TensorCore. -/
theorem arg_mem_ucRefs : ∀ r ∈ argList, Proc.devRef (τ := τ) .tc r ∈ Pipeline.ucRefs τ sig := by
  intro r hr
  refine Finset.mem_filter.mpr ⟨devRef_mem_tcRefs r, ?_⟩
  simp only [argList, List.mem_cons, List.not_mem_nil, or_false] at hr
  rcases hr with rfl | rfl | rfl | rfl | rfl | rfl | rfl | rfl | rfl | rfl | rfl | rfl <;> decide

/-- What is read of a final state on device `d`: its memory holds the launch contents at every argument array. -/
def fq (m : (ℓ : Loc nD τ sig) → Buf (Elt F) ℓ) (d : Dev nD) (s' : Phys nD τ sig (Elt F)) : Prop :=
  ∀ r ∈ argList, s'.mem.mem (d, Proc.devRef .tc r) = m (d, Proc.devRef .tc r)

theorem hfin (m : (ℓ : Loc nD τ sig) → Buf (Elt F) ℓ) (d : Dev nD) (s' : Phys nD τ sig (Elt F)) :
    iprop(FIN m d ∗ SI s') ⊢ (⌜fq m d s'⌝ : sProp 𝕄) := by
  unfold FIN fq
  refine pure_forall_mem _ argList fun r hr => ?_
  iintro ⟨⟨%V₁, %hk, Hh⟩, HSI⟩
  ihave H := (held_read (SparseCore.T d) (Pipeline.ucRefs τ sig) V₁ s' (arg_mem_ucRefs r hr)) $$ [Hh HSI]
  · isplitl [Hh] <;> iassumption
  icases H with %h
  ipureintro
  exact h.trans (hk r hr)

end Cert.Proof.Main

end
-- ==== Proof.ScPay.lean ====
/-
  What the handshakes of the two SparseCore calls carry, and the subcore barrier's cells.

  Both calls run the same gather kernel on 2 SparseCores × 16 tiles. Tiles 0‥9 of a SparseCore each copy 1000 rows of the
  table's half into the SparseCore's shared scratch; all sixteen meet at the subcore barrier; afterwards every tile gathers
  rows out of the WHOLE shared scratch. So each writing tile splits its rows' full share into sixteen read shares and a
  remainder, and its arrival at tile j's barrier semaphore hands tile j the j-th read share of its rows: what a tile reads
  after the barrier it holds, as a read share of the whole scratch. At the task's end the read share and the remainder go
  back to the sequencer, whose buffers rejoin. Both calls meet at ONE barrier semaphore, so each barrier cell has two
  rounds, one per call; a tile's position on its own cell after round 0, and that every cell of its SparseCore has reached
  round 1, travel from call 0's end to call 1's start with the calls' results and operands.
-/
import proofs.«217078_g14027363189340_cont_week2b_886_24_alg».proof.Proof.ScCommon

noncomputable section

namespace Cert.Proof.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

/-! ## Places -/

abbrev tblLoc (d : Dev nD) : Loc nD τ sig := (SparseCore.T d).loc main_v9
abbrev idxLoc0 (d : Dev nD) : Loc nD τ sig := (SparseCore.T d).loc main_v25
abbrev idxLoc1 (d : Dev nD) : Loc nD τ sig := (SparseCore.T d).loc main_v37
abbrev outLoc0 (d : Dev nD) : Loc nD τ sig := (SparseCore.T d).loc main_v26
abbrev outLoc1 (d : Dev nD) : Loc nD τ sig := (SparseCore.T d).loc main_v38
/-- SparseCore `c`'s shared scratch of call 0 and of call 1, as every tile of it addresses it. -/
abbrev sh0Loc (d : Dev nD) (c : Fin τ.nSC) : Loc nD τ sig := (d, ⟨.shared, ⟨0, by decide⟩, c⟩)
abbrev sh1Loc (d : Dev nD) (c : Fin τ.nSC) : Loc nD τ sig := (d, ⟨.shared, ⟨1, by decide⟩, c⟩)

theorem hdivT : 2 ∣ S20000x128.size 0 := ⟨10000, rfl⟩
theorem hdivJ : 2 ∣ S327680.size 0 := ⟨163840, rfl⟩
theorem hdivO : 2 ∣ S327680x128.size 0 := ⟨163840, rfl⟩
/-- The halves along axis 0: SparseCore `c`'s rows of the table, its words of the index array, its rows of the output. -/
abbrev halfT (c : Fin 2) : Finset S20000x128.Idx := (Rect.part (s := S20000x128) (a₀ := 0) hdivT c).set
abbrev halfJ (c : Fin 2) : Finset S327680.Idx := (Rect.part (s := S327680) (a₀ := 0) hdivJ c).set
abbrev halfO (c : Fin 2) : Finset S327680x128.Idx := (Rect.part (s := S327680x128) (a₀ := 0) hdivO c).set

/-- Every index word held on `M` names a row of SparseCore `c`'s half of the table. -/
def InRange (c : ℕ) (M : Finset S327680.Idx) (jx : S327680.Idx → BitVec 32) : Prop :=
  ∀ r ∈ M, 10000 * c ≤ (jx r).toNat ∧ (jx r).toNat < 10000 * c + 10000

theorem h10 : 10 ∣ S10000x128.size 0 := ⟨1000, rfl⟩
/-- The rows of the shared scratch tile `n` (of the ten that write) fills. -/
abbrev shRowSet (n : Fin 10) : Finset S10000x128.Idx := (Rect.part (s := S10000x128) (a₀ := 0) h10 n).set

/-- The read share of the shared scratch tile `j` gathers under, and what a writing tile keeps aside. -/
abbrev rdShare (j : ℕ) : PosShare TreeShare := Transfers.shareTokN fullShare j
abbrev restShare : PosShare TreeShare := Transfers.shareDrop fullShare 16

variable [FloatOps F]

/-! ## The barrier cells -/

/-- Tile `(c, j)`'s barrier semaphore of device `d`. -/
abbrev bcell (d : Dev nD) (c : Fin τ.nSC) (j : Fin τ.nSub) : GSem nD τ sig := (V d c j, .reg sc_bar0)

omit [FloatOps F] in
theorem sc_bar0_ne_go : (sc_bar0 : Sem sig) ≠ sc_go := by decide

def isBar (g : GSem nD τ sig) : Bool :=
  match g with
  | ((_, .scVector _ _), sm) => decide (sm = .reg sc_bar0)
  | _ => false

omit [FloatOps F] in
@[simp] theorem isBar_bcell (d : Dev nD) (c : Fin τ.nSC) (j : Fin τ.nSub) : isBar (bcell d c j) = true := by simp [isBar]

/-- What tile `n`'s arrival at tile `j`'s barrier semaphore hands over in round `r`: a writing tile (`n < 10`) the `j`-th
    read share of its rows of the call's shared scratch; the others nothing. -/
def bPay (g : GSem nD τ sig) (r n : ℕ) : sProp 𝕄 :=
  match g with
  | ((d, .scVector c j), _) =>
    if hn : n < 10 then
      (if r = 0 then iprop(∃ f, sh0Loc d c ↦[shRowSet ⟨n, hn⟩]{rdShare j.val} f)
        else iprop(∃ f, sh1Loc d c ↦[shRowSet ⟨n, hn⟩]{rdShare j.val} f))
    else iprop(emp)
  | _ => iprop(emp)

/-- The barrier cells' schedule: two rounds on each (one per call), of one unit duty per tile of the SparseCore (named by
    its number). -/
def bRd : Rounds.Schedule (GSem nD τ sig) ℕ 𝕄 where
  duties g r := if isBar g ∧ r < 2 then (Finset.univ : Finset (Fin τ.nSub)).image Fin.val else ∅
  amount _ _ _ := 1
  payload g r n := bPay g r n
  amount_pos _ _ _ _ := Nat.one_pos

instance bRd_payload_storable (g : GSem nD τ sig) (r n : ℕ) : BI.Storable (upEmb : UEmb _ 𝕄) ((bRd (F := F)).payload g r n) := by
  show BI.Storable upEmb (bPay g r n)
  unfold bPay
  rcases g with ⟨⟨d, _ | c | ⟨c, i⟩⟩, sm⟩ <;> dsimp only <;> (repeat' split) <;> infer_instance

omit [FloatOps F] in
theorem bRd_duties (d : Dev nD) (c : Fin τ.nSC) (j : Fin τ.nSub) {r : ℕ} (hr : r < 2) :
    (bRd (F := F)).duties (bcell d c j) r = (Finset.univ : Finset (Fin τ.nSub)).image Fin.val := by
  simp [bRd, isBar, hr]
omit [FloatOps F] in
theorem bRd_mem (d : Dev nD) (c : Fin τ.nSC) (j i : Fin τ.nSub) {r : ℕ} (hr : r < 2) : i.val ∈ (bRd (F := F)).duties (bcell d c j) r := by
  rw [bRd_duties d c j hr]; exact Finset.mem_image_of_mem _ (Finset.mem_univ i)
omit [FloatOps F] in
theorem bRd_expect (d : Dev nD) (c : Fin τ.nSC) (j : Fin τ.nSub) {r : ℕ} (hr : r < 2) : 0 + 16 = (bRd (F := F)).expect (bcell d c j) r := by
  unfold Rounds.Schedule.expect; rw [bRd_duties d c j hr]
  show 0 + 16 = ∑ x ∈ (Finset.univ : Finset (Fin 16)).image Fin.val, 1
  rw [Finset.sum_const, Finset.card_image_of_injective _ Fin.val_injective]; rfl

/-- After call 0's barrier: every tile of SparseCore `c` stands at the origin of round 1 of its own cell, and every cell
    has reached round 1. Call 0 brings it back, call 1 takes it. -/
def barNext (d : Dev nD) (c : Fin τ.nSC) : sProp 𝕄 :=
  bigSep Finset.univ fun j : Fin τ.nSub => iprop(atPos EB (bcell d c j) 1 ∅ 0 ∗ reached EB (bcell d c j) 1)

instance barNext_storable (d : Dev nD) (c : Fin τ.nSC) : BI.Storable (upEmb : UEmb _ 𝕄) (barNext (F := F) d c) := by
  unfold barNext; infer_instance

/-! ## What a tile owes for a call's barrier, and its kit -/

/-- What the launch has a tile owe for call `q`'s barrier: a unit on every tile's cell of its SparseCore, at the call's index. -/
def oxV (q : Fin 2) (d : Dev nD) (c : Fin τ.nSC) : CellTallies nD τ sig (HIx 2) := ∑ j : Fin (grid1.bound 1), tallyAt (bcell d c (j.castLE hsub1)) (some q) 1

omit [FloatOps F] in
theorem oxV_none (q : Fin 2) (d : Dev nD) (c : Fin τ.nSC) (g : GSem nD τ sig) : oxV q d c g none = 0 := by
  unfold oxV
  rw [Finset.sum_apply, Finsupp.finsetSum_apply]
  exact Finset.sum_eq_zero fun j _ => by rw [tallyAt_apply, if_neg (fun e => nomatch e.2)]

omit [FloatOps F] in
theorem oxV_apply_pos {q : Fin 2} {d : Dev nD} {c : Fin τ.nSC} {g : GSem nD τ sig} {ι : HIx 2} (h : 0 < oxV q d c g ι) :
    ∃ j : Fin (grid1.bound 1), g = bcell d c (j.castLE hsub1) ∧ ι = some q := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-- What only call 0's kit holds: every cell of the SparseCore has reached round 0, the tile's own position at its origin. -/
def kitFirst (d : Dev nD) (c : Fin τ.nSC) (i : Fin τ.nSub) : sProp 𝕄 :=
  iprop((bigSep Finset.univ fun j : Fin (grid1.bound 1) => reached EB (bcell d c (j.castLE hsub1)) 0) ∗ atPos EB (bcell d c i) 0 ∅ 0)

/-- The tile's barrier kit for call `q`: every cell invariant of its SparseCore, its duty token in every tile's round `q`, the
    credit for the sixteen units of its own round; at call 0 also `kitFirst` (call 1's comes with its operands). -/
def kit (q : Fin 2) (d : Dev nD) (c : Fin τ.nSC) (i : Fin τ.nSub) : sProp 𝕄 :=
  iprop((∃ κ : GSem nD τ sig → ℕ, bigSep Finset.univ fun j : Fin (grid1.bound 1) =>
      cellInv EB (bRd (F := F)) (κ (bcell d c (j.castLE hsub1))) (bcell d c (j.castLE hsub1)))
    ∗ (bigSep Finset.univ fun j : Fin (grid1.bound 1) => dutyTok EB (bcell d c (j.castLE hsub1)) q.val i.val)
    ∗ (if q.val = 0 then kitFirst d c i else iprop(emp))
    ∗ cred (tallyAt (bcell d c i) (some q) (grid1.bound 1)))

omit [FloatOps F] in
theorem nCore0 : (K (F := F)).nCore 0 = grid1.bound 0 := rfl
omit [FloatOps F] in
theorem nCore1 : (K (F := F)).nCore 1 = grid3.bound 0 := rfl
omit [FloatOps F] in
theorem nSub0 : (K (F := F)).nSub 0 = grid1.bound 1 := rfl
omit [FloatOps F] in
theorem nSub1 : (K (F := F)).nSub 1 = grid3.bound 1 := rfl

/-! ## Call 0: the views the kernel slices, and what a tile is handed and hands back -/

section Call0

local notation "tV" => (Memref.whole Cert.KernelIdeal.main_v9_scv : Memref Cert.KernelIdeal.sig Kind.scVector Space.hbm Cert.KernelIdeal.S20000x128 EltTy.f32)
local notation "jV" => (Memref.whole Cert.KernelIdeal.main_v25_scv : Memref Cert.KernelIdeal.sig Kind.scVector Space.hbm Cert.KernelIdeal.S327680 EltTy.i32)
local notation "oV" => (Memref.whole Cert.KernelIdeal.main_v26_scv : Memref Cert.KernelIdeal.sig Kind.scVector Space.hbm Cert.KernelIdeal.S327680x128 EltTy.f32)
local notation "shV" => (Memref.whole Cert.KernelIdeal.cc1_scratch0 : Memref Cert.KernelIdeal.sig Kind.scVector Space.shared Cert.KernelIdeal.S10000x128 EltTy.f32)

abbrev cV0 (L : grid1.Coords) : Fin τ.nSC := (L 0).castLE hcore1
abbrev jV0 (L : grid1.Coords) : Fin τ.nSub := (L 1).castLE hsub1

def coords0 (c : Fin (grid1.bound 0)) (s : Fin (grid1.bound 1)) : grid1.Coords :=
  fun | 0 => c | 1 => s | ⟨_ + 2, h⟩ => absurd h (Nat.not_lt.2 (Nat.le_add_left _ _))

/-- The tile's 1000 rows of the table and of the shared scratch (a writing tile's), its five blocks of 2048 index words,
    its eighty blocks of 128 output rows: each as the kernel slices it. -/
abbrev tblM0 (L : grid1.Coords) (h : k1_cond1 L = 1#1) : Memref sig .scVector .hbm S1000x128 .f32 :=
  (tV).slice (Rect.unit (s := S20000x128) (k1_off2 L) S1000x128.size (k1_off2_inb L h)) (fun _ => rfl)
abbrev shM0 (L : grid1.Coords) (h : k1_cond1 L = 1#1) : Memref sig .scVector .shared S1000x128 .f32 :=
  (shV).slice (Rect.unit (s := S10000x128) (k1_off1 L) S1000x128.size (k1_off1_inb L h)) (fun _ => rfl)
abbrev idxM0 (L : grid1.Coords) (t1 : Fin k1_t1_loop.trips) : Memref sig .scVector .hbm S2048 .i32 :=
  (jV).slice (Rect.unit (s := S327680) (k1_off3 L t1) S2048.size (k1_off3_inb L t1)) (fun _ => rfl)
abbrev outAM0 (L : grid1.Coords) (t1 : Fin k1_t1_loop.trips) (t3 : Fin k1_t3_loop.trips) : Memref sig .scVector .hbm S128x128 .f32 :=
  (oV).slice (Rect.unit (s := S327680x128) (k1_off9 L t1 t3) S128x128.size (k1_off9_inb L t1 t3)) (fun _ => rfl)
abbrev outBM0 (L : grid1.Coords) (t1 : Fin k1_t1_loop.trips) (t3 : Fin k1_t3_loop.trips) : Memref sig .scVector .hbm S128x128 .f32 :=
  (oV).slice (Rect.unit (s := S327680x128) (k1_off10 L t1 t3) S128x128.size (k1_off10_inb L t1 t3)) (fun _ => rfl)

abbrev tblSet0 (L : grid1.Coords) (h : k1_cond1 L = 1#1) : Finset S20000x128.Idx := (tblM0 L h).view.set
abbrev shSet0 (L : grid1.Coords) (h : k1_cond1 L = 1#1) : Finset S10000x128.Idx := (shM0 L h).view.set
abbrev idxSet0 (L : grid1.Coords) (t1 : Fin k1_t1_loop.trips) : Finset S327680.Idx := (idxM0 L t1).view.set
abbrev outASet0 (L : grid1.Coords) (t1 : Fin k1_t1_loop.trips) (t3 : Fin k1_t3_loop.trips) : Finset S327680x128.Idx := (outAM0 L t1 t3).view.set
abbrev outBSet0 (L : grid1.Coords) (t1 : Fin k1_t1_loop.trips) (t3 : Fin k1_t3_loop.trips) : Finset S327680x128.Idx := (outBM0 L t1 t3).view.set

/-- The tile's index words, all naming rows of its SparseCore's half of the table. -/
def idxPiece0 (d : Dev nD) (L : grid1.Coords) : sProp 𝕄 :=
  iprop(∃ jx : Buf (Elt F) (idxLoc0 d), ⌜∀ t1, InRange (L 0).val (idxSet0 L t1) jx⌝
    ∗ bigSep Finset.univ fun t1 : Fin k1_t1_loop.trips => idxLoc0 d ↦[idxSet0 L t1]{fullShare} jx)
/-- The tile's output rows, block by block, at whatever they hold. -/
def outPiece0 (d : Dev nD) (L : grid1.Coords) : sProp 𝕄 :=
  bigSep Finset.univ fun t1 : Fin k1_t1_loop.trips => bigSep Finset.univ fun t3 : Fin k1_t3_loop.trips =>
    iprop((∃ f, outLoc0 d ↦[outASet0 L t1 t3]{fullShare} f) ∗ ∃ f, outLoc0 d ↦[outBSet0 L t1 t3]{fullShare} f)
/-- A writing tile's rows of the table. -/
def tblPiece0 (d : Dev nD) (L : grid1.Coords) : sProp 𝕄 :=
  if h : k1_cond1 L = 1#1 then iprop(∃ tb, tblLoc d ↦[tblSet0 L h]{fullShare} tb) else iprop(emp)
/-- A writing tile's rows of the shared scratch, at share `q`. -/
def shPiece0 (q : PosShare TreeShare) (d : Dev nD) (L : grid1.Coords) : sProp 𝕄 :=
  if h : k1_cond1 L = 1#1 then iprop(∃ f, sh0Loc d (cV0 L) ↦[shSet0 L h]{q} f) else iprop(emp)

instance idxPiece0_storable (d : Dev nD) (L : grid1.Coords) : BI.Storable (upEmb : UEmb _ 𝕄) (idxPiece0 (F := F) d L) := by
  unfold idxPiece0; infer_instance
instance outPiece0_storable (d : Dev nD) (L : grid1.Coords) : BI.Storable (upEmb : UEmb _ 𝕄) (outPiece0 (F := F) d L) := by
  unfold outPiece0; infer_instance
instance tblPiece0_storable (d : Dev nD) (L : grid1.Coords) : BI.Storable (upEmb : UEmb _ 𝕄) (tblPiece0 (F := F) d L) := by
  unfold tblPiece0; split <;> infer_instance
instance shPiece0_storable (q : PosShare TreeShare) (d : Dev nD) (L : grid1.Coords) : BI.Storable (upEmb : UEmb _ 𝕄) (shPiece0 (F := F) q d L) := by
  unfold shPiece0; split <;> infer_instance

/-- What the sequencer's go hands the tile: its index words, its output rows, and — a writing tile — its rows of the table
    and of the shared scratch. -/
def go0 (d : Dev nD) (L : grid1.Coords) : sProp 𝕄 :=
  iprop(idxPiece0 d L ∗ outPiece0 d L ∗ tblPiece0 d L ∗ shPiece0 fullShare d L)
/-- What its taskDone hands back: the same, the shared scratch now as the tile's read share of the whole of it and — a
    writing tile — what its rows' share kept aside; with them its position on its barrier cell after the round, and that the cell has reached round 1. -/
def td0 (d : Dev nD) (L : grid1.Coords) : sProp 𝕄 :=
  iprop(idxPiece0 d L ∗ outPiece0 d L ∗ tblPiece0 d L ∗ (∃ g, sh0Loc d (cV0 L) ↦{rdShare (L 1).val} g) ∗ shPiece0 restShare d L
    ∗ atPos EB (bcell d (cV0 L) (jV0 L)) 1 ∅ 0 ∗ reached EB (bcell d (cV0 L) (jV0 L)) 1)

instance go0_storable (d : Dev nD) (L : grid1.Coords) : BI.Storable (upEmb : UEmb _ 𝕄) (go0 (F := F) d L) := by
  unfold go0; infer_instance
instance td0_storable (d : Dev nD) (L : grid1.Coords) : BI.Storable (upEmb : UEmb _ 𝕄) (td0 (F := F) d L) := by
  unfold td0; infer_instance

/-- What the TensorCore hands SparseCore `c`: its half of the table, of the index array and of the output, the index words
    of the half all naming rows of the table's half. -/
def stCore0 (d : Dev nD) (c : Fin 2) : sProp 𝕄 :=
  iprop(∃ tb : Buf (Elt F) (tblLoc d), ∃ jx : Buf (Elt F) (idxLoc0 d), ∃ ob : Buf (Elt F) (outLoc0 d),
    (tblLoc d ↦[halfT c]{fullShare} tb) ∗ (idxLoc0 d ↦[halfJ c]{fullShare} jx) ∗ (outLoc0 d ↦[halfO c]{fullShare} ob)
    ∗ ⌜InRange c.val (halfJ c) jx⌝)

set_option synthInstance.maxHeartbeats 400000 in
instance stCore0_storable (d : Dev nD) (c : Fin 2) : BI.Storable (upEmb : UEmb _ 𝕄) (stCore0 (F := F) d c) := by
  unfold stCore0; infer_instance

end Call0

/-! ## Call 1: the views the kernel slices, and what a tile is handed and hands back -/

section Call1

local notation "tV" => (Memref.whole Cert.KernelIdeal.main_v9_scv : Memref Cert.KernelIdeal.sig Kind.scVector Space.hbm Cert.KernelIdeal.S20000x128 EltTy.f32)
local notation "jV" => (Memref.whole Cert.KernelIdeal.main_v37_scv : Memref Cert.KernelIdeal.sig Kind.scVector Space.hbm Cert.KernelIdeal.S327680 EltTy.i32)
local notation "oV" => (Memref.whole Cert.KernelIdeal.main_v38_scv : Memref Cert.KernelIdeal.sig Kind.scVector Space.hbm Cert.KernelIdeal.S327680x128 EltTy.f32)
local notation "shV" => (Memref.whole Cert.KernelIdeal.cc3_scratch0 : Memref Cert.KernelIdeal.sig Kind.scVector Space.shared Cert.KernelIdeal.S10000x128 EltTy.f32)

abbrev cV1 (L : grid3.Coords) : Fin τ.nSC := (L 0).castLE hcore3
abbrev jV1 (L : grid3.Coords) : Fin τ.nSub := (L 1).castLE hsub3

def coords1 (c : Fin (grid3.bound 0)) (s : Fin (grid3.bound 1)) : grid3.Coords :=
  fun | 0 => c | 1 => s | ⟨_ + 2, h⟩ => absurd h (Nat.not_lt.2 (Nat.le_add_left _ _))

/-- The tile's 1000 rows of the table and of the shared scratch (a writing tile's), its five blocks of 2048 index words,
    its eighty blocks of 128 output rows: each as the kernel slices it. -/
abbrev tblM1 (L : grid3.Coords) (h : k3_cond1 L = 1#1) : Memref sig .scVector .hbm S1000x128 .f32 :=
  (tV).slice (Rect.unit (s := S20000x128) (k3_off2 L) S1000x128.size (k3_off2_inb L h)) (fun _ => rfl)
abbrev shM1 (L : grid3.Coords) (h : k3_cond1 L = 1#1) : Memref sig .scVector .shared S1000x128 .f32 :=
  (shV).slice (Rect.unit (s := S10000x128) (k3_off1 L) S1000x128.size (k3_off1_inb L h)) (fun _ => rfl)
abbrev idxM1 (L : grid3.Coords) (t1 : Fin k3_t1_loop.trips) : Memref sig .scVector .hbm S2048 .i32 :=
  (jV).slice (Rect.unit (s := S327680) (k3_off3 L t1) S2048.size (k3_off3_inb L t1)) (fun _ => rfl)
abbrev outAM1 (L : grid3.Coords) (t1 : Fin k3_t1_loop.trips) (t3 : Fin k3_t3_loop.trips) : Memref sig .scVector .hbm S128x128 .f32 :=
  (oV).slice (Rect.unit (s := S327680x128) (k3_off9 L t1 t3) S128x128.size (k3_off9_inb L t1 t3)) (fun _ => rfl)
abbrev outBM1 (L : grid3.Coords) (t1 : Fin k3_t1_loop.trips) (t3 : Fin k3_t3_loop.trips) : Memref sig .scVector .hbm S128x128 .f32 :=
  (oV).slice (Rect.unit (s := S327680x128) (k3_off10 L t1 t3) S128x128.size (k3_off10_inb L t1 t3)) (fun _ => rfl)

abbrev tblSet1 (L : grid3.Coords) (h : k3_cond1 L = 1#1) : Finset S20000x128.Idx := (tblM1 L h).view.set
abbrev shSet1 (L : grid3.Coords) (h : k3_cond1 L = 1#1) : Finset S10000x128.Idx := (shM1 L h).view.set
abbrev idxSet1 (L : grid3.Coords) (t1 : Fin k3_t1_loop.trips) : Finset S327680.Idx := (idxM1 L t1).view.set
abbrev outASet1 (L : grid3.Coords) (t1 : Fin k3_t1_loop.trips) (t3 : Fin k3_t3_loop.trips) : Finset S327680x128.Idx := (outAM1 L t1 t3).view.set
abbrev outBSet1 (L : grid3.Coords) (t1 : Fin k3_t1_loop.trips) (t3 : Fin k3_t3_loop.trips) : Finset S327680x128.Idx := (outBM1 L t1 t3).view.set

/-- The tile's index words, all naming rows of its SparseCore's half of the table. -/
def idxPiece1 (d : Dev nD) (L : grid3.Coords) : sProp 𝕄 :=
  iprop(∃ jx : Buf (Elt F) (idxLoc1 d), ⌜∀ t1, InRange (L 0).val (idxSet1 L t1) jx⌝
    ∗ bigSep Finset.univ fun t1 : Fin k3_t1_loop.trips => idxLoc1 d ↦[idxSet1 L t1]{fullShare} jx)
/-- The tile's output rows, block by block, at whatever they hold. -/
def outPiece1 (d : Dev nD) (L : grid3.Coords) : sProp 𝕄 :=
  bigSep Finset.univ fun t1 : Fin k3_t1_loop.trips => bigSep Finset.univ fun t3 : Fin k3_t3_loop.trips =>
    iprop((∃ f, outLoc1 d ↦[outASet1 L t1 t3]{fullShare} f) ∗ ∃ f, outLoc1 d ↦[outBSet1 L t1 t3]{fullShare} f)
/-- A writing tile's rows of the table. -/
def tblPiece1 (d : Dev nD) (L : grid3.Coords) : sProp 𝕄 :=
  if h : k3_cond1 L = 1#1 then iprop(∃ tb, tblLoc d ↦[tblSet1 L h]{fullShare} tb) else iprop(emp)
/-- A writing tile's rows of the shared scratch, at share `q`. -/
def shPiece1 (q : PosShare TreeShare) (d : Dev nD) (L : grid3.Coords) : sProp 𝕄 :=
  if h : k3_cond1 L = 1#1 then iprop(∃ f, sh1Loc d (cV1 L) ↦[shSet1 L h]{q} f) else iprop(emp)

instance idxPiece1_storable (d : Dev nD) (L : grid3.Coords) : BI.Storable (upEmb : UEmb _ 𝕄) (idxPiece1 (F := F) d L) := by
  unfold idxPiece1; infer_instance
instance outPiece1_storable (d : Dev nD) (L : grid3.Coords) : BI.Storable (upEmb : UEmb _ 𝕄) (outPiece1 (F := F) d L) := by
  unfold outPiece1; infer_instance
instance tblPiece1_storable (d : Dev nD) (L : grid3.Coords) : BI.Storable (upEmb : UEmb _ 𝕄) (tblPiece1 (F := F) d L) := by
  unfold tblPiece1; split <;> infer_instance
instance shPiece1_storable (q : PosShare TreeShare) (d : Dev nD) (L : grid3.Coords) : BI.Storable (upEmb : UEmb _ 𝕄) (shPiece1 (F := F) q d L) := by
  unfold shPiece1; split <;> infer_instance

/-- What the sequencer's go hands the tile: its index words, its output rows, and — a writing tile — its rows of the table
    and of the shared scratch; with them its position on its barrier cell and that its SparseCore's cells have reached round 1. -/
def go1 (d : Dev nD) (L : grid3.Coords) : sProp 𝕄 :=
  iprop(idxPiece1 d L ∗ outPiece1 d L ∗ tblPiece1 d L ∗ shPiece1 fullShare d L
    ∗ atPos EB (bcell d (cV1 L) (jV1 L)) 1 ∅ 0
    ∗ bigSep Finset.univ fun j : Fin (grid3.bound 1) => reached EB (bcell d (cV1 L) (j.castLE hsub3)) 1)
/-- What its taskDone hands back: the same, the shared scratch now as the tile's read share of the whole of it and — a
    writing tile — what its rows' share kept aside. -/
def td1 (d : Dev nD) (L : grid3.Coords) : sProp 𝕄 :=
  iprop(idxPiece1 d L ∗ outPiece1 d L ∗ tblPiece1 d L ∗ (∃ g, sh1Loc d (cV1 L) ↦{rdShare (L 1).val} g) ∗ shPiece1 restShare d L)

instance go1_storable (d : Dev nD) (L : grid3.Coords) : BI.Storable (upEmb : UEmb _ 𝕄) (go1 (F := F) d L) := by
  unfold go1; infer_instance
instance td1_storable (d : Dev nD) (L : grid3.Coords) : BI.Storable (upEmb : UEmb _ 𝕄) (td1 (F := F) d L) := by
  unfold td1; infer_instance

/-- What the TensorCore hands SparseCore `c`: its half of the table, of the index array and of the output, the index words
    of the half all naming rows of the table's half. -/
def stCore1 (d : Dev nD) (c : Fin 2) : sProp 𝕄 :=
  iprop(∃ tb : Buf (Elt F) (tblLoc d), ∃ jx : Buf (Elt F) (idxLoc1 d), ∃ ob : Buf (Elt F) (outLoc1 d),
    (tblLoc d ↦[halfT c]{fullShare} tb) ∗ (idxLoc1 d ↦[halfJ c]{fullShare} jx) ∗ (outLoc1 d ↦[halfO c]{fullShare} ob)
    ∗ ⌜InRange c.val (halfJ c) jx⌝)

set_option synthInstance.maxHeartbeats 400000 in
instance stCore1_storable (d : Dev nD) (c : Fin 2) : BI.Storable (upEmb : UEmb _ 𝕄) (stCore1 (F := F) d c) := by
  unfold stCore1; infer_instance

end Call1

/-! ## What the handshakes carry -/

/-- Call `q` hands SparseCore `c` its halves (call 1 also what call 0's barrier left); each task its slices; each task's proof
    consumes its barrier kit; each tile owes its arrivals. -/
def P : (K (F := F)).Pay (nD := nD) (Val := Elt F) (Name := ℕ) (U := UU) where
  st := fun q d c => match q with
    | 0 => stCore0 d (Fin.cast (nCore_eq 0) c)
    | 1 => iprop(stCore1 d (Fin.cast (nCore_eq 1) c) ∗ barNext d ((K (F := F)).core 1 c))
  dn := fun q d c => match q with
    | 0 => iprop(stCore0 d (Fin.cast (nCore_eq 0) c) ∗ barNext d ((K (F := F)).core 0 c))
    | 1 => stCore1 d (Fin.cast (nCore_eq 1) c)
  go := fun q d c i => match q with
    | 0 => go0 d (coords0 (Fin.cast nCore0 c) (Fin.cast nSub0 i))
    | 1 => go1 d (coords1 (Fin.cast nCore1 c) (Fin.cast nSub1 i))
  td := fun q d c i => match q with
    | 0 => td0 d (coords0 (Fin.cast nCore0 c) (Fin.cast nSub0 i))
    | 1 => td1 d (coords1 (Fin.cast nCore1 c) (Fin.cast nSub1 i))
  x := fun q thr => match thr with
    | (d, .scVector c i) => kit q d c i
    | _ => iprop(emp)
  ox := fun q thr => match thr with
    | (d, .scVector c _) => oxV q d c
    | _ => 0
  ox_band := by
    intro q thr g ι h
    rcases thr with ⟨d, _ | c | ⟨c, i⟩⟩
    · exact absurd h (lt_irrefl 0)
    · exact absurd h (lt_irrefl 0)
    · obtain ⟨j, rfl, rfl⟩ := oxV_apply_pos h
      rw [(K (F := F)).lev_V_reg d c (j.castLE hsub1) (show (sc_bar0 : Sem sig) ≠ (K (F := F)).go from sc_bar0_ne_go)]; exact ⟨le_rfl, by omega⟩
  ox_tc := fun _ _ => rfl
  ox_sc := fun _ _ _ h => absurd rfl h
  ox_vc := by
    intro q d c i _
    refine ⟨?_, ?_, ?_⟩
    · fin_cases q <;> rfl
    · rw [nCore_eq]; exact c.isLt
    · rw [nSub_eq]; exact i.isLt

instance P_storable : (P (F := F)).IsStorable where
  st q d c := match q with
    | 0 => (inferInstance : BI.Storable (upEmb : UEmb _ 𝕄) (stCore0 d (Fin.cast (nCore_eq 0) c)))
    | 1 => (inferInstance : BI.Storable (upEmb : UEmb _ 𝕄) iprop(stCore1 d (Fin.cast (nCore_eq 1) c) ∗ barNext d ((K (F := F)).core 1 c)))
  dn q d c := match q with
    | 0 => (inferInstance : BI.Storable (upEmb : UEmb _ 𝕄) iprop(stCore0 d (Fin.cast (nCore_eq 0) c) ∗ barNext d ((K (F := F)).core 0 c)))
    | 1 => (inferInstance : BI.Storable (upEmb : UEmb _ 𝕄) (stCore1 d (Fin.cast (nCore_eq 1) c)))
  go q d c i := match q with
    | 0 => (inferInstance : BI.Storable (upEmb : UEmb _ 𝕄) (go0 d (coords0 (Fin.cast nCore0 c) (Fin.cast nSub0 i))))
    | 1 => (inferInstance : BI.Storable (upEmb : UEmb _ 𝕄) (go1 d (coords1 (Fin.cast nCore1 c) (Fin.cast nSub1 i))))
  td q d c i := match q with
    | 0 => (inferInstance : BI.Storable (upEmb : UEmb _ 𝕄) (td0 d (coords0 (Fin.cast nCore0 c) (Fin.cast nSub0 i))))
    | 1 => (inferInstance : BI.Storable (upEmb : UEmb _ 𝕄) (td1 d (coords1 (Fin.cast nCore1 c) (Fin.cast nSub1 i))))

end Cert.Proof.Sc
-- ==== Proof.TcRun.lean ====
/-
  The run of the whole program — the TensorCore's @main beside the two SparseCores' sequencers and thirty-two tiles —
  from the launch theorem for SparseCore programs: every weakly fair execution ends, nothing faulting, with the
  twelve argument arrays as they began. Taken as given here: one tile's obligation and the split of a SparseCore's
  operands for each gather, the launch element of the ghost state, @main's segments' steps and the index lists' ranges.
-/
import proofs.«217078_g14027363189340_cont_week2b_886_24_alg».proof.Proof.TcFinal
import proofs.«217078_g14027363189340_cont_week2b_886_24_alg».proof.Proof.ScPay

noncomputable section

namespace Cert.Proof.Main

open Cert.KernelIdeal Cert.KernelIdeal.Gen Cert.Proof.Sc

open Idealize.ShloMosaic Idealize.ShloMosaic.StableHlo Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

/-- The twelve argument arrays end as they began, on every device. -/
def QC (m : (ℓ : Loc nD τ sig) → Buf (Elt F) ℓ) : PUnit × MemSt nD τ sig (Elt F) → Prop := fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)

theorem QC_of_fq (m : (ℓ : Loc nD τ sig) → Buf (Elt F) ℓ) (s' : Phys nD τ sig (Elt F)) (h : ∀ d, fq m d s') : QC m (⟨⟩, s'.mem) :=
  fun c => ⟨h c main_arg0 (by decide), h c main_arg1 (by decide), h c main_arg2 (by decide), h c main_arg3 (by decide),
    h c main_arg4 (by decide), h c main_arg5 (by decide), h c main_arg6 (by decide), h c main_arg7 (by decide),
    h c main_arg8 (by decide), h c main_arg9 (by decide), h c main_arg10 (by decide), h c main_arg11 (by decide)⟩

/-- The program's run, from its parts. -/
theorem run_main_of [∀ e, Nonempty (Elt F e)] (m : (ℓ : Loc nD τ sig) → Buf (Elt F) ℓ) (ρ : Dev nD → PrngReg)
    (htile0 : (K (F := F)).TileObl (D (F := F)) 𝒱 (P (F := F)) v₀ 0) (htile1 : (K (F := F)).TileObl (D (F := F)) 𝒱 (P (F := F)) v₀ 1)
    (hvec0 : (K (F := F)).VecSplit (P (F := F)) 0) (hvec1 : (K (F := F)).VecSplit (P (F := F)) 1)
    (G0 G1 G2 X1 : Dev nD → sProp 𝕄)
    (ok0 : (Proc.devRef (τ := τ) .tc main_v25).ty.Contents (Elt F) → Prop)
    (ok1 : (Proc.devRef (τ := τ) .tc main_v37).ty.Contents (Elt F) → Prop)
    (hR0 : RegionStep (P (F := F)) 0 0 main_v8 G0) (hR1 : RegionStep (P (F := F)) 1 1 main_v28 G1) (hR2 : RegionStep (P (F := F)) 2 2 main_v40 G2)
    (hC0 : CallStep (P (F := F)) 0 main_v25 [main_v9, main_v25, main_v26] (fun _ => iprop(emp)) X1 ok0)
    (hC1 : CallStep (P (F := F)) 1 main_v37 [main_v9, main_v37, main_v38] X1 (fun _ => iprop(emp)) ok1)
    (hI0 : ∀ (d : Dev nD) (V₁ : Valuation τ sig (Elt F)), V₁ (Proc.devRef .tc main_arg3) = m (d, Proc.devRef .tc main_arg3) →
      ok0 (after opsB V₁ (Proc.devRef .tc main_v25)))
    (hI1 : ∀ (d : Dev nD) (V₁ W : Valuation τ sig (Elt F)), V₁ (Proc.devRef .tc main_arg3) = m (d, Proc.devRef .tc main_arg3) →
      V₁ (Proc.devRef .tc main_v10) = after opsB W (Proc.devRef .tc main_v10) → ok1 (after opsD V₁ (Proc.devRef .tc main_v37)))
    (u₀ : UU)
    (hu₀ : iprop(ownU u₀ ∗ (P (F := F)).oxCred ∗ (K (F := F)).freeSems0)
      ⊢ |={Set.univ}=> iprop(BI.own (EH (initOf (K (F := F)).hsCells (K (F := F)).hsToks)) ∗ (bigSep Finset.univ fun d : Dev nD => iprop(G0 d ∗ G1 d ∗ G2 d))
        ∗ bigSep Finset.univ fun thr : Thread nD τ => bigSep Finset.univ fun q : Fin 2 => (P (F := F)).x q thr)) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P (F := F)) facts v₀
    (fun q hq => match q with | 0 => nomatch hq | 1 => nomatch hq)
    (fun q _ => match q with | 0 => htile0 | 1 => htile1)
    (fun q _ => match q with | 0 => hvec0 | 1 => hvec1)
    m ρ main (fun d => iprop(G0 d ∗ G1 d ∗ G2 d)) (FIN m) u₀ hu₀
    (fun κ d => hmain_of (P (F := F)) m ρ G0 G1 G2 X1 ok0 ok1 hR0 hR1 hR2 hC0 hC1 hI0 hI1 κ d)
    (fq m) (hfin m) (QC m) (QC_of_fq m)

end Cert.Proof.Main

end
-- ==== Proof.ScCall.lean ====
/-
  A SparseCore call on the TensorCore's side. The node table, the index list and the gathered rows' array are taken
  out of the unscoped buffers the TensorCore holds; each is cut along its rows into the two halves the two SparseCores
  work on — the first half of the index list names rows of the first half of the table, the second half rows of the
  second — and handed over with the start signals; the done signals bring the halves back, which rejoin into whole
  arrays at contents not named; and these go back among the unscoped buffers.
-/
import proofs.«217078_g14027363189340_cont_week2b_886_24_alg».proof.Proof.TcCompose
import proofs.«217078_g14027363189340_cont_week2b_886_24_alg».proof.Proof.ScPay

noncomputable section

namespace Cert.Proof.Main

open Cert.KernelIdeal Cert.KernelIdeal.Gen Cert.Proof.Sc

open Idealize.ShloMosaic Idealize.ShloMosaic.StableHlo Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

/-! ## An array as its two halves -/

theorem halfT_disj : ∀ i ∈ (Finset.univ : Finset (Fin 2)), ∀ j ∈ (Finset.univ : Finset (Fin 2)), i ≠ j → Disjoint (halfT i) (halfT j) :=
  fun _ _ _ _ h => Rect.part_disjoint hdivT h
theorem halfT_cover : (Finset.univ : Finset (Fin 2)).biUnion halfT = Finset.univ := Rect.biUnion_part hdivT
theorem halfJ_disj : ∀ i ∈ (Finset.univ : Finset (Fin 2)), ∀ j ∈ (Finset.univ : Finset (Fin 2)), i ≠ j → Disjoint (halfJ i) (halfJ j) :=
  fun _ _ _ _ h => Rect.part_disjoint hdivJ h
theorem halfJ_cover : (Finset.univ : Finset (Fin 2)).biUnion halfJ = Finset.univ := Rect.biUnion_part hdivJ
theorem halfO_disj : ∀ i ∈ (Finset.univ : Finset (Fin 2)), ∀ j ∈ (Finset.univ : Finset (Fin 2)), i ≠ j → Disjoint (halfO i) (halfO j) :=
  fun _ _ _ _ h => Rect.part_disjoint hdivO h
theorem halfO_cover : (Finset.univ : Finset (Fin 2)).biUnion halfO = Finset.univ := Rect.biUnion_part hdivO

/-- A whole array held at one contents is its two halves held at it. -/
theorem halves_split {ℓ : Loc nD τ sig} (half : Fin 2 → Finset (Idx ℓ))
    (hd : ∀ i ∈ (Finset.univ : Finset (Fin 2)), ∀ j ∈ (Finset.univ : Finset (Fin 2)), i ≠ j → Disjoint (half i) (half j))
    (hc : (Finset.univ : Finset (Fin 2)).biUnion half = Finset.univ) (f : Buf (Elt F) ℓ) :
    (ℓ ↦{fullShare} f : sProp 𝕄) = bigSep Finset.univ fun c : Fin 2 => ℓ ↦[half c]{fullShare} f := by
  rw [← pointsTo_biUnion Finset.univ (ℓ := ℓ) half hd, hc]; try rfl

/-- The two halves, each at contents of its own, rejoin into the whole array at some contents. -/
theorem halves_join {ℓ : Loc nD τ sig} (half : Fin 2 → Finset (Idx ℓ))
    (hd : ∀ i ∈ (Finset.univ : Finset (Fin 2)), ∀ j ∈ (Finset.univ : Finset (Fin 2)), i ≠ j → Disjoint (half i) (half j))
    (hc : (Finset.univ : Finset (Fin 2)).biUnion half = Finset.univ) :
    (bigSep Finset.univ fun c : Fin 2 => iprop(∃ f : Buf (Elt F) ℓ, ℓ ↦[half c]{fullShare} f)) ⊢ (iprop(∃ f : Buf (Elt F) ℓ, ℓ ↦{fullShare} f) : sProp 𝕄) := by
  refine (bigSep_exists_pi Finset.univ (fun (c : Fin 2) (f : Buf (Elt F) ℓ) => (ℓ ↦[half c]{fullShare} f : sProp 𝕄))).trans ?_
  iintro ⟨%fs, H⟩
  ihave H' := (pointsTo_biUnion_join Finset.univ half fs (fs 0) hd) $$ H
  icases H' with ⟨%g, -, Hg⟩
  rw [hc]
  iexists g; iexact Hg

/-! ## The three arrays of a call among the unscoped buffers -/

abbrev rT : DevRef τ sig := Proc.devRef .tc main_v9
abbrev rJ0 : DevRef τ sig := Proc.devRef .tc main_v25
abbrev rO0 : DevRef τ sig := Proc.devRef .tc main_v26
abbrev rJ1 : DevRef τ sig := Proc.devRef .tc main_v37
abbrev rO1 : DevRef τ sig := Proc.devRef .tc main_v38

/-- The first gather's arrays: the node table, the first index list, the first gathered rows. -/
abbrev trio0 : Finset (DevRef τ sig) := {rT, rJ0, rO0}
/-- The second gather's arrays. -/
abbrev trio1 : Finset (DevRef τ sig) := {rT, rJ1, rO1}

theorem trio0_sub : trio0 ⊆ Pipeline.ucRefs τ sig := by decide
theorem trio1_sub : trio1 ⊆ Pipeline.ucRefs τ sig := by decide

theorem held_trio0 (d : Dev nD) (V₁ : Valuation τ sig (Elt F)) :
    (held (SparseCore.T d) trio0 V₁ : sProp 𝕄)
      = iprop((tblLoc d ↦{fullShare} V₁ rT) ∗ (idxLoc0 d ↦{fullShare} V₁ rJ0) ∗ (outLoc0 d ↦{fullShare} V₁ rO0)) := by
  unfold held
  rw [bigSep_insert (by decide), bigSep_insert (by decide), bigSep_singleton]
  rfl

theorem held_trio1 (d : Dev nD) (V₁ : Valuation τ sig (Elt F)) :
    (held (SparseCore.T d) trio1 V₁ : sProp 𝕄)
      = iprop((tblLoc d ↦{fullShare} V₁ rT) ∗ (idxLoc1 d ↦{fullShare} V₁ rJ1) ∗ (outLoc1 d ↦{fullShare} V₁ rO1)) := by
  unfold held
  rw [bigSep_insert (by decide), bigSep_insert (by decide), bigSep_singleton]
  rfl

/-- A valuation changed at three buffers. -/
def upd3 (V₁ : Valuation τ sig (Elt F)) (a b c : DevRef τ sig) (fa : a.ty.Contents (Elt F)) (fb : b.ty.Contents (Elt F)) (fc : c.ty.Contents (Elt F)) :
    Valuation τ sig (Elt F) :=
  Function.update (Function.update (Function.update V₁ a fa) b fb) c fc

theorem upd3_of_ne (V₁ : Valuation τ sig (Elt F)) {a b c : DevRef τ sig} (fa fb fc) {x : DevRef τ sig} (ha : x ≠ a) (hb : x ≠ b) (hc : x ≠ c) :
    upd3 V₁ a b c fa fb fc x = V₁ x := by
  unfold upd3
  rw [Function.update_of_ne hc, Function.update_of_ne hb, Function.update_of_ne ha]
theorem upd3_c (V₁ : Valuation τ sig (Elt F)) {a b c : DevRef τ sig} (fa fb fc) : upd3 V₁ a b c fa fb fc c = fc := by
  unfold upd3; rw [Function.update_self]
theorem upd3_b (V₁ : Valuation τ sig (Elt F)) {a b c : DevRef τ sig} (fa fb fc) (hbc : b ≠ c) : upd3 V₁ a b c fa fb fc b = fb := by
  unfold upd3; rw [Function.update_of_ne hbc, Function.update_self]
theorem upd3_a (V₁ : Valuation τ sig (Elt F)) {a b c : DevRef τ sig} (fa fb fc) (hab : a ≠ b) (hac : a ≠ c) : upd3 V₁ a b c fa fb fc a = fa := by
  unfold upd3; rw [Function.update_of_ne hac, Function.update_of_ne hab, Function.update_self]

/-- The three arrays at new contents beside the other unscoped buffers are the unscoped buffers at the valuation changed
    at the three. -/
theorem held_upd0 (d : Dev nD) (V₁ : Valuation τ sig (Elt F)) (tb : Buf (Elt F) (tblLoc d)) (jx : Buf (Elt F) (idxLoc0 d)) (ob : Buf (Elt F) (outLoc0 d)) :
    iprop(((tblLoc d ↦{fullShare} tb) ∗ (idxLoc0 d ↦{fullShare} jx) ∗ (outLoc0 d ↦{fullShare} ob))
        ∗ (held (SparseCore.T d) (Pipeline.ucRefs τ sig \ trio0) V₁ : sProp 𝕄))
      ⊢ (held (SparseCore.T d) (Pipeline.ucRefs τ sig) (upd3 V₁ rT rJ0 rO0 tb jx ob) : sProp 𝕄) := by
  rw [held_sub_split (SparseCore.T d) trio0_sub (upd3 V₁ rT rJ0 rO0 tb jx ob), held_trio0,
    upd3_a (a := rT) (b := rJ0) (c := rO0) V₁ tb jx ob (by decide) (by decide), upd3_b (a := rT) (b := rJ0) (c := rO0) V₁ tb jx ob (by decide), upd3_c (a := rT) (b := rJ0) (c := rO0),
    held_congr (SparseCore.T d) (V := upd3 V₁ rT rJ0 rO0 tb jx ob) (V' := V₁) fun b hb => by
      have hn : b ∉ trio0 := (Finset.mem_sdiff.mp hb).2
      simp only [trio0, Finset.mem_insert, Finset.mem_singleton, not_or] at hn
      exact upd3_of_ne (a := rT) (b := rJ0) (c := rO0) V₁ tb jx ob hn.1 hn.2.1 hn.2.2]

theorem held_upd1 (d : Dev nD) (V₁ : Valuation τ sig (Elt F)) (tb : Buf (Elt F) (tblLoc d)) (jx : Buf (Elt F) (idxLoc1 d)) (ob : Buf (Elt F) (outLoc1 d)) :
    iprop(((tblLoc d ↦{fullShare} tb) ∗ (idxLoc1 d ↦{fullShare} jx) ∗ (outLoc1 d ↦{fullShare} ob))
        ∗ (held (SparseCore.T d) (Pipeline.ucRefs τ sig \ trio1) V₁ : sProp 𝕄))
      ⊢ (held (SparseCore.T d) (Pipeline.ucRefs τ sig) (upd3 V₁ rT rJ1 rO1 tb jx ob) : sProp 𝕄) := by
  rw [held_sub_split (SparseCore.T d) trio1_sub (upd3 V₁ rT rJ1 rO1 tb jx ob), held_trio1,
    upd3_a (a := rT) (b := rJ1) (c := rO1) V₁ tb jx ob (by decide) (by decide), upd3_b (a := rT) (b := rJ1) (c := rO1) V₁ tb jx ob (by decide), upd3_c (a := rT) (b := rJ1) (c := rO1),
    held_congr (SparseCore.T d) (V := upd3 V₁ rT rJ1 rO1 tb jx ob) (V' := V₁) fun b hb => by
      have hn : b ∉ trio1 := (Finset.mem_sdiff.mp hb).2
      simp only [trio1, Finset.mem_insert, Finset.mem_singleton, not_or] at hn
      exact upd3_of_ne (a := rT) (b := rJ1) (c := rO1) V₁ tb jx ob hn.1 hn.2.1 hn.2.2]

/-- Outside the three arrays the changed valuation is the old one. -/
theorem upd3_keeps0 (V₁ : Valuation τ sig (Elt F)) (tb : (rT : DevRef τ sig).ty.Contents (Elt F)) (jx : (rJ0 : DevRef τ sig).ty.Contents (Elt F)) (ob : (rO0 : DevRef τ sig).ty.Contents (Elt F)) (r : Ref sig .tc) (hr : r ∉ [main_v9, main_v25, main_v26]) :
    upd3 V₁ rT rJ0 rO0 tb jx ob (Proc.devRef .tc r) = V₁ (Proc.devRef .tc r) := by
  simp only [List.mem_cons, List.not_mem_nil, or_false, not_or] at hr
  exact upd3_of_ne (a := rT) (b := rJ0) (c := rO0) V₁ tb jx ob (devRef_ne_of_ne hr.1) (devRef_ne_of_ne hr.2.1) (devRef_ne_of_ne hr.2.2)
theorem upd3_keeps1 (V₁ : Valuation τ sig (Elt F)) (tb : (rT : DevRef τ sig).ty.Contents (Elt F)) (jx : (rJ1 : DevRef τ sig).ty.Contents (Elt F)) (ob : (rO1 : DevRef τ sig).ty.Contents (Elt F)) (r : Ref sig .tc) (hr : r ∉ [main_v9, main_v37, main_v38]) :
    upd3 V₁ rT rJ1 rO1 tb jx ob (Proc.devRef .tc r) = V₁ (Proc.devRef .tc r) := by
  simp only [List.mem_cons, List.not_mem_nil, or_false, not_or] at hr
  exact upd3_of_ne (a := rT) (b := rJ1) (c := rO1) V₁ tb jx ob (devRef_ne_of_ne hr.1) (devRef_ne_of_ne hr.2.1) (devRef_ne_of_ne hr.2.2)

/-! ## The halves handed over and taken back -/

/-- The whole index list is in range, half by half: the first half names rows of the first half of the table, the
    second half rows of the second. -/
def IdxOK (j : S327680.Idx → BitVec 32) : Prop := ∀ c : Fin 2, InRange c.val (halfJ c) j

/-- What the first call's barrier leaves for the second, over both SparseCores. -/
def X1 (d : Dev nD) : sProp 𝕄 := bigSep Finset.univ fun c : Fin 2 => barNext (F := F) d (c.castLE (by decide))

/-- The three arrays whole, the index list in range half by half, are the two SparseCores' hand-overs. -/
theorem stCore0_intro (d : Dev nD) (tb : Buf (Elt F) (tblLoc d)) (jx : Buf (Elt F) (idxLoc0 d)) (ob : Buf (Elt F) (outLoc0 d))
    (h : ∀ c : Fin 2, InRange c.val (halfJ c) jx) :
    iprop((tblLoc d ↦{fullShare} tb) ∗ (idxLoc0 d ↦{fullShare} jx) ∗ (outLoc0 d ↦{fullShare} ob))
      ⊢ (bigSep Finset.univ fun c : Fin 2 => stCore0 (F := F) d c : sProp 𝕄) := by
  rw [halves_split (ℓ := tblLoc d) halfT halfT_disj halfT_cover tb, halves_split (ℓ := idxLoc0 d) halfJ halfJ_disj halfJ_cover jx,
    halves_split (ℓ := outLoc0 d) halfO halfO_disj halfO_cover ob, ← bigSep_sep', ← bigSep_sep']
  refine bigSep_mono fun c _ => ?_
  unfold stCore0
  show (_ : sProp 𝕄) ⊢ _
  iintro ⟨Ht, Hj, Ho⟩
  iexists tb, jx, ob
  isplitl [Ht]; · iexact Ht
  isplitl [Hj]; · iexact Hj
  isplitl [Ho]; · iexact Ho
  ipureintro; exact h c

/-- The two SparseCores' returns rejoin into the three arrays whole, at contents not named. -/
theorem stCore0_elim (d : Dev nD) :
    (bigSep Finset.univ fun c : Fin 2 => stCore0 (F := F) d c : sProp 𝕄)
      ⊢ iprop((∃ tb : Buf (Elt F) (tblLoc d), tblLoc d ↦{fullShare} tb) ∗ (∃ jx : Buf (Elt F) (idxLoc0 d), idxLoc0 d ↦{fullShare} jx)
          ∗ (∃ ob : Buf (Elt F) (outLoc0 d), outLoc0 d ↦{fullShare} ob)) := by
  have hweak : ∀ c : Fin 2, (stCore0 (F := F) d c : sProp 𝕄) ⊢ iprop((∃ tb : Buf (Elt F) (tblLoc d), tblLoc d ↦[halfT c]{fullShare} tb)
      ∗ (∃ jx : Buf (Elt F) (idxLoc0 d), idxLoc0 d ↦[halfJ c]{fullShare} jx) ∗ (∃ ob : Buf (Elt F) (outLoc0 d), outLoc0 d ↦[halfO c]{fullShare} ob)) := by
    intro c
    unfold stCore0
    iintro ⟨%tb, %jx, %ob, Ht, Hj, Ho, -⟩
    isplitl [Ht]; · iexists tb; iexact Ht
    isplitl [Hj]; · iexists jx; iexact Hj
    iexists ob; iexact Ho
  refine (bigSep_mono fun c _ => hweak c).trans ?_
  rw [bigSep_sep', bigSep_sep']
  show (_ : sProp 𝕄) ⊢ _
  iintro ⟨Ht, Hj, Ho⟩
  isplitl [Ht]; · iapply (halves_join (ℓ := tblLoc d) halfT halfT_disj halfT_cover); iexact Ht
  isplitl [Hj]; · iapply (halves_join (ℓ := idxLoc0 d) halfJ halfJ_disj halfJ_cover); iexact Hj
  iapply (halves_join (ℓ := outLoc0 d) halfO halfO_disj halfO_cover); iexact Ho

/-- The three arrays whole, the index list in range half by half, are the two SparseCores' hand-overs. -/
theorem stCore1_intro (d : Dev nD) (tb : Buf (Elt F) (tblLoc d)) (jx : Buf (Elt F) (idxLoc1 d)) (ob : Buf (Elt F) (outLoc1 d))
    (h : ∀ c : Fin 2, InRange c.val (halfJ c) jx) :
    iprop((tblLoc d ↦{fullShare} tb) ∗ (idxLoc1 d ↦{fullShare} jx) ∗ (outLoc1 d ↦{fullShare} ob))
      ⊢ (bigSep Finset.univ fun c : Fin 2 => stCore1 (F := F) d c : sProp 𝕄) := by
  rw [halves_split (ℓ := tblLoc d) halfT halfT_disj halfT_cover tb, halves_split (ℓ := idxLoc1 d) halfJ halfJ_disj halfJ_cover jx,
    halves_split (ℓ := outLoc1 d) halfO halfO_disj halfO_cover ob, ← bigSep_sep', ← bigSep_sep']
  refine bigSep_mono fun c _ => ?_
  unfold stCore1
  show (_ : sProp 𝕄) ⊢ _
  iintro ⟨Ht, Hj, Ho⟩
  iexists tb, jx, ob
  isplitl [Ht]; · iexact Ht
  isplitl [Hj]; · iexact Hj
  isplitl [Ho]; · iexact Ho
  ipureintro; exact h c

/-- The two SparseCores' returns rejoin into the three arrays whole, at contents not named. -/
theorem stCore1_elim (d : Dev nD) :
    (bigSep Finset.univ fun c : Fin 2 => stCore1 (F := F) d c : sProp 𝕄)
      ⊢ iprop((∃ tb : Buf (Elt F) (tblLoc d), tblLoc d ↦{fullShare} tb) ∗ (∃ jx : Buf (Elt F) (idxLoc1 d), idxLoc1 d ↦{fullShare} jx)
          ∗ (∃ ob : Buf (Elt F) (outLoc1 d), outLoc1 d ↦{fullShare} ob)) := by
  have hweak : ∀ c : Fin 2, (stCore1 (F := F) d c : sProp 𝕄) ⊢ iprop((∃ tb : Buf (Elt F) (tblLoc d), tblLoc d ↦[halfT c]{fullShare} tb)
      ∗ (∃ jx : Buf (Elt F) (idxLoc1 d), idxLoc1 d ↦[halfJ c]{fullShare} jx) ∗ (∃ ob : Buf (Elt F) (outLoc1 d), outLoc1 d ↦[halfO c]{fullShare} ob)) := by
    intro c
    unfold stCore1
    iintro ⟨%tb, %jx, %ob, Ht, Hj, Ho, -⟩
    isplitl [Ht]; · iexists tb; iexact Ht
    isplitl [Hj]; · iexists jx; iexact Hj
    iexists ob; iexact Ho
  refine (bigSep_mono fun c _ => hweak c).trans ?_
  rw [bigSep_sep', bigSep_sep']
  show (_ : sProp 𝕄) ⊢ _
  iintro ⟨Ht, Hj, Ho⟩
  isplitl [Ht]; · iapply (halves_join (ℓ := tblLoc d) halfT halfT_disj halfT_cover); iexact Ht
  isplitl [Hj]; · iapply (halves_join (ℓ := idxLoc1 d) halfJ halfJ_disj halfJ_cover); iexact Hj
  iapply (halves_join (ℓ := outLoc1 d) halfO halfO_disj halfO_cover); iexact Ho

/-! ## The calls' steps -/

theorem st0_eq (d : Dev nD) :
    (bigSep Finset.univ fun c : Fin ((K (F := F)).nCore 0) => (P (F := F)).st 0 d c) = (bigSep Finset.univ fun c : Fin 2 => stCore0 (F := F) d c : sProp 𝕄) :=
  bigSep_congr fun _ _ => congrArg (stCore0 (F := F) d) (Fin.ext rfl)
theorem dn0_eq (d : Dev nD) :
    (bigSep Finset.univ fun c : Fin ((K (F := F)).nCore 0) => (P (F := F)).dn 0 d c)
      = (iprop((bigSep Finset.univ fun c : Fin 2 => stCore0 (F := F) d c) ∗ X1 (F := F) d) : sProp 𝕄) := by
  unfold X1; rw [← bigSep_sep']; exact bigSep_congr fun _ _ => rfl
theorem st1_eq (d : Dev nD) :
    (bigSep Finset.univ fun c : Fin ((K (F := F)).nCore 1) => (P (F := F)).st 1 d c)
      = (iprop((bigSep Finset.univ fun c : Fin 2 => stCore1 (F := F) d c) ∗ X1 (F := F) d) : sProp 𝕄) := by
  unfold X1; rw [← bigSep_sep']; exact bigSep_congr fun _ _ => rfl
theorem dn1_eq (d : Dev nD) :
    (bigSep Finset.univ fun c : Fin ((K (F := F)).nCore 1) => (P (F := F)).dn 1 d c) = (bigSep Finset.univ fun c : Fin 2 => stCore1 (F := F) d c : sProp 𝕄) :=
  bigSep_congr fun _ _ => congrArg (stCore1 (F := F) d) (Fin.ext rfl)

/-- The first gather, on the TensorCore's side. -/
theorem callStep0 : CallStep (P (F := F)) 0 main_v25 [main_v9, main_v25, main_v26] (fun _ => iprop(emp)) (X1 (F := F)) IdxOK := by
  intro κ d V₁ hok k Q
  rw [wp_bind, held_sub_split (SparseCore.T d) trio0_sub V₁, held_trio0]
  iintro ⟨#Hctx, Hst, ⟨⟨Ht, Hj, Ho⟩, Hrest⟩, -, Hk⟩
  iapply ((K (F := F)).wp_run (D (F := F)) 𝒱 (EH := EH) (P := P (F := F)) κ d 0)
  isplitr; · iexact Hctx
  isplitl [Hst]; · iexact Hst
  isplitl [Ht Hj Ho]
  · rw [st0_eq]
    iapply (stCore0_intro d (V₁ rT) (V₁ rJ0) (V₁ rO0) hok)
    isplitl [Ht]; · iexact Ht
    isplitl [Hj]; · iexact Hj
    iexact Ho
  iintro ⟨Hst, Hdn⟩
  ihave Hdn' := (Entails.of_eq (dn0_eq d)) $$ Hdn
  icases Hdn' with ⟨Hcore, HX⟩
  ihave H := (stCore0_elim d) $$ Hcore
  icases H with ⟨⟨%tb, Ht⟩, ⟨%jx, Hj⟩, ⟨%ob, Ho⟩⟩
  ispecialize Hk $$ %(upd3 V₁ rT rJ0 rO0 tb jx ob)
  iapply Hk
  · ipureintro; exact fun r hr => upd3_keeps0 V₁ tb jx ob r hr
  isplitl [Hst]; · iexact Hst
  isplitr [HX]
  · iapply (held_upd0 d V₁ tb jx ob)
    isplitr [Hrest]
    · isplitl [Ht]; · iexact Ht
      isplitl [Hj]; · iexact Hj
      iexact Ho
    iexact Hrest
  iexact HX

/-- The second gather, on the TensorCore's side: it takes what the first call's barrier left. -/
theorem callStep1 : CallStep (P (F := F)) 1 main_v37 [main_v9, main_v37, main_v38] (X1 (F := F)) (fun _ => iprop(emp)) IdxOK := by
  intro κ d V₁ hok k Q
  rw [wp_bind, held_sub_split (SparseCore.T d) trio1_sub V₁, held_trio1]
  iintro ⟨#Hctx, Hst, ⟨⟨Ht, Hj, Ho⟩, Hrest⟩, HX, Hk⟩
  iapply ((K (F := F)).wp_run (D (F := F)) 𝒱 (EH := EH) (P := P (F := F)) κ d 1)
  isplitr; · iexact Hctx
  isplitl [Hst]; · iexact Hst
  isplitl [Ht Hj Ho HX]
  · rw [st1_eq]
    isplitr [HX]
    · iapply (stCore1_intro d (V₁ rT) (V₁ rJ1) (V₁ rO1) hok)
      isplitl [Ht]; · iexact Ht
      isplitl [Hj]; · iexact Hj
      iexact Ho
    iexact HX
  iintro ⟨Hst, Hdn⟩
  ihave Hdn' := (Entails.of_eq (dn1_eq d)) $$ Hdn
  ihave H := (stCore1_elim d) $$ Hdn'
  icases H with ⟨⟨%tb, Ht⟩, ⟨%jx, Hj⟩, ⟨%ob, Ho⟩⟩
  ispecialize Hk $$ %(upd3 V₁ rT rJ1 rO1 tb jx ob)
  iapply Hk
  · ipureintro; exact fun r hr => upd3_keeps1 V₁ tb jx ob r hr
  isplitl [Hst]; · iexact Hst
  isplitl
  · iapply (held_upd1 d V₁ tb jx ob)
    isplitr [Hrest]
    · isplitl [Ht]; · iexact Ht
      isplitl [Hj]; · iexact Hj
      iexact Ho
    iexact Hrest
  iempintro

end Cert.Proof.Main

end
-- ==== Proof.TcData.lean ====
import proofs.«217078_g14027363189340_cont_week2b_886_24_alg».proof.Proof.Gen.KernelIdeal.Launch
import proofs.«217078_g14027363189340_cont_week2b_886_24_alg».proof.Proof.Gen.KernelIdeal.Skeleton
import proofs.«217078_g14027363189340_cont_week2b_886_24_alg».proof.Proof.Gen.KernelIdeal.Points
import Idealize.ShloMosaic.Lib.Pipeline.FrameBody
import Idealize.ShloMosaic.Lib.Tactic

set_option maxRecDepth 16384

noncomputable section

namespace Cert.Proof.Tc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {Name : Type} [DecidableEq Name] {U : Type} [URA U] {Lvl : Type}

local notation "𝕄" => MT nD τ sig Ix (Elt F) Name U Lvl

/-! # The three TensorCore regions' proof data

Each region is stated at a PARAMETER `V`: the TensorCore's buffer contents when that region is entered. What the body
leaves in an output window's staging buffer is a closed function of the input windows' blocks at the point: the payload
of its one whole-block store. Nothing is carried from point to point; the invariant is the scoped buffers no window
stages, untouched. What the core owes (`O`) and the bound on its recorded wait pairs (`B`) are constants the region
passes through. -/

section Regions

variable (V : (c : Dev nD) → (b : Ref sig .tc) → Buf (Elt F) ((c : Thread nD τ).loc b))

/-! ## Region 0: the two node tables, `T[p] = select(p = 0, src, dst) · W[p]ᵀ + bias[p]` -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-buffer rectangles the body loads and stores through. -/
abbrev r0_0 : Rect S10000x128 := Rect.unit (s := S10000x128) ![0, 0] S10000x128.size inb_S10000x128_S10000x128_0_0
abbrev r0_2 : Rect S1x128x128 := Rect.unit (s := S1x128x128) ![0, 0, 0] S1x128x128.size inb_S1x128x128_S1x128x128_0_0_0
abbrev r0_3 : Rect S1x1x128 := Rect.unit (s := S1x1x128) ![0, 0, 0] S1x1x128.size inb_S1x1x128_S1x1x128_0_0_0
abbrev r0_4 : Rect S1x10000x128 := Rect.unit (s := S1x10000x128) ![0, 0, 0] S1x10000x128.size inb_S1x10000x128_S1x10000x128_0_0_0

/-- The output window's staging buffer after the body at grid coordinates `i`, from the four input blocks: the
    payload of its one store, which covers the buffer. -/
def out0_4 (i : grid0.Coords) (x0 x1 : Vec F S10000x128 .f32) (x2 : Vec F S1x128x128 .f32) (x3 : Vec F S1x1x128 .f32) :
    Vec F S1x10000x128 .f32 :=
  View.canon [⟨r0_4, k0_pay1 i (View.ld x0 r0_0) (View.ld x1 r0_0) (View.ld x2 r0_2) (View.ld x3 r0_3)⟩]

/-- The one store tiles the buffer, so it covers it. -/
theorem cover0_4 (p0 : Vec F S1x10000x128 .f32) (y : S1x10000x128.Idx) :
    ∃ pc ∈ ([⟨r0_4, p0⟩] : List (View.Piece (Elt F) S1x10000x128 .f32)), y ∈ pc.1.set :=
  View.cover_of_tiled [⟨r0_4, p0⟩] S1x10000x128.size (by rfl) y

/-- The proof data of region 0 on core `c`. -/
def dat0 (O : CellTallies nD τ sig Ix) (B : Set (SemLoc sig × Ix)) (c : Dev nD) : Dat τ (Elt F) Ix Name U Lvl cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (grid0.coords t) (iblk0 V c 0 t) (iblk0 V c 1 t) (iblk0 V c 2 t) (iblk0 V c 3 t)
  Φ _ := Pipeline.scopedRest (Ix := Ix) (Name := Name) (U := U) (Lvl := Lvl) (Val := Elt F) spec0 c
  q _ := fullShare
  owed _ := O
  recorded _ := B

section
variable (O : CellTallies nD τ sig Ix) (B : Set (SemLoc sig × Ix))

theorem A_eq0 (c : Dev nD) (w : Fin cfg0.W) : (dat0 (Name := Name) (U := U) (Lvl := Lvl) V O B c).A w = V c (Pipeline.arrRef spec0 w) := by
  dsimp only [dat0]

theorem after0_0 (c : Dev nD) (t : Fin cfg0.N) : (dat0 (Name := Name) (U := U) (Lvl := Lvl) V O B c).after 0 t = iblk0 V c 0 t := by dsimp only [dat0]
theorem after0_1 (c : Dev nD) (t : Fin cfg0.N) : (dat0 (Name := Name) (U := U) (Lvl := Lvl) V O B c).after 1 t = iblk0 V c 1 t := by dsimp only [dat0]
theorem after0_2 (c : Dev nD) (t : Fin cfg0.N) : (dat0 (Name := Name) (U := U) (Lvl := Lvl) V O B c).after 2 t = iblk0 V c 2 t := by dsimp only [dat0]
theorem after0_3 (c : Dev nD) (t : Fin cfg0.N) : (dat0 (Name := Name) (U := U) (Lvl := Lvl) V O B c).after 3 t = iblk0 V c 3 t := by dsimp only [dat0]
theorem after0_4 (c : Dev nD) (t : Fin cfg0.N) : (dat0 (Name := Name) (U := U) (Lvl := Lvl) V O B c).after 4 t
    = out0_4 (grid0.coords t) (iblk0 V c 0 t) (iblk0 V c 1 t) (iblk0 V c 2 t) (iblk0 V c 3 t) := by dsimp only [dat0]

/-- An input window's current staging buffer holds its block at every point, fetched there or not: unfetched, the
    block index has not moved, and the buffer still holds the previous point's block, which is this point's. -/
theorem before0_0_of {c : Dev nD} (dat : Dat τ (Elt F) Ix Name U Lvl cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Ix Name U Lvl cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Ix Name U Lvl cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Ix Name U Lvl cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 (Name := Name) (U := U) (Lvl := Lvl) V O B c).before 0 t d = iblk0 V c 0 t :=
  before0_0_of V (dat0 (Name := Name) (U := U) (Lvl := Lvl) V O B c) (A_eq0 V O B c 0) (after0_0 V O B c) t d
theorem before0_1 (c : Dev nD) (t : Fin cfg0.N) (d) : (dat0 (Name := Name) (U := U) (Lvl := Lvl) V O B c).before 1 t d = iblk0 V c 1 t :=
  before0_1_of V (dat0 (Name := Name) (U := U) (Lvl := Lvl) V O B c) (A_eq0 V O B c 1) (after0_1 V O B c) t d
theorem before0_2 (c : Dev nD) (t : Fin cfg0.N) (d) : (dat0 (Name := Name) (U := U) (Lvl := Lvl) V O B c).before 2 t d = iblk0 V c 2 t :=
  before0_2_of V (dat0 (Name := Name) (U := U) (Lvl := Lvl) V O B c) (A_eq0 V O B c 2) (after0_2 V O B c) t d
theorem before0_3 (c : Dev nD) (t : Fin cfg0.N) (d) : (dat0 (Name := Name) (U := U) (Lvl := Lvl) V O B c).before 3 t d = iblk0 V c 3 t :=
  before0_3_of V (dat0 (Name := Name) (U := U) (Lvl := Lvl) V O B c) (A_eq0 V O B c 3) (after0_3 V O B c) t d

end

/-! ## Region 1 (custom_call 2): the first half of the edges, `layer_norm(silu(e · Wₑᵀ + g_src + g_dst) · W₁ᵀ + b₁) · γ + β` on blocks of 8000 edges -/

/-- Window `w`'s block at point `t`, read off its array as the region finds it: its part inside the array. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Windows 1 and 2 are the two halves of the gathered rows, 163840 rows each, in blocks of 8000 rows: the window's
    type allows a block that overhangs the array's end, cut there, and the staging buffer then holds the block's part
    inside the array filled out with words nothing names. At the 20 points of this grid no block overhangs
    (20 · 8000 ≤ 163840): the cut is none on every axis, -/
theorem clip2_1 : ∀ t : Fin cfg2.N, ∀ a, (cfg2.win 1).clip (cfg2.grid.coords t) a = none :=
  (by decide +kernel : ∀ t : Fin grid2.N, ∀ a, win2_1.clip (grid2.coords t) a = none)
theorem clip2_2 : ∀ t : Fin cfg2.N, ∀ a, (cfg2.win 2).clip (cfg2.grid.coords t) a = none :=
  (by decide +kernel : ∀ t : Fin grid2.N, ∀ a, win2_2.clip (grid2.coords t) a = none)

/-- and the staging buffer holds the block whatever it held before; as a function on the whole buffer it is the
    block filled out with the zero word, which fills nothing. -/
def blk2_1 (c : Dev nD) (t : Fin cfg2.N) : S1x8000x128.Idx → Elt F .f32 :=
  win2_1.fill (grid2.coords t) (fun _ => Scalar.ofBits .f32 0#32) (iblk2 V c 1 t)
def blk2_2 (c : Dev nD) (t : Fin cfg2.N) : S1x8000x128.Idx → Elt F .f32 :=
  win2_2.fill (grid2.coords t) (fun _ => Scalar.ofBits .f32 0#32) (iblk2 V c 2 t)

/-- The whole-buffer rectangles the body loads and stores through. -/
abbrev r2_0 : Rect S8000x16 := Rect.unit (s := S8000x16) ![0, 0] S8000x16.size inb_S8000x16_S8000x16_0_0
abbrev r2_1 : Rect S1x8000x128 := Rect.unit (s := S1x8000x128) ![0, 0, 0] S1x8000x128.size inb_S1x8000x128_S1x8000x128_0_0_0
abbrev r2_3 : Rect S16x128 := Rect.unit (s := S16x128) ![0, 0] S16x128.size inb_S16x128_S16x128_0_0
abbrev r2_4 : Rect S128x128 := Rect.unit (s := S128x128) ![0, 0] S128x128.size inb_S128x128_S128x128_0_0
abbrev r2_5 : Rect S1x128 := Rect.unit (s := S1x128) ![0, 0] S1x128.size inb_S1x128_S1x128_0_0
abbrev r2_8 : Rect S8000x128 := Rect.unit (s := S8000x128) ![0, 0] S8000x128.size inb_S8000x128_S8000x128_0_0

/-- The output window's staging buffer after the body, from the eight input blocks (edge features, the two gathered
    row blocks, the two weight matrices, bias, scale and shift): the payload of its one store, which covers the
    buffer — the normalised rows scaled and shifted. -/
def out2_8 (x0 : Vec F S8000x16 .f32) (x1 x2 : Vec F S1x8000x128 .f32) (x3 : Vec F S16x128 .f32) (x4 : Vec F S128x128 .bf16)
    (x5 x6 x7 : Vec F S1x128 .f32) : Vec F S8000x128 .f32 :=
  View.canon [⟨r2_8, k2_pay1 (k2_pay2 (View.ld x0 r2_0) (View.ld x3 r2_3) (View.ld x1 r2_1) (View.ld x2 r2_1) (View.ld x4 r2_4) (View.ld x5 r2_5))
    (View.ld x6 r2_5) (View.ld x7 r2_5)⟩]

/-- The one store tiles the buffer, so it covers it. -/
theorem cover2_8 (p0 : Vec F S8000x128 .f32) (y : S8000x128.Idx) :
    ∃ pc ∈ ([⟨r2_8, p0⟩] : List (View.Piece (Elt F) S8000x128 .f32)), y ∈ pc.1.set :=
  View.cover_of_tiled [⟨r2_8, p0⟩] S8000x128.size (by rfl) y

/-- The proof data of this region on core `c`; `q` names the share of its array each input window holds (windows 1
    and 2 read ONE array, the gathered rows of the first half, and share it). -/
def dat2 (O : CellTallies nD τ sig Ix) (B : Set (SemLoc sig × Ix)) (q : Fin 9 → PosShare TreeShare) (c : Dev nD) :
    Dat τ (Elt F) Ix Name U Lvl cfg2 c where
  A w := V c (Pipeline.arrRef spec2 w)
  after w t := match w with
    | ⟨0, _⟩ => iblk2 V c 0 t
    | ⟨1, _⟩ => blk2_1 V c t
    | ⟨2, _⟩ => blk2_2 V c t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => out2_8 (iblk2 V c 0 t) (blk2_1 V c t) (blk2_2 V c t) (iblk2 V c 3 t) (iblk2 V c 4 t) (iblk2 V c 5 t) (iblk2 V c 6 t) (iblk2 V c 7 t)
  Φ _ := Pipeline.scopedRest (Ix := Ix) (Name := Name) (U := U) (Lvl := Lvl) (Val := Elt F) spec2 c
  q := q
  owed _ := O
  recorded _ := B

section
variable (O : CellTallies nD τ sig Ix) (B : Set (SemLoc sig × Ix)) (q : Fin 9 → PosShare TreeShare)

theorem A_eq2 (c : Dev nD) (w : Fin cfg2.W) : (dat2 (Name := Name) (U := U) (Lvl := Lvl) V O B q c).A w = V c (Pipeline.arrRef spec2 w) := by
  dsimp only [dat2]

theorem after2_0 (c : Dev nD) (t : Fin cfg2.N) : (dat2 (Name := Name) (U := U) (Lvl := Lvl) V O B q c).after 0 t = iblk2 V c 0 t := by dsimp only [dat2]
theorem after2_3 (c : Dev nD) (t : Fin cfg2.N) : (dat2 (Name := Name) (U := U) (Lvl := Lvl) V O B q c).after 3 t = iblk2 V c 3 t := by dsimp only [dat2]
theorem after2_4 (c : Dev nD) (t : Fin cfg2.N) : (dat2 (Name := Name) (U := U) (Lvl := Lvl) V O B q c).after 4 t = iblk2 V c 4 t := by dsimp only [dat2]
theorem after2_5 (c : Dev nD) (t : Fin cfg2.N) : (dat2 (Name := Name) (U := U) (Lvl := Lvl) V O B q c).after 5 t = iblk2 V c 5 t := by dsimp only [dat2]
theorem after2_6 (c : Dev nD) (t : Fin cfg2.N) : (dat2 (Name := Name) (U := U) (Lvl := Lvl) V O B q c).after 6 t = iblk2 V c 6 t := by dsimp only [dat2]
theorem after2_7 (c : Dev nD) (t : Fin cfg2.N) : (dat2 (Name := Name) (U := U) (Lvl := Lvl) V O B q c).after 7 t = iblk2 V c 7 t := by dsimp only [dat2]
theorem after2_1 (c : Dev nD) (t : Fin cfg2.N) : (dat2 (Name := Name) (U := U) (Lvl := Lvl) V O B q c).after 1 t = blk2_1 V c t := by dsimp only [dat2]
theorem after2_2 (c : Dev nD) (t : Fin cfg2.N) : (dat2 (Name := Name) (U := U) (Lvl := Lvl) V O B q c).after 2 t = blk2_2 V c t := by dsimp only [dat2]
theorem after2_8 (c : Dev nD) (t : Fin cfg2.N) : (dat2 (Name := Name) (U := U) (Lvl := Lvl) V O B q c).after 8 t
    = out2_8 (iblk2 V c 0 t) (blk2_1 V c t) (blk2_2 V c t) (iblk2 V c 3 t) (iblk2 V c 4 t) (iblk2 V c 5 t) (iblk2 V c 6 t) (iblk2 V c 7 t) := by
  dsimp only [dat2]

/-- An uncut input window's current staging buffer holds its block at every point, fetched there or not. -/
theorem before2_0_of {c : Dev nD} (dat : Dat τ (Elt F) Ix Name U Lvl cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Ix Name U Lvl cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Ix Name U Lvl cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Ix Name U Lvl cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Ix Name U Lvl cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
theorem before2_7_of {c : Dev nD} (dat : Dat τ (Elt F) Ix Name U Lvl cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

theorem before2_0 (c : Dev nD) (t : Fin cfg2.N) (d) : (dat2 (Name := Name) (U := U) (Lvl := Lvl) V O B q c).before 0 t d = iblk2 V c 0 t :=
  before2_0_of V (dat2 (Name := Name) (U := U) (Lvl := Lvl) V O B q c) (A_eq2 V O B q c 0) (after2_0 V O B q c) t d
theorem before2_3 (c : Dev nD) (t : Fin cfg2.N) (d) : (dat2 (Name := Name) (U := U) (Lvl := Lvl) V O B q c).before 3 t d = iblk2 V c 3 t :=
  before2_3_of V (dat2 (Name := Name) (U := U) (Lvl := Lvl) V O B q c) (A_eq2 V O B q c 3) (after2_3 V O B q c) t d
theorem before2_4 (c : Dev nD) (t : Fin cfg2.N) (d) : (dat2 (Name := Name) (U := U) (Lvl := Lvl) V O B q c).before 4 t d = iblk2 V c 4 t :=
  before2_4_of V (dat2 (Name := Name) (U := U) (Lvl := Lvl) V O B q c) (A_eq2 V O B q c 4) (after2_4 V O B q c) t d
theorem before2_5 (c : Dev nD) (t : Fin cfg2.N) (d) : (dat2 (Name := Name) (U := U) (Lvl := Lvl) V O B q c).before 5 t d = iblk2 V c 5 t :=
  before2_5_of V (dat2 (Name := Name) (U := U) (Lvl := Lvl) V O B q c) (A_eq2 V O B q c 5) (after2_5 V O B q c) t d
theorem before2_6 (c : Dev nD) (t : Fin cfg2.N) (d) : (dat2 (Name := Name) (U := U) (Lvl := Lvl) V O B q c).before 6 t d = iblk2 V c 6 t :=
  before2_6_of V (dat2 (Name := Name) (U := U) (Lvl := Lvl) V O B q c) (A_eq2 V O B q c 6) (after2_6 V O B q c) t d
theorem before2_7 (c : Dev nD) (t : Fin cfg2.N) (d) : (dat2 (Name := Name) (U := U) (Lvl := Lvl) V O B q c).before 7 t d = iblk2 V c 7 t :=
  before2_7_of V (dat2 (Name := Name) (U := U) (Lvl := Lvl) V O B q c) (A_eq2 V O B q c 7) (after2_7 V O B q c) t d

/-- Windows 1 and 2 are fetched at every point, and the fetch, uncut, fills the whole buffer. -/
theorem before2_1 (c : Dev nD) (t : Fin cfg2.N) (d) : (dat2 (Name := Name) (U := U) (Lvl := Lvl) V O B q c).before 1 t d = blk2_1 V c t :=
  (((dat2 (Name := Name) (U := U) (Lvl := Lvl) V O B q c)).before_fetched 1 t (fetch2_1 t) d).trans
    ((((dat2 (Name := Name) (U := U) (Lvl := Lvl) V O B q c)).fetched_of_clip_none 1 t (clip2_1 t) d (fun _ => Scalar.ofBits .f32 0#32)).trans
      (by unfold Dat.fetched Dat.blockOf blk2_1 iblk2; rw [A_eq2]; try rfl))
theorem before2_2 (c : Dev nD) (t : Fin cfg2.N) (d) : (dat2 (Name := Name) (U := U) (Lvl := Lvl) V O B q c).before 2 t d = blk2_2 V c t :=
  (((dat2 (Name := Name) (U := U) (Lvl := Lvl) V O B q c)).before_fetched 2 t (fetch2_2 t) d).trans
    ((((dat2 (Name := Name) (U := U) (Lvl := Lvl) V O B q c)).fetched_of_clip_none 2 t (clip2_2 t) d (fun _ => Scalar.ofBits .f32 0#32)).trans
      (by unfold Dat.fetched Dat.blockOf blk2_2 iblk2; rw [A_eq2]; try rfl))
end

/-! ## Region 2 (custom_call 4): the second half of the edges, the same body, its output window over the array the first half's results were copied into -/

/-- Window `w`'s block at point `t`, read off its array as the region finds it: its part inside the array. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Windows 1 and 2 are the two halves of the gathered rows, 163840 rows each, in blocks of 8000 rows: the window's
    type allows a block that overhangs the array's end, cut there, and the staging buffer then holds the block's part
    inside the array filled out with words nothing names. At the 20 points of this grid no block overhangs
    (20 · 8000 ≤ 163840): the cut is none on every axis, -/
theorem clip4_1 : ∀ t : Fin cfg4.N, ∀ a, (cfg4.win 1).clip (cfg4.grid.coords t) a = none :=
  (by decide +kernel : ∀ t : Fin grid4.N, ∀ a, win4_1.clip (grid4.coords t) a = none)
theorem clip4_2 : ∀ t : Fin cfg4.N, ∀ a, (cfg4.win 2).clip (cfg4.grid.coords t) a = none :=
  (by decide +kernel : ∀ t : Fin grid4.N, ∀ a, win4_2.clip (grid4.coords t) a = none)

/-- and the staging buffer holds the block whatever it held before; as a function on the whole buffer it is the
    block filled out with the zero word, which fills nothing. -/
def blk4_1 (c : Dev nD) (t : Fin cfg4.N) : S1x8000x128.Idx → Elt F .f32 :=
  win4_1.fill (grid4.coords t) (fun _ => Scalar.ofBits .f32 0#32) (iblk4 V c 1 t)
def blk4_2 (c : Dev nD) (t : Fin cfg4.N) : S1x8000x128.Idx → Elt F .f32 :=
  win4_2.fill (grid4.coords t) (fun _ => Scalar.ofBits .f32 0#32) (iblk4 V c 2 t)

/-- The whole-buffer rectangles the body loads and stores through. -/
abbrev r4_0 : Rect S8000x16 := Rect.unit (s := S8000x16) ![0, 0] S8000x16.size inb_S8000x16_S8000x16_0_0
abbrev r4_1 : Rect S1x8000x128 := Rect.unit (s := S1x8000x128) ![0, 0, 0] S1x8000x128.size inb_S1x8000x128_S1x8000x128_0_0_0
abbrev r4_3 : Rect S16x128 := Rect.unit (s := S16x128) ![0, 0] S16x128.size inb_S16x128_S16x128_0_0
abbrev r4_4 : Rect S128x128 := Rect.unit (s := S128x128) ![0, 0] S128x128.size inb_S128x128_S128x128_0_0
abbrev r4_5 : Rect S1x128 := Rect.unit (s := S1x128) ![0, 0] S1x128.size inb_S1x128_S1x128_0_0
abbrev r4_8 : Rect S8000x128 := Rect.unit (s := S8000x128) ![0, 0] S8000x128.size inb_S8000x128_S8000x128_0_0

/-- The output window's staging buffer after the body, from the eight input blocks (edge features, the two gathered
    row blocks, the two weight matrices, bias, scale and shift): the payload of its one store, which covers the
    buffer — the normalised rows scaled and shifted. -/
def out4_8 (x0 : Vec F S8000x16 .f32) (x1 x2 : Vec F S1x8000x128 .f32) (x3 : Vec F S16x128 .f32) (x4 : Vec F S128x128 .bf16)
    (x5 x6 x7 : Vec F S1x128 .f32) : Vec F S8000x128 .f32 :=
  View.canon [⟨r4_8, k4_pay1 (k4_pay2 (View.ld x0 r4_0) (View.ld x3 r4_3) (View.ld x1 r4_1) (View.ld x2 r4_1) (View.ld x4 r4_4) (View.ld x5 r4_5))
    (View.ld x6 r4_5) (View.ld x7 r4_5)⟩]

/-- The one store tiles the buffer, so it covers it. -/
theorem cover4_8 (p0 : Vec F S8000x128 .f32) (y : S8000x128.Idx) :
    ∃ pc ∈ ([⟨r4_8, p0⟩] : List (View.Piece (Elt F) S8000x128 .f32)), y ∈ pc.1.set :=
  View.cover_of_tiled [⟨r4_8, p0⟩] S8000x128.size (by rfl) y

/-- The proof data of this region on core `c`; `q` names the share of its array each input window holds (windows 1
    and 2 read ONE array, the gathered rows of the second half, and share it). -/
def dat4 (O : CellTallies nD τ sig Ix) (B : Set (SemLoc sig × Ix)) (q : Fin 9 → PosShare TreeShare) (c : Dev nD) :
    Dat τ (Elt F) Ix Name U Lvl cfg4 c where
  A w := V c (Pipeline.arrRef spec4 w)
  after w t := match w with
    | ⟨0, _⟩ => iblk4 V c 0 t
    | ⟨1, _⟩ => blk4_1 V c t
    | ⟨2, _⟩ => blk4_2 V c t
    | ⟨3, _⟩ => iblk4 V c 3 t
    | ⟨4, _⟩ => iblk4 V c 4 t
    | ⟨5, _⟩ => iblk4 V c 5 t
    | ⟨6, _⟩ => iblk4 V c 6 t
    | ⟨7, _⟩ => iblk4 V c 7 t
    | ⟨8, _⟩ => out4_8 (iblk4 V c 0 t) (blk4_1 V c t) (blk4_2 V c t) (iblk4 V c 3 t) (iblk4 V c 4 t) (iblk4 V c 5 t) (iblk4 V c 6 t) (iblk4 V c 7 t)
  Φ _ := Pipeline.scopedRest (Ix := Ix) (Name := Name) (U := U) (Lvl := Lvl) (Val := Elt F) spec4 c
  q := q
  owed _ := O
  recorded _ := B

section
variable (O : CellTallies nD τ sig Ix) (B : Set (SemLoc sig × Ix)) (q : Fin 9 → PosShare TreeShare)

theorem A_eq4 (c : Dev nD) (w : Fin cfg4.W) : (dat4 (Name := Name) (U := U) (Lvl := Lvl) V O B q c).A w = V c (Pipeline.arrRef spec4 w) := by
  dsimp only [dat4]

theorem after4_0 (c : Dev nD) (t : Fin cfg4.N) : (dat4 (Name := Name) (U := U) (Lvl := Lvl) V O B q c).after 0 t = iblk4 V c 0 t := by dsimp only [dat4]
theorem after4_3 (c : Dev nD) (t : Fin cfg4.N) : (dat4 (Name := Name) (U := U) (Lvl := Lvl) V O B q c).after 3 t = iblk4 V c 3 t := by dsimp only [dat4]
theorem after4_4 (c : Dev nD) (t : Fin cfg4.N) : (dat4 (Name := Name) (U := U) (Lvl := Lvl) V O B q c).after 4 t = iblk4 V c 4 t := by dsimp only [dat4]
theorem after4_5 (c : Dev nD) (t : Fin cfg4.N) : (dat4 (Name := Name) (U := U) (Lvl := Lvl) V O B q c).after 5 t = iblk4 V c 5 t := by dsimp only [dat4]
theorem after4_6 (c : Dev nD) (t : Fin cfg4.N) : (dat4 (Name := Name) (U := U) (Lvl := Lvl) V O B q c).after 6 t = iblk4 V c 6 t := by dsimp only [dat4]
theorem after4_7 (c : Dev nD) (t : Fin cfg4.N) : (dat4 (Name := Name) (U := U) (Lvl := Lvl) V O B q c).after 7 t = iblk4 V c 7 t := by dsimp only [dat4]
theorem after4_1 (c : Dev nD) (t : Fin cfg4.N) : (dat4 (Name := Name) (U := U) (Lvl := Lvl) V O B q c).after 1 t = blk4_1 V c t := by dsimp only [dat4]
theorem after4_2 (c : Dev nD) (t : Fin cfg4.N) : (dat4 (Name := Name) (U := U) (Lvl := Lvl) V O B q c).after 2 t = blk4_2 V c t := by dsimp only [dat4]
theorem after4_8 (c : Dev nD) (t : Fin cfg4.N) : (dat4 (Name := Name) (U := U) (Lvl := Lvl) V O B q c).after 8 t
    = out4_8 (iblk4 V c 0 t) (blk4_1 V c t) (blk4_2 V c t) (iblk4 V c 3 t) (iblk4 V c 4 t) (iblk4 V c 5 t) (iblk4 V c 6 t) (iblk4 V c 7 t) := by
  dsimp only [dat4]

/-- An uncut input window's current staging buffer holds its block at every point, fetched there or not. -/
theorem before4_0_of {c : Dev nD} (dat : Dat τ (Elt F) Ix Name U Lvl cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Ix Name U Lvl cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
theorem before4_4_of {c : Dev nD} (dat : Dat τ (Elt F) Ix Name U Lvl cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)
theorem before4_5_of {c : Dev nD} (dat : Dat τ (Elt F) Ix Name U Lvl cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)
theorem before4_6_of {c : Dev nD} (dat : Dat τ (Elt F) Ix Name U Lvl cfg4 c) (hA : dat.A 6 = V c (Pipeline.arrRef spec4 6))
    (hafter : ∀ t, dat.after 6 t = iblk4 V c 6 t) (t : Fin cfg4.N) (d) : dat.before 6 t d = iblk4 V c 6 t :=
  (dat.before_in_eq_fetched 6 rfl (fun _ => rfl) (fun _ _ _ => rfl) (fun t => by rw [hafter]; unfold Dat.blockOf iblk4; rw [hA]; try rfl) t d).trans
    (by unfold Dat.fetched Dat.blockOf iblk4; rw [hA]; try rfl)
theorem before4_7_of {c : Dev nD} (dat : Dat τ (Elt F) Ix Name U Lvl cfg4 c) (hA : dat.A 7 = V c (Pipeline.arrRef spec4 7))
    (hafter : ∀ t, dat.after 7 t = iblk4 V c 7 t) (t : Fin cfg4.N) (d) : dat.before 7 t d = iblk4 V c 7 t :=
  (dat.before_in_eq_fetched 7 rfl (fun _ => rfl) (fun _ _ _ => rfl) (fun t => by rw [hafter]; unfold Dat.blockOf iblk4; rw [hA]; try rfl) t d).trans
    (by unfold Dat.fetched Dat.blockOf iblk4; rw [hA]; try rfl)

theorem before4_0 (c : Dev nD) (t : Fin cfg4.N) (d) : (dat4 (Name := Name) (U := U) (Lvl := Lvl) V O B q c).before 0 t d = iblk4 V c 0 t :=
  before4_0_of V (dat4 (Name := Name) (U := U) (Lvl := Lvl) V O B q c) (A_eq4 V O B q c 0) (after4_0 V O B q c) t d
theorem before4_3 (c : Dev nD) (t : Fin cfg4.N) (d) : (dat4 (Name := Name) (U := U) (Lvl := Lvl) V O B q c).before 3 t d = iblk4 V c 3 t :=
  before4_3_of V (dat4 (Name := Name) (U := U) (Lvl := Lvl) V O B q c) (A_eq4 V O B q c 3) (after4_3 V O B q c) t d
theorem before4_4 (c : Dev nD) (t : Fin cfg4.N) (d) : (dat4 (Name := Name) (U := U) (Lvl := Lvl) V O B q c).before 4 t d = iblk4 V c 4 t :=
  before4_4_of V (dat4 (Name := Name) (U := U) (Lvl := Lvl) V O B q c) (A_eq4 V O B q c 4) (after4_4 V O B q c) t d
theorem before4_5 (c : Dev nD) (t : Fin cfg4.N) (d) : (dat4 (Name := Name) (U := U) (Lvl := Lvl) V O B q c).before 5 t d = iblk4 V c 5 t :=
  before4_5_of V (dat4 (Name := Name) (U := U) (Lvl := Lvl) V O B q c) (A_eq4 V O B q c 5) (after4_5 V O B q c) t d
theorem before4_6 (c : Dev nD) (t : Fin cfg4.N) (d) : (dat4 (Name := Name) (U := U) (Lvl := Lvl) V O B q c).before 6 t d = iblk4 V c 6 t :=
  before4_6_of V (dat4 (Name := Name) (U := U) (Lvl := Lvl) V O B q c) (A_eq4 V O B q c 6) (after4_6 V O B q c) t d
theorem before4_7 (c : Dev nD) (t : Fin cfg4.N) (d) : (dat4 (Name := Name) (U := U) (Lvl := Lvl) V O B q c).before 7 t d = iblk4 V c 7 t :=
  before4_7_of V (dat4 (Name := Name) (U := U) (Lvl := Lvl) V O B q c) (A_eq4 V O B q c 7) (after4_7 V O B q c) t d

/-- Windows 1 and 2 are fetched at every point, and the fetch, uncut, fills the whole buffer. -/
theorem before4_1 (c : Dev nD) (t : Fin cfg4.N) (d) : (dat4 (Name := Name) (U := U) (Lvl := Lvl) V O B q c).before 1 t d = blk4_1 V c t :=
  (((dat4 (Name := Name) (U := U) (Lvl := Lvl) V O B q c)).before_fetched 1 t (fetch4_1 t) d).trans
    ((((dat4 (Name := Name) (U := U) (Lvl := Lvl) V O B q c)).fetched_of_clip_none 1 t (clip4_1 t) d (fun _ => Scalar.ofBits .f32 0#32)).trans
      (by unfold Dat.fetched Dat.blockOf blk4_1 iblk4; rw [A_eq4]; try rfl))
theorem before4_2 (c : Dev nD) (t : Fin cfg4.N) (d) : (dat4 (Name := Name) (U := U) (Lvl := Lvl) V O B q c).before 2 t d = blk4_2 V c t :=
  (((dat4 (Name := Name) (U := U) (Lvl := Lvl) V O B q c)).before_fetched 2 t (fetch4_2 t) d).trans
    ((((dat4 (Name := Name) (U := U) (Lvl := Lvl) V O B q c)).fetched_of_clip_none 2 t (clip4_2 t) d (fun _ => Scalar.ofBits .f32 0#32)).trans
      (by unfold Dat.fetched Dat.blockOf blk4_2 iblk4; rw [A_eq4]; try rfl))
end

end Regions

/-! ## The three regions' proof data as one family -/

/-- The prefetched tables' admissible contents: no pipeline has a table. -/
abbrev adm : (p : Fin 3) → (pcfgs (F := F) p).Adm := fun p => (cfgs p).toPCfg_adm

/-- Every pipeline's proof data, each region at the contents it is entered at (`V0`, `V2`, `V4`), at what the core
    owes there (`O p`) and the bound on its recorded wait pairs (`B p`): a literal match on the pipeline. -/
def pdats (V0 V2 V4 : (c : Dev nD) → (b : Ref sig .tc) → Buf (Elt F) ((c : Thread nD τ).loc b))
    (O : Fin 3 → CellTallies nD τ sig Ix) (B : Fin 3 → Set (SemLoc sig × Ix)) (q2 q4 : Fin 9 → PosShare TreeShare) :
    (p : Fin 3) → (c : Dev nD) → Dat τ (Elt F) Ix Name U Lvl (Pipeline.pin (pcfgs (F := F)) adm p) c
  | ⟨0, _⟩ => fun c => dat0 V0 (O 0) (B 0) c
  | ⟨1, _⟩ => fun c => dat2 V2 (O 1) (B 1) q2 c
  | ⟨2, _⟩ => fun c => dat4 V4 (O 2) (B 2) q4 c

end Cert.Proof.Tc

end
-- ==== Proof.ScLaunch.lean ====
/-
  The launch element of the ghost state. From the launch's element of the product algebra — the handshake cells' rounds,
  the subcore-barrier cells' rounds (two on each cell, one per gather), the three pipelines' staging cells' rounds, the
  transfers' counters at their unit — together with the credit for what the tiles owe at the barriers and the tiles'
  barrier semaphores at zero: the handshakes' share goes to the launch theorem; the pipelines' cells' launch state and
  duty tokens go to @main, one summand per kernel region; and the barrier cells' invariants are allocated at once and
  dealt, with each tile's duty tokens in both rounds, its origin in round 0 and its credit, into the tiles' kits.
-/
import proofs.«217078_g14027363189340_cont_week2b_886_24_alg».proof.Proof.ScPay
import proofs.«217078_g14027363189340_cont_week2b_886_24_alg».proof.Proof.TcData
import Idealize.ShloMosaic.Lib.Pipeline.Sound

noncomputable section

namespace Cert.Proof.Sc

open Cert.KernelIdeal Cert.KernelIdeal.Gen

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

/-! ## The barrier cells and their tokens -/

abbrev DCI : Type := Dev nD × Fin τ.nSC × Fin τ.nSub
abbrev bcell₃ (x : DCI) : GSem nD τ sig := bcell x.1 x.2.1 x.2.2

/-- Every tile's barrier semaphore. -/
def bCells : Finset (GSem nD τ sig) := Finset.univ.image bcell₃
/-- Tile `i`'s token in tile `j`'s cell in round `q`, for every pair of tiles of a SparseCore and both rounds. -/
def bToks : Finset (GSem nD τ sig × ℕ × ℕ) :=
  Finset.univ.image fun x : (DCI × Fin (grid1.bound 1)) × Fin 2 => (bcell x.1.1.1 x.1.1.2.1 (x.1.2.castLE hsub1), x.2.val, x.1.1.2.2.val)

omit [FloatOps F] in
theorem bcell₃_injective : Function.Injective (bcell₃ : DCI → GSem nD τ sig) := fun a b e => by
  obtain ⟨h1, h2⟩ := Prod.mk.inj (Prod.mk.inj e).1; obtain ⟨h3, h4⟩ := Proc.scVector.inj h2
  exact Prod.ext h1 (Prod.ext h3 h4)

omit [FloatOps F] in
theorem bCells_eq (Φ : GSem nD τ sig → sProp 𝕄) : bigSep bCells Φ = bigSep Finset.univ fun x : DCI => Φ (bcell₃ x) := by
  unfold bCells; exact SparseCore.bigSep_image_of_injOn (fun a _ b _ e => bcell₃_injective e) Φ

/-- Every barrier semaphore at zero, out of the free semaphores the launch hands over. -/
theorem sems_b : ((K (F := F)).freeSems0 : sProp 𝕄) ⊢ bigSep bCells fun g => semVal g 0 := by
  unfold SparseCore.Cfg.freeSems0 bCells
  rw [SparseCore.bigSep_image_of_injOn (fun a _ b _ e => bcell₃_injective e)]
  refine sep_elim_right.trans (bigSep_mono fun dci _ => ?_)
  unfold SparseCore.Cfg.vcSems0
  exact bigSep_elim (Φ := fun sm : SemLoc sig => (semVal (V dci.1 dci.2.1 dci.2.2, sm) 0 : sProp 𝕄))
    (Finset.mem_erase.mpr ⟨fun h => sc_bar0_ne_go (SemLoc.reg.inj h), Finset.mem_filter.mpr ⟨Finset.mem_univ _, by decide⟩⟩)

/-- The barrier cells' invariants, allocated at once. -/
theorem invs_b : iprop((bigSep bCells fun g => (semVal g 0 : sProp 𝕄)) ∗ bigSep bCells fun g => roundState EB (bRd (F := F)) g 0)
    ⊢ |={Set.univ}=> iprop(∃ κ : GSem nD τ sig → ℕ, bigSep bCells fun g => cellInv EB (bRd (F := F)) (κ g) g) := by
  refine (Rounds.bodies_intro EB (bRd (F := F)) bCells).trans ((inv_alloc_family bCells (Rounds.body EB (bRd (F := F))) ∅ (E := Set.univ)).trans ?_)
  iintro H
  imod H with ⟨%κ, -, Hinv⟩
  imodintro; iexists κ; iexact Hinv

omit [FloatOps F] in
/-- The tokens, tile by tile, cell by cell, round by round. -/
theorem toks_eq : (bigSep bToks fun x => (dutyTok EB x.1 x.2.1 x.2.2 : sProp 𝕄))
    = bigSep Finset.univ fun dci : DCI => bigSep Finset.univ fun j : Fin (grid1.bound 1) => bigSep Finset.univ fun q : Fin 2 =>
        dutyTok EB (bcell dci.1 dci.2.1 (j.castLE hsub1)) q.val dci.2.2.val := by
  unfold bToks
  rw [SparseCore.bigSep_image_of_injOn, bigSep_univ_prod, bigSep_univ_prod]
  rintro ⟨⟨⟨d, c, i⟩, j⟩, q⟩ - ⟨⟨⟨d', c', i'⟩, j'⟩, q'⟩ - e
  have e1 := (Prod.mk.inj (Prod.mk.inj e).1).1
  have e2 : i.val = i'.val := (Prod.mk.inj (Prod.mk.inj e).2).2
  have e3 : q.val = q'.val := (Prod.mk.inj (Prod.mk.inj e).2).1
  obtain ⟨rfl, h⟩ := Prod.mk.inj e1
  obtain ⟨rfl, hj⟩ := Proc.scVector.inj h
  have hj' : j = j' := Fin.ext (congrArg Fin.val hj)
  subst hj'
  have hi' : i = i' := Fin.ext e2
  subst hi'
  have hq' : q = q' := Fin.ext e3
  subst hq'
  rfl

/-! ## The credit for the tiles' arrivals, regrouped -/

omit [FloatOps F] in
/-- A conjunction over the two calls, spelt out. -/
theorem bigSep_fin2 (Φ : Fin 2 → sProp 𝕄) : bigSep Finset.univ Φ = iprop(Φ 0 ∗ Φ 1) :=
  bigSep_univ_eq_bigSepL [(0 : Fin 2), (1 : Fin 2)] (by decide) (by decide) Φ

omit [FloatOps F] in
theorem sum_tallyAt_one (g : GSem nD τ sig) (ι : HIx 2) : ∀ n : ℕ, ∑ _ : Fin n, tallyAt g ι 1 = (tallyAt g ι n : CellTallies nD τ sig (HIx 2))
  | 0 => by rw [Finset.sum_of_isEmpty, tallyAt_zero]
  | n + 1 => by rw [Fin.sum_univ_castSucc, sum_tallyAt_one g ι n, tallyAt_add]

/-- What a tile owes from the launch: its arrivals at both calls' barriers. -/
theorem oxFrom_V (d : Dev nD) (c : Fin τ.nSC) (i : Fin τ.nSub) : (P (F := F)).oxFrom 0 (V d c i) = oxV 0 d c + oxV 1 d c := by
  rw [show (0 : ℕ) = (0 : Fin 2).val from rfl, (P (F := F)).oxFrom_step, show (0 : Fin 2).val + 1 = (1 : Fin 2).val from rfl,
    (P (F := F)).oxFrom_step, (P (F := F)).oxFrom_end _ (n := (1 : Fin 2).val + 1) le_rfl, add_zero]
  rfl

/-- The credit for one call's arrivals at one SparseCore's barrier, tile by tile: each tile the sixteen units of its own cell. -/
theorem cred_oxV (q : Fin 2) (d : Dev nD) (c : Fin τ.nSC) :
    (bigSep Finset.univ fun _ : Fin τ.nSub => (cred (oxV q d c) : sProp 𝕄))
      = bigSep Finset.univ fun i : Fin τ.nSub => (cred (tallyAt (bcell d c i) (some q) (grid1.bound 1)) : sProp 𝕄) := by
  unfold oxV
  simp only [SparseCore.Cfg.cred_finsum]
  rw [bigSep_univ_comm]
  refine bigSep_congr fun j _ => ?_
  rw [← SparseCore.Cfg.cred_finsum, sum_tallyAt_one]
  rfl

/-- The credit for the kernels' own debts, regrouped: each tile the sixteen units of its own cell, for either call. -/
theorem creds_b : ((P (F := F)).oxCred : sProp 𝕄)
    ⊢ bigSep Finset.univ fun dci : DCI => bigSep Finset.univ fun q : Fin 2 => cred (tallyAt (bcell₃ dci) (some q) (grid1.bound 1)) := by
  unfold SparseCore.Cfg.Pay.oxCred
  rw [SparseCore.Cfg.bigSep_threads (fun thr : Thread nD τ => (cred ((P (F := F)).oxFrom 0 thr) : sProp 𝕄))]
  refine sep_elim_right.trans (sep_elim_right.trans ?_)
  rw [bigSep_univ_prod, bigSep_univ_prod (fun dci : DCI => bigSep Finset.univ fun q : Fin 2 => (cred (tallyAt (bcell₃ dci) (some q) (grid1.bound 1)) : sProp 𝕄))]
  refine bigSep_mono fun d _ => ?_
  rw [bigSep_univ_prod, bigSep_univ_prod (fun ci : Fin τ.nSC × Fin τ.nSub => bigSep Finset.univ fun q : Fin 2 => (cred (tallyAt (bcell₃ (d, ci)) (some q) (grid1.bound 1)) : sProp 𝕄))]
  refine bigSep_mono fun c _ => ?_
  dsimp only
  simp only [oxFrom_V, SparseCore.Cfg.cred_add_eq]
  rw [bigSep_sep', cred_oxV 0 d c, cred_oxV 1 d c, ← bigSep_sep']
  refine bigSep_mono fun i _ => ?_
  rw [bigSep_fin2]
  exact BI.Entails.refl _

/-! ## The tiles' kits -/

/-- What every tile is handed alike: every barrier cell's invariant, and that each has reached round 0. -/
abbrev shared : sProp 𝕄 :=
  iprop((∃ κ : GSem nD τ sig → ℕ, bigSep Finset.univ fun x : DCI => cellInv EB (bRd (F := F)) (κ (bcell₃ x)) (bcell₃ x))
    ∗ bigSep Finset.univ fun x : DCI => reached EB (bcell₃ x) 0)
/-- What each tile is handed of its own: its origin in round 0 of its cell, its tokens in every cell of its SparseCore in
    both rounds, its credit for both calls. -/
abbrev mine (dci : DCI) : sProp 𝕄 :=
  iprop(atPos EB (bcell₃ dci) 0 ∅ 0
    ∗ (bigSep Finset.univ fun j : Fin (grid1.bound 1) => bigSep Finset.univ fun q : Fin 2 => dutyTok EB (bcell dci.1 dci.2.1 (j.castLE hsub1)) q.val dci.2.2.val)
    ∗ (bigSep Finset.univ fun q : Fin 2 => cred (tallyAt (bcell₃ dci) (some q) (grid1.bound 1))))

omit [FloatOps F] in
/-- A persistent resource beside a big separating conjunction goes to each conjunct. -/
theorem bigSep_mono_frame {I : Type} [DecidableEq I] {R : sProp 𝕄} [BI.Persistent R] {s : Finset I} {Φ Ψ : I → sProp 𝕄}
    (h : ∀ i ∈ s, iprop(R ∗ Φ i) ⊢ Ψ i) : iprop(R ∗ bigSep s Φ) ⊢ bigSep s Ψ := by
  induction s using Finset.induction_on with
  | empty => rw [bigSep_empty, bigSep_empty]; exact sep_elim_right
  | insert a s ha ih =>
    rw [SparseCore.bigSep_insert' ha, SparseCore.bigSep_insert' ha]
    iintro ⟨#HR, H1, H2⟩
    isplitl [H1]
    · iapply (h a (Finset.mem_insert_self _ _)); isplitr; · iexact HR
      iexact H1
    · iapply (ih fun i hi => h i (Finset.mem_insert_of_mem hi)); isplitr; · iexact HR
      iexact H2

omit [FloatOps F] in
theorem bigSep_emp' {I : Type} (s : Finset I) : (bigSep s fun _ => iprop(emp)) = (iprop(emp) : sProp 𝕄) := bigSep_emp_const s

/-- The invariants of one SparseCore's cells, out of all of them. -/
theorem invs_of_shared (κ : GSem nD τ sig → ℕ) (d : Dev nD) (c : Fin τ.nSC) :
    (bigSep Finset.univ fun x : DCI => cellInv EB (bRd (F := F)) (κ (bcell₃ x)) (bcell₃ x) : sProp 𝕄)
      ⊢ bigSep Finset.univ fun j : Fin (grid1.bound 1) => cellInv EB (bRd (F := F)) (κ (bcell d c (j.castLE hsub1))) (bcell d c (j.castLE hsub1)) := by
  refine (show _ ⊢ iprop((bigSep Finset.univ fun x : DCI => cellInv EB (bRd (F := F)) (κ (bcell₃ x)) (bcell₃ x))
      ∗ bigSep (Finset.univ : Finset (Fin (grid1.bound 1))) fun _ => (iprop(emp) : sProp 𝕄)) from ?_).trans
    (bigSep_mono_frame (s := (Finset.univ : Finset (Fin (grid1.bound 1)))) (Φ := fun _ => iprop(emp))
      (R := bigSep Finset.univ fun x : DCI => cellInv EB (bRd (F := F)) (κ (bcell₃ x)) (bcell₃ x)) fun j _ =>
        sep_elim_left.trans (bigSep_elim (Φ := fun x : DCI => (cellInv EB (bRd (F := F)) (κ (bcell₃ x)) (bcell₃ x) : sProp 𝕄))
          (i := (d, c, Fin.castLE hsub1 j)) (Finset.mem_univ _)))
  rw [bigSep_emp']
  iintro #H
  isplitl; · iexact H
  iempintro

omit [FloatOps F] in
/-- That one SparseCore's cells have reached round 0, out of all of them. -/
theorem reached_of_shared (d : Dev nD) (c : Fin τ.nSC) :
    (bigSep Finset.univ fun x : DCI => reached EB (bcell₃ x) 0 : sProp 𝕄)
      ⊢ bigSep Finset.univ fun j : Fin (grid1.bound 1) => reached EB (bcell d c (j.castLE hsub1)) 0 := by
  refine (show _ ⊢ iprop((bigSep Finset.univ fun x : DCI => reached EB (bcell₃ x) 0)
      ∗ bigSep (Finset.univ : Finset (Fin (grid1.bound 1))) fun _ => (iprop(emp) : sProp 𝕄)) from ?_).trans
    (bigSep_mono_frame (s := (Finset.univ : Finset (Fin (grid1.bound 1)))) (Φ := fun _ => iprop(emp))
      (R := bigSep Finset.univ fun x : DCI => reached EB (bcell₃ x) 0) fun j _ =>
        sep_elim_left.trans (bigSep_elim (Φ := fun x : DCI => (reached EB (bcell₃ x) 0 : sProp 𝕄))
          (i := (d, c, Fin.castLE hsub1 j)) (Finset.mem_univ _)))
  rw [bigSep_emp']
  iintro #H
  isplitl; · iexact H
  iempintro

/-- One tile's two kits out of those. -/
theorem kit_intro (dci : DCI) :
    iprop(shared (F := F) ∗ mine dci) ⊢ (iprop(kit (F := F) 0 dci.1 dci.2.1 dci.2.2 ∗ kit (F := F) 1 dci.1 dci.2.1 dci.2.2) : sProp 𝕄) := by
  obtain ⟨d, c, i⟩ := dci
  unfold mine
  simp only [bigSep_fin2]
  rw [bigSep_sep']
  iintro ⟨⟨#Hinv, #Hr⟩, Hat, ⟨Htok0, Htok1⟩, Hc0, Hc1⟩
  icases Hinv with ⟨%κ, Hinv⟩
  ihave Hinv' := (invs_of_shared (F := F) κ d c) $$ Hinv
  ihave Hr' := (reached_of_shared (F := F) d c) $$ Hr
  unfold kit kitFirst
  isplitl [Htok0 Hat Hc0]
  · isplitr; · iexists κ; iexact Hinv'
    isplitl [Htok0]; · iexact Htok0
    isplitl [Hat]
    · rw [if_pos (show (0 : Fin 2).val = 0 from rfl)]
      isplitr; · iexact Hr'
      iexact Hat
    iexact Hc0
  · isplitr; · iexists κ; iexact Hinv'
    isplitl [Htok1]; · iexact Htok1
    isplitr
    · rw [if_neg (show ¬ ((1 : Fin 2).val = 0) from by decide)]; iempintro
    iexact Hc1

/-- Each tile its two kits; the TensorCore and the sequencers are dealt nothing. -/
theorem kits_deal :
    iprop(shared (F := F) ∗ (bigSep Finset.univ fun x : DCI => atPos EB (bcell₃ x) 0 ∅ 0)
        ∗ (bigSep Finset.univ fun dci : DCI => bigSep Finset.univ fun j : Fin (grid1.bound 1) => bigSep Finset.univ fun q : Fin 2 =>
            dutyTok EB (bcell dci.1 dci.2.1 (j.castLE hsub1)) q.val dci.2.2.val)
        ∗ (bigSep Finset.univ fun dci : DCI => bigSep Finset.univ fun q : Fin 2 => cred (tallyAt (bcell₃ dci) (some q) (grid1.bound 1))))
      ⊢ (bigSep Finset.univ fun thr : Thread nD τ => bigSep Finset.univ fun q : Fin 2 => (P (F := F)).x q thr : sProp 𝕄) := by
  rw [SparseCore.Cfg.bigSep_threads (fun thr : Thread nD τ => bigSep Finset.univ fun q : Fin 2 => (P (F := F)).x q thr)]
  have hT : ∀ d : Dev nD, (bigSep Finset.univ fun q : Fin 2 => (P (F := F)).x q (SparseCore.T d)) = (iprop(emp) : sProp 𝕄) :=
    fun d => (bigSep_congr fun _ _ => rfl).trans (bigSep_emp' _)
  have hS : ∀ (d : Dev nD) (c : Fin τ.nSC), (bigSep Finset.univ fun q : Fin 2 => (P (F := F)).x q (S d c)) = (iprop(emp) : sProp 𝕄) :=
    fun d c => (bigSep_congr fun _ _ => rfl).trans (bigSep_emp' _)
  have hV : ∀ (d : Dev nD) (c : Fin τ.nSC) (i : Fin τ.nSub), (bigSep Finset.univ fun q : Fin 2 => (P (F := F)).x q (V d c i))
      = (iprop(kit (F := F) 0 d c i ∗ kit (F := F) 1 d c i) : sProp 𝕄) := fun d c i => bigSep_fin2 _
  simp only [hT, hS, hV, bigSep_emp']
  iintro ⟨#Hsh, Hat, Htok, Hcred⟩
  isplitr; · iempintro
  isplitr; · iempintro
  iapply (bigSep_mono_frame (R := shared (F := F)) (Φ := mine (F := F)) fun dci _ => kit_intro (F := F) dci)
  isplitr; · iexact Hsh
  unfold mine
  rw [bigSep_sep', bigSep_sep']
  isplitl [Hat]; · iexact Hat
  isplitl [Htok]; · iexact Htok
  iexact Hcred

/-! ## The pipelines' staging cells, and the launch element -/

/-- What @main is dealt for kernel region `p`: its staging cells' launch state and their duty tokens. -/
abbrev Gp (p : Fin 3) (d : Dev nD) : sProp 𝕄 :=
  iprop(Pipeline.cellsGhost (Pipeline.pin (pcfgs (F := F)) Cert.Proof.Tc.adm) EP p d ∗ Pipeline.toksInit (Pipeline.pin (pcfgs (F := F)) Cert.Proof.Tc.adm) EP p d)

omit [FloatOps F] in
theorem bigSep_fin3 (Φ : Fin 3 → sProp 𝕄) : bigSep Finset.univ Φ = iprop(Φ 0 ∗ Φ 1 ∗ Φ 2) :=
  bigSep_univ_eq_bigSepL [(0 : Fin 3), (1 : Fin 3), (2 : Fin 3)] (by decide) (by decide) Φ

/-- The pipelines' cells' launch state and tokens, device by device and region by region. -/
theorem ghosts_deal :
    iprop((bigSep Finset.univ fun c : Dev nD => bigSep Finset.univ fun p : Fin 3 => Pipeline.cellsGhost (Pipeline.pin (pcfgs (F := F)) Cert.Proof.Tc.adm) EP p c)
        ∗ (bigSep Finset.univ fun c : Dev nD => bigSep Finset.univ fun p : Fin 3 => (Pipeline.toksInit (Pipeline.pin (pcfgs (F := F)) Cert.Proof.Tc.adm) EP p c : sProp 𝕄)))
      ⊢ (bigSep Finset.univ fun d : Dev nD => iprop(Gp (F := F) 0 d ∗ Gp (F := F) 1 d ∗ Gp (F := F) 2 d) : sProp 𝕄) := by
  rw [← bigSep_sep']
  refine bigSep_mono fun d _ => ?_
  rw [bigSep_fin3, bigSep_fin3]
  show (_ : sProp 𝕄) ⊢ _
  unfold Gp
  iintro ⟨⟨Hc0, Hc1, Hc2⟩, Ht0, Ht1, Ht2⟩
  isplitl [Hc0 Ht0]
  · isplitl [Hc0] <;> iassumption
  isplitl [Hc1 Ht1]
  · isplitl [Hc1] <;> iassumption
  isplitl [Hc2] <;> iassumption

/-- The launch's element of the product algebra. -/
def u₀ : UU :=
  (initOf (K (F := F)).hsCells (K (F := F)).hsToks,
    (initOf bCells bToks,
      (initOf (Pipeline.cells (Pipeline.pin (pcfgs (F := F)) Cert.Proof.Tc.adm) cellOf_inj) (Pipeline.launchToks (Pipeline.pin (pcfgs (F := F)) Cert.Proof.Tc.adm) cellOf_inj), 1)))

theorem hu₀ : iprop(ownU (u₀ (F := F)) ∗ (P (F := F)).oxCred ∗ (K (F := F)).freeSems0)
    ⊢ |={Set.univ}=> iprop(BI.own (EH (initOf (K (F := F)).hsCells (K (F := F)).hsToks))
        ∗ (bigSep Finset.univ fun d : Dev nD => iprop(Gp (F := F) 0 d ∗ Gp (F := F) 1 d ∗ Gp (F := F) 2 d))
        ∗ (bigSep Finset.univ fun thr : Thread nD τ => bigSep Finset.univ fun q : Fin 2 => (P (F := F)).x q thr) : sProp 𝕄) := by
  unfold u₀
  iintro ⟨Hu, Hcred, Hfree⟩
  ihave H := (ownU_split3 _ _ _) $$ Hu
  icases H with ⟨HH, HB, HP⟩
  imod (Rounds.fund EB (bRd (F := F)) bCells bToks) $$ HB with ⟨Hst, #Hr, Hat, Htok⟩
  imod (Pipeline.fund_ghost (Pipeline.pin (pcfgs (F := F)) Cert.Proof.Tc.adm) EP cellOf_inj) $$ HP with ⟨Hcg, Hti⟩
  ihave Hsems := (sems_b (F := F)) $$ Hfree
  imod (invs_b (F := F)) $$ [Hsems Hst] with ⟨%κ, #Hinv⟩
  · isplitl [Hsems] <;> iassumption
  ihave Hcred' := (creds_b (F := F)) $$ Hcred
  ihave Hinv' := (Entails.of_eq (bCells_eq (F := F) fun g => cellInv EB (bRd (F := F)) (κ g) g)) $$ Hinv
  ihave Hr' := (Entails.of_eq (bCells_eq (F := F) fun g => reached EB g 0)) $$ Hr
  ihave Hat' := (Entails.of_eq (bCells_eq (F := F) fun g => atPos EB g 0 ∅ 0)) $$ Hat
  ihave Htok' := (Entails.of_eq (toks_eq (F := F))) $$ Htok
  imodintro
  isplitl [HH]; · iexact HH
  isplitl [Hcg Hti]
  · iapply (ghosts_deal (F := F))
    isplitl [Hcg]; · iexact Hcg
    iexact Hti
  iapply (kits_deal (F := F))
  isplitr
  · isplitl; · iexists κ; iexact Hinv'
    iexact Hr'
  isplitl [Hat']; · iexact Hat'
  isplitl [Htok']; · iexact Htok'
  iexact Hcred'

end Cert.Proof.Sc

end
-- ==== Proof.TcBody0.lean ====
import proofs.«217078_g14027363189340_cont_week2b_886_24_alg».proof.Proof.TcData

set_option maxRecDepth 16384

noncomputable section

namespace Cert.Proof.Tc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {Name : Type} [DecidableEq Name] {U : Type} [URA U] {Lvl : Type}

local notation "𝕄" => MT nD τ sig Ix (Elt F) Name U Lvl

variable [Preorder Lvl]

/-! # Region 0's body obligation -/

section
variable (V : (c : Dev nD) → (b : Ref sig .tc) → Buf (Elt F) ((c : Thread nD τ).loc b))
variable (O : CellTallies nD τ sig Ix) (B : Set (SemLoc sig × Ix)) (ι : Ix)

set_option maxHeartbeats 1000000 in
/-- The body on whole staging memrefs, the four inputs' at read contents `x0 … x3` and the output's at anything, runs
    to the continuation holding the inputs' as they were and the output's at `out0_4` of them: five whole loads (the
    last one dead) and one whole store of the payload. -/
theorem sound_kernel0 (c : Dev nD) (E : Set Name) (i : grid0.Coords)
    (arg1 : Memref sig .tc .vmem S10000x128 .f32) (harg1 : arg1.IsWhole) (arg2 : Memref sig .tc .vmem S10000x128 .f32) (harg2 : arg2.IsWhole)
    (arg3 : Memref sig .tc .vmem S1x128x128 .f32) (harg3 : arg3.IsWhole) (arg4 : Memref sig .tc .vmem S1x1x128 .f32) (harg4 : arg4.IsWhole)
    (arg5 : Memref sig .tc .vmem S1x10000x128 .f32) (harg5 : arg5.IsWhole)
    (x0 x1 : Vec F S10000x128 .f32) (x2 : Vec F S1x128x128 .f32) (x3 : Vec F S1x1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0_4 i x0 x1 x2 x3)) -∗ K ⟨⟩))
      ⊢ wp frame (wpE (defs₀ (F := F)) Variants.none c none) E (cc0__tables_body i arg1 harg1 arg2 harg2 arg3 harg3 arg4 harg4 arg5 harg5) K := by
  simp only [cc0__tables_body_eq_skeleton]; unfold cc0__tables_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-- What the body is called with at point `t`, the windows one by one, -/
def bodyPre0 (c : Dev nD) (t : Fin cfg0.N) : sProp 𝕄 :=
  iprop((dat0 (Name := Name) (U := U) (Lvl := Lvl) V O B c).Φ t.castSucc ∗ (dat0 (Name := Name) (U := U) (Lvl := Lvl) V O B c).owesAt ι t.castSucc
    ∗ (∃ d, owns (c : Thread nD τ) (st0_0 t) fullShare ((dat0 (Name := Name) (U := U) (Lvl := Lvl) V O B c).before 0 t d))
    ∗ (∃ d, owns (c : Thread nD τ) (st0_1 t) fullShare ((dat0 (Name := Name) (U := U) (Lvl := Lvl) V O B c).before 1 t d))
    ∗ (∃ d, owns (c : Thread nD τ) (st0_2 t) fullShare ((dat0 (Name := Name) (U := U) (Lvl := Lvl) V O B c).before 2 t d))
    ∗ (∃ d, owns (c : Thread nD τ) (st0_3 t) fullShare ((dat0 (Name := Name) (U := U) (Lvl := Lvl) V O B c).before 3 t d))
    ∗ (∃ d, owns (c : Thread nD τ) (st0_4 t) fullShare ((dat0 (Name := Name) (U := U) (Lvl := Lvl) V O B c).before 4 t d)))

/-- and what it returns. -/
def bodyPost0 (c : Dev nD) (t : Fin cfg0.N) : sProp 𝕄 :=
  iprop((dat0 (Name := Name) (U := U) (Lvl := Lvl) V O B c).Φ t.succ ∗ (dat0 (Name := Name) (U := U) (Lvl := Lvl) V O B c).owesAt ι t.succ
    ∗ owns (c : Thread nD τ) (st0_0 t) fullShare ((dat0 (Name := Name) (U := U) (Lvl := Lvl) V O B c).after 0 t)
    ∗ owns (c : Thread nD τ) (st0_1 t) fullShare ((dat0 (Name := Name) (U := U) (Lvl := Lvl) V O B c).after 1 t)
    ∗ owns (c : Thread nD τ) (st0_2 t) fullShare ((dat0 (Name := Name) (U := U) (Lvl := Lvl) V O B c).after 2 t)
    ∗ owns (c : Thread nD τ) (st0_3 t) fullShare ((dat0 (Name := Name) (U := U) (Lvl := Lvl) V O B c).after 3 t)
    ∗ owns (c : Thread nD τ) (st0_4 t) fullShare ((dat0 (Name := Name) (U := U) (Lvl := Lvl) V O B c).after 4 t))

/-- The body at any point: the inputs' memrefs hold their blocks, so `sound_kernel0` applies; the invariant and the
    core's `owes` pass through unread. -/
theorem sound_body0 (c : Dev nD) (t : Fin cfg0.N) :
    bodyPre0 (Name := Name) (U := U) (Lvl := Lvl) V O B ι c t
      ⊢ wp frame (wpE (defs₀ (F := F)) Variants.none c none) Set.univ (bodyAt0 t) (fun _ => bodyPost0 (Name := Name) (U := U) (Lvl := Lvl) V O B ι c t) := by
  unfold bodyPre0 bodyPost0 bodyAt0
  simp only [before0_0, before0_1, before0_2, before0_3]
  rw [show (dat0 (Name := Name) (U := U) (Lvl := Lvl) V O B c).Φ t.succ = (dat0 (Name := Name) (U := U) (Lvl := Lvl) V O B c).Φ t.castSucc from rfl,
    show (dat0 (Name := Name) (U := U) (Lvl := Lvl) V O B c).owesAt ι t.succ = (dat0 (Name := Name) (U := U) (Lvl := Lvl) V O B c).owesAt ι t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The exact body obligation, at every point, -/
theorem body_obligation0 (c : Dev nD) :
    BodyObligation (dat0 (Name := Name) (U := U) (Lvl := Lvl) V O B c) (defs₀ (F := F)) Variants.none ι Set.univ := fun t => by
  rw [bigSep_W0, bigSep_W0]
  exact sound_body0 V O B ι c t

/-- and as the loop uses it. -/
theorem body0 (c : Dev nD) :
    BodyObligationLoose (dat0 (Name := Name) (U := U) (Lvl := Lvl) V O B c) (defs₀ (F := F)) Variants.none ι Set.univ :=
  (body_obligation0 V O B ι c).loose

end

end Cert.Proof.Tc

end
-- ==== Proof.TcBody2.lean ====
import proofs.«217078_g14027363189340_cont_week2b_886_24_alg».proof.Proof.TcData

set_option maxRecDepth 16384

noncomputable section

namespace Cert.Proof.Tc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {Name : Type} [DecidableEq Name] {U : Type} [URA U] {Lvl : Type}

local notation "𝕄" => MT nD τ sig Ix (Elt F) Name U Lvl

variable [Preorder Lvl]

/-! # The body obligation of the region over the first half of the edges -/

section
variable (V : (c : Dev nD) → (b : Ref sig .tc) → Buf (Elt F) ((c : Thread nD τ).loc b))
variable (O : CellTallies nD τ sig Ix) (B : Set (SemLoc sig × Ix)) (q : Fin 9 → PosShare TreeShare) (ι : Ix)

set_option maxHeartbeats 2000000 in
/-- The body on whole staging memrefs, the eight inputs' at read contents `x0 … x7` and the output's at anything, runs
    to the continuation holding the inputs' as they were and the output's at `out2_8` of them: the first part's six
    whole loads, two more, a dead load of the output's buffer and one whole store of the payload. -/
theorem sound_kernel2 (c : Dev nD) (E : Set Name) (i : grid2.Coords)
    (arg1 : Memref sig .tc .vmem S8000x16 .f32) (harg1 : arg1.IsWhole)
    (arg2 : Memref sig .tc .vmem S1x8000x128 .f32) (harg2 : arg2.IsWhole)
    (arg3 : Memref sig .tc .vmem S1x8000x128 .f32) (harg3 : arg3.IsWhole)
    (arg4 : Memref sig .tc .vmem S16x128 .f32) (harg4 : arg4.IsWhole)
    (arg5 : Memref sig .tc .vmem S128x128 .bf16) (harg5 : arg5.IsWhole)
    (arg6 : Memref sig .tc .vmem S1x128 .f32) (harg6 : arg6.IsWhole)
    (arg7 : Memref sig .tc .vmem S1x128 .f32) (harg7 : arg7.IsWhole)
    (arg8 : Memref sig .tc .vmem S1x128 .f32) (harg8 : arg8.IsWhole)
    (arg9 : Memref sig .tc .vmem S8000x128 .f32) (harg9 : arg9.IsWhole)
    (x0 : Vec F S8000x16 .f32) (x1 : Vec F S1x8000x128 .f32) (x2 : Vec F S1x8000x128 .f32) (x3 : Vec F S16x128 .f32) (x4 : Vec F S128x128 .bf16) (x5 : Vec F S1x128 .f32) (x6 : Vec F S1x128 .f32) (x7 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out2_8 x0 x1 x2 x3 x4 x5 x6 x7)) -∗ K ⟨⟩))
      ⊢ wp frame (wpE (defs₀ (F := F)) Variants.none c none) E (cc2__edge_body i arg1 harg1 arg2 harg2 arg3 harg3 arg4 harg4 arg5 harg5 arg6 harg6 arg7 harg7 arg8 harg8 arg9 harg9) K := by
  simp only [cc2__edge_body_eq_skeleton]; unfold cc2__edge_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover2_8 _)

/-- What the body is called with at point `t`, the windows one by one, -/
def bodyPre2 (c : Dev nD) (t : Fin cfg2.N) : sProp 𝕄 :=
  iprop((dat2 (Name := Name) (U := U) (Lvl := Lvl) V O B q c).Φ t.castSucc ∗ (dat2 (Name := Name) (U := U) (Lvl := Lvl) V O B q c).owesAt ι t.castSucc
    ∗ (∃ d, owns (c : Thread nD τ) (st2_0 t) fullShare ((dat2 (Name := Name) (U := U) (Lvl := Lvl) V O B q c).before 0 t d))
    ∗ (∃ d, owns (c : Thread nD τ) (st2_1 t) fullShare ((dat2 (Name := Name) (U := U) (Lvl := Lvl) V O B q c).before 1 t d))
    ∗ (∃ d, owns (c : Thread nD τ) (st2_2 t) fullShare ((dat2 (Name := Name) (U := U) (Lvl := Lvl) V O B q c).before 2 t d))
    ∗ (∃ d, owns (c : Thread nD τ) (st2_3 t) fullShare ((dat2 (Name := Name) (U := U) (Lvl := Lvl) V O B q c).before 3 t d))
    ∗ (∃ d, owns (c : Thread nD τ) (st2_4 t) fullShare ((dat2 (Name := Name) (U := U) (Lvl := Lvl) V O B q c).before 4 t d))
    ∗ (∃ d, owns (c : Thread nD τ) (st2_5 t) fullShare ((dat2 (Name := Name) (U := U) (Lvl := Lvl) V O B q c).before 5 t d))
    ∗ (∃ d, owns (c : Thread nD τ) (st2_6 t) fullShare ((dat2 (Name := Name) (U := U) (Lvl := Lvl) V O B q c).before 6 t d))
    ∗ (∃ d, owns (c : Thread nD τ) (st2_7 t) fullShare ((dat2 (Name := Name) (U := U) (Lvl := Lvl) V O B q c).before 7 t d))
    ∗ (∃ d, owns (c : Thread nD τ) (st2_8 t) fullShare ((dat2 (Name := Name) (U := U) (Lvl := Lvl) V O B q c).before 8 t d)))

/-- and what it returns. -/
def bodyPost2 (c : Dev nD) (t : Fin cfg2.N) : sProp 𝕄 :=
  iprop((dat2 (Name := Name) (U := U) (Lvl := Lvl) V O B q c).Φ t.succ ∗ (dat2 (Name := Name) (U := U) (Lvl := Lvl) V O B q c).owesAt ι t.succ
    ∗ owns (c : Thread nD τ) (st2_0 t) fullShare ((dat2 (Name := Name) (U := U) (Lvl := Lvl) V O B q c).after 0 t)
    ∗ owns (c : Thread nD τ) (st2_1 t) fullShare ((dat2 (Name := Name) (U := U) (Lvl := Lvl) V O B q c).after 1 t)
    ∗ owns (c : Thread nD τ) (st2_2 t) fullShare ((dat2 (Name := Name) (U := U) (Lvl := Lvl) V O B q c).after 2 t)
    ∗ owns (c : Thread nD τ) (st2_3 t) fullShare ((dat2 (Name := Name) (U := U) (Lvl := Lvl) V O B q c).after 3 t)
    ∗ owns (c : Thread nD τ) (st2_4 t) fullShare ((dat2 (Name := Name) (U := U) (Lvl := Lvl) V O B q c).after 4 t)
    ∗ owns (c : Thread nD τ) (st2_5 t) fullShare ((dat2 (Name := Name) (U := U) (Lvl := Lvl) V O B q c).after 5 t)
    ∗ owns (c : Thread nD τ) (st2_6 t) fullShare ((dat2 (Name := Name) (U := U) (Lvl := Lvl) V O B q c).after 6 t)
    ∗ owns (c : Thread nD τ) (st2_7 t) fullShare ((dat2 (Name := Name) (U := U) (Lvl := Lvl) V O B q c).after 7 t)
    ∗ owns (c : Thread nD τ) (st2_8 t) fullShare ((dat2 (Name := Name) (U := U) (Lvl := Lvl) V O B q c).after 8 t))

/-- The body at any point: the inputs' memrefs hold their blocks, so `sound_kernel2` applies; the invariant and the
    core's `owes` pass through unread. -/
theorem sound_body2 (c : Dev nD) (t : Fin cfg2.N) :
    bodyPre2 (Name := Name) (U := U) (Lvl := Lvl) V O B q ι c t
      ⊢ wp frame (wpE (defs₀ (F := F)) Variants.none c none) Set.univ (bodyAt2 t) (fun _ => bodyPost2 (Name := Name) (U := U) (Lvl := Lvl) V O B q ι c t) := by
  unfold bodyPre2 bodyPost2 bodyAt2
  simp only [before2_0, before2_1, before2_2, before2_3, before2_4, before2_5, before2_6, before2_7]
  rw [show (dat2 (Name := Name) (U := U) (Lvl := Lvl) V O B q c).Φ t.succ = (dat2 (Name := Name) (U := U) (Lvl := Lvl) V O B q c).Φ t.castSucc from rfl,
    show (dat2 (Name := Name) (U := U) (Lvl := Lvl) V O B q c).owesAt ι t.succ = (dat2 (Name := Name) (U := U) (Lvl := Lvl) V O B q c).owesAt ι t.castSucc from rfl,
    after2_0, after2_1, after2_2, after2_3, after2_4, after2_5, after2_6, after2_7, after2_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel2 c Set.univ (grid2.coords t) _ _ _ _ _ _ _ _ _ _ _ _ _ _ _ _ _ _ (iblk2 V c 0 t) (blk2_1 V c t) (blk2_2 V c t) (iblk2 V c 3 t) (iblk2 V c 4 t) (iblk2 V c 5 t) (iblk2 V c 6 t) (iblk2 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The exact body obligation, at every point, -/
theorem body_obligation2 (c : Dev nD) :
    BodyObligation (dat2 (Name := Name) (U := U) (Lvl := Lvl) V O B q c) (defs₀ (F := F)) Variants.none ι Set.univ := fun t => by
  rw [bigSep_W2, bigSep_W2]
  exact sound_body2 V O B q ι c t

/-- and as the loop uses it: a window whose type allows cut blocks is stated on the moved part only. -/
theorem body2 (c : Dev nD) :
    BodyObligationLoose (dat2 (Name := Name) (U := U) (Lvl := Lvl) V O B q c) (defs₀ (F := F)) Variants.none ι Set.univ :=
  (body_obligation2 V O B q ι c).loose

end

end Cert.Proof.Tc

end
-- ==== Proof.TcBody4.lean ====
import proofs.«217078_g14027363189340_cont_week2b_886_24_alg».proof.Proof.TcData

set_option maxRecDepth 16384

noncomputable section

namespace Cert.Proof.Tc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {Name : Type} [DecidableEq Name] {U : Type} [URA U] {Lvl : Type}

local notation "𝕄" => MT nD τ sig Ix (Elt F) Name U Lvl

variable [Preorder Lvl]

/-! # The body obligation of the region over the second half of the edges -/

section
variable (V : (c : Dev nD) → (b : Ref sig .tc) → Buf (Elt F) ((c : Thread nD τ).loc b))
variable (O : CellTallies nD τ sig Ix) (B : Set (SemLoc sig × Ix)) (q : Fin 9 → PosShare TreeShare) (ι : Ix)

set_option maxHeartbeats 2000000 in
/-- The body on whole staging memrefs, the eight inputs' at read contents `x0 … x7` and the output's at anything, runs
    to the continuation holding the inputs' as they were and the output's at `out4_8` of them: the first part's six
    whole loads, two more, a dead load of the output's buffer and one whole store of the payload; the array the output is aliased to is handed over whole and never touched. -/
theorem sound_kernel4 (c : Dev nD) (E : Set Name) (i : grid4.Coords)
    (arg1 : Memref sig .tc .vmem S8000x16 .f32) (harg1 : arg1.IsWhole)
    (arg2 : Memref sig .tc .vmem S1x8000x128 .f32) (harg2 : arg2.IsWhole)
    (arg3 : Memref sig .tc .vmem S1x8000x128 .f32) (harg3 : arg3.IsWhole)
    (arg4 : Memref sig .tc .vmem S16x128 .f32) (harg4 : arg4.IsWhole)
    (arg5 : Memref sig .tc .vmem S128x128 .bf16) (harg5 : arg5.IsWhole)
    (arg6 : Memref sig .tc .vmem S1x128 .f32) (harg6 : arg6.IsWhole)
    (arg7 : Memref sig .tc .vmem S1x128 .f32) (harg7 : arg7.IsWhole)
    (arg8 : Memref sig .tc .vmem S1x128 .f32) (harg8 : arg8.IsWhole)
    (arg9 : Memref sig .tc .hbm S320000x128 .f32) (harg9 : arg9.IsWhole)
    (arg10 : Memref sig .tc .vmem S8000x128 .f32) (harg10 : arg10.IsWhole)
    (x0 : Vec F S8000x16 .f32) (x1 : Vec F S1x8000x128 .f32) (x2 : Vec F S1x8000x128 .f32) (x3 : Vec F S16x128 .f32) (x4 : Vec F S128x128 .bf16) (x5 : Vec F S1x128 .f32) (x6 : Vec F S1x128 .f32) (x7 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg10 fullShare (out4_8 x0 x1 x2 x3 x4 x5 x6 x7)) -∗ K ⟨⟩))
      ⊢ wp frame (wpE (defs₀ (F := F)) Variants.none c none) E (cc4__edge_body_carry i arg1 harg1 arg2 harg2 arg3 harg3 arg4 harg4 arg5 harg5 arg6 harg6 arg7 harg7 arg8 harg8 arg9 harg9 arg10 harg10) K := by
  simp only [cc4__edge_body_carry_eq_skeleton]; unfold cc4__edge_body_carry_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover4_8 _)

/-- What the body is called with at point `t`, the windows one by one, -/
def bodyPre4 (c : Dev nD) (t : Fin cfg4.N) : sProp 𝕄 :=
  iprop((dat4 (Name := Name) (U := U) (Lvl := Lvl) V O B q c).Φ t.castSucc ∗ (dat4 (Name := Name) (U := U) (Lvl := Lvl) V O B q c).owesAt ι t.castSucc
    ∗ (∃ d, owns (c : Thread nD τ) (st4_0 t) fullShare ((dat4 (Name := Name) (U := U) (Lvl := Lvl) V O B q c).before 0 t d))
    ∗ (∃ d, owns (c : Thread nD τ) (st4_1 t) fullShare ((dat4 (Name := Name) (U := U) (Lvl := Lvl) V O B q c).before 1 t d))
    ∗ (∃ d, owns (c : Thread nD τ) (st4_2 t) fullShare ((dat4 (Name := Name) (U := U) (Lvl := Lvl) V O B q c).before 2 t d))
    ∗ (∃ d, owns (c : Thread nD τ) (st4_3 t) fullShare ((dat4 (Name := Name) (U := U) (Lvl := Lvl) V O B q c).before 3 t d))
    ∗ (∃ d, owns (c : Thread nD τ) (st4_4 t) fullShare ((dat4 (Name := Name) (U := U) (Lvl := Lvl) V O B q c).before 4 t d))
    ∗ (∃ d, owns (c : Thread nD τ) (st4_5 t) fullShare ((dat4 (Name := Name) (U := U) (Lvl := Lvl) V O B q c).before 5 t d))
    ∗ (∃ d, owns (c : Thread nD τ) (st4_6 t) fullShare ((dat4 (Name := Name) (U := U) (Lvl := Lvl) V O B q c).before 6 t d))
    ∗ (∃ d, owns (c : Thread nD τ) (st4_7 t) fullShare ((dat4 (Name := Name) (U := U) (Lvl := Lvl) V O B q c).before 7 t d))
    ∗ (∃ d, owns (c : Thread nD τ) (st4_8 t) fullShare ((dat4 (Name := Name) (U := U) (Lvl := Lvl) V O B q c).before 8 t d)))

/-- and what it returns. -/
def bodyPost4 (c : Dev nD) (t : Fin cfg4.N) : sProp 𝕄 :=
  iprop((dat4 (Name := Name) (U := U) (Lvl := Lvl) V O B q c).Φ t.succ ∗ (dat4 (Name := Name) (U := U) (Lvl := Lvl) V O B q c).owesAt ι t.succ
    ∗ owns (c : Thread nD τ) (st4_0 t) fullShare ((dat4 (Name := Name) (U := U) (Lvl := Lvl) V O B q c).after 0 t)
    ∗ owns (c : Thread nD τ) (st4_1 t) fullShare ((dat4 (Name := Name) (U := U) (Lvl := Lvl) V O B q c).after 1 t)
    ∗ owns (c : Thread nD τ) (st4_2 t) fullShare ((dat4 (Name := Name) (U := U) (Lvl := Lvl) V O B q c).after 2 t)
    ∗ owns (c : Thread nD τ) (st4_3 t) fullShare ((dat4 (Name := Name) (U := U) (Lvl := Lvl) V O B q c).after 3 t)
    ∗ owns (c : Thread nD τ) (st4_4 t) fullShare ((dat4 (Name := Name) (U := U) (Lvl := Lvl) V O B q c).after 4 t)
    ∗ owns (c : Thread nD τ) (st4_5 t) fullShare ((dat4 (Name := Name) (U := U) (Lvl := Lvl) V O B q c).after 5 t)
    ∗ owns (c : Thread nD τ) (st4_6 t) fullShare ((dat4 (Name := Name) (U := U) (Lvl := Lvl) V O B q c).after 6 t)
    ∗ owns (c : Thread nD τ) (st4_7 t) fullShare ((dat4 (Name := Name) (U := U) (Lvl := Lvl) V O B q c).after 7 t)
    ∗ owns (c : Thread nD τ) (st4_8 t) fullShare ((dat4 (Name := Name) (U := U) (Lvl := Lvl) V O B q c).after 8 t))

/-- The body at any point: the inputs' memrefs hold their blocks, so `sound_kernel4` applies; the invariant and the
    core's `owes` pass through unread. -/
theorem sound_body4 (c : Dev nD) (t : Fin cfg4.N) :
    bodyPre4 (Name := Name) (U := U) (Lvl := Lvl) V O B q ι c t
      ⊢ wp frame (wpE (defs₀ (F := F)) Variants.none c none) Set.univ (bodyAt4 t) (fun _ => bodyPost4 (Name := Name) (U := U) (Lvl := Lvl) V O B q ι c t) := by
  unfold bodyPre4 bodyPost4 bodyAt4
  simp only [before4_0, before4_1, before4_2, before4_3, before4_4, before4_5, before4_6, before4_7]
  rw [show (dat4 (Name := Name) (U := U) (Lvl := Lvl) V O B q c).Φ t.succ = (dat4 (Name := Name) (U := U) (Lvl := Lvl) V O B q c).Φ t.castSucc from rfl,
    show (dat4 (Name := Name) (U := U) (Lvl := Lvl) V O B q c).owesAt ι t.succ = (dat4 (Name := Name) (U := U) (Lvl := Lvl) V O B q c).owesAt ι t.castSucc from rfl,
    after4_0, after4_1, after4_2, after4_3, after4_4, after4_5, after4_6, after4_7, after4_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel4 c Set.univ (grid4.coords t) _ _ _ _ _ _ _ _ _ _ _ _ _ _ _ _ _ _ _ _ (iblk4 V c 0 t) (blk4_1 V c t) (blk4_2 V c t) (iblk4 V c 3 t) (iblk4 V c 4 t) (iblk4 V c 5 t) (iblk4 V c 6 t) (iblk4 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The exact body obligation, at every point, -/
theorem body_obligation4 (c : Dev nD) :
    BodyObligation (dat4 (Name := Name) (U := U) (Lvl := Lvl) V O B q c) (defs₀ (F := F)) Variants.none ι Set.univ := fun t => by
  rw [bigSep_W4, bigSep_W4]
  exact sound_body4 V O B q ι c t

/-- and as the loop uses it: a window whose type allows cut blocks is stated on the moved part only. -/
theorem body4 (c : Dev nD) :
    BodyObligationLoose (dat4 (Name := Name) (U := U) (Lvl := Lvl) V O B q c) (defs₀ (F := F)) Variants.none ι Set.univ :=
  (body_obligation4 V O B q ι c).loose

end

end Cert.Proof.Tc

end
-- ==== Proof.TcBodies.lean ====
import proofs.«217078_g14027363189340_cont_week2b_886_24_alg».proof.Proof.TcBody0
import proofs.«217078_g14027363189340_cont_week2b_886_24_alg».proof.Proof.TcBody2
import proofs.«217078_g14027363189340_cont_week2b_886_24_alg».proof.Proof.TcBody4

set_option maxRecDepth 16384

noncomputable section

namespace Cert.Proof.Tc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {Name : Type} [DecidableEq Name] {U : Type} [URA U] {Lvl : Type}

local notation "𝕄" => MT nD τ sig Ix (Elt F) Name U Lvl

variable [Preorder Lvl]

/-! # The three regions' body obligations over the one family of proof data -/

/-- Every pipeline's body obligation at its member of `pdats`: the family is a literal match on the pipeline, so each
    member is its region's proof data by unfolding. -/
theorem hbody_pdats (V0 V2 V4 : (c : Dev nD) → (b : Ref sig .tc) → Buf (Elt F) ((c : Thread nD τ).loc b))
    (O : Fin 3 → CellTallies nD τ sig Ix) (B : Fin 3 → Set (SemLoc sig × Ix)) (q2 q4 : Fin 9 → PosShare TreeShare) (ι : Ix) :
    ∀ (p : Fin 3) (c : Dev nD),
      BodyObligationLoose (pdats (Name := Name) (U := U) (Lvl := Lvl) V0 V2 V4 O B q2 q4 p c) (defs₀ (F := F)) Variants.none ι Set.univ
  | ⟨0, _⟩, c => body0 V0 (O 0) (B 0) ι c
  | ⟨1, _⟩, c => body2 V2 (O 1) (B 1) q2 ι c
  | ⟨2, _⟩, c => body4 V4 (O 2) (B 2) q4 ι c

end Cert.Proof.Tc

end
-- ==== Proof.TcRegion.lean ====
/-
  Each TensorCore kernel region as the step @main's proof takes at it: the region is entered through the lifting of
  the pipelines' body table to the SparseCore program's, and run by the library's rule for a kernel region over the
  thread state "what the TensorCore owes the later SparseCore calls, and every unscoped buffer at a valuation". The
  region's arrays are taken out of the buffers at the entry and put back at the exit, the output array at what the
  write-backs leave; what the core owes passes through the region unchanged, its recorded wait pairs still bounded
  because a pipeline's own waits record at the level of no call.
-/
import proofs.«217078_g14027363189340_cont_week2b_886_24_alg».proof.Proof.TcCompose
import proofs.«217078_g14027363189340_cont_week2b_886_24_alg».proof.Proof.TcBodies
import Idealize.ShloMosaic.Lib.Pipeline.RegionsLoop
import Idealize.ShloMosaic.Lib.Pipeline.FrameSuffix

set_option maxRecDepth 16384

noncomputable section

namespace Cert.Proof.Main

open Cert.KernelIdeal Cert.KernelIdeal.Gen Cert.Proof.Sc Cert.Proof.Tc

open Idealize.ShloMosaic Idealize.ShloMosaic.StableHlo Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

/-! ## What passes through a region -/

/-- The bound on the TensorCore's recorded wait pairs before call `n`: each sits at level at most `8 n`. -/
def Bn (d : Dev nD) (n : ℕ) : Set (SemLoc sig × HIx 2) := {pr | (K (F := F)).lev (SparseCore.T d, pr.1) pr.2 ≤ 8 * n}

/-- What the TensorCore owes before call `n`, its recorded pairs bounded: the part of its state a region holds. -/
abbrev OW (c : Dev nD) (n : ℕ) : sProp 𝕄 :=
  iprop(∃ W, ⌜(K (F := F)).WBelow (SparseCore.T c) W (8 * n)⌝ ∗ owes (SparseCore.T c) ((K (F := F)).Otc c n) W)

/-- The TensorCore's state before call `n` is that part and the rest, which gives the state back for the part. -/
theorem tcSt_split (c : Dev nD) (n : ℕ) :
    (K (F := F)).tcSt EH c n ⊢ (iprop(OW (F := F) c n ∗ (OW (F := F) c n -∗ (K (F := F)).tcSt EH c n)) : sProp 𝕄) := by
  unfold SparseCore.Cfg.tcSt
  iintro ⟨HO, Hrest⟩
  isplitl [HO]; · iexact HO
  iintro HO
  isplitl [HO]; · iexact HO
  iexact Hrest

/-- Nothing the TensorCore owes is owed at the index of no call. -/
theorem Otc_none (d : Dev nD) (n : ℕ) (g : GSem nD τ sig) : (K (F := F)).Otc d n g none = 0 :=
  Nat.eq_zero_of_not_pos fun h => by
    have := SparseCore.Cfg.lev_of_Otc_pos h
    rw [SparseCore.Cfg.lev_none] at this; omega

/-- A valuation read at the TensorCore's references: what a region's proof data take. -/
abbrev VofW (W : Valuation τ sig (Elt F)) : (c : Dev nD) → (b : Ref sig .tc) → Buf (Elt F) ((c : Thread nD τ).loc b) :=
  fun _ b => W (Proc.devRef .tc b)

/-- The three pipelines' proof data at a valuation `W`, before call `n` of device `d`. -/
abbrev pdW (d : Dev nD) (n : ℕ) (W : Valuation τ sig (Elt F)) (q2 q4 : Fin 9 → PosShare TreeShare) :
    (p : Fin 3) → (c : Dev nD) → Pipeline.Dat τ (Elt F) (HIx 2) ℕ UU ℕ (Pipeline.pin (pcfgs (F := F)) adm p) c :=
  pdats (VofW W) (VofW W) (VofW W) (fun _ => (K (F := F)).Otc d n) (fun _ => Bn (F := F) d n) q2 q4

/-- The wait evidence for a region's staging cells: they are waited on at the index of no call, at level 0, and
    everything the TensorCore owes sits at a call's index, above. -/
theorem hwaitsW (d : Dev nD) (n : ℕ) (W : Valuation τ sig (Elt F)) (q2 q4 : Fin 9 → PosShare TreeShare) (p : Fin 3) (c : Dev nD)
    (howed : ∀ t, (pdW d n W q2 q4 p c).owed t = (K (F := F)).Otc d n) :
    (levAts (K (F := F)).L (K (F := F)).lev : sProp 𝕄) ⊢ Pipeline.cellsWaits (Pipeline.pin (pcfgs (F := F)) adm) (pdW d n W q2 q4) (none : HIx 2) p c :=
  Pipeline.cellsWaits_of_cut _ _ _ p c 0 ((K (F := F)).Otc d n) howed (fun _ _ => Finset.mem_univ _) (fun _ _ => le_rfl)
    (fun g i h => ⟨Finset.mem_univ _, by have := SparseCore.Cfg.lev_of_Otc_pos h; omega⟩)

/-! ## Region 0: the node tables -/

section Region0

variable (d : Dev nD) (W : Valuation τ sig (Elt F))

/-- Region 0's proof data at `W`, before call 0. -/
abbrev dW0 (c : Dev nD) : Pipeline.Dat τ (Elt F) (HIx 2) ℕ UU ℕ cfg0 c :=
  dat0 (VofW W) ((K (F := F)).Otc d 0) (Bn (F := F) d 0) c

/-- The valuation the region leaves: its arrays at what the write-backs leave, every other buffer as it was. -/
def Wout0 : Valuation τ sig (Elt F) :=
  Pipeline.withArrays spec0 d W fun w => (dW0 d W d).arrAt w cfg0.N

theorem Wout0_arr (w : Fin cfg0.W) : Wout0 d W (Proc.devRef .tc (Pipeline.arrRef spec0 w)) = (dW0 d W d).arrAt w cfg0.N := by
  unfold Wout0; exact Pipeline.withArrays_arr spec0 launch0.win.arr_inj d _ _ w

theorem Wout0_of_ne (b : Ref sig .tc) (hb : ∀ w, Pipeline.arrRef spec0 w ≠ b) :
    Wout0 d W (Proc.devRef .tc b) = W (Proc.devRef .tc b) := by
  unfold Wout0; exact Pipeline.withArrays_of_ne spec0 d _ _ b hb

/-- Only the table array changes: an input array is never written, and no other buffer is the region's. -/
theorem Wout0_keeps (r : Ref sig .tc) (hr : r ≠ main_v8) : Wout0 d W (Proc.devRef .tc r) = W (Proc.devRef .tc r) := by
  by_cases h : ∃ w, Pipeline.arrRef spec0 w = r
  · obtain ⟨w, rfl⟩ := h
    rw [Wout0_arr]
    have hin : (cfg0.win w).isOut = false := by
      fin_cases w
      · rfl
      · rfl
      · rfl
      · rfl
      · exact absurd rfl hr
    exact ((dW0 d W d).arrAt_in w hin _).trans (A_eq0 (VofW W) _ _ d w)
  · exact Wout0_of_ne d W r fun w e => h ⟨w, e⟩

set_option backward.isDefEq.respectTransparency.types false in
/-- Region 0 over the thread state: entered from the TensorCore's state before call 0 and every unscoped buffer at `W`,
    left at the same state and the buffers at `Wout0`. -/
def reg0 : Pipeline.RegionSeg (pcfgs (F := F)) adm (pdW d 0 W (fun _ => fullShare) (fun _ => fullShare)) (none : HIx 2) defs₀ 𝒱₀
    (K (F := F)).L (K (F := F)).lev 0 where
  win := launch0.win.to₀
  block_pos := launch0.block_pos
  stage_whole := launch0.stage_whole
  K := PEmpty
  osem k := k.elim
  ho := Pipeline.OwnSemFacts.none _
  hbody c := body0 (VofW W) _ _ none c
  hwaits c := hwaitsW d 0 W _ _ 0 c fun _ => rfl
  pre c := iprop((K (F := F)).tcSt EH c 0 ∗ (held (SparseCore.T c) (Pipeline.ucRefs τ sig) W : sProp 𝕄))
  post c := iprop((K (F := F)).tcSt EH c 0 ∗ (held (SparseCore.T c) (Pipeline.ucRefs τ sig) (Wout0 d W) : sProp 𝕄))
  X _ := iprop(emp)
  Y _ := iprop(emp)
  Z c := iprop(Pipeline.unscopedRest (Ix := HIx 2) (Name := ℕ) (U := UU) (Lvl := ℕ) spec0 c (VofW W c)
    ∗ (OW (F := F) c 0 -∗ (K (F := F)).tcSt EH c 0))
  hentry c := by
    obtain rfl : c = d := Subsingleton.elim (α := Fin 1) c d
    rw [Pipeline.ownSems0_none]
    have hsplit := Pipeline.arrays_of_unscopedBufs (p := 0) (pcfgs (F := F)) adm (pdW c 0 W (fun _ => fullShare) (fun _ => fullShare))
      launch0.win launch0.arr_whole c ((pdW c 0 W (fun _ => fullShare) (fun _ => fullShare) 0 c).share_full fun _ => rfl) (VofW W c) fun _ => rfl
    rw [Pipeline.unscopedBufs_held] at hsplit
    iintro ⟨⟨Hst, Hub⟩, -, -⟩
    ihave H := hsplit $$ Hub
    icases H with ⟨Ha, Hrest⟩
    ihave Hs := (tcSt_split (F := F) c 0) $$ Hst
    icases Hs with ⟨⟨%Ws, %hWs, HO⟩, Hback⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists Ws; isplitr; · ipureintro; exact fun pr hpr => Or.inl (hWs pr hpr)
      iexact HO
    isplitr; · iempintro
    isplitl [Hrest]; · iexact Hrest
    iexact Hback
  hin c := by
    rw [show (pdW d 0 W (fun _ => fullShare) (fun _ => fullShare) 0 c).Φ 0
      = Pipeline.scopedRest (Ix := HIx 2) (Name := ℕ) (U := UU) (Lvl := ℕ) (Val := Elt F) spec0 c from rfl]
    iintro ⟨-, -, Hr⟩
    iexact Hr
  hout c := by
    rw [Pipeline.ownSems0_none, show (pdW d 0 W (fun _ => fullShare) (fun _ => fullShare) 0 c).Φ (Fin.last _)
      = Pipeline.scopedRest (Ix := HIx 2) (Name := ℕ) (U := UU) (Lvl := ℕ) (Val := Elt F) spec0 c from rfl]
    iintro Hr
    isplitr; · iempintro
    isplitr; · iempintro
    iexact Hr
  hexit c := by
    obtain rfl : c = d := Subsingleton.elim (α := Fin 1) c d
    have hjoin := Pipeline.unscopedBufs_of_arrays (p := 0) (pcfgs (F := F)) adm (Ix := HIx 2) (Name := ℕ) (U := UU) (Lvl := ℕ)
      launch0.win launch0.arr_whole c (pdW c 0 W (fun _ => fullShare) (fun _ => fullShare))
      ((pdW c 0 W (fun _ => fullShare) (fun _ => fullShare) 0 c).share_full fun _ => rfl)
      (VofW W c) (VofW (Wout0 c W) c) ((dW0 c W c).arrAt · cfg0.N) (fun w => (Wout0_arr c W w).symm)
      (fun b hb => Wout0_of_ne c W b fun w e => hb (Finset.mem_image.mpr ⟨w, Finset.mem_univ _, e⟩))
    rw [Pipeline.unscopedBufs_held] at hjoin
    iintro ⟨Ha, HO, -, Hrest, Hback⟩
    imodintro
    isplitl [HO Hback]
    · iapply Hback
      unfold Pipeline.Dat.owesAt Pipeline.owesWithin
      icases HO with ⟨%Ws, %hWs, HO⟩
      iexists Ws; isplitr
      · ipureintro
        intro pr hpr
        rcases hWs hpr with h | ⟨w, s, rfl⟩
        · exact h
        · exact Nat.zero_le _
      iexact HO
    iapply hjoin
    isplitl [Ha]; · iexact Ha
    iexact Hrest

end Region0

/-! ## The edge regions' shared array -/

/-- The shares of an edge region's input arrays: the gathered rows' array is read by two windows, each at a half. -/
def qsh : Fin 9 → PosShare TreeShare := fun | 1 => fullShare.left | 2 => fullShare.right | _ => fullShare

section Shared2

/-- The eight buffers behind region 1's nine windows, one by one. -/
theorem bigSep_arr2 (Φ : Ref sig .tc → sProp 𝕄) :
    bigSep (Finset.univ.image (Pipeline.arrRef spec2)) Φ
      = iprop(Φ main_arg0 ∗ Φ main_v27 ∗ Φ main_v11 ∗ Φ main_v13 ∗ Φ main_v14 ∗ Φ main_v15 ∗ Φ main_v16 ∗ Φ main_v28) :=
  bigSep_eq_bigSepL_of_eq [main_arg0, main_v27, main_v11, main_v13, main_v14, main_v15, main_v16, main_v28] (by decide) (by decide) Φ

variable (V : (c : Dev nD) → (b : Ref sig .tc) → Buf (Elt F) ((c : Thread nD τ).loc b))
  (O : CellTallies nD τ sig (HIx 2)) (B : Set (SemLoc sig × HIx 2)) (c : Dev nD)

/-- The region's arrays, each a whole buffer, as points-tos of the buffers behind them at the windows' shares. -/
theorem arrays_eq2 (Fw : (w : Fin cfg2.W) → Buf (Elt F) ((cfg2.win w).arr.view.loc (c.tc : Thread nD τ))) :
    (dat2 (Name := ℕ) (U := UU) (Lvl := ℕ) V O B qsh c).arrays Fw
      = bigSep Finset.univ fun w => (((c.tc : Thread nD τ).loc (Pipeline.arrRef spec2 w)) ↦{(dat2 (Name := ℕ) (U := UU) (Lvl := ℕ) V O B qsh c).share w} Fw w : sProp 𝕄) := by
  unfold Pipeline.Dat.arrays
  exact bigSep_congr fun w _ => by rw [(arr_whole2 w).set_eq_univ]

/-- The eight buffers behind the nine windows' arrays are the arrays at the contents `Fw` when each window's
    contents are its buffer's: the gathered rows' buffer is split between its two windows along the share. -/
theorem arrays_of_arrBufs2 (Vc : (b : Ref sig .tc) → Buf (Elt F) ((c.tc : Thread nD τ).loc b))
    (Fw : (w : Fin cfg2.W) → Buf (Elt F) ((cfg2.win w).arr.view.loc (c.tc : Thread nD τ)))
    (hF : ∀ w, Fw w = Vc (Pipeline.arrRef spec2 w)) :
    (Pipeline.arrBufs (Ix := HIx 2) (Name := ℕ) (U := UU) (Lvl := ℕ) spec2 c Vc : sProp 𝕄) ⊢ (dat2 (Name := ℕ) (U := UU) (Lvl := ℕ) V O B qsh c).arrays Fw := by
  rw [arrays_eq2, show (fun w => (((c.tc : Thread nD τ).loc (Pipeline.arrRef spec2 w)) ↦{(dat2 (Name := ℕ) (U := UU) (Lvl := ℕ) V O B qsh c).share w} Fw w : sProp 𝕄))
      = fun w => (((c.tc : Thread nD τ).loc (Pipeline.arrRef spec2 w)) ↦{(dat2 (Name := ℕ) (U := UU) (Lvl := ℕ) V O B qsh c).share w} Vc (Pipeline.arrRef spec2 w) : sProp 𝕄) from
    funext fun w => by rw [hF]]
  unfold Pipeline.arrBufs
  rw [bigSep_arr2, bigSep_W2]
  iintro ⟨H0, Hs, H3, H4, H5, H6, H7, H8⟩
  ihave Hs' := (pointsTo_share (PosShare.mem_left_op_right fullShare)).1 $$ Hs
  icases Hs' with ⟨Hl, Hr⟩
  isplitl [H0]; · iexact H0
  isplitl [Hl]; · iexact Hl
  isplitl [Hr]; · iexact Hr
  isplitl [H3]; · iexact H3
  isplitl [H4]; · iexact H4
  isplitl [H5]; · iexact H5
  isplitl [H6]; · iexact H6
  isplitl [H7]; · iexact H7
  iexact H8

/-- and back: the two halves of the gathered rows' buffer, at one contents, are the buffer. -/
theorem arrBufs_of_arrays2 (Vc : (b : Ref sig .tc) → Buf (Elt F) ((c.tc : Thread nD τ).loc b))
    (Fw : (w : Fin cfg2.W) → Buf (Elt F) ((cfg2.win w).arr.view.loc (c.tc : Thread nD τ)))
    (hF : ∀ w, Fw w = Vc (Pipeline.arrRef spec2 w)) :
    (dat2 (Name := ℕ) (U := UU) (Lvl := ℕ) V O B qsh c).arrays Fw ⊢ (Pipeline.arrBufs (Ix := HIx 2) (Name := ℕ) (U := UU) (Lvl := ℕ) spec2 c Vc : sProp 𝕄) := by
  rw [arrays_eq2, show (fun w => (((c.tc : Thread nD τ).loc (Pipeline.arrRef spec2 w)) ↦{(dat2 (Name := ℕ) (U := UU) (Lvl := ℕ) V O B qsh c).share w} Fw w : sProp 𝕄))
      = fun w => (((c.tc : Thread nD τ).loc (Pipeline.arrRef spec2 w)) ↦{(dat2 (Name := ℕ) (U := UU) (Lvl := ℕ) V O B qsh c).share w} Vc (Pipeline.arrRef spec2 w) : sProp 𝕄) from
    funext fun w => by rw [hF]]
  unfold Pipeline.arrBufs
  rw [bigSep_arr2, bigSep_W2]
  iintro ⟨H0, Hl, Hr, H3, H4, H5, H6, H7, H8⟩
  isplitl [H0]; · iexact H0
  isplitl [Hl Hr]
  · iapply (pointsTo_share (PosShare.mem_left_op_right fullShare)).2
    isplitl [Hl]; · iexact Hl
    iexact Hr
  isplitl [H3]; · iexact H3
  isplitl [H4]; · iexact H4
  isplitl [H5]; · iexact H5
  isplitl [H6]; · iexact H6
  isplitl [H7]; · iexact H7
  iexact H8

/-- ENTRY, the arrays' part: the core's unscoped buffers at `Vc` are the region's arrays at their entry contents and
    the unscoped rest. -/
theorem arrays_of_unscopedBufs2 (Vc : (b : Ref sig .tc) → Buf (Elt F) ((c.tc : Thread nD τ).loc b))
    (hA : ∀ w, (dat2 (Name := ℕ) (U := UU) (Lvl := ℕ) V O B qsh c).A w = Vc (Pipeline.arrRef spec2 w)) :
    (unscopedBufs c Vc : sProp 𝕄)
      ⊢ iprop((dat2 (Name := ℕ) (U := UU) (Lvl := ℕ) V O B qsh c).arrays (dat2 (Name := ℕ) (U := UU) (Lvl := ℕ) V O B qsh c).A ∗ Pipeline.unscopedRest (Ix := HIx 2) (Name := ℕ) (U := UU) (Lvl := ℕ) spec2 c Vc) := by
  rw [Pipeline.unscopedBufs_split₀ (Ix := HIx 2) (Name := ℕ) (U := UU) (Lvl := ℕ) cfgs (1 : Fin 3) winFacts₀2.arr_unscoped c Vc]
  exact sep_mono (arrays_of_arrBufs2 V O B c Vc _ hA) .rfl

/-- EXIT, the arrays' part: the arrays at `Fw` and the unscoped rest at `Vc` are the core's unscoped buffers at any
    `Vc'` that has the arrays at `Fw` and agrees with `Vc` off them. -/
theorem unscopedBufs_of_arrays2 (Vc Vc' : (b : Ref sig .tc) → Buf (Elt F) ((c.tc : Thread nD τ).loc b))
    (Fw : (w : Fin cfg2.W) → Buf (Elt F) ((cfg2.win w).arr.view.loc (c.tc : Thread nD τ)))
    (hF : ∀ w, Fw w = Vc' (Pipeline.arrRef spec2 w))
    (hrest : ∀ b, b ∉ Finset.univ.image (Pipeline.arrRef spec2) → Vc' b = Vc b) :
    iprop((dat2 (Name := ℕ) (U := UU) (Lvl := ℕ) V O B qsh c).arrays Fw ∗ Pipeline.unscopedRest (Ix := HIx 2) (Name := ℕ) (U := UU) (Lvl := ℕ) spec2 c Vc)
      ⊢ (unscopedBufs c Vc' : sProp 𝕄) := by
  rw [Pipeline.unscopedBufs_split₀ (Ix := HIx 2) (Name := ℕ) (U := UU) (Lvl := ℕ) cfgs (1 : Fin 3) winFacts₀2.arr_unscoped c Vc']
  refine sep_mono (arrBufs_of_arrays2 V O B c Vc' Fw hF) (Entails.of_eq ?_)
  unfold Pipeline.unscopedRest
  exact bigSep_congr fun b hb => by rw [hrest b (Finset.mem_sdiff.mp hb).2]

end Shared2

section Shared4

/-- The eight buffers behind region 2's nine windows, one by one. -/
theorem bigSep_arr4 (Φ : Ref sig .tc → sProp 𝕄) :
    bigSep (Finset.univ.image (Pipeline.arrRef spec4)) Φ
      = iprop(Φ main_arg0 ∗ Φ main_v39 ∗ Φ main_v11 ∗ Φ main_v13 ∗ Φ main_v14 ∗ Φ main_v15 ∗ Φ main_v16 ∗ Φ main_v40) :=
  bigSep_eq_bigSepL_of_eq [main_arg0, main_v39, main_v11, main_v13, main_v14, main_v15, main_v16, main_v40] (by decide) (by decide) Φ

variable (V : (c : Dev nD) → (b : Ref sig .tc) → Buf (Elt F) ((c : Thread nD τ).loc b))
  (O : CellTallies nD τ sig (HIx 2)) (B : Set (SemLoc sig × HIx 2)) (c : Dev nD)

/-- The region's arrays, each a whole buffer, as points-tos of the buffers behind them at the windows' shares. -/
theorem arrays_eq4 (Fw : (w : Fin cfg4.W) → Buf (Elt F) ((cfg4.win w).arr.view.loc (c.tc : Thread nD τ))) :
    (dat4 (Name := ℕ) (U := UU) (Lvl := ℕ) V O B qsh c).arrays Fw
      = bigSep Finset.univ fun w => (((c.tc : Thread nD τ).loc (Pipeline.arrRef spec4 w)) ↦{(dat4 (Name := ℕ) (U := UU) (Lvl := ℕ) V O B qsh c).share w} Fw w : sProp 𝕄) := by
  unfold Pipeline.Dat.arrays
  exact bigSep_congr fun w _ => by rw [(arr_whole4 w).set_eq_univ]

/-- The eight buffers behind the nine windows' arrays are the arrays at the contents `Fw` when each window's
    contents are its buffer's: the gathered rows' buffer is split between its two windows along the share. -/
theorem arrays_of_arrBufs4 (Vc : (b : Ref sig .tc) → Buf (Elt F) ((c.tc : Thread nD τ).loc b))
    (Fw : (w : Fin cfg4.W) → Buf (Elt F) ((cfg4.win w).arr.view.loc (c.tc : Thread nD τ)))
    (hF : ∀ w, Fw w = Vc (Pipeline.arrRef spec4 w)) :
    (Pipeline.arrBufs (Ix := HIx 2) (Name := ℕ) (U := UU) (Lvl := ℕ) spec4 c Vc : sProp 𝕄) ⊢ (dat4 (Name := ℕ) (U := UU) (Lvl := ℕ) V O B qsh c).arrays Fw := by
  rw [arrays_eq4, show (fun w => (((c.tc : Thread nD τ).loc (Pipeline.arrRef spec4 w)) ↦{(dat4 (Name := ℕ) (U := UU) (Lvl := ℕ) V O B qsh c).share w} Fw w : sProp 𝕄))
      = fun w => (((c.tc : Thread nD τ).loc (Pipeline.arrRef spec4 w)) ↦{(dat4 (Name := ℕ) (U := UU) (Lvl := ℕ) V O B qsh c).share w} Vc (Pipeline.arrRef spec4 w) : sProp 𝕄) from
    funext fun w => by rw [hF]]
  unfold Pipeline.arrBufs
  rw [bigSep_arr4, bigSep_W4]
  iintro ⟨H0, Hs, H3, H4, H5, H6, H7, H8⟩
  ihave Hs' := (pointsTo_share (PosShare.mem_left_op_right fullShare)).1 $$ Hs
  icases Hs' with ⟨Hl, Hr⟩
  isplitl [H0]; · iexact H0
  isplitl [Hl]; · iexact Hl
  isplitl [Hr]; · iexact Hr
  isplitl [H3]; · iexact H3
  isplitl [H4]; · iexact H4
  isplitl [H5]; · iexact H5
  isplitl [H6]; · iexact H6
  isplitl [H7]; · iexact H7
  iexact H8

/-- and back: the two halves of the gathered rows' buffer, at one contents, are the buffer. -/
theorem arrBufs_of_arrays4 (Vc : (b : Ref sig .tc) → Buf (Elt F) ((c.tc : Thread nD τ).loc b))
    (Fw : (w : Fin cfg4.W) → Buf (Elt F) ((cfg4.win w).arr.view.loc (c.tc : Thread nD τ)))
    (hF : ∀ w, Fw w = Vc (Pipeline.arrRef spec4 w)) :
    (dat4 (Name := ℕ) (U := UU) (Lvl := ℕ) V O B qsh c).arrays Fw ⊢ (Pipeline.arrBufs (Ix := HIx 2) (Name := ℕ) (U := UU) (Lvl := ℕ) spec4 c Vc : sProp 𝕄) := by
  rw [arrays_eq4, show (fun w => (((c.tc : Thread nD τ).loc (Pipeline.arrRef spec4 w)) ↦{(dat4 (Name := ℕ) (U := UU) (Lvl := ℕ) V O B qsh c).share w} Fw w : sProp 𝕄))
      = fun w => (((c.tc : Thread nD τ).loc (Pipeline.arrRef spec4 w)) ↦{(dat4 (Name := ℕ) (U := UU) (Lvl := ℕ) V O B qsh c).share w} Vc (Pipeline.arrRef spec4 w) : sProp 𝕄) from
    funext fun w => by rw [hF]]
  unfold Pipeline.arrBufs
  rw [bigSep_arr4, bigSep_W4]
  iintro ⟨H0, Hl, Hr, H3, H4, H5, H6, H7, H8⟩
  isplitl [H0]; · iexact H0
  isplitl [Hl Hr]
  · iapply (pointsTo_share (PosShare.mem_left_op_right fullShare)).2
    isplitl [Hl]; · iexact Hl
    iexact Hr
  isplitl [H3]; · iexact H3
  isplitl [H4]; · iexact H4
  isplitl [H5]; · iexact H5
  isplitl [H6]; · iexact H6
  isplitl [H7]; · iexact H7
  iexact H8

/-- ENTRY, the arrays' part: the core's unscoped buffers at `Vc` are the region's arrays at their entry contents and
    the unscoped rest. -/
theorem arrays_of_unscopedBufs4 (Vc : (b : Ref sig .tc) → Buf (Elt F) ((c.tc : Thread nD τ).loc b))
    (hA : ∀ w, (dat4 (Name := ℕ) (U := UU) (Lvl := ℕ) V O B qsh c).A w = Vc (Pipeline.arrRef spec4 w)) :
    (unscopedBufs c Vc : sProp 𝕄)
      ⊢ iprop((dat4 (Name := ℕ) (U := UU) (Lvl := ℕ) V O B qsh c).arrays (dat4 (Name := ℕ) (U := UU) (Lvl := ℕ) V O B qsh c).A ∗ Pipeline.unscopedRest (Ix := HIx 2) (Name := ℕ) (U := UU) (Lvl := ℕ) spec4 c Vc) := by
  rw [Pipeline.unscopedBufs_split₀ (Ix := HIx 2) (Name := ℕ) (U := UU) (Lvl := ℕ) cfgs (2 : Fin 3) winFacts₀4.arr_unscoped c Vc]
  exact sep_mono (arrays_of_arrBufs4 V O B c Vc _ hA) .rfl

/-- EXIT, the arrays' part: the arrays at `Fw` and the unscoped rest at `Vc` are the core's unscoped buffers at any
    `Vc'` that has the arrays at `Fw` and agrees with `Vc` off them. -/
theorem unscopedBufs_of_arrays4 (Vc Vc' : (b : Ref sig .tc) → Buf (Elt F) ((c.tc : Thread nD τ).loc b))
    (Fw : (w : Fin cfg4.W) → Buf (Elt F) ((cfg4.win w).arr.view.loc (c.tc : Thread nD τ)))
    (hF : ∀ w, Fw w = Vc' (Pipeline.arrRef spec4 w))
    (hrest : ∀ b, b ∉ Finset.univ.image (Pipeline.arrRef spec4) → Vc' b = Vc b) :
    iprop((dat4 (Name := ℕ) (U := UU) (Lvl := ℕ) V O B qsh c).arrays Fw ∗ Pipeline.unscopedRest (Ix := HIx 2) (Name := ℕ) (U := UU) (Lvl := ℕ) spec4 c Vc)
      ⊢ (unscopedBufs c Vc' : sProp 𝕄) := by
  rw [Pipeline.unscopedBufs_split₀ (Ix := HIx 2) (Name := ℕ) (U := UU) (Lvl := ℕ) cfgs (2 : Fin 3) winFacts₀4.arr_unscoped c Vc']
  refine sep_mono (arrBufs_of_arrays4 V O B c Vc' Fw hF) (Entails.of_eq ?_)
  unfold Pipeline.unscopedRest
  exact bigSep_congr fun b hb => by rw [hrest b (Finset.mem_sdiff.mp hb).2]

end Shared4

/-! ## Region 1: the first half of the edges -/

section Region1

variable (d : Dev nD) (W : Valuation τ sig (Elt F))

/-- Region 1's proof data at `W`, before call 1. -/
abbrev dW2 (c : Dev nD) : Pipeline.Dat τ (Elt F) (HIx 2) ℕ UU ℕ cfg2 c :=
  dat2 (VofW W) ((K (F := F)).Otc d 1) (Bn (F := F) d 1) qsh c

/-- The valuation the region leaves: the output array at what the write-backs leave, every other buffer as it was. -/
def Wout2 : Valuation τ sig (Elt F) :=
  Pipeline.withArrays (fun _ : Fin 1 => spec2 8) d W fun _ => (dW2 d W d).arrAt 8 cfg2.N

theorem Wout2_out : Wout2 d W (Proc.devRef .tc main_v28) = (dW2 d W d).arrAt 8 cfg2.N := by
  unfold Wout2
  exact Pipeline.withArrays_arr (fun _ : Fin 1 => spec2 8) (fun _ _ _ => Subsingleton.elim _ _) d _ _ 0

/-- Only the output array changes. -/
theorem Wout2_keeps (r : Ref sig .tc) (hr : r ≠ main_v28) : Wout2 d W (Proc.devRef .tc r) = W (Proc.devRef .tc r) := by
  unfold Wout2
  exact Pipeline.withArrays_of_ne (fun _ : Fin 1 => spec2 8) d _ _ r fun _ e => hr e.symm

/-- Each array of the region holds, in the valuation it leaves, what the write-backs leave in it: an input array what
    it held. -/
theorem Wout2_arr (w : Fin cfg2.W) : (dW2 d W d).arrAt w cfg2.N = VofW (Wout2 d W) d (Pipeline.arrRef spec2 w) := by
  have hin : ∀ w' : Fin cfg2.W, (cfg2.win w').isOut = false → Pipeline.arrRef spec2 w' ≠ main_v28 →
      (dW2 d W d).arrAt w' cfg2.N = VofW (Wout2 d W) d (Pipeline.arrRef spec2 w') := fun w' h1 h2 =>
    (((dW2 d W d).arrAt_in w' h1 _).trans (A_eq2 (VofW W) _ _ qsh d w')).trans (Wout2_keeps d W _ h2).symm
  fin_cases w
  · exact hin 0 rfl (by decide)
  · exact hin 1 rfl (by decide)
  · exact hin 2 rfl (by decide)
  · exact hin 3 rfl (by decide)
  · exact hin 4 rfl (by decide)
  · exact hin 5 rfl (by decide)
  · exact hin 6 rfl (by decide)
  · exact hin 7 rfl (by decide)
  · exact (Wout2_out d W).symm

set_option backward.isDefEq.respectTransparency.types false in
/-- Region 1 over the thread state: entered from the TensorCore's state before call 1 and every unscoped buffer at
    `W`, left at the same state and the buffers at `Wout2`. -/
def reg2 : Pipeline.RegionSeg (pcfgs (F := F)) adm (pdW d 1 W qsh qsh) (none : HIx 2) defs₀ 𝒱₀
    (K (F := F)).L (K (F := F)).lev 1 where
  win := winFacts₀2
  block_pos := block_pos2
  stage_whole := stage_whole2
  K := PEmpty
  osem k := k.elim
  ho := Pipeline.OwnSemFacts.none _
  hbody c := body2 (VofW W) _ _ qsh none c
  hwaits c := hwaitsW d 1 W _ _ 1 c fun _ => rfl
  pre c := iprop((K (F := F)).tcSt EH c 1 ∗ (held (SparseCore.T c) (Pipeline.ucRefs τ sig) W : sProp 𝕄))
  post c := iprop((K (F := F)).tcSt EH c 1 ∗ (held (SparseCore.T c) (Pipeline.ucRefs τ sig) (Wout2 d W) : sProp 𝕄))
  X _ := iprop(emp)
  Y _ := iprop(emp)
  Z c := iprop(Pipeline.unscopedRest (Ix := HIx 2) (Name := ℕ) (U := UU) (Lvl := ℕ) spec2 c (VofW W c)
    ∗ (OW (F := F) c 1 -∗ (K (F := F)).tcSt EH c 1))
  hentry c := by
    obtain rfl : c = d := Subsingleton.elim (α := Fin 1) c d
    rw [Pipeline.ownSems0_none]
    have hsplit := arrays_of_unscopedBufs2 (VofW W) ((K (F := F)).Otc c 1) (Bn (F := F) c 1) c (VofW W c) fun _ => rfl
    rw [Pipeline.unscopedBufs_held] at hsplit
    iintro ⟨⟨Hst, Hub⟩, -, -⟩
    ihave H := hsplit $$ Hub
    icases H with ⟨Ha, Hrest⟩
    ihave Hs := (tcSt_split (F := F) c 1) $$ Hst
    icases Hs with ⟨⟨%Ws, %hWs, HO⟩, Hback⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists Ws; isplitr; · ipureintro; exact fun pr hpr => Or.inl (hWs pr hpr)
      iexact HO
    isplitr; · iempintro
    isplitl [Hrest]; · iexact Hrest
    iexact Hback
  hin c := by
    rw [show ((pdW d 1 W qsh qsh) 1 c).Φ 0 = Pipeline.scopedRest (Ix := HIx 2) (Name := ℕ) (U := UU) (Lvl := ℕ) (Val := Elt F) spec2 c from rfl]
    iintro ⟨-, -, Hr⟩
    iexact Hr
  hout c := by
    rw [Pipeline.ownSems0_none, show ((pdW d 1 W qsh qsh) 1 c).Φ (Fin.last _) = Pipeline.scopedRest (Ix := HIx 2) (Name := ℕ) (U := UU) (Lvl := ℕ) (Val := Elt F) spec2 c from rfl]
    iintro Hr
    isplitr; · iempintro
    isplitr; · iempintro
    iexact Hr
  hexit c := by
    obtain rfl : c = d := Subsingleton.elim (α := Fin 1) c d
    have hjoin := unscopedBufs_of_arrays2 (VofW W) ((K (F := F)).Otc c 1) (Bn (F := F) c 1) c
      (VofW W c) (VofW (Wout2 c W) c) ((dW2 c W c).arrAt · cfg2.N) (Wout2_arr c W)
      (fun b hb => Wout2_keeps c W b fun e => hb (e ▸ Finset.mem_image.mpr ⟨8, Finset.mem_univ _, rfl⟩))
    rw [Pipeline.unscopedBufs_held] at hjoin
    iintro ⟨Ha, HO, -, Hrest, Hback⟩
    imodintro
    isplitl [HO Hback]
    · iapply Hback
      unfold Pipeline.Dat.owesAt Pipeline.owesWithin
      icases HO with ⟨%Ws, %hWs, HO⟩
      iexists Ws; isplitr
      · ipureintro
        intro pr hpr
        rcases hWs hpr with h | ⟨w, s, rfl⟩
        · exact h
        · exact Nat.zero_le _
      iexact HO
    iapply hjoin
    isplitl [Ha]; · iexact Ha
    iexact Hrest

end Region1

/-! ## Region 2: the second half of the edges -/

section Region2

variable (d : Dev nD) (W : Valuation τ sig (Elt F))

/-- Region 2's proof data at `W`, before call 2. -/
abbrev dW4 (c : Dev nD) : Pipeline.Dat τ (Elt F) (HIx 2) ℕ UU ℕ cfg4 c :=
  dat4 (VofW W) ((K (F := F)).Otc d 2) (Bn (F := F) d 2) qsh c

/-- The valuation the region leaves: the output array at what the write-backs leave, every other buffer as it was. -/
def Wout4 : Valuation τ sig (Elt F) :=
  Pipeline.withArrays (fun _ : Fin 1 => spec4 8) d W fun _ => (dW4 d W d).arrAt 8 cfg4.N

theorem Wout4_out : Wout4 d W (Proc.devRef .tc main_v40) = (dW4 d W d).arrAt 8 cfg4.N := by
  unfold Wout4
  exact Pipeline.withArrays_arr (fun _ : Fin 1 => spec4 8) (fun _ _ _ => Subsingleton.elim _ _) d _ _ 0

/-- Only the output array changes. -/
theorem Wout4_keeps (r : Ref sig .tc) (hr : r ≠ main_v40) : Wout4 d W (Proc.devRef .tc r) = W (Proc.devRef .tc r) := by
  unfold Wout4
  exact Pipeline.withArrays_of_ne (fun _ : Fin 1 => spec4 8) d _ _ r fun _ e => hr e.symm

/-- Each array of the region holds, in the valuation it leaves, what the write-backs leave in it: an input array what
    it held. -/
theorem Wout4_arr (w : Fin cfg4.W) : (dW4 d W d).arrAt w cfg4.N = VofW (Wout4 d W) d (Pipeline.arrRef spec4 w) := by
  have hin : ∀ w' : Fin cfg4.W, (cfg4.win w').isOut = false → Pipeline.arrRef spec4 w' ≠ main_v40 →
      (dW4 d W d).arrAt w' cfg4.N = VofW (Wout4 d W) d (Pipeline.arrRef spec4 w') := fun w' h1 h2 =>
    (((dW4 d W d).arrAt_in w' h1 _).trans (A_eq4 (VofW W) _ _ qsh d w')).trans (Wout4_keeps d W _ h2).symm
  fin_cases w
  · exact hin 0 rfl (by decide)
  · exact hin 1 rfl (by decide)
  · exact hin 2 rfl (by decide)
  · exact hin 3 rfl (by decide)
  · exact hin 4 rfl (by decide)
  · exact hin 5 rfl (by decide)
  · exact hin 6 rfl (by decide)
  · exact hin 7 rfl (by decide)
  · exact (Wout4_out d W).symm

set_option backward.isDefEq.respectTransparency.types false in
/-- Region 2 over the thread state: entered from the TensorCore's state before call 2 and every unscoped buffer at
    `W`, left at the same state and the buffers at `Wout4`. -/
def reg4 : Pipeline.RegionSeg (pcfgs (F := F)) adm (pdW d 2 W qsh qsh) (none : HIx 2) defs₀ 𝒱₀
    (K (F := F)).L (K (F := F)).lev 2 where
  win := winFacts₀4
  block_pos := block_pos4
  stage_whole := stage_whole4
  K := PEmpty
  osem k := k.elim
  ho := Pipeline.OwnSemFacts.none _
  hbody c := body4 (VofW W) _ _ qsh none c
  hwaits c := hwaitsW d 2 W _ _ 2 c fun _ => rfl
  pre c := iprop((K (F := F)).tcSt EH c 2 ∗ (held (SparseCore.T c) (Pipeline.ucRefs τ sig) W : sProp 𝕄))
  post c := iprop((K (F := F)).tcSt EH c 2 ∗ (held (SparseCore.T c) (Pipeline.ucRefs τ sig) (Wout4 d W) : sProp 𝕄))
  X _ := iprop(emp)
  Y _ := iprop(emp)
  Z c := iprop(Pipeline.unscopedRest (Ix := HIx 2) (Name := ℕ) (U := UU) (Lvl := ℕ) spec4 c (VofW W c)
    ∗ (OW (F := F) c 2 -∗ (K (F := F)).tcSt EH c 2))
  hentry c := by
    obtain rfl : c = d := Subsingleton.elim (α := Fin 1) c d
    rw [Pipeline.ownSems0_none]
    have hsplit := arrays_of_unscopedBufs4 (VofW W) ((K (F := F)).Otc c 2) (Bn (F := F) c 2) c (VofW W c) fun _ => rfl
    rw [Pipeline.unscopedBufs_held] at hsplit
    iintro ⟨⟨Hst, Hub⟩, -, -⟩
    ihave H := hsplit $$ Hub
    icases H with ⟨Ha, Hrest⟩
    ihave Hs := (tcSt_split (F := F) c 2) $$ Hst
    icases Hs with ⟨⟨%Ws, %hWs, HO⟩, Hback⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists Ws; isplitr; · ipureintro; exact fun pr hpr => Or.inl (hWs pr hpr)
      iexact HO
    isplitr; · iempintro
    isplitl [Hrest]; · iexact Hrest
    iexact Hback
  hin c := by
    rw [show ((pdW d 2 W qsh qsh) 2 c).Φ 0 = Pipeline.scopedRest (Ix := HIx 2) (Name := ℕ) (U := UU) (Lvl := ℕ) (Val := Elt F) spec4 c from rfl]
    iintro ⟨-, -, Hr⟩
    iexact Hr
  hout c := by
    rw [Pipeline.ownSems0_none, show ((pdW d 2 W qsh qsh) 2 c).Φ (Fin.last _) = Pipeline.scopedRest (Ix := HIx 2) (Name := ℕ) (U := UU) (Lvl := ℕ) (Val := Elt F) spec4 c from rfl]
    iintro Hr
    isplitr; · iempintro
    isplitr; · iempintro
    iexact Hr
  hexit c := by
    obtain rfl : c = d := Subsingleton.elim (α := Fin 1) c d
    have hjoin := unscopedBufs_of_arrays4 (VofW W) ((K (F := F)).Otc c 2) (Bn (F := F) c 2) c
      (VofW W c) (VofW (Wout4 c W) c) ((dW4 c W c).arrAt · cfg4.N) (Wout4_arr c W)
      (fun b hb => Wout4_keeps c W b fun e => hb (e ▸ Finset.mem_image.mpr ⟨8, Finset.mem_univ _, rfl⟩))
    rw [Pipeline.unscopedBufs_held] at hjoin
    iintro ⟨Ha, HO, -, Hrest, Hback⟩
    imodintro
    isplitl [HO Hback]
    · iapply Hback
      unfold Pipeline.Dat.owesAt Pipeline.owesWithin
      icases HO with ⟨%Ws, %hWs, HO⟩
      iexists Ws; isplitr
      · ipureintro
        intro pr hpr
        rcases hWs hpr with h | ⟨w, s, rfl⟩
        · exact h
        · exact Nat.zero_le _
      iexact HO
    iapply hjoin
    isplitl [Ha]; · iexact Ha
    iexact Hrest

end Region2

/-! ## The three steps -/

variable (P : (K (F := F)).Pay (nD := nD) (Val := Elt F) (Name := ℕ) (U := UU))

set_option backward.isDefEq.respectTransparency.types false in
/-- The node tables' region as @main's step. -/
theorem regionStep0 : RegionStep P 0 0 main_v8
    (fun d => iprop(Pipeline.cellsGhost (Pipeline.pin (pcfgs (F := F)) adm) EP 0 d ∗ Pipeline.toksInit (Pipeline.pin (pcfgs (F := F)) adm) EP 0 d)) := by
  intro κ d V₁ k Q
  rw [wp_bind]
  have hwp := (reg0 (F := F) d V₁).wp (pcfgs (F := F)) adm _ (none : HIx 2) cellOf_inj EP defs₀ 𝒱₀ (K (F := F)).L (K (F := F)).lev d none
    (fun _ h => by cases h) (fun u => .ret u)
    (fun a => wp frame (wpE ((K (F := F)).defs (D (F := F))) 𝒱 (SparseCore.T d) none) Set.univ (k a) Q)
  have hlift := (K (F := F)).wp_liftProg (D (F := F)) 𝒱 (SparseCore.T d) (Set.univ : Set ℕ) none
    (.op (.customCall (Pipeline.entry (0 : Fin 3)) ()) fun u => .ret u)
    (fun a => wp frame (wpE ((K (F := F)).defs (D (F := F))) 𝒱 (SparseCore.T d) none) Set.univ (k a) Q)
  refine BIBase.Entails.trans ?_ hlift
  refine BIBase.Entails.trans ?_ hwp
  dsimp only [reg0]
  iintro ⟨#Hctx, Hb, Hst, Hh, ⟨Hg, Ht⟩, Hk⟩
  isplitl [Hk]
  · iintro ⟨Hb, Hst, Hh⟩
    rw [wp_ret]; imodintro
    iapply Hk $$ %(Wout0 d V₁) %(Wout0_keeps d V₁)
    isplitl [Hb]; · iexact Hb
    isplitl [Hst]; · iexact Hst
    iexact Hh
  isplitl [Hb]; · iexact Hb
  isplitl [Hst Hh]
  · isplitl [Hst]; · iexact Hst
    iexact Hh
  isplitr; · iapply SparseCore.Cfg.ctx_levAts; iexact Hctx
  isplitl [Hg] <;> iassumption

set_option backward.isDefEq.respectTransparency.types false in
/-- The first half of the edges' region as @main's step. -/
theorem regionStep1 : RegionStep P 1 1 main_v28
    (fun d => iprop(Pipeline.cellsGhost (Pipeline.pin (pcfgs (F := F)) adm) EP 1 d ∗ Pipeline.toksInit (Pipeline.pin (pcfgs (F := F)) adm) EP 1 d)) := by
  intro κ d V₁ k Q
  rw [wp_bind]
  have hwp := (reg2 (F := F) d V₁).wp (pcfgs (F := F)) adm _ (none : HIx 2) cellOf_inj EP defs₀ 𝒱₀ (K (F := F)).L (K (F := F)).lev d none
    (fun _ h => by cases h) (fun u => .ret u)
    (fun a => wp frame (wpE ((K (F := F)).defs (D (F := F))) 𝒱 (SparseCore.T d) none) Set.univ (k a) Q)
  have hlift := (K (F := F)).wp_liftProg (D (F := F)) 𝒱 (SparseCore.T d) (Set.univ : Set ℕ) none
    (.op (.customCall (Pipeline.entry (1 : Fin 3)) ()) fun u => .ret u)
    (fun a => wp frame (wpE ((K (F := F)).defs (D (F := F))) 𝒱 (SparseCore.T d) none) Set.univ (k a) Q)
  refine BIBase.Entails.trans ?_ hlift
  refine BIBase.Entails.trans ?_ hwp
  dsimp only [reg2]
  iintro ⟨#Hctx, Hb, Hst, Hh, ⟨Hg, Ht⟩, Hk⟩
  isplitl [Hk]
  · iintro ⟨Hb, Hst, Hh⟩
    rw [wp_ret]; imodintro
    iapply Hk $$ %(Wout2 d V₁) %(Wout2_keeps d V₁)
    isplitl [Hb]; · iexact Hb
    isplitl [Hst]; · iexact Hst
    iexact Hh
  isplitl [Hb]; · iexact Hb
  isplitl [Hst Hh]
  · isplitl [Hst]; · iexact Hst
    iexact Hh
  isplitr; · iapply SparseCore.Cfg.ctx_levAts; iexact Hctx
  isplitl [Hg] <;> iassumption

set_option backward.isDefEq.respectTransparency.types false in
/-- The second half of the edges' region as @main's step. -/
theorem regionStep2 : RegionStep P 2 2 main_v40
    (fun d => iprop(Pipeline.cellsGhost (Pipeline.pin (pcfgs (F := F)) adm) EP 2 d ∗ Pipeline.toksInit (Pipeline.pin (pcfgs (F := F)) adm) EP 2 d)) := by
  intro κ d V₁ k Q
  rw [wp_bind]
  have hwp := (reg4 (F := F) d V₁).wp (pcfgs (F := F)) adm _ (none : HIx 2) cellOf_inj EP defs₀ 𝒱₀ (K (F := F)).L (K (F := F)).lev d none
    (fun _ h => by cases h) (fun u => .ret u)
    (fun a => wp frame (wpE ((K (F := F)).defs (D (F := F))) 𝒱 (SparseCore.T d) none) Set.univ (k a) Q)
  have hlift := (K (F := F)).wp_liftProg (D (F := F)) 𝒱 (SparseCore.T d) (Set.univ : Set ℕ) none
    (.op (.customCall (Pipeline.entry (2 : Fin 3)) ()) fun u => .ret u)
    (fun a => wp frame (wpE ((K (F := F)).defs (D (F := F))) 𝒱 (SparseCore.T d) none) Set.univ (k a) Q)
  refine BIBase.Entails.trans ?_ hlift
  refine BIBase.Entails.trans ?_ hwp
  dsimp only [reg4]
  iintro ⟨#Hctx, Hb, Hst, Hh, ⟨Hg, Ht⟩, Hk⟩
  isplitl [Hk]
  · iintro ⟨Hb, Hst, Hh⟩
    rw [wp_ret]; imodintro
    iapply Hk $$ %(Wout4 d V₁) %(Wout4_keeps d V₁)
    isplitl [Hb]; · iexact Hb
    isplitl [Hst]; · iexact Hst
    iexact Hh
  isplitl [Hb]; · iexact Hb
  isplitl [Hst Hh]
  · isplitl [Hst]; · iexact Hst
    iexact Hh
  isplitr; · iapply SparseCore.Cfg.ctx_levAts; iexact Hctx
  isplitl [Hg] <;> iassumption

end Cert.Proof.Main

end
-- ==== Proof.TcIdx.lean ====
/-
  The index lists the two gathers read, in range. Each list is laid out from two rows of 160000 edge indices: the
  source indices, 3840 zeros, the destination indices moved past the source table (plus 10000), 3840 entries at
  the destination table's first row (10000). Where every edge index is at most 9999, the first half of the list
  (entries below 163840) names rows 0 ‥ 9999 and the second half rows 10000 ‥ 19999: the additions do not wrap.
  That every edge index is at most 9999 is the last conjunct of the precondition.
-/
import proofs.«217078_g14027363189340_cont_week2b_886_24_alg».proof.Proof.ScCall
import proofs.«217078_g14027363189340_cont_week2b_886_24_alg».proof.Pre_input_domain
import Idealize.ShloMosaic.Lib.ReduceAll
import Idealize.ShloMosaic.Lib.Pipeline.Value
import Idealize.ShloMosaic.Lib.ValueIdx

noncomputable section

namespace Cert.Proof.Main

open Cert.KernelIdeal Cert.KernelIdeal.Gen
open Idealize.ShloMosaic Idealize.ShloMosaic.StableHlo Idealize.ShloMosaic.TcCoe Idealize.ShloMosaic.ValueIdx

variable {F : FTy → Type} [FloatOps F]

/-- Every edge index, read unsigned, is at most 9999. -/
def EdgesOK (e : S2x320000.Idx → BitVec 32) : Prop := ∀ i, (e i).toNat ≤ 9999

/-- The four pieces of an index list: `s`, `z`, `d + 10000`, `z + 10000`. -/
abbrev pieces (s : IVec S160000 32) (z : IVec S3840 32) (d : IVec S160000 32) : List ((t : Shape) × (t.Idx → BitVec 32)) :=
  [⟨S160000, s⟩,
   ⟨S3840, z⟩,
   ⟨S160000, addi d (broadcastInDim S160000 ![] bcast_S_S160000 (constantI S_ 32 10000#32))⟩,
   ⟨S3840, addi z (broadcastInDim S3840 ![] bcast_S_S3840 (constantI S_ 32 10000#32))⟩]

/-- The index list laid out from a row `s` of source indices, a row `d` of destination indices and 3840 padding
    entries `z`: `s`, `z`, `d + 10000`, `z + 10000`. -/
def idxList (s : IVec S160000 32) (z : IVec S3840 32) (d : IVec S160000 32) : IVec S327680 32 :=
  concatenate S327680 0 (pieces s z d) concatenates_S160000_S3840_S160000_S3840_S327680_d0

/-- The 3840 padding entries as the program builds them: zeros. -/
def zeroPad : IVec S3840 32 := broadcastInDim S3840 ![] bcast_S_S3840 (constantI S_ 32 0#32)

theorem zeroPad_le (i : S3840.Idx) : (zeroPad i).toNat ≤ 9999 := by
  show (0#32).toNat ≤ 9999
  decide

/-- 160000 consecutive entries of one row of the edge list, as a vector. -/
def edgeRow (e : IVec S2x320000 32) (off : Fin 2 → Nat) (h : S2x320000.Slices off S1x160000) : IVec S160000 32 :=
  shapeCast S160000 (extractStridedSlice S1x160000 off e h) shapeCasts_S1x160000_S160000

/-- Each entry of such a row is an entry of the edge list. -/
theorem edgeRow_le (e : IVec S2x320000 32) (he : EdgesOK e) (off : Fin 2 → Nat) (h : S2x320000.Slices off S1x160000)
    (i : S160000.Idx) : (edgeRow e off h i).toNat ≤ 9999 := by
  unfold edgeRow shapeCast extractStridedSlice
  exact he _

/-- Membership in a half of the list, as bounds on the position. -/
theorem mem_halfJ {c : Fin 2} {r : S327680.Idx} (hr : r ∈ Cert.Proof.Sc.halfJ c) :
    c.val * 163840 ≤ (r 0).val ∧ (r 0).val < c.val * 163840 + 163840 := by
  have hm := (Rect.mem_set_unit.mp hr) 0
  simpa [Shape.partIx, Shape.partSize] using hm

/-- The pieces' extents before the second, the third and the fourth piece. -/
private theorem pre1 : ([S160000].map fun s : Shape => if h : s.rank = S327680.rank then s.size ((0 : Fin S327680.rank).cast h.symm) else 0).sum = 160000 := by decide
private theorem pre2 : ([S160000, S3840].map fun s : Shape => if h : s.rank = S327680.rank then s.size ((0 : Fin S327680.rank).cast h.symm) else 0).sum = 163840 := by decide
private theorem pre3 : ([S160000, S3840, S160000].map fun s : Shape => if h : s.rank = S327680.rank then s.size ((0 : Fin S327680.rank).cast h.symm) else 0).sum = 323840 := by decide

/-- The one coordinate of an index into a piece, from a position and the pieces' extent before it. -/
private abbrev pieceIx {n : Nat} (p pre : Nat) (h : p - pre < n) : (⟨1, ![n]⟩ : Shape).Idx := ix1 ⟨p - pre, h⟩

/-- **The laid-out list is in range** where both rows and the padding hold indices at most 9999: by the position's
    piece; adding 10000 to a word at most 9999 does not wrap. -/
theorem idxList_ok (s : IVec S160000 32) (z : IVec S3840 32) (d : IVec S160000 32) (hs : ∀ i, (s i).toNat ≤ 9999)
    (hz : ∀ i, (z i).toNat ≤ 9999) (hd : ∀ i, (d i).toNat ≤ 9999) : IdxOK (idxList s z d) := by
  intro c
  unfold Cert.Proof.Sc.InRange
  intro r hr
  obtain ⟨hlo, hhi⟩ := mem_halfJ hr
  have hc : c.val < 2 := c.isLt
  have hone : ∀ (n : Nat) (b : Fin (⟨1, ![n]⟩ : Shape).rank), b.val = 0 := fun n b => Nat.lt_one_iff.mp b.isLt
  have hadd : ∀ w : BitVec 32, w.toNat ≤ 9999 → (IntOp.addi w 10000#32).toNat = w.toNat + 10000 := by
    intro w hw
    show (w + 10000#32).toNat = _
    rw [BitVec.toNat_add]
    show (w.toNat + 10000) % 2 ^ 32 = _
    exact Nat.mod_eq_of_lt (by omega)
  by_cases h1 : (r 0).val < 160000
  · -- a source index
    have e : idxList s z d r = s (pieceIx (r 0).val 0 (by omega)) :=
      concatenate_apply_piece (0 : Fin S327680.rank) (pieces s z d) concatenates_S160000_S3840_S160000_S3840_S327680_d0 r 0 (by show 0 < 4; omega) S160000 s rfl rfl 0 rfl
        (pieceIx (r 0).val 0 (by omega)) (fun b hb => absurd (Fin.ext (hone _ b)) hb)
        (by show 0 + ((r 0).val - 0) = (r 0).val; omega)
    rw [e]
    have := hs (pieceIx (r 0).val 0 (by omega))
    constructor <;> omega
  by_cases h2 : (r 0).val < 163840
  · -- padding of the first half
    have e : idxList s z d r = z (pieceIx (r 0).val 160000 (by omega)) :=
      concatenate_apply_piece (0 : Fin S327680.rank) (pieces s z d) concatenates_S160000_S3840_S160000_S3840_S327680_d0 r 1 (by show 1 < 4; omega) S3840 z rfl rfl 160000 pre1
        (pieceIx (r 0).val 160000 (by omega)) (fun b hb => absurd (Fin.ext (hone _ b)) hb)
        (by show 160000 + ((r 0).val - 160000) = (r 0).val; omega)
    rw [e]
    have := hz (pieceIx (r 0).val 160000 (by omega))
    constructor <;> omega
  by_cases h3 : (r 0).val < 323840
  · -- a destination index, moved past the source table
    have e : idxList s z d r = (addi d (broadcastInDim S160000 ![] bcast_S_S160000 (constantI S_ 32 10000#32))) (pieceIx (r 0).val 163840 (by omega)) :=
      concatenate_apply_piece (0 : Fin S327680.rank) (pieces s z d) concatenates_S160000_S3840_S160000_S3840_S327680_d0 r 2 (by show 2 < 4; omega) S160000 _ rfl rfl 163840 pre2
        (pieceIx (r 0).val 163840 (by omega)) (fun b hb => absurd (Fin.ext (hone _ b)) hb)
        (by show 163840 + ((r 0).val - 163840) = (r 0).val; omega)
    rw [e]
    have hdi := hd (pieceIx (r 0).val 163840 (by omega))
    have e2 : ((addi d (broadcastInDim S160000 ![] bcast_S_S160000 (constantI S_ 32 10000#32))) (pieceIx (r 0).val 163840 (by omega))).toNat
        = (d (pieceIx (r 0).val 163840 (by omega))).toNat + 10000 := hadd _ hdi
    rw [e2]
    constructor <;> omega
  · -- padding of the second half, moved likewise
    have h4 : (r 0).val < 327680 := (r 0).isLt
    have e : idxList s z d r = (addi z (broadcastInDim S3840 ![] bcast_S_S3840 (constantI S_ 32 10000#32))) (pieceIx (r 0).val 323840 (by omega)) :=
      concatenate_apply_piece (0 : Fin S327680.rank) (pieces s z d) concatenates_S160000_S3840_S160000_S3840_S327680_d0 r 3 (by show 3 < 4; omega) S3840 _ rfl rfl 323840 pre3
        (pieceIx (r 0).val 323840 (by omega)) (fun b hb => absurd (Fin.ext (hone _ b)) hb)
        (by show 323840 + ((r 0).val - 323840) = (r 0).val; omega)
    rw [e]
    have hzi := hz (pieceIx (r 0).val 323840 (by omega))
    have e3 : ((addi z (broadcastInDim S3840 ![] bcast_S_S3840 (constantI S_ 32 10000#32))) (pieceIx (r 0).val 323840 (by omega))).toNat
        = (z (pieceIx (r 0).val 323840 (by omega))).toNat + 10000 := hadd _ hzi
    rw [e3]
    constructor <;> omega

-- the slices and the reshapes are searches over an operand's positions: kept folded while the two terms are compared
attribute [local irreducible] shapeCast extractStridedSlice concatenate in
set_option maxRecDepth 8192 in
set_option maxHeartbeats 1600000 in
/-- The first call's index list is the layout of the first 160000 entries of the edge list's two rows, the padding
    the zeros the same stretch builds. -/
theorem v25_eq (V₁ : Valuation τ sig (Elt F)) :
    after opsB V₁ (Proc.devRef .tc main_v25)
      = idxList (edgeRow (V₁ (Proc.devRef .tc main_arg3)) ![0, 0] slices_S2x320000_S1x160000_0_0) zeroPad
          (edgeRow (V₁ (Proc.devRef .tc main_arg3)) ![1, 0] slices_S2x320000_S1x160000_1_0) := by
  simp (disch := decide) only [after_cons, after_nil, nary_result', Matrix.cons_val]
  unfold idxList edgeRow zeroPad
  rfl

attribute [local irreducible] shapeCast extractStridedSlice concatenate in
set_option maxRecDepth 8192 in
set_option maxHeartbeats 1600000 in
/-- The second call's index list is the layout of the last 160000 entries of the edge list's two rows, the padding
    whatever the padding buffer holds. -/
theorem v37_eq (V₁ : Valuation τ sig (Elt F)) :
    after opsD V₁ (Proc.devRef .tc main_v37)
      = idxList (edgeRow (V₁ (Proc.devRef .tc main_arg3)) ![0, 160000] slices_S2x320000_S1x160000_0_160000)
          (V₁ (Proc.devRef .tc main_v10))
          (edgeRow (V₁ (Proc.devRef .tc main_arg3)) ![1, 160000] slices_S2x320000_S1x160000_1_160000) := by
  simp (disch := decide) only [after_cons, after_nil, nary_result', Matrix.cons_val]
  unfold idxList edgeRow
  rfl

/-- The padding buffer after the first stretch: zeros. -/
theorem v10_after_opsB (V : Valuation τ sig (Elt F)) :
    after opsB V (Proc.devRef .tc main_v10) = zeroPad := by
  after_results_simp
  rfl

/-- The first call's index list is in range where every edge index is at most 9999. -/
theorem idx0_ok (V₁ : Valuation τ sig (Elt F)) (h : EdgesOK (V₁ (Proc.devRef .tc main_arg3))) :
    IdxOK (after opsB V₁ (Proc.devRef .tc main_v25)) := by
  rw [v25_eq]
  exact idxList_ok _ _ _ (edgeRow_le _ h _ _) zeroPad_le (edgeRow_le _ h _ _)

/-- The second call's index list is in range where every edge index is at most 9999 and the padding buffer still
    holds what the first stretch left in it. -/
theorem idx1_ok (V₁ W : Valuation τ sig (Elt F)) (h : EdgesOK (V₁ (Proc.devRef .tc main_arg3)))
    (hz : V₁ (Proc.devRef .tc main_v10) = after opsB W (Proc.devRef .tc main_v10)) :
    IdxOK (after opsD V₁ (Proc.devRef .tc main_v37)) := by
  rw [v37_eq, hz, v10_after_opsB]
  exact idxList_ok _ _ _ (edgeRow_le _ h _ _) zeroPad_le (edgeRow_le _ h _ _)

/-! ## From the precondition -/

/-- A word that reads, signed, between 0 and 9999 is at most 9999 read unsigned. -/
theorem toNat_le_of_toInt {v : BitVec 32} (h0 : (0 : Int) ≤ v.toInt) (h1 : v.toInt ≤ 9999) : v.toNat ≤ 9999 := by
  rw [BitVec.toInt_eq_toNat_cond] at h0 h1
  split at h0 <;> omega

/-- **The precondition bounds the edge list**: its last conjunct is the conjunction, over every entry of the edge
    list, of `0 ≤ e` and `e ≤ 9999` read signed; the whole being one, so is that conjunct, so is every entry's. -/
theorem edges_of_pre [hPre_input_domain : Cert.Pre_input_domain.Facts] (a0 : FVec F S320000x16 .f32) (a1 a2 : FVec F S10000x128 .f32) (a3 : IVec S2x320000 32)
    (a4 : FVec F S128x16 .f32) (a5 a6 : FVec F S128x128 .f32) (a7 : FVec F S128 .f32)
    (a8 : FVec F S128x128 .f32) (a9 a10 a11 : FVec F S128 .f32)
    (hp : Cert.Pre_input_domain.fn (F := F) a0 a1 a2 a3 a4 a5 a6 a7 a8 a9 a10 a11 = fun _ => 1#1) : EdgesOK a3 := by
  haveI : Subsingleton Cert.Pre_input_domain.S_.Idx := ⟨fun a b => funext fun d => d.elim0⟩
  have e := congrFun hp ix0
  dsimp only [Cert.Pre_input_domain.fn, Cert.Pre_input_domain.fn_part1, Cert.Pre_input_domain.fn_part2,
    Cert.Pre_input_domain.fn_part3] at e
  have e59 := (IntOp.andi_eq_one.mp e).2
  intro i
  have ei := Host.reduce_andi_all _ _ _ _ ix0 e59 i
  obtain ⟨h0, h1⟩ := IntOp.andi_eq_one.mp ei
  have h0' : (0#32 : BitVec 32).toInt ≤ (a3 i).toInt := IntOp.cmpi_sge.mp h0
  have h1' : (a3 i).toInt ≤ (9999#32 : BitVec 32).toInt := IntOp.cmpi_sle.mp h1
  exact toNat_le_of_toInt (by simpa using h0') (by
    have : (9999#32 : BitVec 32).toInt = 9999 := by decide
    omega)

end Cert.Proof.Main

end
-- ==== Proof.KFrame.lean ====
/-
  The kernel program's run with every proved part in place: @main's three kernel regions and two SparseCore calls, the
  index lists' ranges from the precondition, the launch element of the ghost state. What is still taken as given is the
  SparseCore side of each gather: one tile's obligation, and the split of a SparseCore's operands among its tiles.
-/
import proofs.«217078_g14027363189340_cont_week2b_886_24_alg».proof.Proof.TcRun
import proofs.«217078_g14027363189340_cont_week2b_886_24_alg».proof.Proof.ScCall
import proofs.«217078_g14027363189340_cont_week2b_886_24_alg».proof.Proof.ScLaunch
import proofs.«217078_g14027363189340_cont_week2b_886_24_alg».proof.Proof.TcRegion
import proofs.«217078_g14027363189340_cont_week2b_886_24_alg».proof.Proof.TcIdx

noncomputable section

namespace Cert.Proof.Main

open Cert.KernelIdeal Cert.KernelIdeal.Gen Cert.Proof.Sc

open Idealize.ShloMosaic Idealize.ShloMosaic.StableHlo Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

/-- On every device the launch memory's edge list holds indices of node rows. -/
def PreOK (m : (ℓ : Loc nD τ sig) → Buf (Elt F) ℓ) : Prop := ∀ d : Dev nD, EdgesOK (m (d, Proc.devRef .tc main_arg3))

/-- The program's run from a launch memory whose edge list is in range, given the SparseCore side of the two gathers. -/
theorem run_main [∀ e, Nonempty (Elt F e)] (m : (ℓ : Loc nD τ sig) → Buf (Elt F) ℓ) (ρ : Dev nD → PrngReg) (hpre : PreOK m)
    (htile0 : (K (F := F)).TileObl (D (F := F)) 𝒱 (P (F := F)) v₀ 0) (htile1 : (K (F := F)).TileObl (D (F := F)) 𝒱 (P (F := F)) v₀ 1)
    (hvec0 : (K (F := F)).VecSplit (P (F := F)) 0) (hvec1 : (K (F := F)).VecSplit (P (F := F)) 1) :
    θ_run (Cert.KernelIdeal.defs (F := F)) (Cert.KernelIdeal.threads (F := F)) ⟨m, fun _ => 0, ρ⟩ (QC m) :=
  run_main_of m ρ htile0 htile1 hvec0 hvec1 (Gp (F := F) 0) (Gp (F := F) 1) (Gp (F := F) 2) (X1 (F := F)) IdxOK IdxOK
    (regionStep0 (P (F := F))) (regionStep1 (P (F := F))) (regionStep2 (P (F := F))) callStep0 callStep1
    (fun d V₁ hV => idx0_ok V₁ (by rw [hV]; exact hpre d))
    (fun d V₁ W hV hz => idx1_ok V₁ W (by rw [hV]; exact hpre d) hz)
    (u₀ (F := F)) hu₀

end Cert.Proof.Main

end
-- ==== Proof.ScTileWrap.lean ====
/-
  The two SparseCore calls' tile obligations, in the launch theorem's spelling of thread and program, from one tile's
  body theorem at a symbolic place of the grid: the kernel's label in the body table is the kernel function on the
  tiles of its grid, lifted to the pipelines' labels; what the handshakes carry at a call reduces to the call's own
  pieces. Also: a double conjunction over a product of two finite index types as two conjunctions over pairs.
-/
import proofs.«217078_g14027363189340_cont_week2b_886_24_alg».proof.Proof.ScPay

set_option maxRecDepth 16384

noncomputable section

namespace Cert.Proof.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

/-! ## A conjunction over pairs -/

/-- A conjunction over `a` of a conjunction over `b` of a pair is the conjunction of the first components over all
    pairs beside that of the second. -/
theorem bigSep_pairs {α β : Type} [Fintype α] [Fintype β] [DecidableEq α] [DecidableEq β] (Φ Ψ : α × β → sProp 𝕄) :
    (bigSep Finset.univ fun a : α => bigSep Finset.univ fun b : β => iprop(Φ (a, b) ∗ Ψ (a, b)))
      = iprop(bigSep Finset.univ Φ ∗ bigSep Finset.univ Ψ) := by
  rw [← bigSep_sep', bigSep_univ_prod]

variable [FloatOps F]

/-! ## Call 0 -/

section Call0

local notation "tV" => (Memref.whole Cert.KernelIdeal.main_v9_scv : Memref Cert.KernelIdeal.sig Kind.scVector Space.hbm Cert.KernelIdeal.S20000x128 EltTy.f32)
local notation "jV" => (Memref.whole Cert.KernelIdeal.main_v25_scv : Memref Cert.KernelIdeal.sig Kind.scVector Space.hbm Cert.KernelIdeal.S327680 EltTy.i32)
local notation "oV" => (Memref.whole Cert.KernelIdeal.main_v26_scv : Memref Cert.KernelIdeal.sig Kind.scVector Space.hbm Cert.KernelIdeal.S327680x128 EltTy.f32)
local notation "shV" => (Memref.whole Cert.KernelIdeal.cc1_scratch0 : Memref Cert.KernelIdeal.sig Kind.scVector Space.shared Cert.KernelIdeal.S10000x128 EltTy.f32)
local notation "ibV" => (Memref.whole Cert.KernelIdeal.cc1_scratch1 : Memref Cert.KernelIdeal.sig Kind.scVector Space.vmem Cert.KernelIdeal.S2048 EltTy.i32)
local notation "raV" => (Memref.whole Cert.KernelIdeal.cc1_scratch2 : Memref Cert.KernelIdeal.sig Kind.scVector Space.vmem Cert.KernelIdeal.S128x128 EltTy.f32)
local notation "rbV" => (Memref.whole Cert.KernelIdeal.cc1_scratch3 : Memref Cert.KernelIdeal.sig Kind.scVector Space.vmem Cert.KernelIdeal.S128x128 EltTy.f32)

/-- One tile's task of call 0 at a symbolic place `L` of the grid: from the level facts, its barrier kit, what the
    sequencer's go hands it, its own scoped storage and what it owes, the kernel function runs to what its taskDone
    hands back, the storage, and what it owed before beside nothing of its own. -/
def TileBody0 : Prop :=
  ∀ (d : Dev nD) (L : grid1.Coords) (hF : (K (F := F)).Facts) (O : CellTallies nD τ sig (HIx 2)) (W : Waits sig (HIx 2)) (hO : ∀ g, O g none = 0)
    (hOlev : ∀ g ι, 0 < O g ι → 8 * (0 : Fin 2).val + 6 ≤ (K (F := F)).lev g ι),
    iprop(levAts (K (F := F)).L (K (F := F)).lev ∗ kit 0 d (cV0 L) (jV0 L) ∗ go0 d L
        ∗ scopedBufs (V d (cV0 L) (jV0 L)) ∗ scopedSems0 (V d (cV0 L) (jV0 L)) ∗ owes (V d (cV0 L) (jV0 L)) (O + oxV 0 d (cV0 L)) W)
      ⊢ wp frame (wpE (defs₀ (F := F)) 𝒱₀ (V d (cV0 L) (jV0 L)) none) Set.univ
          (cc1_gather_kernel L tV (Memref.isWhole_whole _) jV (Memref.isWhole_whole _) oV (Memref.isWhole_whole _) shV (Memref.isWhole_whole _)
            ibV (Memref.isWhole_whole _) raV (Memref.isWhole_whole _) rbV (Memref.isWhole_whole _) cc1_scratch4 cc1_scratch5 cc1_scratch6 cc1_scratch7 cc1_scoped0 cc1_scoped1)
          fun _ => iprop(td0 d L ∗ scopedBufs (V d (cV0 L) (jV0 L)) ∗ scopedSems0 (V d (cV0 L) (jV0 L))
            ∗ ∃ W', ⌜∀ p ∈ W', p ∈ W ∨ p.2 = none ∨ p.2 = some (0 : Fin 2)⌝ ∗ owes (V d (cV0 L) (jV0 L)) O W')

/-- The kernel's row of the body table on a vector subcore: the kernel function on the tiles of its grid. -/
theorem defs₀_vector0 (c : Fin τ.nSC) (s : Fin τ.nSub) :
    defs₀ (F := F) (.scVector c s) 1 ()
      = SparseCore.onTile hcore1 hsub1 (fun c s => cc1_gather_kernel (coords0 c s)
          tV (Memref.isWhole_whole _) jV (Memref.isWhole_whole _) oV (Memref.isWhole_whole _) shV (Memref.isWhole_whole _)
          ibV (Memref.isWhole_whole _) raV (Memref.isWhole_whole _) rbV (Memref.isWhole_whole _)
          cc1_scratch4 cc1_scratch5 cc1_scratch6 cc1_scratch7 cc1_scoped0 cc1_scoped1) ⟨⟩ c s := rfl

/-- Call 0's tile obligation from the body theorem. -/
theorem tileObl0_of (h : TileBody0 (F := F)) : (K (F := F)).TileObl (D (F := F)) 𝒱 (P (F := F)) v₀ 0 := by
  intro d c i O W hO hOlev _
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector0]; simp only [SparseCore.onTile, hci, and_self, ↓reduceDIte]
  exact h d (coords0 ⟨_, hci.1⟩ ⟨_, hci.2⟩) facts O W hO hOlev

end Call0

/-! ## Call 1 -/

section Call1

local notation "tV" => (Memref.whole Cert.KernelIdeal.main_v9_scv : Memref Cert.KernelIdeal.sig Kind.scVector Space.hbm Cert.KernelIdeal.S20000x128 EltTy.f32)
local notation "jV" => (Memref.whole Cert.KernelIdeal.main_v37_scv : Memref Cert.KernelIdeal.sig Kind.scVector Space.hbm Cert.KernelIdeal.S327680 EltTy.i32)
local notation "oV" => (Memref.whole Cert.KernelIdeal.main_v38_scv : Memref Cert.KernelIdeal.sig Kind.scVector Space.hbm Cert.KernelIdeal.S327680x128 EltTy.f32)
local notation "shV" => (Memref.whole Cert.KernelIdeal.cc3_scratch0 : Memref Cert.KernelIdeal.sig Kind.scVector Space.shared Cert.KernelIdeal.S10000x128 EltTy.f32)
local notation "ibV" => (Memref.whole Cert.KernelIdeal.cc3_scratch1 : Memref Cert.KernelIdeal.sig Kind.scVector Space.vmem Cert.KernelIdeal.S2048 EltTy.i32)
local notation "raV" => (Memref.whole Cert.KernelIdeal.cc3_scratch2 : Memref Cert.KernelIdeal.sig Kind.scVector Space.vmem Cert.KernelIdeal.S128x128 EltTy.f32)
local notation "rbV" => (Memref.whole Cert.KernelIdeal.cc3_scratch3 : Memref Cert.KernelIdeal.sig Kind.scVector Space.vmem Cert.KernelIdeal.S128x128 EltTy.f32)

/-- One tile's task of call 1 at a symbolic place `L` of the grid: from the level facts, its barrier kit, what the
    sequencer's go hands it, its own scoped storage and what it owes, the kernel function runs to what its taskDone
    hands back, the storage, and what it owed before beside nothing of its own. -/
def TileBody1 : Prop :=
  ∀ (d : Dev nD) (L : grid3.Coords) (hF : (K (F := F)).Facts) (O : CellTallies nD τ sig (HIx 2)) (W : Waits sig (HIx 2)) (hO : ∀ g, O g none = 0)
    (hOlev : ∀ g ι, 0 < O g ι → 8 * (1 : Fin 2).val + 6 ≤ (K (F := F)).lev g ι),
    iprop(levAts (K (F := F)).L (K (F := F)).lev ∗ kit 1 d (cV1 L) (jV1 L) ∗ go1 d L
        ∗ scopedBufs (V d (cV1 L) (jV1 L)) ∗ scopedSems0 (V d (cV1 L) (jV1 L)) ∗ owes (V d (cV1 L) (jV1 L)) (O + oxV 1 d (cV1 L)) W)
      ⊢ wp frame (wpE (defs₀ (F := F)) 𝒱₀ (V d (cV1 L) (jV1 L)) none) Set.univ
          (cc3_gather_kernel L tV (Memref.isWhole_whole _) jV (Memref.isWhole_whole _) oV (Memref.isWhole_whole _) shV (Memref.isWhole_whole _)
            ibV (Memref.isWhole_whole _) raV (Memref.isWhole_whole _) rbV (Memref.isWhole_whole _) cc3_scratch4 cc3_scratch5 cc3_scratch6 cc3_scratch7 cc3_scoped0 cc3_scoped1)
          fun _ => iprop(td1 d L ∗ scopedBufs (V d (cV1 L) (jV1 L)) ∗ scopedSems0 (V d (cV1 L) (jV1 L))
            ∗ ∃ W', ⌜∀ p ∈ W', p ∈ W ∨ p.2 = none ∨ p.2 = some (1 : Fin 2)⌝ ∗ owes (V d (cV1 L) (jV1 L)) O W')

/-- The kernel's row of the body table on a vector subcore: the kernel function on the tiles of its grid. -/
theorem defs₀_vector1 (c : Fin τ.nSC) (s : Fin τ.nSub) :
    defs₀ (F := F) (.scVector c s) 3 ()
      = SparseCore.onTile hcore3 hsub3 (fun c s => cc3_gather_kernel (coords1 c s)
          tV (Memref.isWhole_whole _) jV (Memref.isWhole_whole _) oV (Memref.isWhole_whole _) shV (Memref.isWhole_whole _)
          ibV (Memref.isWhole_whole _) raV (Memref.isWhole_whole _) rbV (Memref.isWhole_whole _)
          cc3_scratch4 cc3_scratch5 cc3_scratch6 cc3_scratch7 cc3_scoped0 cc3_scoped1) ⟨⟩ c s := rfl

/-- Call 1's tile obligation from the body theorem. -/
theorem tileObl1_of (h : TileBody1 (F := F)) : (K (F := F)).TileObl (D (F := F)) 𝒱 (P (F := F)) v₀ 1 := by
  intro d c i O W hO hOlev _
  have hci : ((K (F := F)).core 1 c).val < grid3.bound 0 ∧ ((K (F := F)).sub 1 i).val < grid3.bound 1 := ⟨c.isLt, i.isLt⟩
  change _ ⊢ wp _ _ _ (Pipeline.liftProg (defs₀ (F := F) (.scVector ((K (F := F)).core 1 c) ((K (F := F)).sub 1 i)) 3 ())) _
  refine BI.Entails.trans ?_ (Pipeline.wp_liftProg (D (F := F)) (Pipeline.defs_kernel pcfgs defs₀) 𝒱₀ _ Set.univ none _ _)
  rw [defs₀_vector1]; simp only [SparseCore.onTile, hci, and_self, ↓reduceDIte]
  exact h d (coords1 ⟨_, hci.1⟩ ⟨_, hci.2⟩) facts O W hO hOlev

end Call1

end Cert.Proof.Sc

end
-- ==== Proof.ScTile.lean ====
/-
  One tile's task of the gather kernel, for both SparseCore calls: the body once at a symbolic tile.

  A writing tile copies its 1000 rows of the table into the shared scratch and waits; it splits the rows' share into
  sixteen read shares and a remainder, and pays each tile's barrier cell its duty with that tile's read share; after
  its own round it holds its read share of every writer's rows, that is of the whole scratch. Then five blocks of 2048
  indices: copied in, the SparseCore's row offset subtracted sixteen lanes at a time (after which every word names a row
  of the scratch), and eight double-buffered pairs of gathers, each row scratch copied out on its own semaphore and that
  copy-out waited for before the scratch is gathered into again; two final waits.
-/
import proofs.«217078_g14027363189340_cont_week2b_886_24_alg».proof.Proof.ScPay
import Idealize.ShloMosaic.Lib.SparseCore.Stream
import proofs.«217078_g14027363189340_cont_week2b_886_24_alg».proof.Proof.ScTileWrap

noncomputable section

namespace Cert.Proof.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

/-- A tile's DMA semaphore as a cell. -/
abbrev dcell (d : Dev nD) (c : Fin τ.nSC) (i : Fin τ.nSub) (s : DmaSem sig) : GSem nD τ sig := (V d c i, .dma s)

theorem dcell_ne {d : Dev nD} {c : Fin τ.nSC} {i : Fin τ.nSub} {s s' : DmaSem sig} (h : s ≠ s') : dcell d c i s ≠ dcell d c i s' :=
  fun e => h (SemLoc.dma.inj (Prod.mk.inj e).2)

theorem dcell_mem (d : Dev nD) (c : Fin τ.nSC) (i : Fin τ.nSub) (s : DmaSem sig) (h : (SemLoc.dma s : SemLoc sig).isScoped .scVector = true) :
    dcell d c i s ∈ ownCells (V d c i) := (mem_ownCells (g := dcell d c i s)).mpr ⟨rfl, h⟩

variable [FloatOps F]

omit [FloatOps F] in
theorem k1_cond1_iff : ∀ L : grid1.Coords, k1_cond1 L = 1#1 ↔ (L 1).val < 10 := by decide +kernel
omit [FloatOps F] in
theorem k1_cond2_iff : ∀ (t1 : Fin k1_t1_loop.trips) (t3 : Fin k1_t3_loop.trips), k1_cond2 t1 t3 = 1#1 ↔ ¬(t1.val = 0 ∧ t3.val = 0) := by decide +kernel
omit [FloatOps F] in
theorem k1_cond3_iff : ∀ (t1 : Fin k1_t1_loop.trips) (t3 : Fin k1_t3_loop.trips), k1_cond3 t1 t3 = 1#1 ↔ ¬(t1.val = 0 ∧ t3.val = 0) := by decide +kernel
omit [FloatOps F] in
theorem k1_t1_trips : k1_t1_loop.trips = 5 := by decide
omit [FloatOps F] in
theorem k1_t2_trips : k1_t2_loop.trips = 128 := by decide
omit [FloatOps F] in
theorem k1_t3_trips : k1_t3_loop.trips = 8 := by decide

/-- The blocks of 2 × 128 output rows of a tile's task, by pair of trips; `blk0 m` the `m`-th in the order they are written. -/
abbrev Blk0 : Type := Fin k1_t1_loop.trips × Fin k1_t3_loop.trips
def blk0 (m : ℕ) : Blk0 := (⟨min (m / 8) 4, by rw [k1_t1_trips]; omega⟩, ⟨m % 8, by rw [k1_t3_trips]; omega⟩)

omit [FloatOps F] in
theorem blk0_cur (t1 : Fin k1_t1_loop.trips) (j : Fin k1_t3_loop.trips) : blk0 (8 * t1.val + j.val) = (t1, j) := by
  have h1 : t1.val < 5 := lt_of_lt_of_eq t1.isLt k1_t1_trips
  have h3 : j.val < 8 := lt_of_lt_of_eq j.isLt k1_t3_trips
  refine Prod.ext (Fin.ext ?_) (Fin.ext ?_)
  · show min ((8 * t1.val + j.val) / 8) 4 = t1.val
    omega
  · show (8 * t1.val + j.val) % 8 = j.val
    omega

omit [FloatOps F] in
theorem blk0_ne_succ (t1 : Fin k1_t1_loop.trips) (j : Fin k1_t3_loop.trips) {m : ℕ} (h : 8 * t1.val + j.val = m + 1) : (t1, j) ≠ blk0 m := by
  have h1 : t1.val < 5 := lt_of_lt_of_eq t1.isLt k1_t1_trips
  have h3 : j.val < 8 := lt_of_lt_of_eq j.isLt k1_t3_trips
  intro e
  have e1 : t1.val = min (m / 8) 4 := congrArg (fun p : Blk0 => p.1.val) e
  have e2 : j.val = m % 8 := congrArg (fun p : Blk0 => p.2.val) e
  omega

section Tile0

local notation "tV" => (Memref.whole Cert.KernelIdeal.main_v9_scv : Memref Cert.KernelIdeal.sig Kind.scVector Space.hbm Cert.KernelIdeal.S20000x128 EltTy.f32)
local notation "jV" => (Memref.whole Cert.KernelIdeal.main_v25_scv : Memref Cert.KernelIdeal.sig Kind.scVector Space.hbm Cert.KernelIdeal.S327680 EltTy.i32)
local notation "oV" => (Memref.whole Cert.KernelIdeal.main_v26_scv : Memref Cert.KernelIdeal.sig Kind.scVector Space.hbm Cert.KernelIdeal.S327680x128 EltTy.f32)
local notation "shV" => (Memref.whole Cert.KernelIdeal.cc1_scratch0 : Memref Cert.KernelIdeal.sig Kind.scVector Space.shared Cert.KernelIdeal.S10000x128 EltTy.f32)
local notation "ibV" => (Memref.whole Cert.KernelIdeal.cc1_scratch1 : Memref Cert.KernelIdeal.sig Kind.scVector Space.vmem Cert.KernelIdeal.S2048 EltTy.i32)
local notation "raV" => (Memref.whole Cert.KernelIdeal.cc1_scratch2 : Memref Cert.KernelIdeal.sig Kind.scVector Space.vmem Cert.KernelIdeal.S128x128 EltTy.f32)
local notation "rbV" => (Memref.whole Cert.KernelIdeal.cc1_scratch3 : Memref Cert.KernelIdeal.sig Kind.scVector Space.vmem Cert.KernelIdeal.S128x128 EltTy.f32)

variable (d : Dev nD) (L : grid1.Coords)

abbrev thr0 : Thread nD τ := V d (cV0 L) (jV0 L)

omit [FloatOps F] in
theorem pts_tbl0 (h : k1_cond1 L = 1#1) (f : Buf (Elt F) (tblLoc d)) :
    ((tblM0 L h).view.loc (thr0 d L) ↦[(tblM0 L h).view.set]{fullShare} f : sProp 𝕄) = tblLoc d ↦[tblSet0 L h]{fullShare} f := rfl
omit [FloatOps F] in
theorem pts_sh0 (h : k1_cond1 L = 1#1) (q : PosShare TreeShare) (f : Buf (Elt F) (sh0Loc d (cV0 L))) :
    ((shM0 L h).view.loc (thr0 d L) ↦[(shM0 L h).view.set]{q} f : sProp 𝕄) = sh0Loc d (cV0 L) ↦[shSet0 L h]{q} f := rfl
omit [FloatOps F] in
theorem pts_shW0 (q : PosShare TreeShare) (f : Buf (Elt F) (sh0Loc d (cV0 L))) :
    ((shV).view.loc (thr0 d L) ↦{q} f : sProp 𝕄) = sh0Loc d (cV0 L) ↦{q} f := rfl
omit [FloatOps F] in
theorem pts_idx0 (t1 : Fin k1_t1_loop.trips) (f : Buf (Elt F) (idxLoc0 d)) :
    ((idxM0 L t1).view.loc (thr0 d L) ↦[(idxM0 L t1).view.set]{fullShare} f : sProp 𝕄) = idxLoc0 d ↦[idxSet0 L t1]{fullShare} f := rfl
omit [FloatOps F] in
theorem pts_outA0 (t1 : Fin k1_t1_loop.trips) (t3 : Fin k1_t3_loop.trips) (f : Buf (Elt F) (outLoc0 d)) :
    ((outAM0 L t1 t3).view.loc (thr0 d L) ↦[(outAM0 L t1 t3).view.set]{fullShare} f : sProp 𝕄) = outLoc0 d ↦[outASet0 L t1 t3]{fullShare} f := rfl
omit [FloatOps F] in
theorem pts_outB0 (t1 : Fin k1_t1_loop.trips) (t3 : Fin k1_t3_loop.trips) (f : Buf (Elt F) (outLoc0 d)) :
    ((outBM0 L t1 t3).view.loc (thr0 d L) ↦[(outBM0 L t1 t3).view.set]{fullShare} f : sProp 𝕄) = outLoc0 d ↦[outBSet0 L t1 t3]{fullShare} f := rfl
omit [FloatOps F] in
theorem pts_ib0 (f : Buf (Elt F) ((thr0 d L).loc cc1_scratch1)) :
    ((ibV).view.loc (thr0 d L) ↦{fullShare} f : sProp 𝕄) = (thr0 d L).loc cc1_scratch1 ↦{fullShare} f := rfl
omit [FloatOps F] in
theorem pts_ra0 (f : Buf (Elt F) ((thr0 d L).loc cc1_scratch2)) :
    ((raV).view.loc (thr0 d L) ↦{fullShare} f : sProp 𝕄) = (thr0 d L).loc cc1_scratch2 ↦{fullShare} f := rfl
omit [FloatOps F] in
theorem pts_rb0 (f : Buf (Elt F) ((thr0 d L).loc cc1_scratch3)) :
    ((rbV).view.loc (thr0 d L) ↦{fullShare} f : sProp 𝕄) = (thr0 d L).loc cc1_scratch3 ↦{fullShare} f := rfl

/-- The two 128-word windows of the index scratch a pair of gathers reads. -/
abbrev offA0 (t3 : Fin k1_t3_loop.trips) : Memref sig .scVector .vmem S128 .i32 := (ibV).slice (Rect.unit (s := S2048) (k1_off6 t3) S128.size (k1_off6_inb t3)) (fun _ => rfl)
abbrev offB0 (t3 : Fin k1_t3_loop.trips) : Memref sig .scVector .vmem S128 .i32 := (ibV).slice (Rect.unit (s := S2048) (k1_off8 t3) S128.size (k1_off8_inb t3)) (fun _ => rfl)

/-- Every word of the index scratch names a row of the shared scratch. -/
def IdxOk (fo : S2048.Idx → BitVec 32) : Prop := ∀ y, (fo y).toNat < 10000

/-- A copy-out of a row scratch pending on its semaphore: it brings back the scratch and the block it was sent to. -/
abbrev flA0 (p : Blk0) (fra : Buf (Elt F) ((thr0 d L).loc cc1_scratch2)) : sProp 𝕄 :=
  Transfers.Flight countersEmb (thr0 d L) (SemLoc.dma cc1_scratch6.sem) (default : HIx 2) 524288
    iprop((∃ f, outLoc0 d ↦[outASet0 L p.1 p.2]{fullShare} f) ∗ ((raV).view.loc (thr0 d L) ↦[(raV).view.set]{fullShare} fra))
abbrev flB0 (p : Blk0) (frb : Buf (Elt F) ((thr0 d L).loc cc1_scratch3)) : sProp 𝕄 :=
  Transfers.Flight countersEmb (thr0 d L) (SemLoc.dma cc1_scratch7.sem) (default : HIx 2) 524288
    iprop((∃ f, outLoc0 d ↦[outBSet0 L p.1 p.2]{fullShare} f) ∗ ((rbV).view.loc (thr0 d L) ↦[(rbV).view.set]{fullShare} frb))

/-- The output blocks of the set `s`, each at whatever it holds. -/
def pileA0 (s : Finset Blk0) : sProp 𝕄 := bigSep s fun p => iprop(∃ f, outLoc0 d ↦[outASet0 L p.1 p.2]{fullShare} f)
def pileB0 (s : Finset Blk0) : sProp 𝕄 := bigSep s fun p => iprop(∃ f, outLoc0 d ↦[outBSet0 L p.1 p.2]{fullShare} f)

omit [FloatOps F] in
theorem pileA0_out {s : Finset Blk0} {p : Blk0} (hp : p ∈ s) :
    (pileA0 (F := F) d L s : sProp 𝕄) = iprop((∃ f, outLoc0 d ↦[outASet0 L p.1 p.2]{fullShare} f) ∗ pileA0 d L (s.erase p)) := by
  unfold pileA0; exact SparseCore.bigSep_erase' hp
omit [FloatOps F] in
theorem pileB0_out {s : Finset Blk0} {p : Blk0} (hp : p ∈ s) :
    (pileB0 (F := F) d L s : sProp 𝕄) = iprop((∃ f, outLoc0 d ↦[outBSet0 L p.1 p.2]{fullShare} f) ∗ pileB0 d L (s.erase p)) := by
  unfold pileB0; exact SparseCore.bigSep_erase' hp

/-- No copy-out pending (before the very first pair of gathers): both row scratches held, their semaphores at zero, every
    output block at hand. -/
def pendNone0 : sProp 𝕄 :=
  iprop((∃ fra, (raV).view.loc (thr0 d L) ↦{fullShare} fra) ∗ (∃ frb, (rbV).view.loc (thr0 d L) ↦{fullShare} frb)
    ∗ semVal (dcell d (cV0 L) (jV0 L) cc1_scratch6.sem) 0 ∗ semVal (dcell d (cV0 L) (jV0 L) cc1_scratch7.sem) 0
    ∗ pileA0 d L Finset.univ ∗ pileB0 d L Finset.univ)
/-- One copy-out pending per row scratch, to block `p`: the flights hold the scratches and the block's rows. -/
def pendAt0 (p : Blk0) : sProp 𝕄 :=
  iprop(∃ fra, ∃ frb, flA0 d L p fra ∗ ((raV).view.loc (thr0 d L) ↦[Finset.univ \ (raV).view.set]{fullShare} fra)
    ∗ flB0 d L p frb ∗ ((rbV).view.loc (thr0 d L) ↦[Finset.univ \ (rbV).view.set]{fullShare} frb)
    ∗ pileA0 d L (Finset.univ.erase p) ∗ pileB0 d L (Finset.univ.erase p))
/-- Before the `n`-th pair of gathers of the task. -/
def pendSt0 (n : ℕ) : sProp 𝕄 := if n = 0 then pendNone0 d L else pendAt0 d L (blk0 (n - 1))

omit [FloatOps F] in
theorem pendSt0_zero : pendSt0 (F := F) d L 0 = pendNone0 d L := if_pos rfl
omit [FloatOps F] in
theorem pendSt0_succ (m : ℕ) : pendSt0 (F := F) d L (m + 1) = pendAt0 d L (blk0 m) := if_neg (Nat.succ_ne_zero m)

/-- The invariant of the loop of eight pairs of gathers, in block `t1`: the index scratch whole and in range, the two read
    shares of the shared scratch, the gathers' semaphores at zero, the copy-outs as `pendSt` says, the thread's debt. -/
def inv3_0 (O : CellTallies nD τ sig (HIx 2)) (W : Waits sig (HIx 2)) (g : Buf (Elt F) (sh0Loc d (cV0 L))) (t1 : Fin k1_t1_loop.trips)
    (j : ℕ) (_ : PUnit) : sProp 𝕄 :=
  iprop(Transfers.MayWaits (thr0 d L) (default : HIx 2) O
    ∗ (∃ fo, ((ibV).view.loc (thr0 d L) ↦{fullShare} fo) ∗ ⌜IdxOk fo⌝)
    ∗ ((shV).view.loc (thr0 d L) ↦{(rdShare (L 1).val).left} g) ∗ ((shV).view.loc (thr0 d L) ↦{(rdShare (L 1).val).right} g)
    ∗ semVal (dcell d (cV0 L) (jV0 L) cc1_scratch4.sem) 0 ∗ semVal (dcell d (cV0 L) (jV0 L) cc1_scratch5.sem) 0
    ∗ pendSt0 d L (8 * t1.val + j)
    ∗ ∃ W', ⌜∀ p ∈ W', p ∈ W ∨ p.2 = none⌝ ∗ owes (thr0 d L) O W')

omit [FloatOps F] in
theorem flA0_intro (p : Blk0) (fa : Buf (Elt F) (outLoc0 d)) (fra : Buf (Elt F) ((thr0 d L).loc cc1_scratch2)) :
    (Transfers.Flight countersEmb (thr0 d L) (SemLoc.dma cc1_scratch6.sem) (default : HIx 2) 524288
      iprop(((outAM0 L p.1 p.2).view.loc (thr0 d L) ↦[(outAM0 L p.1 p.2).view.set]{fullShare} fa)
        ∗ ((raV).view.loc (thr0 d L) ↦[(raV).view.set]{fullShare} fra)) : sProp 𝕄) ⊢ flA0 d L p fra := by
  refine Transfers.Flight_mono countersEmb (thr0 d L) ?_
  iintro ⟨Hd, Hs⟩
  isplitl [Hd]; · iexists fa; iexact Hd
  iexact Hs
omit [FloatOps F] in
theorem flB0_intro (p : Blk0) (fb : Buf (Elt F) (outLoc0 d)) (frb : Buf (Elt F) ((thr0 d L).loc cc1_scratch3)) :
    (Transfers.Flight countersEmb (thr0 d L) (SemLoc.dma cc1_scratch7.sem) (default : HIx 2) 524288
      iprop(((outBM0 L p.1 p.2).view.loc (thr0 d L) ↦[(outBM0 L p.1 p.2).view.set]{fullShare} fb)
        ∗ ((rbV).view.loc (thr0 d L) ↦[(rbV).view.set]{fullShare} frb)) : sProp 𝕄) ⊢ flB0 d L p frb := by
  refine Transfers.Flight_mono countersEmb (thr0 d L) ?_
  iintro ⟨Hd, Hs⟩
  isplitl [Hd]; · iexists fb; iexact Hd
  iexact Hs

set_option maxHeartbeats 4000000 in
/-- One pair of gathers: the previous copy-outs waited for (but before the very first pair), the two gathers, each waited
    for and copied out to its block. -/
theorem t3_region0 (O : CellTallies nD τ sig (HIx 2)) (W : Waits sig (HIx 2)) (g : Buf (Elt F) (sh0Loc d (cV0 L))) (t1 : Fin k1_t1_loop.trips)
    (v13 v15 : BitVec 32) (j : Fin k1_t3_loop.trips) (acc : PUnit) :
    inv3_0 d L O W g t1 j.val acc
      ⊢ wp frame (wpE (defs₀ (F := F)) 𝒱₀ (thr0 d L) none) Set.univ
          (k1_t3_body L tV (Memref.isWhole_whole _) jV (Memref.isWhole_whole _) oV (Memref.isWhole_whole _) shV (Memref.isWhole_whole _)
            ibV (Memref.isWhole_whole _) raV (Memref.isWhole_whole _) rbV (Memref.isWhole_whole _) cc1_scratch4 cc1_scratch5 cc1_scratch6 cc1_scratch7 cc1_scoped0 cc1_scoped1 t1 v13 v15 j acc)
          (inv3_0 d L O W g t1 (j.val + 1)) := by
  unfold inv3_0
  rw [show 8 * t1.val + (j.val + 1) = (8 * t1.val + j.val) + 1 from (Nat.add_assoc _ _ _).symm, pendSt0_succ, blk0_cur]
  rcases Nat.eq_zero_or_pos (8 * t1.val + j.val) with hn | hn
  · -- the very first pair: nothing pending
    have hc2 : ¬ k1_cond2 t1 j = 1#1 := fun h => (k1_cond2_iff t1 j).mp h ⟨by omega, by omega⟩
    have hc3 : ¬ k1_cond3 t1 j = 1#1 := fun h => (k1_cond3_iff t1 j).mp h ⟨by omega, by omega⟩
    rw [hn, pendSt0_zero]
    unfold pendNone0
    rw [pileA0_out (F := F) d L (Finset.mem_univ (t1, j)), pileB0_out (F := F) d L (Finset.mem_univ (t1, j))]
    iintro ⟨#Hmw, ⟨%fo, Hib, %hfo⟩, Hsh, Hsh2, Hs4, Hs5, ⟨⟨%fra, Hra⟩, ⟨%frb, Hrb⟩, Hs6, Hs7, ⟨⟨%fa, HoA⟩, HpA⟩, ⟨⟨%fb, HoB⟩, HpB⟩⟩, %W', %hW', HO⟩
    have hinA : ∀ x, ((offA0 j).view.read (Elt F) fo x).toNat < S10000x128.size gathers_S10000x128_S128x128.axis := fun x => hfo _
    have hinB : ∀ x, ((offB0 j).view.read (Elt F) fo x).toNat < S10000x128.size gathers_S10000x128_S128x128.axis := fun x => hfo _
    ihave HoA' := (Entails.of_eq (pts_outA0 (F := F) d L t1 j _).symm) $$ HoA
    ihave HoB' := (Entails.of_eq (pts_outB0 (F := F) d L t1 j _).symm) $$ HoB
    sl_exec
    sl_step
    isplitr; · iexact Hmw
    isplitl [Hib]; · iexists fo; isplitl [Hib]; · iexact Hib
                     ipureintro; exact hfo
    isplitl [Hsh]; · iexact Hsh
    isplitl [Hsh2]; · iexact Hsh2
    isplitl [Hs4]; · iexact Hs4
    isplitl [Hs5]; · iexact Hs5
    isplitl [Hs6 Hra Hs7 Hrb HpA HpB]
    · unfold pendAt0
      iexists _; iexists _
      isplitl [Hs6]; · iapply (flA0_intro (F := F) d L (t1, j) _ _); iexact Hs6
      isplitl [Hra]; · iexact Hra
      isplitl [Hs7]; · iapply (flB0_intro (F := F) d L (t1, j) _ _); iexact Hs7
      isplitl [Hrb]; · iexact Hrb
      isplitl [HpA]; · iexact HpA
      iexact HpB
    iexists _; isplitr
    swap; · iexact HO
    ipureintro; intro p hp
    rcases Finset.mem_insert.mp hp with hp | hp; · exact .inr (hp ▸ rfl)
    rcases Finset.mem_insert.mp hp with hp | hp; · exact .inr (hp ▸ rfl)
    exact hW' p hp
  · -- a later pair: the pending copy-outs are waited for first
    obtain ⟨m, hm⟩ : ∃ m, 8 * t1.val + j.val = m + 1 := ⟨8 * t1.val + j.val - 1, by omega⟩
    have hc2 : k1_cond2 t1 j = 1#1 := (k1_cond2_iff t1 j).mpr (by omega)
    have hc3 : k1_cond3 t1 j = 1#1 := (k1_cond3_iff t1 j).mpr (by omega)
    have hne : (t1, j) ∈ (Finset.univ : Finset Blk0).erase (blk0 m) := Finset.mem_erase.mpr ⟨blk0_ne_succ t1 j hm, Finset.mem_univ _⟩
    rw [hm, pendSt0_succ]
    unfold pendAt0
    rw [pileA0_out (F := F) d L hne, pileB0_out (F := F) d L hne]
    iintro ⟨#Hmw, ⟨%fo, Hib, %hfo⟩, Hsh, Hsh2, Hs4, Hs5, ⟨%fra, %frb, Hs6, Hra, Hs7, Hrb, ⟨⟨%fa, HoA⟩, HpA⟩, ⟨⟨%fb, HoB⟩, HpB⟩⟩, %W', %hW', HO⟩
    have hinA : ∀ x, ((offA0 j).view.read (Elt F) fo x).toNat < S10000x128.size gathers_S10000x128_S128x128.axis := fun x => hfo _
    have hinB : ∀ x, ((offB0 j).view.read (Elt F) fo x).toNat < S10000x128.size gathers_S10000x128_S128x128.axis := fun x => hfo _
    ihave HoA' := (Entails.of_eq (pts_outA0 (F := F) d L t1 j _).symm) $$ HoA
    ihave HoB' := (Entails.of_eq (pts_outB0 (F := F) d L t1 j _).symm) $$ HoB
    sl_exec
    sl_step
    isplitr; · iexact Hmw
    isplitl [Hib]; · iexists fo; isplitl [Hib]; · iexact Hib
                     ipureintro; exact hfo
    isplitl [Hsh]; · iexact Hsh
    isplitl [Hsh2]; · iexact Hsh2
    isplitl [Hs4]; · iexact Hs4
    isplitl [Hs5]; · iexact Hs5
    isplitl [Hs6 Hra Hs7 Hrb HpA HpB Hs6_dst Hs7_dst]
    · iexists _; iexists _
      isplitl [Hs6]; · iapply (flA0_intro (F := F) d L (t1, j) _ _); iexact Hs6
      isplitl [Hra]; · iexact Hra
      isplitl [Hs7]; · iapply (flB0_intro (F := F) d L (t1, j) _ _); iexact Hs7
      isplitl [Hrb]; · iexact Hrb
      have hne' : blk0 m ∈ (Finset.univ : Finset Blk0).erase (t1, j) := Finset.mem_erase.mpr ⟨(blk0_ne_succ t1 j hm).symm, Finset.mem_univ _⟩
      isplitl [HpA Hs6_dst]
      · rw [pileA0_out (F := F) d L hne', Finset.erase_right_comm]
        isplitl [Hs6_dst]; · iexact Hs6_dst
        iexact HpA
      · rw [pileB0_out (F := F) d L hne', Finset.erase_right_comm]
        isplitl [Hs7_dst]; · iexact Hs7_dst
        iexact HpB
    iexists _; isplitr
    swap; · iexact HO
    ipureintro; intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact hW' p hp

/-- The sixteen lanes of the index scratch one trip of the subtraction reads and writes. -/
abbrev subR0 (t2 : Fin k1_t2_loop.trips) : Rect S2048 := Rect.unit (s := S2048) (k1_off4 t2) S16.size (k1_off4_inb t2)

/-- After `k` trips of the subtraction: the words below `16 k` name rows of the shared scratch, the others still rows of
    SparseCore `c`'s half of the table. -/
def SubOk0 (c k : ℕ) (fo : Buf (Elt F) ((thr0 d L).loc cc1_scratch1)) : Prop :=
  ∀ y : S2048.Idx, if (y 0).val < 16 * k then ((ibV).view.read (Elt F) fo y).toNat < 10000
    else 10000 * c ≤ ((ibV).view.read (Elt F) fo y).toNat ∧ ((ibV).view.read (Elt F) fo y).toNat < 10000 * c + 10000

omit [FloatOps F] in
theorem k1_pay1_apply (v22 : Vec F S16 .i32) (x : S16.Idx) : ∃ x', k1_pay1 (F := F) L v22 x = v22 x' - (BitVec.ofNat 32 (L 0).val * 10000#32) := by
  unfold k1_pay1 shapeCast subi broadcast
  exact ⟨_, rfl⟩

omit [FloatOps F] in
theorem sub_toNat0 {c : ℕ} (hc : c < 2) {a : BitVec 32} (h1 : 10000 * c ≤ a.toNat) (h2 : a.toNat < 10000 * c + 10000) :
    (a - (BitVec.ofNat 32 c * 10000#32)).toNat < 10000 := by
  have hm : (BitVec.ofNat 32 c * 10000#32).toNat = 10000 * c := by
    rw [BitVec.toNat_mul, BitVec.toNat_ofNat]
    show c % 2 ^ 32 * 10000 % 2 ^ 32 = 10000 * c
    omega
  rw [BitVec.toNat_sub, hm]
  have := a.isLt
  omega

omit [FloatOps F] in
theorem subOk0_step (t2 : Fin k1_t2_loop.trips) (fo : Buf (Elt F) ((thr0 d L).loc cc1_scratch1)) (h : SubOk0 d L (L 0).val t2.val fo) :
    SubOk0 d L (L 0).val (t2.val + 1)
      ((ibV).view.writes (Elt F) fo [⟨subR0 t2, k1_pay1 L ((ibV).view.readAt (Elt F) (subR0 t2).toLoadRect fo)⟩]) := by
  have hc : (L 0).val < 2 := (L 0).isLt
  have hoff : k1_off4 t2 = ![16 * t2.val] := k1_off4_eq t2
  intro y
  by_cases hy : y ∈ (subR0 t2).set
  · obtain ⟨x, rfl⟩ := (subR0 t2).exists_idx_of_mem hy
    have hx0 : (((subR0 t2).idx x) 0 : ℕ) = 16 * t2.val + (x 0).val := by
      rw [LoadRect.idx_apply]; simp [hoff]
    have hxl : (x 0).val < 16 := (x 0).isLt
    rw [if_pos (by rw [hx0]; omega)]
    rw [show (subR0 t2).idx x = (subR0 t2).emb x from rfl, View.read_writes_cons_emb]
    obtain ⟨x', hx'⟩ := k1_pay1_apply (F := F) L ((ibV).view.readAt (Elt F) (subR0 t2).toLoadRect fo) x
    rw [hx', View.readAt_apply]
    have hx0' : (((subR0 t2).toLoadRect.idx x') 0 : ℕ) = 16 * t2.val + (x' 0).val := by
      rw [LoadRect.idx_apply]; simp [hoff]
    have hy' := h ((subR0 t2).toLoadRect.idx x')
    rw [if_neg (by rw [hx0']; omega)] at hy'
    exact sub_toNat0 hc hy'.1 hy'.2
  · rw [View.read_writes_apply_of_forall_not_mem _ _ y _ (fun p hp => by rw [List.mem_singleton.mp hp]; exact hy)]
    have hy0 : ¬ (16 * t2.val ≤ (y 0).val ∧ (y 0).val < 16 * t2.val + 16) := by
      intro hh; apply hy
      rw [Rect.mem_set_unit]
      intro a
      have ha : a = 0 := Subsingleton.elim _ _
      subst ha
      simp [hoff]; omega
    have hy' := h y
    by_cases hlt : (y 0).val < 16 * t2.val
    · rw [if_pos hlt] at hy'; rw [if_pos (by omega)]; exact hy'
    · rw [if_neg hlt] at hy'; rw [if_neg (by omega)]; exact hy'

/-- The subtraction loop's invariant: the index scratch whole, `SubOk` of its words. -/
def inv2_0 (k : ℕ) (_ : PUnit) : sProp 𝕄 :=
  iprop(∃ fo, ((ibV).view.loc (thr0 d L) ↦{fullShare} fo) ∗ ⌜SubOk0 d L (L 0).val k fo⌝)

set_option maxHeartbeats 2000000 in
theorem t2_region0 (t2 : Fin k1_t2_loop.trips) (acc : PUnit) :
    inv2_0 d L t2.val acc
      ⊢ wp frame (wpE (defs₀ (F := F)) 𝒱₀ (thr0 d L) none) Set.univ
          (k1_t2_body L tV (Memref.isWhole_whole _) jV (Memref.isWhole_whole _) oV (Memref.isWhole_whole _) shV (Memref.isWhole_whole _)
            ibV (Memref.isWhole_whole _) raV (Memref.isWhole_whole _) rbV (Memref.isWhole_whole _) cc1_scratch4 cc1_scratch5 cc1_scratch6 cc1_scratch7 cc1_scoped0 cc1_scoped1 t2 acc)
          (inv2_0 d L (t2.val + 1)) := by
  unfold inv2_0
  iintro ⟨%fo, Hib, %h⟩
  sl_exec
  sl_step
  iexists _; isplitl [Hib]; · iexact Hib
  ipureintro; exact subOk0_step d L t2 fo h

omit [FloatOps F] in
theorem subOk0_init (t1 : Fin k1_t1_loop.trips) (jx : Buf (Elt F) (idxLoc0 d)) (hr : InRange (L 0).val (idxSet0 L t1) jx)
    (fib : Buf (Elt F) ((thr0 d L).loc cc1_scratch1)) :
    SubOk0 d L (L 0).val 0 ((ibV).view.write (Elt F) fib (ReadAs.same.apply ((idxM0 L t1).view.read (Elt F) jx)) Finset.univ) := by
  intro y
  rw [if_neg (by omega), View.read_write_univ]
  exact hr ((idxM0 L t1).view.emb y) (Finset.mem_map_of_mem _ (Finset.mem_univ y))

omit [FloatOps F] in
theorem idxOk0_of_sub (fo : Buf (Elt F) ((thr0 d L).loc cc1_scratch1)) (h : SubOk0 d L (L 0).val k1_t2_loop.trips fo) : IdxOk fo := fun y => by
  have hy : (y 0).val < 2048 := (y 0).isLt
  have := h y
  rw [if_pos (by rw [k1_t2_trips]; omega)] at this
  exact this

/-- The invariant of the loop over the five blocks of indices: the tile's index words, the index scratch, the two read
    shares of the shared scratch, the index copy's and the gathers' semaphores at zero, the copy-outs as `pendSt` says. -/
def inv1_0 (O : CellTallies nD τ sig (HIx 2)) (W : Waits sig (HIx 2)) (g : Buf (Elt F) (sh0Loc d (cV0 L))) (k : ℕ) (_ : PUnit) : sProp 𝕄 :=
  iprop(Transfers.MayWaits (thr0 d L) (default : HIx 2) O
    ∗ idxPiece0 d L
    ∗ (∃ fo, (ibV).view.loc (thr0 d L) ↦{fullShare} fo)
    ∗ ((shV).view.loc (thr0 d L) ↦{(rdShare (L 1).val).left} g) ∗ ((shV).view.loc (thr0 d L) ↦{(rdShare (L 1).val).right} g)
    ∗ semVal (dcell d (cV0 L) (jV0 L) cc1_scoped1.sem) 0
    ∗ semVal (dcell d (cV0 L) (jV0 L) cc1_scratch4.sem) 0 ∗ semVal (dcell d (cV0 L) (jV0 L) cc1_scratch5.sem) 0
    ∗ pendSt0 d L (8 * k)
    ∗ ∃ W', ⌜∀ p ∈ W', p ∈ W ∨ p.2 = none⌝ ∗ owes (thr0 d L) O W')

set_option maxHeartbeats 4000000 in
/-- One block of 2048 indices: copied in, the row offset subtracted, eight pairs of gathers. -/
theorem t1_region0 (O : CellTallies nD τ sig (HIx 2)) (W : Waits sig (HIx 2)) (g : Buf (Elt F) (sh0Loc d (cV0 L))) (v5 : BitVec 32)
    (t1 : Fin k1_t1_loop.trips) (acc : PUnit) :
    inv1_0 d L O W g t1.val acc
      ⊢ wp frame (wpE (defs₀ (F := F)) 𝒱₀ (thr0 d L) none) Set.univ
          (k1_t1_body L tV (Memref.isWhole_whole _) jV (Memref.isWhole_whole _) oV (Memref.isWhole_whole _) shV (Memref.isWhole_whole _)
            ibV (Memref.isWhole_whole _) raV (Memref.isWhole_whole _) rbV (Memref.isWhole_whole _) cc1_scratch4 cc1_scratch5 cc1_scratch6 cc1_scratch7 cc1_scoped0 cc1_scoped1 v5 t1 acc)
          (inv1_0 d L O W g (t1.val + 1)) := by
  unfold inv1_0 idxPiece0
  iintro ⟨#Hmw, ⟨%jx, %hrng, Hidx⟩, ⟨%fib, Hib⟩, Hsh, Hsh2, Hp1, Hs4, Hs5, Hpend, %W', %hW', HO⟩
  ihave Hsp := (Entails.of_eq (SparseCore.bigSep_erase' (Finset.mem_univ t1)
    (Φ := fun t : Fin k1_t1_loop.trips => (idxLoc0 d ↦[idxSet0 L t]{fullShare} jx : sProp 𝕄)))) $$ Hidx
  icases Hsp with ⟨Hi, Hirest⟩
  ihave Hi' := (Entails.of_eq (pts_idx0 (F := F) d L t1 _).symm) $$ Hi
  -- the block of indices in, waited for
  sl_exec
  -- the subtraction
  sl_for (inv2_0 d L) $$ [Hib]
  case region => exact fun t2 acc => t2_region0 d L t2 acc
  · unfold inv2_0
    iexists _; isplitl [Hib]; · iexact Hib
    ipureintro; exact subOk0_init d L t1 jx (hrng t1) fib
  iintro %_ HI
  unfold inv2_0
  icases HI with ⟨%fo, Hib, %hsub⟩
  have hok : IdxOk fo := idxOk0_of_sub d L fo hsub
  -- the gathers
  sl_for (inv3_0 d L O (insert (SemLoc.dma cc1_scoped1.sem, (default : HIx 2)) W') g t1) $$ [Hib Hsh Hsh2 Hs4 Hs5 Hpend HO]
  case region => exact fun j acc => t3_region0 d L O _ g t1 _ _ j acc
  · unfold inv3_0
    isplitr; · iexact Hmw
    isplitl [Hib]; · iexists fo; isplitl [Hib]; · iexact Hib
                     ipureintro; exact hok
    isplitl [Hsh]; · iexact Hsh
    isplitl [Hsh2]; · iexact Hsh2
    isplitl [Hs4]; · iexact Hs4
    isplitl [Hs5]; · iexact Hs5
    isplitl [Hpend]; · iexact Hpend
    iexists _; isplitr
    swap; · iexact HO
    ipureintro; exact fun p hp => .inl hp
  iintro %_ HI
  unfold inv3_0
  icases HI with ⟨-, ⟨%fo', Hib, -⟩, Hsh, Hsh2, Hs4, Hs5, Hpend, %W'', %hW'', HO⟩
  sl_exec
  sl_step
  isplitr; · iexact Hmw
  isplitl [Hi' Hirest]
  · iexists jx; isplitr; · ipureintro; exact hrng
    iapply (Entails.of_eq (SparseCore.bigSep_erase' (Finset.mem_univ t1)
      (Φ := fun t : Fin k1_t1_loop.trips => (idxLoc0 d ↦[idxSet0 L t]{fullShare} jx : sProp 𝕄))).symm)
    isplitl [Hi']; · iapply (Entails.of_eq (pts_idx0 (F := F) d L t1 _)); iexact Hi'
    iexact Hirest
  isplitl [Hib]; · iexists _; iexact Hib
  isplitl [Hsh]; · iexact Hsh
  isplitl [Hsh2]; · iexact Hsh2
  isplitl [Hp1]; · iexact Hp1
  isplitl [Hs4]; · iexact Hs4
  isplitl [Hs5]; · iexact Hs5
  isplitl [Hpend]
  · iapply (Entails.of_eq (congrArg (pendSt0 (F := F) d L) (show 8 * t1.val + k1_t3_loop.trips = 8 * (t1.val + 1) by rw [k1_t3_trips]; omega))); iexact Hpend
  iexists W''; isplitr
  swap; · iexact HO
  ipureintro; intro p hp
  rcases hW'' p hp with h | h
  · rcases Finset.mem_insert.mp h with h | h
    · exact .inr (h ▸ rfl)
    · exact hW' p h
  · exact .inr h

omit [FloatOps F] in
/-- A family over `Fin N` that is nothing from `n` on is the family over `Fin n`. -/
theorem bigSep_fin_dite {n N : ℕ} (h : n ≤ N) (X : Fin n → sProp 𝕄) :
    (bigSep Finset.univ fun i : Fin N => if hi : i.val < n then X ⟨i.val, hi⟩ else iprop(emp)) = bigSep Finset.univ X := by
  let X' : Fin N → sProp 𝕄 := fun i => if hi : i.val < n then X ⟨i.val, hi⟩ else iprop(emp)
  have h1 : (bigSep Finset.univ fun i : Fin N => if hi : i.val < n then X ⟨i.val, hi⟩ else iprop(emp))
      = bigSep Finset.univ fun i : Fin N => if i.val < n then X' i else (BI.emp : sProp 𝕄) :=
    bigSep_congr fun (i : Fin N) _ => by
      by_cases hi : i.val < n
      · rw [if_pos hi]
      · rw [if_neg hi, dif_neg hi]; rfl
  rw [h1, ← bigSep_filter,
    show (Finset.univ.filter fun i : Fin N => i.val < n) = Finset.univ.map (Fin.castLEEmb h) from by
      ext i; simp only [Finset.mem_filter, Finset.mem_univ, true_and, Finset.mem_map, Fin.castLEEmb_apply]
      exact ⟨fun hi => ⟨⟨i.val, hi⟩, Fin.ext rfl⟩, fun ⟨j, hj⟩ => hj ▸ j.isLt⟩,
    bigSep_map]
  exact bigSep_congr fun (i : Fin n) _ => by
    show X' (Fin.castLE h i) = X i
    show (if hi : (Fin.castLE h i).val < n then X ⟨(Fin.castLE h i).val, hi⟩ else iprop(emp)) = X i
    rw [dif_pos (show (Fin.castLE h i).val < n from i.isLt)]; rfl

omit [FloatOps F] in
theorem shRect0_eq (h : k1_cond1 L = 1#1) :
    Rect.unit (s := S10000x128) (k1_off1 L) S1000x128.size (k1_off1_inb L h) = Rect.part (s := S10000x128) (a₀ := 0) h10 ⟨(L 1).val, (k1_cond1_iff L).mp h⟩ := by
  unfold Rect.part Rect.block
  congr 1 <;> funext a
  · rw [k1_off1_eq]
    match a with
    | 0 => simp [Shape.partIx, Shape.partSize, Nat.mul_comm]
    | 1 => simp [Shape.partIx, Shape.partSize]
  · match a with
    | 0 => simp [Shape.partSize]
    | 1 => simp [Shape.partSize]

omit [FloatOps F] in
theorem shSet0_eq (h : k1_cond1 L = 1#1) : shSet0 L h = shRowSet ⟨(L 1).val, (k1_cond1_iff L).mp h⟩ := by
  show ((View.whole (cc1_scratch0 : Ref sig .scVector)).slice (Rect.unit (s := S10000x128) (k1_off1 L) S1000x128.size (k1_off1_inb L h))).set = _
  rw [View.set_slice, shRect0_eq L h]; exact Finset.map_refl

/-- A writing tile splits its rows' share: what it keeps aside, and for every tile's barrier cell the duty's payload — that
    tile's read share of the rows; a tile that writes nothing pays with nothing. -/
theorem pays_intro0 :
    shPiece0 (F := F) fullShare d L ⊢ iprop(shPiece0 restShare d L
      ∗ bigSep Finset.univ fun j : Fin (grid1.bound 1) => (bRd (F := F)).payload (bcell d (cV0 L) (j.castLE hsub1)) 0 (jV0 L).val) := by
  unfold shPiece0
  by_cases h : k1_cond1 L = 1#1
  · have hn : (jV0 L).val < 10 := (k1_cond1_iff L).mp h
    rw [dif_pos h, dif_pos h]
    iintro ⟨%f, H⟩
    ihave H2 := (Transfers.pointsTo_toks_split (ℓ := sh0Loc d (cV0 L)) (S := shSet0 L h) (f := f) fullShare (grid1.bound 1)) $$ H
    icases H2 with ⟨Hrest, Htoks⟩
    isplitl [Hrest]; · iexists f; iexact Hrest
    have hj : ∀ j : Fin (grid1.bound 1), (sh0Loc d (cV0 L) ↦[shSet0 L h]{Transfers.shareTok fullShare (grid1.bound 1) j} f : sProp 𝕄)
        ⊢ (bRd (F := F)).payload (bcell d (cV0 L) (j.castLE hsub1)) 0 (jV0 L).val := by
      intro j
      show _ ⊢ bPay (bcell d (cV0 L) (j.castLE hsub1)) 0 (jV0 L).val
      unfold bPay; dsimp only
      rw [dif_pos hn, if_pos rfl, shSet0_eq L h]
      iintro H; iexists f; iexact H
    iapply (SparseCore.ent (bigSep_mono fun j _ => hj j)) $$ Htoks
  · have hn : ¬ (jV0 L).val < 10 := fun hh => h ((k1_cond1_iff L).mpr hh)
    rw [dif_neg h, dif_neg h]
    iintro -
    isplitr; · iempintro
    have he : (fun j : Fin (grid1.bound 1) => (bRd (F := F)).payload (bcell d (cV0 L) (j.castLE hsub1)) 0 (jV0 L).val) = fun _ => (iprop(emp) : sProp 𝕄) := by
      funext j
      show bPay (bcell d (cV0 L) (j.castLE hsub1)) 0 (jV0 L).val = _
      unfold bPay; dsimp only
      rw [dif_neg hn]
    rw [he, show (bigSep Finset.univ fun _ : Fin (grid1.bound 1) => (iprop(emp) : sProp 𝕄)) = iprop(emp) from bigSep_emp_const _]; iempintro

omit [FloatOps F] in
theorem shRows_disjoint : ∀ i ∈ (Finset.univ : Finset (Fin 10)), ∀ j ∈ (Finset.univ : Finset (Fin 10)), i ≠ j → Disjoint (shRowSet i) (shRowSet j) :=
  fun i _ j _ h => Rect.part_disjoint h10 h
omit [FloatOps F] in
theorem shRows_cover : (Finset.univ : Finset (Fin 10)).biUnion shRowSet = Finset.univ := Rect.biUnion_part h10

/-- What a tile reads off its own barrier cell's round: its read share of every writer's rows, that is of the whole scratch. -/
theorem pays_elim0 :
    bigSep ((bRd (F := F)).duties (bcell d (cV0 L) (jV0 L)) 0 \ ∅) (fun m => (bRd (F := F)).payload (bcell d (cV0 L) (jV0 L)) 0 m)
      ⊢ iprop(∃ g, sh0Loc d (cV0 L) ↦{rdShare (L 1).val} g) := by
  rw [Finset.sdiff_empty, bRd_duties d _ _ (by decide : 0 < 2), SparseCore.bigSep_image_of_injOn (fun a _ b _ e => Fin.val_injective e)]
  have he : (fun i : Fin τ.nSub => (bRd (F := F)).payload (bcell d (cV0 L) (jV0 L)) 0 i.val)
      = fun i : Fin τ.nSub => if hi : i.val < 10 then iprop(∃ f, sh0Loc d (cV0 L) ↦[shRowSet ⟨i.val, hi⟩]{rdShare (L 1).val} f) else iprop(emp) := by
    funext i
    show bPay (bcell d (cV0 L) (jV0 L)) 0 i.val = _
    unfold bPay; dsimp only
    by_cases hi : i.val < 10
    · rw [dif_pos hi, dif_pos hi, if_pos rfl]; rfl
    · rw [dif_neg hi, dif_neg hi]
  rw [he, bigSep_fin_dite (F := F) (show 10 ≤ τ.nSub by decide) (fun n : Fin 10 => iprop(∃ f, sh0Loc d (cV0 L) ↦[shRowSet n]{rdShare (L 1).val} f))]
  refine (bigSep_exists_pi Finset.univ (fun (n : Fin 10) (f : Buf (Elt F) (sh0Loc d (cV0 L))) => (sh0Loc d (cV0 L) ↦[shRowSet n]{rdShare (L 1).val} f : sProp 𝕄))).trans ?_
  iintro ⟨%fs, H⟩
  ihave H' := (pointsTo_biUnion_join Finset.univ shRowSet fs (fs 0) shRows_disjoint) $$ H
  icases H' with ⟨%g, -, Hg⟩
  rw [shRows_cover]
  iexists g; iexact Hg

omit [FloatOps F] in
theorem outPiece0_piles : (outPiece0 (F := F) d L : sProp 𝕄) = iprop(pileA0 d L Finset.univ ∗ pileB0 d L Finset.univ) := by
  unfold outPiece0 pileA0 pileB0
  rw [← bigSep_sep', bigSep_univ_prod]

noncomputable def k1_rest (i : grid1.Coords) (arg2 : Memref sig .scVector .hbm S20000x128 .f32) (harg2 : arg2.IsWhole) (arg3 : Memref sig .scVector .hbm S327680 .i32) (harg3 : arg3.IsWhole) (arg4 : Memref sig .scVector .hbm S327680x128 .f32) (harg4 : arg4.IsWhole) (arg5 : Memref sig .scVector .shared S10000x128 .f32) (harg5 : arg5.IsWhole) (arg6 : Memref sig .scVector .vmem S2048 .i32) (harg6 : arg6.IsWhole) (arg7 : Memref sig .scVector .vmem S128x128 .f32) (harg7 : arg7.IsWhole) (arg8 : Memref sig .scVector .vmem S128x128 .f32) (harg8 : arg8.IsWhole) (arg9 : DmaSems sig S_) (arg10 : DmaSems sig S_) (arg11 : DmaSems sig S_) (arg12 : DmaSems sig S_) (v16_r0 : DmaSems sig S_) (v18_r1 : DmaSems sig S_) :
    Prog (TpuEff nD τ sig (Elt F) Λ₀ (.scVector ((i 0).castLE hcore1) ((i 1).castLE hsub1))) PUnit := do
  let arg0 : BitVec 32 := BitVec.ofNat 32 (i 0).val
  let arg1 : BitVec 32 := BitVec.ofNat 32 (i 1).val
  SparseCore.subcoreBarrier sc_bar0 (grid1.bound 1) hsub1
  let v3 : BitVec 32 := Scalar.muli arg0 163840#32
  let v4 : BitVec 32 := Scalar.muli arg1 10240#32
  let v5 : BitVec 32 := Scalar.addi v3 v4
  Scf.Loop.for k1_t1_loop k1_t1_ok ⟨⟩ (k1_t1_body i arg2 harg2 arg3 harg3 arg4 harg4 arg5 harg5 arg6 harg6 arg7 harg7 arg8 harg8 arg9 arg10 arg11 arg12 v16_r0 v18_r1 v5)
  let v9 : Memref sig .scVector .hbm S128x128 .f32 := arg4.slice (Rect.unit (s := S327680x128) (k1_off11 i) S128x128.size (k1_off11_inb i)) (fun _ => rfl)
  Prog.lift (.waitDma2 arg11.sem arg7 v9 harg7.wordExact (View.wordExact_bits rfl))
  let v11 : Memref sig .scVector .hbm S128x128 .f32 := arg4.slice (Rect.unit (s := S327680x128) (k1_off11 i) S128x128.size (k1_off11_inb i)) (fun _ => rfl)
  Prog.lift (.waitDma2 arg12.sem arg8 v11 harg8.wordExact (View.wordExact_bits rfl))
  pure ⟨⟩

set_option maxHeartbeats 8000000 in
/-- From the barrier on: the barrier (the rows' read shares paid to every tile's cell, the tile's own round read), the five
    blocks, the two final waits, and what the task hands back. -/
theorem rest0 (hF : (K (F := F)).Facts) (O : CellTallies nD τ sig (HIx 2)) (W : Waits sig (HIx 2)) (hO : ∀ g, O g none = 0)
    (hOlev : ∀ g ι, 0 < O g ι → 8 * (0 : Fin 2).val + 6 ≤ (K (F := F)).lev g ι) (κ : GSem nD τ sig → ℕ) (R₁ R₂ : sProp 𝕄) :
    iprop(levAts (K (F := F)).L (K (F := F)).lev
        ∗ (bigSep Finset.univ fun j : Fin (grid1.bound 1) => cellInv EB (bRd (F := F)) (κ (bcell d (cV0 L) (j.castLE hsub1))) (bcell d (cV0 L) (j.castLE hsub1)))
        ∗ (bigSep Finset.univ fun j : Fin (grid1.bound 1) => dutyTok EB (bcell d (cV0 L) (j.castLE hsub1)) 0 (jV0 L).val)
        ∗ (bigSep Finset.univ fun j : Fin (grid1.bound 1) => reached EB (bcell d (cV0 L) (j.castLE hsub1)) 0)
        ∗ atPos EB (bcell d (cV0 L) (jV0 L)) 0 ∅ 0
        ∗ cred (tallyAt (bcell d (cV0 L) (jV0 L)) (some 0) (grid1.bound 1))
        ∗ idxPiece0 d L ∗ outPiece0 d L ∗ tblPiece0 d L ∗ shPiece0 fullShare d L
        ∗ (∃ f, (thr0 d L).loc cc1_scratch1 ↦{fullShare} f) ∗ (∃ f, (thr0 d L).loc cc1_scratch2 ↦{fullShare} f) ∗ (∃ f, (thr0 d L).loc cc1_scratch3 ↦{fullShare} f)
        ∗ semVal (dcell d (cV0 L) (jV0 L) cc1_scratch4.sem) 0 ∗ semVal (dcell d (cV0 L) (jV0 L) cc1_scratch5.sem) 0
        ∗ semVal (dcell d (cV0 L) (jV0 L) cc1_scratch6.sem) 0 ∗ semVal (dcell d (cV0 L) (jV0 L) cc1_scratch7.sem) 0
        ∗ semVal (dcell d (cV0 L) (jV0 L) cc1_scoped0.sem) 0 ∗ semVal (dcell d (cV0 L) (jV0 L) cc1_scoped1.sem) 0
        ∗ R₁ ∗ R₂
        ∗ ∃ W₁, ⌜∀ p ∈ W₁, p ∈ W ∨ p.2 = none⌝ ∗ owes (thr0 d L) (O + oxV 0 d (cV0 L)) W₁)
      ⊢ wp frame (wpE (defs₀ (F := F)) 𝒱₀ (thr0 d L) none) Set.univ
          (k1_rest (F := F) L tV (Memref.isWhole_whole _) jV (Memref.isWhole_whole _) oV (Memref.isWhole_whole _) shV (Memref.isWhole_whole _)
            ibV (Memref.isWhole_whole _) raV (Memref.isWhole_whole _) rbV (Memref.isWhole_whole _) cc1_scratch4 cc1_scratch5 cc1_scratch6 cc1_scratch7 cc1_scoped0 cc1_scoped1)
          fun _ => iprop(td0 d L
            ∗ ((∃ f, (thr0 d L).loc cc1_scratch1 ↦{fullShare} f) ∗ (∃ f, (thr0 d L).loc cc1_scratch2 ↦{fullShare} f) ∗ (∃ f, (thr0 d L).loc cc1_scratch3 ↦{fullShare} f) ∗ R₁)
            ∗ (semVal (dcell d (cV0 L) (jV0 L) cc1_scratch4.sem) 0 ∗ semVal (dcell d (cV0 L) (jV0 L) cc1_scratch5.sem) 0
              ∗ semVal (dcell d (cV0 L) (jV0 L) cc1_scratch6.sem) 0 ∗ semVal (dcell d (cV0 L) (jV0 L) cc1_scratch7.sem) 0
              ∗ semVal (dcell d (cV0 L) (jV0 L) cc1_scoped0.sem) 0 ∗ semVal (dcell d (cV0 L) (jV0 L) cc1_scoped1.sem) 0 ∗ R₂)
            ∗ ∃ W', ⌜∀ p ∈ W', p ∈ W ∨ p.2 = none ∨ p.2 = some (0 : Fin 2)⌝ ∗ owes (thr0 d L) O W') := by
  unfold k1_rest
  iintro ⟨#Hlv, #Hinv, Htoks, #Hrch, Hat, Hcred, Hidx, Hout, Htbl, Hsh, ⟨%fib, Hib⟩, ⟨%fra, Hra⟩, ⟨%frb, Hrb⟩, Hs4, Hs5, Hs6, Hs7, Hp0, Hp1, HR₁, HR₂, %W₁, %hW₁, HO⟩
  have hO' : ∀ g, (O + oxV 0 d (cV0 L)) g none = 0 := fun g => by rw [Pi.add_apply, Finsupp.add_apply, hO g, oxV_none]
  ihave Hmw2 := (show levAts (K (F := F)).L (K (F := F)).lev ⊢ Transfers.MayWaits (thr0 d L) (default : HIx 2) O from
    (K (F := F)).mayWaits_none (thr := thr0 d L) hO) $$ Hlv
  -- the barrier
  ihave Hp := (pays_intro0 (F := F) d L) $$ Hsh
  icases Hp with ⟨Hshrest, Hpays⟩
  iapply (SparseCore.wp_subcoreBarrier 𝒱₀ none EB (bRd (F := F)) d (sc := cV0 L) (i := jV0 L) sc_bar0 (grid1.bound 1) hsub1 (L 1) rfl κ (fun _ => 0) (jV0 L).val
      (fun j => bRd_mem d _ _ _ (by decide)) (fun _ => rfl) (bRd_expect d _ _ (by decide)) (some 0) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := thr0 d L) (8 * (0 : Fin 2).val + 3) (fun p hp => by
        rw [Finset.mem_singleton] at hp; subst hp
        show (K (F := F)).lev (bcell d (cV0 L) (jV0 L)) (some 0) ≤ _
        rw [(K (F := F)).lev_V_reg d _ _ (show (sc_bar0 : Sem sig) ≠ (K (F := F)).go from sc_bar0_ne_go)])
      (fun g ι hg => lt_of_lt_of_le (by decide) (hOlev g ι hg)))
    iexact Hlv
  iintro ⟨HO, Hat, #Hrch', Hgot⟩
  ihave Hg := (pays_elim0 (F := F) d L) $$ Hgot
  icases Hg with ⟨%g, Hg⟩
  ihave Hg2 := (pointsTo_share (ℓ := sh0Loc d (cV0 L)) (I := Finset.univ) (f := g) (PosShare.mem_left_op_right (rdShare (L 1).val))).1 $$ Hg
  icases Hg2 with ⟨Hsh, Hsh2⟩
  ihave Hsh' := (Entails.of_eq (pts_shW0 (F := F) d L _ _).symm) $$ Hsh
  ihave Hsh2' := (Entails.of_eq (pts_shW0 (F := F) d L _ _).symm) $$ Hsh2
  ihave Hib' := (Entails.of_eq (pts_ib0 (F := F) d L _).symm) $$ Hib
  ihave Hra' := (Entails.of_eq (pts_ra0 (F := F) d L _).symm) $$ Hra
  ihave Hrb' := (Entails.of_eq (pts_rb0 (F := F) d L _).symm) $$ Hrb
  sl_exec
  -- the five blocks
  sl_for (inv1_0 d L O (insert (SemLoc.reg sc_bar0, some (0 : Fin 2)) W₁) g) $$ [Hidx Hib' Hsh' Hsh2' Hp1 Hs4 Hs5 Hra' Hrb' Hs6 Hs7 Hout HO]
  case region => exact fun t1 acc => t1_region0 d L O _ g _ t1 acc
  · unfold inv1_0
    isplitr; · iexact Hmw2
    isplitl [Hidx]; · iexact Hidx
    isplitl [Hib']; · iexists _; iexact Hib'
    isplitl [Hsh']; · iexact Hsh'
    isplitl [Hsh2']; · iexact Hsh2'
    isplitl [Hp1]; · iexact Hp1
    isplitl [Hs4]; · iexact Hs4
    isplitl [Hs5]; · iexact Hs5
    isplitl [Hra' Hrb' Hs6 Hs7 Hout]
    · rw [show 8 * 0 = 0 from rfl, pendSt0_zero]
      unfold pendNone0
      isplitl [Hra']; · iexists _; iexact Hra'
      isplitl [Hrb']; · iexists _; iexact Hrb'
      isplitl [Hs6]; · iexact Hs6
      isplitl [Hs7]; · iexact Hs7
      iapply (Entails.of_eq (outPiece0_piles (F := F) d L)); iexact Hout
    iexists _; isplitr
    swap; · iexact HO
    ipureintro; exact fun p hp => .inl hp
  iintro %_ HI
  unfold inv1_0
  icases HI with ⟨-, Hidx, ⟨%fib', Hib⟩, Hsh, Hsh2, Hp1, Hs4, Hs5, Hpend, %W₂, %hW₂, HO⟩
  ihave Hpend' := (Entails.of_eq (congrArg (pendSt0 (F := F) d L) (show 8 * k1_t1_loop.trips = 39 + 1 by rw [k1_t1_trips]))) $$ Hpend
  ihave Hpend'' := (Entails.of_eq (pendSt0_succ (F := F) d L 39)) $$ Hpend'
  unfold pendAt0
  icases Hpend'' with ⟨%fra', %frb', Hs6, Hra, Hs7, Hrb, HpA, HpB⟩
  -- the two final waits
  sl_exec
  sl_step
  isplitl [Hidx HpA HpB Hs6_dst Hs7_dst Htbl Hsh Hsh2 Hshrest Hat]
  · unfold td0
    isplitl [Hidx]; · iexact Hidx
    isplitl [HpA HpB Hs6_dst Hs7_dst]
    · iapply (Entails.of_eq (outPiece0_piles (F := F) d L).symm)
      isplitl [HpA Hs6_dst]
      · iapply (Entails.of_eq (pileA0_out (F := F) d L (Finset.mem_univ (blk0 39))).symm)
        isplitl [Hs6_dst]; · iexact Hs6_dst
        iexact HpA
      · iapply (Entails.of_eq (pileB0_out (F := F) d L (Finset.mem_univ (blk0 39))).symm)
        isplitl [Hs7_dst]; · iexact Hs7_dst
        iexact HpB
    isplitl [Htbl]; · iexact Htbl
    isplitl [Hsh Hsh2]
    · iexists g
      iapply (pointsTo_share (ℓ := sh0Loc d (cV0 L)) (I := Finset.univ) (f := g) (PosShare.mem_left_op_right (rdShare (L 1).val))).2
      isplitl [Hsh]; · iapply (Entails.of_eq (pts_shW0 (F := F) d L _ _)); iexact Hsh
      iapply (Entails.of_eq (pts_shW0 (F := F) d L _ _)); iexact Hsh2
    isplitl [Hshrest]; · iexact Hshrest
    isplitl [Hat]; · iexact Hat
    iexact Hrch'
  isplitl [Hib Hra Hrb HR₁]
  · isplitl [Hib]; · iexists _; iapply (Entails.of_eq (pts_ib0 (F := F) d L _)); iexact Hib
    isplitl [Hra]; · iexists _; iapply (Entails.of_eq (pts_ra0 (F := F) d L _)); iexact Hra
    isplitl [Hrb]; · iexists _; iapply (Entails.of_eq (pts_rb0 (F := F) d L _)); iexact Hrb
    iexact HR₁
  isplitl [Hs4 Hs5 Hs6 Hs7 Hp0 Hp1 HR₂]
  · isplitl [Hs4]; · iexact Hs4
    isplitl [Hs5]; · iexact Hs5
    isplitl [Hs6]; · iexact Hs6
    isplitl [Hs7]; · iexact Hs7
    isplitl [Hp0]; · iexact Hp0
    isplitl [Hp1]; · iexact Hp1
    iexact HR₂
  iexists _; isplitr
  swap; · iexact HO
  ipureintro; intro p hp
  rcases Finset.mem_insert.mp hp with hp | hp; · exact .inr (.inl (hp ▸ rfl))
  rcases Finset.mem_insert.mp hp with hp | hp; · exact .inr (.inl (hp ▸ rfl))
  rcases hW₂ p hp with h | h
  · rcases Finset.mem_insert.mp h with h | h
    · exact .inr (.inr (h ▸ rfl))
    · exact (hW₁ p h).imp_right Or.inl
  · exact .inr (.inl h)

theorem ownSems0_V0 (d : Dev nD) (c : Fin τ.nSC) (i : Fin τ.nSub) :
    (ownSems0 (V d c i) : sProp 𝕄) = iprop(semVal (dcell d c i cc1_scratch4.sem) 0 ∗ semVal (dcell d c i cc1_scratch5.sem) 0 ∗ semVal (dcell d c i cc1_scratch6.sem) 0 ∗ semVal (dcell d c i cc1_scratch7.sem) 0 ∗ semVal (dcell d c i cc1_scoped0.sem) 0 ∗ semVal (dcell d c i cc1_scoped1.sem) 0 ∗ bigSep (((((((ownCells (V d c i)).erase (dcell d c i cc1_scratch4.sem)).erase (dcell d c i cc1_scratch5.sem)).erase (dcell d c i cc1_scratch6.sem)).erase (dcell d c i cc1_scratch7.sem)).erase (dcell d c i cc1_scoped0.sem)).erase (dcell d c i cc1_scoped1.sem)) fun g => semVal g 0) := by
  unfold SparseCore.Cfg.ownSems0
  rw [SparseCore.bigSep_erase' (dcell_mem d c i cc1_scratch4.sem (by decide)),
    SparseCore.bigSep_erase' (Finset.mem_erase.mpr ⟨dcell_ne (by decide), (dcell_mem d c i cc1_scratch5.sem (by decide))⟩),
    SparseCore.bigSep_erase' (Finset.mem_erase.mpr ⟨dcell_ne (by decide), (Finset.mem_erase.mpr ⟨dcell_ne (by decide), (dcell_mem d c i cc1_scratch6.sem (by decide))⟩)⟩),
    SparseCore.bigSep_erase' (Finset.mem_erase.mpr ⟨dcell_ne (by decide), (Finset.mem_erase.mpr ⟨dcell_ne (by decide), (Finset.mem_erase.mpr ⟨dcell_ne (by decide), (dcell_mem d c i cc1_scratch7.sem (by decide))⟩)⟩)⟩),
    SparseCore.bigSep_erase' (Finset.mem_erase.mpr ⟨dcell_ne (by decide), (Finset.mem_erase.mpr ⟨dcell_ne (by decide), (Finset.mem_erase.mpr ⟨dcell_ne (by decide), (Finset.mem_erase.mpr ⟨dcell_ne (by decide), (dcell_mem d c i cc1_scoped0.sem (by decide))⟩)⟩)⟩)⟩),
    SparseCore.bigSep_erase' (Finset.mem_erase.mpr ⟨dcell_ne (by decide), (Finset.mem_erase.mpr ⟨dcell_ne (by decide), (Finset.mem_erase.mpr ⟨dcell_ne (by decide), (Finset.mem_erase.mpr ⟨dcell_ne (by decide), (Finset.mem_erase.mpr ⟨dcell_ne (by decide), (dcell_mem d c i cc1_scoped1.sem (by decide))⟩)⟩)⟩)⟩)⟩)]

theorem ownBufs_V0 (d : Dev nD) (c : Fin τ.nSC) (i : Fin τ.nSub) :
    (ownBufs (V d c i) : sProp 𝕄) = iprop((∃ f, (V d c i).loc cc1_scratch1 ↦{fullShare} f) ∗ (∃ f, (V d c i).loc cc1_scratch2 ↦{fullShare} f) ∗ (∃ f, (V d c i).loc cc1_scratch3 ↦{fullShare} f) ∗ bigSep ((((ownRefs (τ := τ) (.scVector c i)).erase ((Proc.scVector c i).devRef cc1_scratch1)).erase ((Proc.scVector c i).devRef cc1_scratch2)).erase ((Proc.scVector c i).devRef cc1_scratch3)) fun b => iprop(∃ f, ((d, b) : Loc nD τ sig) ↦{fullShare} f)) := by
  unfold SparseCore.Cfg.ownBufs
  rw [SparseCore.bigSep_erase' (SparseCore.Cfg.mem_ownRefs_of_owner (p := Proc.scVector c i) (b := ((Proc.scVector c i).devRef cc1_scratch1)) rfl),
    SparseCore.bigSep_erase' (Finset.mem_erase.mpr ⟨(by intro e; cases e), (SparseCore.Cfg.mem_ownRefs_of_owner (p := Proc.scVector c i) (b := ((Proc.scVector c i).devRef cc1_scratch2)) rfl)⟩),
    SparseCore.bigSep_erase' (Finset.mem_erase.mpr ⟨(by intro e; cases e), (Finset.mem_erase.mpr ⟨(by intro e; cases e), (SparseCore.Cfg.mem_ownRefs_of_owner (p := Proc.scVector c i) (b := ((Proc.scVector c i).devRef cc1_scratch3)) rfl)⟩)⟩)]

omit [FloatOps F] in
theorem tblPiece0_pos (h : k1_cond1 L = 1#1) : tblPiece0 (F := F) d L = iprop(∃ tb, tblLoc d ↦[tblSet0 L h]{fullShare} tb) := dif_pos h
omit [FloatOps F] in
theorem shPiece0_pos (q' : PosShare TreeShare) (h : k1_cond1 L = 1#1) : shPiece0 (F := F) q' d L = iprop(∃ f, sh0Loc d (cV0 L) ↦[shSet0 L h]{q'} f) := dif_pos h

set_option maxHeartbeats 4000000 in
/-- The task on vector subcore `(L 0, L 1)` of device `d`. -/
theorem tile_body0 (hF : (K (F := F)).Facts) (O : CellTallies nD τ sig (HIx 2)) (W : Waits sig (HIx 2)) (hO : ∀ g, O g none = 0)
    (hOlev : ∀ g ι, 0 < O g ι → 8 * (0 : Fin 2).val + 6 ≤ (K (F := F)).lev g ι) :
    iprop(levAts (K (F := F)).L (K (F := F)).lev ∗ kit 0 d (cV0 L) (jV0 L) ∗ go0 d L
        ∗ scopedBufs (V d (cV0 L) (jV0 L)) ∗ scopedSems0 (V d (cV0 L) (jV0 L)) ∗ owes (V d (cV0 L) (jV0 L)) (O + oxV 0 d (cV0 L)) W)
      ⊢ wp frame (wpE (defs₀ (F := F)) 𝒱₀ (V d (cV0 L) (jV0 L)) none) Set.univ
          (cc1_gather_kernel L tV (Memref.isWhole_whole _) jV (Memref.isWhole_whole _) oV (Memref.isWhole_whole _) shV (Memref.isWhole_whole _)
            ibV (Memref.isWhole_whole _) raV (Memref.isWhole_whole _) rbV (Memref.isWhole_whole _) cc1_scratch4 cc1_scratch5 cc1_scratch6 cc1_scratch7 cc1_scoped0 cc1_scoped1)
          fun _ => iprop(td0 d L ∗ scopedBufs (V d (cV0 L) (jV0 L)) ∗ scopedSems0 (V d (cV0 L) (jV0 L))
            ∗ ∃ W', ⌜∀ p ∈ W', p ∈ W ∨ p.2 = none ∨ p.2 = some (0 : Fin 2)⌝ ∗ owes (V d (cV0 L) (jV0 L)) O W') := by
  simp only [cc1_gather_kernel_eq_skeleton]; unfold cc1_gather_kernel_skel
  rw [(K (F := F)).scopedBufs_V hF d (cV0 L) (jV0 L), SparseCore.Cfg.scopedSems0_V (Val := Elt F) d (cV0 L) (jV0 L), ownSems0_V0, ownBufs_V0]
  unfold kit go0 kitFirst
  rw [if_pos (show ((0 : Fin 2).val = 0) from rfl)]
  have hO' : ∀ g, (O + oxV 0 d (cV0 L)) g none = 0 := fun g => by rw [Pi.add_apply, Finsupp.add_apply, hO g, oxV_none]
  by_cases k1_h1 : k1_cond1 L = 1#1
  · -- a writing tile: its rows of the table into the shared scratch, waited for
    rw [tblPiece0_pos (F := F) d L k1_h1, shPiece0_pos (F := F) d L fullShare k1_h1]
    iintro ⟨#Hlv, ⟨⟨%κ, #Hinv⟩, Htoks, ⟨#Hrch, Hat⟩, Hcred⟩, ⟨Hidx, Hout, ⟨%tb, Htbl⟩, ⟨%fsh, Hsh⟩⟩, ⟨⟨%fib, Hib⟩, ⟨%fra, Hra⟩, ⟨%frb, Hrb⟩, Hbufs⟩, ⟨Hs4, Hs5, Hs6, Hs7, Hp0, Hp1, Hsems⟩, HO⟩
    ihave Hmw1 := (show levAts (K (F := F)).L (K (F := F)).lev ⊢ Transfers.MayWaits (thr0 d L) (default : HIx 2) (O + oxV 0 d (cV0 L)) from
      (K (F := F)).mayWaits_none (thr := thr0 d L) hO') $$ Hlv
    ihave Htbl := (Entails.of_eq (pts_tbl0 (F := F) d L k1_h1 _).symm) $$ Htbl
    ihave Hsh := (Entails.of_eq (pts_sh0 (F := F) d L k1_h1 _ _).symm) $$ Hsh
    sl_exec
    iapply (rest0 (F := F) d L hF O W hO hOlev κ _ _) $$ [Htoks Hat Hcred Hidx Hout Htbl Hsh Hib Hra Hrb Hbufs Hs4 Hs5 Hs6 Hs7 Hp0 Hp1 Hsems HO]
    isplitr; · iexact Hlv
    isplitr; · iexact Hinv
    isplitl [Htoks]; · iexact Htoks
    isplitr; · iexact Hrch
    isplitl [Hat]; · iexact Hat
    isplitl [Hcred]; · iexact Hcred
    isplitl [Hidx]; · iexact Hidx
    isplitl [Hout]; · iexact Hout
    isplitl [Htbl]; · iapply (Entails.of_eq (tblPiece0_pos (F := F) d L k1_h1).symm); iexists tb; iapply (Entails.of_eq (pts_tbl0 (F := F) d L k1_h1 _)); iexact Htbl
    isplitl [Hsh]; · iapply (Entails.of_eq (shPiece0_pos (F := F) d L fullShare k1_h1).symm); iexists _; iapply (Entails.of_eq (pts_sh0 (F := F) d L k1_h1 _ _)); iexact Hsh
    isplitl [Hib]; · iexists _; iexact Hib
    isplitl [Hra]; · iexists _; iexact Hra
    isplitl [Hrb]; · iexists _; iexact Hrb
    isplitl [Hs4]; · iexact Hs4
    isplitl [Hs5]; · iexact Hs5
    isplitl [Hs6]; · iexact Hs6
    isplitl [Hs7]; · iexact Hs7
    isplitl [Hp0]; · iexact Hp0
    isplitl [Hp1]; · iexact Hp1
    isplitl [Hbufs]; · iexact Hbufs
    isplitl [Hsems]; · iexact Hsems
    iexists _; isplitr
    swap; · iexact HO
    ipureintro; intro p hp
    rcases Finset.mem_insert.mp hp with hp | hp; · exact .inr (hp ▸ rfl)
    exact .inl hp
  · -- a tile that writes nothing
    iintro ⟨#Hlv, ⟨⟨%κ, #Hinv⟩, Htoks, ⟨#Hrch, Hat⟩, Hcred⟩, ⟨Hidx, Hout, Htbl, Hsh⟩, ⟨⟨%fib, Hib⟩, ⟨%fra, Hra⟩, ⟨%frb, Hrb⟩, Hbufs⟩, ⟨Hs4, Hs5, Hs6, Hs7, Hp0, Hp1, Hsems⟩, HO⟩
    sl_exec
    iapply (rest0 (F := F) d L hF O W hO hOlev κ _ _) $$ [Htoks Hat Hcred Hidx Hout Htbl Hsh Hib Hra Hrb Hbufs Hs4 Hs5 Hs6 Hs7 Hp0 Hp1 Hsems HO]
    isplitr; · iexact Hlv
    isplitr; · iexact Hinv
    isplitl [Htoks]; · iexact Htoks
    isplitr; · iexact Hrch
    isplitl [Hat]; · iexact Hat
    isplitl [Hcred]; · iexact Hcred
    isplitl [Hidx]; · iexact Hidx
    isplitl [Hout]; · iexact Hout
    isplitl [Htbl]; · iexact Htbl
    isplitl [Hsh]; · iexact Hsh
    isplitl [Hib]; · iexists _; iexact Hib
    isplitl [Hra]; · iexists _; iexact Hra
    isplitl [Hrb]; · iexists _; iexact Hrb
    isplitl [Hs4]; · iexact Hs4
    isplitl [Hs5]; · iexact Hs5
    isplitl [Hs6]; · iexact Hs6
    isplitl [Hs7]; · iexact Hs7
    isplitl [Hp0]; · iexact Hp0
    isplitl [Hp1]; · iexact Hp1
    isplitl [Hbufs]; · iexact Hbufs
    isplitl [Hsems]; · iexact Hsems
    iexists _; isplitr
    swap; · iexact HO
    ipureintro; intro p hp
    exact .inl hp

end Tile0

/-! ## The obligation -/

theorem tileObl0 : (K (F := F)).TileObl (D (F := F)) 𝒱 (P (F := F)) v₀ 0 :=
  tileObl0_of (fun d L hF O W hO hOlev => tile_body0 d L hF O W hO hOlev)

end Cert.Proof.Sc
-- ==== Proof.ScTile1.lean ====
/-
  One tile's task of the gather kernel at the SECOND SparseCore call: the body once at a symbolic tile, over that kernel's
  own scratches and semaphores, the index list and the output of the second half of the edges, and round 1 of the barrier
  cells, whose origin and reach arrive with the call's operands.
-/
import proofs.«217078_g14027363189340_cont_week2b_886_24_alg».proof.Proof.ScTile

noncomputable section

namespace Cert.Proof.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable [FloatOps F]

omit [FloatOps F] in
theorem k3_cond1_iff : ∀ L : grid3.Coords, k3_cond1 L = 1#1 ↔ (L 1).val < 10 := by decide +kernel
omit [FloatOps F] in
theorem k3_cond2_iff : ∀ (t1 : Fin k3_t1_loop.trips) (t3 : Fin k3_t3_loop.trips), k3_cond2 t1 t3 = 1#1 ↔ ¬(t1.val = 0 ∧ t3.val = 0) := by decide +kernel
omit [FloatOps F] in
theorem k3_cond3_iff : ∀ (t1 : Fin k3_t1_loop.trips) (t3 : Fin k3_t3_loop.trips), k3_cond3 t1 t3 = 1#1 ↔ ¬(t1.val = 0 ∧ t3.val = 0) := by decide +kernel
omit [FloatOps F] in
theorem k3_t1_trips : k3_t1_loop.trips = 5 := by decide
omit [FloatOps F] in
theorem k3_t2_trips : k3_t2_loop.trips = 128 := by decide
omit [FloatOps F] in
theorem k3_t3_trips : k3_t3_loop.trips = 8 := by decide

/-- The blocks of 2 × 128 output rows of a tile's task, by pair of trips; `blk1 m` the `m`-th in the order they are written. -/
abbrev Blk1 : Type := Fin k3_t1_loop.trips × Fin k3_t3_loop.trips
def blk1 (m : ℕ) : Blk1 := (⟨min (m / 8) 4, by rw [k3_t1_trips]; omega⟩, ⟨m % 8, by rw [k3_t3_trips]; omega⟩)

omit [FloatOps F] in
theorem blk1_cur (t1 : Fin k3_t1_loop.trips) (j : Fin k3_t3_loop.trips) : blk1 (8 * t1.val + j.val) = (t1, j) := by
  have h1 : t1.val < 5 := lt_of_lt_of_eq t1.isLt k3_t1_trips
  have h3 : j.val < 8 := lt_of_lt_of_eq j.isLt k3_t3_trips
  refine Prod.ext (Fin.ext ?_) (Fin.ext ?_)
  · show min ((8 * t1.val + j.val) / 8) 4 = t1.val
    omega
  · show (8 * t1.val + j.val) % 8 = j.val
    omega

omit [FloatOps F] in
theorem blk1_ne_succ (t1 : Fin k3_t1_loop.trips) (j : Fin k3_t3_loop.trips) {m : ℕ} (h : 8 * t1.val + j.val = m + 1) : (t1, j) ≠ blk1 m := by
  have h1 : t1.val < 5 := lt_of_lt_of_eq t1.isLt k3_t1_trips
  have h3 : j.val < 8 := lt_of_lt_of_eq j.isLt k3_t3_trips
  intro e
  have e1 : t1.val = min (m / 8) 4 := congrArg (fun p : Blk1 => p.1.val) e
  have e2 : j.val = m % 8 := congrArg (fun p : Blk1 => p.2.val) e
  omega

section Tile1

local notation "tV" => (Memref.whole Cert.KernelIdeal.main_v9_scv : Memref Cert.KernelIdeal.sig Kind.scVector Space.hbm Cert.KernelIdeal.S20000x128 EltTy.f32)
local notation "jV" => (Memref.whole Cert.KernelIdeal.main_v37_scv : Memref Cert.KernelIdeal.sig Kind.scVector Space.hbm Cert.KernelIdeal.S327680 EltTy.i32)
local notation "oV" => (Memref.whole Cert.KernelIdeal.main_v38_scv : Memref Cert.KernelIdeal.sig Kind.scVector Space.hbm Cert.KernelIdeal.S327680x128 EltTy.f32)
local notation "shV" => (Memref.whole Cert.KernelIdeal.cc3_scratch0 : Memref Cert.KernelIdeal.sig Kind.scVector Space.shared Cert.KernelIdeal.S10000x128 EltTy.f32)
local notation "ibV" => (Memref.whole Cert.KernelIdeal.cc3_scratch1 : Memref Cert.KernelIdeal.sig Kind.scVector Space.vmem Cert.KernelIdeal.S2048 EltTy.i32)
local notation "raV" => (Memref.whole Cert.KernelIdeal.cc3_scratch2 : Memref Cert.KernelIdeal.sig Kind.scVector Space.vmem Cert.KernelIdeal.S128x128 EltTy.f32)
local notation "rbV" => (Memref.whole Cert.KernelIdeal.cc3_scratch3 : Memref Cert.KernelIdeal.sig Kind.scVector Space.vmem Cert.KernelIdeal.S128x128 EltTy.f32)

variable (d : Dev nD) (L : grid3.Coords)

abbrev thr1 : Thread nD τ := V d (cV1 L) (jV1 L)

omit [FloatOps F] in
theorem pts_tbl1 (h : k3_cond1 L = 1#1) (f : Buf (Elt F) (tblLoc d)) :
    ((tblM1 L h).view.loc (thr1 d L) ↦[(tblM1 L h).view.set]{fullShare} f : sProp 𝕄) = tblLoc d ↦[tblSet1 L h]{fullShare} f := rfl
omit [FloatOps F] in
theorem pts_sh1 (h : k3_cond1 L = 1#1) (q : PosShare TreeShare) (f : Buf (Elt F) (sh1Loc d (cV1 L))) :
    ((shM1 L h).view.loc (thr1 d L) ↦[(shM1 L h).view.set]{q} f : sProp 𝕄) = sh1Loc d (cV1 L) ↦[shSet1 L h]{q} f := rfl
omit [FloatOps F] in
theorem pts_shW1 (q : PosShare TreeShare) (f : Buf (Elt F) (sh1Loc d (cV1 L))) :
    ((shV).view.loc (thr1 d L) ↦{q} f : sProp 𝕄) = sh1Loc d (cV1 L) ↦{q} f := rfl
omit [FloatOps F] in
theorem pts_idx1 (t1 : Fin k3_t1_loop.trips) (f : Buf (Elt F) (idxLoc1 d)) :
    ((idxM1 L t1).view.loc (thr1 d L) ↦[(idxM1 L t1).view.set]{fullShare} f : sProp 𝕄) = idxLoc1 d ↦[idxSet1 L t1]{fullShare} f := rfl
omit [FloatOps F] in
theorem pts_outA1 (t1 : Fin k3_t1_loop.trips) (t3 : Fin k3_t3_loop.trips) (f : Buf (Elt F) (outLoc1 d)) :
    ((outAM1 L t1 t3).view.loc (thr1 d L) ↦[(outAM1 L t1 t3).view.set]{fullShare} f : sProp 𝕄) = outLoc1 d ↦[outASet1 L t1 t3]{fullShare} f := rfl
omit [FloatOps F] in
theorem pts_outB1 (t1 : Fin k3_t1_loop.trips) (t3 : Fin k3_t3_loop.trips) (f : Buf (Elt F) (outLoc1 d)) :
    ((outBM1 L t1 t3).view.loc (thr1 d L) ↦[(outBM1 L t1 t3).view.set]{fullShare} f : sProp 𝕄) = outLoc1 d ↦[outBSet1 L t1 t3]{fullShare} f := rfl
omit [FloatOps F] in
theorem pts_ib1 (f : Buf (Elt F) ((thr1 d L).loc cc3_scratch1)) :
    ((ibV).view.loc (thr1 d L) ↦{fullShare} f : sProp 𝕄) = (thr1 d L).loc cc3_scratch1 ↦{fullShare} f := rfl
omit [FloatOps F] in
theorem pts_ra1 (f : Buf (Elt F) ((thr1 d L).loc cc3_scratch2)) :
    ((raV).view.loc (thr1 d L) ↦{fullShare} f : sProp 𝕄) = (thr1 d L).loc cc3_scratch2 ↦{fullShare} f := rfl
omit [FloatOps F] in
theorem pts_rb1 (f : Buf (Elt F) ((thr1 d L).loc cc3_scratch3)) :
    ((rbV).view.loc (thr1 d L) ↦{fullShare} f : sProp 𝕄) = (thr1 d L).loc cc3_scratch3 ↦{fullShare} f := rfl

/-- The two 128-word windows of the index scratch a pair of gathers reads. -/
abbrev offA1 (t3 : Fin k3_t3_loop.trips) : Memref sig .scVector .vmem S128 .i32 := (ibV).slice (Rect.unit (s := S2048) (k3_off6 t3) S128.size (k3_off6_inb t3)) (fun _ => rfl)
abbrev offB1 (t3 : Fin k3_t3_loop.trips) : Memref sig .scVector .vmem S128 .i32 := (ibV).slice (Rect.unit (s := S2048) (k3_off8 t3) S128.size (k3_off8_inb t3)) (fun _ => rfl)

/-- A copy-out of a row scratch pending on its semaphore: it brings back the scratch and the block it was sent to. -/
abbrev flA1 (p : Blk1) (fra : Buf (Elt F) ((thr1 d L).loc cc3_scratch2)) : sProp 𝕄 :=
  Transfers.Flight countersEmb (thr1 d L) (SemLoc.dma cc3_scratch6.sem) (default : HIx 2) 524288
    iprop((∃ f, outLoc1 d ↦[outASet1 L p.1 p.2]{fullShare} f) ∗ ((raV).view.loc (thr1 d L) ↦[(raV).view.set]{fullShare} fra))
abbrev flB1 (p : Blk1) (frb : Buf (Elt F) ((thr1 d L).loc cc3_scratch3)) : sProp 𝕄 :=
  Transfers.Flight countersEmb (thr1 d L) (SemLoc.dma cc3_scratch7.sem) (default : HIx 2) 524288
    iprop((∃ f, outLoc1 d ↦[outBSet1 L p.1 p.2]{fullShare} f) ∗ ((rbV).view.loc (thr1 d L) ↦[(rbV).view.set]{fullShare} frb))

/-- The output blocks of the set `s`, each at whatever it holds. -/
def pileA1 (s : Finset Blk1) : sProp 𝕄 := bigSep s fun p => iprop(∃ f, outLoc1 d ↦[outASet1 L p.1 p.2]{fullShare} f)
def pileB1 (s : Finset Blk1) : sProp 𝕄 := bigSep s fun p => iprop(∃ f, outLoc1 d ↦[outBSet1 L p.1 p.2]{fullShare} f)

omit [FloatOps F] in
theorem pileA1_out {s : Finset Blk1} {p : Blk1} (hp : p ∈ s) :
    (pileA1 (F := F) d L s : sProp 𝕄) = iprop((∃ f, outLoc1 d ↦[outASet1 L p.1 p.2]{fullShare} f) ∗ pileA1 d L (s.erase p)) := by
  unfold pileA1; exact SparseCore.bigSep_erase' hp
omit [FloatOps F] in
theorem pileB1_out {s : Finset Blk1} {p : Blk1} (hp : p ∈ s) :
    (pileB1 (F := F) d L s : sProp 𝕄) = iprop((∃ f, outLoc1 d ↦[outBSet1 L p.1 p.2]{fullShare} f) ∗ pileB1 d L (s.erase p)) := by
  unfold pileB1; exact SparseCore.bigSep_erase' hp

/-- No copy-out pending (before the very first pair of gathers): both row scratches held, their semaphores at zero, every
    output block at hand. -/
def pendNone1 : sProp 𝕄 :=
  iprop((∃ fra, (raV).view.loc (thr1 d L) ↦{fullShare} fra) ∗ (∃ frb, (rbV).view.loc (thr1 d L) ↦{fullShare} frb)
    ∗ semVal (dcell d (cV1 L) (jV1 L) cc3_scratch6.sem) 0 ∗ semVal (dcell d (cV1 L) (jV1 L) cc3_scratch7.sem) 0
    ∗ pileA1 d L Finset.univ ∗ pileB1 d L Finset.univ)
/-- One copy-out pending per row scratch, to block `p`: the flights hold the scratches and the block's rows. -/
def pendAt1 (p : Blk1) : sProp 𝕄 :=
  iprop(∃ fra, ∃ frb, flA1 d L p fra ∗ ((raV).view.loc (thr1 d L) ↦[Finset.univ \ (raV).view.set]{fullShare} fra)
    ∗ flB1 d L p frb ∗ ((rbV).view.loc (thr1 d L) ↦[Finset.univ \ (rbV).view.set]{fullShare} frb)
    ∗ pileA1 d L (Finset.univ.erase p) ∗ pileB1 d L (Finset.univ.erase p))
/-- Before the `n`-th pair of gathers of the task. -/
def pendSt1 (n : ℕ) : sProp 𝕄 := if n = 0 then pendNone1 d L else pendAt1 d L (blk1 (n - 1))

omit [FloatOps F] in
theorem pendSt1_zero : pendSt1 (F := F) d L 0 = pendNone1 d L := if_pos rfl
omit [FloatOps F] in
theorem pendSt1_succ (m : ℕ) : pendSt1 (F := F) d L (m + 1) = pendAt1 d L (blk1 m) := if_neg (Nat.succ_ne_zero m)

/-- The invariant of the loop of eight pairs of gathers, in block `t1`: the index scratch whole and in range, the two read
    shares of the shared scratch, the gathers' semaphores at zero, the copy-outs as `pendSt` says, the thread's debt. -/
def inv3_1 (O : CellTallies nD τ sig (HIx 2)) (W : Waits sig (HIx 2)) (g : Buf (Elt F) (sh1Loc d (cV1 L))) (t1 : Fin k3_t1_loop.trips)
    (j : ℕ) (_ : PUnit) : sProp 𝕄 :=
  iprop(Transfers.MayWaits (thr1 d L) (default : HIx 2) O
    ∗ (∃ fo, ((ibV).view.loc (thr1 d L) ↦{fullShare} fo) ∗ ⌜IdxOk fo⌝)
    ∗ ((shV).view.loc (thr1 d L) ↦{(rdShare (L 1).val).left} g) ∗ ((shV).view.loc (thr1 d L) ↦{(rdShare (L 1).val).right} g)
    ∗ semVal (dcell d (cV1 L) (jV1 L) cc3_scratch4.sem) 0 ∗ semVal (dcell d (cV1 L) (jV1 L) cc3_scratch5.sem) 0
    ∗ pendSt1 d L (8 * t1.val + j)
    ∗ ∃ W', ⌜∀ p ∈ W', p ∈ W ∨ p.2 = none⌝ ∗ owes (thr1 d L) O W')

omit [FloatOps F] in
theorem flA1_intro (p : Blk1) (fa : Buf (Elt F) (outLoc1 d)) (fra : Buf (Elt F) ((thr1 d L).loc cc3_scratch2)) :
    (Transfers.Flight countersEmb (thr1 d L) (SemLoc.dma cc3_scratch6.sem) (default : HIx 2) 524288
      iprop(((outAM1 L p.1 p.2).view.loc (thr1 d L) ↦[(outAM1 L p.1 p.2).view.set]{fullShare} fa)
        ∗ ((raV).view.loc (thr1 d L) ↦[(raV).view.set]{fullShare} fra)) : sProp 𝕄) ⊢ flA1 d L p fra := by
  refine Transfers.Flight_mono countersEmb (thr1 d L) ?_
  iintro ⟨Hd, Hs⟩
  isplitl [Hd]; · iexists fa; iexact Hd
  iexact Hs
omit [FloatOps F] in
theorem flB1_intro (p : Blk1) (fb : Buf (Elt F) (outLoc1 d)) (frb : Buf (Elt F) ((thr1 d L).loc cc3_scratch3)) :
    (Transfers.Flight countersEmb (thr1 d L) (SemLoc.dma cc3_scratch7.sem) (default : HIx 2) 524288
      iprop(((outBM1 L p.1 p.2).view.loc (thr1 d L) ↦[(outBM1 L p.1 p.2).view.set]{fullShare} fb)
        ∗ ((rbV).view.loc (thr1 d L) ↦[(rbV).view.set]{fullShare} frb)) : sProp 𝕄) ⊢ flB1 d L p frb := by
  refine Transfers.Flight_mono countersEmb (thr1 d L) ?_
  iintro ⟨Hd, Hs⟩
  isplitl [Hd]; · iexists fb; iexact Hd
  iexact Hs

set_option maxHeartbeats 4000000 in
/-- One pair of gathers: the previous copy-outs waited for (but before the very first pair), the two gathers, each waited
    for and copied out to its block. -/
theorem t3_region1 (O : CellTallies nD τ sig (HIx 2)) (W : Waits sig (HIx 2)) (g : Buf (Elt F) (sh1Loc d (cV1 L))) (t1 : Fin k3_t1_loop.trips)
    (v13 v15 : BitVec 32) (j : Fin k3_t3_loop.trips) (acc : PUnit) :
    inv3_1 d L O W g t1 j.val acc
      ⊢ wp frame (wpE (defs₀ (F := F)) 𝒱₀ (thr1 d L) none) Set.univ
          (k3_t3_body L tV (Memref.isWhole_whole _) jV (Memref.isWhole_whole _) oV (Memref.isWhole_whole _) shV (Memref.isWhole_whole _)
            ibV (Memref.isWhole_whole _) raV (Memref.isWhole_whole _) rbV (Memref.isWhole_whole _) cc3_scratch4 cc3_scratch5 cc3_scratch6 cc3_scratch7 cc3_scoped0 cc3_scoped1 t1 v13 v15 j acc)
          (inv3_1 d L O W g t1 (j.val + 1)) := by
  unfold inv3_1
  rw [show 8 * t1.val + (j.val + 1) = (8 * t1.val + j.val) + 1 from (Nat.add_assoc _ _ _).symm, pendSt1_succ, blk1_cur]
  rcases Nat.eq_zero_or_pos (8 * t1.val + j.val) with hn | hn
  · -- the very first pair: nothing pending
    have hc2 : ¬ k3_cond2 t1 j = 1#1 := fun h => (k3_cond2_iff t1 j).mp h ⟨by omega, by omega⟩
    have hc3 : ¬ k3_cond3 t1 j = 1#1 := fun h => (k3_cond3_iff t1 j).mp h ⟨by omega, by omega⟩
    rw [hn, pendSt1_zero]
    unfold pendNone1
    rw [pileA1_out (F := F) d L (Finset.mem_univ (t1, j)), pileB1_out (F := F) d L (Finset.mem_univ (t1, j))]
    iintro ⟨#Hmw, ⟨%fo, Hib, %hfo⟩, Hsh, Hsh2, Hs4, Hs5, ⟨⟨%fra, Hra⟩, ⟨%frb, Hrb⟩, Hs6, Hs7, ⟨⟨%fa, HoA⟩, HpA⟩, ⟨⟨%fb, HoB⟩, HpB⟩⟩, %W', %hW', HO⟩
    have hinA : ∀ x, ((offA1 j).view.read (Elt F) fo x).toNat < S10000x128.size gathers_S10000x128_S128x128.axis := fun x => hfo _
    have hinB : ∀ x, ((offB1 j).view.read (Elt F) fo x).toNat < S10000x128.size gathers_S10000x128_S128x128.axis := fun x => hfo _
    ihave HoA' := (Entails.of_eq (pts_outA1 (F := F) d L t1 j _).symm) $$ HoA
    ihave HoB' := (Entails.of_eq (pts_outB1 (F := F) d L t1 j _).symm) $$ HoB
    sl_exec
    sl_step
    isplitr; · iexact Hmw
    isplitl [Hib]; · iexists fo; isplitl [Hib]; · iexact Hib
                     ipureintro; exact hfo
    isplitl [Hsh]; · iexact Hsh
    isplitl [Hsh2]; · iexact Hsh2
    isplitl [Hs4]; · iexact Hs4
    isplitl [Hs5]; · iexact Hs5
    isplitl [Hs6 Hra Hs7 Hrb HpA HpB]
    · unfold pendAt1
      iexists _; iexists _
      isplitl [Hs6]; · iapply (flA1_intro (F := F) d L (t1, j) _ _); iexact Hs6
      isplitl [Hra]; · iexact Hra
      isplitl [Hs7]; · iapply (flB1_intro (F := F) d L (t1, j) _ _); iexact Hs7
      isplitl [Hrb]; · iexact Hrb
      isplitl [HpA]; · iexact HpA
      iexact HpB
    iexists _; isplitr
    swap; · iexact HO
    ipureintro; intro p hp
    rcases Finset.mem_insert.mp hp with hp | hp; · exact .inr (hp ▸ rfl)
    rcases Finset.mem_insert.mp hp with hp | hp; · exact .inr (hp ▸ rfl)
    exact hW' p hp
  · -- a later pair: the pending copy-outs are waited for first
    obtain ⟨m, hm⟩ : ∃ m, 8 * t1.val + j.val = m + 1 := ⟨8 * t1.val + j.val - 1, by omega⟩
    have hc2 : k3_cond2 t1 j = 1#1 := (k3_cond2_iff t1 j).mpr (by omega)
    have hc3 : k3_cond3 t1 j = 1#1 := (k3_cond3_iff t1 j).mpr (by omega)
    have hne : (t1, j) ∈ (Finset.univ : Finset Blk1).erase (blk1 m) := Finset.mem_erase.mpr ⟨blk1_ne_succ t1 j hm, Finset.mem_univ _⟩
    rw [hm, pendSt1_succ]
    unfold pendAt1
    rw [pileA1_out (F := F) d L hne, pileB1_out (F := F) d L hne]
    iintro ⟨#Hmw, ⟨%fo, Hib, %hfo⟩, Hsh, Hsh2, Hs4, Hs5, ⟨%fra, %frb, Hs6, Hra, Hs7, Hrb, ⟨⟨%fa, HoA⟩, HpA⟩, ⟨⟨%fb, HoB⟩, HpB⟩⟩, %W', %hW', HO⟩
    have hinA : ∀ x, ((offA1 j).view.read (Elt F) fo x).toNat < S10000x128.size gathers_S10000x128_S128x128.axis := fun x => hfo _
    have hinB : ∀ x, ((offB1 j).view.read (Elt F) fo x).toNat < S10000x128.size gathers_S10000x128_S128x128.axis := fun x => hfo _
    ihave HoA' := (Entails.of_eq (pts_outA1 (F := F) d L t1 j _).symm) $$ HoA
    ihave HoB' := (Entails.of_eq (pts_outB1 (F := F) d L t1 j _).symm) $$ HoB
    sl_exec
    sl_step
    isplitr; · iexact Hmw
    isplitl [Hib]; · iexists fo; isplitl [Hib]; · iexact Hib
                     ipureintro; exact hfo
    isplitl [Hsh]; · iexact Hsh
    isplitl [Hsh2]; · iexact Hsh2
    isplitl [Hs4]; · iexact Hs4
    isplitl [Hs5]; · iexact Hs5
    isplitl [Hs6 Hra Hs7 Hrb HpA HpB Hs6_dst Hs7_dst]
    · iexists _; iexists _
      isplitl [Hs6]; · iapply (flA1_intro (F := F) d L (t1, j) _ _); iexact Hs6
      isplitl [Hra]; · iexact Hra
      isplitl [Hs7]; · iapply (flB1_intro (F := F) d L (t1, j) _ _); iexact Hs7
      isplitl [Hrb]; · iexact Hrb
      have hne' : blk1 m ∈ (Finset.univ : Finset Blk1).erase (t1, j) := Finset.mem_erase.mpr ⟨(blk1_ne_succ t1 j hm).symm, Finset.mem_univ _⟩
      isplitl [HpA Hs6_dst]
      · rw [pileA1_out (F := F) d L hne', Finset.erase_right_comm]
        isplitl [Hs6_dst]; · iexact Hs6_dst
        iexact HpA
      · rw [pileB1_out (F := F) d L hne', Finset.erase_right_comm]
        isplitl [Hs7_dst]; · iexact Hs7_dst
        iexact HpB
    iexists _; isplitr
    swap; · iexact HO
    ipureintro; intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact hW' p hp

/-- The sixteen lanes of the index scratch one trip of the subtraction reads and writes. -/
abbrev subR1 (t2 : Fin k3_t2_loop.trips) : Rect S2048 := Rect.unit (s := S2048) (k3_off4 t2) S16.size (k3_off4_inb t2)

/-- After `k` trips of the subtraction: the words below `16 k` name rows of the shared scratch, the others still rows of
    SparseCore `c`'s half of the table. -/
def SubOk1 (c k : ℕ) (fo : Buf (Elt F) ((thr1 d L).loc cc3_scratch1)) : Prop :=
  ∀ y : S2048.Idx, if (y 0).val < 16 * k then ((ibV).view.read (Elt F) fo y).toNat < 10000
    else 10000 * c ≤ ((ibV).view.read (Elt F) fo y).toNat ∧ ((ibV).view.read (Elt F) fo y).toNat < 10000 * c + 10000

omit [FloatOps F] in
theorem k3_pay1_apply (v22 : Vec F S16 .i32) (x : S16.Idx) : ∃ x', k3_pay1 (F := F) L v22 x = v22 x' - (BitVec.ofNat 32 (L 0).val * 10000#32) := by
  unfold k3_pay1 shapeCast subi broadcast
  exact ⟨_, rfl⟩

omit [FloatOps F] in
theorem sub_toNat1 {c : ℕ} (hc : c < 2) {a : BitVec 32} (h1 : 10000 * c ≤ a.toNat) (h2 : a.toNat < 10000 * c + 10000) :
    (a - (BitVec.ofNat 32 c * 10000#32)).toNat < 10000 := by
  have hm : (BitVec.ofNat 32 c * 10000#32).toNat = 10000 * c := by
    rw [BitVec.toNat_mul, BitVec.toNat_ofNat]
    show c % 2 ^ 32 * 10000 % 2 ^ 32 = 10000 * c
    omega
  rw [BitVec.toNat_sub, hm]
  have := a.isLt
  omega

omit [FloatOps F] in
theorem subOk1_step (t2 : Fin k3_t2_loop.trips) (fo : Buf (Elt F) ((thr1 d L).loc cc3_scratch1)) (h : SubOk1 d L (L 0).val t2.val fo) :
    SubOk1 d L (L 0).val (t2.val + 1)
      ((ibV).view.writes (Elt F) fo [⟨subR1 t2, k3_pay1 L ((ibV).view.readAt (Elt F) (subR1 t2).toLoadRect fo)⟩]) := by
  have hc : (L 0).val < 2 := (L 0).isLt
  have hoff : k3_off4 t2 = ![16 * t2.val] := k3_off4_eq t2
  intro y
  by_cases hy : y ∈ (subR1 t2).set
  · obtain ⟨x, rfl⟩ := (subR1 t2).exists_idx_of_mem hy
    have hx0 : (((subR1 t2).idx x) 0 : ℕ) = 16 * t2.val + (x 0).val := by
      rw [LoadRect.idx_apply]; simp [hoff]
    have hxl : (x 0).val < 16 := (x 0).isLt
    rw [if_pos (by rw [hx0]; omega)]
    rw [show (subR1 t2).idx x = (subR1 t2).emb x from rfl, View.read_writes_cons_emb]
    obtain ⟨x', hx'⟩ := k3_pay1_apply (F := F) L ((ibV).view.readAt (Elt F) (subR1 t2).toLoadRect fo) x
    rw [hx', View.readAt_apply]
    have hx0' : (((subR1 t2).toLoadRect.idx x') 0 : ℕ) = 16 * t2.val + (x' 0).val := by
      rw [LoadRect.idx_apply]; simp [hoff]
    have hy' := h ((subR1 t2).toLoadRect.idx x')
    rw [if_neg (by rw [hx0']; omega)] at hy'
    exact sub_toNat1 hc hy'.1 hy'.2
  · rw [View.read_writes_apply_of_forall_not_mem _ _ y _ (fun p hp => by rw [List.mem_singleton.mp hp]; exact hy)]
    have hy0 : ¬ (16 * t2.val ≤ (y 0).val ∧ (y 0).val < 16 * t2.val + 16) := by
      intro hh; apply hy
      rw [Rect.mem_set_unit]
      intro a
      have ha : a = 0 := Subsingleton.elim _ _
      subst ha
      simp [hoff]; omega
    have hy' := h y
    by_cases hlt : (y 0).val < 16 * t2.val
    · rw [if_pos hlt] at hy'; rw [if_pos (by omega)]; exact hy'
    · rw [if_neg hlt] at hy'; rw [if_neg (by omega)]; exact hy'

/-- The subtraction loop's invariant: the index scratch whole, `SubOk` of its words. -/
def inv2_1 (k : ℕ) (_ : PUnit) : sProp 𝕄 :=
  iprop(∃ fo, ((ibV).view.loc (thr1 d L) ↦{fullShare} fo) ∗ ⌜SubOk1 d L (L 0).val k fo⌝)

set_option maxHeartbeats 2000000 in
theorem t2_region1 (t2 : Fin k3_t2_loop.trips) (acc : PUnit) :
    inv2_1 d L t2.val acc
      ⊢ wp frame (wpE (defs₀ (F := F)) 𝒱₀ (thr1 d L) none) Set.univ
          (k3_t2_body L tV (Memref.isWhole_whole _) jV (Memref.isWhole_whole _) oV (Memref.isWhole_whole _) shV (Memref.isWhole_whole _)
            ibV (Memref.isWhole_whole _) raV (Memref.isWhole_whole _) rbV (Memref.isWhole_whole _) cc3_scratch4 cc3_scratch5 cc3_scratch6 cc3_scratch7 cc3_scoped0 cc3_scoped1 t2 acc)
          (inv2_1 d L (t2.val + 1)) := by
  unfold inv2_1
  iintro ⟨%fo, Hib, %h⟩
  sl_exec
  sl_step
  iexists _; isplitl [Hib]; · iexact Hib
  ipureintro; exact subOk1_step d L t2 fo h

omit [FloatOps F] in
theorem subOk1_init (t1 : Fin k3_t1_loop.trips) (jx : Buf (Elt F) (idxLoc1 d)) (hr : InRange (L 0).val (idxSet1 L t1) jx)
    (fib : Buf (Elt F) ((thr1 d L).loc cc3_scratch1)) :
    SubOk1 d L (L 0).val 0 ((ibV).view.write (Elt F) fib (ReadAs.same.apply ((idxM1 L t1).view.read (Elt F) jx)) Finset.univ) := by
  intro y
  rw [if_neg (by omega), View.read_write_univ]
  exact hr ((idxM1 L t1).view.emb y) (Finset.mem_map_of_mem _ (Finset.mem_univ y))

omit [FloatOps F] in
theorem idxOk1_of_sub (fo : Buf (Elt F) ((thr1 d L).loc cc3_scratch1)) (h : SubOk1 d L (L 0).val k3_t2_loop.trips fo) : IdxOk fo := fun y => by
  have hy : (y 0).val < 2048 := (y 0).isLt
  have := h y
  rw [if_pos (by rw [k3_t2_trips]; omega)] at this
  exact this

/-- The invariant of the loop over the five blocks of indices: the tile's index words, the index scratch, the two read
    shares of the shared scratch, the index copy's and the gathers' semaphores at zero, the copy-outs as `pendSt` says. -/
def inv1_1 (O : CellTallies nD τ sig (HIx 2)) (W : Waits sig (HIx 2)) (g : Buf (Elt F) (sh1Loc d (cV1 L))) (k : ℕ) (_ : PUnit) : sProp 𝕄 :=
  iprop(Transfers.MayWaits (thr1 d L) (default : HIx 2) O
    ∗ idxPiece1 d L
    ∗ (∃ fo, (ibV).view.loc (thr1 d L) ↦{fullShare} fo)
    ∗ ((shV).view.loc (thr1 d L) ↦{(rdShare (L 1).val).left} g) ∗ ((shV).view.loc (thr1 d L) ↦{(rdShare (L 1).val).right} g)
    ∗ semVal (dcell d (cV1 L) (jV1 L) cc3_scoped1.sem) 0
    ∗ semVal (dcell d (cV1 L) (jV1 L) cc3_scratch4.sem) 0 ∗ semVal (dcell d (cV1 L) (jV1 L) cc3_scratch5.sem) 0
    ∗ pendSt1 d L (8 * k)
    ∗ ∃ W', ⌜∀ p ∈ W', p ∈ W ∨ p.2 = none⌝ ∗ owes (thr1 d L) O W')

set_option maxHeartbeats 4000000 in
/-- One block of 2048 indices: copied in, the row offset subtracted, eight pairs of gathers. -/
theorem t1_region1 (O : CellTallies nD τ sig (HIx 2)) (W : Waits sig (HIx 2)) (g : Buf (Elt F) (sh1Loc d (cV1 L))) (v5 : BitVec 32)
    (t1 : Fin k3_t1_loop.trips) (acc : PUnit) :
    inv1_1 d L O W g t1.val acc
      ⊢ wp frame (wpE (defs₀ (F := F)) 𝒱₀ (thr1 d L) none) Set.univ
          (k3_t1_body L tV (Memref.isWhole_whole _) jV (Memref.isWhole_whole _) oV (Memref.isWhole_whole _) shV (Memref.isWhole_whole _)
            ibV (Memref.isWhole_whole _) raV (Memref.isWhole_whole _) rbV (Memref.isWhole_whole _) cc3_scratch4 cc3_scratch5 cc3_scratch6 cc3_scratch7 cc3_scoped0 cc3_scoped1 v5 t1 acc)
          (inv1_1 d L O W g (t1.val + 1)) := by
  unfold inv1_1 idxPiece1
  iintro ⟨#Hmw, ⟨%jx, %hrng, Hidx⟩, ⟨%fib, Hib⟩, Hsh, Hsh2, Hp1, Hs4, Hs5, Hpend, %W', %hW', HO⟩
  ihave Hsp := (Entails.of_eq (SparseCore.bigSep_erase' (Finset.mem_univ t1)
    (Φ := fun t : Fin k3_t1_loop.trips => (idxLoc1 d ↦[idxSet1 L t]{fullShare} jx : sProp 𝕄)))) $$ Hidx
  icases Hsp with ⟨Hi, Hirest⟩
  ihave Hi' := (Entails.of_eq (pts_idx1 (F := F) d L t1 _).symm) $$ Hi
  -- the block of indices in, waited for
  sl_exec
  -- the subtraction
  sl_for (inv2_1 d L) $$ [Hib]
  case region => exact fun t2 acc => t2_region1 d L t2 acc
  · unfold inv2_1
    iexists _; isplitl [Hib]; · iexact Hib
    ipureintro; exact subOk1_init d L t1 jx (hrng t1) fib
  iintro %_ HI
  unfold inv2_1
  icases HI with ⟨%fo, Hib, %hsub⟩
  have hok : IdxOk fo := idxOk1_of_sub d L fo hsub
  -- the gathers
  sl_for (inv3_1 d L O (insert (SemLoc.dma cc3_scoped1.sem, (default : HIx 2)) W') g t1) $$ [Hib Hsh Hsh2 Hs4 Hs5 Hpend HO]
  case region => exact fun j acc => t3_region1 d L O _ g t1 _ _ j acc
  · unfold inv3_1
    isplitr; · iexact Hmw
    isplitl [Hib]; · iexists fo; isplitl [Hib]; · iexact Hib
                     ipureintro; exact hok
    isplitl [Hsh]; · iexact Hsh
    isplitl [Hsh2]; · iexact Hsh2
    isplitl [Hs4]; · iexact Hs4
    isplitl [Hs5]; · iexact Hs5
    isplitl [Hpend]; · iexact Hpend
    iexists _; isplitr
    swap; · iexact HO
    ipureintro; exact fun p hp => .inl hp
  iintro %_ HI
  unfold inv3_1
  icases HI with ⟨-, ⟨%fo', Hib, -⟩, Hsh, Hsh2, Hs4, Hs5, Hpend, %W'', %hW'', HO⟩
  sl_exec
  sl_step
  isplitr; · iexact Hmw
  isplitl [Hi' Hirest]
  · iexists jx; isplitr; · ipureintro; exact hrng
    iapply (Entails.of_eq (SparseCore.bigSep_erase' (Finset.mem_univ t1)
      (Φ := fun t : Fin k3_t1_loop.trips => (idxLoc1 d ↦[idxSet1 L t]{fullShare} jx : sProp 𝕄))).symm)
    isplitl [Hi']; · iapply (Entails.of_eq (pts_idx1 (F := F) d L t1 _)); iexact Hi'
    iexact Hirest
  isplitl [Hib]; · iexists _; iexact Hib
  isplitl [Hsh]; · iexact Hsh
  isplitl [Hsh2]; · iexact Hsh2
  isplitl [Hp1]; · iexact Hp1
  isplitl [Hs4]; · iexact Hs4
  isplitl [Hs5]; · iexact Hs5
  isplitl [Hpend]
  · iapply (Entails.of_eq (congrArg (pendSt1 (F := F) d L) (show 8 * t1.val + k3_t3_loop.trips = 8 * (t1.val + 1) by rw [k3_t3_trips]; omega))); iexact Hpend
  iexists W''; isplitr
  swap; · iexact HO
  ipureintro; intro p hp
  rcases hW'' p hp with h | h
  · rcases Finset.mem_insert.mp h with h | h
    · exact .inr (h ▸ rfl)
    · exact hW' p h
  · exact .inr h

omit [FloatOps F] in
theorem shRect1_eq (h : k3_cond1 L = 1#1) :
    Rect.unit (s := S10000x128) (k3_off1 L) S1000x128.size (k3_off1_inb L h) = Rect.part (s := S10000x128) (a₀ := 0) h10 ⟨(L 1).val, (k3_cond1_iff L).mp h⟩ := by
  unfold Rect.part Rect.block
  congr 1 <;> funext a
  · rw [k3_off1_eq]
    match a with
    | 0 => simp [Shape.partIx, Shape.partSize, Nat.mul_comm]
    | 1 => simp [Shape.partIx, Shape.partSize]
  · match a with
    | 0 => simp [Shape.partSize]
    | 1 => simp [Shape.partSize]

omit [FloatOps F] in
theorem shSet1_eq (h : k3_cond1 L = 1#1) : shSet1 L h = shRowSet ⟨(L 1).val, (k3_cond1_iff L).mp h⟩ := by
  show ((View.whole (cc3_scratch0 : Ref sig .scVector)).slice (Rect.unit (s := S10000x128) (k3_off1 L) S1000x128.size (k3_off1_inb L h))).set = _
  rw [View.set_slice, shRect1_eq L h]; exact Finset.map_refl

/-- A writing tile splits its rows' share: what it keeps aside, and for every tile's barrier cell the duty's payload — that
    tile's read share of the rows; a tile that writes nothing pays with nothing. -/
theorem pays_intro1 :
    shPiece1 (F := F) fullShare d L ⊢ iprop(shPiece1 restShare d L
      ∗ bigSep Finset.univ fun j : Fin (grid3.bound 1) => (bRd (F := F)).payload (bcell d (cV1 L) (j.castLE hsub3)) 1 (jV1 L).val) := by
  unfold shPiece1
  by_cases h : k3_cond1 L = 1#1
  · have hn : (jV1 L).val < 10 := (k3_cond1_iff L).mp h
    rw [dif_pos h, dif_pos h]
    iintro ⟨%f, H⟩
    ihave H2 := (Transfers.pointsTo_toks_split (ℓ := sh1Loc d (cV1 L)) (S := shSet1 L h) (f := f) fullShare (grid3.bound 1)) $$ H
    icases H2 with ⟨Hrest, Htoks⟩
    isplitl [Hrest]; · iexists f; iexact Hrest
    have hj : ∀ j : Fin (grid3.bound 1), (sh1Loc d (cV1 L) ↦[shSet1 L h]{Transfers.shareTok fullShare (grid3.bound 1) j} f : sProp 𝕄)
        ⊢ (bRd (F := F)).payload (bcell d (cV1 L) (j.castLE hsub3)) 1 (jV1 L).val := by
      intro j
      show _ ⊢ bPay (bcell d (cV1 L) (j.castLE hsub3)) 1 (jV1 L).val
      unfold bPay; dsimp only
      rw [dif_pos hn, if_neg (by decide), shSet1_eq L h]
      iintro H; iexists f; iexact H
    iapply (SparseCore.ent (bigSep_mono fun j _ => hj j)) $$ Htoks
  · have hn : ¬ (jV1 L).val < 10 := fun hh => h ((k3_cond1_iff L).mpr hh)
    rw [dif_neg h, dif_neg h]
    iintro -
    isplitr; · iempintro
    have he : (fun j : Fin (grid3.bound 1) => (bRd (F := F)).payload (bcell d (cV1 L) (j.castLE hsub3)) 1 (jV1 L).val) = fun _ => (iprop(emp) : sProp 𝕄) := by
      funext j
      show bPay (bcell d (cV1 L) (j.castLE hsub3)) 1 (jV1 L).val = _
      unfold bPay; dsimp only
      rw [dif_neg hn]
    rw [he, show (bigSep Finset.univ fun _ : Fin (grid3.bound 1) => (iprop(emp) : sProp 𝕄)) = iprop(emp) from bigSep_emp_const _]; iempintro

/-- What a tile reads off its own barrier cell's round: its read share of every writer's rows, that is of the whole scratch. -/
theorem pays_elim1 :
    bigSep ((bRd (F := F)).duties (bcell d (cV1 L) (jV1 L)) 1 \ ∅) (fun m => (bRd (F := F)).payload (bcell d (cV1 L) (jV1 L)) 1 m)
      ⊢ iprop(∃ g, sh1Loc d (cV1 L) ↦{rdShare (L 1).val} g) := by
  rw [Finset.sdiff_empty, bRd_duties d _ _ (by decide : 1 < 2), SparseCore.bigSep_image_of_injOn (fun a _ b _ e => Fin.val_injective e)]
  have he : (fun i : Fin τ.nSub => (bRd (F := F)).payload (bcell d (cV1 L) (jV1 L)) 1 i.val)
      = fun i : Fin τ.nSub => if hi : i.val < 10 then iprop(∃ f, sh1Loc d (cV1 L) ↦[shRowSet ⟨i.val, hi⟩]{rdShare (L 1).val} f) else iprop(emp) := by
    funext i
    show bPay (bcell d (cV1 L) (jV1 L)) 1 i.val = _
    unfold bPay; dsimp only
    by_cases hi : i.val < 10
    · rw [dif_pos hi, dif_pos hi, if_neg (by decide)]; rfl
    · rw [dif_neg hi, dif_neg hi]
  rw [he, bigSep_fin_dite (F := F) (show 10 ≤ τ.nSub by decide) (fun n : Fin 10 => iprop(∃ f, sh1Loc d (cV1 L) ↦[shRowSet n]{rdShare (L 1).val} f))]
  refine (bigSep_exists_pi Finset.univ (fun (n : Fin 10) (f : Buf (Elt F) (sh1Loc d (cV1 L))) => (sh1Loc d (cV1 L) ↦[shRowSet n]{rdShare (L 1).val} f : sProp 𝕄))).trans ?_
  iintro ⟨%fs, H⟩
  ihave H' := (pointsTo_biUnion_join Finset.univ shRowSet fs (fs 0) shRows_disjoint) $$ H
  icases H' with ⟨%g, -, Hg⟩
  rw [shRows_cover]
  iexists g; iexact Hg

omit [FloatOps F] in
theorem outPiece1_piles : (outPiece1 (F := F) d L : sProp 𝕄) = iprop(pileA1 d L Finset.univ ∗ pileB1 d L Finset.univ) := by
  unfold outPiece1 pileA1 pileB1
  rw [← bigSep_sep', bigSep_univ_prod]

noncomputable def k3_rest (i : grid3.Coords) (arg2 : Memref sig .scVector .hbm S20000x128 .f32) (harg2 : arg2.IsWhole) (arg3 : Memref sig .scVector .hbm S327680 .i32) (harg3 : arg3.IsWhole) (arg4 : Memref sig .scVector .hbm S327680x128 .f32) (harg4 : arg4.IsWhole) (arg5 : Memref sig .scVector .shared S10000x128 .f32) (harg5 : arg5.IsWhole) (arg6 : Memref sig .scVector .vmem S2048 .i32) (harg6 : arg6.IsWhole) (arg7 : Memref sig .scVector .vmem S128x128 .f32) (harg7 : arg7.IsWhole) (arg8 : Memref sig .scVector .vmem S128x128 .f32) (harg8 : arg8.IsWhole) (arg9 : DmaSems sig S_) (arg10 : DmaSems sig S_) (arg11 : DmaSems sig S_) (arg12 : DmaSems sig S_) (v16_r0 : DmaSems sig S_) (v18_r1 : DmaSems sig S_) :
    Prog (TpuEff nD τ sig (Elt F) Λ₀ (.scVector ((i 0).castLE hcore3) ((i 1).castLE hsub3))) PUnit := do
  let arg0 : BitVec 32 := BitVec.ofNat 32 (i 0).val
  let arg1 : BitVec 32 := BitVec.ofNat 32 (i 1).val
  SparseCore.subcoreBarrier sc_bar0 (grid3.bound 1) hsub3
  let v3 : BitVec 32 := Scalar.muli arg0 163840#32
  let v4 : BitVec 32 := Scalar.muli arg1 10240#32
  let v5 : BitVec 32 := Scalar.addi v3 v4
  Scf.Loop.for k3_t1_loop k3_t1_ok ⟨⟩ (k3_t1_body i arg2 harg2 arg3 harg3 arg4 harg4 arg5 harg5 arg6 harg6 arg7 harg7 arg8 harg8 arg9 arg10 arg11 arg12 v16_r0 v18_r1 v5)
  let v9 : Memref sig .scVector .hbm S128x128 .f32 := arg4.slice (Rect.unit (s := S327680x128) (k3_off11 i) S128x128.size (k3_off11_inb i)) (fun _ => rfl)
  Prog.lift (.waitDma2 arg11.sem arg7 v9 harg7.wordExact (View.wordExact_bits rfl))
  let v11 : Memref sig .scVector .hbm S128x128 .f32 := arg4.slice (Rect.unit (s := S327680x128) (k3_off11 i) S128x128.size (k3_off11_inb i)) (fun _ => rfl)
  Prog.lift (.waitDma2 arg12.sem arg8 v11 harg8.wordExact (View.wordExact_bits rfl))
  pure ⟨⟩

set_option maxHeartbeats 8000000 in
/-- From the barrier on: the barrier (the rows' read shares paid to every tile's cell, the tile's own round read), the five
    blocks, the two final waits, and what the task hands back. -/
theorem rest1 (hF : (K (F := F)).Facts) (O : CellTallies nD τ sig (HIx 2)) (W : Waits sig (HIx 2)) (hO : ∀ g, O g none = 0)
    (hOlev : ∀ g ι, 0 < O g ι → 8 * (1 : Fin 2).val + 6 ≤ (K (F := F)).lev g ι) (κ : GSem nD τ sig → ℕ) (R₁ R₂ : sProp 𝕄) :
    iprop(levAts (K (F := F)).L (K (F := F)).lev
        ∗ (bigSep Finset.univ fun j : Fin (grid3.bound 1) => cellInv EB (bRd (F := F)) (κ (bcell d (cV1 L) (j.castLE hsub3))) (bcell d (cV1 L) (j.castLE hsub3)))
        ∗ (bigSep Finset.univ fun j : Fin (grid3.bound 1) => dutyTok EB (bcell d (cV1 L) (j.castLE hsub3)) 1 (jV1 L).val)
        ∗ (bigSep Finset.univ fun j : Fin (grid3.bound 1) => reached EB (bcell d (cV1 L) (j.castLE hsub3)) 1)
        ∗ atPos EB (bcell d (cV1 L) (jV1 L)) 1 ∅ 0
        ∗ cred (tallyAt (bcell d (cV1 L) (jV1 L)) (some 1) (grid3.bound 1))
        ∗ idxPiece1 d L ∗ outPiece1 d L ∗ tblPiece1 d L ∗ shPiece1 fullShare d L
        ∗ (∃ f, (thr1 d L).loc cc3_scratch1 ↦{fullShare} f) ∗ (∃ f, (thr1 d L).loc cc3_scratch2 ↦{fullShare} f) ∗ (∃ f, (thr1 d L).loc cc3_scratch3 ↦{fullShare} f)
        ∗ semVal (dcell d (cV1 L) (jV1 L) cc3_scratch4.sem) 0 ∗ semVal (dcell d (cV1 L) (jV1 L) cc3_scratch5.sem) 0
        ∗ semVal (dcell d (cV1 L) (jV1 L) cc3_scratch6.sem) 0 ∗ semVal (dcell d (cV1 L) (jV1 L) cc3_scratch7.sem) 0
        ∗ semVal (dcell d (cV1 L) (jV1 L) cc3_scoped0.sem) 0 ∗ semVal (dcell d (cV1 L) (jV1 L) cc3_scoped1.sem) 0
        ∗ R₁ ∗ R₂
        ∗ ∃ W₁, ⌜∀ p ∈ W₁, p ∈ W ∨ p.2 = none⌝ ∗ owes (thr1 d L) (O + oxV 1 d (cV1 L)) W₁)
      ⊢ wp frame (wpE (defs₀ (F := F)) 𝒱₀ (thr1 d L) none) Set.univ
          (k3_rest (F := F) L tV (Memref.isWhole_whole _) jV (Memref.isWhole_whole _) oV (Memref.isWhole_whole _) shV (Memref.isWhole_whole _)
            ibV (Memref.isWhole_whole _) raV (Memref.isWhole_whole _) rbV (Memref.isWhole_whole _) cc3_scratch4 cc3_scratch5 cc3_scratch6 cc3_scratch7 cc3_scoped0 cc3_scoped1)
          fun _ => iprop(td1 d L
            ∗ ((∃ f, (thr1 d L).loc cc3_scratch1 ↦{fullShare} f) ∗ (∃ f, (thr1 d L).loc cc3_scratch2 ↦{fullShare} f) ∗ (∃ f, (thr1 d L).loc cc3_scratch3 ↦{fullShare} f) ∗ R₁)
            ∗ (semVal (dcell d (cV1 L) (jV1 L) cc3_scratch4.sem) 0 ∗ semVal (dcell d (cV1 L) (jV1 L) cc3_scratch5.sem) 0
              ∗ semVal (dcell d (cV1 L) (jV1 L) cc3_scratch6.sem) 0 ∗ semVal (dcell d (cV1 L) (jV1 L) cc3_scratch7.sem) 0
              ∗ semVal (dcell d (cV1 L) (jV1 L) cc3_scoped0.sem) 0 ∗ semVal (dcell d (cV1 L) (jV1 L) cc3_scoped1.sem) 0 ∗ R₂)
            ∗ ∃ W', ⌜∀ p ∈ W', p ∈ W ∨ p.2 = none ∨ p.2 = some (1 : Fin 2)⌝ ∗ owes (thr1 d L) O W') := by
  unfold k3_rest
  iintro ⟨#Hlv, #Hinv, Htoks, #Hrch, Hat, Hcred, Hidx, Hout, Htbl, Hsh, ⟨%fib, Hib⟩, ⟨%fra, Hra⟩, ⟨%frb, Hrb⟩, Hs4, Hs5, Hs6, Hs7, Hp0, Hp1, HR₁, HR₂, %W₁, %hW₁, HO⟩
  have hO' : ∀ g, (O + oxV 1 d (cV1 L)) g none = 0 := fun g => by rw [Pi.add_apply, Finsupp.add_apply, hO g, oxV_none]
  ihave Hmw2 := (show levAts (K (F := F)).L (K (F := F)).lev ⊢ Transfers.MayWaits (thr1 d L) (default : HIx 2) O from
    (K (F := F)).mayWaits_none (thr := thr1 d L) hO) $$ Hlv
  -- the barrier
  ihave Hp := (pays_intro1 (F := F) d L) $$ Hsh
  icases Hp with ⟨Hshrest, Hpays⟩
  iapply (SparseCore.wp_subcoreBarrier 𝒱₀ none EB (bRd (F := F)) d (sc := cV1 L) (i := jV1 L) sc_bar0 (grid3.bound 1) hsub3 (L 1) rfl κ (fun _ => 1) (jV1 L).val
      (fun j => bRd_mem d _ _ _ (by decide)) (fun _ => rfl) (bRd_expect d _ _ (by decide)) (some 1) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := thr1 d L) (8 * (1 : Fin 2).val + 3) (fun p hp => by
        rw [Finset.mem_singleton] at hp; subst hp
        show (K (F := F)).lev (bcell d (cV1 L) (jV1 L)) (some 1) ≤ _
        rw [(K (F := F)).lev_V_reg d _ _ (show (sc_bar0 : Sem sig) ≠ (K (F := F)).go from sc_bar0_ne_go)])
      (fun g ι hg => lt_of_lt_of_le (by decide) (hOlev g ι hg)))
    iexact Hlv
  iintro ⟨HO, -, -, Hgot⟩
  ihave Hg := (pays_elim1 (F := F) d L) $$ Hgot
  icases Hg with ⟨%g, Hg⟩
  ihave Hg2 := (pointsTo_share (ℓ := sh1Loc d (cV1 L)) (I := Finset.univ) (f := g) (PosShare.mem_left_op_right (rdShare (L 1).val))).1 $$ Hg
  icases Hg2 with ⟨Hsh, Hsh2⟩
  ihave Hsh' := (Entails.of_eq (pts_shW1 (F := F) d L _ _).symm) $$ Hsh
  ihave Hsh2' := (Entails.of_eq (pts_shW1 (F := F) d L _ _).symm) $$ Hsh2
  ihave Hib' := (Entails.of_eq (pts_ib1 (F := F) d L _).symm) $$ Hib
  ihave Hra' := (Entails.of_eq (pts_ra1 (F := F) d L _).symm) $$ Hra
  ihave Hrb' := (Entails.of_eq (pts_rb1 (F := F) d L _).symm) $$ Hrb
  sl_exec
  -- the five blocks
  sl_for (inv1_1 d L O (insert (SemLoc.reg sc_bar0, some (1 : Fin 2)) W₁) g) $$ [Hidx Hib' Hsh' Hsh2' Hp1 Hs4 Hs5 Hra' Hrb' Hs6 Hs7 Hout HO]
  case region => exact fun t1 acc => t1_region1 d L O _ g _ t1 acc
  · unfold inv1_1
    isplitr; · iexact Hmw2
    isplitl [Hidx]; · iexact Hidx
    isplitl [Hib']; · iexists _; iexact Hib'
    isplitl [Hsh']; · iexact Hsh'
    isplitl [Hsh2']; · iexact Hsh2'
    isplitl [Hp1]; · iexact Hp1
    isplitl [Hs4]; · iexact Hs4
    isplitl [Hs5]; · iexact Hs5
    isplitl [Hra' Hrb' Hs6 Hs7 Hout]
    · rw [show 8 * 0 = 0 from rfl, pendSt1_zero]
      unfold pendNone1
      isplitl [Hra']; · iexists _; iexact Hra'
      isplitl [Hrb']; · iexists _; iexact Hrb'
      isplitl [Hs6]; · iexact Hs6
      isplitl [Hs7]; · iexact Hs7
      iapply (Entails.of_eq (outPiece1_piles (F := F) d L)); iexact Hout
    iexists _; isplitr
    swap; · iexact HO
    ipureintro; exact fun p hp => .inl hp
  iintro %_ HI
  unfold inv1_1
  icases HI with ⟨-, Hidx, ⟨%fib', Hib⟩, Hsh, Hsh2, Hp1, Hs4, Hs5, Hpend, %W₂, %hW₂, HO⟩
  ihave Hpend' := (Entails.of_eq (congrArg (pendSt1 (F := F) d L) (show 8 * k3_t1_loop.trips = 39 + 1 by rw [k3_t1_trips]))) $$ Hpend
  ihave Hpend'' := (Entails.of_eq (pendSt1_succ (F := F) d L 39)) $$ Hpend'
  unfold pendAt1
  icases Hpend'' with ⟨%fra', %frb', Hs6, Hra, Hs7, Hrb, HpA, HpB⟩
  -- the two final waits
  sl_exec
  sl_step
  isplitl [Hidx HpA HpB Hs6_dst Hs7_dst Htbl Hsh Hsh2 Hshrest]
  · unfold td1
    isplitl [Hidx]; · iexact Hidx
    isplitl [HpA HpB Hs6_dst Hs7_dst]
    · iapply (Entails.of_eq (outPiece1_piles (F := F) d L).symm)
      isplitl [HpA Hs6_dst]
      · iapply (Entails.of_eq (pileA1_out (F := F) d L (Finset.mem_univ (blk1 39))).symm)
        isplitl [Hs6_dst]; · iexact Hs6_dst
        iexact HpA
      · iapply (Entails.of_eq (pileB1_out (F := F) d L (Finset.mem_univ (blk1 39))).symm)
        isplitl [Hs7_dst]; · iexact Hs7_dst
        iexact HpB
    isplitl [Htbl]; · iexact Htbl
    isplitl [Hsh Hsh2]
    · iexists g
      iapply (pointsTo_share (ℓ := sh1Loc d (cV1 L)) (I := Finset.univ) (f := g) (PosShare.mem_left_op_right (rdShare (L 1).val))).2
      isplitl [Hsh]; · iapply (Entails.of_eq (pts_shW1 (F := F) d L _ _)); iexact Hsh
      iapply (Entails.of_eq (pts_shW1 (F := F) d L _ _)); iexact Hsh2
    iexact Hshrest
  isplitl [Hib Hra Hrb HR₁]
  · isplitl [Hib]; · iexists _; iapply (Entails.of_eq (pts_ib1 (F := F) d L _)); iexact Hib
    isplitl [Hra]; · iexists _; iapply (Entails.of_eq (pts_ra1 (F := F) d L _)); iexact Hra
    isplitl [Hrb]; · iexists _; iapply (Entails.of_eq (pts_rb1 (F := F) d L _)); iexact Hrb
    iexact HR₁
  isplitl [Hs4 Hs5 Hs6 Hs7 Hp0 Hp1 HR₂]
  · isplitl [Hs4]; · iexact Hs4
    isplitl [Hs5]; · iexact Hs5
    isplitl [Hs6]; · iexact Hs6
    isplitl [Hs7]; · iexact Hs7
    isplitl [Hp0]; · iexact Hp0
    isplitl [Hp1]; · iexact Hp1
    iexact HR₂
  iexists _; isplitr
  swap; · iexact HO
  ipureintro; intro p hp
  rcases Finset.mem_insert.mp hp with hp | hp; · exact .inr (.inl (hp ▸ rfl))
  rcases Finset.mem_insert.mp hp with hp | hp; · exact .inr (.inl (hp ▸ rfl))
  rcases hW₂ p hp with h | h
  · rcases Finset.mem_insert.mp h with h | h
    · exact .inr (.inr (h ▸ rfl))
    · exact (hW₁ p h).imp_right Or.inl
  · exact .inr (.inl h)

theorem ownSems0_V1 (d : Dev nD) (c : Fin τ.nSC) (i : Fin τ.nSub) :
    (ownSems0 (V d c i) : sProp 𝕄) = iprop(semVal (dcell d c i cc3_scratch4.sem) 0 ∗ semVal (dcell d c i cc3_scratch5.sem) 0 ∗ semVal (dcell d c i cc3_scratch6.sem) 0 ∗ semVal (dcell d c i cc3_scratch7.sem) 0 ∗ semVal (dcell d c i cc3_scoped0.sem) 0 ∗ semVal (dcell d c i cc3_scoped1.sem) 0 ∗ bigSep (((((((ownCells (V d c i)).erase (dcell d c i cc3_scratch4.sem)).erase (dcell d c i cc3_scratch5.sem)).erase (dcell d c i cc3_scratch6.sem)).erase (dcell d c i cc3_scratch7.sem)).erase (dcell d c i cc3_scoped0.sem)).erase (dcell d c i cc3_scoped1.sem)) fun g => semVal g 0) := by
  unfold SparseCore.Cfg.ownSems0
  rw [SparseCore.bigSep_erase' (dcell_mem d c i cc3_scratch4.sem (by decide)),
    SparseCore.bigSep_erase' (Finset.mem_erase.mpr ⟨dcell_ne (by decide), (dcell_mem d c i cc3_scratch5.sem (by decide))⟩),
    SparseCore.bigSep_erase' (Finset.mem_erase.mpr ⟨dcell_ne (by decide), (Finset.mem_erase.mpr ⟨dcell_ne (by decide), (dcell_mem d c i cc3_scratch6.sem (by decide))⟩)⟩),
    SparseCore.bigSep_erase' (Finset.mem_erase.mpr ⟨dcell_ne (by decide), (Finset.mem_erase.mpr ⟨dcell_ne (by decide), (Finset.mem_erase.mpr ⟨dcell_ne (by decide), (dcell_mem d c i cc3_scratch7.sem (by decide))⟩)⟩)⟩),
    SparseCore.bigSep_erase' (Finset.mem_erase.mpr ⟨dcell_ne (by decide), (Finset.mem_erase.mpr ⟨dcell_ne (by decide), (Finset.mem_erase.mpr ⟨dcell_ne (by decide), (Finset.mem_erase.mpr ⟨dcell_ne (by decide), (dcell_mem d c i cc3_scoped0.sem (by decide))⟩)⟩)⟩)⟩),
    SparseCore.bigSep_erase' (Finset.mem_erase.mpr ⟨dcell_ne (by decide), (Finset.mem_erase.mpr ⟨dcell_ne (by decide), (Finset.mem_erase.mpr ⟨dcell_ne (by decide), (Finset.mem_erase.mpr ⟨dcell_ne (by decide), (Finset.mem_erase.mpr ⟨dcell_ne (by decide), (dcell_mem d c i cc3_scoped1.sem (by decide))⟩)⟩)⟩)⟩)⟩)]

theorem ownBufs_V1 (d : Dev nD) (c : Fin τ.nSC) (i : Fin τ.nSub) :
    (ownBufs (V d c i) : sProp 𝕄) = iprop((∃ f, (V d c i).loc cc3_scratch1 ↦{fullShare} f) ∗ (∃ f, (V d c i).loc cc3_scratch2 ↦{fullShare} f) ∗ (∃ f, (V d c i).loc cc3_scratch3 ↦{fullShare} f) ∗ bigSep ((((ownRefs (τ := τ) (.scVector c i)).erase ((Proc.scVector c i).devRef cc3_scratch1)).erase ((Proc.scVector c i).devRef cc3_scratch2)).erase ((Proc.scVector c i).devRef cc3_scratch3)) fun b => iprop(∃ f, ((d, b) : Loc nD τ sig) ↦{fullShare} f)) := by
  unfold SparseCore.Cfg.ownBufs
  rw [SparseCore.bigSep_erase' (SparseCore.Cfg.mem_ownRefs_of_owner (p := Proc.scVector c i) (b := ((Proc.scVector c i).devRef cc3_scratch1)) rfl),
    SparseCore.bigSep_erase' (Finset.mem_erase.mpr ⟨(by intro e; cases e), (SparseCore.Cfg.mem_ownRefs_of_owner (p := Proc.scVector c i) (b := ((Proc.scVector c i).devRef cc3_scratch2)) rfl)⟩),
    SparseCore.bigSep_erase' (Finset.mem_erase.mpr ⟨(by intro e; cases e), (Finset.mem_erase.mpr ⟨(by intro e; cases e), (SparseCore.Cfg.mem_ownRefs_of_owner (p := Proc.scVector c i) (b := ((Proc.scVector c i).devRef cc3_scratch3)) rfl)⟩)⟩)]

omit [FloatOps F] in
theorem tblPiece1_pos (h : k3_cond1 L = 1#1) : tblPiece1 (F := F) d L = iprop(∃ tb, tblLoc d ↦[tblSet1 L h]{fullShare} tb) := dif_pos h
omit [FloatOps F] in
theorem shPiece1_pos (q' : PosShare TreeShare) (h : k3_cond1 L = 1#1) : shPiece1 (F := F) q' d L = iprop(∃ f, sh1Loc d (cV1 L) ↦[shSet1 L h]{q'} f) := dif_pos h

set_option maxHeartbeats 4000000 in
/-- The task on vector subcore `(L 0, L 1)` of device `d`. -/
theorem tile_body1 (hF : (K (F := F)).Facts) (O : CellTallies nD τ sig (HIx 2)) (W : Waits sig (HIx 2)) (hO : ∀ g, O g none = 0)
    (hOlev : ∀ g ι, 0 < O g ι → 8 * (1 : Fin 2).val + 6 ≤ (K (F := F)).lev g ι) :
    iprop(levAts (K (F := F)).L (K (F := F)).lev ∗ kit 1 d (cV1 L) (jV1 L) ∗ go1 d L
        ∗ scopedBufs (V d (cV1 L) (jV1 L)) ∗ scopedSems0 (V d (cV1 L) (jV1 L)) ∗ owes (V d (cV1 L) (jV1 L)) (O + oxV 1 d (cV1 L)) W)
      ⊢ wp frame (wpE (defs₀ (F := F)) 𝒱₀ (V d (cV1 L) (jV1 L)) none) Set.univ
          (cc3_gather_kernel L tV (Memref.isWhole_whole _) jV (Memref.isWhole_whole _) oV (Memref.isWhole_whole _) shV (Memref.isWhole_whole _)
            ibV (Memref.isWhole_whole _) raV (Memref.isWhole_whole _) rbV (Memref.isWhole_whole _) cc3_scratch4 cc3_scratch5 cc3_scratch6 cc3_scratch7 cc3_scoped0 cc3_scoped1)
          fun _ => iprop(td1 d L ∗ scopedBufs (V d (cV1 L) (jV1 L)) ∗ scopedSems0 (V d (cV1 L) (jV1 L))
            ∗ ∃ W', ⌜∀ p ∈ W', p ∈ W ∨ p.2 = none ∨ p.2 = some (1 : Fin 2)⌝ ∗ owes (V d (cV1 L) (jV1 L)) O W') := by
  simp only [cc3_gather_kernel_eq_skeleton]; unfold cc3_gather_kernel_skel
  rw [(K (F := F)).scopedBufs_V hF d (cV1 L) (jV1 L), SparseCore.Cfg.scopedSems0_V (Val := Elt F) d (cV1 L) (jV1 L), ownSems0_V1, ownBufs_V1]
  unfold kit go1
  rw [if_neg (show ¬ ((1 : Fin 2).val = 0) by decide)]
  have hO' : ∀ g, (O + oxV 1 d (cV1 L)) g none = 0 := fun g => by rw [Pi.add_apply, Finsupp.add_apply, hO g, oxV_none]
  by_cases k3_h1 : k3_cond1 L = 1#1
  · -- a writing tile: its rows of the table into the shared scratch, waited for
    rw [tblPiece1_pos (F := F) d L k3_h1, shPiece1_pos (F := F) d L fullShare k3_h1]
    iintro ⟨#Hlv, ⟨⟨%κ, #Hinv⟩, Htoks, -, Hcred⟩, ⟨Hidx, Hout, ⟨%tb, Htbl⟩, ⟨%fsh, Hsh⟩, Hat, #Hrch⟩, ⟨⟨%fib, Hib⟩, ⟨%fra, Hra⟩, ⟨%frb, Hrb⟩, Hbufs⟩, ⟨Hs4, Hs5, Hs6, Hs7, Hp0, Hp1, Hsems⟩, HO⟩
    ihave Hmw1 := (show levAts (K (F := F)).L (K (F := F)).lev ⊢ Transfers.MayWaits (thr1 d L) (default : HIx 2) (O + oxV 1 d (cV1 L)) from
      (K (F := F)).mayWaits_none (thr := thr1 d L) hO') $$ Hlv
    ihave Htbl := (Entails.of_eq (pts_tbl1 (F := F) d L k3_h1 _).symm) $$ Htbl
    ihave Hsh := (Entails.of_eq (pts_sh1 (F := F) d L k3_h1 _ _).symm) $$ Hsh
    sl_exec
    iapply (rest1 (F := F) d L hF O W hO hOlev κ _ _) $$ [Htoks Hat Hcred Hidx Hout Htbl Hsh Hib Hra Hrb Hbufs Hs4 Hs5 Hs6 Hs7 Hp0 Hp1 Hsems HO]
    isplitr; · iexact Hlv
    isplitr; · iexact Hinv
    isplitl [Htoks]; · iexact Htoks
    isplitr; · iexact Hrch
    isplitl [Hat]; · iexact Hat
    isplitl [Hcred]; · iexact Hcred
    isplitl [Hidx]; · iexact Hidx
    isplitl [Hout]; · iexact Hout
    isplitl [Htbl]; · iapply (Entails.of_eq (tblPiece1_pos (F := F) d L k3_h1).symm); iexists tb; iapply (Entails.of_eq (pts_tbl1 (F := F) d L k3_h1 _)); iexact Htbl
    isplitl [Hsh]; · iapply (Entails.of_eq (shPiece1_pos (F := F) d L fullShare k3_h1).symm); iexists _; iapply (Entails.of_eq (pts_sh1 (F := F) d L k3_h1 _ _)); iexact Hsh
    isplitl [Hib]; · iexists _; iexact Hib
    isplitl [Hra]; · iexists _; iexact Hra
    isplitl [Hrb]; · iexists _; iexact Hrb
    isplitl [Hs4]; · iexact Hs4
    isplitl [Hs5]; · iexact Hs5
    isplitl [Hs6]; · iexact Hs6
    isplitl [Hs7]; · iexact Hs7
    isplitl [Hp0]; · iexact Hp0
    isplitl [Hp1]; · iexact Hp1
    isplitl [Hbufs]; · iexact Hbufs
    isplitl [Hsems]; · iexact Hsems
    iexists _; isplitr
    swap; · iexact HO
    ipureintro; intro p hp
    rcases Finset.mem_insert.mp hp with hp | hp; · exact .inr (hp ▸ rfl)
    exact .inl hp
  · -- a tile that writes nothing
    iintro ⟨#Hlv, ⟨⟨%κ, #Hinv⟩, Htoks, -, Hcred⟩, ⟨Hidx, Hout, Htbl, Hsh, Hat, #Hrch⟩, ⟨⟨%fib, Hib⟩, ⟨%fra, Hra⟩, ⟨%frb, Hrb⟩, Hbufs⟩, ⟨Hs4, Hs5, Hs6, Hs7, Hp0, Hp1, Hsems⟩, HO⟩
    sl_exec
    iapply (rest1 (F := F) d L hF O W hO hOlev κ _ _) $$ [Htoks Hat Hcred Hidx Hout Htbl Hsh Hib Hra Hrb Hbufs Hs4 Hs5 Hs6 Hs7 Hp0 Hp1 Hsems HO]
    isplitr; · iexact Hlv
    isplitr; · iexact Hinv
    isplitl [Htoks]; · iexact Htoks
    isplitr; · iexact Hrch
    isplitl [Hat]; · iexact Hat
    isplitl [Hcred]; · iexact Hcred
    isplitl [Hidx]; · iexact Hidx
    isplitl [Hout]; · iexact Hout
    isplitl [Htbl]; · iexact Htbl
    isplitl [Hsh]; · iexact Hsh
    isplitl [Hib]; · iexists _; iexact Hib
    isplitl [Hra]; · iexists _; iexact Hra
    isplitl [Hrb]; · iexists _; iexact Hrb
    isplitl [Hs4]; · iexact Hs4
    isplitl [Hs5]; · iexact Hs5
    isplitl [Hs6]; · iexact Hs6
    isplitl [Hs7]; · iexact Hs7
    isplitl [Hp0]; · iexact Hp0
    isplitl [Hp1]; · iexact Hp1
    isplitl [Hbufs]; · iexact Hbufs
    isplitl [Hsems]; · iexact Hsems
    iexists _; isplitr
    swap; · iexact HO
    ipureintro; intro p hp
    exact .inl hp

end Tile1

/-! ## The obligation -/

theorem tileObl1 : (K (F := F)).TileObl (D (F := F)) 𝒱 (P (F := F)) v₀ 1 :=
  tileObl1_of (fun d L hF O W hO hOlev => tile_body1 d L hF O W hO hOlev)

end Cert.Proof.Sc
-- ==== Proof.ScSplit.lean ====
/-
  A SparseCore's hand-over split among its sixteen tiles, and the tiles' returns rejoined. A SparseCore's half of the
  index list is sixteen runs of 10240 entries, each a tile's five blocks of 2048; its half of the gathered rows sixteen
  runs of 10240 rows, each five chunks of 2048, each eight pairs of blocks of 128 rows; its half of the table ten runs
  of 1000 rows, one per writing tile, as are the shared scratch's ten thousand rows. Every set is a run of consecutive
  rows, so disjointness and covering are arithmetic on the runs' first rows. Coming back, the index blocks rejoin at
  contents that agree with each tile's on its blocks, so the half is still in range; the sixteen read shares of the shared
  scratch and what the writing tiles kept aside of their rows agree where they overlap and rejoin into the scratch whole.
-/
import proofs.«217078_g14027363189340_cont_week2b_886_24_alg».proof.Proof.ScPay

noncomputable section

namespace Cert.Proof.Sc.Split

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

/-! ## Runs of consecutive rows -/

/-- The entries of a vector from `lo`, `w` of them. -/
def rows1 {N : Nat} (lo w : Nat) : Finset (⟨1, ![N]⟩ : Shape).Idx := Finset.univ.filter fun r => lo ≤ (r 0).val ∧ (r 0).val < lo + w
/-- The rows of a matrix from `lo`, `w` of them. -/
def rows2 {N M : Nat} (lo w : Nat) : Finset (⟨2, ![N, M]⟩ : Shape).Idx := Finset.univ.filter fun r => lo ≤ (r 0).val ∧ (r 0).val < lo + w

theorem mem_rows1 {N : Nat} {lo w : Nat} {r : (⟨1, ![N]⟩ : Shape).Idx} : r ∈ rows1 lo w ↔ lo ≤ (r 0).val ∧ (r 0).val < lo + w := by
  simp [rows1]
theorem mem_rows2 {N M : Nat} {lo w : Nat} {r : (⟨2, ![N, M]⟩ : Shape).Idx} : r ∈ rows2 lo w ↔ lo ≤ (r 0).val ∧ (r 0).val < lo + w := by
  simp [rows2]

/-- A unit-stride rectangle of a vector is a run of entries. -/
theorem unit_set1 {N : Nat} (off size : Fin 1 → Nat) (inb) : (Rect.unit (s := (⟨1, ![N]⟩ : Shape)) off size inb).set = rows1 (off 0) (size 0) := by
  ext r
  rw [Rect.mem_set_unit, mem_rows1]
  constructor
  · intro h; exact h 0
  · intro h a; obtain rfl : a = 0 := Subsingleton.elim _ _; exact h
/-- A unit-stride rectangle of a matrix over whole rows is a run of rows. -/
theorem unit_set2 {N M : Nat} (off size : Fin 2 → Nat) (inb) (h1 : off 1 = 0) (h2 : size 1 = M) :
    (Rect.unit (s := (⟨2, ![N, M]⟩ : Shape)) off size inb).set = rows2 (off 0) (size 0) := by
  ext r
  rw [Rect.mem_set_unit, mem_rows2]
  constructor
  · intro h; exact h 0
  · intro h a
    match a with
    | ⟨0, _⟩ => exact h
    | ⟨1, _⟩ =>
      have : (r 1).val < M := (r 1).isLt
      show off 1 ≤ (r 1).val ∧ (r 1).val < off 1 + size 1
      rw [h1, h2]; omega

theorem rows1_10240_16_disj {N : Nat} {n : Nat} (hn : n = 16) (lo : Nat) : ∀ k ∈ (Finset.univ : Finset (Fin n)), ∀ k' ∈ (Finset.univ : Finset (Fin n)), k ≠ k' →
    Disjoint (rows1 (lo + 10240 * k.val) 10240 : Finset (⟨1, ![N]⟩ : Shape).Idx) (rows1 (lo + 10240 * k'.val) 10240) := by
  subst hn
  intro k _ k' _ hne
  refine Finset.disjoint_left.mpr fun r hr hr' => ?_
  rw [mem_rows1] at hr hr'
  exact hne (Fin.ext (by omega))
theorem rows1_10240_16_cover {N : Nat} {n : Nat} (hn : n = 16) (lo : Nat) :
    (Finset.univ : Finset (Fin n)).biUnion (fun k => (rows1 (lo + 10240 * k.val) 10240 : Finset (⟨1, ![N]⟩ : Shape).Idx)) = rows1 lo 163840 := by
  subst hn
  ext r
  simp only [Finset.mem_biUnion, Finset.mem_univ, true_and, mem_rows1]
  constructor
  · rintro ⟨k, h1, h2⟩
    have := k.isLt
    constructor <;> omega
  · rintro ⟨h1, h2⟩
    exact ⟨⟨((r 0).val - lo) / 10240, by omega⟩, by show lo + 10240 * (((r 0).val - lo) / 10240) ≤ _; omega, by show _ < lo + 10240 * (((r 0).val - lo) / 10240) + 10240; omega⟩

theorem rows1_2048_5_disj {N : Nat} {n : Nat} (hn : n = 5) (lo : Nat) : ∀ k ∈ (Finset.univ : Finset (Fin n)), ∀ k' ∈ (Finset.univ : Finset (Fin n)), k ≠ k' →
    Disjoint (rows1 (lo + 2048 * k.val) 2048 : Finset (⟨1, ![N]⟩ : Shape).Idx) (rows1 (lo + 2048 * k'.val) 2048) := by
  subst hn
  intro k _ k' _ hne
  refine Finset.disjoint_left.mpr fun r hr hr' => ?_
  rw [mem_rows1] at hr hr'
  exact hne (Fin.ext (by omega))
theorem rows1_2048_5_cover {N : Nat} {n : Nat} (hn : n = 5) (lo : Nat) :
    (Finset.univ : Finset (Fin n)).biUnion (fun k => (rows1 (lo + 2048 * k.val) 2048 : Finset (⟨1, ![N]⟩ : Shape).Idx)) = rows1 lo 10240 := by
  subst hn
  ext r
  simp only [Finset.mem_biUnion, Finset.mem_univ, true_and, mem_rows1]
  constructor
  · rintro ⟨k, h1, h2⟩
    have := k.isLt
    constructor <;> omega
  · rintro ⟨h1, h2⟩
    exact ⟨⟨((r 0).val - lo) / 2048, by omega⟩, by show lo + 2048 * (((r 0).val - lo) / 2048) ≤ _; omega, by show _ < lo + 2048 * (((r 0).val - lo) / 2048) + 2048; omega⟩

theorem rows2_10240_16_disj {N M : Nat} {n : Nat} (hn : n = 16) (lo : Nat) : ∀ k ∈ (Finset.univ : Finset (Fin n)), ∀ k' ∈ (Finset.univ : Finset (Fin n)), k ≠ k' →
    Disjoint (rows2 (lo + 10240 * k.val) 10240 : Finset (⟨2, ![N, M]⟩ : Shape).Idx) (rows2 (lo + 10240 * k'.val) 10240) := by
  subst hn
  intro k _ k' _ hne
  refine Finset.disjoint_left.mpr fun r hr hr' => ?_
  rw [mem_rows2] at hr hr'
  exact hne (Fin.ext (by omega))
theorem rows2_10240_16_cover {N M : Nat} {n : Nat} (hn : n = 16) (lo : Nat) :
    (Finset.univ : Finset (Fin n)).biUnion (fun k => (rows2 (lo + 10240 * k.val) 10240 : Finset (⟨2, ![N, M]⟩ : Shape).Idx)) = rows2 lo 163840 := by
  subst hn
  ext r
  simp only [Finset.mem_biUnion, Finset.mem_univ, true_and, mem_rows2]
  constructor
  · rintro ⟨k, h1, h2⟩
    have := k.isLt
    constructor <;> omega
  · rintro ⟨h1, h2⟩
    exact ⟨⟨((r 0).val - lo) / 10240, by omega⟩, by show lo + 10240 * (((r 0).val - lo) / 10240) ≤ _; omega, by show _ < lo + 10240 * (((r 0).val - lo) / 10240) + 10240; omega⟩

theorem rows2_2048_5_disj {N M : Nat} {n : Nat} (hn : n = 5) (lo : Nat) : ∀ k ∈ (Finset.univ : Finset (Fin n)), ∀ k' ∈ (Finset.univ : Finset (Fin n)), k ≠ k' →
    Disjoint (rows2 (lo + 2048 * k.val) 2048 : Finset (⟨2, ![N, M]⟩ : Shape).Idx) (rows2 (lo + 2048 * k'.val) 2048) := by
  subst hn
  intro k _ k' _ hne
  refine Finset.disjoint_left.mpr fun r hr hr' => ?_
  rw [mem_rows2] at hr hr'
  exact hne (Fin.ext (by omega))
theorem rows2_2048_5_cover {N M : Nat} {n : Nat} (hn : n = 5) (lo : Nat) :
    (Finset.univ : Finset (Fin n)).biUnion (fun k => (rows2 (lo + 2048 * k.val) 2048 : Finset (⟨2, ![N, M]⟩ : Shape).Idx)) = rows2 lo 10240 := by
  subst hn
  ext r
  simp only [Finset.mem_biUnion, Finset.mem_univ, true_and, mem_rows2]
  constructor
  · rintro ⟨k, h1, h2⟩
    have := k.isLt
    constructor <;> omega
  · rintro ⟨h1, h2⟩
    exact ⟨⟨((r 0).val - lo) / 2048, by omega⟩, by show lo + 2048 * (((r 0).val - lo) / 2048) ≤ _; omega, by show _ < lo + 2048 * (((r 0).val - lo) / 2048) + 2048; omega⟩

theorem rows2_256_8_disj {N M : Nat} {n : Nat} (hn : n = 8) (lo : Nat) : ∀ k ∈ (Finset.univ : Finset (Fin n)), ∀ k' ∈ (Finset.univ : Finset (Fin n)), k ≠ k' →
    Disjoint (rows2 (lo + 256 * k.val) 256 : Finset (⟨2, ![N, M]⟩ : Shape).Idx) (rows2 (lo + 256 * k'.val) 256) := by
  subst hn
  intro k _ k' _ hne
  refine Finset.disjoint_left.mpr fun r hr hr' => ?_
  rw [mem_rows2] at hr hr'
  exact hne (Fin.ext (by omega))
theorem rows2_256_8_cover {N M : Nat} {n : Nat} (hn : n = 8) (lo : Nat) :
    (Finset.univ : Finset (Fin n)).biUnion (fun k => (rows2 (lo + 256 * k.val) 256 : Finset (⟨2, ![N, M]⟩ : Shape).Idx)) = rows2 lo 2048 := by
  subst hn
  ext r
  simp only [Finset.mem_biUnion, Finset.mem_univ, true_and, mem_rows2]
  constructor
  · rintro ⟨k, h1, h2⟩
    have := k.isLt
    constructor <;> omega
  · rintro ⟨h1, h2⟩
    exact ⟨⟨((r 0).val - lo) / 256, by omega⟩, by show lo + 256 * (((r 0).val - lo) / 256) ≤ _; omega, by show _ < lo + 256 * (((r 0).val - lo) / 256) + 256; omega⟩

theorem rows2_128_2_disj {N M : Nat} {n : Nat} (hn : n = 2) (lo : Nat) : ∀ k ∈ (Finset.univ : Finset (Fin n)), ∀ k' ∈ (Finset.univ : Finset (Fin n)), k ≠ k' →
    Disjoint (rows2 (lo + 128 * k.val) 128 : Finset (⟨2, ![N, M]⟩ : Shape).Idx) (rows2 (lo + 128 * k'.val) 128) := by
  subst hn
  intro k _ k' _ hne
  refine Finset.disjoint_left.mpr fun r hr hr' => ?_
  rw [mem_rows2] at hr hr'
  exact hne (Fin.ext (by omega))
theorem rows2_128_2_cover {N M : Nat} {n : Nat} (hn : n = 2) (lo : Nat) :
    (Finset.univ : Finset (Fin n)).biUnion (fun k => (rows2 (lo + 128 * k.val) 128 : Finset (⟨2, ![N, M]⟩ : Shape).Idx)) = rows2 lo 256 := by
  subst hn
  ext r
  simp only [Finset.mem_biUnion, Finset.mem_univ, true_and, mem_rows2]
  constructor
  · rintro ⟨k, h1, h2⟩
    have := k.isLt
    constructor <;> omega
  · rintro ⟨h1, h2⟩
    exact ⟨⟨((r 0).val - lo) / 128, by omega⟩, by show lo + 128 * (((r 0).val - lo) / 128) ≤ _; omega, by show _ < lo + 128 * (((r 0).val - lo) / 128) + 128; omega⟩

/-- A writing tile's thousand rows from `lo + 1000 i`; no rows for the tiles from the tenth on. -/
def wrows {N M : Nat} (lo : Nat) (i : Fin 16) : Finset (⟨2, ![N, M]⟩ : Shape).Idx := if i.val < 10 then rows2 (lo + 1000 * i.val) 1000 else ∅

theorem wrows_disj {N M : Nat} (lo : Nat) : ∀ k ∈ (Finset.univ : Finset (Fin 16)), ∀ k' ∈ (Finset.univ : Finset (Fin 16)), k ≠ k' →
    Disjoint (wrows lo k : Finset (⟨2, ![N, M]⟩ : Shape).Idx) (wrows lo k') := by
  intro k _ k' _ hne
  unfold wrows
  split
  · split
    · refine Finset.disjoint_left.mpr fun r hr hr' => ?_
      rw [mem_rows2] at hr hr'
      exact hne (Fin.ext (by omega))
    · exact Finset.disjoint_empty_right _
  · exact Finset.disjoint_empty_left _
theorem wrows_cover {N M : Nat} (lo : Nat) :
    (Finset.univ : Finset (Fin 16)).biUnion (fun k => (wrows lo k : Finset (⟨2, ![N, M]⟩ : Shape).Idx)) = rows2 lo 10000 := by
  ext r
  simp only [Finset.mem_biUnion, Finset.mem_univ, true_and, mem_rows2]
  constructor
  · rintro ⟨k, hk⟩
    unfold wrows at hk
    split at hk
    · rw [mem_rows2] at hk; constructor <;> omega
    · exact absurd hk (Finset.notMem_empty _)
  · rintro ⟨h1, h2⟩
    refine ⟨⟨((r 0).val - lo) / 1000, by omega⟩, ?_⟩
    unfold wrows
    rw [if_pos (show ((r 0).val - lo) / 1000 < 10 by omega), mem_rows2]
    constructor
    · show lo + 1000 * (((r 0).val - lo) / 1000) ≤ _; omega
    · show _ < lo + 1000 * (((r 0).val - lo) / 1000) + 1000; omega
/-- All ten thousand rows of the shared scratch. -/
theorem rows2_all : (rows2 0 10000 : Finset S10000x128.Idx) = Finset.univ := by
  ext r
  have : (r 0).val < 10000 := (r 0).isLt
  simp only [mem_rows2, Finset.mem_univ, iff_true]
  omega

/-! ## The program's slices as runs of rows -/

theorem trips0_1 : k1_t1_loop.trips = 5 := by decide
theorem trips0_3 : k1_t3_loop.trips = 8 := by decide
theorem cond0_iff : ∀ L : grid1.Coords, k1_cond1 L = 1#1 ↔ (L 1).val < 10 := by decide +kernel

theorem idxSet0_eq (L : grid1.Coords) (t1 : Fin k1_t1_loop.trips) :
    idxSet0 L t1 = rows1 (163840 * (L 0).val + 10240 * (L 1).val + 2048 * t1.val) 2048 := by
  show ((View.whole (main_v25_scv : Ref sig .scVector)).slice (Rect.unit (s := S327680) (k1_off3 L t1) S2048.size (k1_off3_inb L t1))).set = _
  rw [View.set_slice_whole, unit_set1]
  exact congrArg₂ rows1 (by rw [k1_off3_eq]; rfl) rfl
theorem outASet0_eq (L : grid1.Coords) (t1 : Fin k1_t1_loop.trips) (t3 : Fin k1_t3_loop.trips) :
    outASet0 L t1 t3 = rows2 (163840 * (L 0).val + 10240 * (L 1).val + 2048 * t1.val + 256 * t3.val) 128 := by
  show ((View.whole (main_v26_scv : Ref sig .scVector)).slice (Rect.unit (s := S327680x128) (k1_off9 L t1 t3) S128x128.size (k1_off9_inb L t1 t3))).set = _
  rw [View.set_slice_whole, unit_set2 (N := 327680) (M := 128) _ _ _ (by rw [k1_off9_eq]; rfl) rfl]
  exact congrArg₂ rows2 (by rw [k1_off9_eq]; rfl) rfl
theorem outBSet0_eq (L : grid1.Coords) (t1 : Fin k1_t1_loop.trips) (t3 : Fin k1_t3_loop.trips) :
    outBSet0 L t1 t3 = rows2 (163840 * (L 0).val + 10240 * (L 1).val + 2048 * t1.val + 256 * t3.val + 128) 128 := by
  show ((View.whole (main_v26_scv : Ref sig .scVector)).slice (Rect.unit (s := S327680x128) (k1_off10 L t1 t3) S128x128.size (k1_off10_inb L t1 t3))).set = _
  rw [View.set_slice_whole, unit_set2 (N := 327680) (M := 128) _ _ _ (by rw [k1_off10_eq]; rfl) rfl]
  exact congrArg₂ rows2 (by rw [k1_off10_eq]; rfl) rfl
theorem tblSet0_eq (L : grid1.Coords) (h : k1_cond1 L = 1#1) :
    tblSet0 L h = rows2 (10000 * (L 0).val + 1000 * (L 1).val) 1000 := by
  show ((View.whole (main_v9_scv : Ref sig .scVector)).slice (Rect.unit (s := S20000x128) (k1_off2 L) S1000x128.size (k1_off2_inb L h))).set = _
  rw [View.set_slice_whole, unit_set2 (N := 20000) (M := 128) _ _ _ (by rw [k1_off2_eq]; rfl) rfl]
  exact congrArg₂ rows2 (by rw [k1_off2_eq]; rfl) rfl
theorem shSet0_eq (L : grid1.Coords) (h : k1_cond1 L = 1#1) :
    shSet0 L h = rows2 (1000 * (L 1).val) 1000 := by
  show ((View.whole (cc1_scratch0 : Ref sig .scVector)).slice (Rect.unit (s := S10000x128) (k1_off1 L) S1000x128.size (k1_off1_inb L h))).set = _
  rw [View.set_slice_whole, unit_set2 (N := 10000) (M := 128) _ _ _ (by rw [k1_off1_eq]; rfl) rfl]
  exact congrArg₂ rows2 (by rw [k1_off1_eq]; rfl) rfl

theorem trips1_1 : k3_t1_loop.trips = 5 := by decide
theorem trips1_3 : k3_t3_loop.trips = 8 := by decide
theorem cond1_iff : ∀ L : grid3.Coords, k3_cond1 L = 1#1 ↔ (L 1).val < 10 := by decide +kernel

theorem idxSet1_eq (L : grid3.Coords) (t1 : Fin k3_t1_loop.trips) :
    idxSet1 L t1 = rows1 (163840 * (L 0).val + 10240 * (L 1).val + 2048 * t1.val) 2048 := by
  show ((View.whole (main_v37_scv : Ref sig .scVector)).slice (Rect.unit (s := S327680) (k3_off3 L t1) S2048.size (k3_off3_inb L t1))).set = _
  rw [View.set_slice_whole, unit_set1]
  exact congrArg₂ rows1 (by rw [k3_off3_eq]; rfl) rfl
theorem outASet1_eq (L : grid3.Coords) (t1 : Fin k3_t1_loop.trips) (t3 : Fin k3_t3_loop.trips) :
    outASet1 L t1 t3 = rows2 (163840 * (L 0).val + 10240 * (L 1).val + 2048 * t1.val + 256 * t3.val) 128 := by
  show ((View.whole (main_v38_scv : Ref sig .scVector)).slice (Rect.unit (s := S327680x128) (k3_off9 L t1 t3) S128x128.size (k3_off9_inb L t1 t3))).set = _
  rw [View.set_slice_whole, unit_set2 (N := 327680) (M := 128) _ _ _ (by rw [k3_off9_eq]; rfl) rfl]
  exact congrArg₂ rows2 (by rw [k3_off9_eq]; rfl) rfl
theorem outBSet1_eq (L : grid3.Coords) (t1 : Fin k3_t1_loop.trips) (t3 : Fin k3_t3_loop.trips) :
    outBSet1 L t1 t3 = rows2 (163840 * (L 0).val + 10240 * (L 1).val + 2048 * t1.val + 256 * t3.val + 128) 128 := by
  show ((View.whole (main_v38_scv : Ref sig .scVector)).slice (Rect.unit (s := S327680x128) (k3_off10 L t1 t3) S128x128.size (k3_off10_inb L t1 t3))).set = _
  rw [View.set_slice_whole, unit_set2 (N := 327680) (M := 128) _ _ _ (by rw [k3_off10_eq]; rfl) rfl]
  exact congrArg₂ rows2 (by rw [k3_off10_eq]; rfl) rfl
theorem tblSet1_eq (L : grid3.Coords) (h : k3_cond1 L = 1#1) :
    tblSet1 L h = rows2 (10000 * (L 0).val + 1000 * (L 1).val) 1000 := by
  show ((View.whole (main_v9_scv : Ref sig .scVector)).slice (Rect.unit (s := S20000x128) (k3_off2 L) S1000x128.size (k3_off2_inb L h))).set = _
  rw [View.set_slice_whole, unit_set2 (N := 20000) (M := 128) _ _ _ (by rw [k3_off2_eq]; rfl) rfl]
  exact congrArg₂ rows2 (by rw [k3_off2_eq]; rfl) rfl
theorem shSet1_eq (L : grid3.Coords) (h : k3_cond1 L = 1#1) :
    shSet1 L h = rows2 (1000 * (L 1).val) 1000 := by
  show ((View.whole (cc3_scratch0 : Ref sig .scVector)).slice (Rect.unit (s := S10000x128) (k3_off1 L) S1000x128.size (k3_off1_inb L h))).set = _
  rw [View.set_slice_whole, unit_set2 (N := 10000) (M := 128) _ _ _ (by rw [k3_off1_eq]; rfl) rfl]
  exact congrArg₂ rows2 (by rw [k3_off1_eq]; rfl) rfl

theorem halfJ_eq (c : Fin 2) : halfJ c = rows1 (163840 * c.val) 163840 := by
  ext r
  rw [mem_rows1, Rect.mem_set_unit]
  constructor
  · intro h
    have h0 := h 0
    simp [Shape.partIx, Shape.partSize] at h0
    omega
  · intro h a
    obtain rfl : a = 0 := Subsingleton.elim _ _
    simp [Shape.partIx, Shape.partSize]
    omega
theorem halfT_eq (c : Fin 2) : halfT c = rows2 (10000 * c.val) 10000 := by
  ext r
  rw [mem_rows2, Rect.mem_set_unit]
  constructor
  · intro h
    have h0 := h 0
    simp [Shape.partIx, Shape.partSize] at h0
    omega
  · intro h a
    match a with
    | ⟨0, _⟩ =>
      simp [Shape.partIx, Shape.partSize]
      omega
    | ⟨1, _⟩ =>
      have : (r 1).val < 128 := (r 1).isLt
      simp [Shape.partIx, Shape.partSize]
      omega
theorem halfO_eq (c : Fin 2) : halfO c = rows2 (163840 * c.val) 163840 := by
  ext r
  rw [mem_rows2, Rect.mem_set_unit]
  constructor
  · intro h
    have h0 := h 0
    simp [Shape.partIx, Shape.partSize] at h0
    omega
  · intro h a
    match a with
    | ⟨0, _⟩ =>
      simp [Shape.partIx, Shape.partSize]
      omega
    | ⟨1, _⟩ =>
      have : (r 1).val < 128 := (r 1).isLt
      simp [Shape.partIx, Shape.partSize]
      omega

/-! ## Splitting and joining along a partition -/

section Kit
variable [FloatOps F]

/-- An array held on a set at one contents is it held on each set of a partition of the set. -/
theorem pts_split {ℓ : Loc nD τ sig} {q : PosShare TreeShare} {T : Type} [Fintype T] (Sset : Finset (Idx ℓ)) (K : T → Finset (Idx ℓ))
    (hd : ∀ t ∈ (Finset.univ : Finset T), ∀ t' ∈ (Finset.univ : Finset T), t ≠ t' → Disjoint (K t) (K t'))
    (hc : (Finset.univ : Finset T).biUnion K = Sset) (f : Buf (Elt F) ℓ) :
    (ℓ ↦[Sset]{q} f : sProp 𝕄) = bigSep Finset.univ fun t => ℓ ↦[K t]{q} f := by
  rw [← hc, pointsTo_biUnion Finset.univ K hd]

/-- The sets of a partition, each held at contents of its own, are the whole set held at some contents. -/
theorem pts_join {ℓ : Loc nD τ sig} {q : PosShare TreeShare} {T : Type} [Fintype T] [DecidableEq T] (Sset : Finset (Idx ℓ)) (K : T → Finset (Idx ℓ))
    (hd : ∀ t ∈ (Finset.univ : Finset T), ∀ t' ∈ (Finset.univ : Finset T), t ≠ t' → Disjoint (K t) (K t'))
    (hc : (Finset.univ : Finset T).biUnion K = Sset) (f₀ : Buf (Elt F) ℓ) :
    (bigSep Finset.univ fun t : T => iprop(∃ f : Buf (Elt F) ℓ, ℓ ↦[K t]{q} f)) ⊢ (iprop(∃ f : Buf (Elt F) ℓ, ℓ ↦[Sset]{q} f) : sProp 𝕄) := by
  refine (bigSep_exists_pi Finset.univ (fun (t : T) (f : Buf (Elt F) ℓ) => (ℓ ↦[K t]{q} f : sProp 𝕄))).trans ?_
  refine BIClass.exists_elim fun fs => ?_
  refine (pointsTo_biUnion_join Finset.univ K fs f₀ hd).trans ?_
  show (_ : sProp 𝕄) ⊢ _
  iintro ⟨%g, -, Hg⟩
  rw [hc]
  iexists g; iexact Hg

end Kit

/-! ## Call 0: the index list -/

section Idx0
variable [FloatOps F]

theorem idxTile0_disj (c : Fin 2) (i : Fin 16) : ∀ t ∈ (Finset.univ : Finset (Fin k1_t1_loop.trips)), ∀ t' ∈ (Finset.univ : Finset (Fin k1_t1_loop.trips)), t ≠ t' →
    Disjoint (idxSet0 (coords0 c i) t) (idxSet0 (coords0 c i) t') := by
  intro t ht t' ht' hne
  rw [idxSet0_eq, idxSet0_eq]
  exact rows1_2048_5_disj trips0_1 (163840 * c.val + 10240 * i.val) t ht t' ht' hne
theorem idxTile0_cover (c : Fin 2) (i : Fin 16) :
    (Finset.univ : Finset (Fin k1_t1_loop.trips)).biUnion (fun t => idxSet0 (coords0 c i) t) = rows1 (163840 * c.val + 10240 * i.val) 10240 := by
  rw [← rows1_2048_5_cover trips0_1 (163840 * c.val + 10240 * i.val)]
  exact Finset.biUnion_congr rfl fun t _ => idxSet0_eq (coords0 c i) t

theorem idx_fwd0 (d : Dev nD) (c : Fin 2) (jx : Buf (Elt F) (idxLoc0 d)) (h : InRange c.val (halfJ c) jx) :
    (idxLoc0 d ↦[halfJ c]{fullShare} jx : sProp 𝕄) ⊢ bigSep Finset.univ fun i : Fin 16 => idxPiece0 d (coords0 c i) := by
  rw [halfJ_eq, pts_split (ℓ := idxLoc0 d) _ (fun i : Fin 16 => rows1 (163840 * c.val + 10240 * i.val) 10240)
    (rows1_10240_16_disj rfl _) (rows1_10240_16_cover rfl _) jx]
  refine bigSep_mono fun i _ => ?_
  unfold idxPiece0
  rw [pts_split (ℓ := idxLoc0 d) _ (fun t : Fin k1_t1_loop.trips => idxSet0 (coords0 c i) t) (idxTile0_disj c i) (idxTile0_cover c i) jx]
  show (_ : sProp 𝕄) ⊢ _
  iintro H
  iexists jx
  isplitr
  · ipureintro
    intro t1 r hr
    refine h r ?_
    rw [halfJ_eq, mem_rows1]
    have hr' : r ∈ rows1 (163840 * c.val + 10240 * i.val) 10240 := by
      rw [← idxTile0_cover c i]; exact Finset.mem_biUnion.mpr ⟨t1, Finset.mem_univ _, hr⟩
    rw [mem_rows1] at hr'
    have := i.isLt
    constructor <;> omega
  · iexact H

theorem idx_bwd0 (d : Dev nD) (c : Fin 2) :
    (bigSep Finset.univ fun i : Fin 16 => idxPiece0 (F := F) d (coords0 c i))
      ⊢ (iprop(∃ jx : Buf (Elt F) (idxLoc0 d), (idxLoc0 d ↦[halfJ c]{fullShare} jx) ∗ ⌜InRange c.val (halfJ c) jx⌝) : sProp 𝕄) := by
  have tile : ∀ i : Fin 16, (idxPiece0 (F := F) d (coords0 c i) : sProp 𝕄)
      ⊢ iprop(∃ jx : Buf (Elt F) (idxLoc0 d), ⌜InRange c.val (rows1 (163840 * c.val + 10240 * i.val) 10240) jx⌝
          ∗ (idxLoc0 d ↦[rows1 (163840 * c.val + 10240 * i.val) 10240]{fullShare} jx)) := by
    intro i
    unfold idxPiece0
    show (_ : sProp 𝕄) ⊢ _
    iintro ⟨%jx, %hj, H⟩
    iexists jx
    isplitr
    · ipureintro
      intro r hr
      rw [← idxTile0_cover c i] at hr
      obtain ⟨t1, -, ht1⟩ := Finset.mem_biUnion.mp hr
      exact hj t1 r ht1
    · rw [pts_split (ℓ := idxLoc0 d) _ (fun t : Fin k1_t1_loop.trips => idxSet0 (coords0 c i) t) (idxTile0_disj c i) (idxTile0_cover c i) jx]
      iexact H
  refine (bigSep_mono fun i _ => tile i).trans ?_
  refine (bigSep_exists_pi Finset.univ (fun (i : Fin 16) (jx : Buf (Elt F) (idxLoc0 d)) =>
    (iprop(⌜InRange c.val (rows1 (163840 * c.val + 10240 * i.val) 10240) jx⌝
      ∗ (idxLoc0 d ↦[rows1 (163840 * c.val + 10240 * i.val) 10240]{fullShare} jx)) : sProp 𝕄))).trans ?_
  show (_ : sProp 𝕄) ⊢ _
  iintro ⟨%fs, H⟩
  ihave H' := (bigSep_pure_sep Finset.univ (fun i : Fin 16 => InRange c.val (rows1 (163840 * c.val + 10240 * i.val) 10240) (fs i))
    (fun i : Fin 16 => (idxLoc0 d ↦[rows1 (163840 * c.val + 10240 * i.val) 10240]{fullShare} fs i : sProp 𝕄))) $$ H
  icases H' with ⟨%hfs, H⟩
  ihave H'' := (pointsTo_biUnion_join Finset.univ (fun i : Fin 16 => (rows1 (163840 * c.val + 10240 * i.val) 10240 : Finset S327680.Idx)) fs (fs 0)
    (rows1_10240_16_disj rfl _)) $$ H
  icases H'' with ⟨%g, %hg, Hg⟩
  rw [rows1_10240_16_cover rfl, ← halfJ_eq]
  iexists g
  isplitl [Hg]; · iexact Hg
  ipureintro
  intro r hr
  rw [halfJ_eq, ← rows1_10240_16_cover (N := 327680) rfl (163840 * c.val)] at hr
  obtain ⟨i, hi, hri⟩ := Finset.mem_biUnion.mp hr
  rw [hg i hi r hri]
  exact hfs i hi r hri

end Idx0

/-! ## Call 0: the gathered rows -/

section Out0
variable [FloatOps F]

theorem out_fwd0 (d : Dev nD) (c : Fin 2) (ob : Buf (Elt F) (outLoc0 d)) :
    (outLoc0 d ↦[halfO c]{fullShare} ob : sProp 𝕄) ⊢ bigSep Finset.univ fun i : Fin 16 => outPiece0 d (coords0 c i) := by
  rw [halfO_eq, pts_split (ℓ := outLoc0 d) _ (fun i : Fin 16 => rows2 (163840 * c.val + 10240 * i.val) 10240)
    (rows2_10240_16_disj rfl _) (rows2_10240_16_cover rfl _) ob]
  refine bigSep_mono fun i _ => ?_
  unfold outPiece0
  rw [pts_split (ℓ := outLoc0 d) _ (fun t1 : Fin k1_t1_loop.trips => rows2 (163840 * c.val + 10240 * i.val + 2048 * t1.val) 2048)
    (rows2_2048_5_disj trips0_1 _) (rows2_2048_5_cover trips0_1 _) ob]
  refine bigSep_mono fun t1 _ => ?_
  rw [pts_split (ℓ := outLoc0 d) _ (fun t3 : Fin k1_t3_loop.trips => rows2 (163840 * c.val + 10240 * i.val + 2048 * t1.val + 256 * t3.val) 256)
    (rows2_256_8_disj trips0_3 _) (rows2_256_8_cover trips0_3 _) ob]
  refine bigSep_mono fun t3 _ => ?_
  rw [pts_split (ℓ := outLoc0 d) _ (fun b : Fin 2 => rows2 (163840 * c.val + 10240 * i.val + 2048 * t1.val + 256 * t3.val + 128 * b.val) 128)
    (rows2_128_2_disj rfl _) (rows2_128_2_cover rfl _) ob, bigSep_univ_two, outASet0_eq, outBSet0_eq]
  show (_ : sProp 𝕄) ⊢ _
  iintro ⟨HA, HB⟩
  isplitl [HA]
  · iexists ob; iexact HA
  · iexists ob; iexact HB

theorem out_bwd0 (d : Dev nD) (c : Fin 2) (f₀ : Buf (Elt F) (outLoc0 d)) :
    (bigSep Finset.univ fun i : Fin 16 => outPiece0 (F := F) d (coords0 c i))
      ⊢ (iprop(∃ ob : Buf (Elt F) (outLoc0 d), outLoc0 d ↦[halfO c]{fullShare} ob) : sProp 𝕄) := by
  rw [halfO_eq]
  refine BI.Entails.trans ?_ (pts_join (ℓ := outLoc0 d) _ (fun i : Fin 16 => rows2 (163840 * c.val + 10240 * i.val) 10240)
    (rows2_10240_16_disj rfl _) (rows2_10240_16_cover rfl _) f₀)
  refine bigSep_mono fun i _ => ?_
  unfold outPiece0
  refine BI.Entails.trans ?_ (pts_join (ℓ := outLoc0 d) _ (fun t1 : Fin k1_t1_loop.trips => rows2 (163840 * c.val + 10240 * i.val + 2048 * t1.val) 2048)
    (rows2_2048_5_disj trips0_1 _) (rows2_2048_5_cover trips0_1 _) f₀)
  refine bigSep_mono fun t1 _ => ?_
  refine BI.Entails.trans ?_ (pts_join (ℓ := outLoc0 d) _ (fun t3 : Fin k1_t3_loop.trips => rows2 (163840 * c.val + 10240 * i.val + 2048 * t1.val + 256 * t3.val) 256)
    (rows2_256_8_disj trips0_3 _) (rows2_256_8_cover trips0_3 _) f₀)
  refine bigSep_mono fun t3 _ => ?_
  refine BI.Entails.trans ?_ (pts_join (ℓ := outLoc0 d) _ (fun b : Fin 2 => rows2 (163840 * c.val + 10240 * i.val + 2048 * t1.val + 256 * t3.val + 128 * b.val) 128)
    (rows2_128_2_disj rfl _) (rows2_128_2_cover rfl _) f₀)
  rw [bigSep_univ_two, outASet0_eq, outBSet0_eq]
  exact BI.Entails.refl _

end Out0

/-! ## Call 0: the table's rows and the shared scratch's -/

section Tbl0
variable [FloatOps F]

/-- A writing tile's rows of the table as a run of rows, no rows for the others. -/
theorem tblPiece0_iff (d : Dev nD) (c : Fin 2) (i : Fin 16) :
    (tblPiece0 (F := F) d (coords0 c i) : sProp 𝕄) ⊣⊢ iprop(∃ tb : Buf (Elt F) (tblLoc d), tblLoc d ↦[wrows (10000 * c.val) i]{fullShare} tb) := by
  unfold tblPiece0 wrows
  by_cases h : k1_cond1 (coords0 c i) = 1#1
  · have hi : i.val < 10 := (cond0_iff _).mp h
    rw [dif_pos h, if_pos hi, tblSet0_eq]
    exact ⟨BI.Entails.refl _, BI.Entails.refl _⟩
  · have hi : ¬ i.val < 10 := fun hi => h ((cond0_iff (coords0 c i)).mpr hi)
    rw [dif_neg h, if_neg hi]
    constructor
    · show (_ : sProp 𝕄) ⊢ _
      iintro -
      iexists (Classical.choice inferInstance)
      rw [pointsTo_empty]
      iempintro
    · exact BIClass.exists_elim fun tb => Entails.of_eq pointsTo_empty

theorem tbl_fwd0 (d : Dev nD) (c : Fin 2) (tb : Buf (Elt F) (tblLoc d)) :
    (tblLoc d ↦[halfT c]{fullShare} tb : sProp 𝕄) ⊢ bigSep Finset.univ fun i : Fin 16 => tblPiece0 d (coords0 c i) := by
  rw [halfT_eq, pts_split (ℓ := tblLoc d) _ (fun i : Fin 16 => wrows (10000 * c.val) i) (wrows_disj _) (wrows_cover _) tb]
  refine bigSep_mono fun i _ => ?_
  refine BI.Entails.trans ?_ (tblPiece0_iff d c i).2
  exact BIClass.exists_intro (Φ := fun f : Buf (Elt F) (tblLoc d) => (tblLoc d ↦[wrows (10000 * c.val) i]{fullShare} f : sProp 𝕄)) tb

theorem tbl_bwd0 (d : Dev nD) (c : Fin 2) (f₀ : Buf (Elt F) (tblLoc d)) :
    (bigSep Finset.univ fun i : Fin 16 => tblPiece0 (F := F) d (coords0 c i))
      ⊢ (iprop(∃ tb : Buf (Elt F) (tblLoc d), tblLoc d ↦[halfT c]{fullShare} tb) : sProp 𝕄) := by
  rw [halfT_eq]
  refine BI.Entails.trans ?_ (pts_join (ℓ := tblLoc d) _ (fun i : Fin 16 => wrows (10000 * c.val) i) (wrows_disj _) (wrows_cover _) f₀)
  exact bigSep_mono fun i _ => (tblPiece0_iff d c i).1

end Tbl0

section Sh0
variable [FloatOps F]

/-- A writing tile's rows of the shared scratch as a run of rows, no rows for the others. -/
theorem shPiece0_iff (q : PosShare TreeShare) (d : Dev nD) (c : Fin 2) (i : Fin 16) :
    (shPiece0 (F := F) q d (coords0 c i) : sProp 𝕄)
      ⊣⊢ iprop(∃ f : Buf (Elt F) (sh0Loc d (c.castLE hcore1)), sh0Loc d (c.castLE hcore1) ↦[wrows 0 i]{q} f) := by
  unfold shPiece0 wrows
  by_cases h : k1_cond1 (coords0 c i) = 1#1
  · have hi : i.val < 10 := (cond0_iff _).mp h
    rw [dif_pos h, if_pos hi, shSet0_eq, Nat.zero_add]
    exact ⟨BI.Entails.refl _, BI.Entails.refl _⟩
  · have hi : ¬ i.val < 10 := fun hi => h ((cond0_iff (coords0 c i)).mpr hi)
    rw [dif_neg h, if_neg hi]
    constructor
    · show (_ : sProp 𝕄) ⊢ _
      iintro -
      iexists (Classical.choice inferInstance)
      rw [pointsTo_empty]
      iempintro
    · exact BIClass.exists_elim fun tb => Entails.of_eq pointsTo_empty

theorem shAll_disj : ∀ k ∈ (Finset.univ : Finset (Fin 16)), ∀ k' ∈ (Finset.univ : Finset (Fin 16)), k ≠ k' →
    Disjoint (wrows 0 k : Finset S10000x128.Idx) (wrows 0 k') := wrows_disj 0
theorem shAll_cover : (Finset.univ : Finset (Fin 16)).biUnion (fun k => (wrows 0 k : Finset S10000x128.Idx)) = Finset.univ :=
  (wrows_cover 0).trans rows2_all

theorem sh_fwd0 (d : Dev nD) (c : Fin 2) (f : Buf (Elt F) (sh0Loc d (c.castLE hcore1))) :
    (sh0Loc d (c.castLE hcore1) ↦{fullShare} f : sProp 𝕄) ⊢ bigSep Finset.univ fun i : Fin 16 => shPiece0 fullShare d (coords0 c i) := by
  show (sh0Loc d (c.castLE hcore1) ↦[Finset.univ]{fullShare} f : sProp 𝕄) ⊢ _
  rw [pts_split (ℓ := sh0Loc d (c.castLE hcore1)) Finset.univ (fun i : Fin 16 => wrows 0 i) shAll_disj shAll_cover f]
  refine bigSep_mono fun i _ => ?_
  refine BI.Entails.trans ?_ (shPiece0_iff fullShare d c i).2
  exact BIClass.exists_intro (Φ := fun g : Buf (Elt F) (sh0Loc d (c.castLE hcore1)) => (sh0Loc d (c.castLE hcore1) ↦[wrows 0 i]{fullShare} g : sProp 𝕄)) f

/-- Two holdings of one array agree where both hold it: the second's contents may be read as the first's. -/
theorem pts_agree_rw {ℓ : Loc nD τ sig} {q₁ q₂ : PosShare TreeShare} (f g : Buf (Elt F) ℓ) :
    iprop((ℓ ↦{q₁} f) ∗ (ℓ ↦{q₂} g)) ⊢ (iprop((ℓ ↦{q₁} f) ∗ (ℓ ↦{q₂} f)) : sProp 𝕄) := by
  iintro H
  ihave H' := (persistent_entails_right (pointsTo_agree (ℓ := ℓ) (I := Finset.univ) (J := Finset.univ) (q₁ := q₁) (q₂ := q₂) (f := f) (g := g))) $$ H
  icases H' with ⟨%hfg, H1, H2⟩
  have e : (ℓ ↦{q₂} g : sProp 𝕄) = (ℓ ↦{q₂} f) :=
    pointsTo_congr fun i hi => ((hfg i (Finset.mem_inter.mpr ⟨hi, hi⟩)).1).symm
  rw [← e]
  isplitl [H1]; · iexact H1
  iexact H2

/-- The sixteen read shares of the shared scratch, each at contents of its own, and what the writing tiles kept aside of
    their rows rejoin into the scratch whole. -/
theorem sh_bwd0 (d : Dev nD) (c : Fin 2) :
    iprop((bigSep Finset.univ fun i : Fin 16 => iprop(∃ g : Buf (Elt F) (sh0Loc d (c.castLE hcore1)), sh0Loc d (c.castLE hcore1) ↦{rdShare i.val} g))
        ∗ (bigSep Finset.univ fun i : Fin 16 => shPiece0 (F := F) restShare d (coords0 c i)))
      ⊢ (iprop(∃ f : Buf (Elt F) (sh0Loc d (c.castLE hcore1)), sh0Loc d (c.castLE hcore1) ↦{fullShare} f) : sProp 𝕄) := by
  have hrest : (bigSep Finset.univ fun i : Fin 16 => shPiece0 (F := F) restShare d (coords0 c i))
      ⊢ (iprop(∃ f : Buf (Elt F) (sh0Loc d (c.castLE hcore1)), sh0Loc d (c.castLE hcore1) ↦[Finset.univ]{restShare} f) : sProp 𝕄) :=
    (bigSep_mono fun i _ => (shPiece0_iff restShare d c i).1).trans
      (pts_join (ℓ := sh0Loc d (c.castLE hcore1)) Finset.univ (fun i : Fin 16 => wrows 0 i) shAll_disj shAll_cover (Classical.choice inferInstance))
  -- every read share read at the rest's contents
  have hunify : ∀ (f : Buf (Elt F) (sh0Loc d (c.castLE hcore1))) (s : Finset (Fin 16)),
      iprop((sh0Loc d (c.castLE hcore1) ↦{restShare} f)
          ∗ (bigSep s fun i : Fin 16 => iprop(∃ g : Buf (Elt F) (sh0Loc d (c.castLE hcore1)), sh0Loc d (c.castLE hcore1) ↦{rdShare i.val} g)))
        ⊢ (iprop((sh0Loc d (c.castLE hcore1) ↦{restShare} f)
          ∗ (bigSep s fun i : Fin 16 => (sh0Loc d (c.castLE hcore1) ↦{rdShare i.val} f))) : sProp 𝕄) := by
    intro f s
    induction s using Finset.induction_on with
    | empty =>
      rw [bigSep_empty, bigSep_empty]
    | insert a s ha ih =>
      rw [SparseCore.bigSep_insert' ha, SparseCore.bigSep_insert' ha]
      show (_ : sProp 𝕄) ⊢ _
      iintro ⟨Hf, ⟨%g, Hg⟩, Hs⟩
      ihave H1 := (pts_agree_rw (ℓ := sh0Loc d (c.castLE hcore1)) f g) $$ [Hf Hg]
      · isplitl [Hf]; · iexact Hf
        iexact Hg
      icases H1 with ⟨Hf, Hg⟩
      ihave H2 := ih $$ [Hf Hs]
      · isplitl [Hf]; · iexact Hf
        iexact Hs
      icases H2 with ⟨Hf, Hs⟩
      isplitl [Hf]; · iexact Hf
      isplitl [Hg]; · iexact Hg
      iexact Hs
  show (_ : sProp 𝕄) ⊢ _
  iintro ⟨Hrd, Hrest⟩
  ihave Hr := hrest $$ Hrest
  icases Hr with ⟨%f, Hf⟩
  ihave H := (hunify f Finset.univ) $$ [Hf Hrd]
  · isplitl [Hf]; · iexact Hf
    iexact Hrd
  iexists f
  iapply (Transfers.pointsTo_toks_join (ℓ := sh0Loc d (c.castLE hcore1)) (S := Finset.univ) (f := f) fullShare 16)
  iexact H

end Sh0

/-! ## Call 0: the split -/

section Split0
variable [FloatOps F]

/-- SparseCore `c`'s shared scratch of call 0 is among its sequencer's own buffers: it, at some contents, and the rest. -/
theorem ownBufs_S0 (d : Dev nD) (c : Fin τ.nSC) :
    (ownBufs (S d c) : sProp 𝕄)
      = iprop((∃ f, sh0Loc d c ↦{fullShare} f) ∗ bigSep ((ownRefs (τ := τ) (.scScalar c)).erase (⟨.shared, ⟨0, by decide⟩, c⟩ : DevRef τ sig))
          fun b => iprop(∃ f, ((d, b) : Loc nD τ sig) ↦{fullShare} f)) := by
  unfold SparseCore.Cfg.ownBufs
  have h : (⟨.shared, ⟨0, by decide⟩, c⟩ : DevRef τ sig) ∈ ownRefs (τ := τ) (sig := sig) (.scScalar c) :=
    (mem_ownRefs (p := Proc.scScalar c) (b := (⟨.shared, ⟨0, by decide⟩, c⟩ : DevRef τ sig))).mpr rfl
  exact SparseCore.bigSep_erase' h

theorem vecSplit0_core (d : Dev nD) (c : Fin 2) :
    iprop(stCore0 (F := F) d c ∗ ownBufs (S d (c.castLE hcore1))) ⊢ |={Set.univ}=> (iprop(
      (bigSep Finset.univ fun i : Fin 16 => go0 d (coords0 c i))
      ∗ ((bigSep Finset.univ fun i : Fin 16 => td0 d (coords0 c i))
          -∗ iprop(iprop(stCore0 d c ∗ barNext d (c.castLE hcore1)) ∗ ownBufs (S d (c.castLE hcore1))))) : sProp 𝕄) := by
  rw [ownBufs_S0]
  unfold go0 td0 barNext
  simp only [bigSep_sep']
  unfold stCore0
  iintro ⟨⟨%tb, %jx, %ob, Ht, Hj, Ho, %hj⟩, ⟨%fsh, Hsh⟩, Hrest⟩
  imodintro
  isplitl [Ht Hj Ho Hsh]
  · isplitl [Hj]; · iapply (idx_fwd0 d c jx hj); iexact Hj
    isplitl [Ho]; · iapply (out_fwd0 d c ob); iexact Ho
    isplitl [Ht]; · iapply (tbl_fwd0 d c tb); iexact Ht
    iapply (sh_fwd0 d c fsh); iexact Hsh
  iintro ⟨Hj, Ho, Ht, Hrd, Hrs, Hat, Hre⟩
  ihave Hj' := (idx_bwd0 d c) $$ Hj
  icases Hj' with ⟨%jx', Hj, %hj'⟩
  ihave Ho' := (out_bwd0 d c ob) $$ Ho
  icases Ho' with ⟨%ob', Ho⟩
  ihave Ht' := (tbl_bwd0 d c tb) $$ Ht
  icases Ht' with ⟨%tb', Ht⟩
  ihave Hsh := (sh_bwd0 d c) $$ [Hrd Hrs]
  · isplitl [Hrd]; · iexact Hrd
    iexact Hrs
  isplitl [Hj Ho Ht Hat Hre]
  · isplitl [Hj Ho Ht]
    · iexists tb', jx', ob'
      isplitl [Ht]; · iexact Ht
      isplitl [Hj]; · iexact Hj
      isplitl [Ho]; · iexact Ho
      ipureintro; exact hj'
    isplitl [Hat]; · iexact Hat
    iexact Hre
  isplitl [Hsh]; · iexact Hsh
  iexact Hrest

theorem vecSplit0 : (K (F := F)).VecSplit (P (F := F)) 0 := fun d c => vecSplit0_core d (Fin.cast (nCore_eq 0) c)

end Split0

/-! ## Call 1: the index list -/

section Idx1
variable [FloatOps F]

theorem idxTile1_disj (c : Fin 2) (i : Fin 16) : ∀ t ∈ (Finset.univ : Finset (Fin k3_t1_loop.trips)), ∀ t' ∈ (Finset.univ : Finset (Fin k3_t1_loop.trips)), t ≠ t' →
    Disjoint (idxSet1 (coords1 c i) t) (idxSet1 (coords1 c i) t') := by
  intro t ht t' ht' hne
  rw [idxSet1_eq, idxSet1_eq]
  exact rows1_2048_5_disj trips1_1 (163840 * c.val + 10240 * i.val) t ht t' ht' hne
theorem idxTile1_cover (c : Fin 2) (i : Fin 16) :
    (Finset.univ : Finset (Fin k3_t1_loop.trips)).biUnion (fun t => idxSet1 (coords1 c i) t) = rows1 (163840 * c.val + 10240 * i.val) 10240 := by
  rw [← rows1_2048_5_cover trips1_1 (163840 * c.val + 10240 * i.val)]
  exact Finset.biUnion_congr rfl fun t _ => idxSet1_eq (coords1 c i) t

theorem idx_fwd1 (d : Dev nD) (c : Fin 2) (jx : Buf (Elt F) (idxLoc1 d)) (h : InRange c.val (halfJ c) jx) :
    (idxLoc1 d ↦[halfJ c]{fullShare} jx : sProp 𝕄) ⊢ bigSep Finset.univ fun i : Fin 16 => idxPiece1 d (coords1 c i) := by
  rw [halfJ_eq, pts_split (ℓ := idxLoc1 d) _ (fun i : Fin 16 => rows1 (163840 * c.val + 10240 * i.val) 10240)
    (rows1_10240_16_disj rfl _) (rows1_10240_16_cover rfl _) jx]
  refine bigSep_mono fun i _ => ?_
  unfold idxPiece1
  rw [pts_split (ℓ := idxLoc1 d) _ (fun t : Fin k3_t1_loop.trips => idxSet1 (coords1 c i) t) (idxTile1_disj c i) (idxTile1_cover c i) jx]
  show (_ : sProp 𝕄) ⊢ _
  iintro H
  iexists jx
  isplitr
  · ipureintro
    intro t1 r hr
    refine h r ?_
    rw [halfJ_eq, mem_rows1]
    have hr' : r ∈ rows1 (163840 * c.val + 10240 * i.val) 10240 := by
      rw [← idxTile1_cover c i]; exact Finset.mem_biUnion.mpr ⟨t1, Finset.mem_univ _, hr⟩
    rw [mem_rows1] at hr'
    have := i.isLt
    constructor <;> omega
  · iexact H

theorem idx_bwd1 (d : Dev nD) (c : Fin 2) :
    (bigSep Finset.univ fun i : Fin 16 => idxPiece1 (F := F) d (coords1 c i))
      ⊢ (iprop(∃ jx : Buf (Elt F) (idxLoc1 d), (idxLoc1 d ↦[halfJ c]{fullShare} jx) ∗ ⌜InRange c.val (halfJ c) jx⌝) : sProp 𝕄) := by
  have tile : ∀ i : Fin 16, (idxPiece1 (F := F) d (coords1 c i) : sProp 𝕄)
      ⊢ iprop(∃ jx : Buf (Elt F) (idxLoc1 d), ⌜InRange c.val (rows1 (163840 * c.val + 10240 * i.val) 10240) jx⌝
          ∗ (idxLoc1 d ↦[rows1 (163840 * c.val + 10240 * i.val) 10240]{fullShare} jx)) := by
    intro i
    unfold idxPiece1
    show (_ : sProp 𝕄) ⊢ _
    iintro ⟨%jx, %hj, H⟩
    iexists jx
    isplitr
    · ipureintro
      intro r hr
      rw [← idxTile1_cover c i] at hr
      obtain ⟨t1, -, ht1⟩ := Finset.mem_biUnion.mp hr
      exact hj t1 r ht1
    · rw [pts_split (ℓ := idxLoc1 d) _ (fun t : Fin k3_t1_loop.trips => idxSet1 (coords1 c i) t) (idxTile1_disj c i) (idxTile1_cover c i) jx]
      iexact H
  refine (bigSep_mono fun i _ => tile i).trans ?_
  refine (bigSep_exists_pi Finset.univ (fun (i : Fin 16) (jx : Buf (Elt F) (idxLoc1 d)) =>
    (iprop(⌜InRange c.val (rows1 (163840 * c.val + 10240 * i.val) 10240) jx⌝
      ∗ (idxLoc1 d ↦[rows1 (163840 * c.val + 10240 * i.val) 10240]{fullShare} jx)) : sProp 𝕄))).trans ?_
  show (_ : sProp 𝕄) ⊢ _
  iintro ⟨%fs, H⟩
  ihave H' := (bigSep_pure_sep Finset.univ (fun i : Fin 16 => InRange c.val (rows1 (163840 * c.val + 10240 * i.val) 10240) (fs i))
    (fun i : Fin 16 => (idxLoc1 d ↦[rows1 (163840 * c.val + 10240 * i.val) 10240]{fullShare} fs i : sProp 𝕄))) $$ H
  icases H' with ⟨%hfs, H⟩
  ihave H'' := (pointsTo_biUnion_join Finset.univ (fun i : Fin 16 => (rows1 (163840 * c.val + 10240 * i.val) 10240 : Finset S327680.Idx)) fs (fs 0)
    (rows1_10240_16_disj rfl _)) $$ H
  icases H'' with ⟨%g, %hg, Hg⟩
  rw [rows1_10240_16_cover rfl, ← halfJ_eq]
  iexists g
  isplitl [Hg]; · iexact Hg
  ipureintro
  intro r hr
  rw [halfJ_eq, ← rows1_10240_16_cover (N := 327680) rfl (163840 * c.val)] at hr
  obtain ⟨i, hi, hri⟩ := Finset.mem_biUnion.mp hr
  rw [hg i hi r hri]
  exact hfs i hi r hri

end Idx1

/-! ## Call 1: the gathered rows -/

section Out1
variable [FloatOps F]

theorem out_fwd1 (d : Dev nD) (c : Fin 2) (ob : Buf (Elt F) (outLoc1 d)) :
    (outLoc1 d ↦[halfO c]{fullShare} ob : sProp 𝕄) ⊢ bigSep Finset.univ fun i : Fin 16 => outPiece1 d (coords1 c i) := by
  rw [halfO_eq, pts_split (ℓ := outLoc1 d) _ (fun i : Fin 16 => rows2 (163840 * c.val + 10240 * i.val) 10240)
    (rows2_10240_16_disj rfl _) (rows2_10240_16_cover rfl _) ob]
  refine bigSep_mono fun i _ => ?_
  unfold outPiece1
  rw [pts_split (ℓ := outLoc1 d) _ (fun t1 : Fin k3_t1_loop.trips => rows2 (163840 * c.val + 10240 * i.val + 2048 * t1.val) 2048)
    (rows2_2048_5_disj trips1_1 _) (rows2_2048_5_cover trips1_1 _) ob]
  refine bigSep_mono fun t1 _ => ?_
  rw [pts_split (ℓ := outLoc1 d) _ (fun t3 : Fin k3_t3_loop.trips => rows2 (163840 * c.val + 10240 * i.val + 2048 * t1.val + 256 * t3.val) 256)
    (rows2_256_8_disj trips1_3 _) (rows2_256_8_cover trips1_3 _) ob]
  refine bigSep_mono fun t3 _ => ?_
  rw [pts_split (ℓ := outLoc1 d) _ (fun b : Fin 2 => rows2 (163840 * c.val + 10240 * i.val + 2048 * t1.val + 256 * t3.val + 128 * b.val) 128)
    (rows2_128_2_disj rfl _) (rows2_128_2_cover rfl _) ob, bigSep_univ_two, outASet1_eq, outBSet1_eq]
  show (_ : sProp 𝕄) ⊢ _
  iintro ⟨HA, HB⟩
  isplitl [HA]
  · iexists ob; iexact HA
  · iexists ob; iexact HB

theorem out_bwd1 (d : Dev nD) (c : Fin 2) (f₀ : Buf (Elt F) (outLoc1 d)) :
    (bigSep Finset.univ fun i : Fin 16 => outPiece1 (F := F) d (coords1 c i))
      ⊢ (iprop(∃ ob : Buf (Elt F) (outLoc1 d), outLoc1 d ↦[halfO c]{fullShare} ob) : sProp 𝕄) := by
  rw [halfO_eq]
  refine BI.Entails.trans ?_ (pts_join (ℓ := outLoc1 d) _ (fun i : Fin 16 => rows2 (163840 * c.val + 10240 * i.val) 10240)
    (rows2_10240_16_disj rfl _) (rows2_10240_16_cover rfl _) f₀)
  refine bigSep_mono fun i _ => ?_
  unfold outPiece1
  refine BI.Entails.trans ?_ (pts_join (ℓ := outLoc1 d) _ (fun t1 : Fin k3_t1_loop.trips => rows2 (163840 * c.val + 10240 * i.val + 2048 * t1.val) 2048)
    (rows2_2048_5_disj trips1_1 _) (rows2_2048_5_cover trips1_1 _) f₀)
  refine bigSep_mono fun t1 _ => ?_
  refine BI.Entails.trans ?_ (pts_join (ℓ := outLoc1 d) _ (fun t3 : Fin k3_t3_loop.trips => rows2 (163840 * c.val + 10240 * i.val + 2048 * t1.val + 256 * t3.val) 256)
    (rows2_256_8_disj trips1_3 _) (rows2_256_8_cover trips1_3 _) f₀)
  refine bigSep_mono fun t3 _ => ?_
  refine BI.Entails.trans ?_ (pts_join (ℓ := outLoc1 d) _ (fun b : Fin 2 => rows2 (163840 * c.val + 10240 * i.val + 2048 * t1.val + 256 * t3.val + 128 * b.val) 128)
    (rows2_128_2_disj rfl _) (rows2_128_2_cover rfl _) f₀)
  rw [bigSep_univ_two, outASet1_eq, outBSet1_eq]
  exact BI.Entails.refl _

end Out1

/-! ## Call 1: the table's rows and the shared scratch's -/

section Tbl1
variable [FloatOps F]

/-- A writing tile's rows of the table as a run of rows, no rows for the others. -/
theorem tblPiece1_iff (d : Dev nD) (c : Fin 2) (i : Fin 16) :
    (tblPiece1 (F := F) d (coords1 c i) : sProp 𝕄) ⊣⊢ iprop(∃ tb : Buf (Elt F) (tblLoc d), tblLoc d ↦[wrows (10000 * c.val) i]{fullShare} tb) := by
  unfold tblPiece1 wrows
  by_cases h : k3_cond1 (coords1 c i) = 1#1
  · have hi : i.val < 10 := (cond1_iff _).mp h
    rw [dif_pos h, if_pos hi, tblSet1_eq]
    exact ⟨BI.Entails.refl _, BI.Entails.refl _⟩
  · have hi : ¬ i.val < 10 := fun hi => h ((cond1_iff (coords1 c i)).mpr hi)
    rw [dif_neg h, if_neg hi]
    constructor
    · show (_ : sProp 𝕄) ⊢ _
      iintro -
      iexists (Classical.choice inferInstance)
      rw [pointsTo_empty]
      iempintro
    · exact BIClass.exists_elim fun tb => Entails.of_eq pointsTo_empty

theorem tbl_fwd1 (d : Dev nD) (c : Fin 2) (tb : Buf (Elt F) (tblLoc d)) :
    (tblLoc d ↦[halfT c]{fullShare} tb : sProp 𝕄) ⊢ bigSep Finset.univ fun i : Fin 16 => tblPiece1 d (coords1 c i) := by
  rw [halfT_eq, pts_split (ℓ := tblLoc d) _ (fun i : Fin 16 => wrows (10000 * c.val) i) (wrows_disj _) (wrows_cover _) tb]
  refine bigSep_mono fun i _ => ?_
  refine BI.Entails.trans ?_ (tblPiece1_iff d c i).2
  exact BIClass.exists_intro (Φ := fun f : Buf (Elt F) (tblLoc d) => (tblLoc d ↦[wrows (10000 * c.val) i]{fullShare} f : sProp 𝕄)) tb

theorem tbl_bwd1 (d : Dev nD) (c : Fin 2) (f₀ : Buf (Elt F) (tblLoc d)) :
    (bigSep Finset.univ fun i : Fin 16 => tblPiece1 (F := F) d (coords1 c i))
      ⊢ (iprop(∃ tb : Buf (Elt F) (tblLoc d), tblLoc d ↦[halfT c]{fullShare} tb) : sProp 𝕄) := by
  rw [halfT_eq]
  refine BI.Entails.trans ?_ (pts_join (ℓ := tblLoc d) _ (fun i : Fin 16 => wrows (10000 * c.val) i) (wrows_disj _) (wrows_cover _) f₀)
  exact bigSep_mono fun i _ => (tblPiece1_iff d c i).1

end Tbl1

section Sh1
variable [FloatOps F]

/-- A writing tile's rows of the shared scratch as a run of rows, no rows for the others. -/
theorem shPiece1_iff (q : PosShare TreeShare) (d : Dev nD) (c : Fin 2) (i : Fin 16) :
    (shPiece1 (F := F) q d (coords1 c i) : sProp 𝕄)
      ⊣⊢ iprop(∃ f : Buf (Elt F) (sh1Loc d (c.castLE hcore3)), sh1Loc d (c.castLE hcore3) ↦[wrows 0 i]{q} f) := by
  unfold shPiece1 wrows
  by_cases h : k3_cond1 (coords1 c i) = 1#1
  · have hi : i.val < 10 := (cond1_iff _).mp h
    rw [dif_pos h, if_pos hi, shSet1_eq, Nat.zero_add]
    exact ⟨BI.Entails.refl _, BI.Entails.refl _⟩
  · have hi : ¬ i.val < 10 := fun hi => h ((cond1_iff (coords1 c i)).mpr hi)
    rw [dif_neg h, if_neg hi]
    constructor
    · show (_ : sProp 𝕄) ⊢ _
      iintro -
      iexists (Classical.choice inferInstance)
      rw [pointsTo_empty]
      iempintro
    · exact BIClass.exists_elim fun tb => Entails.of_eq pointsTo_empty

theorem sh_fwd1 (d : Dev nD) (c : Fin 2) (f : Buf (Elt F) (sh1Loc d (c.castLE hcore3))) :
    (sh1Loc d (c.castLE hcore3) ↦{fullShare} f : sProp 𝕄) ⊢ bigSep Finset.univ fun i : Fin 16 => shPiece1 fullShare d (coords1 c i) := by
  show (sh1Loc d (c.castLE hcore3) ↦[Finset.univ]{fullShare} f : sProp 𝕄) ⊢ _
  rw [pts_split (ℓ := sh1Loc d (c.castLE hcore3)) Finset.univ (fun i : Fin 16 => wrows 0 i) shAll_disj shAll_cover f]
  refine bigSep_mono fun i _ => ?_
  refine BI.Entails.trans ?_ (shPiece1_iff fullShare d c i).2
  exact BIClass.exists_intro (Φ := fun g : Buf (Elt F) (sh1Loc d (c.castLE hcore3)) => (sh1Loc d (c.castLE hcore3) ↦[wrows 0 i]{fullShare} g : sProp 𝕄)) f

/-- The sixteen read shares of the shared scratch, each at contents of its own, and what the writing tiles kept aside of
    their rows rejoin into the scratch whole. -/
theorem sh_bwd1 (d : Dev nD) (c : Fin 2) :
    iprop((bigSep Finset.univ fun i : Fin 16 => iprop(∃ g : Buf (Elt F) (sh1Loc d (c.castLE hcore3)), sh1Loc d (c.castLE hcore3) ↦{rdShare i.val} g))
        ∗ (bigSep Finset.univ fun i : Fin 16 => shPiece1 (F := F) restShare d (coords1 c i)))
      ⊢ (iprop(∃ f : Buf (Elt F) (sh1Loc d (c.castLE hcore3)), sh1Loc d (c.castLE hcore3) ↦{fullShare} f) : sProp 𝕄) := by
  have hrest : (bigSep Finset.univ fun i : Fin 16 => shPiece1 (F := F) restShare d (coords1 c i))
      ⊢ (iprop(∃ f : Buf (Elt F) (sh1Loc d (c.castLE hcore3)), sh1Loc d (c.castLE hcore3) ↦[Finset.univ]{restShare} f) : sProp 𝕄) :=
    (bigSep_mono fun i _ => (shPiece1_iff restShare d c i).1).trans
      (pts_join (ℓ := sh1Loc d (c.castLE hcore3)) Finset.univ (fun i : Fin 16 => wrows 0 i) shAll_disj shAll_cover (Classical.choice inferInstance))
  -- every read share read at the rest's contents
  have hunify : ∀ (f : Buf (Elt F) (sh1Loc d (c.castLE hcore3))) (s : Finset (Fin 16)),
      iprop((sh1Loc d (c.castLE hcore3) ↦{restShare} f)
          ∗ (bigSep s fun i : Fin 16 => iprop(∃ g : Buf (Elt F) (sh1Loc d (c.castLE hcore3)), sh1Loc d (c.castLE hcore3) ↦{rdShare i.val} g)))
        ⊢ (iprop((sh1Loc d (c.castLE hcore3) ↦{restShare} f)
          ∗ (bigSep s fun i : Fin 16 => (sh1Loc d (c.castLE hcore3) ↦{rdShare i.val} f))) : sProp 𝕄) := by
    intro f s
    induction s using Finset.induction_on with
    | empty =>
      rw [bigSep_empty, bigSep_empty]
    | insert a s ha ih =>
      rw [SparseCore.bigSep_insert' ha, SparseCore.bigSep_insert' ha]
      show (_ : sProp 𝕄) ⊢ _
      iintro ⟨Hf, ⟨%g, Hg⟩, Hs⟩
      ihave H1 := (pts_agree_rw (ℓ := sh1Loc d (c.castLE hcore3)) f g) $$ [Hf Hg]
      · isplitl [Hf]; · iexact Hf
        iexact Hg
      icases H1 with ⟨Hf, Hg⟩
      ihave H2 := ih $$ [Hf Hs]
      · isplitl [Hf]; · iexact Hf
        iexact Hs
      icases H2 with ⟨Hf, Hs⟩
      isplitl [Hf]; · iexact Hf
      isplitl [Hg]; · iexact Hg
      iexact Hs
  show (_ : sProp 𝕄) ⊢ _
  iintro ⟨Hrd, Hrest⟩
  ihave Hr := hrest $$ Hrest
  icases Hr with ⟨%f, Hf⟩
  ihave H := (hunify f Finset.univ) $$ [Hf Hrd]
  · isplitl [Hf]; · iexact Hf
    iexact Hrd
  iexists f
  iapply (Transfers.pointsTo_toks_join (ℓ := sh1Loc d (c.castLE hcore3)) (S := Finset.univ) (f := f) fullShare 16)
  iexact H

end Sh1

/-! ## Call 1: the split -/

section Split1
variable [FloatOps F]

/-- SparseCore `c`'s shared scratch of call 1 is among its sequencer's own buffers: it, at some contents, and the rest. -/
theorem ownBufs_S1 (d : Dev nD) (c : Fin τ.nSC) :
    (ownBufs (S d c) : sProp 𝕄)
      = iprop((∃ f, sh1Loc d c ↦{fullShare} f) ∗ bigSep ((ownRefs (τ := τ) (.scScalar c)).erase (⟨.shared, ⟨1, by decide⟩, c⟩ : DevRef τ sig))
          fun b => iprop(∃ f, ((d, b) : Loc nD τ sig) ↦{fullShare} f)) := by
  unfold SparseCore.Cfg.ownBufs
  have h : (⟨.shared, ⟨1, by decide⟩, c⟩ : DevRef τ sig) ∈ ownRefs (τ := τ) (sig := sig) (.scScalar c) :=
    (mem_ownRefs (p := Proc.scScalar c) (b := (⟨.shared, ⟨1, by decide⟩, c⟩ : DevRef τ sig))).mpr rfl
  exact SparseCore.bigSep_erase' h

/-- That every barrier cell of the SparseCore has reached round 1 is there for every tile. -/
theorem reached_all1 (d : Dev nD) (c : Fin 2) :
    (bigSep Finset.univ fun j : Fin τ.nSub => reached EB (bcell d (c.castLE hcore3) j) 1 : sProp 𝕄)
      ⊢ bigSep Finset.univ fun i : Fin 16 => bigSep Finset.univ fun j : Fin (grid3.bound 1) => reached EB (bcell d (cV1 (coords1 c i)) (j.castLE hsub3)) 1 :=
  show (_ : sProp 𝕄) ⊢ bigSep Finset.univ (fun _ : Fin 16 => (bigSep Finset.univ fun j : Fin τ.nSub => reached EB (bcell d (c.castLE hcore3) j) 1)) from
    bigSep_of_persistent Finset.univ _

theorem vecSplit1_core (d : Dev nD) (c : Fin 2) :
    iprop(iprop(stCore1 (F := F) d c ∗ barNext d (c.castLE hcore3)) ∗ ownBufs (S d (c.castLE hcore3))) ⊢ |={Set.univ}=> (iprop(
      (bigSep Finset.univ fun i : Fin 16 => go1 d (coords1 c i))
      ∗ ((bigSep Finset.univ fun i : Fin 16 => td1 d (coords1 c i))
          -∗ iprop(stCore1 d c ∗ ownBufs (S d (c.castLE hcore3))))) : sProp 𝕄) := by
  rw [ownBufs_S1]
  unfold go1 td1 barNext
  simp only [bigSep_sep']
  unfold stCore1
  iintro ⟨⟨⟨%tb, %jx, %ob, Ht, Hj, Ho, %hj⟩, Hat, Hre⟩, ⟨%fsh, Hsh⟩, Hrest⟩
  imodintro
  isplitl [Ht Hj Ho Hsh Hat Hre]
  · isplitl [Hj]; · iapply (idx_fwd1 d c jx hj); iexact Hj
    isplitl [Ho]; · iapply (out_fwd1 d c ob); iexact Ho
    isplitl [Ht]; · iapply (tbl_fwd1 d c tb); iexact Ht
    isplitl [Hsh]; · iapply (sh_fwd1 d c fsh); iexact Hsh
    isplitl [Hat]; · iexact Hat
    iapply (reached_all1 d c); iexact Hre
  iintro ⟨Hj, Ho, Ht, Hrd, Hrs⟩
  ihave Hj' := (idx_bwd1 d c) $$ Hj
  icases Hj' with ⟨%jx', Hj, %hj'⟩
  ihave Ho' := (out_bwd1 d c ob) $$ Ho
  icases Ho' with ⟨%ob', Ho⟩
  ihave Ht' := (tbl_bwd1 d c tb) $$ Ht
  icases Ht' with ⟨%tb', Ht⟩
  ihave Hsh := (sh_bwd1 d c) $$ [Hrd Hrs]
  · isplitl [Hrd]; · iexact Hrd
    iexact Hrs
  isplitl [Hj Ho Ht]
  · iexists tb', jx', ob'
    isplitl [Ht]; · iexact Ht
    isplitl [Hj]; · iexact Hj
    isplitl [Ho]; · iexact Ho
    ipureintro; exact hj'
  isplitl [Hsh]; · iexact Hsh
  iexact Hrest

theorem vecSplit1 : (K (F := F)).VecSplit (P (F := F)) 1 := fun d c => vecSplit1_core d (Fin.cast (nCore_eq 1) c)

end Split1

end Cert.Proof.Sc.Split
end
-- ==== Proof.Bits.TcMain.lean ====
/-
  @main on the TensorCore, cut where the kernel regions and the SparseCore calls stand: five stretches of host
  operations (weights stacked and biases laid out; the node table reshaped and the first half of the edges' index
  list assembled; a reshape of the gathered rows; the second half's index list; a reshape and the copy of the first
  half's result into the output buffer) around three kernel regions and two SparseCore calls, in program order.
-/
import proofs.«217078_g14027363189340_cont_week2b_886_24_alg».proof.Proof.Gen.Kernel
import Idealize.ShloMosaic.Lib.SparseCore.Launch
import Idealize.ShloMosaic.Lib.StableHlo.Run
import Idealize.ShloMosaic.Lib.Pipeline.Regions

noncomputable section

namespace Cert.ProofBits.Main

open Cert.Kernel Cert.Kernel.Gen

open Idealize.ShloMosaic Idealize.ShloMosaic.StableHlo Idealize.ShloMosaic.TcCoe
open Idealize.ShloMosaic.SparseCore (S V T)
open Idealize.SL Idealize.SL.Sem

variable {F : FTy → Type} [FloatOps F]

/-- The labels of the program's body table beneath the SparseCore calls: the kernels' and the three pipelines'. -/
abbrev ΛP : Labels := Pipeline.Sig Λ₀ (Fin 3) fun p => (pcfgs (F := F) p).Adm

/-- Before the node tables' region: the two node weight matrices stacked, the zero row and the bias row stacked. -/
abbrev opsA : List (HloOp τ sig (Elt F)) :=
  [
    StableHlo.unary main_arg5 main_v0 (broadcastInDim S1x128x128 ![1, 2] bcast_S128x128_S1x128x128_1_2 : (⟨S128x128, .f32⟩ : BufTy).Contents (Elt F) → (⟨S1x128x128, .f32⟩ : BufTy).Contents (Elt F)),
    StableHlo.unary main_arg6 main_v1 (broadcastInDim S1x128x128 ![1, 2] bcast_S128x128_S1x128x128_1_2 : (⟨S128x128, .f32⟩ : BufTy).Contents (Elt F) → (⟨S1x128x128, .f32⟩ : BufTy).Contents (Elt F)),
    StableHlo.binary main_v0 main_v1 main_v2 ((fun a b => concatenate S2x128x128 0 [⟨S1x128x128, a⟩, ⟨S1x128x128, b⟩] concatenates_S1x128x128_S1x128x128_S2x128x128_d0) : (⟨S1x128x128, .f32⟩ : BufTy).Contents (Elt F) → (⟨S1x128x128, .f32⟩ : BufTy).Contents (Elt F) → (⟨S2x128x128, .f32⟩ : BufTy).Contents (Elt F)),
    StableHlo.nullary main_cst (constant S_ .f32 0x00000000#32),
    StableHlo.unary main_cst main_v3 (broadcastInDim S128 ![] bcast_S_S128 : (⟨S_, .f32⟩ : BufTy).Contents (Elt F) → (⟨S128, .f32⟩ : BufTy).Contents (Elt F)),
    StableHlo.unary main_v3 main_v4 (broadcastInDim S1x128 ![1] bcast_S128_S1x128_1 : (⟨S128, .f32⟩ : BufTy).Contents (Elt F) → (⟨S1x128, .f32⟩ : BufTy).Contents (Elt F)),
    StableHlo.unary main_arg7 main_v5 (broadcastInDim S1x128 ![1] bcast_S128_S1x128_1 : (⟨S128, .f32⟩ : BufTy).Contents (Elt F) → (⟨S1x128, .f32⟩ : BufTy).Contents (Elt F)),
    StableHlo.binary main_v4 main_v5 main_v6 ((fun a b => concatenate S2x128 0 [⟨S1x128, a⟩, ⟨S1x128, b⟩] concatenates_S1x128_S1x128_S2x128_d0) : (⟨S1x128, .f32⟩ : BufTy).Contents (Elt F) → (⟨S1x128, .f32⟩ : BufTy).Contents (Elt F) → (⟨S2x128, .f32⟩ : BufTy).Contents (Elt F)),
    StableHlo.reshape main_v6 main_v7 rfl shapeCasts_S2x128_S2x1x128 ]

/-- Between the node tables' region and the first gather: the two tables as one array of 20000 rows, the transposed
    edge and output weights, the row parameters as 1 × 128 arrays, and the first 160000 edges' index list — source
    indices, padding zeros, destination indices moved past the source table, padding at the destination table's
    first row. -/
abbrev opsB : List (HloOp τ sig (Elt F)) :=
  [
    StableHlo.reshape main_v8 main_v9 rfl shapeCasts_S2x10000x128_S20000x128,
    StableHlo.nullary main_c (constantI S_ 32 0#32),
    StableHlo.unary main_c main_v10 (broadcastInDim S3840 ![] bcast_S_S3840 : (⟨S_, .i32⟩ : BufTy).Contents (Elt F) → (⟨S3840, .i32⟩ : BufTy).Contents (Elt F)),
    StableHlo.unary main_arg4 main_v11 ((transpose S16x128 [1, 0] · transposes_S128x16_S16x128_1_0) : (⟨S128x16, .f32⟩ : BufTy).Contents (Elt F) → (⟨S16x128, .f32⟩ : BufTy).Contents (Elt F)),
    StableHlo.unary main_arg8 main_v12 ((transpose S128x128 [1, 0] · transposes_S128x128_S128x128_1_0) : (⟨S128x128, .f32⟩ : BufTy).Contents (Elt F) → (⟨S128x128, .f32⟩ : BufTy).Contents (Elt F)),
    StableHlo.unary main_v12 main_v13 ((truncf .bf16 · bitsLt_bf16_f32) : (⟨S128x128, .f32⟩ : BufTy).Contents (Elt F) → (⟨S128x128, .bf16⟩ : BufTy).Contents (Elt F)),
    StableHlo.reshape main_arg9 main_v14 rfl shapeCasts_S128_S1x128,
    StableHlo.reshape main_arg10 main_v15 rfl shapeCasts_S128_S1x128,
    StableHlo.reshape main_arg11 main_v16 rfl shapeCasts_S128_S1x128,
    StableHlo.unary main_arg3 main_v17 ((extractStridedSlice S1x160000 ![0, 0] · slices_S2x320000_S1x160000_0_0) : (⟨S2x320000, .i32⟩ : BufTy).Contents (Elt F) → (⟨S1x160000, .i32⟩ : BufTy).Contents (Elt F)),
    StableHlo.reshape main_v17 main_v18 rfl shapeCasts_S1x160000_S160000,
    StableHlo.unary main_arg3 main_v19 ((extractStridedSlice S1x160000 ![1, 0] · slices_S2x320000_S1x160000_1_0) : (⟨S2x320000, .i32⟩ : BufTy).Contents (Elt F) → (⟨S1x160000, .i32⟩ : BufTy).Contents (Elt F)),
    StableHlo.reshape main_v19 main_v20 rfl shapeCasts_S1x160000_S160000,
    StableHlo.nullary main_c_0 (constantI S_ 32 10000#32),
    StableHlo.unary main_c_0 main_v21 (broadcastInDim S160000 ![] bcast_S_S160000 : (⟨S_, .i32⟩ : BufTy).Contents (Elt F) → (⟨S160000, .i32⟩ : BufTy).Contents (Elt F)),
    StableHlo.binary main_v20 main_v21 main_v22 (addi : (⟨S160000, .i32⟩ : BufTy).Contents (Elt F) → (⟨S160000, .i32⟩ : BufTy).Contents (Elt F) → (⟨S160000, .i32⟩ : BufTy).Contents (Elt F)),
    StableHlo.nullary main_c_1 (constantI S_ 32 10000#32),
    StableHlo.unary main_c_1 main_v23 (broadcastInDim S3840 ![] bcast_S_S3840 : (⟨S_, .i32⟩ : BufTy).Contents (Elt F) → (⟨S3840, .i32⟩ : BufTy).Contents (Elt F)),
    StableHlo.binary main_v10 main_v23 main_v24 (addi : (⟨S3840, .i32⟩ : BufTy).Contents (Elt F) → (⟨S3840, .i32⟩ : BufTy).Contents (Elt F) → (⟨S3840, .i32⟩ : BufTy).Contents (Elt F)),
    StableHlo.nary ![main_v18, main_v10, main_v22, main_v24] main_v25 (fun u => concatenate S327680 0 [⟨S160000, u 0⟩, ⟨S3840, u 1⟩, ⟨S160000, u 2⟩, ⟨S3840, u 3⟩] concatenates_S160000_S3840_S160000_S3840_S327680_d0) ]

/-- Between the first gather and the first edge region: the gathered rows as two halves. -/
abbrev opsC : List (HloOp τ sig (Elt F)) :=
  [
    StableHlo.reshape main_v26 main_v27 rfl shapeCasts_S327680x128_S2x163840x128 ]

/-- Between the first edge region and the second gather: the last 160000 edges' index list, laid out as the first. -/
abbrev opsD : List (HloOp τ sig (Elt F)) :=
  [
    StableHlo.unary main_arg3 main_v29 ((extractStridedSlice S1x160000 ![0, 160000] · slices_S2x320000_S1x160000_0_160000) : (⟨S2x320000, .i32⟩ : BufTy).Contents (Elt F) → (⟨S1x160000, .i32⟩ : BufTy).Contents (Elt F)),
    StableHlo.reshape main_v29 main_v30 rfl shapeCasts_S1x160000_S160000,
    StableHlo.unary main_arg3 main_v31 ((extractStridedSlice S1x160000 ![1, 160000] · slices_S2x320000_S1x160000_1_160000) : (⟨S2x320000, .i32⟩ : BufTy).Contents (Elt F) → (⟨S1x160000, .i32⟩ : BufTy).Contents (Elt F)),
    StableHlo.reshape main_v31 main_v32 rfl shapeCasts_S1x160000_S160000,
    StableHlo.nullary main_c_2 (constantI S_ 32 10000#32),
    StableHlo.unary main_c_2 main_v33 (broadcastInDim S160000 ![] bcast_S_S160000 : (⟨S_, .i32⟩ : BufTy).Contents (Elt F) → (⟨S160000, .i32⟩ : BufTy).Contents (Elt F)),
    StableHlo.binary main_v32 main_v33 main_v34 (addi : (⟨S160000, .i32⟩ : BufTy).Contents (Elt F) → (⟨S160000, .i32⟩ : BufTy).Contents (Elt F) → (⟨S160000, .i32⟩ : BufTy).Contents (Elt F)),
    StableHlo.nullary main_c_3 (constantI S_ 32 10000#32),
    StableHlo.unary main_c_3 main_v35 (broadcastInDim S3840 ![] bcast_S_S3840 : (⟨S_, .i32⟩ : BufTy).Contents (Elt F) → (⟨S3840, .i32⟩ : BufTy).Contents (Elt F)),
    StableHlo.binary main_v10 main_v35 main_v36 (addi : (⟨S3840, .i32⟩ : BufTy).Contents (Elt F) → (⟨S3840, .i32⟩ : BufTy).Contents (Elt F) → (⟨S3840, .i32⟩ : BufTy).Contents (Elt F)),
    StableHlo.nary ![main_v30, main_v10, main_v34, main_v36] main_v37 (fun u => concatenate S327680 0 [⟨S160000, u 0⟩, ⟨S3840, u 1⟩, ⟨S160000, u 2⟩, ⟨S3840, u 3⟩] concatenates_S160000_S3840_S160000_S3840_S327680_d0) ]

/-- Between the second gather and the second edge region: the gathered rows as two halves, and the first region's
    result copied into the buffer the second region writes its rows into. -/
abbrev opsE : List (HloOp τ sig (Elt F)) :=
  [
    StableHlo.reshape main_v38 main_v39 rfl shapeCasts_S327680x128_S2x163840x128,
    StableHlo.unary main_v28 main_v40 id ]

/-- A kernel region of @main, as the SparseCore program spells it. -/
abbrev regionCall (p : Fin 3) : Prog (TpuEff nD τ sig (Elt F) (SparseCore.Sig (ΛP (F := F)) 2) .tc) PUnit :=
  Prog.lift (.customCall (SparseCore.inner (Pipeline.entry p)) ())

/-- @main is those stretches, regions and calls in order. -/
theorem main_eq (d : Dev nD) :
    main (F := F) d = (do
      seq opsA; regionCall 0; seq opsB; (sc (F := F)).run d 0; seq opsC; regionCall 1
      seq opsD; (sc (F := F)).run d 1; seq opsE; regionCall 2; pure ⟨⟩) := rfl

end Cert.ProofBits.Main

end
-- ==== Proof.Bits.ScCommon.lean ====
/-
  The program as the launch theorem for SparseCore programs sees it: the configuration of its two SparseCore calls,
  the body table beneath them, the variants, the facts about the launch semaphores, and the ghost state — the
  handshakes' rounds library beside the subcore-barrier cells' rounds library and the transfers' counters.
-/
import proofs.«217078_g14027363189340_cont_week2b_886_24_alg».proof.Proof.Gen.Kernel
import proofs.«217078_g14027363189340_cont_week2b_886_24_alg».proof.Proof.Gen.Kernel.Skeleton
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic

noncomputable section

namespace Cert.ProofBits.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 3) fun p => (pcfgs (F := F) p).Adm
abbrev K : SparseCore.Cfg τ sig (ΛP (F := F)) 2 := sc (F := F)
theorem nCore_eq (q : Fin 2) : (K (F := F)).nCore q = 2 := by fin_cases q <;> rfl
theorem nSub_eq (q : Fin 2) : (K (F := F)).nSub q = 16 := by fin_cases q <;> rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the barrier cells', the TensorCore pipelines', the transfers' counters -/

abbrev UH : Type := URounds (GSem nD τ sig) ℕ
abbrev UB : Type := URounds (GSem nD τ sig) ℕ
abbrev UP : Type := URounds (GSem nD τ sig) Unit
abbrev UU : Type := UH × (UB × (UP × Counters))

local notation "𝕄" => MT nD τ sig (HIx 2) (Elt F) ℕ UU ℕ

/-- The handshakes' rounds library: the left factor. -/
abbrev EH : Emb UH (MT nD τ sig (HIx 2) (Elt F) ℕ UU ℕ) := embL
/-- The right factor, as a whole. -/
abbrev ER₁ : Emb (UB × (UP × Counters)) (MT nD τ sig (HIx 2) (Elt F) ℕ UU ℕ) :=
  (Emb.inr : Emb (UB × (UP × Counters)) UU).trans
    (uEmb (nD := nD) (sig := sig) (Ix := HIx 2) (Val := Elt F) (Name := ℕ) (U := UU) (Lvl := ℕ)).toEmb
/-- The barrier cells' rounds library: the left half of the right factor. -/
def EB : Emb UB (MT nD τ sig (HIx 2) (Elt F) ℕ UU ℕ) :=
  ((Emb.inl : Emb UB (UB × (UP × Counters))).trans (Emb.inr : Emb (UB × (UP × Counters)) UU)).trans
    (uEmb (nD := nD) (sig := sig) (Ix := HIx 2) (Val := Elt F) (Name := ℕ) (U := UU) (Lvl := ℕ)).toEmb
instance EB_landsIn : (EB : Emb UB 𝕄).LandsIn (upEmb : UEmb _ 𝕄) := by unfold EB; infer_instance
/-- The TensorCore pipelines' rounds library: the left half of the innermost pair (the counters are its right half, found
    by instance). -/
def EP : Emb UP (MT nD τ sig (HIx 2) (Elt F) ℕ UU ℕ) :=
  (((Emb.inl : Emb UP (UP × Counters)).trans (Emb.inr : Emb (UP × Counters) (UB × (UP × Counters)))).trans
      (Emb.inr : Emb (UB × (UP × Counters)) UU)).trans
    (uEmb (nD := nD) (sig := sig) (Ix := HIx 2) (Val := Elt F) (Name := ℕ) (U := UU) (Lvl := ℕ)).toEmb
instance EP_landsIn : (EP : Emb UP 𝕄).LandsIn (upEmb : UEmb _ 𝕄) := by unfold EP; infer_instance

/-- The launch element splits into its three rounds libraries' elements (the counters' unit is dropped). -/
theorem ownU_split3 (a : UH) (b : UB) (p : UP) :
    (ownU ((a, (b, (p, 1))) : UU) : sProp 𝕄) ⊢ iprop(BI.own (EH a) ∗ BI.own (EB b) ∗ BI.own (EP p)) := by
  have h1 : (ownU ((a, (b, (p, 1))) : UU) : sProp 𝕄) ⊢ iprop(BI.own (EH a) ∗ BI.own ((ER₁ (F := F)) (b, ((p, (1 : Counters)) : UP × Counters)))) :=
    BI.own_op_elim ((uEmb (nD := nD) (sig := sig) (Ix := HIx 2) (Val := Elt F) (Name := ℕ) (U := UU) (Lvl := ℕ)).toEmb.op_of_mem
      (Prod.mk_mem_op (URA.mem_op_one a) (URA.mem_one_op (b, ((p, (1 : Counters)) : UP × Counters)))))
  have h2 : (BI.own ((ER₁ (F := F)) (b, ((p, (1 : Counters)) : UP × Counters))) : sProp 𝕄) ⊢ iprop(BI.own (EB b) ∗ BI.own (EP p)) :=
    BI.own_op_elim ((ER₁ (F := F)).op_of_mem
      (Prod.mk_mem_op (URA.mem_op_one b) (URA.mem_one_op ((p, (1 : Counters)) : UP × Counters))))
  exact h1.trans (sep_mono_right h2)

end Cert.ProofBits.Sc
-- ==== Proof.Bits.TcCompose.lean ====
/-
  @main's proof on the TensorCore assembled from its segments' steps. The thread's state between segments is the
  region boundary, the launch theorem's handshake state before the next SparseCore call, and every unscoped buffer of
  the core held whole at one valuation. A stretch of host operations moves the valuation to the operations' composed
  result; a kernel region changes it at its output array only; a SparseCore call at the gathered rows' array only.
  None of these writes an argument array, so the last valuation agrees with the launch memory on all twelve.
-/
import proofs.«217078_g14027363189340_cont_week2b_886_24_alg».proof.Proof.Bits.TcMain
import proofs.«217078_g14027363189340_cont_week2b_886_24_alg».proof.Proof.Bits.ScCommon
import Idealize.ShloMosaic.Lib.Pipeline.Frame

noncomputable section

namespace Cert.ProofBits.Main

open Cert.Kernel Cert.Kernel.Gen Cert.ProofBits.Sc

open Idealize.ShloMosaic Idealize.ShloMosaic.StableHlo Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 2) (Elt F) ℕ UU ℕ

/-! ## The argument arrays, and valuations that agree on them -/

/-- @main's twelve argument arrays. -/
def argList : List (Ref sig .tc) :=
  [main_arg0, main_arg1, main_arg2, main_arg3, main_arg4, main_arg5, main_arg6, main_arg7, main_arg8, main_arg9, main_arg10, main_arg11]

/-- The second valuation holds what the first does at every argument array. -/
def Keeps (V V' : Valuation τ sig (Elt F)) : Prop := ∀ r ∈ argList, V' (Proc.devRef .tc r) = V (Proc.devRef .tc r)

theorem Keeps.rfl' (V : Valuation τ sig (Elt F)) : Keeps V V := fun _ _ => rfl
theorem Keeps.trans {V V' V'' : Valuation τ sig (Elt F)} (h : Keeps V V') (h' : Keeps V' V'') : Keeps V V'' :=
  fun r hr => (h' r hr).trans (h r hr)
/-- A valuation changed at one array that is no argument keeps the arguments. -/
theorem Keeps.of_ne {V V' : Valuation τ sig (Elt F)} {out : Ref sig .tc} (hout : out ∉ argList)
    (h : ∀ r : Ref sig .tc, r ≠ out → V' (Proc.devRef .tc r) = V (Proc.devRef .tc r)) : Keeps V V' :=
  fun r hr => h r fun e => hout (e ▸ hr)
/-- A valuation changed at a few arrays none of which is an argument keeps the arguments. -/
theorem Keeps.of_notMem {V V' : Valuation τ sig (Elt F)} {outs : List (Ref sig .tc)} (hout : ∀ r ∈ outs, r ∉ argList)
    (h : ∀ r : Ref sig .tc, r ∉ outs → V' (Proc.devRef .tc r) = V (Proc.devRef .tc r)) : Keeps V V' :=
  fun r hr => h r fun hmem => hout r hmem hr

/-! ## The host stretches: their buffers are unscoped, they allocate nothing, they write no argument -/

theorem opsA_sub : (opsA : List (HloOp τ sig (Elt F))).Forall fun op => op.bufs ⊆ tcRefs τ sig :=
  ⟨unary_bufs_sub .., unary_bufs_sub .., binary_bufs_sub .., nullary_bufs_sub .., unary_bufs_sub .., unary_bufs_sub .., unary_bufs_sub .., binary_bufs_sub .., reshape_bufs_sub ..⟩
theorem opsA_uc : ∀ op ∈ (opsA : List (HloOp τ sig (Elt F))), op.bufs ⊆ Pipeline.ucRefs τ sig :=
  fun op h => Pipeline.sub_ucRefs op (List.forall_iff_forall_mem.mp opsA_sub op h)
theorem opsA_fresh : ∀ op ∈ (opsA : List (HloOp τ sig (Elt F))), op.fresh = ∅ :=
  List.forall_iff_forall_mem.mp (show (opsA : List (HloOp τ sig (Elt F))).Forall fun op => op.fresh = ∅ from ⟨rfl, rfl, rfl, rfl, rfl, rfl, rfl, rfl, rfl⟩)
/-- No operation of this stretch writes an argument array. -/
theorem opsA_keeps (V : Valuation τ sig (Elt F)) : Keeps V (after opsA V) := by
  intro r hr
  simp only [argList, List.mem_cons, List.not_mem_nil, or_false] at hr
  rcases hr with rfl | rfl | rfl | rfl | rfl | rfl | rfl | rfl | rfl | rfl | rfl | rfl <;> after_results

theorem opsB_sub : (opsB : List (HloOp τ sig (Elt F))).Forall fun op => op.bufs ⊆ tcRefs τ sig :=
  ⟨reshape_bufs_sub .., nullary_bufs_sub .., unary_bufs_sub .., unary_bufs_sub .., unary_bufs_sub .., unary_bufs_sub .., reshape_bufs_sub .., reshape_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., nary_bufs_sub ..⟩
theorem opsB_uc : ∀ op ∈ (opsB : List (HloOp τ sig (Elt F))), op.bufs ⊆ Pipeline.ucRefs τ sig :=
  fun op h => Pipeline.sub_ucRefs op (List.forall_iff_forall_mem.mp opsB_sub op h)
theorem opsB_fresh : ∀ op ∈ (opsB : List (HloOp τ sig (Elt F))), op.fresh = ∅ :=
  List.forall_iff_forall_mem.mp (show (opsB : List (HloOp τ sig (Elt F))).Forall fun op => op.fresh = ∅ from ⟨rfl, rfl, rfl, rfl, rfl, rfl, rfl, rfl, rfl, rfl, rfl, rfl, rfl, rfl, rfl, rfl, rfl, rfl, rfl, rfl⟩)
/-- No operation of this stretch writes an argument array. -/
theorem opsB_keeps (V : Valuation τ sig (Elt F)) : Keeps V (after opsB V) := by
  intro r hr
  simp only [argList, List.mem_cons, List.not_mem_nil, or_false] at hr
  rcases hr with rfl | rfl | rfl | rfl | rfl | rfl | rfl | rfl | rfl | rfl | rfl | rfl <;> after_results

theorem opsC_sub : (opsC : List (HloOp τ sig (Elt F))).Forall fun op => op.bufs ⊆ tcRefs τ sig :=
  reshape_bufs_sub ..
theorem opsC_uc : ∀ op ∈ (opsC : List (HloOp τ sig (Elt F))), op.bufs ⊆ Pipeline.ucRefs τ sig :=
  fun op h => Pipeline.sub_ucRefs op (List.forall_iff_forall_mem.mp opsC_sub op h)
theorem opsC_fresh : ∀ op ∈ (opsC : List (HloOp τ sig (Elt F))), op.fresh = ∅ :=
  List.forall_iff_forall_mem.mp (show (opsC : List (HloOp τ sig (Elt F))).Forall fun op => op.fresh = ∅ from rfl)
/-- No operation of this stretch writes an argument array. -/
theorem opsC_keeps (V : Valuation τ sig (Elt F)) : Keeps V (after opsC V) := by
  intro r hr
  simp only [argList, List.mem_cons, List.not_mem_nil, or_false] at hr
  rcases hr with rfl | rfl | rfl | rfl | rfl | rfl | rfl | rfl | rfl | rfl | rfl | rfl <;> after_results

theorem opsD_sub : (opsD : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., nary_bufs_sub ..⟩
theorem opsD_uc : ∀ op ∈ (opsD : List (HloOp τ sig (Elt F))), op.bufs ⊆ Pipeline.ucRefs τ sig :=
  fun op h => Pipeline.sub_ucRefs op (List.forall_iff_forall_mem.mp opsD_sub op h)
theorem opsD_fresh : ∀ op ∈ (opsD : List (HloOp τ sig (Elt F))), op.fresh = ∅ :=
  List.forall_iff_forall_mem.mp (show (opsD : List (HloOp τ sig (Elt F))).Forall fun op => op.fresh = ∅ from ⟨rfl, rfl, rfl, rfl, rfl, rfl, rfl, rfl, rfl, rfl, rfl⟩)
/-- No operation of this stretch writes an argument array. -/
theorem opsD_keeps (V : Valuation τ sig (Elt F)) : Keeps V (after opsD V) := by
  intro r hr
  simp only [argList, List.mem_cons, List.not_mem_nil, or_false] at hr
  rcases hr with rfl | rfl | rfl | rfl | rfl | rfl | rfl | rfl | rfl | rfl | rfl | rfl <;> after_results

theorem opsE_sub : (opsE : List (HloOp τ sig (Elt F))).Forall fun op => op.bufs ⊆ tcRefs τ sig :=
  ⟨reshape_bufs_sub .., unary_bufs_sub ..⟩
theorem opsE_uc : ∀ op ∈ (opsE : List (HloOp τ sig (Elt F))), op.bufs ⊆ Pipeline.ucRefs τ sig :=
  fun op h => Pipeline.sub_ucRefs op (List.forall_iff_forall_mem.mp opsE_sub op h)
theorem opsE_fresh : ∀ op ∈ (opsE : List (HloOp τ sig (Elt F))), op.fresh = ∅ :=
  List.forall_iff_forall_mem.mp (show (opsE : List (HloOp τ sig (Elt F))).Forall fun op => op.fresh = ∅ from ⟨rfl, rfl⟩)
/-- No operation of this stretch writes an argument array. -/
theorem opsE_keeps (V : Valuation τ sig (Elt F)) : Keeps V (after opsE V) := by
  intro r hr
  simp only [argList, List.mem_cons, List.not_mem_nil, or_false] at hr
  rcases hr with rfl | rfl | rfl | rfl | rfl | rfl | rfl | rfl | rfl | rfl | rfl | rfl <;> after_results

/-! ## A segment's step, as @main's proof uses it -/

variable (P : (K (F := F)).Pay (nD := nD) (Val := Elt F) (Name := ℕ) (U := UU))

/-- A kernel region's step on the TensorCore before SparseCore call `n`: from the boundary, the handshake state, the
    unscoped buffers at a valuation and the region's own ghost resources `G`, the region's call runs, and the
    continuation finds the same at a valuation changed at the array `out` only. -/
def RegionStep (p : Fin 3) (n : ℕ) (out : Ref sig .tc) (G : Dev nD → sProp 𝕄) : Prop :=
  ∀ (κ : GSem nD τ sig → ℕ) (d : Dev nD) (V₁ : Valuation τ sig (Elt F))
    (k : PUnit → Prog (TpuEff nD τ sig (Elt F) (SparseCore.Sig (ΛP (F := F)) 2) .tc) PUnit) (Q : PUnit → sProp 𝕄),
    iprop((K (F := F)).ctx EH P κ ∗ boundary (SparseCore.T d) ∗ (K (F := F)).tcSt EH d n ∗ (held (SparseCore.T d) (Pipeline.ucRefs τ sig) V₁ : sProp 𝕄) ∗ G d
        ∗ (∀ V₂ : Valuation τ sig (Elt F), ⌜∀ r : Ref sig .tc, r ≠ out → V₂ (Proc.devRef .tc r) = V₁ (Proc.devRef .tc r)⌝
            -∗ iprop(boundary (SparseCore.T d) ∗ (K (F := F)).tcSt EH d n ∗ (held (SparseCore.T d) (Pipeline.ucRefs τ sig) V₂ : sProp 𝕄))
            -∗ wp frame (wpE ((K (F := F)).defs (D (F := F))) 𝒱 (SparseCore.T d) none) Set.univ (k ⟨⟩) Q))
      ⊢ wp frame (wpE ((K (F := F)).defs (D (F := F))) 𝒱 (SparseCore.T d) none) Set.univ (regionCall p >>= k) Q

/-- A SparseCore call's step: from the handshake state before call `q`, the unscoped buffers at a valuation whose
    index list is in range (`ok`), and what the previous call left for this one (`Xin`), the call runs, and the
    continuation finds the state before call `q + 1`, the buffers at a valuation changed only at the arrays listed
    (the node table and the index list handed to the SparseCores and taken back, and the gathered rows), and what this
    call leaves for the next. -/
def CallStep (q : Fin 2) (idx : Ref sig .tc) (outs : List (Ref sig .tc)) (Xin Xout : Dev nD → sProp 𝕄)
    (ok : (Proc.devRef (τ := τ) .tc idx).ty.Contents (Elt F) → Prop) : Prop :=
  ∀ (κ : GSem nD τ sig → ℕ) (d : Dev nD) (V₁ : Valuation τ sig (Elt F)), ok (V₁ (Proc.devRef .tc idx)) →
    ∀ (k : PUnit → Prog (TpuEff nD τ sig (Elt F) (SparseCore.Sig (ΛP (F := F)) 2) .tc) PUnit) (Q : PUnit → sProp 𝕄),
    iprop((K (F := F)).ctx EH P κ ∗ (K (F := F)).tcSt EH d q.val ∗ (held (SparseCore.T d) (Pipeline.ucRefs τ sig) V₁ : sProp 𝕄) ∗ Xin d
        ∗ (∀ V₂ : Valuation τ sig (Elt F), ⌜∀ r : Ref sig .tc, r ∉ outs → V₂ (Proc.devRef .tc r) = V₁ (Proc.devRef .tc r)⌝
            -∗ iprop((K (F := F)).tcSt EH d (q.val + 1) ∗ (held (SparseCore.T d) (Pipeline.ucRefs τ sig) V₂ : sProp 𝕄) ∗ Xout d)
            -∗ wp frame (wpE ((K (F := F)).defs (D (F := F))) 𝒱 (SparseCore.T d) none) Set.univ (k ⟨⟩) Q))
      ⊢ wp frame (wpE ((K (F := F)).defs (D (F := F))) 𝒱 (SparseCore.T d) none) Set.univ ((K (F := F)).run d q >>= k) Q

/-! ## @main, from its segments' steps -/

/-- The launch's unscoped buffers, held at the launch memory as a valuation. -/
theorem launch_held (m : (ℓ : Loc nD τ sig) → Buf (Elt F) ℓ) (d : Dev nD) :
    (unscopedBufs d (fun b => m ((SparseCore.T d).loc b)) : sProp 𝕄) = held (SparseCore.T d) (Pipeline.ucRefs τ sig) (fun b => m (d, b)) :=
  Pipeline.unscopedBufs_held (Ix := HIx 2) (Name := ℕ) (U := UU) (Lvl := ℕ) d (fun b => m (d, b))

/-- What the TensorCore ends with: every unscoped buffer held at a valuation that agrees with the launch memory on the
    twelve argument arrays. -/
def FIN (m : (ℓ : Loc nD τ sig) → Buf (Elt F) ℓ) (d : Dev nD) : sProp 𝕄 :=
  iprop(∃ V₁ : Valuation τ sig (Elt F), ⌜Keeps (fun b => m (d, b)) V₁⌝ ∗ (held (SparseCore.T d) (Pipeline.ucRefs τ sig) V₁ : sProp 𝕄))

theorem v8_notArg : main_v8 ∉ argList := by decide
theorem outs0_notArg : ∀ r ∈ [main_v9, main_v25, main_v26], r ∉ argList := by decide
theorem v28_notArg : main_v28 ∉ argList := by decide
theorem outs1_notArg : ∀ r ∈ [main_v9, main_v37, main_v38], r ∉ argList := by decide
theorem v40_notArg : main_v40 ∉ argList := by decide
theorem arg3_isArg : main_arg3 ∈ argList := by decide

/-- @main on device `d`'s TensorCore, from the three regions' steps and the two calls' steps: the stretches of host
    operations between them run within the unscoped buffers, each index list is in range when its call is reached
    because it is computed from the edge list, which nothing writes, and the padding zeros, which only the second stretch writes, and the argument arrays end as
    they began. -/
theorem hmain_of (m : (ℓ : Loc nD τ sig) → Buf (Elt F) ℓ) (ρ : Dev nD → PrngReg)
    (G0 G1 G2 X1 : Dev nD → sProp 𝕄)
    (ok0 : (Proc.devRef (τ := τ) .tc main_v25).ty.Contents (Elt F) → Prop)
    (ok1 : (Proc.devRef (τ := τ) .tc main_v37).ty.Contents (Elt F) → Prop)
    (hR0 : RegionStep P 0 0 main_v8 G0) (hR1 : RegionStep P 1 1 main_v28 G1) (hR2 : RegionStep P 2 2 main_v40 G2)
    (hC0 : CallStep P 0 main_v25 [main_v9, main_v25, main_v26] (fun _ => iprop(emp)) X1 ok0)
    (hC1 : CallStep P 1 main_v37 [main_v9, main_v37, main_v38] X1 (fun _ => iprop(emp)) ok1)
    (hI0 : ∀ (d : Dev nD) (V₁ : Valuation τ sig (Elt F)), V₁ (Proc.devRef .tc main_arg3) = m (d, Proc.devRef .tc main_arg3) →
      ok0 (after opsB V₁ (Proc.devRef .tc main_v25)))
    (hI1 : ∀ (d : Dev nD) (V₁ W : Valuation τ sig (Elt F)), V₁ (Proc.devRef .tc main_arg3) = m (d, Proc.devRef .tc main_arg3) →
      V₁ (Proc.devRef .tc main_v10) = after opsB W (Proc.devRef .tc main_v10) → ok1 (after opsD V₁ (Proc.devRef .tc main_v37)))
    (κ : GSem nD τ sig → ℕ) (d : Dev nD) :
    iprop((K (F := F)).ctx EH P κ ∗ (K (F := F)).tcSt EH d 0 ∗ (K (F := F)).tcRes m ρ d ∗ iprop(G0 d ∗ G1 d ∗ G2 d))
      ⊢ wp frame (wpE ((K (F := F)).defs (D (F := F))) 𝒱 (SparseCore.T d) none) Set.univ (main d)
          fun _ => iprop((K (F := F)).tcSt EH d 2 ∗ FIN m d) := by
  unfold SparseCore.Cfg.tcRes
  rw [launch_held m d, main_eq]
  iintro ⟨#Hctx, Hst, ⟨Hb, Hh, -, -⟩, HG0, HG1, HG2⟩
  -- the weights stacked, the bias rows laid out
  have kA := opsA_keeps (F := F) (fun b => m (d, b))
  iapply (wp_seq (defs := (K (F := F)).defs (D (F := F))) 𝒱 none Set.univ d (Pipeline.ucRefs τ sig) _ opsA opsA_uc opsA_fresh (fun b => m (d, b))) $$ [Hb Hh]
  · isplitl [Hb] <;> iassumption
  iintro ⟨Hb, Hh⟩
  -- the node tables
  iapply (hR0 κ d (after opsA fun b => m (d, b)) _ _)
  isplitr; · iexact Hctx
  isplitl [Hb]; · iexact Hb
  isplitl [Hst]; · iexact Hst
  isplitl [Hh]; · iexact Hh
  isplitl [HG0]; · iexact HG0
  iintro %VA %hA ⟨Hb, Hst, Hh⟩
  have kA' := kA.trans (Keeps.of_ne v8_notArg hA)
  -- the table reshaped, the first index list
  have kB := kA'.trans (opsB_keeps VA)
  iapply (wp_seq (defs := (K (F := F)).defs (D (F := F))) 𝒱 none Set.univ d (Pipeline.ucRefs τ sig) _ opsB opsB_uc opsB_fresh VA) $$ [Hb Hh]
  · isplitl [Hb] <;> iassumption
  iintro ⟨Hb, Hh⟩
  -- the first gather
  iapply (hC0 κ d (after opsB VA) (hI0 d VA (kA' main_arg3 arg3_isArg)) _ _)
  isplitr; · iexact Hctx
  isplitl [Hst]; · iexact Hst
  isplitl [Hh]; · iexact Hh
  isplitr; · iempintro
  iintro %VB %hB ⟨Hst, Hh, HX⟩
  have kB' := kB.trans (Keeps.of_notMem outs0_notArg hB)
  -- the gathered rows as two halves
  have kC := kB'.trans (opsC_keeps VB)
  iapply (wp_seq (defs := (K (F := F)).defs (D (F := F))) 𝒱 none Set.univ d (Pipeline.ucRefs τ sig) _ opsC opsC_uc opsC_fresh VB) $$ [Hb Hh]
  · isplitl [Hb] <;> iassumption
  iintro ⟨Hb, Hh⟩
  -- the first half of the edges
  iapply (hR1 κ d (after opsC VB) _ _)
  isplitr; · iexact Hctx
  isplitl [Hb]; · iexact Hb
  isplitl [Hst]; · iexact Hst
  isplitl [Hh]; · iexact Hh
  isplitl [HG1]; · iexact HG1
  iintro %VC %hC ⟨Hb, Hst, Hh⟩
  have kC' := kC.trans (Keeps.of_ne v28_notArg hC)
  -- the second index list
  have kD := kC'.trans (opsD_keeps VC)
  iapply (wp_seq (defs := (K (F := F)).defs (D (F := F))) 𝒱 none Set.univ d (Pipeline.ucRefs τ sig) _ opsD opsD_uc opsD_fresh VC) $$ [Hb Hh]
  · isplitl [Hb] <;> iassumption
  iintro ⟨Hb, Hh⟩
  -- the second gather
  have hpad : VC (Proc.devRef .tc main_v10) = after opsB VA (Proc.devRef .tc main_v10) := by
    rw [hC main_v10 (by decide), show after opsC VB (Proc.devRef .tc main_v10) = VB (Proc.devRef .tc main_v10) from by after_results,
      hB main_v10 (by decide)]
  iapply (hC1 κ d (after opsD VC) (hI1 d VC VA (kC' main_arg3 arg3_isArg) hpad) _ _)
  isplitr; · iexact Hctx
  isplitl [Hst]; · iexact Hst
  isplitl [Hh]; · iexact Hh
  isplitl [HX]; · iexact HX
  iintro %VD %hD ⟨Hst, Hh, -⟩
  have kD' := kD.trans (Keeps.of_notMem outs1_notArg hD)
  -- the gathered rows as two halves, the first half's result copied into the output buffer
  have kE := kD'.trans (opsE_keeps VD)
  iapply (wp_seq (defs := (K (F := F)).defs (D (F := F))) 𝒱 none Set.univ d (Pipeline.ucRefs τ sig) _ opsE opsE_uc opsE_fresh VD) $$ [Hb Hh]
  · isplitl [Hb] <;> iassumption
  iintro ⟨Hb, Hh⟩
  -- the second half of the edges
  iapply (hR2 κ d (after opsE VD) _ _)
  isplitr; · iexact Hctx
  isplitl [Hb]; · iexact Hb
  isplitl [Hst]; · iexact Hst
  isplitl [Hh]; · iexact Hh
  isplitl [HG2]; · iexact HG2
  iintro %VE %hE ⟨-, Hst, Hh⟩
  have kE' := kE.trans (Keeps.of_ne v40_notArg hE)
  rw [wp_pure]
  imodintro
  isplitl [Hst]; · iexact Hst
  unfold FIN
  iexists VE
  isplitr; · ipureintro; exact kE'
  iexact Hh

end Cert.ProofBits.Main

end
-- ==== Proof.Bits.TcFinal.lean ====
/-
  Reading the claim off the final state, and the run of the whole program from its parts. The TensorCore ends holding
  every unscoped buffer at a valuation that agrees with the launch memory on the twelve argument arrays; held beside
  the state interpretation of a final state, each such buffer pins the state's memory there. The program's run then
  follows from the launch theorem for SparseCore programs, given: one tile's obligation and the split of a
  SparseCore's operands for each of the two gathers, the launch element of the ghost state, and @main's segments'
  steps.
-/
import proofs.«217078_g14027363189340_cont_week2b_886_24_alg».proof.Proof.Bits.TcCompose

noncomputable section

namespace Cert.ProofBits.Main

open Cert.Kernel Cert.Kernel.Gen Cert.ProofBits.Sc

open Idealize.ShloMosaic Idealize.ShloMosaic.StableHlo Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 2) (Elt F) ℕ UU ℕ

/-- A buffer of a held set, beside the state interpretation, pins the state's memory at it. -/
theorem held_read (c : Thread nD τ) (S₁ : Finset (DevRef τ sig)) (V₁ : Valuation τ sig (Elt F)) (s' : Phys nD τ sig (Elt F))
    {b : DevRef τ sig} (hb : b ∈ S₁) :
    iprop((held c S₁ V₁ : sProp 𝕄) ∗ SI s') ⊢ (⌜s'.mem.mem (c.1, b) = V₁ b⌝ : sProp 𝕄) := by
  have he : (held c S₁ V₁ : sProp 𝕄) ⊢ ((c.1, b) ↦{fullShare} V₁ b : sProp 𝕄) := by
    unfold held
    exact bigSep_elim (Φ := fun b : DevRef τ sig => ((c.1, b) ↦{fullShare} V₁ b : sProp 𝕄)) hb
  iintro ⟨Hh, HSI⟩
  ihave Hb := he $$ Hh
  icombine HSI Hb gives %h
  ipureintro
  exact funext fun i => h i (Finset.mem_univ i)

/-- A pure fact had for each member of a list is had for all of them. -/
theorem pure_forall_mem {ι : Type} {A : sProp 𝕄} (p : ι → Prop) :
    ∀ (l : List ι), (∀ r ∈ l, A ⊢ (⌜p r⌝ : sProp 𝕄)) → A ⊢ (⌜∀ r ∈ l, p r⌝ : sProp 𝕄)
  | [], _ => by iintro -; ipureintro; exact fun _ h => absurd h List.not_mem_nil
  | a :: l, h => by
    have h1 := h a List.mem_cons_self
    have h2 := pure_forall_mem p l fun r hr => h r (List.mem_cons_of_mem _ hr)
    refine (BIClass.and_intro h1 h2).trans ?_
    iintro ⟨%ha, %hl⟩
    ipureintro
    intro r hr
    rcases List.mem_cons.mp hr with rfl | hr
    · exact ha
    · exact hl r hr

/-- Every argument array is an unscoped buffer of the TensorCore. -/
theorem arg_mem_ucRefs : ∀ r ∈ argList, Proc.devRef (τ := τ) .tc r ∈ Pipeline.ucRefs τ sig := by
  intro r hr
  refine Finset.mem_filter.mpr ⟨devRef_mem_tcRefs r, ?_⟩
  simp only [argList, List.mem_cons, List.not_mem_nil, or_false] at hr
  rcases hr with rfl | rfl | rfl | rfl | rfl | rfl | rfl | rfl | rfl | rfl | rfl | rfl <;> decide

/-- What is read of a final state on device `d`: its memory holds the launch contents at every argument array. -/
def fq (m : (ℓ : Loc nD τ sig) → Buf (Elt F) ℓ) (d : Dev nD) (s' : Phys nD τ sig (Elt F)) : Prop :=
  ∀ r ∈ argList, s'.mem.mem (d, Proc.devRef .tc r) = m (d, Proc.devRef .tc r)

theorem hfin (m : (ℓ : Loc nD τ sig) → Buf (Elt F) ℓ) (d : Dev nD) (s' : Phys nD τ sig (Elt F)) :
    iprop(FIN m d ∗ SI s') ⊢ (⌜fq m d s'⌝ : sProp 𝕄) := by
  unfold FIN fq
  refine pure_forall_mem _ argList fun r hr => ?_
  iintro ⟨⟨%V₁, %hk, Hh⟩, HSI⟩
  ihave H := (held_read (SparseCore.T d) (Pipeline.ucRefs τ sig) V₁ s' (arg_mem_ucRefs r hr)) $$ [Hh HSI]
  · isplitl [Hh] <;> iassumption
  icases H with %h
  ipureintro
  exact h.trans (hk r hr)

end Cert.ProofBits.Main

end
-- ==== Proof.Bits.ScPay.lean ====
/-
  What the handshakes of the two SparseCore calls carry, and the subcore barrier's cells.

  Both calls run the same gather kernel on 2 SparseCores × 16 tiles. Tiles 0‥9 of a SparseCore each copy 1000 rows of the
  table's half into the SparseCore's shared scratch; all sixteen meet at the subcore barrier; afterwards every tile gathers
  rows out of the WHOLE shared scratch. So each writing tile splits its rows' full share into sixteen read shares and a
  remainder, and its arrival at tile j's barrier semaphore hands tile j the j-th read share of its rows: what a tile reads
  after the barrier it holds, as a read share of the whole scratch. At the task's end the read share and the remainder go
  back to the sequencer, whose buffers rejoin. Both calls meet at ONE barrier semaphore, so each barrier cell has two
  rounds, one per call; a tile's position on its own cell after round 0, and that every cell of its SparseCore has reached
  round 1, travel from call 0's end to call 1's start with the calls' results and operands.
-/
import proofs.«217078_g14027363189340_cont_week2b_886_24_alg».proof.Proof.Bits.ScCommon

noncomputable section

namespace Cert.ProofBits.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

/-! ## Places -/

abbrev tblLoc (d : Dev nD) : Loc nD τ sig := (SparseCore.T d).loc main_v9
abbrev idxLoc0 (d : Dev nD) : Loc nD τ sig := (SparseCore.T d).loc main_v25
abbrev idxLoc1 (d : Dev nD) : Loc nD τ sig := (SparseCore.T d).loc main_v37
abbrev outLoc0 (d : Dev nD) : Loc nD τ sig := (SparseCore.T d).loc main_v26
abbrev outLoc1 (d : Dev nD) : Loc nD τ sig := (SparseCore.T d).loc main_v38
/-- SparseCore `c`'s shared scratch of call 0 and of call 1, as every tile of it addresses it. -/
abbrev sh0Loc (d : Dev nD) (c : Fin τ.nSC) : Loc nD τ sig := (d, ⟨.shared, ⟨0, by decide⟩, c⟩)
abbrev sh1Loc (d : Dev nD) (c : Fin τ.nSC) : Loc nD τ sig := (d, ⟨.shared, ⟨1, by decide⟩, c⟩)

theorem hdivT : 2 ∣ S20000x128.size 0 := ⟨10000, rfl⟩
theorem hdivJ : 2 ∣ S327680.size 0 := ⟨163840, rfl⟩
theorem hdivO : 2 ∣ S327680x128.size 0 := ⟨163840, rfl⟩
/-- The halves along axis 0: SparseCore `c`'s rows of the table, its words of the index array, its rows of the output. -/
abbrev halfT (c : Fin 2) : Finset S20000x128.Idx := (Rect.part (s := S20000x128) (a₀ := 0) hdivT c).set
abbrev halfJ (c : Fin 2) : Finset S327680.Idx := (Rect.part (s := S327680) (a₀ := 0) hdivJ c).set
abbrev halfO (c : Fin 2) : Finset S327680x128.Idx := (Rect.part (s := S327680x128) (a₀ := 0) hdivO c).set

/-- Every index word held on `M` names a row of SparseCore `c`'s half of the table. -/
def InRange (c : ℕ) (M : Finset S327680.Idx) (jx : S327680.Idx → BitVec 32) : Prop :=
  ∀ r ∈ M, 10000 * c ≤ (jx r).toNat ∧ (jx r).toNat < 10000 * c + 10000

theorem h10 : 10 ∣ S10000x128.size 0 := ⟨1000, rfl⟩
/-- The rows of the shared scratch tile `n` (of the ten that write) fills. -/
abbrev shRowSet (n : Fin 10) : Finset S10000x128.Idx := (Rect.part (s := S10000x128) (a₀ := 0) h10 n).set

/-- The read share of the shared scratch tile `j` gathers under, and what a writing tile keeps aside. -/
abbrev rdShare (j : ℕ) : PosShare TreeShare := Transfers.shareTokN fullShare j
abbrev restShare : PosShare TreeShare := Transfers.shareDrop fullShare 16

variable [FloatOps F]

/-! ## The barrier cells -/

/-- Tile `(c, j)`'s barrier semaphore of device `d`. -/
abbrev bcell (d : Dev nD) (c : Fin τ.nSC) (j : Fin τ.nSub) : GSem nD τ sig := (V d c j, .reg sc_bar0)

omit [FloatOps F] in
theorem sc_bar0_ne_go : (sc_bar0 : Sem sig) ≠ sc_go := by decide

def isBar (g : GSem nD τ sig) : Bool :=
  match g with
  | ((_, .scVector _ _), sm) => decide (sm = .reg sc_bar0)
  | _ => false

omit [FloatOps F] in
@[simp] theorem isBar_bcell (d : Dev nD) (c : Fin τ.nSC) (j : Fin τ.nSub) : isBar (bcell d c j) = true := by simp [isBar]

/-- What tile `n`'s arrival at tile `j`'s barrier semaphore hands over in round `r`: a writing tile (`n < 10`) the `j`-th
    read share of its rows of the call's shared scratch; the others nothing. -/
def bPay (g : GSem nD τ sig) (r n : ℕ) : sProp 𝕄 :=
  match g with
  | ((d, .scVector c j), _) =>
    if hn : n < 10 then
      (if r = 0 then iprop(∃ f, sh0Loc d c ↦[shRowSet ⟨n, hn⟩]{rdShare j.val} f)
        else iprop(∃ f, sh1Loc d c ↦[shRowSet ⟨n, hn⟩]{rdShare j.val} f))
    else iprop(emp)
  | _ => iprop(emp)

/-- The barrier cells' schedule: two rounds on each (one per call), of one unit duty per tile of the SparseCore (named by
    its number). -/
def bRd : Rounds.Schedule (GSem nD τ sig) ℕ 𝕄 where
  duties g r := if isBar g ∧ r < 2 then (Finset.univ : Finset (Fin τ.nSub)).image Fin.val else ∅
  amount _ _ _ := 1
  payload g r n := bPay g r n
  amount_pos _ _ _ _ := Nat.one_pos

instance bRd_payload_storable (g : GSem nD τ sig) (r n : ℕ) : BI.Storable (upEmb : UEmb _ 𝕄) ((bRd (F := F)).payload g r n) := by
  show BI.Storable upEmb (bPay g r n)
  unfold bPay
  rcases g with ⟨⟨d, _ | c | ⟨c, i⟩⟩, sm⟩ <;> dsimp only <;> (repeat' split) <;> infer_instance

omit [FloatOps F] in
theorem bRd_duties (d : Dev nD) (c : Fin τ.nSC) (j : Fin τ.nSub) {r : ℕ} (hr : r < 2) :
    (bRd (F := F)).duties (bcell d c j) r = (Finset.univ : Finset (Fin τ.nSub)).image Fin.val := by
  simp [bRd, isBar, hr]
omit [FloatOps F] in
theorem bRd_mem (d : Dev nD) (c : Fin τ.nSC) (j i : Fin τ.nSub) {r : ℕ} (hr : r < 2) : i.val ∈ (bRd (F := F)).duties (bcell d c j) r := by
  rw [bRd_duties d c j hr]; exact Finset.mem_image_of_mem _ (Finset.mem_univ i)
omit [FloatOps F] in
theorem bRd_expect (d : Dev nD) (c : Fin τ.nSC) (j : Fin τ.nSub) {r : ℕ} (hr : r < 2) : 0 + 16 = (bRd (F := F)).expect (bcell d c j) r := by
  unfold Rounds.Schedule.expect; rw [bRd_duties d c j hr]
  show 0 + 16 = ∑ x ∈ (Finset.univ : Finset (Fin 16)).image Fin.val, 1
  rw [Finset.sum_const, Finset.card_image_of_injective _ Fin.val_injective]; rfl

/-- After call 0's barrier: every tile of SparseCore `c` stands at the origin of round 1 of its own cell, and every cell
    has reached round 1. Call 0 brings it back, call 1 takes it. -/
def barNext (d : Dev nD) (c : Fin τ.nSC) : sProp 𝕄 :=
  bigSep Finset.univ fun j : Fin τ.nSub => iprop(atPos EB (bcell d c j) 1 ∅ 0 ∗ reached EB (bcell d c j) 1)

instance barNext_storable (d : Dev nD) (c : Fin τ.nSC) : BI.Storable (upEmb : UEmb _ 𝕄) (barNext (F := F) d c) := by
  unfold barNext; infer_instance

/-! ## What a tile owes for a call's barrier, and its kit -/

/-- What the launch has a tile owe for call `q`'s barrier: a unit on every tile's cell of its SparseCore, at the call's index. -/
def oxV (q : Fin 2) (d : Dev nD) (c : Fin τ.nSC) : CellTallies nD τ sig (HIx 2) := ∑ j : Fin (grid1.bound 1), tallyAt (bcell d c (j.castLE hsub1)) (some q) 1

omit [FloatOps F] in
theorem oxV_none (q : Fin 2) (d : Dev nD) (c : Fin τ.nSC) (g : GSem nD τ sig) : oxV q d c g none = 0 := by
  unfold oxV
  rw [Finset.sum_apply, Finsupp.finsetSum_apply]
  exact Finset.sum_eq_zero fun j _ => by rw [tallyAt_apply, if_neg (fun e => nomatch e.2)]

omit [FloatOps F] in
theorem oxV_apply_pos {q : Fin 2} {d : Dev nD} {c : Fin τ.nSC} {g : GSem nD τ sig} {ι : HIx 2} (h : 0 < oxV q d c g ι) :
    ∃ j : Fin (grid1.bound 1), g = bcell d c (j.castLE hsub1) ∧ ι = some q := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-- What only call 0's kit holds: every cell of the SparseCore has reached round 0, the tile's own position at its origin. -/
def kitFirst (d : Dev nD) (c : Fin τ.nSC) (i : Fin τ.nSub) : sProp 𝕄 :=
  iprop((bigSep Finset.univ fun j : Fin (grid1.bound 1) => reached EB (bcell d c (j.castLE hsub1)) 0) ∗ atPos EB (bcell d c i) 0 ∅ 0)

/-- The tile's barrier kit for call `q`: every cell invariant of its SparseCore, its duty token in every tile's round `q`, the
    credit for the sixteen units of its own round; at call 0 also `kitFirst` (call 1's comes with its operands). -/
def kit (q : Fin 2) (d : Dev nD) (c : Fin τ.nSC) (i : Fin τ.nSub) : sProp 𝕄 :=
  iprop((∃ κ : GSem nD τ sig → ℕ, bigSep Finset.univ fun j : Fin (grid1.bound 1) =>
      cellInv EB (bRd (F := F)) (κ (bcell d c (j.castLE hsub1))) (bcell d c (j.castLE hsub1)))
    ∗ (bigSep Finset.univ fun j : Fin (grid1.bound 1) => dutyTok EB (bcell d c (j.castLE hsub1)) q.val i.val)
    ∗ (if q.val = 0 then kitFirst d c i else iprop(emp))
    ∗ cred (tallyAt (bcell d c i) (some q) (grid1.bound 1)))

omit [FloatOps F] in
theorem nCore0 : (K (F := F)).nCore 0 = grid1.bound 0 := rfl
omit [FloatOps F] in
theorem nCore1 : (K (F := F)).nCore 1 = grid3.bound 0 := rfl
omit [FloatOps F] in
theorem nSub0 : (K (F := F)).nSub 0 = grid1.bound 1 := rfl
omit [FloatOps F] in
theorem nSub1 : (K (F := F)).nSub 1 = grid3.bound 1 := rfl

/-! ## Call 0: the views the kernel slices, and what a tile is handed and hands back -/

section Call0

local notation "tV" => (Memref.whole Cert.Kernel.main_v9_scv : Memref Cert.Kernel.sig Kind.scVector Space.hbm Cert.Kernel.S20000x128 EltTy.f32)
local notation "jV" => (Memref.whole Cert.Kernel.main_v25_scv : Memref Cert.Kernel.sig Kind.scVector Space.hbm Cert.Kernel.S327680 EltTy.i32)
local notation "oV" => (Memref.whole Cert.Kernel.main_v26_scv : Memref Cert.Kernel.sig Kind.scVector Space.hbm Cert.Kernel.S327680x128 EltTy.f32)
local notation "shV" => (Memref.whole Cert.Kernel.cc1_scratch0 : Memref Cert.Kernel.sig Kind.scVector Space.shared Cert.Kernel.S10000x128 EltTy.f32)

abbrev cV0 (L : grid1.Coords) : Fin τ.nSC := (L 0).castLE hcore1
abbrev jV0 (L : grid1.Coords) : Fin τ.nSub := (L 1).castLE hsub1

def coords0 (c : Fin (grid1.bound 0)) (s : Fin (grid1.bound 1)) : grid1.Coords :=
  fun | 0 => c | 1 => s | ⟨_ + 2, h⟩ => absurd h (Nat.not_lt.2 (Nat.le_add_left _ _))

/-- The tile's 1000 rows of the table and of the shared scratch (a writing tile's), its five blocks of 2048 index words,
    its eighty blocks of 128 output rows: each as the kernel slices it. -/
abbrev tblM0 (L : grid1.Coords) (h : k1_cond1 L = 1#1) : Memref sig .scVector .hbm S1000x128 .f32 :=
  (tV).slice (Rect.unit (s := S20000x128) (k1_off2 L) S1000x128.size (k1_off2_inb L h)) (fun _ => rfl)
abbrev shM0 (L : grid1.Coords) (h : k1_cond1 L = 1#1) : Memref sig .scVector .shared S1000x128 .f32 :=
  (shV).slice (Rect.unit (s := S10000x128) (k1_off1 L) S1000x128.size (k1_off1_inb L h)) (fun _ => rfl)
abbrev idxM0 (L : grid1.Coords) (t1 : Fin k1_t1_loop.trips) : Memref sig .scVector .hbm S2048 .i32 :=
  (jV).slice (Rect.unit (s := S327680) (k1_off3 L t1) S2048.size (k1_off3_inb L t1)) (fun _ => rfl)
abbrev outAM0 (L : grid1.Coords) (t1 : Fin k1_t1_loop.trips) (t3 : Fin k1_t3_loop.trips) : Memref sig .scVector .hbm S128x128 .f32 :=
  (oV).slice (Rect.unit (s := S327680x128) (k1_off9 L t1 t3) S128x128.size (k1_off9_inb L t1 t3)) (fun _ => rfl)
abbrev outBM0 (L : grid1.Coords) (t1 : Fin k1_t1_loop.trips) (t3 : Fin k1_t3_loop.trips) : Memref sig .scVector .hbm S128x128 .f32 :=
  (oV).slice (Rect.unit (s := S327680x128) (k1_off10 L t1 t3) S128x128.size (k1_off10_inb L t1 t3)) (fun _ => rfl)

abbrev tblSet0 (L : grid1.Coords) (h : k1_cond1 L = 1#1) : Finset S20000x128.Idx := (tblM0 L h).view.set
abbrev shSet0 (L : grid1.Coords) (h : k1_cond1 L = 1#1) : Finset S10000x128.Idx := (shM0 L h).view.set
abbrev idxSet0 (L : grid1.Coords) (t1 : Fin k1_t1_loop.trips) : Finset S327680.Idx := (idxM0 L t1).view.set
abbrev outASet0 (L : grid1.Coords) (t1 : Fin k1_t1_loop.trips) (t3 : Fin k1_t3_loop.trips) : Finset S327680x128.Idx := (outAM0 L t1 t3).view.set
abbrev outBSet0 (L : grid1.Coords) (t1 : Fin k1_t1_loop.trips) (t3 : Fin k1_t3_loop.trips) : Finset S327680x128.Idx := (outBM0 L t1 t3).view.set

/-- The tile's index words, all naming rows of its SparseCore's half of the table. -/
def idxPiece0 (d : Dev nD) (L : grid1.Coords) : sProp 𝕄 :=
  iprop(∃ jx : Buf (Elt F) (idxLoc0 d), ⌜∀ t1, InRange (L 0).val (idxSet0 L t1) jx⌝
    ∗ bigSep Finset.univ fun t1 : Fin k1_t1_loop.trips => idxLoc0 d ↦[idxSet0 L t1]{fullShare} jx)
/-- The tile's output rows, block by block, at whatever they hold. -/
def outPiece0 (d : Dev nD) (L : grid1.Coords) : sProp 𝕄 :=
  bigSep Finset.univ fun t1 : Fin k1_t1_loop.trips => bigSep Finset.univ fun t3 : Fin k1_t3_loop.trips =>
    iprop((∃ f, outLoc0 d ↦[outASet0 L t1 t3]{fullShare} f) ∗ ∃ f, outLoc0 d ↦[outBSet0 L t1 t3]{fullShare} f)
/-- A writing tile's rows of the table. -/
def tblPiece0 (d : Dev nD) (L : grid1.Coords) : sProp 𝕄 :=
  if h : k1_cond1 L = 1#1 then iprop(∃ tb, tblLoc d ↦[tblSet0 L h]{fullShare} tb) else iprop(emp)
/-- A writing tile's rows of the shared scratch, at share `q`. -/
def shPiece0 (q : PosShare TreeShare) (d : Dev nD) (L : grid1.Coords) : sProp 𝕄 :=
  if h : k1_cond1 L = 1#1 then iprop(∃ f, sh0Loc d (cV0 L) ↦[shSet0 L h]{q} f) else iprop(emp)

instance idxPiece0_storable (d : Dev nD) (L : grid1.Coords) : BI.Storable (upEmb : UEmb _ 𝕄) (idxPiece0 (F := F) d L) := by
  unfold idxPiece0; infer_instance
instance outPiece0_storable (d : Dev nD) (L : grid1.Coords) : BI.Storable (upEmb : UEmb _ 𝕄) (outPiece0 (F := F) d L) := by
  unfold outPiece0; infer_instance
instance tblPiece0_storable (d : Dev nD) (L : grid1.Coords) : BI.Storable (upEmb : UEmb _ 𝕄) (tblPiece0 (F := F) d L) := by
  unfold tblPiece0; split <;> infer_instance
instance shPiece0_storable (q : PosShare TreeShare) (d : Dev nD) (L : grid1.Coords) : BI.Storable (upEmb : UEmb _ 𝕄) (shPiece0 (F := F) q d L) := by
  unfold shPiece0; split <;> infer_instance

/-- What the sequencer's go hands the tile: its index words, its output rows, and — a writing tile — its rows of the table
    and of the shared scratch. -/
def go0 (d : Dev nD) (L : grid1.Coords) : sProp 𝕄 :=
  iprop(idxPiece0 d L ∗ outPiece0 d L ∗ tblPiece0 d L ∗ shPiece0 fullShare d L)
/-- What its taskDone hands back: the same, the shared scratch now as the tile's read share of the whole of it and — a
    writing tile — what its rows' share kept aside; with them its position on its barrier cell after the round, and that the cell has reached round 1. -/
def td0 (d : Dev nD) (L : grid1.Coords) : sProp 𝕄 :=
  iprop(idxPiece0 d L ∗ outPiece0 d L ∗ tblPiece0 d L ∗ (∃ g, sh0Loc d (cV0 L) ↦{rdShare (L 1).val} g) ∗ shPiece0 restShare d L
    ∗ atPos EB (bcell d (cV0 L) (jV0 L)) 1 ∅ 0 ∗ reached EB (bcell d (cV0 L) (jV0 L)) 1)

instance go0_storable (d : Dev nD) (L : grid1.Coords) : BI.Storable (upEmb : UEmb _ 𝕄) (go0 (F := F) d L) := by
  unfold go0; infer_instance
instance td0_storable (d : Dev nD) (L : grid1.Coords) : BI.Storable (upEmb : UEmb _ 𝕄) (td0 (F := F) d L) := by
  unfold td0; infer_instance

/-- What the TensorCore hands SparseCore `c`: its half of the table, of the index array and of the output, the index words
    of the half all naming rows of the table's half. -/
def stCore0 (d : Dev nD) (c : Fin 2) : sProp 𝕄 :=
  iprop(∃ tb : Buf (Elt F) (tblLoc d), ∃ jx : Buf (Elt F) (idxLoc0 d), ∃ ob : Buf (Elt F) (outLoc0 d),
    (tblLoc d ↦[halfT c]{fullShare} tb) ∗ (idxLoc0 d ↦[halfJ c]{fullShare} jx) ∗ (outLoc0 d ↦[halfO c]{fullShare} ob)
    ∗ ⌜InRange c.val (halfJ c) jx⌝)

set_option synthInstance.maxHeartbeats 400000 in
instance stCore0_storable (d : Dev nD) (c : Fin 2) : BI.Storable (upEmb : UEmb _ 𝕄) (stCore0 (F := F) d c) := by
  unfold stCore0; infer_instance

end Call0

/-! ## Call 1: the views the kernel slices, and what a tile is handed and hands back -/

section Call1

local notation "tV" => (Memref.whole Cert.Kernel.main_v9_scv : Memref Cert.Kernel.sig Kind.scVector Space.hbm Cert.Kernel.S20000x128 EltTy.f32)
local notation "jV" => (Memref.whole Cert.Kernel.main_v37_scv : Memref Cert.Kernel.sig Kind.scVector Space.hbm Cert.Kernel.S327680 EltTy.i32)
local notation "oV" => (Memref.whole Cert.Kernel.main_v38_scv : Memref Cert.Kernel.sig Kind.scVector Space.hbm Cert.Kernel.S327680x128 EltTy.f32)
local notation "shV" => (Memref.whole Cert.Kernel.cc3_scratch0 : Memref Cert.Kernel.sig Kind.scVector Space.shared Cert.Kernel.S10000x128 EltTy.f32)

abbrev cV1 (L : grid3.Coords) : Fin τ.nSC := (L 0).castLE hcore3
abbrev jV1 (L : grid3.Coords) : Fin τ.nSub := (L 1).castLE hsub3

def coords1 (c : Fin (grid3.bound 0)) (s : Fin (grid3.bound 1)) : grid3.Coords :=
  fun | 0 => c | 1 => s | ⟨_ + 2, h⟩ => absurd h (Nat.not_lt.2 (Nat.le_add_left _ _))

/-- The tile's 1000 rows of the table and of the shared scratch (a writing tile's), its five blocks of 2048 index words,
    its eighty blocks of 128 output rows: each as the kernel slices it. -/
abbrev tblM1 (L : grid3.Coords) (h : k3_cond1 L = 1#1) : Memref sig .scVector .hbm S1000x128 .f32 :=
  (tV).slice (Rect.unit (s := S20000x128) (k3_off2 L) S1000x128.size (k3_off2_inb L h)) (fun _ => rfl)
abbrev shM1 (L : grid3.Coords) (h : k3_cond1 L = 1#1) : Memref sig .scVector .shared S1000x128 .f32 :=
  (shV).slice (Rect.unit (s := S10000x128) (k3_off1 L) S1000x128.size (k3_off1_inb L h)) (fun _ => rfl)
abbrev idxM1 (L : grid3.Coords) (t1 : Fin k3_t1_loop.trips) : Memref sig .scVector .hbm S2048 .i32 :=
  (jV).slice (Rect.unit (s := S327680) (k3_off3 L t1) S2048.size (k3_off3_inb L t1)) (fun _ => rfl)
abbrev outAM1 (L : grid3.Coords) (t1 : Fin k3_t1_loop.trips) (t3 : Fin k3_t3_loop.trips) : Memref sig .scVector .hbm S128x128 .f32 :=
  (oV).slice (Rect.unit (s := S327680x128) (k3_off9 L t1 t3) S128x128.size (k3_off9_inb L t1 t3)) (fun _ => rfl)
abbrev outBM1 (L : grid3.Coords) (t1 : Fin k3_t1_loop.trips) (t3 : Fin k3_t3_loop.trips) : Memref sig .scVector .hbm S128x128 .f32 :=
  (oV).slice (Rect.unit (s := S327680x128) (k3_off10 L t1 t3) S128x128.size (k3_off10_inb L t1 t3)) (fun _ => rfl)

abbrev tblSet1 (L : grid3.Coords) (h : k3_cond1 L = 1#1) : Finset S20000x128.Idx := (tblM1 L h).view.set
abbrev shSet1 (L : grid3.Coords) (h : k3_cond1 L = 1#1) : Finset S10000x128.Idx := (shM1 L h).view.set
abbrev idxSet1 (L : grid3.Coords) (t1 : Fin k3_t1_loop.trips) : Finset S327680.Idx := (idxM1 L t1).view.set
abbrev outASet1 (L : grid3.Coords) (t1 : Fin k3_t1_loop.trips) (t3 : Fin k3_t3_loop.trips) : Finset S327680x128.Idx := (outAM1 L t1 t3).view.set
abbrev outBSet1 (L : grid3.Coords) (t1 : Fin k3_t1_loop.trips) (t3 : Fin k3_t3_loop.trips) : Finset S327680x128.Idx := (outBM1 L t1 t3).view.set

/-- The tile's index words, all naming rows of its SparseCore's half of the table. -/
def idxPiece1 (d : Dev nD) (L : grid3.Coords) : sProp 𝕄 :=
  iprop(∃ jx : Buf (Elt F) (idxLoc1 d), ⌜∀ t1, InRange (L 0).val (idxSet1 L t1) jx⌝
    ∗ bigSep Finset.univ fun t1 : Fin k3_t1_loop.trips => idxLoc1 d ↦[idxSet1 L t1]{fullShare} jx)
/-- The tile's output rows, block by block, at whatever they hold. -/
def outPiece1 (d : Dev nD) (L : grid3.Coords) : sProp 𝕄 :=
  bigSep Finset.univ fun t1 : Fin k3_t1_loop.trips => bigSep Finset.univ fun t3 : Fin k3_t3_loop.trips =>
    iprop((∃ f, outLoc1 d ↦[outASet1 L t1 t3]{fullShare} f) ∗ ∃ f, outLoc1 d ↦[outBSet1 L t1 t3]{fullShare} f)
/-- A writing tile's rows of the table. -/
def tblPiece1 (d : Dev nD) (L : grid3.Coords) : sProp 𝕄 :=
  if h : k3_cond1 L = 1#1 then iprop(∃ tb, tblLoc d ↦[tblSet1 L h]{fullShare} tb) else iprop(emp)
/-- A writing tile's rows of the shared scratch, at share `q`. -/
def shPiece1 (q : PosShare TreeShare) (d : Dev nD) (L : grid3.Coords) : sProp 𝕄 :=
  if h : k3_cond1 L = 1#1 then iprop(∃ f, sh1Loc d (cV1 L) ↦[shSet1 L h]{q} f) else iprop(emp)

instance idxPiece1_storable (d : Dev nD) (L : grid3.Coords) : BI.Storable (upEmb : UEmb _ 𝕄) (idxPiece1 (F := F) d L) := by
  unfold idxPiece1; infer_instance
instance outPiece1_storable (d : Dev nD) (L : grid3.Coords) : BI.Storable (upEmb : UEmb _ 𝕄) (outPiece1 (F := F) d L) := by
  unfold outPiece1; infer_instance
instance tblPiece1_storable (d : Dev nD) (L : grid3.Coords) : BI.Storable (upEmb : UEmb _ 𝕄) (tblPiece1 (F := F) d L) := by
  unfold tblPiece1; split <;> infer_instance
instance shPiece1_storable (q : PosShare TreeShare) (d : Dev nD) (L : grid3.Coords) : BI.Storable (upEmb : UEmb _ 𝕄) (shPiece1 (F := F) q d L) := by
  unfold shPiece1; split <;> infer_instance

/-- What the sequencer's go hands the tile: its index words, its output rows, and — a writing tile — its rows of the table
    and of the shared scratch; with them its position on its barrier cell and that its SparseCore's cells have reached round 1. -/
def go1 (d : Dev nD) (L : grid3.Coords) : sProp 𝕄 :=
  iprop(idxPiece1 d L ∗ outPiece1 d L ∗ tblPiece1 d L ∗ shPiece1 fullShare d L
    ∗ atPos EB (bcell d (cV1 L) (jV1 L)) 1 ∅ 0
    ∗ bigSep Finset.univ fun j : Fin (grid3.bound 1) => reached EB (bcell d (cV1 L) (j.castLE hsub3)) 1)
/-- What its taskDone hands back: the same, the shared scratch now as the tile's read share of the whole of it and — a
    writing tile — what its rows' share kept aside. -/
def td1 (d : Dev nD) (L : grid3.Coords) : sProp 𝕄 :=
  iprop(idxPiece1 d L ∗ outPiece1 d L ∗ tblPiece1 d L ∗ (∃ g, sh1Loc d (cV1 L) ↦{rdShare (L 1).val} g) ∗ shPiece1 restShare d L)

instance go1_storable (d : Dev nD) (L : grid3.Coords) : BI.Storable (upEmb : UEmb _ 𝕄) (go1 (F := F) d L) := by
  unfold go1; infer_instance
instance td1_storable (d : Dev nD) (L : grid3.Coords) : BI.Storable (upEmb : UEmb _ 𝕄) (td1 (F := F) d L) := by
  unfold td1; infer_instance

/-- What the TensorCore hands SparseCore `c`: its half of the table, of the index array and of the output, the index words
    of the half all naming rows of the table's half. -/
def stCore1 (d : Dev nD) (c : Fin 2) : sProp 𝕄 :=
  iprop(∃ tb : Buf (Elt F) (tblLoc d), ∃ jx : Buf (Elt F) (idxLoc1 d), ∃ ob : Buf (Elt F) (outLoc1 d),
    (tblLoc d ↦[halfT c]{fullShare} tb) ∗ (idxLoc1 d ↦[halfJ c]{fullShare} jx) ∗ (outLoc1 d ↦[halfO c]{fullShare} ob)
    ∗ ⌜InRange c.val (halfJ c) jx⌝)

set_option synthInstance.maxHeartbeats 400000 in
instance stCore1_storable (d : Dev nD) (c : Fin 2) : BI.Storable (upEmb : UEmb _ 𝕄) (stCore1 (F := F) d c) := by
  unfold stCore1; infer_instance

end Call1

/-! ## What the handshakes carry -/

/-- Call `q` hands SparseCore `c` its halves (call 1 also what call 0's barrier left); each task its slices; each task's proof
    consumes its barrier kit; each tile owes its arrivals. -/
def P : (K (F := F)).Pay (nD := nD) (Val := Elt F) (Name := ℕ) (U := UU) where
  st := fun q d c => match q with
    | 0 => stCore0 d (Fin.cast (nCore_eq 0) c)
    | 1 => iprop(stCore1 d (Fin.cast (nCore_eq 1) c) ∗ barNext d ((K (F := F)).core 1 c))
  dn := fun q d c => match q with
    | 0 => iprop(stCore0 d (Fin.cast (nCore_eq 0) c) ∗ barNext d ((K (F := F)).core 0 c))
    | 1 => stCore1 d (Fin.cast (nCore_eq 1) c)
  go := fun q d c i => match q with
    | 0 => go0 d (coords0 (Fin.cast nCore0 c) (Fin.cast nSub0 i))
    | 1 => go1 d (coords1 (Fin.cast nCore1 c) (Fin.cast nSub1 i))
  td := fun q d c i => match q with
    | 0 => td0 d (coords0 (Fin.cast nCore0 c) (Fin.cast nSub0 i))
    | 1 => td1 d (coords1 (Fin.cast nCore1 c) (Fin.cast nSub1 i))
  x := fun q thr => match thr with
    | (d, .scVector c i) => kit q d c i
    | _ => iprop(emp)
  ox := fun q thr => match thr with
    | (d, .scVector c _) => oxV q d c
    | _ => 0
  ox_band := by
    intro q thr g ι h
    rcases thr with ⟨d, _ | c | ⟨c, i⟩⟩
    · exact absurd h (lt_irrefl 0)
    · exact absurd h (lt_irrefl 0)
    · obtain ⟨j, rfl, rfl⟩ := oxV_apply_pos h
      rw [(K (F := F)).lev_V_reg d c (j.castLE hsub1) (show (sc_bar0 : Sem sig) ≠ (K (F := F)).go from sc_bar0_ne_go)]; exact ⟨le_rfl, by omega⟩
  ox_tc := fun _ _ => rfl
  ox_sc := fun _ _ _ h => absurd rfl h
  ox_vc := by
    intro q d c i _
    refine ⟨?_, ?_, ?_⟩
    · fin_cases q <;> rfl
    · rw [nCore_eq]; exact c.isLt
    · rw [nSub_eq]; exact i.isLt

instance P_storable : (P (F := F)).IsStorable where
  st q d c := match q with
    | 0 => (inferInstance : BI.Storable (upEmb : UEmb _ 𝕄) (stCore0 d (Fin.cast (nCore_eq 0) c)))
    | 1 => (inferInstance : BI.Storable (upEmb : UEmb _ 𝕄) iprop(stCore1 d (Fin.cast (nCore_eq 1) c) ∗ barNext d ((K (F := F)).core 1 c)))
  dn q d c := match q with
    | 0 => (inferInstance : BI.Storable (upEmb : UEmb _ 𝕄) iprop(stCore0 d (Fin.cast (nCore_eq 0) c) ∗ barNext d ((K (F := F)).core 0 c)))
    | 1 => (inferInstance : BI.Storable (upEmb : UEmb _ 𝕄) (stCore1 d (Fin.cast (nCore_eq 1) c)))
  go q d c i := match q with
    | 0 => (inferInstance : BI.Storable (upEmb : UEmb _ 𝕄) (go0 d (coords0 (Fin.cast nCore0 c) (Fin.cast nSub0 i))))
    | 1 => (inferInstance : BI.Storable (upEmb : UEmb _ 𝕄) (go1 d (coords1 (Fin.cast nCore1 c) (Fin.cast nSub1 i))))
  td q d c i := match q with
    | 0 => (inferInstance : BI.Storable (upEmb : UEmb _ 𝕄) (td0 d (coords0 (Fin.cast nCore0 c) (Fin.cast nSub0 i))))
    | 1 => (inferInstance : BI.Storable (upEmb : UEmb _ 𝕄) (td1 d (coords1 (Fin.cast nCore1 c) (Fin.cast nSub1 i))))

end Cert.ProofBits.Sc
-- ==== Proof.Bits.TcRun.lean ====
/-
  The run of the whole program — the TensorCore's @main beside the two SparseCores' sequencers and thirty-two tiles —
  from the launch theorem for SparseCore programs: every weakly fair execution ends, nothing faulting, with the
  twelve argument arrays as they began. Taken as given here: one tile's obligation and the split of a SparseCore's
  operands for each gather, the launch element of the ghost state, @main's segments' steps and the index lists' ranges.
-/
import proofs.«217078_g14027363189340_cont_week2b_886_24_alg».proof.Proof.Bits.TcFinal
import proofs.«217078_g14027363189340_cont_week2b_886_24_alg».proof.Proof.Bits.ScPay

noncomputable section

namespace Cert.ProofBits.Main

open Cert.Kernel Cert.Kernel.Gen Cert.ProofBits.Sc

open Idealize.ShloMosaic Idealize.ShloMosaic.StableHlo Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

/-- The twelve argument arrays end as they began, on every device. -/
def QC (m : (ℓ : Loc nD τ sig) → Buf (Elt F) ℓ) : PUnit × MemSt nD τ sig (Elt F) → Prop := fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)

theorem QC_of_fq (m : (ℓ : Loc nD τ sig) → Buf (Elt F) ℓ) (s' : Phys nD τ sig (Elt F)) (h : ∀ d, fq m d s') : QC m (⟨⟩, s'.mem) :=
  fun c => ⟨h c main_arg0 (by decide), h c main_arg1 (by decide), h c main_arg2 (by decide), h c main_arg3 (by decide),
    h c main_arg4 (by decide), h c main_arg5 (by decide), h c main_arg6 (by decide), h c main_arg7 (by decide),
    h c main_arg8 (by decide), h c main_arg9 (by decide), h c main_arg10 (by decide), h c main_arg11 (by decide)⟩

/-- The program's run, from its parts. -/
theorem run_main_of [∀ e, Nonempty (Elt F e)] (m : (ℓ : Loc nD τ sig) → Buf (Elt F) ℓ) (ρ : Dev nD → PrngReg)
    (htile0 : (K (F := F)).TileObl (D (F := F)) 𝒱 (P (F := F)) v₀ 0) (htile1 : (K (F := F)).TileObl (D (F := F)) 𝒱 (P (F := F)) v₀ 1)
    (hvec0 : (K (F := F)).VecSplit (P (F := F)) 0) (hvec1 : (K (F := F)).VecSplit (P (F := F)) 1)
    (G0 G1 G2 X1 : Dev nD → sProp 𝕄)
    (ok0 : (Proc.devRef (τ := τ) .tc main_v25).ty.Contents (Elt F) → Prop)
    (ok1 : (Proc.devRef (τ := τ) .tc main_v37).ty.Contents (Elt F) → Prop)
    (hR0 : RegionStep (P (F := F)) 0 0 main_v8 G0) (hR1 : RegionStep (P (F := F)) 1 1 main_v28 G1) (hR2 : RegionStep (P (F := F)) 2 2 main_v40 G2)
    (hC0 : CallStep (P (F := F)) 0 main_v25 [main_v9, main_v25, main_v26] (fun _ => iprop(emp)) X1 ok0)
    (hC1 : CallStep (P (F := F)) 1 main_v37 [main_v9, main_v37, main_v38] X1 (fun _ => iprop(emp)) ok1)
    (hI0 : ∀ (d : Dev nD) (V₁ : Valuation τ sig (Elt F)), V₁ (Proc.devRef .tc main_arg3) = m (d, Proc.devRef .tc main_arg3) →
      ok0 (after opsB V₁ (Proc.devRef .tc main_v25)))
    (hI1 : ∀ (d : Dev nD) (V₁ W : Valuation τ sig (Elt F)), V₁ (Proc.devRef .tc main_arg3) = m (d, Proc.devRef .tc main_arg3) →
      V₁ (Proc.devRef .tc main_v10) = after opsB W (Proc.devRef .tc main_v10) → ok1 (after opsD V₁ (Proc.devRef .tc main_v37)))
    (u₀ : UU)
    (hu₀ : iprop(ownU u₀ ∗ (P (F := F)).oxCred ∗ (K (F := F)).freeSems0)
      ⊢ |={Set.univ}=> iprop(BI.own (EH (initOf (K (F := F)).hsCells (K (F := F)).hsToks)) ∗ (bigSep Finset.univ fun d : Dev nD => iprop(G0 d ∗ G1 d ∗ G2 d))
        ∗ bigSep Finset.univ fun thr : Thread nD τ => bigSep Finset.univ fun q : Fin 2 => (P (F := F)).x q thr)) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P (F := F)) facts v₀
    (fun q hq => match q with | 0 => nomatch hq | 1 => nomatch hq)
    (fun q _ => match q with | 0 => htile0 | 1 => htile1)
    (fun q _ => match q with | 0 => hvec0 | 1 => hvec1)
    m ρ main (fun d => iprop(G0 d ∗ G1 d ∗ G2 d)) (FIN m) u₀ hu₀
    (fun κ d => hmain_of (P (F := F)) m ρ G0 G1 G2 X1 ok0 ok1 hR0 hR1 hR2 hC0 hC1 hI0 hI1 κ d)
    (fq m) (hfin m) (QC m) (QC_of_fq m)

end Cert.ProofBits.Main

end
-- ==== Proof.Bits.ScCall.lean ====
/-
  A SparseCore call on the TensorCore's side. The node table, the index list and the gathered rows' array are taken
  out of the unscoped buffers the TensorCore holds; each is cut along its rows into the two halves the two SparseCores
  work on — the first half of the index list names rows of the first half of the table, the second half rows of the
  second — and handed over with the start signals; the done signals bring the halves back, which rejoin into whole
  arrays at contents not named; and these go back among the unscoped buffers.
-/
import proofs.«217078_g14027363189340_cont_week2b_886_24_alg».proof.Proof.Bits.TcCompose
import proofs.«217078_g14027363189340_cont_week2b_886_24_alg».proof.Proof.Bits.ScPay

noncomputable section

namespace Cert.ProofBits.Main

open Cert.Kernel Cert.Kernel.Gen Cert.ProofBits.Sc

open Idealize.ShloMosaic Idealize.ShloMosaic.StableHlo Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

/-! ## An array as its two halves -/

theorem halfT_disj : ∀ i ∈ (Finset.univ : Finset (Fin 2)), ∀ j ∈ (Finset.univ : Finset (Fin 2)), i ≠ j → Disjoint (halfT i) (halfT j) :=
  fun _ _ _ _ h => Rect.part_disjoint hdivT h
theorem halfT_cover : (Finset.univ : Finset (Fin 2)).biUnion halfT = Finset.univ := Rect.biUnion_part hdivT
theorem halfJ_disj : ∀ i ∈ (Finset.univ : Finset (Fin 2)), ∀ j ∈ (Finset.univ : Finset (Fin 2)), i ≠ j → Disjoint (halfJ i) (halfJ j) :=
  fun _ _ _ _ h => Rect.part_disjoint hdivJ h
theorem halfJ_cover : (Finset.univ : Finset (Fin 2)).biUnion halfJ = Finset.univ := Rect.biUnion_part hdivJ
theorem halfO_disj : ∀ i ∈ (Finset.univ : Finset (Fin 2)), ∀ j ∈ (Finset.univ : Finset (Fin 2)), i ≠ j → Disjoint (halfO i) (halfO j) :=
  fun _ _ _ _ h => Rect.part_disjoint hdivO h
theorem halfO_cover : (Finset.univ : Finset (Fin 2)).biUnion halfO = Finset.univ := Rect.biUnion_part hdivO

/-- A whole array held at one contents is its two halves held at it. -/
theorem halves_split {ℓ : Loc nD τ sig} (half : Fin 2 → Finset (Idx ℓ))
    (hd : ∀ i ∈ (Finset.univ : Finset (Fin 2)), ∀ j ∈ (Finset.univ : Finset (Fin 2)), i ≠ j → Disjoint (half i) (half j))
    (hc : (Finset.univ : Finset (Fin 2)).biUnion half = Finset.univ) (f : Buf (Elt F) ℓ) :
    (ℓ ↦{fullShare} f : sProp 𝕄) = bigSep Finset.univ fun c : Fin 2 => ℓ ↦[half c]{fullShare} f := by
  rw [← pointsTo_biUnion Finset.univ (ℓ := ℓ) half hd, hc]; try rfl

/-- The two halves, each at contents of its own, rejoin into the whole array at some contents. -/
theorem halves_join {ℓ : Loc nD τ sig} (half : Fin 2 → Finset (Idx ℓ))
    (hd : ∀ i ∈ (Finset.univ : Finset (Fin 2)), ∀ j ∈ (Finset.univ : Finset (Fin 2)), i ≠ j → Disjoint (half i) (half j))
    (hc : (Finset.univ : Finset (Fin 2)).biUnion half = Finset.univ) :
    (bigSep Finset.univ fun c : Fin 2 => iprop(∃ f : Buf (Elt F) ℓ, ℓ ↦[half c]{fullShare} f)) ⊢ (iprop(∃ f : Buf (Elt F) ℓ, ℓ ↦{fullShare} f) : sProp 𝕄) := by
  refine (bigSep_exists_pi Finset.univ (fun (c : Fin 2) (f : Buf (Elt F) ℓ) => (ℓ ↦[half c]{fullShare} f : sProp 𝕄))).trans ?_
  iintro ⟨%fs, H⟩
  ihave H' := (pointsTo_biUnion_join Finset.univ half fs (fs 0) hd) $$ H
  icases H' with ⟨%g, -, Hg⟩
  rw [hc]
  iexists g; iexact Hg

/-! ## The three arrays of a call among the unscoped buffers -/

abbrev rT : DevRef τ sig := Proc.devRef .tc main_v9
abbrev rJ0 : DevRef τ sig := Proc.devRef .tc main_v25
abbrev rO0 : DevRef τ sig := Proc.devRef .tc main_v26
abbrev rJ1 : DevRef τ sig := Proc.devRef .tc main_v37
abbrev rO1 : DevRef τ sig := Proc.devRef .tc main_v38

/-- The first gather's arrays: the node table, the first index list, the first gathered rows. -/
abbrev trio0 : Finset (DevRef τ sig) := {rT, rJ0, rO0}
/-- The second gather's arrays. -/
abbrev trio1 : Finset (DevRef τ sig) := {rT, rJ1, rO1}

theorem trio0_sub : trio0 ⊆ Pipeline.ucRefs τ sig := by decide
theorem trio1_sub : trio1 ⊆ Pipeline.ucRefs τ sig := by decide

theorem held_trio0 (d : Dev nD) (V₁ : Valuation τ sig (Elt F)) :
    (held (SparseCore.T d) trio0 V₁ : sProp 𝕄)
      = iprop((tblLoc d ↦{fullShare} V₁ rT) ∗ (idxLoc0 d ↦{fullShare} V₁ rJ0) ∗ (outLoc0 d ↦{fullShare} V₁ rO0)) := by
  unfold held
  rw [bigSep_insert (by decide), bigSep_insert (by decide), bigSep_singleton]
  rfl

theorem held_trio1 (d : Dev nD) (V₁ : Valuation τ sig (Elt F)) :
    (held (SparseCore.T d) trio1 V₁ : sProp 𝕄)
      = iprop((tblLoc d ↦{fullShare} V₁ rT) ∗ (idxLoc1 d ↦{fullShare} V₁ rJ1) ∗ (outLoc1 d ↦{fullShare} V₁ rO1)) := by
  unfold held
  rw [bigSep_insert (by decide), bigSep_insert (by decide), bigSep_singleton]
  rfl

/-- A valuation changed at three buffers. -/
def upd3 (V₁ : Valuation τ sig (Elt F)) (a b c : DevRef τ sig) (fa : a.ty.Contents (Elt F)) (fb : b.ty.Contents (Elt F)) (fc : c.ty.Contents (Elt F)) :
    Valuation τ sig (Elt F) :=
  Function.update (Function.update (Function.update V₁ a fa) b fb) c fc

theorem upd3_of_ne (V₁ : Valuation τ sig (Elt F)) {a b c : DevRef τ sig} (fa fb fc) {x : DevRef τ sig} (ha : x ≠ a) (hb : x ≠ b) (hc : x ≠ c) :
    upd3 V₁ a b c fa fb fc x = V₁ x := by
  unfold upd3
  rw [Function.update_of_ne hc, Function.update_of_ne hb, Function.update_of_ne ha]
theorem upd3_c (V₁ : Valuation τ sig (Elt F)) {a b c : DevRef τ sig} (fa fb fc) : upd3 V₁ a b c fa fb fc c = fc := by
  unfold upd3; rw [Function.update_self]
theorem upd3_b (V₁ : Valuation τ sig (Elt F)) {a b c : DevRef τ sig} (fa fb fc) (hbc : b ≠ c) : upd3 V₁ a b c fa fb fc b = fb := by
  unfold upd3; rw [Function.update_of_ne hbc, Function.update_self]
theorem upd3_a (V₁ : Valuation τ sig (Elt F)) {a b c : DevRef τ sig} (fa fb fc) (hab : a ≠ b) (hac : a ≠ c) : upd3 V₁ a b c fa fb fc a = fa := by
  unfold upd3; rw [Function.update_of_ne hac, Function.update_of_ne hab, Function.update_self]

/-- The three arrays at new contents beside the other unscoped buffers are the unscoped buffers at the valuation changed
    at the three. -/
theorem held_upd0 (d : Dev nD) (V₁ : Valuation τ sig (Elt F)) (tb : Buf (Elt F) (tblLoc d)) (jx : Buf (Elt F) (idxLoc0 d)) (ob : Buf (Elt F) (outLoc0 d)) :
    iprop(((tblLoc d ↦{fullShare} tb) ∗ (idxLoc0 d ↦{fullShare} jx) ∗ (outLoc0 d ↦{fullShare} ob))
        ∗ (held (SparseCore.T d) (Pipeline.ucRefs τ sig \ trio0) V₁ : sProp 𝕄))
      ⊢ (held (SparseCore.T d) (Pipeline.ucRefs τ sig) (upd3 V₁ rT rJ0 rO0 tb jx ob) : sProp 𝕄) := by
  rw [held_sub_split (SparseCore.T d) trio0_sub (upd3 V₁ rT rJ0 rO0 tb jx ob), held_trio0,
    upd3_a (a := rT) (b := rJ0) (c := rO0) V₁ tb jx ob (by decide) (by decide), upd3_b (a := rT) (b := rJ0) (c := rO0) V₁ tb jx ob (by decide), upd3_c (a := rT) (b := rJ0) (c := rO0),
    held_congr (SparseCore.T d) (V := upd3 V₁ rT rJ0 rO0 tb jx ob) (V' := V₁) fun b hb => by
      have hn : b ∉ trio0 := (Finset.mem_sdiff.mp hb).2
      simp only [trio0, Finset.mem_insert, Finset.mem_singleton, not_or] at hn
      exact upd3_of_ne (a := rT) (b := rJ0) (c := rO0) V₁ tb jx ob hn.1 hn.2.1 hn.2.2]

theorem held_upd1 (d : Dev nD) (V₁ : Valuation τ sig (Elt F)) (tb : Buf (Elt F) (tblLoc d)) (jx : Buf (Elt F) (idxLoc1 d)) (ob : Buf (Elt F) (outLoc1 d)) :
    iprop(((tblLoc d ↦{fullShare} tb) ∗ (idxLoc1 d ↦{fullShare} jx) ∗ (outLoc1 d ↦{fullShare} ob))
        ∗ (held (SparseCore.T d) (Pipeline.ucRefs τ sig \ trio1) V₁ : sProp 𝕄))
      ⊢ (held (SparseCore.T d) (Pipeline.ucRefs τ sig) (upd3 V₁ rT rJ1 rO1 tb jx ob) : sProp 𝕄) := by
  rw [held_sub_split (SparseCore.T d) trio1_sub (upd3 V₁ rT rJ1 rO1 tb jx ob), held_trio1,
    upd3_a (a := rT) (b := rJ1) (c := rO1) V₁ tb jx ob (by decide) (by decide), upd3_b (a := rT) (b := rJ1) (c := rO1) V₁ tb jx ob (by decide), upd3_c (a := rT) (b := rJ1) (c := rO1),
    held_congr (SparseCore.T d) (V := upd3 V₁ rT rJ1 rO1 tb jx ob) (V' := V₁) fun b hb => by
      have hn : b ∉ trio1 := (Finset.mem_sdiff.mp hb).2
      simp only [trio1, Finset.mem_insert, Finset.mem_singleton, not_or] at hn
      exact upd3_of_ne (a := rT) (b := rJ1) (c := rO1) V₁ tb jx ob hn.1 hn.2.1 hn.2.2]

/-- Outside the three arrays the changed valuation is the old one. -/
theorem upd3_keeps0 (V₁ : Valuation τ sig (Elt F)) (tb : (rT : DevRef τ sig).ty.Contents (Elt F)) (jx : (rJ0 : DevRef τ sig).ty.Contents (Elt F)) (ob : (rO0 : DevRef τ sig).ty.Contents (Elt F)) (r : Ref sig .tc) (hr : r ∉ [main_v9, main_v25, main_v26]) :
    upd3 V₁ rT rJ0 rO0 tb jx ob (Proc.devRef .tc r) = V₁ (Proc.devRef .tc r) := by
  simp only [List.mem_cons, List.not_mem_nil, or_false, not_or] at hr
  exact upd3_of_ne (a := rT) (b := rJ0) (c := rO0) V₁ tb jx ob (devRef_ne_of_ne hr.1) (devRef_ne_of_ne hr.2.1) (devRef_ne_of_ne hr.2.2)
theorem upd3_keeps1 (V₁ : Valuation τ sig (Elt F)) (tb : (rT : DevRef τ sig).ty.Contents (Elt F)) (jx : (rJ1 : DevRef τ sig).ty.Contents (Elt F)) (ob : (rO1 : DevRef τ sig).ty.Contents (Elt F)) (r : Ref sig .tc) (hr : r ∉ [main_v9, main_v37, main_v38]) :
    upd3 V₁ rT rJ1 rO1 tb jx ob (Proc.devRef .tc r) = V₁ (Proc.devRef .tc r) := by
  simp only [List.mem_cons, List.not_mem_nil, or_false, not_or] at hr
  exact upd3_of_ne (a := rT) (b := rJ1) (c := rO1) V₁ tb jx ob (devRef_ne_of_ne hr.1) (devRef_ne_of_ne hr.2.1) (devRef_ne_of_ne hr.2.2)

/-! ## The halves handed over and taken back -/

/-- The whole index list is in range, half by half: the first half names rows of the first half of the table, the
    second half rows of the second. -/
def IdxOK (j : S327680.Idx → BitVec 32) : Prop := ∀ c : Fin 2, InRange c.val (halfJ c) j

/-- What the first call's barrier leaves for the second, over both SparseCores. -/
def X1 (d : Dev nD) : sProp 𝕄 := bigSep Finset.univ fun c : Fin 2 => barNext (F := F) d (c.castLE (by decide))

/-- The three arrays whole, the index list in range half by half, are the two SparseCores' hand-overs. -/
theorem stCore0_intro (d : Dev nD) (tb : Buf (Elt F) (tblLoc d)) (jx : Buf (Elt F) (idxLoc0 d)) (ob : Buf (Elt F) (outLoc0 d))
    (h : ∀ c : Fin 2, InRange c.val (halfJ c) jx) :
    iprop((tblLoc d ↦{fullShare} tb) ∗ (idxLoc0 d ↦{fullShare} jx) ∗ (outLoc0 d ↦{fullShare} ob))
      ⊢ (bigSep Finset.univ fun c : Fin 2 => stCore0 (F := F) d c : sProp 𝕄) := by
  rw [halves_split (ℓ := tblLoc d) halfT halfT_disj halfT_cover tb, halves_split (ℓ := idxLoc0 d) halfJ halfJ_disj halfJ_cover jx,
    halves_split (ℓ := outLoc0 d) halfO halfO_disj halfO_cover ob, ← bigSep_sep', ← bigSep_sep']
  refine bigSep_mono fun c _ => ?_
  unfold stCore0
  show (_ : sProp 𝕄) ⊢ _
  iintro ⟨Ht, Hj, Ho⟩
  iexists tb, jx, ob
  isplitl [Ht]; · iexact Ht
  isplitl [Hj]; · iexact Hj
  isplitl [Ho]; · iexact Ho
  ipureintro; exact h c

/-- The two SparseCores' returns rejoin into the three arrays whole, at contents not named. -/
theorem stCore0_elim (d : Dev nD) :
    (bigSep Finset.univ fun c : Fin 2 => stCore0 (F := F) d c : sProp 𝕄)
      ⊢ iprop((∃ tb : Buf (Elt F) (tblLoc d), tblLoc d ↦{fullShare} tb) ∗ (∃ jx : Buf (Elt F) (idxLoc0 d), idxLoc0 d ↦{fullShare} jx)
          ∗ (∃ ob : Buf (Elt F) (outLoc0 d), outLoc0 d ↦{fullShare} ob)) := by
  have hweak : ∀ c : Fin 2, (stCore0 (F := F) d c : sProp 𝕄) ⊢ iprop((∃ tb : Buf (Elt F) (tblLoc d), tblLoc d ↦[halfT c]{fullShare} tb)
      ∗ (∃ jx : Buf (Elt F) (idxLoc0 d), idxLoc0 d ↦[halfJ c]{fullShare} jx) ∗ (∃ ob : Buf (Elt F) (outLoc0 d), outLoc0 d ↦[halfO c]{fullShare} ob)) := by
    intro c
    unfold stCore0
    iintro ⟨%tb, %jx, %ob, Ht, Hj, Ho, -⟩
    isplitl [Ht]; · iexists tb; iexact Ht
    isplitl [Hj]; · iexists jx; iexact Hj
    iexists ob; iexact Ho
  refine (bigSep_mono fun c _ => hweak c).trans ?_
  rw [bigSep_sep', bigSep_sep']
  show (_ : sProp 𝕄) ⊢ _
  iintro ⟨Ht, Hj, Ho⟩
  isplitl [Ht]; · iapply (halves_join (ℓ := tblLoc d) halfT halfT_disj halfT_cover); iexact Ht
  isplitl [Hj]; · iapply (halves_join (ℓ := idxLoc0 d) halfJ halfJ_disj halfJ_cover); iexact Hj
  iapply (halves_join (ℓ := outLoc0 d) halfO halfO_disj halfO_cover); iexact Ho

/-- The three arrays whole, the index list in range half by half, are the two SparseCores' hand-overs. -/
theorem stCore1_intro (d : Dev nD) (tb : Buf (Elt F) (tblLoc d)) (jx : Buf (Elt F) (idxLoc1 d)) (ob : Buf (Elt F) (outLoc1 d))
    (h : ∀ c : Fin 2, InRange c.val (halfJ c) jx) :
    iprop((tblLoc d ↦{fullShare} tb) ∗ (idxLoc1 d ↦{fullShare} jx) ∗ (outLoc1 d ↦{fullShare} ob))
      ⊢ (bigSep Finset.univ fun c : Fin 2 => stCore1 (F := F) d c : sProp 𝕄) := by
  rw [halves_split (ℓ := tblLoc d) halfT halfT_disj halfT_cover tb, halves_split (ℓ := idxLoc1 d) halfJ halfJ_disj halfJ_cover jx,
    halves_split (ℓ := outLoc1 d) halfO halfO_disj halfO_cover ob, ← bigSep_sep', ← bigSep_sep']
  refine bigSep_mono fun c _ => ?_
  unfold stCore1
  show (_ : sProp 𝕄) ⊢ _
  iintro ⟨Ht, Hj, Ho⟩
  iexists tb, jx, ob
  isplitl [Ht]; · iexact Ht
  isplitl [Hj]; · iexact Hj
  isplitl [Ho]; · iexact Ho
  ipureintro; exact h c

/-- The two SparseCores' returns rejoin into the three arrays whole, at contents not named. -/
theorem stCore1_elim (d : Dev nD) :
    (bigSep Finset.univ fun c : Fin 2 => stCore1 (F := F) d c : sProp 𝕄)
      ⊢ iprop((∃ tb : Buf (Elt F) (tblLoc d), tblLoc d ↦{fullShare} tb) ∗ (∃ jx : Buf (Elt F) (idxLoc1 d), idxLoc1 d ↦{fullShare} jx)
          ∗ (∃ ob : Buf (Elt F) (outLoc1 d), outLoc1 d ↦{fullShare} ob)) := by
  have hweak : ∀ c : Fin 2, (stCore1 (F := F) d c : sProp 𝕄) ⊢ iprop((∃ tb : Buf (Elt F) (tblLoc d), tblLoc d ↦[halfT c]{fullShare} tb)
      ∗ (∃ jx : Buf (Elt F) (idxLoc1 d), idxLoc1 d ↦[halfJ c]{fullShare} jx) ∗ (∃ ob : Buf (Elt F) (outLoc1 d), outLoc1 d ↦[halfO c]{fullShare} ob)) := by
    intro c
    unfold stCore1
    iintro ⟨%tb, %jx, %ob, Ht, Hj, Ho, -⟩
    isplitl [Ht]; · iexists tb; iexact Ht
    isplitl [Hj]; · iexists jx; iexact Hj
    iexists ob; iexact Ho
  refine (bigSep_mono fun c _ => hweak c).trans ?_
  rw [bigSep_sep', bigSep_sep']
  show (_ : sProp 𝕄) ⊢ _
  iintro ⟨Ht, Hj, Ho⟩
  isplitl [Ht]; · iapply (halves_join (ℓ := tblLoc d) halfT halfT_disj halfT_cover); iexact Ht
  isplitl [Hj]; · iapply (halves_join (ℓ := idxLoc1 d) halfJ halfJ_disj halfJ_cover); iexact Hj
  iapply (halves_join (ℓ := outLoc1 d) halfO halfO_disj halfO_cover); iexact Ho

/-! ## The calls' steps -/

theorem st0_eq (d : Dev nD) :
    (bigSep Finset.univ fun c : Fin ((K (F := F)).nCore 0) => (P (F := F)).st 0 d c) = (bigSep Finset.univ fun c : Fin 2 => stCore0 (F := F) d c : sProp 𝕄) :=
  bigSep_congr fun _ _ => congrArg (stCore0 (F := F) d) (Fin.ext rfl)
theorem dn0_eq (d : Dev nD) :
    (bigSep Finset.univ fun c : Fin ((K (F := F)).nCore 0) => (P (F := F)).dn 0 d c)
      = (iprop((bigSep Finset.univ fun c : Fin 2 => stCore0 (F := F) d c) ∗ X1 (F := F) d) : sProp 𝕄) := by
  unfold X1; rw [← bigSep_sep']; exact bigSep_congr fun _ _ => rfl
theorem st1_eq (d : Dev nD) :
    (bigSep Finset.univ fun c : Fin ((K (F := F)).nCore 1) => (P (F := F)).st 1 d c)
      = (iprop((bigSep Finset.univ fun c : Fin 2 => stCore1 (F := F) d c) ∗ X1 (F := F) d) : sProp 𝕄) := by
  unfold X1; rw [← bigSep_sep']; exact bigSep_congr fun _ _ => rfl
theorem dn1_eq (d : Dev nD) :
    (bigSep Finset.univ fun c : Fin ((K (F := F)).nCore 1) => (P (F := F)).dn 1 d c) = (bigSep Finset.univ fun c : Fin 2 => stCore1 (F := F) d c : sProp 𝕄) :=
  bigSep_congr fun _ _ => congrArg (stCore1 (F := F) d) (Fin.ext rfl)

/-- The first gather, on the TensorCore's side. -/
theorem callStep0 : CallStep (P (F := F)) 0 main_v25 [main_v9, main_v25, main_v26] (fun _ => iprop(emp)) (X1 (F := F)) IdxOK := by
  intro κ d V₁ hok k Q
  rw [wp_bind, held_sub_split (SparseCore.T d) trio0_sub V₁, held_trio0]
  iintro ⟨#Hctx, Hst, ⟨⟨Ht, Hj, Ho⟩, Hrest⟩, -, Hk⟩
  iapply ((K (F := F)).wp_run (D (F := F)) 𝒱 (EH := EH) (P := P (F := F)) κ d 0)
  isplitr; · iexact Hctx
  isplitl [Hst]; · iexact Hst
  isplitl [Ht Hj Ho]
  · rw [st0_eq]
    iapply (stCore0_intro d (V₁ rT) (V₁ rJ0) (V₁ rO0) hok)
    isplitl [Ht]; · iexact Ht
    isplitl [Hj]; · iexact Hj
    iexact Ho
  iintro ⟨Hst, Hdn⟩
  ihave Hdn' := (Entails.of_eq (dn0_eq d)) $$ Hdn
  icases Hdn' with ⟨Hcore, HX⟩
  ihave H := (stCore0_elim d) $$ Hcore
  icases H with ⟨⟨%tb, Ht⟩, ⟨%jx, Hj⟩, ⟨%ob, Ho⟩⟩
  ispecialize Hk $$ %(upd3 V₁ rT rJ0 rO0 tb jx ob)
  iapply Hk
  · ipureintro; exact fun r hr => upd3_keeps0 V₁ tb jx ob r hr
  isplitl [Hst]; · iexact Hst
  isplitr [HX]
  · iapply (held_upd0 d V₁ tb jx ob)
    isplitr [Hrest]
    · isplitl [Ht]; · iexact Ht
      isplitl [Hj]; · iexact Hj
      iexact Ho
    iexact Hrest
  iexact HX

/-- The second gather, on the TensorCore's side: it takes what the first call's barrier left. -/
theorem callStep1 : CallStep (P (F := F)) 1 main_v37 [main_v9, main_v37, main_v38] (X1 (F := F)) (fun _ => iprop(emp)) IdxOK := by
  intro κ d V₁ hok k Q
  rw [wp_bind, held_sub_split (SparseCore.T d) trio1_sub V₁, held_trio1]
  iintro ⟨#Hctx, Hst, ⟨⟨Ht, Hj, Ho⟩, Hrest⟩, HX, Hk⟩
  iapply ((K (F := F)).wp_run (D (F := F)) 𝒱 (EH := EH) (P := P (F := F)) κ d 1)
  isplitr; · iexact Hctx
  isplitl [Hst]; · iexact Hst
  isplitl [Ht Hj Ho HX]
  · rw [st1_eq]
    isplitr [HX]
    · iapply (stCore1_intro d (V₁ rT) (V₁ rJ1) (V₁ rO1) hok)
      isplitl [Ht]; · iexact Ht
      isplitl [Hj]; · iexact Hj
      iexact Ho
    iexact HX
  iintro ⟨Hst, Hdn⟩
  ihave Hdn' := (Entails.of_eq (dn1_eq d)) $$ Hdn
  ihave H := (stCore1_elim d) $$ Hdn'
  icases H with ⟨⟨%tb, Ht⟩, ⟨%jx, Hj⟩, ⟨%ob, Ho⟩⟩
  ispecialize Hk $$ %(upd3 V₁ rT rJ1 rO1 tb jx ob)
  iapply Hk
  · ipureintro; exact fun r hr => upd3_keeps1 V₁ tb jx ob r hr
  isplitl [Hst]; · iexact Hst
  isplitl
  · iapply (held_upd1 d V₁ tb jx ob)
    isplitr [Hrest]
    · isplitl [Ht]; · iexact Ht
      isplitl [Hj]; · iexact Hj
      iexact Ho
    iexact Hrest
  iempintro

end Cert.ProofBits.Main

end
-- ==== Proof.Bits.TcData.lean ====
import proofs.«217078_g14027363189340_cont_week2b_886_24_alg».proof.Proof.Gen.Kernel.Launch
import proofs.«217078_g14027363189340_cont_week2b_886_24_alg».proof.Proof.Gen.Kernel.Skeleton
import proofs.«217078_g14027363189340_cont_week2b_886_24_alg».proof.Proof.Gen.Kernel.Points
import Idealize.ShloMosaic.Lib.Pipeline.FrameBody
import Idealize.ShloMosaic.Lib.Tactic

set_option maxRecDepth 16384

noncomputable section

namespace Cert.ProofBits.Tc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {Name : Type} [DecidableEq Name] {U : Type} [URA U] {Lvl : Type}

local notation "𝕄" => MT nD τ sig Ix (Elt F) Name U Lvl

/-! # The three TensorCore regions' proof data

Each region is stated at a PARAMETER `V`: the TensorCore's buffer contents when that region is entered. What the body
leaves in an output window's staging buffer is a closed function of the input windows' blocks at the point: the payload
of its one whole-block store. Nothing is carried from point to point; the invariant is the scoped buffers no window
stages, untouched. What the core owes (`O`) and the bound on its recorded wait pairs (`B`) are constants the region
passes through. -/

section Regions

variable (V : (c : Dev nD) → (b : Ref sig .tc) → Buf (Elt F) ((c : Thread nD τ).loc b))

/-! ## Region 0: the two node tables, `T[p] = select(p = 0, src, dst) · W[p]ᵀ + bias[p]` -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-buffer rectangles the body loads and stores through. -/
abbrev r0_0 : Rect S10000x128 := Rect.unit (s := S10000x128) ![0, 0] S10000x128.size inb_S10000x128_S10000x128_0_0
abbrev r0_2 : Rect S1x128x128 := Rect.unit (s := S1x128x128) ![0, 0, 0] S1x128x128.size inb_S1x128x128_S1x128x128_0_0_0
abbrev r0_3 : Rect S1x1x128 := Rect.unit (s := S1x1x128) ![0, 0, 0] S1x1x128.size inb_S1x1x128_S1x1x128_0_0_0
abbrev r0_4 : Rect S1x10000x128 := Rect.unit (s := S1x10000x128) ![0, 0, 0] S1x10000x128.size inb_S1x10000x128_S1x10000x128_0_0_0

/-- The output window's staging buffer after the body at grid coordinates `i`, from the four input blocks: the
    payload of its one store, which covers the buffer. -/
def out0_4 (i : grid0.Coords) (x0 x1 : Vec F S10000x128 .f32) (x2 : Vec F S1x128x128 .f32) (x3 : Vec F S1x1x128 .f32) :
    Vec F S1x10000x128 .f32 :=
  View.canon [⟨r0_4, k0_pay1 i (View.ld x0 r0_0) (View.ld x1 r0_0) (View.ld x2 r0_2) (View.ld x3 r0_3)⟩]

/-- The one store tiles the buffer, so it covers it. -/
theorem cover0_4 (p0 : Vec F S1x10000x128 .f32) (y : S1x10000x128.Idx) :
    ∃ pc ∈ ([⟨r0_4, p0⟩] : List (View.Piece (Elt F) S1x10000x128 .f32)), y ∈ pc.1.set :=
  View.cover_of_tiled [⟨r0_4, p0⟩] S1x10000x128.size (by rfl) y

/-- The proof data of region 0 on core `c`. -/
def dat0 (O : CellTallies nD τ sig Ix) (B : Set (SemLoc sig × Ix)) (c : Dev nD) : Dat τ (Elt F) Ix Name U Lvl cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (grid0.coords t) (iblk0 V c 0 t) (iblk0 V c 1 t) (iblk0 V c 2 t) (iblk0 V c 3 t)
  Φ _ := Pipeline.scopedRest (Ix := Ix) (Name := Name) (U := U) (Lvl := Lvl) (Val := Elt F) spec0 c
  q _ := fullShare
  owed _ := O
  recorded _ := B

section
variable (O : CellTallies nD τ sig Ix) (B : Set (SemLoc sig × Ix))

theorem A_eq0 (c : Dev nD) (w : Fin cfg0.W) : (dat0 (Name := Name) (U := U) (Lvl := Lvl) V O B c).A w = V c (Pipeline.arrRef spec0 w) := by
  dsimp only [dat0]

theorem after0_0 (c : Dev nD) (t : Fin cfg0.N) : (dat0 (Name := Name) (U := U) (Lvl := Lvl) V O B c).after 0 t = iblk0 V c 0 t := by dsimp only [dat0]
theorem after0_1 (c : Dev nD) (t : Fin cfg0.N) : (dat0 (Name := Name) (U := U) (Lvl := Lvl) V O B c).after 1 t = iblk0 V c 1 t := by dsimp only [dat0]
theorem after0_2 (c : Dev nD) (t : Fin cfg0.N) : (dat0 (Name := Name) (U := U) (Lvl := Lvl) V O B c).after 2 t = iblk0 V c 2 t := by dsimp only [dat0]
theorem after0_3 (c : Dev nD) (t : Fin cfg0.N) : (dat0 (Name := Name) (U := U) (Lvl := Lvl) V O B c).after 3 t = iblk0 V c 3 t := by dsimp only [dat0]
theorem after0_4 (c : Dev nD) (t : Fin cfg0.N) : (dat0 (Name := Name) (U := U) (Lvl := Lvl) V O B c).after 4 t
    = out0_4 (grid0.coords t) (iblk0 V c 0 t) (iblk0 V c 1 t) (iblk0 V c 2 t) (iblk0 V c 3 t) := by dsimp only [dat0]

/-- An input window's current staging buffer holds its block at every point, fetched there or not: unfetched, the
    block index has not moved, and the buffer still holds the previous point's block, which is this point's. -/
theorem before0_0_of {c : Dev nD} (dat : Dat τ (Elt F) Ix Name U Lvl cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Ix Name U Lvl cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Ix Name U Lvl cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Ix Name U Lvl cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 (Name := Name) (U := U) (Lvl := Lvl) V O B c).before 0 t d = iblk0 V c 0 t :=
  before0_0_of V (dat0 (Name := Name) (U := U) (Lvl := Lvl) V O B c) (A_eq0 V O B c 0) (after0_0 V O B c) t d
theorem before0_1 (c : Dev nD) (t : Fin cfg0.N) (d) : (dat0 (Name := Name) (U := U) (Lvl := Lvl) V O B c).before 1 t d = iblk0 V c 1 t :=
  before0_1_of V (dat0 (Name := Name) (U := U) (Lvl := Lvl) V O B c) (A_eq0 V O B c 1) (after0_1 V O B c) t d
theorem before0_2 (c : Dev nD) (t : Fin cfg0.N) (d) : (dat0 (Name := Name) (U := U) (Lvl := Lvl) V O B c).before 2 t d = iblk0 V c 2 t :=
  before0_2_of V (dat0 (Name := Name) (U := U) (Lvl := Lvl) V O B c) (A_eq0 V O B c 2) (after0_2 V O B c) t d
theorem before0_3 (c : Dev nD) (t : Fin cfg0.N) (d) : (dat0 (Name := Name) (U := U) (Lvl := Lvl) V O B c).before 3 t d = iblk0 V c 3 t :=
  before0_3_of V (dat0 (Name := Name) (U := U) (Lvl := Lvl) V O B c) (A_eq0 V O B c 3) (after0_3 V O B c) t d

end

/-! ## Region 1 (custom_call 2): the first half of the edges, `layer_norm(silu(e · Wₑᵀ + g_src + g_dst) · W₁ᵀ + b₁) · γ + β` on blocks of 8000 edges -/

/-- Window `w`'s block at point `t`, read off its array as the region finds it: its part inside the array. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Windows 1 and 2 are the two halves of the gathered rows, 163840 rows each, in blocks of 8000 rows: the window's
    type allows a block that overhangs the array's end, cut there, and the staging buffer then holds the block's part
    inside the array filled out with words nothing names. At the 20 points of this grid no block overhangs
    (20 · 8000 ≤ 163840): the cut is none on every axis, -/
theorem clip2_1 : ∀ t : Fin cfg2.N, ∀ a, (cfg2.win 1).clip (cfg2.grid.coords t) a = none :=
  (by decide +kernel : ∀ t : Fin grid2.N, ∀ a, win2_1.clip (grid2.coords t) a = none)
theorem clip2_2 : ∀ t : Fin cfg2.N, ∀ a, (cfg2.win 2).clip (cfg2.grid.coords t) a = none :=
  (by decide +kernel : ∀ t : Fin grid2.N, ∀ a, win2_2.clip (grid2.coords t) a = none)

/-- and the staging buffer holds the block whatever it held before; as a function on the whole buffer it is the
    block filled out with the zero word, which fills nothing. -/
def blk2_1 (c : Dev nD) (t : Fin cfg2.N) : S1x8000x128.Idx → Elt F .f32 :=
  win2_1.fill (grid2.coords t) (fun _ => Scalar.ofBits .f32 0#32) (iblk2 V c 1 t)
def blk2_2 (c : Dev nD) (t : Fin cfg2.N) : S1x8000x128.Idx → Elt F .f32 :=
  win2_2.fill (grid2.coords t) (fun _ => Scalar.ofBits .f32 0#32) (iblk2 V c 2 t)

/-- The whole-buffer rectangles the body loads and stores through. -/
abbrev r2_0 : Rect S8000x16 := Rect.unit (s := S8000x16) ![0, 0] S8000x16.size inb_S8000x16_S8000x16_0_0
abbrev r2_1 : Rect S1x8000x128 := Rect.unit (s := S1x8000x128) ![0, 0, 0] S1x8000x128.size inb_S1x8000x128_S1x8000x128_0_0_0
abbrev r2_3 : Rect S16x128 := Rect.unit (s := S16x128) ![0, 0] S16x128.size inb_S16x128_S16x128_0_0
abbrev r2_4 : Rect S128x128 := Rect.unit (s := S128x128) ![0, 0] S128x128.size inb_S128x128_S128x128_0_0
abbrev r2_5 : Rect S1x128 := Rect.unit (s := S1x128) ![0, 0] S1x128.size inb_S1x128_S1x128_0_0
abbrev r2_8 : Rect S8000x128 := Rect.unit (s := S8000x128) ![0, 0] S8000x128.size inb_S8000x128_S8000x128_0_0

/-- The output window's staging buffer after the body, from the eight input blocks (edge features, the two gathered
    row blocks, the two weight matrices, bias, scale and shift): the payload of its one store, which covers the
    buffer — the normalised rows scaled and shifted. -/
def out2_8 (x0 : Vec F S8000x16 .f32) (x1 x2 : Vec F S1x8000x128 .f32) (x3 : Vec F S16x128 .f32) (x4 : Vec F S128x128 .bf16)
    (x5 x6 x7 : Vec F S1x128 .f32) : Vec F S8000x128 .f32 :=
  View.canon [⟨r2_8, k2_pay1 (k2_pay2 (View.ld x0 r2_0) (View.ld x3 r2_3) (View.ld x1 r2_1) (View.ld x2 r2_1) (View.ld x4 r2_4) (View.ld x5 r2_5))
    (View.ld x6 r2_5) (View.ld x7 r2_5)⟩]

/-- The one store tiles the buffer, so it covers it. -/
theorem cover2_8 (p0 : Vec F S8000x128 .f32) (y : S8000x128.Idx) :
    ∃ pc ∈ ([⟨r2_8, p0⟩] : List (View.Piece (Elt F) S8000x128 .f32)), y ∈ pc.1.set :=
  View.cover_of_tiled [⟨r2_8, p0⟩] S8000x128.size (by rfl) y

/-- The proof data of this region on core `c`; `q` names the share of its array each input window holds (windows 1
    and 2 read ONE array, the gathered rows of the first half, and share it). -/
def dat2 (O : CellTallies nD τ sig Ix) (B : Set (SemLoc sig × Ix)) (q : Fin 9 → PosShare TreeShare) (c : Dev nD) :
    Dat τ (Elt F) Ix Name U Lvl cfg2 c where
  A w := V c (Pipeline.arrRef spec2 w)
  after w t := match w with
    | ⟨0, _⟩ => iblk2 V c 0 t
    | ⟨1, _⟩ => blk2_1 V c t
    | ⟨2, _⟩ => blk2_2 V c t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => out2_8 (iblk2 V c 0 t) (blk2_1 V c t) (blk2_2 V c t) (iblk2 V c 3 t) (iblk2 V c 4 t) (iblk2 V c 5 t) (iblk2 V c 6 t) (iblk2 V c 7 t)
  Φ _ := Pipeline.scopedRest (Ix := Ix) (Name := Name) (U := U) (Lvl := Lvl) (Val := Elt F) spec2 c
  q := q
  owed _ := O
  recorded _ := B

section
variable (O : CellTallies nD τ sig Ix) (B : Set (SemLoc sig × Ix)) (q : Fin 9 → PosShare TreeShare)

theorem A_eq2 (c : Dev nD) (w : Fin cfg2.W) : (dat2 (Name := Name) (U := U) (Lvl := Lvl) V O B q c).A w = V c (Pipeline.arrRef spec2 w) := by
  dsimp only [dat2]

theorem after2_0 (c : Dev nD) (t : Fin cfg2.N) : (dat2 (Name := Name) (U := U) (Lvl := Lvl) V O B q c).after 0 t = iblk2 V c 0 t := by dsimp only [dat2]
theorem after2_3 (c : Dev nD) (t : Fin cfg2.N) : (dat2 (Name := Name) (U := U) (Lvl := Lvl) V O B q c).after 3 t = iblk2 V c 3 t := by dsimp only [dat2]
theorem after2_4 (c : Dev nD) (t : Fin cfg2.N) : (dat2 (Name := Name) (U := U) (Lvl := Lvl) V O B q c).after 4 t = iblk2 V c 4 t := by dsimp only [dat2]
theorem after2_5 (c : Dev nD) (t : Fin cfg2.N) : (dat2 (Name := Name) (U := U) (Lvl := Lvl) V O B q c).after 5 t = iblk2 V c 5 t := by dsimp only [dat2]
theorem after2_6 (c : Dev nD) (t : Fin cfg2.N) : (dat2 (Name := Name) (U := U) (Lvl := Lvl) V O B q c).after 6 t = iblk2 V c 6 t := by dsimp only [dat2]
theorem after2_7 (c : Dev nD) (t : Fin cfg2.N) : (dat2 (Name := Name) (U := U) (Lvl := Lvl) V O B q c).after 7 t = iblk2 V c 7 t := by dsimp only [dat2]
theorem after2_1 (c : Dev nD) (t : Fin cfg2.N) : (dat2 (Name := Name) (U := U) (Lvl := Lvl) V O B q c).after 1 t = blk2_1 V c t := by dsimp only [dat2]
theorem after2_2 (c : Dev nD) (t : Fin cfg2.N) : (dat2 (Name := Name) (U := U) (Lvl := Lvl) V O B q c).after 2 t = blk2_2 V c t := by dsimp only [dat2]
theorem after2_8 (c : Dev nD) (t : Fin cfg2.N) : (dat2 (Name := Name) (U := U) (Lvl := Lvl) V O B q c).after 8 t
    = out2_8 (iblk2 V c 0 t) (blk2_1 V c t) (blk2_2 V c t) (iblk2 V c 3 t) (iblk2 V c 4 t) (iblk2 V c 5 t) (iblk2 V c 6 t) (iblk2 V c 7 t) := by
  dsimp only [dat2]

/-- An uncut input window's current staging buffer holds its block at every point, fetched there or not. -/
theorem before2_0_of {c : Dev nD} (dat : Dat τ (Elt F) Ix Name U Lvl cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Ix Name U Lvl cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Ix Name U Lvl cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Ix Name U Lvl cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Ix Name U Lvl cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
theorem before2_7_of {c : Dev nD} (dat : Dat τ (Elt F) Ix Name U Lvl cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

theorem before2_0 (c : Dev nD) (t : Fin cfg2.N) (d) : (dat2 (Name := Name) (U := U) (Lvl := Lvl) V O B q c).before 0 t d = iblk2 V c 0 t :=
  before2_0_of V (dat2 (Name := Name) (U := U) (Lvl := Lvl) V O B q c) (A_eq2 V O B q c 0) (after2_0 V O B q c) t d
theorem before2_3 (c : Dev nD) (t : Fin cfg2.N) (d) : (dat2 (Name := Name) (U := U) (Lvl := Lvl) V O B q c).before 3 t d = iblk2 V c 3 t :=
  before2_3_of V (dat2 (Name := Name) (U := U) (Lvl := Lvl) V O B q c) (A_eq2 V O B q c 3) (after2_3 V O B q c) t d
theorem before2_4 (c : Dev nD) (t : Fin cfg2.N) (d) : (dat2 (Name := Name) (U := U) (Lvl := Lvl) V O B q c).before 4 t d = iblk2 V c 4 t :=
  before2_4_of V (dat2 (Name := Name) (U := U) (Lvl := Lvl) V O B q c) (A_eq2 V O B q c 4) (after2_4 V O B q c) t d
theorem before2_5 (c : Dev nD) (t : Fin cfg2.N) (d) : (dat2 (Name := Name) (U := U) (Lvl := Lvl) V O B q c).before 5 t d = iblk2 V c 5 t :=
  before2_5_of V (dat2 (Name := Name) (U := U) (Lvl := Lvl) V O B q c) (A_eq2 V O B q c 5) (after2_5 V O B q c) t d
theorem before2_6 (c : Dev nD) (t : Fin cfg2.N) (d) : (dat2 (Name := Name) (U := U) (Lvl := Lvl) V O B q c).before 6 t d = iblk2 V c 6 t :=
  before2_6_of V (dat2 (Name := Name) (U := U) (Lvl := Lvl) V O B q c) (A_eq2 V O B q c 6) (after2_6 V O B q c) t d
theorem before2_7 (c : Dev nD) (t : Fin cfg2.N) (d) : (dat2 (Name := Name) (U := U) (Lvl := Lvl) V O B q c).before 7 t d = iblk2 V c 7 t :=
  before2_7_of V (dat2 (Name := Name) (U := U) (Lvl := Lvl) V O B q c) (A_eq2 V O B q c 7) (after2_7 V O B q c) t d

/-- Windows 1 and 2 are fetched at every point, and the fetch, uncut, fills the whole buffer. -/
theorem before2_1 (c : Dev nD) (t : Fin cfg2.N) (d) : (dat2 (Name := Name) (U := U) (Lvl := Lvl) V O B q c).before 1 t d = blk2_1 V c t :=
  (((dat2 (Name := Name) (U := U) (Lvl := Lvl) V O B q c)).before_fetched 1 t (fetch2_1 t) d).trans
    ((((dat2 (Name := Name) (U := U) (Lvl := Lvl) V O B q c)).fetched_of_clip_none 1 t (clip2_1 t) d (fun _ => Scalar.ofBits .f32 0#32)).trans
      (by unfold Dat.fetched Dat.blockOf blk2_1 iblk2; rw [A_eq2]; try rfl))
theorem before2_2 (c : Dev nD) (t : Fin cfg2.N) (d) : (dat2 (Name := Name) (U := U) (Lvl := Lvl) V O B q c).before 2 t d = blk2_2 V c t :=
  (((dat2 (Name := Name) (U := U) (Lvl := Lvl) V O B q c)).before_fetched 2 t (fetch2_2 t) d).trans
    ((((dat2 (Name := Name) (U := U) (Lvl := Lvl) V O B q c)).fetched_of_clip_none 2 t (clip2_2 t) d (fun _ => Scalar.ofBits .f32 0#32)).trans
      (by unfold Dat.fetched Dat.blockOf blk2_2 iblk2; rw [A_eq2]; try rfl))
end

/-! ## Region 2 (custom_call 4): the second half of the edges, the same body, its output window over the array the first half's results were copied into -/

/-- Window `w`'s block at point `t`, read off its array as the region finds it: its part inside the array. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Windows 1 and 2 are the two halves of the gathered rows, 163840 rows each, in blocks of 8000 rows: the window's
    type allows a block that overhangs the array's end, cut there, and the staging buffer then holds the block's part
    inside the array filled out with words nothing names. At the 20 points of this grid no block overhangs
    (20 · 8000 ≤ 163840): the cut is none on every axis, -/
theorem clip4_1 : ∀ t : Fin cfg4.N, ∀ a, (cfg4.win 1).clip (cfg4.grid.coords t) a = none :=
  (by decide +kernel : ∀ t : Fin grid4.N, ∀ a, win4_1.clip (grid4.coords t) a = none)
theorem clip4_2 : ∀ t : Fin cfg4.N, ∀ a, (cfg4.win 2).clip (cfg4.grid.coords t) a = none :=
  (by decide +kernel : ∀ t : Fin grid4.N, ∀ a, win4_2.clip (grid4.coords t) a = none)

/-- and the staging buffer holds the block whatever it held before; as a function on the whole buffer it is the
    block filled out with the zero word, which fills nothing. -/
def blk4_1 (c : Dev nD) (t : Fin cfg4.N) : S1x8000x128.Idx → Elt F .f32 :=
  win4_1.fill (grid4.coords t) (fun _ => Scalar.ofBits .f32 0#32) (iblk4 V c 1 t)
def blk4_2 (c : Dev nD) (t : Fin cfg4.N) : S1x8000x128.Idx → Elt F .f32 :=
  win4_2.fill (grid4.coords t) (fun _ => Scalar.ofBits .f32 0#32) (iblk4 V c 2 t)

/-- The whole-buffer rectangles the body loads and stores through. -/
abbrev r4_0 : Rect S8000x16 := Rect.unit (s := S8000x16) ![0, 0] S8000x16.size inb_S8000x16_S8000x16_0_0
abbrev r4_1 : Rect S1x8000x128 := Rect.unit (s := S1x8000x128) ![0, 0, 0] S1x8000x128.size inb_S1x8000x128_S1x8000x128_0_0_0
abbrev r4_3 : Rect S16x128 := Rect.unit (s := S16x128) ![0, 0] S16x128.size inb_S16x128_S16x128_0_0
abbrev r4_4 : Rect S128x128 := Rect.unit (s := S128x128) ![0, 0] S128x128.size inb_S128x128_S128x128_0_0
abbrev r4_5 : Rect S1x128 := Rect.unit (s := S1x128) ![0, 0] S1x128.size inb_S1x128_S1x128_0_0
abbrev r4_8 : Rect S8000x128 := Rect.unit (s := S8000x128) ![0, 0] S8000x128.size inb_S8000x128_S8000x128_0_0

/-- The output window's staging buffer after the body, from the eight input blocks (edge features, the two gathered
    row blocks, the two weight matrices, bias, scale and shift): the payload of its one store, which covers the
    buffer — the normalised rows scaled and shifted. -/
def out4_8 (x0 : Vec F S8000x16 .f32) (x1 x2 : Vec F S1x8000x128 .f32) (x3 : Vec F S16x128 .f32) (x4 : Vec F S128x128 .bf16)
    (x5 x6 x7 : Vec F S1x128 .f32) : Vec F S8000x128 .f32 :=
  View.canon [⟨r4_8, k4_pay1 (k4_pay2 (View.ld x0 r4_0) (View.ld x3 r4_3) (View.ld x1 r4_1) (View.ld x2 r4_1) (View.ld x4 r4_4) (View.ld x5 r4_5))
    (View.ld x6 r4_5) (View.ld x7 r4_5)⟩]

/-- The one store tiles the buffer, so it covers it. -/
theorem cover4_8 (p0 : Vec F S8000x128 .f32) (y : S8000x128.Idx) :
    ∃ pc ∈ ([⟨r4_8, p0⟩] : List (View.Piece (Elt F) S8000x128 .f32)), y ∈ pc.1.set :=
  View.cover_of_tiled [⟨r4_8, p0⟩] S8000x128.size (by rfl) y

/-- The proof data of this region on core `c`; `q` names the share of its array each input window holds (windows 1
    and 2 read ONE array, the gathered rows of the second half, and share it). -/
def dat4 (O : CellTallies nD τ sig Ix) (B : Set (SemLoc sig × Ix)) (q : Fin 9 → PosShare TreeShare) (c : Dev nD) :
    Dat τ (Elt F) Ix Name U Lvl cfg4 c where
  A w := V c (Pipeline.arrRef spec4 w)
  after w t := match w with
    | ⟨0, _⟩ => iblk4 V c 0 t
    | ⟨1, _⟩ => blk4_1 V c t
    | ⟨2, _⟩ => blk4_2 V c t
    | ⟨3, _⟩ => iblk4 V c 3 t
    | ⟨4, _⟩ => iblk4 V c 4 t
    | ⟨5, _⟩ => iblk4 V c 5 t
    | ⟨6, _⟩ => iblk4 V c 6 t
    | ⟨7, _⟩ => iblk4 V c 7 t
    | ⟨8, _⟩ => out4_8 (iblk4 V c 0 t) (blk4_1 V c t) (blk4_2 V c t) (iblk4 V c 3 t) (iblk4 V c 4 t) (iblk4 V c 5 t) (iblk4 V c 6 t) (iblk4 V c 7 t)
  Φ _ := Pipeline.scopedRest (Ix := Ix) (Name := Name) (U := U) (Lvl := Lvl) (Val := Elt F) spec4 c
  q := q
  owed _ := O
  recorded _ := B

section
variable (O : CellTallies nD τ sig Ix) (B : Set (SemLoc sig × Ix)) (q : Fin 9 → PosShare TreeShare)

theorem A_eq4 (c : Dev nD) (w : Fin cfg4.W) : (dat4 (Name := Name) (U := U) (Lvl := Lvl) V O B q c).A w = V c (Pipeline.arrRef spec4 w) := by
  dsimp only [dat4]

theorem after4_0 (c : Dev nD) (t : Fin cfg4.N) : (dat4 (Name := Name) (U := U) (Lvl := Lvl) V O B q c).after 0 t = iblk4 V c 0 t := by dsimp only [dat4]
theorem after4_3 (c : Dev nD) (t : Fin cfg4.N) : (dat4 (Name := Name) (U := U) (Lvl := Lvl) V O B q c).after 3 t = iblk4 V c 3 t := by dsimp only [dat4]
theorem after4_4 (c : Dev nD) (t : Fin cfg4.N) : (dat4 (Name := Name) (U := U) (Lvl := Lvl) V O B q c).after 4 t = iblk4 V c 4 t := by dsimp only [dat4]
theorem after4_5 (c : Dev nD) (t : Fin cfg4.N) : (dat4 (Name := Name) (U := U) (Lvl := Lvl) V O B q c).after 5 t = iblk4 V c 5 t := by dsimp only [dat4]
theorem after4_6 (c : Dev nD) (t : Fin cfg4.N) : (dat4 (Name := Name) (U := U) (Lvl := Lvl) V O B q c).after 6 t = iblk4 V c 6 t := by dsimp only [dat4]
theorem after4_7 (c : Dev nD) (t : Fin cfg4.N) : (dat4 (Name := Name) (U := U) (Lvl := Lvl) V O B q c).after 7 t = iblk4 V c 7 t := by dsimp only [dat4]
theorem after4_1 (c : Dev nD) (t : Fin cfg4.N) : (dat4 (Name := Name) (U := U) (Lvl := Lvl) V O B q c).after 1 t = blk4_1 V c t := by dsimp only [dat4]
theorem after4_2 (c : Dev nD) (t : Fin cfg4.N) : (dat4 (Name := Name) (U := U) (Lvl := Lvl) V O B q c).after 2 t = blk4_2 V c t := by dsimp only [dat4]
theorem after4_8 (c : Dev nD) (t : Fin cfg4.N) : (dat4 (Name := Name) (U := U) (Lvl := Lvl) V O B q c).after 8 t
    = out4_8 (iblk4 V c 0 t) (blk4_1 V c t) (blk4_2 V c t) (iblk4 V c 3 t) (iblk4 V c 4 t) (iblk4 V c 5 t) (iblk4 V c 6 t) (iblk4 V c 7 t) := by
  dsimp only [dat4]

/-- An uncut input window's current staging buffer holds its block at every point, fetched there or not. -/
theorem before4_0_of {c : Dev nD} (dat : Dat τ (Elt F) Ix Name U Lvl cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Ix Name U Lvl cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
theorem before4_4_of {c : Dev nD} (dat : Dat τ (Elt F) Ix Name U Lvl cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)
theorem before4_5_of {c : Dev nD} (dat : Dat τ (Elt F) Ix Name U Lvl cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)
theorem before4_6_of {c : Dev nD} (dat : Dat τ (Elt F) Ix Name U Lvl cfg4 c) (hA : dat.A 6 = V c (Pipeline.arrRef spec4 6))
    (hafter : ∀ t, dat.after 6 t = iblk4 V c 6 t) (t : Fin cfg4.N) (d) : dat.before 6 t d = iblk4 V c 6 t :=
  (dat.before_in_eq_fetched 6 rfl (fun _ => rfl) (fun _ _ _ => rfl) (fun t => by rw [hafter]; unfold Dat.blockOf iblk4; rw [hA]; try rfl) t d).trans
    (by unfold Dat.fetched Dat.blockOf iblk4; rw [hA]; try rfl)
theorem before4_7_of {c : Dev nD} (dat : Dat τ (Elt F) Ix Name U Lvl cfg4 c) (hA : dat.A 7 = V c (Pipeline.arrRef spec4 7))
    (hafter : ∀ t, dat.after 7 t = iblk4 V c 7 t) (t : Fin cfg4.N) (d) : dat.before 7 t d = iblk4 V c 7 t :=
  (dat.before_in_eq_fetched 7 rfl (fun _ => rfl) (fun _ _ _ => rfl) (fun t => by rw [hafter]; unfold Dat.blockOf iblk4; rw [hA]; try rfl) t d).trans
    (by unfold Dat.fetched Dat.blockOf iblk4; rw [hA]; try rfl)

theorem before4_0 (c : Dev nD) (t : Fin cfg4.N) (d) : (dat4 (Name := Name) (U := U) (Lvl := Lvl) V O B q c).before 0 t d = iblk4 V c 0 t :=
  before4_0_of V (dat4 (Name := Name) (U := U) (Lvl := Lvl) V O B q c) (A_eq4 V O B q c 0) (after4_0 V O B q c) t d
theorem before4_3 (c : Dev nD) (t : Fin cfg4.N) (d) : (dat4 (Name := Name) (U := U) (Lvl := Lvl) V O B q c).before 3 t d = iblk4 V c 3 t :=
  before4_3_of V (dat4 (Name := Name) (U := U) (Lvl := Lvl) V O B q c) (A_eq4 V O B q c 3) (after4_3 V O B q c) t d
theorem before4_4 (c : Dev nD) (t : Fin cfg4.N) (d) : (dat4 (Name := Name) (U := U) (Lvl := Lvl) V O B q c).before 4 t d = iblk4 V c 4 t :=
  before4_4_of V (dat4 (Name := Name) (U := U) (Lvl := Lvl) V O B q c) (A_eq4 V O B q c 4) (after4_4 V O B q c) t d
theorem before4_5 (c : Dev nD) (t : Fin cfg4.N) (d) : (dat4 (Name := Name) (U := U) (Lvl := Lvl) V O B q c).before 5 t d = iblk4 V c 5 t :=
  before4_5_of V (dat4 (Name := Name) (U := U) (Lvl := Lvl) V O B q c) (A_eq4 V O B q c 5) (after4_5 V O B q c) t d
theorem before4_6 (c : Dev nD) (t : Fin cfg4.N) (d) : (dat4 (Name := Name) (U := U) (Lvl := Lvl) V O B q c).before 6 t d = iblk4 V c 6 t :=
  before4_6_of V (dat4 (Name := Name) (U := U) (Lvl := Lvl) V O B q c) (A_eq4 V O B q c 6) (after4_6 V O B q c) t d
theorem before4_7 (c : Dev nD) (t : Fin cfg4.N) (d) : (dat4 (Name := Name) (U := U) (Lvl := Lvl) V O B q c).before 7 t d = iblk4 V c 7 t :=
  before4_7_of V (dat4 (Name := Name) (U := U) (Lvl := Lvl) V O B q c) (A_eq4 V O B q c 7) (after4_7 V O B q c) t d

/-- Windows 1 and 2 are fetched at every point, and the fetch, uncut, fills the whole buffer. -/
theorem before4_1 (c : Dev nD) (t : Fin cfg4.N) (d) : (dat4 (Name := Name) (U := U) (Lvl := Lvl) V O B q c).before 1 t d = blk4_1 V c t :=
  (((dat4 (Name := Name) (U := U) (Lvl := Lvl) V O B q c)).before_fetched 1 t (fetch4_1 t) d).trans
    ((((dat4 (Name := Name) (U := U) (Lvl := Lvl) V O B q c)).fetched_of_clip_none 1 t (clip4_1 t) d (fun _ => Scalar.ofBits .f32 0#32)).trans
      (by unfold Dat.fetched Dat.blockOf blk4_1 iblk4; rw [A_eq4]; try rfl))
theorem before4_2 (c : Dev nD) (t : Fin cfg4.N) (d) : (dat4 (Name := Name) (U := U) (Lvl := Lvl) V O B q c).before 2 t d = blk4_2 V c t :=
  (((dat4 (Name := Name) (U := U) (Lvl := Lvl) V O B q c)).before_fetched 2 t (fetch4_2 t) d).trans
    ((((dat4 (Name := Name) (U := U) (Lvl := Lvl) V O B q c)).fetched_of_clip_none 2 t (clip4_2 t) d (fun _ => Scalar.ofBits .f32 0#32)).trans
      (by unfold Dat.fetched Dat.blockOf blk4_2 iblk4; rw [A_eq4]; try rfl))
end

end Regions

/-! ## The three regions' proof data as one family -/

/-- The prefetched tables' admissible contents: no pipeline has a table. -/
abbrev adm : (p : Fin 3) → (pcfgs (F := F) p).Adm := fun p => (cfgs p).toPCfg_adm

/-- Every pipeline's proof data, each region at the contents it is entered at (`V0`, `V2`, `V4`), at what the core
    owes there (`O p`) and the bound on its recorded wait pairs (`B p`): a literal match on the pipeline. -/
def pdats (V0 V2 V4 : (c : Dev nD) → (b : Ref sig .tc) → Buf (Elt F) ((c : Thread nD τ).loc b))
    (O : Fin 3 → CellTallies nD τ sig Ix) (B : Fin 3 → Set (SemLoc sig × Ix)) (q2 q4 : Fin 9 → PosShare TreeShare) :
    (p : Fin 3) → (c : Dev nD) → Dat τ (Elt F) Ix Name U Lvl (Pipeline.pin (pcfgs (F := F)) adm p) c
  | ⟨0, _⟩ => fun c => dat0 V0 (O 0) (B 0) c
  | ⟨1, _⟩ => fun c => dat2 V2 (O 1) (B 1) q2 c
  | ⟨2, _⟩ => fun c => dat4 V4 (O 2) (B 2) q4 c

end Cert.ProofBits.Tc

end
-- ==== Proof.Bits.ScLaunch.lean ====
/-
  The launch element of the ghost state. From the launch's element of the product algebra — the handshake cells' rounds,
  the subcore-barrier cells' rounds (two on each cell, one per gather), the three pipelines' staging cells' rounds, the
  transfers' counters at their unit — together with the credit for what the tiles owe at the barriers and the tiles'
  barrier semaphores at zero: the handshakes' share goes to the launch theorem; the pipelines' cells' launch state and
  duty tokens go to @main, one summand per kernel region; and the barrier cells' invariants are allocated at once and
  dealt, with each tile's duty tokens in both rounds, its origin in round 0 and its credit, into the tiles' kits.
-/
import proofs.«217078_g14027363189340_cont_week2b_886_24_alg».proof.Proof.Bits.ScPay
import proofs.«217078_g14027363189340_cont_week2b_886_24_alg».proof.Proof.Bits.TcData
import Idealize.ShloMosaic.Lib.Pipeline.Sound

noncomputable section

namespace Cert.ProofBits.Sc

open Cert.Kernel Cert.Kernel.Gen

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

/-! ## The barrier cells and their tokens -/

abbrev DCI : Type := Dev nD × Fin τ.nSC × Fin τ.nSub
abbrev bcell₃ (x : DCI) : GSem nD τ sig := bcell x.1 x.2.1 x.2.2

/-- Every tile's barrier semaphore. -/
def bCells : Finset (GSem nD τ sig) := Finset.univ.image bcell₃
/-- Tile `i`'s token in tile `j`'s cell in round `q`, for every pair of tiles of a SparseCore and both rounds. -/
def bToks : Finset (GSem nD τ sig × ℕ × ℕ) :=
  Finset.univ.image fun x : (DCI × Fin (grid1.bound 1)) × Fin 2 => (bcell x.1.1.1 x.1.1.2.1 (x.1.2.castLE hsub1), x.2.val, x.1.1.2.2.val)

omit [FloatOps F] in
theorem bcell₃_injective : Function.Injective (bcell₃ : DCI → GSem nD τ sig) := fun a b e => by
  obtain ⟨h1, h2⟩ := Prod.mk.inj (Prod.mk.inj e).1; obtain ⟨h3, h4⟩ := Proc.scVector.inj h2
  exact Prod.ext h1 (Prod.ext h3 h4)

omit [FloatOps F] in
theorem bCells_eq (Φ : GSem nD τ sig → sProp 𝕄) : bigSep bCells Φ = bigSep Finset.univ fun x : DCI => Φ (bcell₃ x) := by
  unfold bCells; exact SparseCore.bigSep_image_of_injOn (fun a _ b _ e => bcell₃_injective e) Φ

/-- Every barrier semaphore at zero, out of the free semaphores the launch hands over. -/
theorem sems_b : ((K (F := F)).freeSems0 : sProp 𝕄) ⊢ bigSep bCells fun g => semVal g 0 := by
  unfold SparseCore.Cfg.freeSems0 bCells
  rw [SparseCore.bigSep_image_of_injOn (fun a _ b _ e => bcell₃_injective e)]
  refine sep_elim_right.trans (bigSep_mono fun dci _ => ?_)
  unfold SparseCore.Cfg.vcSems0
  exact bigSep_elim (Φ := fun sm : SemLoc sig => (semVal (V dci.1 dci.2.1 dci.2.2, sm) 0 : sProp 𝕄))
    (Finset.mem_erase.mpr ⟨fun h => sc_bar0_ne_go (SemLoc.reg.inj h), Finset.mem_filter.mpr ⟨Finset.mem_univ _, by decide⟩⟩)

/-- The barrier cells' invariants, allocated at once. -/
theorem invs_b : iprop((bigSep bCells fun g => (semVal g 0 : sProp 𝕄)) ∗ bigSep bCells fun g => roundState EB (bRd (F := F)) g 0)
    ⊢ |={Set.univ}=> iprop(∃ κ : GSem nD τ sig → ℕ, bigSep bCells fun g => cellInv EB (bRd (F := F)) (κ g) g) := by
  refine (Rounds.bodies_intro EB (bRd (F := F)) bCells).trans ((inv_alloc_family bCells (Rounds.body EB (bRd (F := F))) ∅ (E := Set.univ)).trans ?_)
  iintro H
  imod H with ⟨%κ, -, Hinv⟩
  imodintro; iexists κ; iexact Hinv

omit [FloatOps F] in
/-- The tokens, tile by tile, cell by cell, round by round. -/
theorem toks_eq : (bigSep bToks fun x => (dutyTok EB x.1 x.2.1 x.2.2 : sProp 𝕄))
    = bigSep Finset.univ fun dci : DCI => bigSep Finset.univ fun j : Fin (grid1.bound 1) => bigSep Finset.univ fun q : Fin 2 =>
        dutyTok EB (bcell dci.1 dci.2.1 (j.castLE hsub1)) q.val dci.2.2.val := by
  unfold bToks
  rw [SparseCore.bigSep_image_of_injOn, bigSep_univ_prod, bigSep_univ_prod]
  rintro ⟨⟨⟨d, c, i⟩, j⟩, q⟩ - ⟨⟨⟨d', c', i'⟩, j'⟩, q'⟩ - e
  have e1 := (Prod.mk.inj (Prod.mk.inj e).1).1
  have e2 : i.val = i'.val := (Prod.mk.inj (Prod.mk.inj e).2).2
  have e3 : q.val = q'.val := (Prod.mk.inj (Prod.mk.inj e).2).1
  obtain ⟨rfl, h⟩ := Prod.mk.inj e1
  obtain ⟨rfl, hj⟩ := Proc.scVector.inj h
  have hj' : j = j' := Fin.ext (congrArg Fin.val hj)
  subst hj'
  have hi' : i = i' := Fin.ext e2
  subst hi'
  have hq' : q = q' := Fin.ext e3
  subst hq'
  rfl

/-! ## The credit for the tiles' arrivals, regrouped -/

omit [FloatOps F] in
/-- A conjunction over the two calls, spelt out. -/
theorem bigSep_fin2 (Φ : Fin 2 → sProp 𝕄) : bigSep Finset.univ Φ = iprop(Φ 0 ∗ Φ 1) :=
  bigSep_univ_eq_bigSepL [(0 : Fin 2), (1 : Fin 2)] (by decide) (by decide) Φ

omit [FloatOps F] in
theorem sum_tallyAt_one (g : GSem nD τ sig) (ι : HIx 2) : ∀ n : ℕ, ∑ _ : Fin n, tallyAt g ι 1 = (tallyAt g ι n : CellTallies nD τ sig (HIx 2))
  | 0 => by rw [Finset.sum_of_isEmpty, tallyAt_zero]
  | n + 1 => by rw [Fin.sum_univ_castSucc, sum_tallyAt_one g ι n, tallyAt_add]

/-- What a tile owes from the launch: its arrivals at both calls' barriers. -/
theorem oxFrom_V (d : Dev nD) (c : Fin τ.nSC) (i : Fin τ.nSub) : (P (F := F)).oxFrom 0 (V d c i) = oxV 0 d c + oxV 1 d c := by
  rw [show (0 : ℕ) = (0 : Fin 2).val from rfl, (P (F := F)).oxFrom_step, show (0 : Fin 2).val + 1 = (1 : Fin 2).val from rfl,
    (P (F := F)).oxFrom_step, (P (F := F)).oxFrom_end _ (n := (1 : Fin 2).val + 1) le_rfl, add_zero]
  rfl

/-- The credit for one call's arrivals at one SparseCore's barrier, tile by tile: each tile the sixteen units of its own cell. -/
theorem cred_oxV (q : Fin 2) (d : Dev nD) (c : Fin τ.nSC) :
    (bigSep Finset.univ fun _ : Fin τ.nSub => (cred (oxV q d c) : sProp 𝕄))
      = bigSep Finset.univ fun i : Fin τ.nSub => (cred (tallyAt (bcell d c i) (some q) (grid1.bound 1)) : sProp 𝕄) := by
  unfold oxV
  simp only [SparseCore.Cfg.cred_finsum]
  rw [bigSep_univ_comm]
  refine bigSep_congr fun j _ => ?_
  rw [← SparseCore.Cfg.cred_finsum, sum_tallyAt_one]
  rfl

/-- The credit for the kernels' own debts, regrouped: each tile the sixteen units of its own cell, for either call. -/
theorem creds_b : ((P (F := F)).oxCred : sProp 𝕄)
    ⊢ bigSep Finset.univ fun dci : DCI => bigSep Finset.univ fun q : Fin 2 => cred (tallyAt (bcell₃ dci) (some q) (grid1.bound 1)) := by
  unfold SparseCore.Cfg.Pay.oxCred
  rw [SparseCore.Cfg.bigSep_threads (fun thr : Thread nD τ => (cred ((P (F := F)).oxFrom 0 thr) : sProp 𝕄))]
  refine sep_elim_right.trans (sep_elim_right.trans ?_)
  rw [bigSep_univ_prod, bigSep_univ_prod (fun dci : DCI => bigSep Finset.univ fun q : Fin 2 => (cred (tallyAt (bcell₃ dci) (some q) (grid1.bound 1)) : sProp 𝕄))]
  refine bigSep_mono fun d _ => ?_
  rw [bigSep_univ_prod, bigSep_univ_prod (fun ci : Fin τ.nSC × Fin τ.nSub => bigSep Finset.univ fun q : Fin 2 => (cred (tallyAt (bcell₃ (d, ci)) (some q) (grid1.bound 1)) : sProp 𝕄))]
  refine bigSep_mono fun c _ => ?_
  dsimp only
  simp only [oxFrom_V, SparseCore.Cfg.cred_add_eq]
  rw [bigSep_sep', cred_oxV 0 d c, cred_oxV 1 d c, ← bigSep_sep']
  refine bigSep_mono fun i _ => ?_
  rw [bigSep_fin2]
  exact BI.Entails.refl _

/-! ## The tiles' kits -/

/-- What every tile is handed alike: every barrier cell's invariant, and that each has reached round 0. -/
abbrev shared : sProp 𝕄 :=
  iprop((∃ κ : GSem nD τ sig → ℕ, bigSep Finset.univ fun x : DCI => cellInv EB (bRd (F := F)) (κ (bcell₃ x)) (bcell₃ x))
    ∗ bigSep Finset.univ fun x : DCI => reached EB (bcell₃ x) 0)
/-- What each tile is handed of its own: its origin in round 0 of its cell, its tokens in every cell of its SparseCore in
    both rounds, its credit for both calls. -/
abbrev mine (dci : DCI) : sProp 𝕄 :=
  iprop(atPos EB (bcell₃ dci) 0 ∅ 0
    ∗ (bigSep Finset.univ fun j : Fin (grid1.bound 1) => bigSep Finset.univ fun q : Fin 2 => dutyTok EB (bcell dci.1 dci.2.1 (j.castLE hsub1)) q.val dci.2.2.val)
    ∗ (bigSep Finset.univ fun q : Fin 2 => cred (tallyAt (bcell₃ dci) (some q) (grid1.bound 1))))

omit [FloatOps F] in
/-- A persistent resource beside a big separating conjunction goes to each conjunct. -/
theorem bigSep_mono_frame {I : Type} [DecidableEq I] {R : sProp 𝕄} [BI.Persistent R] {s : Finset I} {Φ Ψ : I → sProp 𝕄}
    (h : ∀ i ∈ s, iprop(R ∗ Φ i) ⊢ Ψ i) : iprop(R ∗ bigSep s Φ) ⊢ bigSep s Ψ := by
  induction s using Finset.induction_on with
  | empty => rw [bigSep_empty, bigSep_empty]; exact sep_elim_right
  | insert a s ha ih =>
    rw [SparseCore.bigSep_insert' ha, SparseCore.bigSep_insert' ha]
    iintro ⟨#HR, H1, H2⟩
    isplitl [H1]
    · iapply (h a (Finset.mem_insert_self _ _)); isplitr; · iexact HR
      iexact H1
    · iapply (ih fun i hi => h i (Finset.mem_insert_of_mem hi)); isplitr; · iexact HR
      iexact H2

omit [FloatOps F] in
theorem bigSep_emp' {I : Type} (s : Finset I) : (bigSep s fun _ => iprop(emp)) = (iprop(emp) : sProp 𝕄) := bigSep_emp_const s

/-- The invariants of one SparseCore's cells, out of all of them. -/
theorem invs_of_shared (κ : GSem nD τ sig → ℕ) (d : Dev nD) (c : Fin τ.nSC) :
    (bigSep Finset.univ fun x : DCI => cellInv EB (bRd (F := F)) (κ (bcell₃ x)) (bcell₃ x) : sProp 𝕄)
      ⊢ bigSep Finset.univ fun j : Fin (grid1.bound 1) => cellInv EB (bRd (F := F)) (κ (bcell d c (j.castLE hsub1))) (bcell d c (j.castLE hsub1)) := by
  refine (show _ ⊢ iprop((bigSep Finset.univ fun x : DCI => cellInv EB (bRd (F := F)) (κ (bcell₃ x)) (bcell₃ x))
      ∗ bigSep (Finset.univ : Finset (Fin (grid1.bound 1))) fun _ => (iprop(emp) : sProp 𝕄)) from ?_).trans
    (bigSep_mono_frame (s := (Finset.univ : Finset (Fin (grid1.bound 1)))) (Φ := fun _ => iprop(emp))
      (R := bigSep Finset.univ fun x : DCI => cellInv EB (bRd (F := F)) (κ (bcell₃ x)) (bcell₃ x)) fun j _ =>
        sep_elim_left.trans (bigSep_elim (Φ := fun x : DCI => (cellInv EB (bRd (F := F)) (κ (bcell₃ x)) (bcell₃ x) : sProp 𝕄))
          (i := (d, c, Fin.castLE hsub1 j)) (Finset.mem_univ _)))
  rw [bigSep_emp']
  iintro #H
  isplitl; · iexact H
  iempintro

omit [FloatOps F] in
/-- That one SparseCore's cells have reached round 0, out of all of them. -/
theorem reached_of_shared (d : Dev nD) (c : Fin τ.nSC) :
    (bigSep Finset.univ fun x : DCI => reached EB (bcell₃ x) 0 : sProp 𝕄)
      ⊢ bigSep Finset.univ fun j : Fin (grid1.bound 1) => reached EB (bcell d c (j.castLE hsub1)) 0 := by
  refine (show _ ⊢ iprop((bigSep Finset.univ fun x : DCI => reached EB (bcell₃ x) 0)
      ∗ bigSep (Finset.univ : Finset (Fin (grid1.bound 1))) fun _ => (iprop(emp) : sProp 𝕄)) from ?_).trans
    (bigSep_mono_frame (s := (Finset.univ : Finset (Fin (grid1.bound 1)))) (Φ := fun _ => iprop(emp))
      (R := bigSep Finset.univ fun x : DCI => reached EB (bcell₃ x) 0) fun j _ =>
        sep_elim_left.trans (bigSep_elim (Φ := fun x : DCI => (reached EB (bcell₃ x) 0 : sProp 𝕄))
          (i := (d, c, Fin.castLE hsub1 j)) (Finset.mem_univ _)))
  rw [bigSep_emp']
  iintro #H
  isplitl; · iexact H
  iempintro

/-- One tile's two kits out of those. -/
theorem kit_intro (dci : DCI) :
    iprop(shared (F := F) ∗ mine dci) ⊢ (iprop(kit (F := F) 0 dci.1 dci.2.1 dci.2.2 ∗ kit (F := F) 1 dci.1 dci.2.1 dci.2.2) : sProp 𝕄) := by
  obtain ⟨d, c, i⟩ := dci
  unfold mine
  simp only [bigSep_fin2]
  rw [bigSep_sep']
  iintro ⟨⟨#Hinv, #Hr⟩, Hat, ⟨Htok0, Htok1⟩, Hc0, Hc1⟩
  icases Hinv with ⟨%κ, Hinv⟩
  ihave Hinv' := (invs_of_shared (F := F) κ d c) $$ Hinv
  ihave Hr' := (reached_of_shared (F := F) d c) $$ Hr
  unfold kit kitFirst
  isplitl [Htok0 Hat Hc0]
  · isplitr; · iexists κ; iexact Hinv'
    isplitl [Htok0]; · iexact Htok0
    isplitl [Hat]
    · rw [if_pos (show (0 : Fin 2).val = 0 from rfl)]
      isplitr; · iexact Hr'
      iexact Hat
    iexact Hc0
  · isplitr; · iexists κ; iexact Hinv'
    isplitl [Htok1]; · iexact Htok1
    isplitr
    · rw [if_neg (show ¬ ((1 : Fin 2).val = 0) from by decide)]; iempintro
    iexact Hc1

/-- Each tile its two kits; the TensorCore and the sequencers are dealt nothing. -/
theorem kits_deal :
    iprop(shared (F := F) ∗ (bigSep Finset.univ fun x : DCI => atPos EB (bcell₃ x) 0 ∅ 0)
        ∗ (bigSep Finset.univ fun dci : DCI => bigSep Finset.univ fun j : Fin (grid1.bound 1) => bigSep Finset.univ fun q : Fin 2 =>
            dutyTok EB (bcell dci.1 dci.2.1 (j.castLE hsub1)) q.val dci.2.2.val)
        ∗ (bigSep Finset.univ fun dci : DCI => bigSep Finset.univ fun q : Fin 2 => cred (tallyAt (bcell₃ dci) (some q) (grid1.bound 1))))
      ⊢ (bigSep Finset.univ fun thr : Thread nD τ => bigSep Finset.univ fun q : Fin 2 => (P (F := F)).x q thr : sProp 𝕄) := by
  rw [SparseCore.Cfg.bigSep_threads (fun thr : Thread nD τ => bigSep Finset.univ fun q : Fin 2 => (P (F := F)).x q thr)]
  have hT : ∀ d : Dev nD, (bigSep Finset.univ fun q : Fin 2 => (P (F := F)).x q (SparseCore.T d)) = (iprop(emp) : sProp 𝕄) :=
    fun d => (bigSep_congr fun _ _ => rfl).trans (bigSep_emp' _)
  have hS : ∀ (d : Dev nD) (c : Fin τ.nSC), (bigSep Finset.univ fun q : Fin 2 => (P (F := F)).x q (S d c)) = (iprop(emp) : sProp 𝕄) :=
    fun d c => (bigSep_congr fun _ _ => rfl).trans (bigSep_emp' _)
  have hV : ∀ (d : Dev nD) (c : Fin τ.nSC) (i : Fin τ.nSub), (bigSep Finset.univ fun q : Fin 2 => (P (F := F)).x q (V d c i))
      = (iprop(kit (F := F) 0 d c i ∗ kit (F := F) 1 d c i) : sProp 𝕄) := fun d c i => bigSep_fin2 _
  simp only [hT, hS, hV, bigSep_emp']
  iintro ⟨#Hsh, Hat, Htok, Hcred⟩
  isplitr; · iempintro
  isplitr; · iempintro
  iapply (bigSep_mono_frame (R := shared (F := F)) (Φ := mine (F := F)) fun dci _ => kit_intro (F := F) dci)
  isplitr; · iexact Hsh
  unfold mine
  rw [bigSep_sep', bigSep_sep']
  isplitl [Hat]; · iexact Hat
  isplitl [Htok]; · iexact Htok
  iexact Hcred

/-! ## The pipelines' staging cells, and the launch element -/

/-- What @main is dealt for kernel region `p`: its staging cells' launch state and their duty tokens. -/
abbrev Gp (p : Fin 3) (d : Dev nD) : sProp 𝕄 :=
  iprop(Pipeline.cellsGhost (Pipeline.pin (pcfgs (F := F)) Cert.ProofBits.Tc.adm) EP p d ∗ Pipeline.toksInit (Pipeline.pin (pcfgs (F := F)) Cert.ProofBits.Tc.adm) EP p d)

omit [FloatOps F] in
theorem bigSep_fin3 (Φ : Fin 3 → sProp 𝕄) : bigSep Finset.univ Φ = iprop(Φ 0 ∗ Φ 1 ∗ Φ 2) :=
  bigSep_univ_eq_bigSepL [(0 : Fin 3), (1 : Fin 3), (2 : Fin 3)] (by decide) (by decide) Φ

/-- The pipelines' cells' launch state and tokens, device by device and region by region. -/
theorem ghosts_deal :
    iprop((bigSep Finset.univ fun c : Dev nD => bigSep Finset.univ fun p : Fin 3 => Pipeline.cellsGhost (Pipeline.pin (pcfgs (F := F)) Cert.ProofBits.Tc.adm) EP p c)
        ∗ (bigSep Finset.univ fun c : Dev nD => bigSep Finset.univ fun p : Fin 3 => (Pipeline.toksInit (Pipeline.pin (pcfgs (F := F)) Cert.ProofBits.Tc.adm) EP p c : sProp 𝕄)))
      ⊢ (bigSep Finset.univ fun d : Dev nD => iprop(Gp (F := F) 0 d ∗ Gp (F := F) 1 d ∗ Gp (F := F) 2 d) : sProp 𝕄) := by
  rw [← bigSep_sep']
  refine bigSep_mono fun d _ => ?_
  rw [bigSep_fin3, bigSep_fin3]
  show (_ : sProp 𝕄) ⊢ _
  unfold Gp
  iintro ⟨⟨Hc0, Hc1, Hc2⟩, Ht0, Ht1, Ht2⟩
  isplitl [Hc0 Ht0]
  · isplitl [Hc0] <;> iassumption
  isplitl [Hc1 Ht1]
  · isplitl [Hc1] <;> iassumption
  isplitl [Hc2] <;> iassumption

/-- The launch's element of the product algebra. -/
def u₀ : UU :=
  (initOf (K (F := F)).hsCells (K (F := F)).hsToks,
    (initOf bCells bToks,
      (initOf (Pipeline.cells (Pipeline.pin (pcfgs (F := F)) Cert.ProofBits.Tc.adm) cellOf_inj) (Pipeline.launchToks (Pipeline.pin (pcfgs (F := F)) Cert.ProofBits.Tc.adm) cellOf_inj), 1)))

theorem hu₀ : iprop(ownU (u₀ (F := F)) ∗ (P (F := F)).oxCred ∗ (K (F := F)).freeSems0)
    ⊢ |={Set.univ}=> iprop(BI.own (EH (initOf (K (F := F)).hsCells (K (F := F)).hsToks))
        ∗ (bigSep Finset.univ fun d : Dev nD => iprop(Gp (F := F) 0 d ∗ Gp (F := F) 1 d ∗ Gp (F := F) 2 d))
        ∗ (bigSep Finset.univ fun thr : Thread nD τ => bigSep Finset.univ fun q : Fin 2 => (P (F := F)).x q thr) : sProp 𝕄) := by
  unfold u₀
  iintro ⟨Hu, Hcred, Hfree⟩
  ihave H := (ownU_split3 _ _ _) $$ Hu
  icases H with ⟨HH, HB, HP⟩
  imod (Rounds.fund EB (bRd (F := F)) bCells bToks) $$ HB with ⟨Hst, #Hr, Hat, Htok⟩
  imod (Pipeline.fund_ghost (Pipeline.pin (pcfgs (F := F)) Cert.ProofBits.Tc.adm) EP cellOf_inj) $$ HP with ⟨Hcg, Hti⟩
  ihave Hsems := (sems_b (F := F)) $$ Hfree
  imod (invs_b (F := F)) $$ [Hsems Hst] with ⟨%κ, #Hinv⟩
  · isplitl [Hsems] <;> iassumption
  ihave Hcred' := (creds_b (F := F)) $$ Hcred
  ihave Hinv' := (Entails.of_eq (bCells_eq (F := F) fun g => cellInv EB (bRd (F := F)) (κ g) g)) $$ Hinv
  ihave Hr' := (Entails.of_eq (bCells_eq (F := F) fun g => reached EB g 0)) $$ Hr
  ihave Hat' := (Entails.of_eq (bCells_eq (F := F) fun g => atPos EB g 0 ∅ 0)) $$ Hat
  ihave Htok' := (Entails.of_eq (toks_eq (F := F))) $$ Htok
  imodintro
  isplitl [HH]; · iexact HH
  isplitl [Hcg Hti]
  · iapply (ghosts_deal (F := F))
    isplitl [Hcg]; · iexact Hcg
    iexact Hti
  iapply (kits_deal (F := F))
  isplitr
  · isplitl; · iexists κ; iexact Hinv'
    iexact Hr'
  isplitl [Hat']; · iexact Hat'
  isplitl [Htok']; · iexact Htok'
  iexact Hcred'

end Cert.ProofBits.Sc

end
-- ==== Proof.Bits.TcBody0.lean ====
import proofs.«217078_g14027363189340_cont_week2b_886_24_alg».proof.Proof.Bits.TcData

set_option maxRecDepth 16384

noncomputable section

namespace Cert.ProofBits.Tc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {Name : Type} [DecidableEq Name] {U : Type} [URA U] {Lvl : Type}

local notation "𝕄" => MT nD τ sig Ix (Elt F) Name U Lvl

variable [Preorder Lvl]

/-! # Region 0's body obligation -/

section
variable (V : (c : Dev nD) → (b : Ref sig .tc) → Buf (Elt F) ((c : Thread nD τ).loc b))
variable (O : CellTallies nD τ sig Ix) (B : Set (SemLoc sig × Ix)) (ι : Ix)

set_option maxHeartbeats 1000000 in
/-- The body on whole staging memrefs, the four inputs' at read contents `x0 … x3` and the output's at anything, runs
    to the continuation holding the inputs' as they were and the output's at `out0_4` of them: five whole loads (the
    last one dead) and one whole store of the payload. -/
theorem sound_kernel0 (c : Dev nD) (E : Set Name) (i : grid0.Coords)
    (arg1 : Memref sig .tc .vmem S10000x128 .f32) (harg1 : arg1.IsWhole) (arg2 : Memref sig .tc .vmem S10000x128 .f32) (harg2 : arg2.IsWhole)
    (arg3 : Memref sig .tc .vmem S1x128x128 .f32) (harg3 : arg3.IsWhole) (arg4 : Memref sig .tc .vmem S1x1x128 .f32) (harg4 : arg4.IsWhole)
    (arg5 : Memref sig .tc .vmem S1x10000x128 .f32) (harg5 : arg5.IsWhole)
    (x0 x1 : Vec F S10000x128 .f32) (x2 : Vec F S1x128x128 .f32) (x3 : Vec F S1x1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0_4 i x0 x1 x2 x3)) -∗ K ⟨⟩))
      ⊢ wp frame (wpE (defs₀ (F := F)) Variants.none c none) E (cc0__tables_body i arg1 harg1 arg2 harg2 arg3 harg3 arg4 harg4 arg5 harg5) K := by
  simp only [cc0__tables_body_eq_skeleton]; unfold cc0__tables_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-- What the body is called with at point `t`, the windows one by one, -/
def bodyPre0 (c : Dev nD) (t : Fin cfg0.N) : sProp 𝕄 :=
  iprop((dat0 (Name := Name) (U := U) (Lvl := Lvl) V O B c).Φ t.castSucc ∗ (dat0 (Name := Name) (U := U) (Lvl := Lvl) V O B c).owesAt ι t.castSucc
    ∗ (∃ d, owns (c : Thread nD τ) (st0_0 t) fullShare ((dat0 (Name := Name) (U := U) (Lvl := Lvl) V O B c).before 0 t d))
    ∗ (∃ d, owns (c : Thread nD τ) (st0_1 t) fullShare ((dat0 (Name := Name) (U := U) (Lvl := Lvl) V O B c).before 1 t d))
    ∗ (∃ d, owns (c : Thread nD τ) (st0_2 t) fullShare ((dat0 (Name := Name) (U := U) (Lvl := Lvl) V O B c).before 2 t d))
    ∗ (∃ d, owns (c : Thread nD τ) (st0_3 t) fullShare ((dat0 (Name := Name) (U := U) (Lvl := Lvl) V O B c).before 3 t d))
    ∗ (∃ d, owns (c : Thread nD τ) (st0_4 t) fullShare ((dat0 (Name := Name) (U := U) (Lvl := Lvl) V O B c).before 4 t d)))

/-- and what it returns. -/
def bodyPost0 (c : Dev nD) (t : Fin cfg0.N) : sProp 𝕄 :=
  iprop((dat0 (Name := Name) (U := U) (Lvl := Lvl) V O B c).Φ t.succ ∗ (dat0 (Name := Name) (U := U) (Lvl := Lvl) V O B c).owesAt ι t.succ
    ∗ owns (c : Thread nD τ) (st0_0 t) fullShare ((dat0 (Name := Name) (U := U) (Lvl := Lvl) V O B c).after 0 t)
    ∗ owns (c : Thread nD τ) (st0_1 t) fullShare ((dat0 (Name := Name) (U := U) (Lvl := Lvl) V O B c).after 1 t)
    ∗ owns (c : Thread nD τ) (st0_2 t) fullShare ((dat0 (Name := Name) (U := U) (Lvl := Lvl) V O B c).after 2 t)
    ∗ owns (c : Thread nD τ) (st0_3 t) fullShare ((dat0 (Name := Name) (U := U) (Lvl := Lvl) V O B c).after 3 t)
    ∗ owns (c : Thread nD τ) (st0_4 t) fullShare ((dat0 (Name := Name) (U := U) (Lvl := Lvl) V O B c).after 4 t))

/-- The body at any point: the inputs' memrefs hold their blocks, so `sound_kernel0` applies; the invariant and the
    core's `owes` pass through unread. -/
theorem sound_body0 (c : Dev nD) (t : Fin cfg0.N) :
    bodyPre0 (Name := Name) (U := U) (Lvl := Lvl) V O B ι c t
      ⊢ wp frame (wpE (defs₀ (F := F)) Variants.none c none) Set.univ (bodyAt0 t) (fun _ => bodyPost0 (Name := Name) (U := U) (Lvl := Lvl) V O B ι c t) := by
  unfold bodyPre0 bodyPost0 bodyAt0
  simp only [before0_0, before0_1, before0_2, before0_3]
  rw [show (dat0 (Name := Name) (U := U) (Lvl := Lvl) V O B c).Φ t.succ = (dat0 (Name := Name) (U := U) (Lvl := Lvl) V O B c).Φ t.castSucc from rfl,
    show (dat0 (Name := Name) (U := U) (Lvl := Lvl) V O B c).owesAt ι t.succ = (dat0 (Name := Name) (U := U) (Lvl := Lvl) V O B c).owesAt ι t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The exact body obligation, at every point, -/
theorem body_obligation0 (c : Dev nD) :
    BodyObligation (dat0 (Name := Name) (U := U) (Lvl := Lvl) V O B c) (defs₀ (F := F)) Variants.none ι Set.univ := fun t => by
  rw [bigSep_W0, bigSep_W0]
  exact sound_body0 V O B ι c t

/-- and as the loop uses it. -/
theorem body0 (c : Dev nD) :
    BodyObligationLoose (dat0 (Name := Name) (U := U) (Lvl := Lvl) V O B c) (defs₀ (F := F)) Variants.none ι Set.univ :=
  (body_obligation0 V O B ι c).loose

end

end Cert.ProofBits.Tc

end
-- ==== Proof.Bits.TcBody2.lean ====
import proofs.«217078_g14027363189340_cont_week2b_886_24_alg».proof.Proof.Bits.TcData

set_option maxRecDepth 16384

noncomputable section

namespace Cert.ProofBits.Tc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {Name : Type} [DecidableEq Name] {U : Type} [URA U] {Lvl : Type}

local notation "𝕄" => MT nD τ sig Ix (Elt F) Name U Lvl

variable [Preorder Lvl]

/-! # The body obligation of the region over the first half of the edges -/

section
variable (V : (c : Dev nD) → (b : Ref sig .tc) → Buf (Elt F) ((c : Thread nD τ).loc b))
variable (O : CellTallies nD τ sig Ix) (B : Set (SemLoc sig × Ix)) (q : Fin 9 → PosShare TreeShare) (ι : Ix)

set_option maxHeartbeats 2000000 in
/-- The body on whole staging memrefs, the eight inputs' at read contents `x0 … x7` and the output's at anything, runs
    to the continuation holding the inputs' as they were and the output's at `out2_8` of them: the first part's six
    whole loads, two more, a dead load of the output's buffer and one whole store of the payload. -/
theorem sound_kernel2 (c : Dev nD) (E : Set Name) (i : grid2.Coords)
    (arg1 : Memref sig .tc .vmem S8000x16 .f32) (harg1 : arg1.IsWhole)
    (arg2 : Memref sig .tc .vmem S1x8000x128 .f32) (harg2 : arg2.IsWhole)
    (arg3 : Memref sig .tc .vmem S1x8000x128 .f32) (harg3 : arg3.IsWhole)
    (arg4 : Memref sig .tc .vmem S16x128 .f32) (harg4 : arg4.IsWhole)
    (arg5 : Memref sig .tc .vmem S128x128 .bf16) (harg5 : arg5.IsWhole)
    (arg6 : Memref sig .tc .vmem S1x128 .f32) (harg6 : arg6.IsWhole)
    (arg7 : Memref sig .tc .vmem S1x128 .f32) (harg7 : arg7.IsWhole)
    (arg8 : Memref sig .tc .vmem S1x128 .f32) (harg8 : arg8.IsWhole)
    (arg9 : Memref sig .tc .vmem S8000x128 .f32) (harg9 : arg9.IsWhole)
    (x0 : Vec F S8000x16 .f32) (x1 : Vec F S1x8000x128 .f32) (x2 : Vec F S1x8000x128 .f32) (x3 : Vec F S16x128 .f32) (x4 : Vec F S128x128 .bf16) (x5 : Vec F S1x128 .f32) (x6 : Vec F S1x128 .f32) (x7 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out2_8 x0 x1 x2 x3 x4 x5 x6 x7)) -∗ K ⟨⟩))
      ⊢ wp frame (wpE (defs₀ (F := F)) Variants.none c none) E (cc2__edge_body i arg1 harg1 arg2 harg2 arg3 harg3 arg4 harg4 arg5 harg5 arg6 harg6 arg7 harg7 arg8 harg8 arg9 harg9) K := by
  simp only [cc2__edge_body_eq_skeleton]; unfold cc2__edge_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover2_8 _)

/-- What the body is called with at point `t`, the windows one by one, -/
def bodyPre2 (c : Dev nD) (t : Fin cfg2.N) : sProp 𝕄 :=
  iprop((dat2 (Name := Name) (U := U) (Lvl := Lvl) V O B q c).Φ t.castSucc ∗ (dat2 (Name := Name) (U := U) (Lvl := Lvl) V O B q c).owesAt ι t.castSucc
    ∗ (∃ d, owns (c : Thread nD τ) (st2_0 t) fullShare ((dat2 (Name := Name) (U := U) (Lvl := Lvl) V O B q c).before 0 t d))
    ∗ (∃ d, owns (c : Thread nD τ) (st2_1 t) fullShare ((dat2 (Name := Name) (U := U) (Lvl := Lvl) V O B q c).before 1 t d))
    ∗ (∃ d, owns (c : Thread nD τ) (st2_2 t) fullShare ((dat2 (Name := Name) (U := U) (Lvl := Lvl) V O B q c).before 2 t d))
    ∗ (∃ d, owns (c : Thread nD τ) (st2_3 t) fullShare ((dat2 (Name := Name) (U := U) (Lvl := Lvl) V O B q c).before 3 t d))
    ∗ (∃ d, owns (c : Thread nD τ) (st2_4 t) fullShare ((dat2 (Name := Name) (U := U) (Lvl := Lvl) V O B q c).before 4 t d))
    ∗ (∃ d, owns (c : Thread nD τ) (st2_5 t) fullShare ((dat2 (Name := Name) (U := U) (Lvl := Lvl) V O B q c).before 5 t d))
    ∗ (∃ d, owns (c : Thread nD τ) (st2_6 t) fullShare ((dat2 (Name := Name) (U := U) (Lvl := Lvl) V O B q c).before 6 t d))
    ∗ (∃ d, owns (c : Thread nD τ) (st2_7 t) fullShare ((dat2 (Name := Name) (U := U) (Lvl := Lvl) V O B q c).before 7 t d))
    ∗ (∃ d, owns (c : Thread nD τ) (st2_8 t) fullShare ((dat2 (Name := Name) (U := U) (Lvl := Lvl) V O B q c).before 8 t d)))

/-- and what it returns. -/
def bodyPost2 (c : Dev nD) (t : Fin cfg2.N) : sProp 𝕄 :=
  iprop((dat2 (Name := Name) (U := U) (Lvl := Lvl) V O B q c).Φ t.succ ∗ (dat2 (Name := Name) (U := U) (Lvl := Lvl) V O B q c).owesAt ι t.succ
    ∗ owns (c : Thread nD τ) (st2_0 t) fullShare ((dat2 (Name := Name) (U := U) (Lvl := Lvl) V O B q c).after 0 t)
    ∗ owns (c : Thread nD τ) (st2_1 t) fullShare ((dat2 (Name := Name) (U := U) (Lvl := Lvl) V O B q c).after 1 t)
    ∗ owns (c : Thread nD τ) (st2_2 t) fullShare ((dat2 (Name := Name) (U := U) (Lvl := Lvl) V O B q c).after 2 t)
    ∗ owns (c : Thread nD τ) (st2_3 t) fullShare ((dat2 (Name := Name) (U := U) (Lvl := Lvl) V O B q c).after 3 t)
    ∗ owns (c : Thread nD τ) (st2_4 t) fullShare ((dat2 (Name := Name) (U := U) (Lvl := Lvl) V O B q c).after 4 t)
    ∗ owns (c : Thread nD τ) (st2_5 t) fullShare ((dat2 (Name := Name) (U := U) (Lvl := Lvl) V O B q c).after 5 t)
    ∗ owns (c : Thread nD τ) (st2_6 t) fullShare ((dat2 (Name := Name) (U := U) (Lvl := Lvl) V O B q c).after 6 t)
    ∗ owns (c : Thread nD τ) (st2_7 t) fullShare ((dat2 (Name := Name) (U := U) (Lvl := Lvl) V O B q c).after 7 t)
    ∗ owns (c : Thread nD τ) (st2_8 t) fullShare ((dat2 (Name := Name) (U := U) (Lvl := Lvl) V O B q c).after 8 t))

/-- The body at any point: the inputs' memrefs hold their blocks, so `sound_kernel2` applies; the invariant and the
    core's `owes` pass through unread. -/
theorem sound_body2 (c : Dev nD) (t : Fin cfg2.N) :
    bodyPre2 (Name := Name) (U := U) (Lvl := Lvl) V O B q ι c t
      ⊢ wp frame (wpE (defs₀ (F := F)) Variants.none c none) Set.univ (bodyAt2 t) (fun _ => bodyPost2 (Name := Name) (U := U) (Lvl := Lvl) V O B q ι c t) := by
  unfold bodyPre2 bodyPost2 bodyAt2
  simp only [before2_0, before2_1, before2_2, before2_3, before2_4, before2_5, before2_6, before2_7]
  rw [show (dat2 (Name := Name) (U := U) (Lvl := Lvl) V O B q c).Φ t.succ = (dat2 (Name := Name) (U := U) (Lvl := Lvl) V O B q c).Φ t.castSucc from rfl,
    show (dat2 (Name := Name) (U := U) (Lvl := Lvl) V O B q c).owesAt ι t.succ = (dat2 (Name := Name) (U := U) (Lvl := Lvl) V O B q c).owesAt ι t.castSucc from rfl,
    after2_0, after2_1, after2_2, after2_3, after2_4, after2_5, after2_6, after2_7, after2_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel2 c Set.univ (grid2.coords t) _ _ _ _ _ _ _ _ _ _ _ _ _ _ _ _ _ _ (iblk2 V c 0 t) (blk2_1 V c t) (blk2_2 V c t) (iblk2 V c 3 t) (iblk2 V c 4 t) (iblk2 V c 5 t) (iblk2 V c 6 t) (iblk2 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The exact body obligation, at every point, -/
theorem body_obligation2 (c : Dev nD) :
    BodyObligation (dat2 (Name := Name) (U := U) (Lvl := Lvl) V O B q c) (defs₀ (F := F)) Variants.none ι Set.univ := fun t => by
  rw [bigSep_W2, bigSep_W2]
  exact sound_body2 V O B q ι c t

/-- and as the loop uses it: a window whose type allows cut blocks is stated on the moved part only. -/
theorem body2 (c : Dev nD) :
    BodyObligationLoose (dat2 (Name := Name) (U := U) (Lvl := Lvl) V O B q c) (defs₀ (F := F)) Variants.none ι Set.univ :=
  (body_obligation2 V O B q ι c).loose

end

end Cert.ProofBits.Tc

end
-- ==== Proof.Bits.TcBody4.lean ====
import proofs.«217078_g14027363189340_cont_week2b_886_24_alg».proof.Proof.Bits.TcData

set_option maxRecDepth 16384

noncomputable section

namespace Cert.ProofBits.Tc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {Name : Type} [DecidableEq Name] {U : Type} [URA U] {Lvl : Type}

local notation "𝕄" => MT nD τ sig Ix (Elt F) Name U Lvl

variable [Preorder Lvl]

/-! # The body obligation of the region over the second half of the edges -/

section
variable (V : (c : Dev nD) → (b : Ref sig .tc) → Buf (Elt F) ((c : Thread nD τ).loc b))
variable (O : CellTallies nD τ sig Ix) (B : Set (SemLoc sig × Ix)) (q : Fin 9 → PosShare TreeShare) (ι : Ix)

set_option maxHeartbeats 2000000 in
/-- The body on whole staging memrefs, the eight inputs' at read contents `x0 … x7` and the output's at anything, runs
    to the continuation holding the inputs' as they were and the output's at `out4_8` of them: the first part's six
    whole loads, two more, a dead load of the output's buffer and one whole store of the payload; the array the output is aliased to is handed over whole and never touched. -/
theorem sound_kernel4 (c : Dev nD) (E : Set Name) (i : grid4.Coords)
    (arg1 : Memref sig .tc .vmem S8000x16 .f32) (harg1 : arg1.IsWhole)
    (arg2 : Memref sig .tc .vmem S1x8000x128 .f32) (harg2 : arg2.IsWhole)
    (arg3 : Memref sig .tc .vmem S1x8000x128 .f32) (harg3 : arg3.IsWhole)
    (arg4 : Memref sig .tc .vmem S16x128 .f32) (harg4 : arg4.IsWhole)
    (arg5 : Memref sig .tc .vmem S128x128 .bf16) (harg5 : arg5.IsWhole)
    (arg6 : Memref sig .tc .vmem S1x128 .f32) (harg6 : arg6.IsWhole)
    (arg7 : Memref sig .tc .vmem S1x128 .f32) (harg7 : arg7.IsWhole)
    (arg8 : Memref sig .tc .vmem S1x128 .f32) (harg8 : arg8.IsWhole)
    (arg9 : Memref sig .tc .hbm S320000x128 .f32) (harg9 : arg9.IsWhole)
    (arg10 : Memref sig .tc .vmem S8000x128 .f32) (harg10 : arg10.IsWhole)
    (x0 : Vec F S8000x16 .f32) (x1 : Vec F S1x8000x128 .f32) (x2 : Vec F S1x8000x128 .f32) (x3 : Vec F S16x128 .f32) (x4 : Vec F S128x128 .bf16) (x5 : Vec F S1x128 .f32) (x6 : Vec F S1x128 .f32) (x7 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg10 fullShare (out4_8 x0 x1 x2 x3 x4 x5 x6 x7)) -∗ K ⟨⟩))
      ⊢ wp frame (wpE (defs₀ (F := F)) Variants.none c none) E (cc4__edge_body_carry i arg1 harg1 arg2 harg2 arg3 harg3 arg4 harg4 arg5 harg5 arg6 harg6 arg7 harg7 arg8 harg8 arg9 harg9 arg10 harg10) K := by
  simp only [cc4__edge_body_carry_eq_skeleton]; unfold cc4__edge_body_carry_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover4_8 _)

/-- What the body is called with at point `t`, the windows one by one, -/
def bodyPre4 (c : Dev nD) (t : Fin cfg4.N) : sProp 𝕄 :=
  iprop((dat4 (Name := Name) (U := U) (Lvl := Lvl) V O B q c).Φ t.castSucc ∗ (dat4 (Name := Name) (U := U) (Lvl := Lvl) V O B q c).owesAt ι t.castSucc
    ∗ (∃ d, owns (c : Thread nD τ) (st4_0 t) fullShare ((dat4 (Name := Name) (U := U) (Lvl := Lvl) V O B q c).before 0 t d))
    ∗ (∃ d, owns (c : Thread nD τ) (st4_1 t) fullShare ((dat4 (Name := Name) (U := U) (Lvl := Lvl) V O B q c).before 1 t d))
    ∗ (∃ d, owns (c : Thread nD τ) (st4_2 t) fullShare ((dat4 (Name := Name) (U := U) (Lvl := Lvl) V O B q c).before 2 t d))
    ∗ (∃ d, owns (c : Thread nD τ) (st4_3 t) fullShare ((dat4 (Name := Name) (U := U) (Lvl := Lvl) V O B q c).before 3 t d))
    ∗ (∃ d, owns (c : Thread nD τ) (st4_4 t) fullShare ((dat4 (Name := Name) (U := U) (Lvl := Lvl) V O B q c).before 4 t d))
    ∗ (∃ d, owns (c : Thread nD τ) (st4_5 t) fullShare ((dat4 (Name := Name) (U := U) (Lvl := Lvl) V O B q c).before 5 t d))
    ∗ (∃ d, owns (c : Thread nD τ) (st4_6 t) fullShare ((dat4 (Name := Name) (U := U) (Lvl := Lvl) V O B q c).before 6 t d))
    ∗ (∃ d, owns (c : Thread nD τ) (st4_7 t) fullShare ((dat4 (Name := Name) (U := U) (Lvl := Lvl) V O B q c).before 7 t d))
    ∗ (∃ d, owns (c : Thread nD τ) (st4_8 t) fullShare ((dat4 (Name := Name) (U := U) (Lvl := Lvl) V O B q c).before 8 t d)))

/-- and what it returns. -/
def bodyPost4 (c : Dev nD) (t : Fin cfg4.N) : sProp 𝕄 :=
  iprop((dat4 (Name := Name) (U := U) (Lvl := Lvl) V O B q c).Φ t.succ ∗ (dat4 (Name := Name) (U := U) (Lvl := Lvl) V O B q c).owesAt ι t.succ
    ∗ owns (c : Thread nD τ) (st4_0 t) fullShare ((dat4 (Name := Name) (U := U) (Lvl := Lvl) V O B q c).after 0 t)
    ∗ owns (c : Thread nD τ) (st4_1 t) fullShare ((dat4 (Name := Name) (U := U) (Lvl := Lvl) V O B q c).after 1 t)
    ∗ owns (c : Thread nD τ) (st4_2 t) fullShare ((dat4 (Name := Name) (U := U) (Lvl := Lvl) V O B q c).after 2 t)
    ∗ owns (c : Thread nD τ) (st4_3 t) fullShare ((dat4 (Name := Name) (U := U) (Lvl := Lvl) V O B q c).after 3 t)
    ∗ owns (c : Thread nD τ) (st4_4 t) fullShare ((dat4 (Name := Name) (U := U) (Lvl := Lvl) V O B q c).after 4 t)
    ∗ owns (c : Thread nD τ) (st4_5 t) fullShare ((dat4 (Name := Name) (U := U) (Lvl := Lvl) V O B q c).after 5 t)
    ∗ owns (c : Thread nD τ) (st4_6 t) fullShare ((dat4 (Name := Name) (U := U) (Lvl := Lvl) V O B q c).after 6 t)
    ∗ owns (c : Thread nD τ) (st4_7 t) fullShare ((dat4 (Name := Name) (U := U) (Lvl := Lvl) V O B q c).after 7 t)
    ∗ owns (c : Thread nD τ) (st4_8 t) fullShare ((dat4 (Name := Name) (U := U) (Lvl := Lvl) V O B q c).after 8 t))

/-- The body at any point: the inputs' memrefs hold their blocks, so `sound_kernel4` applies; the invariant and the
    core's `owes` pass through unread. -/
theorem sound_body4 (c : Dev nD) (t : Fin cfg4.N) :
    bodyPre4 (Name := Name) (U := U) (Lvl := Lvl) V O B q ι c t
      ⊢ wp frame (wpE (defs₀ (F := F)) Variants.none c none) Set.univ (bodyAt4 t) (fun _ => bodyPost4 (Name := Name) (U := U) (Lvl := Lvl) V O B q ι c t) := by
  unfold bodyPre4 bodyPost4 bodyAt4
  simp only [before4_0, before4_1, before4_2, before4_3, before4_4, before4_5, before4_6, before4_7]
  rw [show (dat4 (Name := Name) (U := U) (Lvl := Lvl) V O B q c).Φ t.succ = (dat4 (Name := Name) (U := U) (Lvl := Lvl) V O B q c).Φ t.castSucc from rfl,
    show (dat4 (Name := Name) (U := U) (Lvl := Lvl) V O B q c).owesAt ι t.succ = (dat4 (Name := Name) (U := U) (Lvl := Lvl) V O B q c).owesAt ι t.castSucc from rfl,
    after4_0, after4_1, after4_2, after4_3, after4_4, after4_5, after4_6, after4_7, after4_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel4 c Set.univ (grid4.coords t) _ _ _ _ _ _ _ _ _ _ _ _ _ _ _ _ _ _ _ _ (iblk4 V c 0 t) (blk4_1 V c t) (blk4_2 V c t) (iblk4 V c 3 t) (iblk4 V c 4 t) (iblk4 V c 5 t) (iblk4 V c 6 t) (iblk4 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The exact body obligation, at every point, -/
theorem body_obligation4 (c : Dev nD) :
    BodyObligation (dat4 (Name := Name) (U := U) (Lvl := Lvl) V O B q c) (defs₀ (F := F)) Variants.none ι Set.univ := fun t => by
  rw [bigSep_W4, bigSep_W4]
  exact sound_body4 V O B q ι c t

/-- and as the loop uses it: a window whose type allows cut blocks is stated on the moved part only. -/
theorem body4 (c : Dev nD) :
    BodyObligationLoose (dat4 (Name := Name) (U := U) (Lvl := Lvl) V O B q c) (defs₀ (F := F)) Variants.none ι Set.univ :=
  (body_obligation4 V O B q ι c).loose

end

end Cert.ProofBits.Tc

end
-- ==== Proof.Bits.TcBodies.lean ====
import proofs.«217078_g14027363189340_cont_week2b_886_24_alg».proof.Proof.Bits.TcBody0
import proofs.«217078_g14027363189340_cont_week2b_886_24_alg».proof.Proof.Bits.TcBody2
import proofs.«217078_g14027363189340_cont_week2b_886_24_alg».proof.Proof.Bits.TcBody4

set_option maxRecDepth 16384

noncomputable section

namespace Cert.ProofBits.Tc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {Name : Type} [DecidableEq Name] {U : Type} [URA U] {Lvl : Type}

local notation "𝕄" => MT nD τ sig Ix (Elt F) Name U Lvl

variable [Preorder Lvl]

/-! # The three regions' body obligations over the one family of proof data -/

/-- Every pipeline's body obligation at its member of `pdats`: the family is a literal match on the pipeline, so each
    member is its region's proof data by unfolding. -/
theorem hbody_pdats (V0 V2 V4 : (c : Dev nD) → (b : Ref sig .tc) → Buf (Elt F) ((c : Thread nD τ).loc b))
    (O : Fin 3 → CellTallies nD τ sig Ix) (B : Fin 3 → Set (SemLoc sig × Ix)) (q2 q4 : Fin 9 → PosShare TreeShare) (ι : Ix) :
    ∀ (p : Fin 3) (c : Dev nD),
      BodyObligationLoose (pdats (Name := Name) (U := U) (Lvl := Lvl) V0 V2 V4 O B q2 q4 p c) (defs₀ (F := F)) Variants.none ι Set.univ
  | ⟨0, _⟩, c => body0 V0 (O 0) (B 0) ι c
  | ⟨1, _⟩, c => body2 V2 (O 1) (B 1) q2 ι c
  | ⟨2, _⟩, c => body4 V4 (O 2) (B 2) q4 ι c

end Cert.ProofBits.Tc

end
-- ==== Proof.Bits.TcRegion.lean ====
/-
  Each TensorCore kernel region as the step @main's proof takes at it: the region is entered through the lifting of
  the pipelines' body table to the SparseCore program's, and run by the library's rule for a kernel region over the
  thread state "what the TensorCore owes the later SparseCore calls, and every unscoped buffer at a valuation". The
  region's arrays are taken out of the buffers at the entry and put back at the exit, the output array at what the
  write-backs leave; what the core owes passes through the region unchanged, its recorded wait pairs still bounded
  because a pipeline's own waits record at the level of no call.
-/
import proofs.«217078_g14027363189340_cont_week2b_886_24_alg».proof.Proof.Bits.TcCompose
import proofs.«217078_g14027363189340_cont_week2b_886_24_alg».proof.Proof.Bits.TcBodies
import Idealize.ShloMosaic.Lib.Pipeline.RegionsLoop
import Idealize.ShloMosaic.Lib.Pipeline.FrameSuffix

set_option maxRecDepth 16384

noncomputable section

namespace Cert.ProofBits.Main

open Cert.Kernel Cert.Kernel.Gen Cert.ProofBits.Sc Cert.ProofBits.Tc

open Idealize.ShloMosaic Idealize.ShloMosaic.StableHlo Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

/-! ## What passes through a region -/

/-- The bound on the TensorCore's recorded wait pairs before call `n`: each sits at level at most `8 n`. -/
def Bn (d : Dev nD) (n : ℕ) : Set (SemLoc sig × HIx 2) := {pr | (K (F := F)).lev (SparseCore.T d, pr.1) pr.2 ≤ 8 * n}

/-- What the TensorCore owes before call `n`, its recorded pairs bounded: the part of its state a region holds. -/
abbrev OW (c : Dev nD) (n : ℕ) : sProp 𝕄 :=
  iprop(∃ W, ⌜(K (F := F)).WBelow (SparseCore.T c) W (8 * n)⌝ ∗ owes (SparseCore.T c) ((K (F := F)).Otc c n) W)

/-- The TensorCore's state before call `n` is that part and the rest, which gives the state back for the part. -/
theorem tcSt_split (c : Dev nD) (n : ℕ) :
    (K (F := F)).tcSt EH c n ⊢ (iprop(OW (F := F) c n ∗ (OW (F := F) c n -∗ (K (F := F)).tcSt EH c n)) : sProp 𝕄) := by
  unfold SparseCore.Cfg.tcSt
  iintro ⟨HO, Hrest⟩
  isplitl [HO]; · iexact HO
  iintro HO
  isplitl [HO]; · iexact HO
  iexact Hrest

/-- Nothing the TensorCore owes is owed at the index of no call. -/
theorem Otc_none (d : Dev nD) (n : ℕ) (g : GSem nD τ sig) : (K (F := F)).Otc d n g none = 0 :=
  Nat.eq_zero_of_not_pos fun h => by
    have := SparseCore.Cfg.lev_of_Otc_pos h
    rw [SparseCore.Cfg.lev_none] at this; omega

/-- A valuation read at the TensorCore's references: what a region's proof data take. -/
abbrev VofW (W : Valuation τ sig (Elt F)) : (c : Dev nD) → (b : Ref sig .tc) → Buf (Elt F) ((c : Thread nD τ).loc b) :=
  fun _ b => W (Proc.devRef .tc b)

/-- The three pipelines' proof data at a valuation `W`, before call `n` of device `d`. -/
abbrev pdW (d : Dev nD) (n : ℕ) (W : Valuation τ sig (Elt F)) (q2 q4 : Fin 9 → PosShare TreeShare) :
    (p : Fin 3) → (c : Dev nD) → Pipeline.Dat τ (Elt F) (HIx 2) ℕ UU ℕ (Pipeline.pin (pcfgs (F := F)) adm p) c :=
  pdats (VofW W) (VofW W) (VofW W) (fun _ => (K (F := F)).Otc d n) (fun _ => Bn (F := F) d n) q2 q4

/-- The wait evidence for a region's staging cells: they are waited on at the index of no call, at level 0, and
    everything the TensorCore owes sits at a call's index, above. -/
theorem hwaitsW (d : Dev nD) (n : ℕ) (W : Valuation τ sig (Elt F)) (q2 q4 : Fin 9 → PosShare TreeShare) (p : Fin 3) (c : Dev nD)
    (howed : ∀ t, (pdW d n W q2 q4 p c).owed t = (K (F := F)).Otc d n) :
    (levAts (K (F := F)).L (K (F := F)).lev : sProp 𝕄) ⊢ Pipeline.cellsWaits (Pipeline.pin (pcfgs (F := F)) adm) (pdW d n W q2 q4) (none : HIx 2) p c :=
  Pipeline.cellsWaits_of_cut _ _ _ p c 0 ((K (F := F)).Otc d n) howed (fun _ _ => Finset.mem_univ _) (fun _ _ => le_rfl)
    (fun g i h => ⟨Finset.mem_univ _, by have := SparseCore.Cfg.lev_of_Otc_pos h; omega⟩)

/-! ## Region 0: the node tables -/

section Region0

variable (d : Dev nD) (W : Valuation τ sig (Elt F))

/-- Region 0's proof data at `W`, before call 0. -/
abbrev dW0 (c : Dev nD) : Pipeline.Dat τ (Elt F) (HIx 2) ℕ UU ℕ cfg0 c :=
  dat0 (VofW W) ((K (F := F)).Otc d 0) (Bn (F := F) d 0) c

/-- The valuation the region leaves: its arrays at what the write-backs leave, every other buffer as it was. -/
def Wout0 : Valuation τ sig (Elt F) :=
  Pipeline.withArrays spec0 d W fun w => (dW0 d W d).arrAt w cfg0.N

theorem Wout0_arr (w : Fin cfg0.W) : Wout0 d W (Proc.devRef .tc (Pipeline.arrRef spec0 w)) = (dW0 d W d).arrAt w cfg0.N := by
  unfold Wout0; exact Pipeline.withArrays_arr spec0 launch0.win.arr_inj d _ _ w

theorem Wout0_of_ne (b : Ref sig .tc) (hb : ∀ w, Pipeline.arrRef spec0 w ≠ b) :
    Wout0 d W (Proc.devRef .tc b) = W (Proc.devRef .tc b) := by
  unfold Wout0; exact Pipeline.withArrays_of_ne spec0 d _ _ b hb

/-- Only the table array changes: an input array is never written, and no other buffer is the region's. -/
theorem Wout0_keeps (r : Ref sig .tc) (hr : r ≠ main_v8) : Wout0 d W (Proc.devRef .tc r) = W (Proc.devRef .tc r) := by
  by_cases h : ∃ w, Pipeline.arrRef spec0 w = r
  · obtain ⟨w, rfl⟩ := h
    rw [Wout0_arr]
    have hin : (cfg0.win w).isOut = false := by
      fin_cases w
      · rfl
      · rfl
      · rfl
      · rfl
      · exact absurd rfl hr
    exact ((dW0 d W d).arrAt_in w hin _).trans (A_eq0 (VofW W) _ _ d w)
  · exact Wout0_of_ne d W r fun w e => h ⟨w, e⟩

set_option backward.isDefEq.respectTransparency.types false in
/-- Region 0 over the thread state: entered from the TensorCore's state before call 0 and every unscoped buffer at `W`,
    left at the same state and the buffers at `Wout0`. -/
def reg0 : Pipeline.RegionSeg (pcfgs (F := F)) adm (pdW d 0 W (fun _ => fullShare) (fun _ => fullShare)) (none : HIx 2) defs₀ 𝒱₀
    (K (F := F)).L (K (F := F)).lev 0 where
  win := launch0.win.to₀
  block_pos := launch0.block_pos
  stage_whole := launch0.stage_whole
  K := PEmpty
  osem k := k.elim
  ho := Pipeline.OwnSemFacts.none _
  hbody c := body0 (VofW W) _ _ none c
  hwaits c := hwaitsW d 0 W _ _ 0 c fun _ => rfl
  pre c := iprop((K (F := F)).tcSt EH c 0 ∗ (held (SparseCore.T c) (Pipeline.ucRefs τ sig) W : sProp 𝕄))
  post c := iprop((K (F := F)).tcSt EH c 0 ∗ (held (SparseCore.T c) (Pipeline.ucRefs τ sig) (Wout0 d W) : sProp 𝕄))
  X _ := iprop(emp)
  Y _ := iprop(emp)
  Z c := iprop(Pipeline.unscopedRest (Ix := HIx 2) (Name := ℕ) (U := UU) (Lvl := ℕ) spec0 c (VofW W c)
    ∗ (OW (F := F) c 0 -∗ (K (F := F)).tcSt EH c 0))
  hentry c := by
    obtain rfl : c = d := Subsingleton.elim (α := Fin 1) c d
    rw [Pipeline.ownSems0_none]
    have hsplit := Pipeline.arrays_of_unscopedBufs (p := 0) (pcfgs (F := F)) adm (pdW c 0 W (fun _ => fullShare) (fun _ => fullShare))
      launch0.win launch0.arr_whole c ((pdW c 0 W (fun _ => fullShare) (fun _ => fullShare) 0 c).share_full fun _ => rfl) (VofW W c) fun _ => rfl
    rw [Pipeline.unscopedBufs_held] at hsplit
    iintro ⟨⟨Hst, Hub⟩, -, -⟩
    ihave H := hsplit $$ Hub
    icases H with ⟨Ha, Hrest⟩
    ihave Hs := (tcSt_split (F := F) c 0) $$ Hst
    icases Hs with ⟨⟨%Ws, %hWs, HO⟩, Hback⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists Ws; isplitr; · ipureintro; exact fun pr hpr => Or.inl (hWs pr hpr)
      iexact HO
    isplitr; · iempintro
    isplitl [Hrest]; · iexact Hrest
    iexact Hback
  hin c := by
    rw [show (pdW d 0 W (fun _ => fullShare) (fun _ => fullShare) 0 c).Φ 0
      = Pipeline.scopedRest (Ix := HIx 2) (Name := ℕ) (U := UU) (Lvl := ℕ) (Val := Elt F) spec0 c from rfl]
    iintro ⟨-, -, Hr⟩
    iexact Hr
  hout c := by
    rw [Pipeline.ownSems0_none, show (pdW d 0 W (fun _ => fullShare) (fun _ => fullShare) 0 c).Φ (Fin.last _)
      = Pipeline.scopedRest (Ix := HIx 2) (Name := ℕ) (U := UU) (Lvl := ℕ) (Val := Elt F) spec0 c from rfl]
    iintro Hr
    isplitr; · iempintro
    isplitr; · iempintro
    iexact Hr
  hexit c := by
    obtain rfl : c = d := Subsingleton.elim (α := Fin 1) c d
    have hjoin := Pipeline.unscopedBufs_of_arrays (p := 0) (pcfgs (F := F)) adm (Ix := HIx 2) (Name := ℕ) (U := UU) (Lvl := ℕ)
      launch0.win launch0.arr_whole c (pdW c 0 W (fun _ => fullShare) (fun _ => fullShare))
      ((pdW c 0 W (fun _ => fullShare) (fun _ => fullShare) 0 c).share_full fun _ => rfl)
      (VofW W c) (VofW (Wout0 c W) c) ((dW0 c W c).arrAt · cfg0.N) (fun w => (Wout0_arr c W w).symm)
      (fun b hb => Wout0_of_ne c W b fun w e => hb (Finset.mem_image.mpr ⟨w, Finset.mem_univ _, e⟩))
    rw [Pipeline.unscopedBufs_held] at hjoin
    iintro ⟨Ha, HO, -, Hrest, Hback⟩
    imodintro
    isplitl [HO Hback]
    · iapply Hback
      unfold Pipeline.Dat.owesAt Pipeline.owesWithin
      icases HO with ⟨%Ws, %hWs, HO⟩
      iexists Ws; isplitr
      · ipureintro
        intro pr hpr
        rcases hWs hpr with h | ⟨w, s, rfl⟩
        · exact h
        · exact Nat.zero_le _
      iexact HO
    iapply hjoin
    isplitl [Ha]; · iexact Ha
    iexact Hrest

end Region0

/-! ## The edge regions' shared array -/

/-- The shares of an edge region's input arrays: the gathered rows' array is read by two windows, each at a half. -/
def qsh : Fin 9 → PosShare TreeShare := fun | 1 => fullShare.left | 2 => fullShare.right | _ => fullShare

section Shared2

/-- The eight buffers behind region 1's nine windows, one by one. -/
theorem bigSep_arr2 (Φ : Ref sig .tc → sProp 𝕄) :
    bigSep (Finset.univ.image (Pipeline.arrRef spec2)) Φ
      = iprop(Φ main_arg0 ∗ Φ main_v27 ∗ Φ main_v11 ∗ Φ main_v13 ∗ Φ main_v14 ∗ Φ main_v15 ∗ Φ main_v16 ∗ Φ main_v28) :=
  bigSep_eq_bigSepL_of_eq [main_arg0, main_v27, main_v11, main_v13, main_v14, main_v15, main_v16, main_v28] (by decide) (by decide) Φ

variable (V : (c : Dev nD) → (b : Ref sig .tc) → Buf (Elt F) ((c : Thread nD τ).loc b))
  (O : CellTallies nD τ sig (HIx 2)) (B : Set (SemLoc sig × HIx 2)) (c : Dev nD)

/-- The region's arrays, each a whole buffer, as points-tos of the buffers behind them at the windows' shares. -/
theorem arrays_eq2 (Fw : (w : Fin cfg2.W) → Buf (Elt F) ((cfg2.win w).arr.view.loc (c.tc : Thread nD τ))) :
    (dat2 (Name := ℕ) (U := UU) (Lvl := ℕ) V O B qsh c).arrays Fw
      = bigSep Finset.univ fun w => (((c.tc : Thread nD τ).loc (Pipeline.arrRef spec2 w)) ↦{(dat2 (Name := ℕ) (U := UU) (Lvl := ℕ) V O B qsh c).share w} Fw w : sProp 𝕄) := by
  unfold Pipeline.Dat.arrays
  exact bigSep_congr fun w _ => by rw [(arr_whole2 w).set_eq_univ]

/-- The eight buffers behind the nine windows' arrays are the arrays at the contents `Fw` when each window's
    contents are its buffer's: the gathered rows' buffer is split between its two windows along the share. -/
theorem arrays_of_arrBufs2 (Vc : (b : Ref sig .tc) → Buf (Elt F) ((c.tc : Thread nD τ).loc b))
    (Fw : (w : Fin cfg2.W) → Buf (Elt F) ((cfg2.win w).arr.view.loc (c.tc : Thread nD τ)))
    (hF : ∀ w, Fw w = Vc (Pipeline.arrRef spec2 w)) :
    (Pipeline.arrBufs (Ix := HIx 2) (Name := ℕ) (U := UU) (Lvl := ℕ) spec2 c Vc : sProp 𝕄) ⊢ (dat2 (Name := ℕ) (U := UU) (Lvl := ℕ) V O B qsh c).arrays Fw := by
  rw [arrays_eq2, show (fun w => (((c.tc : Thread nD τ).loc (Pipeline.arrRef spec2 w)) ↦{(dat2 (Name := ℕ) (U := UU) (Lvl := ℕ) V O B qsh c).share w} Fw w : sProp 𝕄))
      = fun w => (((c.tc : Thread nD τ).loc (Pipeline.arrRef spec2 w)) ↦{(dat2 (Name := ℕ) (U := UU) (Lvl := ℕ) V O B qsh c).share w} Vc (Pipeline.arrRef spec2 w) : sProp 𝕄) from
    funext fun w => by rw [hF]]
  unfold Pipeline.arrBufs
  rw [bigSep_arr2, bigSep_W2]
  iintro ⟨H0, Hs, H3, H4, H5, H6, H7, H8⟩
  ihave Hs' := (pointsTo_share (PosShare.mem_left_op_right fullShare)).1 $$ Hs
  icases Hs' with ⟨Hl, Hr⟩
  isplitl [H0]; · iexact H0
  isplitl [Hl]; · iexact Hl
  isplitl [Hr]; · iexact Hr
  isplitl [H3]; · iexact H3
  isplitl [H4]; · iexact H4
  isplitl [H5]; · iexact H5
  isplitl [H6]; · iexact H6
  isplitl [H7]; · iexact H7
  iexact H8

/-- and back: the two halves of the gathered rows' buffer, at one contents, are the buffer. -/
theorem arrBufs_of_arrays2 (Vc : (b : Ref sig .tc) → Buf (Elt F) ((c.tc : Thread nD τ).loc b))
    (Fw : (w : Fin cfg2.W) → Buf (Elt F) ((cfg2.win w).arr.view.loc (c.tc : Thread nD τ)))
    (hF : ∀ w, Fw w = Vc (Pipeline.arrRef spec2 w)) :
    (dat2 (Name := ℕ) (U := UU) (Lvl := ℕ) V O B qsh c).arrays Fw ⊢ (Pipeline.arrBufs (Ix := HIx 2) (Name := ℕ) (U := UU) (Lvl := ℕ) spec2 c Vc : sProp 𝕄) := by
  rw [arrays_eq2, show (fun w => (((c.tc : Thread nD τ).loc (Pipeline.arrRef spec2 w)) ↦{(dat2 (Name := ℕ) (U := UU) (Lvl := ℕ) V O B qsh c).share w} Fw w : sProp 𝕄))
      = fun w => (((c.tc : Thread nD τ).loc (Pipeline.arrRef spec2 w)) ↦{(dat2 (Name := ℕ) (U := UU) (Lvl := ℕ) V O B qsh c).share w} Vc (Pipeline.arrRef spec2 w) : sProp 𝕄) from
    funext fun w => by rw [hF]]
  unfold Pipeline.arrBufs
  rw [bigSep_arr2, bigSep_W2]
  iintro ⟨H0, Hl, Hr, H3, H4, H5, H6, H7, H8⟩
  isplitl [H0]; · iexact H0
  isplitl [Hl Hr]
  · iapply (pointsTo_share (PosShare.mem_left_op_right fullShare)).2
    isplitl [Hl]; · iexact Hl
    iexact Hr
  isplitl [H3]; · iexact H3
  isplitl [H4]; · iexact H4
  isplitl [H5]; · iexact H5
  isplitl [H6]; · iexact H6
  isplitl [H7]; · iexact H7
  iexact H8

/-- ENTRY, the arrays' part: the core's unscoped buffers at `Vc` are the region's arrays at their entry contents and
    the unscoped rest. -/
theorem arrays_of_unscopedBufs2 (Vc : (b : Ref sig .tc) → Buf (Elt F) ((c.tc : Thread nD τ).loc b))
    (hA : ∀ w, (dat2 (Name := ℕ) (U := UU) (Lvl := ℕ) V O B qsh c).A w = Vc (Pipeline.arrRef spec2 w)) :
    (unscopedBufs c Vc : sProp 𝕄)
      ⊢ iprop((dat2 (Name := ℕ) (U := UU) (Lvl := ℕ) V O B qsh c).arrays (dat2 (Name := ℕ) (U := UU) (Lvl := ℕ) V O B qsh c).A ∗ Pipeline.unscopedRest (Ix := HIx 2) (Name := ℕ) (U := UU) (Lvl := ℕ) spec2 c Vc) := by
  rw [Pipeline.unscopedBufs_split₀ (Ix := HIx 2) (Name := ℕ) (U := UU) (Lvl := ℕ) cfgs (1 : Fin 3) winFacts₀2.arr_unscoped c Vc]
  exact sep_mono (arrays_of_arrBufs2 V O B c Vc _ hA) .rfl

/-- EXIT, the arrays' part: the arrays at `Fw` and the unscoped rest at `Vc` are the core's unscoped buffers at any
    `Vc'` that has the arrays at `Fw` and agrees with `Vc` off them. -/
theorem unscopedBufs_of_arrays2 (Vc Vc' : (b : Ref sig .tc) → Buf (Elt F) ((c.tc : Thread nD τ).loc b))
    (Fw : (w : Fin cfg2.W) → Buf (Elt F) ((cfg2.win w).arr.view.loc (c.tc : Thread nD τ)))
    (hF : ∀ w, Fw w = Vc' (Pipeline.arrRef spec2 w))
    (hrest : ∀ b, b ∉ Finset.univ.image (Pipeline.arrRef spec2) → Vc' b = Vc b) :
    iprop((dat2 (Name := ℕ) (U := UU) (Lvl := ℕ) V O B qsh c).arrays Fw ∗ Pipeline.unscopedRest (Ix := HIx 2) (Name := ℕ) (U := UU) (Lvl := ℕ) spec2 c Vc)
      ⊢ (unscopedBufs c Vc' : sProp 𝕄) := by
  rw [Pipeline.unscopedBufs_split₀ (Ix := HIx 2) (Name := ℕ) (U := UU) (Lvl := ℕ) cfgs (1 : Fin 3) winFacts₀2.arr_unscoped c Vc']
  refine sep_mono (arrBufs_of_arrays2 V O B c Vc' Fw hF) (Entails.of_eq ?_)
  unfold Pipeline.unscopedRest
  exact bigSep_congr fun b hb => by rw [hrest b (Finset.mem_sdiff.mp hb).2]

end Shared2

section Shared4

/-- The eight buffers behind region 2's nine windows, one by one. -/
theorem bigSep_arr4 (Φ : Ref sig .tc → sProp 𝕄) :
    bigSep (Finset.univ.image (Pipeline.arrRef spec4)) Φ
      = iprop(Φ main_arg0 ∗ Φ main_v39 ∗ Φ main_v11 ∗ Φ main_v13 ∗ Φ main_v14 ∗ Φ main_v15 ∗ Φ main_v16 ∗ Φ main_v40) :=
  bigSep_eq_bigSepL_of_eq [main_arg0, main_v39, main_v11, main_v13, main_v14, main_v15, main_v16, main_v40] (by decide) (by decide) Φ

variable (V : (c : Dev nD) → (b : Ref sig .tc) → Buf (Elt F) ((c : Thread nD τ).loc b))
  (O : CellTallies nD τ sig (HIx 2)) (B : Set (SemLoc sig × HIx 2)) (c : Dev nD)

/-- The region's arrays, each a whole buffer, as points-tos of the buffers behind them at the windows' shares. -/
theorem arrays_eq4 (Fw : (w : Fin cfg4.W) → Buf (Elt F) ((cfg4.win w).arr.view.loc (c.tc : Thread nD τ))) :
    (dat4 (Name := ℕ) (U := UU) (Lvl := ℕ) V O B qsh c).arrays Fw
      = bigSep Finset.univ fun w => (((c.tc : Thread nD τ).loc (Pipeline.arrRef spec4 w)) ↦{(dat4 (Name := ℕ) (U := UU) (Lvl := ℕ) V O B qsh c).share w} Fw w : sProp 𝕄) := by
  unfold Pipeline.Dat.arrays
  exact bigSep_congr fun w _ => by rw [(arr_whole4 w).set_eq_univ]

/-- The eight buffers behind the nine windows' arrays are the arrays at the contents `Fw` when each window's
    contents are its buffer's: the gathered rows' buffer is split between its two windows along the share. -/
theorem arrays_of_arrBufs4 (Vc : (b : Ref sig .tc) → Buf (Elt F) ((c.tc : Thread nD τ).loc b))
    (Fw : (w : Fin cfg4.W) → Buf (Elt F) ((cfg4.win w).arr.view.loc (c.tc : Thread nD τ)))
    (hF : ∀ w, Fw w = Vc (Pipeline.arrRef spec4 w)) :
    (Pipeline.arrBufs (Ix := HIx 2) (Name := ℕ) (U := UU) (Lvl := ℕ) spec4 c Vc : sProp 𝕄) ⊢ (dat4 (Name := ℕ) (U := UU) (Lvl := ℕ) V O B qsh c).arrays Fw := by
  rw [arrays_eq4, show (fun w => (((c.tc : Thread nD τ).loc (Pipeline.arrRef spec4 w)) ↦{(dat4 (Name := ℕ) (U := UU) (Lvl := ℕ) V O B qsh c).share w} Fw w : sProp 𝕄))
      = fun w => (((c.tc : Thread nD τ).loc (Pipeline.arrRef spec4 w)) ↦{(dat4 (Name := ℕ) (U := UU) (Lvl := ℕ) V O B qsh c).share w} Vc (Pipeline.arrRef spec4 w) : sProp 𝕄) from
    funext fun w => by rw [hF]]
  unfold Pipeline.arrBufs
  rw [bigSep_arr4, bigSep_W4]
  iintro ⟨H0, Hs, H3, H4, H5, H6, H7, H8⟩
  ihave Hs' := (pointsTo_share (PosShare.mem_left_op_right fullShare)).1 $$ Hs
  icases Hs' with ⟨Hl, Hr⟩
  isplitl [H0]; · iexact H0
  isplitl [Hl]; · iexact Hl
  isplitl [Hr]; · iexact Hr
  isplitl [H3]; · iexact H3
  isplitl [H4]; · iexact H4
  isplitl [H5]; · iexact H5
  isplitl [H6]; · iexact H6
  isplitl [H7]; · iexact H7
  iexact H8

/-- and back: the two halves of the gathered rows' buffer, at one contents, are the buffer. -/
theorem arrBufs_of_arrays4 (Vc : (b : Ref sig .tc) → Buf (Elt F) ((c.tc : Thread nD τ).loc b))
    (Fw : (w : Fin cfg4.W) → Buf (Elt F) ((cfg4.win w).arr.view.loc (c.tc : Thread nD τ)))
    (hF : ∀ w, Fw w = Vc (Pipeline.arrRef spec4 w)) :
    (dat4 (Name := ℕ) (U := UU) (Lvl := ℕ) V O B qsh c).arrays Fw ⊢ (Pipeline.arrBufs (Ix := HIx 2) (Name := ℕ) (U := UU) (Lvl := ℕ) spec4 c Vc : sProp 𝕄) := by
  rw [arrays_eq4, show (fun w => (((c.tc : Thread nD τ).loc (Pipeline.arrRef spec4 w)) ↦{(dat4 (Name := ℕ) (U := UU) (Lvl := ℕ) V O B qsh c).share w} Fw w : sProp 𝕄))
      = fun w => (((c.tc : Thread nD τ).loc (Pipeline.arrRef spec4 w)) ↦{(dat4 (Name := ℕ) (U := UU) (Lvl := ℕ) V O B qsh c).share w} Vc (Pipeline.arrRef spec4 w) : sProp 𝕄) from
    funext fun w => by rw [hF]]
  unfold Pipeline.arrBufs
  rw [bigSep_arr4, bigSep_W4]
  iintro ⟨H0, Hl, Hr, H3, H4, H5, H6, H7, H8⟩
  isplitl [H0]; · iexact H0
  isplitl [Hl Hr]
  · iapply (pointsTo_share (PosShare.mem_left_op_right fullShare)).2
    isplitl [Hl]; · iexact Hl
    iexact Hr
  isplitl [H3]; · iexact H3
  isplitl [H4]; · iexact H4
  isplitl [H5]; · iexact H5
  isplitl [H6]; · iexact H6
  isplitl [H7]; · iexact H7
  iexact H8

/-- ENTRY, the arrays' part: the core's unscoped buffers at `Vc` are the region's arrays at their entry contents and
    the unscoped rest. -/
theorem arrays_of_unscopedBufs4 (Vc : (b : Ref sig .tc) → Buf (Elt F) ((c.tc : Thread nD τ).loc b))
    (hA : ∀ w, (dat4 (Name := ℕ) (U := UU) (Lvl := ℕ) V O B qsh c).A w = Vc (Pipeline.arrRef spec4 w)) :
    (unscopedBufs c Vc : sProp 𝕄)
      ⊢ iprop((dat4 (Name := ℕ) (U := UU) (Lvl := ℕ) V O B qsh c).arrays (dat4 (Name := ℕ) (U := UU) (Lvl := ℕ) V O B qsh c).A ∗ Pipeline.unscopedRest (Ix := HIx 2) (Name := ℕ) (U := UU) (Lvl := ℕ) spec4 c Vc) := by
  rw [Pipeline.unscopedBufs_split₀ (Ix := HIx 2) (Name := ℕ) (U := UU) (Lvl := ℕ) cfgs (2 : Fin 3) winFacts₀4.arr_unscoped c Vc]
  exact sep_mono (arrays_of_arrBufs4 V O B c Vc _ hA) .rfl

/-- EXIT, the arrays' part: the arrays at `Fw` and the unscoped rest at `Vc` are the core's unscoped buffers at any
    `Vc'` that has the arrays at `Fw` and agrees with `Vc` off them. -/
theorem unscopedBufs_of_arrays4 (Vc Vc' : (b : Ref sig .tc) → Buf (Elt F) ((c.tc : Thread nD τ).loc b))
    (Fw : (w : Fin cfg4.W) → Buf (Elt F) ((cfg4.win w).arr.view.loc (c.tc : Thread nD τ)))
    (hF : ∀ w, Fw w = Vc' (Pipeline.arrRef spec4 w))
    (hrest : ∀ b, b ∉ Finset.univ.image (Pipeline.arrRef spec4) → Vc' b = Vc b) :
    iprop((dat4 (Name := ℕ) (U := UU) (Lvl := ℕ) V O B qsh c).arrays Fw ∗ Pipeline.unscopedRest (Ix := HIx 2) (Name := ℕ) (U := UU) (Lvl := ℕ) spec4 c Vc)
      ⊢ (unscopedBufs c Vc' : sProp 𝕄) := by
  rw [Pipeline.unscopedBufs_split₀ (Ix := HIx 2) (Name := ℕ) (U := UU) (Lvl := ℕ) cfgs (2 : Fin 3) winFacts₀4.arr_unscoped c Vc']
  refine sep_mono (arrBufs_of_arrays4 V O B c Vc' Fw hF) (Entails.of_eq ?_)
  unfold Pipeline.unscopedRest
  exact bigSep_congr fun b hb => by rw [hrest b (Finset.mem_sdiff.mp hb).2]

end Shared4

/-! ## Region 1: the first half of the edges -/

section Region1

variable (d : Dev nD) (W : Valuation τ sig (Elt F))

/-- Region 1's proof data at `W`, before call 1. -/
abbrev dW2 (c : Dev nD) : Pipeline.Dat τ (Elt F) (HIx 2) ℕ UU ℕ cfg2 c :=
  dat2 (VofW W) ((K (F := F)).Otc d 1) (Bn (F := F) d 1) qsh c

/-- The valuation the region leaves: the output array at what the write-backs leave, every other buffer as it was. -/
def Wout2 : Valuation τ sig (Elt F) :=
  Pipeline.withArrays (fun _ : Fin 1 => spec2 8) d W fun _ => (dW2 d W d).arrAt 8 cfg2.N

theorem Wout2_out : Wout2 d W (Proc.devRef .tc main_v28) = (dW2 d W d).arrAt 8 cfg2.N := by
  unfold Wout2
  exact Pipeline.withArrays_arr (fun _ : Fin 1 => spec2 8) (fun _ _ _ => Subsingleton.elim _ _) d _ _ 0

/-- Only the output array changes. -/
theorem Wout2_keeps (r : Ref sig .tc) (hr : r ≠ main_v28) : Wout2 d W (Proc.devRef .tc r) = W (Proc.devRef .tc r) := by
  unfold Wout2
  exact Pipeline.withArrays_of_ne (fun _ : Fin 1 => spec2 8) d _ _ r fun _ e => hr e.symm

/-- Each array of the region holds, in the valuation it leaves, what the write-backs leave in it: an input array what
    it held. -/
theorem Wout2_arr (w : Fin cfg2.W) : (dW2 d W d).arrAt w cfg2.N = VofW (Wout2 d W) d (Pipeline.arrRef spec2 w) := by
  have hin : ∀ w' : Fin cfg2.W, (cfg2.win w').isOut = false → Pipeline.arrRef spec2 w' ≠ main_v28 →
      (dW2 d W d).arrAt w' cfg2.N = VofW (Wout2 d W) d (Pipeline.arrRef spec2 w') := fun w' h1 h2 =>
    (((dW2 d W d).arrAt_in w' h1 _).trans (A_eq2 (VofW W) _ _ qsh d w')).trans (Wout2_keeps d W _ h2).symm
  fin_cases w
  · exact hin 0 rfl (by decide)
  · exact hin 1 rfl (by decide)
  · exact hin 2 rfl (by decide)
  · exact hin 3 rfl (by decide)
  · exact hin 4 rfl (by decide)
  · exact hin 5 rfl (by decide)
  · exact hin 6 rfl (by decide)
  · exact hin 7 rfl (by decide)
  · exact (Wout2_out d W).symm

set_option backward.isDefEq.respectTransparency.types false in
/-- Region 1 over the thread state: entered from the TensorCore's state before call 1 and every unscoped buffer at
    `W`, left at the same state and the buffers at `Wout2`. -/
def reg2 : Pipeline.RegionSeg (pcfgs (F := F)) adm (pdW d 1 W qsh qsh) (none : HIx 2) defs₀ 𝒱₀
    (K (F := F)).L (K (F := F)).lev 1 where
  win := winFacts₀2
  block_pos := block_pos2
  stage_whole := stage_whole2
  K := PEmpty
  osem k := k.elim
  ho := Pipeline.OwnSemFacts.none _
  hbody c := body2 (VofW W) _ _ qsh none c
  hwaits c := hwaitsW d 1 W _ _ 1 c fun _ => rfl
  pre c := iprop((K (F := F)).tcSt EH c 1 ∗ (held (SparseCore.T c) (Pipeline.ucRefs τ sig) W : sProp 𝕄))
  post c := iprop((K (F := F)).tcSt EH c 1 ∗ (held (SparseCore.T c) (Pipeline.ucRefs τ sig) (Wout2 d W) : sProp 𝕄))
  X _ := iprop(emp)
  Y _ := iprop(emp)
  Z c := iprop(Pipeline.unscopedRest (Ix := HIx 2) (Name := ℕ) (U := UU) (Lvl := ℕ) spec2 c (VofW W c)
    ∗ (OW (F := F) c 1 -∗ (K (F := F)).tcSt EH c 1))
  hentry c := by
    obtain rfl : c = d := Subsingleton.elim (α := Fin 1) c d
    rw [Pipeline.ownSems0_none]
    have hsplit := arrays_of_unscopedBufs2 (VofW W) ((K (F := F)).Otc c 1) (Bn (F := F) c 1) c (VofW W c) fun _ => rfl
    rw [Pipeline.unscopedBufs_held] at hsplit
    iintro ⟨⟨Hst, Hub⟩, -, -⟩
    ihave H := hsplit $$ Hub
    icases H with ⟨Ha, Hrest⟩
    ihave Hs := (tcSt_split (F := F) c 1) $$ Hst
    icases Hs with ⟨⟨%Ws, %hWs, HO⟩, Hback⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists Ws; isplitr; · ipureintro; exact fun pr hpr => Or.inl (hWs pr hpr)
      iexact HO
    isplitr; · iempintro
    isplitl [Hrest]; · iexact Hrest
    iexact Hback
  hin c := by
    rw [show ((pdW d 1 W qsh qsh) 1 c).Φ 0 = Pipeline.scopedRest (Ix := HIx 2) (Name := ℕ) (U := UU) (Lvl := ℕ) (Val := Elt F) spec2 c from rfl]
    iintro ⟨-, -, Hr⟩
    iexact Hr
  hout c := by
    rw [Pipeline.ownSems0_none, show ((pdW d 1 W qsh qsh) 1 c).Φ (Fin.last _) = Pipeline.scopedRest (Ix := HIx 2) (Name := ℕ) (U := UU) (Lvl := ℕ) (Val := Elt F) spec2 c from rfl]
    iintro Hr
    isplitr; · iempintro
    isplitr; · iempintro
    iexact Hr
  hexit c := by
    obtain rfl : c = d := Subsingleton.elim (α := Fin 1) c d
    have hjoin := unscopedBufs_of_arrays2 (VofW W) ((K (F := F)).Otc c 1) (Bn (F := F) c 1) c
      (VofW W c) (VofW (Wout2 c W) c) ((dW2 c W c).arrAt · cfg2.N) (Wout2_arr c W)
      (fun b hb => Wout2_keeps c W b fun e => hb (e ▸ Finset.mem_image.mpr ⟨8, Finset.mem_univ _, rfl⟩))
    rw [Pipeline.unscopedBufs_held] at hjoin
    iintro ⟨Ha, HO, -, Hrest, Hback⟩
    imodintro
    isplitl [HO Hback]
    · iapply Hback
      unfold Pipeline.Dat.owesAt Pipeline.owesWithin
      icases HO with ⟨%Ws, %hWs, HO⟩
      iexists Ws; isplitr
      · ipureintro
        intro pr hpr
        rcases hWs hpr with h | ⟨w, s, rfl⟩
        · exact h
        · exact Nat.zero_le _
      iexact HO
    iapply hjoin
    isplitl [Ha]; · iexact Ha
    iexact Hrest

end Region1

/-! ## Region 2: the second half of the edges -/

section Region2

variable (d : Dev nD) (W : Valuation τ sig (Elt F))

/-- Region 2's proof data at `W`, before call 2. -/
abbrev dW4 (c : Dev nD) : Pipeline.Dat τ (Elt F) (HIx 2) ℕ UU ℕ cfg4 c :=
  dat4 (VofW W) ((K (F := F)).Otc d 2) (Bn (F := F) d 2) qsh c

/-- The valuation the region leaves: the output array at what the write-backs leave, every other buffer as it was. -/
def Wout4 : Valuation τ sig (Elt F) :=
  Pipeline.withArrays (fun _ : Fin 1 => spec4 8) d W fun _ => (dW4 d W d).arrAt 8 cfg4.N

theorem Wout4_out : Wout4 d W (Proc.devRef .tc main_v40) = (dW4 d W d).arrAt 8 cfg4.N := by
  unfold Wout4
  exact Pipeline.withArrays_arr (fun _ : Fin 1 => spec4 8) (fun _ _ _ => Subsingleton.elim _ _) d _ _ 0

/-- Only the output array changes. -/
theorem Wout4_keeps (r : Ref sig .tc) (hr : r ≠ main_v40) : Wout4 d W (Proc.devRef .tc r) = W (Proc.devRef .tc r) := by
  unfold Wout4
  exact Pipeline.withArrays_of_ne (fun _ : Fin 1 => spec4 8) d _ _ r fun _ e => hr e.symm

/-- Each array of the region holds, in the valuation it leaves, what the write-backs leave in it: an input array what
    it held. -/
theorem Wout4_arr (w : Fin cfg4.W) : (dW4 d W d).arrAt w cfg4.N = VofW (Wout4 d W) d (Pipeline.arrRef spec4 w) := by
  have hin : ∀ w' : Fin cfg4.W, (cfg4.win w').isOut = false → Pipeline.arrRef spec4 w' ≠ main_v40 →
      (dW4 d W d).arrAt w' cfg4.N = VofW (Wout4 d W) d (Pipeline.arrRef spec4 w') := fun w' h1 h2 =>
    (((dW4 d W d).arrAt_in w' h1 _).trans (A_eq4 (VofW W) _ _ qsh d w')).trans (Wout4_keeps d W _ h2).symm
  fin_cases w
  · exact hin 0 rfl (by decide)
  · exact hin 1 rfl (by decide)
  · exact hin 2 rfl (by decide)
  · exact hin 3 rfl (by decide)
  · exact hin 4 rfl (by decide)
  · exact hin 5 rfl (by decide)
  · exact hin 6 rfl (by decide)
  · exact hin 7 rfl (by decide)
  · exact (Wout4_out d W).symm

set_option backward.isDefEq.respectTransparency.types false in
/-- Region 2 over the thread state: entered from the TensorCore's state before call 2 and every unscoped buffer at
    `W`, left at the same state and the buffers at `Wout4`. -/
def reg4 : Pipeline.RegionSeg (pcfgs (F := F)) adm (pdW d 2 W qsh qsh) (none : HIx 2) defs₀ 𝒱₀
    (K (F := F)).L (K (F := F)).lev 2 where
  win := winFacts₀4
  block_pos := block_pos4
  stage_whole := stage_whole4
  K := PEmpty
  osem k := k.elim
  ho := Pipeline.OwnSemFacts.none _
  hbody c := body4 (VofW W) _ _ qsh none c
  hwaits c := hwaitsW d 2 W _ _ 2 c fun _ => rfl
  pre c := iprop((K (F := F)).tcSt EH c 2 ∗ (held (SparseCore.T c) (Pipeline.ucRefs τ sig) W : sProp 𝕄))
  post c := iprop((K (F := F)).tcSt EH c 2 ∗ (held (SparseCore.T c) (Pipeline.ucRefs τ sig) (Wout4 d W) : sProp 𝕄))
  X _ := iprop(emp)
  Y _ := iprop(emp)
  Z c := iprop(Pipeline.unscopedRest (Ix := HIx 2) (Name := ℕ) (U := UU) (Lvl := ℕ) spec4 c (VofW W c)
    ∗ (OW (F := F) c 2 -∗ (K (F := F)).tcSt EH c 2))
  hentry c := by
    obtain rfl : c = d := Subsingleton.elim (α := Fin 1) c d
    rw [Pipeline.ownSems0_none]
    have hsplit := arrays_of_unscopedBufs4 (VofW W) ((K (F := F)).Otc c 2) (Bn (F := F) c 2) c (VofW W c) fun _ => rfl
    rw [Pipeline.unscopedBufs_held] at hsplit
    iintro ⟨⟨Hst, Hub⟩, -, -⟩
    ihave H := hsplit $$ Hub
    icases H with ⟨Ha, Hrest⟩
    ihave Hs := (tcSt_split (F := F) c 2) $$ Hst
    icases Hs with ⟨⟨%Ws, %hWs, HO⟩, Hback⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists Ws; isplitr; · ipureintro; exact fun pr hpr => Or.inl (hWs pr hpr)
      iexact HO
    isplitr; · iempintro
    isplitl [Hrest]; · iexact Hrest
    iexact Hback
  hin c := by
    rw [show ((pdW d 2 W qsh qsh) 2 c).Φ 0 = Pipeline.scopedRest (Ix := HIx 2) (Name := ℕ) (U := UU) (Lvl := ℕ) (Val := Elt F) spec4 c from rfl]
    iintro ⟨-, -, Hr⟩
    iexact Hr
  hout c := by
    rw [Pipeline.ownSems0_none, show ((pdW d 2 W qsh qsh) 2 c).Φ (Fin.last _) = Pipeline.scopedRest (Ix := HIx 2) (Name := ℕ) (U := UU) (Lvl := ℕ) (Val := Elt F) spec4 c from rfl]
    iintro Hr
    isplitr; · iempintro
    isplitr; · iempintro
    iexact Hr
  hexit c := by
    obtain rfl : c = d := Subsingleton.elim (α := Fin 1) c d
    have hjoin := unscopedBufs_of_arrays4 (VofW W) ((K (F := F)).Otc c 2) (Bn (F := F) c 2) c
      (VofW W c) (VofW (Wout4 c W) c) ((dW4 c W c).arrAt · cfg4.N) (Wout4_arr c W)
      (fun b hb => Wout4_keeps c W b fun e => hb (e ▸ Finset.mem_image.mpr ⟨8, Finset.mem_univ _, rfl⟩))
    rw [Pipeline.unscopedBufs_held] at hjoin
    iintro ⟨Ha, HO, -, Hrest, Hback⟩
    imodintro
    isplitl [HO Hback]
    · iapply Hback
      unfold Pipeline.Dat.owesAt Pipeline.owesWithin
      icases HO with ⟨%Ws, %hWs, HO⟩
      iexists Ws; isplitr
      · ipureintro
        intro pr hpr
        rcases hWs hpr with h | ⟨w, s, rfl⟩
        · exact h
        · exact Nat.zero_le _
      iexact HO
    iapply hjoin
    isplitl [Ha]; · iexact Ha
    iexact Hrest

end Region2

/-! ## The three steps -/

variable (P : (K (F := F)).Pay (nD := nD) (Val := Elt F) (Name := ℕ) (U := UU))

set_option backward.isDefEq.respectTransparency.types false in
/-- The node tables' region as @main's step. -/
theorem regionStep0 : RegionStep P 0 0 main_v8
    (fun d => iprop(Pipeline.cellsGhost (Pipeline.pin (pcfgs (F := F)) adm) EP 0 d ∗ Pipeline.toksInit (Pipeline.pin (pcfgs (F := F)) adm) EP 0 d)) := by
  intro κ d V₁ k Q
  rw [wp_bind]
  have hwp := (reg0 (F := F) d V₁).wp (pcfgs (F := F)) adm _ (none : HIx 2) cellOf_inj EP defs₀ 𝒱₀ (K (F := F)).L (K (F := F)).lev d none
    (fun _ h => by cases h) (fun u => .ret u)
    (fun a => wp frame (wpE ((K (F := F)).defs (D (F := F))) 𝒱 (SparseCore.T d) none) Set.univ (k a) Q)
  have hlift := (K (F := F)).wp_liftProg (D (F := F)) 𝒱 (SparseCore.T d) (Set.univ : Set ℕ) none
    (.op (.customCall (Pipeline.entry (0 : Fin 3)) ()) fun u => .ret u)
    (fun a => wp frame (wpE ((K (F := F)).defs (D (F := F))) 𝒱 (SparseCore.T d) none) Set.univ (k a) Q)
  refine BIBase.Entails.trans ?_ hlift
  refine BIBase.Entails.trans ?_ hwp
  dsimp only [reg0]
  iintro ⟨#Hctx, Hb, Hst, Hh, ⟨Hg, Ht⟩, Hk⟩
  isplitl [Hk]
  · iintro ⟨Hb, Hst, Hh⟩
    rw [wp_ret]; imodintro
    iapply Hk $$ %(Wout0 d V₁) %(Wout0_keeps d V₁)
    isplitl [Hb]; · iexact Hb
    isplitl [Hst]; · iexact Hst
    iexact Hh
  isplitl [Hb]; · iexact Hb
  isplitl [Hst Hh]
  · isplitl [Hst]; · iexact Hst
    iexact Hh
  isplitr; · iapply SparseCore.Cfg.ctx_levAts; iexact Hctx
  isplitl [Hg] <;> iassumption

set_option backward.isDefEq.respectTransparency.types false in
/-- The first half of the edges' region as @main's step. -/
theorem regionStep1 : RegionStep P 1 1 main_v28
    (fun d => iprop(Pipeline.cellsGhost (Pipeline.pin (pcfgs (F := F)) adm) EP 1 d ∗ Pipeline.toksInit (Pipeline.pin (pcfgs (F := F)) adm) EP 1 d)) := by
  intro κ d V₁ k Q
  rw [wp_bind]
  have hwp := (reg2 (F := F) d V₁).wp (pcfgs (F := F)) adm _ (none : HIx 2) cellOf_inj EP defs₀ 𝒱₀ (K (F := F)).L (K (F := F)).lev d none
    (fun _ h => by cases h) (fun u => .ret u)
    (fun a => wp frame (wpE ((K (F := F)).defs (D (F := F))) 𝒱 (SparseCore.T d) none) Set.univ (k a) Q)
  have hlift := (K (F := F)).wp_liftProg (D (F := F)) 𝒱 (SparseCore.T d) (Set.univ : Set ℕ) none
    (.op (.customCall (Pipeline.entry (1 : Fin 3)) ()) fun u => .ret u)
    (fun a => wp frame (wpE ((K (F := F)).defs (D (F := F))) 𝒱 (SparseCore.T d) none) Set.univ (k a) Q)
  refine BIBase.Entails.trans ?_ hlift
  refine BIBase.Entails.trans ?_ hwp
  dsimp only [reg2]
  iintro ⟨#Hctx, Hb, Hst, Hh, ⟨Hg, Ht⟩, Hk⟩
  isplitl [Hk]
  · iintro ⟨Hb, Hst, Hh⟩
    rw [wp_ret]; imodintro
    iapply Hk $$ %(Wout2 d V₁) %(Wout2_keeps d V₁)
    isplitl [Hb]; · iexact Hb
    isplitl [Hst]; · iexact Hst
    iexact Hh
  isplitl [Hb]; · iexact Hb
  isplitl [Hst Hh]
  · isplitl [Hst]; · iexact Hst
    iexact Hh
  isplitr; · iapply SparseCore.Cfg.ctx_levAts; iexact Hctx
  isplitl [Hg] <;> iassumption

set_option backward.isDefEq.respectTransparency.types false in
/-- The second half of the edges' region as @main's step. -/
theorem regionStep2 : RegionStep P 2 2 main_v40
    (fun d => iprop(Pipeline.cellsGhost (Pipeline.pin (pcfgs (F := F)) adm) EP 2 d ∗ Pipeline.toksInit (Pipeline.pin (pcfgs (F := F)) adm) EP 2 d)) := by
  intro κ d V₁ k Q
  rw [wp_bind]
  have hwp := (reg4 (F := F) d V₁).wp (pcfgs (F := F)) adm _ (none : HIx 2) cellOf_inj EP defs₀ 𝒱₀ (K (F := F)).L (K (F := F)).lev d none
    (fun _ h => by cases h) (fun u => .ret u)
    (fun a => wp frame (wpE ((K (F := F)).defs (D (F := F))) 𝒱 (SparseCore.T d) none) Set.univ (k a) Q)
  have hlift := (K (F := F)).wp_liftProg (D (F := F)) 𝒱 (SparseCore.T d) (Set.univ : Set ℕ) none
    (.op (.customCall (Pipeline.entry (2 : Fin 3)) ()) fun u => .ret u)
    (fun a => wp frame (wpE ((K (F := F)).defs (D (F := F))) 𝒱 (SparseCore.T d) none) Set.univ (k a) Q)
  refine BIBase.Entails.trans ?_ hlift
  refine BIBase.Entails.trans ?_ hwp
  dsimp only [reg4]
  iintro ⟨#Hctx, Hb, Hst, Hh, ⟨Hg, Ht⟩, Hk⟩
  isplitl [Hk]
  · iintro ⟨Hb, Hst, Hh⟩
    rw [wp_ret]; imodintro
    iapply Hk $$ %(Wout4 d V₁) %(Wout4_keeps d V₁)
    isplitl [Hb]; · iexact Hb
    isplitl [Hst]; · iexact Hst
    iexact Hh
  isplitl [Hb]; · iexact Hb
  isplitl [Hst Hh]
  · isplitl [Hst]; · iexact Hst
    iexact Hh
  isplitr; · iapply SparseCore.Cfg.ctx_levAts; iexact Hctx
  isplitl [Hg] <;> iassumption

end Cert.ProofBits.Main

end
-- ==== Proof.Bits.TcIdx.lean ====
/-
  The index lists the two gathers read, in range. Each list is laid out from two rows of 160000 edge indices: the
  source indices, 3840 zeros, the destination indices moved past the source table (plus 10000), 3840 entries at
  the destination table's first row (10000). Where every edge index is at most 9999, the first half of the list
  (entries below 163840) names rows 0 ‥ 9999 and the second half rows 10000 ‥ 19999: the additions do not wrap.
  That every edge index is at most 9999 is the last conjunct of the precondition.
-/
import proofs.«217078_g14027363189340_cont_week2b_886_24_alg».proof.Proof.Bits.ScCall
import proofs.«217078_g14027363189340_cont_week2b_886_24_alg».proof.Pre_input_domain
import Idealize.ShloMosaic.Lib.ReduceAll
import Idealize.ShloMosaic.Lib.Pipeline.Value
import Idealize.ShloMosaic.Lib.ValueIdx

noncomputable section

namespace Cert.ProofBits.Main

open Cert.Kernel Cert.Kernel.Gen
open Idealize.ShloMosaic Idealize.ShloMosaic.StableHlo Idealize.ShloMosaic.TcCoe Idealize.ShloMosaic.ValueIdx

variable {F : FTy → Type} [FloatOps F]

/-- Every edge index, read unsigned, is at most 9999. -/
def EdgesOK (e : S2x320000.Idx → BitVec 32) : Prop := ∀ i, (e i).toNat ≤ 9999

/-- The four pieces of an index list: `s`, `z`, `d + 10000`, `z + 10000`. -/
abbrev pieces (s : IVec S160000 32) (z : IVec S3840 32) (d : IVec S160000 32) : List ((t : Shape) × (t.Idx → BitVec 32)) :=
  [⟨S160000, s⟩,
   ⟨S3840, z⟩,
   ⟨S160000, addi d (broadcastInDim S160000 ![] bcast_S_S160000 (constantI S_ 32 10000#32))⟩,
   ⟨S3840, addi z (broadcastInDim S3840 ![] bcast_S_S3840 (constantI S_ 32 10000#32))⟩]

/-- The index list laid out from a row `s` of source indices, a row `d` of destination indices and 3840 padding
    entries `z`: `s`, `z`, `d + 10000`, `z + 10000`. -/
def idxList (s : IVec S160000 32) (z : IVec S3840 32) (d : IVec S160000 32) : IVec S327680 32 :=
  concatenate S327680 0 (pieces s z d) concatenates_S160000_S3840_S160000_S3840_S327680_d0

/-- The 3840 padding entries as the program builds them: zeros. -/
def zeroPad : IVec S3840 32 := broadcastInDim S3840 ![] bcast_S_S3840 (constantI S_ 32 0#32)

theorem zeroPad_le (i : S3840.Idx) : (zeroPad i).toNat ≤ 9999 := by
  show (0#32).toNat ≤ 9999
  decide

/-- 160000 consecutive entries of one row of the edge list, as a vector. -/
def edgeRow (e : IVec S2x320000 32) (off : Fin 2 → Nat) (h : S2x320000.Slices off S1x160000) : IVec S160000 32 :=
  shapeCast S160000 (extractStridedSlice S1x160000 off e h) shapeCasts_S1x160000_S160000

/-- Each entry of such a row is an entry of the edge list. -/
theorem edgeRow_le (e : IVec S2x320000 32) (he : EdgesOK e) (off : Fin 2 → Nat) (h : S2x320000.Slices off S1x160000)
    (i : S160000.Idx) : (edgeRow e off h i).toNat ≤ 9999 := by
  unfold edgeRow shapeCast extractStridedSlice
  exact he _

/-- Membership in a half of the list, as bounds on the position. -/
theorem mem_halfJ {c : Fin 2} {r : S327680.Idx} (hr : r ∈ Cert.ProofBits.Sc.halfJ c) :
    c.val * 163840 ≤ (r 0).val ∧ (r 0).val < c.val * 163840 + 163840 := by
  have hm := (Rect.mem_set_unit.mp hr) 0
  simpa [Shape.partIx, Shape.partSize] using hm

/-- The pieces' extents before the second, the third and the fourth piece. -/
private theorem pre1 : ([S160000].map fun s : Shape => if h : s.rank = S327680.rank then s.size ((0 : Fin S327680.rank).cast h.symm) else 0).sum = 160000 := by decide
private theorem pre2 : ([S160000, S3840].map fun s : Shape => if h : s.rank = S327680.rank then s.size ((0 : Fin S327680.rank).cast h.symm) else 0).sum = 163840 := by decide
private theorem pre3 : ([S160000, S3840, S160000].map fun s : Shape => if h : s.rank = S327680.rank then s.size ((0 : Fin S327680.rank).cast h.symm) else 0).sum = 323840 := by decide

/-- The one coordinate of an index into a piece, from a position and the pieces' extent before it. -/
private abbrev pieceIx {n : Nat} (p pre : Nat) (h : p - pre < n) : (⟨1, ![n]⟩ : Shape).Idx := ix1 ⟨p - pre, h⟩

/-- **The laid-out list is in range** where both rows and the padding hold indices at most 9999: by the position's
    piece; adding 10000 to a word at most 9999 does not wrap. -/
theorem idxList_ok (s : IVec S160000 32) (z : IVec S3840 32) (d : IVec S160000 32) (hs : ∀ i, (s i).toNat ≤ 9999)
    (hz : ∀ i, (z i).toNat ≤ 9999) (hd : ∀ i, (d i).toNat ≤ 9999) : IdxOK (idxList s z d) := by
  intro c
  unfold Cert.ProofBits.Sc.InRange
  intro r hr
  obtain ⟨hlo, hhi⟩ := mem_halfJ hr
  have hc : c.val < 2 := c.isLt
  have hone : ∀ (n : Nat) (b : Fin (⟨1, ![n]⟩ : Shape).rank), b.val = 0 := fun n b => Nat.lt_one_iff.mp b.isLt
  have hadd : ∀ w : BitVec 32, w.toNat ≤ 9999 → (IntOp.addi w 10000#32).toNat = w.toNat + 10000 := by
    intro w hw
    show (w + 10000#32).toNat = _
    rw [BitVec.toNat_add]
    show (w.toNat + 10000) % 2 ^ 32 = _
    exact Nat.mod_eq_of_lt (by omega)
  by_cases h1 : (r 0).val < 160000
  · -- a source index
    have e : idxList s z d r = s (pieceIx (r 0).val 0 (by omega)) :=
      concatenate_apply_piece (0 : Fin S327680.rank) (pieces s z d) concatenates_S160000_S3840_S160000_S3840_S327680_d0 r 0 (by show 0 < 4; omega) S160000 s rfl rfl 0 rfl
        (pieceIx (r 0).val 0 (by omega)) (fun b hb => absurd (Fin.ext (hone _ b)) hb)
        (by show 0 + ((r 0).val - 0) = (r 0).val; omega)
    rw [e]
    have := hs (pieceIx (r 0).val 0 (by omega))
    constructor <;> omega
  by_cases h2 : (r 0).val < 163840
  · -- padding of the first half
    have e : idxList s z d r = z (pieceIx (r 0).val 160000 (by omega)) :=
      concatenate_apply_piece (0 : Fin S327680.rank) (pieces s z d) concatenates_S160000_S3840_S160000_S3840_S327680_d0 r 1 (by show 1 < 4; omega) S3840 z rfl rfl 160000 pre1
        (pieceIx (r 0).val 160000 (by omega)) (fun b hb => absurd (Fin.ext (hone _ b)) hb)
        (by show 160000 + ((r 0).val - 160000) = (r 0).val; omega)
    rw [e]
    have := hz (pieceIx (r 0).val 160000 (by omega))
    constructor <;> omega
  by_cases h3 : (r 0).val < 323840
  · -- a destination index, moved past the source table
    have e : idxList s z d r = (addi d (broadcastInDim S160000 ![] bcast_S_S160000 (constantI S_ 32 10000#32))) (pieceIx (r 0).val 163840 (by omega)) :=
      concatenate_apply_piece (0 : Fin S327680.rank) (pieces s z d) concatenates_S160000_S3840_S160000_S3840_S327680_d0 r 2 (by show 2 < 4; omega) S160000 _ rfl rfl 163840 pre2
        (pieceIx (r 0).val 163840 (by omega)) (fun b hb => absurd (Fin.ext (hone _ b)) hb)
        (by show 163840 + ((r 0).val - 163840) = (r 0).val; omega)
    rw [e]
    have hdi := hd (pieceIx (r 0).val 163840 (by omega))
    have e2 : ((addi d (broadcastInDim S160000 ![] bcast_S_S160000 (constantI S_ 32 10000#32))) (pieceIx (r 0).val 163840 (by omega))).toNat
        = (d (pieceIx (r 0).val 163840 (by omega))).toNat + 10000 := hadd _ hdi
    rw [e2]
    constructor <;> omega
  · -- padding of the second half, moved likewise
    have h4 : (r 0).val < 327680 := (r 0).isLt
    have e : idxList s z d r = (addi z (broadcastInDim S3840 ![] bcast_S_S3840 (constantI S_ 32 10000#32))) (pieceIx (r 0).val 323840 (by omega)) :=
      concatenate_apply_piece (0 : Fin S327680.rank) (pieces s z d) concatenates_S160000_S3840_S160000_S3840_S327680_d0 r 3 (by show 3 < 4; omega) S3840 _ rfl rfl 323840 pre3
        (pieceIx (r 0).val 323840 (by omega)) (fun b hb => absurd (Fin.ext (hone _ b)) hb)
        (by show 323840 + ((r 0).val - 323840) = (r 0).val; omega)
    rw [e]
    have hzi := hz (pieceIx (r 0).val 323840 (by omega))
    have e3 : ((addi z (broadcastInDim S3840 ![] bcast_S_S3840 (constantI S_ 32 10000#32))) (pieceIx (r 0).val 323840 (by omega))).toNat
        = (z (pieceIx (r 0).val 323840 (by omega))).toNat + 10000 := hadd _ hzi
    rw [e3]
    constructor <;> omega

-- the slices and the reshapes are searches over an operand's positions: kept folded while the two terms are compared
attribute [local irreducible] shapeCast extractStridedSlice concatenate in
set_option maxRecDepth 8192 in
set_option maxHeartbeats 1600000 in
/-- The first call's index list is the layout of the first 160000 entries of the edge list's two rows, the padding
    the zeros the same stretch builds. -/
theorem v25_eq (V₁ : Valuation τ sig (Elt F)) :
    after opsB V₁ (Proc.devRef .tc main_v25)
      = idxList (edgeRow (V₁ (Proc.devRef .tc main_arg3)) ![0, 0] slices_S2x320000_S1x160000_0_0) zeroPad
          (edgeRow (V₁ (Proc.devRef .tc main_arg3)) ![1, 0] slices_S2x320000_S1x160000_1_0) := by
  simp (disch := decide) only [after_cons, after_nil, nary_result', Matrix.cons_val]
  unfold idxList edgeRow zeroPad
  rfl

attribute [local irreducible] shapeCast extractStridedSlice concatenate in
set_option maxRecDepth 8192 in
set_option maxHeartbeats 1600000 in
/-- The second call's index list is the layout of the last 160000 entries of the edge list's two rows, the padding
    whatever the padding buffer holds. -/
theorem v37_eq (V₁ : Valuation τ sig (Elt F)) :
    after opsD V₁ (Proc.devRef .tc main_v37)
      = idxList (edgeRow (V₁ (Proc.devRef .tc main_arg3)) ![0, 160000] slices_S2x320000_S1x160000_0_160000)
          (V₁ (Proc.devRef .tc main_v10))
          (edgeRow (V₁ (Proc.devRef .tc main_arg3)) ![1, 160000] slices_S2x320000_S1x160000_1_160000) := by
  simp (disch := decide) only [after_cons, after_nil, nary_result', Matrix.cons_val]
  unfold idxList edgeRow
  rfl

/-- The padding buffer after the first stretch: zeros. -/
theorem v10_after_opsB (V : Valuation τ sig (Elt F)) :
    after opsB V (Proc.devRef .tc main_v10) = zeroPad := by
  after_results_simp
  rfl

/-- The first call's index list is in range where every edge index is at most 9999. -/
theorem idx0_ok (V₁ : Valuation τ sig (Elt F)) (h : EdgesOK (V₁ (Proc.devRef .tc main_arg3))) :
    IdxOK (after opsB V₁ (Proc.devRef .tc main_v25)) := by
  rw [v25_eq]
  exact idxList_ok _ _ _ (edgeRow_le _ h _ _) zeroPad_le (edgeRow_le _ h _ _)

/-- The second call's index list is in range where every edge index is at most 9999 and the padding buffer still
    holds what the first stretch left in it. -/
theorem idx1_ok (V₁ W : Valuation τ sig (Elt F)) (h : EdgesOK (V₁ (Proc.devRef .tc main_arg3)))
    (hz : V₁ (Proc.devRef .tc main_v10) = after opsB W (Proc.devRef .tc main_v10)) :
    IdxOK (after opsD V₁ (Proc.devRef .tc main_v37)) := by
  rw [v37_eq, hz, v10_after_opsB]
  exact idxList_ok _ _ _ (edgeRow_le _ h _ _) zeroPad_le (edgeRow_le _ h _ _)

/-! ## From the precondition -/

/-- A word that reads, signed, between 0 and 9999 is at most 9999 read unsigned. -/
theorem toNat_le_of_toInt {v : BitVec 32} (h0 : (0 : Int) ≤ v.toInt) (h1 : v.toInt ≤ 9999) : v.toNat ≤ 9999 := by
  rw [BitVec.toInt_eq_toNat_cond] at h0 h1
  split at h0 <;> omega

/-- **The precondition bounds the edge list**: its last conjunct is the conjunction, over every entry of the edge
    list, of `0 ≤ e` and `e ≤ 9999` read signed; the whole being one, so is that conjunct, so is every entry's. -/
theorem edges_of_pre [hPre_input_domain : Cert.Pre_input_domain.Facts] (a0 : FVec F S320000x16 .f32) (a1 a2 : FVec F S10000x128 .f32) (a3 : IVec S2x320000 32)
    (a4 : FVec F S128x16 .f32) (a5 a6 : FVec F S128x128 .f32) (a7 : FVec F S128 .f32)
    (a8 : FVec F S128x128 .f32) (a9 a10 a11 : FVec F S128 .f32)
    (hp : Cert.Pre_input_domain.fn (F := F) a0 a1 a2 a3 a4 a5 a6 a7 a8 a9 a10 a11 = fun _ => 1#1) : EdgesOK a3 := by
  haveI : Subsingleton Cert.Pre_input_domain.S_.Idx := ⟨fun a b => funext fun d => d.elim0⟩
  have e := congrFun hp ix0
  dsimp only [Cert.Pre_input_domain.fn, Cert.Pre_input_domain.fn_part1, Cert.Pre_input_domain.fn_part2,
    Cert.Pre_input_domain.fn_part3] at e
  have e59 := (IntOp.andi_eq_one.mp e).2
  intro i
  have ei := Host.reduce_andi_all _ _ _ _ ix0 e59 i
  obtain ⟨h0, h1⟩ := IntOp.andi_eq_one.mp ei
  have h0' : (0#32 : BitVec 32).toInt ≤ (a3 i).toInt := IntOp.cmpi_sge.mp h0
  have h1' : (a3 i).toInt ≤ (9999#32 : BitVec 32).toInt := IntOp.cmpi_sle.mp h1
  exact toNat_le_of_toInt (by simpa using h0') (by
    have : (9999#32 : BitVec 32).toInt = 9999 := by decide
    omega)

end Cert.ProofBits.Main

end
-- ==== Proof.Bits.KFrame.lean ====
/-
  The kernel program's run with every proved part in place: @main's three kernel regions and two SparseCore calls, the
  index lists' ranges from the precondition, the launch element of the ghost state. What is still taken as given is the
  SparseCore side of each gather: one tile's obligation, and the split of a SparseCore's operands among its tiles.
-/
import proofs.«217078_g14027363189340_cont_week2b_886_24_alg».proof.Proof.Bits.TcRun
import proofs.«217078_g14027363189340_cont_week2b_886_24_alg».proof.Proof.Bits.ScCall
import proofs.«217078_g14027363189340_cont_week2b_886_24_alg».proof.Proof.Bits.ScLaunch
import proofs.«217078_g14027363189340_cont_week2b_886_24_alg».proof.Proof.Bits.TcRegion
import proofs.«217078_g14027363189340_cont_week2b_886_24_alg».proof.Proof.Bits.TcIdx

noncomputable section

namespace Cert.ProofBits.Main

open Cert.Kernel Cert.Kernel.Gen Cert.ProofBits.Sc

open Idealize.ShloMosaic Idealize.ShloMosaic.StableHlo Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

/-- On every device the launch memory's edge list holds indices of node rows. -/
def PreOK (m : (ℓ : Loc nD τ sig) → Buf (Elt F) ℓ) : Prop := ∀ d : Dev nD, EdgesOK (m (d, Proc.devRef .tc main_arg3))

/-- The program's run from a launch memory whose edge list is in range, given the SparseCore side of the two gathers. -/
theorem run_main [∀ e, Nonempty (Elt F e)] (m : (ℓ : Loc nD τ sig) → Buf (Elt F) ℓ) (ρ : Dev nD → PrngReg) (hpre : PreOK m)
    (htile0 : (K (F := F)).TileObl (D (F := F)) 𝒱 (P (F := F)) v₀ 0) (htile1 : (K (F := F)).TileObl (D (F := F)) 𝒱 (P (F := F)) v₀ 1)
    (hvec0 : (K (F := F)).VecSplit (P (F := F)) 0) (hvec1 : (K (F := F)).VecSplit (P (F := F)) 1) :
    θ_run (Cert.Kernel.defs (F := F)) (Cert.Kernel.threads (F := F)) ⟨m, fun _ => 0, ρ⟩ (QC m) :=
  run_main_of m ρ htile0 htile1 hvec0 hvec1 (Gp (F := F) 0) (Gp (F := F) 1) (Gp (F := F) 2) (X1 (F := F)) IdxOK IdxOK
    (regionStep0 (P (F := F))) (regionStep1 (P (F := F))) (regionStep2 (P (F := F))) callStep0 callStep1
    (fun d V₁ hV => idx0_ok V₁ (by rw [hV]; exact hpre d))
    (fun d V₁ W hV hz => idx1_ok V₁ W (by rw [hV]; exact hpre d) hz)
    (u₀ (F := F)) hu₀

end Cert.ProofBits.Main

end
-- ==== Proof.Bits.ScTileWrap.lean ====
/-
  The two SparseCore calls' tile obligations, in the launch theorem's spelling of thread and program, from one tile's
  body theorem at a symbolic place of the grid: the kernel's label in the body table is the kernel function on the
  tiles of its grid, lifted to the pipelines' labels; what the handshakes carry at a call reduces to the call's own
  pieces. Also: a double conjunction over a product of two finite index types as two conjunctions over pairs.
-/
import proofs.«217078_g14027363189340_cont_week2b_886_24_alg».proof.Proof.Bits.ScPay

set_option maxRecDepth 16384

noncomputable section

namespace Cert.ProofBits.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

/-! ## A conjunction over pairs -/

/-- A conjunction over `a` of a conjunction over `b` of a pair is the conjunction of the first components over all
    pairs beside that of the second. -/
theorem bigSep_pairs {α β : Type} [Fintype α] [Fintype β] [DecidableEq α] [DecidableEq β] (Φ Ψ : α × β → sProp 𝕄) :
    (bigSep Finset.univ fun a : α => bigSep Finset.univ fun b : β => iprop(Φ (a, b) ∗ Ψ (a, b)))
      = iprop(bigSep Finset.univ Φ ∗ bigSep Finset.univ Ψ) := by
  rw [← bigSep_sep', bigSep_univ_prod]

variable [FloatOps F]

/-! ## Call 0 -/

section Call0

local notation "tV" => (Memref.whole Cert.Kernel.main_v9_scv : Memref Cert.Kernel.sig Kind.scVector Space.hbm Cert.Kernel.S20000x128 EltTy.f32)
local notation "jV" => (Memref.whole Cert.Kernel.main_v25_scv : Memref Cert.Kernel.sig Kind.scVector Space.hbm Cert.Kernel.S327680 EltTy.i32)
local notation "oV" => (Memref.whole Cert.Kernel.main_v26_scv : Memref Cert.Kernel.sig Kind.scVector Space.hbm Cert.Kernel.S327680x128 EltTy.f32)
local notation "shV" => (Memref.whole Cert.Kernel.cc1_scratch0 : Memref Cert.Kernel.sig Kind.scVector Space.shared Cert.Kernel.S10000x128 EltTy.f32)
local notation "ibV" => (Memref.whole Cert.Kernel.cc1_scratch1 : Memref Cert.Kernel.sig Kind.scVector Space.vmem Cert.Kernel.S2048 EltTy.i32)
local notation "raV" => (Memref.whole Cert.Kernel.cc1_scratch2 : Memref Cert.Kernel.sig Kind.scVector Space.vmem Cert.Kernel.S128x128 EltTy.f32)
local notation "rbV" => (Memref.whole Cert.Kernel.cc1_scratch3 : Memref Cert.Kernel.sig Kind.scVector Space.vmem Cert.Kernel.S128x128 EltTy.f32)

/-- One tile's task of call 0 at a symbolic place `L` of the grid: from the level facts, its barrier kit, what the
    sequencer's go hands it, its own scoped storage and what it owes, the kernel function runs to what its taskDone
    hands back, the storage, and what it owed before beside nothing of its own. -/
def TileBody0 : Prop :=
  ∀ (d : Dev nD) (L : grid1.Coords) (hF : (K (F := F)).Facts) (O : CellTallies nD τ sig (HIx 2)) (W : Waits sig (HIx 2)) (hO : ∀ g, O g none = 0)
    (hOlev : ∀ g ι, 0 < O g ι → 8 * (0 : Fin 2).val + 6 ≤ (K (F := F)).lev g ι),
    iprop(levAts (K (F := F)).L (K (F := F)).lev ∗ kit 0 d (cV0 L) (jV0 L) ∗ go0 d L
        ∗ scopedBufs (V d (cV0 L) (jV0 L)) ∗ scopedSems0 (V d (cV0 L) (jV0 L)) ∗ owes (V d (cV0 L) (jV0 L)) (O + oxV 0 d (cV0 L)) W)
      ⊢ wp frame (wpE (defs₀ (F := F)) 𝒱₀ (V d (cV0 L) (jV0 L)) none) Set.univ
          (cc1_gather_kernel L tV (Memref.isWhole_whole _) jV (Memref.isWhole_whole _) oV (Memref.isWhole_whole _) shV (Memref.isWhole_whole _)
            ibV (Memref.isWhole_whole _) raV (Memref.isWhole_whole _) rbV (Memref.isWhole_whole _) cc1_scratch4 cc1_scratch5 cc1_scratch6 cc1_scratch7 cc1_scoped0 cc1_scoped1)
          fun _ => iprop(td0 d L ∗ scopedBufs (V d (cV0 L) (jV0 L)) ∗ scopedSems0 (V d (cV0 L) (jV0 L))
            ∗ ∃ W', ⌜∀ p ∈ W', p ∈ W ∨ p.2 = none ∨ p.2 = some (0 : Fin 2)⌝ ∗ owes (V d (cV0 L) (jV0 L)) O W')

/-- The kernel's row of the body table on a vector subcore: the kernel function on the tiles of its grid. -/
theorem defs₀_vector0 (c : Fin τ.nSC) (s : Fin τ.nSub) :
    defs₀ (F := F) (.scVector c s) 1 ()
      = SparseCore.onTile hcore1 hsub1 (fun c s => cc1_gather_kernel (coords0 c s)
          tV (Memref.isWhole_whole _) jV (Memref.isWhole_whole _) oV (Memref.isWhole_whole _) shV (Memref.isWhole_whole _)
          ibV (Memref.isWhole_whole _) raV (Memref.isWhole_whole _) rbV (Memref.isWhole_whole _)
          cc1_scratch4 cc1_scratch5 cc1_scratch6 cc1_scratch7 cc1_scoped0 cc1_scoped1) ⟨⟩ c s := rfl

/-- Call 0's tile obligation from the body theorem. -/
theorem tileObl0_of (h : TileBody0 (F := F)) : (K (F := F)).TileObl (D (F := F)) 𝒱 (P (F := F)) v₀ 0 := by
  intro d c i O W hO hOlev _
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector0]; simp only [SparseCore.onTile, hci, and_self, ↓reduceDIte]
  exact h d (coords0 ⟨_, hci.1⟩ ⟨_, hci.2⟩) facts O W hO hOlev

end Call0

/-! ## Call 1 -/

section Call1

local notation "tV" => (Memref.whole Cert.Kernel.main_v9_scv : Memref Cert.Kernel.sig Kind.scVector Space.hbm Cert.Kernel.S20000x128 EltTy.f32)
local notation "jV" => (Memref.whole Cert.Kernel.main_v37_scv : Memref Cert.Kernel.sig Kind.scVector Space.hbm Cert.Kernel.S327680 EltTy.i32)
local notation "oV" => (Memref.whole Cert.Kernel.main_v38_scv : Memref Cert.Kernel.sig Kind.scVector Space.hbm Cert.Kernel.S327680x128 EltTy.f32)
local notation "shV" => (Memref.whole Cert.Kernel.cc3_scratch0 : Memref Cert.Kernel.sig Kind.scVector Space.shared Cert.Kernel.S10000x128 EltTy.f32)
local notation "ibV" => (Memref.whole Cert.Kernel.cc3_scratch1 : Memref Cert.Kernel.sig Kind.scVector Space.vmem Cert.Kernel.S2048 EltTy.i32)
local notation "raV" => (Memref.whole Cert.Kernel.cc3_scratch2 : Memref Cert.Kernel.sig Kind.scVector Space.vmem Cert.Kernel.S128x128 EltTy.f32)
local notation "rbV" => (Memref.whole Cert.Kernel.cc3_scratch3 : Memref Cert.Kernel.sig Kind.scVector Space.vmem Cert.Kernel.S128x128 EltTy.f32)

/-- One tile's task of call 1 at a symbolic place `L` of the grid: from the level facts, its barrier kit, what the
    sequencer's go hands it, its own scoped storage and what it owes, the kernel function runs to what its taskDone
    hands back, the storage, and what it owed before beside nothing of its own. -/
def TileBody1 : Prop :=
  ∀ (d : Dev nD) (L : grid3.Coords) (hF : (K (F := F)).Facts) (O : CellTallies nD τ sig (HIx 2)) (W : Waits sig (HIx 2)) (hO : ∀ g, O g none = 0)
    (hOlev : ∀ g ι, 0 < O g ι → 8 * (1 : Fin 2).val + 6 ≤ (K (F := F)).lev g ι),
    iprop(levAts (K (F := F)).L (K (F := F)).lev ∗ kit 1 d (cV1 L) (jV1 L) ∗ go1 d L
        ∗ scopedBufs (V d (cV1 L) (jV1 L)) ∗ scopedSems0 (V d (cV1 L) (jV1 L)) ∗ owes (V d (cV1 L) (jV1 L)) (O + oxV 1 d (cV1 L)) W)
      ⊢ wp frame (wpE (defs₀ (F := F)) 𝒱₀ (V d (cV1 L) (jV1 L)) none) Set.univ
          (cc3_gather_kernel L tV (Memref.isWhole_whole _) jV (Memref.isWhole_whole _) oV (Memref.isWhole_whole _) shV (Memref.isWhole_whole _)
            ibV (Memref.isWhole_whole _) raV (Memref.isWhole_whole _) rbV (Memref.isWhole_whole _) cc3_scratch4 cc3_scratch5 cc3_scratch6 cc3_scratch7 cc3_scoped0 cc3_scoped1)
          fun _ => iprop(td1 d L ∗ scopedBufs (V d (cV1 L) (jV1 L)) ∗ scopedSems0 (V d (cV1 L) (jV1 L))
            ∗ ∃ W', ⌜∀ p ∈ W', p ∈ W ∨ p.2 = none ∨ p.2 = some (1 : Fin 2)⌝ ∗ owes (V d (cV1 L) (jV1 L)) O W')

/-- The kernel's row of the body table on a vector subcore: the kernel function on the tiles of its grid. -/
theorem defs₀_vector1 (c : Fin τ.nSC) (s : Fin τ.nSub) :
    defs₀ (F := F) (.scVector c s) 3 ()
      = SparseCore.onTile hcore3 hsub3 (fun c s => cc3_gather_kernel (coords1 c s)
          tV (Memref.isWhole_whole _) jV (Memref.isWhole_whole _) oV (Memref.isWhole_whole _) shV (Memref.isWhole_whole _)
          ibV (Memref.isWhole_whole _) raV (Memref.isWhole_whole _) rbV (Memref.isWhole_whole _)
          cc3_scratch4 cc3_scratch5 cc3_scratch6 cc3_scratch7 cc3_scoped0 cc3_scoped1) ⟨⟩ c s := rfl

/-- Call 1's tile obligation from the body theorem. -/
theorem tileObl1_of (h : TileBody1 (F := F)) : (K (F := F)).TileObl (D (F := F)) 𝒱 (P (F := F)) v₀ 1 := by
  intro d c i O W hO hOlev _
  have hci : ((K (F := F)).core 1 c).val < grid3.bound 0 ∧ ((K (F := F)).sub 1 i).val < grid3.bound 1 := ⟨c.isLt, i.isLt⟩
  change _ ⊢ wp _ _ _ (Pipeline.liftProg (defs₀ (F := F) (.scVector ((K (F := F)).core 1 c) ((K (F := F)).sub 1 i)) 3 ())) _
  refine BI.Entails.trans ?_ (Pipeline.wp_liftProg (D (F := F)) (Pipeline.defs_kernel pcfgs defs₀) 𝒱₀ _ Set.univ none _ _)
  rw [defs₀_vector1]; simp only [SparseCore.onTile, hci, and_self, ↓reduceDIte]
  exact h d (coords1 ⟨_, hci.1⟩ ⟨_, hci.2⟩) facts O W hO hOlev

end Call1

end Cert.ProofBits.Sc

end
-- ==== Proof.Bits.ScTile.lean ====
/-
  One tile's task of the gather kernel, for both SparseCore calls: the body once at a symbolic tile.

  A writing tile copies its 1000 rows of the table into the shared scratch and waits; it splits the rows' share into
  sixteen read shares and a remainder, and pays each tile's barrier cell its duty with that tile's read share; after
  its own round it holds its read share of every writer's rows, that is of the whole scratch. Then five blocks of 2048
  indices: copied in, the SparseCore's row offset subtracted sixteen lanes at a time (after which every word names a row
  of the scratch), and eight double-buffered pairs of gathers, each row scratch copied out on its own semaphore and that
  copy-out waited for before the scratch is gathered into again; two final waits.
-/
import proofs.«217078_g14027363189340_cont_week2b_886_24_alg».proof.Proof.Bits.ScPay
import Idealize.ShloMosaic.Lib.SparseCore.Stream
import proofs.«217078_g14027363189340_cont_week2b_886_24_alg».proof.Proof.Bits.ScTileWrap

noncomputable section

namespace Cert.ProofBits.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

/-- A tile's DMA semaphore as a cell. -/
abbrev dcell (d : Dev nD) (c : Fin τ.nSC) (i : Fin τ.nSub) (s : DmaSem sig) : GSem nD τ sig := (V d c i, .dma s)

theorem dcell_ne {d : Dev nD} {c : Fin τ.nSC} {i : Fin τ.nSub} {s s' : DmaSem sig} (h : s ≠ s') : dcell d c i s ≠ dcell d c i s' :=
  fun e => h (SemLoc.dma.inj (Prod.mk.inj e).2)

theorem dcell_mem (d : Dev nD) (c : Fin τ.nSC) (i : Fin τ.nSub) (s : DmaSem sig) (h : (SemLoc.dma s : SemLoc sig).isScoped .scVector = true) :
    dcell d c i s ∈ ownCells (V d c i) := (mem_ownCells (g := dcell d c i s)).mpr ⟨rfl, h⟩

variable [FloatOps F]

omit [FloatOps F] in
theorem k1_cond1_iff : ∀ L : grid1.Coords, k1_cond1 L = 1#1 ↔ (L 1).val < 10 := by decide +kernel
omit [FloatOps F] in
theorem k1_cond2_iff : ∀ (t1 : Fin k1_t1_loop.trips) (t3 : Fin k1_t3_loop.trips), k1_cond2 t1 t3 = 1#1 ↔ ¬(t1.val = 0 ∧ t3.val = 0) := by decide +kernel
omit [FloatOps F] in
theorem k1_cond3_iff : ∀ (t1 : Fin k1_t1_loop.trips) (t3 : Fin k1_t3_loop.trips), k1_cond3 t1 t3 = 1#1 ↔ ¬(t1.val = 0 ∧ t3.val = 0) := by decide +kernel
omit [FloatOps F] in
theorem k1_t1_trips : k1_t1_loop.trips = 5 := by decide
omit [FloatOps F] in
theorem k1_t2_trips : k1_t2_loop.trips = 128 := by decide
omit [FloatOps F] in
theorem k1_t3_trips : k1_t3_loop.trips = 8 := by decide

/-- The blocks of 2 × 128 output rows of a tile's task, by pair of trips; `blk0 m` the `m`-th in the order they are written. -/
abbrev Blk0 : Type := Fin k1_t1_loop.trips × Fin k1_t3_loop.trips
def blk0 (m : ℕ) : Blk0 := (⟨min (m / 8) 4, by rw [k1_t1_trips]; omega⟩, ⟨m % 8, by rw [k1_t3_trips]; omega⟩)

omit [FloatOps F] in
theorem blk0_cur (t1 : Fin k1_t1_loop.trips) (j : Fin k1_t3_loop.trips) : blk0 (8 * t1.val + j.val) = (t1, j) := by
  have h1 : t1.val < 5 := lt_of_lt_of_eq t1.isLt k1_t1_trips
  have h3 : j.val < 8 := lt_of_lt_of_eq j.isLt k1_t3_trips
  refine Prod.ext (Fin.ext ?_) (Fin.ext ?_)
  · show min ((8 * t1.val + j.val) / 8) 4 = t1.val
    omega
  · show (8 * t1.val + j.val) % 8 = j.val
    omega

omit [FloatOps F] in
theorem blk0_ne_succ (t1 : Fin k1_t1_loop.trips) (j : Fin k1_t3_loop.trips) {m : ℕ} (h : 8 * t1.val + j.val = m + 1) : (t1, j) ≠ blk0 m := by
  have h1 : t1.val < 5 := lt_of_lt_of_eq t1.isLt k1_t1_trips
  have h3 : j.val < 8 := lt_of_lt_of_eq j.isLt k1_t3_trips
  intro e
  have e1 : t1.val = min (m / 8) 4 := congrArg (fun p : Blk0 => p.1.val) e
  have e2 : j.val = m % 8 := congrArg (fun p : Blk0 => p.2.val) e
  omega

section Tile0

local notation "tV" => (Memref.whole Cert.Kernel.main_v9_scv : Memref Cert.Kernel.sig Kind.scVector Space.hbm Cert.Kernel.S20000x128 EltTy.f32)
local notation "jV" => (Memref.whole Cert.Kernel.main_v25_scv : Memref Cert.Kernel.sig Kind.scVector Space.hbm Cert.Kernel.S327680 EltTy.i32)
local notation "oV" => (Memref.whole Cert.Kernel.main_v26_scv : Memref Cert.Kernel.sig Kind.scVector Space.hbm Cert.Kernel.S327680x128 EltTy.f32)
local notation "shV" => (Memref.whole Cert.Kernel.cc1_scratch0 : Memref Cert.Kernel.sig Kind.scVector Space.shared Cert.Kernel.S10000x128 EltTy.f32)
local notation "ibV" => (Memref.whole Cert.Kernel.cc1_scratch1 : Memref Cert.Kernel.sig Kind.scVector Space.vmem Cert.Kernel.S2048 EltTy.i32)
local notation "raV" => (Memref.whole Cert.Kernel.cc1_scratch2 : Memref Cert.Kernel.sig Kind.scVector Space.vmem Cert.Kernel.S128x128 EltTy.f32)
local notation "rbV" => (Memref.whole Cert.Kernel.cc1_scratch3 : Memref Cert.Kernel.sig Kind.scVector Space.vmem Cert.Kernel.S128x128 EltTy.f32)

variable (d : Dev nD) (L : grid1.Coords)

abbrev thr0 : Thread nD τ := V d (cV0 L) (jV0 L)

omit [FloatOps F] in
theorem pts_tbl0 (h : k1_cond1 L = 1#1) (f : Buf (Elt F) (tblLoc d)) :
    ((tblM0 L h).view.loc (thr0 d L) ↦[(tblM0 L h).view.set]{fullShare} f : sProp 𝕄) = tblLoc d ↦[tblSet0 L h]{fullShare} f := rfl
omit [FloatOps F] in
theorem pts_sh0 (h : k1_cond1 L = 1#1) (q : PosShare TreeShare) (f : Buf (Elt F) (sh0Loc d (cV0 L))) :
    ((shM0 L h).view.loc (thr0 d L) ↦[(shM0 L h).view.set]{q} f : sProp 𝕄) = sh0Loc d (cV0 L) ↦[shSet0 L h]{q} f := rfl
omit [FloatOps F] in
theorem pts_shW0 (q : PosShare TreeShare) (f : Buf (Elt F) (sh0Loc d (cV0 L))) :
    ((shV).view.loc (thr0 d L) ↦{q} f : sProp 𝕄) = sh0Loc d (cV0 L) ↦{q} f := rfl
omit [FloatOps F] in
theorem pts_idx0 (t1 : Fin k1_t1_loop.trips) (f : Buf (Elt F) (idxLoc0 d)) :
    ((idxM0 L t1).view.loc (thr0 d L) ↦[(idxM0 L t1).view.set]{fullShare} f : sProp 𝕄) = idxLoc0 d ↦[idxSet0 L t1]{fullShare} f := rfl
omit [FloatOps F] in
theorem pts_outA0 (t1 : Fin k1_t1_loop.trips) (t3 : Fin k1_t3_loop.trips) (f : Buf (Elt F) (outLoc0 d)) :
    ((outAM0 L t1 t3).view.loc (thr0 d L) ↦[(outAM0 L t1 t3).view.set]{fullShare} f : sProp 𝕄) = outLoc0 d ↦[outASet0 L t1 t3]{fullShare} f := rfl
omit [FloatOps F] in
theorem pts_outB0 (t1 : Fin k1_t1_loop.trips) (t3 : Fin k1_t3_loop.trips) (f : Buf (Elt F) (outLoc0 d)) :
    ((outBM0 L t1 t3).view.loc (thr0 d L) ↦[(outBM0 L t1 t3).view.set]{fullShare} f : sProp 𝕄) = outLoc0 d ↦[outBSet0 L t1 t3]{fullShare} f := rfl
omit [FloatOps F] in
theorem pts_ib0 (f : Buf (Elt F) ((thr0 d L).loc cc1_scratch1)) :
    ((ibV).view.loc (thr0 d L) ↦{fullShare} f : sProp 𝕄) = (thr0 d L).loc cc1_scratch1 ↦{fullShare} f := rfl
omit [FloatOps F] in
theorem pts_ra0 (f : Buf (Elt F) ((thr0 d L).loc cc1_scratch2)) :
    ((raV).view.loc (thr0 d L) ↦{fullShare} f : sProp 𝕄) = (thr0 d L).loc cc1_scratch2 ↦{fullShare} f := rfl
omit [FloatOps F] in
theorem pts_rb0 (f : Buf (Elt F) ((thr0 d L).loc cc1_scratch3)) :
    ((rbV).view.loc (thr0 d L) ↦{fullShare} f : sProp 𝕄) = (thr0 d L).loc cc1_scratch3 ↦{fullShare} f := rfl

/-- The two 128-word windows of the index scratch a pair of gathers reads. -/
abbrev offA0 (t3 : Fin k1_t3_loop.trips) : Memref sig .scVector .vmem S128 .i32 := (ibV).slice (Rect.unit (s := S2048) (k1_off6 t3) S128.size (k1_off6_inb t3)) (fun _ => rfl)
abbrev offB0 (t3 : Fin k1_t3_loop.trips) : Memref sig .scVector .vmem S128 .i32 := (ibV).slice (Rect.unit (s := S2048) (k1_off8 t3) S128.size (k1_off8_inb t3)) (fun _ => rfl)

/-- Every word of the index scratch names a row of the shared scratch. -/
def IdxOk (fo : S2048.Idx → BitVec 32) : Prop := ∀ y, (fo y).toNat < 10000

/-- A copy-out of a row scratch pending on its semaphore: it brings back the scratch and the block it was sent to. -/
abbrev flA0 (p : Blk0) (fra : Buf (Elt F) ((thr0 d L).loc cc1_scratch2)) : sProp 𝕄 :=
  Transfers.Flight countersEmb (thr0 d L) (SemLoc.dma cc1_scratch6.sem) (default : HIx 2) 524288
    iprop((∃ f, outLoc0 d ↦[outASet0 L p.1 p.2]{fullShare} f) ∗ ((raV).view.loc (thr0 d L) ↦[(raV).view.set]{fullShare} fra))
abbrev flB0 (p : Blk0) (frb : Buf (Elt F) ((thr0 d L).loc cc1_scratch3)) : sProp 𝕄 :=
  Transfers.Flight countersEmb (thr0 d L) (SemLoc.dma cc1_scratch7.sem) (default : HIx 2) 524288
    iprop((∃ f, outLoc0 d ↦[outBSet0 L p.1 p.2]{fullShare} f) ∗ ((rbV).view.loc (thr0 d L) ↦[(rbV).view.set]{fullShare} frb))

/-- The output blocks of the set `s`, each at whatever it holds. -/
def pileA0 (s : Finset Blk0) : sProp 𝕄 := bigSep s fun p => iprop(∃ f, outLoc0 d ↦[outASet0 L p.1 p.2]{fullShare} f)
def pileB0 (s : Finset Blk0) : sProp 𝕄 := bigSep s fun p => iprop(∃ f, outLoc0 d ↦[outBSet0 L p.1 p.2]{fullShare} f)

omit [FloatOps F] in
theorem pileA0_out {s : Finset Blk0} {p : Blk0} (hp : p ∈ s) :
    (pileA0 (F := F) d L s : sProp 𝕄) = iprop((∃ f, outLoc0 d ↦[outASet0 L p.1 p.2]{fullShare} f) ∗ pileA0 d L (s.erase p)) := by
  unfold pileA0; exact SparseCore.bigSep_erase' hp
omit [FloatOps F] in
theorem pileB0_out {s : Finset Blk0} {p : Blk0} (hp : p ∈ s) :
    (pileB0 (F := F) d L s : sProp 𝕄) = iprop((∃ f, outLoc0 d ↦[outBSet0 L p.1 p.2]{fullShare} f) ∗ pileB0 d L (s.erase p)) := by
  unfold pileB0; exact SparseCore.bigSep_erase' hp

/-- No copy-out pending (before the very first pair of gathers): both row scratches held, their semaphores at zero, every
    output block at hand. -/
def pendNone0 : sProp 𝕄 :=
  iprop((∃ fra, (raV).view.loc (thr0 d L) ↦{fullShare} fra) ∗ (∃ frb, (rbV).view.loc (thr0 d L) ↦{fullShare} frb)
    ∗ semVal (dcell d (cV0 L) (jV0 L) cc1_scratch6.sem) 0 ∗ semVal (dcell d (cV0 L) (jV0 L) cc1_scratch7.sem) 0
    ∗ pileA0 d L Finset.univ ∗ pileB0 d L Finset.univ)
/-- One copy-out pending per row scratch, to block `p`: the flights hold the scratches and the block's rows. -/
def pendAt0 (p : Blk0) : sProp 𝕄 :=
  iprop(∃ fra, ∃ frb, flA0 d L p fra ∗ ((raV).view.loc (thr0 d L) ↦[Finset.univ \ (raV).view.set]{fullShare} fra)
    ∗ flB0 d L p frb ∗ ((rbV).view.loc (thr0 d L) ↦[Finset.univ \ (rbV).view.set]{fullShare} frb)
    ∗ pileA0 d L (Finset.univ.erase p) ∗ pileB0 d L (Finset.univ.erase p))
/-- Before the `n`-th pair of gathers of the task. -/
def pendSt0 (n : ℕ) : sProp 𝕄 := if n = 0 then pendNone0 d L else pendAt0 d L (blk0 (n - 1))

omit [FloatOps F] in
theorem pendSt0_zero : pendSt0 (F := F) d L 0 = pendNone0 d L := if_pos rfl
omit [FloatOps F] in
theorem pendSt0_succ (m : ℕ) : pendSt0 (F := F) d L (m + 1) = pendAt0 d L (blk0 m) := if_neg (Nat.succ_ne_zero m)

/-- The invariant of the loop of eight pairs of gathers, in block `t1`: the index scratch whole and in range, the two read
    shares of the shared scratch, the gathers' semaphores at zero, the copy-outs as `pendSt` says, the thread's debt. -/
def inv3_0 (O : CellTallies nD τ sig (HIx 2)) (W : Waits sig (HIx 2)) (g : Buf (Elt F) (sh0Loc d (cV0 L))) (t1 : Fin k1_t1_loop.trips)
    (j : ℕ) (_ : PUnit) : sProp 𝕄 :=
  iprop(Transfers.MayWaits (thr0 d L) (default : HIx 2) O
    ∗ (∃ fo, ((ibV).view.loc (thr0 d L) ↦{fullShare} fo) ∗ ⌜IdxOk fo⌝)
    ∗ ((shV).view.loc (thr0 d L) ↦{(rdShare (L 1).val).left} g) ∗ ((shV).view.loc (thr0 d L) ↦{(rdShare (L 1).val).right} g)
    ∗ semVal (dcell d (cV0 L) (jV0 L) cc1_scratch4.sem) 0 ∗ semVal (dcell d (cV0 L) (jV0 L) cc1_scratch5.sem) 0
    ∗ pendSt0 d L (8 * t1.val + j)
    ∗ ∃ W', ⌜∀ p ∈ W', p ∈ W ∨ p.2 = none⌝ ∗ owes (thr0 d L) O W')

omit [FloatOps F] in
theorem flA0_intro (p : Blk0) (fa : Buf (Elt F) (outLoc0 d)) (fra : Buf (Elt F) ((thr0 d L).loc cc1_scratch2)) :
    (Transfers.Flight countersEmb (thr0 d L) (SemLoc.dma cc1_scratch6.sem) (default : HIx 2) 524288
      iprop(((outAM0 L p.1 p.2).view.loc (thr0 d L) ↦[(outAM0 L p.1 p.2).view.set]{fullShare} fa)
        ∗ ((raV).view.loc (thr0 d L) ↦[(raV).view.set]{fullShare} fra)) : sProp 𝕄) ⊢ flA0 d L p fra := by
  refine Transfers.Flight_mono countersEmb (thr0 d L) ?_
  iintro ⟨Hd, Hs⟩
  isplitl [Hd]; · iexists fa; iexact Hd
  iexact Hs
omit [FloatOps F] in
theorem flB0_intro (p : Blk0) (fb : Buf (Elt F) (outLoc0 d)) (frb : Buf (Elt F) ((thr0 d L).loc cc1_scratch3)) :
    (Transfers.Flight countersEmb (thr0 d L) (SemLoc.dma cc1_scratch7.sem) (default : HIx 2) 524288
      iprop(((outBM0 L p.1 p.2).view.loc (thr0 d L) ↦[(outBM0 L p.1 p.2).view.set]{fullShare} fb)
        ∗ ((rbV).view.loc (thr0 d L) ↦[(rbV).view.set]{fullShare} frb)) : sProp 𝕄) ⊢ flB0 d L p frb := by
  refine Transfers.Flight_mono countersEmb (thr0 d L) ?_
  iintro ⟨Hd, Hs⟩
  isplitl [Hd]; · iexists fb; iexact Hd
  iexact Hs

set_option maxHeartbeats 4000000 in
/-- One pair of gathers: the previous copy-outs waited for (but before the very first pair), the two gathers, each waited
    for and copied out to its block. -/
theorem t3_region0 (O : CellTallies nD τ sig (HIx 2)) (W : Waits sig (HIx 2)) (g : Buf (Elt F) (sh0Loc d (cV0 L))) (t1 : Fin k1_t1_loop.trips)
    (v13 v15 : BitVec 32) (j : Fin k1_t3_loop.trips) (acc : PUnit) :
    inv3_0 d L O W g t1 j.val acc
      ⊢ wp frame (wpE (defs₀ (F := F)) 𝒱₀ (thr0 d L) none) Set.univ
          (k1_t3_body L tV (Memref.isWhole_whole _) jV (Memref.isWhole_whole _) oV (Memref.isWhole_whole _) shV (Memref.isWhole_whole _)
            ibV (Memref.isWhole_whole _) raV (Memref.isWhole_whole _) rbV (Memref.isWhole_whole _) cc1_scratch4 cc1_scratch5 cc1_scratch6 cc1_scratch7 cc1_scoped0 cc1_scoped1 t1 v13 v15 j acc)
          (inv3_0 d L O W g t1 (j.val + 1)) := by
  unfold inv3_0
  rw [show 8 * t1.val + (j.val + 1) = (8 * t1.val + j.val) + 1 from (Nat.add_assoc _ _ _).symm, pendSt0_succ, blk0_cur]
  rcases Nat.eq_zero_or_pos (8 * t1.val + j.val) with hn | hn
  · -- the very first pair: nothing pending
    have hc2 : ¬ k1_cond2 t1 j = 1#1 := fun h => (k1_cond2_iff t1 j).mp h ⟨by omega, by omega⟩
    have hc3 : ¬ k1_cond3 t1 j = 1#1 := fun h => (k1_cond3_iff t1 j).mp h ⟨by omega, by omega⟩
    rw [hn, pendSt0_zero]
    unfold pendNone0
    rw [pileA0_out (F := F) d L (Finset.mem_univ (t1, j)), pileB0_out (F := F) d L (Finset.mem_univ (t1, j))]
    iintro ⟨#Hmw, ⟨%fo, Hib, %hfo⟩, Hsh, Hsh2, Hs4, Hs5, ⟨⟨%fra, Hra⟩, ⟨%frb, Hrb⟩, Hs6, Hs7, ⟨⟨%fa, HoA⟩, HpA⟩, ⟨⟨%fb, HoB⟩, HpB⟩⟩, %W', %hW', HO⟩
    have hinA : ∀ x, ((offA0 j).view.read (Elt F) fo x).toNat < S10000x128.size gathers_S10000x128_S128x128.axis := fun x => hfo _
    have hinB : ∀ x, ((offB0 j).view.read (Elt F) fo x).toNat < S10000x128.size gathers_S10000x128_S128x128.axis := fun x => hfo _
    ihave HoA' := (Entails.of_eq (pts_outA0 (F := F) d L t1 j _).symm) $$ HoA
    ihave HoB' := (Entails.of_eq (pts_outB0 (F := F) d L t1 j _).symm) $$ HoB
    sl_exec
    sl_step
    isplitr; · iexact Hmw
    isplitl [Hib]; · iexists fo; isplitl [Hib]; · iexact Hib
                     ipureintro; exact hfo
    isplitl [Hsh]; · iexact Hsh
    isplitl [Hsh2]; · iexact Hsh2
    isplitl [Hs4]; · iexact Hs4
    isplitl [Hs5]; · iexact Hs5
    isplitl [Hs6 Hra Hs7 Hrb HpA HpB]
    · unfold pendAt0
      iexists _; iexists _
      isplitl [Hs6]; · iapply (flA0_intro (F := F) d L (t1, j) _ _); iexact Hs6
      isplitl [Hra]; · iexact Hra
      isplitl [Hs7]; · iapply (flB0_intro (F := F) d L (t1, j) _ _); iexact Hs7
      isplitl [Hrb]; · iexact Hrb
      isplitl [HpA]; · iexact HpA
      iexact HpB
    iexists _; isplitr
    swap; · iexact HO
    ipureintro; intro p hp
    rcases Finset.mem_insert.mp hp with hp | hp; · exact .inr (hp ▸ rfl)
    rcases Finset.mem_insert.mp hp with hp | hp; · exact .inr (hp ▸ rfl)
    exact hW' p hp
  · -- a later pair: the pending copy-outs are waited for first
    obtain ⟨m, hm⟩ : ∃ m, 8 * t1.val + j.val = m + 1 := ⟨8 * t1.val + j.val - 1, by omega⟩
    have hc2 : k1_cond2 t1 j = 1#1 := (k1_cond2_iff t1 j).mpr (by omega)
    have hc3 : k1_cond3 t1 j = 1#1 := (k1_cond3_iff t1 j).mpr (by omega)
    have hne : (t1, j) ∈ (Finset.univ : Finset Blk0).erase (blk0 m) := Finset.mem_erase.mpr ⟨blk0_ne_succ t1 j hm, Finset.mem_univ _⟩
    rw [hm, pendSt0_succ]
    unfold pendAt0
    rw [pileA0_out (F := F) d L hne, pileB0_out (F := F) d L hne]
    iintro ⟨#Hmw, ⟨%fo, Hib, %hfo⟩, Hsh, Hsh2, Hs4, Hs5, ⟨%fra, %frb, Hs6, Hra, Hs7, Hrb, ⟨⟨%fa, HoA⟩, HpA⟩, ⟨⟨%fb, HoB⟩, HpB⟩⟩, %W', %hW', HO⟩
    have hinA : ∀ x, ((offA0 j).view.read (Elt F) fo x).toNat < S10000x128.size gathers_S10000x128_S128x128.axis := fun x => hfo _
    have hinB : ∀ x, ((offB0 j).view.read (Elt F) fo x).toNat < S10000x128.size gathers_S10000x128_S128x128.axis := fun x => hfo _
    ihave HoA' := (Entails.of_eq (pts_outA0 (F := F) d L t1 j _).symm) $$ HoA
    ihave HoB' := (Entails.of_eq (pts_outB0 (F := F) d L t1 j _).symm) $$ HoB
    sl_exec
    sl_step
    isplitr; · iexact Hmw
    isplitl [Hib]; · iexists fo; isplitl [Hib]; · iexact Hib
                     ipureintro; exact hfo
    isplitl [Hsh]; · iexact Hsh
    isplitl [Hsh2]; · iexact Hsh2
    isplitl [Hs4]; · iexact Hs4
    isplitl [Hs5]; · iexact Hs5
    isplitl [Hs6 Hra Hs7 Hrb HpA HpB Hs6_dst Hs7_dst]
    · iexists _; iexists _
      isplitl [Hs6]; · iapply (flA0_intro (F := F) d L (t1, j) _ _); iexact Hs6
      isplitl [Hra]; · iexact Hra
      isplitl [Hs7]; · iapply (flB0_intro (F := F) d L (t1, j) _ _); iexact Hs7
      isplitl [Hrb]; · iexact Hrb
      have hne' : blk0 m ∈ (Finset.univ : Finset Blk0).erase (t1, j) := Finset.mem_erase.mpr ⟨(blk0_ne_succ t1 j hm).symm, Finset.mem_univ _⟩
      isplitl [HpA Hs6_dst]
      · rw [pileA0_out (F := F) d L hne', Finset.erase_right_comm]
        isplitl [Hs6_dst]; · iexact Hs6_dst
        iexact HpA
      · rw [pileB0_out (F := F) d L hne', Finset.erase_right_comm]
        isplitl [Hs7_dst]; · iexact Hs7_dst
        iexact HpB
    iexists _; isplitr
    swap; · iexact HO
    ipureintro; intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact hW' p hp

/-- The sixteen lanes of the index scratch one trip of the subtraction reads and writes. -/
abbrev subR0 (t2 : Fin k1_t2_loop.trips) : Rect S2048 := Rect.unit (s := S2048) (k1_off4 t2) S16.size (k1_off4_inb t2)

/-- After `k` trips of the subtraction: the words below `16 k` name rows of the shared scratch, the others still rows of
    SparseCore `c`'s half of the table. -/
def SubOk0 (c k : ℕ) (fo : Buf (Elt F) ((thr0 d L).loc cc1_scratch1)) : Prop :=
  ∀ y : S2048.Idx, if (y 0).val < 16 * k then ((ibV).view.read (Elt F) fo y).toNat < 10000
    else 10000 * c ≤ ((ibV).view.read (Elt F) fo y).toNat ∧ ((ibV).view.read (Elt F) fo y).toNat < 10000 * c + 10000

omit [FloatOps F] in
theorem k1_pay1_apply (v22 : Vec F S16 .i32) (x : S16.Idx) : ∃ x', k1_pay1 (F := F) L v22 x = v22 x' - (BitVec.ofNat 32 (L 0).val * 10000#32) := by
  unfold k1_pay1 shapeCast subi broadcast
  exact ⟨_, rfl⟩

omit [FloatOps F] in
theorem sub_toNat0 {c : ℕ} (hc : c < 2) {a : BitVec 32} (h1 : 10000 * c ≤ a.toNat) (h2 : a.toNat < 10000 * c + 10000) :
    (a - (BitVec.ofNat 32 c * 10000#32)).toNat < 10000 := by
  have hm : (BitVec.ofNat 32 c * 10000#32).toNat = 10000 * c := by
    rw [BitVec.toNat_mul, BitVec.toNat_ofNat]
    show c % 2 ^ 32 * 10000 % 2 ^ 32 = 10000 * c
    omega
  rw [BitVec.toNat_sub, hm]
  have := a.isLt
  omega

omit [FloatOps F] in
theorem subOk0_step (t2 : Fin k1_t2_loop.trips) (fo : Buf (Elt F) ((thr0 d L).loc cc1_scratch1)) (h : SubOk0 d L (L 0).val t2.val fo) :
    SubOk0 d L (L 0).val (t2.val + 1)
      ((ibV).view.writes (Elt F) fo [⟨subR0 t2, k1_pay1 L ((ibV).view.readAt (Elt F) (subR0 t2).toLoadRect fo)⟩]) := by
  have hc : (L 0).val < 2 := (L 0).isLt
  have hoff : k1_off4 t2 = ![16 * t2.val] := k1_off4_eq t2
  intro y
  by_cases hy : y ∈ (subR0 t2).set
  · obtain ⟨x, rfl⟩ := (subR0 t2).exists_idx_of_mem hy
    have hx0 : (((subR0 t2).idx x) 0 : ℕ) = 16 * t2.val + (x 0).val := by
      rw [LoadRect.idx_apply]; simp [hoff]
    have hxl : (x 0).val < 16 := (x 0).isLt
    rw [if_pos (by rw [hx0]; omega)]
    rw [show (subR0 t2).idx x = (subR0 t2).emb x from rfl, View.read_writes_cons_emb]
    obtain ⟨x', hx'⟩ := k1_pay1_apply (F := F) L ((ibV).view.readAt (Elt F) (subR0 t2).toLoadRect fo) x
    rw [hx', View.readAt_apply]
    have hx0' : (((subR0 t2).toLoadRect.idx x') 0 : ℕ) = 16 * t2.val + (x' 0).val := by
      rw [LoadRect.idx_apply]; simp [hoff]
    have hy' := h ((subR0 t2).toLoadRect.idx x')
    rw [if_neg (by rw [hx0']; omega)] at hy'
    exact sub_toNat0 hc hy'.1 hy'.2
  · rw [View.read_writes_apply_of_forall_not_mem _ _ y _ (fun p hp => by rw [List.mem_singleton.mp hp]; exact hy)]
    have hy0 : ¬ (16 * t2.val ≤ (y 0).val ∧ (y 0).val < 16 * t2.val + 16) := by
      intro hh; apply hy
      rw [Rect.mem_set_unit]
      intro a
      have ha : a = 0 := Subsingleton.elim _ _
      subst ha
      simp [hoff]; omega
    have hy' := h y
    by_cases hlt : (y 0).val < 16 * t2.val
    · rw [if_pos hlt] at hy'; rw [if_pos (by omega)]; exact hy'
    · rw [if_neg hlt] at hy'; rw [if_neg (by omega)]; exact hy'

/-- The subtraction loop's invariant: the index scratch whole, `SubOk` of its words. -/
def inv2_0 (k : ℕ) (_ : PUnit) : sProp 𝕄 :=
  iprop(∃ fo, ((ibV).view.loc (thr0 d L) ↦{fullShare} fo) ∗ ⌜SubOk0 d L (L 0).val k fo⌝)

set_option maxHeartbeats 2000000 in
theorem t2_region0 (t2 : Fin k1_t2_loop.trips) (acc : PUnit) :
    inv2_0 d L t2.val acc
      ⊢ wp frame (wpE (defs₀ (F := F)) 𝒱₀ (thr0 d L) none) Set.univ
          (k1_t2_body L tV (Memref.isWhole_whole _) jV (Memref.isWhole_whole _) oV (Memref.isWhole_whole _) shV (Memref.isWhole_whole _)
            ibV (Memref.isWhole_whole _) raV (Memref.isWhole_whole _) rbV (Memref.isWhole_whole _) cc1_scratch4 cc1_scratch5 cc1_scratch6 cc1_scratch7 cc1_scoped0 cc1_scoped1 t2 acc)
          (inv2_0 d L (t2.val + 1)) := by
  unfold inv2_0
  iintro ⟨%fo, Hib, %h⟩
  sl_exec
  sl_step
  iexists _; isplitl [Hib]; · iexact Hib
  ipureintro; exact subOk0_step d L t2 fo h

omit [FloatOps F] in
theorem subOk0_init (t1 : Fin k1_t1_loop.trips) (jx : Buf (Elt F) (idxLoc0 d)) (hr : InRange (L 0).val (idxSet0 L t1) jx)
    (fib : Buf (Elt F) ((thr0 d L).loc cc1_scratch1)) :
    SubOk0 d L (L 0).val 0 ((ibV).view.write (Elt F) fib (ReadAs.same.apply ((idxM0 L t1).view.read (Elt F) jx)) Finset.univ) := by
  intro y
  rw [if_neg (by omega), View.read_write_univ]
  exact hr ((idxM0 L t1).view.emb y) (Finset.mem_map_of_mem _ (Finset.mem_univ y))

omit [FloatOps F] in
theorem idxOk0_of_sub (fo : Buf (Elt F) ((thr0 d L).loc cc1_scratch1)) (h : SubOk0 d L (L 0).val k1_t2_loop.trips fo) : IdxOk fo := fun y => by
  have hy : (y 0).val < 2048 := (y 0).isLt
  have := h y
  rw [if_pos (by rw [k1_t2_trips]; omega)] at this
  exact this

/-- The invariant of the loop over the five blocks of indices: the tile's index words, the index scratch, the two read
    shares of the shared scratch, the index copy's and the gathers' semaphores at zero, the copy-outs as `pendSt` says. -/
def inv1_0 (O : CellTallies nD τ sig (HIx 2)) (W : Waits sig (HIx 2)) (g : Buf (Elt F) (sh0Loc d (cV0 L))) (k : ℕ) (_ : PUnit) : sProp 𝕄 :=
  iprop(Transfers.MayWaits (thr0 d L) (default : HIx 2) O
    ∗ idxPiece0 d L
    ∗ (∃ fo, (ibV).view.loc (thr0 d L) ↦{fullShare} fo)
    ∗ ((shV).view.loc (thr0 d L) ↦{(rdShare (L 1).val).left} g) ∗ ((shV).view.loc (thr0 d L) ↦{(rdShare (L 1).val).right} g)
    ∗ semVal (dcell d (cV0 L) (jV0 L) cc1_scoped1.sem) 0
    ∗ semVal (dcell d (cV0 L) (jV0 L) cc1_scratch4.sem) 0 ∗ semVal (dcell d (cV0 L) (jV0 L) cc1_scratch5.sem) 0
    ∗ pendSt0 d L (8 * k)
    ∗ ∃ W', ⌜∀ p ∈ W', p ∈ W ∨ p.2 = none⌝ ∗ owes (thr0 d L) O W')

set_option maxHeartbeats 4000000 in
/-- One block of 2048 indices: copied in, the row offset subtracted, eight pairs of gathers. -/
theorem t1_region0 (O : CellTallies nD τ sig (HIx 2)) (W : Waits sig (HIx 2)) (g : Buf (Elt F) (sh0Loc d (cV0 L))) (v5 : BitVec 32)
    (t1 : Fin k1_t1_loop.trips) (acc : PUnit) :
    inv1_0 d L O W g t1.val acc
      ⊢ wp frame (wpE (defs₀ (F := F)) 𝒱₀ (thr0 d L) none) Set.univ
          (k1_t1_body L tV (Memref.isWhole_whole _) jV (Memref.isWhole_whole _) oV (Memref.isWhole_whole _) shV (Memref.isWhole_whole _)
            ibV (Memref.isWhole_whole _) raV (Memref.isWhole_whole _) rbV (Memref.isWhole_whole _) cc1_scratch4 cc1_scratch5 cc1_scratch6 cc1_scratch7 cc1_scoped0 cc1_scoped1 v5 t1 acc)
          (inv1_0 d L O W g (t1.val + 1)) := by
  unfold inv1_0 idxPiece0
  iintro ⟨#Hmw, ⟨%jx, %hrng, Hidx⟩, ⟨%fib, Hib⟩, Hsh, Hsh2, Hp1, Hs4, Hs5, Hpend, %W', %hW', HO⟩
  ihave Hsp := (Entails.of_eq (SparseCore.bigSep_erase' (Finset.mem_univ t1)
    (Φ := fun t : Fin k1_t1_loop.trips => (idxLoc0 d ↦[idxSet0 L t]{fullShare} jx : sProp 𝕄)))) $$ Hidx
  icases Hsp with ⟨Hi, Hirest⟩
  ihave Hi' := (Entails.of_eq (pts_idx0 (F := F) d L t1 _).symm) $$ Hi
  -- the block of indices in, waited for
  sl_exec
  -- the subtraction
  sl_for (inv2_0 d L) $$ [Hib]
  case region => exact fun t2 acc => t2_region0 d L t2 acc
  · unfold inv2_0
    iexists _; isplitl [Hib]; · iexact Hib
    ipureintro; exact subOk0_init d L t1 jx (hrng t1) fib
  iintro %_ HI
  unfold inv2_0
  icases HI with ⟨%fo, Hib, %hsub⟩
  have hok : IdxOk fo := idxOk0_of_sub d L fo hsub
  -- the gathers
  sl_for (inv3_0 d L O (insert (SemLoc.dma cc1_scoped1.sem, (default : HIx 2)) W') g t1) $$ [Hib Hsh Hsh2 Hs4 Hs5 Hpend HO]
  case region => exact fun j acc => t3_region0 d L O _ g t1 _ _ j acc
  · unfold inv3_0
    isplitr; · iexact Hmw
    isplitl [Hib]; · iexists fo; isplitl [Hib]; · iexact Hib
                     ipureintro; exact hok
    isplitl [Hsh]; · iexact Hsh
    isplitl [Hsh2]; · iexact Hsh2
    isplitl [Hs4]; · iexact Hs4
    isplitl [Hs5]; · iexact Hs5
    isplitl [Hpend]; · iexact Hpend
    iexists _; isplitr
    swap; · iexact HO
    ipureintro; exact fun p hp => .inl hp
  iintro %_ HI
  unfold inv3_0
  icases HI with ⟨-, ⟨%fo', Hib, -⟩, Hsh, Hsh2, Hs4, Hs5, Hpend, %W'', %hW'', HO⟩
  sl_exec
  sl_step
  isplitr; · iexact Hmw
  isplitl [Hi' Hirest]
  · iexists jx; isplitr; · ipureintro; exact hrng
    iapply (Entails.of_eq (SparseCore.bigSep_erase' (Finset.mem_univ t1)
      (Φ := fun t : Fin k1_t1_loop.trips => (idxLoc0 d ↦[idxSet0 L t]{fullShare} jx : sProp 𝕄))).symm)
    isplitl [Hi']; · iapply (Entails.of_eq (pts_idx0 (F := F) d L t1 _)); iexact Hi'
    iexact Hirest
  isplitl [Hib]; · iexists _; iexact Hib
  isplitl [Hsh]; · iexact Hsh
  isplitl [Hsh2]; · iexact Hsh2
  isplitl [Hp1]; · iexact Hp1
  isplitl [Hs4]; · iexact Hs4
  isplitl [Hs5]; · iexact Hs5
  isplitl [Hpend]
  · iapply (Entails.of_eq (congrArg (pendSt0 (F := F) d L) (show 8 * t1.val + k1_t3_loop.trips = 8 * (t1.val + 1) by rw [k1_t3_trips]; omega))); iexact Hpend
  iexists W''; isplitr
  swap; · iexact HO
  ipureintro; intro p hp
  rcases hW'' p hp with h | h
  · rcases Finset.mem_insert.mp h with h | h
    · exact .inr (h ▸ rfl)
    · exact hW' p h
  · exact .inr h

omit [FloatOps F] in
/-- A family over `Fin N` that is nothing from `n` on is the family over `Fin n`. -/
theorem bigSep_fin_dite {n N : ℕ} (h : n ≤ N) (X : Fin n → sProp 𝕄) :
    (bigSep Finset.univ fun i : Fin N => if hi : i.val < n then X ⟨i.val, hi⟩ else iprop(emp)) = bigSep Finset.univ X := by
  let X' : Fin N → sProp 𝕄 := fun i => if hi : i.val < n then X ⟨i.val, hi⟩ else iprop(emp)
  have h1 : (bigSep Finset.univ fun i : Fin N => if hi : i.val < n then X ⟨i.val, hi⟩ else iprop(emp))
      = bigSep Finset.univ fun i : Fin N => if i.val < n then X' i else (BI.emp : sProp 𝕄) :=
    bigSep_congr fun (i : Fin N) _ => by
      by_cases hi : i.val < n
      · rw [if_pos hi]
      · rw [if_neg hi, dif_neg hi]; rfl
  rw [h1, ← bigSep_filter,
    show (Finset.univ.filter fun i : Fin N => i.val < n) = Finset.univ.map (Fin.castLEEmb h) from by
      ext i; simp only [Finset.mem_filter, Finset.mem_univ, true_and, Finset.mem_map, Fin.castLEEmb_apply]
      exact ⟨fun hi => ⟨⟨i.val, hi⟩, Fin.ext rfl⟩, fun ⟨j, hj⟩ => hj ▸ j.isLt⟩,
    bigSep_map]
  exact bigSep_congr fun (i : Fin n) _ => by
    show X' (Fin.castLE h i) = X i
    show (if hi : (Fin.castLE h i).val < n then X ⟨(Fin.castLE h i).val, hi⟩ else iprop(emp)) = X i
    rw [dif_pos (show (Fin.castLE h i).val < n from i.isLt)]; rfl

omit [FloatOps F] in
theorem shRect0_eq (h : k1_cond1 L = 1#1) :
    Rect.unit (s := S10000x128) (k1_off1 L) S1000x128.size (k1_off1_inb L h) = Rect.part (s := S10000x128) (a₀ := 0) h10 ⟨(L 1).val, (k1_cond1_iff L).mp h⟩ := by
  unfold Rect.part Rect.block
  congr 1 <;> funext a
  · rw [k1_off1_eq]
    match a with
    | 0 => simp [Shape.partIx, Shape.partSize, Nat.mul_comm]
    | 1 => simp [Shape.partIx, Shape.partSize]
  · match a with
    | 0 => simp [Shape.partSize]
    | 1 => simp [Shape.partSize]

omit [FloatOps F] in
theorem shSet0_eq (h : k1_cond1 L = 1#1) : shSet0 L h = shRowSet ⟨(L 1).val, (k1_cond1_iff L).mp h⟩ := by
  show ((View.whole (cc1_scratch0 : Ref sig .scVector)).slice (Rect.unit (s := S10000x128) (k1_off1 L) S1000x128.size (k1_off1_inb L h))).set = _
  rw [View.set_slice, shRect0_eq L h]; exact Finset.map_refl

/-- A writing tile splits its rows' share: what it keeps aside, and for every tile's barrier cell the duty's payload — that
    tile's read share of the rows; a tile that writes nothing pays with nothing. -/
theorem pays_intro0 :
    shPiece0 (F := F) fullShare d L ⊢ iprop(shPiece0 restShare d L
      ∗ bigSep Finset.univ fun j : Fin (grid1.bound 1) => (bRd (F := F)).payload (bcell d (cV0 L) (j.castLE hsub1)) 0 (jV0 L).val) := by
  unfold shPiece0
  by_cases h : k1_cond1 L = 1#1
  · have hn : (jV0 L).val < 10 := (k1_cond1_iff L).mp h
    rw [dif_pos h, dif_pos h]
    iintro ⟨%f, H⟩
    ihave H2 := (Transfers.pointsTo_toks_split (ℓ := sh0Loc d (cV0 L)) (S := shSet0 L h) (f := f) fullShare (grid1.bound 1)) $$ H
    icases H2 with ⟨Hrest, Htoks⟩
    isplitl [Hrest]; · iexists f; iexact Hrest
    have hj : ∀ j : Fin (grid1.bound 1), (sh0Loc d (cV0 L) ↦[shSet0 L h]{Transfers.shareTok fullShare (grid1.bound 1) j} f : sProp 𝕄)
        ⊢ (bRd (F := F)).payload (bcell d (cV0 L) (j.castLE hsub1)) 0 (jV0 L).val := by
      intro j
      show _ ⊢ bPay (bcell d (cV0 L) (j.castLE hsub1)) 0 (jV0 L).val
      unfold bPay; dsimp only
      rw [dif_pos hn, if_pos rfl, shSet0_eq L h]
      iintro H; iexists f; iexact H
    iapply (SparseCore.ent (bigSep_mono fun j _ => hj j)) $$ Htoks
  · have hn : ¬ (jV0 L).val < 10 := fun hh => h ((k1_cond1_iff L).mpr hh)
    rw [dif_neg h, dif_neg h]
    iintro -
    isplitr; · iempintro
    have he : (fun j : Fin (grid1.bound 1) => (bRd (F := F)).payload (bcell d (cV0 L) (j.castLE hsub1)) 0 (jV0 L).val) = fun _ => (iprop(emp) : sProp 𝕄) := by
      funext j
      show bPay (bcell d (cV0 L) (j.castLE hsub1)) 0 (jV0 L).val = _
      unfold bPay; dsimp only
      rw [dif_neg hn]
    rw [he, show (bigSep Finset.univ fun _ : Fin (grid1.bound 1) => (iprop(emp) : sProp 𝕄)) = iprop(emp) from bigSep_emp_const _]; iempintro

omit [FloatOps F] in
theorem shRows_disjoint : ∀ i ∈ (Finset.univ : Finset (Fin 10)), ∀ j ∈ (Finset.univ : Finset (Fin 10)), i ≠ j → Disjoint (shRowSet i) (shRowSet j) :=
  fun i _ j _ h => Rect.part_disjoint h10 h
omit [FloatOps F] in
theorem shRows_cover : (Finset.univ : Finset (Fin 10)).biUnion shRowSet = Finset.univ := Rect.biUnion_part h10

/-- What a tile reads off its own barrier cell's round: its read share of every writer's rows, that is of the whole scratch. -/
theorem pays_elim0 :
    bigSep ((bRd (F := F)).duties (bcell d (cV0 L) (jV0 L)) 0 \ ∅) (fun m => (bRd (F := F)).payload (bcell d (cV0 L) (jV0 L)) 0 m)
      ⊢ iprop(∃ g, sh0Loc d (cV0 L) ↦{rdShare (L 1).val} g) := by
  rw [Finset.sdiff_empty, bRd_duties d _ _ (by decide : 0 < 2), SparseCore.bigSep_image_of_injOn (fun a _ b _ e => Fin.val_injective e)]
  have he : (fun i : Fin τ.nSub => (bRd (F := F)).payload (bcell d (cV0 L) (jV0 L)) 0 i.val)
      = fun i : Fin τ.nSub => if hi : i.val < 10 then iprop(∃ f, sh0Loc d (cV0 L) ↦[shRowSet ⟨i.val, hi⟩]{rdShare (L 1).val} f) else iprop(emp) := by
    funext i
    show bPay (bcell d (cV0 L) (jV0 L)) 0 i.val = _
    unfold bPay; dsimp only
    by_cases hi : i.val < 10
    · rw [dif_pos hi, dif_pos hi, if_pos rfl]; rfl
    · rw [dif_neg hi, dif_neg hi]
  rw [he, bigSep_fin_dite (F := F) (show 10 ≤ τ.nSub by decide) (fun n : Fin 10 => iprop(∃ f, sh0Loc d (cV0 L) ↦[shRowSet n]{rdShare (L 1).val} f))]
  refine (bigSep_exists_pi Finset.univ (fun (n : Fin 10) (f : Buf (Elt F) (sh0Loc d (cV0 L))) => (sh0Loc d (cV0 L) ↦[shRowSet n]{rdShare (L 1).val} f : sProp 𝕄))).trans ?_
  iintro ⟨%fs, H⟩
  ihave H' := (pointsTo_biUnion_join Finset.univ shRowSet fs (fs 0) shRows_disjoint) $$ H
  icases H' with ⟨%g, -, Hg⟩
  rw [shRows_cover]
  iexists g; iexact Hg

omit [FloatOps F] in
theorem outPiece0_piles : (outPiece0 (F := F) d L : sProp 𝕄) = iprop(pileA0 d L Finset.univ ∗ pileB0 d L Finset.univ) := by
  unfold outPiece0 pileA0 pileB0
  rw [← bigSep_sep', bigSep_univ_prod]

noncomputable def k1_rest (i : grid1.Coords) (arg2 : Memref sig .scVector .hbm S20000x128 .f32) (harg2 : arg2.IsWhole) (arg3 : Memref sig .scVector .hbm S327680 .i32) (harg3 : arg3.IsWhole) (arg4 : Memref sig .scVector .hbm S327680x128 .f32) (harg4 : arg4.IsWhole) (arg5 : Memref sig .scVector .shared S10000x128 .f32) (harg5 : arg5.IsWhole) (arg6 : Memref sig .scVector .vmem S2048 .i32) (harg6 : arg6.IsWhole) (arg7 : Memref sig .scVector .vmem S128x128 .f32) (harg7 : arg7.IsWhole) (arg8 : Memref sig .scVector .vmem S128x128 .f32) (harg8 : arg8.IsWhole) (arg9 : DmaSems sig S_) (arg10 : DmaSems sig S_) (arg11 : DmaSems sig S_) (arg12 : DmaSems sig S_) (v16_r0 : DmaSems sig S_) (v18_r1 : DmaSems sig S_) :
    Prog (TpuEff nD τ sig (Elt F) Λ₀ (.scVector ((i 0).castLE hcore1) ((i 1).castLE hsub1))) PUnit := do
  let arg0 : BitVec 32 := BitVec.ofNat 32 (i 0).val
  let arg1 : BitVec 32 := BitVec.ofNat 32 (i 1).val
  SparseCore.subcoreBarrier sc_bar0 (grid1.bound 1) hsub1
  let v3 : BitVec 32 := Scalar.muli arg0 163840#32
  let v4 : BitVec 32 := Scalar.muli arg1 10240#32
  let v5 : BitVec 32 := Scalar.addi v3 v4
  Scf.Loop.for k1_t1_loop k1_t1_ok ⟨⟩ (k1_t1_body i arg2 harg2 arg3 harg3 arg4 harg4 arg5 harg5 arg6 harg6 arg7 harg7 arg8 harg8 arg9 arg10 arg11 arg12 v16_r0 v18_r1 v5)
  let v9 : Memref sig .scVector .hbm S128x128 .f32 := arg4.slice (Rect.unit (s := S327680x128) (k1_off11 i) S128x128.size (k1_off11_inb i)) (fun _ => rfl)
  Prog.lift (.waitDma2 arg11.sem arg7 v9 harg7.wordExact (View.wordExact_bits rfl))
  let v11 : Memref sig .scVector .hbm S128x128 .f32 := arg4.slice (Rect.unit (s := S327680x128) (k1_off11 i) S128x128.size (k1_off11_inb i)) (fun _ => rfl)
  Prog.lift (.waitDma2 arg12.sem arg8 v11 harg8.wordExact (View.wordExact_bits rfl))
  pure ⟨⟩

set_option maxHeartbeats 8000000 in
/-- From the barrier on: the barrier (the rows' read shares paid to every tile's cell, the tile's own round read), the five
    blocks, the two final waits, and what the task hands back. -/
theorem rest0 (hF : (K (F := F)).Facts) (O : CellTallies nD τ sig (HIx 2)) (W : Waits sig (HIx 2)) (hO : ∀ g, O g none = 0)
    (hOlev : ∀ g ι, 0 < O g ι → 8 * (0 : Fin 2).val + 6 ≤ (K (F := F)).lev g ι) (κ : GSem nD τ sig → ℕ) (R₁ R₂ : sProp 𝕄) :
    iprop(levAts (K (F := F)).L (K (F := F)).lev
        ∗ (bigSep Finset.univ fun j : Fin (grid1.bound 1) => cellInv EB (bRd (F := F)) (κ (bcell d (cV0 L) (j.castLE hsub1))) (bcell d (cV0 L) (j.castLE hsub1)))
        ∗ (bigSep Finset.univ fun j : Fin (grid1.bound 1) => dutyTok EB (bcell d (cV0 L) (j.castLE hsub1)) 0 (jV0 L).val)
        ∗ (bigSep Finset.univ fun j : Fin (grid1.bound 1) => reached EB (bcell d (cV0 L) (j.castLE hsub1)) 0)
        ∗ atPos EB (bcell d (cV0 L) (jV0 L)) 0 ∅ 0
        ∗ cred (tallyAt (bcell d (cV0 L) (jV0 L)) (some 0) (grid1.bound 1))
        ∗ idxPiece0 d L ∗ outPiece0 d L ∗ tblPiece0 d L ∗ shPiece0 fullShare d L
        ∗ (∃ f, (thr0 d L).loc cc1_scratch1 ↦{fullShare} f) ∗ (∃ f, (thr0 d L).loc cc1_scratch2 ↦{fullShare} f) ∗ (∃ f, (thr0 d L).loc cc1_scratch3 ↦{fullShare} f)
        ∗ semVal (dcell d (cV0 L) (jV0 L) cc1_scratch4.sem) 0 ∗ semVal (dcell d (cV0 L) (jV0 L) cc1_scratch5.sem) 0
        ∗ semVal (dcell d (cV0 L) (jV0 L) cc1_scratch6.sem) 0 ∗ semVal (dcell d (cV0 L) (jV0 L) cc1_scratch7.sem) 0
        ∗ semVal (dcell d (cV0 L) (jV0 L) cc1_scoped0.sem) 0 ∗ semVal (dcell d (cV0 L) (jV0 L) cc1_scoped1.sem) 0
        ∗ R₁ ∗ R₂
        ∗ ∃ W₁, ⌜∀ p ∈ W₁, p ∈ W ∨ p.2 = none⌝ ∗ owes (thr0 d L) (O + oxV 0 d (cV0 L)) W₁)
      ⊢ wp frame (wpE (defs₀ (F := F)) 𝒱₀ (thr0 d L) none) Set.univ
          (k1_rest (F := F) L tV (Memref.isWhole_whole _) jV (Memref.isWhole_whole _) oV (Memref.isWhole_whole _) shV (Memref.isWhole_whole _)
            ibV (Memref.isWhole_whole _) raV (Memref.isWhole_whole _) rbV (Memref.isWhole_whole _) cc1_scratch4 cc1_scratch5 cc1_scratch6 cc1_scratch7 cc1_scoped0 cc1_scoped1)
          fun _ => iprop(td0 d L
            ∗ ((∃ f, (thr0 d L).loc cc1_scratch1 ↦{fullShare} f) ∗ (∃ f, (thr0 d L).loc cc1_scratch2 ↦{fullShare} f) ∗ (∃ f, (thr0 d L).loc cc1_scratch3 ↦{fullShare} f) ∗ R₁)
            ∗ (semVal (dcell d (cV0 L) (jV0 L) cc1_scratch4.sem) 0 ∗ semVal (dcell d (cV0 L) (jV0 L) cc1_scratch5.sem) 0
              ∗ semVal (dcell d (cV0 L) (jV0 L) cc1_scratch6.sem) 0 ∗ semVal (dcell d (cV0 L) (jV0 L) cc1_scratch7.sem) 0
              ∗ semVal (dcell d (cV0 L) (jV0 L) cc1_scoped0.sem) 0 ∗ semVal (dcell d (cV0 L) (jV0 L) cc1_scoped1.sem) 0 ∗ R₂)
            ∗ ∃ W', ⌜∀ p ∈ W', p ∈ W ∨ p.2 = none ∨ p.2 = some (0 : Fin 2)⌝ ∗ owes (thr0 d L) O W') := by
  unfold k1_rest
  iintro ⟨#Hlv, #Hinv, Htoks, #Hrch, Hat, Hcred, Hidx, Hout, Htbl, Hsh, ⟨%fib, Hib⟩, ⟨%fra, Hra⟩, ⟨%frb, Hrb⟩, Hs4, Hs5, Hs6, Hs7, Hp0, Hp1, HR₁, HR₂, %W₁, %hW₁, HO⟩
  have hO' : ∀ g, (O + oxV 0 d (cV0 L)) g none = 0 := fun g => by rw [Pi.add_apply, Finsupp.add_apply, hO g, oxV_none]
  ihave Hmw2 := (show levAts (K (F := F)).L (K (F := F)).lev ⊢ Transfers.MayWaits (thr0 d L) (default : HIx 2) O from
    (K (F := F)).mayWaits_none (thr := thr0 d L) hO) $$ Hlv
  -- the barrier
  ihave Hp := (pays_intro0 (F := F) d L) $$ Hsh
  icases Hp with ⟨Hshrest, Hpays⟩
  iapply (SparseCore.wp_subcoreBarrier 𝒱₀ none EB (bRd (F := F)) d (sc := cV0 L) (i := jV0 L) sc_bar0 (grid1.bound 1) hsub1 (L 1) rfl κ (fun _ => 0) (jV0 L).val
      (fun j => bRd_mem d _ _ _ (by decide)) (fun _ => rfl) (bRd_expect d _ _ (by decide)) (some 0) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := thr0 d L) (8 * (0 : Fin 2).val + 3) (fun p hp => by
        rw [Finset.mem_singleton] at hp; subst hp
        show (K (F := F)).lev (bcell d (cV0 L) (jV0 L)) (some 0) ≤ _
        rw [(K (F := F)).lev_V_reg d _ _ (show (sc_bar0 : Sem sig) ≠ (K (F := F)).go from sc_bar0_ne_go)])
      (fun g ι hg => lt_of_lt_of_le (by decide) (hOlev g ι hg)))
    iexact Hlv
  iintro ⟨HO, Hat, #Hrch', Hgot⟩
  ihave Hg := (pays_elim0 (F := F) d L) $$ Hgot
  icases Hg with ⟨%g, Hg⟩
  ihave Hg2 := (pointsTo_share (ℓ := sh0Loc d (cV0 L)) (I := Finset.univ) (f := g) (PosShare.mem_left_op_right (rdShare (L 1).val))).1 $$ Hg
  icases Hg2 with ⟨Hsh, Hsh2⟩
  ihave Hsh' := (Entails.of_eq (pts_shW0 (F := F) d L _ _).symm) $$ Hsh
  ihave Hsh2' := (Entails.of_eq (pts_shW0 (F := F) d L _ _).symm) $$ Hsh2
  ihave Hib' := (Entails.of_eq (pts_ib0 (F := F) d L _).symm) $$ Hib
  ihave Hra' := (Entails.of_eq (pts_ra0 (F := F) d L _).symm) $$ Hra
  ihave Hrb' := (Entails.of_eq (pts_rb0 (F := F) d L _).symm) $$ Hrb
  sl_exec
  -- the five blocks
  sl_for (inv1_0 d L O (insert (SemLoc.reg sc_bar0, some (0 : Fin 2)) W₁) g) $$ [Hidx Hib' Hsh' Hsh2' Hp1 Hs4 Hs5 Hra' Hrb' Hs6 Hs7 Hout HO]
  case region => exact fun t1 acc => t1_region0 d L O _ g _ t1 acc
  · unfold inv1_0
    isplitr; · iexact Hmw2
    isplitl [Hidx]; · iexact Hidx
    isplitl [Hib']; · iexists _; iexact Hib'
    isplitl [Hsh']; · iexact Hsh'
    isplitl [Hsh2']; · iexact Hsh2'
    isplitl [Hp1]; · iexact Hp1
    isplitl [Hs4]; · iexact Hs4
    isplitl [Hs5]; · iexact Hs5
    isplitl [Hra' Hrb' Hs6 Hs7 Hout]
    · rw [show 8 * 0 = 0 from rfl, pendSt0_zero]
      unfold pendNone0
      isplitl [Hra']; · iexists _; iexact Hra'
      isplitl [Hrb']; · iexists _; iexact Hrb'
      isplitl [Hs6]; · iexact Hs6
      isplitl [Hs7]; · iexact Hs7
      iapply (Entails.of_eq (outPiece0_piles (F := F) d L)); iexact Hout
    iexists _; isplitr
    swap; · iexact HO
    ipureintro; exact fun p hp => .inl hp
  iintro %_ HI
  unfold inv1_0
  icases HI with ⟨-, Hidx, ⟨%fib', Hib⟩, Hsh, Hsh2, Hp1, Hs4, Hs5, Hpend, %W₂, %hW₂, HO⟩
  ihave Hpend' := (Entails.of_eq (congrArg (pendSt0 (F := F) d L) (show 8 * k1_t1_loop.trips = 39 + 1 by rw [k1_t1_trips]))) $$ Hpend
  ihave Hpend'' := (Entails.of_eq (pendSt0_succ (F := F) d L 39)) $$ Hpend'
  unfold pendAt0
  icases Hpend'' with ⟨%fra', %frb', Hs6, Hra, Hs7, Hrb, HpA, HpB⟩
  -- the two final waits
  sl_exec
  sl_step
  isplitl [Hidx HpA HpB Hs6_dst Hs7_dst Htbl Hsh Hsh2 Hshrest Hat]
  · unfold td0
    isplitl [Hidx]; · iexact Hidx
    isplitl [HpA HpB Hs6_dst Hs7_dst]
    · iapply (Entails.of_eq (outPiece0_piles (F := F) d L).symm)
      isplitl [HpA Hs6_dst]
      · iapply (Entails.of_eq (pileA0_out (F := F) d L (Finset.mem_univ (blk0 39))).symm)
        isplitl [Hs6_dst]; · iexact Hs6_dst
        iexact HpA
      · iapply (Entails.of_eq (pileB0_out (F := F) d L (Finset.mem_univ (blk0 39))).symm)
        isplitl [Hs7_dst]; · iexact Hs7_dst
        iexact HpB
    isplitl [Htbl]; · iexact Htbl
    isplitl [Hsh Hsh2]
    · iexists g
      iapply (pointsTo_share (ℓ := sh0Loc d (cV0 L)) (I := Finset.univ) (f := g) (PosShare.mem_left_op_right (rdShare (L 1).val))).2
      isplitl [Hsh]; · iapply (Entails.of_eq (pts_shW0 (F := F) d L _ _)); iexact Hsh
      iapply (Entails.of_eq (pts_shW0 (F := F) d L _ _)); iexact Hsh2
    isplitl [Hshrest]; · iexact Hshrest
    isplitl [Hat]; · iexact Hat
    iexact Hrch'
  isplitl [Hib Hra Hrb HR₁]
  · isplitl [Hib]; · iexists _; iapply (Entails.of_eq (pts_ib0 (F := F) d L _)); iexact Hib
    isplitl [Hra]; · iexists _; iapply (Entails.of_eq (pts_ra0 (F := F) d L _)); iexact Hra
    isplitl [Hrb]; · iexists _; iapply (Entails.of_eq (pts_rb0 (F := F) d L _)); iexact Hrb
    iexact HR₁
  isplitl [Hs4 Hs5 Hs6 Hs7 Hp0 Hp1 HR₂]
  · isplitl [Hs4]; · iexact Hs4
    isplitl [Hs5]; · iexact Hs5
    isplitl [Hs6]; · iexact Hs6
    isplitl [Hs7]; · iexact Hs7
    isplitl [Hp0]; · iexact Hp0
    isplitl [Hp1]; · iexact Hp1
    iexact HR₂
  iexists _; isplitr
  swap; · iexact HO
  ipureintro; intro p hp
  rcases Finset.mem_insert.mp hp with hp | hp; · exact .inr (.inl (hp ▸ rfl))
  rcases Finset.mem_insert.mp hp with hp | hp; · exact .inr (.inl (hp ▸ rfl))
  rcases hW₂ p hp with h | h
  · rcases Finset.mem_insert.mp h with h | h
    · exact .inr (.inr (h ▸ rfl))
    · exact (hW₁ p h).imp_right Or.inl
  · exact .inr (.inl h)

theorem ownSems0_V0 (d : Dev nD) (c : Fin τ.nSC) (i : Fin τ.nSub) :
    (ownSems0 (V d c i) : sProp 𝕄) = iprop(semVal (dcell d c i cc1_scratch4.sem) 0 ∗ semVal (dcell d c i cc1_scratch5.sem) 0 ∗ semVal (dcell d c i cc1_scratch6.sem) 0 ∗ semVal (dcell d c i cc1_scratch7.sem) 0 ∗ semVal (dcell d c i cc1_scoped0.sem) 0 ∗ semVal (dcell d c i cc1_scoped1.sem) 0 ∗ bigSep (((((((ownCells (V d c i)).erase (dcell d c i cc1_scratch4.sem)).erase (dcell d c i cc1_scratch5.sem)).erase (dcell d c i cc1_scratch6.sem)).erase (dcell d c i cc1_scratch7.sem)).erase (dcell d c i cc1_scoped0.sem)).erase (dcell d c i cc1_scoped1.sem)) fun g => semVal g 0) := by
  unfold SparseCore.Cfg.ownSems0
  rw [SparseCore.bigSep_erase' (dcell_mem d c i cc1_scratch4.sem (by decide)),
    SparseCore.bigSep_erase' (Finset.mem_erase.mpr ⟨dcell_ne (by decide), (dcell_mem d c i cc1_scratch5.sem (by decide))⟩),
    SparseCore.bigSep_erase' (Finset.mem_erase.mpr ⟨dcell_ne (by decide), (Finset.mem_erase.mpr ⟨dcell_ne (by decide), (dcell_mem d c i cc1_scratch6.sem (by decide))⟩)⟩),
    SparseCore.bigSep_erase' (Finset.mem_erase.mpr ⟨dcell_ne (by decide), (Finset.mem_erase.mpr ⟨dcell_ne (by decide), (Finset.mem_erase.mpr ⟨dcell_ne (by decide), (dcell_mem d c i cc1_scratch7.sem (by decide))⟩)⟩)⟩),
    SparseCore.bigSep_erase' (Finset.mem_erase.mpr ⟨dcell_ne (by decide), (Finset.mem_erase.mpr ⟨dcell_ne (by decide), (Finset.mem_erase.mpr ⟨dcell_ne (by decide), (Finset.mem_erase.mpr ⟨dcell_ne (by decide), (dcell_mem d c i cc1_scoped0.sem (by decide))⟩)⟩)⟩)⟩),
    SparseCore.bigSep_erase' (Finset.mem_erase.mpr ⟨dcell_ne (by decide), (Finset.mem_erase.mpr ⟨dcell_ne (by decide), (Finset.mem_erase.mpr ⟨dcell_ne (by decide), (Finset.mem_erase.mpr ⟨dcell_ne (by decide), (Finset.mem_erase.mpr ⟨dcell_ne (by decide), (dcell_mem d c i cc1_scoped1.sem (by decide))⟩)⟩)⟩)⟩)⟩)]

theorem ownBufs_V0 (d : Dev nD) (c : Fin τ.nSC) (i : Fin τ.nSub) :
    (ownBufs (V d c i) : sProp 𝕄) = iprop((∃ f, (V d c i).loc cc1_scratch1 ↦{fullShare} f) ∗ (∃ f, (V d c i).loc cc1_scratch2 ↦{fullShare} f) ∗ (∃ f, (V d c i).loc cc1_scratch3 ↦{fullShare} f) ∗ bigSep ((((ownRefs (τ := τ) (.scVector c i)).erase ((Proc.scVector c i).devRef cc1_scratch1)).erase ((Proc.scVector c i).devRef cc1_scratch2)).erase ((Proc.scVector c i).devRef cc1_scratch3)) fun b => iprop(∃ f, ((d, b) : Loc nD τ sig) ↦{fullShare} f)) := by
  unfold SparseCore.Cfg.ownBufs
  rw [SparseCore.bigSep_erase' (SparseCore.Cfg.mem_ownRefs_of_owner (p := Proc.scVector c i) (b := ((Proc.scVector c i).devRef cc1_scratch1)) rfl),
    SparseCore.bigSep_erase' (Finset.mem_erase.mpr ⟨(by intro e; cases e), (SparseCore.Cfg.mem_ownRefs_of_owner (p := Proc.scVector c i) (b := ((Proc.scVector c i).devRef cc1_scratch2)) rfl)⟩),
    SparseCore.bigSep_erase' (Finset.mem_erase.mpr ⟨(by intro e; cases e), (Finset.mem_erase.mpr ⟨(by intro e; cases e), (SparseCore.Cfg.mem_ownRefs_of_owner (p := Proc.scVector c i) (b := ((Proc.scVector c i).devRef cc1_scratch3)) rfl)⟩)⟩)]

omit [FloatOps F] in
theorem tblPiece0_pos (h : k1_cond1 L = 1#1) : tblPiece0 (F := F) d L = iprop(∃ tb, tblLoc d ↦[tblSet0 L h]{fullShare} tb) := dif_pos h
omit [FloatOps F] in
theorem shPiece0_pos (q' : PosShare TreeShare) (h : k1_cond1 L = 1#1) : shPiece0 (F := F) q' d L = iprop(∃ f, sh0Loc d (cV0 L) ↦[shSet0 L h]{q'} f) := dif_pos h

set_option maxHeartbeats 4000000 in
/-- The task on vector subcore `(L 0, L 1)` of device `d`. -/
theorem tile_body0 (hF : (K (F := F)).Facts) (O : CellTallies nD τ sig (HIx 2)) (W : Waits sig (HIx 2)) (hO : ∀ g, O g none = 0)
    (hOlev : ∀ g ι, 0 < O g ι → 8 * (0 : Fin 2).val + 6 ≤ (K (F := F)).lev g ι) :
    iprop(levAts (K (F := F)).L (K (F := F)).lev ∗ kit 0 d (cV0 L) (jV0 L) ∗ go0 d L
        ∗ scopedBufs (V d (cV0 L) (jV0 L)) ∗ scopedSems0 (V d (cV0 L) (jV0 L)) ∗ owes (V d (cV0 L) (jV0 L)) (O + oxV 0 d (cV0 L)) W)
      ⊢ wp frame (wpE (defs₀ (F := F)) 𝒱₀ (V d (cV0 L) (jV0 L)) none) Set.univ
          (cc1_gather_kernel L tV (Memref.isWhole_whole _) jV (Memref.isWhole_whole _) oV (Memref.isWhole_whole _) shV (Memref.isWhole_whole _)
            ibV (Memref.isWhole_whole _) raV (Memref.isWhole_whole _) rbV (Memref.isWhole_whole _) cc1_scratch4 cc1_scratch5 cc1_scratch6 cc1_scratch7 cc1_scoped0 cc1_scoped1)
          fun _ => iprop(td0 d L ∗ scopedBufs (V d (cV0 L) (jV0 L)) ∗ scopedSems0 (V d (cV0 L) (jV0 L))
            ∗ ∃ W', ⌜∀ p ∈ W', p ∈ W ∨ p.2 = none ∨ p.2 = some (0 : Fin 2)⌝ ∗ owes (V d (cV0 L) (jV0 L)) O W') := by
  simp only [cc1_gather_kernel_eq_skeleton]; unfold cc1_gather_kernel_skel
  rw [(K (F := F)).scopedBufs_V hF d (cV0 L) (jV0 L), SparseCore.Cfg.scopedSems0_V (Val := Elt F) d (cV0 L) (jV0 L), ownSems0_V0, ownBufs_V0]
  unfold kit go0 kitFirst
  rw [if_pos (show ((0 : Fin 2).val = 0) from rfl)]
  have hO' : ∀ g, (O + oxV 0 d (cV0 L)) g none = 0 := fun g => by rw [Pi.add_apply, Finsupp.add_apply, hO g, oxV_none]
  by_cases k1_h1 : k1_cond1 L = 1#1
  · -- a writing tile: its rows of the table into the shared scratch, waited for
    rw [tblPiece0_pos (F := F) d L k1_h1, shPiece0_pos (F := F) d L fullShare k1_h1]
    iintro ⟨#Hlv, ⟨⟨%κ, #Hinv⟩, Htoks, ⟨#Hrch, Hat⟩, Hcred⟩, ⟨Hidx, Hout, ⟨%tb, Htbl⟩, ⟨%fsh, Hsh⟩⟩, ⟨⟨%fib, Hib⟩, ⟨%fra, Hra⟩, ⟨%frb, Hrb⟩, Hbufs⟩, ⟨Hs4, Hs5, Hs6, Hs7, Hp0, Hp1, Hsems⟩, HO⟩
    ihave Hmw1 := (show levAts (K (F := F)).L (K (F := F)).lev ⊢ Transfers.MayWaits (thr0 d L) (default : HIx 2) (O + oxV 0 d (cV0 L)) from
      (K (F := F)).mayWaits_none (thr := thr0 d L) hO') $$ Hlv
    ihave Htbl := (Entails.of_eq (pts_tbl0 (F := F) d L k1_h1 _).symm) $$ Htbl
    ihave Hsh := (Entails.of_eq (pts_sh0 (F := F) d L k1_h1 _ _).symm) $$ Hsh
    sl_exec
    iapply (rest0 (F := F) d L hF O W hO hOlev κ _ _) $$ [Htoks Hat Hcred Hidx Hout Htbl Hsh Hib Hra Hrb Hbufs Hs4 Hs5 Hs6 Hs7 Hp0 Hp1 Hsems HO]
    isplitr; · iexact Hlv
    isplitr; · iexact Hinv
    isplitl [Htoks]; · iexact Htoks
    isplitr; · iexact Hrch
    isplitl [Hat]; · iexact Hat
    isplitl [Hcred]; · iexact Hcred
    isplitl [Hidx]; · iexact Hidx
    isplitl [Hout]; · iexact Hout
    isplitl [Htbl]; · iapply (Entails.of_eq (tblPiece0_pos (F := F) d L k1_h1).symm); iexists tb; iapply (Entails.of_eq (pts_tbl0 (F := F) d L k1_h1 _)); iexact Htbl
    isplitl [Hsh]; · iapply (Entails.of_eq (shPiece0_pos (F := F) d L fullShare k1_h1).symm); iexists _; iapply (Entails.of_eq (pts_sh0 (F := F) d L k1_h1 _ _)); iexact Hsh
    isplitl [Hib]; · iexists _; iexact Hib
    isplitl [Hra]; · iexists _; iexact Hra
    isplitl [Hrb]; · iexists _; iexact Hrb
    isplitl [Hs4]; · iexact Hs4
    isplitl [Hs5]; · iexact Hs5
    isplitl [Hs6]; · iexact Hs6
    isplitl [Hs7]; · iexact Hs7
    isplitl [Hp0]; · iexact Hp0
    isplitl [Hp1]; · iexact Hp1
    isplitl [Hbufs]; · iexact Hbufs
    isplitl [Hsems]; · iexact Hsems
    iexists _; isplitr
    swap; · iexact HO
    ipureintro; intro p hp
    rcases Finset.mem_insert.mp hp with hp | hp; · exact .inr (hp ▸ rfl)
    exact .inl hp
  · -- a tile that writes nothing
    iintro ⟨#Hlv, ⟨⟨%κ, #Hinv⟩, Htoks, ⟨#Hrch, Hat⟩, Hcred⟩, ⟨Hidx, Hout, Htbl, Hsh⟩, ⟨⟨%fib, Hib⟩, ⟨%fra, Hra⟩, ⟨%frb, Hrb⟩, Hbufs⟩, ⟨Hs4, Hs5, Hs6, Hs7, Hp0, Hp1, Hsems⟩, HO⟩
    sl_exec
    iapply (rest0 (F := F) d L hF O W hO hOlev κ _ _) $$ [Htoks Hat Hcred Hidx Hout Htbl Hsh Hib Hra Hrb Hbufs Hs4 Hs5 Hs6 Hs7 Hp0 Hp1 Hsems HO]
    isplitr; · iexact Hlv
    isplitr; · iexact Hinv
    isplitl [Htoks]; · iexact Htoks
    isplitr; · iexact Hrch
    isplitl [Hat]; · iexact Hat
    isplitl [Hcred]; · iexact Hcred
    isplitl [Hidx]; · iexact Hidx
    isplitl [Hout]; · iexact Hout
    isplitl [Htbl]; · iexact Htbl
    isplitl [Hsh]; · iexact Hsh
    isplitl [Hib]; · iexists _; iexact Hib
    isplitl [Hra]; · iexists _; iexact Hra
    isplitl [Hrb]; · iexists _; iexact Hrb
    isplitl [Hs4]; · iexact Hs4
    isplitl [Hs5]; · iexact Hs5
    isplitl [Hs6]; · iexact Hs6
    isplitl [Hs7]; · iexact Hs7
    isplitl [Hp0]; · iexact Hp0
    isplitl [Hp1]; · iexact Hp1
    isplitl [Hbufs]; · iexact Hbufs
    isplitl [Hsems]; · iexact Hsems
    iexists _; isplitr
    swap; · iexact HO
    ipureintro; intro p hp
    exact .inl hp

end Tile0

/-! ## The obligation -/

theorem tileObl0 : (K (F := F)).TileObl (D (F := F)) 𝒱 (P (F := F)) v₀ 0 :=
  tileObl0_of (fun d L hF O W hO hOlev => tile_body0 d L hF O W hO hOlev)

end Cert.ProofBits.Sc
-- ==== Proof.Bits.ScTile1.lean ====
/-
  One tile's task of the gather kernel at the SECOND SparseCore call: the body once at a symbolic tile, over that kernel's
  own scratches and semaphores, the index list and the output of the second half of the edges, and round 1 of the barrier
  cells, whose origin and reach arrive with the call's operands.
-/
import proofs.«217078_g14027363189340_cont_week2b_886_24_alg».proof.Proof.Bits.ScTile

noncomputable section

namespace Cert.ProofBits.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable [FloatOps F]

omit [FloatOps F] in
theorem k3_cond1_iff : ∀ L : grid3.Coords, k3_cond1 L = 1#1 ↔ (L 1).val < 10 := by decide +kernel
omit [FloatOps F] in
theorem k3_cond2_iff : ∀ (t1 : Fin k3_t1_loop.trips) (t3 : Fin k3_t3_loop.trips), k3_cond2 t1 t3 = 1#1 ↔ ¬(t1.val = 0 ∧ t3.val = 0) := by decide +kernel
omit [FloatOps F] in
theorem k3_cond3_iff : ∀ (t1 : Fin k3_t1_loop.trips) (t3 : Fin k3_t3_loop.trips), k3_cond3 t1 t3 = 1#1 ↔ ¬(t1.val = 0 ∧ t3.val = 0) := by decide +kernel
omit [FloatOps F] in
theorem k3_t1_trips : k3_t1_loop.trips = 5 := by decide
omit [FloatOps F] in
theorem k3_t2_trips : k3_t2_loop.trips = 128 := by decide
omit [FloatOps F] in
theorem k3_t3_trips : k3_t3_loop.trips = 8 := by decide

/-- The blocks of 2 × 128 output rows of a tile's task, by pair of trips; `blk1 m` the `m`-th in the order they are written. -/
abbrev Blk1 : Type := Fin k3_t1_loop.trips × Fin k3_t3_loop.trips
def blk1 (m : ℕ) : Blk1 := (⟨min (m / 8) 4, by rw [k3_t1_trips]; omega⟩, ⟨m % 8, by rw [k3_t3_trips]; omega⟩)

omit [FloatOps F] in
theorem blk1_cur (t1 : Fin k3_t1_loop.trips) (j : Fin k3_t3_loop.trips) : blk1 (8 * t1.val + j.val) = (t1, j) := by
  have h1 : t1.val < 5 := lt_of_lt_of_eq t1.isLt k3_t1_trips
  have h3 : j.val < 8 := lt_of_lt_of_eq j.isLt k3_t3_trips
  refine Prod.ext (Fin.ext ?_) (Fin.ext ?_)
  · show min ((8 * t1.val + j.val) / 8) 4 = t1.val
    omega
  · show (8 * t1.val + j.val) % 8 = j.val
    omega

omit [FloatOps F] in
theorem blk1_ne_succ (t1 : Fin k3_t1_loop.trips) (j : Fin k3_t3_loop.trips) {m : ℕ} (h : 8 * t1.val + j.val = m + 1) : (t1, j) ≠ blk1 m := by
  have h1 : t1.val < 5 := lt_of_lt_of_eq t1.isLt k3_t1_trips
  have h3 : j.val < 8 := lt_of_lt_of_eq j.isLt k3_t3_trips
  intro e
  have e1 : t1.val = min (m / 8) 4 := congrArg (fun p : Blk1 => p.1.val) e
  have e2 : j.val = m % 8 := congrArg (fun p : Blk1 => p.2.val) e
  omega

section Tile1

local notation "tV" => (Memref.whole Cert.Kernel.main_v9_scv : Memref Cert.Kernel.sig Kind.scVector Space.hbm Cert.Kernel.S20000x128 EltTy.f32)
local notation "jV" => (Memref.whole Cert.Kernel.main_v37_scv : Memref Cert.Kernel.sig Kind.scVector Space.hbm Cert.Kernel.S327680 EltTy.i32)
local notation "oV" => (Memref.whole Cert.Kernel.main_v38_scv : Memref Cert.Kernel.sig Kind.scVector Space.hbm Cert.Kernel.S327680x128 EltTy.f32)
local notation "shV" => (Memref.whole Cert.Kernel.cc3_scratch0 : Memref Cert.Kernel.sig Kind.scVector Space.shared Cert.Kernel.S10000x128 EltTy.f32)
local notation "ibV" => (Memref.whole Cert.Kernel.cc3_scratch1 : Memref Cert.Kernel.sig Kind.scVector Space.vmem Cert.Kernel.S2048 EltTy.i32)
local notation "raV" => (Memref.whole Cert.Kernel.cc3_scratch2 : Memref Cert.Kernel.sig Kind.scVector Space.vmem Cert.Kernel.S128x128 EltTy.f32)
local notation "rbV" => (Memref.whole Cert.Kernel.cc3_scratch3 : Memref Cert.Kernel.sig Kind.scVector Space.vmem Cert.Kernel.S128x128 EltTy.f32)

variable (d : Dev nD) (L : grid3.Coords)

abbrev thr1 : Thread nD τ := V d (cV1 L) (jV1 L)

omit [FloatOps F] in
theorem pts_tbl1 (h : k3_cond1 L = 1#1) (f : Buf (Elt F) (tblLoc d)) :
    ((tblM1 L h).view.loc (thr1 d L) ↦[(tblM1 L h).view.set]{fullShare} f : sProp 𝕄) = tblLoc d ↦[tblSet1 L h]{fullShare} f := rfl
omit [FloatOps F] in
theorem pts_sh1 (h : k3_cond1 L = 1#1) (q : PosShare TreeShare) (f : Buf (Elt F) (sh1Loc d (cV1 L))) :
    ((shM1 L h).view.loc (thr1 d L) ↦[(shM1 L h).view.set]{q} f : sProp 𝕄) = sh1Loc d (cV1 L) ↦[shSet1 L h]{q} f := rfl
omit [FloatOps F] in
theorem pts_shW1 (q : PosShare TreeShare) (f : Buf (Elt F) (sh1Loc d (cV1 L))) :
    ((shV).view.loc (thr1 d L) ↦{q} f : sProp 𝕄) = sh1Loc d (cV1 L) ↦{q} f := rfl
omit [FloatOps F] in
theorem pts_idx1 (t1 : Fin k3_t1_loop.trips) (f : Buf (Elt F) (idxLoc1 d)) :
    ((idxM1 L t1).view.loc (thr1 d L) ↦[(idxM1 L t1).view.set]{fullShare} f : sProp 𝕄) = idxLoc1 d ↦[idxSet1 L t1]{fullShare} f := rfl
omit [FloatOps F] in
theorem pts_outA1 (t1 : Fin k3_t1_loop.trips) (t3 : Fin k3_t3_loop.trips) (f : Buf (Elt F) (outLoc1 d)) :
    ((outAM1 L t1 t3).view.loc (thr1 d L) ↦[(outAM1 L t1 t3).view.set]{fullShare} f : sProp 𝕄) = outLoc1 d ↦[outASet1 L t1 t3]{fullShare} f := rfl
omit [FloatOps F] in
theorem pts_outB1 (t1 : Fin k3_t1_loop.trips) (t3 : Fin k3_t3_loop.trips) (f : Buf (Elt F) (outLoc1 d)) :
    ((outBM1 L t1 t3).view.loc (thr1 d L) ↦[(outBM1 L t1 t3).view.set]{fullShare} f : sProp 𝕄) = outLoc1 d ↦[outBSet1 L t1 t3]{fullShare} f := rfl
omit [FloatOps F] in
theorem pts_ib1 (f : Buf (Elt F) ((thr1 d L).loc cc3_scratch1)) :
    ((ibV).view.loc (thr1 d L) ↦{fullShare} f : sProp 𝕄) = (thr1 d L).loc cc3_scratch1 ↦{fullShare} f := rfl
omit [FloatOps F] in
theorem pts_ra1 (f : Buf (Elt F) ((thr1 d L).loc cc3_scratch2)) :
    ((raV).view.loc (thr1 d L) ↦{fullShare} f : sProp 𝕄) = (thr1 d L).loc cc3_scratch2 ↦{fullShare} f := rfl
omit [FloatOps F] in
theorem pts_rb1 (f : Buf (Elt F) ((thr1 d L).loc cc3_scratch3)) :
    ((rbV).view.loc (thr1 d L) ↦{fullShare} f : sProp 𝕄) = (thr1 d L).loc cc3_scratch3 ↦{fullShare} f := rfl

/-- The two 128-word windows of the index scratch a pair of gathers reads. -/
abbrev offA1 (t3 : Fin k3_t3_loop.trips) : Memref sig .scVector .vmem S128 .i32 := (ibV).slice (Rect.unit (s := S2048) (k3_off6 t3) S128.size (k3_off6_inb t3)) (fun _ => rfl)
abbrev offB1 (t3 : Fin k3_t3_loop.trips) : Memref sig .scVector .vmem S128 .i32 := (ibV).slice (Rect.unit (s := S2048) (k3_off8 t3) S128.size (k3_off8_inb t3)) (fun _ => rfl)

/-- A copy-out of a row scratch pending on its semaphore: it brings back the scratch and the block it was sent to. -/
abbrev flA1 (p : Blk1) (fra : Buf (Elt F) ((thr1 d L).loc cc3_scratch2)) : sProp 𝕄 :=
  Transfers.Flight countersEmb (thr1 d L) (SemLoc.dma cc3_scratch6.sem) (default : HIx 2) 524288
    iprop((∃ f, outLoc1 d ↦[outASet1 L p.1 p.2]{fullShare} f) ∗ ((raV).view.loc (thr1 d L) ↦[(raV).view.set]{fullShare} fra))
abbrev flB1 (p : Blk1) (frb : Buf (Elt F) ((thr1 d L).loc cc3_scratch3)) : sProp 𝕄 :=
  Transfers.Flight countersEmb (thr1 d L) (SemLoc.dma cc3_scratch7.sem) (default : HIx 2) 524288
    iprop((∃ f, outLoc1 d ↦[outBSet1 L p.1 p.2]{fullShare} f) ∗ ((rbV).view.loc (thr1 d L) ↦[(rbV).view.set]{fullShare} frb))

/-- The output blocks of the set `s`, each at whatever it holds. -/
def pileA1 (s : Finset Blk1) : sProp 𝕄 := bigSep s fun p => iprop(∃ f, outLoc1 d ↦[outASet1 L p.1 p.2]{fullShare} f)
def pileB1 (s : Finset Blk1) : sProp 𝕄 := bigSep s fun p => iprop(∃ f, outLoc1 d ↦[outBSet1 L p.1 p.2]{fullShare} f)

omit [FloatOps F] in
theorem pileA1_out {s : Finset Blk1} {p : Blk1} (hp : p ∈ s) :
    (pileA1 (F := F) d L s : sProp 𝕄) = iprop((∃ f, outLoc1 d ↦[outASet1 L p.1 p.2]{fullShare} f) ∗ pileA1 d L (s.erase p)) := by
  unfold pileA1; exact SparseCore.bigSep_erase' hp
omit [FloatOps F] in
theorem pileB1_out {s : Finset Blk1} {p : Blk1} (hp : p ∈ s) :
    (pileB1 (F := F) d L s : sProp 𝕄) = iprop((∃ f, outLoc1 d ↦[outBSet1 L p.1 p.2]{fullShare} f) ∗ pileB1 d L (s.erase p)) := by
  unfold pileB1; exact SparseCore.bigSep_erase' hp

/-- No copy-out pending (before the very first pair of gathers): both row scratches held, their semaphores at zero, every
    output block at hand. -/
def pendNone1 : sProp 𝕄 :=
  iprop((∃ fra, (raV).view.loc (thr1 d L) ↦{fullShare} fra) ∗ (∃ frb, (rbV).view.loc (thr1 d L) ↦{fullShare} frb)
    ∗ semVal (dcell d (cV1 L) (jV1 L) cc3_scratch6.sem) 0 ∗ semVal (dcell d (cV1 L) (jV1 L) cc3_scratch7.sem) 0
    ∗ pileA1 d L Finset.univ ∗ pileB1 d L Finset.univ)
/-- One copy-out pending per row scratch, to block `p`: the flights hold the scratches and the block's rows. -/
def pendAt1 (p : Blk1) : sProp 𝕄 :=
  iprop(∃ fra, ∃ frb, flA1 d L p fra ∗ ((raV).view.loc (thr1 d L) ↦[Finset.univ \ (raV).view.set]{fullShare} fra)
    ∗ flB1 d L p frb ∗ ((rbV).view.loc (thr1 d L) ↦[Finset.univ \ (rbV).view.set]{fullShare} frb)
    ∗ pileA1 d L (Finset.univ.erase p) ∗ pileB1 d L (Finset.univ.erase p))
/-- Before the `n`-th pair of gathers of the task. -/
def pendSt1 (n : ℕ) : sProp 𝕄 := if n = 0 then pendNone1 d L else pendAt1 d L (blk1 (n - 1))

omit [FloatOps F] in
theorem pendSt1_zero : pendSt1 (F := F) d L 0 = pendNone1 d L := if_pos rfl
omit [FloatOps F] in
theorem pendSt1_succ (m : ℕ) : pendSt1 (F := F) d L (m + 1) = pendAt1 d L (blk1 m) := if_neg (Nat.succ_ne_zero m)

/-- The invariant of the loop of eight pairs of gathers, in block `t1`: the index scratch whole and in range, the two read
    shares of the shared scratch, the gathers' semaphores at zero, the copy-outs as `pendSt` says, the thread's debt. -/
def inv3_1 (O : CellTallies nD τ sig (HIx 2)) (W : Waits sig (HIx 2)) (g : Buf (Elt F) (sh1Loc d (cV1 L))) (t1 : Fin k3_t1_loop.trips)
    (j : ℕ) (_ : PUnit) : sProp 𝕄 :=
  iprop(Transfers.MayWaits (thr1 d L) (default : HIx 2) O
    ∗ (∃ fo, ((ibV).view.loc (thr1 d L) ↦{fullShare} fo) ∗ ⌜IdxOk fo⌝)
    ∗ ((shV).view.loc (thr1 d L) ↦{(rdShare (L 1).val).left} g) ∗ ((shV).view.loc (thr1 d L) ↦{(rdShare (L 1).val).right} g)
    ∗ semVal (dcell d (cV1 L) (jV1 L) cc3_scratch4.sem) 0 ∗ semVal (dcell d (cV1 L) (jV1 L) cc3_scratch5.sem) 0
    ∗ pendSt1 d L (8 * t1.val + j)
    ∗ ∃ W', ⌜∀ p ∈ W', p ∈ W ∨ p.2 = none⌝ ∗ owes (thr1 d L) O W')

omit [FloatOps F] in
theorem flA1_intro (p : Blk1) (fa : Buf (Elt F) (outLoc1 d)) (fra : Buf (Elt F) ((thr1 d L).loc cc3_scratch2)) :
    (Transfers.Flight countersEmb (thr1 d L) (SemLoc.dma cc3_scratch6.sem) (default : HIx 2) 524288
      iprop(((outAM1 L p.1 p.2).view.loc (thr1 d L) ↦[(outAM1 L p.1 p.2).view.set]{fullShare} fa)
        ∗ ((raV).view.loc (thr1 d L) ↦[(raV).view.set]{fullShare} fra)) : sProp 𝕄) ⊢ flA1 d L p fra := by
  refine Transfers.Flight_mono countersEmb (thr1 d L) ?_
  iintro ⟨Hd, Hs⟩
  isplitl [Hd]; · iexists fa; iexact Hd
  iexact Hs
omit [FloatOps F] in
theorem flB1_intro (p : Blk1) (fb : Buf (Elt F) (outLoc1 d)) (frb : Buf (Elt F) ((thr1 d L).loc cc3_scratch3)) :
    (Transfers.Flight countersEmb (thr1 d L) (SemLoc.dma cc3_scratch7.sem) (default : HIx 2) 524288
      iprop(((outBM1 L p.1 p.2).view.loc (thr1 d L) ↦[(outBM1 L p.1 p.2).view.set]{fullShare} fb)
        ∗ ((rbV).view.loc (thr1 d L) ↦[(rbV).view.set]{fullShare} frb)) : sProp 𝕄) ⊢ flB1 d L p frb := by
  refine Transfers.Flight_mono countersEmb (thr1 d L) ?_
  iintro ⟨Hd, Hs⟩
  isplitl [Hd]; · iexists fb; iexact Hd
  iexact Hs

set_option maxHeartbeats 4000000 in
/-- One pair of gathers: the previous copy-outs waited for (but before the very first pair), the two gathers, each waited
    for and copied out to its block. -/
theorem t3_region1 (O : CellTallies nD τ sig (HIx 2)) (W : Waits sig (HIx 2)) (g : Buf (Elt F) (sh1Loc d (cV1 L))) (t1 : Fin k3_t1_loop.trips)
    (v13 v15 : BitVec 32) (j : Fin k3_t3_loop.trips) (acc : PUnit) :
    inv3_1 d L O W g t1 j.val acc
      ⊢ wp frame (wpE (defs₀ (F := F)) 𝒱₀ (thr1 d L) none) Set.univ
          (k3_t3_body L tV (Memref.isWhole_whole _) jV (Memref.isWhole_whole _) oV (Memref.isWhole_whole _) shV (Memref.isWhole_whole _)
            ibV (Memref.isWhole_whole _) raV (Memref.isWhole_whole _) rbV (Memref.isWhole_whole _) cc3_scratch4 cc3_scratch5 cc3_scratch6 cc3_scratch7 cc3_scoped0 cc3_scoped1 t1 v13 v15 j acc)
          (inv3_1 d L O W g t1 (j.val + 1)) := by
  unfold inv3_1
  rw [show 8 * t1.val + (j.val + 1) = (8 * t1.val + j.val) + 1 from (Nat.add_assoc _ _ _).symm, pendSt1_succ, blk1_cur]
  rcases Nat.eq_zero_or_pos (8 * t1.val + j.val) with hn | hn
  · -- the very first pair: nothing pending
    have hc2 : ¬ k3_cond2 t1 j = 1#1 := fun h => (k3_cond2_iff t1 j).mp h ⟨by omega, by omega⟩
    have hc3 : ¬ k3_cond3 t1 j = 1#1 := fun h => (k3_cond3_iff t1 j).mp h ⟨by omega, by omega⟩
    rw [hn, pendSt1_zero]
    unfold pendNone1
    rw [pileA1_out (F := F) d L (Finset.mem_univ (t1, j)), pileB1_out (F := F) d L (Finset.mem_univ (t1, j))]
    iintro ⟨#Hmw, ⟨%fo, Hib, %hfo⟩, Hsh, Hsh2, Hs4, Hs5, ⟨⟨%fra, Hra⟩, ⟨%frb, Hrb⟩, Hs6, Hs7, ⟨⟨%fa, HoA⟩, HpA⟩, ⟨⟨%fb, HoB⟩, HpB⟩⟩, %W', %hW', HO⟩
    have hinA : ∀ x, ((offA1 j).view.read (Elt F) fo x).toNat < S10000x128.size gathers_S10000x128_S128x128.axis := fun x => hfo _
    have hinB : ∀ x, ((offB1 j).view.read (Elt F) fo x).toNat < S10000x128.size gathers_S10000x128_S128x128.axis := fun x => hfo _
    ihave HoA' := (Entails.of_eq (pts_outA1 (F := F) d L t1 j _).symm) $$ HoA
    ihave HoB' := (Entails.of_eq (pts_outB1 (F := F) d L t1 j _).symm) $$ HoB
    sl_exec
    sl_step
    isplitr; · iexact Hmw
    isplitl [Hib]; · iexists fo; isplitl [Hib]; · iexact Hib
                     ipureintro; exact hfo
    isplitl [Hsh]; · iexact Hsh
    isplitl [Hsh2]; · iexact Hsh2
    isplitl [Hs4]; · iexact Hs4
    isplitl [Hs5]; · iexact Hs5
    isplitl [Hs6 Hra Hs7 Hrb HpA HpB]
    · unfold pendAt1
      iexists _; iexists _
      isplitl [Hs6]; · iapply (flA1_intro (F := F) d L (t1, j) _ _); iexact Hs6
      isplitl [Hra]; · iexact Hra
      isplitl [Hs7]; · iapply (flB1_intro (F := F) d L (t1, j) _ _); iexact Hs7
      isplitl [Hrb]; · iexact Hrb
      isplitl [HpA]; · iexact HpA
      iexact HpB
    iexists _; isplitr
    swap; · iexact HO
    ipureintro; intro p hp
    rcases Finset.mem_insert.mp hp with hp | hp; · exact .inr (hp ▸ rfl)
    rcases Finset.mem_insert.mp hp with hp | hp; · exact .inr (hp ▸ rfl)
    exact hW' p hp
  · -- a later pair: the pending copy-outs are waited for first
    obtain ⟨m, hm⟩ : ∃ m, 8 * t1.val + j.val = m + 1 := ⟨8 * t1.val + j.val - 1, by omega⟩
    have hc2 : k3_cond2 t1 j = 1#1 := (k3_cond2_iff t1 j).mpr (by omega)
    have hc3 : k3_cond3 t1 j = 1#1 := (k3_cond3_iff t1 j).mpr (by omega)
    have hne : (t1, j) ∈ (Finset.univ : Finset Blk1).erase (blk1 m) := Finset.mem_erase.mpr ⟨blk1_ne_succ t1 j hm, Finset.mem_univ _⟩
    rw [hm, pendSt1_succ]
    unfold pendAt1
    rw [pileA1_out (F := F) d L hne, pileB1_out (F := F) d L hne]
    iintro ⟨#Hmw, ⟨%fo, Hib, %hfo⟩, Hsh, Hsh2, Hs4, Hs5, ⟨%fra, %frb, Hs6, Hra, Hs7, Hrb, ⟨⟨%fa, HoA⟩, HpA⟩, ⟨⟨%fb, HoB⟩, HpB⟩⟩, %W', %hW', HO⟩
    have hinA : ∀ x, ((offA1 j).view.read (Elt F) fo x).toNat < S10000x128.size gathers_S10000x128_S128x128.axis := fun x => hfo _
    have hinB : ∀ x, ((offB1 j).view.read (Elt F) fo x).toNat < S10000x128.size gathers_S10000x128_S128x128.axis := fun x => hfo _
    ihave HoA' := (Entails.of_eq (pts_outA1 (F := F) d L t1 j _).symm) $$ HoA
    ihave HoB' := (Entails.of_eq (pts_outB1 (F := F) d L t1 j _).symm) $$ HoB
    sl_exec
    sl_step
    isplitr; · iexact Hmw
    isplitl [Hib]; · iexists fo; isplitl [Hib]; · iexact Hib
                     ipureintro; exact hfo
    isplitl [Hsh]; · iexact Hsh
    isplitl [Hsh2]; · iexact Hsh2
    isplitl [Hs4]; · iexact Hs4
    isplitl [Hs5]; · iexact Hs5
    isplitl [Hs6 Hra Hs7 Hrb HpA HpB Hs6_dst Hs7_dst]
    · iexists _; iexists _
      isplitl [Hs6]; · iapply (flA1_intro (F := F) d L (t1, j) _ _); iexact Hs6
      isplitl [Hra]; · iexact Hra
      isplitl [Hs7]; · iapply (flB1_intro (F := F) d L (t1, j) _ _); iexact Hs7
      isplitl [Hrb]; · iexact Hrb
      have hne' : blk1 m ∈ (Finset.univ : Finset Blk1).erase (t1, j) := Finset.mem_erase.mpr ⟨(blk1_ne_succ t1 j hm).symm, Finset.mem_univ _⟩
      isplitl [HpA Hs6_dst]
      · rw [pileA1_out (F := F) d L hne', Finset.erase_right_comm]
        isplitl [Hs6_dst]; · iexact Hs6_dst
        iexact HpA
      · rw [pileB1_out (F := F) d L hne', Finset.erase_right_comm]
        isplitl [Hs7_dst]; · iexact Hs7_dst
        iexact HpB
    iexists _; isplitr
    swap; · iexact HO
    ipureintro; intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact hW' p hp

/-- The sixteen lanes of the index scratch one trip of the subtraction reads and writes. -/
abbrev subR1 (t2 : Fin k3_t2_loop.trips) : Rect S2048 := Rect.unit (s := S2048) (k3_off4 t2) S16.size (k3_off4_inb t2)

/-- After `k` trips of the subtraction: the words below `16 k` name rows of the shared scratch, the others still rows of
    SparseCore `c`'s half of the table. -/
def SubOk1 (c k : ℕ) (fo : Buf (Elt F) ((thr1 d L).loc cc3_scratch1)) : Prop :=
  ∀ y : S2048.Idx, if (y 0).val < 16 * k then ((ibV).view.read (Elt F) fo y).toNat < 10000
    else 10000 * c ≤ ((ibV).view.read (Elt F) fo y).toNat ∧ ((ibV).view.read (Elt F) fo y).toNat < 10000 * c + 10000

omit [FloatOps F] in
theorem k3_pay1_apply (v22 : Vec F S16 .i32) (x : S16.Idx) : ∃ x', k3_pay1 (F := F) L v22 x = v22 x' - (BitVec.ofNat 32 (L 0).val * 10000#32) := by
  unfold k3_pay1 shapeCast subi broadcast
  exact ⟨_, rfl⟩

omit [FloatOps F] in
theorem sub_toNat1 {c : ℕ} (hc : c < 2) {a : BitVec 32} (h1 : 10000 * c ≤ a.toNat) (h2 : a.toNat < 10000 * c + 10000) :
    (a - (BitVec.ofNat 32 c * 10000#32)).toNat < 10000 := by
  have hm : (BitVec.ofNat 32 c * 10000#32).toNat = 10000 * c := by
    rw [BitVec.toNat_mul, BitVec.toNat_ofNat]
    show c % 2 ^ 32 * 10000 % 2 ^ 32 = 10000 * c
    omega
  rw [BitVec.toNat_sub, hm]
  have := a.isLt
  omega

omit [FloatOps F] in
theorem subOk1_step (t2 : Fin k3_t2_loop.trips) (fo : Buf (Elt F) ((thr1 d L).loc cc3_scratch1)) (h : SubOk1 d L (L 0).val t2.val fo) :
    SubOk1 d L (L 0).val (t2.val + 1)
      ((ibV).view.writes (Elt F) fo [⟨subR1 t2, k3_pay1 L ((ibV).view.readAt (Elt F) (subR1 t2).toLoadRect fo)⟩]) := by
  have hc : (L 0).val < 2 := (L 0).isLt
  have hoff : k3_off4 t2 = ![16 * t2.val] := k3_off4_eq t2
  intro y
  by_cases hy : y ∈ (subR1 t2).set
  · obtain ⟨x, rfl⟩ := (subR1 t2).exists_idx_of_mem hy
    have hx0 : (((subR1 t2).idx x) 0 : ℕ) = 16 * t2.val + (x 0).val := by
      rw [LoadRect.idx_apply]; simp [hoff]
    have hxl : (x 0).val < 16 := (x 0).isLt
    rw [if_pos (by rw [hx0]; omega)]
    rw [show (subR1 t2).idx x = (subR1 t2).emb x from rfl, View.read_writes_cons_emb]
    obtain ⟨x', hx'⟩ := k3_pay1_apply (F := F) L ((ibV).view.readAt (Elt F) (subR1 t2).toLoadRect fo) x
    rw [hx', View.readAt_apply]
    have hx0' : (((subR1 t2).toLoadRect.idx x') 0 : ℕ) = 16 * t2.val + (x' 0).val := by
      rw [LoadRect.idx_apply]; simp [hoff]
    have hy' := h ((subR1 t2).toLoadRect.idx x')
    rw [if_neg (by rw [hx0']; omega)] at hy'
    exact sub_toNat1 hc hy'.1 hy'.2
  · rw [View.read_writes_apply_of_forall_not_mem _ _ y _ (fun p hp => by rw [List.mem_singleton.mp hp]; exact hy)]
    have hy0 : ¬ (16 * t2.val ≤ (y 0).val ∧ (y 0).val < 16 * t2.val + 16) := by
      intro hh; apply hy
      rw [Rect.mem_set_unit]
      intro a
      have ha : a = 0 := Subsingleton.elim _ _
      subst ha
      simp [hoff]; omega
    have hy' := h y
    by_cases hlt : (y 0).val < 16 * t2.val
    · rw [if_pos hlt] at hy'; rw [if_pos (by omega)]; exact hy'
    · rw [if_neg hlt] at hy'; rw [if_neg (by omega)]; exact hy'

/-- The subtraction loop's invariant: the index scratch whole, `SubOk` of its words. -/
def inv2_1 (k : ℕ) (_ : PUnit) : sProp 𝕄 :=
  iprop(∃ fo, ((ibV).view.loc (thr1 d L) ↦{fullShare} fo) ∗ ⌜SubOk1 d L (L 0).val k fo⌝)

set_option maxHeartbeats 2000000 in
theorem t2_region1 (t2 : Fin k3_t2_loop.trips) (acc : PUnit) :
    inv2_1 d L t2.val acc
      ⊢ wp frame (wpE (defs₀ (F := F)) 𝒱₀ (thr1 d L) none) Set.univ
          (k3_t2_body L tV (Memref.isWhole_whole _) jV (Memref.isWhole_whole _) oV (Memref.isWhole_whole _) shV (Memref.isWhole_whole _)
            ibV (Memref.isWhole_whole _) raV (Memref.isWhole_whole _) rbV (Memref.isWhole_whole _) cc3_scratch4 cc3_scratch5 cc3_scratch6 cc3_scratch7 cc3_scoped0 cc3_scoped1 t2 acc)
          (inv2_1 d L (t2.val + 1)) := by
  unfold inv2_1
  iintro ⟨%fo, Hib, %h⟩
  sl_exec
  sl_step
  iexists _; isplitl [Hib]; · iexact Hib
  ipureintro; exact subOk1_step d L t2 fo h

omit [FloatOps F] in
theorem subOk1_init (t1 : Fin k3_t1_loop.trips) (jx : Buf (Elt F) (idxLoc1 d)) (hr : InRange (L 0).val (idxSet1 L t1) jx)
    (fib : Buf (Elt F) ((thr1 d L).loc cc3_scratch1)) :
    SubOk1 d L (L 0).val 0 ((ibV).view.write (Elt F) fib (ReadAs.same.apply ((idxM1 L t1).view.read (Elt F) jx)) Finset.univ) := by
  intro y
  rw [if_neg (by omega), View.read_write_univ]
  exact hr ((idxM1 L t1).view.emb y) (Finset.mem_map_of_mem _ (Finset.mem_univ y))

omit [FloatOps F] in
theorem idxOk1_of_sub (fo : Buf (Elt F) ((thr1 d L).loc cc3_scratch1)) (h : SubOk1 d L (L 0).val k3_t2_loop.trips fo) : IdxOk fo := fun y => by
  have hy : (y 0).val < 2048 := (y 0).isLt
  have := h y
  rw [if_pos (by rw [k3_t2_trips]; omega)] at this
  exact this

/-- The invariant of the loop over the five blocks of indices: the tile's index words, the index scratch, the two read
    shares of the shared scratch, the index copy's and the gathers' semaphores at zero, the copy-outs as `pendSt` says. -/
def inv1_1 (O : CellTallies nD τ sig (HIx 2)) (W : Waits sig (HIx 2)) (g : Buf (Elt F) (sh1Loc d (cV1 L))) (k : ℕ) (_ : PUnit) : sProp 𝕄 :=
  iprop(Transfers.MayWaits (thr1 d L) (default : HIx 2) O
    ∗ idxPiece1 d L
    ∗ (∃ fo, (ibV).view.loc (thr1 d L) ↦{fullShare} fo)
    ∗ ((shV).view.loc (thr1 d L) ↦{(rdShare (L 1).val).left} g) ∗ ((shV).view.loc (thr1 d L) ↦{(rdShare (L 1).val).right} g)
    ∗ semVal (dcell d (cV1 L) (jV1 L) cc3_scoped1.sem) 0
    ∗ semVal (dcell d (cV1 L) (jV1 L) cc3_scratch4.sem) 0 ∗ semVal (dcell d (cV1 L) (jV1 L) cc3_scratch5.sem) 0
    ∗ pendSt1 d L (8 * k)
    ∗ ∃ W', ⌜∀ p ∈ W', p ∈ W ∨ p.2 = none⌝ ∗ owes (thr1 d L) O W')

set_option maxHeartbeats 4000000 in
/-- One block of 2048 indices: copied in, the row offset subtracted, eight pairs of gathers. -/
theorem t1_region1 (O : CellTallies nD τ sig (HIx 2)) (W : Waits sig (HIx 2)) (g : Buf (Elt F) (sh1Loc d (cV1 L))) (v5 : BitVec 32)
    (t1 : Fin k3_t1_loop.trips) (acc : PUnit) :
    inv1_1 d L O W g t1.val acc
      ⊢ wp frame (wpE (defs₀ (F := F)) 𝒱₀ (thr1 d L) none) Set.univ
          (k3_t1_body L tV (Memref.isWhole_whole _) jV (Memref.isWhole_whole _) oV (Memref.isWhole_whole _) shV (Memref.isWhole_whole _)
            ibV (Memref.isWhole_whole _) raV (Memref.isWhole_whole _) rbV (Memref.isWhole_whole _) cc3_scratch4 cc3_scratch5 cc3_scratch6 cc3_scratch7 cc3_scoped0 cc3_scoped1 v5 t1 acc)
          (inv1_1 d L O W g (t1.val + 1)) := by
  unfold inv1_1 idxPiece1
  iintro ⟨#Hmw, ⟨%jx, %hrng, Hidx⟩, ⟨%fib, Hib⟩, Hsh, Hsh2, Hp1, Hs4, Hs5, Hpend, %W', %hW', HO⟩
  ihave Hsp := (Entails.of_eq (SparseCore.bigSep_erase' (Finset.mem_univ t1)
    (Φ := fun t : Fin k3_t1_loop.trips => (idxLoc1 d ↦[idxSet1 L t]{fullShare} jx : sProp 𝕄)))) $$ Hidx
  icases Hsp with ⟨Hi, Hirest⟩
  ihave Hi' := (Entails.of_eq (pts_idx1 (F := F) d L t1 _).symm) $$ Hi
  -- the block of indices in, waited for
  sl_exec
  -- the subtraction
  sl_for (inv2_1 d L) $$ [Hib]
  case region => exact fun t2 acc => t2_region1 d L t2 acc
  · unfold inv2_1
    iexists _; isplitl [Hib]; · iexact Hib
    ipureintro; exact subOk1_init d L t1 jx (hrng t1) fib
  iintro %_ HI
  unfold inv2_1
  icases HI with ⟨%fo, Hib, %hsub⟩
  have hok : IdxOk fo := idxOk1_of_sub d L fo hsub
  -- the gathers
  sl_for (inv3_1 d L O (insert (SemLoc.dma cc3_scoped1.sem, (default : HIx 2)) W') g t1) $$ [Hib Hsh Hsh2 Hs4 Hs5 Hpend HO]
  case region => exact fun j acc => t3_region1 d L O _ g t1 _ _ j acc
  · unfold inv3_1
    isplitr; · iexact Hmw
    isplitl [Hib]; · iexists fo; isplitl [Hib]; · iexact Hib
                     ipureintro; exact hok
    isplitl [Hsh]; · iexact Hsh
    isplitl [Hsh2]; · iexact Hsh2
    isplitl [Hs4]; · iexact Hs4
    isplitl [Hs5]; · iexact Hs5
    isplitl [Hpend]; · iexact Hpend
    iexists _; isplitr
    swap; · iexact HO
    ipureintro; exact fun p hp => .inl hp
  iintro %_ HI
  unfold inv3_1
  icases HI with ⟨-, ⟨%fo', Hib, -⟩, Hsh, Hsh2, Hs4, Hs5, Hpend, %W'', %hW'', HO⟩
  sl_exec
  sl_step
  isplitr; · iexact Hmw
  isplitl [Hi' Hirest]
  · iexists jx; isplitr; · ipureintro; exact hrng
    iapply (Entails.of_eq (SparseCore.bigSep_erase' (Finset.mem_univ t1)
      (Φ := fun t : Fin k3_t1_loop.trips => (idxLoc1 d ↦[idxSet1 L t]{fullShare} jx : sProp 𝕄))).symm)
    isplitl [Hi']; · iapply (Entails.of_eq (pts_idx1 (F := F) d L t1 _)); iexact Hi'
    iexact Hirest
  isplitl [Hib]; · iexists _; iexact Hib
  isplitl [Hsh]; · iexact Hsh
  isplitl [Hsh2]; · iexact Hsh2
  isplitl [Hp1]; · iexact Hp1
  isplitl [Hs4]; · iexact Hs4
  isplitl [Hs5]; · iexact Hs5
  isplitl [Hpend]
  · iapply (Entails.of_eq (congrArg (pendSt1 (F := F) d L) (show 8 * t1.val + k3_t3_loop.trips = 8 * (t1.val + 1) by rw [k3_t3_trips]; omega))); iexact Hpend
  iexists W''; isplitr
  swap; · iexact HO
  ipureintro; intro p hp
  rcases hW'' p hp with h | h
  · rcases Finset.mem_insert.mp h with h | h
    · exact .inr (h ▸ rfl)
    · exact hW' p h
  · exact .inr h

omit [FloatOps F] in
theorem shRect1_eq (h : k3_cond1 L = 1#1) :
    Rect.unit (s := S10000x128) (k3_off1 L) S1000x128.size (k3_off1_inb L h) = Rect.part (s := S10000x128) (a₀ := 0) h10 ⟨(L 1).val, (k3_cond1_iff L).mp h⟩ := by
  unfold Rect.part Rect.block
  congr 1 <;> funext a
  · rw [k3_off1_eq]
    match a with
    | 0 => simp [Shape.partIx, Shape.partSize, Nat.mul_comm]
    | 1 => simp [Shape.partIx, Shape.partSize]
  · match a with
    | 0 => simp [Shape.partSize]
    | 1 => simp [Shape.partSize]

omit [FloatOps F] in
theorem shSet1_eq (h : k3_cond1 L = 1#1) : shSet1 L h = shRowSet ⟨(L 1).val, (k3_cond1_iff L).mp h⟩ := by
  show ((View.whole (cc3_scratch0 : Ref sig .scVector)).slice (Rect.unit (s := S10000x128) (k3_off1 L) S1000x128.size (k3_off1_inb L h))).set = _
  rw [View.set_slice, shRect1_eq L h]; exact Finset.map_refl

/-- A writing tile splits its rows' share: what it keeps aside, and for every tile's barrier cell the duty's payload — that
    tile's read share of the rows; a tile that writes nothing pays with nothing. -/
theorem pays_intro1 :
    shPiece1 (F := F) fullShare d L ⊢ iprop(shPiece1 restShare d L
      ∗ bigSep Finset.univ fun j : Fin (grid3.bound 1) => (bRd (F := F)).payload (bcell d (cV1 L) (j.castLE hsub3)) 1 (jV1 L).val) := by
  unfold shPiece1
  by_cases h : k3_cond1 L = 1#1
  · have hn : (jV1 L).val < 10 := (k3_cond1_iff L).mp h
    rw [dif_pos h, dif_pos h]
    iintro ⟨%f, H⟩
    ihave H2 := (Transfers.pointsTo_toks_split (ℓ := sh1Loc d (cV1 L)) (S := shSet1 L h) (f := f) fullShare (grid3.bound 1)) $$ H
    icases H2 with ⟨Hrest, Htoks⟩
    isplitl [Hrest]; · iexists f; iexact Hrest
    have hj : ∀ j : Fin (grid3.bound 1), (sh1Loc d (cV1 L) ↦[shSet1 L h]{Transfers.shareTok fullShare (grid3.bound 1) j} f : sProp 𝕄)
        ⊢ (bRd (F := F)).payload (bcell d (cV1 L) (j.castLE hsub3)) 1 (jV1 L).val := by
      intro j
      show _ ⊢ bPay (bcell d (cV1 L) (j.castLE hsub3)) 1 (jV1 L).val
      unfold bPay; dsimp only
      rw [dif_pos hn, if_neg (by decide), shSet1_eq L h]
      iintro H; iexists f; iexact H
    iapply (SparseCore.ent (bigSep_mono fun j _ => hj j)) $$ Htoks
  · have hn : ¬ (jV1 L).val < 10 := fun hh => h ((k3_cond1_iff L).mpr hh)
    rw [dif_neg h, dif_neg h]
    iintro -
    isplitr; · iempintro
    have he : (fun j : Fin (grid3.bound 1) => (bRd (F := F)).payload (bcell d (cV1 L) (j.castLE hsub3)) 1 (jV1 L).val) = fun _ => (iprop(emp) : sProp 𝕄) := by
      funext j
      show bPay (bcell d (cV1 L) (j.castLE hsub3)) 1 (jV1 L).val = _
      unfold bPay; dsimp only
      rw [dif_neg hn]
    rw [he, show (bigSep Finset.univ fun _ : Fin (grid3.bound 1) => (iprop(emp) : sProp 𝕄)) = iprop(emp) from bigSep_emp_const _]; iempintro

/-- What a tile reads off its own barrier cell's round: its read share of every writer's rows, that is of the whole scratch. -/
theorem pays_elim1 :
    bigSep ((bRd (F := F)).duties (bcell d (cV1 L) (jV1 L)) 1 \ ∅) (fun m => (bRd (F := F)).payload (bcell d (cV1 L) (jV1 L)) 1 m)
      ⊢ iprop(∃ g, sh1Loc d (cV1 L) ↦{rdShare (L 1).val} g) := by
  rw [Finset.sdiff_empty, bRd_duties d _ _ (by decide : 1 < 2), SparseCore.bigSep_image_of_injOn (fun a _ b _ e => Fin.val_injective e)]
  have he : (fun i : Fin τ.nSub => (bRd (F := F)).payload (bcell d (cV1 L) (jV1 L)) 1 i.val)
      = fun i : Fin τ.nSub => if hi : i.val < 10 then iprop(∃ f, sh1Loc d (cV1 L) ↦[shRowSet ⟨i.val, hi⟩]{rdShare (L 1).val} f) else iprop(emp) := by
    funext i
    show bPay (bcell d (cV1 L) (jV1 L)) 1 i.val = _
    unfold bPay; dsimp only
    by_cases hi : i.val < 10
    · rw [dif_pos hi, dif_pos hi, if_neg (by decide)]; rfl
    · rw [dif_neg hi, dif_neg hi]
  rw [he, bigSep_fin_dite (F := F) (show 10 ≤ τ.nSub by decide) (fun n : Fin 10 => iprop(∃ f, sh1Loc d (cV1 L) ↦[shRowSet n]{rdShare (L 1).val} f))]
  refine (bigSep_exists_pi Finset.univ (fun (n : Fin 10) (f : Buf (Elt F) (sh1Loc d (cV1 L))) => (sh1Loc d (cV1 L) ↦[shRowSet n]{rdShare (L 1).val} f : sProp 𝕄))).trans ?_
  iintro ⟨%fs, H⟩
  ihave H' := (pointsTo_biUnion_join Finset.univ shRowSet fs (fs 0) shRows_disjoint) $$ H
  icases H' with ⟨%g, -, Hg⟩
  rw [shRows_cover]
  iexists g; iexact Hg

omit [FloatOps F] in
theorem outPiece1_piles : (outPiece1 (F := F) d L : sProp 𝕄) = iprop(pileA1 d L Finset.univ ∗ pileB1 d L Finset.univ) := by
  unfold outPiece1 pileA1 pileB1
  rw [← bigSep_sep', bigSep_univ_prod]

noncomputable def k3_rest (i : grid3.Coords) (arg2 : Memref sig .scVector .hbm S20000x128 .f32) (harg2 : arg2.IsWhole) (arg3 : Memref sig .scVector .hbm S327680 .i32) (harg3 : arg3.IsWhole) (arg4 : Memref sig .scVector .hbm S327680x128 .f32) (harg4 : arg4.IsWhole) (arg5 : Memref sig .scVector .shared S10000x128 .f32) (harg5 : arg5.IsWhole) (arg6 : Memref sig .scVector .vmem S2048 .i32) (harg6 : arg6.IsWhole) (arg7 : Memref sig .scVector .vmem S128x128 .f32) (harg7 : arg7.IsWhole) (arg8 : Memref sig .scVector .vmem S128x128 .f32) (harg8 : arg8.IsWhole) (arg9 : DmaSems sig S_) (arg10 : DmaSems sig S_) (arg11 : DmaSems sig S_) (arg12 : DmaSems sig S_) (v16_r0 : DmaSems sig S_) (v18_r1 : DmaSems sig S_) :
    Prog (TpuEff nD τ sig (Elt F) Λ₀ (.scVector ((i 0).castLE hcore3) ((i 1).castLE hsub3))) PUnit := do
  let arg0 : BitVec 32 := BitVec.ofNat 32 (i 0).val
  let arg1 : BitVec 32 := BitVec.ofNat 32 (i 1).val
  SparseCore.subcoreBarrier sc_bar0 (grid3.bound 1) hsub3
  let v3 : BitVec 32 := Scalar.muli arg0 163840#32
  let v4 : BitVec 32 := Scalar.muli arg1 10240#32
  let v5 : BitVec 32 := Scalar.addi v3 v4
  Scf.Loop.for k3_t1_loop k3_t1_ok ⟨⟩ (k3_t1_body i arg2 harg2 arg3 harg3 arg4 harg4 arg5 harg5 arg6 harg6 arg7 harg7 arg8 harg8 arg9 arg10 arg11 arg12 v16_r0 v18_r1 v5)
  let v9 : Memref sig .scVector .hbm S128x128 .f32 := arg4.slice (Rect.unit (s := S327680x128) (k3_off11 i) S128x128.size (k3_off11_inb i)) (fun _ => rfl)
  Prog.lift (.waitDma2 arg11.sem arg7 v9 harg7.wordExact (View.wordExact_bits rfl))
  let v11 : Memref sig .scVector .hbm S128x128 .f32 := arg4.slice (Rect.unit (s := S327680x128) (k3_off11 i) S128x128.size (k3_off11_inb i)) (fun _ => rfl)
  Prog.lift (.waitDma2 arg12.sem arg8 v11 harg8.wordExact (View.wordExact_bits rfl))
  pure ⟨⟩

set_option maxHeartbeats 8000000 in
/-- From the barrier on: the barrier (the rows' read shares paid to every tile's cell, the tile's own round read), the five
    blocks, the two final waits, and what the task hands back. -/
theorem rest1 (hF : (K (F := F)).Facts) (O : CellTallies nD τ sig (HIx 2)) (W : Waits sig (HIx 2)) (hO : ∀ g, O g none = 0)
    (hOlev : ∀ g ι, 0 < O g ι → 8 * (1 : Fin 2).val + 6 ≤ (K (F := F)).lev g ι) (κ : GSem nD τ sig → ℕ) (R₁ R₂ : sProp 𝕄) :
    iprop(levAts (K (F := F)).L (K (F := F)).lev
        ∗ (bigSep Finset.univ fun j : Fin (grid3.bound 1) => cellInv EB (bRd (F := F)) (κ (bcell d (cV1 L) (j.castLE hsub3))) (bcell d (cV1 L) (j.castLE hsub3)))
        ∗ (bigSep Finset.univ fun j : Fin (grid3.bound 1) => dutyTok EB (bcell d (cV1 L) (j.castLE hsub3)) 1 (jV1 L).val)
        ∗ (bigSep Finset.univ fun j : Fin (grid3.bound 1) => reached EB (bcell d (cV1 L) (j.castLE hsub3)) 1)
        ∗ atPos EB (bcell d (cV1 L) (jV1 L)) 1 ∅ 0
        ∗ cred (tallyAt (bcell d (cV1 L) (jV1 L)) (some 1) (grid3.bound 1))
        ∗ idxPiece1 d L ∗ outPiece1 d L ∗ tblPiece1 d L ∗ shPiece1 fullShare d L
        ∗ (∃ f, (thr1 d L).loc cc3_scratch1 ↦{fullShare} f) ∗ (∃ f, (thr1 d L).loc cc3_scratch2 ↦{fullShare} f) ∗ (∃ f, (thr1 d L).loc cc3_scratch3 ↦{fullShare} f)
        ∗ semVal (dcell d (cV1 L) (jV1 L) cc3_scratch4.sem) 0 ∗ semVal (dcell d (cV1 L) (jV1 L) cc3_scratch5.sem) 0
        ∗ semVal (dcell d (cV1 L) (jV1 L) cc3_scratch6.sem) 0 ∗ semVal (dcell d (cV1 L) (jV1 L) cc3_scratch7.sem) 0
        ∗ semVal (dcell d (cV1 L) (jV1 L) cc3_scoped0.sem) 0 ∗ semVal (dcell d (cV1 L) (jV1 L) cc3_scoped1.sem) 0
        ∗ R₁ ∗ R₂
        ∗ ∃ W₁, ⌜∀ p ∈ W₁, p ∈ W ∨ p.2 = none⌝ ∗ owes (thr1 d L) (O + oxV 1 d (cV1 L)) W₁)
      ⊢ wp frame (wpE (defs₀ (F := F)) 𝒱₀ (thr1 d L) none) Set.univ
          (k3_rest (F := F) L tV (Memref.isWhole_whole _) jV (Memref.isWhole_whole _) oV (Memref.isWhole_whole _) shV (Memref.isWhole_whole _)
            ibV (Memref.isWhole_whole _) raV (Memref.isWhole_whole _) rbV (Memref.isWhole_whole _) cc3_scratch4 cc3_scratch5 cc3_scratch6 cc3_scratch7 cc3_scoped0 cc3_scoped1)
          fun _ => iprop(td1 d L
            ∗ ((∃ f, (thr1 d L).loc cc3_scratch1 ↦{fullShare} f) ∗ (∃ f, (thr1 d L).loc cc3_scratch2 ↦{fullShare} f) ∗ (∃ f, (thr1 d L).loc cc3_scratch3 ↦{fullShare} f) ∗ R₁)
            ∗ (semVal (dcell d (cV1 L) (jV1 L) cc3_scratch4.sem) 0 ∗ semVal (dcell d (cV1 L) (jV1 L) cc3_scratch5.sem) 0
              ∗ semVal (dcell d (cV1 L) (jV1 L) cc3_scratch6.sem) 0 ∗ semVal (dcell d (cV1 L) (jV1 L) cc3_scratch7.sem) 0
              ∗ semVal (dcell d (cV1 L) (jV1 L) cc3_scoped0.sem) 0 ∗ semVal (dcell d (cV1 L) (jV1 L) cc3_scoped1.sem) 0 ∗ R₂)
            ∗ ∃ W', ⌜∀ p ∈ W', p ∈ W ∨ p.2 = none ∨ p.2 = some (1 : Fin 2)⌝ ∗ owes (thr1 d L) O W') := by
  unfold k3_rest
  iintro ⟨#Hlv, #Hinv, Htoks, #Hrch, Hat, Hcred, Hidx, Hout, Htbl, Hsh, ⟨%fib, Hib⟩, ⟨%fra, Hra⟩, ⟨%frb, Hrb⟩, Hs4, Hs5, Hs6, Hs7, Hp0, Hp1, HR₁, HR₂, %W₁, %hW₁, HO⟩
  have hO' : ∀ g, (O + oxV 1 d (cV1 L)) g none = 0 := fun g => by rw [Pi.add_apply, Finsupp.add_apply, hO g, oxV_none]
  ihave Hmw2 := (show levAts (K (F := F)).L (K (F := F)).lev ⊢ Transfers.MayWaits (thr1 d L) (default : HIx 2) O from
    (K (F := F)).mayWaits_none (thr := thr1 d L) hO) $$ Hlv
  -- the barrier
  ihave Hp := (pays_intro1 (F := F) d L) $$ Hsh
  icases Hp with ⟨Hshrest, Hpays⟩
  iapply (SparseCore.wp_subcoreBarrier 𝒱₀ none EB (bRd (F := F)) d (sc := cV1 L) (i := jV1 L) sc_bar0 (grid3.bound 1) hsub3 (L 1) rfl κ (fun _ => 1) (jV1 L).val
      (fun j => bRd_mem d _ _ _ (by decide)) (fun _ => rfl) (bRd_expect d _ _ (by decide)) (some 1) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := thr1 d L) (8 * (1 : Fin 2).val + 3) (fun p hp => by
        rw [Finset.mem_singleton] at hp; subst hp
        show (K (F := F)).lev (bcell d (cV1 L) (jV1 L)) (some 1) ≤ _
        rw [(K (F := F)).lev_V_reg d _ _ (show (sc_bar0 : Sem sig) ≠ (K (F := F)).go from sc_bar0_ne_go)])
      (fun g ι hg => lt_of_lt_of_le (by decide) (hOlev g ι hg)))
    iexact Hlv
  iintro ⟨HO, -, -, Hgot⟩
  ihave Hg := (pays_elim1 (F := F) d L) $$ Hgot
  icases Hg with ⟨%g, Hg⟩
  ihave Hg2 := (pointsTo_share (ℓ := sh1Loc d (cV1 L)) (I := Finset.univ) (f := g) (PosShare.mem_left_op_right (rdShare (L 1).val))).1 $$ Hg
  icases Hg2 with ⟨Hsh, Hsh2⟩
  ihave Hsh' := (Entails.of_eq (pts_shW1 (F := F) d L _ _).symm) $$ Hsh
  ihave Hsh2' := (Entails.of_eq (pts_shW1 (F := F) d L _ _).symm) $$ Hsh2
  ihave Hib' := (Entails.of_eq (pts_ib1 (F := F) d L _).symm) $$ Hib
  ihave Hra' := (Entails.of_eq (pts_ra1 (F := F) d L _).symm) $$ Hra
  ihave Hrb' := (Entails.of_eq (pts_rb1 (F := F) d L _).symm) $$ Hrb
  sl_exec
  -- the five blocks
  sl_for (inv1_1 d L O (insert (SemLoc.reg sc_bar0, some (1 : Fin 2)) W₁) g) $$ [Hidx Hib' Hsh' Hsh2' Hp1 Hs4 Hs5 Hra' Hrb' Hs6 Hs7 Hout HO]
  case region => exact fun t1 acc => t1_region1 d L O _ g _ t1 acc
  · unfold inv1_1
    isplitr; · iexact Hmw2
    isplitl [Hidx]; · iexact Hidx
    isplitl [Hib']; · iexists _; iexact Hib'
    isplitl [Hsh']; · iexact Hsh'
    isplitl [Hsh2']; · iexact Hsh2'
    isplitl [Hp1]; · iexact Hp1
    isplitl [Hs4]; · iexact Hs4
    isplitl [Hs5]; · iexact Hs5
    isplitl [Hra' Hrb' Hs6 Hs7 Hout]
    · rw [show 8 * 0 = 0 from rfl, pendSt1_zero]
      unfold pendNone1
      isplitl [Hra']; · iexists _; iexact Hra'
      isplitl [Hrb']; · iexists _; iexact Hrb'
      isplitl [Hs6]; · iexact Hs6
      isplitl [Hs7]; · iexact Hs7
      iapply (Entails.of_eq (outPiece1_piles (F := F) d L)); iexact Hout
    iexists _; isplitr
    swap; · iexact HO
    ipureintro; exact fun p hp => .inl hp
  iintro %_ HI
  unfold inv1_1
  icases HI with ⟨-, Hidx, ⟨%fib', Hib⟩, Hsh, Hsh2, Hp1, Hs4, Hs5, Hpend, %W₂, %hW₂, HO⟩
  ihave Hpend' := (Entails.of_eq (congrArg (pendSt1 (F := F) d L) (show 8 * k3_t1_loop.trips = 39 + 1 by rw [k3_t1_trips]))) $$ Hpend
  ihave Hpend'' := (Entails.of_eq (pendSt1_succ (F := F) d L 39)) $$ Hpend'
  unfold pendAt1
  icases Hpend'' with ⟨%fra', %frb', Hs6, Hra, Hs7, Hrb, HpA, HpB⟩
  -- the two final waits
  sl_exec
  sl_step
  isplitl [Hidx HpA HpB Hs6_dst Hs7_dst Htbl Hsh Hsh2 Hshrest]
  · unfold td1
    isplitl [Hidx]; · iexact Hidx
    isplitl [HpA HpB Hs6_dst Hs7_dst]
    · iapply (Entails.of_eq (outPiece1_piles (F := F) d L).symm)
      isplitl [HpA Hs6_dst]
      · iapply (Entails.of_eq (pileA1_out (F := F) d L (Finset.mem_univ (blk1 39))).symm)
        isplitl [Hs6_dst]; · iexact Hs6_dst
        iexact HpA
      · iapply (Entails.of_eq (pileB1_out (F := F) d L (Finset.mem_univ (blk1 39))).symm)
        isplitl [Hs7_dst]; · iexact Hs7_dst
        iexact HpB
    isplitl [Htbl]; · iexact Htbl
    isplitl [Hsh Hsh2]
    · iexists g
      iapply (pointsTo_share (ℓ := sh1Loc d (cV1 L)) (I := Finset.univ) (f := g) (PosShare.mem_left_op_right (rdShare (L 1).val))).2
      isplitl [Hsh]; · iapply (Entails.of_eq (pts_shW1 (F := F) d L _ _)); iexact Hsh
      iapply (Entails.of_eq (pts_shW1 (F := F) d L _ _)); iexact Hsh2
    iexact Hshrest
  isplitl [Hib Hra Hrb HR₁]
  · isplitl [Hib]; · iexists _; iapply (Entails.of_eq (pts_ib1 (F := F) d L _)); iexact Hib
    isplitl [Hra]; · iexists _; iapply (Entails.of_eq (pts_ra1 (F := F) d L _)); iexact Hra
    isplitl [Hrb]; · iexists _; iapply (Entails.of_eq (pts_rb1 (F := F) d L _)); iexact Hrb
    iexact HR₁
  isplitl [Hs4 Hs5 Hs6 Hs7 Hp0 Hp1 HR₂]
  · isplitl [Hs4]; · iexact Hs4
    isplitl [Hs5]; · iexact Hs5
    isplitl [Hs6]; · iexact Hs6
    isplitl [Hs7]; · iexact Hs7
    isplitl [Hp0]; · iexact Hp0
    isplitl [Hp1]; · iexact Hp1
    iexact HR₂
  iexists _; isplitr
  swap; · iexact HO
  ipureintro; intro p hp
  rcases Finset.mem_insert.mp hp with hp | hp; · exact .inr (.inl (hp ▸ rfl))
  rcases Finset.mem_insert.mp hp with hp | hp; · exact .inr (.inl (hp ▸ rfl))
  rcases hW₂ p hp with h | h
  · rcases Finset.mem_insert.mp h with h | h
    · exact .inr (.inr (h ▸ rfl))
    · exact (hW₁ p h).imp_right Or.inl
  · exact .inr (.inl h)

theorem ownSems0_V1 (d : Dev nD) (c : Fin τ.nSC) (i : Fin τ.nSub) :
    (ownSems0 (V d c i) : sProp 𝕄) = iprop(semVal (dcell d c i cc3_scratch4.sem) 0 ∗ semVal (dcell d c i cc3_scratch5.sem) 0 ∗ semVal (dcell d c i cc3_scratch6.sem) 0 ∗ semVal (dcell d c i cc3_scratch7.sem) 0 ∗ semVal (dcell d c i cc3_scoped0.sem) 0 ∗ semVal (dcell d c i cc3_scoped1.sem) 0 ∗ bigSep (((((((ownCells (V d c i)).erase (dcell d c i cc3_scratch4.sem)).erase (dcell d c i cc3_scratch5.sem)).erase (dcell d c i cc3_scratch6.sem)).erase (dcell d c i cc3_scratch7.sem)).erase (dcell d c i cc3_scoped0.sem)).erase (dcell d c i cc3_scoped1.sem)) fun g => semVal g 0) := by
  unfold SparseCore.Cfg.ownSems0
  rw [SparseCore.bigSep_erase' (dcell_mem d c i cc3_scratch4.sem (by decide)),
    SparseCore.bigSep_erase' (Finset.mem_erase.mpr ⟨dcell_ne (by decide), (dcell_mem d c i cc3_scratch5.sem (by decide))⟩),
    SparseCore.bigSep_erase' (Finset.mem_erase.mpr ⟨dcell_ne (by decide), (Finset.mem_erase.mpr ⟨dcell_ne (by decide), (dcell_mem d c i cc3_scratch6.sem (by decide))⟩)⟩),
    SparseCore.bigSep_erase' (Finset.mem_erase.mpr ⟨dcell_ne (by decide), (Finset.mem_erase.mpr ⟨dcell_ne (by decide), (Finset.mem_erase.mpr ⟨dcell_ne (by decide), (dcell_mem d c i cc3_scratch7.sem (by decide))⟩)⟩)⟩),
    SparseCore.bigSep_erase' (Finset.mem_erase.mpr ⟨dcell_ne (by decide), (Finset.mem_erase.mpr ⟨dcell_ne (by decide), (Finset.mem_erase.mpr ⟨dcell_ne (by decide), (Finset.mem_erase.mpr ⟨dcell_ne (by decide), (dcell_mem d c i cc3_scoped0.sem (by decide))⟩)⟩)⟩)⟩),
    SparseCore.bigSep_erase' (Finset.mem_erase.mpr ⟨dcell_ne (by decide), (Finset.mem_erase.mpr ⟨dcell_ne (by decide), (Finset.mem_erase.mpr ⟨dcell_ne (by decide), (Finset.mem_erase.mpr ⟨dcell_ne (by decide), (Finset.mem_erase.mpr ⟨dcell_ne (by decide), (dcell_mem d c i cc3_scoped1.sem (by decide))⟩)⟩)⟩)⟩)⟩)]

theorem ownBufs_V1 (d : Dev nD) (c : Fin τ.nSC) (i : Fin τ.nSub) :
    (ownBufs (V d c i) : sProp 𝕄) = iprop((∃ f, (V d c i).loc cc3_scratch1 ↦{fullShare} f) ∗ (∃ f, (V d c i).loc cc3_scratch2 ↦{fullShare} f) ∗ (∃ f, (V d c i).loc cc3_scratch3 ↦{fullShare} f) ∗ bigSep ((((ownRefs (τ := τ) (.scVector c i)).erase ((Proc.scVector c i).devRef cc3_scratch1)).erase ((Proc.scVector c i).devRef cc3_scratch2)).erase ((Proc.scVector c i).devRef cc3_scratch3)) fun b => iprop(∃ f, ((d, b) : Loc nD τ sig) ↦{fullShare} f)) := by
  unfold SparseCore.Cfg.ownBufs
  rw [SparseCore.bigSep_erase' (SparseCore.Cfg.mem_ownRefs_of_owner (p := Proc.scVector c i) (b := ((Proc.scVector c i).devRef cc3_scratch1)) rfl),
    SparseCore.bigSep_erase' (Finset.mem_erase.mpr ⟨(by intro e; cases e), (SparseCore.Cfg.mem_ownRefs_of_owner (p := Proc.scVector c i) (b := ((Proc.scVector c i).devRef cc3_scratch2)) rfl)⟩),
    SparseCore.bigSep_erase' (Finset.mem_erase.mpr ⟨(by intro e; cases e), (Finset.mem_erase.mpr ⟨(by intro e; cases e), (SparseCore.Cfg.mem_ownRefs_of_owner (p := Proc.scVector c i) (b := ((Proc.scVector c i).devRef cc3_scratch3)) rfl)⟩)⟩)]

omit [FloatOps F] in
theorem tblPiece1_pos (h : k3_cond1 L = 1#1) : tblPiece1 (F := F) d L = iprop(∃ tb, tblLoc d ↦[tblSet1 L h]{fullShare} tb) := dif_pos h
omit [FloatOps F] in
theorem shPiece1_pos (q' : PosShare TreeShare) (h : k3_cond1 L = 1#1) : shPiece1 (F := F) q' d L = iprop(∃ f, sh1Loc d (cV1 L) ↦[shSet1 L h]{q'} f) := dif_pos h

set_option maxHeartbeats 4000000 in
/-- The task on vector subcore `(L 0, L 1)` of device `d`. -/
theorem tile_body1 (hF : (K (F := F)).Facts) (O : CellTallies nD τ sig (HIx 2)) (W : Waits sig (HIx 2)) (hO : ∀ g, O g none = 0)
    (hOlev : ∀ g ι, 0 < O g ι → 8 * (1 : Fin 2).val + 6 ≤ (K (F := F)).lev g ι) :
    iprop(levAts (K (F := F)).L (K (F := F)).lev ∗ kit 1 d (cV1 L) (jV1 L) ∗ go1 d L
        ∗ scopedBufs (V d (cV1 L) (jV1 L)) ∗ scopedSems0 (V d (cV1 L) (jV1 L)) ∗ owes (V d (cV1 L) (jV1 L)) (O + oxV 1 d (cV1 L)) W)
      ⊢ wp frame (wpE (defs₀ (F := F)) 𝒱₀ (V d (cV1 L) (jV1 L)) none) Set.univ
          (cc3_gather_kernel L tV (Memref.isWhole_whole _) jV (Memref.isWhole_whole _) oV (Memref.isWhole_whole _) shV (Memref.isWhole_whole _)
            ibV (Memref.isWhole_whole _) raV (Memref.isWhole_whole _) rbV (Memref.isWhole_whole _) cc3_scratch4 cc3_scratch5 cc3_scratch6 cc3_scratch7 cc3_scoped0 cc3_scoped1)
          fun _ => iprop(td1 d L ∗ scopedBufs (V d (cV1 L) (jV1 L)) ∗ scopedSems0 (V d (cV1 L) (jV1 L))
            ∗ ∃ W', ⌜∀ p ∈ W', p ∈ W ∨ p.2 = none ∨ p.2 = some (1 : Fin 2)⌝ ∗ owes (V d (cV1 L) (jV1 L)) O W') := by
  simp only [cc3_gather_kernel_eq_skeleton]; unfold cc3_gather_kernel_skel
  rw [(K (F := F)).scopedBufs_V hF d (cV1 L) (jV1 L), SparseCore.Cfg.scopedSems0_V (Val := Elt F) d (cV1 L) (jV1 L), ownSems0_V1, ownBufs_V1]
  unfold kit go1
  rw [if_neg (show ¬ ((1 : Fin 2).val = 0) by decide)]
  have hO' : ∀ g, (O + oxV 1 d (cV1 L)) g none = 0 := fun g => by rw [Pi.add_apply, Finsupp.add_apply, hO g, oxV_none]
  by_cases k3_h1 : k3_cond1 L = 1#1
  · -- a writing tile: its rows of the table into the shared scratch, waited for
    rw [tblPiece1_pos (F := F) d L k3_h1, shPiece1_pos (F := F) d L fullShare k3_h1]
    iintro ⟨#Hlv, ⟨⟨%κ, #Hinv⟩, Htoks, -, Hcred⟩, ⟨Hidx, Hout, ⟨%tb, Htbl⟩, ⟨%fsh, Hsh⟩, Hat, #Hrch⟩, ⟨⟨%fib, Hib⟩, ⟨%fra, Hra⟩, ⟨%frb, Hrb⟩, Hbufs⟩, ⟨Hs4, Hs5, Hs6, Hs7, Hp0, Hp1, Hsems⟩, HO⟩
    ihave Hmw1 := (show levAts (K (F := F)).L (K (F := F)).lev ⊢ Transfers.MayWaits (thr1 d L) (default : HIx 2) (O + oxV 1 d (cV1 L)) from
      (K (F := F)).mayWaits_none (thr := thr1 d L) hO') $$ Hlv
    ihave Htbl := (Entails.of_eq (pts_tbl1 (F := F) d L k3_h1 _).symm) $$ Htbl
    ihave Hsh := (Entails.of_eq (pts_sh1 (F := F) d L k3_h1 _ _).symm) $$ Hsh
    sl_exec
    iapply (rest1 (F := F) d L hF O W hO hOlev κ _ _) $$ [Htoks Hat Hcred Hidx Hout Htbl Hsh Hib Hra Hrb Hbufs Hs4 Hs5 Hs6 Hs7 Hp0 Hp1 Hsems HO]
    isplitr; · iexact Hlv
    isplitr; · iexact Hinv
    isplitl [Htoks]; · iexact Htoks
    isplitr; · iexact Hrch
    isplitl [Hat]; · iexact Hat
    isplitl [Hcred]; · iexact Hcred
    isplitl [Hidx]; · iexact Hidx
    isplitl [Hout]; · iexact Hout
    isplitl [Htbl]; · iapply (Entails.of_eq (tblPiece1_pos (F := F) d L k3_h1).symm); iexists tb; iapply (Entails.of_eq (pts_tbl1 (F := F) d L k3_h1 _)); iexact Htbl
    isplitl [Hsh]; · iapply (Entails.of_eq (shPiece1_pos (F := F) d L fullShare k3_h1).symm); iexists _; iapply (Entails.of_eq (pts_sh1 (F := F) d L k3_h1 _ _)); iexact Hsh
    isplitl [Hib]; · iexists _; iexact Hib
    isplitl [Hra]; · iexists _; iexact Hra
    isplitl [Hrb]; · iexists _; iexact Hrb
    isplitl [Hs4]; · iexact Hs4
    isplitl [Hs5]; · iexact Hs5
    isplitl [Hs6]; · iexact Hs6
    isplitl [Hs7]; · iexact Hs7
    isplitl [Hp0]; · iexact Hp0
    isplitl [Hp1]; · iexact Hp1
    isplitl [Hbufs]; · iexact Hbufs
    isplitl [Hsems]; · iexact Hsems
    iexists _; isplitr
    swap; · iexact HO
    ipureintro; intro p hp
    rcases Finset.mem_insert.mp hp with hp | hp; · exact .inr (hp ▸ rfl)
    exact .inl hp
  · -- a tile that writes nothing
    iintro ⟨#Hlv, ⟨⟨%κ, #Hinv⟩, Htoks, -, Hcred⟩, ⟨Hidx, Hout, Htbl, Hsh, Hat, #Hrch⟩, ⟨⟨%fib, Hib⟩, ⟨%fra, Hra⟩, ⟨%frb, Hrb⟩, Hbufs⟩, ⟨Hs4, Hs5, Hs6, Hs7, Hp0, Hp1, Hsems⟩, HO⟩
    sl_exec
    iapply (rest1 (F := F) d L hF O W hO hOlev κ _ _) $$ [Htoks Hat Hcred Hidx Hout Htbl Hsh Hib Hra Hrb Hbufs Hs4 Hs5 Hs6 Hs7 Hp0 Hp1 Hsems HO]
    isplitr; · iexact Hlv
    isplitr; · iexact Hinv
    isplitl [Htoks]; · iexact Htoks
    isplitr; · iexact Hrch
    isplitl [Hat]; · iexact Hat
    isplitl [Hcred]; · iexact Hcred
    isplitl [Hidx]; · iexact Hidx
    isplitl [Hout]; · iexact Hout
    isplitl [Htbl]; · iexact Htbl
    isplitl [Hsh]; · iexact Hsh
    isplitl [Hib]; · iexists _; iexact Hib
    isplitl [Hra]; · iexists _; iexact Hra
    isplitl [Hrb]; · iexists _; iexact Hrb
    isplitl [Hs4]; · iexact Hs4
    isplitl [Hs5]; · iexact Hs5
    isplitl [Hs6]; · iexact Hs6
    isplitl [Hs7]; · iexact Hs7
    isplitl [Hp0]; · iexact Hp0
    isplitl [Hp1]; · iexact Hp1
    isplitl [Hbufs]; · iexact Hbufs
    isplitl [Hsems]; · iexact Hsems
    iexists _; isplitr
    swap; · iexact HO
    ipureintro; intro p hp
    exact .inl hp

end Tile1

/-! ## The obligation -/

theorem tileObl1 : (K (F := F)).TileObl (D (F := F)) 𝒱 (P (F := F)) v₀ 1 :=
  tileObl1_of (fun d L hF O W hO hOlev => tile_body1 d L hF O W hO hOlev)

end Cert.ProofBits.Sc
-- ==== Proof.Bits.ScSplit.lean ====
/-
  A SparseCore's hand-over split among its sixteen tiles, and the tiles' returns rejoined. A SparseCore's half of the
  index list is sixteen runs of 10240 entries, each a tile's five blocks of 2048; its half of the gathered rows sixteen
  runs of 10240 rows, each five chunks of 2048, each eight pairs of blocks of 128 rows; its half of the table ten runs
  of 1000 rows, one per writing tile, as are the shared scratch's ten thousand rows. Every set is a run of consecutive
  rows, so disjointness and covering are arithmetic on the runs' first rows. Coming back, the index blocks rejoin at
  contents that agree with each tile's on its blocks, so the half is still in range; the sixteen read shares of the shared
  scratch and what the writing tiles kept aside of their rows agree where they overlap and rejoin into the scratch whole.
-/
import proofs.«217078_g14027363189340_cont_week2b_886_24_alg».proof.Proof.Bits.ScPay

noncomputable section

namespace Cert.ProofBits.Sc.Split

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

/-! ## Runs of consecutive rows -/

/-- The entries of a vector from `lo`, `w` of them. -/
def rows1 {N : Nat} (lo w : Nat) : Finset (⟨1, ![N]⟩ : Shape).Idx := Finset.univ.filter fun r => lo ≤ (r 0).val ∧ (r 0).val < lo + w
/-- The rows of a matrix from `lo`, `w` of them. -/
def rows2 {N M : Nat} (lo w : Nat) : Finset (⟨2, ![N, M]⟩ : Shape).Idx := Finset.univ.filter fun r => lo ≤ (r 0).val ∧ (r 0).val < lo + w

theorem mem_rows1 {N : Nat} {lo w : Nat} {r : (⟨1, ![N]⟩ : Shape).Idx} : r ∈ rows1 lo w ↔ lo ≤ (r 0).val ∧ (r 0).val < lo + w := by
  simp [rows1]
theorem mem_rows2 {N M : Nat} {lo w : Nat} {r : (⟨2, ![N, M]⟩ : Shape).Idx} : r ∈ rows2 lo w ↔ lo ≤ (r 0).val ∧ (r 0).val < lo + w := by
  simp [rows2]

/-- A unit-stride rectangle of a vector is a run of entries. -/
theorem unit_set1 {N : Nat} (off size : Fin 1 → Nat) (inb) : (Rect.unit (s := (⟨1, ![N]⟩ : Shape)) off size inb).set = rows1 (off 0) (size 0) := by
  ext r
  rw [Rect.mem_set_unit, mem_rows1]
  constructor
  · intro h; exact h 0
  · intro h a; obtain rfl : a = 0 := Subsingleton.elim _ _; exact h
/-- A unit-stride rectangle of a matrix over whole rows is a run of rows. -/
theorem unit_set2 {N M : Nat} (off size : Fin 2 → Nat) (inb) (h1 : off 1 = 0) (h2 : size 1 = M) :
    (Rect.unit (s := (⟨2, ![N, M]⟩ : Shape)) off size inb).set = rows2 (off 0) (size 0) := by
  ext r
  rw [Rect.mem_set_unit, mem_rows2]
  constructor
  · intro h; exact h 0
  · intro h a
    match a with
    | ⟨0, _⟩ => exact h
    | ⟨1, _⟩ =>
      have : (r 1).val < M := (r 1).isLt
      show off 1 ≤ (r 1).val ∧ (r 1).val < off 1 + size 1
      rw [h1, h2]; omega

theorem rows1_10240_16_disj {N : Nat} {n : Nat} (hn : n = 16) (lo : Nat) : ∀ k ∈ (Finset.univ : Finset (Fin n)), ∀ k' ∈ (Finset.univ : Finset (Fin n)), k ≠ k' →
    Disjoint (rows1 (lo + 10240 * k.val) 10240 : Finset (⟨1, ![N]⟩ : Shape).Idx) (rows1 (lo + 10240 * k'.val) 10240) := by
  subst hn
  intro k _ k' _ hne
  refine Finset.disjoint_left.mpr fun r hr hr' => ?_
  rw [mem_rows1] at hr hr'
  exact hne (Fin.ext (by omega))
theorem rows1_10240_16_cover {N : Nat} {n : Nat} (hn : n = 16) (lo : Nat) :
    (Finset.univ : Finset (Fin n)).biUnion (fun k => (rows1 (lo + 10240 * k.val) 10240 : Finset (⟨1, ![N]⟩ : Shape).Idx)) = rows1 lo 163840 := by
  subst hn
  ext r
  simp only [Finset.mem_biUnion, Finset.mem_univ, true_and, mem_rows1]
  constructor
  · rintro ⟨k, h1, h2⟩
    have := k.isLt
    constructor <;> omega
  · rintro ⟨h1, h2⟩
    exact ⟨⟨((r 0).val - lo) / 10240, by omega⟩, by show lo + 10240 * (((r 0).val - lo) / 10240) ≤ _; omega, by show _ < lo + 10240 * (((r 0).val - lo) / 10240) + 10240; omega⟩

theorem rows1_2048_5_disj {N : Nat} {n : Nat} (hn : n = 5) (lo : Nat) : ∀ k ∈ (Finset.univ : Finset (Fin n)), ∀ k' ∈ (Finset.univ : Finset (Fin n)), k ≠ k' →
    Disjoint (rows1 (lo + 2048 * k.val) 2048 : Finset (⟨1, ![N]⟩ : Shape).Idx) (rows1 (lo + 2048 * k'.val) 2048) := by
  subst hn
  intro k _ k' _ hne
  refine Finset.disjoint_left.mpr fun r hr hr' => ?_
  rw [mem_rows1] at hr hr'
  exact hne (Fin.ext (by omega))
theorem rows1_2048_5_cover {N : Nat} {n : Nat} (hn : n = 5) (lo : Nat) :
    (Finset.univ : Finset (Fin n)).biUnion (fun k => (rows1 (lo + 2048 * k.val) 2048 : Finset (⟨1, ![N]⟩ : Shape).Idx)) = rows1 lo 10240 := by
  subst hn
  ext r
  simp only [Finset.mem_biUnion, Finset.mem_univ, true_and, mem_rows1]
  constructor
  · rintro ⟨k, h1, h2⟩
    have := k.isLt
    constructor <;> omega
  · rintro ⟨h1, h2⟩
    exact ⟨⟨((r 0).val - lo) / 2048, by omega⟩, by show lo + 2048 * (((r 0).val - lo) / 2048) ≤ _; omega, by show _ < lo + 2048 * (((r 0).val - lo) / 2048) + 2048; omega⟩

theorem rows2_10240_16_disj {N M : Nat} {n : Nat} (hn : n = 16) (lo : Nat) : ∀ k ∈ (Finset.univ : Finset (Fin n)), ∀ k' ∈ (Finset.univ : Finset (Fin n)), k ≠ k' →
    Disjoint (rows2 (lo + 10240 * k.val) 10240 : Finset (⟨2, ![N, M]⟩ : Shape).Idx) (rows2 (lo + 10240 * k'.val) 10240) := by
  subst hn
  intro k _ k' _ hne
  refine Finset.disjoint_left.mpr fun r hr hr' => ?_
  rw [mem_rows2] at hr hr'
  exact hne (Fin.ext (by omega))
theorem rows2_10240_16_cover {N M : Nat} {n : Nat} (hn : n = 16) (lo : Nat) :
    (Finset.univ : Finset (Fin n)).biUnion (fun k => (rows2 (lo + 10240 * k.val) 10240 : Finset (⟨2, ![N, M]⟩ : Shape).Idx)) = rows2 lo 163840 := by
  subst hn
  ext r
  simp only [Finset.mem_biUnion, Finset.mem_univ, true_and, mem_rows2]
  constructor
  · rintro ⟨k, h1, h2⟩
    have := k.isLt
    constructor <;> omega
  · rintro ⟨h1, h2⟩
    exact ⟨⟨((r 0).val - lo) / 10240, by omega⟩, by show lo + 10240 * (((r 0).val - lo) / 10240) ≤ _; omega, by show _ < lo + 10240 * (((r 0).val - lo) / 10240) + 10240; omega⟩

theorem rows2_2048_5_disj {N M : Nat} {n : Nat} (hn : n = 5) (lo : Nat) : ∀ k ∈ (Finset.univ : Finset (Fin n)), ∀ k' ∈ (Finset.univ : Finset (Fin n)), k ≠ k' →
    Disjoint (rows2 (lo + 2048 * k.val) 2048 : Finset (⟨2, ![N, M]⟩ : Shape).Idx) (rows2 (lo + 2048 * k'.val) 2048) := by
  subst hn
  intro k _ k' _ hne
  refine Finset.disjoint_left.mpr fun r hr hr' => ?_
  rw [mem_rows2] at hr hr'
  exact hne (Fin.ext (by omega))
theorem rows2_2048_5_cover {N M : Nat} {n : Nat} (hn : n = 5) (lo : Nat) :
    (Finset.univ : Finset (Fin n)).biUnion (fun k => (rows2 (lo + 2048 * k.val) 2048 : Finset (⟨2, ![N, M]⟩ : Shape).Idx)) = rows2 lo 10240 := by
  subst hn
  ext r
  simp only [Finset.mem_biUnion, Finset.mem_univ, true_and, mem_rows2]
  constructor
  · rintro ⟨k, h1, h2⟩
    have := k.isLt
    constructor <;> omega
  · rintro ⟨h1, h2⟩
    exact ⟨⟨((r 0).val - lo) / 2048, by omega⟩, by show lo + 2048 * (((r 0).val - lo) / 2048) ≤ _; omega, by show _ < lo + 2048 * (((r 0).val - lo) / 2048) + 2048; omega⟩

theorem rows2_256_8_disj {N M : Nat} {n : Nat} (hn : n = 8) (lo : Nat) : ∀ k ∈ (Finset.univ : Finset (Fin n)), ∀ k' ∈ (Finset.univ : Finset (Fin n)), k ≠ k' →
    Disjoint (rows2 (lo + 256 * k.val) 256 : Finset (⟨2, ![N, M]⟩ : Shape).Idx) (rows2 (lo + 256 * k'.val) 256) := by
  subst hn
  intro k _ k' _ hne
  refine Finset.disjoint_left.mpr fun r hr hr' => ?_
  rw [mem_rows2] at hr hr'
  exact hne (Fin.ext (by omega))
theorem rows2_256_8_cover {N M : Nat} {n : Nat} (hn : n = 8) (lo : Nat) :
    (Finset.univ : Finset (Fin n)).biUnion (fun k => (rows2 (lo + 256 * k.val) 256 : Finset (⟨2, ![N, M]⟩ : Shape).Idx)) = rows2 lo 2048 := by
  subst hn
  ext r
  simp only [Finset.mem_biUnion, Finset.mem_univ, true_and, mem_rows2]
  constructor
  · rintro ⟨k, h1, h2⟩
    have := k.isLt
    constructor <;> omega
  · rintro ⟨h1, h2⟩
    exact ⟨⟨((r 0).val - lo) / 256, by omega⟩, by show lo + 256 * (((r 0).val - lo) / 256) ≤ _; omega, by show _ < lo + 256 * (((r 0).val - lo) / 256) + 256; omega⟩

theorem rows2_128_2_disj {N M : Nat} {n : Nat} (hn : n = 2) (lo : Nat) : ∀ k ∈ (Finset.univ : Finset (Fin n)), ∀ k' ∈ (Finset.univ : Finset (Fin n)), k ≠ k' →
    Disjoint (rows2 (lo + 128 * k.val) 128 : Finset (⟨2, ![N, M]⟩ : Shape).Idx) (rows2 (lo + 128 * k'.val) 128) := by
  subst hn
  intro k _ k' _ hne
  refine Finset.disjoint_left.mpr fun r hr hr' => ?_
  rw [mem_rows2] at hr hr'
  exact hne (Fin.ext (by omega))
theorem rows2_128_2_cover {N M : Nat} {n : Nat} (hn : n = 2) (lo : Nat) :
    (Finset.univ : Finset (Fin n)).biUnion (fun k => (rows2 (lo + 128 * k.val) 128 : Finset (⟨2, ![N, M]⟩ : Shape).Idx)) = rows2 lo 256 := by
  subst hn
  ext r
  simp only [Finset.mem_biUnion, Finset.mem_univ, true_and, mem_rows2]
  constructor
  · rintro ⟨k, h1, h2⟩
    have := k.isLt
    constructor <;> omega
  · rintro ⟨h1, h2⟩
    exact ⟨⟨((r 0).val - lo) / 128, by omega⟩, by show lo + 128 * (((r 0).val - lo) / 128) ≤ _; omega, by show _ < lo + 128 * (((r 0).val - lo) / 128) + 128; omega⟩

/-- A writing tile's thousand rows from `lo + 1000 i`; no rows for the tiles from the tenth on. -/
def wrows {N M : Nat} (lo : Nat) (i : Fin 16) : Finset (⟨2, ![N, M]⟩ : Shape).Idx := if i.val < 10 then rows2 (lo + 1000 * i.val) 1000 else ∅

theorem wrows_disj {N M : Nat} (lo : Nat) : ∀ k ∈ (Finset.univ : Finset (Fin 16)), ∀ k' ∈ (Finset.univ : Finset (Fin 16)), k ≠ k' →
    Disjoint (wrows lo k : Finset (⟨2, ![N, M]⟩ : Shape).Idx) (wrows lo k') := by
  intro k _ k' _ hne
  unfold wrows
  split
  · split
    · refine Finset.disjoint_left.mpr fun r hr hr' => ?_
      rw [mem_rows2] at hr hr'
      exact hne (Fin.ext (by omega))
    · exact Finset.disjoint_empty_right _
  · exact Finset.disjoint_empty_left _
theorem wrows_cover {N M : Nat} (lo : Nat) :
    (Finset.univ : Finset (Fin 16)).biUnion (fun k => (wrows lo k : Finset (⟨2, ![N, M]⟩ : Shape).Idx)) = rows2 lo 10000 := by
  ext r
  simp only [Finset.mem_biUnion, Finset.mem_univ, true_and, mem_rows2]
  constructor
  · rintro ⟨k, hk⟩
    unfold wrows at hk
    split at hk
    · rw [mem_rows2] at hk; constructor <;> omega
    · exact absurd hk (Finset.notMem_empty _)
  · rintro ⟨h1, h2⟩
    refine ⟨⟨((r 0).val - lo) / 1000, by omega⟩, ?_⟩
    unfold wrows
    rw [if_pos (show ((r 0).val - lo) / 1000 < 10 by omega), mem_rows2]
    constructor
    · show lo + 1000 * (((r 0).val - lo) / 1000) ≤ _; omega
    · show _ < lo + 1000 * (((r 0).val - lo) / 1000) + 1000; omega
/-- All ten thousand rows of the shared scratch. -/
theorem rows2_all : (rows2 0 10000 : Finset S10000x128.Idx) = Finset.univ := by
  ext r
  have : (r 0).val < 10000 := (r 0).isLt
  simp only [mem_rows2, Finset.mem_univ, iff_true]
  omega

/-! ## The program's slices as runs of rows -/

theorem trips0_1 : k1_t1_loop.trips = 5 := by decide
theorem trips0_3 : k1_t3_loop.trips = 8 := by decide
theorem cond0_iff : ∀ L : grid1.Coords, k1_cond1 L = 1#1 ↔ (L 1).val < 10 := by decide +kernel

theorem idxSet0_eq (L : grid1.Coords) (t1 : Fin k1_t1_loop.trips) :
    idxSet0 L t1 = rows1 (163840 * (L 0).val + 10240 * (L 1).val + 2048 * t1.val) 2048 := by
  show ((View.whole (main_v25_scv : Ref sig .scVector)).slice (Rect.unit (s := S327680) (k1_off3 L t1) S2048.size (k1_off3_inb L t1))).set = _
  rw [View.set_slice_whole, unit_set1]
  exact congrArg₂ rows1 (by rw [k1_off3_eq]; rfl) rfl
theorem outASet0_eq (L : grid1.Coords) (t1 : Fin k1_t1_loop.trips) (t3 : Fin k1_t3_loop.trips) :
    outASet0 L t1 t3 = rows2 (163840 * (L 0).val + 10240 * (L 1).val + 2048 * t1.val + 256 * t3.val) 128 := by
  show ((View.whole (main_v26_scv : Ref sig .scVector)).slice (Rect.unit (s := S327680x128) (k1_off9 L t1 t3) S128x128.size (k1_off9_inb L t1 t3))).set = _
  rw [View.set_slice_whole, unit_set2 (N := 327680) (M := 128) _ _ _ (by rw [k1_off9_eq]; rfl) rfl]
  exact congrArg₂ rows2 (by rw [k1_off9_eq]; rfl) rfl
theorem outBSet0_eq (L : grid1.Coords) (t1 : Fin k1_t1_loop.trips) (t3 : Fin k1_t3_loop.trips) :
    outBSet0 L t1 t3 = rows2 (163840 * (L 0).val + 10240 * (L 1).val + 2048 * t1.val + 256 * t3.val + 128) 128 := by
  show ((View.whole (main_v26_scv : Ref sig .scVector)).slice (Rect.unit (s := S327680x128) (k1_off10 L t1 t3) S128x128.size (k1_off10_inb L t1 t3))).set = _
  rw [View.set_slice_whole, unit_set2 (N := 327680) (M := 128) _ _ _ (by rw [k1_off10_eq]; rfl) rfl]
  exact congrArg₂ rows2 (by rw [k1_off10_eq]; rfl) rfl
theorem tblSet0_eq (L : grid1.Coords) (h : k1_cond1 L = 1#1) :
    tblSet0 L h = rows2 (10000 * (L 0).val + 1000 * (L 1).val) 1000 := by
  show ((View.whole (main_v9_scv : Ref sig .scVector)).slice (Rect.unit (s := S20000x128) (k1_off2 L) S1000x128.size (k1_off2_inb L h))).set = _
  rw [View.set_slice_whole, unit_set2 (N := 20000) (M := 128) _ _ _ (by rw [k1_off2_eq]; rfl) rfl]
  exact congrArg₂ rows2 (by rw [k1_off2_eq]; rfl) rfl
theorem shSet0_eq (L : grid1.Coords) (h : k1_cond1 L = 1#1) :
    shSet0 L h = rows2 (1000 * (L 1).val) 1000 := by
  show ((View.whole (cc1_scratch0 : Ref sig .scVector)).slice (Rect.unit (s := S10000x128) (k1_off1 L) S1000x128.size (k1_off1_inb L h))).set = _
  rw [View.set_slice_whole, unit_set2 (N := 10000) (M := 128) _ _ _ (by rw [k1_off1_eq]; rfl) rfl]
  exact congrArg₂ rows2 (by rw [k1_off1_eq]; rfl) rfl

theorem trips1_1 : k3_t1_loop.trips = 5 := by decide
theorem trips1_3 : k3_t3_loop.trips = 8 := by decide
theorem cond1_iff : ∀ L : grid3.Coords, k3_cond1 L = 1#1 ↔ (L 1).val < 10 := by decide +kernel

theorem idxSet1_eq (L : grid3.Coords) (t1 : Fin k3_t1_loop.trips) :
    idxSet1 L t1 = rows1 (163840 * (L 0).val + 10240 * (L 1).val + 2048 * t1.val) 2048 := by
  show ((View.whole (main_v37_scv : Ref sig .scVector)).slice (Rect.unit (s := S327680) (k3_off3 L t1) S2048.size (k3_off3_inb L t1))).set = _
  rw [View.set_slice_whole, unit_set1]
  exact congrArg₂ rows1 (by rw [k3_off3_eq]; rfl) rfl
theorem outASet1_eq (L : grid3.Coords) (t1 : Fin k3_t1_loop.trips) (t3 : Fin k3_t3_loop.trips) :
    outASet1 L t1 t3 = rows2 (163840 * (L 0).val + 10240 * (L 1).val + 2048 * t1.val + 256 * t3.val) 128 := by
  show ((View.whole (main_v38_scv : Ref sig .scVector)).slice (Rect.unit (s := S327680x128) (k3_off9 L t1 t3) S128x128.size (k3_off9_inb L t1 t3))).set = _
  rw [View.set_slice_whole, unit_set2 (N := 327680) (M := 128) _ _ _ (by rw [k3_off9_eq]; rfl) rfl]
  exact congrArg₂ rows2 (by rw [k3_off9_eq]; rfl) rfl
theorem outBSet1_eq (L : grid3.Coords) (t1 : Fin k3_t1_loop.trips) (t3 : Fin k3_t3_loop.trips) :
    outBSet1 L t1 t3 = rows2 (163840 * (L 0).val + 10240 * (L 1).val + 2048 * t1.val + 256 * t3.val + 128) 128 := by
  show ((View.whole (main_v38_scv : Ref sig .scVector)).slice (Rect.unit (s := S327680x128) (k3_off10 L t1 t3) S128x128.size (k3_off10_inb L t1 t3))).set = _
  rw [View.set_slice_whole, unit_set2 (N := 327680) (M := 128) _ _ _ (by rw [k3_off10_eq]; rfl) rfl]
  exact congrArg₂ rows2 (by rw [k3_off10_eq]; rfl) rfl
theorem tblSet1_eq (L : grid3.Coords) (h : k3_cond1 L = 1#1) :
    tblSet1 L h = rows2 (10000 * (L 0).val + 1000 * (L 1).val) 1000 := by
  show ((View.whole (main_v9_scv : Ref sig .scVector)).slice (Rect.unit (s := S20000x128) (k3_off2 L) S1000x128.size (k3_off2_inb L h))).set = _
  rw [View.set_slice_whole, unit_set2 (N := 20000) (M := 128) _ _ _ (by rw [k3_off2_eq]; rfl) rfl]
  exact congrArg₂ rows2 (by rw [k3_off2_eq]; rfl) rfl
theorem shSet1_eq (L : grid3.Coords) (h : k3_cond1 L = 1#1) :
    shSet1 L h = rows2 (1000 * (L 1).val) 1000 := by
  show ((View.whole (cc3_scratch0 : Ref sig .scVector)).slice (Rect.unit (s := S10000x128) (k3_off1 L) S1000x128.size (k3_off1_inb L h))).set = _
  rw [View.set_slice_whole, unit_set2 (N := 10000) (M := 128) _ _ _ (by rw [k3_off1_eq]; rfl) rfl]
  exact congrArg₂ rows2 (by rw [k3_off1_eq]; rfl) rfl

theorem halfJ_eq (c : Fin 2) : halfJ c = rows1 (163840 * c.val) 163840 := by
  ext r
  rw [mem_rows1, Rect.mem_set_unit]
  constructor
  · intro h
    have h0 := h 0
    simp [Shape.partIx, Shape.partSize] at h0
    omega
  · intro h a
    obtain rfl : a = 0 := Subsingleton.elim _ _
    simp [Shape.partIx, Shape.partSize]
    omega
theorem halfT_eq (c : Fin 2) : halfT c = rows2 (10000 * c.val) 10000 := by
  ext r
  rw [mem_rows2, Rect.mem_set_unit]
  constructor
  · intro h
    have h0 := h 0
    simp [Shape.partIx, Shape.partSize] at h0
    omega
  · intro h a
    match a with
    | ⟨0, _⟩ =>
      simp [Shape.partIx, Shape.partSize]
      omega
    | ⟨1, _⟩ =>
      have : (r 1).val < 128 := (r 1).isLt
      simp [Shape.partIx, Shape.partSize]
      omega
theorem halfO_eq (c : Fin 2) : halfO c = rows2 (163840 * c.val) 163840 := by
  ext r
  rw [mem_rows2, Rect.mem_set_unit]
  constructor
  · intro h
    have h0 := h 0
    simp [Shape.partIx, Shape.partSize] at h0
    omega
  · intro h a
    match a with
    | ⟨0, _⟩ =>
      simp [Shape.partIx, Shape.partSize]
      omega
    | ⟨1, _⟩ =>
      have : (r 1).val < 128 := (r 1).isLt
      simp [Shape.partIx, Shape.partSize]
      omega

/-! ## Splitting and joining along a partition -/

section Kit
variable [FloatOps F]

/-- An array held on a set at one contents is it held on each set of a partition of the set. -/
theorem pts_split {ℓ : Loc nD τ sig} {q : PosShare TreeShare} {T : Type} [Fintype T] (Sset : Finset (Idx ℓ)) (K : T → Finset (Idx ℓ))
    (hd : ∀ t ∈ (Finset.univ : Finset T), ∀ t' ∈ (Finset.univ : Finset T), t ≠ t' → Disjoint (K t) (K t'))
    (hc : (Finset.univ : Finset T).biUnion K = Sset) (f : Buf (Elt F) ℓ) :
    (ℓ ↦[Sset]{q} f : sProp 𝕄) = bigSep Finset.univ fun t => ℓ ↦[K t]{q} f := by
  rw [← hc, pointsTo_biUnion Finset.univ K hd]

/-- The sets of a partition, each held at contents of its own, are the whole set held at some contents. -/
theorem pts_join {ℓ : Loc nD τ sig} {q : PosShare TreeShare} {T : Type} [Fintype T] [DecidableEq T] (Sset : Finset (Idx ℓ)) (K : T → Finset (Idx ℓ))
    (hd : ∀ t ∈ (Finset.univ : Finset T), ∀ t' ∈ (Finset.univ : Finset T), t ≠ t' → Disjoint (K t) (K t'))
    (hc : (Finset.univ : Finset T).biUnion K = Sset) (f₀ : Buf (Elt F) ℓ) :
    (bigSep Finset.univ fun t : T => iprop(∃ f : Buf (Elt F) ℓ, ℓ ↦[K t]{q} f)) ⊢ (iprop(∃ f : Buf (Elt F) ℓ, ℓ ↦[Sset]{q} f) : sProp 𝕄) := by
  refine (bigSep_exists_pi Finset.univ (fun (t : T) (f : Buf (Elt F) ℓ) => (ℓ ↦[K t]{q} f : sProp 𝕄))).trans ?_
  refine BIClass.exists_elim fun fs => ?_
  refine (pointsTo_biUnion_join Finset.univ K fs f₀ hd).trans ?_
  show (_ : sProp 𝕄) ⊢ _
  iintro ⟨%g, -, Hg⟩
  rw [hc]
  iexists g; iexact Hg

end Kit

/-! ## Call 0: the index list -/

section Idx0
variable [FloatOps F]

theorem idxTile0_disj (c : Fin 2) (i : Fin 16) : ∀ t ∈ (Finset.univ : Finset (Fin k1_t1_loop.trips)), ∀ t' ∈ (Finset.univ : Finset (Fin k1_t1_loop.trips)), t ≠ t' →
    Disjoint (idxSet0 (coords0 c i) t) (idxSet0 (coords0 c i) t') := by
  intro t ht t' ht' hne
  rw [idxSet0_eq, idxSet0_eq]
  exact rows1_2048_5_disj trips0_1 (163840 * c.val + 10240 * i.val) t ht t' ht' hne
theorem idxTile0_cover (c : Fin 2) (i : Fin 16) :
    (Finset.univ : Finset (Fin k1_t1_loop.trips)).biUnion (fun t => idxSet0 (coords0 c i) t) = rows1 (163840 * c.val + 10240 * i.val) 10240 := by
  rw [← rows1_2048_5_cover trips0_1 (163840 * c.val + 10240 * i.val)]
  exact Finset.biUnion_congr rfl fun t _ => idxSet0_eq (coords0 c i) t

theorem idx_fwd0 (d : Dev nD) (c : Fin 2) (jx : Buf (Elt F) (idxLoc0 d)) (h : InRange c.val (halfJ c) jx) :
    (idxLoc0 d ↦[halfJ c]{fullShare} jx : sProp 𝕄) ⊢ bigSep Finset.univ fun i : Fin 16 => idxPiece0 d (coords0 c i) := by
  rw [halfJ_eq, pts_split (ℓ := idxLoc0 d) _ (fun i : Fin 16 => rows1 (163840 * c.val + 10240 * i.val) 10240)
    (rows1_10240_16_disj rfl _) (rows1_10240_16_cover rfl _) jx]
  refine bigSep_mono fun i _ => ?_
  unfold idxPiece0
  rw [pts_split (ℓ := idxLoc0 d) _ (fun t : Fin k1_t1_loop.trips => idxSet0 (coords0 c i) t) (idxTile0_disj c i) (idxTile0_cover c i) jx]
  show (_ : sProp 𝕄) ⊢ _
  iintro H
  iexists jx
  isplitr
  · ipureintro
    intro t1 r hr
    refine h r ?_
    rw [halfJ_eq, mem_rows1]
    have hr' : r ∈ rows1 (163840 * c.val + 10240 * i.val) 10240 := by
      rw [← idxTile0_cover c i]; exact Finset.mem_biUnion.mpr ⟨t1, Finset.mem_univ _, hr⟩
    rw [mem_rows1] at hr'
    have := i.isLt
    constructor <;> omega
  · iexact H

theorem idx_bwd0 (d : Dev nD) (c : Fin 2) :
    (bigSep Finset.univ fun i : Fin 16 => idxPiece0 (F := F) d (coords0 c i))
      ⊢ (iprop(∃ jx : Buf (Elt F) (idxLoc0 d), (idxLoc0 d ↦[halfJ c]{fullShare} jx) ∗ ⌜InRange c.val (halfJ c) jx⌝) : sProp 𝕄) := by
  have tile : ∀ i : Fin 16, (idxPiece0 (F := F) d (coords0 c i) : sProp 𝕄)
      ⊢ iprop(∃ jx : Buf (Elt F) (idxLoc0 d), ⌜InRange c.val (rows1 (163840 * c.val + 10240 * i.val) 10240) jx⌝
          ∗ (idxLoc0 d ↦[rows1 (163840 * c.val + 10240 * i.val) 10240]{fullShare} jx)) := by
    intro i
    unfold idxPiece0
    show (_ : sProp 𝕄) ⊢ _
    iintro ⟨%jx, %hj, H⟩
    iexists jx
    isplitr
    · ipureintro
      intro r hr
      rw [← idxTile0_cover c i] at hr
      obtain ⟨t1, -, ht1⟩ := Finset.mem_biUnion.mp hr
      exact hj t1 r ht1
    · rw [pts_split (ℓ := idxLoc0 d) _ (fun t : Fin k1_t1_loop.trips => idxSet0 (coords0 c i) t) (idxTile0_disj c i) (idxTile0_cover c i) jx]
      iexact H
  refine (bigSep_mono fun i _ => tile i).trans ?_
  refine (bigSep_exists_pi Finset.univ (fun (i : Fin 16) (jx : Buf (Elt F) (idxLoc0 d)) =>
    (iprop(⌜InRange c.val (rows1 (163840 * c.val + 10240 * i.val) 10240) jx⌝
      ∗ (idxLoc0 d ↦[rows1 (163840 * c.val + 10240 * i.val) 10240]{fullShare} jx)) : sProp 𝕄))).trans ?_
  show (_ : sProp 𝕄) ⊢ _
  iintro ⟨%fs, H⟩
  ihave H' := (bigSep_pure_sep Finset.univ (fun i : Fin 16 => InRange c.val (rows1 (163840 * c.val + 10240 * i.val) 10240) (fs i))
    (fun i : Fin 16 => (idxLoc0 d ↦[rows1 (163840 * c.val + 10240 * i.val) 10240]{fullShare} fs i : sProp 𝕄))) $$ H
  icases H' with ⟨%hfs, H⟩
  ihave H'' := (pointsTo_biUnion_join Finset.univ (fun i : Fin 16 => (rows1 (163840 * c.val + 10240 * i.val) 10240 : Finset S327680.Idx)) fs (fs 0)
    (rows1_10240_16_disj rfl _)) $$ H
  icases H'' with ⟨%g, %hg, Hg⟩
  rw [rows1_10240_16_cover rfl, ← halfJ_eq]
  iexists g
  isplitl [Hg]; · iexact Hg
  ipureintro
  intro r hr
  rw [halfJ_eq, ← rows1_10240_16_cover (N := 327680) rfl (163840 * c.val)] at hr
  obtain ⟨i, hi, hri⟩ := Finset.mem_biUnion.mp hr
  rw [hg i hi r hri]
  exact hfs i hi r hri

end Idx0

/-! ## Call 0: the gathered rows -/

section Out0
variable [FloatOps F]

theorem out_fwd0 (d : Dev nD) (c : Fin 2) (ob : Buf (Elt F) (outLoc0 d)) :
    (outLoc0 d ↦[halfO c]{fullShare} ob : sProp 𝕄) ⊢ bigSep Finset.univ fun i : Fin 16 => outPiece0 d (coords0 c i) := by
  rw [halfO_eq, pts_split (ℓ := outLoc0 d) _ (fun i : Fin 16 => rows2 (163840 * c.val + 10240 * i.val) 10240)
    (rows2_10240_16_disj rfl _) (rows2_10240_16_cover rfl _) ob]
  refine bigSep_mono fun i _ => ?_
  unfold outPiece0
  rw [pts_split (ℓ := outLoc0 d) _ (fun t1 : Fin k1_t1_loop.trips => rows2 (163840 * c.val + 10240 * i.val + 2048 * t1.val) 2048)
    (rows2_2048_5_disj trips0_1 _) (rows2_2048_5_cover trips0_1 _) ob]
  refine bigSep_mono fun t1 _ => ?_
  rw [pts_split (ℓ := outLoc0 d) _ (fun t3 : Fin k1_t3_loop.trips => rows2 (163840 * c.val + 10240 * i.val + 2048 * t1.val + 256 * t3.val) 256)
    (rows2_256_8_disj trips0_3 _) (rows2_256_8_cover trips0_3 _) ob]
  refine bigSep_mono fun t3 _ => ?_
  rw [pts_split (ℓ := outLoc0 d) _ (fun b : Fin 2 => rows2 (163840 * c.val + 10240 * i.val + 2048 * t1.val + 256 * t3.val + 128 * b.val) 128)
    (rows2_128_2_disj rfl _) (rows2_128_2_cover rfl _) ob, bigSep_univ_two, outASet0_eq, outBSet0_eq]
  show (_ : sProp 𝕄) ⊢ _
  iintro ⟨HA, HB⟩
  isplitl [HA]
  · iexists ob; iexact HA
  · iexists ob; iexact HB

theorem out_bwd0 (d : Dev nD) (c : Fin 2) (f₀ : Buf (Elt F) (outLoc0 d)) :
    (bigSep Finset.univ fun i : Fin 16 => outPiece0 (F := F) d (coords0 c i))
      ⊢ (iprop(∃ ob : Buf (Elt F) (outLoc0 d), outLoc0 d ↦[halfO c]{fullShare} ob) : sProp 𝕄) := by
  rw [halfO_eq]
  refine BI.Entails.trans ?_ (pts_join (ℓ := outLoc0 d) _ (fun i : Fin 16 => rows2 (163840 * c.val + 10240 * i.val) 10240)
    (rows2_10240_16_disj rfl _) (rows2_10240_16_cover rfl _) f₀)
  refine bigSep_mono fun i _ => ?_
  unfold outPiece0
  refine BI.Entails.trans ?_ (pts_join (ℓ := outLoc0 d) _ (fun t1 : Fin k1_t1_loop.trips => rows2 (163840 * c.val + 10240 * i.val + 2048 * t1.val) 2048)
    (rows2_2048_5_disj trips0_1 _) (rows2_2048_5_cover trips0_1 _) f₀)
  refine bigSep_mono fun t1 _ => ?_
  refine BI.Entails.trans ?_ (pts_join (ℓ := outLoc0 d) _ (fun t3 : Fin k1_t3_loop.trips => rows2 (163840 * c.val + 10240 * i.val + 2048 * t1.val + 256 * t3.val) 256)
    (rows2_256_8_disj trips0_3 _) (rows2_256_8_cover trips0_3 _) f₀)
  refine bigSep_mono fun t3 _ => ?_
  refine BI.Entails.trans ?_ (pts_join (ℓ := outLoc0 d) _ (fun b : Fin 2 => rows2 (163840 * c.val + 10240 * i.val + 2048 * t1.val + 256 * t3.val + 128 * b.val) 128)
    (rows2_128_2_disj rfl _) (rows2_128_2_cover rfl _) f₀)
  rw [bigSep_univ_two, outASet0_eq, outBSet0_eq]
  exact BI.Entails.refl _

end Out0

/-! ## Call 0: the table's rows and the shared scratch's -/

section Tbl0
variable [FloatOps F]

/-- A writing tile's rows of the table as a run of rows, no rows for the others. -/
theorem tblPiece0_iff (d : Dev nD) (c : Fin 2) (i : Fin 16) :
    (tblPiece0 (F := F) d (coords0 c i) : sProp 𝕄) ⊣⊢ iprop(∃ tb : Buf (Elt F) (tblLoc d), tblLoc d ↦[wrows (10000 * c.val) i]{fullShare} tb) := by
  unfold tblPiece0 wrows
  by_cases h : k1_cond1 (coords0 c i) = 1#1
  · have hi : i.val < 10 := (cond0_iff _).mp h
    rw [dif_pos h, if_pos hi, tblSet0_eq]
    exact ⟨BI.Entails.refl _, BI.Entails.refl _⟩
  · have hi : ¬ i.val < 10 := fun hi => h ((cond0_iff (coords0 c i)).mpr hi)
    rw [dif_neg h, if_neg hi]
    constructor
    · show (_ : sProp 𝕄) ⊢ _
      iintro -
      iexists (Classical.choice inferInstance)
      rw [pointsTo_empty]
      iempintro
    · exact BIClass.exists_elim fun tb => Entails.of_eq pointsTo_empty

theorem tbl_fwd0 (d : Dev nD) (c : Fin 2) (tb : Buf (Elt F) (tblLoc d)) :
    (tblLoc d ↦[halfT c]{fullShare} tb : sProp 𝕄) ⊢ bigSep Finset.univ fun i : Fin 16 => tblPiece0 d (coords0 c i) := by
  rw [halfT_eq, pts_split (ℓ := tblLoc d) _ (fun i : Fin 16 => wrows (10000 * c.val) i) (wrows_disj _) (wrows_cover _) tb]
  refine bigSep_mono fun i _ => ?_
  refine BI.Entails.trans ?_ (tblPiece0_iff d c i).2
  exact BIClass.exists_intro (Φ := fun f : Buf (Elt F) (tblLoc d) => (tblLoc d ↦[wrows (10000 * c.val) i]{fullShare} f : sProp 𝕄)) tb

theorem tbl_bwd0 (d : Dev nD) (c : Fin 2) (f₀ : Buf (Elt F) (tblLoc d)) :
    (bigSep Finset.univ fun i : Fin 16 => tblPiece0 (F := F) d (coords0 c i))
      ⊢ (iprop(∃ tb : Buf (Elt F) (tblLoc d), tblLoc d ↦[halfT c]{fullShare} tb) : sProp 𝕄) := by
  rw [halfT_eq]
  refine BI.Entails.trans ?_ (pts_join (ℓ := tblLoc d) _ (fun i : Fin 16 => wrows (10000 * c.val) i) (wrows_disj _) (wrows_cover _) f₀)
  exact bigSep_mono fun i _ => (tblPiece0_iff d c i).1

end Tbl0

section Sh0
variable [FloatOps F]

/-- A writing tile's rows of the shared scratch as a run of rows, no rows for the others. -/
theorem shPiece0_iff (q : PosShare TreeShare) (d : Dev nD) (c : Fin 2) (i : Fin 16) :
    (shPiece0 (F := F) q d (coords0 c i) : sProp 𝕄)
      ⊣⊢ iprop(∃ f : Buf (Elt F) (sh0Loc d (c.castLE hcore1)), sh0Loc d (c.castLE hcore1) ↦[wrows 0 i]{q} f) := by
  unfold shPiece0 wrows
  by_cases h : k1_cond1 (coords0 c i) = 1#1
  · have hi : i.val < 10 := (cond0_iff _).mp h
    rw [dif_pos h, if_pos hi, shSet0_eq, Nat.zero_add]
    exact ⟨BI.Entails.refl _, BI.Entails.refl _⟩
  · have hi : ¬ i.val < 10 := fun hi => h ((cond0_iff (coords0 c i)).mpr hi)
    rw [dif_neg h, if_neg hi]
    constructor
    · show (_ : sProp 𝕄) ⊢ _
      iintro -
      iexists (Classical.choice inferInstance)
      rw [pointsTo_empty]
      iempintro
    · exact BIClass.exists_elim fun tb => Entails.of_eq pointsTo_empty

theorem shAll_disj : ∀ k ∈ (Finset.univ : Finset (Fin 16)), ∀ k' ∈ (Finset.univ : Finset (Fin 16)), k ≠ k' →
    Disjoint (wrows 0 k : Finset S10000x128.Idx) (wrows 0 k') := wrows_disj 0
theorem shAll_cover : (Finset.univ : Finset (Fin 16)).biUnion (fun k => (wrows 0 k : Finset S10000x128.Idx)) = Finset.univ :=
  (wrows_cover 0).trans rows2_all

theorem sh_fwd0 (d : Dev nD) (c : Fin 2) (f : Buf (Elt F) (sh0Loc d (c.castLE hcore1))) :
    (sh0Loc d (c.castLE hcore1) ↦{fullShare} f : sProp 𝕄) ⊢ bigSep Finset.univ fun i : Fin 16 => shPiece0 fullShare d (coords0 c i) := by
  show (sh0Loc d (c.castLE hcore1) ↦[Finset.univ]{fullShare} f : sProp 𝕄) ⊢ _
  rw [pts_split (ℓ := sh0Loc d (c.castLE hcore1)) Finset.univ (fun i : Fin 16 => wrows 0 i) shAll_disj shAll_cover f]
  refine bigSep_mono fun i _ => ?_
  refine BI.Entails.trans ?_ (shPiece0_iff fullShare d c i).2
  exact BIClass.exists_intro (Φ := fun g : Buf (Elt F) (sh0Loc d (c.castLE hcore1)) => (sh0Loc d (c.castLE hcore1) ↦[wrows 0 i]{fullShare} g : sProp 𝕄)) f

/-- Two holdings of one array agree where both hold it: the second's contents may be read as the first's. -/
theorem pts_agree_rw {ℓ : Loc nD τ sig} {q₁ q₂ : PosShare TreeShare} (f g : Buf (Elt F) ℓ) :
    iprop((ℓ ↦{q₁} f) ∗ (ℓ ↦{q₂} g)) ⊢ (iprop((ℓ ↦{q₁} f) ∗ (ℓ ↦{q₂} f)) : sProp 𝕄) := by
  iintro H
  ihave H' := (persistent_entails_right (pointsTo_agree (ℓ := ℓ) (I := Finset.univ) (J := Finset.univ) (q₁ := q₁) (q₂ := q₂) (f := f) (g := g))) $$ H
  icases H' with ⟨%hfg, H1, H2⟩
  have e : (ℓ ↦{q₂} g : sProp 𝕄) = (ℓ ↦{q₂} f) :=
    pointsTo_congr fun i hi => ((hfg i (Finset.mem_inter.mpr ⟨hi, hi⟩)).1).symm
  rw [← e]
  isplitl [H1]; · iexact H1
  iexact H2

/-- The sixteen read shares of the shared scratch, each at contents of its own, and what the writing tiles kept aside of
    their rows rejoin into the scratch whole. -/
theorem sh_bwd0 (d : Dev nD) (c : Fin 2) :
    iprop((bigSep Finset.univ fun i : Fin 16 => iprop(∃ g : Buf (Elt F) (sh0Loc d (c.castLE hcore1)), sh0Loc d (c.castLE hcore1) ↦{rdShare i.val} g))
        ∗ (bigSep Finset.univ fun i : Fin 16 => shPiece0 (F := F) restShare d (coords0 c i)))
      ⊢ (iprop(∃ f : Buf (Elt F) (sh0Loc d (c.castLE hcore1)), sh0Loc d (c.castLE hcore1) ↦{fullShare} f) : sProp 𝕄) := by
  have hrest : (bigSep Finset.univ fun i : Fin 16 => shPiece0 (F := F) restShare d (coords0 c i))
      ⊢ (iprop(∃ f : Buf (Elt F) (sh0Loc d (c.castLE hcore1)), sh0Loc d (c.castLE hcore1) ↦[Finset.univ]{restShare} f) : sProp 𝕄) :=
    (bigSep_mono fun i _ => (shPiece0_iff restShare d c i).1).trans
      (pts_join (ℓ := sh0Loc d (c.castLE hcore1)) Finset.univ (fun i : Fin 16 => wrows 0 i) shAll_disj shAll_cover (Classical.choice inferInstance))
  -- every read share read at the rest's contents
  have hunify : ∀ (f : Buf (Elt F) (sh0Loc d (c.castLE hcore1))) (s : Finset (Fin 16)),
      iprop((sh0Loc d (c.castLE hcore1) ↦{restShare} f)
          ∗ (bigSep s fun i : Fin 16 => iprop(∃ g : Buf (Elt F) (sh0Loc d (c.castLE hcore1)), sh0Loc d (c.castLE hcore1) ↦{rdShare i.val} g)))
        ⊢ (iprop((sh0Loc d (c.castLE hcore1) ↦{restShare} f)
          ∗ (bigSep s fun i : Fin 16 => (sh0Loc d (c.castLE hcore1) ↦{rdShare i.val} f))) : sProp 𝕄) := by
    intro f s
    induction s using Finset.induction_on with
    | empty =>
      rw [bigSep_empty, bigSep_empty]
    | insert a s ha ih =>
      rw [SparseCore.bigSep_insert' ha, SparseCore.bigSep_insert' ha]
      show (_ : sProp 𝕄) ⊢ _
      iintro ⟨Hf, ⟨%g, Hg⟩, Hs⟩
      ihave H1 := (pts_agree_rw (ℓ := sh0Loc d (c.castLE hcore1)) f g) $$ [Hf Hg]
      · isplitl [Hf]; · iexact Hf
        iexact Hg
      icases H1 with ⟨Hf, Hg⟩
      ihave H2 := ih $$ [Hf Hs]
      · isplitl [Hf]; · iexact Hf
        iexact Hs
      icases H2 with ⟨Hf, Hs⟩
      isplitl [Hf]; · iexact Hf
      isplitl [Hg]; · iexact Hg
      iexact Hs
  show (_ : sProp 𝕄) ⊢ _
  iintro ⟨Hrd, Hrest⟩
  ihave Hr := hrest $$ Hrest
  icases Hr with ⟨%f, Hf⟩
  ihave H := (hunify f Finset.univ) $$ [Hf Hrd]
  · isplitl [Hf]; · iexact Hf
    iexact Hrd
  iexists f
  iapply (Transfers.pointsTo_toks_join (ℓ := sh0Loc d (c.castLE hcore1)) (S := Finset.univ) (f := f) fullShare 16)
  iexact H

end Sh0

/-! ## Call 0: the split -/

section Split0
variable [FloatOps F]

/-- SparseCore `c`'s shared scratch of call 0 is among its sequencer's own buffers: it, at some contents, and the rest. -/
theorem ownBufs_S0 (d : Dev nD) (c : Fin τ.nSC) :
    (ownBufs (S d c) : sProp 𝕄)
      = iprop((∃ f, sh0Loc d c ↦{fullShare} f) ∗ bigSep ((ownRefs (τ := τ) (.scScalar c)).erase (⟨.shared, ⟨0, by decide⟩, c⟩ : DevRef τ sig))
          fun b => iprop(∃ f, ((d, b) : Loc nD τ sig) ↦{fullShare} f)) := by
  unfold SparseCore.Cfg.ownBufs
  have h : (⟨.shared, ⟨0, by decide⟩, c⟩ : DevRef τ sig) ∈ ownRefs (τ := τ) (sig := sig) (.scScalar c) :=
    (mem_ownRefs (p := Proc.scScalar c) (b := (⟨.shared, ⟨0, by decide⟩, c⟩ : DevRef τ sig))).mpr rfl
  exact SparseCore.bigSep_erase' h

theorem vecSplit0_core (d : Dev nD) (c : Fin 2) :
    iprop(stCore0 (F := F) d c ∗ ownBufs (S d (c.castLE hcore1))) ⊢ |={Set.univ}=> (iprop(
      (bigSep Finset.univ fun i : Fin 16 => go0 d (coords0 c i))
      ∗ ((bigSep Finset.univ fun i : Fin 16 => td0 d (coords0 c i))
          -∗ iprop(iprop(stCore0 d c ∗ barNext d (c.castLE hcore1)) ∗ ownBufs (S d (c.castLE hcore1))))) : sProp 𝕄) := by
  rw [ownBufs_S0]
  unfold go0 td0 barNext
  simp only [bigSep_sep']
  unfold stCore0
  iintro ⟨⟨%tb, %jx, %ob, Ht, Hj, Ho, %hj⟩, ⟨%fsh, Hsh⟩, Hrest⟩
  imodintro
  isplitl [Ht Hj Ho Hsh]
  · isplitl [Hj]; · iapply (idx_fwd0 d c jx hj); iexact Hj
    isplitl [Ho]; · iapply (out_fwd0 d c ob); iexact Ho
    isplitl [Ht]; · iapply (tbl_fwd0 d c tb); iexact Ht
    iapply (sh_fwd0 d c fsh); iexact Hsh
  iintro ⟨Hj, Ho, Ht, Hrd, Hrs, Hat, Hre⟩
  ihave Hj' := (idx_bwd0 d c) $$ Hj
  icases Hj' with ⟨%jx', Hj, %hj'⟩
  ihave Ho' := (out_bwd0 d c ob) $$ Ho
  icases Ho' with ⟨%ob', Ho⟩
  ihave Ht' := (tbl_bwd0 d c tb) $$ Ht
  icases Ht' with ⟨%tb', Ht⟩
  ihave Hsh := (sh_bwd0 d c) $$ [Hrd Hrs]
  · isplitl [Hrd]; · iexact Hrd
    iexact Hrs
  isplitl [Hj Ho Ht Hat Hre]
  · isplitl [Hj Ho Ht]
    · iexists tb', jx', ob'
      isplitl [Ht]; · iexact Ht
      isplitl [Hj]; · iexact Hj
      isplitl [Ho]; · iexact Ho
      ipureintro; exact hj'
    isplitl [Hat]; · iexact Hat
    iexact Hre
  isplitl [Hsh]; · iexact Hsh
  iexact Hrest

theorem vecSplit0 : (K (F := F)).VecSplit (P (F := F)) 0 := fun d c => vecSplit0_core d (Fin.cast (nCore_eq 0) c)

end Split0

/-! ## Call 1: the index list -/

section Idx1
variable [FloatOps F]

theorem idxTile1_disj (c : Fin 2) (i : Fin 16) : ∀ t ∈ (Finset.univ : Finset (Fin k3_t1_loop.trips)), ∀ t' ∈ (Finset.univ : Finset (Fin k3_t1_loop.trips)), t ≠ t' →
    Disjoint (idxSet1 (coords1 c i) t) (idxSet1 (coords1 c i) t') := by
  intro t ht t' ht' hne
  rw [idxSet1_eq, idxSet1_eq]
  exact rows1_2048_5_disj trips1_1 (163840 * c.val + 10240 * i.val) t ht t' ht' hne
theorem idxTile1_cover (c : Fin 2) (i : Fin 16) :
    (Finset.univ : Finset (Fin k3_t1_loop.trips)).biUnion (fun t => idxSet1 (coords1 c i) t) = rows1 (163840 * c.val + 10240 * i.val) 10240 := by
  rw [← rows1_2048_5_cover trips1_1 (163840 * c.val + 10240 * i.val)]
  exact Finset.biUnion_congr rfl fun t _ => idxSet1_eq (coords1 c i) t

theorem idx_fwd1 (d : Dev nD) (c : Fin 2) (jx : Buf (Elt F) (idxLoc1 d)) (h : InRange c.val (halfJ c) jx) :
    (idxLoc1 d ↦[halfJ c]{fullShare} jx : sProp 𝕄) ⊢ bigSep Finset.univ fun i : Fin 16 => idxPiece1 d (coords1 c i) := by
  rw [halfJ_eq, pts_split (ℓ := idxLoc1 d) _ (fun i : Fin 16 => rows1 (163840 * c.val + 10240 * i.val) 10240)
    (rows1_10240_16_disj rfl _) (rows1_10240_16_cover rfl _) jx]
  refine bigSep_mono fun i _ => ?_
  unfold idxPiece1
  rw [pts_split (ℓ := idxLoc1 d) _ (fun t : Fin k3_t1_loop.trips => idxSet1 (coords1 c i) t) (idxTile1_disj c i) (idxTile1_cover c i) jx]
  show (_ : sProp 𝕄) ⊢ _
  iintro H
  iexists jx
  isplitr
  · ipureintro
    intro t1 r hr
    refine h r ?_
    rw [halfJ_eq, mem_rows1]
    have hr' : r ∈ rows1 (163840 * c.val + 10240 * i.val) 10240 := by
      rw [← idxTile1_cover c i]; exact Finset.mem_biUnion.mpr ⟨t1, Finset.mem_univ _, hr⟩
    rw [mem_rows1] at hr'
    have := i.isLt
    constructor <;> omega
  · iexact H

theorem idx_bwd1 (d : Dev nD) (c : Fin 2) :
    (bigSep Finset.univ fun i : Fin 16 => idxPiece1 (F := F) d (coords1 c i))
      ⊢ (iprop(∃ jx : Buf (Elt F) (idxLoc1 d), (idxLoc1 d ↦[halfJ c]{fullShare} jx) ∗ ⌜InRange c.val (halfJ c) jx⌝) : sProp 𝕄) := by
  have tile : ∀ i : Fin 16, (idxPiece1 (F := F) d (coords1 c i) : sProp 𝕄)
      ⊢ iprop(∃ jx : Buf (Elt F) (idxLoc1 d), ⌜InRange c.val (rows1 (163840 * c.val + 10240 * i.val) 10240) jx⌝
          ∗ (idxLoc1 d ↦[rows1 (163840 * c.val + 10240 * i.val) 10240]{fullShare} jx)) := by
    intro i
    unfold idxPiece1
    show (_ : sProp 𝕄) ⊢ _
    iintro ⟨%jx, %hj, H⟩
    iexists jx
    isplitr
    · ipureintro
      intro r hr
      rw [← idxTile1_cover c i] at hr
      obtain ⟨t1, -, ht1⟩ := Finset.mem_biUnion.mp hr
      exact hj t1 r ht1
    · rw [pts_split (ℓ := idxLoc1 d) _ (fun t : Fin k3_t1_loop.trips => idxSet1 (coords1 c i) t) (idxTile1_disj c i) (idxTile1_cover c i) jx]
      iexact H
  refine (bigSep_mono fun i _ => tile i).trans ?_
  refine (bigSep_exists_pi Finset.univ (fun (i : Fin 16) (jx : Buf (Elt F) (idxLoc1 d)) =>
    (iprop(⌜InRange c.val (rows1 (163840 * c.val + 10240 * i.val) 10240) jx⌝
      ∗ (idxLoc1 d ↦[rows1 (163840 * c.val + 10240 * i.val) 10240]{fullShare} jx)) : sProp 𝕄))).trans ?_
  show (_ : sProp 𝕄) ⊢ _
  iintro ⟨%fs, H⟩
  ihave H' := (bigSep_pure_sep Finset.univ (fun i : Fin 16 => InRange c.val (rows1 (163840 * c.val + 10240 * i.val) 10240) (fs i))
    (fun i : Fin 16 => (idxLoc1 d ↦[rows1 (163840 * c.val + 10240 * i.val) 10240]{fullShare} fs i : sProp 𝕄))) $$ H
  icases H' with ⟨%hfs, H⟩
  ihave H'' := (pointsTo_biUnion_join Finset.univ (fun i : Fin 16 => (rows1 (163840 * c.val + 10240 * i.val) 10240 : Finset S327680.Idx)) fs (fs 0)
    (rows1_10240_16_disj rfl _)) $$ H
  icases H'' with ⟨%g, %hg, Hg⟩
  rw [rows1_10240_16_cover rfl, ← halfJ_eq]
  iexists g
  isplitl [Hg]; · iexact Hg
  ipureintro
  intro r hr
  rw [halfJ_eq, ← rows1_10240_16_cover (N := 327680) rfl (163840 * c.val)] at hr
  obtain ⟨i, hi, hri⟩ := Finset.mem_biUnion.mp hr
  rw [hg i hi r hri]
  exact hfs i hi r hri

end Idx1

/-! ## Call 1: the gathered rows -/

section Out1
variable [FloatOps F]

theorem out_fwd1 (d : Dev nD) (c : Fin 2) (ob : Buf (Elt F) (outLoc1 d)) :
    (outLoc1 d ↦[halfO c]{fullShare} ob : sProp 𝕄) ⊢ bigSep Finset.univ fun i : Fin 16 => outPiece1 d (coords1 c i) := by
  rw [halfO_eq, pts_split (ℓ := outLoc1 d) _ (fun i : Fin 16 => rows2 (163840 * c.val + 10240 * i.val) 10240)
    (rows2_10240_16_disj rfl _) (rows2_10240_16_cover rfl _) ob]
  refine bigSep_mono fun i _ => ?_
  unfold outPiece1
  rw [pts_split (ℓ := outLoc1 d) _ (fun t1 : Fin k3_t1_loop.trips => rows2 (163840 * c.val + 10240 * i.val + 2048 * t1.val) 2048)
    (rows2_2048_5_disj trips1_1 _) (rows2_2048_5_cover trips1_1 _) ob]
  refine bigSep_mono fun t1 _ => ?_
  rw [pts_split (ℓ := outLoc1 d) _ (fun t3 : Fin k3_t3_loop.trips => rows2 (163840 * c.val + 10240 * i.val + 2048 * t1.val + 256 * t3.val) 256)
    (rows2_256_8_disj trips1_3 _) (rows2_256_8_cover trips1_3 _) ob]
  refine bigSep_mono fun t3 _ => ?_
  rw [pts_split (ℓ := outLoc1 d) _ (fun b : Fin 2 => rows2 (163840 * c.val + 10240 * i.val + 2048 * t1.val + 256 * t3.val + 128 * b.val) 128)
    (rows2_128_2_disj rfl _) (rows2_128_2_cover rfl _) ob, bigSep_univ_two, outASet1_eq, outBSet1_eq]
  show (_ : sProp 𝕄) ⊢ _
  iintro ⟨HA, HB⟩
  isplitl [HA]
  · iexists ob; iexact HA
  · iexists ob; iexact HB

theorem out_bwd1 (d : Dev nD) (c : Fin 2) (f₀ : Buf (Elt F) (outLoc1 d)) :
    (bigSep Finset.univ fun i : Fin 16 => outPiece1 (F := F) d (coords1 c i))
      ⊢ (iprop(∃ ob : Buf (Elt F) (outLoc1 d), outLoc1 d ↦[halfO c]{fullShare} ob) : sProp 𝕄) := by
  rw [halfO_eq]
  refine BI.Entails.trans ?_ (pts_join (ℓ := outLoc1 d) _ (fun i : Fin 16 => rows2 (163840 * c.val + 10240 * i.val) 10240)
    (rows2_10240_16_disj rfl _) (rows2_10240_16_cover rfl _) f₀)
  refine bigSep_mono fun i _ => ?_
  unfold outPiece1
  refine BI.Entails.trans ?_ (pts_join (ℓ := outLoc1 d) _ (fun t1 : Fin k3_t1_loop.trips => rows2 (163840 * c.val + 10240 * i.val + 2048 * t1.val) 2048)
    (rows2_2048_5_disj trips1_1 _) (rows2_2048_5_cover trips1_1 _) f₀)
  refine bigSep_mono fun t1 _ => ?_
  refine BI.Entails.trans ?_ (pts_join (ℓ := outLoc1 d) _ (fun t3 : Fin k3_t3_loop.trips => rows2 (163840 * c.val + 10240 * i.val + 2048 * t1.val + 256 * t3.val) 256)
    (rows2_256_8_disj trips1_3 _) (rows2_256_8_cover trips1_3 _) f₀)
  refine bigSep_mono fun t3 _ => ?_
  refine BI.Entails.trans ?_ (pts_join (ℓ := outLoc1 d) _ (fun b : Fin 2 => rows2 (163840 * c.val + 10240 * i.val + 2048 * t1.val + 256 * t3.val + 128 * b.val) 128)
    (rows2_128_2_disj rfl _) (rows2_128_2_cover rfl _) f₀)
  rw [bigSep_univ_two, outASet1_eq, outBSet1_eq]
  exact BI.Entails.refl _

end Out1

/-! ## Call 1: the table's rows and the shared scratch's -/

section Tbl1
variable [FloatOps F]

/-- A writing tile's rows of the table as a run of rows, no rows for the others. -/
theorem tblPiece1_iff (d : Dev nD) (c : Fin 2) (i : Fin 16) :
    (tblPiece1 (F := F) d (coords1 c i) : sProp 𝕄) ⊣⊢ iprop(∃ tb : Buf (Elt F) (tblLoc d), tblLoc d ↦[wrows (10000 * c.val) i]{fullShare} tb) := by
  unfold tblPiece1 wrows
  by_cases h : k3_cond1 (coords1 c i) = 1#1
  · have hi : i.val < 10 := (cond1_iff _).mp h
    rw [dif_pos h, if_pos hi, tblSet1_eq]
    exact ⟨BI.Entails.refl _, BI.Entails.refl _⟩
  · have hi : ¬ i.val < 10 := fun hi => h ((cond1_iff (coords1 c i)).mpr hi)
    rw [dif_neg h, if_neg hi]
    constructor
    · show (_ : sProp 𝕄) ⊢ _
      iintro -
      iexists (Classical.choice inferInstance)
      rw [pointsTo_empty]
      iempintro
    · exact BIClass.exists_elim fun tb => Entails.of_eq pointsTo_empty

theorem tbl_fwd1 (d : Dev nD) (c : Fin 2) (tb : Buf (Elt F) (tblLoc d)) :
    (tblLoc d ↦[halfT c]{fullShare} tb : sProp 𝕄) ⊢ bigSep Finset.univ fun i : Fin 16 => tblPiece1 d (coords1 c i) := by
  rw [halfT_eq, pts_split (ℓ := tblLoc d) _ (fun i : Fin 16 => wrows (10000 * c.val) i) (wrows_disj _) (wrows_cover _) tb]
  refine bigSep_mono fun i _ => ?_
  refine BI.Entails.trans ?_ (tblPiece1_iff d c i).2
  exact BIClass.exists_intro (Φ := fun f : Buf (Elt F) (tblLoc d) => (tblLoc d ↦[wrows (10000 * c.val) i]{fullShare} f : sProp 𝕄)) tb

theorem tbl_bwd1 (d : Dev nD) (c : Fin 2) (f₀ : Buf (Elt F) (tblLoc d)) :
    (bigSep Finset.univ fun i : Fin 16 => tblPiece1 (F := F) d (coords1 c i))
      ⊢ (iprop(∃ tb : Buf (Elt F) (tblLoc d), tblLoc d ↦[halfT c]{fullShare} tb) : sProp 𝕄) := by
  rw [halfT_eq]
  refine BI.Entails.trans ?_ (pts_join (ℓ := tblLoc d) _ (fun i : Fin 16 => wrows (10000 * c.val) i) (wrows_disj _) (wrows_cover _) f₀)
  exact bigSep_mono fun i _ => (tblPiece1_iff d c i).1

end Tbl1

section Sh1
variable [FloatOps F]

/-- A writing tile's rows of the shared scratch as a run of rows, no rows for the others. -/
theorem shPiece1_iff (q : PosShare TreeShare) (d : Dev nD) (c : Fin 2) (i : Fin 16) :
    (shPiece1 (F := F) q d (coords1 c i) : sProp 𝕄)
      ⊣⊢ iprop(∃ f : Buf (Elt F) (sh1Loc d (c.castLE hcore3)), sh1Loc d (c.castLE hcore3) ↦[wrows 0 i]{q} f) := by
  unfold shPiece1 wrows
  by_cases h : k3_cond1 (coords1 c i) = 1#1
  · have hi : i.val < 10 := (cond1_iff _).mp h
    rw [dif_pos h, if_pos hi, shSet1_eq, Nat.zero_add]
    exact ⟨BI.Entails.refl _, BI.Entails.refl _⟩
  · have hi : ¬ i.val < 10 := fun hi => h ((cond1_iff (coords1 c i)).mpr hi)
    rw [dif_neg h, if_neg hi]
    constructor
    · show (_ : sProp 𝕄) ⊢ _
      iintro -
      iexists (Classical.choice inferInstance)
      rw [pointsTo_empty]
      iempintro
    · exact BIClass.exists_elim fun tb => Entails.of_eq pointsTo_empty

theorem sh_fwd1 (d : Dev nD) (c : Fin 2) (f : Buf (Elt F) (sh1Loc d (c.castLE hcore3))) :
    (sh1Loc d (c.castLE hcore3) ↦{fullShare} f : sProp 𝕄) ⊢ bigSep Finset.univ fun i : Fin 16 => shPiece1 fullShare d (coords1 c i) := by
  show (sh1Loc d (c.castLE hcore3) ↦[Finset.univ]{fullShare} f : sProp 𝕄) ⊢ _
  rw [pts_split (ℓ := sh1Loc d (c.castLE hcore3)) Finset.univ (fun i : Fin 16 => wrows 0 i) shAll_disj shAll_cover f]
  refine bigSep_mono fun i _ => ?_
  refine BI.Entails.trans ?_ (shPiece1_iff fullShare d c i).2
  exact BIClass.exists_intro (Φ := fun g : Buf (Elt F) (sh1Loc d (c.castLE hcore3)) => (sh1Loc d (c.castLE hcore3) ↦[wrows 0 i]{fullShare} g : sProp 𝕄)) f

/-- The sixteen read shares of the shared scratch, each at contents of its own, and what the writing tiles kept aside of
    their rows rejoin into the scratch whole. -/
theorem sh_bwd1 (d : Dev nD) (c : Fin 2) :
    iprop((bigSep Finset.univ fun i : Fin 16 => iprop(∃ g : Buf (Elt F) (sh1Loc d (c.castLE hcore3)), sh1Loc d (c.castLE hcore3) ↦{rdShare i.val} g))
        ∗ (bigSep Finset.univ fun i : Fin 16 => shPiece1 (F := F) restShare d (coords1 c i)))
      ⊢ (iprop(∃ f : Buf (Elt F) (sh1Loc d (c.castLE hcore3)), sh1Loc d (c.castLE hcore3) ↦{fullShare} f) : sProp 𝕄) := by
  have hrest : (bigSep Finset.univ fun i : Fin 16 => shPiece1 (F := F) restShare d (coords1 c i))
      ⊢ (iprop(∃ f : Buf (Elt F) (sh1Loc d (c.castLE hcore3)), sh1Loc d (c.castLE hcore3) ↦[Finset.univ]{restShare} f) : sProp 𝕄) :=
    (bigSep_mono fun i _ => (shPiece1_iff restShare d c i).1).trans
      (pts_join (ℓ := sh1Loc d (c.castLE hcore3)) Finset.univ (fun i : Fin 16 => wrows 0 i) shAll_disj shAll_cover (Classical.choice inferInstance))
  -- every read share read at the rest's contents
  have hunify : ∀ (f : Buf (Elt F) (sh1Loc d (c.castLE hcore3))) (s : Finset (Fin 16)),
      iprop((sh1Loc d (c.castLE hcore3) ↦{restShare} f)
          ∗ (bigSep s fun i : Fin 16 => iprop(∃ g : Buf (Elt F) (sh1Loc d (c.castLE hcore3)), sh1Loc d (c.castLE hcore3) ↦{rdShare i.val} g)))
        ⊢ (iprop((sh1Loc d (c.castLE hcore3) ↦{restShare} f)
          ∗ (bigSep s fun i : Fin 16 => (sh1Loc d (c.castLE hcore3) ↦{rdShare i.val} f))) : sProp 𝕄) := by
    intro f s
    induction s using Finset.induction_on with
    | empty =>
      rw [bigSep_empty, bigSep_empty]
    | insert a s ha ih =>
      rw [SparseCore.bigSep_insert' ha, SparseCore.bigSep_insert' ha]
      show (_ : sProp 𝕄) ⊢ _
      iintro ⟨Hf, ⟨%g, Hg⟩, Hs⟩
      ihave H1 := (pts_agree_rw (ℓ := sh1Loc d (c.castLE hcore3)) f g) $$ [Hf Hg]
      · isplitl [Hf]; · iexact Hf
        iexact Hg
      icases H1 with ⟨Hf, Hg⟩
      ihave H2 := ih $$ [Hf Hs]
      · isplitl [Hf]; · iexact Hf
        iexact Hs
      icases H2 with ⟨Hf, Hs⟩
      isplitl [Hf]; · iexact Hf
      isplitl [Hg]; · iexact Hg
      iexact Hs
  show (_ : sProp 𝕄) ⊢ _
  iintro ⟨Hrd, Hrest⟩
  ihave Hr := hrest $$ Hrest
  icases Hr with ⟨%f, Hf⟩
  ihave H := (hunify f Finset.univ) $$ [Hf Hrd]
  · isplitl [Hf]; · iexact Hf
    iexact Hrd
  iexists f
  iapply (Transfers.pointsTo_toks_join (ℓ := sh1Loc d (c.castLE hcore3)) (S := Finset.univ) (f := f) fullShare 16)
  iexact H

end Sh1

/-! ## Call 1: the split -/

section Split1
variable [FloatOps F]

/-- SparseCore `c`'s shared scratch of call 1 is among its sequencer's own buffers: it, at some contents, and the rest. -/
theorem ownBufs_S1 (d : Dev nD) (c : Fin τ.nSC) :
    (ownBufs (S d c) : sProp 𝕄)
      = iprop((∃ f, sh1Loc d c ↦{fullShare} f) ∗ bigSep ((ownRefs (τ := τ) (.scScalar c)).erase (⟨.shared, ⟨1, by decide⟩, c⟩ : DevRef τ sig))
          fun b => iprop(∃ f, ((d, b) : Loc nD τ sig) ↦{fullShare} f)) := by
  unfold SparseCore.Cfg.ownBufs
  have h : (⟨.shared, ⟨1, by decide⟩, c⟩ : DevRef τ sig) ∈ ownRefs (τ := τ) (sig := sig) (.scScalar c) :=
    (mem_ownRefs (p := Proc.scScalar c) (b := (⟨.shared, ⟨1, by decide⟩, c⟩ : DevRef τ sig))).mpr rfl
  exact SparseCore.bigSep_erase' h

/-- That every barrier cell of the SparseCore has reached round 1 is there for every tile. -/
theorem reached_all1 (d : Dev nD) (c : Fin 2) :
    (bigSep Finset.univ fun j : Fin τ.nSub => reached EB (bcell d (c.castLE hcore3) j) 1 : sProp 𝕄)
      ⊢ bigSep Finset.univ fun i : Fin 16 => bigSep Finset.univ fun j : Fin (grid3.bound 1) => reached EB (bcell d (cV1 (coords1 c i)) (j.castLE hsub3)) 1 :=
  show (_ : sProp 𝕄) ⊢ bigSep Finset.univ (fun _ : Fin 16 => (bigSep Finset.univ fun j : Fin τ.nSub => reached EB (bcell d (c.castLE hcore3) j) 1)) from
    bigSep_of_persistent Finset.univ _

theorem vecSplit1_core (d : Dev nD) (c : Fin 2) :
    iprop(iprop(stCore1 (F := F) d c ∗ barNext d (c.castLE hcore3)) ∗ ownBufs (S d (c.castLE hcore3))) ⊢ |={Set.univ}=> (iprop(
      (bigSep Finset.univ fun i : Fin 16 => go1 d (coords1 c i))
      ∗ ((bigSep Finset.univ fun i : Fin 16 => td1 d (coords1 c i))
          -∗ iprop(stCore1 d c ∗ ownBufs (S d (c.castLE hcore3))))) : sProp 𝕄) := by
  rw [ownBufs_S1]
  unfold go1 td1 barNext
  simp only [bigSep_sep']
  unfold stCore1
  iintro ⟨⟨⟨%tb, %jx, %ob, Ht, Hj, Ho, %hj⟩, Hat, Hre⟩, ⟨%fsh, Hsh⟩, Hrest⟩
  imodintro
  isplitl [Ht Hj Ho Hsh Hat Hre]
  · isplitl [Hj]; · iapply (idx_fwd1 d c jx hj); iexact Hj
    isplitl [Ho]; · iapply (out_fwd1 d c ob); iexact Ho
    isplitl [Ht]; · iapply (tbl_fwd1 d c tb); iexact Ht
    isplitl [Hsh]; · iapply (sh_fwd1 d c fsh); iexact Hsh
    isplitl [Hat]; · iexact Hat
    iapply (reached_all1 d c); iexact Hre
  iintro ⟨Hj, Ho, Ht, Hrd, Hrs⟩
  ihave Hj' := (idx_bwd1 d c) $$ Hj
  icases Hj' with ⟨%jx', Hj, %hj'⟩
  ihave Ho' := (out_bwd1 d c ob) $$ Ho
  icases Ho' with ⟨%ob', Ho⟩
  ihave Ht' := (tbl_bwd1 d c tb) $$ Ht
  icases Ht' with ⟨%tb', Ht⟩
  ihave Hsh := (sh_bwd1 d c) $$ [Hrd Hrs]
  · isplitl [Hrd]; · iexact Hrd
    iexact Hrs
  isplitl [Hj Ho Ht]
  · iexists tb', jx', ob'
    isplitl [Ht]; · iexact Ht
    isplitl [Hj]; · iexact Hj
    isplitl [Ho]; · iexact Ho
    ipureintro; exact hj'
  isplitl [Hsh]; · iexact Hsh
  iexact Hrest

theorem vecSplit1 : (K (F := F)).VecSplit (P (F := F)) 1 := fun d c => vecSplit1_core d (Fin.cast (nCore_eq 1) c)

end Split1

end Cert.ProofBits.Sc.Split
end
-- ==== Proof.RefRun.lean ====
/-
  The reference program, run. Its @main is a straight line of host operations once the three module-local
  functions it calls (the row lookup, twice, and x ↦ x·σ(x), once) are unfolded at their call sites over the
  buffers each call names: one hundred and four operations. Every weakly fair execution of it terminates with
  the result buffer at the operations' composed term of the twelve argument arrays (`refOut`, stated in
  stages below) and the arguments unchanged; the frame is that statement with the value dropped.
-/
import proofs.«217078_g14027363189340_cont_week2b_886_24_alg».proof.Defs
import proofs.«217078_g14027363189340_cont_week2b_886_24_alg».proof.Proof.Gen.ReferenceIdeal
import Idealize.ShloMosaic.Lib.StableHlo.Run

noncomputable section

namespace Cert.Proof.Ref

open Cert.ReferenceIdeal Cert.ReferenceIdeal.Gen Idealize.ShloMosaic Idealize.ShloMosaic.TcCoe Idealize.SL.Sem
  Idealize.ShloMosaic.StableHlo

variable {F : FTy → Type} [FloatOps F]

/-! ## What the operations compute, in stages -/

/-- `e · Weᵀ`: the edge features' projection (contraction over the 16 input features). -/
def projE (e : FVec F S320000x16 .f32) (We : FVec F S128x16 .f32) : FVec F S320000x128 .f32 :=
  Host.dotGeneral dot_S320000x16_S16x128_S320000x128_1_0_0_1_n_n none e
    (transpose S16x128 [1, 0] We transposes_S128x16_S16x128_1_0)

/-- `x · Wᵀ`: a node table's projection (contraction over the 128 input features). -/
def projN (x : FVec F S10000x128 .f32) (W : FVec F S128x128 .f32) : FVec F S10000x128 .f32 :=
  Host.dotGeneral dot_S10000x128_S128x128_S10000x128_1_0_0_1_n_n none x
    (transpose S128x128 [1, 0] W transposes_S128x128_S128x128_1_0)

/-- A vector of 128 as a row, repeated down 10000 rows. -/
def rowsN (b : FVec F S128 .f32) : FVec F S10000x128 .f32 :=
  broadcastInDim S10000x128 ![0, 1] bcast_S1x128_S10000x128_0_1 (broadcastInDim S1x128 ![1] bcast_S128_S1x128_1 b)

/-- A vector of 128 as a row, repeated down 320000 rows. -/
def rowsE (b : FVec F S128 .f32) : FVec F S320000x128 .f32 :=
  broadcastInDim S320000x128 ![0, 1] bcast_S1x128_S320000x128_0_1 (broadcastInDim S1x128 ![1] bcast_S128_S1x128_1 b)

/-- `x · Wᵀ + b`, the bias added to every row. -/
def projD (x : FVec F S10000x128 .f32) (W : FVec F S128x128 .f32) (b : FVec F S128 .f32) : FVec F S10000x128 .f32 :=
  addf (projN x W) (rowsN b)

/-- Row 0 of the index array: each edge's source node. -/
def srcIdx (ei : IVec S2x320000 32) : IVec S320000 32 :=
  shapeCast S320000 (extractStridedSlice S1x320000 ![0, 0] ei slices_S2x320000_S1x320000_0_0) shapeCasts_S1x320000_S320000

/-- Row 1 of the index array: each edge's destination node. -/
def dstIdx (ei : IVec S2x320000 32) : IVec S320000 32 :=
  shapeCast S320000 (extractStridedSlice S1x320000 ![1, 0] ei slices_S2x320000_S1x320000_1_0) shapeCasts_S1x320000_S320000

/-- An index below zero counted from the end: `i + 10000` where `i < 0`, else `i`. -/
def wrapIdx (idx : IVec S320000 32) : IVec S320000 32 :=
  select (cmpi .slt idx (broadcastInDim S320000 ![] bcast_S_S320000 (constantI S_ 32 0#32)))
    (addi idx (broadcastInDim S320000 ![] bcast_S_S320000 (constantI S_ 32 10000#32))) idx

/-- The wrapped indices as a column: one start coordinate per looked-up row. -/
def idxCol (idx : IVec S320000 32) : IVec S320000x1 32 :=
  broadcastInDim S320000x1 ![0] bcast_S320000_S320000x1_0 (wrapIdx idx)

/-- Per looked-up row, whether its wrapped index names a row of the table: `0 ≤ i ∧ i ≤ 9999`, the conjunction
    over the one coordinate. -/
def inRange (idx : IVec S320000 32) : IVec S320000 1 :=
  Host.reduce IntOp.andi
    (andi (cmpi .sge (idxCol idx) (broadcastInDim S320000x1 ![] bcast_S_S320000x1 (constantI S_ 32 0#32)))
      (cmpi .sle (idxCol idx)
        (broadcastInDim S320000x1 ![0, 1] bcast_S1x1_S320000x1_0_1
          (broadcastInDim S1x1 ![1] bcast_S1_S1x1_1 (constantI S1 32 9999#32)))))
    (constantI S_ 1 1#1) reducesTo_S320000x1_S320000_d1 h_S_

/-- The row lookup: row `idx e` of the table for every edge `e` whose index names a row, the fill value
    (the word `0x7FC00000`) elsewhere. -/
def takeRows (tbl : FVec F S10000x128 .f32) (idx : IVec S320000 32) : FVec F S320000x128 .f32 :=
  select (broadcastInDim S320000x128 ![0] bcast_S320000_S320000x128_0 (inRange idx))
    (Host.gather gather_S10000x128_S320000x1_S320000x128_1_0_n_n_0_1_1128 tbl (idxCol idx))
    (broadcastInDim S320000x128 ![] bcast_S_S320000x128 (constant S_ .f32 0x7FC00000#32))

/-- The sum of the three projections, per edge: its own, its source node's, its destination node's. -/
def preAct (a0 : FVec F S320000x16 .f32) (a1 a2 : FVec F S10000x128 .f32) (a3 : IVec S2x320000 32)
    (a4 : FVec F S128x16 .f32) (a5 a6 : FVec F S128x128 .f32) (a7 : FVec F S128 .f32) : FVec F S320000x128 .f32 :=
  addf (addf (projE a0 a4) (takeRows (projN a1 a5) (srcIdx a3))) (takeRows (projD a2 a6 a7) (dstIdx a3))

/-- `x · 1 / (1 + exp (-x))`, elementwise. -/
def silu (x : FVec F S320000x128 .f32) : FVec F S320000x128 .f32 :=
  mulf x
    (Host.divf (broadcastInDim S320000x128 ![] bcast_S_S320000x128 (constant S_ .f32 0x3F800000#32))
      (addf (broadcastInDim S320000x128 ![] bcast_S_S320000x128 (constant S_ .f32 0x3F800000#32)) (Host.exp (Host.negf x))))

/-- The output projection `s · W1ᵀ + b1`. -/
def outProj (s : FVec F S320000x128 .f32) (W1 : FVec F S128x128 .f32) (b1 : FVec F S128 .f32) : FVec F S320000x128 .f32 :=
  addf (Host.dotGeneral dot_S320000x128_S128x128_S320000x128_1_0_0_1_n_n none s
      (transpose S128x128 [1, 0] W1 transposes_S128x128_S128x128_1_0))
    (rowsE b1)

/-- The mean along each row: the row's sum (from zero) over 128, as a column. -/
def rowMean (h : FVec F S320000x128 .f32) : FVec F S320000x1 .f32 :=
  Host.divf
    (broadcastInDim S320000x1 ![0] bcast_S320000_S320000x1_0
      (Host.reduceAdd h (constant S_ .f32 0x00000000#32) reducesTo_S320000x128_S320000_d1 h_S_))
    (broadcastInDim S320000x1 ![] bcast_S_S320000x1 (constant S_ .f32 0x43000000#32))

/-- Each element minus its row's mean. -/
def centered (h : FVec F S320000x128 .f32) : FVec F S320000x128 .f32 :=
  subf h (broadcastInDim S320000x128 ![0, 1] bcast_S320000x1_S320000x128_0_1 (rowMean h))

/-- The variance along each row: the mean of the squared deviations. -/
def rowVar (h : FVec F S320000x128 .f32) : FVec F S320000x1 .f32 :=
  rowMean (mulf (centered h) (centered h))

/-- Row normalisation: `(h - mean) / sqrt (var + ε) · γ + β`, ε the word `0x3727C5AC`. -/
def layerNorm (h : FVec F S320000x128 .f32) (g b : FVec F S128 .f32) : FVec F S320000x128 .f32 :=
  addf
    (mulf
      (Host.divf (centered h)
        (broadcastInDim S320000x128 ![0, 1] bcast_S320000x1_S320000x128_0_1
          (Host.sqrt (addf (rowVar h) (broadcastInDim S320000x1 ![] bcast_S_S320000x1 (constant S_ .f32 0x3727C5AC#32))))))
      (rowsE g))
    (rowsE b)

/-- The reference's result as a function of its twelve argument arrays. -/
def refOut (a0 : FVec F S320000x16 .f32) (a1 a2 : FVec F S10000x128 .f32) (a3 : IVec S2x320000 32)
    (a4 : FVec F S128x16 .f32) (a5 a6 : FVec F S128x128 .f32) (a7 : FVec F S128 .f32)
    (a8 : FVec F S128x128 .f32) (a9 a10 a11 : FVec F S128 .f32) : FVec F S320000x128 .f32 :=
  layerNorm (outProj (silu (preAct a0 a1 a2 a3 a4 a5 a6 a7)) a8 a9) a10 a11

/-! ## The program as a list of operations -/

/-- @main's operations in order, each call's operations at its call site over that call's buffers. -/
abbrev ops : List (HloOp τ sig (Elt F)) :=
  [
    StableHlo.unary main_arg4 main_v0 ((transpose S16x128 [1, 0] · transposes_S128x16_S16x128_1_0) : (⟨S128x16, .f32⟩ : BufTy).Contents (Elt F) → (⟨S16x128, .f32⟩ : BufTy).Contents (Elt F)),
    StableHlo.binary main_arg0 main_v0 main_v1 ((fun l r => Host.dotGeneral dot_S320000x16_S16x128_S320000x128_1_0_0_1_n_n none l r) : (⟨S320000x16, .f32⟩ : BufTy).Contents (Elt F) → (⟨S16x128, .f32⟩ : BufTy).Contents (Elt F) → (⟨S320000x128, .f32⟩ : BufTy).Contents (Elt F)),
    StableHlo.unary main_arg5 main_v2 ((transpose S128x128 [1, 0] · transposes_S128x128_S128x128_1_0) : (⟨S128x128, .f32⟩ : BufTy).Contents (Elt F) → (⟨S128x128, .f32⟩ : BufTy).Contents (Elt F)),
    StableHlo.binary main_arg1 main_v2 main_v3 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    StableHlo.unary main_arg6 main_v4 ((transpose S128x128 [1, 0] · transposes_S128x128_S128x128_1_0) : (⟨S128x128, .f32⟩ : BufTy).Contents (Elt F) → (⟨S128x128, .f32⟩ : BufTy).Contents (Elt F)),
    StableHlo.binary main_arg2 main_v4 main_v5 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    StableHlo.unary main_arg7 main_v6 (broadcastInDim S1x128 ![1] bcast_S128_S1x128_1 : (⟨S128, .f32⟩ : BufTy).Contents (Elt F) → (⟨S1x128, .f32⟩ : BufTy).Contents (Elt F)),
    StableHlo.unary main_v6 main_v7 (broadcastInDim S10000x128 ![0, 1] bcast_S1x128_S10000x128_0_1 : (⟨S1x128, .f32⟩ : BufTy).Contents (Elt F) → (⟨S10000x128, .f32⟩ : BufTy).Contents (Elt F)),
    StableHlo.binary main_v5 main_v7 main_v8 (addf : (⟨S10000x128, .f32⟩ : BufTy).Contents (Elt F) → (⟨S10000x128, .f32⟩ : BufTy).Contents (Elt F) → (⟨S10000x128, .f32⟩ : BufTy).Contents (Elt F)),
    StableHlo.unary main_arg3 main_v9 ((extractStridedSlice S1x320000 ![0, 0] · slices_S2x320000_S1x320000_0_0) : (⟨S2x320000, .i32⟩ : BufTy).Contents (Elt F) → (⟨S1x320000, .i32⟩ : BufTy).Contents (Elt F)),
    StableHlo.reshape main_v9 main_v10 rfl shapeCasts_S1x320000_S320000,
    StableHlo.unary main_arg3 main_v11 ((extractStridedSlice S1x320000 ![1, 0] · slices_S2x320000_S1x320000_1_0) : (⟨S2x320000, .i32⟩ : BufTy).Contents (Elt F) → (⟨S1x320000, .i32⟩ : BufTy).Contents (Elt F)),
    StableHlo.reshape main_v11 main_v12 rfl shapeCasts_S1x320000_S320000,
    StableHlo.TRef.nullary main_call0.c (constantI S_ 32 0#32),
    StableHlo.TRef.unary main_call0.c main_call0.v0 (broadcastInDim S320000 ![] bcast_S_S320000),
    StableHlo.TRef.binary (.of main_v10 : StableHlo.TRef sig ⟨S320000, .i32⟩) main_call0.v0 main_call0.v1 (cmpi .slt),
    StableHlo.TRef.nullary main_call0.c_0 (constantI S_ 32 10000#32),
    StableHlo.TRef.unary main_call0.c_0 main_call0.v2 (broadcastInDim S320000 ![] bcast_S_S320000),
    StableHlo.TRef.binary (.of main_v10 : StableHlo.TRef sig ⟨S320000, .i32⟩) main_call0.v2 main_call0.v3 addi,
    StableHlo.TRef.ternary main_call0.v1 main_call0.v3 (.of main_v10 : StableHlo.TRef sig ⟨S320000, .i32⟩) main_call0.call0.v0 select,
    StableHlo.TRef.unary main_call0.call0.v0 main_call0.v5 (broadcastInDim S320000x1 ![0] bcast_S320000_S320000x1_0),
    StableHlo.TRef.nullary main_call0.c_1 (constantI S1 32 9999#32),
    StableHlo.TRef.nullary main_call0.c_2 (constantI S_ 32 0#32),
    StableHlo.TRef.unary main_call0.c_2 main_call0.v6 (broadcastInDim S320000x1 ![] bcast_S_S320000x1),
    StableHlo.TRef.binary main_call0.v5 main_call0.v6 main_call0.v7 (cmpi .sge),
    StableHlo.TRef.unary main_call0.c_1 main_call0.v8 (broadcastInDim S1x1 ![1] bcast_S1_S1x1_1),
    StableHlo.TRef.unary main_call0.v8 main_call0.v9 (broadcastInDim S320000x1 ![0, 1] bcast_S1x1_S320000x1_0_1),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S320000x1_S320000_d1 h_S_),
    StableHlo.TRef.binary (.of main_v3 : StableHlo.TRef sig ⟨S10000x128, .f32⟩) main_call0.v5 main_call0.v13 (fun x i => Host.gather gather_S10000x128_S320000x1_S320000x128_1_0_n_n_0_1_1128 x i),
    StableHlo.TRef.unary main_call0.v12 main_call0.v14 (broadcastInDim S320000x128 ![0] bcast_S320000_S320000x128_0),
    StableHlo.TRef.nullary main_call0.cst (constant S_ .f32 0x7FC00000#32),
    StableHlo.TRef.unary main_call0.cst main_call0.v15 (broadcastInDim S320000x128 ![] bcast_S_S320000x128),
    StableHlo.TRef.ternary main_call0.v14 main_call0.v13 main_call0.v15 main_call0.v16 select,
    StableHlo.binary main_v1 main_v13 main_v14 (addf : (⟨S320000x128, .f32⟩ : BufTy).Contents (Elt F) → (⟨S320000x128, .f32⟩ : BufTy).Contents (Elt F) → (⟨S320000x128, .f32⟩ : BufTy).Contents (Elt F)),
    StableHlo.TRef.nullary main_call1.c (constantI S_ 32 0#32),
    StableHlo.TRef.unary main_call1.c main_call1.v0 (broadcastInDim S320000 ![] bcast_S_S320000),
    StableHlo.TRef.binary (.of main_v12 : StableHlo.TRef sig ⟨S320000, .i32⟩) main_call1.v0 main_call1.v1 (cmpi .slt),
    StableHlo.TRef.nullary main_call1.c_0 (constantI S_ 32 10000#32),
    StableHlo.TRef.unary main_call1.c_0 main_call1.v2 (broadcastInDim S320000 ![] bcast_S_S320000),
    StableHlo.TRef.binary (.of main_v12 : StableHlo.TRef sig ⟨S320000, .i32⟩) main_call1.v2 main_call1.v3 addi,
    StableHlo.TRef.ternary main_call1.v1 main_call1.v3 (.of main_v12 : StableHlo.TRef sig ⟨S320000, .i32⟩) main_call1.call0.v0 select,
    StableHlo.TRef.unary main_call1.call0.v0 main_call1.v5 (broadcastInDim S320000x1 ![0] bcast_S320000_S320000x1_0),
    StableHlo.TRef.nullary main_call1.c_1 (constantI S1 32 9999#32),
    StableHlo.TRef.nullary main_call1.c_2 (constantI S_ 32 0#32),
    StableHlo.TRef.unary main_call1.c_2 main_call1.v6 (broadcastInDim S320000x1 ![] bcast_S_S320000x1),
    StableHlo.TRef.binary main_call1.v5 main_call1.v6 main_call1.v7 (cmpi .sge),
    StableHlo.TRef.unary main_call1.c_1 main_call1.v8 (broadcastInDim S1x1 ![1] bcast_S1_S1x1_1),
    StableHlo.TRef.unary main_call1.v8 main_call1.v9 (broadcastInDim S320000x1 ![0, 1] bcast_S1x1_S320000x1_0_1),
    StableHlo.TRef.binary main_call1.v5 main_call1.v9 main_call1.v10 (cmpi .sle),
    StableHlo.TRef.binary main_call1.v7 main_call1.v10 main_call1.v11 andi,
    StableHlo.TRef.nullary main_call1.c_3 (constantI S_ 1 1#1),
    StableHlo.TRef.binary main_call1.v11 main_call1.c_3 main_call1.v12 (fun x v => Host.reduce IntOp.andi x v reducesTo_S320000x1_S320000_d1 h_S_),
    StableHlo.TRef.binary (.of main_v8 : StableHlo.TRef sig ⟨S10000x128, .f32⟩) main_call1.v5 main_call1.v13 (fun x i => Host.gather gather_S10000x128_S320000x1_S320000x128_1_0_n_n_0_1_1128 x i),
    StableHlo.TRef.unary main_call1.v12 main_call1.v14 (broadcastInDim S320000x128 ![0] bcast_S320000_S320000x128_0),
    StableHlo.TRef.nullary main_call1.cst (constant S_ .f32 0x7FC00000#32),
    StableHlo.TRef.unary main_call1.cst main_call1.v15 (broadcastInDim S320000x128 ![] bcast_S_S320000x128),
    StableHlo.TRef.ternary main_call1.v14 main_call1.v13 main_call1.v15 main_call1.v16 select,
    StableHlo.binary main_v14 main_v15 main_v16 (addf : (⟨S320000x128, .f32⟩ : BufTy).Contents (Elt F) → (⟨S320000x128, .f32⟩ : BufTy).Contents (Elt F) → (⟨S320000x128, .f32⟩ : BufTy).Contents (Elt F)),
    StableHlo.TRef.unary (.of main_v16 : StableHlo.TRef sig ⟨S320000x128, .f32⟩) main_call2.v0 Host.negf,
    StableHlo.TRef.unary main_call2.v0 main_call2.v1 Host.exp,
    StableHlo.TRef.nullary main_call2.cst (constant S_ .f32 0x3F800000#32),
    StableHlo.TRef.unary main_call2.cst main_call2.v2 (broadcastInDim S320000x128 ![] bcast_S_S320000x128),
    StableHlo.TRef.binary main_call2.v2 main_call2.v1 main_call2.v3 addf,
    StableHlo.TRef.nullary main_call2.cst_0 (constant S_ .f32 0x3F800000#32),
    StableHlo.TRef.unary main_call2.cst_0 main_call2.v4 (broadcastInDim S320000x128 ![] bcast_S_S320000x128),
    StableHlo.TRef.binary main_call2.v4 main_call2.v3 main_call2.v5 Host.divf,
    StableHlo.TRef.binary (.of main_v16 : StableHlo.TRef sig ⟨S320000x128, .f32⟩) main_call2.v5 main_call2.v6 mulf,
    StableHlo.unary main_arg8 main_v18 ((transpose S128x128 [1, 0] · transposes_S128x128_S128x128_1_0) : (⟨S128x128, .f32⟩ : BufTy).Contents (Elt F) → (⟨S128x128, .f32⟩ : BufTy).Contents (Elt F)),
    StableHlo.binary main_v17 main_v18 main_v19 ((fun l r => Host.dotGeneral dot_S320000x128_S128x128_S320000x128_1_0_0_1_n_n none l r) : (⟨S320000x128, .f32⟩ : BufTy).Contents (Elt F) → (⟨S128x128, .f32⟩ : BufTy).Contents (Elt F) → (⟨S320000x128, .f32⟩ : BufTy).Contents (Elt F)),
    StableHlo.unary main_arg9 main_v20 (broadcastInDim S1x128 ![1] bcast_S128_S1x128_1 : (⟨S128, .f32⟩ : BufTy).Contents (Elt F) → (⟨S1x128, .f32⟩ : BufTy).Contents (Elt F)),
    StableHlo.unary main_v20 main_v21 (broadcastInDim S320000x128 ![0, 1] bcast_S1x128_S320000x128_0_1 : (⟨S1x128, .f32⟩ : BufTy).Contents (Elt F) → (⟨S320000x128, .f32⟩ : BufTy).Contents (Elt F)),
    StableHlo.binary main_v19 main_v21 main_v22 (addf : (⟨S320000x128, .f32⟩ : BufTy).Contents (Elt F) → (⟨S320000x128, .f32⟩ : BufTy).Contents (Elt F) → (⟨S320000x128, .f32⟩ : BufTy).Contents (Elt F)),
    StableHlo.nullary main_cst (constant S_ .f32 0x00000000#32),
    StableHlo.binary main_v22 main_cst main_v23 ((fun x v => Host.reduceAdd x v reducesTo_S320000x128_S320000_d1 h_S_) : (⟨S320000x128, .f32⟩ : BufTy).Contents (Elt F) → (⟨S_, .f32⟩ : BufTy).Contents (Elt F) → (⟨S320000, .f32⟩ : BufTy).Contents (Elt F)),
    StableHlo.unary main_v23 main_v24 (broadcastInDim S320000x1 ![0] bcast_S320000_S320000x1_0 : (⟨S320000, .f32⟩ : BufTy).Contents (Elt F) → (⟨S320000x1, .f32⟩ : BufTy).Contents (Elt F)),
    StableHlo.nullary main_cst_0 (constant S_ .f32 0x43000000#32),
    StableHlo.unary main_cst_0 main_v25 (broadcastInDim S320000x1 ![] bcast_S_S320000x1 : (⟨S_, .f32⟩ : BufTy).Contents (Elt F) → (⟨S320000x1, .f32⟩ : BufTy).Contents (Elt F)),
    StableHlo.binary main_v24 main_v25 main_v26 (Host.divf : (⟨S320000x1, .f32⟩ : BufTy).Contents (Elt F) → (⟨S320000x1, .f32⟩ : BufTy).Contents (Elt F) → (⟨S320000x1, .f32⟩ : BufTy).Contents (Elt F)),
    StableHlo.unary main_v26 main_v27 (broadcastInDim S320000x128 ![0, 1] bcast_S320000x1_S320000x128_0_1 : (⟨S320000x1, .f32⟩ : BufTy).Contents (Elt F) → (⟨S320000x128, .f32⟩ : BufTy).Contents (Elt F)),
    StableHlo.binary main_v22 main_v27 main_v28 (subf : (⟨S320000x128, .f32⟩ : BufTy).Contents (Elt F) → (⟨S320000x128, .f32⟩ : BufTy).Contents (Elt F) → (⟨S320000x128, .f32⟩ : BufTy).Contents (Elt F)),
    StableHlo.binary main_v28 main_v28 main_v29 (mulf : (⟨S320000x128, .f32⟩ : BufTy).Contents (Elt F) → (⟨S320000x128, .f32⟩ : BufTy).Contents (Elt F) → (⟨S320000x128, .f32⟩ : BufTy).Contents (Elt F)),
    StableHlo.nullary main_cst_1 (constant S_ .f32 0x00000000#32),
    StableHlo.binary main_v29 main_cst_1 main_v30 ((fun x v => Host.reduceAdd x v reducesTo_S320000x128_S320000_d1 h_S_) : (⟨S320000x128, .f32⟩ : BufTy).Contents (Elt F) → (⟨S_, .f32⟩ : BufTy).Contents (Elt F) → (⟨S320000, .f32⟩ : BufTy).Contents (Elt F)),
    StableHlo.unary main_v30 main_v31 (broadcastInDim S320000x1 ![0] bcast_S320000_S320000x1_0 : (⟨S320000, .f32⟩ : BufTy).Contents (Elt F) → (⟨S320000x1, .f32⟩ : BufTy).Contents (Elt F)),
    StableHlo.nullary main_cst_2 (constant S_ .f32 0x43000000#32),
    StableHlo.unary main_cst_2 main_v32 (broadcastInDim S320000x1 ![] bcast_S_S320000x1 : (⟨S_, .f32⟩ : BufTy).Contents (Elt F) → (⟨S320000x1, .f32⟩ : BufTy).Contents (Elt F)),
    StableHlo.binary main_v31 main_v32 main_v33 (Host.divf : (⟨S320000x1, .f32⟩ : BufTy).Contents (Elt F) → (⟨S320000x1, .f32⟩ : BufTy).Contents (Elt F) → (⟨S320000x1, .f32⟩ : BufTy).Contents (Elt F)),
    StableHlo.unary main_v26 main_v34 (broadcastInDim S320000x128 ![0, 1] bcast_S320000x1_S320000x128_0_1 : (⟨S320000x1, .f32⟩ : BufTy).Contents (Elt F) → (⟨S320000x128, .f32⟩ : BufTy).Contents (Elt F)),
    StableHlo.binary main_v22 main_v34 main_v35 (subf : (⟨S320000x128, .f32⟩ : BufTy).Contents (Elt F) → (⟨S320000x128, .f32⟩ : BufTy).Contents (Elt F) → (⟨S320000x128, .f32⟩ : BufTy).Contents (Elt F)),
    StableHlo.nullary main_cst_3 (constant S_ .f32 0x3727C5AC#32),
    StableHlo.unary main_cst_3 main_v36 (broadcastInDim S320000x1 ![] bcast_S_S320000x1 : (⟨S_, .f32⟩ : BufTy).Contents (Elt F) → (⟨S320000x1, .f32⟩ : BufTy).Contents (Elt F)),
    StableHlo.binary main_v33 main_v36 main_v37 (addf : (⟨S320000x1, .f32⟩ : BufTy).Contents (Elt F) → (⟨S320000x1, .f32⟩ : BufTy).Contents (Elt F) → (⟨S320000x1, .f32⟩ : BufTy).Contents (Elt F)),
    StableHlo.unary main_v37 main_v38 (Host.sqrt : (⟨S320000x1, .f32⟩ : BufTy).Contents (Elt F) → (⟨S320000x1, .f32⟩ : BufTy).Contents (Elt F)),
    StableHlo.unary main_v38 main_v39 (broadcastInDim S320000x128 ![0, 1] bcast_S320000x1_S320000x128_0_1 : (⟨S320000x1, .f32⟩ : BufTy).Contents (Elt F) → (⟨S320000x128, .f32⟩ : BufTy).Contents (Elt F)),
    StableHlo.binary main_v35 main_v39 main_v40 (Host.divf : (⟨S320000x128, .f32⟩ : BufTy).Contents (Elt F) → (⟨S320000x128, .f32⟩ : BufTy).Contents (Elt F) → (⟨S320000x128, .f32⟩ : BufTy).Contents (Elt F)),
    StableHlo.unary main_arg10 main_v41 (broadcastInDim S1x128 ![1] bcast_S128_S1x128_1 : (⟨S128, .f32⟩ : BufTy).Contents (Elt F) → (⟨S1x128, .f32⟩ : BufTy).Contents (Elt F)),
    StableHlo.unary main_v41 main_v42 (broadcastInDim S320000x128 ![0, 1] bcast_S1x128_S320000x128_0_1 : (⟨S1x128, .f32⟩ : BufTy).Contents (Elt F) → (⟨S320000x128, .f32⟩ : BufTy).Contents (Elt F)),
    StableHlo.binary main_v40 main_v42 main_v43 (mulf : (⟨S320000x128, .f32⟩ : BufTy).Contents (Elt F) → (⟨S320000x128, .f32⟩ : BufTy).Contents (Elt F) → (⟨S320000x128, .f32⟩ : BufTy).Contents (Elt F)),
    StableHlo.unary main_arg11 main_v44 (broadcastInDim S1x128 ![1] bcast_S128_S1x128_1 : (⟨S128, .f32⟩ : BufTy).Contents (Elt F) → (⟨S1x128, .f32⟩ : BufTy).Contents (Elt F)),
    StableHlo.unary main_v44 main_v45 (broadcastInDim S320000x128 ![0, 1] bcast_S1x128_S320000x128_0_1 : (⟨S1x128, .f32⟩ : BufTy).Contents (Elt F) → (⟨S320000x128, .f32⟩ : BufTy).Contents (Elt F)),
    StableHlo.binary main_v43 main_v45 main_v46 (addf : (⟨S320000x128, .f32⟩ : BufTy).Contents (Elt F) → (⟨S320000x128, .f32⟩ : BufTy).Contents (Elt F) → (⟨S320000x128, .f32⟩ : BufTy).Contents (Elt F)) ]

-- one hundred and four binds re-associated: the rewriting recurses once per statement, and each step carries the rest of the line
set_option maxRecDepth 4096 in
set_option maxHeartbeats 4000000 in
/-- @main is that straight line: the functions' bodies unfolded at their calls and the calls' records at their
    fields, both sides are one chain of steps once sequencing is reassociated. -/
theorem main_eq (c : Dev nD) : main (F := F) c = seq ops := by
  simp only [main, fn_take.body, fn_where.body, fn_silu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., binary_bufs_sub .., unary_bufs_sub .., binary_bufs_sub .., unary_bufs_sub .., binary_bufs_sub ..,
    unary_bufs_sub .., unary_bufs_sub .., binary_bufs_sub .., unary_bufs_sub .., reshape_bufs_sub .., unary_bufs_sub ..,
    reshape_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..,
    binary_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..,
    binary_bufs_sub .., unary_bufs_sub .., unary_bufs_sub .., nullary_bufs_sub .., unary_bufs_sub .., binary_bufs_sub ..,
    nullary_bufs_sub .., unary_bufs_sub .., binary_bufs_sub .., binary_bufs_sub .., unary_bufs_sub .., binary_bufs_sub ..,
    unary_bufs_sub .., unary_bufs_sub .., binary_bufs_sub .., nullary_bufs_sub .., binary_bufs_sub .., unary_bufs_sub ..,
    nullary_bufs_sub .., unary_bufs_sub .., binary_bufs_sub .., unary_bufs_sub .., binary_bufs_sub .., binary_bufs_sub ..,
    nullary_bufs_sub .., binary_bufs_sub .., unary_bufs_sub .., nullary_bufs_sub .., unary_bufs_sub .., binary_bufs_sub ..,
    unary_bufs_sub .., binary_bufs_sub .., nullary_bufs_sub .., unary_bufs_sub .., binary_bufs_sub .., unary_bufs_sub ..,
    unary_bufs_sub .., binary_bufs_sub .., unary_bufs_sub .., unary_bufs_sub .., binary_bufs_sub .., unary_bufs_sub ..,
    unary_bufs_sub .., binary_bufs_sub ..⟩

/-! ## What each buffer of interest holds after the line -/

-- the reductions and the lookup are folds and searches over an operand's elements: kept folded while the two terms are compared
attribute [local irreducible] Host.reduce Host.gather Host.reduceAdd in
set_option maxRecDepth 8192 in
set_option maxHeartbeats 1600000 in
/-- The result buffer after the line is `refOut` of the argument buffers: each operation's result read at its own
    buffer is its function of its operands' buffers, read in turn, down to the arguments; a typed reference's
    transport of contents along its type equation is the identity at a literal reference; what is left is `refOut`
    with its stages unfolded. -/
theorem out_eq (V : Valuation τ sig (Elt F)) :
    after ops V (main_v46 : DevRef τ sig)
      = refOut (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) (V (main_arg8 : DevRef τ sig))
          (V (main_arg9 : DevRef τ sig)) (V (main_arg10 : DevRef τ sig)) (V (main_arg11 : DevRef τ sig)) := by
  after_results_simp
  simp only [TRef.toBuf, TRef.ofBuf, cast_cast, cast_eq]
  unfold refOut layerNorm outProj silu preAct takeRows inRange idxCol wrapIdx srcIdx dstIdx projD projN projE rowVar centered rowMean
    rowsE rowsN
  rfl

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

theorem arg4_eq (V : Valuation τ sig (Elt F)) :
    after ops V (main_arg4 : DevRef τ sig) = V (main_arg4 : DevRef τ sig) := by
  after_results_simp

theorem arg5_eq (V : Valuation τ sig (Elt F)) :
    after ops V (main_arg5 : DevRef τ sig) = V (main_arg5 : DevRef τ sig) := by
  after_results_simp

theorem arg6_eq (V : Valuation τ sig (Elt F)) :
    after ops V (main_arg6 : DevRef τ sig) = V (main_arg6 : DevRef τ sig) := by
  after_results_simp

theorem arg7_eq (V : Valuation τ sig (Elt F)) :
    after ops V (main_arg7 : DevRef τ sig) = V (main_arg7 : DevRef τ sig) := by
  after_results_simp

theorem arg8_eq (V : Valuation τ sig (Elt F)) :
    after ops V (main_arg8 : DevRef τ sig) = V (main_arg8 : DevRef τ sig) := by
  after_results_simp

theorem arg9_eq (V : Valuation τ sig (Elt F)) :
    after ops V (main_arg9 : DevRef τ sig) = V (main_arg9 : DevRef τ sig) := by
  after_results_simp

theorem arg10_eq (V : Valuation τ sig (Elt F)) :
    after ops V (main_arg10 : DevRef τ sig) = V (main_arg10 : DevRef τ sig) := by
  after_results_simp

theorem arg11_eq (V : Valuation τ sig (Elt F)) :
    after ops V (main_arg11 : DevRef τ sig) = V (main_arg11 : DevRef τ sig) := by
  after_results_simp

/-! ## The run and the frame -/

/-- On every device, for any float values, from any memory with zero counters: every weakly fair execution of
    @main terminates with the result at `refOut` of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v46)
        = refOut (m ((c.tc : Thread nD τ).loc main_arg0))
            (m ((c.tc : Thread nD τ).loc main_arg1))
            (m ((c.tc : Thread nD τ).loc main_arg2))
            (m ((c.tc : Thread nD τ).loc main_arg3))
            (m ((c.tc : Thread nD τ).loc main_arg4))
            (m ((c.tc : Thread nD τ).loc main_arg5))
            (m ((c.tc : Thread nD τ).loc main_arg6))
            (m ((c.tc : Thread nD τ).loc main_arg7))
            (m ((c.tc : Thread nD τ).loc main_arg8))
            (m ((c.tc : Thread nD τ).loc main_arg9))
            (m ((c.tc : Thread nD τ).loc main_arg10))
            (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v46).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _),
      (h c main_arg11).trans (arg11_eq _)⟩)
    (run_seq scopedRefs_eq scopedSems_eq defs main (fun _ => ops) main_eq (fun _ => ops_sub) m ρ)

/-- The reference's frame: the run with the value dropped. -/
theorem frame_ri [hPre_input_domain : Cert.Pre_input_domain.Facts] : Cert.frame_ReferenceIdeal :=
  fun m ρ _ => (θ_run _ _ _).mono (fun _ h c => (h c).2) (run m ρ)

end Cert.Proof.Ref

end
-- ==== Proof.Spec.lean ====
/-
  The function both programs compute, element by element, over extended reals: per edge `e` and output feature `j`,
  the sum of three projections (the edge's own features, its source node's, its destination node's plus a bias),
  passed through x ↦ x · 1/(1 + exp (−x)), projected again with a bias, and normalised along the row: centred on
  the row's mean, divided by the square root of the row's variance plus ε, scaled and shifted per feature.
-/
import Idealize.ShloMosaic.PureOps.Ideal
import Idealize.ShloMosaic.Lib.ValueIdx

noncomputable section

namespace Cert.Spec

open Idealize.ShloMosaic Idealize.ShloMosaic.ValueIdx
open scoped BigOperators

/-- The row of a ten-thousand-row table a 32-bit index word names: the word read unsigned (a word above 9999 is
    held at the last row; the indices this certificate meets are at most 9999, so are their own values). -/
def row (w : BitVec 32) : Fin 10000 := ⟨min w.toNat 9999, by omega⟩

theorem row_val_of_le {w : BitVec 32} (h : w.toNat ≤ 9999) : (row w).val = w.toNat := Nat.min_eq_left h

section
variable (efeat : FVec Ideal ⟨2, ![320000, 16]⟩ .f32) (src dst : FVec Ideal ⟨2, ![10000, 128]⟩ .f32)
  (ei : IVec ⟨2, ![2, 320000]⟩ 32) (We : FVec Ideal ⟨2, ![128, 16]⟩ .f32) (Ws Wd : FVec Ideal ⟨2, ![128, 128]⟩ .f32)
  (b0 : FVec Ideal ⟨1, ![128]⟩ .f32) (W1 : FVec Ideal ⟨2, ![128, 128]⟩ .f32) (b1 g b : FVec Ideal ⟨1, ![128]⟩ .f32)

/-- The pre-activation of edge `e`, feature `j`: `efeat[e] · We[j] + src[s e] · Ws[j] + (dst[d e] · Wd[j] + b0[j])`,
    `s e`, `d e` the edge's source and destination rows. -/
def pre (e : Fin 320000) (j : Fin 128) : EReal :=
  (∑ k : Fin 16, efeat (ix2 e k) * We (ix2 j k))
    + (∑ k : Fin 128, src (ix2 (row (ei (ix2 (0 : Fin 2) e))) k) * Ws (ix2 j k))
    + ((∑ k : Fin 128, dst (ix2 (row (ei (ix2 (1 : Fin 2) e))) k) * Wd (ix2 j k)) + b0 (ix1 j))

/-- The activation: `x · (1 / (1 + exp (−x)))` at the pre-activation. -/
def act (e : Fin 320000) (j : Fin 128) : EReal :=
  pre efeat src dst ei We Ws Wd b0 e j * Ideal.div 1 (1 + Ideal.exp (-(pre efeat src dst ei We Ws Wd b0 e j)))

/-- The output projection: `act[e] · W1[j] + b1[j]`. -/
def h2 (e : Fin 320000) (j : Fin 128) : EReal :=
  (∑ k : Fin 128, act efeat src dst ei We Ws Wd b0 e k * W1 (ix2 j k)) + b1 (ix1 j)

/-- The row's mean: its sum over 128. -/
def mean (e : Fin 320000) : EReal :=
  Ideal.div (∑ j : Fin 128, h2 efeat src dst ei We Ws Wd b0 W1 b1 e j) 128

/-- The row centred on its mean. -/
def cen (e : Fin 320000) (j : Fin 128) : EReal :=
  h2 efeat src dst ei We Ws Wd b0 W1 b1 e j - mean efeat src dst ei We Ws Wd b0 W1 b1 e

/-- The row's variance: the mean of the squared deviations. -/
def var (e : Fin 320000) : EReal :=
  Ideal.div (∑ j : Fin 128, cen efeat src dst ei We Ws Wd b0 W1 b1 e j * cen efeat src dst ei We Ws Wd b0 W1 b1 e j) 128

/-- ε: the number the word `0x3727C5AC` encodes. -/
def eps : EReal := Ideal.ofBits .f32 0x3727C5AC#32

/-- The result: `cen / sqrt (var + ε) · γ[j] + β[j]`. -/
def out (e : Fin 320000) (j : Fin 128) : EReal :=
  Ideal.div (cen efeat src dst ei We Ws Wd b0 W1 b1 e j) (Ideal.sqrt (var efeat src dst ei We Ws Wd b0 W1 b1 e + eps)) * g (ix1 j)
    + b (ix1 j)

end

end Cert.Spec

end
-- ==== Proof.RefValue.lean ====
/-
  The reference's result read at one element. The row lookup reads row `idx e` of its table where the index names a
  row (the comparison with zero and the largest row number both hold, so the selection keeps the gathered row, and
  the gather's clamp is the identity); the three projections are sums over the contracted features.
-/
import proofs.«217078_g14027363189340_cont_week2b_886_24_alg».proof.Proof.RefRun
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost
import proofs.«217078_g14027363189340_cont_week2b_886_24_alg».proof.Proof.Spec

noncomputable section

namespace Cert.Proof.Ref

open Cert.ReferenceIdeal Cert.ReferenceIdeal.Gen Idealize.ShloMosaic Idealize.ShloMosaic.ValueIdx

variable {F : FTy → Type} [FloatOps F]

/-! ## The gather of rows, read at an element -/

/-- The gather's dimension numbers. -/
abbrev G : GatherDims S10000x128 S320000x1 S320000x128 := gather_S10000x128_S320000x1_S320000x128_1_0_n_n_0_1_1128

/-- Result element `(e, j)` is the table at row `idx (e, 0)`, read signed and clamped into `[0, 9999]`, column `j`. -/
theorem gather_row_apply {α : Type} (x : S10000x128.Idx → α) (idx : IVec S320000x1 32) (e : Fin 320000) (j : Fin 128) :
    Host.gather G x idx (ix2 e j) = x (ix2 ⟨min (idx (ix2 e (0 : Fin 1))).toInt.toNat 9999, by omega⟩ j) := by
  unfold Host.gather
  congr 1
  funext a
  refine Fin.ext ?_
  show G.start (ix2 e j) idx a + G.batchCoord (ix2 e j) a + G.offCoord (ix2 e j) a = _
  match a with
  | ⟨0, _⟩ =>
    rw [GatherDims.batchCoord_eq_zero _ _ _ (show (⟨0, by decide⟩ : Fin 2) ∉ G.operandBatchingDims from List.not_mem_nil),
      GatherDims.offCoord_eq_zero _ _ _ (fun h => ((GatherDims.mem_sKept _ _).mp h).1 (show (⟨0, by decide⟩ : Fin 2) ∈ G.collapsedSliceDims from List.mem_singleton.mpr rfl))]
    simp only [Nat.add_zero]
    unfold GatherDims.start
    rw [dif_pos (show (⟨0, by decide⟩ : Fin 2) ∈ G.startIndexMap from List.mem_singleton.mpr rfl)]
    have hsi : G.siIdx (ix2 e j) ⟨List.idxOf (⟨0, by decide⟩ : Fin 2) G.startIndexMap,
        List.idxOf_lt_length_iff.2 (show (⟨0, by decide⟩ : Fin 2) ∈ G.startIndexMap from List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    have hs : G.start (ix2 e j) idx ⟨1, by decide⟩ = 0 := by
      unfold GatherDims.start
      rw [dif_neg (show (⟨1, by decide⟩ : Fin 2) ∉ G.startIndexMap from by decide)]
    rw [hs, GatherDims.batchCoord_eq_zero _ _ _ (show (⟨1, by decide⟩ : Fin 2) ∉ G.operandBatchingDims from List.not_mem_nil)]
    simp only [Nat.zero_add]
    unfold GatherDims.offCoord
    rw [dif_pos (show (⟨1, by decide⟩ : Fin 2) ∈ G.sKept from by decide)]
    rfl

/-! ## The row lookup, read at an element -/

/-- A fold by `and` over one-bit words that are all 1, from 1, is 1. -/
theorem foldl_andi_one {ι : Type} (f : ι → BitVec 1) : ∀ (l : List ι), (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 from by decide]
    exact foldl_andi_one f l fun n hn => h n (List.mem_cons_of_mem _ hn)

/-- A reduction by `and`, from 1, of an array of ones is 1 everywhere. -/
theorem reduce_andi_one {s t u : Shape} {axes : List (Fin s.rank)} (x : s.Idx → BitVec 1) (init : u.Idx → BitVec 1)
    (h : s.ReducesTo axes t) (hu : 0 < u.numel) (hx : ∀ i, x i = 1#1) (hi : ∀ i, init i = 1#1) (j : t.Idx) :
    Host.reduce IntOp.andi x init h hu j = 1#1 := by
  rw [Host.reduce_eq_foldl, hi]
  exact foldl_andi_one x _ fun n _ => hx n

/-- A word at most 9999 read unsigned reads the same signed. -/
theorem toInt_of_le {v : BitVec 32} (h : v.toNat ≤ 9999) : v.toInt = (v.toNat : Int) :=
  BitVec.toInt_eq_toNat_of_lt (by omega)

/-- An index that names a row is left as it is by the wrap from the end. -/
theorem wrapIdx_apply (idx : IVec S320000 32) (hidx : ∀ k, (idx k).toNat ≤ 9999) (k : S320000.Idx) : wrapIdx idx k = idx k := by
  unfold wrapIdx
  show Scalar.select (IntOp.cmpi .slt (idx k) 0#32) _ (idx k) = idx k
  have h0 : IntOp.cmpi .slt (idx k) 0#32 = 0#1 := by
    refine eq_zero_of_ne_one fun h1 => ?_
    have := IntOp.cmpi_slt.mp h1
    rw [toInt_of_le (hidx k), show (0#32 : BitVec 32).toInt = 0 from by decide] at this
    omega
  rw [h0, select_zero]

/-- The column of wrapped indices at `(e, 0)` is the index of edge `e`. -/
theorem idxCol_apply (idx : IVec S320000 32) (hidx : ∀ k, (idx k).toNat ≤ 9999) (i : S320000x1.Idx) :
    ∃ k : S320000.Idx, idxCol idx i = idx k := by
  unfold idxCol broadcastInDim
  exact ⟨_, wrapIdx_apply idx hidx _⟩

/-- Every edge's index names a row: the range test is 1 everywhere. -/
theorem inRange_eq_one (idx : IVec S320000 32) (hidx : ∀ k, (idx k).toNat ≤ 9999) (j : S320000.Idx) : inRange idx j = 1#1 := by
  unfold inRange
  refine reduce_andi_one _ _ _ _ (fun i => ?_) (fun _ => rfl) j
  obtain ⟨k, hk⟩ := idxCol_apply idx hidx i
  show IntOp.andi (IntOp.cmpi .sge (idxCol idx i) 0#32) (IntOp.cmpi .sle (idxCol idx i) 9999#32) = 1#1
  rw [hk, IntOp.andi_eq_one, IntOp.cmpi_sge, IntOp.cmpi_sle, toInt_of_le (hidx k), show (0#32 : BitVec 32).toInt = 0 from by decide,
    show (9999#32 : BitVec 32).toInt = 9999 from by decide]
  have := hidx k
  omega

/-- **The row lookup at `(e, j)`** where every index names a row: the table at row `idx e`, column `j`. -/
theorem takeRows_apply (tbl : FVec F S10000x128 .f32) (idx : IVec S320000 32) (hidx : ∀ k, (idx k).toNat ≤ 9999) (e : Fin 320000) (j : Fin 128) :
    takeRows tbl idx (ix2 e j) = tbl (ix2 ⟨(idx (ix1 e)).toNat, by have := hidx (ix1 e); omega⟩ j) := by
  unfold takeRows
  have hb : broadcastInDim S320000x128 ![0] bcast_S320000_S320000x128_0 (inRange idx) (ix2 e j) = 1#1 := by
    unfold broadcastInDim
    exact inRange_eq_one idx hidx _
  rw [select_apply, hb, select_one]
  refine (gather_row_apply tbl (idxCol idx) e j).trans ?_
  have hc : idxCol idx (ix2 e (0 : Fin 1)) = idx (ix1 e) := by
    unfold idxCol
    refine (broadcastInDim_apply _ _ (wrapIdx idx) (ix2 e (0 : Fin 1)) (ix1 e) (fun a => by
      match a with
      | ⟨0, _⟩ => rfl)).trans ?_
    exact wrapIdx_apply idx hidx _
  refine congrArg tbl ?_
  funext a
  refine Fin.ext ?_
  match a with
  | ⟨0, _⟩ =>
    show min (idxCol idx (ix2 e (0 : Fin 1))).toInt.toNat 9999 = (idx (ix1 e)).toNat
    rw [hc, toInt_of_le (hidx (ix1 e)), Int.toNat_natCast]
    exact Nat.min_eq_left (hidx (ix1 e))
  | ⟨1, _⟩ => rfl

/-- Edge `e`'s source index is entry `(0, e)` of the edge list, its destination index entry `(1, e)`. -/
theorem srcIdx_apply (ei : IVec S2x320000 32) (e : Fin 320000) : srcIdx ei (ix1 e) = ei (ix2 (0 : Fin 2) e) := by
  unfold srcIdx
  rw [shapeCast_1a_a_apply]
  exact slice2_axis0_apply 0 ei _ (0 : Fin 1) e (0 : Fin 2) rfl
theorem dstIdx_apply (ei : IVec S2x320000 32) (e : Fin 320000) : dstIdx ei (ix1 e) = ei (ix2 (1 : Fin 2) e) := by
  unfold dstIdx
  rw [shapeCast_1a_a_apply]
  exact slice2_axis0_apply 1 ei _ (0 : Fin 1) e (1 : Fin 2) rfl

/-! ## The projections, read at an element (at the ideal values) -/

section AtIdeal
open scoped BigOperators

/-- A matrix product `[M, K] × [K, N]` at `(e, j)` is the sum over the contracted coordinate, for dimension numbers
    whose operand indices are `(e, k)` and `(k, j)`. -/
theorem dot2_apply {M Kd N : Nat} (D : DotDims ⟨2, ![M, Kd]⟩ ⟨2, ![Kd, N]⟩ ⟨2, ![M, N]⟩) (hr : D.contr.rank = 1)
    (hs : D.contr.size ⟨0, by omega⟩ = Kd)
    (hl : ∀ (y : (⟨2, ![M, N]⟩ : Shape).Idx) (q : D.contr.Idx), D.lhsIdx y q = ix2 (y 0) ((q ⟨0, by omega⟩).cast hs))
    (hrr : ∀ (y : (⟨2, ![M, N]⟩ : Shape).Idx) (q : D.contr.Idx), D.rhsIdx y q = ix2 ((q ⟨0, by omega⟩).cast hs) (y 1))
    (prec : Option ContractPrecision) (sched : HostSchedule) (l : FVec Ideal ⟨2, ![M, Kd]⟩ .f32) (r : FVec Ideal ⟨2, ![Kd, N]⟩ .f32)
    (e : Fin M) (j : Fin N) :
    FloatOps.dotGeneral D prec sched l r (ix2 e j) = ∑ k : Fin Kd, l (ix2 e k) * r (ix2 k j) := by
  rw [Ideal.dotGeneral_apply, ← Equiv.sum_comp (contrEquiv1 D Kd hr hs).symm]
  refine Finset.sum_congr rfl fun k _ => ?_
  have hk : (((contrEquiv1 D Kd hr hs).symm k) ⟨0, by omega⟩).cast hs = k := Fin.ext (contrEquiv1_symm_val D Kd hr hs k)
  rw [hl, hrr, hk]
  rfl

/-- The edge features' projection at `(e, j)`. -/
theorem projE_apply (a0 : FVec Ideal S320000x16 .f32) (a4 : FVec Ideal S128x16 .f32) (e : Fin 320000) (j : Fin 128) :
    projE a0 a4 (ix2 e j) = ∑ k : Fin 16, a0 (ix2 e k) * a4 (ix2 j k) := by
  unfold projE
  simp only [Host.dotGeneral]
  rw [dot2_apply dot_S320000x16_S16x128_S320000x128_1_0_0_1_n_n rfl rfl
    (fun y q => by funext a; refine Fin.ext ?_; match a with | ⟨0, _⟩ => rfl | ⟨1, _⟩ => rfl)
    (fun y q => by funext a; refine Fin.ext ?_; match a with | ⟨0, _⟩ => rfl | ⟨1, _⟩ => rfl)]
  refine Finset.sum_congr rfl fun k _ => ?_
  rw [transpose_ix2_apply]

/-- A node table's projection at `(n, j)`. -/
theorem projN_apply (x : FVec Ideal S10000x128 .f32) (W : FVec Ideal S128x128 .f32) (n : Fin 10000) (j : Fin 128) :
    projN x W (ix2 n j) = ∑ k : Fin 128, x (ix2 n k) * W (ix2 j k) := by
  unfold projN
  simp only [Host.dotGeneral]
  rw [dot2_apply dot_S10000x128_S128x128_S10000x128_1_0_0_1_n_n rfl rfl
    (fun y q => by funext a; refine Fin.ext ?_; match a with | ⟨0, _⟩ => rfl | ⟨1, _⟩ => rfl)
    (fun y q => by funext a; refine Fin.ext ?_; match a with | ⟨0, _⟩ => rfl | ⟨1, _⟩ => rfl)]
  refine Finset.sum_congr rfl fun k _ => ?_
  rw [transpose_ix2_apply]

/-- A vector as a row repeated down the rows, at `(n, j)`: its entry `j`. -/
theorem rowsN_apply (b : FVec Ideal S128 .f32) (n : Fin 10000) (j : Fin 128) : rowsN b (ix2 n j) = b (ix1 j) := by
  unfold rowsN
  refine (broadcastInDim_apply _ _ _ (ix2 n j) (ix2 (0 : Fin 1) j) (fun a => by
    match a with
    | ⟨0, _⟩ => rfl
    | ⟨1, _⟩ => rfl)).trans ?_
  exact broadcastInDim_apply _ _ b (ix2 (0 : Fin 1) j) (ix1 j) (fun a => by
    match a with
    | ⟨0, _⟩ => rfl)
theorem rowsE_apply (b : FVec Ideal S128 .f32) (e : Fin 320000) (j : Fin 128) : rowsE b (ix2 e j) = b (ix1 j) := by
  unfold rowsE
  refine (broadcastInDim_apply _ _ _ (ix2 e j) (ix2 (0 : Fin 1) j) (fun a => by
    match a with
    | ⟨0, _⟩ => rfl
    | ⟨1, _⟩ => rfl)).trans ?_
  exact broadcastInDim_apply _ _ b (ix2 (0 : Fin 1) j) (ix1 j) (fun a => by
    match a with
    | ⟨0, _⟩ => rfl)

/-- The biased projection at `(n, j)`. -/
theorem projD_apply (x : FVec Ideal S10000x128 .f32) (W : FVec Ideal S128x128 .f32) (b : FVec Ideal S128 .f32) (n : Fin 10000) (j : Fin 128) :
    projD x W b (ix2 n j) = (∑ k : Fin 128, x (ix2 n k) * W (ix2 j k)) + b (ix1 j) := by
  unfold projD
  rw [addf_apply, projN_apply, rowsN_apply]

/-- **The pre-activation at `(e, j)`** where every edge index is at most 9999. -/
theorem preAct_apply (a0 : FVec Ideal S320000x16 .f32) (a1 a2 : FVec Ideal S10000x128 .f32) (a3 : IVec S2x320000 32)
    (a4 : FVec Ideal S128x16 .f32) (a5 a6 : FVec Ideal S128x128 .f32) (a7 : FVec Ideal S128 .f32)
    (h3 : ∀ i, (a3 i).toNat ≤ 9999) (e : Fin 320000) (j : Fin 128) :
    preAct a0 a1 a2 a3 a4 a5 a6 a7 (ix2 e j) = Cert.Spec.pre a0 a1 a2 a3 a4 a5 a6 a7 e j := by
  have hs : ∀ k, (srcIdx a3 k).toNat ≤ 9999 := fun k => by unfold srcIdx shapeCast extractStridedSlice; exact h3 _
  have hd : ∀ k, (dstIdx a3 k).toNat ≤ 9999 := fun k => by unfold dstIdx shapeCast extractStridedSlice; exact h3 _
  have rs : (⟨(srcIdx a3 (ix1 e)).toNat, by have := hs (ix1 e); omega⟩ : Fin 10000) = Cert.Spec.row (a3 (ix2 (0 : Fin 2) e)) :=
    Fin.ext (by
      show (srcIdx a3 (ix1 e)).toNat = _
      rw [Cert.Spec.row_val_of_le (h3 _)]
      exact congrArg BitVec.toNat (srcIdx_apply a3 e))
  have rd : (⟨(dstIdx a3 (ix1 e)).toNat, by have := hd (ix1 e); omega⟩ : Fin 10000) = Cert.Spec.row (a3 (ix2 (1 : Fin 2) e)) :=
    Fin.ext (by
      show (dstIdx a3 (ix1 e)).toNat = _
      rw [Cert.Spec.row_val_of_le (h3 _)]
      exact congrArg BitVec.toNat (dstIdx_apply a3 e))
  unfold preAct Cert.Spec.pre
  rw [addf_apply, addf_apply, projE_apply, takeRows_apply _ _ hs, takeRows_apply _ _ hd, rs, rd, projN_apply, projD_apply]

end AtIdeal

/-! ## The activation, the output projection and the row normalisation, read at an element -/

section AtIdeal2
open scoped BigOperators

/-- The f32 word `0x43000000` is 128. -/
theorem ofBits_128_f32 : Ideal.ofBits .f32 0x43000000#32 = 128 := by
  rw [show (128 : EReal) = ((128 : ℝ) : EReal) by norm_cast]
  simp [Ideal.ofBits, Ideal.ieee, -EReal.coe_mul]; norm_num

/-- The activation at an element: `x · 1 / (1 + exp (−x))`. -/
theorem silu_apply (x : FVec Ideal S320000x128 .f32) (i : S320000x128.Idx) :
    silu x i = x i * Ideal.div 1 (1 + Ideal.exp (-(x i))) := by
  unfold silu
  show x i * Ideal.div (Ideal.ofBits .f32 0x3F800000#32) (Ideal.ofBits .f32 0x3F800000#32 + Ideal.exp (-(x i))) = _
  rw [Ideal.ofBits_one_f32]

/-- The output projection at `(e, j)`. -/
theorem outProj_apply (s : FVec Ideal S320000x128 .f32) (W1 : FVec Ideal S128x128 .f32) (b1 : FVec Ideal S128 .f32) (e : Fin 320000) (j : Fin 128) :
    outProj s W1 b1 (ix2 e j) = (∑ k : Fin 128, s (ix2 e k) * W1 (ix2 j k)) + b1 (ix1 j) := by
  unfold outProj
  rw [addf_apply, rowsE_apply]
  simp only [Host.dotGeneral]
  rw [dot2_apply dot_S320000x128_S128x128_S320000x128_1_0_0_1_n_n rfl rfl
    (fun y q => by funext a; refine Fin.ext ?_; match a with | ⟨0, _⟩ => rfl | ⟨1, _⟩ => rfl)
    (fun y q => by funext a; refine Fin.ext ?_; match a with | ⟨0, _⟩ => rfl | ⟨1, _⟩ => rfl)]
  refine congrArg (· + b1 (ix1 j)) (Finset.sum_congr rfl fun k _ => ?_)
  rw [transpose_ix2_apply]

/-- The row's mean, at `(e, 0)` of the column: the row's sum over 128. -/
theorem rowMean_apply (h : FVec Ideal S320000x128 .f32) (e : Fin 320000) (u : Fin 1) :
    rowMean h (ix2 e u) = Ideal.div (∑ j : Fin 128, h (ix2 e j)) 128 := by
  unfold rowMean
  show Ideal.div (broadcastInDim S320000x1 ![0] bcast_S320000_S320000x1_0
      (Host.reduceAdd h (constant S_ .f32 0x00000000#32) reducesTo_S320000x128_S320000_d1 h_S_) (ix2 e u))
    (Ideal.ofBits .f32 0x43000000#32) = _
  rw [ofBits_128_f32, broadcastInDim_apply _ _ _ (ix2 e u) (ix1 e) (fun a => by
    match a with
    | ⟨0, _⟩ => rfl), hostReduceAdd_apply,
    Ideal.hostReduceAdd_single reducesTo_S320000x128_S320000_d1 (by decide : S320000x128.Reduces [1] S320000)]
  show Ideal.div (Ideal.ofBits .f32 0x00000000#32 + _) 128 = _
  rw [Ideal.ofBits_zero_f32, zero_add]
  refine congrArg (Ideal.div · 128) (Finset.sum_congr rfl fun k _ => congrArg h ?_)
  funext a
  refine Fin.ext ?_
  match a with
  | ⟨0, _⟩ => rfl
  | ⟨1, _⟩ => rfl

/-- A column repeated across the row, at `(e, j)`: its entry `(e, 0)`. -/
theorem colsE_apply (x : FVec Ideal S320000x1 .f32) (e : Fin 320000) (j : Fin 128) :
    broadcastInDim S320000x128 ![0, 1] bcast_S320000x1_S320000x128_0_1 x (ix2 e j) = x (ix2 e (0 : Fin 1)) :=
  broadcastInDim_apply _ _ x (ix2 e j) (ix2 e (0 : Fin 1)) (fun a => by
    match a with
    | ⟨0, _⟩ => rfl
    | ⟨1, _⟩ => rfl)

theorem centered_apply (h : FVec Ideal S320000x128 .f32) (e : Fin 320000) (j : Fin 128) :
    centered h (ix2 e j) = h (ix2 e j) - rowMean h (ix2 e (0 : Fin 1)) := by
  unfold centered
  rw [subf_apply, colsE_apply]

theorem rowVar_apply (h : FVec Ideal S320000x128 .f32) (e : Fin 320000) (u : Fin 1) :
    rowVar h (ix2 e u) = Ideal.div (∑ j : Fin 128, centered h (ix2 e j) * centered h (ix2 e j)) 128 := by
  unfold rowVar
  rw [rowMean_apply]
  rfl

/-- The row normalisation at `(e, j)`. -/
theorem layerNorm_apply (h : FVec Ideal S320000x128 .f32) (g b : FVec Ideal S128 .f32) (e : Fin 320000) (j : Fin 128) :
    layerNorm h g b (ix2 e j)
      = Ideal.div (centered h (ix2 e j)) (Ideal.sqrt (rowVar h (ix2 e (0 : Fin 1)) + Cert.Spec.eps)) * g (ix1 j) + b (ix1 j) := by
  unfold layerNorm
  rw [addf_apply, mulf_apply, rowsE_apply, rowsE_apply]
  show Ideal.div (centered h (ix2 e j))
      (broadcastInDim S320000x128 ![0, 1] bcast_S320000x1_S320000x128_0_1
        (Host.sqrt (addf (rowVar h) (broadcastInDim S320000x1 ![] bcast_S_S320000x1 (constant S_ .f32 0x3727C5AC#32)))) (ix2 e j))
      * g (ix1 j) + b (ix1 j) = _
  rw [colsE_apply]
  rfl

/-- **The reference's result at `(e, j)`** where every edge index is at most 9999: the specification's. -/
theorem refOut_apply (a0 : FVec Ideal S320000x16 .f32) (a1 a2 : FVec Ideal S10000x128 .f32) (a3 : IVec S2x320000 32)
    (a4 : FVec Ideal S128x16 .f32) (a5 a6 : FVec Ideal S128x128 .f32) (a7 : FVec Ideal S128 .f32)
    (a8 : FVec Ideal S128x128 .f32) (a9 a10 a11 : FVec Ideal S128 .f32)
    (h3 : ∀ i, (a3 i).toNat ≤ 9999) (e : Fin 320000) (j : Fin 128) :
    refOut a0 a1 a2 a3 a4 a5 a6 a7 a8 a9 a10 a11 (ix2 e j) = Cert.Spec.out a0 a1 a2 a3 a4 a5 a6 a7 a8 a9 a10 a11 e j := by
  have hact : ∀ k, silu (preAct a0 a1 a2 a3 a4 a5 a6 a7) (ix2 e k) = Cert.Spec.act a0 a1 a2 a3 a4 a5 a6 a7 e k := fun k => by
    rw [silu_apply, preAct_apply a0 a1 a2 a3 a4 a5 a6 a7 h3]; rfl
  have hh2 : ∀ k, outProj (silu (preAct a0 a1 a2 a3 a4 a5 a6 a7)) a8 a9 (ix2 e k) = Cert.Spec.h2 a0 a1 a2 a3 a4 a5 a6 a7 a8 a9 e k := fun k => by
    rw [outProj_apply]
    exact congrArg (· + a9 (ix1 k)) (Finset.sum_congr rfl fun k' _ => by rw [hact])
  have hmean : rowMean (outProj (silu (preAct a0 a1 a2 a3 a4 a5 a6 a7)) a8 a9) (ix2 e (0 : Fin 1)) = Cert.Spec.mean a0 a1 a2 a3 a4 a5 a6 a7 a8 a9 e := by
    rw [rowMean_apply]
    exact congrArg (Ideal.div · 128) (Finset.sum_congr rfl fun k _ => hh2 k)
  have hcen : ∀ k, centered (outProj (silu (preAct a0 a1 a2 a3 a4 a5 a6 a7)) a8 a9) (ix2 e k) = Cert.Spec.cen a0 a1 a2 a3 a4 a5 a6 a7 a8 a9 e k := fun k => by
    rw [centered_apply, hh2, hmean]; rfl
  have hvar : rowVar (outProj (silu (preAct a0 a1 a2 a3 a4 a5 a6 a7)) a8 a9) (ix2 e (0 : Fin 1)) = Cert.Spec.var a0 a1 a2 a3 a4 a5 a6 a7 a8 a9 e := by
    rw [rowVar_apply]
    exact congrArg (Ideal.div · 128) (Finset.sum_congr rfl fun k _ => by rw [hcen])
  unfold refOut
  rw [layerNorm_apply, hcen, hvar]
  rfl

end AtIdeal2

end Cert.Proof.Ref

end
-- ==== Proof.TcStepV.lean ====
/-
  The segments' steps with the written array's contents named. A kernel region leaves every unscoped buffer as it was
  but its output array, which holds a stated function of the buffers before it; a SparseCore call leaves all but the
  gathered rows' array, which holds a stated function of the node table and the index list.
-/
import proofs.«217078_g14027363189340_cont_week2b_886_24_alg».proof.Proof.TcCompose

noncomputable section

namespace Cert.Proof.Main

open Cert.KernelIdeal Cert.KernelIdeal.Gen Cert.Proof.Sc

open Idealize.ShloMosaic Idealize.ShloMosaic.StableHlo Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 2) (Elt F) ℕ UU ℕ

variable (P : (K (F := F)).Pay (nD := nD) (Val := Elt F) (Name := ℕ) (U := UU))

/-- A kernel region's step with its result named: the continuation finds the unscoped buffers at the valuation changed at
    the array `out` alone, to `f d V₁`. -/
def RegionStepV (p : Fin 3) (n : ℕ) (out : Ref sig .tc) (G : Dev nD → sProp 𝕄)
    (f : Dev nD → Valuation τ sig (Elt F) → (Proc.devRef (τ := τ) .tc out).ty.Contents (Elt F)) : Prop :=
  ∀ (κ : GSem nD τ sig → ℕ) (d : Dev nD) (V₁ : Valuation τ sig (Elt F))
    (k : PUnit → Prog (TpuEff nD τ sig (Elt F) (SparseCore.Sig (ΛP (F := F)) 2) .tc) PUnit) (Q : PUnit → sProp 𝕄),
    iprop((K (F := F)).ctx EH P κ ∗ boundary (SparseCore.T d) ∗ (K (F := F)).tcSt EH d n ∗ (held (SparseCore.T d) (Pipeline.ucRefs τ sig) V₁ : sProp 𝕄) ∗ G d
        ∗ (iprop(boundary (SparseCore.T d) ∗ (K (F := F)).tcSt EH d n
              ∗ (held (SparseCore.T d) (Pipeline.ucRefs τ sig) (Function.update V₁ (Proc.devRef .tc out) (f d V₁)) : sProp 𝕄))
            -∗ wp frame (wpE ((K (F := F)).defs (D (F := F))) 𝒱 (SparseCore.T d) none) Set.univ (k ⟨⟩) Q))
      ⊢ wp frame (wpE ((K (F := F)).defs (D (F := F))) 𝒱 (SparseCore.T d) none) Set.univ (regionCall p >>= k) Q

/-- A SparseCore call's step with its result named: the continuation finds the unscoped buffers at the valuation changed at
    the gathered rows' array `out` alone, to `g` of the node table's and the index list's contents. -/
def CallStepV (q : Fin 2) (tbl idx out : Ref sig .tc) (Xin Xout : Dev nD → sProp 𝕄)
    (ok : Dev nD → (Proc.devRef (τ := τ) .tc tbl).ty.Contents (Elt F) → (Proc.devRef (τ := τ) .tc idx).ty.Contents (Elt F) → Prop)
    (g : (Proc.devRef (τ := τ) .tc tbl).ty.Contents (Elt F) → (Proc.devRef (τ := τ) .tc idx).ty.Contents (Elt F) →
      (Proc.devRef (τ := τ) .tc out).ty.Contents (Elt F)) : Prop :=
  ∀ (κ : GSem nD τ sig → ℕ) (d : Dev nD) (V₁ : Valuation τ sig (Elt F)), ok d (V₁ (Proc.devRef .tc tbl)) (V₁ (Proc.devRef .tc idx)) →
    ∀ (k : PUnit → Prog (TpuEff nD τ sig (Elt F) (SparseCore.Sig (ΛP (F := F)) 2) .tc) PUnit) (Q : PUnit → sProp 𝕄),
    iprop((K (F := F)).ctx EH P κ ∗ (K (F := F)).tcSt EH d q.val ∗ (held (SparseCore.T d) (Pipeline.ucRefs τ sig) V₁ : sProp 𝕄) ∗ Xin d
        ∗ (iprop((K (F := F)).tcSt EH d (q.val + 1)
              ∗ (held (SparseCore.T d) (Pipeline.ucRefs τ sig)
                  (Function.update V₁ (Proc.devRef .tc out) (g (V₁ (Proc.devRef .tc tbl)) (V₁ (Proc.devRef .tc idx)))) : sProp 𝕄) ∗ Xout d)
            -∗ wp frame (wpE ((K (F := F)).defs (D (F := F))) 𝒱 (SparseCore.T d) none) Set.univ (k ⟨⟩) Q))
      ⊢ wp frame (wpE ((K (F := F)).defs (D (F := F))) 𝒱 (SparseCore.T d) none) Set.univ ((K (F := F)).run d q >>= k) Q

/-- The step with its result named gives the step that only says which array may change. -/
theorem RegionStepV.toStep {p : Fin 3} {n : ℕ} {out : Ref sig .tc} {G : Dev nD → sProp 𝕄}
    {f : Dev nD → Valuation τ sig (Elt F) → (Proc.devRef (τ := τ) .tc out).ty.Contents (Elt F)} (h : RegionStepV P p n out G f) :
    RegionStep P p n out G := by
  intro κ d V₁ k Q
  refine BIBase.Entails.trans ?_ (h κ d V₁ k Q)
  iintro ⟨#Hctx, Hb, Hst, Hh, HG, Hk⟩
  isplitr; · iexact Hctx
  isplitl [Hb]; · iexact Hb
  isplitl [Hst]; · iexact Hst
  isplitl [Hh]; · iexact Hh
  isplitl [HG]; · iexact HG
  iintro H
  ispecialize Hk $$ %(Function.update V₁ (Proc.devRef .tc out) (f d V₁))
  iapply Hk
  · ipureintro
    exact fun r hr => Function.update_of_ne (devRef_ne_of_ne hr) _ _
  iexact H

end Cert.Proof.Main

end
-- ==== Proof.TcComposeV.lean ====
/-
  @main's proof with every intermediate valuation named. From the launch memory the five stretches of host operations,
  the three kernel regions and the two gathers determine, one after the other, what every unscoped buffer holds; the last
  of these valuations is what the TensorCore ends holding, and it still agrees with the launch memory on the arguments.
-/
import proofs.«217078_g14027363189340_cont_week2b_886_24_alg».proof.Proof.TcStepV
import proofs.«217078_g14027363189340_cont_week2b_886_24_alg».proof.Proof.TcFinal

noncomputable section

namespace Cert.Proof.Main

open Cert.KernelIdeal Cert.KernelIdeal.Gen Cert.Proof.Sc

open Idealize.ShloMosaic Idealize.ShloMosaic.StableHlo Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 2) (Elt F) ℕ UU ℕ

/-- What the three regions and the two gathers compute, as functions of the buffers before them. -/
structure Steps where
  f0 : Dev nD → Valuation τ sig (Elt F) → (Proc.devRef (τ := τ) .tc main_v8).ty.Contents (Elt F)
  f1 : Dev nD → Valuation τ sig (Elt F) → (Proc.devRef (τ := τ) .tc main_v28).ty.Contents (Elt F)
  f2 : Dev nD → Valuation τ sig (Elt F) → (Proc.devRef (τ := τ) .tc main_v40).ty.Contents (Elt F)
  g0 : (Proc.devRef (τ := τ) .tc main_v9).ty.Contents (Elt F) → (Proc.devRef (τ := τ) .tc main_v25).ty.Contents (Elt F) →
    (Proc.devRef (τ := τ) .tc main_v26).ty.Contents (Elt F)
  g1 : (Proc.devRef (τ := τ) .tc main_v9).ty.Contents (Elt F) → (Proc.devRef (τ := τ) .tc main_v37).ty.Contents (Elt F) →
    (Proc.devRef (τ := τ) .tc main_v38).ty.Contents (Elt F)

variable (Stp : Steps (F := F))

/-- The valuations @main passes through on device `d`, from the launch memory. -/
abbrev valA (m : (ℓ : Loc nD τ sig) → Buf (Elt F) ℓ) (d : Dev nD) : Valuation τ sig (Elt F) := after opsA fun b => m (d, b)
abbrev valA' (m : (ℓ : Loc nD τ sig) → Buf (Elt F) ℓ) (d : Dev nD) : Valuation τ sig (Elt F) :=
  Function.update (valA m d) (Proc.devRef .tc main_v8) (Stp.f0 d (valA m d))
abbrev valB (m : (ℓ : Loc nD τ sig) → Buf (Elt F) ℓ) (d : Dev nD) : Valuation τ sig (Elt F) := after opsB (valA' Stp m d)
abbrev valB' (m : (ℓ : Loc nD τ sig) → Buf (Elt F) ℓ) (d : Dev nD) : Valuation τ sig (Elt F) :=
  Function.update (valB Stp m d) (Proc.devRef .tc main_v26) (Stp.g0 (valB Stp m d (Proc.devRef .tc main_v9)) (valB Stp m d (Proc.devRef .tc main_v25)))
abbrev valC (m : (ℓ : Loc nD τ sig) → Buf (Elt F) ℓ) (d : Dev nD) : Valuation τ sig (Elt F) := after opsC (valB' Stp m d)
abbrev valC' (m : (ℓ : Loc nD τ sig) → Buf (Elt F) ℓ) (d : Dev nD) : Valuation τ sig (Elt F) :=
  Function.update (valC Stp m d) (Proc.devRef .tc main_v28) (Stp.f1 d (valC Stp m d))
abbrev valD (m : (ℓ : Loc nD τ sig) → Buf (Elt F) ℓ) (d : Dev nD) : Valuation τ sig (Elt F) := after opsD (valC' Stp m d)
abbrev valD' (m : (ℓ : Loc nD τ sig) → Buf (Elt F) ℓ) (d : Dev nD) : Valuation τ sig (Elt F) :=
  Function.update (valD Stp m d) (Proc.devRef .tc main_v38) (Stp.g1 (valD Stp m d (Proc.devRef .tc main_v9)) (valD Stp m d (Proc.devRef .tc main_v37)))
abbrev valE (m : (ℓ : Loc nD τ sig) → Buf (Elt F) ℓ) (d : Dev nD) : Valuation τ sig (Elt F) := after opsE (valD' Stp m d)
/-- The last one: what the TensorCore ends holding. -/
abbrev valFin (m : (ℓ : Loc nD τ sig) → Buf (Elt F) ℓ) (d : Dev nD) : Valuation τ sig (Elt F) :=
  Function.update (valE Stp m d) (Proc.devRef .tc main_v40) (Stp.f2 d (valE Stp m d))

/-- A valuation changed at an array that is no argument keeps the arguments. -/
theorem Keeps.update {V₁ : Valuation τ sig (Elt F)} {out : Ref sig .tc} (hout : out ∉ argList) (x : (Proc.devRef (τ := τ) .tc out).ty.Contents (Elt F)) :
    Keeps V₁ (Function.update V₁ (Proc.devRef .tc out) x) :=
  Keeps.of_ne hout fun _ hr => Function.update_of_ne (devRef_ne_of_ne hr) _ _

theorem v26_notArg' : main_v26 ∉ argList := by decide
theorem v38_notArg' : main_v38 ∉ argList := by decide

/-- Every one of them agrees with the launch memory on the arguments. -/
theorem keeps_valA' (m : (ℓ : Loc nD τ sig) → Buf (Elt F) ℓ) (d : Dev nD) : Keeps (fun b => m (d, b)) (valA' Stp m d) :=
  (opsA_keeps _).trans (Keeps.update v8_notArg _)
theorem keeps_valC' (m : (ℓ : Loc nD τ sig) → Buf (Elt F) ℓ) (d : Dev nD) : Keeps (fun b => m (d, b)) (valC' Stp m d) :=
  ((((keeps_valA' Stp m d).trans (opsB_keeps _)).trans (Keeps.update v26_notArg' _)).trans (opsC_keeps _)).trans (Keeps.update v28_notArg _)
theorem keeps_valFin (m : (ℓ : Loc nD τ sig) → Buf (Elt F) ℓ) (d : Dev nD) : Keeps (fun b => m (d, b)) (valFin Stp m d) :=
  ((((keeps_valC' Stp m d).trans (opsD_keeps _)).trans (Keeps.update v38_notArg' _)).trans (opsE_keeps _)).trans (Keeps.update v40_notArg _)

/-- The padding zeros the second index list reads are the ones the second stretch wrote. -/
theorem valC'_pad (m : (ℓ : Loc nD τ sig) → Buf (Elt F) ℓ) (d : Dev nD) :
    valC' Stp m d (Proc.devRef .tc main_v10) = after opsB (valA' Stp m d) (Proc.devRef .tc main_v10) := by
  unfold valC' valC valB' valB
  rw [Function.update_of_ne (devRef_ne_of_ne (by decide)),
    show after opsC (Function.update (after opsB (valA' Stp m d)) (Proc.devRef .tc main_v26) _) (Proc.devRef .tc main_v10)
      = Function.update (after opsB (valA' Stp m d)) (Proc.devRef .tc main_v26) _ (Proc.devRef .tc main_v10) from by after_results,
    Function.update_of_ne (devRef_ne_of_ne (by decide))]

variable (P : (K (F := F)).Pay (nD := nD) (Val := Elt F) (Name := ℕ) (U := UU))

/-- What the TensorCore ends with, the valuation named. -/
def FINV (m : (ℓ : Loc nD τ sig) → Buf (Elt F) ℓ) (d : Dev nD) : sProp 𝕄 :=
  (held (SparseCore.T d) (Pipeline.ucRefs τ sig) (valFin Stp m d) : sProp 𝕄)

/-- @main on device `d`'s TensorCore with every valuation named. -/
theorem hmainV_of (m : (ℓ : Loc nD τ sig) → Buf (Elt F) ℓ) (ρ : Dev nD → PrngReg)
    (G0 G1 G2 X1 : Dev nD → sProp 𝕄)
    (ok0 : Dev nD → (Proc.devRef (τ := τ) .tc main_v9).ty.Contents (Elt F) → (Proc.devRef (τ := τ) .tc main_v25).ty.Contents (Elt F) → Prop)
    (ok1 : Dev nD → (Proc.devRef (τ := τ) .tc main_v9).ty.Contents (Elt F) → (Proc.devRef (τ := τ) .tc main_v37).ty.Contents (Elt F) → Prop)
    (hR0 : RegionStepV P 0 0 main_v8 G0 Stp.f0) (hR1 : RegionStepV P 1 1 main_v28 G1 Stp.f1) (hR2 : RegionStepV P 2 2 main_v40 G2 Stp.f2)
    (hC0 : CallStepV P 0 main_v9 main_v25 main_v26 (fun _ => iprop(emp)) X1 ok0 Stp.g0)
    (hC1 : CallStepV P 1 main_v9 main_v37 main_v38 X1 (fun _ => iprop(emp)) ok1 Stp.g1)
    (hok0 : ∀ d : Dev nD, ok0 d (valB Stp m d (Proc.devRef .tc main_v9)) (valB Stp m d (Proc.devRef .tc main_v25)))
    (hok1 : ∀ d : Dev nD, ok1 d (valD Stp m d (Proc.devRef .tc main_v9)) (valD Stp m d (Proc.devRef .tc main_v37)))
    (κ : GSem nD τ sig → ℕ) (d : Dev nD) :
    iprop((K (F := F)).ctx EH P κ ∗ (K (F := F)).tcSt EH d 0 ∗ (K (F := F)).tcRes m ρ d ∗ iprop(G0 d ∗ G1 d ∗ G2 d))
      ⊢ wp frame (wpE ((K (F := F)).defs (D (F := F))) 𝒱 (SparseCore.T d) none) Set.univ (main d)
          fun _ => iprop((K (F := F)).tcSt EH d 2 ∗ FINV Stp m d) := by
  unfold SparseCore.Cfg.tcRes
  rw [launch_held m d, main_eq]
  iintro ⟨#Hctx, Hst, ⟨Hb, Hh, -, -⟩, HG0, HG1, HG2⟩
  iapply (wp_seq (defs := (K (F := F)).defs (D (F := F))) 𝒱 none Set.univ d (Pipeline.ucRefs τ sig) _ opsA opsA_uc opsA_fresh (fun b => m (d, b))) $$ [Hb Hh]
  · isplitl [Hb] <;> iassumption
  iintro ⟨Hb, Hh⟩
  iapply (hR0 κ d (valA m d) _ _)
  isplitr; · iexact Hctx
  isplitl [Hb]; · iexact Hb
  isplitl [Hst]; · iexact Hst
  isplitl [Hh]; · iexact Hh
  isplitl [HG0]; · iexact HG0
  iintro ⟨Hb, Hst, Hh⟩
  iapply (wp_seq (defs := (K (F := F)).defs (D (F := F))) 𝒱 none Set.univ d (Pipeline.ucRefs τ sig) _ opsB opsB_uc opsB_fresh (valA' Stp m d)) $$ [Hb Hh]
  · isplitl [Hb] <;> iassumption
  iintro ⟨Hb, Hh⟩
  iapply (hC0 κ d (valB Stp m d) (hok0 d) _ _)
  isplitr; · iexact Hctx
  isplitl [Hst]; · iexact Hst
  isplitl [Hh]; · iexact Hh
  isplitr; · iempintro
  iintro ⟨Hst, Hh, HX⟩
  iapply (wp_seq (defs := (K (F := F)).defs (D (F := F))) 𝒱 none Set.univ d (Pipeline.ucRefs τ sig) _ opsC opsC_uc opsC_fresh (valB' Stp m d)) $$ [Hb Hh]
  · isplitl [Hb] <;> iassumption
  iintro ⟨Hb, Hh⟩
  iapply (hR1 κ d (valC Stp m d) _ _)
  isplitr; · iexact Hctx
  isplitl [Hb]; · iexact Hb
  isplitl [Hst]; · iexact Hst
  isplitl [Hh]; · iexact Hh
  isplitl [HG1]; · iexact HG1
  iintro ⟨Hb, Hst, Hh⟩
  iapply (wp_seq (defs := (K (F := F)).defs (D (F := F))) 𝒱 none Set.univ d (Pipeline.ucRefs τ sig) _ opsD opsD_uc opsD_fresh (valC' Stp m d)) $$ [Hb Hh]
  · isplitl [Hb] <;> iassumption
  iintro ⟨Hb, Hh⟩
  iapply (hC1 κ d (valD Stp m d) (hok1 d) _ _)
  isplitr; · iexact Hctx
  isplitl [Hst]; · iexact Hst
  isplitl [Hh]; · iexact Hh
  isplitl [HX]; · iexact HX
  iintro ⟨Hst, Hh, -⟩
  iapply (wp_seq (defs := (K (F := F)).defs (D (F := F))) 𝒱 none Set.univ d (Pipeline.ucRefs τ sig) _ opsE opsE_uc opsE_fresh (valD' Stp m d)) $$ [Hb Hh]
  · isplitl [Hb] <;> iassumption
  iintro ⟨Hb, Hh⟩
  iapply (hR2 κ d (valE Stp m d) _ _)
  isplitr; · iexact Hctx
  isplitl [Hb]; · iexact Hb
  isplitl [Hst]; · iexact Hst
  isplitl [Hh]; · iexact Hh
  isplitl [HG2]; · iexact HG2
  iintro ⟨-, Hst, Hh⟩
  rw [wp_pure]
  imodintro
  isplitl [Hst]; · iexact Hst
  unfold FINV
  iexact Hh

end Cert.Proof.Main

end
-- ==== Proof.TcRunV.lean ====
/-
  The program's run with its result array named: every weakly fair execution ends with the result array at the last
  of the valuations @main passes through, read at that array, and the twelve arguments as they began — given, for some
  way of paying the SparseCore calls' handshakes, the tiles' obligations and splits, the launch element, and the
  regions' and the gathers' steps with their results named.
-/
import proofs.«217078_g14027363189340_cont_week2b_886_24_alg».proof.Proof.TcComposeV
import proofs.«217078_g14027363189340_cont_week2b_886_24_alg».proof.Proof.TcRun

noncomputable section

namespace Cert.Proof.Main

open Cert.KernelIdeal Cert.KernelIdeal.Gen Cert.Proof.Sc

open Idealize.ShloMosaic Idealize.ShloMosaic.StableHlo Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable (Stp : Steps (F := F))

theorem v40_mem_ucRefs : Proc.devRef (τ := τ) .tc main_v40 ∈ Pipeline.ucRefs τ sig :=
  Finset.mem_filter.mpr ⟨devRef_mem_tcRefs main_v40, by decide⟩

/-- What is read of a final state on device `d`: the arguments at the launch contents, the result array at the last
    valuation. -/
def fqV (m : (ℓ : Loc nD τ sig) → Buf (Elt F) ℓ) (d : Dev nD) (s' : Phys nD τ sig (Elt F)) : Prop :=
  fq m d s' ∧ s'.mem.mem (d, Proc.devRef .tc main_v40) = valFin Stp m d (Proc.devRef .tc main_v40)

theorem hfinV (m : (ℓ : Loc nD τ sig) → Buf (Elt F) ℓ) (d : Dev nD) (s' : Phys nD τ sig (Elt F)) :
    iprop(FINV Stp m d ∗ SI s') ⊢ (⌜fqV Stp m d s'⌝ : sProp 𝕄) := by
  unfold fqV
  have h1 : iprop(FINV Stp m d ∗ SI s') ⊢ (⌜fq m d s'⌝ : sProp 𝕄) := by
    refine BIBase.Entails.trans ?_ (hfin m d s')
    iintro ⟨Hh, HSI⟩
    isplitl [Hh]
    · unfold FIN FINV
      iexists (valFin Stp m d)
      isplitr; · ipureintro; exact keeps_valFin Stp m d
      iexact Hh
    iexact HSI
  have h2 : iprop(FINV Stp m d ∗ SI s') ⊢ (⌜s'.mem.mem (d, Proc.devRef .tc main_v40) = valFin Stp m d (Proc.devRef .tc main_v40)⌝ : sProp 𝕄) := by
    unfold FINV
    exact held_read (SparseCore.T d) (Pipeline.ucRefs τ sig) (valFin Stp m d) s' v40_mem_ucRefs
  refine (BIClass.and_intro h1 h2).trans ?_
  iintro ⟨%ha, %hb⟩
  ipureintro
  exact ⟨ha, hb⟩

/-- The result array at the last valuation and the arguments unchanged, on every device. -/
def QCV (m : (ℓ : Loc nD τ sig) → Buf (Elt F) ℓ) : PUnit × MemSt nD τ sig (Elt F) → Prop := fun r => ∀ c : Dev nD,
      r.2.mem ((c.tc : Thread nD τ).loc main_v40) = valFin Stp m c (Proc.devRef .tc main_v40)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)

theorem QCV_of_fqV (m : (ℓ : Loc nD τ sig) → Buf (Elt F) ℓ) (s' : Phys nD τ sig (Elt F)) (h : ∀ d, fqV Stp m d s') : QCV Stp m (⟨⟩, s'.mem) :=
  fun c => ⟨(h c).2, QC_of_fq.{0} m s' (fun d => (h d).1) c⟩

/-- The program's run with its result named, from its parts, for any way of paying the handshakes. -/
theorem run_mainV_of [∀ e, Nonempty (Elt F e)] (P' : (K (F := F)).Pay (nD := nD) (Val := Elt F) (Name := ℕ) (U := UU)) [P'.IsStorable]
    (m : (ℓ : Loc nD τ sig) → Buf (Elt F) ℓ) (ρ : Dev nD → PrngReg)
    (htile0 : (K (F := F)).TileObl (D (F := F)) 𝒱 P' v₀ 0) (htile1 : (K (F := F)).TileObl (D (F := F)) 𝒱 P' v₀ 1)
    (hvec0 : (K (F := F)).VecSplit P' 0) (hvec1 : (K (F := F)).VecSplit P' 1)
    (G0 G1 G2 X1 : Dev nD → sProp 𝕄)
    (ok0 : Dev nD → (Proc.devRef (τ := τ) .tc main_v9).ty.Contents (Elt F) → (Proc.devRef (τ := τ) .tc main_v25).ty.Contents (Elt F) → Prop)
    (ok1 : Dev nD → (Proc.devRef (τ := τ) .tc main_v9).ty.Contents (Elt F) → (Proc.devRef (τ := τ) .tc main_v37).ty.Contents (Elt F) → Prop)
    (hR0 : RegionStepV P' 0 0 main_v8 G0 Stp.f0) (hR1 : RegionStepV P' 1 1 main_v28 G1 Stp.f1) (hR2 : RegionStepV P' 2 2 main_v40 G2 Stp.f2)
    (hC0 : CallStepV P' 0 main_v9 main_v25 main_v26 (fun _ => iprop(emp)) X1 ok0 Stp.g0)
    (hC1 : CallStepV P' 1 main_v9 main_v37 main_v38 X1 (fun _ => iprop(emp)) ok1 Stp.g1)
    (hok0 : ∀ d : Dev nD, ok0 d (valB Stp m d (Proc.devRef .tc main_v9)) (valB Stp m d (Proc.devRef .tc main_v25)))
    (hok1 : ∀ d : Dev nD, ok1 d (valD Stp m d (Proc.devRef .tc main_v9)) (valD Stp m d (Proc.devRef .tc main_v37)))
    (u₀ : UU)
    (hu₀ : iprop(ownU u₀ ∗ P'.oxCred ∗ (K (F := F)).freeSems0)
      ⊢ |={Set.univ}=> iprop(BI.own (EH (initOf (K (F := F)).hsCells (K (F := F)).hsToks)) ∗ (bigSep Finset.univ fun d : Dev nD => iprop(G0 d ∗ G1 d ∗ G2 d))
        ∗ bigSep Finset.univ fun thr : Thread nD τ => bigSep Finset.univ fun q : Fin 2 => P'.x q thr))
    (hheld : P'.held = ∅) :
    θ_run (Cert.KernelIdeal.defs (F := F)) (Cert.KernelIdeal.threads (F := F)) ⟨m, fun _ => 0, ρ⟩ (QCV Stp m) :=
  SparseCore.Cfg.θ_run_sc (K := K (F := F)) (D := D (F := F)) (𝒱 := 𝒱) (EH := EH) (P := P') facts v₀
    (fun q hq => match q with | 0 => nomatch hq | 1 => nomatch hq)
    (fun q _ => match q with | 0 => htile0 | 1 => htile1)
    (fun q _ => match q with | 0 => hvec0 | 1 => hvec1)
    m ρ main (fun d => iprop(G0 d ∗ G1 d ∗ G2 d)) (FINV Stp m) u₀ hu₀
    (fun κ d => hmainV_of Stp P' m ρ G0 G1 G2 X1 ok0 ok1 hR0 hR1 hR2 hC0 hC1 hok0 hok1 κ d)
    (fqV Stp m) (hfinV Stp m) (QCV Stp m) (QCV_of_fqV Stp m) (hheld := hheld)

end Cert.Proof.Main

end
-- ==== Proof.TcRegionV.lean ====
/-
  The three kernel regions' steps with the output array's contents after the region NAMED: what the write-backs of the
  region's points leave in it, as the pipeline rule computes it from the region's proof data at the entry valuation.
-/
import proofs.«217078_g14027363189340_cont_week2b_886_24_alg».proof.Proof.TcRegion
import proofs.«217078_g14027363189340_cont_week2b_886_24_alg».proof.Proof.TcStepV

set_option maxRecDepth 16384

noncomputable section

namespace Cert.Proof.Main

open Cert.KernelIdeal Cert.KernelIdeal.Gen Cert.Proof.Sc Cert.Proof.Tc

open Idealize.ShloMosaic Idealize.ShloMosaic.StableHlo Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

/-! ## The valuation a region leaves is the entry valuation updated at the output array -/

theorem Wout0_eq (d : Dev nD) (W : Valuation τ sig (Elt F)) :
    Wout0 d W = Function.update W (Proc.devRef .tc main_v8) ((dW0 d W d).arrAt 4 cfg0.N) := by
  funext b
  by_cases h : b = Proc.devRef .tc main_v8
  · subst h; rw [Function.update_self]; exact Wout0_arr d W 4
  · rw [Function.update_of_ne h]
    by_cases hw : ∃ w, Proc.devRef .tc (Pipeline.arrRef spec0 w) = b
    · obtain ⟨w, rfl⟩ := hw
      exact Wout0_keeps d W _ fun e => h (congrArg _ e)
    · unfold Wout0 Pipeline.withArrays; rw [dif_neg hw]

theorem Wout2_eq (d : Dev nD) (W : Valuation τ sig (Elt F)) :
    Wout2 d W = Function.update W (Proc.devRef .tc main_v28) ((dW2 d W d).arrAt 8 cfg2.N) := by
  funext b
  by_cases h : b = Proc.devRef .tc main_v28
  · subst h; rw [Function.update_self]; exact Wout2_out d W
  · rw [Function.update_of_ne h]
    unfold Wout2 Pipeline.withArrays
    rw [dif_neg]; rintro ⟨w, e⟩; exact h e.symm

theorem Wout4_eq (d : Dev nD) (W : Valuation τ sig (Elt F)) :
    Wout4 d W = Function.update W (Proc.devRef .tc main_v40) ((dW4 d W d).arrAt 8 cfg4.N) := by
  funext b
  by_cases h : b = Proc.devRef .tc main_v40
  · subst h; rw [Function.update_self]; exact Wout4_out d W
  · rw [Function.update_of_ne h]
    unfold Wout4 Pipeline.withArrays
    rw [dif_neg]; rintro ⟨w, e⟩; exact h e.symm

variable (P : (K (F := F)).Pay (nD := nD) (Val := Elt F) (Name := ℕ) (U := UU))

/-! ## The three steps, the output named -/

set_option backward.isDefEq.respectTransparency.types false in
/-- Region 0's step, the output array's contents named: what the write-backs of the region's points leave in it. -/
theorem regionStepV0 : RegionStepV P 0 0 main_v8
    (fun d => iprop(Pipeline.cellsGhost (Pipeline.pin (pcfgs (F := F)) adm) EP 0 d ∗ Pipeline.toksInit (Pipeline.pin (pcfgs (F := F)) adm) EP 0 d))
    (fun d V₁ => (dW0 d V₁ d).arrAt 4 cfg0.N) := by
  intro κ d V₁ k Q
  rw [wp_bind]
  have hwp := (reg0 (F := F) d V₁).wp (pcfgs (F := F)) adm _ (none : HIx 2) cellOf_inj EP defs₀ 𝒱₀ (K (F := F)).L (K (F := F)).lev d none
    (fun _ h => by cases h) (fun u => .ret u)
    (fun a => wp frame (wpE ((K (F := F)).defs (D (F := F))) 𝒱 (SparseCore.T d) none) Set.univ (k a) Q)
  have hlift := (K (F := F)).wp_liftProg (D (F := F)) 𝒱 (SparseCore.T d) (Set.univ : Set ℕ) none
    (.op (.customCall (Pipeline.entry (0 : Fin 3)) ()) fun u => .ret u)
    (fun a => wp frame (wpE ((K (F := F)).defs (D (F := F))) 𝒱 (SparseCore.T d) none) Set.univ (k a) Q)
  refine BIBase.Entails.trans ?_ hlift
  refine BIBase.Entails.trans ?_ hwp
  dsimp only [reg0]
  rw [Wout0_eq d V₁]
  iintro ⟨#Hctx, Hb, Hst, Hh, ⟨Hg, Ht⟩, Hk⟩
  isplitl [Hk]
  · iintro ⟨Hb, Hst, Hh⟩
    rw [wp_ret]; imodintro
    iapply Hk
    isplitl [Hb]; · iexact Hb
    isplitl [Hst]; · iexact Hst
    iexact Hh
  isplitl [Hb]; · iexact Hb
  isplitl [Hst Hh]
  · isplitl [Hst]; · iexact Hst
    iexact Hh
  isplitr; · iapply SparseCore.Cfg.ctx_levAts; iexact Hctx
  isplitl [Hg] <;> iassumption

set_option backward.isDefEq.respectTransparency.types false in
/-- Region 1's step, the output array's contents named: what the write-backs of the region's points leave in it. -/
theorem regionStepV1 : RegionStepV P 1 1 main_v28
    (fun d => iprop(Pipeline.cellsGhost (Pipeline.pin (pcfgs (F := F)) adm) EP 1 d ∗ Pipeline.toksInit (Pipeline.pin (pcfgs (F := F)) adm) EP 1 d))
    (fun d V₁ => (dW2 d V₁ d).arrAt 8 cfg2.N) := by
  intro κ d V₁ k Q
  rw [wp_bind]
  have hwp := (reg2 (F := F) d V₁).wp (pcfgs (F := F)) adm _ (none : HIx 2) cellOf_inj EP defs₀ 𝒱₀ (K (F := F)).L (K (F := F)).lev d none
    (fun _ h => by cases h) (fun u => .ret u)
    (fun a => wp frame (wpE ((K (F := F)).defs (D (F := F))) 𝒱 (SparseCore.T d) none) Set.univ (k a) Q)
  have hlift := (K (F := F)).wp_liftProg (D (F := F)) 𝒱 (SparseCore.T d) (Set.univ : Set ℕ) none
    (.op (.customCall (Pipeline.entry (1 : Fin 3)) ()) fun u => .ret u)
    (fun a => wp frame (wpE ((K (F := F)).defs (D (F := F))) 𝒱 (SparseCore.T d) none) Set.univ (k a) Q)
  refine BIBase.Entails.trans ?_ hlift
  refine BIBase.Entails.trans ?_ hwp
  dsimp only [reg2]
  rw [Wout2_eq d V₁]
  iintro ⟨#Hctx, Hb, Hst, Hh, ⟨Hg, Ht⟩, Hk⟩
  isplitl [Hk]
  · iintro ⟨Hb, Hst, Hh⟩
    rw [wp_ret]; imodintro
    iapply Hk
    isplitl [Hb]; · iexact Hb
    isplitl [Hst]; · iexact Hst
    iexact Hh
  isplitl [Hb]; · iexact Hb
  isplitl [Hst Hh]
  · isplitl [Hst]; · iexact Hst
    iexact Hh
  isplitr; · iapply SparseCore.Cfg.ctx_levAts; iexact Hctx
  isplitl [Hg] <;> iassumption

set_option backward.isDefEq.respectTransparency.types false in
/-- Region 2's step, the output array's contents named: what the write-backs of the region's points leave in it. -/
theorem regionStepV2 : RegionStepV P 2 2 main_v40
    (fun d => iprop(Pipeline.cellsGhost (Pipeline.pin (pcfgs (F := F)) adm) EP 2 d ∗ Pipeline.toksInit (Pipeline.pin (pcfgs (F := F)) adm) EP 2 d))
    (fun d V₁ => (dW4 d V₁ d).arrAt 8 cfg4.N) := by
  intro κ d V₁ k Q
  rw [wp_bind]
  have hwp := (reg4 (F := F) d V₁).wp (pcfgs (F := F)) adm _ (none : HIx 2) cellOf_inj EP defs₀ 𝒱₀ (K (F := F)).L (K (F := F)).lev d none
    (fun _ h => by cases h) (fun u => .ret u)
    (fun a => wp frame (wpE ((K (F := F)).defs (D (F := F))) 𝒱 (SparseCore.T d) none) Set.univ (k a) Q)
  have hlift := (K (F := F)).wp_liftProg (D (F := F)) 𝒱 (SparseCore.T d) (Set.univ : Set ℕ) none
    (.op (.customCall (Pipeline.entry (2 : Fin 3)) ()) fun u => .ret u)
    (fun a => wp frame (wpE ((K (F := F)).defs (D (F := F))) 𝒱 (SparseCore.T d) none) Set.univ (k a) Q)
  refine BIBase.Entails.trans ?_ hlift
  refine BIBase.Entails.trans ?_ hwp
  dsimp only [reg4]
  rw [Wout4_eq d V₁]
  iintro ⟨#Hctx, Hb, Hst, Hh, ⟨Hg, Ht⟩, Hk⟩
  isplitl [Hk]
  · iintro ⟨Hb, Hst, Hh⟩
    rw [wp_ret]; imodintro
    iapply Hk
    isplitl [Hb]; · iexact Hb
    isplitl [Hst]; · iexact Hst
    iexact Hh
  isplitl [Hb]; · iexact Hb
  isplitl [Hst Hh]
  · isplitl [Hst]; · iexact Hst
    iexact Hh
  isplitr; · iapply SparseCore.Cfg.ctx_levAts; iexact Hctx
  isplitl [Hg] <;> iassumption

end Cert.Proof.Main

end
-- ==== Proof.ScGather.lean ====
/-
  A whole-row gather as a function: row `r` of the result is the table's row named by the `r`-th index word (the word read
  unsigned; a word naming no row of the 20000 is taken modulo 20000, which never happens for the index lists met here).
-/
import proofs.«217078_g14027363189340_cont_week2b_886_24_alg».proof.Proof.Gen.KernelIdeal
import Idealize.ShloMosaic.Lib.ValueIdx

noncomputable section

namespace Cert.Proof.Sc.V

open Cert.KernelIdeal
open Idealize.ShloMosaic Idealize.ShloMosaic.ValueIdx

/-- The row of the 20000-row node table an index word names. -/
def rowOf (w : BitVec 32) : Fin 20000 := ⟨w.toNat % 20000, Nat.mod_lt _ (by decide)⟩

theorem rowOf_val_of_lt {w : BitVec 32} (h : w.toNat < 20000) : (rowOf w).val = w.toNat := Nat.mod_eq_of_lt h

/-- The gathered rows: entry `(r, k)` is the table's entry `(row named by word r, k)`. -/
def gatherRows {α : Type} (tb : S20000x128.Idx → α) (jx : S327680.Idx → BitVec 32) : S327680x128.Idx → α :=
  fun i => tb (ix2 (rowOf (jx (ix1 (i 0)))) (i 1))

theorem gatherRows_apply {α : Type} (tb : S20000x128.Idx → α) (jx : S327680.Idx → BitVec 32) (r : Fin 327680) (k : Fin 128) :
    gatherRows tb jx (ix2 r k) = tb (ix2 (rowOf (jx (ix1 r))) k) := rfl

end Cert.Proof.Sc.V

end
-- ==== Proof.ValSteps.lean ====
/-
  What the three regions and the two gathers compute, at the extended reals: each region's output array after its
  write-backs, and each gather's rows of the node table at the index words.
-/
import proofs.«217078_g14027363189340_cont_week2b_886_24_alg».proof.Proof.TcRunV
import proofs.«217078_g14027363189340_cont_week2b_886_24_alg».proof.Proof.TcRegionV
import proofs.«217078_g14027363189340_cont_week2b_886_24_alg».proof.Proof.ScGather

noncomputable section

namespace Cert.Proof.Main

open Cert.KernelIdeal Cert.KernelIdeal.Gen Cert.Proof.Sc Cert.Proof.Tc

open Idealize.ShloMosaic Idealize.ShloMosaic.StableHlo Idealize.ShloMosaic.TcCoe
open Idealize.ShloMosaic.SparseCore.Cfg (HIx Pay)

/-- The steps of @main at the extended reals. -/
def stepsI : Steps (F := Ideal) where
  f0 := fun d V₁ => (dW0 d V₁ d).arrAt 4 cfg0.N
  f1 := fun d V₁ => (dW2 d V₁ d).arrAt 8 cfg2.N
  f2 := fun d V₁ => (dW4 d V₁ d).arrAt 8 cfg4.N
  g0 := fun tb jx => Cert.Proof.Sc.V.gatherRows tb jx
  g1 := fun tb jx => Cert.Proof.Sc.V.gatherRows tb jx

end Cert.Proof.Main

end
-- ==== Proof.TcValue.lean ====
/-
  The three kernel regions' output arrays in closed form at the extended reals: each as one function of the arrays
  the region reads, index by index.
-/
import proofs.«217078_g14027363189340_cont_week2b_886_24_alg».proof.Proof.TcData
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.Proof.Tc

open Cert.KernelIdeal Cert.KernelIdeal.Gen
open Idealize.ShloMosaic Idealize.ShloMosaic.TcCoe Idealize.ShloMosaic.ValueIdx
open Idealize.SL Idealize.SL.RA Idealize.SL.Sem
open Idealize.ShloMosaic.Pipeline (Dat Cfg Window)

variable {Ix : Type} [DecidableEq Ix] {Name : Type} [DecidableEq Name] {U : Type} [URA U] {Lvl : Type}

/-! ## The kernels' three products at an index -/

/-- matmulT_apply: the product read at an index is the sum over the contracted coordinate. -/
theorem matmulT_apply (A : FVec Ideal S10000x128 .f32) (B : FVec Ideal S128x128 .f32) (a : Fin 10000) (b : Fin 128) :
    matmul dot_S10000x128_S128x128_S10000x128_1_1_0_0_n_n none A B (constant S10000x128 .f32 0x00000000#32) (ix2 a b) = ∑ c : Fin 128, A (ix2 a c) * B (ix2 b c) := by
  show FloatOps.matmul dot_S10000x128_S128x128_S10000x128_1_1_0_0_n_n none A B (constant S10000x128 .f32 0x00000000#32) (ix2 a b) = _
  rw [Ideal.matmul_constant_zero_apply, ← Equiv.sum_comp (contrEquiv1 dot_S10000x128_S128x128_S10000x128_1_1_0_0_n_n 128 rfl rfl).symm]
  refine Finset.sum_congr rfl fun c _ => ?_
  have c2 := contrEquiv1_symm_val dot_S10000x128_S128x128_S10000x128_1_1_0_0_n_n 128 rfl rfl c
  have l2 : dot_S10000x128_S128x128_S10000x128_1_1_0_0_n_n.lhsIdx (ix2 a b) ((contrEquiv1 dot_S10000x128_S128x128_S10000x128_1_1_0_0_n_n 128 rfl rfl).symm c) = ix2 a c := by
    funext ax; apply Fin.ext
    match ax with
    | ⟨0, _⟩ => simp [DotDims.lhsIdx, dot_S10000x128_S128x128_S10000x128_1_1_0_0_n_n]; rfl
    | ⟨1, _⟩ => simp [DotDims.lhsIdx, dot_S10000x128_S128x128_S10000x128_1_1_0_0_n_n]; exact c2
  have r2 : dot_S10000x128_S128x128_S10000x128_1_1_0_0_n_n.rhsIdx (ix2 a b) ((contrEquiv1 dot_S10000x128_S128x128_S10000x128_1_1_0_0_n_n 128 rfl rfl).symm c) = ix2 b c := by
    funext ax; apply Fin.ext
    match ax with
    | ⟨0, _⟩ => simp [DotDims.rhsIdx, dot_S10000x128_S128x128_S10000x128_1_1_0_0_n_n]; rfl
    | ⟨1, _⟩ => simp [DotDims.rhsIdx, dot_S10000x128_S128x128_S10000x128_1_1_0_0_n_n]; exact c2
  rw [l2, r2]

/-- matmulE_apply: the product read at an index is the sum over the contracted coordinate. -/
theorem matmulE_apply (A : FVec Ideal S8000x16 .f32) (B : FVec Ideal S16x128 .f32) (a : Fin 8000) (b : Fin 128) :
    matmul dot_S8000x16_S16x128_S8000x128_1_0_0_1_n_n none A B (constant S8000x128 .f32 0x00000000#32) (ix2 a b) = ∑ c : Fin 16, A (ix2 a c) * B (ix2 c b) := by
  show FloatOps.matmul dot_S8000x16_S16x128_S8000x128_1_0_0_1_n_n none A B (constant S8000x128 .f32 0x00000000#32) (ix2 a b) = _
  rw [Ideal.matmul_constant_zero_apply, ← Equiv.sum_comp (contrEquiv1 dot_S8000x16_S16x128_S8000x128_1_0_0_1_n_n 16 rfl rfl).symm]
  refine Finset.sum_congr rfl fun c _ => ?_
  have c2 := contrEquiv1_symm_val dot_S8000x16_S16x128_S8000x128_1_0_0_1_n_n 16 rfl rfl c
  have l2 : dot_S8000x16_S16x128_S8000x128_1_0_0_1_n_n.lhsIdx (ix2 a b) ((contrEquiv1 dot_S8000x16_S16x128_S8000x128_1_0_0_1_n_n 16 rfl rfl).symm c) = ix2 a c := by
    funext ax; apply Fin.ext
    match ax with
    | ⟨0, _⟩ => simp [DotDims.lhsIdx, dot_S8000x16_S16x128_S8000x128_1_0_0_1_n_n]; rfl
    | ⟨1, _⟩ => simp [DotDims.lhsIdx, dot_S8000x16_S16x128_S8000x128_1_0_0_1_n_n]; exact c2
  have r2 : dot_S8000x16_S16x128_S8000x128_1_0_0_1_n_n.rhsIdx (ix2 a b) ((contrEquiv1 dot_S8000x16_S16x128_S8000x128_1_0_0_1_n_n 16 rfl rfl).symm c) = ix2 c b := by
    funext ax; apply Fin.ext
    match ax with
    | ⟨0, _⟩ => simp [DotDims.rhsIdx, dot_S8000x16_S16x128_S8000x128_1_0_0_1_n_n]; exact c2
    | ⟨1, _⟩ => simp [DotDims.rhsIdx, dot_S8000x16_S16x128_S8000x128_1_0_0_1_n_n]; rfl
  rw [l2, r2]

/-- matmulH_apply: the product read at an index is the sum over the contracted coordinate. -/
theorem matmulH_apply (A : FVec Ideal S8000x128 .bf16) (B : FVec Ideal S128x128 .bf16) (a : Fin 8000) (b : Fin 128) :
    matmul dot_S8000x128_S128x128_S8000x128_1_0_0_1_n_n none A B (constant S8000x128 .f32 0x00000000#32) (ix2 a b) = ∑ c : Fin 128, A (ix2 a c) * B (ix2 c b) := by
  show FloatOps.matmul dot_S8000x128_S128x128_S8000x128_1_0_0_1_n_n none A B (constant S8000x128 .f32 0x00000000#32) (ix2 a b) = _
  rw [Ideal.matmul_constant_zero_apply, ← Equiv.sum_comp (contrEquiv1 dot_S8000x128_S128x128_S8000x128_1_0_0_1_n_n 128 rfl rfl).symm]
  refine Finset.sum_congr rfl fun c _ => ?_
  have c2 := contrEquiv1_symm_val dot_S8000x128_S128x128_S8000x128_1_0_0_1_n_n 128 rfl rfl c
  have l2 : dot_S8000x128_S128x128_S8000x128_1_0_0_1_n_n.lhsIdx (ix2 a b) ((contrEquiv1 dot_S8000x128_S128x128_S8000x128_1_0_0_1_n_n 128 rfl rfl).symm c) = ix2 a c := by
    funext ax; apply Fin.ext
    match ax with
    | ⟨0, _⟩ => simp [DotDims.lhsIdx, dot_S8000x128_S128x128_S8000x128_1_0_0_1_n_n]; rfl
    | ⟨1, _⟩ => simp [DotDims.lhsIdx, dot_S8000x128_S128x128_S8000x128_1_0_0_1_n_n]; exact c2
  have r2 : dot_S8000x128_S128x128_S8000x128_1_0_0_1_n_n.rhsIdx (ix2 a b) ((contrEquiv1 dot_S8000x128_S128x128_S8000x128_1_0_0_1_n_n 128 rfl rfl).symm c) = ix2 c b := by
    funext ax; apply Fin.ext
    match ax with
    | ⟨0, _⟩ => simp [DotDims.rhsIdx, dot_S8000x128_S128x128_S8000x128_1_0_0_1_n_n]; exact c2
    | ⟨1, _⟩ => simp [DotDims.rhsIdx, dot_S8000x128_S128x128_S8000x128_1_0_0_1_n_n]; rfl
  rw [l2, r2]

/-! ## Region 0: the node tables -/

/-- The grid coordinate's test for zero, as the select reads it. -/
theorem cmpi_coord0 (i : grid0.Coords) : Scalar.cmpi .eq (BitVec.ofNat 32 (i 0).val) 0#32 = if (i 0).val = 0 then 1#1 else 0#1 := by
  have h : (i 0).val < 2 := (i 0).isLt
  rcases Nat.lt_succ_iff_lt_or_eq.mp h with h0 | h1
  · have : (i 0).val = 0 := by omega
    rw [this]; rfl
  · rw [h1]; rfl

/-- The body's payload at row `n`, column `j` of its one block: the selected node-feature row times the weight
    matrix's row `j`, plus the bias at `j`. -/
theorem pay0_apply (i : grid0.Coords) (v1 v2 : Vec Ideal S10000x128 .f32) (v4 : Vec Ideal S1x128x128 .f32) (v7 : Vec Ideal S1x1x128 .f32)
    (u : Fin 1) (n : Fin 10000) (j : Fin 128) :
    k0_pay1 i v1 v2 v4 v7 (ix3 u n j)
      = (∑ k : Fin 128, (if (i 0).val = 0 then v1 (ix2 n k) else v2 (ix2 n k)) * v4 (ix3 (0 : Fin 1) j k)) + v7 (ix3 (0 : Fin 1) (0 : Fin 1) j) := by
  unfold k0_pay1
  simp only []
  rw [shapeCast_ab_1ab_apply, addf_apply, matmulT_apply, broadcastTo_1b_ab_apply, shapeCast_1ab_ab_apply]
  congr 1
  refine Finset.sum_congr rfl fun k _ => ?_
  rw [shapeCast_1ab_ab_apply, cmpi_coord0]
  split
  · rw [select_one]
  · rw [select_zero]

theorem hz2 : (![0, 0] : Fin 2 → Nat) = fun _ => 0 := funext fun a => by fin_cases a <;> rfl
theorem hz3 : (![0, 0, 0] : Fin 3 → Nat) = fun _ => 0 := funext fun a => by fin_cases a <;> rfl

/-- The node table at table `p`, node `n`, column `j`: the node's features (the source's for table 0, the destination's
    for table 1) times row `j` of the table's weight matrix, plus the table's bias at `j`. -/
def tblAt (X0 X1 : S10000x128.Idx → EReal) (Wsd : S2x128x128.Idx → EReal) (bsd : S2x1x128.Idx → EReal)
    (p : Fin 2) (n : Fin 10000) (j : Fin 128) : EReal :=
  (∑ k : Fin 128, (if p.val = 0 then X0 (ix2 n k) else X1 (ix2 n k)) * Wsd (ix3 p j k)) + bsd (ix3 p (0 : Fin 1) j)

/-- The two node tables as one array. -/
def T0 (X0 X1 : S10000x128.Idx → EReal) (Wsd : S2x128x128.Idx → EReal) (bsd : S2x1x128.Idx → EReal) : S2x10000x128.Idx → EReal :=
  fun i => tblAt X0 X1 Wsd bsd (i 0) (i 1) (i 2)

/-- The printed index maps over the two points: the output's, the weights' and the bias's blocks follow the point; the
    node features' never move. -/
theorem idx_facts0 : ∀ t : Fin cfg0.N,
    win0_4.index t (0 : Fin 3) = t.val ∧ win0_4.index t (1 : Fin 3) = 0 ∧ win0_4.index t (2 : Fin 3) = 0
    ∧ win0_0.index t (0 : Fin 2) = 0 ∧ win0_0.index t (1 : Fin 2) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0
    ∧ (grid0.coords t 0).val = t.val :=
  (by decide +kernel : ∀ t : Fin grid0.N, _)

section Region0V

variable (V : (c : Dev nD) → (b : Ref sig .tc) → Buf (Elt Ideal) ((c : Thread nD τ).loc b))
  (O : CellTallies nD τ sig Ix) (B : Set (SemLoc sig × Ix)) (c : Dev nD)

/-- WHAT POINT `t` WRITES BACK is block `t` of the node tables of the arrays as the region finds them. -/
theorem flushed0_eq (t : Fin cfg0.N) :
    (dat0 (Name := Name) (U := U) (Lvl := Lvl) V O B c).flushed 4 t
      = ((cfg0.win 4).blk t).view.read (Elt Ideal) (T0 (V c main_arg1) (V c main_arg2) (V c main_v2) (V c main_v7)) := by
  show (cfg0.win 4).cut (grid0.coords t) ((dat0 (Name := Name) (U := U) (Lvl := Lvl) V O B c).after 4 t) = _
  rw [after0_4]
  unfold out0_4
  rw [View.canon_unit_zero hz3]
  simp only [View.ld_unit_zero (S := S10000x128) hz2, View.ld_unit_zero (S := S1x128x128) hz3, View.ld_unit_zero (S := S1x1x128) hz3]
  obtain ⟨f40, f41, f42, f00, f01, f10, f11, f20, f21, f22, f30, f31, f32, fc⟩ := idx_facts0 t
  have hN : t.val < 2 := lt_of_lt_of_eq t.isLt (show cfg0.N = 2 from N_0)
  funext y
  obtain ⟨u, n, j, rfl⟩ : ∃ (u : Fin 1) (n : Fin 10000) (j : Fin 128), y = ix3 u n j := ⟨y 0, y 1, y 2, eq_ix3 y⟩
  have hu : u.val = 0 := by omega
  show k0_pay1 (grid0.coords t) (iblk0 V c 0 t) (iblk0 V c 1 t) (iblk0 V c 2 t) (iblk0 V c 3 t) (ix3 u n j)
    = T0 (V c main_arg1) (V c main_arg2) (V c main_v2) (V c main_v7) (((cfg0.win 4).blk t).view.emb (ix3 u n j))
  rw [pay0_apply]
  have e4 : ((cfg0.win 4).blk t).view.emb (ix3 u n j) = ix3 (⟨t.val, hN⟩ : Fin 2) n j := by
    funext a; apply Fin.ext
    match a with
    | ⟨0, _⟩ => show win0_4.index t (0 : Fin 3) * 1 + 1 * u.val = t.val; omega
    | ⟨1, _⟩ => show win0_4.index t (1 : Fin 3) * 10000 + 1 * n.val = n.val; omega
    | ⟨2, _⟩ => show win0_4.index t (2 : Fin 3) * 128 + 1 * j.val = j.val; omega
  rw [e4]
  show _ = tblAt (V c main_arg1) (V c main_arg2) (V c main_v2) (V c main_v7) (⟨t.val, hN⟩ : Fin 2) n j
  unfold tblAt
  have r3 : iblk0 V c 3 t (ix3 (0 : Fin 1) (0 : Fin 1) j) = V c main_v7 (ix3 (⟨t.val, hN⟩ : Fin 2) (0 : Fin 1) j) := by
    show V c main_v7 (((cfg0.win 3).blk t).view.emb (ix3 (0 : Fin 1) (0 : Fin 1) j)) = _
    refine congrArg _ (funext fun a => Fin.ext ?_)
    match a with
    | ⟨0, _⟩ => show win0_3.index t (0 : Fin 3) * 1 + 1 * 0 = t.val; omega
    | ⟨1, _⟩ => show win0_3.index t (1 : Fin 3) * 1 + 1 * 0 = 0; omega
    | ⟨2, _⟩ => show win0_3.index t (2 : Fin 3) * 128 + 1 * j.val = j.val; omega
  rw [r3]
  refine congrArg (· + _) (Finset.sum_congr rfl fun k _ => ?_)
  have r0 : iblk0 V c 0 t (ix2 n k) = V c main_arg1 (ix2 n k) := by
    show V c main_arg1 (((cfg0.win 0).blk t).view.emb (ix2 n k)) = _
    refine congrArg _ (funext fun a => Fin.ext ?_)
    match a with
    | ⟨0, _⟩ => show win0_0.index t (0 : Fin 2) * 10000 + 1 * n.val = n.val; omega
    | ⟨1, _⟩ => show win0_0.index t (1 : Fin 2) * 128 + 1 * k.val = k.val; omega
  have r1 : iblk0 V c 1 t (ix2 n k) = V c main_arg2 (ix2 n k) := by
    show V c main_arg2 (((cfg0.win 1).blk t).view.emb (ix2 n k)) = _
    refine congrArg _ (funext fun a => Fin.ext ?_)
    match a with
    | ⟨0, _⟩ => show win0_1.index t (0 : Fin 2) * 10000 + 1 * n.val = n.val; omega
    | ⟨1, _⟩ => show win0_1.index t (1 : Fin 2) * 128 + 1 * k.val = k.val; omega
  have r2 : iblk0 V c 2 t (ix3 (0 : Fin 1) j k) = V c main_v2 (ix3 (⟨t.val, hN⟩ : Fin 2) j k) := by
    show V c main_v2 (((cfg0.win 2).blk t).view.emb (ix3 (0 : Fin 1) j k)) = _
    refine congrArg _ (funext fun a => Fin.ext ?_)
    match a with
    | ⟨0, _⟩ => show win0_2.index t (0 : Fin 3) * 1 + 1 * 0 = t.val; omega
    | ⟨1, _⟩ => show win0_2.index t (1 : Fin 3) * 128 + 1 * j.val = j.val; omega
    | ⟨2, _⟩ => show win0_2.index t (2 : Fin 3) * 128 + 1 * k.val = k.val; omega
  rw [r0, r1, r2, fc]

/-- An index of the table array is in point `t`'s block iff each coordinate is in the block's range on its axis. -/
theorem mem_blk0 (t : Fin cfg0.N) (i : S2x10000x128.Idx) :
    i ∈ ((cfg0.win 4).blk t).view.set ↔ ∀ a : Fin 3, win0_4.index t a * S1x10000x128.size a ≤ (i a).val ∧ (i a).val < win0_4.index t a * S1x10000x128.size a + S1x10000x128.size a := by
  show i ∈ ((View.whole main_v8).slice (win0_4.rect t)).set ↔ _
  rw [View.set_slice_whole, Rect.mem_set_unit]
  exact Iff.rfl

/-- Every index of the table array is in some point's block: table `p` is point `p`'s. -/
theorem cover0 (i : S2x10000x128.Idx) : ∃ t : Fin cfg0.N, (cfg0.win 4).flush t = true ∧ i ∈ ((cfg0.win 4).blk t).view.set := by
  have h0 : (i 0).val < 2 := (i 0).isLt
  have h1 : (i 1).val < 10000 := (i 1).isLt
  have h2 : (i 2).val < 128 := (i 2).isLt
  refine ⟨⟨(i 0).val, lt_of_lt_of_eq h0 (show (2 : ℕ) = cfg0.N from N_0.symm)⟩, flush0_4 _, ?_⟩
  rw [mem_blk0]
  obtain ⟨f40', f41, f42, -⟩ := idx_facts0 ⟨(i 0).val, lt_of_lt_of_eq h0 (show (2 : ℕ) = cfg0.N from N_0.symm)⟩
  have f40 : win0_4.index ⟨(i 0).val, lt_of_lt_of_eq h0 (show (2 : ℕ) = cfg0.N from N_0.symm)⟩ (0 : Fin 3) = (i 0).val := f40'
  intro a
  match a with
  | ⟨0, _⟩ => show win0_4.index _ (0 : Fin 3) * 1 ≤ (i 0).val ∧ (i 0).val < win0_4.index _ (0 : Fin 3) * 1 + 1; rw [f40]; omega
  | ⟨1, _⟩ => show win0_4.index _ (1 : Fin 3) * 10000 ≤ (i 1).val ∧ (i 1).val < win0_4.index _ (1 : Fin 3) * 10000 + 10000; rw [f41]; omega
  | ⟨2, _⟩ => show win0_4.index _ (2 : Fin 3) * 128 ≤ (i 2).val ∧ (i 2).val < win0_4.index _ (2 : Fin 3) * 128 + 128; rw [f42]; omega

/-- THE TABLE ARRAY after the region: the node tables of the arrays as the region finds them. -/
theorem final0 : (dat0 (Name := Name) (U := U) (Lvl := Lvl) V O B c).arrAt 4 cfg0.N
    = T0 (V c main_arg1) (V c main_arg2) (V c main_v2) (V c main_v7) :=
  (dat0 (Name := Name) (U := U) (Lvl := Lvl) V O B c).arrAt_eq_of_cover 4 _ (fun t _ => flushed0_eq V O B c t) cover0

end Region0V

/-! ## The edge regions: layer-normalised rows -/

section Layout
variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  Idealize.ShloMosaic.shapeCast_apply x h _ _ (by
    have hu : u.val = 0 := by omega
    rw [Shape.rowMajor_val_two, Shape.rowMajor_val_one]
    show i.val = i.val * 1 + u.val
    omega)

/-- An `[a, 1]` column broadcast to `[a, b]` reads, at `(i, j)`, the column at `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine Idealize.ShloMosaic.broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Layout

/-- A row's sum, as the body's reduction over the columns reads at the extended reals. -/
theorem rowSum_apply (src : FVec Ideal S8000x128 .f32) (hφ : FTy.f32 = FTy.f32 ∨ FTy.f32 = FTy.bf16) (hacc : (0x00000000#32 : BitVec 32) = 0x00000000#32)
    (e : Fin 8000) :
    multiReduction .add [1] S8000 src 0x00000000#32 reduces_S8000x128_S8000 hφ hacc (ix1 e) = ∑ k : Fin 128, src (ix2 e k) := by
  refine (Ideal.multiReduction_add_single src 0x00000000#32 reduces_S8000x128_S8000 hφ hacc (ix1 e)).trans ?_
  refine Finset.sum_congr rfl fun k _ => congrArg src (funext fun a => ?_)
  match a with
  | ⟨0, _⟩ => rfl
  | ⟨1, _⟩ => rfl

section EdgeRow

variable (v0 : FVec Ideal S8000x16 .f32) (v1 : FVec Ideal S16x128 .f32) (v4 v7 : FVec Ideal S1x8000x128 .f32)
  (v13 : FVec Ideal S128x128 .bf16) (v16 v36 v40 : FVec Ideal S1x128 .f32)

/-- The hidden row: the edge's features times the edge weights, plus the two gathered node rows. -/
def hAt (e : Fin 8000) (j : Fin 128) : EReal :=
  (∑ k : Fin 16, v0 (ix2 e k) * v1 (ix2 k j)) + v4 (ix3 (0 : Fin 1) e j) + v7 (ix3 (0 : Fin 1) e j)
/-- … gated by its own logistic, -/
def sAt (e : Fin 8000) (j : Fin 128) : EReal := hAt v0 v1 v4 v7 e j * Ideal.logistic (hAt v0 v1 v4 v7 e j)
/-- … times the output weights, plus the bias. -/
def h2At (e : Fin 8000) (j : Fin 128) : EReal := (∑ k : Fin 128, sAt v0 v1 v4 v7 e k * v13 (ix2 k j)) + v16 (ix2 (0 : Fin 1) j)
/-- The row's mean, -/
def muAt (e : Fin 8000) : EReal := Ideal.div (∑ k : Fin 128, h2At v0 v1 v4 v7 v13 v16 e k) (Scalar.ofBits (F := Ideal) .f32 0x43000000#32)
/-- the row centred, -/
def dAt (e : Fin 8000) (j : Fin 128) : EReal := h2At v0 v1 v4 v7 v13 v16 e j - muAt v0 v1 v4 v7 v13 v16 e
/-- its variance, -/
def varAt (e : Fin 8000) : EReal :=
  Ideal.div (∑ k : Fin 128, dAt v0 v1 v4 v7 v13 v16 e k * dAt v0 v1 v4 v7 v13 v16 e k) (Scalar.ofBits (F := Ideal) .f32 0x43000000#32)
/-- and the normalised row scaled and shifted. -/
def outAt (e : Fin 8000) (j : Fin 128) : EReal :=
  dAt v0 v1 v4 v7 v13 v16 e j * Ideal.rsqrt (varAt v0 v1 v4 v7 v13 v16 e + Scalar.ofBits (F := Ideal) .f32 0x3727C5AC#32) * v36 (ix2 (0 : Fin 1) j)
    + v40 (ix2 (0 : Fin 1) j)

end EdgeRow

section EdgeVec

variable (v0 : FVec Ideal S8000x16 .f32) (v1 : FVec Ideal S16x128 .f32) (v4 v7 : FVec Ideal S1x8000x128 .f32)
  (v13 : FVec Ideal S128x128 .bf16) (v16 v36 v40 : FVec Ideal S1x128 .f32)

/-- The body's vectors, as the payload computes them: the hidden block, -/
def V9 : FVec Ideal S8000x128 .f32 :=
  addf (addf (matmul dot_S8000x16_S16x128_S8000x128_1_0_0_1_n_n none v0 (shapeCast S16x128 v1 shapeCasts_S16x128_S16x128 : FVec Ideal S16x128 .f32) (constant S8000x128 .f32 0x00000000#32))
    (shapeCast S8000x128 v4 shapeCasts_S1x8000x128_S8000x128 : FVec Ideal S8000x128 .f32)) (shapeCast S8000x128 v7 shapeCasts_S1x8000x128_S8000x128 : FVec Ideal S8000x128 .f32)
/-- the block before normalisation, -/
def V19 : FVec Ideal S8000x128 .f32 :=
  addf (matmul dot_S8000x128_S128x128_S8000x128_1_0_0_1_n_n none (truncf .bf16 (mulf (V9 v0 v1 v4 v7) (logistic (V9 v0 v1 v4 v7))) bitsLt_bf16_f32)
    (shapeCast S128x128 v13 shapeCasts_S128x128_S128x128 : FVec Ideal S128x128 .bf16) (constant S8000x128 .f32 0x00000000#32))
    (broadcastTo S8000x128 (shapeCast S1x128 v16 shapeCasts_S1x128_S1x128 : FVec Ideal S1x128 .f32) broadcasts_S1x128_S8000x128)
/-- the rows' means as a column, -/
def V23 : FVec Ideal S8000x1 .f32 :=
  divf (shapeCast S8000x1 (multiReduction .add [1] S8000 (V19 v0 v1 v4 v7 v13 v16) 0x00000000#32 reduces_S8000x128_S8000 (.inl rfl) rfl) shapeCasts_S8000_S8000x1)
    (broadcast S8000x1 (Scalar.ofBits .f32 0x43000000#32))
/-- the centred block, -/
def V25 : FVec Ideal S8000x128 .f32 :=
  subf (V19 v0 v1 v4 v7 v13 v16) (broadcastTo S8000x128 (V23 v0 v1 v4 v7 v13 v16) broadcasts_S8000x1_S8000x128)
/-- the rows' variances as a column, -/
def V30 : FVec Ideal S8000x1 .f32 :=
  divf (shapeCast S8000x1 (multiReduction .add [1] S8000 (mulf (V25 v0 v1 v4 v7 v13 v16) (V25 v0 v1 v4 v7 v13 v16)) 0x00000000#32 reduces_S8000x128_S8000 (.inl rfl) rfl) shapeCasts_S8000_S8000x1)
    (broadcast S8000x1 (Scalar.ofBits .f32 0x43000000#32))
/-- the normalised block. -/
def V35 : FVec Ideal S8000x128 .f32 :=
  mulf (V25 v0 v1 v4 v7 v13 v16) (broadcastTo S8000x128 (rsqrt (addf (V30 v0 v1 v4 v7 v13 v16) (broadcast S8000x1 (Scalar.ofBits .f32 0x3727C5AC#32)))) broadcasts_S8000x1_S8000x128)

set_option maxHeartbeats 1000000 in
/-- Both edge bodies' first parts compute the normalised block. -/
theorem k2_pay2_eq : k2_pay2 (F := Ideal) v0 v1 v4 v7 v13 v16 = V35 v0 v1 v4 v7 v13 v16 := rfl
set_option maxHeartbeats 1000000 in
theorem k4_pay2_eq : k4_pay2 (F := Ideal) v0 v1 v4 v7 v13 v16 = V35 v0 v1 v4 v7 v13 v16 := rfl

theorem V9_apply (e : Fin 8000) (j : Fin 128) : V9 v0 v1 v4 v7 (ix2 e j) = hAt v0 v1 v4 v7 e j := by
  unfold V9 hAt
  simp only [shapeCast_self, addf_apply, matmulE_apply, shapeCast_1ab_ab_apply]

theorem V19_apply (e : Fin 8000) (j : Fin 128) : V19 v0 v1 v4 v7 v13 v16 (ix2 e j) = h2At v0 v1 v4 v7 v13 v16 e j := by
  unfold V19 h2At sAt
  simp only [shapeCast_self, addf_apply, matmulH_apply, broadcastTo_1b_ab_apply, truncf_apply, mulf_apply, logistic, Ideal.logistic_def, V9_apply]

theorem V23_apply (e : Fin 8000) (u : Fin 1) : V23 v0 v1 v4 v7 v13 v16 (ix2 e u) = muAt v0 v1 v4 v7 v13 v16 e := by
  unfold V23 muAt
  show Ideal.div (shapeCast S8000x1 _ shapeCasts_S8000_S8000x1 (ix2 e u)) _ = _
  refine congrArg (Ideal.div · _) (((shapeCast_a_a1_apply _ _ e u).trans (rowSum_apply _ _ _ e)).trans ?_)
  exact Finset.sum_congr rfl fun k _ => V19_apply v0 v1 v4 v7 v13 v16 e k

theorem V25_apply (e : Fin 8000) (j : Fin 128) : V25 v0 v1 v4 v7 v13 v16 (ix2 e j) = dAt v0 v1 v4 v7 v13 v16 e j := by
  unfold V25 dAt
  simp only [subf_apply, broadcastTo_a1_ab_apply, V19_apply, V23_apply]

theorem V30_apply (e : Fin 8000) (u : Fin 1) : V30 v0 v1 v4 v7 v13 v16 (ix2 e u) = varAt v0 v1 v4 v7 v13 v16 e := by
  unfold V30 varAt
  show Ideal.div (shapeCast S8000x1 _ shapeCasts_S8000_S8000x1 (ix2 e u)) _ = _
  refine congrArg (Ideal.div · _) (((shapeCast_a_a1_apply _ _ e u).trans (rowSum_apply _ _ _ e)).trans ?_)
  exact Finset.sum_congr rfl fun k _ => by rw [mulf_apply, V25_apply]

theorem V35_apply (e : Fin 8000) (j : Fin 128) :
    V35 v0 v1 v4 v7 v13 v16 (ix2 e j)
      = dAt v0 v1 v4 v7 v13 v16 e j * Ideal.rsqrt (varAt v0 v1 v4 v7 v13 v16 e + Scalar.ofBits (F := Ideal) .f32 0x3727C5AC#32) := by
  unfold V35
  simp only [mulf_apply, broadcastTo_a1_ab_apply, rsqrt, Ideal.rsqrt_def, addf_apply, broadcast_apply, V25_apply, V30_apply]

/-- The bodies' payloads at row `e`, column `j` of the block. -/
theorem pay2_apply (e : Fin 8000) (j : Fin 128) :
    k2_pay1 (F := Ideal) (k2_pay2 (F := Ideal) v0 v1 v4 v7 v13 v16) v36 v40 (ix2 e j) = outAt v0 v1 v4 v7 v13 v16 v36 v40 e j := by
  rw [k2_pay2_eq]; unfold k2_pay1 outAt
  simp only [shapeCast_self, addf_apply, mulf_apply, broadcastTo_1b_ab_apply, V35_apply]
theorem pay4_apply (e : Fin 8000) (j : Fin 128) :
    k4_pay1 (F := Ideal) (k4_pay2 (F := Ideal) v0 v1 v4 v7 v13 v16) v36 v40 (ix2 e j) = outAt v0 v1 v4 v7 v13 v16 v36 v40 e j := by
  rw [k4_pay2_eq]; unfold k4_pay1 outAt
  simp only [shapeCast_self, addf_apply, mulf_apply, broadcastTo_1b_ab_apply, V35_apply]

end EdgeVec

end Cert.Proof.Tc

end
-- ==== Proof.ValGlue.lean ====
/-
  The arrays the edge regions read, in terms of the argument arrays. From the launch memory on, every buffer a region
  reads is a fixed function of the arguments: the transposed weights, the row parameters as one-row arrays, the edge
  features themselves; the first edge region's result, copied, is what the second region's output buffer starts from.
-/
import proofs.«217078_g14027363189340_cont_week2b_886_24_alg».proof.Proof.ValSteps
import proofs.«217078_g14027363189340_cont_week2b_886_24_alg».proof.Proof.TcValue
import proofs.«217078_g14027363189340_cont_week2b_886_24_alg».proof.Proof.TcIdx
import proofs.«217078_g14027363189340_cont_week2b_886_24_alg».proof.Proof.Spec
import Idealize.ShloMosaic.Lib.ValueLayout
import Idealize.ShloMosaic.Lib.Pipeline.Value
import Idealize.ShloMosaic.PureOps.Ideal.Laws

noncomputable section

namespace Cert.Proof.Main

open Cert.KernelIdeal Cert.KernelIdeal.Gen Cert.Proof.Sc Cert.Proof.Tc

open Idealize.ShloMosaic Idealize.ShloMosaic.StableHlo Idealize.ShloMosaic.TcCoe Idealize.ShloMosaic.ValueIdx
open scoped BigOperators

section Frames
variable {F : FTy → Type} [FloatOps F]

/-- A valuation changed at one buffer, read at another. -/
theorem upd_ne (V : Valuation τ sig (Elt F)) {r r' : Ref sig .tc} (h : r ≠ r') (x : (Proc.devRef (τ := τ) .tc r').ty.Contents (Elt F)) :
    Function.update V (Proc.devRef .tc r') x (Proc.devRef .tc r) = V (Proc.devRef .tc r) :=
  Function.update_of_ne (devRef_ne_of_ne h) _ _

/-! What the later stretches leave alone. -/
theorem afterC_v11 (V : Valuation τ sig (Elt F)) : after opsC V (Proc.devRef .tc main_v11) = V (Proc.devRef .tc main_v11) := by after_results_simp
theorem afterD_v11 (V : Valuation τ sig (Elt F)) : after opsD V (Proc.devRef .tc main_v11) = V (Proc.devRef .tc main_v11) := by after_results_simp
theorem afterE_v11 (V : Valuation τ sig (Elt F)) : after opsE V (Proc.devRef .tc main_v11) = V (Proc.devRef .tc main_v11) := by after_results_simp
theorem afterC_v13 (V : Valuation τ sig (Elt F)) : after opsC V (Proc.devRef .tc main_v13) = V (Proc.devRef .tc main_v13) := by after_results_simp
theorem afterD_v13 (V : Valuation τ sig (Elt F)) : after opsD V (Proc.devRef .tc main_v13) = V (Proc.devRef .tc main_v13) := by after_results_simp
theorem afterE_v13 (V : Valuation τ sig (Elt F)) : after opsE V (Proc.devRef .tc main_v13) = V (Proc.devRef .tc main_v13) := by after_results_simp
theorem afterC_v14 (V : Valuation τ sig (Elt F)) : after opsC V (Proc.devRef .tc main_v14) = V (Proc.devRef .tc main_v14) := by after_results_simp
theorem afterD_v14 (V : Valuation τ sig (Elt F)) : after opsD V (Proc.devRef .tc main_v14) = V (Proc.devRef .tc main_v14) := by after_results_simp
theorem afterE_v14 (V : Valuation τ sig (Elt F)) : after opsE V (Proc.devRef .tc main_v14) = V (Proc.devRef .tc main_v14) := by after_results_simp
theorem afterC_v15 (V : Valuation τ sig (Elt F)) : after opsC V (Proc.devRef .tc main_v15) = V (Proc.devRef .tc main_v15) := by after_results_simp
theorem afterD_v15 (V : Valuation τ sig (Elt F)) : after opsD V (Proc.devRef .tc main_v15) = V (Proc.devRef .tc main_v15) := by after_results_simp
theorem afterE_v15 (V : Valuation τ sig (Elt F)) : after opsE V (Proc.devRef .tc main_v15) = V (Proc.devRef .tc main_v15) := by after_results_simp
theorem afterC_v16 (V : Valuation τ sig (Elt F)) : after opsC V (Proc.devRef .tc main_v16) = V (Proc.devRef .tc main_v16) := by after_results_simp
theorem afterD_v16 (V : Valuation τ sig (Elt F)) : after opsD V (Proc.devRef .tc main_v16) = V (Proc.devRef .tc main_v16) := by after_results_simp
theorem afterE_v16 (V : Valuation τ sig (Elt F)) : after opsE V (Proc.devRef .tc main_v16) = V (Proc.devRef .tc main_v16) := by after_results_simp
theorem afterC_arg0 (V : Valuation τ sig (Elt F)) : after opsC V (Proc.devRef .tc main_arg0) = V (Proc.devRef .tc main_arg0) := by after_results_simp
theorem afterD_arg0 (V : Valuation τ sig (Elt F)) : after opsD V (Proc.devRef .tc main_arg0) = V (Proc.devRef .tc main_arg0) := by after_results_simp
theorem afterE_arg0 (V : Valuation τ sig (Elt F)) : after opsE V (Proc.devRef .tc main_arg0) = V (Proc.devRef .tc main_arg0) := by after_results_simp
theorem afterC_v9 (V : Valuation τ sig (Elt F)) : after opsC V (Proc.devRef .tc main_v9) = V (Proc.devRef .tc main_v9) := by after_results_simp
theorem afterD_v9 (V : Valuation τ sig (Elt F)) : after opsD V (Proc.devRef .tc main_v9) = V (Proc.devRef .tc main_v9) := by after_results_simp
theorem afterE_v9 (V : Valuation τ sig (Elt F)) : after opsE V (Proc.devRef .tc main_v9) = V (Proc.devRef .tc main_v9) := by after_results_simp
theorem afterD_v28 (V : Valuation τ sig (Elt F)) : after opsD V (Proc.devRef .tc main_v28) = V (Proc.devRef .tc main_v28) := by after_results_simp
theorem afterE_v28 (V : Valuation τ sig (Elt F)) : after opsE V (Proc.devRef .tc main_v28) = V (Proc.devRef .tc main_v28) := by after_results_simp

/-! What the second stretch computes of the arguments. -/
theorem afterB_v11 (V : Valuation τ sig (Elt F)) :
    after opsB V (Proc.devRef .tc main_v11) = transpose S16x128 [1, 0] (V (Proc.devRef .tc main_arg4)) transposes_S128x16_S16x128_1_0 := by
  after_results_simp
theorem afterB_v13 (V : Valuation τ sig (Elt F)) :
    after opsB V (Proc.devRef .tc main_v13)
      = truncf .bf16 (transpose S128x128 [1, 0] (V (Proc.devRef .tc main_arg8)) transposes_S128x128_S128x128_1_0) bitsLt_bf16_f32 := by
  after_results_simp
theorem afterB_v14 (V : Valuation τ sig (Elt F)) :
    after opsB V (Proc.devRef .tc main_v14) = shapeCast S1x128 (V (Proc.devRef .tc main_arg9)) shapeCasts_S128_S1x128 := by
  after_results_simp; rfl
theorem afterB_v15 (V : Valuation τ sig (Elt F)) :
    after opsB V (Proc.devRef .tc main_v15) = shapeCast S1x128 (V (Proc.devRef .tc main_arg10)) shapeCasts_S128_S1x128 := by
  after_results_simp; rfl
theorem afterB_v16 (V : Valuation τ sig (Elt F)) :
    after opsB V (Proc.devRef .tc main_v16) = shapeCast S1x128 (V (Proc.devRef .tc main_arg11)) shapeCasts_S128_S1x128 := by
  after_results_simp; rfl
theorem afterB_arg0 (V : Valuation τ sig (Elt F)) : after opsB V (Proc.devRef .tc main_arg0) = V (Proc.devRef .tc main_arg0) := by
  after_results_simp
theorem afterE_v40 (V : Valuation τ sig (Elt F)) : after opsE V (Proc.devRef .tc main_v40) = V (Proc.devRef .tc main_v28) := by
  after_results_simp; rfl

variable (Stp : Steps (F := F)) (m : (ℓ : Loc nD τ sig) → Buf (Elt F) ℓ) (d : Dev nD)

/-- A buffer the first gather and the reshape after it leave alone holds after them what the second stretch left. -/
theorem valC_of_B {r : Ref sig .tc} (h26 : r ≠ main_v26) (hC : ∀ V : Valuation τ sig (Elt F), after opsC V (Proc.devRef .tc r) = V (Proc.devRef .tc r)) :
    valC Stp m d (Proc.devRef .tc r) = valB Stp m d (Proc.devRef .tc r) := by
  unfold valC valB'
  rw [hC, upd_ne _ h26]
/-- A buffer the first edge region, the fourth stretch, the second gather and the fifth stretch leave alone holds after
    them what it held before the first edge region. -/
theorem valE_of_C {r : Ref sig .tc} (h28 : r ≠ main_v28) (h38 : r ≠ main_v38)
    (hD : ∀ V : Valuation τ sig (Elt F), after opsD V (Proc.devRef .tc r) = V (Proc.devRef .tc r))
    (hE : ∀ V : Valuation τ sig (Elt F), after opsE V (Proc.devRef .tc r) = V (Proc.devRef .tc r)) :
    valE Stp m d (Proc.devRef .tc r) = valC Stp m d (Proc.devRef .tc r) := by
  unfold valE valD' valD valC'
  rw [hE, upd_ne _ h38, hD, upd_ne _ h28]

/-- The arguments as the second stretch finds them are the launch memory's. -/
theorem valA'_arg {r : Ref sig .tc} (hr : r ∈ argList) : valA' Stp m d (Proc.devRef .tc r) = m (d, Proc.devRef .tc r) :=
  keeps_valA' Stp m d r hr

end Frames

/-! ## The arrays the edge regions read -/

section K4
variable (m : (ℓ : Loc nD τ sig) → Buf (Elt Ideal) ℓ) (d : Dev nD)

/-- The transposed edge weights. -/
theorem v11_C (k : Fin 16) (j : Fin 128) :
    valC stepsI m d (Proc.devRef .tc main_v11) (ix2 k j) = m (d, Proc.devRef .tc main_arg4) (ix2 j k) := by
  rw [valC_of_B stepsI m d (by decide) afterC_v11]
  unfold valB
  rw [afterB_v11, valA'_arg stepsI m d (by decide)]
  exact transpose_ix2_apply _ _ k j
/-- The transposed output weights (their narrowing is the identity on extended reals). -/
theorem v13_C (k : Fin 128) (j : Fin 128) :
    valC stepsI m d (Proc.devRef .tc main_v13) (ix2 k j) = m (d, Proc.devRef .tc main_arg8) (ix2 j k) := by
  rw [valC_of_B stepsI m d (by decide) afterC_v13]
  unfold valB
  rw [afterB_v13, valA'_arg stepsI m d (by decide), truncf_apply]
  exact transpose_ix2_apply _ _ k j
/-- The output bias, the scale and the shift, each as a one-row array. -/
theorem v14_C (j : Fin 128) :
    valC stepsI m d (Proc.devRef .tc main_v14) (ix2 (0 : Fin 1) j) = m (d, Proc.devRef .tc main_arg9) (ix1 j) := by
  rw [valC_of_B stepsI m d (by decide) afterC_v14]
  unfold valB
  rw [afterB_v14, valA'_arg stepsI m d (by decide)]
  exact shapeCast_a_1a_apply _ _ (0 : Fin 1) j
theorem v15_C (j : Fin 128) :
    valC stepsI m d (Proc.devRef .tc main_v15) (ix2 (0 : Fin 1) j) = m (d, Proc.devRef .tc main_arg10) (ix1 j) := by
  rw [valC_of_B stepsI m d (by decide) afterC_v15]
  unfold valB
  rw [afterB_v15, valA'_arg stepsI m d (by decide)]
  exact shapeCast_a_1a_apply _ _ (0 : Fin 1) j
theorem v16_C (j : Fin 128) :
    valC stepsI m d (Proc.devRef .tc main_v16) (ix2 (0 : Fin 1) j) = m (d, Proc.devRef .tc main_arg11) (ix1 j) := by
  rw [valC_of_B stepsI m d (by decide) afterC_v16]
  unfold valB
  rw [afterB_v16, valA'_arg stepsI m d (by decide)]
  exact shapeCast_a_1a_apply _ _ (0 : Fin 1) j
/-- The edge features. -/
theorem arg0_C : valC stepsI m d (Proc.devRef .tc main_arg0) = m (d, Proc.devRef .tc main_arg0) := by
  rw [valC_of_B stepsI m d (by decide) afterC_arg0]
  unfold valB
  rw [afterB_arg0, valA'_arg stepsI m d (by decide)]

/-- The transposed edge weights. -/
theorem v11_E (k : Fin 16) (j : Fin 128) :
    valE stepsI m d (Proc.devRef .tc main_v11) (ix2 k j) = m (d, Proc.devRef .tc main_arg4) (ix2 j k) := by
  rw [valE_of_C stepsI m d (by decide) (by decide) afterD_v11 afterE_v11, valC_of_B stepsI m d (by decide) afterC_v11]
  unfold valB
  rw [afterB_v11, valA'_arg stepsI m d (by decide)]
  exact transpose_ix2_apply _ _ k j
/-- The transposed output weights (their narrowing is the identity on extended reals). -/
theorem v13_E (k : Fin 128) (j : Fin 128) :
    valE stepsI m d (Proc.devRef .tc main_v13) (ix2 k j) = m (d, Proc.devRef .tc main_arg8) (ix2 j k) := by
  rw [valE_of_C stepsI m d (by decide) (by decide) afterD_v13 afterE_v13, valC_of_B stepsI m d (by decide) afterC_v13]
  unfold valB
  rw [afterB_v13, valA'_arg stepsI m d (by decide), truncf_apply]
  exact transpose_ix2_apply _ _ k j
/-- The output bias, the scale and the shift, each as a one-row array. -/
theorem v14_E (j : Fin 128) :
    valE stepsI m d (Proc.devRef .tc main_v14) (ix2 (0 : Fin 1) j) = m (d, Proc.devRef .tc main_arg9) (ix1 j) := by
  rw [valE_of_C stepsI m d (by decide) (by decide) afterD_v14 afterE_v14, valC_of_B stepsI m d (by decide) afterC_v14]
  unfold valB
  rw [afterB_v14, valA'_arg stepsI m d (by decide)]
  exact shapeCast_a_1a_apply _ _ (0 : Fin 1) j
theorem v15_E (j : Fin 128) :
    valE stepsI m d (Proc.devRef .tc main_v15) (ix2 (0 : Fin 1) j) = m (d, Proc.devRef .tc main_arg10) (ix1 j) := by
  rw [valE_of_C stepsI m d (by decide) (by decide) afterD_v15 afterE_v15, valC_of_B stepsI m d (by decide) afterC_v15]
  unfold valB
  rw [afterB_v15, valA'_arg stepsI m d (by decide)]
  exact shapeCast_a_1a_apply _ _ (0 : Fin 1) j
theorem v16_E (j : Fin 128) :
    valE stepsI m d (Proc.devRef .tc main_v16) (ix2 (0 : Fin 1) j) = m (d, Proc.devRef .tc main_arg11) (ix1 j) := by
  rw [valE_of_C stepsI m d (by decide) (by decide) afterD_v16 afterE_v16, valC_of_B stepsI m d (by decide) afterC_v16]
  unfold valB
  rw [afterB_v16, valA'_arg stepsI m d (by decide)]
  exact shapeCast_a_1a_apply _ _ (0 : Fin 1) j
/-- The edge features. -/
theorem arg0_E : valE stepsI m d (Proc.devRef .tc main_arg0) = m (d, Proc.devRef .tc main_arg0) := by
  rw [valE_of_C stepsI m d (by decide) (by decide) afterD_arg0 afterE_arg0, valC_of_B stepsI m d (by decide) afterC_arg0]
  unfold valB
  rw [afterB_arg0, valA'_arg stepsI m d (by decide)]

/-- The second edge region's output buffer starts from the first region's result. -/
theorem v40_E : valE stepsI m d (Proc.devRef .tc main_v40) = valC' stepsI m d (Proc.devRef .tc main_v28) := by
  unfold valE valD' valD
  rw [afterE_v40, upd_ne _ (by decide), afterD_v28]

end K4

/-! ## The node table -/

section K1Defs
variable {F : FTy → Type} [FloatOps F]

/-- The two node weight matrices stacked. -/
def Wstack (W5 W6 : FVec F S128x128 .f32) : FVec F S2x128x128 .f32 :=
  concatenate S2x128x128 0
    [⟨S1x128x128, broadcastInDim S1x128x128 ![1, 2] bcast_S128x128_S1x128x128_1_2 W5⟩,
     ⟨S1x128x128, broadcastInDim S1x128x128 ![1, 2] bcast_S128x128_S1x128x128_1_2 W6⟩]
    concatenates_S1x128x128_S1x128x128_S2x128x128_d0

/-- The zero row and the bias row stacked, as a 2 × 1 × 128 array. -/
def bstack (b7 : FVec F S128 .f32) : FVec F S2x1x128 .f32 :=
  shapeCast S2x1x128
    (concatenate S2x128 0
      [⟨S1x128, broadcastInDim S1x128 ![1] bcast_S128_S1x128_1 (broadcastInDim S128 ![] bcast_S_S128 (constant S_ .f32 0x00000000#32))⟩,
       ⟨S1x128, broadcastInDim S1x128 ![1] bcast_S128_S1x128_1 b7⟩]
      concatenates_S1x128_S1x128_S2x128_d0)
    shapeCasts_S2x128_S2x1x128

attribute [local irreducible] shapeCast concatenate broadcastInDim in
set_option maxRecDepth 8192 in
theorem afterA_v2 (V : Valuation τ sig (Elt F)) :
    after opsA V (Proc.devRef .tc main_v2) = Wstack (V (Proc.devRef .tc main_arg5)) (V (Proc.devRef .tc main_arg6)) := by
  simp (disch := decide) only [after_cons, after_nil, binary_result', unary_result', nullary_result', reshape_result',
    binary_result_ne', unary_result_ne', nullary_result_ne', reshape_result_ne']
  unfold Wstack
  rfl

attribute [local irreducible] shapeCast concatenate broadcastInDim in
set_option maxRecDepth 8192 in
theorem afterA_v7 (V : Valuation τ sig (Elt F)) :
    after opsA V (Proc.devRef .tc main_v7) = bstack (V (Proc.devRef .tc main_arg7)) := by
  simp (disch := decide) only [after_cons, after_nil, binary_result', unary_result', nullary_result', reshape_result',
    binary_result_ne', unary_result_ne', nullary_result_ne', reshape_result_ne']
  unfold bstack
  rfl

theorem afterB_v9 (V : Valuation τ sig (Elt F)) :
    after opsB V (Proc.devRef .tc main_v9) = shapeCast S20000x128 (V (Proc.devRef .tc main_v8)) shapeCasts_S2x10000x128_S20000x128 := by
  after_results_simp; rfl

/-- The stacked weights at `(p, j, k)`: table `p`'s matrix at `(j, k)`. -/
theorem Wstack_apply (W5 W6 : FVec F S128x128 .f32) (p : Fin 2) (j k : Fin 128) :
    Wstack W5 W6 (ix3 p j k) = if p.val = 0 then W5 (ix2 j k) else W6 (ix2 j k) := by
  unfold Wstack
  match p with
  | ⟨0, _⟩ =>
    rw [if_pos rfl]
    refine (concatenate_pair_apply_left (s₁ := S1x128x128) (s₂ := S1x128x128) (0 : Fin S2x128x128.rank) _ _ _ (ix3 (0 : Fin 2) j k) rfl (ix3 (0 : Fin 1) j k) (fun b => by
      match b with
      | ⟨0, _⟩ => rfl
      | ⟨1, _⟩ => rfl
      | ⟨2, _⟩ => rfl)).trans ?_
    exact broadcastInDim_apply _ _ W5 (ix3 (0 : Fin 1) j k) (ix2 j k) (fun a => by
      match a with
      | ⟨0, _⟩ => rfl
      | ⟨1, _⟩ => rfl)
  | ⟨1, _⟩ =>
    rw [if_neg Nat.one_ne_zero]
    refine (concatenate_pair_apply_right (s₁ := S1x128x128) (s₂ := S1x128x128) (0 : Fin S2x128x128.rank) _ _ _ (ix3 (1 : Fin 2) j k) rfl rfl (ix3 (0 : Fin 1) j k) (fun b hb => by
      match b with
      | ⟨0, _⟩ => exact absurd rfl hb
      | ⟨1, _⟩ => rfl
      | ⟨2, _⟩ => rfl) rfl).trans ?_
    exact broadcastInDim_apply _ _ W6 (ix3 (0 : Fin 1) j k) (ix2 j k) (fun a => by
      match a with
      | ⟨0, _⟩ => rfl
      | ⟨1, _⟩ => rfl)

end K1Defs

section K1
variable (m : (ℓ : Loc nD τ sig) → Buf (Elt Ideal) ℓ) (d : Dev nD)

/-- The stacked bias rows at `(p, 0, j)`: zero for the source table, the bias for the destination table. -/
theorem bstack_apply (b7 : FVec Ideal S128 .f32) (p : Fin 2) (j : Fin 128) :
    bstack b7 (ix3 p (0 : Fin 1) j) = if p.val = 0 then 0 else b7 (ix1 j) := by
  unfold bstack
  refine (shapeCast_apply _ _ (ix3 p (0 : Fin 1) j) (ix2 p j) (by
    rw [Shape.rowMajor_val_two, Shape.rowMajor_val_three]
    show p.val * 128 + j.val = (p.val * 1 + 0) * 128 + j.val
    omega)).trans ?_
  match p with
  | ⟨0, _⟩ =>
    rw [if_pos rfl]
    refine (concatenate_pair_apply_left (s₁ := S1x128) (s₂ := S1x128) (0 : Fin S2x128.rank) _ _ _ (ix2 (0 : Fin 2) j) rfl (ix2 (0 : Fin 1) j) (fun b => by
      match b with
      | ⟨0, _⟩ => rfl
      | ⟨1, _⟩ => rfl)).trans ?_
    show Ideal.ofBits .f32 0x00000000#32 = 0
    exact Ideal.ofBits_zero_f32
  | ⟨1, _⟩ =>
    rw [if_neg Nat.one_ne_zero]
    refine (concatenate_pair_apply_right (s₁ := S1x128) (s₂ := S1x128) (0 : Fin S2x128.rank) _ _ _ (ix2 (1 : Fin 2) j) rfl rfl (ix2 (0 : Fin 1) j) (fun b hb => by
      match b with
      | ⟨0, _⟩ => exact absurd rfl hb
      | ⟨1, _⟩ => rfl) rfl).trans ?_
    exact broadcastInDim_apply _ _ b7 (ix2 (0 : Fin 1) j) (ix1 j) (fun a => by
      match a with
      | ⟨0, _⟩ => rfl)

/-- The argument arrays of device `d`, at their shapes. -/
abbrev A0 : FVec Ideal S320000x16 .f32 := m (d, Proc.devRef .tc main_arg0)
abbrev A1 : FVec Ideal S10000x128 .f32 := m (d, Proc.devRef .tc main_arg1)
abbrev A2 : FVec Ideal S10000x128 .f32 := m (d, Proc.devRef .tc main_arg2)
abbrev A3 : IVec S2x320000 32 := m (d, Proc.devRef .tc main_arg3)
abbrev A4 : FVec Ideal S128x16 .f32 := m (d, Proc.devRef .tc main_arg4)
abbrev A5 : FVec Ideal S128x128 .f32 := m (d, Proc.devRef .tc main_arg5)
abbrev A6 : FVec Ideal S128x128 .f32 := m (d, Proc.devRef .tc main_arg6)
abbrev A7 : FVec Ideal S128 .f32 := m (d, Proc.devRef .tc main_arg7)
abbrev A8 : FVec Ideal S128x128 .f32 := m (d, Proc.devRef .tc main_arg8)
abbrev A9 : FVec Ideal S128 .f32 := m (d, Proc.devRef .tc main_arg9)
abbrev A10 : FVec Ideal S128 .f32 := m (d, Proc.devRef .tc main_arg10)
abbrev A11 : FVec Ideal S128 .f32 := m (d, Proc.devRef .tc main_arg11)

/-- Row `n` of node table `p`, column `j`, of the argument arrays: the source nodes' projection, or the destination
    nodes' with its bias. -/
def nodeRow (p : Fin 2) (n : Fin 10000) (j : Fin 128) : EReal :=
  if p.val = 0 then ∑ k : Fin 128, A1 m d (ix2 n k) * A5 m d (ix2 j k)
  else (∑ k : Fin 128, A2 m d (ix2 n k) * A6 m d (ix2 j k)) + A7 m d (ix1 j)

/-- The arguments as the first region finds them are the launch memory's. -/
theorem valA_arg {r : Ref sig .tc} (hr : r ∈ argList) : valA m d (Proc.devRef .tc r) = m (d, Proc.devRef .tc r) :=
  opsA_keeps (F := Ideal) (fun b => m (d, b)) r hr

/-- **The node table the gathers read**, at row `p · 10000 + n`, column `j`. -/
theorem tbl_apply (p : Fin 2) (n : Fin 10000) (j : Fin 128) :
    valB stepsI m d (Proc.devRef .tc main_v9) (ix2 (⟨p.val * 10000 + n.val, by have := p.isLt; have := n.isLt; omega⟩ : Fin 20000) j) = nodeRow m d p n j := by
  unfold valB
  rw [afterB_v9]
  refine (shapeCast_apply _ _ (ix2 (⟨p.val * 10000 + n.val, by have := p.isLt; have := n.isLt; omega⟩ : Fin 20000) j) (ix3 p n j) (by
    rw [Shape.rowMajor_val_two, Shape.rowMajor_val_three]
    show (p.val * 10000 + n.val) * 128 + j.val = (p.val * 10000 + n.val) * 128 + j.val
    rfl)).trans ?_
  show (Function.update (valA m d) (Proc.devRef .tc main_v8) (stepsI.f0 d (valA m d))) (Proc.devRef .tc main_v8) (ix3 p n j) = _
  rw [Function.update_self]
  show (dW0 d (valA m d) d).arrAt 4 cfg0.N (ix3 p n j) = _
  rw [show (dW0 d (valA m d) d).arrAt 4 cfg0.N = _ from final0 (VofW (valA m d)) _ _ d]
  show tblAt (valA m d (Proc.devRef .tc main_arg1)) (valA m d (Proc.devRef .tc main_arg2)) (valA m d (Proc.devRef .tc main_v2))
    (valA m d (Proc.devRef .tc main_v7)) p n j = _
  unfold tblAt nodeRow
  rw [valA_arg m d (by decide : main_arg1 ∈ argList), valA_arg m d (by decide : main_arg2 ∈ argList)]
  unfold valA
  rw [afterA_v2, afterA_v7, bstack_apply]
  match p with
  | ⟨0, _⟩ =>
    rw [if_pos rfl, if_pos rfl, add_zero]
    refine Finset.sum_congr rfl fun k _ => ?_
    rw [if_pos rfl, Wstack_apply, if_pos rfl]
  | ⟨1, _⟩ =>
    rw [if_neg Nat.one_ne_zero, if_neg Nat.one_ne_zero]
    refine congrArg (· + A7 m d (ix1 j)) (Finset.sum_congr rfl fun k _ => ?_)
    rw [if_neg Nat.one_ne_zero, Wstack_apply, if_neg Nat.one_ne_zero]

end K1

/-! ## The gathered rows -/

section K3Defs

/-- The extent of the first two pieces of an index list. -/
private theorem preS2 : ([S160000, S3840].map fun s : Shape => if h : s.rank = S327680.rank then s.size ((0 : Fin S327680.rank).cast h.symm) else 0).sum = 163840 := by decide

/-- Entry `r` of the first half of an index list: the source index. -/
theorem idxList_src (s : IVec S160000 32) (z : IVec S3840 32) (dd : IVec S160000 32) (r : Fin 160000) (R : Fin 327680) (hR : R.val = r.val) :
    idxList s z dd (ix1 R) = s (ix1 r) :=
  concatenate_apply_piece (0 : Fin S327680.rank) (pieces s z dd) concatenates_S160000_S3840_S160000_S3840_S327680_d0
    (ix1 R) 0 (by show 0 < 4; omega) S160000 s rfl rfl 0 rfl (ix1 r)
    (fun b hb => absurd (Fin.ext (Nat.lt_one_iff.mp b.isLt)) hb) (by show 0 + r.val = R.val; omega)

/-- Entry `r` of the second half of an index list: the destination index plus 10000. -/
theorem idxList_dst (s : IVec S160000 32) (z : IVec S3840 32) (dd : IVec S160000 32) (r : Fin 160000) (R : Fin 327680) (hR : R.val = 163840 + r.val) :
    idxList s z dd (ix1 R) = IntOp.addi (dd (ix1 r)) 10000#32 :=
  concatenate_apply_piece (0 : Fin S327680.rank) (pieces s z dd) concatenates_S160000_S3840_S160000_S3840_S327680_d0
    (ix1 R) 2 (by show 2 < 4; omega) S160000 _ rfl rfl 163840 preS2 (ix1 r)
    (fun b hb => absurd (Fin.ext (Nat.lt_one_iff.mp b.isLt)) hb) (by show 163840 + r.val = R.val; omega)

/-- A run of a row of the edge list at `r`: the edge list at that row, `r` past the run's start. -/
theorem edgeRow_apply (e : IVec S2x320000 32) (off : Fin 2 → Nat) (hsl : S2x320000.Slices off S1x160000) (r : Fin 160000)
    (k0 : Fin 2) (k1 : Fin 320000) (h0 : k0.val = off 0) (h1 : k1.val = off 1 + r.val) :
    edgeRow e off hsl (ix1 r) = e (ix2 k0 k1) := by
  unfold edgeRow
  refine (shapeCast_1a_a_apply _ _ r).trans ?_
  exact extractStridedSlice_apply off e hsl (ix2 (0 : Fin 1) r) (ix2 k0 k1) (fun a => by
    match a with
    | ⟨0, _⟩ => show k0.val = off 0 + 0; omega
    | ⟨1, _⟩ => exact h1)

/-- The gathered rows as two halves, at half `h`, row `r`, column `k`: the table at the row the list's entry
    `h · 163840 + r` names. -/
theorem gath_core (tb : S20000x128.Idx → EReal) (jx : IVec S327680 32) (h : Fin 2) (r : Fin 163840) (k : Fin 128) :
    shapeCast S2x163840x128 (Cert.Proof.Sc.V.gatherRows tb jx) shapeCasts_S327680x128_S2x163840x128 (ix3 h r k)
      = tb (ix2 (Cert.Proof.Sc.V.rowOf (jx (ix1 (⟨h.val * 163840 + r.val, by have := h.isLt; omega⟩ : Fin 327680)))) k) := by
  refine (shapeCast_apply _ _ (ix3 h r k)
    (ix2 (⟨h.val * 163840 + r.val, by have := h.isLt; omega⟩ : Fin 327680) k) (by
      rw [Shape.rowMajor_val_two, Shape.rowMajor_val_three]
      show (h.val * 163840 + r.val) * 128 + k.val = (h.val * 163840 + r.val) * 128 + k.val
      rfl)).trans ?_
  rfl

/-- Adding 10000 to a word at most 9999 does not wrap. -/
theorem toNat_add_10000 (w : BitVec 32) (hw : w.toNat ≤ 9999) : (IntOp.addi w 10000#32).toNat = w.toNat + 10000 := by
  show (w + 10000#32).toNat = _
  rw [BitVec.toNat_add]
  show (w.toNat + 10000) % 2 ^ 32 = _
  exact Nat.mod_eq_of_lt (by omega)

end K3Defs

section K3
variable (m : (ℓ : Loc nD τ sig) → Buf (Elt Ideal) ℓ) (d : Dev nD)

theorem afterC_v27 {F : FTy → Type} [FloatOps F] (V : Valuation τ sig (Elt F)) :
    after opsC V (Proc.devRef .tc main_v27) = shapeCast S2x163840x128 (V (Proc.devRef .tc main_v26)) shapeCasts_S327680x128_S2x163840x128 := by
  after_results_simp; rfl
theorem afterE_v39 {F : FTy → Type} [FloatOps F] (V : Valuation τ sig (Elt F)) :
    after opsE V (Proc.devRef .tc main_v39) = shapeCast S2x163840x128 (V (Proc.devRef .tc main_v38)) shapeCasts_S327680x128_S2x163840x128 := by
  after_results_simp; rfl

/-- The node table at the row a list entry names, the entry being `h · 10000` past an in-range word. -/
theorem tbl_at_rowOf (h : Fin 2) (w0 : BitVec 32) (hw0 : w0.toNat ≤ 9999) (w : BitVec 32) (hw : w.toNat = h.val * 10000 + w0.toNat) (k : Fin 128) :
    valB stepsI m d (Proc.devRef .tc main_v9) (ix2 (Cert.Proof.Sc.V.rowOf w) k) = nodeRow m d h (Cert.Spec.row w0) k := by
  have hi : (ix2 (Cert.Proof.Sc.V.rowOf w) k : S20000x128.Idx)
      = ix2 (⟨h.val * 10000 + (Cert.Spec.row w0).val, by have := h.isLt; have := (Cert.Spec.row w0).isLt; omega⟩ : Fin 20000) k := by
    funext a
    refine Fin.ext ?_
    match a with
    | ⟨0, _⟩ =>
      show (Cert.Proof.Sc.V.rowOf w).val = h.val * 10000 + (Cert.Spec.row w0).val
      rw [Cert.Proof.Sc.V.rowOf_val_of_lt (by have := h.isLt; omega), hw, Cert.Spec.row_val_of_le hw0]
    | ⟨1, _⟩ => rfl
  rw [hi]
  exact tbl_apply m d h (Cert.Spec.row w0) k

/-- An index list's entry for half `h`, row `r` below 160000, from the two rows of the edge list it was laid out from. -/
theorem idxList_entry (s : IVec S160000 32) (z : IVec S3840 32) (dd : IVec S160000 32) (hd : ∀ i, (dd i).toNat ≤ 9999)
    (h : Fin 2) (r : Fin 160000) (R : Fin 327680) (hR : R.val = h.val * 163840 + r.val) :
    (idxList s z dd (ix1 R)).toNat = h.val * 10000 + (if h.val = 0 then (s (ix1 r)).toNat else (dd (ix1 r)).toNat) := by
  by_cases h0 : h.val = 0
  · rw [idxList_src s z dd r R (by omega), if_pos h0, h0]
    omega
  · have h1 : h.val = 1 := by have := h.isLt; omega
    rw [idxList_dst s z dd r R (by omega), if_neg h0, toNat_add_10000 _ (hd _), h1]
    omega

/-- **The first pass's gathered rows.** -/
theorem gath1_apply (he : EdgesOK (A3 m d)) (h : Fin 2) (r : Fin 160000) (k : Fin 128) :
    valC stepsI m d (Proc.devRef .tc main_v27) (ix3 h (⟨r.val, by omega⟩ : Fin 163840) k)
      = nodeRow m d h (Cert.Spec.row (A3 m d (ix2 h (⟨r.val, by omega⟩ : Fin 320000)))) k := by
  have hd : ∀ i, (edgeRow (A3 m d) ![1, 0] slices_S2x320000_S1x160000_1_0 i).toNat ≤ 9999 := edgeRow_le _ he _ _
  have e25 : valB stepsI m d (Proc.devRef .tc main_v25)
      = idxList (edgeRow (A3 m d) ![0, 0] slices_S2x320000_S1x160000_0_0) zeroPad (edgeRow (A3 m d) ![1, 0] slices_S2x320000_S1x160000_1_0) := by
    unfold valB; rw [v25_eq, valA'_arg stepsI m d (by decide : main_arg3 ∈ argList)]
  unfold valC
  rw [afterC_v27]
  unfold valB'
  rw [Function.update_self]
  show shapeCast S2x163840x128 (Cert.Proof.Sc.V.gatherRows (valB stepsI m d (Proc.devRef .tc main_v9)) (valB stepsI m d (Proc.devRef .tc main_v25))) _ _ = _
  rw [gath_core]
  refine tbl_at_rowOf m d h _ (he _) _ ?_ k
  rw [e25, idxList_entry _ _ _ hd h r _ rfl]
  match h with
  | ⟨0, _⟩ =>
    rw [if_pos rfl, edgeRow_apply (A3 m d) ![0, 0] slices_S2x320000_S1x160000_0_0 r (0 : Fin 2) (⟨r.val, by omega⟩ : Fin 320000) rfl (by show r.val = 0 + r.val; omega)]
    rfl
  | ⟨1, _⟩ =>
    rw [if_neg Nat.one_ne_zero, edgeRow_apply (A3 m d) ![1, 0] slices_S2x320000_S1x160000_1_0 r (1 : Fin 2) (⟨r.val, by omega⟩ : Fin 320000) rfl (by show r.val = 0 + r.val; omega)]
    rfl

end K3

section K3b
variable (m : (ℓ : Loc nD τ sig) → Buf (Elt Ideal) ℓ) (d : Dev nD)

/-- The node table the second gather reads is the one the first read. -/
theorem valD_v9 : valD stepsI m d (Proc.devRef .tc main_v9) = valB stepsI m d (Proc.devRef .tc main_v9) := by
  unfold valD valC'
  rw [afterD_v9, upd_ne _ (by decide), valC_of_B stepsI m d (by decide) afterC_v9]

/-- **The second pass's gathered rows.** -/
theorem gath2_apply (he : EdgesOK (A3 m d)) (h : Fin 2) (r : Fin 160000) (k : Fin 128) :
    valE stepsI m d (Proc.devRef .tc main_v39) (ix3 h (⟨r.val, by omega⟩ : Fin 163840) k)
      = nodeRow m d h (Cert.Spec.row (A3 m d (ix2 h (⟨160000 + r.val, by omega⟩ : Fin 320000)))) k := by
  have hd : ∀ i, (edgeRow (A3 m d) ![1, 160000] slices_S2x320000_S1x160000_1_160000 i).toNat ≤ 9999 := edgeRow_le _ he _ _
  have e37 : valD stepsI m d (Proc.devRef .tc main_v37)
      = idxList (edgeRow (A3 m d) ![0, 160000] slices_S2x320000_S1x160000_0_160000) (valC' stepsI m d (Proc.devRef .tc main_v10))
          (edgeRow (A3 m d) ![1, 160000] slices_S2x320000_S1x160000_1_160000) := by
    unfold valD; rw [v37_eq, show valC' stepsI m d (Proc.devRef .tc main_arg3) = A3 m d from keeps_valC' stepsI m d main_arg3 (by decide)]
  unfold valE
  rw [afterE_v39]
  unfold valD'
  rw [Function.update_self]
  show shapeCast S2x163840x128 (Cert.Proof.Sc.V.gatherRows (valD stepsI m d (Proc.devRef .tc main_v9)) (valD stepsI m d (Proc.devRef .tc main_v37))) _ _ = _
  rw [gath_core, valD_v9]
  refine tbl_at_rowOf m d h _ (he _) _ ?_ k
  rw [e37, idxList_entry _ _ _ hd h r _ rfl]
  match h with
  | ⟨0, _⟩ =>
    rw [if_pos rfl, edgeRow_apply (A3 m d) ![0, 160000] slices_S2x320000_S1x160000_0_160000 r (0 : Fin 2) (⟨160000 + r.val, by omega⟩ : Fin 320000) rfl rfl]
    rfl
  | ⟨1, _⟩ =>
    rw [if_neg Nat.one_ne_zero, edgeRow_apply (A3 m d) ![1, 160000] slices_S2x320000_S1x160000_1_160000 r (1 : Fin 2) (⟨160000 + r.val, by omega⟩ : Fin 320000) rfl rfl]
    rfl

end K3b

end Cert.Proof.Main

end
-- ==== Proof.LibIdealNormLaws.lean ====
/-
  Laws of the extended reals used by the layer-normalisation stage:
  dividing by a square root is multiplying by the reciprocal square root at a positive radicand,
  a mean of squares plus a positive constant is positive, and the float constants the stage spells.
-/
import Idealize.ShloMosaic.PureOps.Ideal

noncomputable section

namespace Cert.KernelIdeal.Fin

open Idealize.ShloMosaic

/-- For `0 < y` (`⊤` included) `d / √y = d · (1/√y)`: on a positive real both are `d · (√r)⁻¹`,
    and at `⊤` both are `d · 0`. -/
theorem div_sqrt_eq_mul_rsqrt (d y : EReal) (hy : 0 < y) :
    Ideal.div d (Ideal.sqrt y) = d * Ideal.rsqrt y := by
  induction y using EReal.rec with
  | bot => exact absurd hy (not_lt.mpr bot_le)
  | top => simp [Ideal.div]
  | coe r =>
    have hr : 0 < r := by exact_mod_cast hy
    have hs : 0 < Real.sqrt r := Real.sqrt_pos.mpr hr
    have hs' : ((Real.sqrt r : ℝ) : EReal) ≠ 0 := by exact_mod_cast hs.ne'
    rw [Ideal.sqrt_coe, Ideal.rsqrt_coe, if_neg (not_lt.mpr hr.le), if_neg (not_lt.mpr hr.le), if_neg hr.ne',
      Ideal.div, if_neg hs', ← EReal.coe_inv]

/-- A square is nonnegative on the extended reals, at the infinities too. -/
theorem mul_self_nonneg' (d : EReal) : 0 ≤ d * d := by
  rcases le_total 0 d with h | h
  · exact EReal.mul_nonneg h h
  · exact EReal.mul_nonneg_iff.mpr (Or.inr ⟨h, h⟩)

/-- The mean of squares over `n > 0` terms' divisor, plus a positive constant, is positive — with no finiteness
    assumption on the terms. -/
theorem var_eps_pos {ι : Type} (s : Finset ι) (d : ι → EReal) {n : ℝ} (hn : 0 < n) {e : EReal} (he : 0 < e) :
    0 < Ideal.div (∑ k ∈ s, d k * d k) (n : EReal) + e := by
  have h0 : 0 ≤ ∑ k ∈ s, d k * d k := Finset.sum_nonneg fun k _ => mul_self_nonneg' (d k)
  rw [Ideal.div_coe hn.ne']
  have h1 : (0 : EReal) ≤ ((1 / n : ℝ) : EReal) := by exact_mod_cast (by positivity : (0 : ℝ) ≤ 1 / n)
  have h2 := EReal.mul_nonneg h0 h1
  rw [add_comm]
  exact EReal.add_pos_of_pos_of_nonneg he h2

/-- The pattern `0x42800000` denotes the real `64`. -/
theorem ofBits_64 : Ideal.ofBits .f32 0x42800000#32 = ((64 : ℝ) : EReal) := by
  simp [Ideal.ofBits, Ideal.ieee, -EReal.coe_mul]; norm_num

/-- The pattern `0x00000000` denotes `0`. -/
theorem ofBits_zero : Ideal.ofBits .f32 0x00000000#32 = 0 := by
  simp [Ideal.ofBits, Ideal.ieee]

/-- The pattern `0x3727C5AC` (the float nearest `1e-5`) denotes a positive number. -/
theorem ofBits_eps_pos : 0 < Ideal.ofBits .f32 0x3727C5AC#32 := by
  simp [Ideal.ofBits, Ideal.ieee, -EReal.coe_mul]

end Cert.KernelIdeal.Fin

end
-- ==== Proof.SpecLaws.lean ====
/-
  The kernel's spelling of the last stage — the centred row times the reciprocal square root of the variance plus ε —
  is the reference's quotient by the square root: the radicand, a mean of squares plus a positive constant, is positive
  (also where a term is infinite), and at a positive radicand the two are one number.
-/
import proofs.«217078_g14027363189340_cont_week2b_886_24_alg».proof.Proof.Spec
import proofs.«217078_g14027363189340_cont_week2b_886_24_alg».proof.Proof.LibIdealNormLaws

noncomputable section

namespace Cert.Spec

open Idealize.ShloMosaic Idealize.ShloMosaic.ValueIdx
open scoped BigOperators

section
variable (efeat : FVec Ideal ⟨2, ![320000, 16]⟩ .f32) (src dst : FVec Ideal ⟨2, ![10000, 128]⟩ .f32)
  (ei : IVec ⟨2, ![2, 320000]⟩ 32) (We : FVec Ideal ⟨2, ![128, 16]⟩ .f32) (Ws Wd : FVec Ideal ⟨2, ![128, 128]⟩ .f32)
  (b0 : FVec Ideal ⟨1, ![128]⟩ .f32) (W1 : FVec Ideal ⟨2, ![128, 128]⟩ .f32) (b1 g b : FVec Ideal ⟨1, ![128]⟩ .f32)

/-- The radicand of a row's normalisation is positive. -/
theorem var_eps_pos (e : Fin 320000) : 0 < var efeat src dst ei We Ws Wd b0 W1 b1 e + eps := by
  unfold var eps
  have h := Cert.KernelIdeal.Fin.var_eps_pos (Finset.univ : Finset (Fin 128)) (fun j => cen efeat src dst ei We Ws Wd b0 W1 b1 e j)
    (n := 128) (by norm_num) Cert.KernelIdeal.Fin.ofBits_eps_pos
  have h128 : ((128 : ℝ) : EReal) = (128 : EReal) := by norm_cast
  rw [h128] at h
  exact h

/-- The kernel's last stage: the centred entry times the reciprocal square root, scaled and shifted. -/
def outK (e : Fin 320000) (j : Fin 128) : EReal :=
  cen efeat src dst ei We Ws Wd b0 W1 b1 e j * Ideal.rsqrt (var efeat src dst ei We Ws Wd b0 W1 b1 e + eps) * g (ix1 j) + b (ix1 j)

/-- It is the reference's. -/
theorem outK_eq_out (e : Fin 320000) (j : Fin 128) :
    outK efeat src dst ei We Ws Wd b0 W1 b1 g b e j = out efeat src dst ei We Ws Wd b0 W1 b1 g b e j := by
  unfold outK out
  rw [Cert.KernelIdeal.Fin.div_sqrt_eq_mul_rsqrt _ _ (var_eps_pos efeat src dst ei We Ws Wd b0 W1 b1 e)]

end

end Cert.Spec

end
-- ==== Proof.TcValueE.lean ====
/-
  The edge regions' rows against the specification. One row of an edge block's result — the projection of the edge's
  features plus the two gathered node rows, the activation, the second projection, the row's normalisation — read with
  the block's rows taken from the arrays the specification names, is the specification's row in the kernel's spelling.
-/
import proofs.«217078_g14027363189340_cont_week2b_886_24_alg».proof.Proof.TcValue
import proofs.«217078_g14027363189340_cont_week2b_886_24_alg».proof.Proof.SpecLaws

set_option maxRecDepth 16384

noncomputable section

open scoped BigOperators

namespace Cert.Proof.Tc

open Cert.KernelIdeal Cert.KernelIdeal.Gen
open Idealize.ShloMosaic Idealize.ShloMosaic.TcCoe Idealize.ShloMosaic.ValueIdx
open Idealize.SL Idealize.SL.RA Idealize.SL.Sem
open Idealize.ShloMosaic.Pipeline (Dat Cfg Window)

/-- The float word of 128 denotes 128. -/
theorem ofBits_128 : Ideal.ofBits .f32 0x43000000#32 = (128 : EReal) := by
  rw [show (128 : EReal) = ((128 : ℝ) : EReal) by norm_cast]
  simp [Ideal.ofBits, Ideal.ieee, -EReal.coe_mul]; norm_num

section Row

variable (A0 : FVec Ideal ⟨2, ![320000, 16]⟩ .f32) (A1 A2 : FVec Ideal ⟨2, ![10000, 128]⟩ .f32)
  (A3 : IVec ⟨2, ![2, 320000]⟩ 32) (A4 : FVec Ideal ⟨2, ![128, 16]⟩ .f32) (A5 A6 : FVec Ideal ⟨2, ![128, 128]⟩ .f32)
  (A7 : FVec Ideal ⟨1, ![128]⟩ .f32) (A8 : FVec Ideal ⟨2, ![128, 128]⟩ .f32) (A9 A10 A11 : FVec Ideal ⟨1, ![128]⟩ .f32)

/-- A block's row `r` is the specification's edge `e`, when the block's windows hold, at that row, what the specification
    reads at that edge: the edge's features, the transposed weights, the source's and the destination's projected rows,
    the bias, scale and shift rows. -/
theorem outAt_eq_outK (v0 : FVec Ideal S8000x16 .f32) (v1 : FVec Ideal S16x128 .f32) (v4 v7 : FVec Ideal S1x8000x128 .f32)
    (v13 : FVec Ideal S128x128 .bf16) (v16 v36 v40 : FVec Ideal S1x128 .f32) (r : Fin 8000) (e : Fin 320000)
    (h0 : ∀ k : Fin 16, v0 (ix2 r k) = A0 (ix2 e k))
    (h1 : ∀ (k : Fin 16) (j : Fin 128), v1 (ix2 k j) = A4 (ix2 j k))
    (h4 : ∀ j : Fin 128, v4 (ix3 (0 : Fin 1) r j) = ∑ k : Fin 128, A1 (ix2 (Cert.Spec.row (A3 (ix2 (0 : Fin 2) e))) k) * A5 (ix2 j k))
    (h7 : ∀ j : Fin 128, v7 (ix3 (0 : Fin 1) r j) = (∑ k : Fin 128, A2 (ix2 (Cert.Spec.row (A3 (ix2 (1 : Fin 2) e))) k) * A6 (ix2 j k)) + A7 (ix1 j))
    (h13 : ∀ k j : Fin 128, v13 (ix2 k j) = A8 (ix2 j k))
    (h16 : ∀ j : Fin 128, v16 (ix2 (0 : Fin 1) j) = A9 (ix1 j))
    (h36 : ∀ j : Fin 128, v36 (ix2 (0 : Fin 1) j) = A10 (ix1 j))
    (h40 : ∀ j : Fin 128, v40 (ix2 (0 : Fin 1) j) = A11 (ix1 j)) (j : Fin 128) :
    outAt v0 v1 v4 v7 v13 v16 v36 v40 r j = Cert.Spec.outK A0 A1 A2 A3 A4 A5 A6 A7 A8 A9 A10 A11 e j := by
  have hh : ∀ j', hAt v0 v1 v4 v7 r j' = Cert.Spec.pre A0 A1 A2 A3 A4 A5 A6 A7 e j' := by
    intro j'
    unfold hAt Cert.Spec.pre
    simp only [h0, h1, h4, h7]
  have hs : ∀ j', sAt v0 v1 v4 v7 r j' = Cert.Spec.act A0 A1 A2 A3 A4 A5 A6 A7 e j' := by
    intro j'
    unfold sAt Cert.Spec.act
    rw [hh j']
    rfl
  have h2 : ∀ j', h2At v0 v1 v4 v7 v13 v16 r j' = Cert.Spec.h2 A0 A1 A2 A3 A4 A5 A6 A7 A8 A9 e j' := by
    intro j'
    unfold h2At Cert.Spec.h2
    simp only [hs, h13, h16]
  have hmu : muAt v0 v1 v4 v7 v13 v16 r = Cert.Spec.mean A0 A1 A2 A3 A4 A5 A6 A7 A8 A9 e := by
    unfold muAt Cert.Spec.mean
    simp only [h2]
    rw [show Scalar.ofBits (F := Ideal) .f32 0x43000000#32 = (128 : EReal) from ofBits_128]
  have hd : ∀ j', dAt v0 v1 v4 v7 v13 v16 r j' = Cert.Spec.cen A0 A1 A2 A3 A4 A5 A6 A7 A8 A9 e j' := by
    intro j'
    unfold dAt Cert.Spec.cen
    rw [h2 j', hmu]
  have hv : varAt v0 v1 v4 v7 v13 v16 r = Cert.Spec.var A0 A1 A2 A3 A4 A5 A6 A7 A8 A9 e := by
    unfold varAt Cert.Spec.var
    simp only [hd]
    rw [show Scalar.ofBits (F := Ideal) .f32 0x43000000#32 = (128 : EReal) from ofBits_128]
  unfold outAt Cert.Spec.outK
  rw [hd j, hv, h36 j, h40 j]
  rfl

end Row

/-! ## The first edge region's output array -/

/-- The printed index maps over the twenty points: the edge features' and the output's blocks follow the point along the
    rows; the gathered rows' two windows follow it inside the first and the second half; the weights' and the row
    parameters' windows never move. -/
theorem idx_facts2 : ∀ t : Fin cfg2.N,
    win2_0.index t (0 : Fin 2) = t.val ∧ win2_0.index t (1 : Fin 2) = 0
    ∧ win2_1.index t (0 : Fin 3) = 0 ∧ win2_1.index t (1 : Fin 3) = t.val ∧ win2_1.index t (2 : Fin 3) = 0
    ∧ win2_2.index t (0 : Fin 3) = 1 ∧ win2_2.index t (1 : Fin 3) = t.val ∧ win2_2.index t (2 : Fin 3) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = t.val ∧ win2_8.index t (1 : Fin 2) = 0 :=
  (by decide +kernel : ∀ t : Fin grid2.N, _)

section Region1V

variable {Ix : Type} [DecidableEq Ix] {Name : Type} [DecidableEq Name] {U : Type} [URA U] {Lvl : Type}
variable (V : (c : Dev nD) → (b : Ref sig .tc) → Buf (Elt Ideal) ((c : Thread nD τ).loc b))
  (O : CellTallies nD τ sig Ix) (B : Set (SemLoc sig × Ix)) (q : Fin 9 → PosShare TreeShare) (c : Dev nD)

/-- A block of the first half of the gathered rows, read at a row: the array's row `8000 t + r` of half 0. -/
theorem blk2_1_apply (t : Fin cfg2.N) (u : Fin 1) (r : Fin 8000) (j : Fin 128) (hr : 8000 * t.val + r.val < 163840) :
    blk2_1 V c t (ix3 u r j) = V c main_v27 (ix3 (0 : Fin 2) (⟨8000 * t.val + r.val, hr⟩ : Fin 163840) j) := by
  obtain ⟨-, -, f10, f11, f12, -⟩ := idx_facts2 t
  have hu : u.val = 0 := by omega
  unfold blk2_1 Window.fill
  have hm : win2_1.moved (grid2.coords t) (ix3 u r j) = true := (win2_1.moved_iff _ _).mpr fun a => by
    rw [Window.xsize, clip2_1 t a]; exact (ix3 u r j a).isLt
  rw [dif_pos hm]
  show V c main_v27 (((cfg2.win 1).blk t).view.emb _) = _
  refine congrArg _ (funext fun a => Fin.ext ?_)
  match a with
  | ⟨0, _⟩ => show win2_1.index t (0 : Fin 3) * 1 + 1 * u.val = 0; omega
  | ⟨1, _⟩ => show win2_1.index t (1 : Fin 3) * 8000 + 1 * r.val = 8000 * t.val + r.val; omega
  | ⟨2, _⟩ => show win2_1.index t (2 : Fin 3) * 128 + 1 * j.val = j.val; omega

end Region1V

/-! ## The first edge region's output array -/

section Region2S

variable {Ix : Type} [DecidableEq Ix] {Name : Type} [DecidableEq Name] {U : Type} [URA U] {Lvl : Type}
variable (V : (c : Dev nD) → (b : Ref sig .tc) → Buf (Elt Ideal) ((c : Thread nD τ).loc b))
  (O : CellTallies nD τ sig Ix) (B : Set (SemLoc sig × Ix)) (q : Fin 9 → PosShare TreeShare) (c : Dev nD)

/-- A block of the second half of the gathered rows, read at a row: the array's row `8000 t + r` of half 1. -/
theorem blk2_2_apply (t : Fin cfg2.N) (u : Fin 1) (r : Fin 8000) (j : Fin 128) (hr : 8000 * t.val + r.val < 163840) :
    blk2_2 V c t (ix3 u r j) = V c main_v27 (ix3 (1 : Fin 2) (⟨8000 * t.val + r.val, hr⟩ : Fin 163840) j) := by
  obtain ⟨-, -, -, -, -, f20, f21, f22, -⟩ := idx_facts2 t
  have hu : u.val = 0 := by omega
  unfold blk2_2 Window.fill
  have hm : win2_2.moved (grid2.coords t) (ix3 u r j) = true := (win2_2.moved_iff _ _).mpr fun a => by
    rw [Window.xsize, clip2_2 t a]; exact (ix3 u r j a).isLt
  rw [dif_pos hm]
  show V c main_v27 (((cfg2.win 2).blk t).view.emb _) = _
  refine congrArg _ (funext fun a => Fin.ext ?_)
  match a with
  | ⟨0, _⟩ => show win2_2.index t (0 : Fin 3) * 1 + 1 * u.val = 1; omega
  | ⟨1, _⟩ => show win2_2.index t (1 : Fin 3) * 8000 + 1 * r.val = 8000 * t.val + r.val; omega
  | ⟨2, _⟩ => show win2_2.index t (2 : Fin 3) * 128 + 1 * j.val = j.val; omega

variable (A0 : FVec Ideal ⟨2, ![320000, 16]⟩ .f32) (A1 A2 : FVec Ideal ⟨2, ![10000, 128]⟩ .f32)
  (A3 : IVec ⟨2, ![2, 320000]⟩ 32) (A4 : FVec Ideal ⟨2, ![128, 16]⟩ .f32) (A5 A6 : FVec Ideal ⟨2, ![128, 128]⟩ .f32)
  (A7 : FVec Ideal ⟨1, ![128]⟩ .f32) (A8 : FVec Ideal ⟨2, ![128, 128]⟩ .f32) (A9 A10 A11 : FVec Ideal ⟨1, ![128]⟩ .f32)

/-- The output array the specification gives: every row the specification's row in the kernel's spelling. -/
abbrev Gspec : S320000x128.Idx → EReal := fun i => Cert.Spec.outK A0 A1 A2 A3 A4 A5 A6 A7 A8 A9 A10 A11 (i 0) (i 1)

set_option maxHeartbeats 1600000 in
/-- WHAT POINT `t` WRITES BACK is block `t` of the specification's array, when the region's windows hold what the
    specification reads: the edge features; in the gathered rows' two halves the source's and the destination's projected
    rows of the pass's edges; the transposed weights; the bias, scale and shift rows. -/
theorem flushed2_spec
    (hE : ∀ (e : Fin 320000) (k : Fin 16), V c main_arg0 (ix2 e k) = A0 (ix2 e k))
    (hGs : ∀ (r : Fin 163840) (hr : r.val < 160000) (j : Fin 128), V c main_v27 (ix3 (0 : Fin 2) r j)
      = ∑ k : Fin 128, A1 (ix2 (Cert.Spec.row (A3 (ix2 (0 : Fin 2) (⟨r.val, by omega⟩ : Fin 320000)))) k) * A5 (ix2 j k))
    (hGd : ∀ (r : Fin 163840) (hr : r.val < 160000) (j : Fin 128), V c main_v27 (ix3 (1 : Fin 2) r j)
      = (∑ k : Fin 128, A2 (ix2 (Cert.Spec.row (A3 (ix2 (1 : Fin 2) (⟨r.val, by omega⟩ : Fin 320000)))) k) * A6 (ix2 j k)) + A7 (ix1 j))
    (h11 : ∀ (k : Fin 16) (j : Fin 128), V c main_v11 (ix2 k j) = A4 (ix2 j k))
    (h13 : ∀ k j : Fin 128, V c main_v13 (ix2 k j) = A8 (ix2 j k))
    (h14 : ∀ j : Fin 128, V c main_v14 (ix2 (0 : Fin 1) j) = A9 (ix1 j))
    (h15 : ∀ j : Fin 128, V c main_v15 (ix2 (0 : Fin 1) j) = A10 (ix1 j))
    (h16 : ∀ j : Fin 128, V c main_v16 (ix2 (0 : Fin 1) j) = A11 (ix1 j))
    (t : Fin cfg2.N) :
    (dat2 (Name := Name) (U := U) (Lvl := Lvl) V O B q c).flushed 8 t
      = ((cfg2.win 8).blk t).view.read (Elt Ideal) (Gspec A0 A1 A2 A3 A4 A5 A6 A7 A8 A9 A10 A11) := by
  show (cfg2.win 8).cut (grid2.coords t) ((dat2 (Name := Name) (U := U) (Lvl := Lvl) V O B q c).after 8 t) = _
  rw [after2_8]
  unfold out2_8
  rw [View.canon_unit_zero hz2]
  simp only [View.ld_unit_zero (S := S8000x16) hz2, View.ld_unit_zero (S := S1x8000x128) hz3, View.ld_unit_zero (S := S16x128) hz2,
    View.ld_unit_zero (S := S128x128) hz2, View.ld_unit_zero (S := S1x128) hz2]
  obtain ⟨f00, f01, f10, f11, f12, f20, f21, f22, f30, f31, f40, f41, f50, f51, f60, f61, f70, f71, f80, f81⟩ := idx_facts2 t
  have hN : t.val < 20 := lt_of_lt_of_eq t.isLt (show cfg2.N = 20 from N_2)
  funext y
  obtain ⟨r, j, rfl⟩ : ∃ (r : Fin 8000) (j : Fin 128), y = ix2 r j := ⟨y 0, y 1, eq_ix2 y⟩
  have hrow : 8000 * t.val + r.val < 320000 := by omega
  have hg : 8000 * t.val + r.val < 163840 := by omega
  show k2_pay1 (F := Ideal) (k2_pay2 (F := Ideal) (iblk2 V c 0 t) (iblk2 V c 3 t) (blk2_1 V c t) (blk2_2 V c t) (iblk2 V c 4 t) (iblk2 V c 5 t))
      (iblk2 V c 6 t) (iblk2 V c 7 t) (ix2 r j)
    = Gspec A0 A1 A2 A3 A4 A5 A6 A7 A8 A9 A10 A11 (((cfg2.win 8).blk t).view.emb (ix2 r j))
  rw [pay2_apply]
  have e8 : ((cfg2.win 8).blk t).view.emb (ix2 r j) = ix2 (⟨8000 * t.val + r.val, hrow⟩ : Fin 320000) j := by
    funext a; apply Fin.ext
    match a with
    | ⟨0, _⟩ => show win2_8.index t (0 : Fin 2) * 8000 + 1 * r.val = 8000 * t.val + r.val; omega
    | ⟨1, _⟩ => show win2_8.index t (1 : Fin 2) * 128 + 1 * j.val = j.val; omega
  rw [e8]
  show _ = Cert.Spec.outK A0 A1 A2 A3 A4 A5 A6 A7 A8 A9 A10 A11 (⟨8000 * t.val + r.val, hrow⟩ : Fin 320000) j
  refine outAt_eq_outK A0 A1 A2 A3 A4 A5 A6 A7 A8 A9 A10 A11 _ _ _ _ _ _ _ _ r (⟨8000 * t.val + r.val, hrow⟩ : Fin 320000) ?_ ?_ ?_ ?_ ?_ ?_ ?_ ?_ j
  · intro k
    refine Eq.trans ?_ (hE (⟨8000 * t.val + r.val, hrow⟩ : Fin 320000) k)
    show V c main_arg0 (((cfg2.win 0).blk t).view.emb (ix2 r k)) = _
    refine congrArg _ (funext fun a => Fin.ext ?_)
    match a with
    | ⟨0, _⟩ => show win2_0.index t (0 : Fin 2) * 8000 + 1 * r.val = 8000 * t.val + r.val; omega
    | ⟨1, _⟩ => show win2_0.index t (1 : Fin 2) * 16 + 1 * k.val = k.val; omega
  · intro k j'
    refine Eq.trans ?_ (h11 k j')
    show V c main_v11 (((cfg2.win 3).blk t).view.emb (ix2 k j')) = _
    refine congrArg _ (funext fun a => Fin.ext ?_)
    match a with
    | ⟨0, _⟩ => show win2_3.index t (0 : Fin 2) * 16 + 1 * k.val = k.val; omega
    | ⟨1, _⟩ => show win2_3.index t (1 : Fin 2) * 128 + 1 * j'.val = j'.val; omega
  · intro j'
    rw [blk2_1_apply V c t (0 : Fin 1) r j' hg]
    exact hGs ⟨8000 * t.val + r.val, hg⟩ (by show 8000 * t.val + r.val < 160000; omega) j'
  · intro j'
    rw [blk2_2_apply V c t (0 : Fin 1) r j' hg]
    exact hGd ⟨8000 * t.val + r.val, hg⟩ (by show 8000 * t.val + r.val < 160000; omega) j'
  · intro k j'
    refine Eq.trans ?_ (h13 k j')
    show V c main_v13 (((cfg2.win 4).blk t).view.emb (ix2 k j')) = _
    refine congrArg _ (funext fun a => Fin.ext ?_)
    match a with
    | ⟨0, _⟩ => show win2_4.index t (0 : Fin 2) * 128 + 1 * k.val = k.val; omega
    | ⟨1, _⟩ => show win2_4.index t (1 : Fin 2) * 128 + 1 * j'.val = j'.val; omega
  · intro j'
    refine Eq.trans ?_ (h14 j')
    show V c main_v14 (((cfg2.win 5).blk t).view.emb (ix2 (0 : Fin 1) j')) = _
    refine congrArg _ (funext fun a => Fin.ext ?_)
    match a with
    | ⟨0, _⟩ => show win2_5.index t (0 : Fin 2) * 1 + 1 * 0 = 0; omega
    | ⟨1, _⟩ => show win2_5.index t (1 : Fin 2) * 128 + 1 * j'.val = j'.val; omega
  · intro j'
    refine Eq.trans ?_ (h15 j')
    show V c main_v15 (((cfg2.win 6).blk t).view.emb (ix2 (0 : Fin 1) j')) = _
    refine congrArg _ (funext fun a => Fin.ext ?_)
    match a with
    | ⟨0, _⟩ => show win2_6.index t (0 : Fin 2) * 1 + 1 * 0 = 0; omega
    | ⟨1, _⟩ => show win2_6.index t (1 : Fin 2) * 128 + 1 * j'.val = j'.val; omega
  · intro j'
    refine Eq.trans ?_ (h16 j')
    show V c main_v16 (((cfg2.win 7).blk t).view.emb (ix2 (0 : Fin 1) j')) = _
    refine congrArg _ (funext fun a => Fin.ext ?_)
    match a with
    | ⟨0, _⟩ => show win2_7.index t (0 : Fin 2) * 1 + 1 * 0 = 0; omega
    | ⟨1, _⟩ => show win2_7.index t (1 : Fin 2) * 128 + 1 * j'.val = j'.val; omega

end Region2S

section Region2F

variable {Ix : Type} [DecidableEq Ix] {Name : Type} [DecidableEq Name] {U : Type} [URA U] {Lvl : Type}
variable (V : (c : Dev nD) → (b : Ref sig .tc) → Buf (Elt Ideal) ((c : Thread nD τ).loc b))
  (O : CellTallies nD τ sig Ix) (B : Set (SemLoc sig × Ix)) (q : Fin 9 → PosShare TreeShare) (c : Dev nD)
variable (A0 : FVec Ideal ⟨2, ![320000, 16]⟩ .f32) (A1 A2 : FVec Ideal ⟨2, ![10000, 128]⟩ .f32)
  (A3 : IVec ⟨2, ![2, 320000]⟩ 32) (A4 : FVec Ideal ⟨2, ![128, 16]⟩ .f32) (A5 A6 : FVec Ideal ⟨2, ![128, 128]⟩ .f32)
  (A7 : FVec Ideal ⟨1, ![128]⟩ .f32) (A8 : FVec Ideal ⟨2, ![128, 128]⟩ .f32) (A9 A10 A11 : FVec Ideal ⟨1, ![128]⟩ .f32)

/-- An index of the output array is in point `t`'s block iff each coordinate is in the block's range on its axis. -/
theorem mem_blk2 (t : Fin cfg2.N) (i : S320000x128.Idx) :
    i ∈ ((cfg2.win 8).blk t).view.set ↔ ∀ a : Fin 2, win2_8.index t a * S8000x128.size a ≤ (i a).val ∧ (i a).val < win2_8.index t a * S8000x128.size a + S8000x128.size a := by
  show i ∈ ((View.whole main_v28).slice (win2_8.rect t)).set ↔ _
  rw [View.set_slice_whole, Rect.mem_set_unit]
  exact Iff.rfl

/-- THE OUTPUT ARRAY after the region, on the rows its blocks cover: the specification's rows. -/
theorem final2_spec
    (hE : ∀ (e : Fin 320000) (k : Fin 16), V c main_arg0 (ix2 e k) = A0 (ix2 e k))
    (hGs : ∀ (r : Fin 163840) (hr : r.val < 160000) (j : Fin 128), V c main_v27 (ix3 (0 : Fin 2) r j)
      = ∑ k : Fin 128, A1 (ix2 (Cert.Spec.row (A3 (ix2 (0 : Fin 2) (⟨r.val, by omega⟩ : Fin 320000)))) k) * A5 (ix2 j k))
    (hGd : ∀ (r : Fin 163840) (hr : r.val < 160000) (j : Fin 128), V c main_v27 (ix3 (1 : Fin 2) r j)
      = (∑ k : Fin 128, A2 (ix2 (Cert.Spec.row (A3 (ix2 (1 : Fin 2) (⟨r.val, by omega⟩ : Fin 320000)))) k) * A6 (ix2 j k)) + A7 (ix1 j))
    (h11 : ∀ (k : Fin 16) (j : Fin 128), V c main_v11 (ix2 k j) = A4 (ix2 j k))
    (h13 : ∀ k j : Fin 128, V c main_v13 (ix2 k j) = A8 (ix2 j k))
    (h14 : ∀ j : Fin 128, V c main_v14 (ix2 (0 : Fin 1) j) = A9 (ix1 j))
    (h15 : ∀ j : Fin 128, V c main_v15 (ix2 (0 : Fin 1) j) = A10 (ix1 j))
    (h16 : ∀ j : Fin 128, V c main_v16 (ix2 (0 : Fin 1) j) = A11 (ix1 j))
    (e : Fin 320000) (he : e.val < 160000) (j : Fin 128) :
    (dat2 (Name := Name) (U := U) (Lvl := Lvl) V O B q c).arrAt 8 cfg2.N (ix2 e j) = Cert.Spec.outK A0 A1 A2 A3 A4 A5 A6 A7 A8 A9 A10 A11 e j := by
  have hlt : e.val / 8000 < cfg2.N := by
    rw [show cfg2.N = 20 from N_2]; have := e.isLt; omega
  rw [Dat.arrAt_eq_piecewise (dat2 (Name := Name) (U := U) (Lvl := Lvl) V O B q c) 8 (Gspec A0 A1 A2 A3 A4 A5 A6 A7 A8 A9 A10 A11)
    (fun t _ => flushed2_spec V O B q c A0 A1 A2 A3 A4 A5 A6 A7 A8 A9 A10 A11 hE hGs hGd h11 h13 h14 h15 h16 t) (ix2 e j)]
  rw [if_pos]
  refine ⟨⟨e.val / 8000, hlt⟩, flush2_8 _, ?_⟩
  rw [mem_blk2]
  obtain ⟨-, -, -, -, -, -, -, -, -, -, -, -, -, -, -, -, -, -, f80', f81⟩ := idx_facts2 ⟨e.val / 8000, hlt⟩
  have f80 : win2_8.index ⟨e.val / 8000, hlt⟩ (0 : Fin 2) = e.val / 8000 := f80'
  have hj := j.isLt
  have hel := e.isLt
  intro a
  match a with
  | ⟨0, _⟩ => show win2_8.index _ (0 : Fin 2) * 8000 ≤ e.val ∧ e.val < win2_8.index _ (0 : Fin 2) * 8000 + 8000; rw [f80]; omega
  | ⟨1, _⟩ => show win2_8.index _ (1 : Fin 2) * 128 ≤ j.val ∧ j.val < win2_8.index _ (1 : Fin 2) * 128 + 128; rw [f81]; omega

end Region2F

/-! ## The second edge region's output array -/

/-- The printed index maps over the twenty points of the second edge region: as the first's, the edge features' and the
    output's blocks twenty blocks further along the rows. -/
theorem idx_facts4 : ∀ t : Fin cfg4.N,
    win4_0.index t (0 : Fin 2) = 20 + t.val ∧ win4_0.index t (1 : Fin 2) = 0
    ∧ win4_1.index t (0 : Fin 3) = 0 ∧ win4_1.index t (1 : Fin 3) = t.val ∧ win4_1.index t (2 : Fin 3) = 0
    ∧ win4_2.index t (0 : Fin 3) = 1 ∧ win4_2.index t (1 : Fin 3) = t.val ∧ win4_2.index t (2 : Fin 3) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) = 0 ∧ win4_7.index t (1 : Fin 2) = 0
    ∧ win4_8.index t (0 : Fin 2) = 20 + t.val ∧ win4_8.index t (1 : Fin 2) = 0 :=
  (by decide +kernel : ∀ t : Fin grid4.N, _)

section Region4S

variable {Ix : Type} [DecidableEq Ix] {Name : Type} [DecidableEq Name] {U : Type} [URA U] {Lvl : Type}
variable (V : (c : Dev nD) → (b : Ref sig .tc) → Buf (Elt Ideal) ((c : Thread nD τ).loc b))
  (O : CellTallies nD τ sig Ix) (B : Set (SemLoc sig × Ix)) (q : Fin 9 → PosShare TreeShare) (c : Dev nD)

theorem blk4_1_apply (t : Fin cfg4.N) (u : Fin 1) (r : Fin 8000) (j : Fin 128) (hr : 8000 * t.val + r.val < 163840) :
    blk4_1 V c t (ix3 u r j) = V c main_v39 (ix3 (0 : Fin 2) (⟨8000 * t.val + r.val, hr⟩ : Fin 163840) j) := by
  obtain ⟨-, -, f10, f11, f12, -⟩ := idx_facts4 t
  have hu : u.val = 0 := by omega
  unfold blk4_1 Window.fill
  have hm : win4_1.moved (grid4.coords t) (ix3 u r j) = true := (win4_1.moved_iff _ _).mpr fun a => by
    rw [Window.xsize, clip4_1 t a]; exact (ix3 u r j a).isLt
  rw [dif_pos hm]
  show V c main_v39 (((cfg4.win 1).blk t).view.emb _) = _
  refine congrArg _ (funext fun a => Fin.ext ?_)
  match a with
  | ⟨0, _⟩ => show win4_1.index t (0 : Fin 3) * 1 + 1 * u.val = 0; omega
  | ⟨1, _⟩ => show win4_1.index t (1 : Fin 3) * 8000 + 1 * r.val = 8000 * t.val + r.val; omega
  | ⟨2, _⟩ => show win4_1.index t (2 : Fin 3) * 128 + 1 * j.val = j.val; omega

/-- A block of the second half of the gathered rows, read at a row: the array's row `8000 t + r` of half 1. -/
theorem blk4_2_apply (t : Fin cfg4.N) (u : Fin 1) (r : Fin 8000) (j : Fin 128) (hr : 8000 * t.val + r.val < 163840) :
    blk4_2 V c t (ix3 u r j) = V c main_v39 (ix3 (1 : Fin 2) (⟨8000 * t.val + r.val, hr⟩ : Fin 163840) j) := by
  obtain ⟨-, -, -, -, -, f20, f21, f22, -⟩ := idx_facts4 t
  have hu : u.val = 0 := by omega
  unfold blk4_2 Window.fill
  have hm : win4_2.moved (grid4.coords t) (ix3 u r j) = true := (win4_2.moved_iff _ _).mpr fun a => by
    rw [Window.xsize, clip4_2 t a]; exact (ix3 u r j a).isLt
  rw [dif_pos hm]
  show V c main_v39 (((cfg4.win 2).blk t).view.emb _) = _
  refine congrArg _ (funext fun a => Fin.ext ?_)
  match a with
  | ⟨0, _⟩ => show win4_2.index t (0 : Fin 3) * 1 + 1 * u.val = 1; omega
  | ⟨1, _⟩ => show win4_2.index t (1 : Fin 3) * 8000 + 1 * r.val = 8000 * t.val + r.val; omega
  | ⟨2, _⟩ => show win4_2.index t (2 : Fin 3) * 128 + 1 * j.val = j.val; omega

variable (A0 : FVec Ideal ⟨2, ![320000, 16]⟩ .f32) (A1 A2 : FVec Ideal ⟨2, ![10000, 128]⟩ .f32)
  (A3 : IVec ⟨2, ![2, 320000]⟩ 32) (A4 : FVec Ideal ⟨2, ![128, 16]⟩ .f32) (A5 A6 : FVec Ideal ⟨2, ![128, 128]⟩ .f32)
  (A7 : FVec Ideal ⟨1, ![128]⟩ .f32) (A8 : FVec Ideal ⟨2, ![128, 128]⟩ .f32) (A9 A10 A11 : FVec Ideal ⟨1, ![128]⟩ .f32)

set_option maxHeartbeats 1600000 in
/-- WHAT POINT `t` WRITES BACK is block `t` of the specification's array, when the region's windows hold what the
    specification reads: the edge features; in the gathered rows' two halves the source's and the destination's projected
    rows of the pass's edges; the transposed weights; the bias, scale and shift rows. -/
theorem flushed4_spec
    (hE : ∀ (e : Fin 320000) (k : Fin 16), V c main_arg0 (ix2 e k) = A0 (ix2 e k))
    (hGs : ∀ (r : Fin 163840) (hr : r.val < 160000) (j : Fin 128), V c main_v39 (ix3 (0 : Fin 2) r j)
      = ∑ k : Fin 128, A1 (ix2 (Cert.Spec.row (A3 (ix2 (0 : Fin 2) (⟨160000 + r.val, by omega⟩ : Fin 320000)))) k) * A5 (ix2 j k))
    (hGd : ∀ (r : Fin 163840) (hr : r.val < 160000) (j : Fin 128), V c main_v39 (ix3 (1 : Fin 2) r j)
      = (∑ k : Fin 128, A2 (ix2 (Cert.Spec.row (A3 (ix2 (1 : Fin 2) (⟨160000 + r.val, by omega⟩ : Fin 320000)))) k) * A6 (ix2 j k)) + A7 (ix1 j))
    (h11 : ∀ (k : Fin 16) (j : Fin 128), V c main_v11 (ix2 k j) = A4 (ix2 j k))
    (h13 : ∀ k j : Fin 128, V c main_v13 (ix2 k j) = A8 (ix2 j k))
    (h14 : ∀ j : Fin 128, V c main_v14 (ix2 (0 : Fin 1) j) = A9 (ix1 j))
    (h15 : ∀ j : Fin 128, V c main_v15 (ix2 (0 : Fin 1) j) = A10 (ix1 j))
    (h16 : ∀ j : Fin 128, V c main_v16 (ix2 (0 : Fin 1) j) = A11 (ix1 j))
    (t : Fin cfg4.N) :
    (dat4 (Name := Name) (U := U) (Lvl := Lvl) V O B q c).flushed 8 t
      = ((cfg4.win 8).blk t).view.read (Elt Ideal) (Gspec A0 A1 A2 A3 A4 A5 A6 A7 A8 A9 A10 A11) := by
  show (cfg4.win 8).cut (grid4.coords t) ((dat4 (Name := Name) (U := U) (Lvl := Lvl) V O B q c).after 8 t) = _
  rw [after4_8]
  unfold out4_8
  rw [View.canon_unit_zero hz2]
  simp only [View.ld_unit_zero (S := S8000x16) hz2, View.ld_unit_zero (S := S1x8000x128) hz3, View.ld_unit_zero (S := S16x128) hz2,
    View.ld_unit_zero (S := S128x128) hz2, View.ld_unit_zero (S := S1x128) hz2]
  obtain ⟨f00, f01, f10, f11, f12, f20, f21, f22, f30, f31, f40, f41, f50, f51, f60, f61, f70, f71, f80, f81⟩ := idx_facts4 t
  have hN : t.val < 20 := lt_of_lt_of_eq t.isLt (show cfg4.N = 20 from N_4)
  funext y
  obtain ⟨r, j, rfl⟩ : ∃ (r : Fin 8000) (j : Fin 128), y = ix2 r j := ⟨y 0, y 1, eq_ix2 y⟩
  have hrow : 160000 + (8000 * t.val + r.val) < 320000 := by omega
  have hg : 8000 * t.val + r.val < 163840 := by omega
  show k4_pay1 (F := Ideal) (k4_pay2 (F := Ideal) (iblk4 V c 0 t) (iblk4 V c 3 t) (blk4_1 V c t) (blk4_2 V c t) (iblk4 V c 4 t) (iblk4 V c 5 t))
      (iblk4 V c 6 t) (iblk4 V c 7 t) (ix2 r j)
    = Gspec A0 A1 A2 A3 A4 A5 A6 A7 A8 A9 A10 A11 (((cfg4.win 8).blk t).view.emb (ix2 r j))
  rw [pay4_apply]
  have e8 : ((cfg4.win 8).blk t).view.emb (ix2 r j) = ix2 (⟨160000 + (8000 * t.val + r.val), hrow⟩ : Fin 320000) j := by
    funext a; apply Fin.ext
    match a with
    | ⟨0, _⟩ => show win4_8.index t (0 : Fin 2) * 8000 + 1 * r.val = 160000 + (8000 * t.val + r.val); omega
    | ⟨1, _⟩ => show win4_8.index t (1 : Fin 2) * 128 + 1 * j.val = j.val; omega
  rw [e8]
  show _ = Cert.Spec.outK A0 A1 A2 A3 A4 A5 A6 A7 A8 A9 A10 A11 (⟨160000 + (8000 * t.val + r.val), hrow⟩ : Fin 320000) j
  refine outAt_eq_outK A0 A1 A2 A3 A4 A5 A6 A7 A8 A9 A10 A11 _ _ _ _ _ _ _ _ r (⟨160000 + (8000 * t.val + r.val), hrow⟩ : Fin 320000) ?_ ?_ ?_ ?_ ?_ ?_ ?_ ?_ j
  · intro k
    refine Eq.trans ?_ (hE (⟨160000 + (8000 * t.val + r.val), hrow⟩ : Fin 320000) k)
    show V c main_arg0 (((cfg4.win 0).blk t).view.emb (ix2 r k)) = _
    refine congrArg _ (funext fun a => Fin.ext ?_)
    match a with
    | ⟨0, _⟩ => show win4_0.index t (0 : Fin 2) * 8000 + 1 * r.val = 160000 + (8000 * t.val + r.val); omega
    | ⟨1, _⟩ => show win4_0.index t (1 : Fin 2) * 16 + 1 * k.val = k.val; omega
  · intro k j'
    refine Eq.trans ?_ (h11 k j')
    show V c main_v11 (((cfg4.win 3).blk t).view.emb (ix2 k j')) = _
    refine congrArg _ (funext fun a => Fin.ext ?_)
    match a with
    | ⟨0, _⟩ => show win4_3.index t (0 : Fin 2) * 16 + 1 * k.val = k.val; omega
    | ⟨1, _⟩ => show win4_3.index t (1 : Fin 2) * 128 + 1 * j'.val = j'.val; omega
  · intro j'
    rw [blk4_1_apply V c t (0 : Fin 1) r j' hg]
    exact hGs ⟨8000 * t.val + r.val, hg⟩ (by show 8000 * t.val + r.val < 160000; omega) j'
  · intro j'
    rw [blk4_2_apply V c t (0 : Fin 1) r j' hg]
    exact hGd ⟨8000 * t.val + r.val, hg⟩ (by show 8000 * t.val + r.val < 160000; omega) j'
  · intro k j'
    refine Eq.trans ?_ (h13 k j')
    show V c main_v13 (((cfg4.win 4).blk t).view.emb (ix2 k j')) = _
    refine congrArg _ (funext fun a => Fin.ext ?_)
    match a with
    | ⟨0, _⟩ => show win4_4.index t (0 : Fin 2) * 128 + 1 * k.val = k.val; omega
    | ⟨1, _⟩ => show win4_4.index t (1 : Fin 2) * 128 + 1 * j'.val = j'.val; omega
  · intro j'
    refine Eq.trans ?_ (h14 j')
    show V c main_v14 (((cfg4.win 5).blk t).view.emb (ix2 (0 : Fin 1) j')) = _
    refine congrArg _ (funext fun a => Fin.ext ?_)
    match a with
    | ⟨0, _⟩ => show win4_5.index t (0 : Fin 2) * 1 + 1 * 0 = 0; omega
    | ⟨1, _⟩ => show win4_5.index t (1 : Fin 2) * 128 + 1 * j'.val = j'.val; omega
  · intro j'
    refine Eq.trans ?_ (h15 j')
    show V c main_v15 (((cfg4.win 6).blk t).view.emb (ix2 (0 : Fin 1) j')) = _
    refine congrArg _ (funext fun a => Fin.ext ?_)
    match a with
    | ⟨0, _⟩ => show win4_6.index t (0 : Fin 2) * 1 + 1 * 0 = 0; omega
    | ⟨1, _⟩ => show win4_6.index t (1 : Fin 2) * 128 + 1 * j'.val = j'.val; omega
  · intro j'
    refine Eq.trans ?_ (h16 j')
    show V c main_v16 (((cfg4.win 7).blk t).view.emb (ix2 (0 : Fin 1) j')) = _
    refine congrArg _ (funext fun a => Fin.ext ?_)
    match a with
    | ⟨0, _⟩ => show win4_7.index t (0 : Fin 2) * 1 + 1 * 0 = 0; omega
    | ⟨1, _⟩ => show win4_7.index t (1 : Fin 2) * 128 + 1 * j'.val = j'.val; omega

end Region4S

section Region4F

variable {Ix : Type} [DecidableEq Ix] {Name : Type} [DecidableEq Name] {U : Type} [URA U] {Lvl : Type}
variable (V : (c : Dev nD) → (b : Ref sig .tc) → Buf (Elt Ideal) ((c : Thread nD τ).loc b))
  (O : CellTallies nD τ sig Ix) (B : Set (SemLoc sig × Ix)) (q : Fin 9 → PosShare TreeShare) (c : Dev nD)
variable (A0 : FVec Ideal ⟨2, ![320000, 16]⟩ .f32) (A1 A2 : FVec Ideal ⟨2, ![10000, 128]⟩ .f32)
  (A3 : IVec ⟨2, ![2, 320000]⟩ 32) (A4 : FVec Ideal ⟨2, ![128, 16]⟩ .f32) (A5 A6 : FVec Ideal ⟨2, ![128, 128]⟩ .f32)
  (A7 : FVec Ideal ⟨1, ![128]⟩ .f32) (A8 : FVec Ideal ⟨2, ![128, 128]⟩ .f32) (A9 A10 A11 : FVec Ideal ⟨1, ![128]⟩ .f32)

/-- An index of the output array is in point `t`'s block iff each coordinate is in the block's range on its axis. -/
theorem mem_blk4 (t : Fin cfg4.N) (i : S320000x128.Idx) :
    i ∈ ((cfg4.win 8).blk t).view.set ↔ ∀ a : Fin 2, win4_8.index t a * S8000x128.size a ≤ (i a).val ∧ (i a).val < win4_8.index t a * S8000x128.size a + S8000x128.size a := by
  show i ∈ ((View.whole main_v40).slice (win4_8.rect t)).set ↔ _
  rw [View.set_slice_whole, Rect.mem_set_unit]
  exact Iff.rfl

/-- THE OUTPUT ARRAY after the region, on the rows its blocks cover: the specification's rows. -/
theorem final4_spec
    (hE : ∀ (e : Fin 320000) (k : Fin 16), V c main_arg0 (ix2 e k) = A0 (ix2 e k))
    (hGs : ∀ (r : Fin 163840) (hr : r.val < 160000) (j : Fin 128), V c main_v39 (ix3 (0 : Fin 2) r j)
      = ∑ k : Fin 128, A1 (ix2 (Cert.Spec.row (A3 (ix2 (0 : Fin 2) (⟨160000 + r.val, by omega⟩ : Fin 320000)))) k) * A5 (ix2 j k))
    (hGd : ∀ (r : Fin 163840) (hr : r.val < 160000) (j : Fin 128), V c main_v39 (ix3 (1 : Fin 2) r j)
      = (∑ k : Fin 128, A2 (ix2 (Cert.Spec.row (A3 (ix2 (1 : Fin 2) (⟨160000 + r.val, by omega⟩ : Fin 320000)))) k) * A6 (ix2 j k)) + A7 (ix1 j))
    (h11 : ∀ (k : Fin 16) (j : Fin 128), V c main_v11 (ix2 k j) = A4 (ix2 j k))
    (h13 : ∀ k j : Fin 128, V c main_v13 (ix2 k j) = A8 (ix2 j k))
    (h14 : ∀ j : Fin 128, V c main_v14 (ix2 (0 : Fin 1) j) = A9 (ix1 j))
    (h15 : ∀ j : Fin 128, V c main_v15 (ix2 (0 : Fin 1) j) = A10 (ix1 j))
    (h16 : ∀ j : Fin 128, V c main_v16 (ix2 (0 : Fin 1) j) = A11 (ix1 j))
    (e : Fin 320000) (he : 160000 ≤ e.val) (j : Fin 128) :
    (dat4 (Name := Name) (U := U) (Lvl := Lvl) V O B q c).arrAt 8 cfg4.N (ix2 e j) = Cert.Spec.outK A0 A1 A2 A3 A4 A5 A6 A7 A8 A9 A10 A11 e j := by
  have hlt : (e.val - 160000) / 8000 < cfg4.N := by
    rw [show cfg4.N = 20 from N_4]; have := e.isLt; omega
  rw [Dat.arrAt_eq_piecewise (dat4 (Name := Name) (U := U) (Lvl := Lvl) V O B q c) 8 (Gspec A0 A1 A2 A3 A4 A5 A6 A7 A8 A9 A10 A11)
    (fun t _ => flushed4_spec V O B q c A0 A1 A2 A3 A4 A5 A6 A7 A8 A9 A10 A11 hE hGs hGd h11 h13 h14 h15 h16 t) (ix2 e j)]
  rw [if_pos]
  refine ⟨⟨(e.val - 160000) / 8000, hlt⟩, flush4_8 _, ?_⟩
  rw [mem_blk4]
  obtain ⟨-, -, -, -, -, -, -, -, -, -, -, -, -, -, -, -, -, -, f80', f81⟩ := idx_facts4 ⟨(e.val - 160000) / 8000, hlt⟩
  have f80 : win4_8.index ⟨(e.val - 160000) / 8000, hlt⟩ (0 : Fin 2) = 20 + (e.val - 160000) / 8000 := f80'
  have hj := j.isLt
  have hel := e.isLt
  intro a
  match a with
  | ⟨0, _⟩ => show win4_8.index _ (0 : Fin 2) * 8000 ≤ e.val ∧ e.val < win4_8.index _ (0 : Fin 2) * 8000 + 8000; rw [f80]; omega
  | ⟨1, _⟩ => show win4_8.index _ (1 : Fin 2) * 128 ≤ j.val ∧ j.val < win4_8.index _ (1 : Fin 2) * 128 + 128; rw [f81]; omega

/-- and on the rows no block covers, the first half of the edges, what the array held at the region's entry. -/
theorem final4_keep (e : Fin 320000) (he : e.val < 160000) (j : Fin 128) :
    (dat4 (Name := Name) (U := U) (Lvl := Lvl) V O B q c).arrAt 8 cfg4.N (ix2 e j) = V c main_v40 (ix2 e j) := by
  refine ((dat4 (Name := Name) (U := U) (Lvl := Lvl) V O B q c).arrAt_apply_of_forall_not_mem 8 cfg4.N (ix2 e j) fun t _ _ hi => ?_).trans ?_
  · rw [mem_blk4] at hi
    obtain ⟨-, -, -, -, -, -, -, -, -, -, -, -, -, -, -, -, -, -, f80, -⟩ := idx_facts4 t
    have h0 := (hi (0 : Fin 2)).1
    have h0' : win4_8.index t (0 : Fin 2) * 8000 ≤ e.val := h0
    rw [f80] at h0'
    omega
  · exact congrFun (A_eq4 V O B q c 8) (ix2 e j)

end Region4F

end Cert.Proof.Tc

end
-- ==== Proof.KValue.lean ====
/-
  The kernel's result array against the specification. The first edge region finds, in its windows, the first 160000
  edges' features, their end points' projected rows gathered by the first SparseCore call, and the weights; its output's
  rows are the specification's. The second region finds the same for the last 160000 edges and leaves the first half's rows,
  copied into its output buffer beforehand, as they are. So every row of the result array is the specification's row.
-/
import proofs.«217078_g14027363189340_cont_week2b_886_24_alg».proof.Proof.ValGlue
import proofs.«217078_g14027363189340_cont_week2b_886_24_alg».proof.Proof.TcValueE

set_option maxRecDepth 16384

noncomputable section

namespace Cert.Proof.Main

open Cert.KernelIdeal Cert.KernelIdeal.Gen Cert.Proof.Sc Cert.Proof.Tc

open Idealize.ShloMosaic Idealize.ShloMosaic.StableHlo Idealize.ShloMosaic.TcCoe Idealize.ShloMosaic.ValueIdx
open Idealize.ShloMosaic.SparseCore.Cfg (HIx Pay)

variable (m : (ℓ : Loc nD τ sig) → Buf (Elt Ideal) ℓ) (d : Dev nD)

/-- The projected node row of table 0 is the source's summand of the specification's pre-activation, -/
theorem nodeRow_zero (n : Fin 10000) (j : Fin 128) :
    nodeRow m d (0 : Fin 2) n j = ∑ k : Fin 128, A1 m d (ix2 n k) * A5 m d (ix2 j k) := by
  unfold nodeRow; rw [if_pos (show (0 : Fin 2).val = 0 from rfl)]
/-- and of table 1 the destination's, bias included. -/
theorem nodeRow_one (n : Fin 10000) (j : Fin 128) :
    nodeRow m d (1 : Fin 2) n j = (∑ k : Fin 128, A2 m d (ix2 n k) * A6 m d (ix2 j k)) + A7 m d (ix1 j) := by
  unfold nodeRow; rw [if_neg (show ¬ (1 : Fin 2).val = 0 from by decide)]

/-- After the first edge region, the first 160000 rows of its output are the specification's. -/
theorem valC'_v28_apply (he : EdgesOK (A3 m d)) (e : Fin 320000) (h : e.val < 160000) (j : Fin 128) :
    valC' stepsI m d (Proc.devRef .tc main_v28) (ix2 e j)
      = Cert.Spec.outK (A0 m d) (A1 m d) (A2 m d) (A3 m d) (A4 m d) (A5 m d) (A6 m d) (A7 m d) (A8 m d) (A9 m d) (A10 m d) (A11 m d) e j := by
  show Function.update (valC stepsI m d) (Proc.devRef .tc main_v28) (stepsI.f1 d (valC stepsI m d)) (Proc.devRef .tc main_v28) (ix2 e j) = _
  rw [Function.update_self]
  show (dW2 d (valC stepsI m d) d).arrAt 8 cfg2.N (ix2 e j) = _
  refine final2_spec (VofW (valC stepsI m d)) _ _ _ d (A0 m d) (A1 m d) (A2 m d) (A3 m d) (A4 m d) (A5 m d) (A6 m d) (A7 m d) (A8 m d) (A9 m d) (A10 m d) (A11 m d)
    ?_ ?_ ?_ ?_ ?_ ?_ ?_ ?_ e h j
  · intro e' k; exact congrFun (arg0_C m d) (ix2 e' k)
  · intro r hr j'
    exact (gath1_apply m d he (0 : Fin 2) ⟨r.val, hr⟩ j').trans (nodeRow_zero m d _ j')
  · intro r hr j'
    exact (gath1_apply m d he (1 : Fin 2) ⟨r.val, hr⟩ j').trans (nodeRow_one m d _ j')
  · intro k j'; exact v11_C m d k j'
  · intro k j'; exact v13_C m d k j'
  · intro j'; exact v14_C m d j'
  · intro j'; exact v15_C m d j'
  · intro j'; exact v16_C m d j'

/-- The result array, row by row, is the specification's. -/
theorem valFin_v40_apply (he : EdgesOK (A3 m d)) (e : Fin 320000) (j : Fin 128) :
    valFin stepsI m d (Proc.devRef .tc main_v40) (ix2 e j)
      = Cert.Spec.outK (A0 m d) (A1 m d) (A2 m d) (A3 m d) (A4 m d) (A5 m d) (A6 m d) (A7 m d) (A8 m d) (A9 m d) (A10 m d) (A11 m d) e j := by
  show Function.update (valE stepsI m d) (Proc.devRef .tc main_v40) (stepsI.f2 d (valE stepsI m d)) (Proc.devRef .tc main_v40) (ix2 e j) = _
  rw [Function.update_self]
  show (dW4 d (valE stepsI m d) d).arrAt 8 cfg4.N (ix2 e j) = _
  by_cases h : e.val < 160000
  · rw [final4_keep (VofW (valE stepsI m d)) _ _ _ d e h j]
    show valE stepsI m d (Proc.devRef .tc main_v40) (ix2 e j) = _
    rw [v40_E m d]
    exact valC'_v28_apply m d he e h j
  · refine final4_spec (VofW (valE stepsI m d)) _ _ _ d (A0 m d) (A1 m d) (A2 m d) (A3 m d) (A4 m d) (A5 m d) (A6 m d) (A7 m d) (A8 m d) (A9 m d) (A10 m d) (A11 m d)
      ?_ ?_ ?_ ?_ ?_ ?_ ?_ ?_ e (not_lt.mp h) j
    · intro e' k; exact congrFun (arg0_E m d) (ix2 e' k)
    · intro r hr j'
      exact (gath2_apply m d he (0 : Fin 2) ⟨r.val, hr⟩ j').trans (nodeRow_zero m d _ j')
    · intro r hr j'
      exact (gath2_apply m d he (1 : Fin 2) ⟨r.val, hr⟩ j').trans (nodeRow_one m d _ j')
    · intro k j'; exact v11_E m d k j'
    · intro k j'; exact v13_E m d k j'
    · intro j'; exact v14_E m d j'
    · intro j'; exact v15_E m d j'
    · intro j'; exact v16_E m d j'

end Cert.Proof.Main

end
-- ==== Proof.ScValDefs.lean ====
/-
  A SparseCore's shared scratch once its ten writers have filled it, as a total function of the table's contents: row
  `r` is the table's row `10000 c + r`.
-/
import proofs.«217078_g14027363189340_cont_week2b_886_24_alg».proof.Proof.ScPay
import proofs.«217078_g14027363189340_cont_week2b_886_24_alg».proof.Proof.ScGather

noncomputable section

namespace Cert.Proof.Sc.V

open Cert.KernelIdeal Cert.KernelIdeal.Gen
open Idealize.ShloMosaic Idealize.ShloMosaic.ValueIdx

/-- SparseCore `c`'s shared scratch once filled: row `r` is the table's row `10000 c + r`. -/
def shG {α : Type} (tb : S20000x128.Idx → α) (c : ℕ) : S10000x128.Idx → α :=
  fun i => tb (ix2 (⟨(10000 * c + (i 0).val) % 20000, Nat.mod_lt _ (by decide)⟩ : Fin 20000) (i 1))

end Cert.Proof.Sc.V
-- ==== Proof.ScPayV.lean ====
/-
  What the handshakes of the two SparseCore calls carry when the contents travel with the shares: the table and the two
  index lists at given contents, the output at the gathered rows; and the barrier's payload naming what the shared scratch
  holds — a writer's rows of it are the table's rows.
-/
import proofs.«217078_g14027363189340_cont_week2b_886_24_alg».proof.Proof.ScValDefs

noncomputable section

namespace Cert.Proof.Sc.V

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable [FloatOps F]

variable (tb : (d : Dev nD) → Buf (Elt F) (tblLoc d))

/-! ## The barrier cells, their payload at the table's rows -/

/-- What tile `n`'s arrival at tile `j`'s barrier semaphore hands over in round `r`: a writing tile (`n < 10`) the `j`-th
    read share of its rows of the call's shared scratch, which hold the table's rows; the others nothing. -/
def bPayV (g : GSem nD τ sig) (r n : ℕ) : sProp 𝕄 :=
  match g with
  | ((d, .scVector c j), _) =>
    if hn : n < 10 then
      (if r = 0 then iprop(sh0Loc d c ↦[shRowSet ⟨n, hn⟩]{rdShare j.val} shG (tb d) c.val)
        else iprop(sh1Loc d c ↦[shRowSet ⟨n, hn⟩]{rdShare j.val} shG (tb d) c.val))
    else iprop(emp)
  | _ => iprop(emp)

def bRdV : Rounds.Schedule (GSem nD τ sig) ℕ 𝕄 where
  duties g r := if isBar g ∧ r < 2 then (Finset.univ : Finset (Fin τ.nSub)).image Fin.val else ∅
  amount _ _ _ := 1
  payload g r n := bPayV tb g r n
  amount_pos _ _ _ _ := Nat.one_pos

instance bRdV_payload_storable (g : GSem nD τ sig) (r n : ℕ) : BI.Storable (upEmb : UEmb _ 𝕄) ((bRdV (F := F) tb).payload g r n) := by
  show BI.Storable upEmb (bPayV tb g r n)
  unfold bPayV
  rcases g with ⟨⟨d, _ | c | ⟨c, i⟩⟩, sm⟩ <;> dsimp only <;> (repeat' split) <;> infer_instance

theorem bRdV_duties (d : Dev nD) (c : Fin τ.nSC) (j : Fin τ.nSub) {r : ℕ} (hr : r < 2) :
    (bRdV (F := F) tb).duties (bcell d c j) r = (Finset.univ : Finset (Fin τ.nSub)).image Fin.val := by
  have h2 : ¬ (1 < r) := by omega
  simp [bRdV, isBar, hr, h2]
theorem bRdV_mem (d : Dev nD) (c : Fin τ.nSC) (j i : Fin τ.nSub) {r : ℕ} (hr : r < 2) : i.val ∈ (bRdV (F := F) tb).duties (bcell d c j) r := by
  rw [bRdV_duties tb d c j hr]; exact Finset.mem_image_of_mem _ (Finset.mem_univ i)
theorem bRdV_expect (d : Dev nD) (c : Fin τ.nSC) (j : Fin τ.nSub) {r : ℕ} (hr : r < 2) : 0 + 16 = (bRdV (F := F) tb).expect (bcell d c j) r := by
  unfold Rounds.Schedule.expect; rw [bRdV_duties tb d c j hr]
  show 0 + 16 = ∑ x ∈ (Finset.univ : Finset (Fin 16)).image Fin.val, 1
  rw [Finset.sum_const, Finset.card_image_of_injective _ Fin.val_injective]; rfl

/-- The tile's barrier kit for call `q`, over the schedule whose payload names the table's rows. -/
def kitV (q : Fin 2) (d : Dev nD) (c : Fin τ.nSC) (i : Fin τ.nSub) : sProp 𝕄 :=
  iprop((∃ κ : GSem nD τ sig → ℕ, bigSep Finset.univ fun j : Fin (grid1.bound 1) =>
      cellInv EB (bRdV (F := F) tb) (κ (bcell d c (j.castLE hsub1))) (bcell d c (j.castLE hsub1)))
    ∗ (bigSep Finset.univ fun j : Fin (grid1.bound 1) => dutyTok EB (bcell d c (j.castLE hsub1)) q.val i.val)
    ∗ (if q.val = 0 then kitFirst d c i else iprop(emp))
    ∗ cred (tallyAt (bcell d c i) (some q) (grid1.bound 1)))

/-! ## Call 0 -/

section CallV0

variable (jx : (d : Dev nD) → Buf (Elt F) (idxLoc0 d))

/-- The tile's index words, at the list's contents. -/
def idxPieceV0 (d : Dev nD) (L : grid1.Coords) : sProp 𝕄 :=
  bigSep Finset.univ fun t1 : Fin k1_t1_loop.trips => idxLoc0 d ↦[idxSet0 L t1]{fullShare} jx d
/-- The tile's output rows, block by block, at the gathered rows. -/
def outPieceV0 (d : Dev nD) (L : grid1.Coords) : sProp 𝕄 :=
  bigSep Finset.univ fun t1 : Fin k1_t1_loop.trips => bigSep Finset.univ fun t3 : Fin k1_t3_loop.trips =>
    iprop((outLoc0 d ↦[outASet0 L t1 t3]{fullShare} gatherRows (tb d) (jx d)) ∗ (outLoc0 d ↦[outBSet0 L t1 t3]{fullShare} gatherRows (tb d) (jx d)))
/-- A writing tile's rows of the table, at the table's contents. -/
def tblPieceV0 (d : Dev nD) (L : grid1.Coords) : sProp 𝕄 :=
  if h : k1_cond1 L = 1#1 then iprop(tblLoc d ↦[tblSet0 L h]{fullShare} tb d) else iprop(emp)
/-- A writing tile's rows of the shared scratch once written, at share `q`. -/
def shPieceV0 (q : PosShare TreeShare) (d : Dev nD) (L : grid1.Coords) : sProp 𝕄 :=
  if h : k1_cond1 L = 1#1 then iprop(sh0Loc d (cV0 L) ↦[shSet0 L h]{q} shG (tb d) (L 0).val) else iprop(emp)

instance idxPieceV0_storable (d : Dev nD) (L : grid1.Coords) : BI.Storable (upEmb : UEmb _ 𝕄) (idxPieceV0 (F := F) jx d L) := by
  unfold idxPieceV0; infer_instance
instance outPieceV0_storable (d : Dev nD) (L : grid1.Coords) : BI.Storable (upEmb : UEmb _ 𝕄) (outPieceV0 (F := F) tb jx d L) := by
  unfold outPieceV0; infer_instance
instance tblPieceV0_storable (d : Dev nD) (L : grid1.Coords) : BI.Storable (upEmb : UEmb _ 𝕄) (tblPieceV0 (F := F) tb d L) := by
  unfold tblPieceV0; split <;> infer_instance
instance shPieceV0_storable (q : PosShare TreeShare) (d : Dev nD) (L : grid1.Coords) : BI.Storable (upEmb : UEmb _ 𝕄) (shPieceV0 (F := F) tb q d L) := by
  unfold shPieceV0; split <;> infer_instance

def goV0 (d : Dev nD) (L : grid1.Coords) : sProp 𝕄 :=
  iprop(idxPieceV0 jx d L ∗ outPiece0 d L ∗ tblPieceV0 tb d L ∗ shPiece0 fullShare d L)
def tdV0 (d : Dev nD) (L : grid1.Coords) : sProp 𝕄 :=
  iprop(idxPieceV0 jx d L ∗ outPieceV0 tb jx d L ∗ tblPieceV0 tb d L ∗ (sh0Loc d (cV0 L) ↦{rdShare (L 1).val} shG (tb d) (L 0).val) ∗ shPieceV0 tb restShare d L
    ∗ atPos EB (bcell d (cV0 L) (jV0 L)) 1 ∅ 0 ∗ reached EB (bcell d (cV0 L) (jV0 L)) 1)

instance goV0_storable (d : Dev nD) (L : grid1.Coords) : BI.Storable (upEmb : UEmb _ 𝕄) (goV0 (F := F) tb jx d L) := by
  unfold goV0; infer_instance
instance tdV0_storable (d : Dev nD) (L : grid1.Coords) : BI.Storable (upEmb : UEmb _ 𝕄) (tdV0 (F := F) tb jx d L) := by
  unfold tdV0; infer_instance

/-- What the TensorCore hands SparseCore `c`: its halves of the table and of the index list at their contents, its half of
    the output at whatever it holds; -/
def stCoreV0 (d : Dev nD) (c : Fin 2) : sProp 𝕄 :=
  iprop((tblLoc d ↦[halfT c]{fullShare} tb d) ∗ (idxLoc0 d ↦[halfJ c]{fullShare} jx d) ∗ ∃ ob : Buf (Elt F) (outLoc0 d), outLoc0 d ↦[halfO c]{fullShare} ob)
/-- and what comes back: the same, the output's half at the gathered rows. -/
def dnCoreV0 (d : Dev nD) (c : Fin 2) : sProp 𝕄 :=
  iprop((tblLoc d ↦[halfT c]{fullShare} tb d) ∗ (idxLoc0 d ↦[halfJ c]{fullShare} jx d) ∗ (outLoc0 d ↦[halfO c]{fullShare} gatherRows (tb d) (jx d)))

instance stCoreV0_storable (d : Dev nD) (c : Fin 2) : BI.Storable (upEmb : UEmb _ 𝕄) (stCoreV0 (F := F) tb jx d c) := by
  unfold stCoreV0; infer_instance
instance dnCoreV0_storable (d : Dev nD) (c : Fin 2) : BI.Storable (upEmb : UEmb _ 𝕄) (dnCoreV0 (F := F) tb jx d c) := by
  unfold dnCoreV0; infer_instance

end CallV0

/-! ## Call 1 -/

section CallV1

variable (jx : (d : Dev nD) → Buf (Elt F) (idxLoc1 d))

/-- The tile's index words, at the list's contents. -/
def idxPieceV1 (d : Dev nD) (L : grid3.Coords) : sProp 𝕄 :=
  bigSep Finset.univ fun t1 : Fin k3_t1_loop.trips => idxLoc1 d ↦[idxSet1 L t1]{fullShare} jx d
/-- The tile's output rows, block by block, at the gathered rows. -/
def outPieceV1 (d : Dev nD) (L : grid3.Coords) : sProp 𝕄 :=
  bigSep Finset.univ fun t1 : Fin k3_t1_loop.trips => bigSep Finset.univ fun t3 : Fin k3_t3_loop.trips =>
    iprop((outLoc1 d ↦[outASet1 L t1 t3]{fullShare} gatherRows (tb d) (jx d)) ∗ (outLoc1 d ↦[outBSet1 L t1 t3]{fullShare} gatherRows (tb d) (jx d)))
/-- A writing tile's rows of the table, at the table's contents. -/
def tblPieceV1 (d : Dev nD) (L : grid3.Coords) : sProp 𝕄 :=
  if h : k3_cond1 L = 1#1 then iprop(tblLoc d ↦[tblSet1 L h]{fullShare} tb d) else iprop(emp)
/-- A writing tile's rows of the shared scratch once written, at share `q`. -/
def shPieceV1 (q : PosShare TreeShare) (d : Dev nD) (L : grid3.Coords) : sProp 𝕄 :=
  if h : k3_cond1 L = 1#1 then iprop(sh1Loc d (cV1 L) ↦[shSet1 L h]{q} shG (tb d) (L 0).val) else iprop(emp)

instance idxPieceV1_storable (d : Dev nD) (L : grid3.Coords) : BI.Storable (upEmb : UEmb _ 𝕄) (idxPieceV1 (F := F) jx d L) := by
  unfold idxPieceV1; infer_instance
instance outPieceV1_storable (d : Dev nD) (L : grid3.Coords) : BI.Storable (upEmb : UEmb _ 𝕄) (outPieceV1 (F := F) tb jx d L) := by
  unfold outPieceV1; infer_instance
instance tblPieceV1_storable (d : Dev nD) (L : grid3.Coords) : BI.Storable (upEmb : UEmb _ 𝕄) (tblPieceV1 (F := F) tb d L) := by
  unfold tblPieceV1; split <;> infer_instance
instance shPieceV1_storable (q : PosShare TreeShare) (d : Dev nD) (L : grid3.Coords) : BI.Storable (upEmb : UEmb _ 𝕄) (shPieceV1 (F := F) tb q d L) := by
  unfold shPieceV1; split <;> infer_instance

def goV1 (d : Dev nD) (L : grid3.Coords) : sProp 𝕄 :=
  iprop(idxPieceV1 jx d L ∗ outPiece1 d L ∗ tblPieceV1 tb d L ∗ shPiece1 fullShare d L
    ∗ atPos EB (bcell d (cV1 L) (jV1 L)) 1 ∅ 0
    ∗ bigSep Finset.univ fun j : Fin (grid3.bound 1) => reached EB (bcell d (cV1 L) (j.castLE hsub3)) 1)
def tdV1 (d : Dev nD) (L : grid3.Coords) : sProp 𝕄 :=
  iprop(idxPieceV1 jx d L ∗ outPieceV1 tb jx d L ∗ tblPieceV1 tb d L ∗ (sh1Loc d (cV1 L) ↦{rdShare (L 1).val} shG (tb d) (L 0).val) ∗ shPieceV1 tb restShare d L)

instance goV1_storable (d : Dev nD) (L : grid3.Coords) : BI.Storable (upEmb : UEmb _ 𝕄) (goV1 (F := F) tb jx d L) := by
  unfold goV1; infer_instance
instance tdV1_storable (d : Dev nD) (L : grid3.Coords) : BI.Storable (upEmb : UEmb _ 𝕄) (tdV1 (F := F) tb jx d L) := by
  unfold tdV1; infer_instance

/-- What the TensorCore hands SparseCore `c`: its halves of the table and of the index list at their contents, its half of
    the output at whatever it holds; -/
def stCoreV1 (d : Dev nD) (c : Fin 2) : sProp 𝕄 :=
  iprop((tblLoc d ↦[halfT c]{fullShare} tb d) ∗ (idxLoc1 d ↦[halfJ c]{fullShare} jx d) ∗ ∃ ob : Buf (Elt F) (outLoc1 d), outLoc1 d ↦[halfO c]{fullShare} ob)
/-- and what comes back: the same, the output's half at the gathered rows. -/
def dnCoreV1 (d : Dev nD) (c : Fin 2) : sProp 𝕄 :=
  iprop((tblLoc d ↦[halfT c]{fullShare} tb d) ∗ (idxLoc1 d ↦[halfJ c]{fullShare} jx d) ∗ (outLoc1 d ↦[halfO c]{fullShare} gatherRows (tb d) (jx d)))

instance stCoreV1_storable (d : Dev nD) (c : Fin 2) : BI.Storable (upEmb : UEmb _ 𝕄) (stCoreV1 (F := F) tb jx d c) := by
  unfold stCoreV1; infer_instance
instance dnCoreV1_storable (d : Dev nD) (c : Fin 2) : BI.Storable (upEmb : UEmb _ 𝕄) (dnCoreV1 (F := F) tb jx d c) := by
  unfold dnCoreV1; infer_instance

end CallV1

/-! ## What the handshakes carry -/

variable (j0 : (d : Dev nD) → Buf (Elt F) (idxLoc0 d)) (j1 : (d : Dev nD) → Buf (Elt F) (idxLoc1 d))

def PV : (K (F := F)).Pay (nD := nD) (Val := Elt F) (Name := ℕ) (U := UU) where
  st := fun q d c => match q with
    | 0 => stCoreV0 tb j0 d (Fin.cast (nCore_eq 0) c)
    | 1 => iprop(stCoreV1 tb j1 d (Fin.cast (nCore_eq 1) c) ∗ barNext d ((K (F := F)).core 1 c))
  dn := fun q d c => match q with
    | 0 => iprop(dnCoreV0 tb j0 d (Fin.cast (nCore_eq 0) c) ∗ barNext d ((K (F := F)).core 0 c))
    | 1 => dnCoreV1 tb j1 d (Fin.cast (nCore_eq 1) c)
  go := fun q d c i => match q with
    | 0 => goV0 tb j0 d (coords0 (Fin.cast nCore0 c) (Fin.cast nSub0 i))
    | 1 => goV1 tb j1 d (coords1 (Fin.cast nCore1 c) (Fin.cast nSub1 i))
  td := fun q d c i => match q with
    | 0 => tdV0 tb j0 d (coords0 (Fin.cast nCore0 c) (Fin.cast nSub0 i))
    | 1 => tdV1 tb j1 d (coords1 (Fin.cast nCore1 c) (Fin.cast nSub1 i))
  x := fun q thr => match thr with
    | (d, .scVector c i) => kitV tb q d c i
    | _ => iprop(emp)
  ox := fun q thr => match thr with
    | (d, .scVector c _) => oxV q d c
    | _ => 0
  ox_band := by
    intro q thr g ι h
    rcases thr with ⟨d, _ | c | ⟨c, i⟩⟩
    · exact absurd h (lt_irrefl 0)
    · exact absurd h (lt_irrefl 0)
    · obtain ⟨j, rfl, rfl⟩ := oxV_apply_pos h
      rw [(K (F := F)).lev_V_reg d c (j.castLE hsub1) (show (sc_bar0 : Sem sig) ≠ (K (F := F)).go from sc_bar0_ne_go)]; exact ⟨le_rfl, by omega⟩
  ox_tc := fun _ _ => rfl
  ox_sc := fun _ _ _ h => absurd rfl h
  ox_vc := by
    intro q d c i _
    refine ⟨?_, ?_, ?_⟩
    · fin_cases q <;> rfl
    · rw [nCore_eq]; exact c.isLt
    · rw [nSub_eq]; exact i.isLt

instance PV_storable : (PV (F := F) tb j0 j1).IsStorable where
  st q d c := match q with
    | 0 => (inferInstance : BI.Storable (upEmb : UEmb _ 𝕄) (stCoreV0 tb j0 d (Fin.cast (nCore_eq 0) c)))
    | 1 => (inferInstance : BI.Storable (upEmb : UEmb _ 𝕄) iprop(stCoreV1 tb j1 d (Fin.cast (nCore_eq 1) c) ∗ barNext d ((K (F := F)).core 1 c)))
  dn q d c := match q with
    | 0 => (inferInstance : BI.Storable (upEmb : UEmb _ 𝕄) iprop(dnCoreV0 tb j0 d (Fin.cast (nCore_eq 0) c) ∗ barNext d ((K (F := F)).core 0 c)))
    | 1 => (inferInstance : BI.Storable (upEmb : UEmb _ 𝕄) (dnCoreV1 tb j1 d (Fin.cast (nCore_eq 1) c)))
  go q d c i := match q with
    | 0 => (inferInstance : BI.Storable (upEmb : UEmb _ 𝕄) (goV0 tb j0 d (coords0 (Fin.cast nCore0 c) (Fin.cast nSub0 i))))
    | 1 => (inferInstance : BI.Storable (upEmb : UEmb _ 𝕄) (goV1 tb j1 d (coords1 (Fin.cast nCore1 c) (Fin.cast nSub1 i))))
  td q d c i := match q with
    | 0 => (inferInstance : BI.Storable (upEmb : UEmb _ 𝕄) (tdV0 tb j0 d (coords0 (Fin.cast nCore0 c) (Fin.cast nSub0 i))))
    | 1 => (inferInstance : BI.Storable (upEmb : UEmb _ 𝕄) (tdV1 tb j1 d (coords1 (Fin.cast nCore1 c) (Fin.cast nSub1 i))))

end Cert.Proof.Sc.V
-- ==== Proof.ScCallV.lean ====
/-
  A SparseCore call on the TensorCore's side, with the gathered rows named: the node table and the index list are handed
  over at their contents and come back unchanged; the gathered rows' array comes back holding, row by row, the table's row at
  the index word.
-/
import proofs.«217078_g14027363189340_cont_week2b_886_24_alg».proof.Proof.ScCall
import proofs.«217078_g14027363189340_cont_week2b_886_24_alg».proof.Proof.ScPayV
import proofs.«217078_g14027363189340_cont_week2b_886_24_alg».proof.Proof.TcStepV

noncomputable section

namespace Cert.Proof.Main

open Cert.KernelIdeal Cert.KernelIdeal.Gen Cert.Proof.Sc Cert.Proof.Sc.V

open Idealize.ShloMosaic Idealize.ShloMosaic.StableHlo Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {tb : (d : Dev nD) → Buf (Elt F) (tblLoc d)} {j0 : (d : Dev nD) → Buf (Elt F) (idxLoc0 d)} {j1 : (d : Dev nD) → Buf (Elt F) (idxLoc1 d)}

local notation "𝕄" => MT nD τ sig (HIx 2) (Elt F) ℕ UU ℕ

theorem stV0_eq (d : Dev nD) :
    (bigSep Finset.univ fun c : Fin ((K (F := F)).nCore 0) => (PV (F := F) tb j0 j1).st 0 d c) = (bigSep Finset.univ fun c : Fin 2 => stCoreV0 (F := F) tb j0 d c : sProp 𝕄) :=
  bigSep_congr fun _ _ => congrArg (stCoreV0 (F := F) tb j0 d) (Fin.ext rfl)
theorem dnV0_eq (d : Dev nD) :
    (bigSep Finset.univ fun c : Fin ((K (F := F)).nCore 0) => (PV (F := F) tb j0 j1).dn 0 d c)
      = (iprop((bigSep Finset.univ fun c : Fin 2 => dnCoreV0 (F := F) tb j0 d c) ∗ X1 (F := F) d) : sProp 𝕄) := by
  unfold X1; rw [← bigSep_sep']; exact bigSep_congr fun _ _ => rfl
theorem stV1_eq (d : Dev nD) :
    (bigSep Finset.univ fun c : Fin ((K (F := F)).nCore 1) => (PV (F := F) tb j0 j1).st 1 d c)
      = (iprop((bigSep Finset.univ fun c : Fin 2 => stCoreV1 (F := F) tb j1 d c) ∗ X1 (F := F) d) : sProp 𝕄) := by
  unfold X1; rw [← bigSep_sep']; exact bigSep_congr fun _ _ => rfl
theorem dnV1_eq (d : Dev nD) :
    (bigSep Finset.univ fun c : Fin ((K (F := F)).nCore 1) => (PV (F := F) tb j0 j1).dn 1 d c) = (bigSep Finset.univ fun c : Fin 2 => dnCoreV1 (F := F) tb j1 d c : sProp 𝕄) :=
  bigSep_congr fun _ _ => congrArg (dnCoreV1 (F := F) tb j1 d) (Fin.ext rfl)

/-- The three arrays whole, the table and the index list at the named contents, are the two SparseCores' hand-overs. -/
theorem stCoreV0_intro (d : Dev nD) (ob : Buf (Elt F) (outLoc0 d)) :
    iprop((tblLoc d ↦{fullShare} tb d) ∗ (idxLoc0 d ↦{fullShare} j0 d) ∗ (outLoc0 d ↦{fullShare} ob))
      ⊢ (bigSep Finset.univ fun c : Fin 2 => stCoreV0 (F := F) tb j0 d c : sProp 𝕄) := by
  rw [halves_split (ℓ := tblLoc d) halfT halfT_disj halfT_cover (tb d), halves_split (ℓ := idxLoc0 d) halfJ halfJ_disj halfJ_cover (j0 d),
    halves_split (ℓ := outLoc0 d) halfO halfO_disj halfO_cover ob, ← bigSep_sep', ← bigSep_sep']
  refine bigSep_mono fun c _ => ?_
  unfold stCoreV0
  show (_ : sProp 𝕄) ⊢ _
  iintro ⟨Ht, Hj, Ho⟩
  isplitl [Ht]; · iexact Ht
  isplitl [Hj]; · iexact Hj
  iexists ob; iexact Ho

/-- The two SparseCores' returns are the three arrays whole: the table and the index list as they were, the output at the
    gathered rows. -/
theorem dnCoreV0_elim (d : Dev nD) :
    (bigSep Finset.univ fun c : Fin 2 => dnCoreV0 (F := F) tb j0 d c : sProp 𝕄)
      = iprop((tblLoc d ↦{fullShare} tb d) ∗ (idxLoc0 d ↦{fullShare} j0 d) ∗ (outLoc0 d ↦{fullShare} gatherRows (tb d) (j0 d))) := by
  rw [halves_split (ℓ := tblLoc d) halfT halfT_disj halfT_cover (tb d), halves_split (ℓ := idxLoc0 d) halfJ halfJ_disj halfJ_cover (j0 d),
    halves_split (ℓ := outLoc0 d) halfO halfO_disj halfO_cover (gatherRows (tb d) (j0 d)), ← bigSep_sep', ← bigSep_sep']
  rfl

/-- The other unscoped buffers beside the three arrays, the output at new contents, are the unscoped buffers at the valuation
    changed at the output array alone. -/
theorem held_updO0 (d : Dev nD) (V₁ : Valuation τ sig (Elt F)) (ob : Buf (Elt F) (outLoc0 d)) :
    iprop(((tblLoc d ↦{fullShare} V₁ rT) ∗ (idxLoc0 d ↦{fullShare} V₁ rJ0) ∗ (outLoc0 d ↦{fullShare} ob))
        ∗ (held (SparseCore.T d) (Pipeline.ucRefs τ sig \ trio0) V₁ : sProp 𝕄))
      ⊢ (held (SparseCore.T d) (Pipeline.ucRefs τ sig) (Function.update V₁ rO0 ob) : sProp 𝕄) := by
  have e : upd3 V₁ rT rJ0 rO0 (V₁ rT) (V₁ rJ0) ob = Function.update V₁ rO0 ob := by
    unfold upd3
    rw [Function.update_eq_self, Function.update_eq_self]
  rw [← e]
  exact held_upd0 d V₁ (V₁ rT) (V₁ rJ0) ob

/-- Gather 0 on the TensorCore's side, its result named. -/
theorem callStepV0 : CallStepV (PV (F := F) tb j0 j1) 0 main_v9 main_v25 main_v26 (fun _ => iprop(emp)) (X1 (F := F))
    (fun d t j => t = tb d ∧ j = j0 d) (fun t j => gatherRows t j) := by
  intro κ d V₁ hok k Q
  obtain ⟨ht, hj⟩ := hok
  rw [wp_bind, held_sub_split (SparseCore.T d) trio0_sub V₁, held_trio0]
  iintro ⟨#Hctx, Hst, ⟨⟨Ht, Hj, Ho⟩, Hrest⟩, HX, Hk⟩
  iapply ((K (F := F)).wp_run (D (F := F)) 𝒱 (EH := EH) (P := PV (F := F) tb j0 j1) κ d 0)
  isplitr; · iexact Hctx
  isplitl [Hst]; · iexact Hst
  isplitl [Ht Hj Ho]
  · rw [stV0_eq]
    iapply (stCoreV0_intro (tb := tb) (j0 := j0) d (V₁ rO0))
    isplitl [Ht]; · rw [← ht]; iexact Ht
    isplitl [Hj]; · rw [← hj]; iexact Hj
    iexact Ho
  iintro ⟨Hst, Hdn⟩
  ihave Hdn' := (Entails.of_eq (dnV0_eq (tb := tb) (j0 := j0) (j1 := j1) d)) $$ Hdn
  icases Hdn' with ⟨Hcore, HX'⟩
  ihave H := (Entails.of_eq (dnCoreV0_elim (tb := tb) (j0 := j0) d)) $$ Hcore
  icases H with ⟨Ht, Hj, Ho⟩
  iapply Hk
  isplitl [Hst]; · iexact Hst
  isplitr [HX']
  · rw [ht, hj]
    iapply (held_updO0 d V₁ (gatherRows (tb d) (j0 d)))
    isplitr [Hrest]
    · isplitl [Ht]; · rw [ht]; iexact Ht
      isplitl [Hj]; · rw [hj]; iexact Hj
      iexact Ho
    iexact Hrest
  iexact HX'

/-- The three arrays whole, the table and the index list at the named contents, are the two SparseCores' hand-overs. -/
theorem stCoreV1_intro (d : Dev nD) (ob : Buf (Elt F) (outLoc1 d)) :
    iprop((tblLoc d ↦{fullShare} tb d) ∗ (idxLoc1 d ↦{fullShare} j1 d) ∗ (outLoc1 d ↦{fullShare} ob))
      ⊢ (bigSep Finset.univ fun c : Fin 2 => stCoreV1 (F := F) tb j1 d c : sProp 𝕄) := by
  rw [halves_split (ℓ := tblLoc d) halfT halfT_disj halfT_cover (tb d), halves_split (ℓ := idxLoc1 d) halfJ halfJ_disj halfJ_cover (j1 d),
    halves_split (ℓ := outLoc1 d) halfO halfO_disj halfO_cover ob, ← bigSep_sep', ← bigSep_sep']
  refine bigSep_mono fun c _ => ?_
  unfold stCoreV1
  show (_ : sProp 𝕄) ⊢ _
  iintro ⟨Ht, Hj, Ho⟩
  isplitl [Ht]; · iexact Ht
  isplitl [Hj]; · iexact Hj
  iexists ob; iexact Ho

/-- The two SparseCores' returns are the three arrays whole: the table and the index list as they were, the output at the
    gathered rows. -/
theorem dnCoreV1_elim (d : Dev nD) :
    (bigSep Finset.univ fun c : Fin 2 => dnCoreV1 (F := F) tb j1 d c : sProp 𝕄)
      = iprop((tblLoc d ↦{fullShare} tb d) ∗ (idxLoc1 d ↦{fullShare} j1 d) ∗ (outLoc1 d ↦{fullShare} gatherRows (tb d) (j1 d))) := by
  rw [halves_split (ℓ := tblLoc d) halfT halfT_disj halfT_cover (tb d), halves_split (ℓ := idxLoc1 d) halfJ halfJ_disj halfJ_cover (j1 d),
    halves_split (ℓ := outLoc1 d) halfO halfO_disj halfO_cover (gatherRows (tb d) (j1 d)), ← bigSep_sep', ← bigSep_sep']
  rfl

/-- The other unscoped buffers beside the three arrays, the output at new contents, are the unscoped buffers at the valuation
    changed at the output array alone. -/
theorem held_updO1 (d : Dev nD) (V₁ : Valuation τ sig (Elt F)) (ob : Buf (Elt F) (outLoc1 d)) :
    iprop(((tblLoc d ↦{fullShare} V₁ rT) ∗ (idxLoc1 d ↦{fullShare} V₁ rJ1) ∗ (outLoc1 d ↦{fullShare} ob))
        ∗ (held (SparseCore.T d) (Pipeline.ucRefs τ sig \ trio1) V₁ : sProp 𝕄))
      ⊢ (held (SparseCore.T d) (Pipeline.ucRefs τ sig) (Function.update V₁ rO1 ob) : sProp 𝕄) := by
  have e : upd3 V₁ rT rJ1 rO1 (V₁ rT) (V₁ rJ1) ob = Function.update V₁ rO1 ob := by
    unfold upd3
    rw [Function.update_eq_self, Function.update_eq_self]
  rw [← e]
  exact held_upd1 d V₁ (V₁ rT) (V₁ rJ1) ob

/-- Gather 1 on the TensorCore's side, its result named. -/
theorem callStepV1 : CallStepV (PV (F := F) tb j0 j1) 1 main_v9 main_v37 main_v38 (X1 (F := F)) (fun _ => iprop(emp))
    (fun d t j => t = tb d ∧ j = j1 d) (fun t j => gatherRows t j) := by
  intro κ d V₁ hok k Q
  obtain ⟨ht, hj⟩ := hok
  rw [wp_bind, held_sub_split (SparseCore.T d) trio1_sub V₁, held_trio1]
  iintro ⟨#Hctx, Hst, ⟨⟨Ht, Hj, Ho⟩, Hrest⟩, HX, Hk⟩
  iapply ((K (F := F)).wp_run (D (F := F)) 𝒱 (EH := EH) (P := PV (F := F) tb j0 j1) κ d 1)
  isplitr; · iexact Hctx
  isplitl [Hst]; · iexact Hst
  isplitl [Ht Hj Ho HX]
  · rw [stV1_eq]
    isplitr [HX]
    · iapply (stCoreV1_intro (tb := tb) (j1 := j1) d (V₁ rO1))
      isplitl [Ht]; · rw [← ht]; iexact Ht
      isplitl [Hj]; · rw [← hj]; iexact Hj
      iexact Ho
    iexact HX
  iintro ⟨Hst, Hdn⟩
  ihave Hdn' := (Entails.of_eq (dnV1_eq (tb := tb) (j0 := j0) (j1 := j1) d)) $$ Hdn
  ihave H := (Entails.of_eq (dnCoreV1_elim (tb := tb) (j1 := j1) d)) $$ Hdn'
  icases H with ⟨Ht, Hj, Ho⟩
  iapply Hk
  isplitl [Hst]; · iexact Hst
  isplitl
  · rw [ht, hj]
    iapply (held_updO1 d V₁ (gatherRows (tb d) (j1 d)))
    isplitr [Hrest]
    · isplitl [Ht]; · rw [ht]; iexact Ht
      isplitl [Hj]; · rw [hj]; iexact Hj
      iexact Ho
    iexact Hrest
  iempintro

end Cert.Proof.Main

end
-- ==== Proof.ScLaunchV.lean ====
/-
  The launch element of the ghost state, for the handshakes that carry the gathered rows' contents. From the launch's element of the product algebra — the handshake cells' rounds,
  the subcore-barrier cells' rounds (two on each cell, one per gather), the three pipelines' staging cells' rounds, the
  transfers' counters at their unit — together with the credit for what the tiles owe at the barriers and the tiles'
  barrier semaphores at zero: the handshakes' share goes to the launch theorem; the pipelines' cells' launch state and
  duty tokens go to @main, one summand per kernel region; and the barrier cells' invariants are allocated at once and
  dealt, with each tile's duty tokens in both rounds, its origin in round 0 and its credit, into the tiles' kits.
-/
import proofs.«217078_g14027363189340_cont_week2b_886_24_alg».proof.Proof.ScPayV
import proofs.«217078_g14027363189340_cont_week2b_886_24_alg».proof.Proof.TcData
import Idealize.ShloMosaic.Lib.Pipeline.Sound

noncomputable section

namespace Cert.Proof.Sc.LV

open Cert.Proof.Sc.V

open Cert.KernelIdeal Cert.KernelIdeal.Gen

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable {tb : (d : Dev nD) → Buf (Elt F) (tblLoc d)} {j0 : (d : Dev nD) → Buf (Elt F) (idxLoc0 d)} {j1 : (d : Dev nD) → Buf (Elt F) (idxLoc1 d)}

local notation "𝕄" => MT nD τ sig (HIx 2) (Elt F) ℕ UU ℕ

/-! ## The barrier cells and their tokens -/

abbrev DCI : Type := Dev nD × Fin τ.nSC × Fin τ.nSub
abbrev bcell₃ (x : DCI) : GSem nD τ sig := bcell x.1 x.2.1 x.2.2

/-- Every tile's barrier semaphore. -/
def bCells : Finset (GSem nD τ sig) := Finset.univ.image bcell₃
/-- Tile `i`'s token in tile `j`'s cell in round `q`, for every pair of tiles of a SparseCore and both rounds. -/
def bToks : Finset (GSem nD τ sig × ℕ × ℕ) :=
  Finset.univ.image fun x : (DCI × Fin (grid1.bound 1)) × Fin 2 => (bcell x.1.1.1 x.1.1.2.1 (x.1.2.castLE hsub1), x.2.val, x.1.1.2.2.val)

omit [FloatOps F] in
theorem bcell₃_injective : Function.Injective (bcell₃ : DCI → GSem nD τ sig) := fun a b e => by
  obtain ⟨h1, h2⟩ := Prod.mk.inj (Prod.mk.inj e).1; obtain ⟨h3, h4⟩ := Proc.scVector.inj h2
  exact Prod.ext h1 (Prod.ext h3 h4)

omit [FloatOps F] in
theorem bCells_eq (Φ : GSem nD τ sig → sProp 𝕄) : bigSep bCells Φ = bigSep Finset.univ fun x : DCI => Φ (bcell₃ x) := by
  unfold bCells; exact SparseCore.bigSep_image_of_injOn (fun a _ b _ e => bcell₃_injective e) Φ

/-- Every barrier semaphore at zero, out of the free semaphores the launch hands over. -/
theorem sems_b : ((K (F := F)).freeSems0 : sProp 𝕄) ⊢ bigSep bCells fun g => semVal g 0 := by
  unfold SparseCore.Cfg.freeSems0 bCells
  rw [SparseCore.bigSep_image_of_injOn (fun a _ b _ e => bcell₃_injective e)]
  refine sep_elim_right.trans (bigSep_mono fun dci _ => ?_)
  unfold SparseCore.Cfg.vcSems0
  exact bigSep_elim (Φ := fun sm : SemLoc sig => (semVal (V dci.1 dci.2.1 dci.2.2, sm) 0 : sProp 𝕄))
    (Finset.mem_erase.mpr ⟨fun h => sc_bar0_ne_go (SemLoc.reg.inj h), Finset.mem_filter.mpr ⟨Finset.mem_univ _, by decide⟩⟩)

/-- The barrier cells' invariants, allocated at once. -/
theorem invs_b : iprop((bigSep bCells fun g => (semVal g 0 : sProp 𝕄)) ∗ bigSep bCells fun g => roundState EB (bRdV (F := F) tb) g 0)
    ⊢ |={Set.univ}=> iprop(∃ κ : GSem nD τ sig → ℕ, bigSep bCells fun g => cellInv EB (bRdV (F := F) tb) (κ g) g) := by
  refine (Rounds.bodies_intro EB (bRdV (F := F) tb) bCells).trans ((inv_alloc_family bCells (Rounds.body EB (bRdV (F := F) tb)) ∅ (E := Set.univ)).trans ?_)
  iintro H
  imod H with ⟨%κ, -, Hinv⟩
  imodintro; iexists κ; iexact Hinv

omit [FloatOps F] in
/-- The tokens, tile by tile, cell by cell, round by round. -/
theorem toks_eq : (bigSep bToks fun x => (dutyTok EB x.1 x.2.1 x.2.2 : sProp 𝕄))
    = bigSep Finset.univ fun dci : DCI => bigSep Finset.univ fun j : Fin (grid1.bound 1) => bigSep Finset.univ fun q : Fin 2 =>
        dutyTok EB (bcell dci.1 dci.2.1 (j.castLE hsub1)) q.val dci.2.2.val := by
  unfold bToks
  rw [SparseCore.bigSep_image_of_injOn, bigSep_univ_prod, bigSep_univ_prod]
  rintro ⟨⟨⟨d, c, i⟩, j⟩, q⟩ - ⟨⟨⟨d', c', i'⟩, j'⟩, q'⟩ - e
  have e1 := (Prod.mk.inj (Prod.mk.inj e).1).1
  have e2 : i.val = i'.val := (Prod.mk.inj (Prod.mk.inj e).2).2
  have e3 : q.val = q'.val := (Prod.mk.inj (Prod.mk.inj e).2).1
  obtain ⟨rfl, h⟩ := Prod.mk.inj e1
  obtain ⟨rfl, hj⟩ := Proc.scVector.inj h
  have hj' : j = j' := Fin.ext (congrArg Fin.val hj)
  subst hj'
  have hi' : i = i' := Fin.ext e2
  subst hi'
  have hq' : q = q' := Fin.ext e3
  subst hq'
  rfl

/-! ## The credit for the tiles' arrivals, regrouped -/

omit [FloatOps F] in
/-- A conjunction over the two calls, spelt out. -/
theorem bigSep_fin2 (Φ : Fin 2 → sProp 𝕄) : bigSep Finset.univ Φ = iprop(Φ 0 ∗ Φ 1) :=
  bigSep_univ_eq_bigSepL [(0 : Fin 2), (1 : Fin 2)] (by decide) (by decide) Φ

omit [FloatOps F] in
theorem sum_tallyAt_one (g : GSem nD τ sig) (ι : HIx 2) : ∀ n : ℕ, ∑ _ : Fin n, tallyAt g ι 1 = (tallyAt g ι n : CellTallies nD τ sig (HIx 2))
  | 0 => by rw [Finset.sum_of_isEmpty, tallyAt_zero]
  | n + 1 => by rw [Fin.sum_univ_castSucc, sum_tallyAt_one g ι n, tallyAt_add]

/-- What a tile owes from the launch: its arrivals at both calls' barriers. -/
theorem oxFrom_V (d : Dev nD) (c : Fin τ.nSC) (i : Fin τ.nSub) : (PV (F := F) tb j0 j1).oxFrom 0 (V d c i) = oxV 0 d c + oxV 1 d c := by
  rw [show (0 : ℕ) = (0 : Fin 2).val from rfl, (PV (F := F) tb j0 j1).oxFrom_step, show (0 : Fin 2).val + 1 = (1 : Fin 2).val from rfl,
    (PV (F := F) tb j0 j1).oxFrom_step, (PV (F := F) tb j0 j1).oxFrom_end _ (n := (1 : Fin 2).val + 1) le_rfl, add_zero]
  rfl

/-- The credit for one call's arrivals at one SparseCore's barrier, tile by tile: each tile the sixteen units of its own cell. -/
theorem cred_oxV (q : Fin 2) (d : Dev nD) (c : Fin τ.nSC) :
    (bigSep Finset.univ fun _ : Fin τ.nSub => (cred (oxV q d c) : sProp 𝕄))
      = bigSep Finset.univ fun i : Fin τ.nSub => (cred (tallyAt (bcell d c i) (some q) (grid1.bound 1)) : sProp 𝕄) := by
  unfold oxV
  simp only [SparseCore.Cfg.cred_finsum]
  rw [bigSep_univ_comm]
  refine bigSep_congr fun j _ => ?_
  rw [← SparseCore.Cfg.cred_finsum, sum_tallyAt_one]
  rfl

/-- The credit for the kernels' own debts, regrouped: each tile the sixteen units of its own cell, for either call. -/
theorem creds_b : ((PV (F := F) tb j0 j1).oxCred : sProp 𝕄)
    ⊢ bigSep Finset.univ fun dci : DCI => bigSep Finset.univ fun q : Fin 2 => cred (tallyAt (bcell₃ dci) (some q) (grid1.bound 1)) := by
  unfold SparseCore.Cfg.Pay.oxCred
  rw [SparseCore.Cfg.bigSep_threads (fun thr : Thread nD τ => (cred ((PV (F := F) tb j0 j1).oxFrom 0 thr) : sProp 𝕄))]
  refine sep_elim_right.trans (sep_elim_right.trans ?_)
  rw [bigSep_univ_prod, bigSep_univ_prod (fun dci : DCI => bigSep Finset.univ fun q : Fin 2 => (cred (tallyAt (bcell₃ dci) (some q) (grid1.bound 1)) : sProp 𝕄))]
  refine bigSep_mono fun d _ => ?_
  rw [bigSep_univ_prod, bigSep_univ_prod (fun ci : Fin τ.nSC × Fin τ.nSub => bigSep Finset.univ fun q : Fin 2 => (cred (tallyAt (bcell₃ (d, ci)) (some q) (grid1.bound 1)) : sProp 𝕄))]
  refine bigSep_mono fun c _ => ?_
  dsimp only
  simp only [oxFrom_V, SparseCore.Cfg.cred_add_eq]
  rw [bigSep_sep', cred_oxV 0 d c, cred_oxV 1 d c, ← bigSep_sep']
  refine bigSep_mono fun i _ => ?_
  rw [bigSep_fin2]
  exact BI.Entails.refl _

/-! ## The tiles' kits -/

/-- What every tile is handed alike: every barrier cell's invariant, and that each has reached round 0. -/
abbrev shared : sProp 𝕄 :=
  iprop((∃ κ : GSem nD τ sig → ℕ, bigSep Finset.univ fun x : DCI => cellInv EB (bRdV (F := F) tb) (κ (bcell₃ x)) (bcell₃ x))
    ∗ bigSep Finset.univ fun x : DCI => reached EB (bcell₃ x) 0)
/-- What each tile is handed of its own: its origin in round 0 of its cell, its tokens in every cell of its SparseCore in
    both rounds, its credit for both calls. -/
abbrev mine (dci : DCI) : sProp 𝕄 :=
  iprop(atPos EB (bcell₃ dci) 0 ∅ 0
    ∗ (bigSep Finset.univ fun j : Fin (grid1.bound 1) => bigSep Finset.univ fun q : Fin 2 => dutyTok EB (bcell dci.1 dci.2.1 (j.castLE hsub1)) q.val dci.2.2.val)
    ∗ (bigSep Finset.univ fun q : Fin 2 => cred (tallyAt (bcell₃ dci) (some q) (grid1.bound 1))))

omit [FloatOps F] in
/-- A persistent resource beside a big separating conjunction goes to each conjunct. -/
theorem bigSep_mono_frame {I : Type} [DecidableEq I] {R : sProp 𝕄} [BI.Persistent R] {s : Finset I} {Φ Ψ : I → sProp 𝕄}
    (h : ∀ i ∈ s, iprop(R ∗ Φ i) ⊢ Ψ i) : iprop(R ∗ bigSep s Φ) ⊢ bigSep s Ψ := by
  induction s using Finset.induction_on with
  | empty => rw [bigSep_empty, bigSep_empty]; exact sep_elim_right
  | insert a s ha ih =>
    rw [SparseCore.bigSep_insert' ha, SparseCore.bigSep_insert' ha]
    iintro ⟨#HR, H1, H2⟩
    isplitl [H1]
    · iapply (h a (Finset.mem_insert_self _ _)); isplitr; · iexact HR
      iexact H1
    · iapply (ih fun i hi => h i (Finset.mem_insert_of_mem hi)); isplitr; · iexact HR
      iexact H2

omit [FloatOps F] in
theorem bigSep_emp' {I : Type} (s : Finset I) : (bigSep s fun _ => iprop(emp)) = (iprop(emp) : sProp 𝕄) := bigSep_emp_const s

/-- The invariants of one SparseCore's cells, out of all of them. -/
theorem invs_of_shared (κ : GSem nD τ sig → ℕ) (d : Dev nD) (c : Fin τ.nSC) :
    (bigSep Finset.univ fun x : DCI => cellInv EB (bRdV (F := F) tb) (κ (bcell₃ x)) (bcell₃ x) : sProp 𝕄)
      ⊢ bigSep Finset.univ fun j : Fin (grid1.bound 1) => cellInv EB (bRdV (F := F) tb) (κ (bcell d c (j.castLE hsub1))) (bcell d c (j.castLE hsub1)) := by
  refine (show _ ⊢ iprop((bigSep Finset.univ fun x : DCI => cellInv EB (bRdV (F := F) tb) (κ (bcell₃ x)) (bcell₃ x))
      ∗ bigSep (Finset.univ : Finset (Fin (grid1.bound 1))) fun _ => (iprop(emp) : sProp 𝕄)) from ?_).trans
    (bigSep_mono_frame (s := (Finset.univ : Finset (Fin (grid1.bound 1)))) (Φ := fun _ => iprop(emp))
      (R := bigSep Finset.univ fun x : DCI => cellInv EB (bRdV (F := F) tb) (κ (bcell₃ x)) (bcell₃ x)) fun j _ =>
        sep_elim_left.trans (bigSep_elim (Φ := fun x : DCI => (cellInv EB (bRdV (F := F) tb) (κ (bcell₃ x)) (bcell₃ x) : sProp 𝕄))
          (i := (d, c, Fin.castLE hsub1 j)) (Finset.mem_univ _)))
  rw [bigSep_emp']
  iintro #H
  isplitl; · iexact H
  iempintro

omit [FloatOps F] in
/-- That one SparseCore's cells have reached round 0, out of all of them. -/
theorem reached_of_shared (d : Dev nD) (c : Fin τ.nSC) :
    (bigSep Finset.univ fun x : DCI => reached EB (bcell₃ x) 0 : sProp 𝕄)
      ⊢ bigSep Finset.univ fun j : Fin (grid1.bound 1) => reached EB (bcell d c (j.castLE hsub1)) 0 := by
  refine (show _ ⊢ iprop((bigSep Finset.univ fun x : DCI => reached EB (bcell₃ x) 0)
      ∗ bigSep (Finset.univ : Finset (Fin (grid1.bound 1))) fun _ => (iprop(emp) : sProp 𝕄)) from ?_).trans
    (bigSep_mono_frame (s := (Finset.univ : Finset (Fin (grid1.bound 1)))) (Φ := fun _ => iprop(emp))
      (R := bigSep Finset.univ fun x : DCI => reached EB (bcell₃ x) 0) fun j _ =>
        sep_elim_left.trans (bigSep_elim (Φ := fun x : DCI => (reached EB (bcell₃ x) 0 : sProp 𝕄))
          (i := (d, c, Fin.castLE hsub1 j)) (Finset.mem_univ _)))
  rw [bigSep_emp']
  iintro #H
  isplitl; · iexact H
  iempintro

/-- One tile's two kits out of those. -/
theorem kit_intro (dci : DCI) :
    iprop(shared (F := F) (tb := tb) ∗ mine dci) ⊢ (iprop(kitV (F := F) tb 0 dci.1 dci.2.1 dci.2.2 ∗ kitV (F := F) tb 1 dci.1 dci.2.1 dci.2.2) : sProp 𝕄) := by
  obtain ⟨d, c, i⟩ := dci
  unfold mine
  simp only [bigSep_fin2]
  rw [bigSep_sep']
  iintro ⟨⟨#Hinv, #Hr⟩, Hat, ⟨Htok0, Htok1⟩, Hc0, Hc1⟩
  icases Hinv with ⟨%κ, Hinv⟩
  ihave Hinv' := (invs_of_shared (F := F) (tb := tb) κ d c) $$ Hinv
  ihave Hr' := (reached_of_shared (F := F) d c) $$ Hr
  unfold kitV kitFirst
  isplitl [Htok0 Hat Hc0]
  · isplitr; · iexists κ; iexact Hinv'
    isplitl [Htok0]; · iexact Htok0
    isplitl [Hat]
    · rw [if_pos (show (0 : Fin 2).val = 0 from rfl)]
      isplitr; · iexact Hr'
      iexact Hat
    iexact Hc0
  · isplitr; · iexists κ; iexact Hinv'
    isplitl [Htok1]; · iexact Htok1
    isplitr
    · rw [if_neg (show ¬ ((1 : Fin 2).val = 0) from by decide)]; iempintro
    iexact Hc1

/-- Each tile its two kits; the TensorCore and the sequencers are dealt nothing. -/
theorem kits_deal :
    iprop(shared (F := F) (tb := tb) ∗ (bigSep Finset.univ fun x : DCI => atPos EB (bcell₃ x) 0 ∅ 0)
        ∗ (bigSep Finset.univ fun dci : DCI => bigSep Finset.univ fun j : Fin (grid1.bound 1) => bigSep Finset.univ fun q : Fin 2 =>
            dutyTok EB (bcell dci.1 dci.2.1 (j.castLE hsub1)) q.val dci.2.2.val)
        ∗ (bigSep Finset.univ fun dci : DCI => bigSep Finset.univ fun q : Fin 2 => cred (tallyAt (bcell₃ dci) (some q) (grid1.bound 1))))
      ⊢ (bigSep Finset.univ fun thr : Thread nD τ => bigSep Finset.univ fun q : Fin 2 => (PV (F := F) tb j0 j1).x q thr : sProp 𝕄) := by
  rw [SparseCore.Cfg.bigSep_threads (fun thr : Thread nD τ => bigSep Finset.univ fun q : Fin 2 => (PV (F := F) tb j0 j1).x q thr)]
  have hT : ∀ d : Dev nD, (bigSep Finset.univ fun q : Fin 2 => (PV (F := F) tb j0 j1).x q (SparseCore.T d)) = (iprop(emp) : sProp 𝕄) :=
    fun d => (bigSep_congr fun _ _ => rfl).trans (bigSep_emp' _)
  have hS : ∀ (d : Dev nD) (c : Fin τ.nSC), (bigSep Finset.univ fun q : Fin 2 => (PV (F := F) tb j0 j1).x q (S d c)) = (iprop(emp) : sProp 𝕄) :=
    fun d c => (bigSep_congr fun _ _ => rfl).trans (bigSep_emp' _)
  have hV : ∀ (d : Dev nD) (c : Fin τ.nSC) (i : Fin τ.nSub), (bigSep Finset.univ fun q : Fin 2 => (PV (F := F) tb j0 j1).x q (V d c i))
      = (iprop(kitV (F := F) tb 0 d c i ∗ kitV (F := F) tb 1 d c i) : sProp 𝕄) := fun d c i => bigSep_fin2 _
  simp only [hT, hS, hV, bigSep_emp']
  iintro ⟨#Hsh, Hat, Htok, Hcred⟩
  isplitr; · iempintro
  isplitr; · iempintro
  iapply (bigSep_mono_frame (R := shared (F := F) (tb := tb)) (Φ := mine (F := F)) fun dci _ => kit_intro (F := F) dci)
  isplitr; · iexact Hsh
  unfold mine
  rw [bigSep_sep', bigSep_sep']
  isplitl [Hat]; · iexact Hat
  isplitl [Htok]; · iexact Htok
  iexact Hcred

/-! ## The pipelines' staging cells, and the launch element -/

/-- What @main is dealt for kernel region `p`: its staging cells' launch state and their duty tokens. -/
abbrev Gp (p : Fin 3) (d : Dev nD) : sProp 𝕄 :=
  iprop(Pipeline.cellsGhost (Pipeline.pin (pcfgs (F := F)) Cert.Proof.Tc.adm) EP p d ∗ Pipeline.toksInit (Pipeline.pin (pcfgs (F := F)) Cert.Proof.Tc.adm) EP p d)

omit [FloatOps F] in
theorem bigSep_fin3 (Φ : Fin 3 → sProp 𝕄) : bigSep Finset.univ Φ = iprop(Φ 0 ∗ Φ 1 ∗ Φ 2) :=
  bigSep_univ_eq_bigSepL [(0 : Fin 3), (1 : Fin 3), (2 : Fin 3)] (by decide) (by decide) Φ

/-- The pipelines' cells' launch state and tokens, device by device and region by region. -/
theorem ghosts_deal :
    iprop((bigSep Finset.univ fun c : Dev nD => bigSep Finset.univ fun p : Fin 3 => Pipeline.cellsGhost (Pipeline.pin (pcfgs (F := F)) Cert.Proof.Tc.adm) EP p c)
        ∗ (bigSep Finset.univ fun c : Dev nD => bigSep Finset.univ fun p : Fin 3 => (Pipeline.toksInit (Pipeline.pin (pcfgs (F := F)) Cert.Proof.Tc.adm) EP p c : sProp 𝕄)))
      ⊢ (bigSep Finset.univ fun d : Dev nD => iprop(Gp (F := F) 0 d ∗ Gp (F := F) 1 d ∗ Gp (F := F) 2 d) : sProp 𝕄) := by
  rw [← bigSep_sep']
  refine bigSep_mono fun d _ => ?_
  rw [bigSep_fin3, bigSep_fin3]
  show (_ : sProp 𝕄) ⊢ _
  unfold Gp
  iintro ⟨⟨Hc0, Hc1, Hc2⟩, Ht0, Ht1, Ht2⟩
  isplitl [Hc0 Ht0]
  · isplitl [Hc0] <;> iassumption
  isplitl [Hc1 Ht1]
  · isplitl [Hc1] <;> iassumption
  isplitl [Hc2] <;> iassumption

/-- The launch's element of the product algebra. -/
def u₀ : UU :=
  (initOf (K (F := F)).hsCells (K (F := F)).hsToks,
    (initOf bCells bToks,
      (initOf (Pipeline.cells (Pipeline.pin (pcfgs (F := F)) Cert.Proof.Tc.adm) cellOf_inj) (Pipeline.launchToks (Pipeline.pin (pcfgs (F := F)) Cert.Proof.Tc.adm) cellOf_inj), 1)))

theorem hu₀ : iprop(ownU (u₀ (F := F)) ∗ (PV (F := F) tb j0 j1).oxCred ∗ (K (F := F)).freeSems0)
    ⊢ |={Set.univ}=> iprop(BI.own (EH (initOf (K (F := F)).hsCells (K (F := F)).hsToks))
        ∗ (bigSep Finset.univ fun d : Dev nD => iprop(Gp (F := F) 0 d ∗ Gp (F := F) 1 d ∗ Gp (F := F) 2 d))
        ∗ (bigSep Finset.univ fun thr : Thread nD τ => bigSep Finset.univ fun q : Fin 2 => (PV (F := F) tb j0 j1).x q thr) : sProp 𝕄) := by
  unfold u₀
  iintro ⟨Hu, Hcred, Hfree⟩
  ihave H := (ownU_split3 _ _ _) $$ Hu
  icases H with ⟨HH, HB, HP⟩
  imod (Rounds.fund EB (bRdV (F := F) tb) bCells bToks) $$ HB with ⟨Hst, #Hr, Hat, Htok⟩
  imod (Pipeline.fund_ghost (Pipeline.pin (pcfgs (F := F)) Cert.Proof.Tc.adm) EP cellOf_inj) $$ HP with ⟨Hcg, Hti⟩
  ihave Hsems := (sems_b (F := F)) $$ Hfree
  imod (invs_b (F := F)) $$ [Hsems Hst] with ⟨%κ, #Hinv⟩
  · isplitl [Hsems] <;> iassumption
  ihave Hcred' := (creds_b (F := F)) $$ Hcred
  ihave Hinv' := (Entails.of_eq (bCells_eq (F := F) fun g => cellInv EB (bRdV (F := F) tb) (κ g) g)) $$ Hinv
  ihave Hr' := (Entails.of_eq (bCells_eq (F := F) fun g => reached EB g 0)) $$ Hr
  ihave Hat' := (Entails.of_eq (bCells_eq (F := F) fun g => atPos EB g 0 ∅ 0)) $$ Hat
  ihave Htok' := (Entails.of_eq (toks_eq (F := F))) $$ Htok
  imodintro
  isplitl [HH]; · iexact HH
  isplitl [Hcg Hti]
  · iapply (ghosts_deal (F := F))
    isplitl [Hcg]; · iexact Hcg
    iexact Hti
  iapply (kits_deal (F := F))
  isplitr
  · isplitl; · iexists κ; iexact Hinv'
    iexact Hr'
  isplitl [Hat']; · iexact Hat'
  isplitl [Htok']; · iexact Htok'
  iexact Hcred'

end Cert.Proof.Sc.LV

end
-- ==== Proof.ScSplitV.lean ====
/-
  A SparseCore's hand-over split among its tiles, and the tiles' returns rejoined, where the contents travel with the
  shares: the table's and the index list's halves are, at their contents, the tiles' pieces at the same contents, and
  so is the gathered rows' half once every tile has written its blocks; the filled shared scratch's sixteen read shares
  and what the writers kept aside hold one contents and rejoin into the scratch whole.
-/
import proofs.«217078_g14027363189340_cont_week2b_886_24_alg».proof.Proof.ScPayV
import proofs.«217078_g14027363189340_cont_week2b_886_24_alg».proof.Proof.ScSplit

noncomputable section

namespace Cert.Proof.Sc.SplitV

open Cert.KernelIdeal Cert.KernelIdeal.Gen Cert.Proof.Sc.V Cert.Proof.Sc.Split

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

/-! ## Call 0 -/

section CallV0
variable [FloatOps F] (tb : (d : Dev nD) → Buf (Elt F) (tblLoc d)) (jx : (d : Dev nD) → Buf (Elt F) (idxLoc0 d))

/-- The index list's half at its contents is the tiles' index words at them. -/
theorem idxV_eq0 (d : Dev nD) (c : Fin 2) :
    (idxLoc0 d ↦[halfJ c]{fullShare} jx d : sProp 𝕄) = bigSep Finset.univ fun i : Fin 16 => idxPieceV0 jx d (coords0 c i) := by
  rw [halfJ_eq, pts_split (ℓ := idxLoc0 d) _ (fun i : Fin 16 => rows1 (163840 * c.val + 10240 * i.val) 10240)
    (rows1_10240_16_disj rfl _) (rows1_10240_16_cover rfl _) (jx d)]
  refine bigSep_congr fun i _ => ?_
  unfold idxPieceV0
  exact pts_split (ℓ := idxLoc0 d) _ (fun t : Fin k1_t1_loop.trips => idxSet0 (coords0 c i) t) (idxTile0_disj c i) (idxTile0_cover c i) (jx d)

/-- The gathered rows' half at given contents is the tiles' blocks at them. -/
theorem outV_eq0 (d : Dev nD) (c : Fin 2) (ob : Buf (Elt F) (outLoc0 d)) :
    (outLoc0 d ↦[halfO c]{fullShare} ob : sProp 𝕄)
      = bigSep Finset.univ fun i : Fin 16 => bigSep Finset.univ fun t1 : Fin k1_t1_loop.trips => bigSep Finset.univ fun t3 : Fin k1_t3_loop.trips =>
          iprop((outLoc0 d ↦[outASet0 (coords0 c i) t1 t3]{fullShare} ob) ∗ (outLoc0 d ↦[outBSet0 (coords0 c i) t1 t3]{fullShare} ob)) := by
  rw [halfO_eq, pts_split (ℓ := outLoc0 d) _ (fun i : Fin 16 => rows2 (163840 * c.val + 10240 * i.val) 10240)
    (rows2_10240_16_disj rfl _) (rows2_10240_16_cover rfl _) ob]
  refine bigSep_congr fun i _ => ?_
  rw [pts_split (ℓ := outLoc0 d) _ (fun t1 : Fin k1_t1_loop.trips => rows2 (163840 * c.val + 10240 * i.val + 2048 * t1.val) 2048)
    (rows2_2048_5_disj trips0_1 _) (rows2_2048_5_cover trips0_1 _) ob]
  refine bigSep_congr fun t1 _ => ?_
  rw [pts_split (ℓ := outLoc0 d) _ (fun t3 : Fin k1_t3_loop.trips => rows2 (163840 * c.val + 10240 * i.val + 2048 * t1.val + 256 * t3.val) 256)
    (rows2_256_8_disj trips0_3 _) (rows2_256_8_cover trips0_3 _) ob]
  refine bigSep_congr fun t3 _ => ?_
  rw [pts_split (ℓ := outLoc0 d) _ (fun b : Fin 2 => rows2 (163840 * c.val + 10240 * i.val + 2048 * t1.val + 256 * t3.val + 128 * b.val) 128)
    (rows2_128_2_disj rfl _) (rows2_128_2_cover rfl _) ob, bigSep_univ_two, outASet0_eq, outBSet0_eq]
  rfl

/-- A writing tile's rows of the table at the table's contents, as a run of rows (no rows for the others). -/
theorem tblPieceV0_eq (d : Dev nD) (c : Fin 2) (i : Fin 16) :
    (tblPieceV0 (F := F) tb d (coords0 c i) : sProp 𝕄) = (tblLoc d ↦[wrows (10000 * c.val) i]{fullShare} tb d) := by
  unfold tblPieceV0 wrows
  by_cases h : k1_cond1 (coords0 c i) = 1#1
  · have hi : i.val < 10 := (cond0_iff _).mp h
    rw [dif_pos h, if_pos hi, tblSet0_eq]
    rfl
  · have hi : ¬ i.val < 10 := fun hi => h ((cond0_iff (coords0 c i)).mpr hi)
    rw [dif_neg h, if_neg hi, pointsTo_empty]

theorem tblV_eq0 (d : Dev nD) (c : Fin 2) :
    (tblLoc d ↦[halfT c]{fullShare} tb d : sProp 𝕄) = bigSep Finset.univ fun i : Fin 16 => tblPieceV0 tb d (coords0 c i) := by
  rw [halfT_eq, pts_split (ℓ := tblLoc d) _ (fun i : Fin 16 => wrows (10000 * c.val) i) (wrows_disj _) (wrows_cover _) (tb d)]
  exact bigSep_congr fun i _ => (tblPieceV0_eq tb d c i).symm

/-- A writing tile's rows of the shared scratch, once written, as a run of rows. -/
theorem shPieceV0_eq (q : PosShare TreeShare) (d : Dev nD) (c : Fin 2) (i : Fin 16) :
    (shPieceV0 (F := F) tb q d (coords0 c i) : sProp 𝕄) = (sh0Loc d (c.castLE hcore1) ↦[wrows 0 i]{q} shG (tb d) c.val) := by
  unfold shPieceV0 wrows
  by_cases h : k1_cond1 (coords0 c i) = 1#1
  · have hi : i.val < 10 := (cond0_iff _).mp h
    rw [dif_pos h, if_pos hi, shSet0_eq, Nat.zero_add]
    rfl
  · have hi : ¬ i.val < 10 := fun hi => h ((cond0_iff (coords0 c i)).mpr hi)
    rw [dif_neg h, if_neg hi, pointsTo_empty]

/-- The sixteen read shares of the filled shared scratch and what the writing tiles kept aside rejoin into it whole. -/
theorem shV_bwd0 (d : Dev nD) (c : Fin 2) :
    iprop((bigSep Finset.univ fun i : Fin 16 => (sh0Loc d (c.castLE hcore1) ↦{rdShare i.val} shG (tb d) c.val))
        ∗ (bigSep Finset.univ fun i : Fin 16 => shPieceV0 (F := F) tb restShare d (coords0 c i)))
      ⊢ (iprop(∃ f : Buf (Elt F) (sh0Loc d (c.castLE hcore1)), sh0Loc d (c.castLE hcore1) ↦{fullShare} f) : sProp 𝕄) := by
  have hrest : (bigSep Finset.univ fun i : Fin 16 => shPieceV0 (F := F) tb restShare d (coords0 c i))
      = (sh0Loc d (c.castLE hcore1) ↦[Finset.univ]{restShare} shG (tb d) c.val : sProp 𝕄) := by
    rw [pts_split (ℓ := sh0Loc d (c.castLE hcore1)) Finset.univ (fun i : Fin 16 => wrows 0 i) shAll_disj shAll_cover (shG (tb d) c.val)]
    exact bigSep_congr fun i _ => shPieceV0_eq tb restShare d c i
  rw [hrest]
  show (_ : sProp 𝕄) ⊢ _
  iintro ⟨Hrd, Hrest⟩
  iexists shG (tb d) c.val
  iapply (Transfers.pointsTo_toks_join (ℓ := sh0Loc d (c.castLE hcore1)) (S := Finset.univ) (f := shG (tb d) c.val) fullShare 16)
  isplitl [Hrest]; · iexact Hrest
  iexact Hrd

theorem vecSplit0V_core (d : Dev nD) (c : Fin 2) :
    iprop(stCoreV0 (F := F) tb jx d c ∗ ownBufs (S d (c.castLE hcore1))) ⊢ |={Set.univ}=> (iprop(
      (bigSep Finset.univ fun i : Fin 16 => goV0 tb jx d (coords0 c i))
      ∗ ((bigSep Finset.univ fun i : Fin 16 => tdV0 tb jx d (coords0 c i))
          -∗ iprop(iprop(dnCoreV0 tb jx d c ∗ barNext d (c.castLE hcore1)) ∗ ownBufs (S d (c.castLE hcore1))))) : sProp 𝕄) := by
  rw [ownBufs_S0]
  unfold goV0 tdV0 barNext stCoreV0 dnCoreV0
  simp only [bigSep_sep']
  rw [idxV_eq0 jx d c, tblV_eq0 tb d c, outV_eq0 d c (gatherRows (tb d) (jx d))]
  unfold outPieceV0
  iintro ⟨⟨Ht, Hj, %ob, Ho⟩, ⟨%fsh, Hsh⟩, Hrest⟩
  imodintro
  isplitl [Ht Hj Ho Hsh]
  · isplitl [Hj]; · iexact Hj
    isplitl [Ho]; · iapply (out_fwd0 d c ob); iexact Ho
    isplitl [Ht]; · iexact Ht
    iapply (sh_fwd0 d c fsh); iexact Hsh
  iintro ⟨Hj, Ho, Ht, Hrd, Hrs, Hat, Hre⟩
  ihave Hsh := (shV_bwd0 tb d c) $$ [Hrd Hrs]
  · isplitl [Hrd]; · iexact Hrd
    iexact Hrs
  isplitl [Hj Ho Ht Hat Hre]
  · isplitl [Hj Ho Ht]
    · isplitl [Ht]; · iexact Ht
      isplitl [Hj]; · iexact Hj
      iexact Ho
    isplitl [Hat]; · iexact Hat
    iexact Hre
  isplitl [Hsh]; · iexact Hsh
  iexact Hrest

end CallV0

/-! ## Call 1 -/

section CallV1
variable [FloatOps F] (tb : (d : Dev nD) → Buf (Elt F) (tblLoc d)) (jx : (d : Dev nD) → Buf (Elt F) (idxLoc1 d))

/-- The index list's half at its contents is the tiles' index words at them. -/
theorem idxV_eq1 (d : Dev nD) (c : Fin 2) :
    (idxLoc1 d ↦[halfJ c]{fullShare} jx d : sProp 𝕄) = bigSep Finset.univ fun i : Fin 16 => idxPieceV1 jx d (coords1 c i) := by
  rw [halfJ_eq, pts_split (ℓ := idxLoc1 d) _ (fun i : Fin 16 => rows1 (163840 * c.val + 10240 * i.val) 10240)
    (rows1_10240_16_disj rfl _) (rows1_10240_16_cover rfl _) (jx d)]
  refine bigSep_congr fun i _ => ?_
  unfold idxPieceV1
  exact pts_split (ℓ := idxLoc1 d) _ (fun t : Fin k3_t1_loop.trips => idxSet1 (coords1 c i) t) (idxTile1_disj c i) (idxTile1_cover c i) (jx d)

/-- The gathered rows' half at given contents is the tiles' blocks at them. -/
theorem outV_eq1 (d : Dev nD) (c : Fin 2) (ob : Buf (Elt F) (outLoc1 d)) :
    (outLoc1 d ↦[halfO c]{fullShare} ob : sProp 𝕄)
      = bigSep Finset.univ fun i : Fin 16 => bigSep Finset.univ fun t1 : Fin k3_t1_loop.trips => bigSep Finset.univ fun t3 : Fin k3_t3_loop.trips =>
          iprop((outLoc1 d ↦[outASet1 (coords1 c i) t1 t3]{fullShare} ob) ∗ (outLoc1 d ↦[outBSet1 (coords1 c i) t1 t3]{fullShare} ob)) := by
  rw [halfO_eq, pts_split (ℓ := outLoc1 d) _ (fun i : Fin 16 => rows2 (163840 * c.val + 10240 * i.val) 10240)
    (rows2_10240_16_disj rfl _) (rows2_10240_16_cover rfl _) ob]
  refine bigSep_congr fun i _ => ?_
  rw [pts_split (ℓ := outLoc1 d) _ (fun t1 : Fin k3_t1_loop.trips => rows2 (163840 * c.val + 10240 * i.val + 2048 * t1.val) 2048)
    (rows2_2048_5_disj trips1_1 _) (rows2_2048_5_cover trips1_1 _) ob]
  refine bigSep_congr fun t1 _ => ?_
  rw [pts_split (ℓ := outLoc1 d) _ (fun t3 : Fin k3_t3_loop.trips => rows2 (163840 * c.val + 10240 * i.val + 2048 * t1.val + 256 * t3.val) 256)
    (rows2_256_8_disj trips1_3 _) (rows2_256_8_cover trips1_3 _) ob]
  refine bigSep_congr fun t3 _ => ?_
  rw [pts_split (ℓ := outLoc1 d) _ (fun b : Fin 2 => rows2 (163840 * c.val + 10240 * i.val + 2048 * t1.val + 256 * t3.val + 128 * b.val) 128)
    (rows2_128_2_disj rfl _) (rows2_128_2_cover rfl _) ob, bigSep_univ_two, outASet1_eq, outBSet1_eq]
  rfl

/-- A writing tile's rows of the table at the table's contents, as a run of rows (no rows for the others). -/
theorem tblPieceV1_eq (d : Dev nD) (c : Fin 2) (i : Fin 16) :
    (tblPieceV1 (F := F) tb d (coords1 c i) : sProp 𝕄) = (tblLoc d ↦[wrows (10000 * c.val) i]{fullShare} tb d) := by
  unfold tblPieceV1 wrows
  by_cases h : k3_cond1 (coords1 c i) = 1#1
  · have hi : i.val < 10 := (cond1_iff _).mp h
    rw [dif_pos h, if_pos hi, tblSet1_eq]
    rfl
  · have hi : ¬ i.val < 10 := fun hi => h ((cond1_iff (coords1 c i)).mpr hi)
    rw [dif_neg h, if_neg hi, pointsTo_empty]

theorem tblV_eq1 (d : Dev nD) (c : Fin 2) :
    (tblLoc d ↦[halfT c]{fullShare} tb d : sProp 𝕄) = bigSep Finset.univ fun i : Fin 16 => tblPieceV1 tb d (coords1 c i) := by
  rw [halfT_eq, pts_split (ℓ := tblLoc d) _ (fun i : Fin 16 => wrows (10000 * c.val) i) (wrows_disj _) (wrows_cover _) (tb d)]
  exact bigSep_congr fun i _ => (tblPieceV1_eq tb d c i).symm

/-- A writing tile's rows of the shared scratch, once written, as a run of rows. -/
theorem shPieceV1_eq (q : PosShare TreeShare) (d : Dev nD) (c : Fin 2) (i : Fin 16) :
    (shPieceV1 (F := F) tb q d (coords1 c i) : sProp 𝕄) = (sh1Loc d (c.castLE hcore3) ↦[wrows 0 i]{q} shG (tb d) c.val) := by
  unfold shPieceV1 wrows
  by_cases h : k3_cond1 (coords1 c i) = 1#1
  · have hi : i.val < 10 := (cond1_iff _).mp h
    rw [dif_pos h, if_pos hi, shSet1_eq, Nat.zero_add]
    rfl
  · have hi : ¬ i.val < 10 := fun hi => h ((cond1_iff (coords1 c i)).mpr hi)
    rw [dif_neg h, if_neg hi, pointsTo_empty]

/-- The sixteen read shares of the filled shared scratch and what the writing tiles kept aside rejoin into it whole. -/
theorem shV_bwd1 (d : Dev nD) (c : Fin 2) :
    iprop((bigSep Finset.univ fun i : Fin 16 => (sh1Loc d (c.castLE hcore3) ↦{rdShare i.val} shG (tb d) c.val))
        ∗ (bigSep Finset.univ fun i : Fin 16 => shPieceV1 (F := F) tb restShare d (coords1 c i)))
      ⊢ (iprop(∃ f : Buf (Elt F) (sh1Loc d (c.castLE hcore3)), sh1Loc d (c.castLE hcore3) ↦{fullShare} f) : sProp 𝕄) := by
  have hrest : (bigSep Finset.univ fun i : Fin 16 => shPieceV1 (F := F) tb restShare d (coords1 c i))
      = (sh1Loc d (c.castLE hcore3) ↦[Finset.univ]{restShare} shG (tb d) c.val : sProp 𝕄) := by
    rw [pts_split (ℓ := sh1Loc d (c.castLE hcore3)) Finset.univ (fun i : Fin 16 => wrows 0 i) shAll_disj shAll_cover (shG (tb d) c.val)]
    exact bigSep_congr fun i _ => shPieceV1_eq tb restShare d c i
  rw [hrest]
  show (_ : sProp 𝕄) ⊢ _
  iintro ⟨Hrd, Hrest⟩
  iexists shG (tb d) c.val
  iapply (Transfers.pointsTo_toks_join (ℓ := sh1Loc d (c.castLE hcore3)) (S := Finset.univ) (f := shG (tb d) c.val) fullShare 16)
  isplitl [Hrest]; · iexact Hrest
  iexact Hrd

theorem vecSplit1V_core (d : Dev nD) (c : Fin 2) :
    iprop(iprop(stCoreV1 (F := F) tb jx d c ∗ barNext d (c.castLE hcore3)) ∗ ownBufs (S d (c.castLE hcore3))) ⊢ |={Set.univ}=> (iprop(
      (bigSep Finset.univ fun i : Fin 16 => goV1 tb jx d (coords1 c i))
      ∗ ((bigSep Finset.univ fun i : Fin 16 => tdV1 tb jx d (coords1 c i))
          -∗ iprop(dnCoreV1 tb jx d c ∗ ownBufs (S d (c.castLE hcore3))))) : sProp 𝕄) := by
  rw [ownBufs_S1]
  unfold goV1 tdV1 barNext stCoreV1 dnCoreV1
  simp only [bigSep_sep']
  rw [idxV_eq1 jx d c, tblV_eq1 tb d c, outV_eq1 d c (gatherRows (tb d) (jx d))]
  unfold outPieceV1
  iintro ⟨⟨⟨Ht, Hj, %ob, Ho⟩, Hat, Hre⟩, ⟨%fsh, Hsh⟩, Hrest⟩
  imodintro
  isplitl [Ht Hj Ho Hsh Hat Hre]
  · isplitl [Hj]; · iexact Hj
    isplitl [Ho]; · iapply (out_fwd1 d c ob); iexact Ho
    isplitl [Ht]; · iexact Ht
    isplitl [Hsh]; · iapply (sh_fwd1 d c fsh); iexact Hsh
    isplitl [Hat]; · iexact Hat
    iapply (reached_all1 d c); iexact Hre
  iintro ⟨Hj, Ho, Ht, Hrd, Hrs⟩
  ihave Hsh := (shV_bwd1 tb d c) $$ [Hrd Hrs]
  · isplitl [Hrd]; · iexact Hrd
    iexact Hrs
  isplitl [Hj Ho Ht]
  · isplitl [Ht]; · iexact Ht
    isplitl [Hj]; · iexact Hj
    iexact Ho
  isplitl [Hsh]; · iexact Hsh
  iexact Hrest

end CallV1

section Both
variable [FloatOps F] (tb : (d : Dev nD) → Buf (Elt F) (tblLoc d)) (j0 : (d : Dev nD) → Buf (Elt F) (idxLoc0 d)) (j1 : (d : Dev nD) → Buf (Elt F) (idxLoc1 d))

theorem vecSplit0V : (K (F := F)).VecSplit (PV (F := F) tb j0 j1) 0 := fun d c => vecSplit0V_core tb j0 d (Fin.cast (nCore_eq 0) c)
theorem vecSplit1V : (K (F := F)).VecSplit (PV (F := F) tb j0 j1) 1 := fun d c => vecSplit1V_core tb j1 d (Fin.cast (nCore_eq 1) c)

end Both

end Cert.Proof.Sc.SplitV
end
-- ==== Proof.KValueRun.lean ====
/-
  The idealized kernel's run with its result named by the specification: every weakly fair execution from a launch memory
  whose edge list is in range ends with the result array holding, at every edge and feature, the specification's value
  (in the reference's spelling: divided by the square root), and the arguments as they began. The node table and the two
  index lists the SparseCore calls are handed are the ones @main has computed when it reaches them — functions of the
  launch memory —, the index lists in range because the edge list is.
-/
import proofs.«217078_g14027363189340_cont_week2b_886_24_alg».proof.Proof.KValue
import proofs.«217078_g14027363189340_cont_week2b_886_24_alg».proof.Proof.ScCallV
import proofs.«217078_g14027363189340_cont_week2b_886_24_alg».proof.Proof.ScLaunchV
import proofs.«217078_g14027363189340_cont_week2b_886_24_alg».proof.Proof.ScSplitV
import proofs.«217078_g14027363189340_cont_week2b_886_24_alg».proof.Proof.TcIdx
import proofs.«217078_g14027363189340_cont_week2b_886_24_alg».proof.Proof.KFrame

set_option maxRecDepth 16384

noncomputable section

namespace Cert.Proof.Main

open Cert.KernelIdeal Cert.KernelIdeal.Gen Cert.Proof.Sc Cert.Proof.Sc.V Cert.Proof.Tc

open Idealize.ShloMosaic Idealize.ShloMosaic.StableHlo Idealize.ShloMosaic.TcCoe Idealize.ShloMosaic.ValueIdx
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable (m : (ℓ : Loc nD τ sig) → Buf (Elt Ideal) ℓ)

/-- The node table the SparseCore calls are handed, -/
def tbM (d : Dev nD) : Buf (Elt Ideal) (tblLoc d) := valB stepsI m d (Proc.devRef .tc main_v9)
/-- the first call's index list, -/
def j0M (d : Dev nD) : Buf (Elt Ideal) (idxLoc0 d) := valB stepsI m d (Proc.devRef .tc main_v25)
/-- and the second's. -/
def j1M (d : Dev nD) : Buf (Elt Ideal) (idxLoc1 d) := valD stepsI m d (Proc.devRef .tc main_v37)

theorem hr0M (hpre : PreOK m) : ∀ (d : Dev nD) (c : Fin 2), InRange c.val (halfJ c) (j0M m d) := fun d =>
  idx0_ok (valA' stepsI m d) (by rw [keeps_valA' stepsI m d main_arg3 arg3_isArg]; exact hpre d)

theorem hr1M (hpre : PreOK m) : ∀ (d : Dev nD) (c : Fin 2), InRange c.val (halfJ c) (j1M m d) := fun d =>
  idx1_ok (valC' stepsI m d) (valA' stepsI m d) (by rw [keeps_valC' stepsI m d main_arg3 arg3_isArg]; exact hpre d) (valC'_pad stepsI m d)

/-- The result array at the specification and the arguments unchanged, on every device. -/
def QS : PUnit × MemSt nD τ sig (Elt Ideal) → Prop := fun r => ∀ c : Dev nD,
      r.2.mem ((c.tc : Thread nD τ).loc main_v40)
        = (fun i : S320000x128.Idx => Cert.Spec.out (A0 m c) (A1 m c) (A2 m c) (A3 m c) (A4 m c) (A5 m c) (A6 m c) (A7 m c) (A8 m c) (A9 m c) (A10 m c) (A11 m c) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)

/-- The run, given one tile's obligation for each gather over the handshakes that carry the gathered rows. -/
theorem value_run_of
    (htile0 : ∀ (tb : (d : Dev nD) → Buf (Elt Ideal) (tblLoc d)) (j0 : (d : Dev nD) → Buf (Elt Ideal) (idxLoc0 d)) (j1 : (d : Dev nD) → Buf (Elt Ideal) (idxLoc1 d)),
      (∀ (d : Dev nD) (c : Fin 2), InRange c.val (halfJ c) (j0 d)) → (K (F := Ideal)).TileObl (D (F := Ideal)) 𝒱 (PV (F := Ideal) tb j0 j1) v₀ 0)
    (htile1 : ∀ (tb : (d : Dev nD) → Buf (Elt Ideal) (tblLoc d)) (j0 : (d : Dev nD) → Buf (Elt Ideal) (idxLoc0 d)) (j1 : (d : Dev nD) → Buf (Elt Ideal) (idxLoc1 d)),
      (∀ (d : Dev nD) (c : Fin 2), InRange c.val (halfJ c) (j1 d)) → (K (F := Ideal)).TileObl (D (F := Ideal)) 𝒱 (PV (F := Ideal) tb j0 j1) v₀ 1)
    (ρ : Dev nD → PrngReg) (hpre : PreOK m) :
    θ_run (Cert.KernelIdeal.defs (F := Ideal)) (Cert.KernelIdeal.threads (F := Ideal)) ⟨m, fun _ => 0, ρ⟩ (QS m) := by
  have hrun := run_mainV_of stepsI (PV (F := Ideal) (tbM m) (j0M m) (j1M m)) m ρ
    (htile0 (tbM m) (j0M m) (j1M m) (hr0M m hpre)) (htile1 (tbM m) (j0M m) (j1M m) (hr1M m hpre))
    (Cert.Proof.Sc.SplitV.vecSplit0V (tbM m) (j0M m) (j1M m)) (Cert.Proof.Sc.SplitV.vecSplit1V (tbM m) (j0M m) (j1M m))
    (Cert.Proof.Sc.LV.Gp (F := Ideal) 0) (Cert.Proof.Sc.LV.Gp (F := Ideal) 1) (Cert.Proof.Sc.LV.Gp (F := Ideal) 2) (X1 (F := Ideal))
    (fun d t j => t = tbM m d ∧ j = j0M m d) (fun d t j => t = tbM m d ∧ j = j1M m d)
    (regionStepV0 _) (regionStepV1 _) (regionStepV2 _)
    (callStepV0 (tb := tbM m) (j0 := j0M m) (j1 := j1M m)) (callStepV1 (tb := tbM m) (j0 := j0M m) (j1 := j1M m))
    (fun d => ⟨rfl, rfl⟩) (fun d => ⟨valD_v9 m d, rfl⟩)
    (Cert.Proof.Sc.LV.u₀ (F := Ideal)) (Cert.Proof.Sc.LV.hu₀ (tb := tbM m) (j0 := j0M m) (j1 := j1M m)) rfl
  refine (θ_run _ _ _).mono (fun _ h c => ⟨?_, (h c).2⟩) hrun
  rw [(h c).1]
  funext i
  exact (congrArg (valFin stepsI m c (Proc.devRef .tc main_v40)) (eq_ix2 (n0 := 320000) (n1 := 128) i)).trans
    ((valFin_v40_apply m c (hpre c) (i 0) (i 1)).trans (Cert.Spec.outK_eq_out _ _ _ _ _ _ _ _ _ _ _ _ (i 0) (i 1)))

end Cert.Proof.Main

end
-- ==== Proof.ScValLem.lean ====
/-
  What the gather kernel's copies leave, as pure facts about contents: a pair of indirect gathers out of the filled
  shared scratch, each copied out to its block of the output, leaves on that block the rows the index words name.
-/
import proofs.«217078_g14027363189340_cont_week2b_886_24_alg».proof.Proof.ScTile1
import proofs.«217078_g14027363189340_cont_week2b_886_24_alg».proof.Proof.ScValDefs

noncomputable section

namespace Cert.Proof.Sc.V

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable [FloatOps F]
section Val0

local notation "tV" => (Memref.whole Cert.KernelIdeal.main_v9_scv : Memref Cert.KernelIdeal.sig Kind.scVector Space.hbm Cert.KernelIdeal.S20000x128 EltTy.f32)
local notation "jV" => (Memref.whole Cert.KernelIdeal.main_v25_scv : Memref Cert.KernelIdeal.sig Kind.scVector Space.hbm Cert.KernelIdeal.S327680 EltTy.i32)
local notation "oV" => (Memref.whole Cert.KernelIdeal.main_v26_scv : Memref Cert.KernelIdeal.sig Kind.scVector Space.hbm Cert.KernelIdeal.S327680x128 EltTy.f32)
local notation "shV" => (Memref.whole Cert.KernelIdeal.cc1_scratch0 : Memref Cert.KernelIdeal.sig Kind.scVector Space.shared Cert.KernelIdeal.S10000x128 EltTy.f32)
local notation "ibV" => (Memref.whole Cert.KernelIdeal.cc1_scratch1 : Memref Cert.KernelIdeal.sig Kind.scVector Space.vmem Cert.KernelIdeal.S2048 EltTy.i32)
local notation "raV" => (Memref.whole Cert.KernelIdeal.cc1_scratch2 : Memref Cert.KernelIdeal.sig Kind.scVector Space.vmem Cert.KernelIdeal.S128x128 EltTy.f32)
local notation "rbV" => (Memref.whole Cert.KernelIdeal.cc1_scratch3 : Memref Cert.KernelIdeal.sig Kind.scVector Space.vmem Cert.KernelIdeal.S128x128 EltTy.f32)

variable (d : Dev nD) (L : grid1.Coords)

/-- The shared scratch as the gathers slice it (the whole of it). -/
abbrev shW0 : Memref sig .scVector .shared S10000x128 .f32 := (shV).slice (Rect.unit (s := S10000x128) ![0, 0] S10000x128.size inb_S10000x128_S10000x128_0_0) (fun _ => rfl)

open Idealize.ShloMosaic.ValueIdx in
/-- The exact value of an index word moved into its SparseCore's half. -/
theorem sub_toNat_exact {c : ℕ} (hc : c < 2) {a : BitVec 32} (h1 : 10000 * c ≤ a.toNat) (h2 : a.toNat < 10000 * c + 10000) :
    (a - (BitVec.ofNat 32 c * 10000#32)).toNat = a.toNat - 10000 * c := by
  have hm : (BitVec.ofNat 32 c * 10000#32).toNat = 10000 * c := by
    rw [BitVec.toNat_mul, BitVec.toNat_ofNat]
    show c % 2 ^ 32 * 10000 % 2 ^ 32 = 10000 * c
    omega
  rw [BitVec.toNat_sub, hm]
  have := a.isLt
  omega

/-- The whole-scratch slice the gathers read through is the scratch. -/
theorem shW0_emb (z : S10000x128.Idx) : (shW0).view.emb z = z := by
  funext a; apply Fin.ext
  show ((Rect.unit (s := S10000x128) ![0, 0] S10000x128.size inb_S10000x128_S10000x128_0_0).emb z a).val = (z a).val
  rw [Rect.emb_apply]
  match a with
  | ⟨0, _⟩ => show 0 + 1 * (z 0).val = (z 0).val; omega
  | ⟨1, _⟩ => show 0 + 1 * (z 1).val = (z 1).val; omega

/-- A word of SparseCore `cv`'s half, moved into the half and back, names its own row. -/
theorem rowOf_shift (a : BitVec 32) (cv : ℕ) (h0 : cv < 2) (h1 : 10000 * cv ≤ a.toNat) (h2 : a.toNat < 10000 * cv + 10000) :
    (10000 * cv + (a - (BitVec.ofNat 32 cv * 10000#32)).toNat) % 20000 = (rowOf a).val := by
  rw [sub_toNat_exact h0 h1 h2]
  show _ = a.toNat % 20000
  omega

-- (C3) what a pair of gathers and their copy-outs leave in the two output blocks
set_option maxHeartbeats 4000000 in
theorem outA_val0 (tb : Buf (Elt F) (tblLoc d)) (jx : S327680.Idx → BitVec 32) (t1 : Fin k1_t1_loop.trips) (t3 : Fin k1_t3_loop.trips)
    (hr : InRange (L 0).val (idxSet0 L t1) jx)
    (fo : S2048.Idx → BitVec 32)
    (hex : ∀ y : S2048.Idx, fo y = jx ((idxM0 L t1).view.emb y) - (BitVec.ofNat 32 (L 0).val * 10000#32))
    (hn : S128.numel = S128x128.size gathers_S10000x128_S128x128.axis')
    (hin : ∀ x, ((offA0 t3).view.read (Elt F) fo x).toNat < S10000x128.size gathers_S10000x128_S128x128.axis)
    (fa : Buf (Elt F) (outLoc0 d)) (fra : Buf (Elt F) ((thr0 d L).loc cc1_scratch2)) :
    ∀ i ∈ outASet0 L t1 t3,
      ((outAM0 L t1 t3).view.writes (Elt F) fa [⟨Rect.whole S128x128, ReadAs.same.apply ((raV).view.read (Elt F)
        ((raV).view.writes (Elt F) fra [⟨Rect.whole S128x128, SparseCore.gatherPayload gathers_S10000x128_S128x128
          ((shW0).view.read (Elt F) (shG tb (L 0).val)) (SparseCore.rows ((offA0 t3).view.read (Elt F) fo) hn hin)⟩]))⟩]) i
        = gatherRows tb jx i := by
  intro i hi
  obtain ⟨y, -, rfl⟩ := Finset.mem_map.mp hi
  have h1 := View.read_writes_cons_emb (outAM0 L t1 t3).view fa (Rect.whole S128x128) (ReadAs.same.apply ((raV).view.read (Elt F)
        ((raV).view.writes (Elt F) fra [⟨Rect.whole S128x128, SparseCore.gatherPayload gathers_S10000x128_S128x128
          ((shW0).view.read (Elt F) (shG tb (L 0).val)) (SparseCore.rows ((offA0 t3).view.read (Elt F) fo) hn hin)⟩]))) [] y
  rw [Rect.emb_whole_apply] at h1
  refine (show _ = _ from h1).trans ?_
  rw [ReadAs.apply_same]
  have h2 := View.read_writes_cons_emb (raV).view fra (Rect.whole S128x128) (SparseCore.gatherPayload gathers_S10000x128_S128x128
          ((shW0).view.read (Elt F) (shG tb (L 0).val)) (SparseCore.rows ((offA0 t3).view.read (Elt F) fo) hn hin)) [] y
  refine ((congrArg (View.read (Elt F) (raV).view _) (Rect.emb_whole_apply S128x128 y).symm).trans h2).trans ?_
  show (shW0).view.read (Elt F) (shG tb (L 0).val) (gathers_S10000x128_S128x128.idx (SparseCore.rows ((offA0 t3).view.read (Elt F) fo) hn hin) y) = _
  show shG tb (L 0).val ((shW0).view.emb (gathers_S10000x128_S128x128.idx (SparseCore.rows ((offA0 t3).view.read (Elt F) fo) hn hin) y)) = _
  rw [shW0_emb]
  unfold shG gatherRows
  refine congrArg tb (funext fun a => Fin.ext ?_)
  match a with
  | ⟨0, _⟩ =>
    show (10000 * (L 0).val + ((gathers_S10000x128_S128x128.idx (SparseCore.rows ((offA0 t3).view.read (Elt F) fo) hn hin) y) (0 : Fin 2)).val) % 20000
      = (rowOf (jx (Idealize.ShloMosaic.ValueIdx.ix1 (((outAM0 L t1 t3).view.emb y) (0 : Fin 2))))).val
    have hz : (gathers_S10000x128_S128x128.idx (SparseCore.rows ((offA0 t3).view.read (Elt F) fo) hn hin) y) (0 : Fin 2) = (SparseCore.rows ((offA0 t3).view.read (Elt F) fo) hn hin) (y (0 : Fin 2)) :=
      Shape.Gathers.idx_axis gathers_S10000x128_S128x128 _ y
    rw [hz]
    have hc : (L 0).val < 2 := (L 0).isLt
    -- the offset list's word for row y 0 of the block
    let x : S128.Idx := S128.rowMajor.symm ((y (0 : Fin 2)).cast hn.symm)
    have hx : (x (0 : Fin 1)).val = (y (0 : Fin 2)).val := by
      have h : (S128.rowMajor x).val = (x (0 : Fin 1)).val := Shape.rowMajor_val_one x
      rw [show S128.rowMajor x = (y (0 : Fin 2)).cast hn.symm from Equiv.apply_symm_apply _ _] at h
      exact h.symm
    let w : S2048.Idx := (offA0 t3).view.emb x
    have hw : (w (0 : Fin 1)).val = 256 * t3.val + (y (0 : Fin 2)).val := by
      show ((Rect.unit (s := S2048) (k1_off6 t3) S128.size (k1_off6_inb t3)).emb x (0 : Fin 1)).val = _
      rw [Rect.emb_apply]
      show (k1_off6 t3) (0 : Fin 1) + 1 * (x (0 : Fin 1)).val = _
      rw [k1_off6_eq, hx]
      show 256 * t3.val + 1 * (y (0 : Fin 2)).val = _
      omega
    have hrow : ((SparseCore.rows ((offA0 t3).view.read (Elt F) fo) hn hin) (y (0 : Fin 2))).val = (fo w).toNat := rfl
    rw [hrow, hex w]
    -- the same position of the index array, read as the output row's
    have hpos : (idxM0 L t1).view.emb w = Idealize.ShloMosaic.ValueIdx.ix1 (((outAM0 L t1 t3).view.emb y) (0 : Fin 2)) := by
      funext a; apply Fin.ext
      match a with
      | ⟨0, _⟩ =>
        show ((Rect.unit (s := S327680) (k1_off3 L t1) S2048.size (k1_off3_inb L t1)).emb w (0 : Fin 1)).val
          = ((Rect.unit (s := S327680x128) (k1_off9 L t1 t3) S128x128.size (k1_off9_inb L t1 t3)).emb y (0 : Fin 2)).val
        rw [Rect.emb_apply, Rect.emb_apply]
        show (k1_off3 L t1) (0 : Fin 1) + 1 * (w (0 : Fin 1)).val = (k1_off9 L t1 t3) (0 : Fin 2) + 1 * (y (0 : Fin 2)).val
        rw [k1_off3_eq, k1_off9_eq, hw]
        show 163840 * (L 0).val + 10240 * (L 1).val + 2048 * t1.val + 1 * (256 * t3.val + (y (0 : Fin 2)).val)
          = 163840 * (L 0).val + 10240 * (L 1).val + 2048 * t1.val + 256 * t3.val + 1 * (y (0 : Fin 2)).val
        omega
    have hmem : (idxM0 L t1).view.emb w ∈ idxSet0 L t1 := Finset.mem_map_of_mem _ (Finset.mem_univ w)
    obtain ⟨b1, b2⟩ := hr _ hmem
    exact (rowOf_shift _ _ hc b1 b2).trans (congrArg (fun v => (rowOf (jx v)).val) hpos)
  | ⟨1, _⟩ =>
    show ((gathers_S10000x128_S128x128.idx (SparseCore.rows ((offA0 t3).view.read (Elt F) fo) hn hin) y) (1 : Fin 2)).val = (((outAM0 L t1 t3).view.emb y) (1 : Fin 2)).val
    rw [Shape.Gathers.idx_of_ne gathers_S10000x128_S128x128 _ y (1 : Fin 2) (by decide)]
    show (y (1 : Fin 2)).val = ((Rect.unit (s := S327680x128) (k1_off9 L t1 t3) S128x128.size (k1_off9_inb L t1 t3)).emb y (1 : Fin 2)).val
    rw [Rect.emb_apply]
    show (y (1 : Fin 2)).val = (k1_off9 L t1 t3) (1 : Fin 2) + 1 * (y (1 : Fin 2)).val
    rw [k1_off9_eq]
    show (y (1 : Fin 2)).val = 0 + 1 * (y (1 : Fin 2)).val
    omega

set_option maxHeartbeats 4000000 in
theorem outB_val0 (tb : Buf (Elt F) (tblLoc d)) (jx : S327680.Idx → BitVec 32) (t1 : Fin k1_t1_loop.trips) (t3 : Fin k1_t3_loop.trips)
    (hr : InRange (L 0).val (idxSet0 L t1) jx)
    (fo : S2048.Idx → BitVec 32)
    (hex : ∀ y : S2048.Idx, fo y = jx ((idxM0 L t1).view.emb y) - (BitVec.ofNat 32 (L 0).val * 10000#32))
    (hn : S128.numel = S128x128.size gathers_S10000x128_S128x128.axis')
    (hin : ∀ x, ((offB0 t3).view.read (Elt F) fo x).toNat < S10000x128.size gathers_S10000x128_S128x128.axis)
    (fb : Buf (Elt F) (outLoc0 d)) (frb : Buf (Elt F) ((thr0 d L).loc cc1_scratch3)) :
    ∀ i ∈ outBSet0 L t1 t3,
      ((outBM0 L t1 t3).view.writes (Elt F) fb [⟨Rect.whole S128x128, ReadAs.same.apply ((rbV).view.read (Elt F)
        ((rbV).view.writes (Elt F) frb [⟨Rect.whole S128x128, SparseCore.gatherPayload gathers_S10000x128_S128x128
          ((shW0).view.read (Elt F) (shG tb (L 0).val)) (SparseCore.rows ((offB0 t3).view.read (Elt F) fo) hn hin)⟩]))⟩]) i
        = gatherRows tb jx i := by
  intro i hi
  obtain ⟨y, -, rfl⟩ := Finset.mem_map.mp hi
  have h1 := View.read_writes_cons_emb (outBM0 L t1 t3).view fb (Rect.whole S128x128) (ReadAs.same.apply ((rbV).view.read (Elt F)
        ((rbV).view.writes (Elt F) frb [⟨Rect.whole S128x128, SparseCore.gatherPayload gathers_S10000x128_S128x128
          ((shW0).view.read (Elt F) (shG tb (L 0).val)) (SparseCore.rows ((offB0 t3).view.read (Elt F) fo) hn hin)⟩]))) [] y
  rw [Rect.emb_whole_apply] at h1
  refine (show _ = _ from h1).trans ?_
  rw [ReadAs.apply_same]
  have h2 := View.read_writes_cons_emb (rbV).view frb (Rect.whole S128x128) (SparseCore.gatherPayload gathers_S10000x128_S128x128
          ((shW0).view.read (Elt F) (shG tb (L 0).val)) (SparseCore.rows ((offB0 t3).view.read (Elt F) fo) hn hin)) [] y
  refine ((congrArg (View.read (Elt F) (rbV).view _) (Rect.emb_whole_apply S128x128 y).symm).trans h2).trans ?_
  show (shW0).view.read (Elt F) (shG tb (L 0).val) (gathers_S10000x128_S128x128.idx (SparseCore.rows ((offB0 t3).view.read (Elt F) fo) hn hin) y) = _
  show shG tb (L 0).val ((shW0).view.emb (gathers_S10000x128_S128x128.idx (SparseCore.rows ((offB0 t3).view.read (Elt F) fo) hn hin) y)) = _
  rw [shW0_emb]
  unfold shG gatherRows
  refine congrArg tb (funext fun a => Fin.ext ?_)
  match a with
  | ⟨0, _⟩ =>
    show (10000 * (L 0).val + ((gathers_S10000x128_S128x128.idx (SparseCore.rows ((offB0 t3).view.read (Elt F) fo) hn hin) y) (0 : Fin 2)).val) % 20000
      = (rowOf (jx (Idealize.ShloMosaic.ValueIdx.ix1 (((outBM0 L t1 t3).view.emb y) (0 : Fin 2))))).val
    have hz : (gathers_S10000x128_S128x128.idx (SparseCore.rows ((offB0 t3).view.read (Elt F) fo) hn hin) y) (0 : Fin 2) = (SparseCore.rows ((offB0 t3).view.read (Elt F) fo) hn hin) (y (0 : Fin 2)) :=
      Shape.Gathers.idx_axis gathers_S10000x128_S128x128 _ y
    rw [hz]
    have hc : (L 0).val < 2 := (L 0).isLt
    -- the offset list's word for row y 0 of the block
    let x : S128.Idx := S128.rowMajor.symm ((y (0 : Fin 2)).cast hn.symm)
    have hx : (x (0 : Fin 1)).val = (y (0 : Fin 2)).val := by
      have h : (S128.rowMajor x).val = (x (0 : Fin 1)).val := Shape.rowMajor_val_one x
      rw [show S128.rowMajor x = (y (0 : Fin 2)).cast hn.symm from Equiv.apply_symm_apply _ _] at h
      exact h.symm
    let w : S2048.Idx := (offB0 t3).view.emb x
    have hw : (w (0 : Fin 1)).val = 256 * t3.val + 128 + (y (0 : Fin 2)).val := by
      show ((Rect.unit (s := S2048) (k1_off8 t3) S128.size (k1_off8_inb t3)).emb x (0 : Fin 1)).val = _
      rw [Rect.emb_apply]
      show (k1_off8 t3) (0 : Fin 1) + 1 * (x (0 : Fin 1)).val = _
      rw [k1_off8_eq, hx]
      show 256 * t3.val + 128 + 1 * (y (0 : Fin 2)).val = _
      omega
    have hrow : ((SparseCore.rows ((offB0 t3).view.read (Elt F) fo) hn hin) (y (0 : Fin 2))).val = (fo w).toNat := rfl
    rw [hrow, hex w]
    -- the same position of the index array, read as the output row's
    have hpos : (idxM0 L t1).view.emb w = Idealize.ShloMosaic.ValueIdx.ix1 (((outBM0 L t1 t3).view.emb y) (0 : Fin 2)) := by
      funext a; apply Fin.ext
      match a with
      | ⟨0, _⟩ =>
        show ((Rect.unit (s := S327680) (k1_off3 L t1) S2048.size (k1_off3_inb L t1)).emb w (0 : Fin 1)).val
          = ((Rect.unit (s := S327680x128) (k1_off10 L t1 t3) S128x128.size (k1_off10_inb L t1 t3)).emb y (0 : Fin 2)).val
        rw [Rect.emb_apply, Rect.emb_apply]
        show (k1_off3 L t1) (0 : Fin 1) + 1 * (w (0 : Fin 1)).val = (k1_off10 L t1 t3) (0 : Fin 2) + 1 * (y (0 : Fin 2)).val
        rw [k1_off3_eq, k1_off10_eq, hw]
        show 163840 * (L 0).val + 10240 * (L 1).val + 2048 * t1.val + 1 * (256 * t3.val + 128 + (y (0 : Fin 2)).val)
          = 163840 * (L 0).val + 10240 * (L 1).val + 2048 * t1.val + 256 * t3.val + 128 + 1 * (y (0 : Fin 2)).val
        omega
    have hmem : (idxM0 L t1).view.emb w ∈ idxSet0 L t1 := Finset.mem_map_of_mem _ (Finset.mem_univ w)
    obtain ⟨b1, b2⟩ := hr _ hmem
    exact (rowOf_shift _ _ hc b1 b2).trans (congrArg (fun v => (rowOf (jx v)).val) hpos)
  | ⟨1, _⟩ =>
    show ((gathers_S10000x128_S128x128.idx (SparseCore.rows ((offB0 t3).view.read (Elt F) fo) hn hin) y) (1 : Fin 2)).val = (((outBM0 L t1 t3).view.emb y) (1 : Fin 2)).val
    rw [Shape.Gathers.idx_of_ne gathers_S10000x128_S128x128 _ y (1 : Fin 2) (by decide)]
    show (y (1 : Fin 2)).val = ((Rect.unit (s := S327680x128) (k1_off10 L t1 t3) S128x128.size (k1_off10_inb L t1 t3)).emb y (1 : Fin 2)).val
    rw [Rect.emb_apply]
    show (y (1 : Fin 2)).val = (k1_off10 L t1 t3) (1 : Fin 2) + 1 * (y (1 : Fin 2)).val
    rw [k1_off10_eq]
    show (y (1 : Fin 2)).val = 0 + 1 * (y (1 : Fin 2)).val
    omega

end Val0

section Val1

local notation "tV" => (Memref.whole Cert.KernelIdeal.main_v9_scv : Memref Cert.KernelIdeal.sig Kind.scVector Space.hbm Cert.KernelIdeal.S20000x128 EltTy.f32)
local notation "jV" => (Memref.whole Cert.KernelIdeal.main_v37_scv : Memref Cert.KernelIdeal.sig Kind.scVector Space.hbm Cert.KernelIdeal.S327680 EltTy.i32)
local notation "oV" => (Memref.whole Cert.KernelIdeal.main_v38_scv : Memref Cert.KernelIdeal.sig Kind.scVector Space.hbm Cert.KernelIdeal.S327680x128 EltTy.f32)
local notation "shV" => (Memref.whole Cert.KernelIdeal.cc3_scratch0 : Memref Cert.KernelIdeal.sig Kind.scVector Space.shared Cert.KernelIdeal.S10000x128 EltTy.f32)
local notation "ibV" => (Memref.whole Cert.KernelIdeal.cc3_scratch1 : Memref Cert.KernelIdeal.sig Kind.scVector Space.vmem Cert.KernelIdeal.S2048 EltTy.i32)
local notation "raV" => (Memref.whole Cert.KernelIdeal.cc3_scratch2 : Memref Cert.KernelIdeal.sig Kind.scVector Space.vmem Cert.KernelIdeal.S128x128 EltTy.f32)
local notation "rbV" => (Memref.whole Cert.KernelIdeal.cc3_scratch3 : Memref Cert.KernelIdeal.sig Kind.scVector Space.vmem Cert.KernelIdeal.S128x128 EltTy.f32)

variable (d : Dev nD) (L : grid3.Coords)

/-- The shared scratch as the gathers slice it (the whole of it). -/
abbrev shW1 : Memref sig .scVector .shared S10000x128 .f32 := (shV).slice (Rect.unit (s := S10000x128) ![0, 0] S10000x128.size inb_S10000x128_S10000x128_0_0) (fun _ => rfl)

/-- The whole-scratch slice the gathers read through is the scratch. -/
theorem shW1_emb (z : S10000x128.Idx) : (shW1).view.emb z = z := by
  funext a; apply Fin.ext
  show ((Rect.unit (s := S10000x128) ![0, 0] S10000x128.size inb_S10000x128_S10000x128_0_0).emb z a).val = (z a).val
  rw [Rect.emb_apply]
  match a with
  | ⟨0, _⟩ => show 0 + 1 * (z 0).val = (z 0).val; omega
  | ⟨1, _⟩ => show 0 + 1 * (z 1).val = (z 1).val; omega

-- (C3) what a pair of gathers and their copy-outs leave in the two output blocks
set_option maxHeartbeats 4000000 in
theorem outA_val1 (tb : Buf (Elt F) (tblLoc d)) (jx : S327680.Idx → BitVec 32) (t1 : Fin k3_t1_loop.trips) (t3 : Fin k3_t3_loop.trips)
    (hr : InRange (L 0).val (idxSet1 L t1) jx)
    (fo : S2048.Idx → BitVec 32)
    (hex : ∀ y : S2048.Idx, fo y = jx ((idxM1 L t1).view.emb y) - (BitVec.ofNat 32 (L 0).val * 10000#32))
    (hn : S128.numel = S128x128.size gathers_S10000x128_S128x128.axis')
    (hin : ∀ x, ((offA1 t3).view.read (Elt F) fo x).toNat < S10000x128.size gathers_S10000x128_S128x128.axis)
    (fa : Buf (Elt F) (outLoc1 d)) (fra : Buf (Elt F) ((thr1 d L).loc cc3_scratch2)) :
    ∀ i ∈ outASet1 L t1 t3,
      ((outAM1 L t1 t3).view.writes (Elt F) fa [⟨Rect.whole S128x128, ReadAs.same.apply ((raV).view.read (Elt F)
        ((raV).view.writes (Elt F) fra [⟨Rect.whole S128x128, SparseCore.gatherPayload gathers_S10000x128_S128x128
          ((shW1).view.read (Elt F) (shG tb (L 0).val)) (SparseCore.rows ((offA1 t3).view.read (Elt F) fo) hn hin)⟩]))⟩]) i
        = gatherRows tb jx i := by
  intro i hi
  obtain ⟨y, -, rfl⟩ := Finset.mem_map.mp hi
  have h1 := View.read_writes_cons_emb (outAM1 L t1 t3).view fa (Rect.whole S128x128) (ReadAs.same.apply ((raV).view.read (Elt F)
        ((raV).view.writes (Elt F) fra [⟨Rect.whole S128x128, SparseCore.gatherPayload gathers_S10000x128_S128x128
          ((shW1).view.read (Elt F) (shG tb (L 0).val)) (SparseCore.rows ((offA1 t3).view.read (Elt F) fo) hn hin)⟩]))) [] y
  rw [Rect.emb_whole_apply] at h1
  refine (show _ = _ from h1).trans ?_
  rw [ReadAs.apply_same]
  have h2 := View.read_writes_cons_emb (raV).view fra (Rect.whole S128x128) (SparseCore.gatherPayload gathers_S10000x128_S128x128
          ((shW1).view.read (Elt F) (shG tb (L 0).val)) (SparseCore.rows ((offA1 t3).view.read (Elt F) fo) hn hin)) [] y
  refine ((congrArg (View.read (Elt F) (raV).view _) (Rect.emb_whole_apply S128x128 y).symm).trans h2).trans ?_
  show (shW1).view.read (Elt F) (shG tb (L 0).val) (gathers_S10000x128_S128x128.idx (SparseCore.rows ((offA1 t3).view.read (Elt F) fo) hn hin) y) = _
  show shG tb (L 0).val ((shW1).view.emb (gathers_S10000x128_S128x128.idx (SparseCore.rows ((offA1 t3).view.read (Elt F) fo) hn hin) y)) = _
  rw [shW1_emb]
  unfold shG gatherRows
  refine congrArg tb (funext fun a => Fin.ext ?_)
  match a with
  | ⟨0, _⟩ =>
    show (10000 * (L 0).val + ((gathers_S10000x128_S128x128.idx (SparseCore.rows ((offA1 t3).view.read (Elt F) fo) hn hin) y) (0 : Fin 2)).val) % 20000
      = (rowOf (jx (Idealize.ShloMosaic.ValueIdx.ix1 (((outAM1 L t1 t3).view.emb y) (0 : Fin 2))))).val
    have hz : (gathers_S10000x128_S128x128.idx (SparseCore.rows ((offA1 t3).view.read (Elt F) fo) hn hin) y) (0 : Fin 2) = (SparseCore.rows ((offA1 t3).view.read (Elt F) fo) hn hin) (y (0 : Fin 2)) :=
      Shape.Gathers.idx_axis gathers_S10000x128_S128x128 _ y
    rw [hz]
    have hc : (L 0).val < 2 := (L 0).isLt
    -- the offset list's word for row y 0 of the block
    let x : S128.Idx := S128.rowMajor.symm ((y (0 : Fin 2)).cast hn.symm)
    have hx : (x (0 : Fin 1)).val = (y (0 : Fin 2)).val := by
      have h : (S128.rowMajor x).val = (x (0 : Fin 1)).val := Shape.rowMajor_val_one x
      rw [show S128.rowMajor x = (y (0 : Fin 2)).cast hn.symm from Equiv.apply_symm_apply _ _] at h
      exact h.symm
    let w : S2048.Idx := (offA1 t3).view.emb x
    have hw : (w (0 : Fin 1)).val = 256 * t3.val + (y (0 : Fin 2)).val := by
      show ((Rect.unit (s := S2048) (k3_off6 t3) S128.size (k3_off6_inb t3)).emb x (0 : Fin 1)).val = _
      rw [Rect.emb_apply]
      show (k3_off6 t3) (0 : Fin 1) + 1 * (x (0 : Fin 1)).val = _
      rw [k3_off6_eq, hx]
      show 256 * t3.val + 1 * (y (0 : Fin 2)).val = _
      omega
    have hrow : ((SparseCore.rows ((offA1 t3).view.read (Elt F) fo) hn hin) (y (0 : Fin 2))).val = (fo w).toNat := rfl
    rw [hrow, hex w]
    -- the same position of the index array, read as the output row's
    have hpos : (idxM1 L t1).view.emb w = Idealize.ShloMosaic.ValueIdx.ix1 (((outAM1 L t1 t3).view.emb y) (0 : Fin 2)) := by
      funext a; apply Fin.ext
      match a with
      | ⟨0, _⟩ =>
        show ((Rect.unit (s := S327680) (k3_off3 L t1) S2048.size (k3_off3_inb L t1)).emb w (0 : Fin 1)).val
          = ((Rect.unit (s := S327680x128) (k3_off9 L t1 t3) S128x128.size (k3_off9_inb L t1 t3)).emb y (0 : Fin 2)).val
        rw [Rect.emb_apply, Rect.emb_apply]
        show (k3_off3 L t1) (0 : Fin 1) + 1 * (w (0 : Fin 1)).val = (k3_off9 L t1 t3) (0 : Fin 2) + 1 * (y (0 : Fin 2)).val
        rw [k3_off3_eq, k3_off9_eq, hw]
        show 163840 * (L 0).val + 10240 * (L 1).val + 2048 * t1.val + 1 * (256 * t3.val + (y (0 : Fin 2)).val)
          = 163840 * (L 0).val + 10240 * (L 1).val + 2048 * t1.val + 256 * t3.val + 1 * (y (0 : Fin 2)).val
        omega
    have hmem : (idxM1 L t1).view.emb w ∈ idxSet1 L t1 := Finset.mem_map_of_mem _ (Finset.mem_univ w)
    obtain ⟨b1, b2⟩ := hr _ hmem
    exact (rowOf_shift _ _ hc b1 b2).trans (congrArg (fun v => (rowOf (jx v)).val) hpos)
  | ⟨1, _⟩ =>
    show ((gathers_S10000x128_S128x128.idx (SparseCore.rows ((offA1 t3).view.read (Elt F) fo) hn hin) y) (1 : Fin 2)).val = (((outAM1 L t1 t3).view.emb y) (1 : Fin 2)).val
    rw [Shape.Gathers.idx_of_ne gathers_S10000x128_S128x128 _ y (1 : Fin 2) (by decide)]
    show (y (1 : Fin 2)).val = ((Rect.unit (s := S327680x128) (k3_off9 L t1 t3) S128x128.size (k3_off9_inb L t1 t3)).emb y (1 : Fin 2)).val
    rw [Rect.emb_apply]
    show (y (1 : Fin 2)).val = (k3_off9 L t1 t3) (1 : Fin 2) + 1 * (y (1 : Fin 2)).val
    rw [k3_off9_eq]
    show (y (1 : Fin 2)).val = 0 + 1 * (y (1 : Fin 2)).val
    omega

set_option maxHeartbeats 4000000 in
theorem outB_val1 (tb : Buf (Elt F) (tblLoc d)) (jx : S327680.Idx → BitVec 32) (t1 : Fin k3_t1_loop.trips) (t3 : Fin k3_t3_loop.trips)
    (hr : InRange (L 0).val (idxSet1 L t1) jx)
    (fo : S2048.Idx → BitVec 32)
    (hex : ∀ y : S2048.Idx, fo y = jx ((idxM1 L t1).view.emb y) - (BitVec.ofNat 32 (L 0).val * 10000#32))
    (hn : S128.numel = S128x128.size gathers_S10000x128_S128x128.axis')
    (hin : ∀ x, ((offB1 t3).view.read (Elt F) fo x).toNat < S10000x128.size gathers_S10000x128_S128x128.axis)
    (fb : Buf (Elt F) (outLoc1 d)) (frb : Buf (Elt F) ((thr1 d L).loc cc3_scratch3)) :
    ∀ i ∈ outBSet1 L t1 t3,
      ((outBM1 L t1 t3).view.writes (Elt F) fb [⟨Rect.whole S128x128, ReadAs.same.apply ((rbV).view.read (Elt F)
        ((rbV).view.writes (Elt F) frb [⟨Rect.whole S128x128, SparseCore.gatherPayload gathers_S10000x128_S128x128
          ((shW1).view.read (Elt F) (shG tb (L 0).val)) (SparseCore.rows ((offB1 t3).view.read (Elt F) fo) hn hin)⟩]))⟩]) i
        = gatherRows tb jx i := by
  intro i hi
  obtain ⟨y, -, rfl⟩ := Finset.mem_map.mp hi
  have h1 := View.read_writes_cons_emb (outBM1 L t1 t3).view fb (Rect.whole S128x128) (ReadAs.same.apply ((rbV).view.read (Elt F)
        ((rbV).view.writes (Elt F) frb [⟨Rect.whole S128x128, SparseCore.gatherPayload gathers_S10000x128_S128x128
          ((shW1).view.read (Elt F) (shG tb (L 0).val)) (SparseCore.rows ((offB1 t3).view.read (Elt F) fo) hn hin)⟩]))) [] y
  rw [Rect.emb_whole_apply] at h1
  refine (show _ = _ from h1).trans ?_
  rw [ReadAs.apply_same]
  have h2 := View.read_writes_cons_emb (rbV).view frb (Rect.whole S128x128) (SparseCore.gatherPayload gathers_S10000x128_S128x128
          ((shW1).view.read (Elt F) (shG tb (L 0).val)) (SparseCore.rows ((offB1 t3).view.read (Elt F) fo) hn hin)) [] y
  refine ((congrArg (View.read (Elt F) (rbV).view _) (Rect.emb_whole_apply S128x128 y).symm).trans h2).trans ?_
  show (shW1).view.read (Elt F) (shG tb (L 0).val) (gathers_S10000x128_S128x128.idx (SparseCore.rows ((offB1 t3).view.read (Elt F) fo) hn hin) y) = _
  show shG tb (L 0).val ((shW1).view.emb (gathers_S10000x128_S128x128.idx (SparseCore.rows ((offB1 t3).view.read (Elt F) fo) hn hin) y)) = _
  rw [shW1_emb]
  unfold shG gatherRows
  refine congrArg tb (funext fun a => Fin.ext ?_)
  match a with
  | ⟨0, _⟩ =>
    show (10000 * (L 0).val + ((gathers_S10000x128_S128x128.idx (SparseCore.rows ((offB1 t3).view.read (Elt F) fo) hn hin) y) (0 : Fin 2)).val) % 20000
      = (rowOf (jx (Idealize.ShloMosaic.ValueIdx.ix1 (((outBM1 L t1 t3).view.emb y) (0 : Fin 2))))).val
    have hz : (gathers_S10000x128_S128x128.idx (SparseCore.rows ((offB1 t3).view.read (Elt F) fo) hn hin) y) (0 : Fin 2) = (SparseCore.rows ((offB1 t3).view.read (Elt F) fo) hn hin) (y (0 : Fin 2)) :=
      Shape.Gathers.idx_axis gathers_S10000x128_S128x128 _ y
    rw [hz]
    have hc : (L 0).val < 2 := (L 0).isLt
    -- the offset list's word for row y 0 of the block
    let x : S128.Idx := S128.rowMajor.symm ((y (0 : Fin 2)).cast hn.symm)
    have hx : (x (0 : Fin 1)).val = (y (0 : Fin 2)).val := by
      have h : (S128.rowMajor x).val = (x (0 : Fin 1)).val := Shape.rowMajor_val_one x
      rw [show S128.rowMajor x = (y (0 : Fin 2)).cast hn.symm from Equiv.apply_symm_apply _ _] at h
      exact h.symm
    let w : S2048.Idx := (offB1 t3).view.emb x
    have hw : (w (0 : Fin 1)).val = 256 * t3.val + 128 + (y (0 : Fin 2)).val := by
      show ((Rect.unit (s := S2048) (k3_off8 t3) S128.size (k3_off8_inb t3)).emb x (0 : Fin 1)).val = _
      rw [Rect.emb_apply]
      show (k3_off8 t3) (0 : Fin 1) + 1 * (x (0 : Fin 1)).val = _
      rw [k3_off8_eq, hx]
      show 256 * t3.val + 128 + 1 * (y (0 : Fin 2)).val = _
      omega
    have hrow : ((SparseCore.rows ((offB1 t3).view.read (Elt F) fo) hn hin) (y (0 : Fin 2))).val = (fo w).toNat := rfl
    rw [hrow, hex w]
    -- the same position of the index array, read as the output row's
    have hpos : (idxM1 L t1).view.emb w = Idealize.ShloMosaic.ValueIdx.ix1 (((outBM1 L t1 t3).view.emb y) (0 : Fin 2)) := by
      funext a; apply Fin.ext
      match a with
      | ⟨0, _⟩ =>
        show ((Rect.unit (s := S327680) (k3_off3 L t1) S2048.size (k3_off3_inb L t1)).emb w (0 : Fin 1)).val
          = ((Rect.unit (s := S327680x128) (k3_off10 L t1 t3) S128x128.size (k3_off10_inb L t1 t3)).emb y (0 : Fin 2)).val
        rw [Rect.emb_apply, Rect.emb_apply]
        show (k3_off3 L t1) (0 : Fin 1) + 1 * (w (0 : Fin 1)).val = (k3_off10 L t1 t3) (0 : Fin 2) + 1 * (y (0 : Fin 2)).val
        rw [k3_off3_eq, k3_off10_eq, hw]
        show 163840 * (L 0).val + 10240 * (L 1).val + 2048 * t1.val + 1 * (256 * t3.val + 128 + (y (0 : Fin 2)).val)
          = 163840 * (L 0).val + 10240 * (L 1).val + 2048 * t1.val + 256 * t3.val + 128 + 1 * (y (0 : Fin 2)).val
        omega
    have hmem : (idxM1 L t1).view.emb w ∈ idxSet1 L t1 := Finset.mem_map_of_mem _ (Finset.mem_univ w)
    obtain ⟨b1, b2⟩ := hr _ hmem
    exact (rowOf_shift _ _ hc b1 b2).trans (congrArg (fun v => (rowOf (jx v)).val) hpos)
  | ⟨1, _⟩ =>
    show ((gathers_S10000x128_S128x128.idx (SparseCore.rows ((offB1 t3).view.read (Elt F) fo) hn hin) y) (1 : Fin 2)).val = (((outBM1 L t1 t3).view.emb y) (1 : Fin 2)).val
    rw [Shape.Gathers.idx_of_ne gathers_S10000x128_S128x128 _ y (1 : Fin 2) (by decide)]
    show (y (1 : Fin 2)).val = ((Rect.unit (s := S327680x128) (k3_off10 L t1 t3) S128x128.size (k3_off10_inb L t1 t3)).emb y (1 : Fin 2)).val
    rw [Rect.emb_apply]
    show (y (1 : Fin 2)).val = (k3_off10 L t1 t3) (1 : Fin 2) + 1 * (y (1 : Fin 2)).val
    rw [k3_off10_eq]
    show (y (1 : Fin 2)).val = 0 + 1 * (y (1 : Fin 2)).val
    omega

end Val1

end Cert.Proof.Sc.V

end
-- ==== Proof.ScValLemB.lean ====
/-
  Pure facts about the gather kernels' payloads: the subtraction's payload lane by lane, a tile's index words inside its
  SparseCore's half, and a writer's copy as the table's rows.
-/
import proofs.«217078_g14027363189340_cont_week2b_886_24_alg».proof.Proof.ScValLem

noncomputable section

namespace Cert.Proof.Sc.V

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable [FloatOps F]

section L0

local notation "tV" => (Memref.whole Cert.KernelIdeal.main_v9_scv : Memref Cert.KernelIdeal.sig Kind.scVector Space.hbm Cert.KernelIdeal.S20000x128 EltTy.f32)
local notation "jV" => (Memref.whole Cert.KernelIdeal.main_v25_scv : Memref Cert.KernelIdeal.sig Kind.scVector Space.hbm Cert.KernelIdeal.S327680 EltTy.i32)
local notation "oV" => (Memref.whole Cert.KernelIdeal.main_v26_scv : Memref Cert.KernelIdeal.sig Kind.scVector Space.hbm Cert.KernelIdeal.S327680x128 EltTy.f32)
local notation "shV" => (Memref.whole Cert.KernelIdeal.cc1_scratch0 : Memref Cert.KernelIdeal.sig Kind.scVector Space.shared Cert.KernelIdeal.S10000x128 EltTy.f32)
local notation "ibV" => (Memref.whole Cert.KernelIdeal.cc1_scratch1 : Memref Cert.KernelIdeal.sig Kind.scVector Space.vmem Cert.KernelIdeal.S2048 EltTy.i32)
local notation "raV" => (Memref.whole Cert.KernelIdeal.cc1_scratch2 : Memref Cert.KernelIdeal.sig Kind.scVector Space.vmem Cert.KernelIdeal.S128x128 EltTy.f32)
local notation "rbV" => (Memref.whole Cert.KernelIdeal.cc1_scratch3 : Memref Cert.KernelIdeal.sig Kind.scVector Space.vmem Cert.KernelIdeal.S128x128 EltTy.f32)

variable (d : Dev nD) (L : grid1.Coords)

omit [FloatOps F] in
/-- The subtraction's payload, lane by lane. -/
theorem k1_pay1_exact (v22 : Vec F S16 .i32) (x : S16.Idx) : k1_pay1 (F := F) L v22 x = v22 x - (BitVec.ofNat 32 (L 0).val * 10000#32) := by
  unfold k1_pay1 shapeCast subi broadcast
  show IntOp.subi (v22 _) _ = _
  rw [Shape.reshapeEquiv_self, Shape.reshapeEquiv_self]
  rfl

omit [FloatOps F] in
/-- A tile's index words lie in its SparseCore's half of the index list. -/
theorem idxSet0_subset (t1 : Fin k1_t1_loop.trips) : idxSet0 L t1 ⊆ halfJ ⟨(L 0).val, (L 0).isLt⟩ := by
  intro i hi
  have hi' : i ∈ (Rect.unit (s := S327680) (k1_off3 L t1) S2048.size (k1_off3_inb L t1)).set := by
    have : idxSet0 L t1 = (Rect.unit (s := S327680) (k1_off3 L t1) S2048.size (k1_off3_inb L t1)).set := by
      show ((View.whole (main_v25_scv : Ref sig .scVector)).slice (Rect.unit (s := S327680) (k1_off3 L t1) S2048.size (k1_off3_inb L t1))).set = _
      rw [View.set_slice]; exact Finset.map_refl
    rw [← this]; exact hi
  rw [Rect.mem_set_unit] at hi'
  show i ∈ (Rect.part (s := S327680) (a₀ := 0) hdivJ ⟨(L 0).val, (L 0).isLt⟩).set
  rw [Rect.mem_set_unit]
  intro a
  have ha : a = 0 := Subsingleton.elim _ _
  subst ha
  have h0 := hi' 0
  rw [k1_off3_eq] at h0
  have hs : (L 1).val < 16 := (L 1).isLt
  have ht : t1.val < 5 := lt_of_lt_of_eq t1.isLt k1_t1_trips
  simp [Shape.partIx, Shape.partSize] at h0 ⊢
  omega

set_option maxHeartbeats 2000000 in
/-- A writer's copy leaves the table's rows in its rows of the shared scratch. -/
theorem sh_copy_val0 (h : k1_cond1 L = 1#1) (tb : Buf (Elt F) (tblLoc d)) (fsh : Buf (Elt F) (sh0Loc d (cV0 L))) :
    ∀ i ∈ shSet0 L h, ((shM0 L h).view.writes (Elt F) fsh [⟨Rect.whole S1000x128, ReadAs.same.apply ((tblM0 L h).view.read (Elt F) tb)⟩]) i = shG tb (L 0).val i := by
  intro i hi
  obtain ⟨x, -, rfl⟩ := Finset.mem_map.mp hi
  have h1 := View.read_writes_cons_emb (shM0 L h).view fsh (Rect.whole S1000x128) (ReadAs.same.apply ((tblM0 L h).view.read (Elt F) tb)) [] x
  rw [Rect.emb_whole_apply] at h1
  have hs : (L 1).val < 10 := (k1_cond1_iff L).mp h
  have hc : (L 0).val < 2 := (L 0).isLt
  have hx0 : (x (0 : Fin 2)).val < 1000 := (x 0).isLt
  have hT0 : (((tblM0 L h).view.emb x) (0 : Fin 2)).val = 10000 * (L 0).val + 1000 * (L 1).val + (x (0 : Fin 2)).val := by
    show ((Rect.unit (s := S20000x128) (k1_off2 L) S1000x128.size (k1_off2_inb L h)).emb x (0 : Fin 2)).val = _
    rw [Rect.emb_apply]
    show (k1_off2 L) (0 : Fin 2) + 1 * (x (0 : Fin 2)).val = _
    rw [k1_off2_eq]
    show 10000 * (L 0).val + 1000 * (L 1).val + 1 * (x (0 : Fin 2)).val = _
    omega
  have hT1 : (((tblM0 L h).view.emb x) (1 : Fin 2)).val = (x (1 : Fin 2)).val := by
    show ((Rect.unit (s := S20000x128) (k1_off2 L) S1000x128.size (k1_off2_inb L h)).emb x (1 : Fin 2)).val = _
    rw [Rect.emb_apply]
    show (k1_off2 L) (1 : Fin 2) + 1 * (x (1 : Fin 2)).val = _
    rw [k1_off2_eq]
    show 0 + 1 * (x (1 : Fin 2)).val = _
    omega
  have hS0 : (((shM0 L h).view.emb x) (0 : Fin 2)).val = 1000 * (L 1).val + (x (0 : Fin 2)).val := by
    show ((Rect.unit (s := S10000x128) (k1_off1 L) S1000x128.size (k1_off1_inb L h)).emb x (0 : Fin 2)).val = _
    rw [Rect.emb_apply]
    show (k1_off1 L) (0 : Fin 2) + 1 * (x (0 : Fin 2)).val = _
    rw [k1_off1_eq]
    show 1000 * (L 1).val + 1 * (x (0 : Fin 2)).val = _
    omega
  have hS1 : (((shM0 L h).view.emb x) (1 : Fin 2)).val = (x (1 : Fin 2)).val := by
    show ((Rect.unit (s := S10000x128) (k1_off1 L) S1000x128.size (k1_off1_inb L h)).emb x (1 : Fin 2)).val = _
    rw [Rect.emb_apply]
    show (k1_off1 L) (1 : Fin 2) + 1 * (x (1 : Fin 2)).val = _
    rw [k1_off1_eq]
    show 0 + 1 * (x (1 : Fin 2)).val = _
    omega
  refine Eq.trans (show _ = ReadAs.same.apply ((tblM0 L h).view.read (Elt F) tb) x from h1) ?_
  show tb ((tblM0 L h).view.emb x) = tb _
  congr 1
  funext a
  match a with
  | ⟨0, _⟩ =>
    apply Fin.ext
    show (((tblM0 L h).view.emb x) (0 : Fin 2)).val = (10000 * (L 0).val + (((shM0 L h).view.emb x) (0 : Fin 2)).val) % 20000
    rw [hT0, hS0]; omega
  | ⟨1, _⟩ =>
    apply Fin.ext
    show (((tblM0 L h).view.emb x) (1 : Fin 2)).val = (((shM0 L h).view.emb x) (1 : Fin 2)).val
    rw [hT1, hS1]

end L0

section L1

local notation "tV" => (Memref.whole Cert.KernelIdeal.main_v9_scv : Memref Cert.KernelIdeal.sig Kind.scVector Space.hbm Cert.KernelIdeal.S20000x128 EltTy.f32)
local notation "jV" => (Memref.whole Cert.KernelIdeal.main_v37_scv : Memref Cert.KernelIdeal.sig Kind.scVector Space.hbm Cert.KernelIdeal.S327680 EltTy.i32)
local notation "oV" => (Memref.whole Cert.KernelIdeal.main_v38_scv : Memref Cert.KernelIdeal.sig Kind.scVector Space.hbm Cert.KernelIdeal.S327680x128 EltTy.f32)
local notation "shV" => (Memref.whole Cert.KernelIdeal.cc3_scratch0 : Memref Cert.KernelIdeal.sig Kind.scVector Space.shared Cert.KernelIdeal.S10000x128 EltTy.f32)
local notation "ibV" => (Memref.whole Cert.KernelIdeal.cc3_scratch1 : Memref Cert.KernelIdeal.sig Kind.scVector Space.vmem Cert.KernelIdeal.S2048 EltTy.i32)
local notation "raV" => (Memref.whole Cert.KernelIdeal.cc3_scratch2 : Memref Cert.KernelIdeal.sig Kind.scVector Space.vmem Cert.KernelIdeal.S128x128 EltTy.f32)
local notation "rbV" => (Memref.whole Cert.KernelIdeal.cc3_scratch3 : Memref Cert.KernelIdeal.sig Kind.scVector Space.vmem Cert.KernelIdeal.S128x128 EltTy.f32)

variable (d : Dev nD) (L : grid3.Coords)

omit [FloatOps F] in
/-- The subtraction's payload, lane by lane. -/
theorem k3_pay1_exact (v22 : Vec F S16 .i32) (x : S16.Idx) : k3_pay1 (F := F) L v22 x = v22 x - (BitVec.ofNat 32 (L 0).val * 10000#32) := by
  unfold k3_pay1 shapeCast subi broadcast
  show IntOp.subi (v22 _) _ = _
  rw [Shape.reshapeEquiv_self, Shape.reshapeEquiv_self]
  rfl

omit [FloatOps F] in
/-- A tile's index words lie in its SparseCore's half of the index list. -/
theorem idxSet1_subset (t1 : Fin k3_t1_loop.trips) : idxSet1 L t1 ⊆ halfJ ⟨(L 0).val, (L 0).isLt⟩ := by
  intro i hi
  have hi' : i ∈ (Rect.unit (s := S327680) (k3_off3 L t1) S2048.size (k3_off3_inb L t1)).set := by
    have : idxSet1 L t1 = (Rect.unit (s := S327680) (k3_off3 L t1) S2048.size (k3_off3_inb L t1)).set := by
      show ((View.whole (main_v37_scv : Ref sig .scVector)).slice (Rect.unit (s := S327680) (k3_off3 L t1) S2048.size (k3_off3_inb L t1))).set = _
      rw [View.set_slice]; exact Finset.map_refl
    rw [← this]; exact hi
  rw [Rect.mem_set_unit] at hi'
  show i ∈ (Rect.part (s := S327680) (a₀ := 0) hdivJ ⟨(L 0).val, (L 0).isLt⟩).set
  rw [Rect.mem_set_unit]
  intro a
  have ha : a = 0 := Subsingleton.elim _ _
  subst ha
  have h0 := hi' 0
  rw [k3_off3_eq] at h0
  have hs : (L 1).val < 16 := (L 1).isLt
  have ht : t1.val < 5 := lt_of_lt_of_eq t1.isLt k3_t1_trips
  simp [Shape.partIx, Shape.partSize] at h0 ⊢
  omega

set_option maxHeartbeats 2000000 in
/-- A writer's copy leaves the table's rows in its rows of the shared scratch. -/
theorem sh_copy_val1 (h : k3_cond1 L = 1#1) (tb : Buf (Elt F) (tblLoc d)) (fsh : Buf (Elt F) (sh1Loc d (cV1 L))) :
    ∀ i ∈ shSet1 L h, ((shM1 L h).view.writes (Elt F) fsh [⟨Rect.whole S1000x128, ReadAs.same.apply ((tblM1 L h).view.read (Elt F) tb)⟩]) i = shG tb (L 0).val i := by
  intro i hi
  obtain ⟨x, -, rfl⟩ := Finset.mem_map.mp hi
  have h1 := View.read_writes_cons_emb (shM1 L h).view fsh (Rect.whole S1000x128) (ReadAs.same.apply ((tblM1 L h).view.read (Elt F) tb)) [] x
  rw [Rect.emb_whole_apply] at h1
  have hs : (L 1).val < 10 := (k3_cond1_iff L).mp h
  have hc : (L 0).val < 2 := (L 0).isLt
  have hx0 : (x (0 : Fin 2)).val < 1000 := (x 0).isLt
  have hT0 : (((tblM1 L h).view.emb x) (0 : Fin 2)).val = 10000 * (L 0).val + 1000 * (L 1).val + (x (0 : Fin 2)).val := by
    show ((Rect.unit (s := S20000x128) (k3_off2 L) S1000x128.size (k3_off2_inb L h)).emb x (0 : Fin 2)).val = _
    rw [Rect.emb_apply]
    show (k3_off2 L) (0 : Fin 2) + 1 * (x (0 : Fin 2)).val = _
    rw [k3_off2_eq]
    show 10000 * (L 0).val + 1000 * (L 1).val + 1 * (x (0 : Fin 2)).val = _
    omega
  have hT1 : (((tblM1 L h).view.emb x) (1 : Fin 2)).val = (x (1 : Fin 2)).val := by
    show ((Rect.unit (s := S20000x128) (k3_off2 L) S1000x128.size (k3_off2_inb L h)).emb x (1 : Fin 2)).val = _
    rw [Rect.emb_apply]
    show (k3_off2 L) (1 : Fin 2) + 1 * (x (1 : Fin 2)).val = _
    rw [k3_off2_eq]
    show 0 + 1 * (x (1 : Fin 2)).val = _
    omega
  have hS0 : (((shM1 L h).view.emb x) (0 : Fin 2)).val = 1000 * (L 1).val + (x (0 : Fin 2)).val := by
    show ((Rect.unit (s := S10000x128) (k3_off1 L) S1000x128.size (k3_off1_inb L h)).emb x (0 : Fin 2)).val = _
    rw [Rect.emb_apply]
    show (k3_off1 L) (0 : Fin 2) + 1 * (x (0 : Fin 2)).val = _
    rw [k3_off1_eq]
    show 1000 * (L 1).val + 1 * (x (0 : Fin 2)).val = _
    omega
  have hS1 : (((shM1 L h).view.emb x) (1 : Fin 2)).val = (x (1 : Fin 2)).val := by
    show ((Rect.unit (s := S10000x128) (k3_off1 L) S1000x128.size (k3_off1_inb L h)).emb x (1 : Fin 2)).val = _
    rw [Rect.emb_apply]
    show (k3_off1 L) (1 : Fin 2) + 1 * (x (1 : Fin 2)).val = _
    rw [k3_off1_eq]
    show 0 + 1 * (x (1 : Fin 2)).val = _
    omega
  refine Eq.trans (show _ = ReadAs.same.apply ((tblM1 L h).view.read (Elt F) tb) x from h1) ?_
  show tb ((tblM1 L h).view.emb x) = tb _
  congr 1
  funext a
  match a with
  | ⟨0, _⟩ =>
    apply Fin.ext
    show (((tblM1 L h).view.emb x) (0 : Fin 2)).val = (10000 * (L 0).val + (((shM1 L h).view.emb x) (0 : Fin 2)).val) % 20000
    rw [hT0, hS0]; omega
  | ⟨1, _⟩ =>
    apply Fin.ext
    show (((tblM1 L h).view.emb x) (1 : Fin 2)).val = (((shM1 L h).view.emb x) (1 : Fin 2)).val
    rw [hT1, hS1]

end L1

end Cert.Proof.Sc.V
-- ==== Proof.ScTileV.lean ====
/-
  One tile's task of the gather kernel with the contents carried: the index scratch holds each index word less the
  SparseCore's row offset, the shared scratch the table's rows, so each block copied out holds the gathered rows.
-/
import proofs.«217078_g14027363189340_cont_week2b_886_24_alg».proof.Proof.ScTile1
import proofs.«217078_g14027363189340_cont_week2b_886_24_alg».proof.Proof.ScPayV
import proofs.«217078_g14027363189340_cont_week2b_886_24_alg».proof.Proof.ScValLemB

noncomputable section

namespace Cert.Proof.Sc.V

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable [FloatOps F]

section TileV0

local notation "tV" => (Memref.whole Cert.KernelIdeal.main_v9_scv : Memref Cert.KernelIdeal.sig Kind.scVector Space.hbm Cert.KernelIdeal.S20000x128 EltTy.f32)
local notation "jV" => (Memref.whole Cert.KernelIdeal.main_v25_scv : Memref Cert.KernelIdeal.sig Kind.scVector Space.hbm Cert.KernelIdeal.S327680 EltTy.i32)
local notation "oV" => (Memref.whole Cert.KernelIdeal.main_v26_scv : Memref Cert.KernelIdeal.sig Kind.scVector Space.hbm Cert.KernelIdeal.S327680x128 EltTy.f32)
local notation "shV" => (Memref.whole Cert.KernelIdeal.cc1_scratch0 : Memref Cert.KernelIdeal.sig Kind.scVector Space.shared Cert.KernelIdeal.S10000x128 EltTy.f32)
local notation "ibV" => (Memref.whole Cert.KernelIdeal.cc1_scratch1 : Memref Cert.KernelIdeal.sig Kind.scVector Space.vmem Cert.KernelIdeal.S2048 EltTy.i32)
local notation "raV" => (Memref.whole Cert.KernelIdeal.cc1_scratch2 : Memref Cert.KernelIdeal.sig Kind.scVector Space.vmem Cert.KernelIdeal.S128x128 EltTy.f32)
local notation "rbV" => (Memref.whole Cert.KernelIdeal.cc1_scratch3 : Memref Cert.KernelIdeal.sig Kind.scVector Space.vmem Cert.KernelIdeal.S128x128 EltTy.f32)

variable (tb : (d : Dev nD) → Buf (Elt F) (tblLoc d)) (jx : (d : Dev nD) → Buf (Elt F) (idxLoc0 d)) (d : Dev nD) (L : grid1.Coords)

/-- The SparseCore's row offset as the kernel subtracts it. -/
abbrev off0 : BitVec 32 := BitVec.ofNat 32 (L 0).val * 10000#32
/-- The gathered rows, and the shared scratch once filled. -/
abbrev GV0 : Buf (Elt F) (outLoc0 d) := gatherRows (tb d) (jx d)
abbrev shGV0 : Buf (Elt F) (sh0Loc d (cV0 L)) := shG (tb d) (L 0).val
/-- The index words of block `t1` of the tile, by position in the index scratch. -/
def JV0 (t1 : Fin k1_t1_loop.trips) : S2048.Idx → BitVec 32 := fun y => jx d ((idxM0 L t1).view.emb y)
/-- Every word of the index scratch is its index word less the row offset. -/
def IdxEx0 (t1 : Fin k1_t1_loop.trips) (fo : S2048.Idx → BitVec 32) : Prop := ∀ y, fo y = JV0 jx d L t1 y - off0 L

omit [FloatOps F] in
theorem idxOk0_of_ex (t1 : Fin k1_t1_loop.trips) (hr : InRange (L 0).val (idxSet0 L t1) (jx d)) (fo : S2048.Idx → BitVec 32)
    (h : IdxEx0 (F := F) jx d L t1 fo) : IdxOk fo := fun y => by
  rw [h y]
  have := hr ((idxM0 L t1).view.emb y) (Finset.mem_map_of_mem _ (Finset.mem_univ y))
  exact sub_toNat0 (L 0).isLt this.1 this.2

/-- A block holds the gathered rows. -/
abbrev valOn0 (M : Finset S327680x128.Idx) (f : Buf (Elt F) (outLoc0 d)) : Prop := ∀ i ∈ M, f i = GV0 tb jx d i

abbrev flAV0 (p : Blk0) (fra : Buf (Elt F) ((thr0 d L).loc cc1_scratch2)) : sProp 𝕄 :=
  Transfers.Flight countersEmb (thr0 d L) (SemLoc.dma cc1_scratch6.sem) (default : HIx 2) 524288
    iprop((∃ f, (outLoc0 d ↦[outASet0 L p.1 p.2]{fullShare} f) ∗ ⌜valOn0 tb jx d (outASet0 L p.1 p.2) f⌝) ∗ ((raV).view.loc (thr0 d L) ↦[(raV).view.set]{fullShare} fra))
abbrev flBV0 (p : Blk0) (frb : Buf (Elt F) ((thr0 d L).loc cc1_scratch3)) : sProp 𝕄 :=
  Transfers.Flight countersEmb (thr0 d L) (SemLoc.dma cc1_scratch7.sem) (default : HIx 2) 524288
    iprop((∃ f, (outLoc0 d ↦[outBSet0 L p.1 p.2]{fullShare} f) ∗ ⌜valOn0 tb jx d (outBSet0 L p.1 p.2) f⌝) ∗ ((rbV).view.loc (thr0 d L) ↦[(rbV).view.set]{fullShare} frb))

omit [FloatOps F] in
theorem flAV0_intro (p : Blk0) (X : Buf (Elt F) (outLoc0 d)) (fra : Buf (Elt F) ((thr0 d L).loc cc1_scratch2)) (hv : valOn0 tb jx d (outASet0 L p.1 p.2) X) :
    (Transfers.Flight countersEmb (thr0 d L) (SemLoc.dma cc1_scratch6.sem) (default : HIx 2) 524288
      iprop(((outAM0 L p.1 p.2).view.loc (thr0 d L) ↦[(outAM0 L p.1 p.2).view.set]{fullShare} X)
        ∗ ((raV).view.loc (thr0 d L) ↦[(raV).view.set]{fullShare} fra)) : sProp 𝕄) ⊢ flAV0 tb jx d L p fra := by
  refine Transfers.Flight_mono countersEmb (thr0 d L) ?_
  iintro ⟨Hd, Hs⟩
  isplitl [Hd]; · iexists X; isplitl [Hd]; · iexact Hd
                  ipureintro; exact hv
  iexact Hs
omit [FloatOps F] in
theorem flBV0_intro (p : Blk0) (X : Buf (Elt F) (outLoc0 d)) (frb : Buf (Elt F) ((thr0 d L).loc cc1_scratch3)) (hv : valOn0 tb jx d (outBSet0 L p.1 p.2) X) :
    (Transfers.Flight countersEmb (thr0 d L) (SemLoc.dma cc1_scratch7.sem) (default : HIx 2) 524288
      iprop(((outBM0 L p.1 p.2).view.loc (thr0 d L) ↦[(outBM0 L p.1 p.2).view.set]{fullShare} X)
        ∗ ((rbV).view.loc (thr0 d L) ↦[(rbV).view.set]{fullShare} frb)) : sProp 𝕄) ⊢ flBV0 tb jx d L p frb := by
  refine Transfers.Flight_mono countersEmb (thr0 d L) ?_
  iintro ⟨Hd, Hs⟩
  isplitl [Hd]; · iexists X; isplitl [Hd]; · iexact Hd
                  ipureintro; exact hv
  iexact Hs

/-- A block's place in the order the task writes them. -/
def idxB0 (p : Blk0) : ℕ := 8 * p.1.val + p.2.val
omit [FloatOps F] in
theorem blk0_idxB (p : Blk0) : blk0 (idxB0 p) = p := blk0_cur p.1 p.2
omit [FloatOps F] in
theorem idxB0_ne {p : Blk0} {m : ℕ} (h : p ≠ blk0 m) : idxB0 p ≠ m := fun e => h (e ▸ (blk0_idxB p).symm)

/-- An output block before the `n`-th pair of gathers: at some contents, the gathered rows once its copy-out has landed. -/
def slotA0 (n : ℕ) (p : Blk0) : sProp 𝕄 :=
  iprop(∃ f, (outLoc0 d ↦[outASet0 L p.1 p.2]{fullShare} f) ∗ ⌜idxB0 p + 1 < n → valOn0 tb jx d (outASet0 L p.1 p.2) f⌝)
def slotB0 (n : ℕ) (p : Blk0) : sProp 𝕄 :=
  iprop(∃ f, (outLoc0 d ↦[outBSet0 L p.1 p.2]{fullShare} f) ∗ ⌜idxB0 p + 1 < n → valOn0 tb jx d (outBSet0 L p.1 p.2) f⌝)
def pileAV0 (n : ℕ) (s : Finset Blk0) : sProp 𝕄 := bigSep s (slotA0 tb jx d L n)
def pileBV0 (n : ℕ) (s : Finset Blk0) : sProp 𝕄 := bigSep s (slotB0 tb jx d L n)

omit [FloatOps F] in
theorem pileAV0_out (n : ℕ) {s : Finset Blk0} {p : Blk0} (hp : p ∈ s) :
    (pileAV0 (F := F) tb jx d L n s : sProp 𝕄) = iprop(slotA0 tb jx d L n p ∗ pileAV0 tb jx d L n (s.erase p)) := by
  unfold pileAV0; exact SparseCore.bigSep_erase' hp
omit [FloatOps F] in
theorem pileBV0_out (n : ℕ) {s : Finset Blk0} {p : Blk0} (hp : p ∈ s) :
    (pileBV0 (F := F) tb jx d L n s : sProp 𝕄) = iprop(slotB0 tb jx d L n p ∗ pileBV0 tb jx d L n (s.erase p)) := by
  unfold pileBV0; exact SparseCore.bigSep_erase' hp

omit [FloatOps F] in
theorem slotA0_mono {n n' : ℕ} {p : Blk0} (h : idxB0 p + 1 < n' → idxB0 p + 1 < n) :
    (slotA0 (F := F) tb jx d L n p : sProp 𝕄) ⊢ slotA0 tb jx d L n' p := by
  unfold slotA0
  iintro ⟨%f, H, %hf⟩
  iexists f; isplitl [H]; · iexact H
  ipureintro; exact fun h' => hf (h h')
omit [FloatOps F] in
theorem pileAV0_mono {n n' : ℕ} {s : Finset Blk0} (h : ∀ p ∈ s, idxB0 p + 1 < n' → idxB0 p + 1 < n) :
    (pileAV0 (F := F) tb jx d L n s : sProp 𝕄) ⊢ pileAV0 tb jx d L n' s := by
  unfold pileAV0
  exact SparseCore.ent (bigSep_mono fun p hp => slotA0_mono (F := F) tb jx d L (h p hp))
omit [FloatOps F] in
theorem slotB0_mono {n n' : ℕ} {p : Blk0} (h : idxB0 p + 1 < n' → idxB0 p + 1 < n) :
    (slotB0 (F := F) tb jx d L n p : sProp 𝕄) ⊢ slotB0 tb jx d L n' p := by
  unfold slotB0
  iintro ⟨%f, H, %hf⟩
  iexists f; isplitl [H]; · iexact H
  ipureintro; exact fun h' => hf (h h')
omit [FloatOps F] in
theorem pileBV0_mono {n n' : ℕ} {s : Finset Blk0} (h : ∀ p ∈ s, idxB0 p + 1 < n' → idxB0 p + 1 < n) :
    (pileBV0 (F := F) tb jx d L n s : sProp 𝕄) ⊢ pileBV0 tb jx d L n' s := by
  unfold pileBV0
  exact SparseCore.ent (bigSep_mono fun p hp => slotB0_mono (F := F) tb jx d L (h p hp))

def pendNoneV0 : sProp 𝕄 :=
  iprop((∃ fra, (raV).view.loc (thr0 d L) ↦{fullShare} fra) ∗ (∃ frb, (rbV).view.loc (thr0 d L) ↦{fullShare} frb)
    ∗ semVal (dcell d (cV0 L) (jV0 L) cc1_scratch6.sem) 0 ∗ semVal (dcell d (cV0 L) (jV0 L) cc1_scratch7.sem) 0
    ∗ pileAV0 tb jx d L 0 Finset.univ ∗ pileBV0 tb jx d L 0 Finset.univ)
def pendAtV0 (n : ℕ) (p : Blk0) : sProp 𝕄 :=
  iprop(∃ fra, ∃ frb, flAV0 tb jx d L p fra ∗ ((raV).view.loc (thr0 d L) ↦[Finset.univ \ (raV).view.set]{fullShare} fra)
    ∗ flBV0 tb jx d L p frb ∗ ((rbV).view.loc (thr0 d L) ↦[Finset.univ \ (rbV).view.set]{fullShare} frb)
    ∗ pileAV0 tb jx d L n (Finset.univ.erase p) ∗ pileBV0 tb jx d L n (Finset.univ.erase p))
def pendStV0 (n : ℕ) : sProp 𝕄 := if n = 0 then pendNoneV0 tb jx d L else pendAtV0 tb jx d L n (blk0 (n - 1))

omit [FloatOps F] in
theorem pendStV0_zero : pendStV0 (F := F) tb jx d L 0 = pendNoneV0 tb jx d L := if_pos rfl
omit [FloatOps F] in
theorem pendStV0_succ (m : ℕ) : pendStV0 (F := F) tb jx d L (m + 1) = pendAtV0 tb jx d L (m + 1) (blk0 m) := if_neg (Nat.succ_ne_zero m)

def inv3V_0 (O : CellTallies nD τ sig (HIx 2)) (W : Waits sig (HIx 2)) (t1 : Fin k1_t1_loop.trips) (j : ℕ) (_ : PUnit) : sProp 𝕄 :=
  iprop(Transfers.MayWaits (thr0 d L) (default : HIx 2) O
    ∗ (∃ fo, ((ibV).view.loc (thr0 d L) ↦{fullShare} fo) ∗ ⌜IdxEx0 jx d L t1 fo⌝)
    ∗ ((shV).view.loc (thr0 d L) ↦{(rdShare (L 1).val).left} shGV0 tb d L) ∗ ((shV).view.loc (thr0 d L) ↦{(rdShare (L 1).val).right} shGV0 tb d L)
    ∗ semVal (dcell d (cV0 L) (jV0 L) cc1_scratch4.sem) 0 ∗ semVal (dcell d (cV0 L) (jV0 L) cc1_scratch5.sem) 0
    ∗ pendStV0 tb jx d L (8 * t1.val + j)
    ∗ ∃ W', ⌜∀ p ∈ W', p ∈ W ∨ p.2 = none⌝ ∗ owes (thr0 d L) O W')

set_option maxHeartbeats 4000000 in
theorem t3_regionV0 (O : CellTallies nD τ sig (HIx 2)) (W : Waits sig (HIx 2)) (t1 : Fin k1_t1_loop.trips)
    (hr : InRange (L 0).val (idxSet0 L t1) (jx d)) (v13 v15 : BitVec 32) (j : Fin k1_t3_loop.trips) (acc : PUnit) :
    inv3V_0 tb jx d L O W t1 j.val acc
      ⊢ wp frame (wpE (defs₀ (F := F)) 𝒱₀ (thr0 d L) none) Set.univ
          (k1_t3_body L tV (Memref.isWhole_whole _) jV (Memref.isWhole_whole _) oV (Memref.isWhole_whole _) shV (Memref.isWhole_whole _)
            ibV (Memref.isWhole_whole _) raV (Memref.isWhole_whole _) rbV (Memref.isWhole_whole _) cc1_scratch4 cc1_scratch5 cc1_scratch6 cc1_scratch7 cc1_scoped0 cc1_scoped1 t1 v13 v15 j acc)
          (inv3V_0 tb jx d L O W t1 (j.val + 1)) := by
  unfold inv3V_0
  rw [show 8 * t1.val + (j.val + 1) = (8 * t1.val + j.val) + 1 from (Nat.add_assoc _ _ _).symm, pendStV0_succ, blk0_cur]
  rcases Nat.eq_zero_or_pos (8 * t1.val + j.val) with hn | hn
  · have hc2 : ¬ k1_cond2 t1 j = 1#1 := fun h => (k1_cond2_iff t1 j).mp h ⟨by omega, by omega⟩
    have hc3 : ¬ k1_cond3 t1 j = 1#1 := fun h => (k1_cond3_iff t1 j).mp h ⟨by omega, by omega⟩
    rw [hn, pendStV0_zero]
    unfold pendNoneV0
    rw [pileAV0_out (F := F) tb jx d L 0 (Finset.mem_univ (t1, j)), pileBV0_out (F := F) tb jx d L 0 (Finset.mem_univ (t1, j))]
    unfold slotA0 slotB0
    iintro ⟨#Hmw, ⟨%fo, Hib, %hex⟩, Hsh, Hsh2, Hs4, Hs5, ⟨⟨%fra, Hra⟩, ⟨%frb, Hrb⟩, Hs6, Hs7, ⟨⟨%fa, HoA, -⟩, HpA⟩, ⟨⟨%fb, HoB, -⟩, HpB⟩⟩, %W', %hW', HO⟩
    have hfo : IdxOk fo := idxOk0_of_ex (F := F) jx d L t1 hr fo hex
    have hinA : ∀ x, ((offA0 j).view.read (Elt F) fo x).toNat < S10000x128.size gathers_S10000x128_S128x128.axis := fun x => hfo _
    have hinB : ∀ x, ((offB0 j).view.read (Elt F) fo x).toNat < S10000x128.size gathers_S10000x128_S128x128.axis := fun x => hfo _
    ihave HoA' := (Entails.of_eq (pts_outA0 (F := F) d L t1 j _).symm) $$ HoA
    ihave HoB' := (Entails.of_eq (pts_outB0 (F := F) d L t1 j _).symm) $$ HoB
    sl_exec
    sl_step
    isplitr; · iexact Hmw
    isplitl [Hib]; · iexists fo; isplitl [Hib]; · iexact Hib
                     ipureintro; exact hex
    isplitl [Hsh]; · iexact Hsh
    isplitl [Hsh2]; · iexact Hsh2
    isplitl [Hs4]; · iexact Hs4
    isplitl [Hs5]; · iexact Hs5
    isplitl [Hs6 Hra Hs7 Hrb HpA HpB]
    · unfold pendAtV0
      iexists _; iexists _
      isplitl [Hs6]
      · iapply (flAV0_intro (F := F) tb jx d L (t1, j) _ _ (outA_val0 (F := F) d L (tb d) (jx d) t1 j hr fo hex _ hinA _ _)); iexact Hs6
      isplitl [Hra]; · iexact Hra
      isplitl [Hs7]
      · iapply (flBV0_intro (F := F) tb jx d L (t1, j) _ _ (outB_val0 (F := F) d L (tb d) (jx d) t1 j hr fo hex _ hinB _ _)); iexact Hs7
      isplitl [Hrb]; · iexact Hrb
      isplitl [HpA]
      · iapply (pileAV0_mono (F := F) tb jx d L (n := 0) (n' := 0 + 1) (fun p _ h => by omega)); iexact HpA
      · iapply (pileBV0_mono (F := F) tb jx d L (n := 0) (n' := 0 + 1) (fun p _ h => by omega)); iexact HpB
    iexists _; isplitr
    swap; · iexact HO
    ipureintro; intro p hp
    rcases Finset.mem_insert.mp hp with hp | hp; · exact .inr (hp ▸ rfl)
    rcases Finset.mem_insert.mp hp with hp | hp; · exact .inr (hp ▸ rfl)
    exact hW' p hp
  · obtain ⟨m, hm⟩ : ∃ m, 8 * t1.val + j.val = m + 1 := ⟨8 * t1.val + j.val - 1, by omega⟩
    have hc2 : k1_cond2 t1 j = 1#1 := (k1_cond2_iff t1 j).mpr (by omega)
    have hc3 : k1_cond3 t1 j = 1#1 := (k1_cond3_iff t1 j).mpr (by omega)
    have hne : (t1, j) ∈ (Finset.univ : Finset Blk0).erase (blk0 m) := Finset.mem_erase.mpr ⟨blk0_ne_succ t1 j hm, Finset.mem_univ _⟩
    rw [hm, pendStV0_succ]
    unfold pendAtV0
    rw [pileAV0_out (F := F) tb jx d L (m + 1) hne, pileBV0_out (F := F) tb jx d L (m + 1) hne]
    unfold slotA0 slotB0
    iintro ⟨#Hmw, ⟨%fo, Hib, %hex⟩, Hsh, Hsh2, Hs4, Hs5, ⟨%fra, %frb, Hs6, Hra, Hs7, Hrb, ⟨⟨%fa, HoA, -⟩, HpA⟩, ⟨⟨%fb, HoB, -⟩, HpB⟩⟩, %W', %hW', HO⟩
    have hfo : IdxOk fo := idxOk0_of_ex (F := F) jx d L t1 hr fo hex
    have hinA : ∀ x, ((offA0 j).view.read (Elt F) fo x).toNat < S10000x128.size gathers_S10000x128_S128x128.axis := fun x => hfo _
    have hinB : ∀ x, ((offB0 j).view.read (Elt F) fo x).toNat < S10000x128.size gathers_S10000x128_S128x128.axis := fun x => hfo _
    ihave HoA' := (Entails.of_eq (pts_outA0 (F := F) d L t1 j _).symm) $$ HoA
    ihave HoB' := (Entails.of_eq (pts_outB0 (F := F) d L t1 j _).symm) $$ HoB
    sl_exec
    sl_step
    isplitr; · iexact Hmw
    isplitl [Hib]; · iexists fo; isplitl [Hib]; · iexact Hib
                     ipureintro; exact hex
    isplitl [Hsh]; · iexact Hsh
    isplitl [Hsh2]; · iexact Hsh2
    isplitl [Hs4]; · iexact Hs4
    isplitl [Hs5]; · iexact Hs5
    isplitl [Hs6 Hra Hs7 Hrb HpA HpB Hs6_dst Hs7_dst]
    · iexists _; iexists _
      isplitl [Hs6]
      · iapply (flAV0_intro (F := F) tb jx d L (t1, j) _ _ (outA_val0 (F := F) d L (tb d) (jx d) t1 j hr fo hex _ hinA _ _)); iexact Hs6
      isplitl [Hra]; · iexact Hra
      isplitl [Hs7]
      · iapply (flBV0_intro (F := F) tb jx d L (t1, j) _ _ (outB_val0 (F := F) d L (tb d) (jx d) t1 j hr fo hex _ hinB _ _)); iexact Hs7
      isplitl [Hrb]; · iexact Hrb
      have hne' : blk0 m ∈ (Finset.univ : Finset Blk0).erase (t1, j) := Finset.mem_erase.mpr ⟨(blk0_ne_succ t1 j hm).symm, Finset.mem_univ _⟩
      have hmono : ∀ p ∈ ((Finset.univ : Finset Blk0).erase (blk0 m)).erase (t1, j), idxB0 p + 1 < m + 1 + 1 → idxB0 p + 1 < m + 1 := fun p hp h => by
        have := idxB0_ne (Finset.ne_of_mem_erase (Finset.mem_of_mem_erase hp)); omega
      isplitl [HpA Hs6_dst]
      · rw [pileAV0_out (F := F) tb jx d L (m + 1 + 1) hne', Finset.erase_right_comm (a := (t1, j)) (b := blk0 m)]
        isplitl [Hs6_dst]
        · unfold slotA0
          icases Hs6_dst with ⟨%f, H, %hv⟩
          iexists f; isplitl [H]; · iexact H
          ipureintro; exact fun _ => hv
        iapply (pileAV0_mono (F := F) tb jx d L hmono); iexact HpA
      · rw [pileBV0_out (F := F) tb jx d L (m + 1 + 1) hne', Finset.erase_right_comm (a := (t1, j)) (b := blk0 m)]
        isplitl [Hs7_dst]
        · unfold slotB0
          icases Hs7_dst with ⟨%f, H, %hv⟩
          iexists f; isplitl [H]; · iexact H
          ipureintro; exact fun _ => hv
        iapply (pileBV0_mono (F := F) tb jx d L hmono); iexact HpB
    iexists _; isplitr
    swap; · iexact HO
    ipureintro; intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact hW' p hp

/-- After `k` trips of the subtraction: the words below `16 k` are their index words less the row offset, the others still
    the index words. -/
def SubEx0 (t1 : Fin k1_t1_loop.trips) (k : ℕ) (fo : Buf (Elt F) ((thr0 d L).loc cc1_scratch1)) : Prop :=
  ∀ y : S2048.Idx, (ibV).view.read (Elt F) fo y = if (y 0).val < 16 * k then JV0 jx d L t1 y - off0 L else JV0 jx d L t1 y

theorem subEx0_step (t1 : Fin k1_t1_loop.trips) (t2 : Fin k1_t2_loop.trips) (fo : Buf (Elt F) ((thr0 d L).loc cc1_scratch1))
    (h : SubEx0 (F := F) jx d L t1 t2.val fo) :
    SubEx0 (F := F) jx d L t1 (t2.val + 1)
      ((ibV).view.writes (Elt F) fo [⟨subR0 t2, k1_pay1 L ((ibV).view.readAt (Elt F) (subR0 t2).toLoadRect fo)⟩]) := by
  have hoff : k1_off4 t2 = ![16 * t2.val] := k1_off4_eq t2
  intro y
  by_cases hy : y ∈ (subR0 t2).set
  · obtain ⟨x, rfl⟩ := (subR0 t2).exists_idx_of_mem hy
    have hx0 : (((subR0 t2).idx x) 0 : ℕ) = 16 * t2.val + (x 0).val := by
      rw [LoadRect.idx_apply]; simp [hoff]
    have hxl : (x 0).val < 16 := (x 0).isLt
    rw [if_pos (by rw [hx0]; omega)]
    rw [show (subR0 t2).idx x = (subR0 t2).emb x from rfl, View.read_writes_cons_emb]
    rw [k1_pay1_exact (F := F) L, View.readAt_apply]
    have hy' := h ((subR0 t2).toLoadRect.idx x)
    rw [if_neg (by rw [show ((subR0 t2).toLoadRect.idx x) = (subR0 t2).idx x from rfl, hx0]; omega)] at hy'
    rw [hy']; rfl
  · rw [View.read_writes_apply_of_forall_not_mem _ _ y _ (fun p hp => by rw [List.mem_singleton.mp hp]; exact hy)]
    have hy0 : ¬ (16 * t2.val ≤ (y 0).val ∧ (y 0).val < 16 * t2.val + 16) := by
      intro hh; apply hy
      rw [Rect.mem_set_unit]
      intro a
      have ha : a = 0 := Subsingleton.elim _ _
      subst ha
      simp [hoff]; omega
    have hy' := h y
    by_cases hlt : (y 0).val < 16 * t2.val
    · rw [if_pos hlt] at hy'; rw [if_pos (by omega)]; exact hy'
    · rw [if_neg hlt] at hy'; rw [if_neg (by omega)]; exact hy'

def inv2V_0 (t1 : Fin k1_t1_loop.trips) (k : ℕ) (_ : PUnit) : sProp 𝕄 :=
  iprop(∃ fo, ((ibV).view.loc (thr0 d L) ↦{fullShare} fo) ∗ ⌜SubEx0 jx d L t1 k fo⌝)

set_option maxHeartbeats 2000000 in
theorem t2_regionV0 (t1 : Fin k1_t1_loop.trips) (t2 : Fin k1_t2_loop.trips) (acc : PUnit) :
    inv2V_0 (F := F) jx d L t1 t2.val acc
      ⊢ wp frame (wpE (defs₀ (F := F)) 𝒱₀ (thr0 d L) none) Set.univ
          (k1_t2_body L tV (Memref.isWhole_whole _) jV (Memref.isWhole_whole _) oV (Memref.isWhole_whole _) shV (Memref.isWhole_whole _)
            ibV (Memref.isWhole_whole _) raV (Memref.isWhole_whole _) rbV (Memref.isWhole_whole _) cc1_scratch4 cc1_scratch5 cc1_scratch6 cc1_scratch7 cc1_scoped0 cc1_scoped1 t2 acc)
          (inv2V_0 (F := F) jx d L t1 (t2.val + 1)) := by
  unfold inv2V_0
  iintro ⟨%fo, Hib, %h⟩
  sl_exec
  sl_step
  iexists _; isplitl [Hib]; · iexact Hib
  ipureintro; exact subEx0_step (F := F) jx d L t1 t2 fo h

omit [FloatOps F] in
theorem subEx0_init (t1 : Fin k1_t1_loop.trips) (fib : Buf (Elt F) ((thr0 d L).loc cc1_scratch1)) :
    SubEx0 (F := F) jx d L t1 0 ((ibV).view.write (Elt F) fib (ReadAs.same.apply ((idxM0 L t1).view.read (Elt F) (jx d))) Finset.univ) := by
  intro y
  rw [if_neg (by omega), View.read_write_univ]
  rfl

omit [FloatOps F] in
theorem idxEx0_of_sub (t1 : Fin k1_t1_loop.trips) (fo : Buf (Elt F) ((thr0 d L).loc cc1_scratch1))
    (h : SubEx0 (F := F) jx d L t1 k1_t2_loop.trips fo) : IdxEx0 (F := F) jx d L t1 fo := fun y => by
  have hy : (y 0).val < 2048 := (y 0).isLt
  have := h y
  rw [if_pos (by rw [k1_t2_trips]; omega)] at this
  exact this

def inv1V_0 (O : CellTallies nD τ sig (HIx 2)) (W : Waits sig (HIx 2)) (k : ℕ) (_ : PUnit) : sProp 𝕄 :=
  iprop(Transfers.MayWaits (thr0 d L) (default : HIx 2) O
    ∗ idxPieceV0 jx d L
    ∗ (∃ fo, (ibV).view.loc (thr0 d L) ↦{fullShare} fo)
    ∗ ((shV).view.loc (thr0 d L) ↦{(rdShare (L 1).val).left} shGV0 tb d L) ∗ ((shV).view.loc (thr0 d L) ↦{(rdShare (L 1).val).right} shGV0 tb d L)
    ∗ semVal (dcell d (cV0 L) (jV0 L) cc1_scoped1.sem) 0
    ∗ semVal (dcell d (cV0 L) (jV0 L) cc1_scratch4.sem) 0 ∗ semVal (dcell d (cV0 L) (jV0 L) cc1_scratch5.sem) 0
    ∗ pendStV0 tb jx d L (8 * k)
    ∗ ∃ W', ⌜∀ p ∈ W', p ∈ W ∨ p.2 = none⌝ ∗ owes (thr0 d L) O W')

set_option maxHeartbeats 4000000 in
theorem t1_regionV0 (hr : ∀ t1, InRange (L 0).val (idxSet0 L t1) (jx d)) (O : CellTallies nD τ sig (HIx 2)) (W : Waits sig (HIx 2)) (v5 : BitVec 32)
    (t1 : Fin k1_t1_loop.trips) (acc : PUnit) :
    inv1V_0 tb jx d L O W t1.val acc
      ⊢ wp frame (wpE (defs₀ (F := F)) 𝒱₀ (thr0 d L) none) Set.univ
          (k1_t1_body L tV (Memref.isWhole_whole _) jV (Memref.isWhole_whole _) oV (Memref.isWhole_whole _) shV (Memref.isWhole_whole _)
            ibV (Memref.isWhole_whole _) raV (Memref.isWhole_whole _) rbV (Memref.isWhole_whole _) cc1_scratch4 cc1_scratch5 cc1_scratch6 cc1_scratch7 cc1_scoped0 cc1_scoped1 v5 t1 acc)
          (inv1V_0 tb jx d L O W (t1.val + 1)) := by
  unfold inv1V_0 idxPieceV0
  iintro ⟨#Hmw, Hidx, ⟨%fib, Hib⟩, Hsh, Hsh2, Hp1, Hs4, Hs5, Hpend, %W', %hW', HO⟩
  ihave Hsp := (Entails.of_eq (SparseCore.bigSep_erase' (Finset.mem_univ t1)
    (Φ := fun t : Fin k1_t1_loop.trips => (idxLoc0 d ↦[idxSet0 L t]{fullShare} jx d : sProp 𝕄)))) $$ Hidx
  icases Hsp with ⟨Hi, Hirest⟩
  ihave Hi' := (Entails.of_eq (pts_idx0 (F := F) d L t1 _).symm) $$ Hi
  sl_exec
  sl_for (inv2V_0 (F := F) jx d L t1) $$ [Hib]
  case region => exact fun t2 acc => t2_regionV0 (F := F) jx d L t1 t2 acc
  · unfold inv2V_0
    iexists _; isplitl [Hib]; · iexact Hib
    ipureintro; exact subEx0_init (F := F) jx d L t1 fib
  iintro %_ HI
  unfold inv2V_0
  icases HI with ⟨%fo, Hib, %hsub⟩
  have hex : IdxEx0 (F := F) jx d L t1 fo := idxEx0_of_sub (F := F) jx d L t1 fo hsub
  sl_for (inv3V_0 tb jx d L O (insert (SemLoc.dma cc1_scoped1.sem, (default : HIx 2)) W') t1) $$ [Hib Hsh Hsh2 Hs4 Hs5 Hpend HO]
  case region => exact fun j acc => t3_regionV0 tb jx d L O _ t1 (hr t1) _ _ j acc
  · unfold inv3V_0
    isplitr; · iexact Hmw
    isplitl [Hib]; · iexists fo; isplitl [Hib]; · iexact Hib
                     ipureintro; exact hex
    isplitl [Hsh]; · iexact Hsh
    isplitl [Hsh2]; · iexact Hsh2
    isplitl [Hs4]; · iexact Hs4
    isplitl [Hs5]; · iexact Hs5
    isplitl [Hpend]; · iexact Hpend
    iexists _; isplitr
    swap; · iexact HO
    ipureintro; exact fun p hp => .inl hp
  iintro %_ HI
  unfold inv3V_0
  icases HI with ⟨-, ⟨%fo', Hib, -⟩, Hsh, Hsh2, Hs4, Hs5, Hpend, %W'', %hW'', HO⟩
  sl_exec
  sl_step
  isplitr; · iexact Hmw
  isplitl [Hi' Hirest]
  · iapply (Entails.of_eq (SparseCore.bigSep_erase' (Finset.mem_univ t1)
      (Φ := fun t : Fin k1_t1_loop.trips => (idxLoc0 d ↦[idxSet0 L t]{fullShare} jx d : sProp 𝕄))).symm)
    isplitl [Hi']; · iapply (Entails.of_eq (pts_idx0 (F := F) d L t1 _)); iexact Hi'
    iexact Hirest
  isplitl [Hib]; · iexists _; iexact Hib
  isplitl [Hsh]; · iexact Hsh
  isplitl [Hsh2]; · iexact Hsh2
  isplitl [Hp1]; · iexact Hp1
  isplitl [Hs4]; · iexact Hs4
  isplitl [Hs5]; · iexact Hs5
  isplitl [Hpend]
  · iapply (Entails.of_eq (congrArg (pendStV0 (F := F) tb jx d L) (show 8 * t1.val + k1_t3_loop.trips = 8 * (t1.val + 1) by rw [k1_t3_trips]; omega))); iexact Hpend
  iexists W''; isplitr
  swap; · iexact HO
  ipureintro; intro p hp
  rcases hW'' p hp with h | h
  · rcases Finset.mem_insert.mp h with h | h
    · exact .inr (h ▸ rfl)
    · exact hW' p h
  · exact .inr h

/-- A writing tile splits its rows' share, the rows holding the table's rows: what it keeps aside, and for every tile's
    barrier cell the duty's payload; a tile that writes nothing pays with nothing. -/
theorem pays_introV0 :
    shPieceV0 (F := F) tb fullShare d L ⊢ iprop(shPieceV0 tb restShare d L
      ∗ bigSep Finset.univ fun j : Fin (grid1.bound 1) => (bRdV (F := F) tb).payload (bcell d (cV0 L) (j.castLE hsub1)) 0 (jV0 L).val) := by
  unfold shPieceV0
  by_cases h : k1_cond1 L = 1#1
  · have hn : (jV0 L).val < 10 := (k1_cond1_iff L).mp h
    rw [dif_pos h, dif_pos h]
    iintro H
    ihave H2 := (Transfers.pointsTo_toks_split (ℓ := sh0Loc d (cV0 L)) (S := shSet0 L h) (f := shG (tb d) (L 0).val) fullShare (grid1.bound 1)) $$ H
    icases H2 with ⟨Hrest, Htoks⟩
    isplitl [Hrest]; · iexact Hrest
    have hj : ∀ j : Fin (grid1.bound 1), (sh0Loc d (cV0 L) ↦[shSet0 L h]{Transfers.shareTok fullShare (grid1.bound 1) j} shG (tb d) (L 0).val : sProp 𝕄)
        ⊢ (bRdV (F := F) tb).payload (bcell d (cV0 L) (j.castLE hsub1)) 0 (jV0 L).val := by
      intro j
      show _ ⊢ bPayV tb (bcell d (cV0 L) (j.castLE hsub1)) 0 (jV0 L).val
      unfold bPayV; dsimp only
      rw [dif_pos hn, if_pos rfl, shSet0_eq L h]
      iintro H; iexact H
    iapply (SparseCore.ent (bigSep_mono fun j _ => hj j)) $$ Htoks
  · have hn : ¬ (jV0 L).val < 10 := fun hh => h ((k1_cond1_iff L).mpr hh)
    rw [dif_neg h, dif_neg h]
    iintro -
    isplitr; · iempintro
    have he : (fun j : Fin (grid1.bound 1) => (bRdV (F := F) tb).payload (bcell d (cV0 L) (j.castLE hsub1)) 0 (jV0 L).val) = fun _ => (iprop(emp) : sProp 𝕄) := by
      funext j
      show bPayV tb (bcell d (cV0 L) (j.castLE hsub1)) 0 (jV0 L).val = _
      unfold bPayV; dsimp only
      rw [dif_neg hn]
    rw [he, show (bigSep Finset.univ fun _ : Fin (grid1.bound 1) => (iprop(emp) : sProp 𝕄)) = iprop(emp) from bigSep_emp_const _]; iempintro

/-- What a tile reads off its own barrier cell's round: its read share of the whole scratch, at the table's rows. -/
theorem pays_elimV0 :
    bigSep ((bRdV (F := F) tb).duties (bcell d (cV0 L) (jV0 L)) 0 \ ∅) (fun m => (bRdV (F := F) tb).payload (bcell d (cV0 L) (jV0 L)) 0 m)
      ⊢ iprop(sh0Loc d (cV0 L) ↦{rdShare (L 1).val} shG (tb d) (L 0).val) := by
  rw [Finset.sdiff_empty, bRdV_duties tb d _ _ (by decide : 0 < 2), SparseCore.bigSep_image_of_injOn (fun a _ b _ e => Fin.val_injective e)]
  have he : (fun i : Fin τ.nSub => (bRdV (F := F) tb).payload (bcell d (cV0 L) (jV0 L)) 0 i.val)
      = fun i : Fin τ.nSub => if hi : i.val < 10 then iprop(sh0Loc d (cV0 L) ↦[shRowSet ⟨i.val, hi⟩]{rdShare (L 1).val} shG (tb d) (L 0).val) else iprop(emp) := by
    funext i
    show bPayV tb (bcell d (cV0 L) (jV0 L)) 0 i.val = _
    unfold bPayV; dsimp only
    by_cases hi : i.val < 10
    · rw [dif_pos hi, dif_pos hi, if_pos rfl]; rfl
    · rw [dif_neg hi, dif_neg hi]
  rw [he, bigSep_fin_dite (F := F) (show 10 ≤ τ.nSub by decide) (fun n : Fin 10 => iprop(sh0Loc d (cV0 L) ↦[shRowSet n]{rdShare (L 1).val} shG (tb d) (L 0).val)),
    ← pointsTo_biUnion Finset.univ (ℓ := sh0Loc d (cV0 L)) shRowSet shRows_disjoint, shRows_cover]

omit [FloatOps F] in
theorem slotA0_of_ex (p : Blk0) : (iprop(∃ f, outLoc0 d ↦[outASet0 L p.1 p.2]{fullShare} f) : sProp 𝕄) ⊢ slotA0 (F := F) tb jx d L 0 p := by
  unfold slotA0
  iintro ⟨%f, H⟩; iexists f; isplitl [H]; · iexact H
  ipureintro; intro h; omega
omit [FloatOps F] in
theorem slotB0_of_ex (p : Blk0) : (iprop(∃ f, outLoc0 d ↦[outBSet0 L p.1 p.2]{fullShare} f) : sProp 𝕄) ⊢ slotB0 (F := F) tb jx d L 0 p := by
  unfold slotB0
  iintro ⟨%f, H⟩; iexists f; isplitl [H]; · iexact H
  ipureintro; intro h; omega
omit [FloatOps F] in
/-- The output blocks at whatever they hold are the piles before the first pair of gathers. -/
theorem outPiece0_pilesV : (outPiece0 (F := F) d L : sProp 𝕄) ⊢ iprop(pileAV0 tb jx d L 0 Finset.univ ∗ pileBV0 tb jx d L 0 Finset.univ) := by
  rw [outPiece0_piles]
  unfold pileA0 pileB0 pileAV0 pileBV0
  iintro ⟨HA, HB⟩
  isplitl [HA]
  · iapply (SparseCore.ent (bigSep_mono fun p _ => slotA0_of_ex (F := F) tb jx d L p)) $$ HA
  · iapply (SparseCore.ent (bigSep_mono fun p _ => slotB0_of_ex (F := F) tb jx d L p)) $$ HB

omit [FloatOps F] in
theorem slotA0_val (p : Blk0) (hp : idxB0 p + 1 < 40) :
    (slotA0 (F := F) tb jx d L 40 p : sProp 𝕄) ⊢ iprop(outLoc0 d ↦[outASet0 L p.1 p.2]{fullShare} GV0 tb jx d) := by
  unfold slotA0
  iintro ⟨%f, H, %hf⟩
  iapply (Entails.of_eq (pointsTo_congr (hf hp))); iexact H
omit [FloatOps F] in
theorem slotB0_val (p : Blk0) (hp : idxB0 p + 1 < 40) :
    (slotB0 (F := F) tb jx d L 40 p : sProp 𝕄) ⊢ iprop(outLoc0 d ↦[outBSet0 L p.1 p.2]{fullShare} GV0 tb jx d) := by
  unfold slotB0
  iintro ⟨%f, H, %hf⟩
  iapply (Entails.of_eq (pointsTo_congr (hf hp))); iexact H

omit [FloatOps F] in
theorem idxB0_lt (p : Blk0) : idxB0 p < 40 := by
  have h1 : p.1.val < 5 := lt_of_lt_of_eq p.1.isLt k1_t1_trips
  have h3 : p.2.val < 8 := lt_of_lt_of_eq p.2.isLt k1_t3_trips
  unfold idxB0; omega
omit [FloatOps F] in
theorem idxB0_blk39 : idxB0 (blk0 39) = 39 := by
  unfold idxB0 blk0; rfl

/-- After the last copy-outs have landed every output block holds the gathered rows. -/
theorem pilesV0_final :
    iprop(pileAV0 (F := F) tb jx d L 40 (Finset.univ.erase (blk0 39)) ∗ pileBV0 tb jx d L 40 (Finset.univ.erase (blk0 39))
        ∗ (∃ f, (outLoc0 d ↦[outASet0 L (blk0 39).1 (blk0 39).2]{fullShare} f) ∗ ⌜valOn0 tb jx d (outASet0 L (blk0 39).1 (blk0 39).2) f⌝)
        ∗ (∃ f, (outLoc0 d ↦[outBSet0 L (blk0 39).1 (blk0 39).2]{fullShare} f) ∗ ⌜valOn0 tb jx d (outBSet0 L (blk0 39).1 (blk0 39).2) f⌝))
      ⊢ outPieceV0 tb jx d L := by
  have hlt : ∀ p ∈ (Finset.univ : Finset Blk0).erase (blk0 39), idxB0 p + 1 < 40 := fun p hp => by
    have h1 := idxB0_lt p
    have h2 := idxB0_ne (Finset.ne_of_mem_erase hp)
    omega
  unfold outPieceV0
  rw [bigSep_pairs (F := F) (fun p : Blk0 => (outLoc0 d ↦[outASet0 L p.1 p.2]{fullShare} gatherRows (tb d) (jx d) : sProp 𝕄))
      (fun p : Blk0 => (outLoc0 d ↦[outBSet0 L p.1 p.2]{fullShare} gatherRows (tb d) (jx d) : sProp 𝕄)),
    SparseCore.bigSep_erase' (Finset.mem_univ (blk0 39)) (Φ := fun p : Blk0 => (outLoc0 d ↦[outASet0 L p.1 p.2]{fullShare} gatherRows (tb d) (jx d) : sProp 𝕄)),
    SparseCore.bigSep_erase' (Finset.mem_univ (blk0 39)) (Φ := fun p : Blk0 => (outLoc0 d ↦[outBSet0 L p.1 p.2]{fullShare} gatherRows (tb d) (jx d) : sProp 𝕄))]
  unfold pileAV0 pileBV0
  iintro ⟨HA, HB, ⟨%fa, Ha, %ha⟩, ⟨%fb, Hb, %hb⟩⟩
  isplitl [HA Ha]
  · isplitl [Ha]; · iapply (Entails.of_eq (pointsTo_congr ha)); iexact Ha
    iapply (SparseCore.ent (bigSep_mono fun p hp => slotA0_val (F := F) tb jx d L p (hlt p hp))) $$ HA
  · isplitl [Hb]; · iapply (Entails.of_eq (pointsTo_congr hb)); iexact Hb
    iapply (SparseCore.ent (bigSep_mono fun p hp => slotB0_val (F := F) tb jx d L p (hlt p hp))) $$ HB

set_option maxHeartbeats 8000000 in
/-- From the barrier on: the barrier (the rows' read shares paid to every tile's cell, the tile's own round read), the five
    blocks, the two final waits, and what the task hands back. -/
theorem restV0 (hr : ∀ t1, InRange (L 0).val (idxSet0 L t1) (jx d)) (hF : (K (F := F)).Facts) (O : CellTallies nD τ sig (HIx 2)) (W : Waits sig (HIx 2)) (hO : ∀ g, O g none = 0)
    (hOlev : ∀ g ι, 0 < O g ι → 8 * (0 : Fin 2).val + 6 ≤ (K (F := F)).lev g ι) (κ : GSem nD τ sig → ℕ) (R₁ R₂ : sProp 𝕄) :
    iprop(levAts (K (F := F)).L (K (F := F)).lev
        ∗ (bigSep Finset.univ fun j : Fin (grid1.bound 1) => cellInv EB (bRdV (F := F) tb) (κ (bcell d (cV0 L) (j.castLE hsub1))) (bcell d (cV0 L) (j.castLE hsub1)))
        ∗ (bigSep Finset.univ fun j : Fin (grid1.bound 1) => dutyTok EB (bcell d (cV0 L) (j.castLE hsub1)) 0 (jV0 L).val)
        ∗ (bigSep Finset.univ fun j : Fin (grid1.bound 1) => reached EB (bcell d (cV0 L) (j.castLE hsub1)) 0)
        ∗ atPos EB (bcell d (cV0 L) (jV0 L)) 0 ∅ 0
        ∗ cred (tallyAt (bcell d (cV0 L) (jV0 L)) (some 0) (grid1.bound 1))
        ∗ idxPieceV0 jx d L ∗ outPiece0 d L ∗ tblPieceV0 tb d L ∗ shPieceV0 tb fullShare d L
        ∗ (∃ f, (thr0 d L).loc cc1_scratch1 ↦{fullShare} f) ∗ (∃ f, (thr0 d L).loc cc1_scratch2 ↦{fullShare} f) ∗ (∃ f, (thr0 d L).loc cc1_scratch3 ↦{fullShare} f)
        ∗ semVal (dcell d (cV0 L) (jV0 L) cc1_scratch4.sem) 0 ∗ semVal (dcell d (cV0 L) (jV0 L) cc1_scratch5.sem) 0
        ∗ semVal (dcell d (cV0 L) (jV0 L) cc1_scratch6.sem) 0 ∗ semVal (dcell d (cV0 L) (jV0 L) cc1_scratch7.sem) 0
        ∗ semVal (dcell d (cV0 L) (jV0 L) cc1_scoped0.sem) 0 ∗ semVal (dcell d (cV0 L) (jV0 L) cc1_scoped1.sem) 0
        ∗ R₁ ∗ R₂
        ∗ ∃ W₁, ⌜∀ p ∈ W₁, p ∈ W ∨ p.2 = none⌝ ∗ owes (thr0 d L) (O + oxV 0 d (cV0 L)) W₁)
      ⊢ wp frame (wpE (defs₀ (F := F)) 𝒱₀ (thr0 d L) none) Set.univ
          (k1_rest (F := F) L tV (Memref.isWhole_whole _) jV (Memref.isWhole_whole _) oV (Memref.isWhole_whole _) shV (Memref.isWhole_whole _)
            ibV (Memref.isWhole_whole _) raV (Memref.isWhole_whole _) rbV (Memref.isWhole_whole _) cc1_scratch4 cc1_scratch5 cc1_scratch6 cc1_scratch7 cc1_scoped0 cc1_scoped1)
          fun _ => iprop(tdV0 tb jx d L
            ∗ ((∃ f, (thr0 d L).loc cc1_scratch1 ↦{fullShare} f) ∗ (∃ f, (thr0 d L).loc cc1_scratch2 ↦{fullShare} f) ∗ (∃ f, (thr0 d L).loc cc1_scratch3 ↦{fullShare} f) ∗ R₁)
            ∗ (semVal (dcell d (cV0 L) (jV0 L) cc1_scratch4.sem) 0 ∗ semVal (dcell d (cV0 L) (jV0 L) cc1_scratch5.sem) 0
              ∗ semVal (dcell d (cV0 L) (jV0 L) cc1_scratch6.sem) 0 ∗ semVal (dcell d (cV0 L) (jV0 L) cc1_scratch7.sem) 0
              ∗ semVal (dcell d (cV0 L) (jV0 L) cc1_scoped0.sem) 0 ∗ semVal (dcell d (cV0 L) (jV0 L) cc1_scoped1.sem) 0 ∗ R₂)
            ∗ ∃ W', ⌜∀ p ∈ W', p ∈ W ∨ p.2 = none ∨ p.2 = some (0 : Fin 2)⌝ ∗ owes (thr0 d L) O W') := by
  unfold k1_rest
  iintro ⟨#Hlv, #Hinv, Htoks, #Hrch, Hat, Hcred, Hidx, Hout, Htbl, Hsh, ⟨%fib, Hib⟩, ⟨%fra, Hra⟩, ⟨%frb, Hrb⟩, Hs4, Hs5, Hs6, Hs7, Hp0, Hp1, HR₁, HR₂, %W₁, %hW₁, HO⟩
  have hO' : ∀ g, (O + oxV 0 d (cV0 L)) g none = 0 := fun g => by rw [Pi.add_apply, Finsupp.add_apply, hO g, oxV_none]
  ihave Hmw2 := (show levAts (K (F := F)).L (K (F := F)).lev ⊢ Transfers.MayWaits (thr0 d L) (default : HIx 2) O from
    (K (F := F)).mayWaits_none (thr := thr0 d L) hO) $$ Hlv
  -- the barrier
  ihave Hp := (pays_introV0 (F := F) tb d L) $$ Hsh
  icases Hp with ⟨Hshrest, Hpays⟩
  iapply (SparseCore.wp_subcoreBarrier 𝒱₀ none EB (bRdV (F := F) tb) d (sc := cV0 L) (i := jV0 L) sc_bar0 (grid1.bound 1) hsub1 (L 1) rfl κ (fun _ => 0) (jV0 L).val
      (fun j => bRdV_mem tb d _ _ _ (by decide)) (fun _ => rfl) (bRdV_expect tb d _ _ (by decide)) (some 0) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := thr0 d L) (8 * (0 : Fin 2).val + 3) (fun p hp => by
        rw [Finset.mem_singleton] at hp; subst hp
        show (K (F := F)).lev (bcell d (cV0 L) (jV0 L)) (some 0) ≤ _
        rw [(K (F := F)).lev_V_reg d _ _ (show (sc_bar0 : Sem sig) ≠ (K (F := F)).go from sc_bar0_ne_go)])
      (fun g ι hg => lt_of_lt_of_le (by decide) (hOlev g ι hg)))
    iexact Hlv
  iintro ⟨HO, Hat, #Hrch', Hgot⟩
  ihave Hg := (pays_elimV0 (F := F) tb d L) $$ Hgot
  ihave Hg2 := (pointsTo_share (ℓ := sh0Loc d (cV0 L)) (I := Finset.univ) (f := shG (tb d) (L 0).val) (PosShare.mem_left_op_right (rdShare (L 1).val))).1 $$ Hg
  icases Hg2 with ⟨Hsh, Hsh2⟩
  ihave Hsh' := (Entails.of_eq (pts_shW0 (F := F) d L _ _).symm) $$ Hsh
  ihave Hsh2' := (Entails.of_eq (pts_shW0 (F := F) d L _ _).symm) $$ Hsh2
  ihave Hib' := (Entails.of_eq (pts_ib0 (F := F) d L _).symm) $$ Hib
  ihave Hra' := (Entails.of_eq (pts_ra0 (F := F) d L _).symm) $$ Hra
  ihave Hrb' := (Entails.of_eq (pts_rb0 (F := F) d L _).symm) $$ Hrb
  sl_exec
  -- the five blocks
  sl_for (inv1V_0 tb jx d L O (insert (SemLoc.reg sc_bar0, some (0 : Fin 2)) W₁)) $$ [Hidx Hib' Hsh' Hsh2' Hp1 Hs4 Hs5 Hra' Hrb' Hs6 Hs7 Hout HO]
  case region => exact fun t1 acc => t1_regionV0 tb jx d L hr O _ _ t1 acc
  · unfold inv1V_0
    isplitr; · iexact Hmw2
    isplitl [Hidx]; · iexact Hidx
    isplitl [Hib']; · iexists _; iexact Hib'
    isplitl [Hsh']; · iexact Hsh'
    isplitl [Hsh2']; · iexact Hsh2'
    isplitl [Hp1]; · iexact Hp1
    isplitl [Hs4]; · iexact Hs4
    isplitl [Hs5]; · iexact Hs5
    isplitl [Hra' Hrb' Hs6 Hs7 Hout]
    · rw [show 8 * 0 = 0 from rfl, pendStV0_zero]
      unfold pendNoneV0
      isplitl [Hra']; · iexists _; iexact Hra'
      isplitl [Hrb']; · iexists _; iexact Hrb'
      isplitl [Hs6]; · iexact Hs6
      isplitl [Hs7]; · iexact Hs7
      iapply (outPiece0_pilesV (F := F) tb jx d L); iexact Hout
    iexists _; isplitr
    swap; · iexact HO
    ipureintro; exact fun p hp => .inl hp
  iintro %_ HI
  unfold inv1V_0
  icases HI with ⟨-, Hidx, ⟨%fib', Hib⟩, Hsh, Hsh2, Hp1, Hs4, Hs5, Hpend, %W₂, %hW₂, HO⟩
  ihave Hpend' := (Entails.of_eq (congrArg (pendStV0 (F := F) tb jx d L) (show 8 * k1_t1_loop.trips = 39 + 1 by rw [k1_t1_trips]))) $$ Hpend
  ihave Hpend'' := (Entails.of_eq (pendStV0_succ (F := F) tb jx d L 39)) $$ Hpend'
  unfold pendAtV0
  icases Hpend'' with ⟨%fra', %frb', Hs6, Hra, Hs7, Hrb, HpA, HpB⟩
  -- the two final waits
  sl_exec
  sl_step
  isplitl [Hidx HpA HpB Hs6_dst Hs7_dst Htbl Hsh Hsh2 Hshrest Hat]
  · unfold tdV0
    isplitl [Hidx]; · iexact Hidx
    isplitl [HpA HpB Hs6_dst Hs7_dst]
    · iapply (pilesV0_final (F := F) tb jx d L)
      isplitl [HpA]; · iexact HpA
      isplitl [HpB]; · iexact HpB
      isplitl [Hs6_dst]; · iexact Hs6_dst
      iexact Hs7_dst
    isplitl [Htbl]; · iexact Htbl
    isplitl [Hsh Hsh2]
    · iapply (pointsTo_share (ℓ := sh0Loc d (cV0 L)) (I := Finset.univ) (f := shG (tb d) (L 0).val) (PosShare.mem_left_op_right (rdShare (L 1).val))).2
      isplitl [Hsh]; · iapply (Entails.of_eq (pts_shW0 (F := F) d L _ _)); iexact Hsh
      iapply (Entails.of_eq (pts_shW0 (F := F) d L _ _)); iexact Hsh2
    isplitl [Hshrest]; · iexact Hshrest
    isplitl [Hat]; · iexact Hat
    iexact Hrch'
  isplitl [Hib Hra Hrb HR₁]
  · isplitl [Hib]; · iexists _; iapply (Entails.of_eq (pts_ib0 (F := F) d L _)); iexact Hib
    isplitl [Hra]; · iexists _; iapply (Entails.of_eq (pts_ra0 (F := F) d L _)); iexact Hra
    isplitl [Hrb]; · iexists _; iapply (Entails.of_eq (pts_rb0 (F := F) d L _)); iexact Hrb
    iexact HR₁
  isplitl [Hs4 Hs5 Hs6 Hs7 Hp0 Hp1 HR₂]
  · isplitl [Hs4]; · iexact Hs4
    isplitl [Hs5]; · iexact Hs5
    isplitl [Hs6]; · iexact Hs6
    isplitl [Hs7]; · iexact Hs7
    isplitl [Hp0]; · iexact Hp0
    isplitl [Hp1]; · iexact Hp1
    iexact HR₂
  iexists _; isplitr
  swap; · iexact HO
  ipureintro; intro p hp
  rcases Finset.mem_insert.mp hp with hp | hp; · exact .inr (.inl (hp ▸ rfl))
  rcases Finset.mem_insert.mp hp with hp | hp; · exact .inr (.inl (hp ▸ rfl))
  rcases hW₂ p hp with h | h
  · rcases Finset.mem_insert.mp h with h | h
    · exact .inr (.inr (h ▸ rfl))
    · exact (hW₁ p h).imp_right Or.inl
  · exact .inr (.inl h)

omit [FloatOps F] in
theorem tblPieceV0_pos (h : k1_cond1 L = 1#1) : tblPieceV0 (F := F) tb d L = iprop(tblLoc d ↦[tblSet0 L h]{fullShare} tb d) := dif_pos h
omit [FloatOps F] in
theorem shPieceV0_pos (q' : PosShare TreeShare) (h : k1_cond1 L = 1#1) : shPieceV0 (F := F) tb q' d L = iprop(sh0Loc d (cV0 L) ↦[shSet0 L h]{q'} shG (tb d) (L 0).val) := dif_pos h
omit [FloatOps F] in
theorem shPieceV0_neg (q' : PosShare TreeShare) (h : ¬ k1_cond1 L = 1#1) : shPieceV0 (F := F) tb q' d L = iprop(emp) := dif_neg h
set_option maxHeartbeats 4000000 in
/-- The task on vector subcore `(L 0, L 1)` of device `d`. -/
theorem tile_bodyV0 (hr : ∀ c : Fin 2, InRange c.val (halfJ c) (jx d)) (hF : (K (F := F)).Facts) (O : CellTallies nD τ sig (HIx 2)) (W : Waits sig (HIx 2)) (hO : ∀ g, O g none = 0)
    (hOlev : ∀ g ι, 0 < O g ι → 8 * (0 : Fin 2).val + 6 ≤ (K (F := F)).lev g ι) :
    iprop(levAts (K (F := F)).L (K (F := F)).lev ∗ kitV tb 0 d (cV0 L) (jV0 L) ∗ goV0 tb jx d L
        ∗ scopedBufs (V d (cV0 L) (jV0 L)) ∗ scopedSems0 (V d (cV0 L) (jV0 L)) ∗ owes (V d (cV0 L) (jV0 L)) (O + oxV 0 d (cV0 L)) W)
      ⊢ wp frame (wpE (defs₀ (F := F)) 𝒱₀ (V d (cV0 L) (jV0 L)) none) Set.univ
          (cc1_gather_kernel L tV (Memref.isWhole_whole _) jV (Memref.isWhole_whole _) oV (Memref.isWhole_whole _) shV (Memref.isWhole_whole _)
            ibV (Memref.isWhole_whole _) raV (Memref.isWhole_whole _) rbV (Memref.isWhole_whole _) cc1_scratch4 cc1_scratch5 cc1_scratch6 cc1_scratch7 cc1_scoped0 cc1_scoped1)
          fun _ => iprop(tdV0 tb jx d L ∗ scopedBufs (V d (cV0 L) (jV0 L)) ∗ scopedSems0 (V d (cV0 L) (jV0 L))
            ∗ ∃ W', ⌜∀ p ∈ W', p ∈ W ∨ p.2 = none ∨ p.2 = some (0 : Fin 2)⌝ ∗ owes (V d (cV0 L) (jV0 L)) O W') := by
  simp only [cc1_gather_kernel_eq_skeleton]; unfold cc1_gather_kernel_skel
  rw [(K (F := F)).scopedBufs_V hF d (cV0 L) (jV0 L), SparseCore.Cfg.scopedSems0_V (Val := Elt F) d (cV0 L) (jV0 L), ownSems0_V0, ownBufs_V0]
  unfold kitV goV0 kitFirst
  rw [if_pos (show ((0 : Fin 2).val = 0) from rfl)]
  have hO' : ∀ g, (O + oxV 0 d (cV0 L)) g none = 0 := fun g => by rw [Pi.add_apply, Finsupp.add_apply, hO g, oxV_none]
  have hrL : ∀ t1, InRange (L 0).val (idxSet0 L t1) (jx d) := fun t1 r hr' => hr ⟨(L 0).val, (L 0).isLt⟩ r (idxSet0_subset L t1 hr')
  by_cases k1_h1 : k1_cond1 L = 1#1
  · -- a writing tile: its rows of the table into the shared scratch, waited for
    rw [tblPieceV0_pos (F := F) tb d L k1_h1, shPiece0_pos (F := F) d L fullShare k1_h1]
    iintro ⟨#Hlv, ⟨⟨%κ, #Hinv⟩, Htoks, ⟨#Hrch, Hat⟩, Hcred⟩, ⟨Hidx, Hout, Htbl, ⟨%fsh, Hsh⟩⟩, ⟨⟨%fib, Hib⟩, ⟨%fra, Hra⟩, ⟨%frb, Hrb⟩, Hbufs⟩, ⟨Hs4, Hs5, Hs6, Hs7, Hp0, Hp1, Hsems⟩, HO⟩
    ihave Hmw1 := (show levAts (K (F := F)).L (K (F := F)).lev ⊢ Transfers.MayWaits (thr0 d L) (default : HIx 2) (O + oxV 0 d (cV0 L)) from
      (K (F := F)).mayWaits_none (thr := thr0 d L) hO') $$ Hlv
    ihave Htbl := (Entails.of_eq (pts_tbl0 (F := F) d L k1_h1 _).symm) $$ Htbl
    ihave Hsh := (Entails.of_eq (pts_sh0 (F := F) d L k1_h1 _ _).symm) $$ Hsh
    sl_exec
    iapply (restV0 (F := F) tb jx d L hrL hF O W hO hOlev κ _ _) $$ [Htoks Hat Hcred Hidx Hout Htbl Hsh Hib Hra Hrb Hbufs Hs4 Hs5 Hs6 Hs7 Hp0 Hp1 Hsems HO]
    isplitr; · iexact Hlv
    isplitr; · iexact Hinv
    isplitl [Htoks]; · iexact Htoks
    isplitr; · iexact Hrch
    isplitl [Hat]; · iexact Hat
    isplitl [Hcred]; · iexact Hcred
    isplitl [Hidx]; · iexact Hidx
    isplitl [Hout]; · iexact Hout
    isplitl [Htbl]; · iapply (Entails.of_eq (tblPieceV0_pos (F := F) tb d L k1_h1).symm); iapply (Entails.of_eq (pts_tbl0 (F := F) d L k1_h1 _)); iexact Htbl
    isplitl [Hsh]; · iapply (Entails.of_eq (shPieceV0_pos (F := F) tb d L fullShare k1_h1).symm); iapply (Entails.of_eq (pointsTo_congr (sh_copy_val0 (F := F) d L k1_h1 (tb d) fsh))); iapply (Entails.of_eq (pts_sh0 (F := F) d L k1_h1 _ _)); iexact Hsh
    isplitl [Hib]; · iexists _; iexact Hib
    isplitl [Hra]; · iexists _; iexact Hra
    isplitl [Hrb]; · iexists _; iexact Hrb
    isplitl [Hs4]; · iexact Hs4
    isplitl [Hs5]; · iexact Hs5
    isplitl [Hs6]; · iexact Hs6
    isplitl [Hs7]; · iexact Hs7
    isplitl [Hp0]; · iexact Hp0
    isplitl [Hp1]; · iexact Hp1
    isplitl [Hbufs]; · iexact Hbufs
    isplitl [Hsems]; · iexact Hsems
    iexists _; isplitr
    swap; · iexact HO
    ipureintro; intro p hp
    rcases Finset.mem_insert.mp hp with hp | hp; · exact .inr (hp ▸ rfl)
    exact .inl hp
  · -- a tile that writes nothing
    iintro ⟨#Hlv, ⟨⟨%κ, #Hinv⟩, Htoks, ⟨#Hrch, Hat⟩, Hcred⟩, ⟨Hidx, Hout, Htbl, Hsh⟩, ⟨⟨%fib, Hib⟩, ⟨%fra, Hra⟩, ⟨%frb, Hrb⟩, Hbufs⟩, ⟨Hs4, Hs5, Hs6, Hs7, Hp0, Hp1, Hsems⟩, HO⟩
    sl_exec
    iapply (restV0 (F := F) tb jx d L hrL hF O W hO hOlev κ _ _) $$ [Htoks Hat Hcred Hidx Hout Htbl Hsh Hib Hra Hrb Hbufs Hs4 Hs5 Hs6 Hs7 Hp0 Hp1 Hsems HO]
    isplitr; · iexact Hlv
    isplitr; · iexact Hinv
    isplitl [Htoks]; · iexact Htoks
    isplitr; · iexact Hrch
    isplitl [Hat]; · iexact Hat
    isplitl [Hcred]; · iexact Hcred
    isplitl [Hidx]; · iexact Hidx
    isplitl [Hout]; · iexact Hout
    isplitl [Htbl]; · iexact Htbl
    isplitl [Hsh]; · iapply (Entails.of_eq (shPieceV0_neg (F := F) tb d L fullShare k1_h1).symm); iempintro
    isplitl [Hib]; · iexists _; iexact Hib
    isplitl [Hra]; · iexists _; iexact Hra
    isplitl [Hrb]; · iexists _; iexact Hrb
    isplitl [Hs4]; · iexact Hs4
    isplitl [Hs5]; · iexact Hs5
    isplitl [Hs6]; · iexact Hs6
    isplitl [Hs7]; · iexact Hs7
    isplitl [Hp0]; · iexact Hp0
    isplitl [Hp1]; · iexact Hp1
    isplitl [Hbufs]; · iexact Hbufs
    isplitl [Hsems]; · iexact Hsems
    iexists _; isplitr
    swap; · iexact HO
    ipureintro; intro p hp
    exact .inl hp

end TileV0

set_option maxRecDepth 16384 in
/-- Call 0's tile obligation with the contents carried, the index list's words in range. -/
theorem tileObl0V (tb : (d : Dev nD) → Buf (Elt F) (tblLoc d)) (j0 : (d : Dev nD) → Buf (Elt F) (idxLoc0 d)) (j1 : (d : Dev nD) → Buf (Elt F) (idxLoc1 d))
    (hr : ∀ (d : Dev nD) (c : Fin 2), InRange c.val (halfJ c) (j0 d)) :
    (K (F := F)).TileObl (D (F := F)) 𝒱 (PV (F := F) tb j0 j1) v₀ 0 := by
  intro d c i O W hO hOlev _
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector0]; simp only [SparseCore.onTile, hci, and_self, ↓reduceDIte]
  exact tile_bodyV0 (F := F) tb j0 d (coords0 ⟨_, hci.1⟩ ⟨_, hci.2⟩) (hr d) facts O W hO hOlev

end Cert.Proof.Sc.V
-- ==== Proof.ScTile1V.lean ====
/-
  One tile's task of the gather kernel at the second SparseCore call with the contents carried: the index scratch holds
  each index word less the SparseCore's row offset, the shared scratch the table's rows, so each block copied out holds the
  gathered rows.
-/
import proofs.«217078_g14027363189340_cont_week2b_886_24_alg».proof.Proof.ScTileV

noncomputable section

namespace Cert.Proof.Sc.V

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable [FloatOps F]

section TileV1

local notation "tV" => (Memref.whole Cert.KernelIdeal.main_v9_scv : Memref Cert.KernelIdeal.sig Kind.scVector Space.hbm Cert.KernelIdeal.S20000x128 EltTy.f32)
local notation "jV" => (Memref.whole Cert.KernelIdeal.main_v37_scv : Memref Cert.KernelIdeal.sig Kind.scVector Space.hbm Cert.KernelIdeal.S327680 EltTy.i32)
local notation "oV" => (Memref.whole Cert.KernelIdeal.main_v38_scv : Memref Cert.KernelIdeal.sig Kind.scVector Space.hbm Cert.KernelIdeal.S327680x128 EltTy.f32)
local notation "shV" => (Memref.whole Cert.KernelIdeal.cc3_scratch0 : Memref Cert.KernelIdeal.sig Kind.scVector Space.shared Cert.KernelIdeal.S10000x128 EltTy.f32)
local notation "ibV" => (Memref.whole Cert.KernelIdeal.cc3_scratch1 : Memref Cert.KernelIdeal.sig Kind.scVector Space.vmem Cert.KernelIdeal.S2048 EltTy.i32)
local notation "raV" => (Memref.whole Cert.KernelIdeal.cc3_scratch2 : Memref Cert.KernelIdeal.sig Kind.scVector Space.vmem Cert.KernelIdeal.S128x128 EltTy.f32)
local notation "rbV" => (Memref.whole Cert.KernelIdeal.cc3_scratch3 : Memref Cert.KernelIdeal.sig Kind.scVector Space.vmem Cert.KernelIdeal.S128x128 EltTy.f32)

variable (tb : (d : Dev nD) → Buf (Elt F) (tblLoc d)) (jx : (d : Dev nD) → Buf (Elt F) (idxLoc1 d)) (d : Dev nD) (L : grid3.Coords)

/-- The SparseCore's row offset as the kernel subtracts it. -/
abbrev off1 : BitVec 32 := BitVec.ofNat 32 (L 0).val * 10000#32
/-- The gathered rows, and the shared scratch once filled. -/
abbrev GV1 : Buf (Elt F) (outLoc1 d) := gatherRows (tb d) (jx d)
abbrev shGV1 : Buf (Elt F) (sh1Loc d (cV1 L)) := shG (tb d) (L 0).val
/-- The index words of block `t1` of the tile, by position in the index scratch. -/
def JV1 (t1 : Fin k3_t1_loop.trips) : S2048.Idx → BitVec 32 := fun y => jx d ((idxM1 L t1).view.emb y)
/-- Every word of the index scratch is its index word less the row offset. -/
def IdxEx1 (t1 : Fin k3_t1_loop.trips) (fo : S2048.Idx → BitVec 32) : Prop := ∀ y, fo y = JV1 jx d L t1 y - off1 L

omit [FloatOps F] in
theorem idxOk1_of_ex (t1 : Fin k3_t1_loop.trips) (hr : InRange (L 0).val (idxSet1 L t1) (jx d)) (fo : S2048.Idx → BitVec 32)
    (h : IdxEx1 (F := F) jx d L t1 fo) : IdxOk fo := fun y => by
  rw [h y]
  have := hr ((idxM1 L t1).view.emb y) (Finset.mem_map_of_mem _ (Finset.mem_univ y))
  exact sub_toNat1 (L 0).isLt this.1 this.2

/-- A block holds the gathered rows. -/
abbrev valOn1 (M : Finset S327680x128.Idx) (f : Buf (Elt F) (outLoc1 d)) : Prop := ∀ i ∈ M, f i = GV1 tb jx d i

abbrev flAV1 (p : Blk1) (fra : Buf (Elt F) ((thr1 d L).loc cc3_scratch2)) : sProp 𝕄 :=
  Transfers.Flight countersEmb (thr1 d L) (SemLoc.dma cc3_scratch6.sem) (default : HIx 2) 524288
    iprop((∃ f, (outLoc1 d ↦[outASet1 L p.1 p.2]{fullShare} f) ∗ ⌜valOn1 tb jx d (outASet1 L p.1 p.2) f⌝) ∗ ((raV).view.loc (thr1 d L) ↦[(raV).view.set]{fullShare} fra))
abbrev flBV1 (p : Blk1) (frb : Buf (Elt F) ((thr1 d L).loc cc3_scratch3)) : sProp 𝕄 :=
  Transfers.Flight countersEmb (thr1 d L) (SemLoc.dma cc3_scratch7.sem) (default : HIx 2) 524288
    iprop((∃ f, (outLoc1 d ↦[outBSet1 L p.1 p.2]{fullShare} f) ∗ ⌜valOn1 tb jx d (outBSet1 L p.1 p.2) f⌝) ∗ ((rbV).view.loc (thr1 d L) ↦[(rbV).view.set]{fullShare} frb))

omit [FloatOps F] in
theorem flAV1_intro (p : Blk1) (X : Buf (Elt F) (outLoc1 d)) (fra : Buf (Elt F) ((thr1 d L).loc cc3_scratch2)) (hv : valOn1 tb jx d (outASet1 L p.1 p.2) X) :
    (Transfers.Flight countersEmb (thr1 d L) (SemLoc.dma cc3_scratch6.sem) (default : HIx 2) 524288
      iprop(((outAM1 L p.1 p.2).view.loc (thr1 d L) ↦[(outAM1 L p.1 p.2).view.set]{fullShare} X)
        ∗ ((raV).view.loc (thr1 d L) ↦[(raV).view.set]{fullShare} fra)) : sProp 𝕄) ⊢ flAV1 tb jx d L p fra := by
  refine Transfers.Flight_mono countersEmb (thr1 d L) ?_
  iintro ⟨Hd, Hs⟩
  isplitl [Hd]; · iexists X; isplitl [Hd]; · iexact Hd
                  ipureintro; exact hv
  iexact Hs
omit [FloatOps F] in
theorem flBV1_intro (p : Blk1) (X : Buf (Elt F) (outLoc1 d)) (frb : Buf (Elt F) ((thr1 d L).loc cc3_scratch3)) (hv : valOn1 tb jx d (outBSet1 L p.1 p.2) X) :
    (Transfers.Flight countersEmb (thr1 d L) (SemLoc.dma cc3_scratch7.sem) (default : HIx 2) 524288
      iprop(((outBM1 L p.1 p.2).view.loc (thr1 d L) ↦[(outBM1 L p.1 p.2).view.set]{fullShare} X)
        ∗ ((rbV).view.loc (thr1 d L) ↦[(rbV).view.set]{fullShare} frb)) : sProp 𝕄) ⊢ flBV1 tb jx d L p frb := by
  refine Transfers.Flight_mono countersEmb (thr1 d L) ?_
  iintro ⟨Hd, Hs⟩
  isplitl [Hd]; · iexists X; isplitl [Hd]; · iexact Hd
                  ipureintro; exact hv
  iexact Hs

/-- A block's place in the order the task writes them. -/
def idxB1 (p : Blk1) : ℕ := 8 * p.1.val + p.2.val
omit [FloatOps F] in
theorem blk1_idxB (p : Blk1) : blk1 (idxB1 p) = p := blk1_cur p.1 p.2
omit [FloatOps F] in
theorem idxB1_ne {p : Blk1} {m : ℕ} (h : p ≠ blk1 m) : idxB1 p ≠ m := fun e => h (e ▸ (blk1_idxB p).symm)

/-- An output block before the `n`-th pair of gathers: at some contents, the gathered rows once its copy-out has landed. -/
def slotA1 (n : ℕ) (p : Blk1) : sProp 𝕄 :=
  iprop(∃ f, (outLoc1 d ↦[outASet1 L p.1 p.2]{fullShare} f) ∗ ⌜idxB1 p + 1 < n → valOn1 tb jx d (outASet1 L p.1 p.2) f⌝)
def slotB1 (n : ℕ) (p : Blk1) : sProp 𝕄 :=
  iprop(∃ f, (outLoc1 d ↦[outBSet1 L p.1 p.2]{fullShare} f) ∗ ⌜idxB1 p + 1 < n → valOn1 tb jx d (outBSet1 L p.1 p.2) f⌝)
def pileAV1 (n : ℕ) (s : Finset Blk1) : sProp 𝕄 := bigSep s (slotA1 tb jx d L n)
def pileBV1 (n : ℕ) (s : Finset Blk1) : sProp 𝕄 := bigSep s (slotB1 tb jx d L n)

omit [FloatOps F] in
theorem pileAV1_out (n : ℕ) {s : Finset Blk1} {p : Blk1} (hp : p ∈ s) :
    (pileAV1 (F := F) tb jx d L n s : sProp 𝕄) = iprop(slotA1 tb jx d L n p ∗ pileAV1 tb jx d L n (s.erase p)) := by
  unfold pileAV1; exact SparseCore.bigSep_erase' hp
omit [FloatOps F] in
theorem pileBV1_out (n : ℕ) {s : Finset Blk1} {p : Blk1} (hp : p ∈ s) :
    (pileBV1 (F := F) tb jx d L n s : sProp 𝕄) = iprop(slotB1 tb jx d L n p ∗ pileBV1 tb jx d L n (s.erase p)) := by
  unfold pileBV1; exact SparseCore.bigSep_erase' hp

omit [FloatOps F] in
theorem slotA1_mono {n n' : ℕ} {p : Blk1} (h : idxB1 p + 1 < n' → idxB1 p + 1 < n) :
    (slotA1 (F := F) tb jx d L n p : sProp 𝕄) ⊢ slotA1 tb jx d L n' p := by
  unfold slotA1
  iintro ⟨%f, H, %hf⟩
  iexists f; isplitl [H]; · iexact H
  ipureintro; exact fun h' => hf (h h')
omit [FloatOps F] in
theorem pileAV1_mono {n n' : ℕ} {s : Finset Blk1} (h : ∀ p ∈ s, idxB1 p + 1 < n' → idxB1 p + 1 < n) :
    (pileAV1 (F := F) tb jx d L n s : sProp 𝕄) ⊢ pileAV1 tb jx d L n' s := by
  unfold pileAV1
  exact SparseCore.ent (bigSep_mono fun p hp => slotA1_mono (F := F) tb jx d L (h p hp))
omit [FloatOps F] in
theorem slotB1_mono {n n' : ℕ} {p : Blk1} (h : idxB1 p + 1 < n' → idxB1 p + 1 < n) :
    (slotB1 (F := F) tb jx d L n p : sProp 𝕄) ⊢ slotB1 tb jx d L n' p := by
  unfold slotB1
  iintro ⟨%f, H, %hf⟩
  iexists f; isplitl [H]; · iexact H
  ipureintro; exact fun h' => hf (h h')
omit [FloatOps F] in
theorem pileBV1_mono {n n' : ℕ} {s : Finset Blk1} (h : ∀ p ∈ s, idxB1 p + 1 < n' → idxB1 p + 1 < n) :
    (pileBV1 (F := F) tb jx d L n s : sProp 𝕄) ⊢ pileBV1 tb jx d L n' s := by
  unfold pileBV1
  exact SparseCore.ent (bigSep_mono fun p hp => slotB1_mono (F := F) tb jx d L (h p hp))

def pendNoneV1 : sProp 𝕄 :=
  iprop((∃ fra, (raV).view.loc (thr1 d L) ↦{fullShare} fra) ∗ (∃ frb, (rbV).view.loc (thr1 d L) ↦{fullShare} frb)
    ∗ semVal (dcell d (cV1 L) (jV1 L) cc3_scratch6.sem) 0 ∗ semVal (dcell d (cV1 L) (jV1 L) cc3_scratch7.sem) 0
    ∗ pileAV1 tb jx d L 0 Finset.univ ∗ pileBV1 tb jx d L 0 Finset.univ)
def pendAtV1 (n : ℕ) (p : Blk1) : sProp 𝕄 :=
  iprop(∃ fra, ∃ frb, flAV1 tb jx d L p fra ∗ ((raV).view.loc (thr1 d L) ↦[Finset.univ \ (raV).view.set]{fullShare} fra)
    ∗ flBV1 tb jx d L p frb ∗ ((rbV).view.loc (thr1 d L) ↦[Finset.univ \ (rbV).view.set]{fullShare} frb)
    ∗ pileAV1 tb jx d L n (Finset.univ.erase p) ∗ pileBV1 tb jx d L n (Finset.univ.erase p))
def pendStV1 (n : ℕ) : sProp 𝕄 := if n = 0 then pendNoneV1 tb jx d L else pendAtV1 tb jx d L n (blk1 (n - 1))

omit [FloatOps F] in
theorem pendStV1_zero : pendStV1 (F := F) tb jx d L 0 = pendNoneV1 tb jx d L := if_pos rfl
omit [FloatOps F] in
theorem pendStV1_succ (m : ℕ) : pendStV1 (F := F) tb jx d L (m + 1) = pendAtV1 tb jx d L (m + 1) (blk1 m) := if_neg (Nat.succ_ne_zero m)

def inv3V_1 (O : CellTallies nD τ sig (HIx 2)) (W : Waits sig (HIx 2)) (t1 : Fin k3_t1_loop.trips) (j : ℕ) (_ : PUnit) : sProp 𝕄 :=
  iprop(Transfers.MayWaits (thr1 d L) (default : HIx 2) O
    ∗ (∃ fo, ((ibV).view.loc (thr1 d L) ↦{fullShare} fo) ∗ ⌜IdxEx1 jx d L t1 fo⌝)
    ∗ ((shV).view.loc (thr1 d L) ↦{(rdShare (L 1).val).left} shGV1 tb d L) ∗ ((shV).view.loc (thr1 d L) ↦{(rdShare (L 1).val).right} shGV1 tb d L)
    ∗ semVal (dcell d (cV1 L) (jV1 L) cc3_scratch4.sem) 0 ∗ semVal (dcell d (cV1 L) (jV1 L) cc3_scratch5.sem) 0
    ∗ pendStV1 tb jx d L (8 * t1.val + j)
    ∗ ∃ W', ⌜∀ p ∈ W', p ∈ W ∨ p.2 = none⌝ ∗ owes (thr1 d L) O W')

set_option maxHeartbeats 4000000 in
theorem t3_regionV1 (O : CellTallies nD τ sig (HIx 2)) (W : Waits sig (HIx 2)) (t1 : Fin k3_t1_loop.trips)
    (hr : InRange (L 0).val (idxSet1 L t1) (jx d)) (v13 v15 : BitVec 32) (j : Fin k3_t3_loop.trips) (acc : PUnit) :
    inv3V_1 tb jx d L O W t1 j.val acc
      ⊢ wp frame (wpE (defs₀ (F := F)) 𝒱₀ (thr1 d L) none) Set.univ
          (k3_t3_body L tV (Memref.isWhole_whole _) jV (Memref.isWhole_whole _) oV (Memref.isWhole_whole _) shV (Memref.isWhole_whole _)
            ibV (Memref.isWhole_whole _) raV (Memref.isWhole_whole _) rbV (Memref.isWhole_whole _) cc3_scratch4 cc3_scratch5 cc3_scratch6 cc3_scratch7 cc3_scoped0 cc3_scoped1 t1 v13 v15 j acc)
          (inv3V_1 tb jx d L O W t1 (j.val + 1)) := by
  unfold inv3V_1
  rw [show 8 * t1.val + (j.val + 1) = (8 * t1.val + j.val) + 1 from (Nat.add_assoc _ _ _).symm, pendStV1_succ, blk1_cur]
  rcases Nat.eq_zero_or_pos (8 * t1.val + j.val) with hn | hn
  · have hc2 : ¬ k3_cond2 t1 j = 1#1 := fun h => (k3_cond2_iff t1 j).mp h ⟨by omega, by omega⟩
    have hc3 : ¬ k3_cond3 t1 j = 1#1 := fun h => (k3_cond3_iff t1 j).mp h ⟨by omega, by omega⟩
    rw [hn, pendStV1_zero]
    unfold pendNoneV1
    rw [pileAV1_out (F := F) tb jx d L 0 (Finset.mem_univ (t1, j)), pileBV1_out (F := F) tb jx d L 0 (Finset.mem_univ (t1, j))]
    unfold slotA1 slotB1
    iintro ⟨#Hmw, ⟨%fo, Hib, %hex⟩, Hsh, Hsh2, Hs4, Hs5, ⟨⟨%fra, Hra⟩, ⟨%frb, Hrb⟩, Hs6, Hs7, ⟨⟨%fa, HoA, -⟩, HpA⟩, ⟨⟨%fb, HoB, -⟩, HpB⟩⟩, %W', %hW', HO⟩
    have hfo : IdxOk fo := idxOk1_of_ex (F := F) jx d L t1 hr fo hex
    have hinA : ∀ x, ((offA1 j).view.read (Elt F) fo x).toNat < S10000x128.size gathers_S10000x128_S128x128.axis := fun x => hfo _
    have hinB : ∀ x, ((offB1 j).view.read (Elt F) fo x).toNat < S10000x128.size gathers_S10000x128_S128x128.axis := fun x => hfo _
    ihave HoA' := (Entails.of_eq (pts_outA1 (F := F) d L t1 j _).symm) $$ HoA
    ihave HoB' := (Entails.of_eq (pts_outB1 (F := F) d L t1 j _).symm) $$ HoB
    sl_exec
    sl_step
    isplitr; · iexact Hmw
    isplitl [Hib]; · iexists fo; isplitl [Hib]; · iexact Hib
                     ipureintro; exact hex
    isplitl [Hsh]; · iexact Hsh
    isplitl [Hsh2]; · iexact Hsh2
    isplitl [Hs4]; · iexact Hs4
    isplitl [Hs5]; · iexact Hs5
    isplitl [Hs6 Hra Hs7 Hrb HpA HpB]
    · unfold pendAtV1
      iexists _; iexists _
      isplitl [Hs6]
      · iapply (flAV1_intro (F := F) tb jx d L (t1, j) _ _ (outA_val1 (F := F) d L (tb d) (jx d) t1 j hr fo hex _ hinA _ _)); iexact Hs6
      isplitl [Hra]; · iexact Hra
      isplitl [Hs7]
      · iapply (flBV1_intro (F := F) tb jx d L (t1, j) _ _ (outB_val1 (F := F) d L (tb d) (jx d) t1 j hr fo hex _ hinB _ _)); iexact Hs7
      isplitl [Hrb]; · iexact Hrb
      isplitl [HpA]
      · iapply (pileAV1_mono (F := F) tb jx d L (n := 0) (n' := 0 + 1) (fun p _ h => by omega)); iexact HpA
      · iapply (pileBV1_mono (F := F) tb jx d L (n := 0) (n' := 0 + 1) (fun p _ h => by omega)); iexact HpB
    iexists _; isplitr
    swap; · iexact HO
    ipureintro; intro p hp
    rcases Finset.mem_insert.mp hp with hp | hp; · exact .inr (hp ▸ rfl)
    rcases Finset.mem_insert.mp hp with hp | hp; · exact .inr (hp ▸ rfl)
    exact hW' p hp
  · obtain ⟨m, hm⟩ : ∃ m, 8 * t1.val + j.val = m + 1 := ⟨8 * t1.val + j.val - 1, by omega⟩
    have hc2 : k3_cond2 t1 j = 1#1 := (k3_cond2_iff t1 j).mpr (by omega)
    have hc3 : k3_cond3 t1 j = 1#1 := (k3_cond3_iff t1 j).mpr (by omega)
    have hne : (t1, j) ∈ (Finset.univ : Finset Blk1).erase (blk1 m) := Finset.mem_erase.mpr ⟨blk1_ne_succ t1 j hm, Finset.mem_univ _⟩
    rw [hm, pendStV1_succ]
    unfold pendAtV1
    rw [pileAV1_out (F := F) tb jx d L (m + 1) hne, pileBV1_out (F := F) tb jx d L (m + 1) hne]
    unfold slotA1 slotB1
    iintro ⟨#Hmw, ⟨%fo, Hib, %hex⟩, Hsh, Hsh2, Hs4, Hs5, ⟨%fra, %frb, Hs6, Hra, Hs7, Hrb, ⟨⟨%fa, HoA, -⟩, HpA⟩, ⟨⟨%fb, HoB, -⟩, HpB⟩⟩, %W', %hW', HO⟩
    have hfo : IdxOk fo := idxOk1_of_ex (F := F) jx d L t1 hr fo hex
    have hinA : ∀ x, ((offA1 j).view.read (Elt F) fo x).toNat < S10000x128.size gathers_S10000x128_S128x128.axis := fun x => hfo _
    have hinB : ∀ x, ((offB1 j).view.read (Elt F) fo x).toNat < S10000x128.size gathers_S10000x128_S128x128.axis := fun x => hfo _
    ihave HoA' := (Entails.of_eq (pts_outA1 (F := F) d L t1 j _).symm) $$ HoA
    ihave HoB' := (Entails.of_eq (pts_outB1 (F := F) d L t1 j _).symm) $$ HoB
    sl_exec
    sl_step
    isplitr; · iexact Hmw
    isplitl [Hib]; · iexists fo; isplitl [Hib]; · iexact Hib
                     ipureintro; exact hex
    isplitl [Hsh]; · iexact Hsh
    isplitl [Hsh2]; · iexact Hsh2
    isplitl [Hs4]; · iexact Hs4
    isplitl [Hs5]; · iexact Hs5
    isplitl [Hs6 Hra Hs7 Hrb HpA HpB Hs6_dst Hs7_dst]
    · iexists _; iexists _
      isplitl [Hs6]
      · iapply (flAV1_intro (F := F) tb jx d L (t1, j) _ _ (outA_val1 (F := F) d L (tb d) (jx d) t1 j hr fo hex _ hinA _ _)); iexact Hs6
      isplitl [Hra]; · iexact Hra
      isplitl [Hs7]
      · iapply (flBV1_intro (F := F) tb jx d L (t1, j) _ _ (outB_val1 (F := F) d L (tb d) (jx d) t1 j hr fo hex _ hinB _ _)); iexact Hs7
      isplitl [Hrb]; · iexact Hrb
      have hne' : blk1 m ∈ (Finset.univ : Finset Blk1).erase (t1, j) := Finset.mem_erase.mpr ⟨(blk1_ne_succ t1 j hm).symm, Finset.mem_univ _⟩
      have hmono : ∀ p ∈ ((Finset.univ : Finset Blk1).erase (blk1 m)).erase (t1, j), idxB1 p + 1 < m + 1 + 1 → idxB1 p + 1 < m + 1 := fun p hp h => by
        have := idxB1_ne (Finset.ne_of_mem_erase (Finset.mem_of_mem_erase hp)); omega
      isplitl [HpA Hs6_dst]
      · rw [pileAV1_out (F := F) tb jx d L (m + 1 + 1) hne', Finset.erase_right_comm (a := (t1, j)) (b := blk1 m)]
        isplitl [Hs6_dst]
        · unfold slotA1
          icases Hs6_dst with ⟨%f, H, %hv⟩
          iexists f; isplitl [H]; · iexact H
          ipureintro; exact fun _ => hv
        iapply (pileAV1_mono (F := F) tb jx d L hmono); iexact HpA
      · rw [pileBV1_out (F := F) tb jx d L (m + 1 + 1) hne', Finset.erase_right_comm (a := (t1, j)) (b := blk1 m)]
        isplitl [Hs7_dst]
        · unfold slotB1
          icases Hs7_dst with ⟨%f, H, %hv⟩
          iexists f; isplitl [H]; · iexact H
          ipureintro; exact fun _ => hv
        iapply (pileBV1_mono (F := F) tb jx d L hmono); iexact HpB
    iexists _; isplitr
    swap; · iexact HO
    ipureintro; intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact hW' p hp

/-- After `k` trips of the subtraction: the words below `16 k` are their index words less the row offset, the others still
    the index words. -/
def SubEx1 (t1 : Fin k3_t1_loop.trips) (k : ℕ) (fo : Buf (Elt F) ((thr1 d L).loc cc3_scratch1)) : Prop :=
  ∀ y : S2048.Idx, (ibV).view.read (Elt F) fo y = if (y 0).val < 16 * k then JV1 jx d L t1 y - off1 L else JV1 jx d L t1 y

theorem subEx1_step (t1 : Fin k3_t1_loop.trips) (t2 : Fin k3_t2_loop.trips) (fo : Buf (Elt F) ((thr1 d L).loc cc3_scratch1))
    (h : SubEx1 (F := F) jx d L t1 t2.val fo) :
    SubEx1 (F := F) jx d L t1 (t2.val + 1)
      ((ibV).view.writes (Elt F) fo [⟨subR1 t2, k3_pay1 L ((ibV).view.readAt (Elt F) (subR1 t2).toLoadRect fo)⟩]) := by
  have hoff : k3_off4 t2 = ![16 * t2.val] := k3_off4_eq t2
  intro y
  by_cases hy : y ∈ (subR1 t2).set
  · obtain ⟨x, rfl⟩ := (subR1 t2).exists_idx_of_mem hy
    have hx0 : (((subR1 t2).idx x) 0 : ℕ) = 16 * t2.val + (x 0).val := by
      rw [LoadRect.idx_apply]; simp [hoff]
    have hxl : (x 0).val < 16 := (x 0).isLt
    rw [if_pos (by rw [hx0]; omega)]
    rw [show (subR1 t2).idx x = (subR1 t2).emb x from rfl, View.read_writes_cons_emb]
    rw [k3_pay1_exact (F := F) L, View.readAt_apply]
    have hy' := h ((subR1 t2).toLoadRect.idx x)
    rw [if_neg (by rw [show ((subR1 t2).toLoadRect.idx x) = (subR1 t2).idx x from rfl, hx0]; omega)] at hy'
    rw [hy']; rfl
  · rw [View.read_writes_apply_of_forall_not_mem _ _ y _ (fun p hp => by rw [List.mem_singleton.mp hp]; exact hy)]
    have hy0 : ¬ (16 * t2.val ≤ (y 0).val ∧ (y 0).val < 16 * t2.val + 16) := by
      intro hh; apply hy
      rw [Rect.mem_set_unit]
      intro a
      have ha : a = 0 := Subsingleton.elim _ _
      subst ha
      simp [hoff]; omega
    have hy' := h y
    by_cases hlt : (y 0).val < 16 * t2.val
    · rw [if_pos hlt] at hy'; rw [if_pos (by omega)]; exact hy'
    · rw [if_neg hlt] at hy'; rw [if_neg (by omega)]; exact hy'

def inv2V_1 (t1 : Fin k3_t1_loop.trips) (k : ℕ) (_ : PUnit) : sProp 𝕄 :=
  iprop(∃ fo, ((ibV).view.loc (thr1 d L) ↦{fullShare} fo) ∗ ⌜SubEx1 jx d L t1 k fo⌝)

set_option maxHeartbeats 2000000 in
theorem t2_regionV1 (t1 : Fin k3_t1_loop.trips) (t2 : Fin k3_t2_loop.trips) (acc : PUnit) :
    inv2V_1 (F := F) jx d L t1 t2.val acc
      ⊢ wp frame (wpE (defs₀ (F := F)) 𝒱₀ (thr1 d L) none) Set.univ
          (k3_t2_body L tV (Memref.isWhole_whole _) jV (Memref.isWhole_whole _) oV (Memref.isWhole_whole _) shV (Memref.isWhole_whole _)
            ibV (Memref.isWhole_whole _) raV (Memref.isWhole_whole _) rbV (Memref.isWhole_whole _) cc3_scratch4 cc3_scratch5 cc3_scratch6 cc3_scratch7 cc3_scoped0 cc3_scoped1 t2 acc)
          (inv2V_1 (F := F) jx d L t1 (t2.val + 1)) := by
  unfold inv2V_1
  iintro ⟨%fo, Hib, %h⟩
  sl_exec
  sl_step
  iexists _; isplitl [Hib]; · iexact Hib
  ipureintro; exact subEx1_step (F := F) jx d L t1 t2 fo h

omit [FloatOps F] in
theorem subEx1_init (t1 : Fin k3_t1_loop.trips) (fib : Buf (Elt F) ((thr1 d L).loc cc3_scratch1)) :
    SubEx1 (F := F) jx d L t1 0 ((ibV).view.write (Elt F) fib (ReadAs.same.apply ((idxM1 L t1).view.read (Elt F) (jx d))) Finset.univ) := by
  intro y
  rw [if_neg (by omega), View.read_write_univ]
  rfl

omit [FloatOps F] in
theorem idxEx1_of_sub (t1 : Fin k3_t1_loop.trips) (fo : Buf (Elt F) ((thr1 d L).loc cc3_scratch1))
    (h : SubEx1 (F := F) jx d L t1 k3_t2_loop.trips fo) : IdxEx1 (F := F) jx d L t1 fo := fun y => by
  have hy : (y 0).val < 2048 := (y 0).isLt
  have := h y
  rw [if_pos (by rw [k3_t2_trips]; omega)] at this
  exact this

def inv1V_1 (O : CellTallies nD τ sig (HIx 2)) (W : Waits sig (HIx 2)) (k : ℕ) (_ : PUnit) : sProp 𝕄 :=
  iprop(Transfers.MayWaits (thr1 d L) (default : HIx 2) O
    ∗ idxPieceV1 jx d L
    ∗ (∃ fo, (ibV).view.loc (thr1 d L) ↦{fullShare} fo)
    ∗ ((shV).view.loc (thr1 d L) ↦{(rdShare (L 1).val).left} shGV1 tb d L) ∗ ((shV).view.loc (thr1 d L) ↦{(rdShare (L 1).val).right} shGV1 tb d L)
    ∗ semVal (dcell d (cV1 L) (jV1 L) cc3_scoped1.sem) 0
    ∗ semVal (dcell d (cV1 L) (jV1 L) cc3_scratch4.sem) 0 ∗ semVal (dcell d (cV1 L) (jV1 L) cc3_scratch5.sem) 0
    ∗ pendStV1 tb jx d L (8 * k)
    ∗ ∃ W', ⌜∀ p ∈ W', p ∈ W ∨ p.2 = none⌝ ∗ owes (thr1 d L) O W')

set_option maxHeartbeats 4000000 in
theorem t1_regionV1 (hr : ∀ t1, InRange (L 0).val (idxSet1 L t1) (jx d)) (O : CellTallies nD τ sig (HIx 2)) (W : Waits sig (HIx 2)) (v5 : BitVec 32)
    (t1 : Fin k3_t1_loop.trips) (acc : PUnit) :
    inv1V_1 tb jx d L O W t1.val acc
      ⊢ wp frame (wpE (defs₀ (F := F)) 𝒱₀ (thr1 d L) none) Set.univ
          (k3_t1_body L tV (Memref.isWhole_whole _) jV (Memref.isWhole_whole _) oV (Memref.isWhole_whole _) shV (Memref.isWhole_whole _)
            ibV (Memref.isWhole_whole _) raV (Memref.isWhole_whole _) rbV (Memref.isWhole_whole _) cc3_scratch4 cc3_scratch5 cc3_scratch6 cc3_scratch7 cc3_scoped0 cc3_scoped1 v5 t1 acc)
          (inv1V_1 tb jx d L O W (t1.val + 1)) := by
  unfold inv1V_1 idxPieceV1
  iintro ⟨#Hmw, Hidx, ⟨%fib, Hib⟩, Hsh, Hsh2, Hp1, Hs4, Hs5, Hpend, %W', %hW', HO⟩
  ihave Hsp := (Entails.of_eq (SparseCore.bigSep_erase' (Finset.mem_univ t1)
    (Φ := fun t : Fin k3_t1_loop.trips => (idxLoc1 d ↦[idxSet1 L t]{fullShare} jx d : sProp 𝕄)))) $$ Hidx
  icases Hsp with ⟨Hi, Hirest⟩
  ihave Hi' := (Entails.of_eq (pts_idx1 (F := F) d L t1 _).symm) $$ Hi
  sl_exec
  sl_for (inv2V_1 (F := F) jx d L t1) $$ [Hib]
  case region => exact fun t2 acc => t2_regionV1 (F := F) jx d L t1 t2 acc
  · unfold inv2V_1
    iexists _; isplitl [Hib]; · iexact Hib
    ipureintro; exact subEx1_init (F := F) jx d L t1 fib
  iintro %_ HI
  unfold inv2V_1
  icases HI with ⟨%fo, Hib, %hsub⟩
  have hex : IdxEx1 (F := F) jx d L t1 fo := idxEx1_of_sub (F := F) jx d L t1 fo hsub
  sl_for (inv3V_1 tb jx d L O (insert (SemLoc.dma cc3_scoped1.sem, (default : HIx 2)) W') t1) $$ [Hib Hsh Hsh2 Hs4 Hs5 Hpend HO]
  case region => exact fun j acc => t3_regionV1 tb jx d L O _ t1 (hr t1) _ _ j acc
  · unfold inv3V_1
    isplitr; · iexact Hmw
    isplitl [Hib]; · iexists fo; isplitl [Hib]; · iexact Hib
                     ipureintro; exact hex
    isplitl [Hsh]; · iexact Hsh
    isplitl [Hsh2]; · iexact Hsh2
    isplitl [Hs4]; · iexact Hs4
    isplitl [Hs5]; · iexact Hs5
    isplitl [Hpend]; · iexact Hpend
    iexists _; isplitr
    swap; · iexact HO
    ipureintro; exact fun p hp => .inl hp
  iintro %_ HI
  unfold inv3V_1
  icases HI with ⟨-, ⟨%fo', Hib, -⟩, Hsh, Hsh2, Hs4, Hs5, Hpend, %W'', %hW'', HO⟩
  sl_exec
  sl_step
  isplitr; · iexact Hmw
  isplitl [Hi' Hirest]
  · iapply (Entails.of_eq (SparseCore.bigSep_erase' (Finset.mem_univ t1)
      (Φ := fun t : Fin k3_t1_loop.trips => (idxLoc1 d ↦[idxSet1 L t]{fullShare} jx d : sProp 𝕄))).symm)
    isplitl [Hi']; · iapply (Entails.of_eq (pts_idx1 (F := F) d L t1 _)); iexact Hi'
    iexact Hirest
  isplitl [Hib]; · iexists _; iexact Hib
  isplitl [Hsh]; · iexact Hsh
  isplitl [Hsh2]; · iexact Hsh2
  isplitl [Hp1]; · iexact Hp1
  isplitl [Hs4]; · iexact Hs4
  isplitl [Hs5]; · iexact Hs5
  isplitl [Hpend]
  · iapply (Entails.of_eq (congrArg (pendStV1 (F := F) tb jx d L) (show 8 * t1.val + k3_t3_loop.trips = 8 * (t1.val + 1) by rw [k3_t3_trips]; omega))); iexact Hpend
  iexists W''; isplitr
  swap; · iexact HO
  ipureintro; intro p hp
  rcases hW'' p hp with h | h
  · rcases Finset.mem_insert.mp h with h | h
    · exact .inr (h ▸ rfl)
    · exact hW' p h
  · exact .inr h

/-- A writing tile splits its rows' share, the rows holding the table's rows: what it keeps aside, and for every tile's
    barrier cell the duty's payload; a tile that writes nothing pays with nothing. -/
theorem pays_introV1 :
    shPieceV1 (F := F) tb fullShare d L ⊢ iprop(shPieceV1 tb restShare d L
      ∗ bigSep Finset.univ fun j : Fin (grid3.bound 1) => (bRdV (F := F) tb).payload (bcell d (cV1 L) (j.castLE hsub3)) 1 (jV1 L).val) := by
  unfold shPieceV1
  by_cases h : k3_cond1 L = 1#1
  · have hn : (jV1 L).val < 10 := (k3_cond1_iff L).mp h
    rw [dif_pos h, dif_pos h]
    iintro H
    ihave H2 := (Transfers.pointsTo_toks_split (ℓ := sh1Loc d (cV1 L)) (S := shSet1 L h) (f := shG (tb d) (L 0).val) fullShare (grid3.bound 1)) $$ H
    icases H2 with ⟨Hrest, Htoks⟩
    isplitl [Hrest]; · iexact Hrest
    have hj : ∀ j : Fin (grid3.bound 1), (sh1Loc d (cV1 L) ↦[shSet1 L h]{Transfers.shareTok fullShare (grid3.bound 1) j} shG (tb d) (L 0).val : sProp 𝕄)
        ⊢ (bRdV (F := F) tb).payload (bcell d (cV1 L) (j.castLE hsub3)) 1 (jV1 L).val := by
      intro j
      show _ ⊢ bPayV tb (bcell d (cV1 L) (j.castLE hsub3)) 1 (jV1 L).val
      unfold bPayV; dsimp only
      rw [dif_pos hn, if_neg (by decide), shSet1_eq L h]
      iintro H; iexact H
    iapply (SparseCore.ent (bigSep_mono fun j _ => hj j)) $$ Htoks
  · have hn : ¬ (jV1 L).val < 10 := fun hh => h ((k3_cond1_iff L).mpr hh)
    rw [dif_neg h, dif_neg h]
    iintro -
    isplitr; · iempintro
    have he : (fun j : Fin (grid3.bound 1) => (bRdV (F := F) tb).payload (bcell d (cV1 L) (j.castLE hsub3)) 1 (jV1 L).val) = fun _ => (iprop(emp) : sProp 𝕄) := by
      funext j
      show bPayV tb (bcell d (cV1 L) (j.castLE hsub3)) 1 (jV1 L).val = _
      unfold bPayV; dsimp only
      rw [dif_neg hn]
    rw [he, show (bigSep Finset.univ fun _ : Fin (grid3.bound 1) => (iprop(emp) : sProp 𝕄)) = iprop(emp) from bigSep_emp_const _]; iempintro

/-- What a tile reads off its own barrier cell's round: its read share of the whole scratch, at the table's rows. -/
theorem pays_elimV1 :
    bigSep ((bRdV (F := F) tb).duties (bcell d (cV1 L) (jV1 L)) 1 \ ∅) (fun m => (bRdV (F := F) tb).payload (bcell d (cV1 L) (jV1 L)) 1 m)
      ⊢ iprop(sh1Loc d (cV1 L) ↦{rdShare (L 1).val} shG (tb d) (L 0).val) := by
  rw [Finset.sdiff_empty, bRdV_duties tb d _ _ (by decide : 1 < 2), SparseCore.bigSep_image_of_injOn (fun a _ b _ e => Fin.val_injective e)]
  have he : (fun i : Fin τ.nSub => (bRdV (F := F) tb).payload (bcell d (cV1 L) (jV1 L)) 1 i.val)
      = fun i : Fin τ.nSub => if hi : i.val < 10 then iprop(sh1Loc d (cV1 L) ↦[shRowSet ⟨i.val, hi⟩]{rdShare (L 1).val} shG (tb d) (L 0).val) else iprop(emp) := by
    funext i
    show bPayV tb (bcell d (cV1 L) (jV1 L)) 1 i.val = _
    unfold bPayV; dsimp only
    by_cases hi : i.val < 10
    · rw [dif_pos hi, dif_pos hi, if_neg (by decide)]; rfl
    · rw [dif_neg hi, dif_neg hi]
  rw [he, bigSep_fin_dite (F := F) (show 10 ≤ τ.nSub by decide) (fun n : Fin 10 => iprop(sh1Loc d (cV1 L) ↦[shRowSet n]{rdShare (L 1).val} shG (tb d) (L 0).val)),
    ← pointsTo_biUnion Finset.univ (ℓ := sh1Loc d (cV1 L)) shRowSet shRows_disjoint, shRows_cover]

omit [FloatOps F] in
theorem slotA1_of_ex (p : Blk1) : (iprop(∃ f, outLoc1 d ↦[outASet1 L p.1 p.2]{fullShare} f) : sProp 𝕄) ⊢ slotA1 (F := F) tb jx d L 0 p := by
  unfold slotA1
  iintro ⟨%f, H⟩; iexists f; isplitl [H]; · iexact H
  ipureintro; intro h; omega
omit [FloatOps F] in
theorem slotB1_of_ex (p : Blk1) : (iprop(∃ f, outLoc1 d ↦[outBSet1 L p.1 p.2]{fullShare} f) : sProp 𝕄) ⊢ slotB1 (F := F) tb jx d L 0 p := by
  unfold slotB1
  iintro ⟨%f, H⟩; iexists f; isplitl [H]; · iexact H
  ipureintro; intro h; omega
omit [FloatOps F] in
/-- The output blocks at whatever they hold are the piles before the first pair of gathers. -/
theorem outPiece1_pilesV : (outPiece1 (F := F) d L : sProp 𝕄) ⊢ iprop(pileAV1 tb jx d L 0 Finset.univ ∗ pileBV1 tb jx d L 0 Finset.univ) := by
  rw [outPiece1_piles]
  unfold pileA1 pileB1 pileAV1 pileBV1
  iintro ⟨HA, HB⟩
  isplitl [HA]
  · iapply (SparseCore.ent (bigSep_mono fun p _ => slotA1_of_ex (F := F) tb jx d L p)) $$ HA
  · iapply (SparseCore.ent (bigSep_mono fun p _ => slotB1_of_ex (F := F) tb jx d L p)) $$ HB

omit [FloatOps F] in
theorem slotA1_val (p : Blk1) (hp : idxB1 p + 1 < 40) :
    (slotA1 (F := F) tb jx d L 40 p : sProp 𝕄) ⊢ iprop(outLoc1 d ↦[outASet1 L p.1 p.2]{fullShare} GV1 tb jx d) := by
  unfold slotA1
  iintro ⟨%f, H, %hf⟩
  iapply (Entails.of_eq (pointsTo_congr (hf hp))); iexact H
omit [FloatOps F] in
theorem slotB1_val (p : Blk1) (hp : idxB1 p + 1 < 40) :
    (slotB1 (F := F) tb jx d L 40 p : sProp 𝕄) ⊢ iprop(outLoc1 d ↦[outBSet1 L p.1 p.2]{fullShare} GV1 tb jx d) := by
  unfold slotB1
  iintro ⟨%f, H, %hf⟩
  iapply (Entails.of_eq (pointsTo_congr (hf hp))); iexact H

omit [FloatOps F] in
theorem idxB1_lt (p : Blk1) : idxB1 p < 40 := by
  have h1 : p.1.val < 5 := lt_of_lt_of_eq p.1.isLt k3_t1_trips
  have h3 : p.2.val < 8 := lt_of_lt_of_eq p.2.isLt k3_t3_trips
  unfold idxB1; omega
omit [FloatOps F] in
theorem idxB1_blk39 : idxB1 (blk1 39) = 39 := by
  unfold idxB1 blk1; rfl

/-- After the last copy-outs have landed every output block holds the gathered rows. -/
theorem pilesV1_final :
    iprop(pileAV1 (F := F) tb jx d L 40 (Finset.univ.erase (blk1 39)) ∗ pileBV1 tb jx d L 40 (Finset.univ.erase (blk1 39))
        ∗ (∃ f, (outLoc1 d ↦[outASet1 L (blk1 39).1 (blk1 39).2]{fullShare} f) ∗ ⌜valOn1 tb jx d (outASet1 L (blk1 39).1 (blk1 39).2) f⌝)
        ∗ (∃ f, (outLoc1 d ↦[outBSet1 L (blk1 39).1 (blk1 39).2]{fullShare} f) ∗ ⌜valOn1 tb jx d (outBSet1 L (blk1 39).1 (blk1 39).2) f⌝))
      ⊢ outPieceV1 tb jx d L := by
  have hlt : ∀ p ∈ (Finset.univ : Finset Blk1).erase (blk1 39), idxB1 p + 1 < 40 := fun p hp => by
    have h1 := idxB1_lt p
    have h2 := idxB1_ne (Finset.ne_of_mem_erase hp)
    omega
  unfold outPieceV1
  rw [bigSep_pairs (F := F) (fun p : Blk1 => (outLoc1 d ↦[outASet1 L p.1 p.2]{fullShare} gatherRows (tb d) (jx d) : sProp 𝕄))
      (fun p : Blk1 => (outLoc1 d ↦[outBSet1 L p.1 p.2]{fullShare} gatherRows (tb d) (jx d) : sProp 𝕄)),
    SparseCore.bigSep_erase' (Finset.mem_univ (blk1 39)) (Φ := fun p : Blk1 => (outLoc1 d ↦[outASet1 L p.1 p.2]{fullShare} gatherRows (tb d) (jx d) : sProp 𝕄)),
    SparseCore.bigSep_erase' (Finset.mem_univ (blk1 39)) (Φ := fun p : Blk1 => (outLoc1 d ↦[outBSet1 L p.1 p.2]{fullShare} gatherRows (tb d) (jx d) : sProp 𝕄))]
  unfold pileAV1 pileBV1
  iintro ⟨HA, HB, ⟨%fa, Ha, %ha⟩, ⟨%fb, Hb, %hb⟩⟩
  isplitl [HA Ha]
  · isplitl [Ha]; · iapply (Entails.of_eq (pointsTo_congr ha)); iexact Ha
    iapply (SparseCore.ent (bigSep_mono fun p hp => slotA1_val (F := F) tb jx d L p (hlt p hp))) $$ HA
  · isplitl [Hb]; · iapply (Entails.of_eq (pointsTo_congr hb)); iexact Hb
    iapply (SparseCore.ent (bigSep_mono fun p hp => slotB1_val (F := F) tb jx d L p (hlt p hp))) $$ HB

set_option maxHeartbeats 8000000 in
/-- From the barrier on: the barrier (the rows' read shares paid to every tile's cell, the tile's own round read), the five
    blocks, the two final waits, and what the task hands back. -/
theorem restV1 (hr : ∀ t1, InRange (L 0).val (idxSet1 L t1) (jx d)) (hF : (K (F := F)).Facts) (O : CellTallies nD τ sig (HIx 2)) (W : Waits sig (HIx 2)) (hO : ∀ g, O g none = 0)
    (hOlev : ∀ g ι, 0 < O g ι → 8 * (1 : Fin 2).val + 6 ≤ (K (F := F)).lev g ι) (κ : GSem nD τ sig → ℕ) (R₁ R₂ : sProp 𝕄) :
    iprop(levAts (K (F := F)).L (K (F := F)).lev
        ∗ (bigSep Finset.univ fun j : Fin (grid3.bound 1) => cellInv EB (bRdV (F := F) tb) (κ (bcell d (cV1 L) (j.castLE hsub3))) (bcell d (cV1 L) (j.castLE hsub3)))
        ∗ (bigSep Finset.univ fun j : Fin (grid3.bound 1) => dutyTok EB (bcell d (cV1 L) (j.castLE hsub3)) 1 (jV1 L).val)
        ∗ (bigSep Finset.univ fun j : Fin (grid3.bound 1) => reached EB (bcell d (cV1 L) (j.castLE hsub3)) 1)
        ∗ atPos EB (bcell d (cV1 L) (jV1 L)) 1 ∅ 0
        ∗ cred (tallyAt (bcell d (cV1 L) (jV1 L)) (some 1) (grid3.bound 1))
        ∗ idxPieceV1 jx d L ∗ outPiece1 d L ∗ tblPieceV1 tb d L ∗ shPieceV1 tb fullShare d L
        ∗ (∃ f, (thr1 d L).loc cc3_scratch1 ↦{fullShare} f) ∗ (∃ f, (thr1 d L).loc cc3_scratch2 ↦{fullShare} f) ∗ (∃ f, (thr1 d L).loc cc3_scratch3 ↦{fullShare} f)
        ∗ semVal (dcell d (cV1 L) (jV1 L) cc3_scratch4.sem) 0 ∗ semVal (dcell d (cV1 L) (jV1 L) cc3_scratch5.sem) 0
        ∗ semVal (dcell d (cV1 L) (jV1 L) cc3_scratch6.sem) 0 ∗ semVal (dcell d (cV1 L) (jV1 L) cc3_scratch7.sem) 0
        ∗ semVal (dcell d (cV1 L) (jV1 L) cc3_scoped0.sem) 0 ∗ semVal (dcell d (cV1 L) (jV1 L) cc3_scoped1.sem) 0
        ∗ R₁ ∗ R₂
        ∗ ∃ W₁, ⌜∀ p ∈ W₁, p ∈ W ∨ p.2 = none⌝ ∗ owes (thr1 d L) (O + oxV 1 d (cV1 L)) W₁)
      ⊢ wp frame (wpE (defs₀ (F := F)) 𝒱₀ (thr1 d L) none) Set.univ
          (k3_rest (F := F) L tV (Memref.isWhole_whole _) jV (Memref.isWhole_whole _) oV (Memref.isWhole_whole _) shV (Memref.isWhole_whole _)
            ibV (Memref.isWhole_whole _) raV (Memref.isWhole_whole _) rbV (Memref.isWhole_whole _) cc3_scratch4 cc3_scratch5 cc3_scratch6 cc3_scratch7 cc3_scoped0 cc3_scoped1)
          fun _ => iprop(tdV1 tb jx d L
            ∗ ((∃ f, (thr1 d L).loc cc3_scratch1 ↦{fullShare} f) ∗ (∃ f, (thr1 d L).loc cc3_scratch2 ↦{fullShare} f) ∗ (∃ f, (thr1 d L).loc cc3_scratch3 ↦{fullShare} f) ∗ R₁)
            ∗ (semVal (dcell d (cV1 L) (jV1 L) cc3_scratch4.sem) 0 ∗ semVal (dcell d (cV1 L) (jV1 L) cc3_scratch5.sem) 0
              ∗ semVal (dcell d (cV1 L) (jV1 L) cc3_scratch6.sem) 0 ∗ semVal (dcell d (cV1 L) (jV1 L) cc3_scratch7.sem) 0
              ∗ semVal (dcell d (cV1 L) (jV1 L) cc3_scoped0.sem) 0 ∗ semVal (dcell d (cV1 L) (jV1 L) cc3_scoped1.sem) 0 ∗ R₂)
            ∗ ∃ W', ⌜∀ p ∈ W', p ∈ W ∨ p.2 = none ∨ p.2 = some (1 : Fin 2)⌝ ∗ owes (thr1 d L) O W') := by
  unfold k3_rest
  iintro ⟨#Hlv, #Hinv, Htoks, #Hrch, Hat, Hcred, Hidx, Hout, Htbl, Hsh, ⟨%fib, Hib⟩, ⟨%fra, Hra⟩, ⟨%frb, Hrb⟩, Hs4, Hs5, Hs6, Hs7, Hp0, Hp1, HR₁, HR₂, %W₁, %hW₁, HO⟩
  have hO' : ∀ g, (O + oxV 1 d (cV1 L)) g none = 0 := fun g => by rw [Pi.add_apply, Finsupp.add_apply, hO g, oxV_none]
  ihave Hmw2 := (show levAts (K (F := F)).L (K (F := F)).lev ⊢ Transfers.MayWaits (thr1 d L) (default : HIx 2) O from
    (K (F := F)).mayWaits_none (thr := thr1 d L) hO) $$ Hlv
  -- the barrier
  ihave Hp := (pays_introV1 (F := F) tb d L) $$ Hsh
  icases Hp with ⟨Hshrest, Hpays⟩
  iapply (SparseCore.wp_subcoreBarrier 𝒱₀ none EB (bRdV (F := F) tb) d (sc := cV1 L) (i := jV1 L) sc_bar0 (grid3.bound 1) hsub3 (L 1) rfl κ (fun _ => 1) (jV1 L).val
      (fun j => bRdV_mem tb d _ _ _ (by decide)) (fun _ => rfl) (bRdV_expect tb d _ _ (by decide)) (some 1) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := thr1 d L) (8 * (1 : Fin 2).val + 3) (fun p hp => by
        rw [Finset.mem_singleton] at hp; subst hp
        show (K (F := F)).lev (bcell d (cV1 L) (jV1 L)) (some 1) ≤ _
        rw [(K (F := F)).lev_V_reg d _ _ (show (sc_bar0 : Sem sig) ≠ (K (F := F)).go from sc_bar0_ne_go)])
      (fun g ι hg => lt_of_lt_of_le (by decide) (hOlev g ι hg)))
    iexact Hlv
  iintro ⟨HO, -, -, Hgot⟩
  ihave Hg := (pays_elimV1 (F := F) tb d L) $$ Hgot
  ihave Hg2 := (pointsTo_share (ℓ := sh1Loc d (cV1 L)) (I := Finset.univ) (f := shG (tb d) (L 0).val) (PosShare.mem_left_op_right (rdShare (L 1).val))).1 $$ Hg
  icases Hg2 with ⟨Hsh, Hsh2⟩
  ihave Hsh' := (Entails.of_eq (pts_shW1 (F := F) d L _ _).symm) $$ Hsh
  ihave Hsh2' := (Entails.of_eq (pts_shW1 (F := F) d L _ _).symm) $$ Hsh2
  ihave Hib' := (Entails.of_eq (pts_ib1 (F := F) d L _).symm) $$ Hib
  ihave Hra' := (Entails.of_eq (pts_ra1 (F := F) d L _).symm) $$ Hra
  ihave Hrb' := (Entails.of_eq (pts_rb1 (F := F) d L _).symm) $$ Hrb
  sl_exec
  -- the five blocks
  sl_for (inv1V_1 tb jx d L O (insert (SemLoc.reg sc_bar0, some (1 : Fin 2)) W₁)) $$ [Hidx Hib' Hsh' Hsh2' Hp1 Hs4 Hs5 Hra' Hrb' Hs6 Hs7 Hout HO]
  case region => exact fun t1 acc => t1_regionV1 tb jx d L hr O _ _ t1 acc
  · unfold inv1V_1
    isplitr; · iexact Hmw2
    isplitl [Hidx]; · iexact Hidx
    isplitl [Hib']; · iexists _; iexact Hib'
    isplitl [Hsh']; · iexact Hsh'
    isplitl [Hsh2']; · iexact Hsh2'
    isplitl [Hp1]; · iexact Hp1
    isplitl [Hs4]; · iexact Hs4
    isplitl [Hs5]; · iexact Hs5
    isplitl [Hra' Hrb' Hs6 Hs7 Hout]
    · rw [show 8 * 0 = 0 from rfl, pendStV1_zero]
      unfold pendNoneV1
      isplitl [Hra']; · iexists _; iexact Hra'
      isplitl [Hrb']; · iexists _; iexact Hrb'
      isplitl [Hs6]; · iexact Hs6
      isplitl [Hs7]; · iexact Hs7
      iapply (outPiece1_pilesV (F := F) tb jx d L); iexact Hout
    iexists _; isplitr
    swap; · iexact HO
    ipureintro; exact fun p hp => .inl hp
  iintro %_ HI
  unfold inv1V_1
  icases HI with ⟨-, Hidx, ⟨%fib', Hib⟩, Hsh, Hsh2, Hp1, Hs4, Hs5, Hpend, %W₂, %hW₂, HO⟩
  ihave Hpend' := (Entails.of_eq (congrArg (pendStV1 (F := F) tb jx d L) (show 8 * k3_t1_loop.trips = 39 + 1 by rw [k3_t1_trips]))) $$ Hpend
  ihave Hpend'' := (Entails.of_eq (pendStV1_succ (F := F) tb jx d L 39)) $$ Hpend'
  unfold pendAtV1
  icases Hpend'' with ⟨%fra', %frb', Hs6, Hra, Hs7, Hrb, HpA, HpB⟩
  -- the two final waits
  sl_exec
  sl_step
  isplitl [Hidx HpA HpB Hs6_dst Hs7_dst Htbl Hsh Hsh2 Hshrest]
  · unfold tdV1
    isplitl [Hidx]; · iexact Hidx
    isplitl [HpA HpB Hs6_dst Hs7_dst]
    · iapply (pilesV1_final (F := F) tb jx d L)
      isplitl [HpA]; · iexact HpA
      isplitl [HpB]; · iexact HpB
      isplitl [Hs6_dst]; · iexact Hs6_dst
      iexact Hs7_dst
    isplitl [Htbl]; · iexact Htbl
    isplitl [Hsh Hsh2]
    · iapply (pointsTo_share (ℓ := sh1Loc d (cV1 L)) (I := Finset.univ) (f := shG (tb d) (L 0).val) (PosShare.mem_left_op_right (rdShare (L 1).val))).2
      isplitl [Hsh]; · iapply (Entails.of_eq (pts_shW1 (F := F) d L _ _)); iexact Hsh
      iapply (Entails.of_eq (pts_shW1 (F := F) d L _ _)); iexact Hsh2
    iexact Hshrest
  isplitl [Hib Hra Hrb HR₁]
  · isplitl [Hib]; · iexists _; iapply (Entails.of_eq (pts_ib1 (F := F) d L _)); iexact Hib
    isplitl [Hra]; · iexists _; iapply (Entails.of_eq (pts_ra1 (F := F) d L _)); iexact Hra
    isplitl [Hrb]; · iexists _; iapply (Entails.of_eq (pts_rb1 (F := F) d L _)); iexact Hrb
    iexact HR₁
  isplitl [Hs4 Hs5 Hs6 Hs7 Hp0 Hp1 HR₂]
  · isplitl [Hs4]; · iexact Hs4
    isplitl [Hs5]; · iexact Hs5
    isplitl [Hs6]; · iexact Hs6
    isplitl [Hs7]; · iexact Hs7
    isplitl [Hp0]; · iexact Hp0
    isplitl [Hp1]; · iexact Hp1
    iexact HR₂
  iexists _; isplitr
  swap; · iexact HO
  ipureintro; intro p hp
  rcases Finset.mem_insert.mp hp with hp | hp; · exact .inr (.inl (hp ▸ rfl))
  rcases Finset.mem_insert.mp hp with hp | hp; · exact .inr (.inl (hp ▸ rfl))
  rcases hW₂ p hp with h | h
  · rcases Finset.mem_insert.mp h with h | h
    · exact .inr (.inr (h ▸ rfl))
    · exact (hW₁ p h).imp_right Or.inl
  · exact .inr (.inl h)

omit [FloatOps F] in
theorem tblPieceV1_pos (h : k3_cond1 L = 1#1) : tblPieceV1 (F := F) tb d L = iprop(tblLoc d ↦[tblSet1 L h]{fullShare} tb d) := dif_pos h
omit [FloatOps F] in
theorem shPieceV1_pos (q' : PosShare TreeShare) (h : k3_cond1 L = 1#1) : shPieceV1 (F := F) tb q' d L = iprop(sh1Loc d (cV1 L) ↦[shSet1 L h]{q'} shG (tb d) (L 0).val) := dif_pos h
omit [FloatOps F] in
theorem shPieceV1_neg (q' : PosShare TreeShare) (h : ¬ k3_cond1 L = 1#1) : shPieceV1 (F := F) tb q' d L = iprop(emp) := dif_neg h
set_option maxHeartbeats 4000000 in
/-- The task on vector subcore `(L 0, L 1)` of device `d`. -/
theorem tile_bodyV1 (hr : ∀ c : Fin 2, InRange c.val (halfJ c) (jx d)) (hF : (K (F := F)).Facts) (O : CellTallies nD τ sig (HIx 2)) (W : Waits sig (HIx 2)) (hO : ∀ g, O g none = 0)
    (hOlev : ∀ g ι, 0 < O g ι → 8 * (1 : Fin 2).val + 6 ≤ (K (F := F)).lev g ι) :
    iprop(levAts (K (F := F)).L (K (F := F)).lev ∗ kitV tb 1 d (cV1 L) (jV1 L) ∗ goV1 tb jx d L
        ∗ scopedBufs (V d (cV1 L) (jV1 L)) ∗ scopedSems0 (V d (cV1 L) (jV1 L)) ∗ owes (V d (cV1 L) (jV1 L)) (O + oxV 1 d (cV1 L)) W)
      ⊢ wp frame (wpE (defs₀ (F := F)) 𝒱₀ (V d (cV1 L) (jV1 L)) none) Set.univ
          (cc3_gather_kernel L tV (Memref.isWhole_whole _) jV (Memref.isWhole_whole _) oV (Memref.isWhole_whole _) shV (Memref.isWhole_whole _)
            ibV (Memref.isWhole_whole _) raV (Memref.isWhole_whole _) rbV (Memref.isWhole_whole _) cc3_scratch4 cc3_scratch5 cc3_scratch6 cc3_scratch7 cc3_scoped0 cc3_scoped1)
          fun _ => iprop(tdV1 tb jx d L ∗ scopedBufs (V d (cV1 L) (jV1 L)) ∗ scopedSems0 (V d (cV1 L) (jV1 L))
            ∗ ∃ W', ⌜∀ p ∈ W', p ∈ W ∨ p.2 = none ∨ p.2 = some (1 : Fin 2)⌝ ∗ owes (V d (cV1 L) (jV1 L)) O W') := by
  simp only [cc3_gather_kernel_eq_skeleton]; unfold cc3_gather_kernel_skel
  rw [(K (F := F)).scopedBufs_V hF d (cV1 L) (jV1 L), SparseCore.Cfg.scopedSems0_V (Val := Elt F) d (cV1 L) (jV1 L), ownSems0_V1, ownBufs_V1]
  unfold kitV goV1
  rw [if_neg (show ¬ ((1 : Fin 2).val = 0) by decide)]
  have hO' : ∀ g, (O + oxV 1 d (cV1 L)) g none = 0 := fun g => by rw [Pi.add_apply, Finsupp.add_apply, hO g, oxV_none]
  have hrL : ∀ t1, InRange (L 0).val (idxSet1 L t1) (jx d) := fun t1 r hr' => hr ⟨(L 0).val, (L 0).isLt⟩ r (idxSet1_subset L t1 hr')
  by_cases k3_h1 : k3_cond1 L = 1#1
  · -- a writing tile: its rows of the table into the shared scratch, waited for
    rw [tblPieceV1_pos (F := F) tb d L k3_h1, shPiece1_pos (F := F) d L fullShare k3_h1]
    iintro ⟨#Hlv, ⟨⟨%κ, #Hinv⟩, Htoks, -, Hcred⟩, ⟨Hidx, Hout, Htbl, ⟨%fsh, Hsh⟩, Hat, #Hrch⟩, ⟨⟨%fib, Hib⟩, ⟨%fra, Hra⟩, ⟨%frb, Hrb⟩, Hbufs⟩, ⟨Hs4, Hs5, Hs6, Hs7, Hp0, Hp1, Hsems⟩, HO⟩
    ihave Hmw1 := (show levAts (K (F := F)).L (K (F := F)).lev ⊢ Transfers.MayWaits (thr1 d L) (default : HIx 2) (O + oxV 1 d (cV1 L)) from
      (K (F := F)).mayWaits_none (thr := thr1 d L) hO') $$ Hlv
    ihave Htbl := (Entails.of_eq (pts_tbl1 (F := F) d L k3_h1 _).symm) $$ Htbl
    ihave Hsh := (Entails.of_eq (pts_sh1 (F := F) d L k3_h1 _ _).symm) $$ Hsh
    sl_exec
    iapply (restV1 (F := F) tb jx d L hrL hF O W hO hOlev κ _ _) $$ [Htoks Hat Hcred Hidx Hout Htbl Hsh Hib Hra Hrb Hbufs Hs4 Hs5 Hs6 Hs7 Hp0 Hp1 Hsems HO]
    isplitr; · iexact Hlv
    isplitr; · iexact Hinv
    isplitl [Htoks]; · iexact Htoks
    isplitr; · iexact Hrch
    isplitl [Hat]; · iexact Hat
    isplitl [Hcred]; · iexact Hcred
    isplitl [Hidx]; · iexact Hidx
    isplitl [Hout]; · iexact Hout
    isplitl [Htbl]; · iapply (Entails.of_eq (tblPieceV1_pos (F := F) tb d L k3_h1).symm); iapply (Entails.of_eq (pts_tbl1 (F := F) d L k3_h1 _)); iexact Htbl
    isplitl [Hsh]; · iapply (Entails.of_eq (shPieceV1_pos (F := F) tb d L fullShare k3_h1).symm); iapply (Entails.of_eq (pointsTo_congr (sh_copy_val1 (F := F) d L k3_h1 (tb d) fsh))); iapply (Entails.of_eq (pts_sh1 (F := F) d L k3_h1 _ _)); iexact Hsh
    isplitl [Hib]; · iexists _; iexact Hib
    isplitl [Hra]; · iexists _; iexact Hra
    isplitl [Hrb]; · iexists _; iexact Hrb
    isplitl [Hs4]; · iexact Hs4
    isplitl [Hs5]; · iexact Hs5
    isplitl [Hs6]; · iexact Hs6
    isplitl [Hs7]; · iexact Hs7
    isplitl [Hp0]; · iexact Hp0
    isplitl [Hp1]; · iexact Hp1
    isplitl [Hbufs]; · iexact Hbufs
    isplitl [Hsems]; · iexact Hsems
    iexists _; isplitr
    swap; · iexact HO
    ipureintro; intro p hp
    rcases Finset.mem_insert.mp hp with hp | hp; · exact .inr (hp ▸ rfl)
    exact .inl hp
  · -- a tile that writes nothing
    iintro ⟨#Hlv, ⟨⟨%κ, #Hinv⟩, Htoks, -, Hcred⟩, ⟨Hidx, Hout, Htbl, Hsh, Hat, #Hrch⟩, ⟨⟨%fib, Hib⟩, ⟨%fra, Hra⟩, ⟨%frb, Hrb⟩, Hbufs⟩, ⟨Hs4, Hs5, Hs6, Hs7, Hp0, Hp1, Hsems⟩, HO⟩
    sl_exec
    iapply (restV1 (F := F) tb jx d L hrL hF O W hO hOlev κ _ _) $$ [Htoks Hat Hcred Hidx Hout Htbl Hsh Hib Hra Hrb Hbufs Hs4 Hs5 Hs6 Hs7 Hp0 Hp1 Hsems HO]
    isplitr; · iexact Hlv
    isplitr; · iexact Hinv
    isplitl [Htoks]; · iexact Htoks
    isplitr; · iexact Hrch
    isplitl [Hat]; · iexact Hat
    isplitl [Hcred]; · iexact Hcred
    isplitl [Hidx]; · iexact Hidx
    isplitl [Hout]; · iexact Hout
    isplitl [Htbl]; · iexact Htbl
    isplitl [Hsh]; · iapply (Entails.of_eq (shPieceV1_neg (F := F) tb d L fullShare k3_h1).symm); iempintro
    isplitl [Hib]; · iexists _; iexact Hib
    isplitl [Hra]; · iexists _; iexact Hra
    isplitl [Hrb]; · iexists _; iexact Hrb
    isplitl [Hs4]; · iexact Hs4
    isplitl [Hs5]; · iexact Hs5
    isplitl [Hs6]; · iexact Hs6
    isplitl [Hs7]; · iexact Hs7
    isplitl [Hp0]; · iexact Hp0
    isplitl [Hp1]; · iexact Hp1
    isplitl [Hbufs]; · iexact Hbufs
    isplitl [Hsems]; · iexact Hsems
    iexists _; isplitr
    swap; · iexact HO
    ipureintro; intro p hp
    exact .inl hp

end TileV1

set_option maxRecDepth 16384 in
/-- Call 1's tile obligation with the contents carried, the index list's words in range. -/
theorem tileObl1V (tb : (d : Dev nD) → Buf (Elt F) (tblLoc d)) (j0 : (d : Dev nD) → Buf (Elt F) (idxLoc0 d)) (j1 : (d : Dev nD) → Buf (Elt F) (idxLoc1 d))
    (hr : ∀ (d : Dev nD) (c : Fin 2), InRange c.val (halfJ c) (j1 d)) :
    (K (F := F)).TileObl (D (F := F)) 𝒱 (PV (F := F) tb j0 j1) v₀ 1 := by
  intro d c i O W hO hOlev _
  have hci : ((K (F := F)).core 1 c).val < grid3.bound 0 ∧ ((K (F := F)).sub 1 i).val < grid3.bound 1 := ⟨c.isLt, i.isLt⟩
  change _ ⊢ wp _ _ _ (Pipeline.liftProg (defs₀ (F := F) (.scVector ((K (F := F)).core 1 c) ((K (F := F)).sub 1 i)) 3 ())) _
  refine BI.Entails.trans ?_ (Pipeline.wp_liftProg (D (F := F)) (Pipeline.defs_kernel pcfgs defs₀) 𝒱₀ _ Set.univ none _ _)
  rw [defs₀_vector1]; simp only [SparseCore.onTile, hci, and_self, ↓reduceDIte]
  exact tile_bodyV1 (F := F) tb j1 d (coords1 ⟨_, hci.1⟩ ⟨_, hci.2⟩) (hr d) facts O W hO hOlev

end Cert.Proof.Sc.V
-- ==== Proof.lean ====
/-
  The five conjuncts of the claim for a graph-network edge layer: per edge, the projection of the edge's features plus the
  rows of two projected node tables at the edge's end points, the activation x · logistic x, a second projection, and a layer
  normalisation over the 128 columns. The kernel computes the two node tables in one region, gathers their rows on the two
  SparseCores (each tile copying rows through a shared scratch filled before a subcore barrier), and runs the per-edge part
  in two regions of twenty blocks of 8000 edges; the reference is the plain array program.

  FRAMES. The reference's frame is its run written as a list of host operations. The kernel's frame, at the word level and
  at the extended reals alike, is the launch theorem for SparseCore programs applied to: one tile's obligation and the split
  of a SparseCore's operands for each gather; the launch element of the ghost state (handshakes, the barrier cells' two
  rounds, the three pipelines' staging cells); and @main on the TensorCore composed from five stretches of host operations,
  three kernel regions and two SparseCore calls, none of which writes an argument array. The index lists are in range because
  the edge list is (the precondition), which is what lets every indirect copy find its rows.
  PRESERVES. The idealization rewrote no operation: nothing to show.
  ALGEBRAIC. Both programs compute one function of the twelve arguments, stated once over the extended reals (per edge: the
  three projections summed, x · 1/(1 + exp(−x)), the second projection, the row centred and divided by the square root of its
  variance plus ε, scaled and shifted). The reference's result is that function read at an index. The kernel's run is proved
  again with every intermediate array named — the node tables, the index lists, the gathered rows (each the table's row at
  the index word, carried through the tiles' copies and the barrier), the two edge regions' blocks — and its result array is
  the same function, its last stage multiplying by the reciprocal square root, which at a positive radicand (a mean of squares
  plus ε) is dividing by the square root. From memories that agree on the arguments the two results are equal.
-/
import proofs.«217078_g14027363189340_cont_week2b_886_24_alg».proof.Defs
import proofs.«217078_g14027363189340_cont_week2b_886_24_alg».proof.Proof.Gen.Kernel
import proofs.«217078_g14027363189340_cont_week2b_886_24_alg».proof.Proof.Gen.KernelIdeal
import proofs.«217078_g14027363189340_cont_week2b_886_24_alg».proof.Proof.Gen.ReferenceIdeal
import proofs.«217078_g14027363189340_cont_week2b_886_24_alg».proof.Proof.Gen.Pre_input_domain
import proofs.«217078_g14027363189340_cont_week2b_886_24_alg».proof.Proof.KFrame
import proofs.«217078_g14027363189340_cont_week2b_886_24_alg».proof.Proof.ScTile
import proofs.«217078_g14027363189340_cont_week2b_886_24_alg».proof.Proof.ScTile1
import proofs.«217078_g14027363189340_cont_week2b_886_24_alg».proof.Proof.ScSplit
import proofs.«217078_g14027363189340_cont_week2b_886_24_alg».proof.Proof.Bits.KFrame
import proofs.«217078_g14027363189340_cont_week2b_886_24_alg».proof.Proof.Bits.ScTile
import proofs.«217078_g14027363189340_cont_week2b_886_24_alg».proof.Proof.Bits.ScTile1
import proofs.«217078_g14027363189340_cont_week2b_886_24_alg».proof.Proof.Bits.ScSplit
import proofs.«217078_g14027363189340_cont_week2b_886_24_alg».proof.Proof.RefRun
import proofs.«217078_g14027363189340_cont_week2b_886_24_alg».proof.Proof.RefValue
import proofs.«217078_g14027363189340_cont_week2b_886_24_alg».proof.Proof.KValueRun
import proofs.«217078_g14027363189340_cont_week2b_886_24_alg».proof.Proof.ScTileV
import proofs.«217078_g14027363189340_cont_week2b_886_24_alg».proof.Proof.ScTile1V
import Idealize.ShloMosaic.Adequacy
import Idealize.ShloMosaic.Init

noncomputable section

namespace Cert.Proof

open Idealize.ShloMosaic Idealize.SL.Sem

/-! ## The frames -/

/-- The precondition gives the edge list's range on every device, at the extended reals -/
theorem preOK_ideal (m : (ℓ : Loc Cert.KernelIdeal.nD Cert.KernelIdeal.τ Cert.KernelIdeal.sig) → Buf (Elt Ideal) ℓ)
    (h : @Cert.Pre_KernelIdeal Cert.Pre_input_domain.Gen.facts m) : Cert.Proof.Main.PreOK (F := Ideal) m :=
  fun d => @Cert.Proof.Main.edges_of_pre Ideal _ Cert.Pre_input_domain.Gen.facts _ _ _ _ _ _ _ _ _ _ _ _ (h d)

/-- and at the word level. -/
theorem preOK_bits (m : (ℓ : Loc Cert.Kernel.nD Cert.Kernel.τ Cert.Kernel.sig) → Buf (Elt Bits) ℓ)
    (h : @Cert.Pre_Kernel Cert.Pre_input_domain.Gen.facts m) : Cert.ProofBits.Main.PreOK (F := Bits) m :=
  fun d => @Cert.ProofBits.Main.edges_of_pre Bits _ Cert.Pre_input_domain.Gen.facts _ _ _ _ _ _ _ _ _ _ _ _ (h d)

theorem frame_k : @Cert.frame_Kernel Cert.Kernel.Gen.facts Cert.Pre_input_domain.Gen.facts :=
  fun m ρ hpre => (θ_run Cert.Kernel.defs _ _).mono (fun _ h c => h c)
    (Cert.ProofBits.Main.run_main (F := Bits) m ρ (preOK_bits m hpre)
      Cert.ProofBits.Sc.tileObl0 Cert.ProofBits.Sc.tileObl1 Cert.ProofBits.Sc.Split.vecSplit0 Cert.ProofBits.Sc.Split.vecSplit1)

theorem frame_ki : @Cert.frame_KernelIdeal Cert.KernelIdeal.Gen.facts Cert.Pre_input_domain.Gen.facts :=
  fun m ρ hpre => (θ_run Cert.KernelIdeal.defs _ _).mono (fun _ h c => h c)
    (Cert.Proof.Main.run_main (F := Ideal) m ρ (preOK_ideal m hpre)
      Cert.Proof.Sc.tileObl0 Cert.Proof.Sc.tileObl1 Cert.Proof.Sc.Split.vecSplit0 Cert.Proof.Sc.Split.vecSplit1)

theorem frame_ri : @Cert.frame_ReferenceIdeal Cert.ReferenceIdeal.Gen.facts Cert.Pre_input_domain.Gen.facts :=
  @Cert.Proof.Ref.frame_ri Cert.Pre_input_domain.Gen.facts

/-! ## The value conjunct -/

/-- The idealized kernel's run with its result array named as the reference's function of the twelve argument arrays. -/
abbrev KernelValueRun : Prop :=
  ∀ (m : (ℓ : Loc Cert.KernelIdeal.nD Cert.KernelIdeal.τ Cert.KernelIdeal.sig) → Buf (Elt Ideal) ℓ) (g : Dev Cert.KernelIdeal.nD → PrngReg), @Cert.Pre_KernelIdeal Cert.Pre_input_domain.Gen.facts m →
    θ_run (Cert.KernelIdeal.defs (F := Ideal)) (Cert.KernelIdeal.threads (F := Ideal)) ⟨m, fun _ => 0, g⟩ (fun r => ∀ c : Dev Cert.KernelIdeal.nD,
        r.2.mem ((c.tc : Thread Cert.KernelIdeal.nD Cert.KernelIdeal.τ).loc Cert.KernelIdeal.main_v40) = Cert.Proof.Ref.refOut (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
        ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
        ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
        ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
        ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

/-- From that run and the reference's: from memories that agree on the arguments the two results are the same function of
    the same arrays. -/
theorem algebraic_of (hval : KernelValueRun) :
    @Cert.algebraic_KernelIdeal_ReferenceIdeal Cert.KernelIdeal.Gen.facts Cert.ReferenceIdeal.Gen.facts Cert.Pre_input_domain.Gen.facts := by
  intro m g m' g' hpre hagree
  refine ⟨fun c => Cert.Proof.Ref.refOut (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), hval m g hpre, ?_⟩
  refine (θ_run Cert.ReferenceIdeal.defs _ _).mono (fun _ h c => ⟨?_, (h c).2⟩) (Cert.Proof.Ref.run (F := Ideal) m' g')
  obtain ⟨h0, h1, h2, h3, h4, h5, h6, h7, h8, h9, h10, h11⟩ := hagree c
  rw [(h c).1, h0, h1, h2, h3, h4, h5, h6, h7, h8, h9, h10, h11]

/-- The idealized kernel's run with its result named: the launch theorem once more, over handshakes that carry the gathered
    rows' contents; the result array is the specification's row by row (the regions' blocks, the gathers' rows, the index lists
    read through the host operations), the specification's last stage in the kernel's spelling is the reference's (a positive
    radicand), and the reference's function is the specification read at an index. -/
theorem kernel_value_run : KernelValueRun := by
  intro m g hpre
  have hok := preOK_ideal m hpre
  refine (θ_run Cert.KernelIdeal.defs _ _).mono (fun _ h c => ⟨?_, (h c).2⟩)
    (Cert.Proof.Main.value_run_of m (fun tb j0 j1 hr => Cert.Proof.Sc.V.tileObl0V tb j0 j1 hr) (fun tb j0 j1 hr => Cert.Proof.Sc.V.tileObl1V tb j0 j1 hr) g hok)
  rw [(h c).1]
  funext i
  exact ((congrArg (Cert.Proof.Ref.refOut (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) (Idealize.ShloMosaic.ValueIdx.eq_ix2 (n0 := 320000) (n1 := 128) i)).trans
    (Cert.Proof.Ref.refOut_apply _ _ _ _ _ _ _ _ _ _ _ _ (hok c) (i 0) (i 1))).symm

theorem claim : Cert.Claim :=
  ⟨Cert.Kernel.Gen.facts, Cert.KernelIdeal.Gen.facts, Cert.ReferenceIdeal.Gen.facts, Cert.Pre_input_domain.Gen.facts,
    frame_k, frame_ki, frame_ri, trivial, algebraic_of kernel_value_run⟩

end Cert.Proof

end
